-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S1000x128 : Shape := ⟨2, ![1000, 128]⟩
abbrev S256x512 : Shape := ⟨2, ![256, 512]⟩
abbrev S512 : Shape := ⟨1, ![512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S4096x200 : S_.BroadcastsInDim S4096x200 (![] : Fin 0 → Fin S4096x200.rank)
  reducesTo_S4096x200_S_d0_1 : S4096x200.ReducesTo [0, 1] S_

variable [Facts]

def fn_part2 {F : FTy → Type} [FloatOps F] (main_arg1 : IVec S4096x200 32) (main_v28 : IVec S_ 1) (main_v33 : IVec S4096x200 1) : IVec S_ 1 :=
  let main_c_12 : IVec S_ 1 := constantI S_ 1 1#1
  let main_v34 : IVec S_ 1 := (fun x v => Host.reduce IntOp.andi x v reducesTo_S4096x200_S_d0_1 h_S_) main_v33 main_c_12
  let main_v35 : IVec S_ 1 := andi main_v28 main_v34
  let main_c_13 : IVec S_ 32 := constantI S_ 32 0#32
  let main_v36 : IVec S4096x200 32 := broadcastInDim S4096x200 ![] bcast_S_S4096x200 main_c_13
  let main_v37 : IVec S4096x200 1 := cmpi .sge main_arg1 main_v36
  let main_c_14 : IVec S_ 32 := constantI S_ 32 999#32
  let main_v38 : IVec S4096x200 32 := broadcastInDim S4096x200 ![] bcast_S_S4096x200 main_c_14
  let main_v39 : IVec S4096x200 1 := cmpi .sle main_arg1 main_v38
  let main_v40 : IVec S4096x200 1 := andi main_v37 main_v39
  let main_c_15 : IVec S_ 1 := constantI S_ 1 1#1
  let main_v41 : IVec S_ 1 := (fun x v => Host.reduce IntOp.andi x v reducesTo_S4096x200_S_d0_1 h_S_) main_v40 main_c_15
  let main_v42 : IVec S_ 1 := andi main_v35 main_v41
  main_v42

def fn_part1 {F : FTy → Type} [FloatOps F] (main_arg0 : IVec S4096x200 32) (main_arg1 : IVec S4096x200 32) (main_arg6 : FVec F S512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_c_10 : IVec S_ 32 := constantI S_ 32 0#32
  let main_v29 : IVec S4096x200 32 := broadcastInDim S4096x200 ![] bcast_S_S4096x200 main_c_10
  let main_v30 : IVec S4096x200 1 := cmpi .sge main_arg0 main_v29
  let main_c_11 : IVec S_ 32 := constantI S_ 32 99999#32
  let main_v31 : IVec S4096x200 32 := broadcastInDim S4096x200 ![] bcast_S_S4096x200 main_c_11
  let main_v32 : IVec S4096x200 1 := cmpi .sle main_arg0 main_v31
  let main_v33 : IVec S4096x200 1 := andi main_v30 main_v32
  fn_part2 (F := F) main_arg1 main_v28 main_v33

def fn {F : FTy → Type} [FloatOps F] (main_arg0 : IVec S4096x200 32) (main_arg1 : IVec S4096x200 32) (main_arg2 : FVec F S100000x128 .f32) (main_arg3 : FVec F S1000x128 .f32) (main_arg4 : FVec F S256x512 .f32) (main_arg5 : FVec F S512 .f32) (main_arg6 : FVec F S512 .f32) (main_arg7 : FVec F S512 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x128 .f32 := Host.absf main_arg3
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg1 main_arg6 main_arg7 main_v13 main_v16
-- ==== Kernel.lean ====
abbrev S4096x200 : Shape := ⟨2, ![4096, 200]⟩
abbrev S100000x128 : Shape := ⟨2, ![100000, 128]⟩
abbrev S1000x128 : Shape := ⟨2, ![1000, 128]⟩
abbrev S256x512 : Shape := ⟨2, ![256, 512]⟩
abbrev S512 : Shape := ⟨1, ![512]⟩
abbrev S8x102400 : Shape := ⟨2, ![8, 102400]⟩
abbrev S1x512 : Shape := ⟨2, ![1, 512]⟩
abbrev S1x102400 : Shape := ⟨2, ![1, 102400]⟩
abbrev S102400 : Shape := ⟨1, ![102400]⟩
abbrev S102400x256 : Shape := ⟨2, ![102400, 256]⟩
abbrev S128 : Shape := ⟨1, ![128]⟩
abbrev S128x256 : Shape := ⟨2, ![128, 256]⟩
abbrev S_ : Shape := ⟨0, ![]⟩
abbrev S128x128 : Shape := ⟨2, ![128, 128]⟩
abbrev S819200x512 : Shape := ⟨2, ![819200, 512]⟩
abbrev S4096x256 : Shape := ⟨2, ![4096, 256]⟩
abbrev S4096x512 : Shape := ⟨2, ![4096, 512]⟩
abbrev S4096 : Shape := ⟨1, ![4096]⟩
abbrev S4096x1 : Shape := ⟨2, ![4096, 1]⟩
abbrev S4096x200x512 : Shape := ⟨3, ![4096, 200, 512]⟩

abbrev nBuf : Table → Nat
  | .hbm => 62
  | .local .tc .vmem => 64
  | .local .scVector .vmem => 48
  | _ => 0

abbrev bufTy : (tb : Table) → Fin (nBuf tb) → BufTy
  | .hbm, ⟨0, _⟩ => ⟨S4096x200, .i32⟩
  | .hbm, ⟨1, _⟩ => ⟨S4096x200, .i32⟩
  | .hbm, ⟨2, _⟩ => ⟨S100000x128, .f32⟩
  | .hbm, ⟨3, _⟩ => ⟨S1000x128, .f32⟩
  | .hbm, ⟨4, _⟩ => ⟨S256x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S8x102400, .i32⟩
  | .hbm, ⟨9, _⟩ => ⟨S8x102400, .i32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x102400, .i32⟩
  | .hbm, ⟨14, _⟩ => ⟨S102400, .i32⟩
  | .hbm, ⟨15, _⟩ => ⟨S1x102400, .i32⟩
  | .hbm, ⟨16, _⟩ => ⟨S102400, .i32⟩
  | .hbm, ⟨17, _⟩ => ⟨S102400x256, .f32⟩
  | .hbm, ⟨18, _⟩ => ⟨S1x102400, .i32⟩
  | .hbm, ⟨19, _⟩ => ⟨S102400, .i32⟩
  | .hbm, ⟨20, _⟩ => ⟨S1x102400, .i32⟩
  | .hbm, ⟨21, _⟩ => ⟨S102400, .i32⟩
  | .hbm, ⟨22, _⟩ => ⟨S102400x256, .f32⟩
  | .hbm, ⟨23, _⟩ => ⟨S1x102400, .i32⟩
  | .hbm, ⟨24, _⟩ => ⟨S102400, .i32⟩
  | .hbm, ⟨25, _⟩ => ⟨S1x102400, .i32⟩
  | .hbm, ⟨26, _⟩ => ⟨S102400, .i32⟩
  | .hbm, ⟨27, _⟩ => ⟨S102400x256, .f32⟩
  | .hbm, ⟨28, _⟩ => ⟨S1x102400, .i32⟩
  | .hbm, ⟨29, _⟩ => ⟨S102400, .i32⟩
  | .hbm, ⟨30, _⟩ => ⟨S1x102400, .i32⟩
  | .hbm, ⟨31, _⟩ => ⟨S102400, .i32⟩
  | .hbm, ⟨32, _⟩ => ⟨S102400x256, .f32⟩
  | .hbm, ⟨33, _⟩ => ⟨S1x102400, .i32⟩
  | .hbm, ⟨34, _⟩ => ⟨S102400, .i32⟩
  | .hbm, ⟨35, _⟩ => ⟨S1x102400, .i32⟩
  | .hbm, ⟨36, _⟩ => ⟨S102400, .i32⟩
  | .hbm, ⟨37, _⟩ => ⟨S102400x256, .f32⟩
  | .hbm, ⟨38, _⟩ => ⟨S1x102400, .i32⟩
  | .hbm, ⟨39, _⟩ => ⟨S102400, .i32⟩
  | .hbm, ⟨40, _⟩ => ⟨S1x102400, .i32⟩
  | .hbm, ⟨41, _⟩ => ⟨S102400, .i32⟩
  | .hbm, ⟨42, _⟩ => ⟨S102400x256, .f32⟩
  | .hbm, ⟨43, _⟩ => ⟨S1x102400, .i32⟩
  | .hbm, ⟨44, _⟩ => ⟨S102400, .i32⟩
  | .hbm, ⟨45, _⟩ => ⟨S1x102400, .i32⟩
  | .hbm, ⟨46, _⟩ => ⟨S102400, .i32⟩
  | .hbm, ⟨47, _⟩ => ⟨S102400x256, .f32⟩
  | .hbm, ⟨48, _⟩ => ⟨S1x102400, .i32⟩
  | .hbm, ⟨49, _⟩ => ⟨S102400, .i32⟩
  | .hbm, ⟨50, _⟩ => ⟨S1x102400, .i32⟩
  | .hbm, ⟨51, _⟩ => ⟨S102400, .i32⟩
  | .hbm, ⟨52, _⟩ => ⟨S102400x256, .f32⟩
  | .hbm, ⟨53, _⟩ => ⟨S819200x512, .f32⟩
  | .hbm, ⟨54, _⟩ => ⟨S819200x512, .f32⟩
  | .hbm, ⟨55, _⟩ => ⟨S819200x512, .f32⟩
  | .hbm, ⟨56, _⟩ => ⟨S819200x512, .f32⟩
  | .hbm, ⟨57, _⟩ => ⟨S819200x512, .f32⟩
  | .hbm, ⟨58, _⟩ => ⟨S819200x512, .f32⟩
  | .hbm, ⟨59, _⟩ => ⟨S819200x512, .f32⟩
  | .hbm, ⟨60, _⟩ => ⟨S819200x512, .f32⟩
  | .hbm, ⟨61, _⟩ => ⟨S4096x200x512, .f32⟩
  | .local .tc .vmem, ⟨0, _⟩ => ⟨S4096x256, .f32⟩
  | .local .tc .vmem, ⟨1, _⟩ => ⟨S4096x256, .f32⟩
  | .local .tc .vmem, ⟨2, _⟩ => ⟨S256x512, .f32⟩
  | .local .tc .vmem, ⟨3, _⟩ => ⟨S1x512, .f32⟩
  | .local .tc .vmem, ⟨4, _⟩ => ⟨S1x512, .f32⟩
  | .local .tc .vmem, ⟨5, _⟩ => ⟨S1x512, .f32⟩
  | .local .tc .vmem, ⟨6, _⟩ => ⟨S4096x512, .f32⟩
  | .local .tc .vmem, ⟨7, _⟩ => ⟨S4096x512, .f32⟩
  | .local .tc .vmem, ⟨8, _⟩ => ⟨S4096x256, .f32⟩
  | .local .tc .vmem, ⟨9, _⟩ => ⟨S4096x256, .f32⟩
  | .local .tc .vmem, ⟨10, _⟩ => ⟨S256x512, .f32⟩
  | .local .tc .vmem, ⟨11, _⟩ => ⟨S1x512, .f32⟩
  | .local .tc .vmem, ⟨12, _⟩ => ⟨S1x512, .f32⟩
  | .local .tc .vmem, ⟨13, _⟩ => ⟨S1x512, .f32⟩
  | .local .tc .vmem, ⟨14, _⟩ => ⟨S4096x512, .f32⟩
  | .local .tc .vmem, ⟨15, _⟩ => ⟨S4096x512, .f32⟩
  | .local .tc .vmem, ⟨16, _⟩ => ⟨S4096x256, .f32⟩
  | .local .tc .vmem, ⟨17, _⟩ => ⟨S4096x256, .f32⟩
  | .local .tc .vmem, ⟨18, _⟩ => ⟨S256x512, .f32⟩
  | .local .tc .vmem, ⟨19, _⟩ => ⟨S1x512, .f32⟩
  | .local .tc .vmem, ⟨20, _⟩ => ⟨S1x512, .f32⟩
  | .local .tc .vmem, ⟨21, _⟩ => ⟨S1x512, .f32⟩
  | .local .tc .vmem, ⟨22, _⟩ => ⟨S4096x512, .f32⟩
  | .local .tc .vmem, ⟨23, _⟩ => ⟨S4096x512, .f32⟩
  | .local .tc .vmem, ⟨24, _⟩ => ⟨S4096x256, .f32⟩
  | .local .tc .vmem, ⟨25, _⟩ => ⟨S4096x256, .f32⟩
  | .local .tc .vmem, ⟨26, _⟩ => ⟨S256x512, .f32⟩
  | .local .tc .vmem, ⟨27, _⟩ => ⟨S1x512, .f32⟩
  | .local .tc .vmem, ⟨28, _⟩ => ⟨S1x512, .f32⟩
  | .local .tc .vmem, ⟨29, _⟩ => ⟨S1x512, .f32⟩
  | .local .tc .vmem, ⟨30, _⟩ => ⟨S4096x512, .f32⟩
  | .local .tc .vmem, ⟨31, _⟩ => ⟨S4096x512, .f32⟩
  | .local .tc .vmem, ⟨32, _⟩ => ⟨S4096x256, .f32⟩
  | .local .tc .vmem, ⟨33, _⟩ => ⟨S4096x256, .f32⟩
  | .local .tc .vmem, ⟨34, _⟩ => ⟨S256x512, .f32⟩
  | .local .tc .vmem, ⟨35, _⟩ => ⟨S1x512, .f32⟩
  | .local .tc .vmem, ⟨36, _⟩ => ⟨S1x512, .f32⟩
  | .local .tc .vmem, ⟨37, _⟩ => ⟨S1x512, .f32⟩
  | .local .tc .vmem, ⟨38, _⟩ => ⟨S4096x512, .f32⟩
  | .local .tc .vmem, ⟨39, _⟩ => ⟨S4096x512, .f32⟩
  | .local .tc .vmem, ⟨40, _⟩ => ⟨S4096x256, .f32⟩
  | .local .tc .vmem, ⟨41, _⟩ => ⟨S4096x256, .f32⟩
  | .local .tc .vmem, ⟨42, _⟩ => ⟨S256x512, .f32⟩
  | .local .tc .vmem, ⟨43, _⟩ => ⟨S1x512, .f32⟩
  | .local .tc .vmem, ⟨44, _⟩ => ⟨S1x512, .f32⟩
  | .local .tc .vmem, ⟨45, _⟩ => ⟨S1x512, .f32⟩
  | .local .tc .vmem, ⟨46, _⟩ => ⟨S4096x512, .f32⟩
  | .local .tc .vmem, ⟨47, _⟩ => ⟨S4096x512, .f32⟩
  | .local .tc .vmem, ⟨48, _⟩ => ⟨S4096x256, .f32⟩
  | .local .tc .vmem, ⟨49, _⟩ => ⟨S4096x256, .f32⟩
  | .local .tc .vmem, ⟨50, _⟩ => ⟨S256x512, .f32⟩
  | .local .tc .vmem, ⟨51, _⟩ => ⟨S1x512, .f32⟩
  | .local .tc .vmem, ⟨52, _⟩ => ⟨S1x512, .f32⟩
  | .local .tc .vmem, ⟨53, _⟩ => ⟨S1x512, .f32⟩
  | .local .tc .vmem, ⟨54, _⟩ => ⟨S4096x512, .f32⟩
  | .local .tc .vmem, ⟨55, _⟩ => ⟨S4096x512, .f32⟩
  | .local .tc .vmem, ⟨56, _⟩ => ⟨S4096x256, .f32⟩
  | .local .tc .vmem, ⟨57, _⟩ => ⟨S4096x256, .f32⟩
  | .local .tc .vmem, ⟨58, _⟩ => ⟨S256x512, .f32⟩
  | .local .tc .vmem, ⟨59, _⟩ => ⟨S1x512, .f32⟩
  | .local .tc .vmem, ⟨60, _⟩ => ⟨S1x512, .f32⟩
  | .local .tc .vmem, ⟨61, _⟩ => ⟨S1x512, .f32⟩
  | .local .tc .vmem, ⟨62, _⟩ => ⟨S4096x512, .f32⟩
  | .local .tc .vmem, ⟨63, _⟩ => ⟨S4096x512, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x256, .f32⟩
  | .local .scVector .vmem, ⟨5, _⟩ => ⟨S128x256, .f32⟩
  | .local .scVector .vmem, ⟨6, _⟩ => ⟨S128, .i32⟩
  | .local .scVector .vmem, ⟨7, _⟩ => ⟨S128, .i32⟩
  | .local .scVector .vmem, ⟨8, _⟩ => ⟨S128, .i32⟩
  | .local .scVector .vmem, ⟨9, _⟩ => ⟨S128, .i32⟩
  | .local .scVector .vmem, ⟨10, _⟩ => ⟨S128x256, .f32⟩
  | .local .scVector .vmem, ⟨11, _⟩ => ⟨S128x256, .f32⟩
  | .local .scVector .vmem, ⟨12, _⟩ => ⟨S128, .i32⟩
  | .local .scVector .vmem, ⟨13, _⟩ => ⟨S128, .i32⟩
  | .local .scVector .vmem, ⟨14, _⟩ => ⟨S128, .i32⟩
  | .local .scVector .vmem, ⟨15, _⟩ => ⟨S128, .i32⟩
  | .local .scVector .vmem, ⟨16, _⟩ => ⟨S128x256, .f32⟩
  | .local .scVector .vmem, ⟨17, _⟩ => ⟨S128x256, .f32⟩
  | .local .scVector .vmem, ⟨18, _⟩ => ⟨S128, .i32⟩
  | .local .scVector .vmem, ⟨19, _⟩ => ⟨S128, .i32⟩
  | .local .scVector .vmem, ⟨20, _⟩ => ⟨S128, .i32⟩
  | .local .scVector .vmem, ⟨21, _⟩ => ⟨S128, .i32⟩
  | .local .scVector .vmem, ⟨22, _⟩ => ⟨S128x256, .f32⟩
  | .local .scVector .vmem, ⟨23, _⟩ => ⟨S128x256, .f32⟩
  | .local .scVector .vmem, ⟨24, _⟩ => ⟨S128, .i32⟩
  | .local .scVector .vmem, ⟨25, _⟩ => ⟨S128, .i32⟩
  | .local .scVector .vmem, ⟨26, _⟩ => ⟨S128, .i32⟩
  | .local .scVector .vmem, ⟨27, _⟩ => ⟨S128, .i32⟩
  | .local .scVector .vmem, ⟨28, _⟩ => ⟨S128x256, .f32⟩
  | .local .scVector .vmem, ⟨29, _⟩ => ⟨S128x256, .f32⟩
  | .local .scVector .vmem, ⟨30, _⟩ => ⟨S128, .i32⟩
  | .local .scVector .vmem, ⟨31, _⟩ => ⟨S128, .i32⟩
  | .local .scVector .vmem, ⟨32, _⟩ => ⟨S128, .i32⟩
  | .local .scVector .vmem, ⟨33, _⟩ => ⟨S128, .i32⟩
  | .local .scVector .vmem, ⟨34, _⟩ => ⟨S128x256, .f32⟩
  | .local .scVector .vmem, ⟨35, _⟩ => ⟨S128x256, .f32⟩
  | .local .scVector .vmem, ⟨36, _⟩ => ⟨S128, .i32⟩
  | .local .scVector .vmem, ⟨37, _⟩ => ⟨S128, .i32⟩
  | .local .scVector .vmem, ⟨38, _⟩ => ⟨S128, .i32⟩
  | .local .scVector .vmem, ⟨39, _⟩ => ⟨S128, .i32⟩
  | .local .scVector .vmem, ⟨40, _⟩ => ⟨S128x256, .f32⟩
  | .local .scVector .vmem, ⟨41, _⟩ => ⟨S128x256, .f32⟩
  | .local .scVector .vmem, ⟨42, _⟩ => ⟨S128, .i32⟩
  | .local .scVector .vmem, ⟨43, _⟩ => ⟨S128, .i32⟩
  | .local .scVector .vmem, ⟨44, _⟩ => ⟨S128, .i32⟩
  | .local .scVector .vmem, ⟨45, _⟩ => ⟨S128, .i32⟩
  | .local .scVector .vmem, ⟨46, _⟩ => ⟨S128x256, .f32⟩
  | .local .scVector .vmem, ⟨47, _⟩ => ⟨S128x256, .f32⟩
  | _, _ => ⟨S4096x200, .i32⟩

abbrev dmaSemScopedAt0_0 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => false
  | 85 => false
  | 86 => false
  | 87 => false
  | 88 => false
  | 89 => false
  | 90 => false
  | 91 => false
  | 92 => false
  | 93 => false
  | 94 => false
  | 95 => false
  | 96 => false
  | 97 => false
  | 98 => false
  | 99 => false
  | 100 => false
  | 101 => false
  | 102 => false
  | 103 => false
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 168 → Bool
  | ⟨i, _⟩ => dmaSemScopedAt i

abbrev sig : RefSig :=
  ofTables nBuf rfl bufTy 4 168 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v6_scv : Ref sig .scVector := ⟨.hbm, 14, rfl⟩
abbrev main_v8_scv : Ref sig .scVector := ⟨.hbm, 16, rfl⟩
abbrev main_arg2_scv : Ref sig .scVector := ⟨.hbm, 2, rfl⟩
abbrev main_arg3_scv : Ref sig .scVector := ⟨.hbm, 3, rfl⟩
abbrev main_v9_scv : Ref sig .scVector := ⟨.hbm, 17, rfl⟩
abbrev main_v11_scv : Ref sig .scVector := ⟨.hbm, 19, rfl⟩
abbrev main_v13_scv : Ref sig .scVector := ⟨.hbm, 21, rfl⟩
abbrev main_v14_scv : Ref sig .scVector := ⟨.hbm, 22, rfl⟩
abbrev main_v16_scv : Ref sig .scVector := ⟨.hbm, 24, rfl⟩
abbrev main_v18_scv : Ref sig .scVector := ⟨.hbm, 26, rfl⟩
abbrev main_v19_scv : Ref sig .scVector := ⟨.hbm, 27, rfl⟩
abbrev main_v21_scv : Ref sig .scVector := ⟨.hbm, 29, rfl⟩
abbrev main_v23_scv : Ref sig .scVector := ⟨.hbm, 31, rfl⟩
abbrev main_v24_scv : Ref sig .scVector := ⟨.hbm, 32, rfl⟩
abbrev main_v26_scv : Ref sig .scVector := ⟨.hbm, 34, rfl⟩
abbrev main_v28_scv : Ref sig .scVector := ⟨.hbm, 36, rfl⟩
abbrev main_v29_scv : Ref sig .scVector := ⟨.hbm, 37, rfl⟩
abbrev main_v31_scv : Ref sig .scVector := ⟨.hbm, 39, rfl⟩
abbrev main_v33_scv : Ref sig .scVector := ⟨.hbm, 41, rfl⟩
abbrev main_v34_scv : Ref sig .scVector := ⟨.hbm, 42, rfl⟩
abbrev main_v36_scv : Ref sig .scVector := ⟨.hbm, 44, rfl⟩
abbrev main_v38_scv : Ref sig .scVector := ⟨.hbm, 46, rfl⟩
abbrev main_v39_scv : Ref sig .scVector := ⟨.hbm, 47, rfl⟩
abbrev main_v41_scv : Ref sig .scVector := ⟨.hbm, 49, rfl⟩
abbrev main_v43_scv : Ref sig .scVector := ⟨.hbm, 51, rfl⟩
abbrev main_v44_scv : Ref sig .scVector := ⟨.hbm, 52, rfl⟩
abbrev cc8_stg0_0 : Ref sig .tc := ⟨.vmem, 0, rfl⟩
abbrev cc8_stg0_1 : Ref sig .tc := ⟨.vmem, 1, rfl⟩
abbrev cc8_stg1_0 : Ref sig .tc := ⟨.vmem, 2, rfl⟩
abbrev cc8_stg2_0 : Ref sig .tc := ⟨.vmem, 3, rfl⟩
abbrev cc8_stg3_0 : Ref sig .tc := ⟨.vmem, 4, rfl⟩
abbrev cc8_stg4_0 : Ref sig .tc := ⟨.vmem, 5, rfl⟩
abbrev cc8_stg5_0 : Ref sig .tc := ⟨.vmem, 6, rfl⟩
abbrev cc8_stg5_1 : Ref sig .tc := ⟨.vmem, 7, rfl⟩
abbrev cc9_stg0_0 : Ref sig .tc := ⟨.vmem, 8, rfl⟩
abbrev cc9_stg0_1 : Ref sig .tc := ⟨.vmem, 9, rfl⟩
abbrev cc9_stg1_0 : Ref sig .tc := ⟨.vmem, 10, rfl⟩
abbrev cc9_stg2_0 : Ref sig .tc := ⟨.vmem, 11, rfl⟩
abbrev cc9_stg3_0 : Ref sig .tc := ⟨.vmem, 12, rfl⟩
abbrev cc9_stg4_0 : Ref sig .tc := ⟨.vmem, 13, rfl⟩
abbrev cc9_stg5_0 : Ref sig .tc := ⟨.vmem, 14, rfl⟩
abbrev cc9_stg5_1 : Ref sig .tc := ⟨.vmem, 15, rfl⟩
abbrev cc10_stg0_0 : Ref sig .tc := ⟨.vmem, 16, rfl⟩
abbrev cc10_stg0_1 : Ref sig .tc := ⟨.vmem, 17, rfl⟩
abbrev cc10_stg1_0 : Ref sig .tc := ⟨.vmem, 18, rfl⟩
abbrev cc10_stg2_0 : Ref sig .tc := ⟨.vmem, 19, rfl⟩
abbrev cc10_stg3_0 : Ref sig .tc := ⟨.vmem, 20, rfl⟩
abbrev cc10_stg4_0 : Ref sig .tc := ⟨.vmem, 21, rfl⟩
abbrev cc10_stg5_0 : Ref sig .tc := ⟨.vmem, 22, rfl⟩
abbrev cc10_stg5_1 : Ref sig .tc := ⟨.vmem, 23, rfl⟩
abbrev cc11_stg0_0 : Ref sig .tc := ⟨.vmem, 24, rfl⟩
abbrev cc11_stg0_1 : Ref sig .tc := ⟨.vmem, 25, rfl⟩
abbrev cc11_stg1_0 : Ref sig .tc := ⟨.vmem, 26, rfl⟩
abbrev cc11_stg2_0 : Ref sig .tc := ⟨.vmem, 27, rfl⟩
abbrev cc11_stg3_0 : Ref sig .tc := ⟨.vmem, 28, rfl⟩
abbrev cc11_stg4_0 : Ref sig .tc := ⟨.vmem, 29, rfl⟩
abbrev cc11_stg5_0 : Ref sig .tc := ⟨.vmem, 30, rfl⟩
abbrev cc11_stg5_1 : Ref sig .tc := ⟨.vmem, 31, rfl⟩
abbrev cc12_stg0_0 : Ref sig .tc := ⟨.vmem, 32, rfl⟩
abbrev cc12_stg0_1 : Ref sig .tc := ⟨.vmem, 33, rfl⟩
abbrev cc12_stg1_0 : Ref sig .tc := ⟨.vmem, 34, rfl⟩
abbrev cc12_stg2_0 : Ref sig .tc := ⟨.vmem, 35, rfl⟩
abbrev cc12_stg3_0 : Ref sig .tc := ⟨.vmem, 36, rfl⟩
abbrev cc12_stg4_0 : Ref sig .tc := ⟨.vmem, 37, rfl⟩
abbrev cc12_stg5_0 : Ref sig .tc := ⟨.vmem, 38, rfl⟩
abbrev cc12_stg5_1 : Ref sig .tc := ⟨.vmem, 39, rfl⟩
abbrev cc13_stg0_0 : Ref sig .tc := ⟨.vmem, 40, rfl⟩
abbrev cc13_stg0_1 : Ref sig .tc := ⟨.vmem, 41, rfl⟩
abbrev cc13_stg1_0 : Ref sig .tc := ⟨.vmem, 42, rfl⟩
abbrev cc13_stg2_0 : Ref sig .tc := ⟨.vmem, 43, rfl⟩
abbrev cc13_stg3_0 : Ref sig .tc := ⟨.vmem, 44, rfl⟩
abbrev cc13_stg4_0 : Ref sig .tc := ⟨.vmem, 45, rfl⟩
abbrev cc13_stg5_0 : Ref sig .tc := ⟨.vmem, 46, rfl⟩
abbrev cc13_stg5_1 : Ref sig .tc := ⟨.vmem, 47, rfl⟩
abbrev cc14_stg0_0 : Ref sig .tc := ⟨.vmem, 48, rfl⟩
abbrev cc14_stg0_1 : Ref sig .tc := ⟨.vmem, 49, rfl⟩
abbrev cc14_stg1_0 : Ref sig .tc := ⟨.vmem, 50, rfl⟩
abbrev cc14_stg2_0 : Ref sig .tc := ⟨.vmem, 51, rfl⟩
abbrev cc14_stg3_0 : Ref sig .tc := ⟨.vmem, 52, rfl⟩
abbrev cc14_stg4_0 : Ref sig .tc := ⟨.vmem, 53, rfl⟩
abbrev cc14_stg5_0 : Ref sig .tc := ⟨.vmem, 54, rfl⟩
abbrev cc14_stg5_1 : Ref sig .tc := ⟨.vmem, 55, rfl⟩
abbrev cc15_stg0_0 : Ref sig .tc := ⟨.vmem, 56, rfl⟩
abbrev cc15_stg0_1 : Ref sig .tc := ⟨.vmem, 57, rfl⟩
abbrev cc15_stg1_0 : Ref sig .tc := ⟨.vmem, 58, rfl⟩
abbrev cc15_stg2_0 : Ref sig .tc := ⟨.vmem, 59, rfl⟩
abbrev cc15_stg3_0 : Ref sig .tc := ⟨.vmem, 60, rfl⟩
abbrev cc15_stg4_0 : Ref sig .tc := ⟨.vmem, 61, rfl⟩
abbrev cc15_stg5_0 : Ref sig .tc := ⟨.vmem, 62, rfl⟩
abbrev cc15_stg5_1 : Ref sig .tc := ⟨.vmem, 63, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc1_scratch4 : Ref sig .scVector := ⟨.vmem, 10, rfl⟩
abbrev cc1_scratch5 : Ref sig .scVector := ⟨.vmem, 11, rfl⟩
abbrev cc2_scratch0 : Ref sig .scVector := ⟨.vmem, 12, rfl⟩
abbrev cc2_scratch1 : Ref sig .scVector := ⟨.vmem, 13, rfl⟩
abbrev cc2_scratch2 : Ref sig .scVector := ⟨.vmem, 14, rfl⟩
abbrev cc2_scratch3 : Ref sig .scVector := ⟨.vmem, 15, rfl⟩
abbrev cc2_scratch4 : Ref sig .scVector := ⟨.vmem, 16, rfl⟩
abbrev cc2_scratch5 : Ref sig .scVector := ⟨.vmem, 17, rfl⟩
abbrev cc3_scratch0 : Ref sig .scVector := ⟨.vmem, 18, rfl⟩
abbrev cc3_scratch1 : Ref sig .scVector := ⟨.vmem, 19, rfl⟩
abbrev cc3_scratch2 : Ref sig .scVector := ⟨.vmem, 20, rfl⟩
abbrev cc3_scratch3 : Ref sig .scVector := ⟨.vmem, 21, rfl⟩
abbrev cc3_scratch4 : Ref sig .scVector := ⟨.vmem, 22, rfl⟩
abbrev cc3_scratch5 : Ref sig .scVector := ⟨.vmem, 23, rfl⟩
abbrev cc4_scratch0 : Ref sig .scVector := ⟨.vmem, 24, rfl⟩
abbrev cc4_scratch1 : Ref sig .scVector := ⟨.vmem, 25, rfl⟩
abbrev cc4_scratch2 : Ref sig .scVector := ⟨.vmem, 26, rfl⟩
abbrev cc4_scratch3 : Ref sig .scVector := ⟨.vmem, 27, rfl⟩
abbrev cc4_scratch4 : Ref sig .scVector := ⟨.vmem, 28, rfl⟩
abbrev cc4_scratch5 : Ref sig .scVector := ⟨.vmem, 29, rfl⟩
abbrev cc5_scratch0 : Ref sig .scVector := ⟨.vmem, 30, rfl⟩
abbrev cc5_scratch1 : Ref sig .scVector := ⟨.vmem, 31, rfl⟩
abbrev cc5_scratch2 : Ref sig .scVector := ⟨.vmem, 32, rfl⟩
abbrev cc5_scratch3 : Ref sig .scVector := ⟨.vmem, 33, rfl⟩
abbrev cc5_scratch4 : Ref sig .scVector := ⟨.vmem, 34, rfl⟩
abbrev cc5_scratch5 : Ref sig .scVector := ⟨.vmem, 35, rfl⟩
abbrev cc6_scratch0 : Ref sig .scVector := ⟨.vmem, 36, rfl⟩
abbrev cc6_scratch1 : Ref sig .scVector := ⟨.vmem, 37, rfl⟩
abbrev cc6_scratch2 : Ref sig .scVector := ⟨.vmem, 38, rfl⟩
abbrev cc6_scratch3 : Ref sig .scVector := ⟨.vmem, 39, rfl⟩
abbrev cc6_scratch4 : Ref sig .scVector := ⟨.vmem, 40, rfl⟩
abbrev cc6_scratch5 : Ref sig .scVector := ⟨.vmem, 41, rfl⟩
abbrev cc7_scratch0 : Ref sig .scVector := ⟨.vmem, 42, rfl⟩
abbrev cc7_scratch1 : Ref sig .scVector := ⟨.vmem, 43, rfl⟩
abbrev cc7_scratch2 : Ref sig .scVector := ⟨.vmem, 44, rfl⟩
abbrev cc7_scratch3 : Ref sig .scVector := ⟨.vmem, 45, rfl⟩
abbrev cc7_scratch4 : Ref sig .scVector := ⟨.vmem, 46, rfl⟩
abbrev cc7_scratch5 : Ref sig .scVector := ⟨.vmem, 47, rfl⟩
abbrev cc8_sem0_0 : DmaSem sig := 104
abbrev cc8_sem0_1 : DmaSem sig := 105
abbrev cc8_sem1_0 : DmaSem sig := 106
abbrev cc8_sem2_0 : DmaSem sig := 107
abbrev cc8_sem3_0 : DmaSem sig := 108
abbrev cc8_sem4_0 : DmaSem sig := 109
abbrev cc8_sem5_0 : DmaSem sig := 110
abbrev cc8_sem5_1 : DmaSem sig := 111
abbrev cc9_sem0_0 : DmaSem sig := 112
abbrev cc9_sem0_1 : DmaSem sig := 113
abbrev cc9_sem1_0 : DmaSem sig := 114
abbrev cc9_sem2_0 : DmaSem sig := 115
abbrev cc9_sem3_0 : DmaSem sig := 116
abbrev cc9_sem4_0 : DmaSem sig := 117
abbrev cc9_sem5_0 : DmaSem sig := 118
abbrev cc9_sem5_1 : DmaSem sig := 119
abbrev cc10_sem0_0 : DmaSem sig := 120
abbrev cc10_sem0_1 : DmaSem sig := 121
abbrev cc10_sem1_0 : DmaSem sig := 122
abbrev cc10_sem2_0 : DmaSem sig := 123
abbrev cc10_sem3_0 : DmaSem sig := 124
abbrev cc10_sem4_0 : DmaSem sig := 125
abbrev cc10_sem5_0 : DmaSem sig := 126
abbrev cc10_sem5_1 : DmaSem sig := 127
abbrev cc11_sem0_0 : DmaSem sig := 128
abbrev cc11_sem0_1 : DmaSem sig := 129
abbrev cc11_sem1_0 : DmaSem sig := 130
abbrev cc11_sem2_0 : DmaSem sig := 131
abbrev cc11_sem3_0 : DmaSem sig := 132
abbrev cc11_sem4_0 : DmaSem sig := 133
abbrev cc11_sem5_0 : DmaSem sig := 134
abbrev cc11_sem5_1 : DmaSem sig := 135
abbrev cc12_sem0_0 : DmaSem sig := 136
abbrev cc12_sem0_1 : DmaSem sig := 137
abbrev cc12_sem1_0 : DmaSem sig := 138
abbrev cc12_sem2_0 : DmaSem sig := 139
abbrev cc12_sem3_0 : DmaSem sig := 140
abbrev cc12_sem4_0 : DmaSem sig := 141
abbrev cc12_sem5_0 : DmaSem sig := 142
abbrev cc12_sem5_1 : DmaSem sig := 143
abbrev cc13_sem0_0 : DmaSem sig := 144
abbrev cc13_sem0_1 : DmaSem sig := 145
abbrev cc13_sem1_0 : DmaSem sig := 146
abbrev cc13_sem2_0 : DmaSem sig := 147
abbrev cc13_sem3_0 : DmaSem sig := 148
abbrev cc13_sem4_0 : DmaSem sig := 149
abbrev cc13_sem5_0 : DmaSem sig := 150
abbrev cc13_sem5_1 : DmaSem sig := 151
abbrev cc14_sem0_0 : DmaSem sig := 152
abbrev cc14_sem0_1 : DmaSem sig := 153
abbrev cc14_sem1_0 : DmaSem sig := 154
abbrev cc14_sem2_0 : DmaSem sig := 155
abbrev cc14_sem3_0 : DmaSem sig := 156
abbrev cc14_sem4_0 : DmaSem sig := 157
abbrev cc14_sem5_0 : DmaSem sig := 158
abbrev cc14_sem5_1 : DmaSem sig := 159
abbrev cc15_sem0_0 : DmaSem sig := 160
abbrev cc15_sem0_1 : DmaSem sig := 161
abbrev cc15_sem1_0 : DmaSem sig := 162
abbrev cc15_sem2_0 : DmaSem sig := 163
abbrev cc15_sem3_0 : DmaSem sig := 164
abbrev cc15_sem4_0 : DmaSem sig := 165
abbrev cc15_sem5_0 : DmaSem sig := 166
abbrev cc15_sem5_1 : DmaSem sig := 167
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32 : BitVec 32 := 0#32
  let v3 : BitVec 32 := Scalar.addi v2 c0_i32
  ![v3.toNat]
@[reducible] def k0_t1_loop : Scf.Loop 32 :=
  let c0_i32_8 : BitVec 32 := 0#32
  let c12_i32 : BitVec 32 := 12#32
  let v8 : BitVec 32 := Scalar.addi c0_i32_8 c12_i32
  let c1_i32 : BitVec 32 := 1#32
  ⟨c0_i32_8, v8, c1_i32⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k0_t1
  let v14 : BitVec 32 := Scalar.muli c2_i32_18 arg17
  let c1_i32_19 : BitVec 32 := 1#32
  let v15 : BitVec 32 := Scalar.addi v14 c1_i32_19
  let c128_i32_20 : BitVec 32 := 128#32
  let v16 : BitVec 32 := Scalar.muli v15 c128_i32_20
  let v17 : BitVec 32 := Scalar.addi v2 v16
  ![v17.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k0_t1
  let v14 : BitVec 32 := Scalar.muli c2_i32_18 arg17
  let c128_i32_37 : BitVec 32 := 128#32
  let v26 : BitVec 32 := Scalar.muli v14 c128_i32_37
  let v27 : BitVec 32 := Scalar.addi v2 v26
  let c0_i32_50_r4 : BitVec 32 := 0#32
  ![v27.toNat, 0]
def k0_cond1 (k0_t1 : Fin k0_t1_loop.trips) : BitVec 1 :=
  let c2_i32_18 : BitVec 32 := 2#32
  let c0_i32_8 : BitVec 32 := 0#32
  let c1_i32 : BitVec 32 := 1#32
  let arg17 : BitVec 32 := Scf.iv c0_i32_8 c1_i32 k0_t1
  let v14 : BitVec 32 := Scalar.muli c2_i32_18 arg17
  let c2_i32_38 : BitVec 32 := 2#32
  let v28 : BitVec 32 := Scalar.addi v14 c2_i32_38
  let c25_i32 : BitVec 32 := 25#32
  let v29 : BitVec 1 := Scalar.cmpi .slt v28 c25_i32
  let v30 : BitVec 32 := Scalar.extui v29
  let c0_i32_39 : BitVec 32 := 0#32
  let v31 : BitVec 1 := Scalar.cmpi .ne v30 c0_i32_39
  v31

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k0_t1
  let v14 : BitVec 32 := Scalar.muli c2_i32_18 arg17
  let c2_i32_50 : BitVec 32 := 2#32
  let v39 : BitVec 32 := Scalar.addi v14 c2_i32_50
  let c128_i32_51 : BitVec 32 := 128#32
  let v40 : BitVec 32 := Scalar.muli v39 c128_i32_51
  let v41 : BitVec 32 := Scalar.addi v2 v40
  ![v41.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k0_t1
  let v14 : BitVec 32 := Scalar.muli c2_i32_18 arg17
  let c1_i32_48 : BitVec 32 := 1#32
  let v36 : BitVec 32 := Scalar.addi v14 c1_i32_48
  let c128_i32_49 : BitVec 32 := 128#32
  let v37 : BitVec 32 := Scalar.muli v36 c128_i32_49
  let v38 : BitVec 32 := Scalar.addi v2 v37
  let c0_i32_50_r7 : BitVec 32 := 0#32
  ![v38.toNat, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v13 : BitVec 32 := Scalar.addi v2 c3072_i32
  let c0_i32_18_r8 : BitVec 32 := 0#32
  ![v13.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32 : BitVec 32 := 0#32
  let v3 : BitVec 32 := Scalar.addi v2 c0_i32
  ![v3.toNat]
@[reducible] def k1_t1_loop : Scf.Loop 32 :=
  let c0_i32_8 : BitVec 32 := 0#32
  let c12_i32 : BitVec 32 := 12#32
  let v8 : BitVec 32 := Scalar.addi c0_i32_8 c12_i32
  let c1_i32 : BitVec 32 := 1#32
  ⟨c0_i32_8, v8, c1_i32⟩
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k1_t1
  let v14 : BitVec 32 := Scalar.muli c2_i32_18 arg17
  let c1_i32_19 : BitVec 32 := 1#32
  let v15 : BitVec 32 := Scalar.addi v14 c1_i32_19
  let c128_i32_20 : BitVec 32 := 128#32
  let v16 : BitVec 32 := Scalar.muli v15 c128_i32_20
  let v17 : BitVec 32 := Scalar.addi v2 v16
  ![v17.toNat]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k1_t1
  let v14 : BitVec 32 := Scalar.muli c2_i32_18 arg17
  let c128_i32_37 : BitVec 32 := 128#32
  let v26 : BitVec 32 := Scalar.muli v14 c128_i32_37
  let v27 : BitVec 32 := Scalar.addi v2 v26
  let c0_i32_50_r4 : BitVec 32 := 0#32
  ![v27.toNat, 0]
def k1_cond1 (k1_t1 : Fin k1_t1_loop.trips) : BitVec 1 :=
  let c2_i32_18 : BitVec 32 := 2#32
  let c0_i32_8 : BitVec 32 := 0#32
  let c1_i32 : BitVec 32 := 1#32
  let arg17 : BitVec 32 := Scf.iv c0_i32_8 c1_i32 k1_t1
  let v14 : BitVec 32 := Scalar.muli c2_i32_18 arg17
  let c2_i32_38 : BitVec 32 := 2#32
  let v28 : BitVec 32 := Scalar.addi v14 c2_i32_38
  let c25_i32 : BitVec 32 := 25#32
  let v29 : BitVec 1 := Scalar.cmpi .slt v28 c25_i32
  let v30 : BitVec 32 := Scalar.extui v29
  let c0_i32_39 : BitVec 32 := 0#32
  let v31 : BitVec 1 := Scalar.cmpi .ne v30 c0_i32_39
  v31

def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k1_t1
  let v14 : BitVec 32 := Scalar.muli c2_i32_18 arg17
  let c2_i32_50 : BitVec 32 := 2#32
  let v39 : BitVec 32 := Scalar.addi v14 c2_i32_50
  let c128_i32_51 : BitVec 32 := 128#32
  let v40 : BitVec 32 := Scalar.muli v39 c128_i32_51
  let v41 : BitVec 32 := Scalar.addi v2 v40
  ![v41.toNat]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k1_t1
  let v14 : BitVec 32 := Scalar.muli c2_i32_18 arg17
  let c1_i32_48 : BitVec 32 := 1#32
  let v36 : BitVec 32 := Scalar.addi v14 c1_i32_48
  let c128_i32_49 : BitVec 32 := 128#32
  let v37 : BitVec 32 := Scalar.muli v36 c128_i32_49
  let v38 : BitVec 32 := Scalar.addi v2 v37
  let c0_i32_50_r7 : BitVec 32 := 0#32
  ![v38.toNat, 0]
def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v13 : BitVec 32 := Scalar.addi v2 c3072_i32
  let c0_i32_18_r8 : BitVec 32 := 0#32
  ![v13.toNat, 0]
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32 : BitVec 32 := 0#32
  let v3 : BitVec 32 := Scalar.addi v2 c0_i32
  ![v3.toNat]
@[reducible] def k2_t1_loop : Scf.Loop 32 :=
  let c0_i32_8 : BitVec 32 := 0#32
  let c12_i32 : BitVec 32 := 12#32
  let v8 : BitVec 32 := Scalar.addi c0_i32_8 c12_i32
  let c1_i32 : BitVec 32 := 1#32
  ⟨c0_i32_8, v8, c1_i32⟩
def k2_off2 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k2_t1
  let v14 : BitVec 32 := Scalar.muli c2_i32_18 arg17
  let c1_i32_19 : BitVec 32 := 1#32
  let v15 : BitVec 32 := Scalar.addi v14 c1_i32_19
  let c128_i32_20 : BitVec 32 := 128#32
  let v16 : BitVec 32 := Scalar.muli v15 c128_i32_20
  let v17 : BitVec 32 := Scalar.addi v2 v16
  ![v17.toNat]
def k2_off3 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k2_t1
  let v14 : BitVec 32 := Scalar.muli c2_i32_18 arg17
  let c128_i32_37 : BitVec 32 := 128#32
  let v26 : BitVec 32 := Scalar.muli v14 c128_i32_37
  let v27 : BitVec 32 := Scalar.addi v2 v26
  let c0_i32_50_r4 : BitVec 32 := 0#32
  ![v27.toNat, 0]
def k2_cond1 (k2_t1 : Fin k2_t1_loop.trips) : BitVec 1 :=
  let c2_i32_18 : BitVec 32 := 2#32
  let c0_i32_8 : BitVec 32 := 0#32
  let c1_i32 : BitVec 32 := 1#32
  let arg17 : BitVec 32 := Scf.iv c0_i32_8 c1_i32 k2_t1
  let v14 : BitVec 32 := Scalar.muli c2_i32_18 arg17
  let c2_i32_38 : BitVec 32 := 2#32
  let v28 : BitVec 32 := Scalar.addi v14 c2_i32_38
  let c25_i32 : BitVec 32 := 25#32
  let v29 : BitVec 1 := Scalar.cmpi .slt v28 c25_i32
  let v30 : BitVec 32 := Scalar.extui v29
  let c0_i32_39 : BitVec 32 := 0#32
  let v31 : BitVec 1 := Scalar.cmpi .ne v30 c0_i32_39
  v31

def k2_off4 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k2_t1
  let v14 : BitVec 32 := Scalar.muli c2_i32_18 arg17
  let c2_i32_50 : BitVec 32 := 2#32
  let v39 : BitVec 32 := Scalar.addi v14 c2_i32_50
  let c128_i32_51 : BitVec 32 := 128#32
  let v40 : BitVec 32 := Scalar.muli v39 c128_i32_51
  let v41 : BitVec 32 := Scalar.addi v2 v40
  ![v41.toNat]
def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k2_t1
  let v14 : BitVec 32 := Scalar.muli c2_i32_18 arg17
  let c1_i32_48 : BitVec 32 := 1#32
  let v36 : BitVec 32 := Scalar.addi v14 c1_i32_48
  let c128_i32_49 : BitVec 32 := 128#32
  let v37 : BitVec 32 := Scalar.muli v36 c128_i32_49
  let v38 : BitVec 32 := Scalar.addi v2 v37
  let c0_i32_50_r7 : BitVec 32 := 0#32
  ![v38.toNat, 0]
def k2_off6 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v13 : BitVec 32 := Scalar.addi v2 c3072_i32
  let c0_i32_18_r8 : BitVec 32 := 0#32
  ![v13.toNat, 0]
abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32 : BitVec 32 := 0#32
  let v3 : BitVec 32 := Scalar.addi v2 c0_i32
  ![v3.toNat]
@[reducible] def k3_t1_loop : Scf.Loop 32 :=
  let c0_i32_8 : BitVec 32 := 0#32
  let c12_i32 : BitVec 32 := 12#32
  let v8 : BitVec 32 := Scalar.addi c0_i32_8 c12_i32
  let c1_i32 : BitVec 32 := 1#32
  ⟨c0_i32_8, v8, c1_i32⟩
def k3_off2 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k3_t1
  let v14 : BitVec 32 := Scalar.muli c2_i32_18 arg17
  let c1_i32_19 : BitVec 32 := 1#32
  let v15 : BitVec 32 := Scalar.addi v14 c1_i32_19
  let c128_i32_20 : BitVec 32 := 128#32
  let v16 : BitVec 32 := Scalar.muli v15 c128_i32_20
  let v17 : BitVec 32 := Scalar.addi v2 v16
  ![v17.toNat]
def k3_off3 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k3_t1
  let v14 : BitVec 32 := Scalar.muli c2_i32_18 arg17
  let c128_i32_37 : BitVec 32 := 128#32
  let v26 : BitVec 32 := Scalar.muli v14 c128_i32_37
  let v27 : BitVec 32 := Scalar.addi v2 v26
  let c0_i32_50_r4 : BitVec 32 := 0#32
  ![v27.toNat, 0]
def k3_cond1 (k3_t1 : Fin k3_t1_loop.trips) : BitVec 1 :=
  let c2_i32_18 : BitVec 32 := 2#32
  let c0_i32_8 : BitVec 32 := 0#32
  let c1_i32 : BitVec 32 := 1#32
  let arg17 : BitVec 32 := Scf.iv c0_i32_8 c1_i32 k3_t1
  let v14 : BitVec 32 := Scalar.muli c2_i32_18 arg17
  let c2_i32_38 : BitVec 32 := 2#32
  let v28 : BitVec 32 := Scalar.addi v14 c2_i32_38
  let c25_i32 : BitVec 32 := 25#32
  let v29 : BitVec 1 := Scalar.cmpi .slt v28 c25_i32
  let v30 : BitVec 32 := Scalar.extui v29
  let c0_i32_39 : BitVec 32 := 0#32
  let v31 : BitVec 1 := Scalar.cmpi .ne v30 c0_i32_39
  v31

def k3_off4 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k3_t1
  let v14 : BitVec 32 := Scalar.muli c2_i32_18 arg17
  let c2_i32_50 : BitVec 32 := 2#32
  let v39 : BitVec 32 := Scalar.addi v14 c2_i32_50
  let c128_i32_51 : BitVec 32 := 128#32
  let v40 : BitVec 32 := Scalar.muli v39 c128_i32_51
  let v41 : BitVec 32 := Scalar.addi v2 v40
  ![v41.toNat]
def k3_off5 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k3_t1
  let v14 : BitVec 32 := Scalar.muli c2_i32_18 arg17
  let c1_i32_48 : BitVec 32 := 1#32
  let v36 : BitVec 32 := Scalar.addi v14 c1_i32_48
  let c128_i32_49 : BitVec 32 := 128#32
  let v37 : BitVec 32 := Scalar.muli v36 c128_i32_49
  let v38 : BitVec 32 := Scalar.addi v2 v37
  let c0_i32_50_r7 : BitVec 32 := 0#32
  ![v38.toNat, 0]
def k3_off6 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v13 : BitVec 32 := Scalar.addi v2 c3072_i32
  let c0_i32_18_r8 : BitVec 32 := 0#32
  ![v13.toNat, 0]
abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32 : BitVec 32 := 0#32
  let v3 : BitVec 32 := Scalar.addi v2 c0_i32
  ![v3.toNat]
@[reducible] def k4_t1_loop : Scf.Loop 32 :=
  let c0_i32_8 : BitVec 32 := 0#32
  let c12_i32 : BitVec 32 := 12#32
  let v8 : BitVec 32 := Scalar.addi c0_i32_8 c12_i32
  let c1_i32 : BitVec 32 := 1#32
  ⟨c0_i32_8, v8, c1_i32⟩
def k4_off2 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k4_t1
  let v14 : BitVec 32 := Scalar.muli c2_i32_18 arg17
  let c1_i32_19 : BitVec 32 := 1#32
  let v15 : BitVec 32 := Scalar.addi v14 c1_i32_19
  let c128_i32_20 : BitVec 32 := 128#32
  let v16 : BitVec 32 := Scalar.muli v15 c128_i32_20
  let v17 : BitVec 32 := Scalar.addi v2 v16
  ![v17.toNat]
def k4_off3 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k4_t1
  let v14 : BitVec 32 := Scalar.muli c2_i32_18 arg17
  let c128_i32_37 : BitVec 32 := 128#32
  let v26 : BitVec 32 := Scalar.muli v14 c128_i32_37
  let v27 : BitVec 32 := Scalar.addi v2 v26
  let c0_i32_50_r4 : BitVec 32 := 0#32
  ![v27.toNat, 0]
def k4_cond1 (k4_t1 : Fin k4_t1_loop.trips) : BitVec 1 :=
  let c2_i32_18 : BitVec 32 := 2#32
  let c0_i32_8 : BitVec 32 := 0#32
  let c1_i32 : BitVec 32 := 1#32
  let arg17 : BitVec 32 := Scf.iv c0_i32_8 c1_i32 k4_t1
  let v14 : BitVec 32 := Scalar.muli c2_i32_18 arg17
  let c2_i32_38 : BitVec 32 := 2#32
  let v28 : BitVec 32 := Scalar.addi v14 c2_i32_38
  let c25_i32 : BitVec 32 := 25#32
  let v29 : BitVec 1 := Scalar.cmpi .slt v28 c25_i32
  let v30 : BitVec 32 := Scalar.extui v29
  let c0_i32_39 : BitVec 32 := 0#32
  let v31 : BitVec 1 := Scalar.cmpi .ne v30 c0_i32_39
  v31

def k4_off4 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k4_t1
  let v14 : BitVec 32 := Scalar.muli c2_i32_18 arg17
  let c2_i32_50 : BitVec 32 := 2#32
  let v39 : BitVec 32 := Scalar.addi v14 c2_i32_50
  let c128_i32_51 : BitVec 32 := 128#32
  let v40 : BitVec 32 := Scalar.muli v39 c128_i32_51
  let v41 : BitVec 32 := Scalar.addi v2 v40
  ![v41.toNat]
def k4_off5 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k4_t1
  let v14 : BitVec 32 := Scalar.muli c2_i32_18 arg17
  let c1_i32_48 : BitVec 32 := 1#32
  let v36 : BitVec 32 := Scalar.addi v14 c1_i32_48
  let c128_i32_49 : BitVec 32 := 128#32
  let v37 : BitVec 32 := Scalar.muli v36 c128_i32_49
  let v38 : BitVec 32 := Scalar.addi v2 v37
  let c0_i32_50_r7 : BitVec 32 := 0#32
  ![v38.toNat, 0]
def k4_off6 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v13 : BitVec 32 := Scalar.addi v2 c3072_i32
  let c0_i32_18_r8 : BitVec 32 := 0#32
  ![v13.toNat, 0]
abbrev grid5 : Pipeline.Grid := ⟨2, ![2, 16], ![false, false]⟩

def k5_off1 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32 : BitVec 32 := 0#32
  let v3 : BitVec 32 := Scalar.addi v2 c0_i32
  ![v3.toNat]
@[reducible] def k5_t1_loop : Scf.Loop 32 :=
  let c0_i32_8 : BitVec 32 := 0#32
  let c12_i32 : BitVec 32 := 12#32
  let v8 : BitVec 32 := Scalar.addi c0_i32_8 c12_i32
  let c1_i32 : BitVec 32 := 1#32
  ⟨c0_i32_8, v8, c1_i32⟩
def k5_off2 (i : grid5.Coords) (k5_t1 : Fin k5_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k5_t1
  let v14 : BitVec 32 := Scalar.muli c2_i32_18 arg17
  let c1_i32_19 : BitVec 32 := 1#32
  let v15 : BitVec 32 := Scalar.addi v14 c1_i32_19
  let c128_i32_20 : BitVec 32 := 128#32
  let v16 : BitVec 32 := Scalar.muli v15 c128_i32_20
  let v17 : BitVec 32 := Scalar.addi v2 v16
  ![v17.toNat]
def k5_off3 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k5_t1
  let v14 : BitVec 32 := Scalar.muli c2_i32_18 arg17
  let c128_i32_37 : BitVec 32 := 128#32
  let v26 : BitVec 32 := Scalar.muli v14 c128_i32_37
  let v27 : BitVec 32 := Scalar.addi v2 v26
  let c0_i32_50_r4 : BitVec 32 := 0#32
  ![v27.toNat, 0]
def k5_cond1 (k5_t1 : Fin k5_t1_loop.trips) : BitVec 1 :=
  let c2_i32_18 : BitVec 32 := 2#32
  let c0_i32_8 : BitVec 32 := 0#32
  let c1_i32 : BitVec 32 := 1#32
  let arg17 : BitVec 32 := Scf.iv c0_i32_8 c1_i32 k5_t1
  let v14 : BitVec 32 := Scalar.muli c2_i32_18 arg17
  let c2_i32_38 : BitVec 32 := 2#32
  let v28 : BitVec 32 := Scalar.addi v14 c2_i32_38
  let c25_i32 : BitVec 32 := 25#32
  let v29 : BitVec 1 := Scalar.cmpi .slt v28 c25_i32
  let v30 : BitVec 32 := Scalar.extui v29
  let c0_i32_39 : BitVec 32 := 0#32
  let v31 : BitVec 1 := Scalar.cmpi .ne v30 c0_i32_39
  v31

def k5_off4 (i : grid5.Coords) (k5_t1 : Fin k5_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k5_t1
  let v14 : BitVec 32 := Scalar.muli c2_i32_18 arg17
  let c2_i32_50 : BitVec 32 := 2#32
  let v39 : BitVec 32 := Scalar.addi v14 c2_i32_50
  let c128_i32_51 : BitVec 32 := 128#32
  let v40 : BitVec 32 := Scalar.muli v39 c128_i32_51
  let v41 : BitVec 32 := Scalar.addi v2 v40
  ![v41.toNat]
def k5_off5 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k5_t1
  let v14 : BitVec 32 := Scalar.muli c2_i32_18 arg17
  let c1_i32_48 : BitVec 32 := 1#32
  let v36 : BitVec 32 := Scalar.addi v14 c1_i32_48
  let c128_i32_49 : BitVec 32 := 128#32
  let v37 : BitVec 32 := Scalar.muli v36 c128_i32_49
  let v38 : BitVec 32 := Scalar.addi v2 v37
  let c0_i32_50_r7 : BitVec 32 := 0#32
  ![v38.toNat, 0]
def k5_off6 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v13 : BitVec 32 := Scalar.addi v2 c3072_i32
  let c0_i32_18_r8 : BitVec 32 := 0#32
  ![v13.toNat, 0]
abbrev grid6 : Pipeline.Grid := ⟨2, ![2, 16], ![false, false]⟩

def k6_off1 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32 : BitVec 32 := 0#32
  let v3 : BitVec 32 := Scalar.addi v2 c0_i32
  ![v3.toNat]
@[reducible] def k6_t1_loop : Scf.Loop 32 :=
  let c0_i32_8 : BitVec 32 := 0#32
  let c12_i32 : BitVec 32 := 12#32
  let v8 : BitVec 32 := Scalar.addi c0_i32_8 c12_i32
  let c1_i32 : BitVec 32 := 1#32
  ⟨c0_i32_8, v8, c1_i32⟩
def k6_off2 (i : grid6.Coords) (k6_t1 : Fin k6_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k6_t1
  let v14 : BitVec 32 := Scalar.muli c2_i32_18 arg17
  let c1_i32_19 : BitVec 32 := 1#32
  let v15 : BitVec 32 := Scalar.addi v14 c1_i32_19
  let c128_i32_20 : BitVec 32 := 128#32
  let v16 : BitVec 32 := Scalar.muli v15 c128_i32_20
  let v17 : BitVec 32 := Scalar.addi v2 v16
  ![v17.toNat]
def k6_off3 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k6_t1
  let v14 : BitVec 32 := Scalar.muli c2_i32_18 arg17
  let c128_i32_37 : BitVec 32 := 128#32
  let v26 : BitVec 32 := Scalar.muli v14 c128_i32_37
  let v27 : BitVec 32 := Scalar.addi v2 v26
  let c0_i32_50_r4 : BitVec 32 := 0#32
  ![v27.toNat, 0]
def k6_cond1 (k6_t1 : Fin k6_t1_loop.trips) : BitVec 1 :=
  let c2_i32_18 : BitVec 32 := 2#32
  let c0_i32_8 : BitVec 32 := 0#32
  let c1_i32 : BitVec 32 := 1#32
  let arg17 : BitVec 32 := Scf.iv c0_i32_8 c1_i32 k6_t1
  let v14 : BitVec 32 := Scalar.muli c2_i32_18 arg17
  let c2_i32_38 : BitVec 32 := 2#32
  let v28 : BitVec 32 := Scalar.addi v14 c2_i32_38
  let c25_i32 : BitVec 32 := 25#32
  let v29 : BitVec 1 := Scalar.cmpi .slt v28 c25_i32
  let v30 : BitVec 32 := Scalar.extui v29
  let c0_i32_39 : BitVec 32 := 0#32
  let v31 : BitVec 1 := Scalar.cmpi .ne v30 c0_i32_39
  v31

def k6_off4 (i : grid6.Coords) (k6_t1 : Fin k6_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k6_t1
  let v14 : BitVec 32 := Scalar.muli c2_i32_18 arg17
  let c2_i32_50 : BitVec 32 := 2#32
  let v39 : BitVec 32 := Scalar.addi v14 c2_i32_50
  let c128_i32_51 : BitVec 32 := 128#32
  let v40 : BitVec 32 := Scalar.muli v39 c128_i32_51
  let v41 : BitVec 32 := Scalar.addi v2 v40
  ![v41.toNat]
def k6_off5 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k6_t1
  let v14 : BitVec 32 := Scalar.muli c2_i32_18 arg17
  let c1_i32_48 : BitVec 32 := 1#32
  let v36 : BitVec 32 := Scalar.addi v14 c1_i32_48
  let c128_i32_49 : BitVec 32 := 128#32
  let v37 : BitVec 32 := Scalar.muli v36 c128_i32_49
  let v38 : BitVec 32 := Scalar.addi v2 v37
  let c0_i32_50_r7 : BitVec 32 := 0#32
  ![v38.toNat, 0]
def k6_off6 (i : grid6.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v13 : BitVec 32 := Scalar.addi v2 c3072_i32
  let c0_i32_18_r8 : BitVec 32 := 0#32
  ![v13.toNat, 0]
abbrev grid7 : Pipeline.Grid := ⟨2, ![2, 16], ![false, false]⟩

def k7_off1 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c0_i32 : BitVec 32 := 0#32
  let v3 : BitVec 32 := Scalar.addi v2 c0_i32
  ![v3.toNat]
@[reducible] def k7_t1_loop : Scf.Loop 32 :=
  let c0_i32_8 : BitVec 32 := 0#32
  let c12_i32 : BitVec 32 := 12#32
  let v8 : BitVec 32 := Scalar.addi c0_i32_8 c12_i32
  let c1_i32 : BitVec 32 := 1#32
  ⟨c0_i32_8, v8, c1_i32⟩
def k7_off2 (i : grid7.Coords) (k7_t1 : Fin k7_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k7_t1
  let v14 : BitVec 32 := Scalar.muli c2_i32_18 arg17
  let c1_i32_19 : BitVec 32 := 1#32
  let v15 : BitVec 32 := Scalar.addi v14 c1_i32_19
  let c128_i32_20 : BitVec 32 := 128#32
  let v16 : BitVec 32 := Scalar.muli v15 c128_i32_20
  let v17 : BitVec 32 := Scalar.addi v2 v16
  ![v17.toNat]
def k7_off3 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k7_t1
  let v14 : BitVec 32 := Scalar.muli c2_i32_18 arg17
  let c128_i32_37 : BitVec 32 := 128#32
  let v26 : BitVec 32 := Scalar.muli v14 c128_i32_37
  let v27 : BitVec 32 := Scalar.addi v2 v26
  let c0_i32_50_r4 : BitVec 32 := 0#32
  ![v27.toNat, 0]
def k7_cond1 (k7_t1 : Fin k7_t1_loop.trips) : BitVec 1 :=
  let c2_i32_18 : BitVec 32 := 2#32
  let c0_i32_8 : BitVec 32 := 0#32
  let c1_i32 : BitVec 32 := 1#32
  let arg17 : BitVec 32 := Scf.iv c0_i32_8 c1_i32 k7_t1
  let v14 : BitVec 32 := Scalar.muli c2_i32_18 arg17
  let c2_i32_38 : BitVec 32 := 2#32
  let v28 : BitVec 32 := Scalar.addi v14 c2_i32_38
  let c25_i32 : BitVec 32 := 25#32
  let v29 : BitVec 1 := Scalar.cmpi .slt v28 c25_i32
  let v30 : BitVec 32 := Scalar.extui v29
  let c0_i32_39 : BitVec 32 := 0#32
  let v31 : BitVec 1 := Scalar.cmpi .ne v30 c0_i32_39
  v31

def k7_off4 (i : grid7.Coords) (k7_t1 : Fin k7_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k7_t1
  let v14 : BitVec 32 := Scalar.muli c2_i32_18 arg17
  let c2_i32_50 : BitVec 32 := 2#32
  let v39 : BitVec 32 := Scalar.addi v14 c2_i32_50
  let c128_i32_51 : BitVec 32 := 128#32
  let v40 : BitVec 32 := Scalar.muli v39 c128_i32_51
  let v41 : BitVec 32 := Scalar.addi v2 v40
  ![v41.toNat]
def k7_off5 (i : grid7.Coords) (k7_t1 : Fin k7_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_18 : BitVec 32 := 2#32
  let c0_i32_8 : BitVec 32 := 0#32
  let c1_i32 : BitVec 32 := 1#32
  let arg17 : BitVec 32 := Scf.iv c0_i32_8 c1_i32 k7_t1
  let v14 : BitVec 32 := Scalar.muli c2_i32_18 arg17
  let c1_i32_48 : BitVec 32 := 1#32
  let v36 : BitVec 32 := Scalar.addi v14 c1_i32_48
  let c128_i32_49 : BitVec 32 := 128#32
  let v37 : BitVec 32 := Scalar.muli v36 c128_i32_49
  let v38 : BitVec 32 := Scalar.addi v2 v37
  let c0_i32_50_r7 : BitVec 32 := 0#32
  ![v38.toNat, 0]
def k7_off6 (i : grid7.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c3072_i32 : BitVec 32 := 3072#32
  let v13 : BitVec 32 := Scalar.addi v2 c3072_i32
  let c0_i32_18_r8 : BitVec 32 := 0#32
  ![v13.toNat, 0]
abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage8_0 : Fin 2 → Memref sig .tc .vmem S4096x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S4096x512 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

abbrev stage9_0 : Fin 2 → Memref sig .tc .vmem S4096x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S256x512 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4096x512 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![25], ![false]⟩

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c50_i32 : BitVec 32 := 50#32
  let v0 : BitVec 32 := Scalar.addi c50_i32 arg0
  let c0_i32 : BitVec 32 := 0#32
  let c0_i32_0 : BitVec 32 := 0#32
  ![v0.toNat, c0_i32.toNat]

abbrev stage10_0 : Fin 2 → Memref sig .tc .vmem S4096x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S256x512 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S4096x512 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![25], ![false]⟩

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c75_i32 : BitVec 32 := 75#32
  let v0 : BitVec 32 := Scalar.addi c75_i32 arg0
  let c0_i32 : BitVec 32 := 0#32
  let c0_i32_0 : BitVec 32 := 0#32
  ![v0.toNat, c0_i32.toNat]

abbrev stage11_0 : Fin 2 → Memref sig .tc .vmem S4096x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S256x512 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x512 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x512 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S4096x512 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c100_i32 : BitVec 32 := 100#32
  let v0 : BitVec 32 := Scalar.addi c100_i32 arg0
  let c0_i32 : BitVec 32 := 0#32
  let c0_i32_0 : BitVec 32 := 0#32
  ![v0.toNat, c0_i32.toNat]

abbrev stage12_0 : Fin 2 → Memref sig .tc .vmem S4096x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S256x512 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x512 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x512 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x512 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S4096x512 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![25], ![false]⟩

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c125_i32 : BitVec 32 := 125#32
  let v0 : BitVec 32 := Scalar.addi c125_i32 arg0
  let c0_i32 : BitVec 32 := 0#32
  let c0_i32_0 : BitVec 32 := 0#32
  ![v0.toNat, c0_i32.toNat]

abbrev stage13_0 : Fin 2 → Memref sig .tc .vmem S4096x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S256x512 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x512 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x512 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x512 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S4096x512 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![25], ![false]⟩

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c150_i32 : BitVec 32 := 150#32
  let v0 : BitVec 32 := Scalar.addi c150_i32 arg0
  let c0_i32 : BitVec 32 := 0#32
  let c0_i32_0 : BitVec 32 := 0#32
  ![v0.toNat, c0_i32.toNat]

abbrev stage14_0 : Fin 2 → Memref sig .tc .vmem S4096x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S256x512 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x512 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x512 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x512 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S4096x512 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![25], ![false]⟩

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c175_i32 : BitVec 32 := 175#32
  let v0 : BitVec 32 := Scalar.addi c175_i32 arg0
  let c0_i32 : BitVec 32 := 0#32
  let c0_i32_0 : BitVec 32 := 0#32
  ![v0.toNat, c0_i32.toNat]

abbrev stage15_0 : Fin 2 → Memref sig .tc .vmem S4096x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S256x512 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x512 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x512 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x512 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S4096x512 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev scKind : Fin 8 → Kind := fun | 0 => .scVector | 1 => .scVector | 2 => .scVector | 3 => .scVector | 4 => .scVector | 5 => .scVector | 6 => .scVector | 7 => .scVector | ⟨_ + 8, h⟩ => absurd h (Nat.not_lt.2 (Nat.le_add_left _ _))
abbrev scNCore : Fin 8 → Nat := fun | 0 => 2 | 1 => 2 | 2 => 2 | 3 => 2 | 4 => 2 | 5 => 2 | 6 => 2 | 7 => 2 | ⟨_ + 8, h⟩ => absurd h (Nat.not_lt.2 (Nat.le_add_left _ _))
abbrev scNSub : Fin 8 → Nat := fun | 0 => 16 | 1 => 16 | 2 => 16 | 3 => 16 | 4 => 16 | 5 => 16 | 6 => 16 | 7 => 16 | ⟨_ + 8, h⟩ => absurd h (Nat.not_lt.2 (Nat.le_add_left _ _))

class Facts₀ : Prop where
  shapeCasts_S4096x200_S8x102400 : S4096x200.ShapeCasts S8x102400
  shapeCasts_S512_S1x512 : S512.ShapeCasts S1x512
  slices_S8x102400_S1x102400_0_0 : S8x102400.Slices ![0, 0] S1x102400
  shapeCasts_S1x102400_S102400 : S1x102400.ShapeCasts S102400
  inb_S128x256_S128x128_0_0 : ∀ a, (![0, 0] : Fin 2 → Nat) a + S128x128.size a ≤ S128x256.size a
  inb_S100000x128_S100000x128_0_0 : ∀ a, (![0, 0] : Fin 2 → Nat) a + S100000x128.size a ≤ S100000x128.size a
  gathers_S100000x128_S128x128 : S100000x128.Gathers 0 S128x128
  inb_S128x256_S128x128_0_128 : ∀ a, (![0, 128] : Fin 2 → Nat) a + S128x128.size a ≤ S128x256.size a
  inb_S1000x128_S1000x128_0_0 : ∀ a, (![0, 0] : Fin 2 → Nat) a + S1000x128.size a ≤ S1000x128.size a
  gathers_S1000x128_S128x128 : S1000x128.Gathers 0 S128x128
  slices_S8x102400_S1x102400_1_0 : S8x102400.Slices ![1, 0] S1x102400
  slices_S8x102400_S1x102400_2_0 : S8x102400.Slices ![2, 0] S1x102400
  slices_S8x102400_S1x102400_3_0 : S8x102400.Slices ![3, 0] S1x102400
  slices_S8x102400_S1x102400_4_0 : S8x102400.Slices ![4, 0] S1x102400
  slices_S8x102400_S1x102400_5_0 : S8x102400.Slices ![5, 0] S1x102400
  slices_S8x102400_S1x102400_6_0 : S8x102400.Slices ![6, 0] S1x102400
  slices_S8x102400_S1x102400_7_0 : S8x102400.Slices ![7, 0] S1x102400
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  reduces_S4096x512_S4096 : S4096x512.Reduces [1] S4096
  shapeCasts_S4096_S4096x1 : S4096.ShapeCasts S4096x1
  broadcasts_S4096x1_S4096x512 : S4096x1.Broadcasts S4096x512
  inb_S4096x512_S4096x512_0_0 : ∀ a, (![0, 0] : Fin 2 → Nat) a + S4096x512.size a ≤ S4096x512.size a
  h_S4096x512 : 0 < S4096x512.numel
  shapeCasts_S819200x512_S4096x200x512 : S819200x512.ShapeCasts S4096x200x512
  dot_S4096x256_S256x512_S4096x512_1_0_0_1_n_n_wf : DotDims.WF S4096x256 S256x512 S4096x512 [1] [0] [0] [1] [] []
  hcc0_scratch6 : 0 + S_.numel ≤ 168
  hcc0_scratch7 : 1 + S_.numel ≤ 168
  hcc0_scratch8 : 2 + S_.numel ≤ 168
  hcc0_scratch9 : 3 + S_.numel ≤ 168
  hcc0_scoped0 : 4 + S_.numel ≤ 168
  hcc0_scoped1 : 5 + S_.numel ≤ 168
  hcc0_scoped2 : 6 + S_.numel ≤ 168
  hcc0_scoped3 : 7 + S_.numel ≤ 168
  hcc0_scoped4 : 8 + S_.numel ≤ 168
  hcc0_scoped5 : 9 + S_.numel ≤ 168
  hcc0_scoped6 : 10 + S_.numel ≤ 168
  hcc0_scoped7 : 11 + S_.numel ≤ 168
  hcc0_scoped8 : 12 + S_.numel ≤ 168
  hcc1_scratch6 : 13 + S_.numel ≤ 168
  hcc1_scratch7 : 14 + S_.numel ≤ 168
  hcc1_scratch8 : 15 + S_.numel ≤ 168
  hcc1_scratch9 : 16 + S_.numel ≤ 168
  hcc1_scoped0 : 17 + S_.numel ≤ 168
  hcc1_scoped1 : 18 + S_.numel ≤ 168
  hcc1_scoped2 : 19 + S_.numel ≤ 168
  hcc1_scoped3 : 20 + S_.numel ≤ 168
  hcc1_scoped4 : 21 + S_.numel ≤ 168
  hcc1_scoped5 : 22 + S_.numel ≤ 168
  hcc1_scoped6 : 23 + S_.numel ≤ 168
  hcc1_scoped7 : 24 + S_.numel ≤ 168
  hcc1_scoped8 : 25 + S_.numel ≤ 168
  hcc2_scratch6 : 26 + S_.numel ≤ 168
  hcc2_scratch7 : 27 + S_.numel ≤ 168
  hcc2_scratch8 : 28 + S_.numel ≤ 168
  hcc2_scratch9 : 29 + S_.numel ≤ 168
  hcc2_scoped0 : 30 + S_.numel ≤ 168
  hcc2_scoped1 : 31 + S_.numel ≤ 168
  hcc2_scoped2 : 32 + S_.numel ≤ 168
  hcc2_scoped3 : 33 + S_.numel ≤ 168
  hcc2_scoped4 : 34 + S_.numel ≤ 168
  hcc2_scoped5 : 35 + S_.numel ≤ 168
  hcc2_scoped6 : 36 + S_.numel ≤ 168
  hcc2_scoped7 : 37 + S_.numel ≤ 168
  hcc2_scoped8 : 38 + S_.numel ≤ 168
  hcc3_scratch6 : 39 + S_.numel ≤ 168
  hcc3_scratch7 : 40 + S_.numel ≤ 168
  hcc3_scratch8 : 41 + S_.numel ≤ 168
  hcc3_scratch9 : 42 + S_.numel ≤ 168
  hcc3_scoped0 : 43 + S_.numel ≤ 168
  hcc3_scoped1 : 44 + S_.numel ≤ 168
  hcc3_scoped2 : 45 + S_.numel ≤ 168
  hcc3_scoped3 : 46 + S_.numel ≤ 168
  hcc3_scoped4 : 47 + S_.numel ≤ 168
  hcc3_scoped5 : 48 + S_.numel ≤ 168
  hcc3_scoped6 : 49 + S_.numel ≤ 168
  hcc3_scoped7 : 50 + S_.numel ≤ 168
  hcc3_scoped8 : 51 + S_.numel ≤ 168
  hcc4_scratch6 : 52 + S_.numel ≤ 168
  hcc4_scratch7 : 53 + S_.numel ≤ 168
  hcc4_scratch8 : 54 + S_.numel ≤ 168
  hcc4_scratch9 : 55 + S_.numel ≤ 168
  hcc4_scoped0 : 56 + S_.numel ≤ 168
  hcc4_scoped1 : 57 + S_.numel ≤ 168
  hcc4_scoped2 : 58 + S_.numel ≤ 168
  hcc4_scoped3 : 59 + S_.numel ≤ 168
  hcc4_scoped4 : 60 + S_.numel ≤ 168
  hcc4_scoped5 : 61 + S_.numel ≤ 168
  hcc4_scoped6 : 62 + S_.numel ≤ 168
  hcc4_scoped7 : 63 + S_.numel ≤ 168
  hcc4_scoped8 : 64 + S_.numel ≤ 168
  hcc5_scratch6 : 65 + S_.numel ≤ 168
  hcc5_scratch7 : 66 + S_.numel ≤ 168
  hcc5_scratch8 : 67 + S_.numel ≤ 168
  hcc5_scratch9 : 68 + S_.numel ≤ 168
  hcc5_scoped0 : 69 + S_.numel ≤ 168
  hcc5_scoped1 : 70 + S_.numel ≤ 168
  hcc5_scoped2 : 71 + S_.numel ≤ 168
  hcc5_scoped3 : 72 + S_.numel ≤ 168
  hcc5_scoped4 : 73 + S_.numel ≤ 168
  hcc5_scoped5 : 74 + S_.numel ≤ 168
  hcc5_scoped6 : 75 + S_.numel ≤ 168
  hcc5_scoped7 : 76 + S_.numel ≤ 168
  hcc5_scoped8 : 77 + S_.numel ≤ 168
  hcc6_scratch6 : 78 + S_.numel ≤ 168
  hcc6_scratch7 : 79 + S_.numel ≤ 168
  hcc6_scratch8 : 80 + S_.numel ≤ 168
  hcc6_scratch9 : 81 + S_.numel ≤ 168
  hcc6_scoped0 : 82 + S_.numel ≤ 168
  hcc6_scoped1 : 83 + S_.numel ≤ 168
  hcc6_scoped2 : 84 + S_.numel ≤ 168
  hcc6_scoped3 : 85 + S_.numel ≤ 168
  hcc6_scoped4 : 86 + S_.numel ≤ 168
  hcc6_scoped5 : 87 + S_.numel ≤ 168
  hcc6_scoped6 : 88 + S_.numel ≤ 168
  hcc6_scoped7 : 89 + S_.numel ≤ 168
  hcc6_scoped8 : 90 + S_.numel ≤ 168
  hcc7_scratch6 : 91 + S_.numel ≤ 168
  hcc7_scratch7 : 92 + S_.numel ≤ 168
  hcc7_scratch8 : 93 + S_.numel ≤ 168
  hcc7_scratch9 : 94 + S_.numel ≤ 168
  hcc7_scoped0 : 95 + S_.numel ≤ 168
  hcc7_scoped1 : 96 + S_.numel ≤ 168
  hcc7_scoped2 : 97 + S_.numel ≤ 168
  hcc7_scoped3 : 98 + S_.numel ≤ 168
  hcc7_scoped4 : 99 + S_.numel ≤ 168
  hcc7_scoped5 : 100 + S_.numel ≤ 168
  hcc7_scoped6 : 101 + S_.numel ≤ 168
  hcc7_scoped7 : 102 + S_.numel ≤ 168
  hcc7_scoped8 : 103 + S_.numel ≤ 168
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S102400.size a
  k0_t1_ok : k0_t1_loop.OK
  k0_off2_inb : ∀ (i : grid0.Coords) (k0_t1 : Fin k0_t1_loop.trips), ∀ a, (k0_off2 i k0_t1) a + S128.size a ≤ S102400.size a
  k0_off3_inb : ∀ (i : grid0.Coords) (k0_t1 : Fin k0_t1_loop.trips), ∀ a, (k0_off3 i k0_t1) a + S128x256.size a ≤ S102400x256.size a
  k0_off4_inb : ∀ (i : grid0.Coords) (k0_t1 : Fin k0_t1_loop.trips), ∀ (k0_h1 : k0_cond1 k0_t1 = 1#1), ∀ a, (k0_off4 i k0_t1) a + S128.size a ≤ S102400.size a
  k0_off5_inb : ∀ (i : grid0.Coords) (k0_t1 : Fin k0_t1_loop.trips), ∀ a, (k0_off5 i k0_t1) a + S128x256.size a ≤ S102400x256.size a
  k0_off6_inb : ∀ i : grid0.Coords, ∀ a, (k0_off6 i) a + S128x256.size a ≤ S102400x256.size a
  hcore1 : grid1.bound 0 ≤ τ.nSC
  hsub1 : grid1.bound 1 ≤ τ.nSub
  k1_off1_inb : ∀ i : grid1.Coords, ∀ a, (k1_off1 i) a + S128.size a ≤ S102400.size a
  k1_t1_ok : k1_t1_loop.OK
  k1_off2_inb : ∀ (i : grid1.Coords) (k1_t1 : Fin k1_t1_loop.trips), ∀ a, (k1_off2 i k1_t1) a + S128.size a ≤ S102400.size a
  k1_off3_inb : ∀ (i : grid1.Coords) (k1_t1 : Fin k1_t1_loop.trips), ∀ a, (k1_off3 i k1_t1) a + S128x256.size a ≤ S102400x256.size a
  k1_off4_inb : ∀ (i : grid1.Coords) (k1_t1 : Fin k1_t1_loop.trips), ∀ (k1_h1 : k1_cond1 k1_t1 = 1#1), ∀ a, (k1_off4 i k1_t1) a + S128.size a ≤ S102400.size a
  k1_off5_inb : ∀ (i : grid1.Coords) (k1_t1 : Fin k1_t1_loop.trips), ∀ a, (k1_off5 i k1_t1) a + S128x256.size a ≤ S102400x256.size a
  k1_off6_inb : ∀ i : grid1.Coords, ∀ a, (k1_off6 i) a + S128x256.size a ≤ S102400x256.size a
  hcore2 : grid2.bound 0 ≤ τ.nSC
  hsub2 : grid2.bound 1 ≤ τ.nSub
  k2_off1_inb : ∀ i : grid2.Coords, ∀ a, (k2_off1 i) a + S128.size a ≤ S102400.size a
  k2_t1_ok : k2_t1_loop.OK
  k2_off2_inb : ∀ (i : grid2.Coords) (k2_t1 : Fin k2_t1_loop.trips), ∀ a, (k2_off2 i k2_t1) a + S128.size a ≤ S102400.size a
  k2_off3_inb : ∀ (i : grid2.Coords) (k2_t1 : Fin k2_t1_loop.trips), ∀ a, (k2_off3 i k2_t1) a + S128x256.size a ≤ S102400x256.size a
  k2_off4_inb : ∀ (i : grid2.Coords) (k2_t1 : Fin k2_t1_loop.trips), ∀ (k2_h1 : k2_cond1 k2_t1 = 1#1), ∀ a, (k2_off4 i k2_t1) a + S128.size a ≤ S102400.size a
  k2_off5_inb : ∀ (i : grid2.Coords) (k2_t1 : Fin k2_t1_loop.trips), ∀ a, (k2_off5 i k2_t1) a + S128x256.size a ≤ S102400x256.size a
  k2_off6_inb : ∀ i : grid2.Coords, ∀ a, (k2_off6 i) a + S128x256.size a ≤ S102400x256.size a
  hcore3 : grid3.bound 0 ≤ τ.nSC
  hsub3 : grid3.bound 1 ≤ τ.nSub
  k3_off1_inb : ∀ i : grid3.Coords, ∀ a, (k3_off1 i) a + S128.size a ≤ S102400.size a
  k3_t1_ok : k3_t1_loop.OK
  k3_off2_inb : ∀ (i : grid3.Coords) (k3_t1 : Fin k3_t1_loop.trips), ∀ a, (k3_off2 i k3_t1) a + S128.size a ≤ S102400.size a
  k3_off3_inb : ∀ (i : grid3.Coords) (k3_t1 : Fin k3_t1_loop.trips), ∀ a, (k3_off3 i k3_t1) a + S128x256.size a ≤ S102400x256.size a
  k3_off4_inb : ∀ (i : grid3.Coords) (k3_t1 : Fin k3_t1_loop.trips), ∀ (k3_h1 : k3_cond1 k3_t1 = 1#1), ∀ a, (k3_off4 i k3_t1) a + S128.size a ≤ S102400.size a
  k3_off5_inb : ∀ (i : grid3.Coords) (k3_t1 : Fin k3_t1_loop.trips), ∀ a, (k3_off5 i k3_t1) a + S128x256.size a ≤ S102400x256.size a
  k3_off6_inb : ∀ i : grid3.Coords, ∀ a, (k3_off6 i) a + S128x256.size a ≤ S102400x256.size a
  hcore4 : grid4.bound 0 ≤ τ.nSC
  hsub4 : grid4.bound 1 ≤ τ.nSub
  k4_off1_inb : ∀ i : grid4.Coords, ∀ a, (k4_off1 i) a + S128.size a ≤ S102400.size a
  k4_t1_ok : k4_t1_loop.OK
  k4_off2_inb : ∀ (i : grid4.Coords) (k4_t1 : Fin k4_t1_loop.trips), ∀ a, (k4_off2 i k4_t1) a + S128.size a ≤ S102400.size a
  k4_off3_inb : ∀ (i : grid4.Coords) (k4_t1 : Fin k4_t1_loop.trips), ∀ a, (k4_off3 i k4_t1) a + S128x256.size a ≤ S102400x256.size a
  k4_off4_inb : ∀ (i : grid4.Coords) (k4_t1 : Fin k4_t1_loop.trips), ∀ (k4_h1 : k4_cond1 k4_t1 = 1#1), ∀ a, (k4_off4 i k4_t1) a + S128.size a ≤ S102400.size a
  k4_off5_inb : ∀ (i : grid4.Coords) (k4_t1 : Fin k4_t1_loop.trips), ∀ a, (k4_off5 i k4_t1) a + S128x256.size a ≤ S102400x256.size a
  k4_off6_inb : ∀ i : grid4.Coords, ∀ a, (k4_off6 i) a + S128x256.size a ≤ S102400x256.size a
  hcore5 : grid5.bound 0 ≤ τ.nSC
  hsub5 : grid5.bound 1 ≤ τ.nSub
  k5_off1_inb : ∀ i : grid5.Coords, ∀ a, (k5_off1 i) a + S128.size a ≤ S102400.size a
  k5_t1_ok : k5_t1_loop.OK
  k5_off2_inb : ∀ (i : grid5.Coords) (k5_t1 : Fin k5_t1_loop.trips), ∀ a, (k5_off2 i k5_t1) a + S128.size a ≤ S102400.size a
  k5_off3_inb : ∀ (i : grid5.Coords) (k5_t1 : Fin k5_t1_loop.trips), ∀ a, (k5_off3 i k5_t1) a + S128x256.size a ≤ S102400x256.size a
  k5_off4_inb : ∀ (i : grid5.Coords) (k5_t1 : Fin k5_t1_loop.trips), ∀ (k5_h1 : k5_cond1 k5_t1 = 1#1), ∀ a, (k5_off4 i k5_t1) a + S128.size a ≤ S102400.size a
  k5_off5_inb : ∀ (i : grid5.Coords) (k5_t1 : Fin k5_t1_loop.trips), ∀ a, (k5_off5 i k5_t1) a + S128x256.size a ≤ S102400x256.size a
  k5_off6_inb : ∀ i : grid5.Coords, ∀ a, (k5_off6 i) a + S128x256.size a ≤ S102400x256.size a
  hcore6 : grid6.bound 0 ≤ τ.nSC
  hsub6 : grid6.bound 1 ≤ τ.nSub
  k6_off1_inb : ∀ i : grid6.Coords, ∀ a, (k6_off1 i) a + S128.size a ≤ S102400.size a
  k6_t1_ok : k6_t1_loop.OK
  k6_off2_inb : ∀ (i : grid6.Coords) (k6_t1 : Fin k6_t1_loop.trips), ∀ a, (k6_off2 i k6_t1) a + S128.size a ≤ S102400.size a
  k6_off3_inb : ∀ (i : grid6.Coords) (k6_t1 : Fin k6_t1_loop.trips), ∀ a, (k6_off3 i k6_t1) a + S128x256.size a ≤ S102400x256.size a
  k6_off4_inb : ∀ (i : grid6.Coords) (k6_t1 : Fin k6_t1_loop.trips), ∀ (k6_h1 : k6_cond1 k6_t1 = 1#1), ∀ a, (k6_off4 i k6_t1) a + S128.size a ≤ S102400.size a
  k6_off5_inb : ∀ (i : grid6.Coords) (k6_t1 : Fin k6_t1_loop.trips), ∀ a, (k6_off5 i k6_t1) a + S128x256.size a ≤ S102400x256.size a
  k6_off6_inb : ∀ i : grid6.Coords, ∀ a, (k6_off6 i) a + S128x256.size a ≤ S102400x256.size a
  hcore7 : grid7.bound 0 ≤ τ.nSC
  hsub7 : grid7.bound 1 ≤ τ.nSub
  k7_off1_inb : ∀ i : grid7.Coords, ∀ a, (k7_off1 i) a + S128.size a ≤ S102400.size a
  k7_t1_ok : k7_t1_loop.OK
  k7_off2_inb : ∀ (i : grid7.Coords) (k7_t1 : Fin k7_t1_loop.trips), ∀ a, (k7_off2 i k7_t1) a + S128.size a ≤ S102400.size a
  k7_off3_inb : ∀ (i : grid7.Coords) (k7_t1 : Fin k7_t1_loop.trips), ∀ a, (k7_off3 i k7_t1) a + S128x256.size a ≤ S102400x256.size a
  k7_off4_inb : ∀ (i : grid7.Coords) (k7_t1 : Fin k7_t1_loop.trips), ∀ (k7_h1 : k7_cond1 k7_t1 = 1#1), ∀ a, (k7_off4 i k7_t1) a + S128.size a ≤ S102400.size a
  k7_off5_inb : ∀ (i : grid7.Coords) (k7_t1 : Fin k7_t1_loop.trips), ∀ a, (k7_off5 i k7_t1) a + S128x256.size a ≤ S102400x256.size a
  k7_off6_inb : ∀ i : grid7.Coords, ∀ a, (k7_off6 i) a + S128x256.size a ≤ S102400x256.size a
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x256.size a ≤ S102400x256.size a
  hwx8_0 : ∀ i : grid8.Coords, EltTy.bits .f32 = 32 ∨ (Rect.block (s := S102400x256) S4096x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x512.size a ≤ S256x512.size a
  hwx8_1 : ∀ i : grid8.Coords, EltTy.bits .f32 = 32 ∨ (Rect.block (s := S256x512) S256x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x512.size a ≤ S1x512.size a
  hwx8_3 : ∀ i : grid8.Coords, EltTy.bits .f32 = 32 ∨ (Rect.block (s := S1x512) S1x512.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x512.size a ≤ S1x512.size a
  hwx8_4 : ∀ i : grid8.Coords, EltTy.bits .f32 = 32 ∨ (Rect.block (s := S1x512) S1x512.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S4096x512.size a ≤ S819200x512.size a
  hwx8_5 : ∀ i : grid8.Coords, EltTy.bits .f32 = 32 ∨ (Rect.block (s := S819200x512) S4096x512.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hinb9_0 : ∀ (i : grid9.Coords) a, (cc9_transform_1 i a + 1) * S4096x256.size a ≤ S102400x256.size a
  hwx9_0 : ∀ i : grid9.Coords, EltTy.bits .f32 = 32 ∨ (Rect.block (s := S102400x256) S4096x256.size (cc9_transform_1 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_2 i = cc9_transform_2 i'
  hinb9_1 : ∀ (i : grid9.Coords) a, (cc9_transform_2 i a + 1) * S256x512.size a ≤ S256x512.size a
  hwx9_1 : ∀ i : grid9.Coords, EltTy.bits .f32 = 32 ∨ (Rect.block (s := S256x512) S256x512.size (cc9_transform_2 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_3 i = cc9_transform_3 i'
  hinb9_2 : ∀ (i : grid9.Coords) a, (cc9_transform_3 i a + 1) * S1x512.size a ≤ S1x512.size a
  hwx9_2 : ∀ i : grid9.Coords, EltTy.bits .f32 = 32 ∨ (Rect.block (s := S1x512) S1x512.size (cc9_transform_3 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_4 i = cc9_transform_4 i'
  hinb9_3 : ∀ (i : grid9.Coords) a, (cc9_transform_4 i a + 1) * S1x512.size a ≤ S1x512.size a
  hwx9_3 : ∀ i : grid9.Coords, EltTy.bits .f32 = 32 ∨ (Rect.block (s := S1x512) S1x512.size (cc9_transform_4 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_5 i = cc9_transform_5 i'
  hinb9_4 : ∀ (i : grid9.Coords) a, (cc9_transform_5 i a + 1) * S1x512.size a ≤ S1x512.size a
  hwx9_4 : ∀ i : grid9.Coords, EltTy.bits .f32 = 32 ∨ (Rect.block (s := S1x512) S1x512.size (cc9_transform_5 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_6 i = cc9_transform_6 i'
  hinb9_5 : ∀ (i : grid9.Coords) a, (cc9_transform_6 i a + 1) * S4096x512.size a ≤ S819200x512.size a
  hwx9_5 : ∀ i : grid9.Coords, EltTy.bits .f32 = 32 ∨ (Rect.block (s := S819200x512) S4096x512.size (cc9_transform_6 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_1 i = cc10_transform_1 i'
  hinb10_0 : ∀ (i : grid10.Coords) a, (cc10_transform_1 i a + 1) * S4096x256.size a ≤ S102400x256.size a
  hwx10_0 : ∀ i : grid10.Coords, EltTy.bits .f32 = 32 ∨ (Rect.block (s := S102400x256) S4096x256.size (cc10_transform_1 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_2 i = cc10_transform_2 i'
  hinb10_1 : ∀ (i : grid10.Coords) a, (cc10_transform_2 i a + 1) * S256x512.size a ≤ S256x512.size a
  hwx10_1 : ∀ i : grid10.Coords, EltTy.bits .f32 = 32 ∨ (Rect.block (s := S256x512) S256x512.size (cc10_transform_2 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_3 i = cc10_transform_3 i'
  hinb10_2 : ∀ (i : grid10.Coords) a, (cc10_transform_3 i a + 1) * S1x512.size a ≤ S1x512.size a
  hwx10_2 : ∀ i : grid10.Coords, EltTy.bits .f32 = 32 ∨ (Rect.block (s := S1x512) S1x512.size (cc10_transform_3 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_4 i = cc10_transform_4 i'
  hinb10_3 : ∀ (i : grid10.Coords) a, (cc10_transform_4 i a + 1) * S1x512.size a ≤ S1x512.size a
  hwx10_3 : ∀ i : grid10.Coords, EltTy.bits .f32 = 32 ∨ (Rect.block (s := S1x512) S1x512.size (cc10_transform_4 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_5 i = cc10_transform_5 i'
  hinb10_4 : ∀ (i : grid10.Coords) a, (cc10_transform_5 i a + 1) * S1x512.size a ≤ S1x512.size a
  hwx10_4 : ∀ i : grid10.Coords, EltTy.bits .f32 = 32 ∨ (Rect.block (s := S1x512) S1x512.size (cc10_transform_5 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_6 i = cc10_transform_6 i'
  hinb10_5 : ∀ (i : grid10.Coords) a, (cc10_transform_6 i a + 1) * S4096x512.size a ≤ S819200x512.size a
  hwx10_5 : ∀ i : grid10.Coords, EltTy.bits .f32 = 32 ∨ (Rect.block (s := S819200x512) S4096x512.size (cc10_transform_6 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_1 i = cc11_transform_1 i'
  hinb11_0 : ∀ (i : grid11.Coords) a, (cc11_transform_1 i a + 1) * S4096x256.size a ≤ S102400x256.size a
  hwx11_0 : ∀ i : grid11.Coords, EltTy.bits .f32 = 32 ∨ (Rect.block (s := S102400x256) S4096x256.size (cc11_transform_1 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_2 i = cc11_transform_2 i'
  hinb11_1 : ∀ (i : grid11.Coords) a, (cc11_transform_2 i a + 1) * S256x512.size a ≤ S256x512.size a
  hwx11_1 : ∀ i : grid11.Coords, EltTy.bits .f32 = 32 ∨ (Rect.block (s := S256x512) S256x512.size (cc11_transform_2 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_3 i = cc11_transform_3 i'
  hinb11_2 : ∀ (i : grid11.Coords) a, (cc11_transform_3 i a + 1) * S1x512.size a ≤ S1x512.size a
  hwx11_2 : ∀ i : grid11.Coords, EltTy.bits .f32 = 32 ∨ (Rect.block (s := S1x512) S1x512.size (cc11_transform_3 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_4 i = cc11_transform_4 i'
  hinb11_3 : ∀ (i : grid11.Coords) a, (cc11_transform_4 i a + 1) * S1x512.size a ≤ S1x512.size a
  hwx11_3 : ∀ i : grid11.Coords, EltTy.bits .f32 = 32 ∨ (Rect.block (s := S1x512) S1x512.size (cc11_transform_4 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_5 i = cc11_transform_5 i'
  hinb11_4 : ∀ (i : grid11.Coords) a, (cc11_transform_5 i a + 1) * S1x512.size a ≤ S1x512.size a
  hwx11_4 : ∀ i : grid11.Coords, EltTy.bits .f32 = 32 ∨ (Rect.block (s := S1x512) S1x512.size (cc11_transform_5 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_6 i = cc11_transform_6 i'
  hinb11_5 : ∀ (i : grid11.Coords) a, (cc11_transform_6 i a + 1) * S4096x512.size a ≤ S819200x512.size a
  hwx11_5 : ∀ i : grid11.Coords, EltTy.bits .f32 = 32 ∨ (Rect.block (s := S819200x512) S4096x512.size (cc11_transform_6 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_1 i = cc12_transform_1 i'
  hinb12_0 : ∀ (i : grid12.Coords) a, (cc12_transform_1 i a + 1) * S4096x256.size a ≤ S102400x256.size a
  hwx12_0 : ∀ i : grid12.Coords, EltTy.bits .f32 = 32 ∨ (Rect.block (s := S102400x256) S4096x256.size (cc12_transform_1 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_2 i = cc12_transform_2 i'
  hinb12_1 : ∀ (i : grid12.Coords) a, (cc12_transform_2 i a + 1) * S256x512.size a ≤ S256x512.size a
  hwx12_1 : ∀ i : grid12.Coords, EltTy.bits .f32 = 32 ∨ (Rect.block (s := S256x512) S256x512.size (cc12_transform_2 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_3 i = cc12_transform_3 i'
  hinb12_2 : ∀ (i : grid12.Coords) a, (cc12_transform_3 i a + 1) * S1x512.size a ≤ S1x512.size a
  hwx12_2 : ∀ i : grid12.Coords, EltTy.bits .f32 = 32 ∨ (Rect.block (s := S1x512) S1x512.size (cc12_transform_3 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_4 i = cc12_transform_4 i'
  hinb12_3 : ∀ (i : grid12.Coords) a, (cc12_transform_4 i a + 1) * S1x512.size a ≤ S1x512.size a
  hwx12_3 : ∀ i : grid12.Coords, EltTy.bits .f32 = 32 ∨ (Rect.block (s := S1x512) S1x512.size (cc12_transform_4 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_5 i = cc12_transform_5 i'
  hinb12_4 : ∀ (i : grid12.Coords) a, (cc12_transform_5 i a + 1) * S1x512.size a ≤ S1x512.size a
  hwx12_4 : ∀ i : grid12.Coords, EltTy.bits .f32 = 32 ∨ (Rect.block (s := S1x512) S1x512.size (cc12_transform_5 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_6 i = cc12_transform_6 i'
  hinb12_5 : ∀ (i : grid12.Coords) a, (cc12_transform_6 i a + 1) * S4096x512.size a ≤ S819200x512.size a
  hwx12_5 : ∀ i : grid12.Coords, EltTy.bits .f32 = 32 ∨ (Rect.block (s := S819200x512) S4096x512.size (cc12_transform_6 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_1 i = cc13_transform_1 i'
  hinb13_0 : ∀ (i : grid13.Coords) a, (cc13_transform_1 i a + 1) * S4096x256.size a ≤ S102400x256.size a
  hwx13_0 : ∀ i : grid13.Coords, EltTy.bits .f32 = 32 ∨ (Rect.block (s := S102400x256) S4096x256.size (cc13_transform_1 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_2 i = cc13_transform_2 i'
  hinb13_1 : ∀ (i : grid13.Coords) a, (cc13_transform_2 i a + 1) * S256x512.size a ≤ S256x512.size a
  hwx13_1 : ∀ i : grid13.Coords, EltTy.bits .f32 = 32 ∨ (Rect.block (s := S256x512) S256x512.size (cc13_transform_2 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_3 i = cc13_transform_3 i'
  hinb13_2 : ∀ (i : grid13.Coords) a, (cc13_transform_3 i a + 1) * S1x512.size a ≤ S1x512.size a
  hwx13_2 : ∀ i : grid13.Coords, EltTy.bits .f32 = 32 ∨ (Rect.block (s := S1x512) S1x512.size (cc13_transform_3 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_4 i = cc13_transform_4 i'
  hinb13_3 : ∀ (i : grid13.Coords) a, (cc13_transform_4 i a + 1) * S1x512.size a ≤ S1x512.size a
  hwx13_3 : ∀ i : grid13.Coords, EltTy.bits .f32 = 32 ∨ (Rect.block (s := S1x512) S1x512.size (cc13_transform_4 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_5 i = cc13_transform_5 i'
  hinb13_4 : ∀ (i : grid13.Coords) a, (cc13_transform_5 i a + 1) * S1x512.size a ≤ S1x512.size a
  hwx13_4 : ∀ i : grid13.Coords, EltTy.bits .f32 = 32 ∨ (Rect.block (s := S1x512) S1x512.size (cc13_transform_5 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_6 i = cc13_transform_6 i'
  hinb13_5 : ∀ (i : grid13.Coords) a, (cc13_transform_6 i a + 1) * S4096x512.size a ≤ S819200x512.size a
  hwx13_5 : ∀ i : grid13.Coords, EltTy.bits .f32 = 32 ∨ (Rect.block (s := S819200x512) S4096x512.size (cc13_transform_6 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_1 i = cc14_transform_1 i'
  hinb14_0 : ∀ (i : grid14.Coords) a, (cc14_transform_1 i a + 1) * S4096x256.size a ≤ S102400x256.size a
  hwx14_0 : ∀ i : grid14.Coords, EltTy.bits .f32 = 32 ∨ (Rect.block (s := S102400x256) S4096x256.size (cc14_transform_1 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_2 i = cc14_transform_2 i'
  hinb14_1 : ∀ (i : grid14.Coords) a, (cc14_transform_2 i a + 1) * S256x512.size a ≤ S256x512.size a
  hwx14_1 : ∀ i : grid14.Coords, EltTy.bits .f32 = 32 ∨ (Rect.block (s := S256x512) S256x512.size (cc14_transform_2 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_3 i = cc14_transform_3 i'
  hinb14_2 : ∀ (i : grid14.Coords) a, (cc14_transform_3 i a + 1) * S1x512.size a ≤ S1x512.size a
  hwx14_2 : ∀ i : grid14.Coords, EltTy.bits .f32 = 32 ∨ (Rect.block (s := S1x512) S1x512.size (cc14_transform_3 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_4 i = cc14_transform_4 i'
  hinb14_3 : ∀ (i : grid14.Coords) a, (cc14_transform_4 i a + 1) * S1x512.size a ≤ S1x512.size a
  hwx14_3 : ∀ i : grid14.Coords, EltTy.bits .f32 = 32 ∨ (Rect.block (s := S1x512) S1x512.size (cc14_transform_4 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_5 i = cc14_transform_5 i'
  hinb14_4 : ∀ (i : grid14.Coords) a, (cc14_transform_5 i a + 1) * S1x512.size a ≤ S1x512.size a
  hwx14_4 : ∀ i : grid14.Coords, EltTy.bits .f32 = 32 ∨ (Rect.block (s := S1x512) S1x512.size (cc14_transform_5 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_6 i = cc14_transform_6 i'
  hinb14_5 : ∀ (i : grid14.Coords) a, (cc14_transform_6 i a + 1) * S4096x512.size a ≤ S819200x512.size a
  hwx14_5 : ∀ i : grid14.Coords, EltTy.bits .f32 = 32 ∨ (Rect.block (s := S819200x512) S4096x512.size (cc14_transform_6 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_1 i = cc15_transform_1 i'
  hinb15_0 : ∀ (i : grid15.Coords) a, (cc15_transform_1 i a + 1) * S4096x256.size a ≤ S102400x256.size a
  hwx15_0 : ∀ i : grid15.Coords, EltTy.bits .f32 = 32 ∨ (Rect.block (s := S102400x256) S4096x256.size (cc15_transform_1 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_2 i = cc15_transform_2 i'
  hinb15_1 : ∀ (i : grid15.Coords) a, (cc15_transform_2 i a + 1) * S256x512.size a ≤ S256x512.size a
  hwx15_1 : ∀ i : grid15.Coords, EltTy.bits .f32 = 32 ∨ (Rect.block (s := S256x512) S256x512.size (cc15_transform_2 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_3 i = cc15_transform_3 i'
  hinb15_2 : ∀ (i : grid15.Coords) a, (cc15_transform_3 i a + 1) * S1x512.size a ≤ S1x512.size a
  hwx15_2 : ∀ i : grid15.Coords, EltTy.bits .f32 = 32 ∨ (Rect.block (s := S1x512) S1x512.size (cc15_transform_3 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_4 i = cc15_transform_4 i'
  hinb15_3 : ∀ (i : grid15.Coords) a, (cc15_transform_4 i a + 1) * S1x512.size a ≤ S1x512.size a
  hwx15_3 : ∀ i : grid15.Coords, EltTy.bits .f32 = 32 ∨ (Rect.block (s := S1x512) S1x512.size (cc15_transform_4 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_5 i = cc15_transform_5 i'
  hinb15_4 : ∀ (i : grid15.Coords) a, (cc15_transform_5 i a + 1) * S1x512.size a ≤ S1x512.size a
  hwx15_4 : ∀ i : grid15.Coords, EltTy.bits .f32 = 32 ∨ (Rect.block (s := S1x512) S1x512.size (cc15_transform_5 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_6 i = cc15_transform_6 i'
  hinb15_5 : ∀ (i : grid15.Coords) a, (cc15_transform_6 i a + 1) * S4096x512.size a ≤ S819200x512.size a
  hwx15_5 : ∀ i : grid15.Coords, EltTy.bits .f32 = 32 ∨ (Rect.block (s := S819200x512) S4096x512.size (cc15_transform_6 i) (hinb15_5 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4
abbrev cc0_scoped5 : DmaSems sig S_ := SemArray.consecutive 9 S_ hcc0_scoped5
abbrev cc0_scoped6 : DmaSems sig S_ := SemArray.consecutive 10 S_ hcc0_scoped6
abbrev cc0_scoped7 : DmaSems sig S_ := SemArray.consecutive 11 S_ hcc0_scoped7
abbrev cc0_scoped8 : DmaSems sig S_ := SemArray.consecutive 12 S_ hcc0_scoped8
abbrev cc1_scratch6 : DmaSems sig S_ := SemArray.consecutive 13 S_ hcc1_scratch6
abbrev cc1_scratch7 : DmaSems sig S_ := SemArray.consecutive 14 S_ hcc1_scratch7
abbrev cc1_scratch8 : DmaSems sig S_ := SemArray.consecutive 15 S_ hcc1_scratch8
abbrev cc1_scratch9 : DmaSems sig S_ := SemArray.consecutive 16 S_ hcc1_scratch9
abbrev cc1_scoped0 : DmaSems sig S_ := SemArray.consecutive 17 S_ hcc1_scoped0
abbrev cc1_scoped1 : DmaSems sig S_ := SemArray.consecutive 18 S_ hcc1_scoped1
abbrev cc1_scoped2 : DmaSems sig S_ := SemArray.consecutive 19 S_ hcc1_scoped2
abbrev cc1_scoped3 : DmaSems sig S_ := SemArray.consecutive 20 S_ hcc1_scoped3
abbrev cc1_scoped4 : DmaSems sig S_ := SemArray.consecutive 21 S_ hcc1_scoped4
abbrev cc1_scoped5 : DmaSems sig S_ := SemArray.consecutive 22 S_ hcc1_scoped5
abbrev cc1_scoped6 : DmaSems sig S_ := SemArray.consecutive 23 S_ hcc1_scoped6
abbrev cc1_scoped7 : DmaSems sig S_ := SemArray.consecutive 24 S_ hcc1_scoped7
abbrev cc1_scoped8 : DmaSems sig S_ := SemArray.consecutive 25 S_ hcc1_scoped8
abbrev cc2_scratch6 : DmaSems sig S_ := SemArray.consecutive 26 S_ hcc2_scratch6
abbrev cc2_scratch7 : DmaSems sig S_ := SemArray.consecutive 27 S_ hcc2_scratch7
abbrev cc2_scratch8 : DmaSems sig S_ := SemArray.consecutive 28 S_ hcc2_scratch8
abbrev cc2_scratch9 : DmaSems sig S_ := SemArray.consecutive 29 S_ hcc2_scratch9
abbrev cc2_scoped0 : DmaSems sig S_ := SemArray.consecutive 30 S_ hcc2_scoped0
abbrev cc2_scoped1 : DmaSems sig S_ := SemArray.consecutive 31 S_ hcc2_scoped1
abbrev cc2_scoped2 : DmaSems sig S_ := SemArray.consecutive 32 S_ hcc2_scoped2
abbrev cc2_scoped3 : DmaSems sig S_ := SemArray.consecutive 33 S_ hcc2_scoped3
abbrev cc2_scoped4 : DmaSems sig S_ := SemArray.consecutive 34 S_ hcc2_scoped4
abbrev cc2_scoped5 : DmaSems sig S_ := SemArray.consecutive 35 S_ hcc2_scoped5
abbrev cc2_scoped6 : DmaSems sig S_ := SemArray.consecutive 36 S_ hcc2_scoped6
abbrev cc2_scoped7 : DmaSems sig S_ := SemArray.consecutive 37 S_ hcc2_scoped7
abbrev cc2_scoped8 : DmaSems sig S_ := SemArray.consecutive 38 S_ hcc2_scoped8
abbrev cc3_scratch6 : DmaSems sig S_ := SemArray.consecutive 39 S_ hcc3_scratch6
abbrev cc3_scratch7 : DmaSems sig S_ := SemArray.consecutive 40 S_ hcc3_scratch7
abbrev cc3_scratch8 : DmaSems sig S_ := SemArray.consecutive 41 S_ hcc3_scratch8
abbrev cc3_scratch9 : DmaSems sig S_ := SemArray.consecutive 42 S_ hcc3_scratch9
abbrev cc3_scoped0 : DmaSems sig S_ := SemArray.consecutive 43 S_ hcc3_scoped0
abbrev cc3_scoped1 : DmaSems sig S_ := SemArray.consecutive 44 S_ hcc3_scoped1
abbrev cc3_scoped2 : DmaSems sig S_ := SemArray.consecutive 45 S_ hcc3_scoped2
abbrev cc3_scoped3 : DmaSems sig S_ := SemArray.consecutive 46 S_ hcc3_scoped3
abbrev cc3_scoped4 : DmaSems sig S_ := SemArray.consecutive 47 S_ hcc3_scoped4
abbrev cc3_scoped5 : DmaSems sig S_ := SemArray.consecutive 48 S_ hcc3_scoped5
abbrev cc3_scoped6 : DmaSems sig S_ := SemArray.consecutive 49 S_ hcc3_scoped6
abbrev cc3_scoped7 : DmaSems sig S_ := SemArray.consecutive 50 S_ hcc3_scoped7
abbrev cc3_scoped8 : DmaSems sig S_ := SemArray.consecutive 51 S_ hcc3_scoped8
abbrev cc4_scratch6 : DmaSems sig S_ := SemArray.consecutive 52 S_ hcc4_scratch6
abbrev cc4_scratch7 : DmaSems sig S_ := SemArray.consecutive 53 S_ hcc4_scratch7
abbrev cc4_scratch8 : DmaSems sig S_ := SemArray.consecutive 54 S_ hcc4_scratch8
abbrev cc4_scratch9 : DmaSems sig S_ := SemArray.consecutive 55 S_ hcc4_scratch9
abbrev cc4_scoped0 : DmaSems sig S_ := SemArray.consecutive 56 S_ hcc4_scoped0
abbrev cc4_scoped1 : DmaSems sig S_ := SemArray.consecutive 57 S_ hcc4_scoped1
abbrev cc4_scoped2 : DmaSems sig S_ := SemArray.consecutive 58 S_ hcc4_scoped2
abbrev cc4_scoped3 : DmaSems sig S_ := SemArray.consecutive 59 S_ hcc4_scoped3
abbrev cc4_scoped4 : DmaSems sig S_ := SemArray.consecutive 60 S_ hcc4_scoped4
abbrev cc4_scoped5 : DmaSems sig S_ := SemArray.consecutive 61 S_ hcc4_scoped5
abbrev cc4_scoped6 : DmaSems sig S_ := SemArray.consecutive 62 S_ hcc4_scoped6
abbrev cc4_scoped7 : DmaSems sig S_ := SemArray.consecutive 63 S_ hcc4_scoped7
abbrev cc4_scoped8 : DmaSems sig S_ := SemArray.consecutive 64 S_ hcc4_scoped8
abbrev cc5_scratch6 : DmaSems sig S_ := SemArray.consecutive 65 S_ hcc5_scratch6
abbrev cc5_scratch7 : DmaSems sig S_ := SemArray.consecutive 66 S_ hcc5_scratch7
abbrev cc5_scratch8 : DmaSems sig S_ := SemArray.consecutive 67 S_ hcc5_scratch8
abbrev cc5_scratch9 : DmaSems sig S_ := SemArray.consecutive 68 S_ hcc5_scratch9
abbrev cc5_scoped0 : DmaSems sig S_ := SemArray.consecutive 69 S_ hcc5_scoped0
abbrev cc5_scoped1 : DmaSems sig S_ := SemArray.consecutive 70 S_ hcc5_scoped1
abbrev cc5_scoped2 : DmaSems sig S_ := SemArray.consecutive 71 S_ hcc5_scoped2
abbrev cc5_scoped3 : DmaSems sig S_ := SemArray.consecutive 72 S_ hcc5_scoped3
abbrev cc5_scoped4 : DmaSems sig S_ := SemArray.consecutive 73 S_ hcc5_scoped4
abbrev cc5_scoped5 : DmaSems sig S_ := SemArray.consecutive 74 S_ hcc5_scoped5
abbrev cc5_scoped6 : DmaSems sig S_ := SemArray.consecutive 75 S_ hcc5_scoped6
abbrev cc5_scoped7 : DmaSems sig S_ := SemArray.consecutive 76 S_ hcc5_scoped7
abbrev cc5_scoped8 : DmaSems sig S_ := SemArray.consecutive 77 S_ hcc5_scoped8
abbrev cc6_scratch6 : DmaSems sig S_ := SemArray.consecutive 78 S_ hcc6_scratch6
abbrev cc6_scratch7 : DmaSems sig S_ := SemArray.consecutive 79 S_ hcc6_scratch7
abbrev cc6_scratch8 : DmaSems sig S_ := SemArray.consecutive 80 S_ hcc6_scratch8
abbrev cc6_scratch9 : DmaSems sig S_ := SemArray.consecutive 81 S_ hcc6_scratch9
abbrev cc6_scoped0 : DmaSems sig S_ := SemArray.consecutive 82 S_ hcc6_scoped0
abbrev cc6_scoped1 : DmaSems sig S_ := SemArray.consecutive 83 S_ hcc6_scoped1
abbrev cc6_scoped2 : DmaSems sig S_ := SemArray.consecutive 84 S_ hcc6_scoped2
abbrev cc6_scoped3 : DmaSems sig S_ := SemArray.consecutive 85 S_ hcc6_scoped3
abbrev cc6_scoped4 : DmaSems sig S_ := SemArray.consecutive 86 S_ hcc6_scoped4
abbrev cc6_scoped5 : DmaSems sig S_ := SemArray.consecutive 87 S_ hcc6_scoped5
abbrev cc6_scoped6 : DmaSems sig S_ := SemArray.consecutive 88 S_ hcc6_scoped6
abbrev cc6_scoped7 : DmaSems sig S_ := SemArray.consecutive 89 S_ hcc6_scoped7
abbrev cc6_scoped8 : DmaSems sig S_ := SemArray.consecutive 90 S_ hcc6_scoped8
abbrev cc7_scratch6 : DmaSems sig S_ := SemArray.consecutive 91 S_ hcc7_scratch6
abbrev cc7_scratch7 : DmaSems sig S_ := SemArray.consecutive 92 S_ hcc7_scratch7
abbrev cc7_scratch8 : DmaSems sig S_ := SemArray.consecutive 93 S_ hcc7_scratch8
abbrev cc7_scratch9 : DmaSems sig S_ := SemArray.consecutive 94 S_ hcc7_scratch9
abbrev cc7_scoped0 : DmaSems sig S_ := SemArray.consecutive 95 S_ hcc7_scoped0
abbrev cc7_scoped1 : DmaSems sig S_ := SemArray.consecutive 96 S_ hcc7_scoped1
abbrev cc7_scoped2 : DmaSems sig S_ := SemArray.consecutive 97 S_ hcc7_scoped2
abbrev cc7_scoped3 : DmaSems sig S_ := SemArray.consecutive 98 S_ hcc7_scoped3
abbrev cc7_scoped4 : DmaSems sig S_ := SemArray.consecutive 99 S_ hcc7_scoped4
abbrev cc7_scoped5 : DmaSems sig S_ := SemArray.consecutive 100 S_ hcc7_scoped5
abbrev cc7_scoped6 : DmaSems sig S_ := SemArray.consecutive 101 S_ hcc7_scoped6
abbrev cc7_scoped7 : DmaSems sig S_ := SemArray.consecutive 102 S_ hcc7_scoped7
abbrev cc7_scoped8 : DmaSems sig S_ := SemArray.consecutive 103 S_ hcc7_scoped8
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win8_0 : Pipeline.Window sig grid8 :=
  Pipeline.Window.ofSpec (Memref.whole main_v9) S4096x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg4) S256x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v2) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v3) S1x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v4) S1x512.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v45) S4096x512.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v14) S4096x256.size cc9_transform_1 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg4) S256x512.size cc9_transform_2 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v2) S1x512.size cc9_transform_3 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v3) S1x512.size cc9_transform_4 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v4) S1x512.size cc9_transform_5 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v46) S4096x512.size cc9_transform_6 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v19) S4096x256.size cc10_transform_1 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg4) S256x512.size cc10_transform_2 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v2) S1x512.size cc10_transform_3 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v3) S1x512.size cc10_transform_4 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v4) S1x512.size cc10_transform_5 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v47) S4096x512.size cc10_transform_6 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v24) S4096x256.size cc11_transform_1 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg4) S256x512.size cc11_transform_2 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v2) S1x512.size cc11_transform_3 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v3) S1x512.size cc11_transform_4 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v4) S1x512.size cc11_transform_5 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v48) S4096x512.size cc11_transform_6 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v29) S4096x256.size cc12_transform_1 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg4) S256x512.size cc12_transform_2 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v2) S1x512.size cc12_transform_3 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v3) S1x512.size cc12_transform_4 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v4) S1x512.size cc12_transform_5 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v49) S4096x512.size cc12_transform_6 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v34) S4096x256.size cc13_transform_1 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg4) S256x512.size cc13_transform_2 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v2) S1x512.size cc13_transform_3 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v3) S1x512.size cc13_transform_4 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v4) S1x512.size cc13_transform_5 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v50) S4096x512.size cc13_transform_6 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v39) S4096x256.size cc14_transform_1 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg4) S256x512.size cc14_transform_2 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v2) S1x512.size cc14_transform_3 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v3) S1x512.size cc14_transform_4 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v4) S1x512.size cc14_transform_5 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v51) S4096x512.size cc14_transform_6 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v44) S4096x256.size cc15_transform_1 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg4) S256x512.size cc15_transform_2 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v2) S1x512.size cc15_transform_3 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v3) S1x512.size cc15_transform_4 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v4) S1x512.size cc15_transform_5 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v52) S4096x512.size cc15_transform_6 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

class Facts : Prop extends Facts₀ where

variable [Facts]
-- ==== ReferenceIdeal.lean ====
abbrev S4096x200 : Shape := ⟨2, ![4096, 200]⟩
abbrev S100000x128 : Shape := ⟨2, ![100000, 128]⟩
abbrev S1000x128 : Shape := ⟨2, ![1000, 128]⟩
abbrev S256x512 : Shape := ⟨2, ![256, 512]⟩
abbrev S512 : Shape := ⟨1, ![512]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x200x256 : Shape := ⟨3, ![4096, 200, 256]⟩
abbrev S4096x200x512 : Shape := ⟨3, ![4096, 200, 512]⟩
abbrev S1x1x512 : Shape := ⟨3, ![1, 1, 512]⟩

abbrev nBuf : Space → Nat
  | .hbm => 103
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S100000x128, .f32⟩
  | .hbm, ⟨3, _⟩ => ⟨S1000x128, .f32⟩
  | .hbm, ⟨4, _⟩ => ⟨S256x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .i32⟩
  | .hbm, ⟨9, _⟩ => ⟨S4096x200, .i32⟩
  | .hbm, ⟨10, _⟩ => ⟨S4096x200, .i1⟩
  | .hbm, ⟨11, _⟩ => ⟨S_, .i32⟩
  | .hbm, ⟨12, _⟩ => ⟨S4096x200, .i32⟩
  | .hbm, ⟨13, _⟩ => ⟨S4096x200, .i32⟩
  | .hbm, ⟨14, _⟩ => ⟨S4096x200, .i32⟩
  | .hbm, ⟨15, _⟩ => ⟨S4096x200x1, .i32⟩
  | .hbm, ⟨16, _⟩ => ⟨S1, .i32⟩
  | .hbm, ⟨17, _⟩ => ⟨S_, .i32⟩
  | .hbm, ⟨18, _⟩ => ⟨S4096x200x1, .i32⟩
  | .hbm, ⟨19, _⟩ => ⟨S4096x200x1, .i1⟩
  | .hbm, ⟨20, _⟩ => ⟨S1x1x1, .i32⟩
  | .hbm, ⟨21, _⟩ => ⟨S4096x200x1, .i32⟩
  | .hbm, ⟨22, _⟩ => ⟨S4096x200x1, .i1⟩
  | .hbm, ⟨23, _⟩ => ⟨S4096x200x1, .i1⟩
  | .hbm, ⟨24, _⟩ => ⟨S_, .i1⟩
  | .hbm, ⟨25, _⟩ => ⟨S4096x200, .i1⟩
  | .hbm, ⟨26, _⟩ => ⟨S4096x200x128, .f32⟩
  | .hbm, ⟨27, _⟩ => ⟨S4096x200x128, .i1⟩
  | .hbm, ⟨28, _⟩ => ⟨S_, .f32⟩
  | .hbm, ⟨29, _⟩ => ⟨S4096x200x128, .f32⟩
  | .hbm, ⟨30, _⟩ => ⟨S4096x200x128, .f32⟩
  | .hbm, ⟨31, _⟩ => ⟨S_, .i32⟩
  | .hbm, ⟨32, _⟩ => ⟨S4096x200, .i32⟩
  | .hbm, ⟨33, _⟩ => ⟨S4096x200, .i1⟩
  | .hbm, ⟨34, _⟩ => ⟨S_, .i32⟩
  | .hbm, ⟨35, _⟩ => ⟨S4096x200, .i32⟩
  | .hbm, ⟨36, _⟩ => ⟨S4096x200, .i32⟩
  | .hbm, ⟨37, _⟩ => ⟨S4096x200, .i32⟩
  | .hbm, ⟨38, _⟩ => ⟨S4096x200x1, .i32⟩
  | .hbm, ⟨39, _⟩ => ⟨S1, .i32⟩
  | .hbm, ⟨40, _⟩ => ⟨S_, .i32⟩
  | .hbm, ⟨41, _⟩ => ⟨S4096x200x1, .i32⟩
  | .hbm, ⟨42, _⟩ => ⟨S4096x200x1, .i1⟩
  | .hbm, ⟨43, _⟩ => ⟨S1x1x1, .i32⟩
  | .hbm, ⟨44, _⟩ => ⟨S4096x200x1, .i32⟩
  | .hbm, ⟨45, _⟩ => ⟨S4096x200x1, .i1⟩
  | .hbm, ⟨46, _⟩ => ⟨S4096x200x1, .i1⟩
  | .hbm, ⟨47, _⟩ => ⟨S_, .i1⟩
  | .hbm, ⟨48, _⟩ => ⟨S4096x200, .i1⟩
  | .hbm, ⟨49, _⟩ => ⟨S4096x200x128, .f32⟩
  | .hbm, ⟨50, _⟩ => ⟨S4096x200x128, .i1⟩
  | .hbm, ⟨51, _⟩ => ⟨S_, .f32⟩
  | .hbm, ⟨52, _⟩ => ⟨S4096x200x128, .f32⟩
  | .hbm, ⟨53, _⟩ => ⟨S4096x200x128, .f32⟩
  | .hbm, ⟨54, _⟩ => ⟨S4096x200x256, .f32⟩
  | .hbm, ⟨55, _⟩ => ⟨S4096x200x512, .f32⟩
  | .hbm, ⟨56, _⟩ => ⟨S1x1x512, .f32⟩
  | .hbm, ⟨57, _⟩ => ⟨S4096x200x512, .f32⟩
  | .hbm, ⟨58, _⟩ => ⟨S4096x200x512, .f32⟩
  | .hbm, ⟨59, _⟩ => ⟨S_, .f32⟩
  | .hbm, ⟨60, _⟩ => ⟨S4096x200, .f32⟩
  | .hbm, ⟨61, _⟩ => ⟨S4096x200x1, .f32⟩
  | .hbm, ⟨62, _⟩ => ⟨S_, .f32⟩
  | .hbm, ⟨63, _⟩ => ⟨S4096x200x1, .f32⟩
  | .hbm, ⟨64, _⟩ => ⟨S4096x200x1, .f32⟩
  | .hbm, ⟨65, _⟩ => ⟨S_, .i32⟩
  | .hbm, ⟨66, _⟩ => ⟨S_, .f32⟩
  | .hbm, ⟨67, _⟩ => ⟨S4096x200, .f32⟩
  | .hbm, ⟨68, _⟩ => ⟨S4096x200x1, .f32⟩
  | .hbm, ⟨69, _⟩ => ⟨S_, .f32⟩
  | .hbm, ⟨70, _⟩ => ⟨S4096x200x1, .f32⟩
  | .hbm, ⟨71, _⟩ => ⟨S4096x200x1, .f32⟩
  | .hbm, ⟨72, _⟩ => ⟨S4096x200x512, .f32⟩
  | .hbm, ⟨73, _⟩ => ⟨S4096x200x512, .f32⟩
  | .hbm, ⟨74, _⟩ => ⟨S4096x200x512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4096x200, .f32⟩
  | .hbm, ⟨80, _⟩ => ⟨S4096x200x1, .f32⟩
  | .hbm, ⟨81, _⟩ => ⟨S4096x200x1, .f32⟩
  | .hbm, ⟨82, _⟩ => ⟨S4096x200x1, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S4096x200x1, .f32⟩
  | .hbm, ⟨88, _⟩ => ⟨S4096x200x1, .f32⟩
  | .hbm, ⟨89, _⟩ => ⟨S4096x200x512, .f32⟩
  | .hbm, ⟨90, _⟩ => ⟨S4096x200x512, .f32⟩
  | .hbm, ⟨91, _⟩ => ⟨S_, .f32⟩
  | .hbm, ⟨92, _⟩ => ⟨S4096x200x1, .f32⟩
  | .hbm, ⟨93, _⟩ => ⟨S4096x200x1, .f32⟩
  | .hbm, ⟨94, _⟩ => ⟨S4096x200x1, .f32⟩
  | .hbm, ⟨95, _⟩ => ⟨S4096x200x512, .f32⟩
  | .hbm, ⟨96, _⟩ => ⟨S4096x200x512, .f32⟩
  | .hbm, ⟨97, _⟩ => ⟨S1x1x512, .f32⟩
  | .hbm, ⟨98, _⟩ => ⟨S4096x200x512, .f32⟩
  | .hbm, ⟨99, _⟩ => ⟨S4096x200x512, .f32⟩
  | .hbm, ⟨100, _⟩ => ⟨S1x1x512, .f32⟩
  | .hbm, ⟨101, _⟩ => ⟨S4096x200x512, .f32⟩
  | .hbm, ⟨102, _⟩ => ⟨S4096x200x512, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst : Ref sig .tc := ⟨.hbm, 59, rfl⟩
abbrev main_v7 : Ref sig .tc := ⟨.hbm, 60, rfl⟩
abbrev main_v8 : Ref sig .tc := ⟨.hbm, 61, rfl⟩
abbrev main_cst_0 : Ref sig .tc := ⟨.hbm, 62, rfl⟩
abbrev main_v9 : Ref sig .tc := ⟨.hbm, 63, rfl⟩
abbrev main_v10 : Ref sig .tc := ⟨.hbm, 64, rfl⟩
abbrev main_c : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_cst_3 : Ref sig .tc := ⟨.hbm, 83, rfl⟩
abbrev main_call2_v13 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_cst_1 : Ref sig .tc := ⟨.hbm, 91, rfl⟩
abbrev main_v14 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  concatenates_S4096x200x128_S4096x200x128_S4096x200x256_d2 : Shape.Concatenates [S4096x200x128, S4096x200x128] S4096x200x256 2
  bcast_S512_S1x1x512_2 : S512.BroadcastsInDim S1x1x512 (![2] : Fin 1 → Fin S1x1x512.rank)
  bcast_S1x1x512_S4096x200x512_0_1_2 : S1x1x512.BroadcastsInDim S4096x200x512 (![0, 1, 2] : Fin 3 → Fin S4096x200x512.rank)
  reducesTo_S4096x200x512_S4096x200_d2 : S4096x200x512.ReducesTo [2] S4096x200
  bcast_S4096x200x1_S4096x200x512_0_1_2 : S4096x200x1.BroadcastsInDim S4096x200x512 (![0, 1, 2] : Fin 3 → Fin S4096x200x512.rank)
  gather_S100000x128_S4096x200x1_S4096x200x128_2_0_n_n_0_2_1128_wf : GatherDims.WF S100000x128 S4096x200x1 S4096x200x128 [2] [0] [] [0] [] 2 ![1, 128]
  gather_S1000x128_S4096x200x1_S4096x200x128_2_0_n_n_0_2_1128_wf : GatherDims.WF S1000x128 S4096x200x1 S4096x200x128 [2] [0] [] [0] [] 2 ![1, 128]
  dot_S4096x200x256_S256x512_S4096x200x512_2_0_01_1_n_n_wf : DotDims.WF S4096x200x256 S256x512 S4096x200x512 [2] [0] [0, 1] [1] [] []

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf
def gather_S1000x128_S4096x200x1_S4096x200x128_2_0_n_n_0_2_1128 : GatherDims S1000x128 S4096x200x1 S4096x200x128 where
  offsetDims := [2]
  collapsedSliceDims := [0]
  operandBatchingDims := []
  startIndicesBatchingDims := []
  startIndexMap := [0]
  indexVectorDim := 2
  sliceSizes := ![1, 128]
  wf := gather_S1000x128_S4096x200x1_S4096x200x128_2_0_n_n_0_2_1128_wf
def dot_S4096x200x256_S256x512_S4096x200x512_2_0_01_1_n_n : DotDims S4096x200x256 S256x512 S4096x200x512 where
  lhsContracting := [2]
  rhsContracting := [0]
  lhsNonContracting := [0, 1]
  rhsNonContracting := [1]
  lhsBatch := []
  rhsBatch := []
  wf := dot_S4096x200x256_S256x512_S4096x200x512_2_0_01_1_n_n_wf

class Facts : Prop extends Facts₀ where

variable [Facts]
-- ==== Proof.RefRun.lean ====
/-
  The reference program as a straight line. Its @main calls five private functions of its module (the two table
  look-ups, each with a select on the sign of the index inside; the variance, with a select on its
  divisor inside); a call runs the callee's body on the call's own buffers, so @main is the list of
  the 95 operations in the order they run: 23 for the look-up in the id table, 23 for the one in the
  category table, the concatenation, the product with the weights, the bias, the row sums and their
  quotient by 512, 23 for the variance, and the normalisation's last fourteen.
-/
import proofs.«204770_g8065948582451_cont_9to1c4b_476_56_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's 95 operations, in the order they run: each call replaced by its callee's operations over
    the call's own buffers. -/
abbrev ops : List (HloOp τ sig (Elt F)) :=
  [
    StableHlo.TRef.nullary main_call0.c (constantI S_ 32 0#32),
    StableHlo.TRef.unary main_call0.c main_call0.v0 (broadcastInDim S4096x200 ![] bcast_S_S4096x200),
    StableHlo.TRef.binary (.of main_arg0) main_call0.v0 main_call0.v1 (cmpi .slt),
    StableHlo.TRef.nullary main_call0.c_0 (constantI S_ 32 100000#32),
    StableHlo.TRef.unary main_call0.c_0 main_call0.v2 (broadcastInDim S4096x200 ![] bcast_S_S4096x200),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S4096x200x1 ![0, 1] bcast_S4096x200_S4096x200x1_0_1),
    StableHlo.TRef.nullary main_call0.c_1 (constantI S1 32 99999#32),
    StableHlo.TRef.nullary main_call0.c_2 (constantI S_ 32 0#32),
    StableHlo.TRef.unary main_call0.c_2 main_call0.v6 (broadcastInDim S4096x200x1 ![] bcast_S_S4096x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x200x1 ![0, 1, 2] bcast_S1x1x1_S4096x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x200x1_S4096x200_d2 h_S_),
    StableHlo.TRef.binary (.of main_arg2) main_call0.v5 main_call0.v13 (fun x i => Host.gather gather_S100000x128_S4096x200x1_S4096x200x128_2_0_n_n_0_2_1128 x i),
    StableHlo.TRef.unary main_call0.v12 main_call0.v14 (broadcastInDim S4096x200x128 ![0, 1] bcast_S4096x200_S4096x200x128_0_1),
    StableHlo.TRef.nullary main_call0.cst (constant S_ .f32 0x7FC00000#32),
    StableHlo.TRef.unary main_call0.cst main_call0.v15 (broadcastInDim S4096x200x128 ![] bcast_S_S4096x200x128),
    StableHlo.TRef.ternary main_call0.v14 main_call0.v13 main_call0.v15 main_call0.v16 select,
    StableHlo.TRef.nullary main_call1.c (constantI S_ 32 0#32),
    StableHlo.TRef.unary main_call1.c main_call1.v0 (broadcastInDim S4096x200 ![] bcast_S_S4096x200),
    StableHlo.TRef.binary (.of main_arg1) main_call1.v0 main_call1.v1 (cmpi .slt),
    StableHlo.TRef.nullary main_call1.c_0 (constantI S_ 32 1000#32),
    StableHlo.TRef.unary main_call1.c_0 main_call1.v2 (broadcastInDim S4096x200 ![] bcast_S_S4096x200),
    StableHlo.TRef.binary (.of main_arg1) main_call1.v2 main_call1.v3 addi,
    StableHlo.TRef.ternary main_call1.v1 main_call1.v3 (.of main_arg1) main_call1.call0.v0 select,
    StableHlo.TRef.unary main_call1.call0.v0 main_call1.v5 (broadcastInDim S4096x200x1 ![0, 1] bcast_S4096x200_S4096x200x1_0_1),
    StableHlo.TRef.nullary main_call1.c_1 (constantI S1 32 999#32),
    StableHlo.TRef.nullary main_call1.c_2 (constantI S_ 32 0#32),
    StableHlo.TRef.unary main_call1.c_2 main_call1.v6 (broadcastInDim S4096x200x1 ![] bcast_S_S4096x200x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S4096x200x1 ![0, 1, 2] bcast_S1x1x1_S4096x200x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x200x1_S4096x200_d2 h_S_),
    StableHlo.TRef.binary (.of main_arg3) main_call1.v5 main_call1.v13 (fun x i => Host.gather gather_S1000x128_S4096x200x1_S4096x200x128_2_0_n_n_0_2_1128 x i),
    StableHlo.TRef.unary main_call1.v12 main_call1.v14 (broadcastInDim S4096x200x128 ![0, 1] bcast_S4096x200_S4096x200x128_0_1),
    StableHlo.TRef.nullary main_call1.cst (constant S_ .f32 0x7FC00000#32),
    StableHlo.TRef.unary main_call1.cst main_call1.v15 (broadcastInDim S4096x200x128 ![] bcast_S_S4096x200x128),
    StableHlo.TRef.ternary main_call1.v14 main_call1.v13 main_call1.v15 main_call1.v16 select,
    StableHlo.binary main_v0 main_v1 main_v2 ((fun a b => concatenate S4096x200x256 2 [⟨S4096x200x128, a⟩, ⟨S4096x200x128, b⟩] concatenates_S4096x200x128_S4096x200x128_S4096x200x256_d2) : (⟨S4096x200x128, .f32⟩ : BufTy).Contents (Elt F) → (⟨S4096x200x128, .f32⟩ : BufTy).Contents (Elt F) → (⟨S4096x200x256, .f32⟩ : BufTy).Contents (Elt F)),
    StableHlo.binary main_v2 main_arg4 main_v3 ((fun l r => Host.dotGeneral dot_S4096x200x256_S256x512_S4096x200x512_2_0_01_1_n_n none l r) : (⟨S4096x200x256, .f32⟩ : BufTy).Contents (Elt F) → (⟨S256x512, .f32⟩ : BufTy).Contents (Elt F) → (⟨S4096x200x512, .f32⟩ : BufTy).Contents (Elt F)),
    StableHlo.unary main_arg5 main_v4 (broadcastInDim S1x1x512 ![2] bcast_S512_S1x1x512_2 : (⟨S512, .f32⟩ : BufTy).Contents (Elt F) → (⟨S1x1x512, .f32⟩ : BufTy).Contents (Elt F)),
    StableHlo.unary main_v4 main_v5 (broadcastInDim S4096x200x512 ![0, 1, 2] bcast_S1x1x512_S4096x200x512_0_1_2 : (⟨S1x1x512, .f32⟩ : BufTy).Contents (Elt F) → (⟨S4096x200x512, .f32⟩ : BufTy).Contents (Elt F)),
    StableHlo.binary main_v3 main_v5 main_v6 (addf : (⟨S4096x200x512, .f32⟩ : BufTy).Contents (Elt F) → (⟨S4096x200x512, .f32⟩ : BufTy).Contents (Elt F) → (⟨S4096x200x512, .f32⟩ : BufTy).Contents (Elt F)),
    StableHlo.nullary main_cst (constant S_ .f32 0x00000000#32),
    StableHlo.binary main_v6 main_cst main_v7 ((fun x v => Host.reduceAdd x v reducesTo_S4096x200x512_S4096x200_d2 h_S_) : (⟨S4096x200x512, .f32⟩ : BufTy).Contents (Elt F) → (⟨S_, .f32⟩ : BufTy).Contents (Elt F) → (⟨S4096x200, .f32⟩ : BufTy).Contents (Elt F)),
    StableHlo.unary main_v7 main_v8 (broadcastInDim S4096x200x1 ![0, 1] bcast_S4096x200_S4096x200x1_0_1 : (⟨S4096x200, .f32⟩ : BufTy).Contents (Elt F) → (⟨S4096x200x1, .f32⟩ : BufTy).Contents (Elt F)),
    StableHlo.nullary main_cst_0 (constant S_ .f32 0x44000000#32),
    StableHlo.unary main_cst_0 main_v9 (broadcastInDim S4096x200x1 ![] bcast_S_S4096x200x1 : (⟨S_, .f32⟩ : BufTy).Contents (Elt F) → (⟨S4096x200x1, .f32⟩ : BufTy).Contents (Elt F)),
    StableHlo.binary main_v8 main_v9 main_v10 (Host.divf : (⟨S4096x200x1, .f32⟩ : BufTy).Contents (Elt F) → (⟨S4096x200x1, .f32⟩ : BufTy).Contents (Elt F) → (⟨S4096x200x1, .f32⟩ : BufTy).Contents (Elt F)),
    StableHlo.nullary main_c (constantI S_ 32 0#32),
    StableHlo.TRef.nullary main_call2.cst (constant S_ .f32 0x00000000#32),
    StableHlo.TRef.binary (.of main_v6) main_call2.cst main_call2.v0 (fun x v => Host.reduceAdd x v reducesTo_S4096x200x512_S4096x200_d2 h_S_),
    StableHlo.TRef.unary main_call2.v0 main_call2.v1 (broadcastInDim S4096x200x1 ![0, 1] bcast_S4096x200_S4096x200x1_0_1),
    StableHlo.TRef.nullary main_call2.cst_0 (constant S_ .f32 0x44000000#32),
    StableHlo.TRef.unary main_call2.cst_0 main_call2.v2 (broadcastInDim S4096x200x1 ![] bcast_S_S4096x200x1),
    StableHlo.TRef.binary main_call2.v1 main_call2.v2 main_call2.v3 Host.divf,
    StableHlo.TRef.unary main_call2.v3 main_call2.v4 (broadcastInDim S4096x200x512 ![0, 1, 2] bcast_S4096x200x1_S4096x200x512_0_1_2),
    StableHlo.TRef.binary (.of main_v6) main_call2.v4 main_call2.v5 subf,
    StableHlo.TRef.binary main_call2.v5 main_call2.v5 main_call2.v6 mulf,
    StableHlo.TRef.unary (.of main_c) main_call2.v7 (sitofp .f32),
    StableHlo.TRef.nullary main_call2.cst_1 (constant S_ .f32 0x44000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4096x200x512_S4096x200_d2 h_S_),
    StableHlo.TRef.unary main_call2.v9 main_call2.v10 (broadcastInDim S4096x200x1 ![0, 1] bcast_S4096x200_S4096x200x1_0_1),
    StableHlo.TRef.unary main_call2.v8 main_call2.v11 (broadcastInDim S4096x200x1 ![] bcast_S_S4096x200x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4096x200x1 ![] bcast_S_S4096x200x1),
    StableHlo.TRef.ternary main_call2.v13 main_call2.v12 main_call2.call0.v1 main_call2.call0.v2 (fun p a b => select (broadcastInDim S4096x200x1 ![] bcast_S_S4096x200x1 p) a b),
    StableHlo.unary main_v10 main_v12 (broadcastInDim S4096x200x512 ![0, 1, 2] bcast_S4096x200x1_S4096x200x512_0_1_2 : (⟨S4096x200x1, .f32⟩ : BufTy).Contents (Elt F) → (⟨S4096x200x512, .f32⟩ : BufTy).Contents (Elt F)),
    StableHlo.binary main_v6 main_v12 main_v13 (subf : (⟨S4096x200x512, .f32⟩ : BufTy).Contents (Elt F) → (⟨S4096x200x512, .f32⟩ : BufTy).Contents (Elt F) → (⟨S4096x200x512, .f32⟩ : BufTy).Contents (Elt F)),
    StableHlo.nullary main_cst_1 (constant S_ .f32 0x2B8CBCCC#32),
    StableHlo.unary main_cst_1 main_v14 (broadcastInDim S4096x200x1 ![] bcast_S_S4096x200x1 : (⟨S_, .f32⟩ : BufTy).Contents (Elt F) → (⟨S4096x200x1, .f32⟩ : BufTy).Contents (Elt F)),
    StableHlo.binary main_v11 main_v14 main_v15 (addf : (⟨S4096x200x1, .f32⟩ : BufTy).Contents (Elt F) → (⟨S4096x200x1, .f32⟩ : BufTy).Contents (Elt F) → (⟨S4096x200x1, .f32⟩ : BufTy).Contents (Elt F)),
    StableHlo.unary main_v15 main_v16 (Host.sqrt : (⟨S4096x200x1, .f32⟩ : BufTy).Contents (Elt F) → (⟨S4096x200x1, .f32⟩ : BufTy).Contents (Elt F)),
    StableHlo.unary main_v16 main_v17 (broadcastInDim S4096x200x512 ![0, 1, 2] bcast_S4096x200x1_S4096x200x512_0_1_2 : (⟨S4096x200x1, .f32⟩ : BufTy).Contents (Elt F) → (⟨S4096x200x512, .f32⟩ : BufTy).Contents (Elt F)),
    StableHlo.binary main_v13 main_v17 main_v18 (Host.divf : (⟨S4096x200x512, .f32⟩ : BufTy).Contents (Elt F) → (⟨S4096x200x512, .f32⟩ : BufTy).Contents (Elt F) → (⟨S4096x200x512, .f32⟩ : BufTy).Contents (Elt F)),
    StableHlo.unary main_arg6 main_v19 (broadcastInDim S1x1x512 ![2] bcast_S512_S1x1x512_2 : (⟨S512, .f32⟩ : BufTy).Contents (Elt F) → (⟨S1x1x512, .f32⟩ : BufTy).Contents (Elt F)),
    StableHlo.unary main_v19 main_v20 (broadcastInDim S4096x200x512 ![0, 1, 2] bcast_S1x1x512_S4096x200x512_0_1_2 : (⟨S1x1x512, .f32⟩ : BufTy).Contents (Elt F) → (⟨S4096x200x512, .f32⟩ : BufTy).Contents (Elt F)),
    StableHlo.binary main_v18 main_v20 main_v21 (mulf : (⟨S4096x200x512, .f32⟩ : BufTy).Contents (Elt F) → (⟨S4096x200x512, .f32⟩ : BufTy).Contents (Elt F) → (⟨S4096x200x512, .f32⟩ : BufTy).Contents (Elt F)),
    StableHlo.unary main_arg7 main_v22 (broadcastInDim S1x1x512 ![2] bcast_S512_S1x1x512_2 : (⟨S512, .f32⟩ : BufTy).Contents (Elt F) → (⟨S1x1x512, .f32⟩ : BufTy).Contents (Elt F)),
    StableHlo.unary main_v22 main_v23 (broadcastInDim S4096x200x512 ![0, 1, 2] bcast_S1x1x512_S4096x200x512_0_1_2 : (⟨S1x1x512, .f32⟩ : BufTy).Contents (Elt F) → (⟨S4096x200x512, .f32⟩ : BufTy).Contents (Elt F)),
    StableHlo.binary main_v21 main_v23 main_v24 (addf : (⟨S4096x200x512, .f32⟩ : BufTy).Contents (Elt F) → (⟨S4096x200x512, .f32⟩ : BufTy).Contents (Elt F) → (⟨S4096x200x512, .f32⟩ : BufTy).Contents (Elt F)) ]

set_option maxRecDepth 4096 in
/-- @main is that straight line: the callees unfolded at their calls, the sequencing reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- From any memory with zero counters every weakly fair execution of @main terminates, and every buffer
    ends at the fold of the 95 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefSeg.lean ====
/-
  The reference's 95 operations in five consecutive pieces — the look-up in the id table, the look-up in
  the category table, the linear layer with the row means, the variance, the normalisation — and the
  terms those pieces compute: each index wrapped (an index below zero moved up by its table's length),
  the row of the table at the wrapped index where that index is in range and the NaN word elsewhere, the
  two rows side by side, the product with the weights plus the bias, and the layer normalisation of the
  512 entries (the mean a row sum over 512, the variance the mean of the squared deviations selected on
  its divisor 512 - 0 being positive). The fold over the whole list is the fold over the pieces in turn,
  and a piece leaves every buffer it does not write as it was.
-/
import proofs.«204770_g8065948582451_cont_9to1c4b_476_56_alg».proof.Proof.RefRun

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The terms -/

/-- The index a look-up reads: an index below zero moved up by the table's length `n`; a unit axis added. -/
def wrapped (n : BitVec 32) (ids : IVec S4096x200 32) : IVec S4096x200x1 32 :=
  broadcastInDim S4096x200x1 ![0, 1] bcast_S4096x200_S4096x200x1_0_1
    (select (cmpi .slt ids (broadcastInDim S4096x200 ![] bcast_S_S4096x200 (constantI S_ 32 0#32)))
      (addi ids (broadcastInDim S4096x200 ![] bcast_S_S4096x200 (constantI S_ 32 n))) ids)

/-- Per token, whether the wrapped index lies between 0 and `hi`. -/
def inRange (hi : BitVec 32) (w : IVec S4096x200x1 32) : IVec S4096x200 1 :=
  Host.reduce IntOp.andi
    (andi (cmpi .sge w (broadcastInDim S4096x200x1 ![] bcast_S_S4096x200x1 (constantI S_ 32 0#32)))
      (cmpi .sle w (broadcastInDim S4096x200x1 ![0, 1, 2] bcast_S1x1x1_S4096x200x1_0_1_2
        (broadcastInDim S1x1x1 ![2] bcast_S1_S1x1x1_2 (constantI S1 32 hi)))))
    (constantI S_ 1 1#1) reducesTo_S4096x200x1_S4096x200_d2 h_S_

/-- The gathered rows where the index is in range, the NaN word elsewhere. -/
def masked (ok : IVec S4096x200 1) (rows : FVec F S4096x200x128 .f32) : FVec F S4096x200x128 .f32 :=
  select (broadcastInDim S4096x200x128 ![0, 1] bcast_S4096x200_S4096x200x128_0_1 ok) rows
    (broadcastInDim S4096x200x128 ![] bcast_S_S4096x200x128 (constant S_ .f32 0x7FC00000#32))

/-- The look-up in the id table. -/
def takeId (idt : FVec F S100000x128 .f32) (ids : IVec S4096x200 32) : FVec F S4096x200x128 .f32 :=
  masked (inRange 99999#32 (wrapped 100000#32 ids)) (Host.gather gather_S100000x128_S4096x200x1_S4096x200x128_2_0_n_n_0_2_1128 idt (wrapped 100000#32 ids))

/-- The look-up in the category table. -/
def takeCat (cat : FVec F S1000x128 .f32) (cids : IVec S4096x200 32) : FVec F S4096x200x128 .f32 :=
  masked (inRange 999#32 (wrapped 1000#32 cids)) (Host.gather gather_S1000x128_S4096x200x1_S4096x200x128_2_0_n_n_0_2_1128 cat (wrapped 1000#32 cids))

/-- The two rows side by side. -/
def feats (a b : FVec F S4096x200x128 .f32) : FVec F S4096x200x256 .f32 :=
  concatenate S4096x200x256 2 [⟨S4096x200x128, a⟩, ⟨S4096x200x128, b⟩] concatenates_S4096x200x128_S4096x200x128_S4096x200x256_d2

/-- A vector of 512 entries repeated at every token. -/
def perEntry (v : FVec F S512 .f32) : FVec F S4096x200x512 .f32 :=
  broadcastInDim S4096x200x512 ![0, 1, 2] bcast_S1x1x512_S4096x200x512_0_1_2 (broadcastInDim S1x1x512 ![2] bcast_S512_S1x1x512_2 v)

/-- A per-token value repeated along the 512 entries. -/
def perToken (v : FVec F S4096x200x1 .f32) : FVec F S4096x200x512 .f32 :=
  broadcastInDim S4096x200x512 ![0, 1, 2] bcast_S4096x200x1_S4096x200x512_0_1_2 v

/-- The linear layer. -/
def linear (e : FVec F S4096x200x256 .f32) (W : FVec F S256x512 .f32) (b : FVec F S512 .f32) : FVec F S4096x200x512 .f32 :=
  addf (Host.dotGeneral dot_S4096x200x256_S256x512_S4096x200x512_2_0_01_1_n_n none e W) (perEntry b)

/-- Per token, the sum of the 512 entries (from the zero word), a unit axis added. -/
def rowSum (x : FVec F S4096x200x512 .f32) : FVec F S4096x200x1 .f32 :=
  broadcastInDim S4096x200x1 ![0, 1] bcast_S4096x200_S4096x200x1_0_1
    (Host.reduceAdd x (constant S_ .f32 0x00000000#32) reducesTo_S4096x200x512_S4096x200_d2 h_S_)

/-- Per token, the mean of the 512 entries: the row sum over the word 512.0. -/
def rowMean (x : FVec F S4096x200x512 .f32) : FVec F S4096x200x1 .f32 :=
  Host.divf (rowSum x) (broadcastInDim S4096x200x1 ![] bcast_S_S4096x200x1 (constant S_ .f32 0x44000000#32))

/-- The variance's divisor: the word 512.0 less the correction `c` converted. -/
def varDivisor (c : IVec S_ 32) : FVec F S_ .f32 :=
  subf (constant S_ .f32 0x44000000#32) (sitofp .f32 c)

/-- The squared deviations from the mean. -/
def sqDev (x : FVec F S4096x200x512 .f32) : FVec F S4096x200x512 .f32 :=
  mulf (subf x (perToken (rowMean x))) (subf x (perToken (rowMean x)))

/-- Per token, the variance: the squared deviations' sum over the divisor where the divisor is above zero, the NaN word
    otherwise. -/
def rowVar (x : FVec F S4096x200x512 .f32) (c : IVec S_ 32) : FVec F S4096x200x1 .f32 :=
  select (broadcastInDim S4096x200x1 ![] bcast_S_S4096x200x1 (cmpf .ogt (varDivisor (F := F) c) (constant S_ .f32 0x00000000#32)))
    (Host.divf (rowSum (sqDev x)) (broadcastInDim S4096x200x1 ![] bcast_S_S4096x200x1 (varDivisor c)))
    (broadcastInDim S4096x200x1 ![] bcast_S_S4096x200x1 (constant S_ .f32 0x7FC00000#32))

/-- The normalisation's last step from the linear layer's result `x`, its row means `mu` and its row variances `v`. -/
def normedOf (x : FVec F S4096x200x512 .f32) (mu v : FVec F S4096x200x1 .f32) (g bt : FVec F S512 .f32) : FVec F S4096x200x512 .f32 :=
  addf (mulf (Host.divf (subf x (perToken mu))
      (perToken (Host.sqrt (addf v (broadcastInDim S4096x200x1 ![] bcast_S_S4096x200x1 (constant S_ .f32 0x2B8CBCCC#32))))))
    (perEntry g)) (perEntry bt)

/-- The layer normalisation of `x` with scale `g` and shift `bt`. -/
def normed (x : FVec F S4096x200x512 .f32) (g bt : FVec F S512 .f32) : FVec F S4096x200x512 .f32 :=
  normedOf x (rowMean x) (rowVar x (constantI S_ 32 0#32)) g bt

/-- The reference's result as a term of its eight arguments. -/
def out (ids cids : IVec S4096x200 32) (idt : FVec F S100000x128 .f32) (cat : FVec F S1000x128 .f32)
    (W : FVec F S256x512 .f32) (b g bt : FVec F S512 .f32) : FVec F S4096x200x512 .f32 :=
  normed (linear (feats (takeId idt ids) (takeCat cat cids)) W b) g bt

/-! ## The pieces -/

/-- Contents moved to a buffer's own type and back are the contents. -/
theorem ofBuf_toBuf {Val : EltTy → Type} {T : BufTy} (x : TRef sig T) (v : T.Contents Val) : x.ofBuf (x.toBuf v) = v := by
  obtain ⟨r, h, _, _⟩ := x
  subst h
  rfl

/-- The fold over two lists in turn is the fold over their concatenation. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- An operation that writes the one buffer `y`, a member of `W`, writes inside `W`. -/
theorem writes_sub {Val : EltTy → Type} {W : List (Ref sig .tc)} {op : HloOp τ sig Val} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- The look-up in the id table: 23 operations. -/
abbrev seg1 : List (HloOp τ sig (Elt F)) :=
  [
    StableHlo.TRef.nullary main_call0.c (constantI S_ 32 0#32),
    StableHlo.TRef.unary main_call0.c main_call0.v0 (broadcastInDim S4096x200 ![] bcast_S_S4096x200),
    StableHlo.TRef.binary (.of main_arg0) main_call0.v0 main_call0.v1 (cmpi .slt),
    StableHlo.TRef.nullary main_call0.c_0 (constantI S_ 32 100000#32),
    StableHlo.TRef.unary main_call0.c_0 main_call0.v2 (broadcastInDim S4096x200 ![] bcast_S_S4096x200),
    StableHlo.TRef.binary (.of main_arg0) main_call0.v2 main_call0.v3 addi,
    StableHlo.TRef.ternary main_call0.v1 main_call0.v3 (.of main_arg0) main_call0.call0.v0 select,
    StableHlo.TRef.unary main_call0.call0.v0 main_call0.v5 (broadcastInDim S4096x200x1 ![0, 1] bcast_S4096x200_S4096x200x1_0_1),
    StableHlo.TRef.nullary main_call0.c_1 (constantI S1 32 99999#32),
    StableHlo.TRef.nullary main_call0.c_2 (constantI S_ 32 0#32),
    StableHlo.TRef.unary main_call0.c_2 main_call0.v6 (broadcastInDim S4096x200x1 ![] bcast_S_S4096x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x200x1 ![0, 1, 2] bcast_S1x1x1_S4096x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x200x1_S4096x200_d2 h_S_),
    StableHlo.TRef.binary (.of main_arg2) main_call0.v5 main_call0.v13 (fun x i => Host.gather gather_S100000x128_S4096x200x1_S4096x200x128_2_0_n_n_0_2_1128 x i),
    StableHlo.TRef.unary main_call0.v12 main_call0.v14 (broadcastInDim S4096x200x128 ![0, 1] bcast_S4096x200_S4096x200x128_0_1),
    StableHlo.TRef.nullary main_call0.cst (constant S_ .f32 0x7FC00000#32),
    StableHlo.TRef.unary main_call0.cst main_call0.v15 (broadcastInDim S4096x200x128 ![] bcast_S_S4096x200x128),
    StableHlo.TRef.ternary main_call0.v14 main_call0.v13 main_call0.v15 main_call0.v16 select ]

/-- The buffers those operations write. -/
abbrev W1 : List (Ref sig .tc) :=
  [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]

theorem seg1_writes : (seg1 : List (HloOp τ sig (Elt F))).Forall fun op => op.writes ⊆ ((W1).map (Proc.devRef (τ := τ) .tc)).toFinset :=
  ⟨writes_sub (main_call0.c.ref) rfl (by decide),
    writes_sub (main_call0.v0.ref) rfl (by decide),
    writes_sub (main_call0.v1.ref) rfl (by decide),
    writes_sub (main_call0.c_0.ref) rfl (by decide),
    writes_sub (main_call0.v2.ref) rfl (by decide),
    writes_sub (main_call0.v3.ref) rfl (by decide),
    writes_sub (main_call0.call0.v0.ref) rfl (by decide),
    writes_sub (main_call0.v5.ref) rfl (by decide),
    writes_sub (main_call0.c_1.ref) rfl (by decide),
    writes_sub (main_call0.c_2.ref) rfl (by decide),
    writes_sub (main_call0.v6.ref) rfl (by decide),
    writes_sub (main_call0.v7.ref) rfl (by decide),
    writes_sub (main_call0.v8.ref) rfl (by decide),
    writes_sub (main_call0.v9.ref) rfl (by decide),
    writes_sub (main_call0.v10.ref) rfl (by decide),
    writes_sub (main_call0.v11.ref) rfl (by decide),
    writes_sub (main_call0.c_3.ref) rfl (by decide),
    writes_sub (main_call0.v12.ref) rfl (by decide),
    writes_sub (main_call0.v13.ref) rfl (by decide),
    writes_sub (main_call0.v14.ref) rfl (by decide),
    writes_sub (main_call0.cst.ref) rfl (by decide),
    writes_sub (main_call0.v15.ref) rfl (by decide),
    writes_sub (main_call0.v16.ref) rfl (by decide)⟩

/-- A buffer they do not write keeps its contents. -/
theorem seg1_frame (V : Valuation τ sig (Elt F)) {r : Ref sig .tc} (hr : r ∉ W1) :
    after seg1 V (Proc.devRef .tc r) = V (Proc.devRef .tc r) :=
  after_of_writes_sub seg1 V seg1_writes hr

/-- The look-up in the category table: 23 operations. -/
abbrev seg2 : List (HloOp τ sig (Elt F)) :=
  [
    StableHlo.TRef.nullary main_call1.c (constantI S_ 32 0#32),
    StableHlo.TRef.unary main_call1.c main_call1.v0 (broadcastInDim S4096x200 ![] bcast_S_S4096x200),
    StableHlo.TRef.binary (.of main_arg1) main_call1.v0 main_call1.v1 (cmpi .slt),
    StableHlo.TRef.nullary main_call1.c_0 (constantI S_ 32 1000#32),
    StableHlo.TRef.unary main_call1.c_0 main_call1.v2 (broadcastInDim S4096x200 ![] bcast_S_S4096x200),
    StableHlo.TRef.binary (.of main_arg1) main_call1.v2 main_call1.v3 addi,
    StableHlo.TRef.ternary main_call1.v1 main_call1.v3 (.of main_arg1) main_call1.call0.v0 select,
    StableHlo.TRef.unary main_call1.call0.v0 main_call1.v5 (broadcastInDim S4096x200x1 ![0, 1] bcast_S4096x200_S4096x200x1_0_1),
    StableHlo.TRef.nullary main_call1.c_1 (constantI S1 32 999#32),
    StableHlo.TRef.nullary main_call1.c_2 (constantI S_ 32 0#32),
    StableHlo.TRef.unary main_call1.c_2 main_call1.v6 (broadcastInDim S4096x200x1 ![] bcast_S_S4096x200x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S4096x200x1 ![0, 1, 2] bcast_S1x1x1_S4096x200x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x200x1_S4096x200_d2 h_S_),
    StableHlo.TRef.binary (.of main_arg3) main_call1.v5 main_call1.v13 (fun x i => Host.gather gather_S1000x128_S4096x200x1_S4096x200x128_2_0_n_n_0_2_1128 x i),
    StableHlo.TRef.unary main_call1.v12 main_call1.v14 (broadcastInDim S4096x200x128 ![0, 1] bcast_S4096x200_S4096x200x128_0_1),
    StableHlo.TRef.nullary main_call1.cst (constant S_ .f32 0x7FC00000#32),
    StableHlo.TRef.unary main_call1.cst main_call1.v15 (broadcastInDim S4096x200x128 ![] bcast_S_S4096x200x128),
    StableHlo.TRef.ternary main_call1.v14 main_call1.v13 main_call1.v15 main_call1.v16 select ]

/-- The buffers those operations write. -/
abbrev W2 : List (Ref sig .tc) :=
  [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref]

theorem seg2_writes : (seg2 : List (HloOp τ sig (Elt F))).Forall fun op => op.writes ⊆ ((W2).map (Proc.devRef (τ := τ) .tc)).toFinset :=
  ⟨writes_sub (main_call1.c.ref) rfl (by decide),
    writes_sub (main_call1.v0.ref) rfl (by decide),
    writes_sub (main_call1.v1.ref) rfl (by decide),
    writes_sub (main_call1.c_0.ref) rfl (by decide),
    writes_sub (main_call1.v2.ref) rfl (by decide),
    writes_sub (main_call1.v3.ref) rfl (by decide),
    writes_sub (main_call1.call0.v0.ref) rfl (by decide),
    writes_sub (main_call1.v5.ref) rfl (by decide),
    writes_sub (main_call1.c_1.ref) rfl (by decide),
    writes_sub (main_call1.c_2.ref) rfl (by decide),
    writes_sub (main_call1.v6.ref) rfl (by decide),
    writes_sub (main_call1.v7.ref) rfl (by decide),
    writes_sub (main_call1.v8.ref) rfl (by decide),
    writes_sub (main_call1.v9.ref) rfl (by decide),
    writes_sub (main_call1.v10.ref) rfl (by decide),
    writes_sub (main_call1.v11.ref) rfl (by decide),
    writes_sub (main_call1.c_3.ref) rfl (by decide),
    writes_sub (main_call1.v12.ref) rfl (by decide),
    writes_sub (main_call1.v13.ref) rfl (by decide),
    writes_sub (main_call1.v14.ref) rfl (by decide),
    writes_sub (main_call1.cst.ref) rfl (by decide),
    writes_sub (main_call1.v15.ref) rfl (by decide),
    writes_sub (main_call1.v16.ref) rfl (by decide)⟩

/-- A buffer they do not write keeps its contents. -/
theorem seg2_frame (V : Valuation τ sig (Elt F)) {r : Ref sig .tc} (hr : r ∉ W2) :
    after seg2 V (Proc.devRef .tc r) = V (Proc.devRef .tc r) :=
  after_of_writes_sub seg2 V seg2_writes hr

/-- The two rows joined, the linear layer, the row means and the variance's correction 0: 12 operations. -/
abbrev seg3 : List (HloOp τ sig (Elt F)) :=
  [
    StableHlo.binary main_v0 main_v1 main_v2 ((fun a b => concatenate S4096x200x256 2 [⟨S4096x200x128, a⟩, ⟨S4096x200x128, b⟩] concatenates_S4096x200x128_S4096x200x128_S4096x200x256_d2) : (⟨S4096x200x128, .f32⟩ : BufTy).Contents (Elt F) → (⟨S4096x200x128, .f32⟩ : BufTy).Contents (Elt F) → (⟨S4096x200x256, .f32⟩ : BufTy).Contents (Elt F)),
    StableHlo.binary main_v2 main_arg4 main_v3 ((fun l r => Host.dotGeneral dot_S4096x200x256_S256x512_S4096x200x512_2_0_01_1_n_n none l r) : (⟨S4096x200x256, .f32⟩ : BufTy).Contents (Elt F) → (⟨S256x512, .f32⟩ : BufTy).Contents (Elt F) → (⟨S4096x200x512, .f32⟩ : BufTy).Contents (Elt F)),
    StableHlo.unary main_arg5 main_v4 (broadcastInDim S1x1x512 ![2] bcast_S512_S1x1x512_2 : (⟨S512, .f32⟩ : BufTy).Contents (Elt F) → (⟨S1x1x512, .f32⟩ : BufTy).Contents (Elt F)),
    StableHlo.unary main_v4 main_v5 (broadcastInDim S4096x200x512 ![0, 1, 2] bcast_S1x1x512_S4096x200x512_0_1_2 : (⟨S1x1x512, .f32⟩ : BufTy).Contents (Elt F) → (⟨S4096x200x512, .f32⟩ : BufTy).Contents (Elt F)),
    StableHlo.binary main_v3 main_v5 main_v6 (addf : (⟨S4096x200x512, .f32⟩ : BufTy).Contents (Elt F) → (⟨S4096x200x512, .f32⟩ : BufTy).Contents (Elt F) → (⟨S4096x200x512, .f32⟩ : BufTy).Contents (Elt F)),
    StableHlo.nullary main_cst (constant S_ .f32 0x00000000#32),
    StableHlo.binary main_v6 main_cst main_v7 ((fun x v => Host.reduceAdd x v reducesTo_S4096x200x512_S4096x200_d2 h_S_) : (⟨S4096x200x512, .f32⟩ : BufTy).Contents (Elt F) → (⟨S_, .f32⟩ : BufTy).Contents (Elt F) → (⟨S4096x200, .f32⟩ : BufTy).Contents (Elt F)),
    StableHlo.unary main_v7 main_v8 (broadcastInDim S4096x200x1 ![0, 1] bcast_S4096x200_S4096x200x1_0_1 : (⟨S4096x200, .f32⟩ : BufTy).Contents (Elt F) → (⟨S4096x200x1, .f32⟩ : BufTy).Contents (Elt F)),
    StableHlo.nullary main_cst_0 (constant S_ .f32 0x44000000#32),
    StableHlo.unary main_cst_0 main_v9 (broadcastInDim S4096x200x1 ![] bcast_S_S4096x200x1 : (⟨S_, .f32⟩ : BufTy).Contents (Elt F) → (⟨S4096x200x1, .f32⟩ : BufTy).Contents (Elt F)),
    StableHlo.binary main_v8 main_v9 main_v10 (Host.divf : (⟨S4096x200x1, .f32⟩ : BufTy).Contents (Elt F) → (⟨S4096x200x1, .f32⟩ : BufTy).Contents (Elt F) → (⟨S4096x200x1, .f32⟩ : BufTy).Contents (Elt F)),
    StableHlo.nullary main_c (constantI S_ 32 0#32) ]

/-- The buffers those operations write. -/
abbrev W3 : List (Ref sig .tc) :=
  [main_v2, main_v3, main_v4, main_v5, main_v6, main_cst, main_v7, main_v8, main_cst_0, main_v9, main_v10, main_c]

theorem seg3_writes : (seg3 : List (HloOp τ sig (Elt F))).Forall fun op => op.writes ⊆ ((W3).map (Proc.devRef (τ := τ) .tc)).toFinset :=
  ⟨writes_sub (main_v2) rfl (by decide),
    writes_sub (main_v3) rfl (by decide),
    writes_sub (main_v4) rfl (by decide),
    writes_sub (main_v5) rfl (by decide),
    writes_sub (main_v6) rfl (by decide),
    writes_sub (main_cst) rfl (by decide),
    writes_sub (main_v7) rfl (by decide),
    writes_sub (main_v8) rfl (by decide),
    writes_sub (main_cst_0) rfl (by decide),
    writes_sub (main_v9) rfl (by decide),
    writes_sub (main_v10) rfl (by decide),
    writes_sub (main_c) rfl (by decide)⟩

/-- A buffer they do not write keeps its contents. -/
theorem seg3_frame (V : Valuation τ sig (Elt F)) {r : Ref sig .tc} (hr : r ∉ W3) :
    after seg3 V (Proc.devRef .tc r) = V (Proc.devRef .tc r) :=
  after_of_writes_sub seg3 V seg3_writes hr

/-- The variance: 23 operations. -/
abbrev seg4 : List (HloOp τ sig (Elt F)) :=
  [
    StableHlo.TRef.nullary main_call2.cst (constant S_ .f32 0x00000000#32),
    StableHlo.TRef.binary (.of main_v6) main_call2.cst main_call2.v0 (fun x v => Host.reduceAdd x v reducesTo_S4096x200x512_S4096x200_d2 h_S_),
    StableHlo.TRef.unary main_call2.v0 main_call2.v1 (broadcastInDim S4096x200x1 ![0, 1] bcast_S4096x200_S4096x200x1_0_1),
    StableHlo.TRef.nullary main_call2.cst_0 (constant S_ .f32 0x44000000#32),
    StableHlo.TRef.unary main_call2.cst_0 main_call2.v2 (broadcastInDim S4096x200x1 ![] bcast_S_S4096x200x1),
    StableHlo.TRef.binary main_call2.v1 main_call2.v2 main_call2.v3 Host.divf,
    StableHlo.TRef.unary main_call2.v3 main_call2.v4 (broadcastInDim S4096x200x512 ![0, 1, 2] bcast_S4096x200x1_S4096x200x512_0_1_2),
    StableHlo.TRef.binary (.of main_v6) main_call2.v4 main_call2.v5 subf,
    StableHlo.TRef.binary main_call2.v5 main_call2.v5 main_call2.v6 mulf,
    StableHlo.TRef.unary (.of main_c) main_call2.v7 (sitofp .f32),
    StableHlo.TRef.nullary main_call2.cst_1 (constant S_ .f32 0x44000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4096x200x512_S4096x200_d2 h_S_),
    StableHlo.TRef.unary main_call2.v9 main_call2.v10 (broadcastInDim S4096x200x1 ![0, 1] bcast_S4096x200_S4096x200x1_0_1),
    StableHlo.TRef.unary main_call2.v8 main_call2.v11 (broadcastInDim S4096x200x1 ![] bcast_S_S4096x200x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4096x200x1 ![] bcast_S_S4096x200x1),
    StableHlo.TRef.ternary main_call2.v13 main_call2.v12 main_call2.call0.v1 main_call2.call0.v2 (fun p a b => select (broadcastInDim S4096x200x1 ![] bcast_S_S4096x200x1 p) a b) ]

/-- The buffers those operations write. -/
abbrev W4 : List (Ref sig .tc) :=
  [main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.v12.ref, main_call2.cst_3.ref, main_call2.v13.ref, main_call2.cst_4.ref, main_call2.call0.v0.ref, main_call2.call0.v1.ref, main_call2.call0.v2.ref]

theorem seg4_writes : (seg4 : List (HloOp τ sig (Elt F))).Forall fun op => op.writes ⊆ ((W4).map (Proc.devRef (τ := τ) .tc)).toFinset :=
  ⟨writes_sub (main_call2.cst.ref) rfl (by decide),
    writes_sub (main_call2.v0.ref) rfl (by decide),
    writes_sub (main_call2.v1.ref) rfl (by decide),
    writes_sub (main_call2.cst_0.ref) rfl (by decide),
    writes_sub (main_call2.v2.ref) rfl (by decide),
    writes_sub (main_call2.v3.ref) rfl (by decide),
    writes_sub (main_call2.v4.ref) rfl (by decide),
    writes_sub (main_call2.v5.ref) rfl (by decide),
    writes_sub (main_call2.v6.ref) rfl (by decide),
    writes_sub (main_call2.v7.ref) rfl (by decide),
    writes_sub (main_call2.cst_1.ref) rfl (by decide),
    writes_sub (main_call2.v8.ref) rfl (by decide),
    writes_sub (main_call2.cst_2.ref) rfl (by decide),
    writes_sub (main_call2.v9.ref) rfl (by decide),
    writes_sub (main_call2.v10.ref) rfl (by decide),
    writes_sub (main_call2.v11.ref) rfl (by decide),
    writes_sub (main_call2.v12.ref) rfl (by decide),
    writes_sub (main_call2.cst_3.ref) rfl (by decide),
    writes_sub (main_call2.v13.ref) rfl (by decide),
    writes_sub (main_call2.cst_4.ref) rfl (by decide),
    writes_sub (main_call2.call0.v0.ref) rfl (by decide),
    writes_sub (main_call2.call0.v1.ref) rfl (by decide),
    writes_sub (main_call2.call0.v2.ref) rfl (by decide)⟩

/-- A buffer they do not write keeps its contents. -/
theorem seg4_frame (V : Valuation τ sig (Elt F)) {r : Ref sig .tc} (hr : r ∉ W4) :
    after seg4 V (Proc.devRef .tc r) = V (Proc.devRef .tc r) :=
  after_of_writes_sub seg4 V seg4_writes hr

/-- The normalisation's last 14 operations. -/
abbrev seg5 : List (HloOp τ sig (Elt F)) :=
  [
    StableHlo.unary main_v10 main_v12 (broadcastInDim S4096x200x512 ![0, 1, 2] bcast_S4096x200x1_S4096x200x512_0_1_2 : (⟨S4096x200x1, .f32⟩ : BufTy).Contents (Elt F) → (⟨S4096x200x512, .f32⟩ : BufTy).Contents (Elt F)),
    StableHlo.binary main_v6 main_v12 main_v13 (subf : (⟨S4096x200x512, .f32⟩ : BufTy).Contents (Elt F) → (⟨S4096x200x512, .f32⟩ : BufTy).Contents (Elt F) → (⟨S4096x200x512, .f32⟩ : BufTy).Contents (Elt F)),
    StableHlo.nullary main_cst_1 (constant S_ .f32 0x2B8CBCCC#32),
    StableHlo.unary main_cst_1 main_v14 (broadcastInDim S4096x200x1 ![] bcast_S_S4096x200x1 : (⟨S_, .f32⟩ : BufTy).Contents (Elt F) → (⟨S4096x200x1, .f32⟩ : BufTy).Contents (Elt F)),
    StableHlo.binary main_v11 main_v14 main_v15 (addf : (⟨S4096x200x1, .f32⟩ : BufTy).Contents (Elt F) → (⟨S4096x200x1, .f32⟩ : BufTy).Contents (Elt F) → (⟨S4096x200x1, .f32⟩ : BufTy).Contents (Elt F)),
    StableHlo.unary main_v15 main_v16 (Host.sqrt : (⟨S4096x200x1, .f32⟩ : BufTy).Contents (Elt F) → (⟨S4096x200x1, .f32⟩ : BufTy).Contents (Elt F)),
    StableHlo.unary main_v16 main_v17 (broadcastInDim S4096x200x512 ![0, 1, 2] bcast_S4096x200x1_S4096x200x512_0_1_2 : (⟨S4096x200x1, .f32⟩ : BufTy).Contents (Elt F) → (⟨S4096x200x512, .f32⟩ : BufTy).Contents (Elt F)),
    StableHlo.binary main_v13 main_v17 main_v18 (Host.divf : (⟨S4096x200x512, .f32⟩ : BufTy).Contents (Elt F) → (⟨S4096x200x512, .f32⟩ : BufTy).Contents (Elt F) → (⟨S4096x200x512, .f32⟩ : BufTy).Contents (Elt F)),
    StableHlo.unary main_arg6 main_v19 (broadcastInDim S1x1x512 ![2] bcast_S512_S1x1x512_2 : (⟨S512, .f32⟩ : BufTy).Contents (Elt F) → (⟨S1x1x512, .f32⟩ : BufTy).Contents (Elt F)),
    StableHlo.unary main_v19 main_v20 (broadcastInDim S4096x200x512 ![0, 1, 2] bcast_S1x1x512_S4096x200x512_0_1_2 : (⟨S1x1x512, .f32⟩ : BufTy).Contents (Elt F) → (⟨S4096x200x512, .f32⟩ : BufTy).Contents (Elt F)),
    StableHlo.binary main_v18 main_v20 main_v21 (mulf : (⟨S4096x200x512, .f32⟩ : BufTy).Contents (Elt F) → (⟨S4096x200x512, .f32⟩ : BufTy).Contents (Elt F) → (⟨S4096x200x512, .f32⟩ : BufTy).Contents (Elt F)),
    StableHlo.unary main_arg7 main_v22 (broadcastInDim S1x1x512 ![2] bcast_S512_S1x1x512_2 : (⟨S512, .f32⟩ : BufTy).Contents (Elt F) → (⟨S1x1x512, .f32⟩ : BufTy).Contents (Elt F)),
    StableHlo.unary main_v22 main_v23 (broadcastInDim S4096x200x512 ![0, 1, 2] bcast_S1x1x512_S4096x200x512_0_1_2 : (⟨S1x1x512, .f32⟩ : BufTy).Contents (Elt F) → (⟨S4096x200x512, .f32⟩ : BufTy).Contents (Elt F)),
    StableHlo.binary main_v21 main_v23 main_v24 (addf : (⟨S4096x200x512, .f32⟩ : BufTy).Contents (Elt F) → (⟨S4096x200x512, .f32⟩ : BufTy).Contents (Elt F) → (⟨S4096x200x512, .f32⟩ : BufTy).Contents (Elt F)) ]

/-- The buffers those operations write. -/
abbrev W5 : List (Ref sig .tc) :=
  [main_v12, main_v13, main_cst_1, main_v14, main_v15, main_v16, main_v17, main_v18, main_v19, main_v20, main_v21, main_v22, main_v23, main_v24]

theorem seg5_writes : (seg5 : List (HloOp τ sig (Elt F))).Forall fun op => op.writes ⊆ ((W5).map (Proc.devRef (τ := τ) .tc)).toFinset :=
  ⟨writes_sub (main_v12) rfl (by decide),
    writes_sub (main_v13) rfl (by decide),
    writes_sub (main_cst_1) rfl (by decide),
    writes_sub (main_v14) rfl (by decide),
    writes_sub (main_v15) rfl (by decide),
    writes_sub (main_v16) rfl (by decide),
    writes_sub (main_v17) rfl (by decide),
    writes_sub (main_v18) rfl (by decide),
    writes_sub (main_v19) rfl (by decide),
    writes_sub (main_v20) rfl (by decide),
    writes_sub (main_v21) rfl (by decide),
    writes_sub (main_v22) rfl (by decide),
    writes_sub (main_v23) rfl (by decide),
    writes_sub (main_v24) rfl (by decide)⟩

/-- A buffer they do not write keeps its contents. -/
theorem seg5_frame (V : Valuation τ sig (Elt F)) {r : Ref sig .tc} (hr : r ∉ W5) :
    after seg5 V (Proc.devRef .tc r) = V (Proc.devRef .tc r) :=
  after_of_writes_sub seg5 V seg5_writes hr

/-- The 95 operations are the five pieces in order. -/
theorem ops_eq : (ops : List (HloOp τ sig (Elt F))) = seg1 ++ (seg2 ++ (seg3 ++ (seg4 ++ seg5))) := rfl

/-- So their fold is the pieces' folds in turn. -/
theorem after_ops (V : Valuation τ sig (Elt F)) :
    after ops V = after seg5 (after seg4 (after seg3 (after seg2 (after seg1 V)))) := by
  rw [ops_eq, after_app, after_app, after_app, after_app]

end Cert.ReferenceIdeal.RefRun

end
-- ==== Proof.RefOut1.lean ====
/-
  The look-up in the id table, folded: its 23 operations leave at its result buffer the term `takeId` of the
  table and the index array.
-/
import proofs.«204770_g8065948582451_cont_9to1c4b_476_56_alg».proof.Proof.RefSeg

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

attribute [local irreducible] Host.reduce Host.gather in
set_option maxRecDepth 8192 in
/-- The 23 operations of the id look-up leave `takeId` of the table and the indices at the result. -/
theorem seg1_out (V : Valuation τ sig (Elt F)) :
    after seg1 V (main_v0 : DevRef τ sig) = takeId (V (main_arg2 : DevRef τ sig)) (V (main_arg0 : DevRef τ sig)) := by
  after_results_simp
  simp only [ofBuf_toBuf]
  rfl

end Cert.ReferenceIdeal.RefRun

end
-- ==== Proof.RefOut2.lean ====
/-
  The look-up in the category table, folded: its 23 operations leave at its result buffer the term `takeCat` of
  the table and the index array.
-/
import proofs.«204770_g8065948582451_cont_9to1c4b_476_56_alg».proof.Proof.RefSeg

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

attribute [local irreducible] Host.reduce Host.gather in
set_option maxRecDepth 8192 in
/-- The 23 operations of the category look-up leave `takeCat` of the table and the indices at the result. -/
theorem seg2_out (V : Valuation τ sig (Elt F)) :
    after seg2 V (main_v1 : DevRef τ sig) = takeCat (V (main_arg3 : DevRef τ sig)) (V (main_arg1 : DevRef τ sig)) := by
  after_results_simp
  simp only [ofBuf_toBuf]
  rfl

end Cert.ReferenceIdeal.RefRun

end
-- ==== Proof.RefOut3.lean ====
/-
  The linear layer, folded: from the two looked-up rows, the weights and the bias, the third piece leaves the
  layer's result, its row means, and the variance's correction (the integer 0).
-/
import proofs.«204770_g8065948582451_cont_9to1c4b_476_56_alg».proof.Proof.RefSeg

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

attribute [local irreducible] Host.reduceAdd concatenate in
set_option maxRecDepth 8192 in
/-- The linear layer's result. -/
theorem seg3_lin (V : Valuation τ sig (Elt F)) :
    after seg3 V (main_v6 : DevRef τ sig)
      = linear (feats (V (main_v0 : DevRef τ sig)) (V (main_v1 : DevRef τ sig))) (V (main_arg4 : DevRef τ sig)) (V (main_arg5 : DevRef τ sig)) := by
  after_results_simp
  rfl

attribute [local irreducible] Host.reduceAdd concatenate in
set_option maxRecDepth 8192 in
/-- Its row means. -/
theorem seg3_mean (V : Valuation τ sig (Elt F)) :
    after seg3 V (main_v10 : DevRef τ sig)
      = rowMean (linear (feats (V (main_v0 : DevRef τ sig)) (V (main_v1 : DevRef τ sig))) (V (main_arg4 : DevRef τ sig)) (V (main_arg5 : DevRef τ sig))) := by
  after_results_simp
  rfl

/-- The variance's correction. -/
theorem seg3_c (V : Valuation τ sig (Elt F)) :
    after seg3 V (main_c : DevRef τ sig) = constantI S_ 32 0#32 := by
  after_results_simp

end Cert.ReferenceIdeal.RefRun

end
-- ==== Proof.RefOut4.lean ====
/-
  The variance, folded: from the linear layer's result and the correction, the fourth piece's 23 operations leave
  the term `rowVar`.
-/
import proofs.«204770_g8065948582451_cont_9to1c4b_476_56_alg».proof.Proof.RefSeg

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

attribute [local irreducible] Host.reduceAdd in
set_option maxRecDepth 8192 in
/-- The 23 operations of the variance leave `rowVar` of the layer's result and the correction. -/
theorem seg4_out (V : Valuation τ sig (Elt F)) :
    after seg4 V (main_v11 : DevRef τ sig) = rowVar (V (main_v6 : DevRef τ sig)) (V (main_c : DevRef τ sig)) := by
  after_results_simp
  simp only [ofBuf_toBuf]
  rfl

end Cert.ReferenceIdeal.RefRun

end
-- ==== Proof.RefOut5.lean ====
/-
  The normalisation's last step, folded: from the linear layer's result, its row means and variances, the scale
  and the shift, the last 14 operations leave the term `normedOf`.
-/
import proofs.«204770_g8065948582451_cont_9to1c4b_476_56_alg».proof.Proof.RefSeg

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
/-- The last 14 operations leave `normedOf`. -/
theorem seg5_out (V : Valuation τ sig (Elt F)) :
    after seg5 V (main_v24 : DevRef τ sig)
      = normedOf (V (main_v6 : DevRef τ sig)) (V (main_v10 : DevRef τ sig)) (V (main_v11 : DevRef τ sig)) (V (main_arg6 : DevRef τ sig)) (V (main_arg7 : DevRef τ sig)) := by
  after_results_simp
  rfl

end Cert.ReferenceIdeal.RefRun

end
-- ==== Proof.RefOut.lean ====
/-
  The reference's run, stated with its result as one term of the eight arguments: the five pieces' folds composed
  (each piece reads what the earlier ones left, and leaves the other buffers as they were), then the run itself —
  every weakly fair execution terminates with the result buffer at `out` of the launch contents and the eight
  argument arrays unchanged.
-/
import proofs.«204770_g8065948582451_cont_9to1c4b_476_56_alg».proof.Proof.RefOut1
import proofs.«204770_g8065948582451_cont_9to1c4b_476_56_alg».proof.Proof.RefOut2
import proofs.«204770_g8065948582451_cont_9to1c4b_476_56_alg».proof.Proof.RefOut3
import proofs.«204770_g8065948582451_cont_9to1c4b_476_56_alg».proof.Proof.RefOut4
import proofs.«204770_g8065948582451_cont_9to1c4b_476_56_alg».proof.Proof.RefOut5

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The fold of the 95 operations at the result buffer is `out` of the contents at the argument buffers. -/
theorem out_eq (V : Valuation τ sig (Elt F)) :
    after ops V (main_v24 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops, seg5_out,
    seg4_out, seg4_frame _ (r := main_v6) (by decide), seg4_frame _ (r := main_v10) (by decide), seg4_frame _ (r := main_arg6) (by decide), seg4_frame _ (r := main_arg7) (by decide),
    seg3_lin, seg3_mean, seg3_c, seg3_frame _ (r := main_arg6) (by decide), seg3_frame _ (r := main_arg7) (by decide),
    seg2_out, seg2_frame _ (r := main_v0) (by decide), seg2_frame _ (r := main_arg4) (by decide), seg2_frame _ (r := main_arg5) (by decide), seg2_frame _ (r := main_arg6) (by decide), seg2_frame _ (r := main_arg7) (by decide),
    seg1_out, seg1_frame _ (r := main_arg1) (by decide), seg1_frame _ (r := main_arg3) (by decide), seg1_frame _ (r := main_arg4) (by decide), seg1_frame _ (r := main_arg5) (by decide), seg1_frame _ (r := main_arg6) (by decide), seg1_frame _ (r := main_arg7) (by decide)]
  rfl

/-- A buffer none of the five pieces writes keeps its contents through the 95 operations. -/
theorem keep_eq (V : Valuation τ sig (Elt F)) {r : Ref sig .tc} (h1 : r ∉ W1) (h2 : r ∉ W2) (h3 : r ∉ W3) (h4 : r ∉ W4)
    (h5 : r ∉ W5) : after ops V (Proc.devRef .tc r) = V (Proc.devRef .tc r) := by
  rw [after_ops, seg5_frame _ h5, seg4_frame _ h4, seg3_frame _ h3, seg2_frame _ h2, seg1_frame _ h1]

/-- From any memory with zero counters, every weakly fair execution of @main terminates, nothing faulting, with
    the result buffer at `out` of the arguments' launch contents and the eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
        = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v24).trans (out_eq _),
      (h c main_arg0).trans (keep_eq _ (by decide) (by decide) (by decide) (by decide) (by decide)),
      (h c main_arg1).trans (keep_eq _ (by decide) (by decide) (by decide) (by decide) (by decide)),
      (h c main_arg2).trans (keep_eq _ (by decide) (by decide) (by decide) (by decide) (by decide)),
      (h c main_arg3).trans (keep_eq _ (by decide) (by decide) (by decide) (by decide) (by decide)),
      (h c main_arg4).trans (keep_eq _ (by decide) (by decide) (by decide) (by decide) (by decide)),
      (h c main_arg5).trans (keep_eq _ (by decide) (by decide) (by decide) (by decide) (by decide)),
      (h c main_arg6).trans (keep_eq _ (by decide) (by decide) (by decide) (by decide) (by decide)),
      (h c main_arg7).trans (keep_eq _ (by decide) (by decide) (by decide) (by decide) (by decide))⟩)
    (run_main m ρ)

end Cert.ReferenceIdeal.RefRun

end
-- ==== Proof.AsmRef.lean ====
/-
  Two of the certificate's claims. The reference runs to its end with its eight arguments unchanged: that is the
  frame part of its run read back. And the idealized kernel is the kernel's own text read at the ideal instance, no
  operation rewritten, so there is nothing to preserve.
-/
import proofs.«204770_g8065948582451_cont_9to1c4b_476_56_alg».proof.Defs
import proofs.«204770_g8065948582451_cont_9to1c4b_476_56_alg».proof.Proof.RefOut

noncomputable section

namespace Cert.Proof.Asm

open Idealize.ShloMosaic Idealize.SL.Sem

/-- The reference terminates, nothing faulting, and leaves its arguments unchanged. -/
theorem frame_ri [hReferenceIdeal : Cert.ReferenceIdeal.Facts] [hPre_input_domain : Cert.Pre_input_domain.Facts] :
    Cert.frame_ReferenceIdeal :=
  fun m g _ => (θ_run _ _ _).mono (fun _ h c => (h c).2) (Cert.ReferenceIdeal.RefRun.run (F := Ideal) m g)

/-- The ideal pass rewrote nothing. -/
theorem preserves : Cert.preserves_Kernel_KernelIdeal := trivial

end Cert.Proof.Asm

end
-- ==== Proof.ScSetupI.lean ====
/-
  The program as the SparseCore launch theorem sees it: eight vector-subcore calls, each a gather of 102400 tokens'
  two table rows into a [102400, 256] array, and eight TensorCore regions; the configuration, the body table, the
  variants, the side conditions of the launch semaphores, and the ghost state: the handshakes' rounds beside the
  TensorCore regions' staging cells and the transfers' counters.
-/
import proofs.«204770_g8065948582451_cont_9to1c4b_476_56_alg».proof.Proof.Gen.KernelIdeal
import proofs.«204770_g8065948582451_cont_9to1c4b_476_56_alg».proof.Proof.Gen.KernelIdeal.Skeleton
import proofs.«204770_g8065948582451_cont_9to1c4b_476_56_alg».proof.Proof.Gen.KernelIdeal.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 8) fun p => (pcfgs (F := F) p).Adm
abbrev K : SparseCore.Cfg τ sig (ΛP (F := F)) 8 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev EH : Emb UH (MT nD τ sig (HIx 8) (Elt F) ℕ UU ℕ) := embL
def EP : Emb UP (MT nD τ sig (HIx 8) (Elt F) ℕ UU ℕ) := (Emb.inl : Emb UP (UP × Counters)).trans embR

instance EP_landsIn : (EP : Emb UP (MT nD τ sig (HIx 8) (Elt F) ℕ UU ℕ)).LandsIn (upEmb : UEmb _ (MT nD τ sig (HIx 8) (Elt F) ℕ UU ℕ)) := by
  unfold EP; infer_instance

end Cert.KernelIdeal.Sc

end
-- ==== Proof.ScResI.lean ====
/-
  What one gather call hands a vector subcore and what comes back. Call q gathers 102400 tokens; subcore s of
  SparseCore c is worker w = 2 s + c and owns token rows [3200 w, 3200 w + 3200) of the call's [102400, 256] result,
  as 25 blocks of 128 rows: block number 25 w + k of the 800 blocks of 128 rows. It reads the call's two index
  arrays and both tables through a read share of each whole array (share w of 32), and holds its 25 result blocks
  in full. The gathered array is one whole-array function of the index arrays and the tables (`gath`): row r is row
  ids r of the id table followed by row cids r of the category table.
-/
import proofs.«204770_g8065948582451_cont_9to1c4b_476_56_alg».proof.Proof.ScSetupI
import Idealize.ShloMosaic.Lib.Transfers
import Idealize.ShloMosaic.Lib.ValueIdx

noncomputable section

namespace Cert.KernelIdeal.Sc

open Cert.KernelIdeal Cert.KernelIdeal.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 8) (Elt F) ℕ UU ℕ

/-- Worker number of subcore `s` of SparseCore `c`. -/
def wid (c : Fin 2) (s : Fin 16) : Fin 32 := ⟨s.val * 2 + c.val, by omega⟩
/-- The same on naturals (reduced to be total): what the body's offsets are stated with. -/
def widN (c s : ℕ) : Fin 32 := ⟨(s % 16) * 2 + c % 2, by omega⟩
/-- Block number (of the 800 blocks of 128 rows) of worker `w`'s chunk `k`. -/
def blk (w : Fin 32) (k : Fin 25) : Fin 800 := ⟨w.val * 25 + k.val, by omega⟩

theorem odiv : 800 ∣ S102400x256.size 0 := ⟨128, rfl⟩
/-- Block `b` of 128 rows of a [102400, 256] array, as a rectangle and as a set of indices. -/
abbrev oblk (b : Fin 800) : Rect S102400x256 := Rect.part (s := S102400x256) (a₀ := 0) odiv b
abbrev oBlkSet (b : Fin 800) : Finset S102400x256.Idx := (oblk b).set

/-- An index word as a row of an `n`-row table (the word's unsigned value, reduced mod `n` only to be total). -/
def rowOf (n : Nat) (hn : 0 < n) (v : BitVec 32) : Fin n := ⟨v.toNat % n, Nat.mod_lt _ hn⟩

/-- The gathered array: row `r` is row `ids r` of the id table followed by row `cids r` of the category table. -/
def gath (ids cids : Vec F S102400 .i32) (idt : Vec F S100000x128 .f32) (cat : Vec F S1000x128 .f32) : Vec F S102400x256 .f32 :=
  fun i => if h : (i 1).val < 128 then idt (ix2 (rowOf 100000 (by norm_num) (ids (ix1 (i 0)))) (⟨(i 1).val, h⟩ : Fin 128))
    else cat (ix2 (rowOf 1000 (by norm_num) (cids (ix1 (i 0)))) (⟨(i 1).val - 128, by have h2 : (i 1).val < 256 := (i 1).isLt; omega⟩ : Fin 128))

/-- The read share worker `w` is lent of an array every worker reads. -/
abbrev rsh (w : Fin 32) : PosShare TreeShare := Transfers.shareTok fullShare 32 w

end Cert.KernelIdeal.Sc

end
-- ==== Proof.ScPayI.lean ====
/-
  What the handshakes of the eight gather calls carry. Before call q the host slices the q-th row of the two
  reshaped index arrays; the call hands worker w read shares of those two rows and of both tables and its 25 blocks
  of the call's result, and takes them back with the blocks at the gathered rows. A SparseCore's start payload is
  its sixteen workers' hand-outs, its done payload their returns, so the split among the subcores is the identity.
  The arrays' contents are followed as one valuation of the TensorCore's buffers from call to call.
-/
import proofs.«204770_g8065948582451_cont_9to1c4b_476_56_alg».proof.Proof.ScResI

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F]

local notation "𝕄" => MT nD τ sig (HIx 8) (Elt F) ℕ UU ℕ

variable (m : (ℓ : Loc nD τ sig) → Buf (Elt F) ℓ)

/-- The launch contents as a valuation of device `d`'s buffers. -/
def V0 (d : Dev nD) : Valuation τ sig (Elt F) := fun b => m (d, b)

/-- The two tables. -/
def idt (d : Dev nD) : Vec F S100000x128 .f32 := m ((T d : Thread nD τ).loc main_arg2)
def cat (d : Dev nD) : Vec F S1000x128 .f32 := m ((T d : Thread nD τ).loc main_arg3)

/-- The host operations before gather call 0. -/
abbrev hops0 : List (HloOp τ sig (Elt F)) :=
  [StableHlo.reshape main_arg0 main_v0 rfl shapeCasts_S4096x200_S8x102400,
   StableHlo.reshape main_arg1 main_v1 rfl shapeCasts_S4096x200_S8x102400,
   StableHlo.reshape main_arg5 main_v2 rfl shapeCasts_S512_S1x512,
   StableHlo.reshape main_arg6 main_v3 rfl shapeCasts_S512_S1x512,
   StableHlo.reshape main_arg7 main_v4 rfl shapeCasts_S512_S1x512,
   StableHlo.unary main_v0 main_v5 ((extractStridedSlice S1x102400 ![0, 0] · slices_S8x102400_S1x102400_0_0) : (⟨S8x102400, .i32⟩ : BufTy).Contents (Elt F) → (⟨S1x102400, .i32⟩ : BufTy).Contents (Elt F)),
   StableHlo.reshape main_v5 main_v6 rfl shapeCasts_S1x102400_S102400,
   StableHlo.unary main_v1 main_v7 ((extractStridedSlice S1x102400 ![0, 0] · slices_S8x102400_S1x102400_0_0) : (⟨S8x102400, .i32⟩ : BufTy).Contents (Elt F) → (⟨S1x102400, .i32⟩ : BufTy).Contents (Elt F)),
   StableHlo.reshape main_v7 main_v8 rfl shapeCasts_S1x102400_S102400]

/-- The host operations before gather call 1. -/
abbrev hops1 : List (HloOp τ sig (Elt F)) :=
  [StableHlo.unary main_v0 main_v10 ((extractStridedSlice S1x102400 ![1, 0] · slices_S8x102400_S1x102400_1_0) : (⟨S8x102400, .i32⟩ : BufTy).Contents (Elt F) → (⟨S1x102400, .i32⟩ : BufTy).Contents (Elt F)),
   StableHlo.reshape main_v10 main_v11 rfl shapeCasts_S1x102400_S102400,
   StableHlo.unary main_v1 main_v12 ((extractStridedSlice S1x102400 ![1, 0] · slices_S8x102400_S1x102400_1_0) : (⟨S8x102400, .i32⟩ : BufTy).Contents (Elt F) → (⟨S1x102400, .i32⟩ : BufTy).Contents (Elt F)),
   StableHlo.reshape main_v12 main_v13 rfl shapeCasts_S1x102400_S102400]

/-- The host operations before gather call 2. -/
abbrev hops2 : List (HloOp τ sig (Elt F)) :=
  [StableHlo.unary main_v0 main_v15 ((extractStridedSlice S1x102400 ![2, 0] · slices_S8x102400_S1x102400_2_0) : (⟨S8x102400, .i32⟩ : BufTy).Contents (Elt F) → (⟨S1x102400, .i32⟩ : BufTy).Contents (Elt F)),
   StableHlo.reshape main_v15 main_v16 rfl shapeCasts_S1x102400_S102400,
   StableHlo.unary main_v1 main_v17 ((extractStridedSlice S1x102400 ![2, 0] · slices_S8x102400_S1x102400_2_0) : (⟨S8x102400, .i32⟩ : BufTy).Contents (Elt F) → (⟨S1x102400, .i32⟩ : BufTy).Contents (Elt F)),
   StableHlo.reshape main_v17 main_v18 rfl shapeCasts_S1x102400_S102400]

/-- The host operations before gather call 3. -/
abbrev hops3 : List (HloOp τ sig (Elt F)) :=
  [StableHlo.unary main_v0 main_v20 ((extractStridedSlice S1x102400 ![3, 0] · slices_S8x102400_S1x102400_3_0) : (⟨S8x102400, .i32⟩ : BufTy).Contents (Elt F) → (⟨S1x102400, .i32⟩ : BufTy).Contents (Elt F)),
   StableHlo.reshape main_v20 main_v21 rfl shapeCasts_S1x102400_S102400,
   StableHlo.unary main_v1 main_v22 ((extractStridedSlice S1x102400 ![3, 0] · slices_S8x102400_S1x102400_3_0) : (⟨S8x102400, .i32⟩ : BufTy).Contents (Elt F) → (⟨S1x102400, .i32⟩ : BufTy).Contents (Elt F)),
   StableHlo.reshape main_v22 main_v23 rfl shapeCasts_S1x102400_S102400]

/-- The host operations before gather call 4. -/
abbrev hops4 : List (HloOp τ sig (Elt F)) :=
  [StableHlo.unary main_v0 main_v25 ((extractStridedSlice S1x102400 ![4, 0] · slices_S8x102400_S1x102400_4_0) : (⟨S8x102400, .i32⟩ : BufTy).Contents (Elt F) → (⟨S1x102400, .i32⟩ : BufTy).Contents (Elt F)),
   StableHlo.reshape main_v25 main_v26 rfl shapeCasts_S1x102400_S102400,
   StableHlo.unary main_v1 main_v27 ((extractStridedSlice S1x102400 ![4, 0] · slices_S8x102400_S1x102400_4_0) : (⟨S8x102400, .i32⟩ : BufTy).Contents (Elt F) → (⟨S1x102400, .i32⟩ : BufTy).Contents (Elt F)),
   StableHlo.reshape main_v27 main_v28 rfl shapeCasts_S1x102400_S102400]

/-- The host operations before gather call 5. -/
abbrev hops5 : List (HloOp τ sig (Elt F)) :=
  [StableHlo.unary main_v0 main_v30 ((extractStridedSlice S1x102400 ![5, 0] · slices_S8x102400_S1x102400_5_0) : (⟨S8x102400, .i32⟩ : BufTy).Contents (Elt F) → (⟨S1x102400, .i32⟩ : BufTy).Contents (Elt F)),
   StableHlo.reshape main_v30 main_v31 rfl shapeCasts_S1x102400_S102400,
   StableHlo.unary main_v1 main_v32 ((extractStridedSlice S1x102400 ![5, 0] · slices_S8x102400_S1x102400_5_0) : (⟨S8x102400, .i32⟩ : BufTy).Contents (Elt F) → (⟨S1x102400, .i32⟩ : BufTy).Contents (Elt F)),
   StableHlo.reshape main_v32 main_v33 rfl shapeCasts_S1x102400_S102400]

/-- The host operations before gather call 6. -/
abbrev hops6 : List (HloOp τ sig (Elt F)) :=
  [StableHlo.unary main_v0 main_v35 ((extractStridedSlice S1x102400 ![6, 0] · slices_S8x102400_S1x102400_6_0) : (⟨S8x102400, .i32⟩ : BufTy).Contents (Elt F) → (⟨S1x102400, .i32⟩ : BufTy).Contents (Elt F)),
   StableHlo.reshape main_v35 main_v36 rfl shapeCasts_S1x102400_S102400,
   StableHlo.unary main_v1 main_v37 ((extractStridedSlice S1x102400 ![6, 0] · slices_S8x102400_S1x102400_6_0) : (⟨S8x102400, .i32⟩ : BufTy).Contents (Elt F) → (⟨S1x102400, .i32⟩ : BufTy).Contents (Elt F)),
   StableHlo.reshape main_v37 main_v38 rfl shapeCasts_S1x102400_S102400]

/-- The host operations before gather call 7. -/
abbrev hops7 : List (HloOp τ sig (Elt F)) :=
  [StableHlo.unary main_v0 main_v40 ((extractStridedSlice S1x102400 ![7, 0] · slices_S8x102400_S1x102400_7_0) : (⟨S8x102400, .i32⟩ : BufTy).Contents (Elt F) → (⟨S1x102400, .i32⟩ : BufTy).Contents (Elt F)),
   StableHlo.reshape main_v40 main_v41 rfl shapeCasts_S1x102400_S102400,
   StableHlo.unary main_v1 main_v42 ((extractStridedSlice S1x102400 ![7, 0] · slices_S8x102400_S1x102400_7_0) : (⟨S8x102400, .i32⟩ : BufTy).Contents (Elt F) → (⟨S1x102400, .i32⟩ : BufTy).Contents (Elt F)),
   StableHlo.reshape main_v42 main_v43 rfl shapeCasts_S1x102400_S102400]

/-- The arrays as gather call 0 finds them, and as it leaves them: its result at the gathered rows. -/
def Vpre0 (d : Dev nD) : Valuation τ sig (Elt F) := StableHlo.after hops0 (V0 m d)
def ids0 (d : Dev nD) : Vec F S102400 .i32 := Vpre0 m d (Proc.devRef .tc main_v6)
def cids0 (d : Dev nD) : Vec F S102400 .i32 := Vpre0 m d (Proc.devRef .tc main_v8)
def Vpost0 (d : Dev nD) : Valuation τ sig (Elt F) :=
  Function.update (Vpre0 m d) (Proc.devRef .tc main_v9) (gath (ids0 m d) (cids0 m d) (idt m d) (cat m d))

/-- The arrays as gather call 1 finds them, and as it leaves them: its result at the gathered rows. -/
def Vpre1 (d : Dev nD) : Valuation τ sig (Elt F) := StableHlo.after hops1 (Vpost0 m d)
def ids1 (d : Dev nD) : Vec F S102400 .i32 := Vpre1 m d (Proc.devRef .tc main_v11)
def cids1 (d : Dev nD) : Vec F S102400 .i32 := Vpre1 m d (Proc.devRef .tc main_v13)
def Vpost1 (d : Dev nD) : Valuation τ sig (Elt F) :=
  Function.update (Vpre1 m d) (Proc.devRef .tc main_v14) (gath (ids1 m d) (cids1 m d) (idt m d) (cat m d))

/-- The arrays as gather call 2 finds them, and as it leaves them: its result at the gathered rows. -/
def Vpre2 (d : Dev nD) : Valuation τ sig (Elt F) := StableHlo.after hops2 (Vpost1 m d)
def ids2 (d : Dev nD) : Vec F S102400 .i32 := Vpre2 m d (Proc.devRef .tc main_v16)
def cids2 (d : Dev nD) : Vec F S102400 .i32 := Vpre2 m d (Proc.devRef .tc main_v18)
def Vpost2 (d : Dev nD) : Valuation τ sig (Elt F) :=
  Function.update (Vpre2 m d) (Proc.devRef .tc main_v19) (gath (ids2 m d) (cids2 m d) (idt m d) (cat m d))

/-- The arrays as gather call 3 finds them, and as it leaves them: its result at the gathered rows. -/
def Vpre3 (d : Dev nD) : Valuation τ sig (Elt F) := StableHlo.after hops3 (Vpost2 m d)
def ids3 (d : Dev nD) : Vec F S102400 .i32 := Vpre3 m d (Proc.devRef .tc main_v21)
def cids3 (d : Dev nD) : Vec F S102400 .i32 := Vpre3 m d (Proc.devRef .tc main_v23)
def Vpost3 (d : Dev nD) : Valuation τ sig (Elt F) :=
  Function.update (Vpre3 m d) (Proc.devRef .tc main_v24) (gath (ids3 m d) (cids3 m d) (idt m d) (cat m d))

/-- The arrays as gather call 4 finds them, and as it leaves them: its result at the gathered rows. -/
def Vpre4 (d : Dev nD) : Valuation τ sig (Elt F) := StableHlo.after hops4 (Vpost3 m d)
def ids4 (d : Dev nD) : Vec F S102400 .i32 := Vpre4 m d (Proc.devRef .tc main_v26)
def cids4 (d : Dev nD) : Vec F S102400 .i32 := Vpre4 m d (Proc.devRef .tc main_v28)
def Vpost4 (d : Dev nD) : Valuation τ sig (Elt F) :=
  Function.update (Vpre4 m d) (Proc.devRef .tc main_v29) (gath (ids4 m d) (cids4 m d) (idt m d) (cat m d))

/-- The arrays as gather call 5 finds them, and as it leaves them: its result at the gathered rows. -/
def Vpre5 (d : Dev nD) : Valuation τ sig (Elt F) := StableHlo.after hops5 (Vpost4 m d)
def ids5 (d : Dev nD) : Vec F S102400 .i32 := Vpre5 m d (Proc.devRef .tc main_v31)
def cids5 (d : Dev nD) : Vec F S102400 .i32 := Vpre5 m d (Proc.devRef .tc main_v33)
def Vpost5 (d : Dev nD) : Valuation τ sig (Elt F) :=
  Function.update (Vpre5 m d) (Proc.devRef .tc main_v34) (gath (ids5 m d) (cids5 m d) (idt m d) (cat m d))

/-- The arrays as gather call 6 finds them, and as it leaves them: its result at the gathered rows. -/
def Vpre6 (d : Dev nD) : Valuation τ sig (Elt F) := StableHlo.after hops6 (Vpost5 m d)
def ids6 (d : Dev nD) : Vec F S102400 .i32 := Vpre6 m d (Proc.devRef .tc main_v36)
def cids6 (d : Dev nD) : Vec F S102400 .i32 := Vpre6 m d (Proc.devRef .tc main_v38)
def Vpost6 (d : Dev nD) : Valuation τ sig (Elt F) :=
  Function.update (Vpre6 m d) (Proc.devRef .tc main_v39) (gath (ids6 m d) (cids6 m d) (idt m d) (cat m d))

/-- The arrays as gather call 7 finds them, and as it leaves them: its result at the gathered rows. -/
def Vpre7 (d : Dev nD) : Valuation τ sig (Elt F) := StableHlo.after hops7 (Vpost6 m d)
def ids7 (d : Dev nD) : Vec F S102400 .i32 := Vpre7 m d (Proc.devRef .tc main_v41)
def cids7 (d : Dev nD) : Vec F S102400 .i32 := Vpre7 m d (Proc.devRef .tc main_v43)
def Vpost7 (d : Dev nD) : Valuation τ sig (Elt F) :=
  Function.update (Vpre7 m d) (Proc.devRef .tc main_v44) (gath (ids7 m d) (cids7 m d) (idt m d) (cat m d))

/-- Call 0: what worker `w` is handed, and what it hands back. -/
def tileIn0 (d : Dev nD) (w : Fin 32) : sProp 𝕄 :=
  iprop(((T d : Thread nD τ).loc main_v6 ↦{rsh w} ids0 m d) ∗ ((T d : Thread nD τ).loc main_v8 ↦{rsh w} cids0 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v9 ↦[oBlkSet (blk w k)]{fullShare} f))
def tileOut0 (d : Dev nD) (w : Fin 32) : sProp 𝕄 :=
  iprop(((T d : Thread nD τ).loc main_v6 ↦{rsh w} ids0 m d) ∗ ((T d : Thread nD τ).loc main_v8 ↦{rsh w} cids0 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v9 ↦[oBlkSet (blk w k)]{fullShare} gath (ids0 m d) (cids0 m d) (idt m d) (cat m d))

/-- Call 1: what worker `w` is handed, and what it hands back. -/
def tileIn1 (d : Dev nD) (w : Fin 32) : sProp 𝕄 :=
  iprop(((T d : Thread nD τ).loc main_v11 ↦{rsh w} ids1 m d) ∗ ((T d : Thread nD τ).loc main_v13 ↦{rsh w} cids1 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v14 ↦[oBlkSet (blk w k)]{fullShare} f))
def tileOut1 (d : Dev nD) (w : Fin 32) : sProp 𝕄 :=
  iprop(((T d : Thread nD τ).loc main_v11 ↦{rsh w} ids1 m d) ∗ ((T d : Thread nD τ).loc main_v13 ↦{rsh w} cids1 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v14 ↦[oBlkSet (blk w k)]{fullShare} gath (ids1 m d) (cids1 m d) (idt m d) (cat m d))

/-- Call 2: what worker `w` is handed, and what it hands back. -/
def tileIn2 (d : Dev nD) (w : Fin 32) : sProp 𝕄 :=
  iprop(((T d : Thread nD τ).loc main_v16 ↦{rsh w} ids2 m d) ∗ ((T d : Thread nD τ).loc main_v18 ↦{rsh w} cids2 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v19 ↦[oBlkSet (blk w k)]{fullShare} f))
def tileOut2 (d : Dev nD) (w : Fin 32) : sProp 𝕄 :=
  iprop(((T d : Thread nD τ).loc main_v16 ↦{rsh w} ids2 m d) ∗ ((T d : Thread nD τ).loc main_v18 ↦{rsh w} cids2 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v19 ↦[oBlkSet (blk w k)]{fullShare} gath (ids2 m d) (cids2 m d) (idt m d) (cat m d))

/-- Call 3: what worker `w` is handed, and what it hands back. -/
def tileIn3 (d : Dev nD) (w : Fin 32) : sProp 𝕄 :=
  iprop(((T d : Thread nD τ).loc main_v21 ↦{rsh w} ids3 m d) ∗ ((T d : Thread nD τ).loc main_v23 ↦{rsh w} cids3 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v24 ↦[oBlkSet (blk w k)]{fullShare} f))
def tileOut3 (d : Dev nD) (w : Fin 32) : sProp 𝕄 :=
  iprop(((T d : Thread nD τ).loc main_v21 ↦{rsh w} ids3 m d) ∗ ((T d : Thread nD τ).loc main_v23 ↦{rsh w} cids3 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v24 ↦[oBlkSet (blk w k)]{fullShare} gath (ids3 m d) (cids3 m d) (idt m d) (cat m d))

/-- Call 4: what worker `w` is handed, and what it hands back. -/
def tileIn4 (d : Dev nD) (w : Fin 32) : sProp 𝕄 :=
  iprop(((T d : Thread nD τ).loc main_v26 ↦{rsh w} ids4 m d) ∗ ((T d : Thread nD τ).loc main_v28 ↦{rsh w} cids4 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v29 ↦[oBlkSet (blk w k)]{fullShare} f))
def tileOut4 (d : Dev nD) (w : Fin 32) : sProp 𝕄 :=
  iprop(((T d : Thread nD τ).loc main_v26 ↦{rsh w} ids4 m d) ∗ ((T d : Thread nD τ).loc main_v28 ↦{rsh w} cids4 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v29 ↦[oBlkSet (blk w k)]{fullShare} gath (ids4 m d) (cids4 m d) (idt m d) (cat m d))

/-- Call 5: what worker `w` is handed, and what it hands back. -/
def tileIn5 (d : Dev nD) (w : Fin 32) : sProp 𝕄 :=
  iprop(((T d : Thread nD τ).loc main_v31 ↦{rsh w} ids5 m d) ∗ ((T d : Thread nD τ).loc main_v33 ↦{rsh w} cids5 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v34 ↦[oBlkSet (blk w k)]{fullShare} f))
def tileOut5 (d : Dev nD) (w : Fin 32) : sProp 𝕄 :=
  iprop(((T d : Thread nD τ).loc main_v31 ↦{rsh w} ids5 m d) ∗ ((T d : Thread nD τ).loc main_v33 ↦{rsh w} cids5 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v34 ↦[oBlkSet (blk w k)]{fullShare} gath (ids5 m d) (cids5 m d) (idt m d) (cat m d))

/-- Call 6: what worker `w` is handed, and what it hands back. -/
def tileIn6 (d : Dev nD) (w : Fin 32) : sProp 𝕄 :=
  iprop(((T d : Thread nD τ).loc main_v36 ↦{rsh w} ids6 m d) ∗ ((T d : Thread nD τ).loc main_v38 ↦{rsh w} cids6 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v39 ↦[oBlkSet (blk w k)]{fullShare} f))
def tileOut6 (d : Dev nD) (w : Fin 32) : sProp 𝕄 :=
  iprop(((T d : Thread nD τ).loc main_v36 ↦{rsh w} ids6 m d) ∗ ((T d : Thread nD τ).loc main_v38 ↦{rsh w} cids6 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v39 ↦[oBlkSet (blk w k)]{fullShare} gath (ids6 m d) (cids6 m d) (idt m d) (cat m d))

/-- Call 7: what worker `w` is handed, and what it hands back. -/
def tileIn7 (d : Dev nD) (w : Fin 32) : sProp 𝕄 :=
  iprop(((T d : Thread nD τ).loc main_v41 ↦{rsh w} ids7 m d) ∗ ((T d : Thread nD τ).loc main_v43 ↦{rsh w} cids7 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v44 ↦[oBlkSet (blk w k)]{fullShare} f))
def tileOut7 (d : Dev nD) (w : Fin 32) : sProp 𝕄 :=
  iprop(((T d : Thread nD τ).loc main_v41 ↦{rsh w} ids7 m d) ∗ ((T d : Thread nD τ).loc main_v43 ↦{rsh w} cids7 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v44 ↦[oBlkSet (blk w k)]{fullShare} gath (ids7 m d) (cids7 m d) (idt m d) (cat m d))

/-- What call `q` hands subcore `i` of SparseCore `c` (numbers as naturals), and what comes back. -/
def goR (q : Fin 8) (d : Dev nD) (c i : ℕ) : sProp 𝕄 :=
  match q with
    | 0 => tileIn0 m d (widN c i)
    | 1 => tileIn1 m d (widN c i)
    | 2 => tileIn2 m d (widN c i)
    | 3 => tileIn3 m d (widN c i)
    | 4 => tileIn4 m d (widN c i)
    | 5 => tileIn5 m d (widN c i)
    | 6 => tileIn6 m d (widN c i)
    | 7 => tileIn7 m d (widN c i)
def tdR (q : Fin 8) (d : Dev nD) (c i : ℕ) : sProp 𝕄 :=
  match q with
    | 0 => tileOut0 m d (widN c i)
    | 1 => tileOut1 m d (widN c i)
    | 2 => tileOut2 m d (widN c i)
    | 3 => tileOut3 m d (widN c i)
    | 4 => tileOut4 m d (widN c i)
    | 5 => tileOut5 m d (widN c i)
    | 6 => tileOut6 m d (widN c i)
    | 7 => tileOut7 m d (widN c i)

instance goR_storable (q : Fin 8) (d : Dev nD) (c i : ℕ) : BI.Storable (upEmb : UEmb _ 𝕄) (goR m q d c i) :=
  match q with
    | 0 => by unfold goR tileIn0; infer_instance
    | 1 => by unfold goR tileIn1; infer_instance
    | 2 => by unfold goR tileIn2; infer_instance
    | 3 => by unfold goR tileIn3; infer_instance
    | 4 => by unfold goR tileIn4; infer_instance
    | 5 => by unfold goR tileIn5; infer_instance
    | 6 => by unfold goR tileIn6; infer_instance
    | 7 => by unfold goR tileIn7; infer_instance
instance tdR_storable (q : Fin 8) (d : Dev nD) (c i : ℕ) : BI.Storable (upEmb : UEmb _ 𝕄) (tdR m q d c i) :=
  match q with
    | 0 => by unfold tdR tileOut0; infer_instance
    | 1 => by unfold tdR tileOut1; infer_instance
    | 2 => by unfold tdR tileOut2; infer_instance
    | 3 => by unfold tdR tileOut3; infer_instance
    | 4 => by unfold tdR tileOut4; infer_instance
    | 5 => by unfold tdR tileOut5; infer_instance
    | 6 => by unfold tdR tileOut6; infer_instance
    | 7 => by unfold tdR tileOut7; infer_instance

/-- The payloads: a SparseCore's start carries its subcores' hand-outs, its done their returns; no kernel's proof
    consumes anything of the launch's. -/
def P : (K (F := F)).Pay (nD := nD) (Val := Elt F) (Name := ℕ) (U := UU) where
  st := fun q d c => bigSep Finset.univ fun i : Fin ((K (F := F)).nSub q) => goR m q d c.val i.val
  dn := fun q d c => bigSep Finset.univ fun i : Fin ((K (F := F)).nSub q) => tdR m q d c.val i.val
  go := fun q d c i => goR m q d c.val i.val
  td := fun q d c i => tdR m q d c.val i.val
  x := fun _ _ => iprop(emp)

instance P_storable : (P (F := F) m).IsStorable where
  st _ _ _ := by unfold P; infer_instance
  dn _ _ _ := by unfold P; infer_instance
  go _ _ _ _ := by unfold P; infer_instance
  td _ _ _ _ := by unfold P; infer_instance

/-- The split among a SparseCore's subcores is the identity. -/
theorem vecSplit (q : Fin 8) : (K (F := F)).VecSplit' (P m) q := by
  intro d c
  show (bigSep Finset.univ fun i : Fin ((K (F := F)).nSub q) => goR m q d c.val i.val)
    ⊢ |={Set.univ}=> iprop((bigSep Finset.univ fun i : Fin ((K (F := F)).nSub q) => goR m q d c.val i.val)
      ∗ ((bigSep Finset.univ fun i : Fin ((K (F := F)).nSub q) => tdR m q d c.val i.val)
          -∗ bigSep Finset.univ fun i : Fin ((K (F := F)).nSub q) => tdR m q d c.val i.val))
  iintro Hst
  imodintro
  isplitl [Hst]
  · iexact Hst
  · iintro Htd; iexact Htd

end Cert.KernelIdeal.Sc

end
-- ==== Proof.ScValsI.lean ====
/-
  The index arrays the eight gather calls read. The host reshapes each [4096, 200] index array to [8, 102400] once,
  before the first call, and before call q slices row q of the reshape and flattens it; no later operation and no
  call's result touches the two reshapes. So call q's index array at r is the argument array at row-major position
  q * 102400 + r, that is at token ((q * 102400 + r) / 200, (q * 102400 + r) % 200); in particular every entry of a
  call's index array is an entry of the argument array, and a bound on the argument's words bounds the call's.
-/
import proofs.«204770_g8065948582451_cont_9to1c4b_476_56_alg».proof.Proof.ScPayI
import Idealize.ShloMosaic.Lib.Pipeline.Value

noncomputable section

namespace Cert.KernelIdeal.Sc

open Cert.KernelIdeal Cert.KernelIdeal.Gen

open Idealize.ShloMosaic Idealize.ShloMosaic.ValueIdx Idealize.ShloMosaic.StableHlo
open Idealize.ShloMosaic.SparseCore (S V T)
open Idealize.SL.Sem

variable {F : FTy → Type} [FloatOps F]

/-! ## Row q of the [8, 102400] reshape, flattened -/

/-- Row `q` of an [8, 102400] array, as a flat array of 102400 entries. -/
def rowq (q : Nat) (hs : S8x102400.Slices ![q, 0] S1x102400) (X : Vec F S8x102400 .i32) : Vec F S102400 .i32 :=
  shapeCast S102400 (extractStridedSlice S1x102400 ![q, 0] X hs) shapeCasts_S1x102400_S102400

/-- The [8, 102400] reshape of a [4096, 200] array. -/
def to8 (x : Vec F S4096x200 .i32) : Vec F S8x102400 .i32 :=
  shapeCast S8x102400 x shapeCasts_S4096x200_S8x102400

/-- Row `q` of the reshape at `r`: the array at row-major position q * 102400 + r. -/
theorem rowq_to8_at (q : Nat) (hq : q < 8) (hs : S8x102400.Slices ![q, 0] S1x102400) (x : Vec F S4096x200 .i32) (r : Fin 102400) :
    rowq q hs (to8 x) (ix1 r)
      = x (ix2 (⟨(q * 102400 + r.val) / 200, by have := r.isLt; omega⟩ : Fin 4096) (⟨(q * 102400 + r.val) % 200, by omega⟩ : Fin 200)) := by
  unfold rowq to8
  rw [shapeCast_apply _ _ (ix1 r) (ix2 (0 : Fin 1) r) (by
    rw [Shape.rowMajor_val_two, Shape.rowMajor_val_one]
    show 0 * 102400 + r.val = r.val
    omega)]
  rw [extractStridedSlice_apply _ _ hs (ix2 (0 : Fin 1) r) (ix2 (⟨q, hq⟩ : Fin 8) r) (fun e => by
    match e with
    | ⟨0, _⟩ => rfl
    | ⟨1, _⟩ => exact (Nat.zero_add _).symm)]
  rw [shapeCast_apply x _ (ix2 (⟨q, hq⟩ : Fin 8) r)
    (ix2 (⟨(q * 102400 + r.val) / 200, by have := r.isLt; omega⟩ : Fin 4096) (⟨(q * 102400 + r.val) % 200, by omega⟩ : Fin 200)) (by
    rw [Shape.rowMajor_val_two, Shape.rowMajor_val_two]
    show (q * 102400 + r.val) / 200 * 200 + (q * 102400 + r.val) % 200 = q * 102400 + r.val
    omega)]

variable (m : (ℓ : Loc nD τ sig) → Buf (Elt F) ℓ)

/-- The two reshapes of the launch contents. -/
def R0 (d : Dev nD) : Vec F S8x102400 .i32 := to8 (m ((T d : Thread nD τ).loc main_arg0))
def R1 (d : Dev nD) : Vec F S8x102400 .i32 := to8 (m ((T d : Thread nD τ).loc main_arg1))

/-! ## Before call 0 -/

theorem pre0_v0 (d : Dev nD) : Vpre0 m d (Proc.devRef .tc main_v0) = R0 m d := by
  unfold Vpre0
  after_results
  rfl

theorem pre0_v1 (d : Dev nD) : Vpre0 m d (Proc.devRef .tc main_v1) = R1 m d := by
  unfold Vpre0
  after_results
  rfl

theorem ids0_eq (d : Dev nD) : ids0 m d = rowq 0 slices_S8x102400_S1x102400_0_0 (R0 m d) := by
  unfold ids0 Vpre0
  after_results
  rfl

theorem cids0_eq (d : Dev nD) : cids0 m d = rowq 0 slices_S8x102400_S1x102400_0_0 (R1 m d) := by
  unfold cids0 Vpre0
  after_results
  rfl

theorem post0_v0 (d : Dev nD) : Vpost0 m d (Proc.devRef .tc main_v0) = R0 m d := by
  unfold Vpost0
  rw [Function.update_of_ne (devRef_ne_of_ne (by decide)), pre0_v0]

theorem post0_v1 (d : Dev nD) : Vpost0 m d (Proc.devRef .tc main_v1) = R1 m d := by
  unfold Vpost0
  rw [Function.update_of_ne (devRef_ne_of_ne (by decide)), pre0_v1]

/-! ## Before call 1 -/

/-- The four operations before call 1 leave the two reshapes as they were, and leave at the call's index buffers
    row 1 of the reshapes, flattened. -/
theorem hops1_v0 (W : Valuation τ sig (Elt F)) : after hops1 W (Proc.devRef .tc main_v0) = W (Proc.devRef .tc main_v0) := by
  after_results

theorem hops1_v1 (W : Valuation τ sig (Elt F)) : after hops1 W (Proc.devRef .tc main_v1) = W (Proc.devRef .tc main_v1) := by
  after_results

theorem hops1_ids (W : Valuation τ sig (Elt F)) :
    after hops1 W (Proc.devRef .tc main_v11) = rowq 1 slices_S8x102400_S1x102400_1_0 (W (Proc.devRef .tc main_v0)) := by
  after_results
  rfl

theorem hops1_cids (W : Valuation τ sig (Elt F)) :
    after hops1 W (Proc.devRef .tc main_v13) = rowq 1 slices_S8x102400_S1x102400_1_0 (W (Proc.devRef .tc main_v1)) := by
  after_results
  rfl

theorem pre1_v0 (d : Dev nD) : Vpre1 m d (Proc.devRef .tc main_v0) = R0 m d := by
  unfold Vpre1
  rw [hops1_v0, post0_v0]

theorem pre1_v1 (d : Dev nD) : Vpre1 m d (Proc.devRef .tc main_v1) = R1 m d := by
  unfold Vpre1
  rw [hops1_v1, post0_v1]

theorem ids1_eq (d : Dev nD) : ids1 m d = rowq 1 slices_S8x102400_S1x102400_1_0 (R0 m d) := by
  unfold ids1 Vpre1
  rw [hops1_ids, post0_v0]

theorem cids1_eq (d : Dev nD) : cids1 m d = rowq 1 slices_S8x102400_S1x102400_1_0 (R1 m d) := by
  unfold cids1 Vpre1
  rw [hops1_cids, post0_v1]

theorem post1_v0 (d : Dev nD) : Vpost1 m d (Proc.devRef .tc main_v0) = R0 m d := by
  unfold Vpost1
  rw [Function.update_of_ne (devRef_ne_of_ne (by decide)), pre1_v0]

theorem post1_v1 (d : Dev nD) : Vpost1 m d (Proc.devRef .tc main_v1) = R1 m d := by
  unfold Vpost1
  rw [Function.update_of_ne (devRef_ne_of_ne (by decide)), pre1_v1]

/-! ## Before call 2 -/

/-- The four operations before call 2 leave the two reshapes as they were, and leave at the call's index buffers
    row 2 of the reshapes, flattened. -/
theorem hops2_v0 (W : Valuation τ sig (Elt F)) : after hops2 W (Proc.devRef .tc main_v0) = W (Proc.devRef .tc main_v0) := by
  after_results

theorem hops2_v1 (W : Valuation τ sig (Elt F)) : after hops2 W (Proc.devRef .tc main_v1) = W (Proc.devRef .tc main_v1) := by
  after_results

theorem hops2_ids (W : Valuation τ sig (Elt F)) :
    after hops2 W (Proc.devRef .tc main_v16) = rowq 2 slices_S8x102400_S1x102400_2_0 (W (Proc.devRef .tc main_v0)) := by
  after_results
  rfl

theorem hops2_cids (W : Valuation τ sig (Elt F)) :
    after hops2 W (Proc.devRef .tc main_v18) = rowq 2 slices_S8x102400_S1x102400_2_0 (W (Proc.devRef .tc main_v1)) := by
  after_results
  rfl

theorem pre2_v0 (d : Dev nD) : Vpre2 m d (Proc.devRef .tc main_v0) = R0 m d := by
  unfold Vpre2
  rw [hops2_v0, post1_v0]

theorem pre2_v1 (d : Dev nD) : Vpre2 m d (Proc.devRef .tc main_v1) = R1 m d := by
  unfold Vpre2
  rw [hops2_v1, post1_v1]

theorem ids2_eq (d : Dev nD) : ids2 m d = rowq 2 slices_S8x102400_S1x102400_2_0 (R0 m d) := by
  unfold ids2 Vpre2
  rw [hops2_ids, post1_v0]

theorem cids2_eq (d : Dev nD) : cids2 m d = rowq 2 slices_S8x102400_S1x102400_2_0 (R1 m d) := by
  unfold cids2 Vpre2
  rw [hops2_cids, post1_v1]

theorem post2_v0 (d : Dev nD) : Vpost2 m d (Proc.devRef .tc main_v0) = R0 m d := by
  unfold Vpost2
  rw [Function.update_of_ne (devRef_ne_of_ne (by decide)), pre2_v0]

theorem post2_v1 (d : Dev nD) : Vpost2 m d (Proc.devRef .tc main_v1) = R1 m d := by
  unfold Vpost2
  rw [Function.update_of_ne (devRef_ne_of_ne (by decide)), pre2_v1]

/-! ## Before call 3 -/

/-- The four operations before call 3 leave the two reshapes as they were, and leave at the call's index buffers
    row 3 of the reshapes, flattened. -/
theorem hops3_v0 (W : Valuation τ sig (Elt F)) : after hops3 W (Proc.devRef .tc main_v0) = W (Proc.devRef .tc main_v0) := by
  after_results

theorem hops3_v1 (W : Valuation τ sig (Elt F)) : after hops3 W (Proc.devRef .tc main_v1) = W (Proc.devRef .tc main_v1) := by
  after_results

theorem hops3_ids (W : Valuation τ sig (Elt F)) :
    after hops3 W (Proc.devRef .tc main_v21) = rowq 3 slices_S8x102400_S1x102400_3_0 (W (Proc.devRef .tc main_v0)) := by
  after_results
  rfl

theorem hops3_cids (W : Valuation τ sig (Elt F)) :
    after hops3 W (Proc.devRef .tc main_v23) = rowq 3 slices_S8x102400_S1x102400_3_0 (W (Proc.devRef .tc main_v1)) := by
  after_results
  rfl

theorem pre3_v0 (d : Dev nD) : Vpre3 m d (Proc.devRef .tc main_v0) = R0 m d := by
  unfold Vpre3
  rw [hops3_v0, post2_v0]

theorem pre3_v1 (d : Dev nD) : Vpre3 m d (Proc.devRef .tc main_v1) = R1 m d := by
  unfold Vpre3
  rw [hops3_v1, post2_v1]

theorem ids3_eq (d : Dev nD) : ids3 m d = rowq 3 slices_S8x102400_S1x102400_3_0 (R0 m d) := by
  unfold ids3 Vpre3
  rw [hops3_ids, post2_v0]

theorem cids3_eq (d : Dev nD) : cids3 m d = rowq 3 slices_S8x102400_S1x102400_3_0 (R1 m d) := by
  unfold cids3 Vpre3
  rw [hops3_cids, post2_v1]

theorem post3_v0 (d : Dev nD) : Vpost3 m d (Proc.devRef .tc main_v0) = R0 m d := by
  unfold Vpost3
  rw [Function.update_of_ne (devRef_ne_of_ne (by decide)), pre3_v0]

theorem post3_v1 (d : Dev nD) : Vpost3 m d (Proc.devRef .tc main_v1) = R1 m d := by
  unfold Vpost3
  rw [Function.update_of_ne (devRef_ne_of_ne (by decide)), pre3_v1]

/-! ## Before call 4 -/

/-- The four operations before call 4 leave the two reshapes as they were, and leave at the call's index buffers
    row 4 of the reshapes, flattened. -/
theorem hops4_v0 (W : Valuation τ sig (Elt F)) : after hops4 W (Proc.devRef .tc main_v0) = W (Proc.devRef .tc main_v0) := by
  after_results

theorem hops4_v1 (W : Valuation τ sig (Elt F)) : after hops4 W (Proc.devRef .tc main_v1) = W (Proc.devRef .tc main_v1) := by
  after_results

theorem hops4_ids (W : Valuation τ sig (Elt F)) :
    after hops4 W (Proc.devRef .tc main_v26) = rowq 4 slices_S8x102400_S1x102400_4_0 (W (Proc.devRef .tc main_v0)) := by
  after_results
  rfl

theorem hops4_cids (W : Valuation τ sig (Elt F)) :
    after hops4 W (Proc.devRef .tc main_v28) = rowq 4 slices_S8x102400_S1x102400_4_0 (W (Proc.devRef .tc main_v1)) := by
  after_results
  rfl

theorem pre4_v0 (d : Dev nD) : Vpre4 m d (Proc.devRef .tc main_v0) = R0 m d := by
  unfold Vpre4
  rw [hops4_v0, post3_v0]

theorem pre4_v1 (d : Dev nD) : Vpre4 m d (Proc.devRef .tc main_v1) = R1 m d := by
  unfold Vpre4
  rw [hops4_v1, post3_v1]

theorem ids4_eq (d : Dev nD) : ids4 m d = rowq 4 slices_S8x102400_S1x102400_4_0 (R0 m d) := by
  unfold ids4 Vpre4
  rw [hops4_ids, post3_v0]

theorem cids4_eq (d : Dev nD) : cids4 m d = rowq 4 slices_S8x102400_S1x102400_4_0 (R1 m d) := by
  unfold cids4 Vpre4
  rw [hops4_cids, post3_v1]

theorem post4_v0 (d : Dev nD) : Vpost4 m d (Proc.devRef .tc main_v0) = R0 m d := by
  unfold Vpost4
  rw [Function.update_of_ne (devRef_ne_of_ne (by decide)), pre4_v0]

theorem post4_v1 (d : Dev nD) : Vpost4 m d (Proc.devRef .tc main_v1) = R1 m d := by
  unfold Vpost4
  rw [Function.update_of_ne (devRef_ne_of_ne (by decide)), pre4_v1]

/-! ## Before call 5 -/

/-- The four operations before call 5 leave the two reshapes as they were, and leave at the call's index buffers
    row 5 of the reshapes, flattened. -/
theorem hops5_v0 (W : Valuation τ sig (Elt F)) : after hops5 W (Proc.devRef .tc main_v0) = W (Proc.devRef .tc main_v0) := by
  after_results

theorem hops5_v1 (W : Valuation τ sig (Elt F)) : after hops5 W (Proc.devRef .tc main_v1) = W (Proc.devRef .tc main_v1) := by
  after_results

theorem hops5_ids (W : Valuation τ sig (Elt F)) :
    after hops5 W (Proc.devRef .tc main_v31) = rowq 5 slices_S8x102400_S1x102400_5_0 (W (Proc.devRef .tc main_v0)) := by
  after_results
  rfl

theorem hops5_cids (W : Valuation τ sig (Elt F)) :
    after hops5 W (Proc.devRef .tc main_v33) = rowq 5 slices_S8x102400_S1x102400_5_0 (W (Proc.devRef .tc main_v1)) := by
  after_results
  rfl

theorem pre5_v0 (d : Dev nD) : Vpre5 m d (Proc.devRef .tc main_v0) = R0 m d := by
  unfold Vpre5
  rw [hops5_v0, post4_v0]

theorem pre5_v1 (d : Dev nD) : Vpre5 m d (Proc.devRef .tc main_v1) = R1 m d := by
  unfold Vpre5
  rw [hops5_v1, post4_v1]

theorem ids5_eq (d : Dev nD) : ids5 m d = rowq 5 slices_S8x102400_S1x102400_5_0 (R0 m d) := by
  unfold ids5 Vpre5
  rw [hops5_ids, post4_v0]

theorem cids5_eq (d : Dev nD) : cids5 m d = rowq 5 slices_S8x102400_S1x102400_5_0 (R1 m d) := by
  unfold cids5 Vpre5
  rw [hops5_cids, post4_v1]

theorem post5_v0 (d : Dev nD) : Vpost5 m d (Proc.devRef .tc main_v0) = R0 m d := by
  unfold Vpost5
  rw [Function.update_of_ne (devRef_ne_of_ne (by decide)), pre5_v0]

theorem post5_v1 (d : Dev nD) : Vpost5 m d (Proc.devRef .tc main_v1) = R1 m d := by
  unfold Vpost5
  rw [Function.update_of_ne (devRef_ne_of_ne (by decide)), pre5_v1]

/-! ## Before call 6 -/

/-- The four operations before call 6 leave the two reshapes as they were, and leave at the call's index buffers
    row 6 of the reshapes, flattened. -/
theorem hops6_v0 (W : Valuation τ sig (Elt F)) : after hops6 W (Proc.devRef .tc main_v0) = W (Proc.devRef .tc main_v0) := by
  after_results

theorem hops6_v1 (W : Valuation τ sig (Elt F)) : after hops6 W (Proc.devRef .tc main_v1) = W (Proc.devRef .tc main_v1) := by
  after_results

theorem hops6_ids (W : Valuation τ sig (Elt F)) :
    after hops6 W (Proc.devRef .tc main_v36) = rowq 6 slices_S8x102400_S1x102400_6_0 (W (Proc.devRef .tc main_v0)) := by
  after_results
  rfl

theorem hops6_cids (W : Valuation τ sig (Elt F)) :
    after hops6 W (Proc.devRef .tc main_v38) = rowq 6 slices_S8x102400_S1x102400_6_0 (W (Proc.devRef .tc main_v1)) := by
  after_results
  rfl

theorem pre6_v0 (d : Dev nD) : Vpre6 m d (Proc.devRef .tc main_v0) = R0 m d := by
  unfold Vpre6
  rw [hops6_v0, post5_v0]

theorem pre6_v1 (d : Dev nD) : Vpre6 m d (Proc.devRef .tc main_v1) = R1 m d := by
  unfold Vpre6
  rw [hops6_v1, post5_v1]

theorem ids6_eq (d : Dev nD) : ids6 m d = rowq 6 slices_S8x102400_S1x102400_6_0 (R0 m d) := by
  unfold ids6 Vpre6
  rw [hops6_ids, post5_v0]

theorem cids6_eq (d : Dev nD) : cids6 m d = rowq 6 slices_S8x102400_S1x102400_6_0 (R1 m d) := by
  unfold cids6 Vpre6
  rw [hops6_cids, post5_v1]

theorem post6_v0 (d : Dev nD) : Vpost6 m d (Proc.devRef .tc main_v0) = R0 m d := by
  unfold Vpost6
  rw [Function.update_of_ne (devRef_ne_of_ne (by decide)), pre6_v0]

theorem post6_v1 (d : Dev nD) : Vpost6 m d (Proc.devRef .tc main_v1) = R1 m d := by
  unfold Vpost6
  rw [Function.update_of_ne (devRef_ne_of_ne (by decide)), pre6_v1]

/-! ## Before call 7 -/

/-- The four operations before call 7 leave the two reshapes as they were, and leave at the call's index buffers
    row 7 of the reshapes, flattened. -/
theorem hops7_v0 (W : Valuation τ sig (Elt F)) : after hops7 W (Proc.devRef .tc main_v0) = W (Proc.devRef .tc main_v0) := by
  after_results

theorem hops7_v1 (W : Valuation τ sig (Elt F)) : after hops7 W (Proc.devRef .tc main_v1) = W (Proc.devRef .tc main_v1) := by
  after_results

theorem hops7_ids (W : Valuation τ sig (Elt F)) :
    after hops7 W (Proc.devRef .tc main_v41) = rowq 7 slices_S8x102400_S1x102400_7_0 (W (Proc.devRef .tc main_v0)) := by
  after_results
  rfl

theorem hops7_cids (W : Valuation τ sig (Elt F)) :
    after hops7 W (Proc.devRef .tc main_v43) = rowq 7 slices_S8x102400_S1x102400_7_0 (W (Proc.devRef .tc main_v1)) := by
  after_results
  rfl

theorem pre7_v0 (d : Dev nD) : Vpre7 m d (Proc.devRef .tc main_v0) = R0 m d := by
  unfold Vpre7
  rw [hops7_v0, post6_v0]

theorem pre7_v1 (d : Dev nD) : Vpre7 m d (Proc.devRef .tc main_v1) = R1 m d := by
  unfold Vpre7
  rw [hops7_v1, post6_v1]

theorem ids7_eq (d : Dev nD) : ids7 m d = rowq 7 slices_S8x102400_S1x102400_7_0 (R0 m d) := by
  unfold ids7 Vpre7
  rw [hops7_ids, post6_v0]

theorem cids7_eq (d : Dev nD) : cids7 m d = rowq 7 slices_S8x102400_S1x102400_7_0 (R1 m d) := by
  unfold cids7 Vpre7
  rw [hops7_cids, post6_v1]

theorem post7_v0 (d : Dev nD) : Vpost7 m d (Proc.devRef .tc main_v0) = R0 m d := by
  unfold Vpost7
  rw [Function.update_of_ne (devRef_ne_of_ne (by decide)), pre7_v0]

theorem post7_v1 (d : Dev nD) : Vpost7 m d (Proc.devRef .tc main_v1) = R1 m d := by
  unfold Vpost7
  rw [Function.update_of_ne (devRef_ne_of_ne (by decide)), pre7_v1]

/-! ## The calls' index arrays at an entry, and their bounds -/

/-- Call 0's id index array at `r` is the argument array at row-major position 0 * 102400 + r. -/
theorem ids0_at (d : Dev nD) (r : Fin 102400) :
    ids0 m d (ix1 r) = (m ((T d : Thread nD τ).loc main_arg0) : Vec F S4096x200 .i32) (ix2 (⟨(0 * 102400 + r.val) / 200, by have := r.isLt; omega⟩ : Fin 4096) (⟨(0 * 102400 + r.val) % 200, by omega⟩ : Fin 200)) := by
  rw [ids0_eq]
  exact rowq_to8_at 0 (by decide) _ _ r

/-- Call 0's category index array at `r` is the argument array at row-major position 0 * 102400 + r. -/
theorem cids0_at (d : Dev nD) (r : Fin 102400) :
    cids0 m d (ix1 r) = (m ((T d : Thread nD τ).loc main_arg1) : Vec F S4096x200 .i32) (ix2 (⟨(0 * 102400 + r.val) / 200, by have := r.isLt; omega⟩ : Fin 4096) (⟨(0 * 102400 + r.val) % 200, by omega⟩ : Fin 200)) := by
  rw [cids0_eq]
  exact rowq_to8_at 0 (by decide) _ _ r

/-- A bound on the id argument's words bounds call 0's. -/
theorem ids0_lt (d : Dev nD)
    (h : ∀ i : S4096x200.Idx, ((m ((T d : Thread nD τ).loc main_arg0) : Vec F S4096x200 .i32) i).toNat < 100000) :
    ∀ j : S102400.Idx, (ids0 m d j).toNat < 100000 := by
  intro j
  obtain ⟨r, rfl⟩ : ∃ r : Fin 102400, j = ix1 r := ⟨j 0, eq_ix1 j⟩
  rw [ids0_at]
  exact h _

/-- A bound on the category argument's words bounds call 0's. -/
theorem cids0_lt (d : Dev nD)
    (h : ∀ i : S4096x200.Idx, ((m ((T d : Thread nD τ).loc main_arg1) : Vec F S4096x200 .i32) i).toNat < 1000) :
    ∀ j : S102400.Idx, (cids0 m d j).toNat < 1000 := by
  intro j
  obtain ⟨r, rfl⟩ : ∃ r : Fin 102400, j = ix1 r := ⟨j 0, eq_ix1 j⟩
  rw [cids0_at]
  exact h _

/-- Call 1's id index array at `r` is the argument array at row-major position 1 * 102400 + r. -/
theorem ids1_at (d : Dev nD) (r : Fin 102400) :
    ids1 m d (ix1 r) = (m ((T d : Thread nD τ).loc main_arg0) : Vec F S4096x200 .i32) (ix2 (⟨(1 * 102400 + r.val) / 200, by have := r.isLt; omega⟩ : Fin 4096) (⟨(1 * 102400 + r.val) % 200, by omega⟩ : Fin 200)) := by
  rw [ids1_eq]
  exact rowq_to8_at 1 (by decide) _ _ r

/-- Call 1's category index array at `r` is the argument array at row-major position 1 * 102400 + r. -/
theorem cids1_at (d : Dev nD) (r : Fin 102400) :
    cids1 m d (ix1 r) = (m ((T d : Thread nD τ).loc main_arg1) : Vec F S4096x200 .i32) (ix2 (⟨(1 * 102400 + r.val) / 200, by have := r.isLt; omega⟩ : Fin 4096) (⟨(1 * 102400 + r.val) % 200, by omega⟩ : Fin 200)) := by
  rw [cids1_eq]
  exact rowq_to8_at 1 (by decide) _ _ r

/-- A bound on the id argument's words bounds call 1's. -/
theorem ids1_lt (d : Dev nD)
    (h : ∀ i : S4096x200.Idx, ((m ((T d : Thread nD τ).loc main_arg0) : Vec F S4096x200 .i32) i).toNat < 100000) :
    ∀ j : S102400.Idx, (ids1 m d j).toNat < 100000 := by
  intro j
  obtain ⟨r, rfl⟩ : ∃ r : Fin 102400, j = ix1 r := ⟨j 0, eq_ix1 j⟩
  rw [ids1_at]
  exact h _

/-- A bound on the category argument's words bounds call 1's. -/
theorem cids1_lt (d : Dev nD)
    (h : ∀ i : S4096x200.Idx, ((m ((T d : Thread nD τ).loc main_arg1) : Vec F S4096x200 .i32) i).toNat < 1000) :
    ∀ j : S102400.Idx, (cids1 m d j).toNat < 1000 := by
  intro j
  obtain ⟨r, rfl⟩ : ∃ r : Fin 102400, j = ix1 r := ⟨j 0, eq_ix1 j⟩
  rw [cids1_at]
  exact h _

/-- Call 2's id index array at `r` is the argument array at row-major position 2 * 102400 + r. -/
theorem ids2_at (d : Dev nD) (r : Fin 102400) :
    ids2 m d (ix1 r) = (m ((T d : Thread nD τ).loc main_arg0) : Vec F S4096x200 .i32) (ix2 (⟨(2 * 102400 + r.val) / 200, by have := r.isLt; omega⟩ : Fin 4096) (⟨(2 * 102400 + r.val) % 200, by omega⟩ : Fin 200)) := by
  rw [ids2_eq]
  exact rowq_to8_at 2 (by decide) _ _ r

/-- Call 2's category index array at `r` is the argument array at row-major position 2 * 102400 + r. -/
theorem cids2_at (d : Dev nD) (r : Fin 102400) :
    cids2 m d (ix1 r) = (m ((T d : Thread nD τ).loc main_arg1) : Vec F S4096x200 .i32) (ix2 (⟨(2 * 102400 + r.val) / 200, by have := r.isLt; omega⟩ : Fin 4096) (⟨(2 * 102400 + r.val) % 200, by omega⟩ : Fin 200)) := by
  rw [cids2_eq]
  exact rowq_to8_at 2 (by decide) _ _ r

/-- A bound on the id argument's words bounds call 2's. -/
theorem ids2_lt (d : Dev nD)
    (h : ∀ i : S4096x200.Idx, ((m ((T d : Thread nD τ).loc main_arg0) : Vec F S4096x200 .i32) i).toNat < 100000) :
    ∀ j : S102400.Idx, (ids2 m d j).toNat < 100000 := by
  intro j
  obtain ⟨r, rfl⟩ : ∃ r : Fin 102400, j = ix1 r := ⟨j 0, eq_ix1 j⟩
  rw [ids2_at]
  exact h _

/-- A bound on the category argument's words bounds call 2's. -/
theorem cids2_lt (d : Dev nD)
    (h : ∀ i : S4096x200.Idx, ((m ((T d : Thread nD τ).loc main_arg1) : Vec F S4096x200 .i32) i).toNat < 1000) :
    ∀ j : S102400.Idx, (cids2 m d j).toNat < 1000 := by
  intro j
  obtain ⟨r, rfl⟩ : ∃ r : Fin 102400, j = ix1 r := ⟨j 0, eq_ix1 j⟩
  rw [cids2_at]
  exact h _

/-- Call 3's id index array at `r` is the argument array at row-major position 3 * 102400 + r. -/
theorem ids3_at (d : Dev nD) (r : Fin 102400) :
    ids3 m d (ix1 r) = (m ((T d : Thread nD τ).loc main_arg0) : Vec F S4096x200 .i32) (ix2 (⟨(3 * 102400 + r.val) / 200, by have := r.isLt; omega⟩ : Fin 4096) (⟨(3 * 102400 + r.val) % 200, by omega⟩ : Fin 200)) := by
  rw [ids3_eq]
  exact rowq_to8_at 3 (by decide) _ _ r

/-- Call 3's category index array at `r` is the argument array at row-major position 3 * 102400 + r. -/
theorem cids3_at (d : Dev nD) (r : Fin 102400) :
    cids3 m d (ix1 r) = (m ((T d : Thread nD τ).loc main_arg1) : Vec F S4096x200 .i32) (ix2 (⟨(3 * 102400 + r.val) / 200, by have := r.isLt; omega⟩ : Fin 4096) (⟨(3 * 102400 + r.val) % 200, by omega⟩ : Fin 200)) := by
  rw [cids3_eq]
  exact rowq_to8_at 3 (by decide) _ _ r

/-- A bound on the id argument's words bounds call 3's. -/
theorem ids3_lt (d : Dev nD)
    (h : ∀ i : S4096x200.Idx, ((m ((T d : Thread nD τ).loc main_arg0) : Vec F S4096x200 .i32) i).toNat < 100000) :
    ∀ j : S102400.Idx, (ids3 m d j).toNat < 100000 := by
  intro j
  obtain ⟨r, rfl⟩ : ∃ r : Fin 102400, j = ix1 r := ⟨j 0, eq_ix1 j⟩
  rw [ids3_at]
  exact h _

/-- A bound on the category argument's words bounds call 3's. -/
theorem cids3_lt (d : Dev nD)
    (h : ∀ i : S4096x200.Idx, ((m ((T d : Thread nD τ).loc main_arg1) : Vec F S4096x200 .i32) i).toNat < 1000) :
    ∀ j : S102400.Idx, (cids3 m d j).toNat < 1000 := by
  intro j
  obtain ⟨r, rfl⟩ : ∃ r : Fin 102400, j = ix1 r := ⟨j 0, eq_ix1 j⟩
  rw [cids3_at]
  exact h _

/-- Call 4's id index array at `r` is the argument array at row-major position 4 * 102400 + r. -/
theorem ids4_at (d : Dev nD) (r : Fin 102400) :
    ids4 m d (ix1 r) = (m ((T d : Thread nD τ).loc main_arg0) : Vec F S4096x200 .i32) (ix2 (⟨(4 * 102400 + r.val) / 200, by have := r.isLt; omega⟩ : Fin 4096) (⟨(4 * 102400 + r.val) % 200, by omega⟩ : Fin 200)) := by
  rw [ids4_eq]
  exact rowq_to8_at 4 (by decide) _ _ r

/-- Call 4's category index array at `r` is the argument array at row-major position 4 * 102400 + r. -/
theorem cids4_at (d : Dev nD) (r : Fin 102400) :
    cids4 m d (ix1 r) = (m ((T d : Thread nD τ).loc main_arg1) : Vec F S4096x200 .i32) (ix2 (⟨(4 * 102400 + r.val) / 200, by have := r.isLt; omega⟩ : Fin 4096) (⟨(4 * 102400 + r.val) % 200, by omega⟩ : Fin 200)) := by
  rw [cids4_eq]
  exact rowq_to8_at 4 (by decide) _ _ r

/-- A bound on the id argument's words bounds call 4's. -/
theorem ids4_lt (d : Dev nD)
    (h : ∀ i : S4096x200.Idx, ((m ((T d : Thread nD τ).loc main_arg0) : Vec F S4096x200 .i32) i).toNat < 100000) :
    ∀ j : S102400.Idx, (ids4 m d j).toNat < 100000 := by
  intro j
  obtain ⟨r, rfl⟩ : ∃ r : Fin 102400, j = ix1 r := ⟨j 0, eq_ix1 j⟩
  rw [ids4_at]
  exact h _

/-- A bound on the category argument's words bounds call 4's. -/
theorem cids4_lt (d : Dev nD)
    (h : ∀ i : S4096x200.Idx, ((m ((T d : Thread nD τ).loc main_arg1) : Vec F S4096x200 .i32) i).toNat < 1000) :
    ∀ j : S102400.Idx, (cids4 m d j).toNat < 1000 := by
  intro j
  obtain ⟨r, rfl⟩ : ∃ r : Fin 102400, j = ix1 r := ⟨j 0, eq_ix1 j⟩
  rw [cids4_at]
  exact h _

/-- Call 5's id index array at `r` is the argument array at row-major position 5 * 102400 + r. -/
theorem ids5_at (d : Dev nD) (r : Fin 102400) :
    ids5 m d (ix1 r) = (m ((T d : Thread nD τ).loc main_arg0) : Vec F S4096x200 .i32) (ix2 (⟨(5 * 102400 + r.val) / 200, by have := r.isLt; omega⟩ : Fin 4096) (⟨(5 * 102400 + r.val) % 200, by omega⟩ : Fin 200)) := by
  rw [ids5_eq]
  exact rowq_to8_at 5 (by decide) _ _ r

/-- Call 5's category index array at `r` is the argument array at row-major position 5 * 102400 + r. -/
theorem cids5_at (d : Dev nD) (r : Fin 102400) :
    cids5 m d (ix1 r) = (m ((T d : Thread nD τ).loc main_arg1) : Vec F S4096x200 .i32) (ix2 (⟨(5 * 102400 + r.val) / 200, by have := r.isLt; omega⟩ : Fin 4096) (⟨(5 * 102400 + r.val) % 200, by omega⟩ : Fin 200)) := by
  rw [cids5_eq]
  exact rowq_to8_at 5 (by decide) _ _ r

/-- A bound on the id argument's words bounds call 5's. -/
theorem ids5_lt (d : Dev nD)
    (h : ∀ i : S4096x200.Idx, ((m ((T d : Thread nD τ).loc main_arg0) : Vec F S4096x200 .i32) i).toNat < 100000) :
    ∀ j : S102400.Idx, (ids5 m d j).toNat < 100000 := by
  intro j
  obtain ⟨r, rfl⟩ : ∃ r : Fin 102400, j = ix1 r := ⟨j 0, eq_ix1 j⟩
  rw [ids5_at]
  exact h _

/-- A bound on the category argument's words bounds call 5's. -/
theorem cids5_lt (d : Dev nD)
    (h : ∀ i : S4096x200.Idx, ((m ((T d : Thread nD τ).loc main_arg1) : Vec F S4096x200 .i32) i).toNat < 1000) :
    ∀ j : S102400.Idx, (cids5 m d j).toNat < 1000 := by
  intro j
  obtain ⟨r, rfl⟩ : ∃ r : Fin 102400, j = ix1 r := ⟨j 0, eq_ix1 j⟩
  rw [cids5_at]
  exact h _

/-- Call 6's id index array at `r` is the argument array at row-major position 6 * 102400 + r. -/
theorem ids6_at (d : Dev nD) (r : Fin 102400) :
    ids6 m d (ix1 r) = (m ((T d : Thread nD τ).loc main_arg0) : Vec F S4096x200 .i32) (ix2 (⟨(6 * 102400 + r.val) / 200, by have := r.isLt; omega⟩ : Fin 4096) (⟨(6 * 102400 + r.val) % 200, by omega⟩ : Fin 200)) := by
  rw [ids6_eq]
  exact rowq_to8_at 6 (by decide) _ _ r

/-- Call 6's category index array at `r` is the argument array at row-major position 6 * 102400 + r. -/
theorem cids6_at (d : Dev nD) (r : Fin 102400) :
    cids6 m d (ix1 r) = (m ((T d : Thread nD τ).loc main_arg1) : Vec F S4096x200 .i32) (ix2 (⟨(6 * 102400 + r.val) / 200, by have := r.isLt; omega⟩ : Fin 4096) (⟨(6 * 102400 + r.val) % 200, by omega⟩ : Fin 200)) := by
  rw [cids6_eq]
  exact rowq_to8_at 6 (by decide) _ _ r

/-- A bound on the id argument's words bounds call 6's. -/
theorem ids6_lt (d : Dev nD)
    (h : ∀ i : S4096x200.Idx, ((m ((T d : Thread nD τ).loc main_arg0) : Vec F S4096x200 .i32) i).toNat < 100000) :
    ∀ j : S102400.Idx, (ids6 m d j).toNat < 100000 := by
  intro j
  obtain ⟨r, rfl⟩ : ∃ r : Fin 102400, j = ix1 r := ⟨j 0, eq_ix1 j⟩
  rw [ids6_at]
  exact h _

/-- A bound on the category argument's words bounds call 6's. -/
theorem cids6_lt (d : Dev nD)
    (h : ∀ i : S4096x200.Idx, ((m ((T d : Thread nD τ).loc main_arg1) : Vec F S4096x200 .i32) i).toNat < 1000) :
    ∀ j : S102400.Idx, (cids6 m d j).toNat < 1000 := by
  intro j
  obtain ⟨r, rfl⟩ : ∃ r : Fin 102400, j = ix1 r := ⟨j 0, eq_ix1 j⟩
  rw [cids6_at]
  exact h _

/-- Call 7's id index array at `r` is the argument array at row-major position 7 * 102400 + r. -/
theorem ids7_at (d : Dev nD) (r : Fin 102400) :
    ids7 m d (ix1 r) = (m ((T d : Thread nD τ).loc main_arg0) : Vec F S4096x200 .i32) (ix2 (⟨(7 * 102400 + r.val) / 200, by have := r.isLt; omega⟩ : Fin 4096) (⟨(7 * 102400 + r.val) % 200, by omega⟩ : Fin 200)) := by
  rw [ids7_eq]
  exact rowq_to8_at 7 (by decide) _ _ r

/-- Call 7's category index array at `r` is the argument array at row-major position 7 * 102400 + r. -/
theorem cids7_at (d : Dev nD) (r : Fin 102400) :
    cids7 m d (ix1 r) = (m ((T d : Thread nD τ).loc main_arg1) : Vec F S4096x200 .i32) (ix2 (⟨(7 * 102400 + r.val) / 200, by have := r.isLt; omega⟩ : Fin 4096) (⟨(7 * 102400 + r.val) % 200, by omega⟩ : Fin 200)) := by
  rw [cids7_eq]
  exact rowq_to8_at 7 (by decide) _ _ r

/-- A bound on the id argument's words bounds call 7's. -/
theorem ids7_lt (d : Dev nD)
    (h : ∀ i : S4096x200.Idx, ((m ((T d : Thread nD τ).loc main_arg0) : Vec F S4096x200 .i32) i).toNat < 100000) :
    ∀ j : S102400.Idx, (ids7 m d j).toNat < 100000 := by
  intro j
  obtain ⟨r, rfl⟩ : ∃ r : Fin 102400, j = ix1 r := ⟨j 0, eq_ix1 j⟩
  rw [ids7_at]
  exact h _

/-- A bound on the category argument's words bounds call 7's. -/
theorem cids7_lt (d : Dev nD)
    (h : ∀ i : S4096x200.Idx, ((m ((T d : Thread nD τ).loc main_arg1) : Vec F S4096x200 .i32) i).toNat < 1000) :
    ∀ j : S102400.Idx, (cids7 m d j).toNat < 1000 := by
  intro j
  obtain ⟨r, rfl⟩ : ∃ r : Fin 102400, j = ix1 r := ⟨j 0, eq_ix1 j⟩
  rw [cids7_at]
  exact h _

end Cert.KernelIdeal.Sc

end
-- ==== Proof.ScElemI.lean ====
/-
  The launch element of the ghost state: the handshakes' rounds, the TensorCore regions' staging cells funded at the
  launch for every device and region, the transfers' counters set aside; no kernel's proof consumes anything.
-/
import proofs.«204770_g8065948582451_cont_9to1c4b_476_56_alg».proof.Proof.ScPayI

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 8) (Elt F) ℕ UU ℕ

variable (m : (ℓ : Loc nD τ sig) → Buf (Elt F) ℓ)

/-- No region has prefetched tables: each is admissible at the empty contents. -/
abbrev adm : (p : Fin 8) → (pcfgs (F := F) p).Adm := fun p => (cfgs p).toPCfg_adm
/-- The regions' configurations as the pipeline library reads them. -/
abbrev pcs : Fin 8 → Pipeline.Cfg sig Λ₀ := Pipeline.pin (pcfgs (F := F)) adm

def u₀ : UU :=
  (initOf (K (F := F)).hsCells (K (F := F)).hsToks,
    (initOf (Pipeline.cells (pcs (F := F)) cellOf_inj) (Pipeline.launchToks (pcs (F := F)) cellOf_inj), 1))

/-- What the launch leaves device `d`'s TensorCore beside its buffers: every region's staging cells' ghost state and
    duty tokens. -/
def G (d : Dev nD) : sProp 𝕄 :=
  bigSep Finset.univ fun p : Fin 8 => iprop(Pipeline.cellsGhost (pcs (F := F)) EP p d ∗ Pipeline.toksInit (pcs (F := F)) EP p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 8 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (show (BI.own (((Emb.inl : Emb UP (UP × Counters)).trans (embR : Emb (UP × Counters) 𝕄))
      (initOf (Pipeline.cells (pcs (F := F)) cellOf_inj) (Pipeline.launchToks (pcs (F := F)) cellOf_inj))) : sProp 𝕄)
      = BI.own ((EP (F := F)) (initOf (Pipeline.cells (pcs (F := F)) cellOf_inj) (Pipeline.launchToks (pcs (F := F)) cellOf_inj))) from rfl)) $$ HP
  imod (Pipeline.fund_ghost (pcs (F := F)) (EP (F := F)) cellOf_inj) $$ HP' with ⟨Hg, Ht⟩
  imodintro
  isplitl [HH]; · iexact HH
  isplitl [Hg Ht]
  · unfold G
    simp only [bigSep_sep']
    isplitl [Hg]; · iexact Hg
    iexact Ht
  · unfold P; dsimp only
    rw [show (bigSep Finset.univ fun _ : Thread nD τ => bigSep Finset.univ fun _ : Fin 8 => (iprop(emp) : sProp 𝕄)) = iprop(emp) from by
      rw [bigSep_congr fun _ _ => bigSep_emp' _, bigSep_emp']]
    iempintro

end Cert.KernelIdeal.Sc

end
-- ==== Proof.LibDeal.lean ====
/-
  Dealing an array among workers. A separating conjunction over `Fin n` with `n = a · b` is the iterated conjunction
  over `Fin a` and `Fin b` along `(w, k) ↦ k + b · w`; a whole array held in full is its `n` blocks of a partition along
  axis 0, and is given back from the blocks held at one whole-array function.
-/
import Idealize.ShloMosaic.Rules.PointsTo
import Idealize.ShloMosaic.Lib.Transfers
import Mathlib.Logic.Equiv.Fin.Basic

noncomputable section

namespace Cert.LibDeal

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M]

/-- The index `k + b · w` of pair `(w, k)`. -/
def pairIx {a b n : ℕ} (h : a * b = n) (w : Fin a) (k : Fin b) : Fin n :=
  ⟨k.val + b * w.val, by
    have hw := w.isLt; have hk := k.isLt
    calc k.val + b * w.val < b + b * w.val := by omega
      _ = b * (w.val + 1) := by rw [Nat.mul_succ]; omega
      _ ≤ b * a := Nat.mul_le_mul_left _ hw
      _ = n := by rw [Nat.mul_comm]; exact h⟩

/-- A conjunction over `Fin (a · b)` taken pair by pair. -/
theorem bigSep_pairs {a b n : ℕ} (h : a * b = n) (Φ : Fin n → sProp M) :
    bigSep Finset.univ Φ = bigSep Finset.univ fun w : Fin a => bigSep Finset.univ fun k : Fin b => Φ (pairIx h w k) := by
  subst h
  rw [bigSep_univ_equiv (finProdFinEquiv (m := a) (n := b)) Φ, bigSep_univ_prod]
  refine bigSep_congr fun w _ => bigSep_congr fun k _ => congrArg Φ (Fin.ext ?_)
  simp [finProdFinEquiv, pairIx]

/-! ## Four arrays read by every worker, one array written block by block -/

section Deal

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {ℓI ℓC ℓt ℓk ℓO : Loc nD τ sig}
variable (fI : Buf Val ℓI) (fC : Buf Val ℓC) (ft : Buf Val ℓt) (fk : Buf Val ℓk)
variable {a b n : ℕ} (h : a * b = n) (B : Fin n → Finset (Idx ℓO))

/-- What worker `w` of `a` is handed: share `w` of each of the four arrays read, and its `b` blocks of the array
    written, each in full at contents not named. -/
def tileIn (w : Fin a) : sProp 𝕄 :=
  iprop((ℓI ↦{Transfers.shareTok fullShare a w} fI) ∗ (ℓC ↦{Transfers.shareTok fullShare a w} fC)
    ∗ (ℓt ↦{Transfers.shareTok fullShare a w} ft) ∗ (ℓk ↦{Transfers.shareTok fullShare a w} fk)
    ∗ bigSep Finset.univ fun k : Fin b => iprop(∃ f, ℓO ↦[B (pairIx h w k)]{fullShare} f))

/-- What it hands back: the same, its blocks at the whole-array function `g`. -/
def tileOut (g : Buf Val ℓO) (w : Fin a) : sProp 𝕄 :=
  iprop((ℓI ↦{Transfers.shareTok fullShare a w} fI) ∗ (ℓC ↦{Transfers.shareTok fullShare a w} fC)
    ∗ (ℓt ↦{Transfers.shareTok fullShare a w} ft) ∗ (ℓk ↦{Transfers.shareTok fullShare a w} fk)
    ∗ bigSep Finset.univ fun k : Fin b => ℓO ↦[B (pairIx h w k)]{fullShare} g)

/-- What stays with the dealer meanwhile: the rest of each read array's share. -/
def kept : sProp 𝕄 :=
  iprop((ℓI ↦{Transfers.shareDrop fullShare a} fI) ∗ (ℓC ↦{Transfers.shareDrop fullShare a} fC)
    ∗ (ℓt ↦{Transfers.shareDrop fullShare a} ft) ∗ (ℓk ↦{Transfers.shareDrop fullShare a} fk))

variable (hd : ∀ i ∈ (Finset.univ : Finset (Fin n)), ∀ j ∈ (Finset.univ : Finset (Fin n)), i ≠ j → Disjoint (B i) (B j))
  (hc : (Finset.univ : Finset (Fin n)).biUnion B = Finset.univ)

include hd hc in
/-- The written array in full is its blocks, pair by pair. -/
theorem blocks_eq (f : Buf Val ℓO) :
    (ℓO ↦{fullShare} f : sProp 𝕄) = bigSep Finset.univ fun w : Fin a => bigSep Finset.univ fun k : Fin b => ℓO ↦[B (pairIx h w k)]{fullShare} f := by
  rw [← bigSep_pairs h (fun i => (ℓO ↦[B i]{fullShare} f : sProp 𝕄)), ← pointsTo_biUnion Finset.univ B hd, hc]

include hd hc in
/-- Dealing: the five arrays held in full are what is kept and every worker's hand-out. -/
theorem deal (fO : Buf Val ℓO) :
    iprop((ℓI ↦{fullShare} fI) ∗ (ℓC ↦{fullShare} fC) ∗ (ℓt ↦{fullShare} ft) ∗ (ℓk ↦{fullShare} fk) ∗ (ℓO ↦{fullShare} fO))
      ⊢ (iprop(kept (a := a) fI fC ft fk ∗ bigSep Finset.univ fun w : Fin a => tileIn fI fC ft fk h B w) : sProp 𝕄) := by
  unfold kept tileIn
  rw [blocks_eq h B hd hc fO]
  simp only [bigSep_sep']
  iintro ⟨HI, HC, Ht, Hk, HO⟩
  ihave HI' := (Transfers.pointsTo_toks_split (ℓ := ℓI) (f := fI) fullShare a) $$ HI
  ihave HC' := (Transfers.pointsTo_toks_split (ℓ := ℓC) (f := fC) fullShare a) $$ HC
  ihave Ht' := (Transfers.pointsTo_toks_split (ℓ := ℓt) (f := ft) fullShare a) $$ Ht
  ihave Hk' := (Transfers.pointsTo_toks_split (ℓ := ℓk) (f := fk) fullShare a) $$ Hk
  icases HI' with ⟨HI0, HI⟩
  icases HC' with ⟨HC0, HC⟩
  icases Ht' with ⟨Ht0, Ht⟩
  icases Hk' with ⟨Hk0, Hk⟩
  isplitl [HI0 HC0 Ht0 Hk0]
  · isplitl [HI0]; · iexact HI0
    isplitl [HC0]; · iexact HC0
    isplitl [Ht0]; · iexact Ht0
    iexact Hk0
  isplitl [HI]; · iexact HI
  isplitl [HC]; · iexact HC
  isplitl [Ht]; · iexact Ht
  isplitl [Hk]; · iexact Hk
  have hmono : (bigSep Finset.univ fun w : Fin a => bigSep Finset.univ fun k : Fin b => ℓO ↦[B (pairIx h w k)]{fullShare} fO : sProp 𝕄)
      ⊢ bigSep Finset.univ fun w : Fin a => bigSep Finset.univ fun k : Fin b => iprop(∃ f, ℓO ↦[B (pairIx h w k)]{fullShare} f) :=
    bigSep_mono fun w _ => bigSep_mono fun k _ =>
      (show ((ℓO ↦[B (pairIx h w k)]{fullShare} fO : sProp 𝕄) ⊢ iprop(∃ f, ℓO ↦[B (pairIx h w k)]{fullShare} f)) from by
        iintro H; iexists fO; iexact H)
  iapply hmono; iexact HO

include hd hc in
/-- Collecting: what was kept and every worker's return are the five arrays in full, the written one at `g`. -/
theorem collect (g : Buf Val ℓO) :
    (iprop(kept (a := a) fI fC ft fk ∗ bigSep Finset.univ fun w : Fin a => tileOut fI fC ft fk h B g w) : sProp 𝕄)
      ⊢ iprop((ℓI ↦{fullShare} fI) ∗ (ℓC ↦{fullShare} fC) ∗ (ℓt ↦{fullShare} ft) ∗ (ℓk ↦{fullShare} fk) ∗ (ℓO ↦{fullShare} g)) := by
  unfold kept tileOut
  rw [blocks_eq h B hd hc g]
  simp only [bigSep_sep']
  iintro ⟨⟨HI0, HC0, Ht0, Hk0⟩, HI, HC, Ht, Hk, HO⟩
  isplitl [HI0 HI]
  · iapply (Transfers.pointsTo_toks_join (ℓ := ℓI) (f := fI) fullShare a); isplitl [HI0] <;> iassumption
  isplitl [HC0 HC]
  · iapply (Transfers.pointsTo_toks_join (ℓ := ℓC) (f := fC) fullShare a); isplitl [HC0] <;> iassumption
  isplitl [Ht0 Ht]
  · iapply (Transfers.pointsTo_toks_join (ℓ := ℓt) (f := ft) fullShare a); isplitl [Ht0] <;> iassumption
  isplitl [Hk0 Hk]
  · iapply (Transfers.pointsTo_toks_join (ℓ := ℓk) (f := fk) fullShare a); isplitl [Hk0] <;> iassumption
  iexact HO

end Deal

end Cert.LibDeal

end
-- ==== Proof.ScDealI.lean ====
import proofs.«204770_g8065948582451_cont_9to1c4b_476_56_alg».proof.Proof.ScElemI
import proofs.«204770_g8065948582451_cont_9to1c4b_476_56_alg».proof.Proof.LibDeal
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-! ## The blocks of 128 rows partition a [102400, 256] array -/

theorem oblk_disjoint : ∀ i ∈ (Finset.univ : Finset (Fin 800)), ∀ j ∈ (Finset.univ : Finset (Fin 800)), i ≠ j → Disjoint (oBlkSet i) (oBlkSet j) :=
  fun i _ j _ h => Rect.part_disjoint odiv h
theorem oblk_cover : (Finset.univ : Finset (Fin 800)).biUnion oBlkSet = Finset.univ := Rect.biUnion_part odiv

theorem h800 : 32 * 25 = 800 := rfl
theorem h32 : 16 * 2 = 32 := rfl

theorem blk_eq (w : Fin 32) (k : Fin 25) : blk w k = pairIx h800 w k := Fin.ext (by simp only [blk, pairIx]; omega)
theorem widN_eq (c : Fin 2) (i : Fin 16) : widN c.val i.val = pairIx h32 i c := Fin.ext (by simp only [widN, pairIx]; omega)

omit [FloatOps F] in
/-- A conjunction over the 32 workers, SparseCore by SparseCore and subcore by subcore. -/
theorem bigSep_workers (X : Fin 32 → sProp 𝕄) :
    bigSep Finset.univ X = bigSep Finset.univ fun c : Fin 2 => bigSep Finset.univ fun i : Fin 16 => X (widN c.val i.val) := by
  rw [bigSep_pairs h32 X, bigSep_univ_comm]
  exact bigSep_congr fun c _ => bigSep_congr fun i _ => by rw [widN_eq]

/-- An operation of two TensorCore references touches unscoped buffers only. -/
theorem reshape_sub (x y : Ref sig .tc) he hn hx hy : (StableHlo.reshape (τ := τ) (Val := Elt F) x y he hn hx hy).bufs ⊆ ucRefs τ sig :=
  sub_ucRefs _ fun b hb => by
    rcases Finset.mem_insert.mp hb with rfl | hb
    · exact StableHlo.devRef_mem_tcRefs _
    · cases Finset.mem_singleton.mp hb; exact StableHlo.devRef_mem_tcRefs _
theorem unary_sub (x y : Ref sig .tc) f hx hy : (StableHlo.unary (τ := τ) (Val := Elt F) x y f hx hy).bufs ⊆ ucRefs τ sig :=
  sub_ucRefs _ fun b hb => by
    rcases Finset.mem_insert.mp hb with rfl | hb
    · exact StableHlo.devRef_mem_tcRefs _
    · cases Finset.mem_singleton.mp hb; exact StableHlo.devRef_mem_tcRefs _

end Cert.KernelIdeal.Sc

end
-- ==== Proof.ScCallPreI.lean ====
/-
  Per gather call: the five arrays it is handed as a set of the TensorCore's unscoped buffers, that the host
  operations before it touch unscoped buffers only, and that no call or host operation changes the two tables.
-/
import proofs.«204770_g8065948582451_cont_9to1c4b_476_56_alg».proof.Proof.ScDealI
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

abbrev dT : DevRef τ sig := Proc.devRef .tc main_arg2
abbrev dK : DevRef τ sig := Proc.devRef .tc main_arg3

theorem mem_uc (b : Ref sig .tc) (hb : (Proc.devRef (τ := τ) .tc b).isScoped = false) : Proc.devRef .tc b ∈ ucRefs τ sig :=
  Finset.mem_filter.mpr ⟨StableHlo.devRef_mem_tcRefs _, by simp [hb]⟩

/-! ## Gather call 0 -/

abbrev dI0 : DevRef τ sig := Proc.devRef .tc main_v6
abbrev dC0 : DevRef τ sig := Proc.devRef .tc main_v8
abbrev dO0 : DevRef τ sig := Proc.devRef .tc main_v9
/-- The five arrays call 0 is handed. -/
abbrev T5_0 : Finset (DevRef τ sig) := {dI0, dC0, dT, dK, dO0}

theorem hT5_0 : T5_0 ⊆ ucRefs τ sig := by
  intro b hb
  simp only [T5_0, Finset.mem_insert, Finset.mem_singleton] at hb
  rcases hb with rfl | rfl | rfl | rfl | rfl <;> exact mem_uc _ rfl

omit [FloatOps F] in
theorem held_T5_0 (d : Dev nD) (W : Valuation τ sig (Elt F)) :
    (held (T d) T5_0 W : sProp 𝕄)
      = iprop(((T d : Thread nD τ).loc main_v6 ↦{fullShare} W dI0) ∗ ((T d : Thread nD τ).loc main_v8 ↦{fullShare} W dC0)
          ∗ ((T d : Thread nD τ).loc main_arg2 ↦{fullShare} W dT) ∗ ((T d : Thread nD τ).loc main_arg3 ↦{fullShare} W dK)
          ∗ ((T d : Thread nD τ).loc main_v9 ↦{fullShare} W dO0)) := by
  unfold held T5_0
  rw [SparseCore.bigSep_insert' (by decide), SparseCore.bigSep_insert' (by decide), SparseCore.bigSep_insert' (by decide),
    SparseCore.bigSep_insert' (by decide), bigSep_singleton]

theorem hS0 : ∀ op ∈ (hops0 (F := F)), op.bufs ⊆ ucRefs τ sig := by
  intro op hop
  simp only [hops0, List.mem_cons, List.not_mem_nil, or_false] at hop
  rcases hop with rfl | rfl | rfl | rfl | rfl | rfl | rfl | rfl | rfl <;> first | exact reshape_sub _ _ _ _ _ _ | exact unary_sub _ _ _ _ _
theorem hf0 : ∀ op ∈ (hops0 (F := F)), op.fresh = ∅ := by
  intro op hop
  simp only [hops0, List.mem_cons, List.not_mem_nil, or_false] at hop
  rcases hop with rfl | rfl | rfl | rfl | rfl | rfl | rfl | rfl | rfl <;> rfl

theorem Vpre0_T (d : Dev nD) : Vpre0 m d dT = idt m d := by
  unfold Vpre0
  rw [StableHlo.after_of_forall_not_mem (b := dT) _ _ (by
    intro op hop
    simp only [hops0, List.mem_cons, List.not_mem_nil, or_false] at hop
    rcases hop with rfl | rfl | rfl | rfl | rfl | rfl | rfl | rfl | rfl <;> exact fun h => absurd (Finset.mem_singleton.mp h) (by decide))]
  exact (rfl)
theorem Vpre0_K (d : Dev nD) : Vpre0 m d dK = cat m d := by
  unfold Vpre0
  rw [StableHlo.after_of_forall_not_mem (b := dK) _ _ (by
    intro op hop
    simp only [hops0, List.mem_cons, List.not_mem_nil, or_false] at hop
    rcases hop with rfl | rfl | rfl | rfl | rfl | rfl | rfl | rfl | rfl <;> exact fun h => absurd (Finset.mem_singleton.mp h) (by decide))]
  exact (rfl)

/-! ## Gather call 1 -/

abbrev dI1 : DevRef τ sig := Proc.devRef .tc main_v11
abbrev dC1 : DevRef τ sig := Proc.devRef .tc main_v13
abbrev dO1 : DevRef τ sig := Proc.devRef .tc main_v14
/-- The five arrays call 1 is handed. -/
abbrev T5_1 : Finset (DevRef τ sig) := {dI1, dC1, dT, dK, dO1}

theorem hT5_1 : T5_1 ⊆ ucRefs τ sig := by
  intro b hb
  simp only [T5_1, Finset.mem_insert, Finset.mem_singleton] at hb
  rcases hb with rfl | rfl | rfl | rfl | rfl <;> exact mem_uc _ rfl

omit [FloatOps F] in
theorem held_T5_1 (d : Dev nD) (W : Valuation τ sig (Elt F)) :
    (held (T d) T5_1 W : sProp 𝕄)
      = iprop(((T d : Thread nD τ).loc main_v11 ↦{fullShare} W dI1) ∗ ((T d : Thread nD τ).loc main_v13 ↦{fullShare} W dC1)
          ∗ ((T d : Thread nD τ).loc main_arg2 ↦{fullShare} W dT) ∗ ((T d : Thread nD τ).loc main_arg3 ↦{fullShare} W dK)
          ∗ ((T d : Thread nD τ).loc main_v14 ↦{fullShare} W dO1)) := by
  unfold held T5_1
  rw [SparseCore.bigSep_insert' (by decide), SparseCore.bigSep_insert' (by decide), SparseCore.bigSep_insert' (by decide),
    SparseCore.bigSep_insert' (by decide), bigSep_singleton]

theorem hS1 : ∀ op ∈ (hops1 (F := F)), op.bufs ⊆ ucRefs τ sig := by
  intro op hop
  simp only [hops1, List.mem_cons, List.not_mem_nil, or_false] at hop
  rcases hop with rfl | rfl | rfl | rfl <;> first | exact reshape_sub _ _ _ _ _ _ | exact unary_sub _ _ _ _ _
theorem hf1 : ∀ op ∈ (hops1 (F := F)), op.fresh = ∅ := by
  intro op hop
  simp only [hops1, List.mem_cons, List.not_mem_nil, or_false] at hop
  rcases hop with rfl | rfl | rfl | rfl <;> rfl

theorem Vpre1_T (d : Dev nD) : Vpre1 m d dT = idt m d := by
  unfold Vpre1
  rw [StableHlo.after_of_forall_not_mem (b := dT) _ _ (by
    intro op hop
    simp only [hops1, List.mem_cons, List.not_mem_nil, or_false] at hop
    rcases hop with rfl | rfl | rfl | rfl <;> exact fun h => absurd (Finset.mem_singleton.mp h) (by decide))]
  exact (by unfold Vpost0; rw [Function.update_of_ne (by decide)]; exact Vpre0_T m d)
theorem Vpre1_K (d : Dev nD) : Vpre1 m d dK = cat m d := by
  unfold Vpre1
  rw [StableHlo.after_of_forall_not_mem (b := dK) _ _ (by
    intro op hop
    simp only [hops1, List.mem_cons, List.not_mem_nil, or_false] at hop
    rcases hop with rfl | rfl | rfl | rfl <;> exact fun h => absurd (Finset.mem_singleton.mp h) (by decide))]
  exact (by unfold Vpost0; rw [Function.update_of_ne (by decide)]; exact Vpre0_K m d)

/-! ## Gather call 2 -/

abbrev dI2 : DevRef τ sig := Proc.devRef .tc main_v16
abbrev dC2 : DevRef τ sig := Proc.devRef .tc main_v18
abbrev dO2 : DevRef τ sig := Proc.devRef .tc main_v19
/-- The five arrays call 2 is handed. -/
abbrev T5_2 : Finset (DevRef τ sig) := {dI2, dC2, dT, dK, dO2}

theorem hT5_2 : T5_2 ⊆ ucRefs τ sig := by
  intro b hb
  simp only [T5_2, Finset.mem_insert, Finset.mem_singleton] at hb
  rcases hb with rfl | rfl | rfl | rfl | rfl <;> exact mem_uc _ rfl

omit [FloatOps F] in
theorem held_T5_2 (d : Dev nD) (W : Valuation τ sig (Elt F)) :
    (held (T d) T5_2 W : sProp 𝕄)
      = iprop(((T d : Thread nD τ).loc main_v16 ↦{fullShare} W dI2) ∗ ((T d : Thread nD τ).loc main_v18 ↦{fullShare} W dC2)
          ∗ ((T d : Thread nD τ).loc main_arg2 ↦{fullShare} W dT) ∗ ((T d : Thread nD τ).loc main_arg3 ↦{fullShare} W dK)
          ∗ ((T d : Thread nD τ).loc main_v19 ↦{fullShare} W dO2)) := by
  unfold held T5_2
  rw [SparseCore.bigSep_insert' (by decide), SparseCore.bigSep_insert' (by decide), SparseCore.bigSep_insert' (by decide),
    SparseCore.bigSep_insert' (by decide), bigSep_singleton]

theorem hS2 : ∀ op ∈ (hops2 (F := F)), op.bufs ⊆ ucRefs τ sig := by
  intro op hop
  simp only [hops2, List.mem_cons, List.not_mem_nil, or_false] at hop
  rcases hop with rfl | rfl | rfl | rfl <;> first | exact reshape_sub _ _ _ _ _ _ | exact unary_sub _ _ _ _ _
theorem hf2 : ∀ op ∈ (hops2 (F := F)), op.fresh = ∅ := by
  intro op hop
  simp only [hops2, List.mem_cons, List.not_mem_nil, or_false] at hop
  rcases hop with rfl | rfl | rfl | rfl <;> rfl

theorem Vpre2_T (d : Dev nD) : Vpre2 m d dT = idt m d := by
  unfold Vpre2
  rw [StableHlo.after_of_forall_not_mem (b := dT) _ _ (by
    intro op hop
    simp only [hops2, List.mem_cons, List.not_mem_nil, or_false] at hop
    rcases hop with rfl | rfl | rfl | rfl <;> exact fun h => absurd (Finset.mem_singleton.mp h) (by decide))]
  exact (by unfold Vpost1; rw [Function.update_of_ne (by decide)]; exact Vpre1_T m d)
theorem Vpre2_K (d : Dev nD) : Vpre2 m d dK = cat m d := by
  unfold Vpre2
  rw [StableHlo.after_of_forall_not_mem (b := dK) _ _ (by
    intro op hop
    simp only [hops2, List.mem_cons, List.not_mem_nil, or_false] at hop
    rcases hop with rfl | rfl | rfl | rfl <;> exact fun h => absurd (Finset.mem_singleton.mp h) (by decide))]
  exact (by unfold Vpost1; rw [Function.update_of_ne (by decide)]; exact Vpre1_K m d)

/-! ## Gather call 3 -/

abbrev dI3 : DevRef τ sig := Proc.devRef .tc main_v21
abbrev dC3 : DevRef τ sig := Proc.devRef .tc main_v23
abbrev dO3 : DevRef τ sig := Proc.devRef .tc main_v24
/-- The five arrays call 3 is handed. -/
abbrev T5_3 : Finset (DevRef τ sig) := {dI3, dC3, dT, dK, dO3}

theorem hT5_3 : T5_3 ⊆ ucRefs τ sig := by
  intro b hb
  simp only [T5_3, Finset.mem_insert, Finset.mem_singleton] at hb
  rcases hb with rfl | rfl | rfl | rfl | rfl <;> exact mem_uc _ rfl

omit [FloatOps F] in
theorem held_T5_3 (d : Dev nD) (W : Valuation τ sig (Elt F)) :
    (held (T d) T5_3 W : sProp 𝕄)
      = iprop(((T d : Thread nD τ).loc main_v21 ↦{fullShare} W dI3) ∗ ((T d : Thread nD τ).loc main_v23 ↦{fullShare} W dC3)
          ∗ ((T d : Thread nD τ).loc main_arg2 ↦{fullShare} W dT) ∗ ((T d : Thread nD τ).loc main_arg3 ↦{fullShare} W dK)
          ∗ ((T d : Thread nD τ).loc main_v24 ↦{fullShare} W dO3)) := by
  unfold held T5_3
  rw [SparseCore.bigSep_insert' (by decide), SparseCore.bigSep_insert' (by decide), SparseCore.bigSep_insert' (by decide),
    SparseCore.bigSep_insert' (by decide), bigSep_singleton]

theorem hS3 : ∀ op ∈ (hops3 (F := F)), op.bufs ⊆ ucRefs τ sig := by
  intro op hop
  simp only [hops3, List.mem_cons, List.not_mem_nil, or_false] at hop
  rcases hop with rfl | rfl | rfl | rfl <;> first | exact reshape_sub _ _ _ _ _ _ | exact unary_sub _ _ _ _ _
theorem hf3 : ∀ op ∈ (hops3 (F := F)), op.fresh = ∅ := by
  intro op hop
  simp only [hops3, List.mem_cons, List.not_mem_nil, or_false] at hop
  rcases hop with rfl | rfl | rfl | rfl <;> rfl

theorem Vpre3_T (d : Dev nD) : Vpre3 m d dT = idt m d := by
  unfold Vpre3
  rw [StableHlo.after_of_forall_not_mem (b := dT) _ _ (by
    intro op hop
    simp only [hops3, List.mem_cons, List.not_mem_nil, or_false] at hop
    rcases hop with rfl | rfl | rfl | rfl <;> exact fun h => absurd (Finset.mem_singleton.mp h) (by decide))]
  exact (by unfold Vpost2; rw [Function.update_of_ne (by decide)]; exact Vpre2_T m d)
theorem Vpre3_K (d : Dev nD) : Vpre3 m d dK = cat m d := by
  unfold Vpre3
  rw [StableHlo.after_of_forall_not_mem (b := dK) _ _ (by
    intro op hop
    simp only [hops3, List.mem_cons, List.not_mem_nil, or_false] at hop
    rcases hop with rfl | rfl | rfl | rfl <;> exact fun h => absurd (Finset.mem_singleton.mp h) (by decide))]
  exact (by unfold Vpost2; rw [Function.update_of_ne (by decide)]; exact Vpre2_K m d)

/-! ## Gather call 4 -/

abbrev dI4 : DevRef τ sig := Proc.devRef .tc main_v26
abbrev dC4 : DevRef τ sig := Proc.devRef .tc main_v28
abbrev dO4 : DevRef τ sig := Proc.devRef .tc main_v29
/-- The five arrays call 4 is handed. -/
abbrev T5_4 : Finset (DevRef τ sig) := {dI4, dC4, dT, dK, dO4}

theorem hT5_4 : T5_4 ⊆ ucRefs τ sig := by
  intro b hb
  simp only [T5_4, Finset.mem_insert, Finset.mem_singleton] at hb
  rcases hb with rfl | rfl | rfl | rfl | rfl <;> exact mem_uc _ rfl

omit [FloatOps F] in
theorem held_T5_4 (d : Dev nD) (W : Valuation τ sig (Elt F)) :
    (held (T d) T5_4 W : sProp 𝕄)
      = iprop(((T d : Thread nD τ).loc main_v26 ↦{fullShare} W dI4) ∗ ((T d : Thread nD τ).loc main_v28 ↦{fullShare} W dC4)
          ∗ ((T d : Thread nD τ).loc main_arg2 ↦{fullShare} W dT) ∗ ((T d : Thread nD τ).loc main_arg3 ↦{fullShare} W dK)
          ∗ ((T d : Thread nD τ).loc main_v29 ↦{fullShare} W dO4)) := by
  unfold held T5_4
  rw [SparseCore.bigSep_insert' (by decide), SparseCore.bigSep_insert' (by decide), SparseCore.bigSep_insert' (by decide),
    SparseCore.bigSep_insert' (by decide), bigSep_singleton]

theorem hS4 : ∀ op ∈ (hops4 (F := F)), op.bufs ⊆ ucRefs τ sig := by
  intro op hop
  simp only [hops4, List.mem_cons, List.not_mem_nil, or_false] at hop
  rcases hop with rfl | rfl | rfl | rfl <;> first | exact reshape_sub _ _ _ _ _ _ | exact unary_sub _ _ _ _ _
theorem hf4 : ∀ op ∈ (hops4 (F := F)), op.fresh = ∅ := by
  intro op hop
  simp only [hops4, List.mem_cons, List.not_mem_nil, or_false] at hop
  rcases hop with rfl | rfl | rfl | rfl <;> rfl

theorem Vpre4_T (d : Dev nD) : Vpre4 m d dT = idt m d := by
  unfold Vpre4
  rw [StableHlo.after_of_forall_not_mem (b := dT) _ _ (by
    intro op hop
    simp only [hops4, List.mem_cons, List.not_mem_nil, or_false] at hop
    rcases hop with rfl | rfl | rfl | rfl <;> exact fun h => absurd (Finset.mem_singleton.mp h) (by decide))]
  exact (by unfold Vpost3; rw [Function.update_of_ne (by decide)]; exact Vpre3_T m d)
theorem Vpre4_K (d : Dev nD) : Vpre4 m d dK = cat m d := by
  unfold Vpre4
  rw [StableHlo.after_of_forall_not_mem (b := dK) _ _ (by
    intro op hop
    simp only [hops4, List.mem_cons, List.not_mem_nil, or_false] at hop
    rcases hop with rfl | rfl | rfl | rfl <;> exact fun h => absurd (Finset.mem_singleton.mp h) (by decide))]
  exact (by unfold Vpost3; rw [Function.update_of_ne (by decide)]; exact Vpre3_K m d)

/-! ## Gather call 5 -/

abbrev dI5 : DevRef τ sig := Proc.devRef .tc main_v31
abbrev dC5 : DevRef τ sig := Proc.devRef .tc main_v33
abbrev dO5 : DevRef τ sig := Proc.devRef .tc main_v34
/-- The five arrays call 5 is handed. -/
abbrev T5_5 : Finset (DevRef τ sig) := {dI5, dC5, dT, dK, dO5}

theorem hT5_5 : T5_5 ⊆ ucRefs τ sig := by
  intro b hb
  simp only [T5_5, Finset.mem_insert, Finset.mem_singleton] at hb
  rcases hb with rfl | rfl | rfl | rfl | rfl <;> exact mem_uc _ rfl

omit [FloatOps F] in
theorem held_T5_5 (d : Dev nD) (W : Valuation τ sig (Elt F)) :
    (held (T d) T5_5 W : sProp 𝕄)
      = iprop(((T d : Thread nD τ).loc main_v31 ↦{fullShare} W dI5) ∗ ((T d : Thread nD τ).loc main_v33 ↦{fullShare} W dC5)
          ∗ ((T d : Thread nD τ).loc main_arg2 ↦{fullShare} W dT) ∗ ((T d : Thread nD τ).loc main_arg3 ↦{fullShare} W dK)
          ∗ ((T d : Thread nD τ).loc main_v34 ↦{fullShare} W dO5)) := by
  unfold held T5_5
  rw [SparseCore.bigSep_insert' (by decide), SparseCore.bigSep_insert' (by decide), SparseCore.bigSep_insert' (by decide),
    SparseCore.bigSep_insert' (by decide), bigSep_singleton]

theorem hS5 : ∀ op ∈ (hops5 (F := F)), op.bufs ⊆ ucRefs τ sig := by
  intro op hop
  simp only [hops5, List.mem_cons, List.not_mem_nil, or_false] at hop
  rcases hop with rfl | rfl | rfl | rfl <;> first | exact reshape_sub _ _ _ _ _ _ | exact unary_sub _ _ _ _ _
theorem hf5 : ∀ op ∈ (hops5 (F := F)), op.fresh = ∅ := by
  intro op hop
  simp only [hops5, List.mem_cons, List.not_mem_nil, or_false] at hop
  rcases hop with rfl | rfl | rfl | rfl <;> rfl

theorem Vpre5_T (d : Dev nD) : Vpre5 m d dT = idt m d := by
  unfold Vpre5
  rw [StableHlo.after_of_forall_not_mem (b := dT) _ _ (by
    intro op hop
    simp only [hops5, List.mem_cons, List.not_mem_nil, or_false] at hop
    rcases hop with rfl | rfl | rfl | rfl <;> exact fun h => absurd (Finset.mem_singleton.mp h) (by decide))]
  exact (by unfold Vpost4; rw [Function.update_of_ne (by decide)]; exact Vpre4_T m d)
theorem Vpre5_K (d : Dev nD) : Vpre5 m d dK = cat m d := by
  unfold Vpre5
  rw [StableHlo.after_of_forall_not_mem (b := dK) _ _ (by
    intro op hop
    simp only [hops5, List.mem_cons, List.not_mem_nil, or_false] at hop
    rcases hop with rfl | rfl | rfl | rfl <;> exact fun h => absurd (Finset.mem_singleton.mp h) (by decide))]
  exact (by unfold Vpost4; rw [Function.update_of_ne (by decide)]; exact Vpre4_K m d)

/-! ## Gather call 6 -/

abbrev dI6 : DevRef τ sig := Proc.devRef .tc main_v36
abbrev dC6 : DevRef τ sig := Proc.devRef .tc main_v38
abbrev dO6 : DevRef τ sig := Proc.devRef .tc main_v39
/-- The five arrays call 6 is handed. -/
abbrev T5_6 : Finset (DevRef τ sig) := {dI6, dC6, dT, dK, dO6}

theorem hT5_6 : T5_6 ⊆ ucRefs τ sig := by
  intro b hb
  simp only [T5_6, Finset.mem_insert, Finset.mem_singleton] at hb
  rcases hb with rfl | rfl | rfl | rfl | rfl <;> exact mem_uc _ rfl

omit [FloatOps F] in
theorem held_T5_6 (d : Dev nD) (W : Valuation τ sig (Elt F)) :
    (held (T d) T5_6 W : sProp 𝕄)
      = iprop(((T d : Thread nD τ).loc main_v36 ↦{fullShare} W dI6) ∗ ((T d : Thread nD τ).loc main_v38 ↦{fullShare} W dC6)
          ∗ ((T d : Thread nD τ).loc main_arg2 ↦{fullShare} W dT) ∗ ((T d : Thread nD τ).loc main_arg3 ↦{fullShare} W dK)
          ∗ ((T d : Thread nD τ).loc main_v39 ↦{fullShare} W dO6)) := by
  unfold held T5_6
  rw [SparseCore.bigSep_insert' (by decide), SparseCore.bigSep_insert' (by decide), SparseCore.bigSep_insert' (by decide),
    SparseCore.bigSep_insert' (by decide), bigSep_singleton]

theorem hS6 : ∀ op ∈ (hops6 (F := F)), op.bufs ⊆ ucRefs τ sig := by
  intro op hop
  simp only [hops6, List.mem_cons, List.not_mem_nil, or_false] at hop
  rcases hop with rfl | rfl | rfl | rfl <;> first | exact reshape_sub _ _ _ _ _ _ | exact unary_sub _ _ _ _ _
theorem hf6 : ∀ op ∈ (hops6 (F := F)), op.fresh = ∅ := by
  intro op hop
  simp only [hops6, List.mem_cons, List.not_mem_nil, or_false] at hop
  rcases hop with rfl | rfl | rfl | rfl <;> rfl

theorem Vpre6_T (d : Dev nD) : Vpre6 m d dT = idt m d := by
  unfold Vpre6
  rw [StableHlo.after_of_forall_not_mem (b := dT) _ _ (by
    intro op hop
    simp only [hops6, List.mem_cons, List.not_mem_nil, or_false] at hop
    rcases hop with rfl | rfl | rfl | rfl <;> exact fun h => absurd (Finset.mem_singleton.mp h) (by decide))]
  exact (by unfold Vpost5; rw [Function.update_of_ne (by decide)]; exact Vpre5_T m d)
theorem Vpre6_K (d : Dev nD) : Vpre6 m d dK = cat m d := by
  unfold Vpre6
  rw [StableHlo.after_of_forall_not_mem (b := dK) _ _ (by
    intro op hop
    simp only [hops6, List.mem_cons, List.not_mem_nil, or_false] at hop
    rcases hop with rfl | rfl | rfl | rfl <;> exact fun h => absurd (Finset.mem_singleton.mp h) (by decide))]
  exact (by unfold Vpost5; rw [Function.update_of_ne (by decide)]; exact Vpre5_K m d)

/-! ## Gather call 7 -/

abbrev dI7 : DevRef τ sig := Proc.devRef .tc main_v41
abbrev dC7 : DevRef τ sig := Proc.devRef .tc main_v43
abbrev dO7 : DevRef τ sig := Proc.devRef .tc main_v44
/-- The five arrays call 7 is handed. -/
abbrev T5_7 : Finset (DevRef τ sig) := {dI7, dC7, dT, dK, dO7}

theorem hT5_7 : T5_7 ⊆ ucRefs τ sig := by
  intro b hb
  simp only [T5_7, Finset.mem_insert, Finset.mem_singleton] at hb
  rcases hb with rfl | rfl | rfl | rfl | rfl <;> exact mem_uc _ rfl

omit [FloatOps F] in
theorem held_T5_7 (d : Dev nD) (W : Valuation τ sig (Elt F)) :
    (held (T d) T5_7 W : sProp 𝕄)
      = iprop(((T d : Thread nD τ).loc main_v41 ↦{fullShare} W dI7) ∗ ((T d : Thread nD τ).loc main_v43 ↦{fullShare} W dC7)
          ∗ ((T d : Thread nD τ).loc main_arg2 ↦{fullShare} W dT) ∗ ((T d : Thread nD τ).loc main_arg3 ↦{fullShare} W dK)
          ∗ ((T d : Thread nD τ).loc main_v44 ↦{fullShare} W dO7)) := by
  unfold held T5_7
  rw [SparseCore.bigSep_insert' (by decide), SparseCore.bigSep_insert' (by decide), SparseCore.bigSep_insert' (by decide),
    SparseCore.bigSep_insert' (by decide), bigSep_singleton]

theorem hS7 : ∀ op ∈ (hops7 (F := F)), op.bufs ⊆ ucRefs τ sig := by
  intro op hop
  simp only [hops7, List.mem_cons, List.not_mem_nil, or_false] at hop
  rcases hop with rfl | rfl | rfl | rfl <;> first | exact reshape_sub _ _ _ _ _ _ | exact unary_sub _ _ _ _ _
theorem hf7 : ∀ op ∈ (hops7 (F := F)), op.fresh = ∅ := by
  intro op hop
  simp only [hops7, List.mem_cons, List.not_mem_nil, or_false] at hop
  rcases hop with rfl | rfl | rfl | rfl <;> rfl

theorem Vpre7_T (d : Dev nD) : Vpre7 m d dT = idt m d := by
  unfold Vpre7
  rw [StableHlo.after_of_forall_not_mem (b := dT) _ _ (by
    intro op hop
    simp only [hops7, List.mem_cons, List.not_mem_nil, or_false] at hop
    rcases hop with rfl | rfl | rfl | rfl <;> exact fun h => absurd (Finset.mem_singleton.mp h) (by decide))]
  exact (by unfold Vpost6; rw [Function.update_of_ne (by decide)]; exact Vpre6_T m d)
theorem Vpre7_K (d : Dev nD) : Vpre7 m d dK = cat m d := by
  unfold Vpre7
  rw [StableHlo.after_of_forall_not_mem (b := dK) _ _ (by
    intro op hop
    simp only [hops7, List.mem_cons, List.not_mem_nil, or_false] at hop
    rcases hop with rfl | rfl | rfl | rfl <;> exact fun h => absurd (Finset.mem_singleton.mp h) (by decide))]
  exact (by unfold Vpost6; rw [Function.update_of_ne (by decide)]; exact Vpre6_K m d)

end Cert.KernelIdeal.Sc

end
-- ==== Proof.ScArgsI.lean ====
/-
  The argument arrays through the eight gather calls. No host operation before a call writes an argument array, and a
  call's result is another buffer, so after the last call each of the eight argument buffers still holds its launch
  contents (for the two tables this is what the calls are handed and hand back); and a call's result buffer, once written, is touched by no later
  host operation and no later call, so after the last call it still holds the call's gathered array.
-/
import proofs.«204770_g8065948582451_cont_9to1c4b_476_56_alg».proof.Proof.ScValsI
import proofs.«204770_g8065948582451_cont_9to1c4b_476_56_alg».proof.Proof.ScCallPreI

noncomputable section

namespace Cert.KernelIdeal.Sc

open Cert.KernelIdeal Cert.KernelIdeal.Gen

open Idealize.ShloMosaic Idealize.ShloMosaic.ValueIdx Idealize.ShloMosaic.StableHlo
open Idealize.ShloMosaic.SparseCore (S V T)
open Idealize.SL.Sem

variable {F : FTy → Type} [FloatOps F]

variable (m : (ℓ : Loc nD τ sig) → Buf (Elt F) ℓ)

/-! ## main_arg0 -/

theorem pre0_arg0 (d : Dev nD) : Vpre0 m d (Proc.devRef .tc main_arg0) = m (d, Proc.devRef .tc main_arg0) := by
  unfold Vpre0
  after_results
  rfl

theorem post0_arg0 (d : Dev nD) : Vpost0 m d (Proc.devRef .tc main_arg0) = m (d, Proc.devRef .tc main_arg0) := by
  unfold Vpost0
  rw [Function.update_of_ne (devRef_ne_of_ne (by decide)), pre0_arg0]

theorem hops1_arg0 (W : Valuation τ sig (Elt F)) : after hops1 W (Proc.devRef .tc main_arg0) = W (Proc.devRef .tc main_arg0) := by
  after_results

theorem pre1_arg0 (d : Dev nD) : Vpre1 m d (Proc.devRef .tc main_arg0) = m (d, Proc.devRef .tc main_arg0) := by
  unfold Vpre1
  rw [hops1_arg0, post0_arg0]

theorem post1_arg0 (d : Dev nD) : Vpost1 m d (Proc.devRef .tc main_arg0) = m (d, Proc.devRef .tc main_arg0) := by
  unfold Vpost1
  rw [Function.update_of_ne (devRef_ne_of_ne (by decide)), pre1_arg0]

theorem hops2_arg0 (W : Valuation τ sig (Elt F)) : after hops2 W (Proc.devRef .tc main_arg0) = W (Proc.devRef .tc main_arg0) := by
  after_results

theorem pre2_arg0 (d : Dev nD) : Vpre2 m d (Proc.devRef .tc main_arg0) = m (d, Proc.devRef .tc main_arg0) := by
  unfold Vpre2
  rw [hops2_arg0, post1_arg0]

theorem post2_arg0 (d : Dev nD) : Vpost2 m d (Proc.devRef .tc main_arg0) = m (d, Proc.devRef .tc main_arg0) := by
  unfold Vpost2
  rw [Function.update_of_ne (devRef_ne_of_ne (by decide)), pre2_arg0]

theorem hops3_arg0 (W : Valuation τ sig (Elt F)) : after hops3 W (Proc.devRef .tc main_arg0) = W (Proc.devRef .tc main_arg0) := by
  after_results

theorem pre3_arg0 (d : Dev nD) : Vpre3 m d (Proc.devRef .tc main_arg0) = m (d, Proc.devRef .tc main_arg0) := by
  unfold Vpre3
  rw [hops3_arg0, post2_arg0]

theorem post3_arg0 (d : Dev nD) : Vpost3 m d (Proc.devRef .tc main_arg0) = m (d, Proc.devRef .tc main_arg0) := by
  unfold Vpost3
  rw [Function.update_of_ne (devRef_ne_of_ne (by decide)), pre3_arg0]

theorem hops4_arg0 (W : Valuation τ sig (Elt F)) : after hops4 W (Proc.devRef .tc main_arg0) = W (Proc.devRef .tc main_arg0) := by
  after_results

theorem pre4_arg0 (d : Dev nD) : Vpre4 m d (Proc.devRef .tc main_arg0) = m (d, Proc.devRef .tc main_arg0) := by
  unfold Vpre4
  rw [hops4_arg0, post3_arg0]

theorem post4_arg0 (d : Dev nD) : Vpost4 m d (Proc.devRef .tc main_arg0) = m (d, Proc.devRef .tc main_arg0) := by
  unfold Vpost4
  rw [Function.update_of_ne (devRef_ne_of_ne (by decide)), pre4_arg0]

theorem hops5_arg0 (W : Valuation τ sig (Elt F)) : after hops5 W (Proc.devRef .tc main_arg0) = W (Proc.devRef .tc main_arg0) := by
  after_results

theorem pre5_arg0 (d : Dev nD) : Vpre5 m d (Proc.devRef .tc main_arg0) = m (d, Proc.devRef .tc main_arg0) := by
  unfold Vpre5
  rw [hops5_arg0, post4_arg0]

theorem post5_arg0 (d : Dev nD) : Vpost5 m d (Proc.devRef .tc main_arg0) = m (d, Proc.devRef .tc main_arg0) := by
  unfold Vpost5
  rw [Function.update_of_ne (devRef_ne_of_ne (by decide)), pre5_arg0]

theorem hops6_arg0 (W : Valuation τ sig (Elt F)) : after hops6 W (Proc.devRef .tc main_arg0) = W (Proc.devRef .tc main_arg0) := by
  after_results

theorem pre6_arg0 (d : Dev nD) : Vpre6 m d (Proc.devRef .tc main_arg0) = m (d, Proc.devRef .tc main_arg0) := by
  unfold Vpre6
  rw [hops6_arg0, post5_arg0]

theorem post6_arg0 (d : Dev nD) : Vpost6 m d (Proc.devRef .tc main_arg0) = m (d, Proc.devRef .tc main_arg0) := by
  unfold Vpost6
  rw [Function.update_of_ne (devRef_ne_of_ne (by decide)), pre6_arg0]

theorem hops7_arg0 (W : Valuation τ sig (Elt F)) : after hops7 W (Proc.devRef .tc main_arg0) = W (Proc.devRef .tc main_arg0) := by
  after_results

theorem pre7_arg0 (d : Dev nD) : Vpre7 m d (Proc.devRef .tc main_arg0) = m (d, Proc.devRef .tc main_arg0) := by
  unfold Vpre7
  rw [hops7_arg0, post6_arg0]

theorem post7_arg0 (d : Dev nD) : Vpost7 m d (Proc.devRef .tc main_arg0) = m (d, Proc.devRef .tc main_arg0) := by
  unfold Vpost7
  rw [Function.update_of_ne (devRef_ne_of_ne (by decide)), pre7_arg0]

/-! ## main_arg1 -/

theorem pre0_arg1 (d : Dev nD) : Vpre0 m d (Proc.devRef .tc main_arg1) = m (d, Proc.devRef .tc main_arg1) := by
  unfold Vpre0
  after_results
  rfl

theorem post0_arg1 (d : Dev nD) : Vpost0 m d (Proc.devRef .tc main_arg1) = m (d, Proc.devRef .tc main_arg1) := by
  unfold Vpost0
  rw [Function.update_of_ne (devRef_ne_of_ne (by decide)), pre0_arg1]

theorem hops1_arg1 (W : Valuation τ sig (Elt F)) : after hops1 W (Proc.devRef .tc main_arg1) = W (Proc.devRef .tc main_arg1) := by
  after_results

theorem pre1_arg1 (d : Dev nD) : Vpre1 m d (Proc.devRef .tc main_arg1) = m (d, Proc.devRef .tc main_arg1) := by
  unfold Vpre1
  rw [hops1_arg1, post0_arg1]

theorem post1_arg1 (d : Dev nD) : Vpost1 m d (Proc.devRef .tc main_arg1) = m (d, Proc.devRef .tc main_arg1) := by
  unfold Vpost1
  rw [Function.update_of_ne (devRef_ne_of_ne (by decide)), pre1_arg1]

theorem hops2_arg1 (W : Valuation τ sig (Elt F)) : after hops2 W (Proc.devRef .tc main_arg1) = W (Proc.devRef .tc main_arg1) := by
  after_results

theorem pre2_arg1 (d : Dev nD) : Vpre2 m d (Proc.devRef .tc main_arg1) = m (d, Proc.devRef .tc main_arg1) := by
  unfold Vpre2
  rw [hops2_arg1, post1_arg1]

theorem post2_arg1 (d : Dev nD) : Vpost2 m d (Proc.devRef .tc main_arg1) = m (d, Proc.devRef .tc main_arg1) := by
  unfold Vpost2
  rw [Function.update_of_ne (devRef_ne_of_ne (by decide)), pre2_arg1]

theorem hops3_arg1 (W : Valuation τ sig (Elt F)) : after hops3 W (Proc.devRef .tc main_arg1) = W (Proc.devRef .tc main_arg1) := by
  after_results

theorem pre3_arg1 (d : Dev nD) : Vpre3 m d (Proc.devRef .tc main_arg1) = m (d, Proc.devRef .tc main_arg1) := by
  unfold Vpre3
  rw [hops3_arg1, post2_arg1]

theorem post3_arg1 (d : Dev nD) : Vpost3 m d (Proc.devRef .tc main_arg1) = m (d, Proc.devRef .tc main_arg1) := by
  unfold Vpost3
  rw [Function.update_of_ne (devRef_ne_of_ne (by decide)), pre3_arg1]

theorem hops4_arg1 (W : Valuation τ sig (Elt F)) : after hops4 W (Proc.devRef .tc main_arg1) = W (Proc.devRef .tc main_arg1) := by
  after_results

theorem pre4_arg1 (d : Dev nD) : Vpre4 m d (Proc.devRef .tc main_arg1) = m (d, Proc.devRef .tc main_arg1) := by
  unfold Vpre4
  rw [hops4_arg1, post3_arg1]

theorem post4_arg1 (d : Dev nD) : Vpost4 m d (Proc.devRef .tc main_arg1) = m (d, Proc.devRef .tc main_arg1) := by
  unfold Vpost4
  rw [Function.update_of_ne (devRef_ne_of_ne (by decide)), pre4_arg1]

theorem hops5_arg1 (W : Valuation τ sig (Elt F)) : after hops5 W (Proc.devRef .tc main_arg1) = W (Proc.devRef .tc main_arg1) := by
  after_results

theorem pre5_arg1 (d : Dev nD) : Vpre5 m d (Proc.devRef .tc main_arg1) = m (d, Proc.devRef .tc main_arg1) := by
  unfold Vpre5
  rw [hops5_arg1, post4_arg1]

theorem post5_arg1 (d : Dev nD) : Vpost5 m d (Proc.devRef .tc main_arg1) = m (d, Proc.devRef .tc main_arg1) := by
  unfold Vpost5
  rw [Function.update_of_ne (devRef_ne_of_ne (by decide)), pre5_arg1]

theorem hops6_arg1 (W : Valuation τ sig (Elt F)) : after hops6 W (Proc.devRef .tc main_arg1) = W (Proc.devRef .tc main_arg1) := by
  after_results

theorem pre6_arg1 (d : Dev nD) : Vpre6 m d (Proc.devRef .tc main_arg1) = m (d, Proc.devRef .tc main_arg1) := by
  unfold Vpre6
  rw [hops6_arg1, post5_arg1]

theorem post6_arg1 (d : Dev nD) : Vpost6 m d (Proc.devRef .tc main_arg1) = m (d, Proc.devRef .tc main_arg1) := by
  unfold Vpost6
  rw [Function.update_of_ne (devRef_ne_of_ne (by decide)), pre6_arg1]

theorem hops7_arg1 (W : Valuation τ sig (Elt F)) : after hops7 W (Proc.devRef .tc main_arg1) = W (Proc.devRef .tc main_arg1) := by
  after_results

theorem pre7_arg1 (d : Dev nD) : Vpre7 m d (Proc.devRef .tc main_arg1) = m (d, Proc.devRef .tc main_arg1) := by
  unfold Vpre7
  rw [hops7_arg1, post6_arg1]

theorem post7_arg1 (d : Dev nD) : Vpost7 m d (Proc.devRef .tc main_arg1) = m (d, Proc.devRef .tc main_arg1) := by
  unfold Vpost7
  rw [Function.update_of_ne (devRef_ne_of_ne (by decide)), pre7_arg1]

/-! ## main_arg4 -/

theorem pre0_arg4 (d : Dev nD) : Vpre0 m d (Proc.devRef .tc main_arg4) = m (d, Proc.devRef .tc main_arg4) := by
  unfold Vpre0
  after_results
  rfl

theorem post0_arg4 (d : Dev nD) : Vpost0 m d (Proc.devRef .tc main_arg4) = m (d, Proc.devRef .tc main_arg4) := by
  unfold Vpost0
  rw [Function.update_of_ne (devRef_ne_of_ne (by decide)), pre0_arg4]

theorem hops1_arg4 (W : Valuation τ sig (Elt F)) : after hops1 W (Proc.devRef .tc main_arg4) = W (Proc.devRef .tc main_arg4) := by
  after_results

theorem pre1_arg4 (d : Dev nD) : Vpre1 m d (Proc.devRef .tc main_arg4) = m (d, Proc.devRef .tc main_arg4) := by
  unfold Vpre1
  rw [hops1_arg4, post0_arg4]

theorem post1_arg4 (d : Dev nD) : Vpost1 m d (Proc.devRef .tc main_arg4) = m (d, Proc.devRef .tc main_arg4) := by
  unfold Vpost1
  rw [Function.update_of_ne (devRef_ne_of_ne (by decide)), pre1_arg4]

theorem hops2_arg4 (W : Valuation τ sig (Elt F)) : after hops2 W (Proc.devRef .tc main_arg4) = W (Proc.devRef .tc main_arg4) := by
  after_results

theorem pre2_arg4 (d : Dev nD) : Vpre2 m d (Proc.devRef .tc main_arg4) = m (d, Proc.devRef .tc main_arg4) := by
  unfold Vpre2
  rw [hops2_arg4, post1_arg4]

theorem post2_arg4 (d : Dev nD) : Vpost2 m d (Proc.devRef .tc main_arg4) = m (d, Proc.devRef .tc main_arg4) := by
  unfold Vpost2
  rw [Function.update_of_ne (devRef_ne_of_ne (by decide)), pre2_arg4]

theorem hops3_arg4 (W : Valuation τ sig (Elt F)) : after hops3 W (Proc.devRef .tc main_arg4) = W (Proc.devRef .tc main_arg4) := by
  after_results

theorem pre3_arg4 (d : Dev nD) : Vpre3 m d (Proc.devRef .tc main_arg4) = m (d, Proc.devRef .tc main_arg4) := by
  unfold Vpre3
  rw [hops3_arg4, post2_arg4]

theorem post3_arg4 (d : Dev nD) : Vpost3 m d (Proc.devRef .tc main_arg4) = m (d, Proc.devRef .tc main_arg4) := by
  unfold Vpost3
  rw [Function.update_of_ne (devRef_ne_of_ne (by decide)), pre3_arg4]

theorem hops4_arg4 (W : Valuation τ sig (Elt F)) : after hops4 W (Proc.devRef .tc main_arg4) = W (Proc.devRef .tc main_arg4) := by
  after_results

theorem pre4_arg4 (d : Dev nD) : Vpre4 m d (Proc.devRef .tc main_arg4) = m (d, Proc.devRef .tc main_arg4) := by
  unfold Vpre4
  rw [hops4_arg4, post3_arg4]

theorem post4_arg4 (d : Dev nD) : Vpost4 m d (Proc.devRef .tc main_arg4) = m (d, Proc.devRef .tc main_arg4) := by
  unfold Vpost4
  rw [Function.update_of_ne (devRef_ne_of_ne (by decide)), pre4_arg4]

theorem hops5_arg4 (W : Valuation τ sig (Elt F)) : after hops5 W (Proc.devRef .tc main_arg4) = W (Proc.devRef .tc main_arg4) := by
  after_results

theorem pre5_arg4 (d : Dev nD) : Vpre5 m d (Proc.devRef .tc main_arg4) = m (d, Proc.devRef .tc main_arg4) := by
  unfold Vpre5
  rw [hops5_arg4, post4_arg4]

theorem post5_arg4 (d : Dev nD) : Vpost5 m d (Proc.devRef .tc main_arg4) = m (d, Proc.devRef .tc main_arg4) := by
  unfold Vpost5
  rw [Function.update_of_ne (devRef_ne_of_ne (by decide)), pre5_arg4]

theorem hops6_arg4 (W : Valuation τ sig (Elt F)) : after hops6 W (Proc.devRef .tc main_arg4) = W (Proc.devRef .tc main_arg4) := by
  after_results

theorem pre6_arg4 (d : Dev nD) : Vpre6 m d (Proc.devRef .tc main_arg4) = m (d, Proc.devRef .tc main_arg4) := by
  unfold Vpre6
  rw [hops6_arg4, post5_arg4]

theorem post6_arg4 (d : Dev nD) : Vpost6 m d (Proc.devRef .tc main_arg4) = m (d, Proc.devRef .tc main_arg4) := by
  unfold Vpost6
  rw [Function.update_of_ne (devRef_ne_of_ne (by decide)), pre6_arg4]

theorem hops7_arg4 (W : Valuation τ sig (Elt F)) : after hops7 W (Proc.devRef .tc main_arg4) = W (Proc.devRef .tc main_arg4) := by
  after_results

theorem pre7_arg4 (d : Dev nD) : Vpre7 m d (Proc.devRef .tc main_arg4) = m (d, Proc.devRef .tc main_arg4) := by
  unfold Vpre7
  rw [hops7_arg4, post6_arg4]

theorem post7_arg4 (d : Dev nD) : Vpost7 m d (Proc.devRef .tc main_arg4) = m (d, Proc.devRef .tc main_arg4) := by
  unfold Vpost7
  rw [Function.update_of_ne (devRef_ne_of_ne (by decide)), pre7_arg4]

/-! ## main_arg5 -/

theorem pre0_arg5 (d : Dev nD) : Vpre0 m d (Proc.devRef .tc main_arg5) = m (d, Proc.devRef .tc main_arg5) := by
  unfold Vpre0
  after_results
  rfl

theorem post0_arg5 (d : Dev nD) : Vpost0 m d (Proc.devRef .tc main_arg5) = m (d, Proc.devRef .tc main_arg5) := by
  unfold Vpost0
  rw [Function.update_of_ne (devRef_ne_of_ne (by decide)), pre0_arg5]

theorem hops1_arg5 (W : Valuation τ sig (Elt F)) : after hops1 W (Proc.devRef .tc main_arg5) = W (Proc.devRef .tc main_arg5) := by
  after_results

theorem pre1_arg5 (d : Dev nD) : Vpre1 m d (Proc.devRef .tc main_arg5) = m (d, Proc.devRef .tc main_arg5) := by
  unfold Vpre1
  rw [hops1_arg5, post0_arg5]

theorem post1_arg5 (d : Dev nD) : Vpost1 m d (Proc.devRef .tc main_arg5) = m (d, Proc.devRef .tc main_arg5) := by
  unfold Vpost1
  rw [Function.update_of_ne (devRef_ne_of_ne (by decide)), pre1_arg5]

theorem hops2_arg5 (W : Valuation τ sig (Elt F)) : after hops2 W (Proc.devRef .tc main_arg5) = W (Proc.devRef .tc main_arg5) := by
  after_results

theorem pre2_arg5 (d : Dev nD) : Vpre2 m d (Proc.devRef .tc main_arg5) = m (d, Proc.devRef .tc main_arg5) := by
  unfold Vpre2
  rw [hops2_arg5, post1_arg5]

theorem post2_arg5 (d : Dev nD) : Vpost2 m d (Proc.devRef .tc main_arg5) = m (d, Proc.devRef .tc main_arg5) := by
  unfold Vpost2
  rw [Function.update_of_ne (devRef_ne_of_ne (by decide)), pre2_arg5]

theorem hops3_arg5 (W : Valuation τ sig (Elt F)) : after hops3 W (Proc.devRef .tc main_arg5) = W (Proc.devRef .tc main_arg5) := by
  after_results

theorem pre3_arg5 (d : Dev nD) : Vpre3 m d (Proc.devRef .tc main_arg5) = m (d, Proc.devRef .tc main_arg5) := by
  unfold Vpre3
  rw [hops3_arg5, post2_arg5]

theorem post3_arg5 (d : Dev nD) : Vpost3 m d (Proc.devRef .tc main_arg5) = m (d, Proc.devRef .tc main_arg5) := by
  unfold Vpost3
  rw [Function.update_of_ne (devRef_ne_of_ne (by decide)), pre3_arg5]

theorem hops4_arg5 (W : Valuation τ sig (Elt F)) : after hops4 W (Proc.devRef .tc main_arg5) = W (Proc.devRef .tc main_arg5) := by
  after_results

theorem pre4_arg5 (d : Dev nD) : Vpre4 m d (Proc.devRef .tc main_arg5) = m (d, Proc.devRef .tc main_arg5) := by
  unfold Vpre4
  rw [hops4_arg5, post3_arg5]

theorem post4_arg5 (d : Dev nD) : Vpost4 m d (Proc.devRef .tc main_arg5) = m (d, Proc.devRef .tc main_arg5) := by
  unfold Vpost4
  rw [Function.update_of_ne (devRef_ne_of_ne (by decide)), pre4_arg5]

theorem hops5_arg5 (W : Valuation τ sig (Elt F)) : after hops5 W (Proc.devRef .tc main_arg5) = W (Proc.devRef .tc main_arg5) := by
  after_results

theorem pre5_arg5 (d : Dev nD) : Vpre5 m d (Proc.devRef .tc main_arg5) = m (d, Proc.devRef .tc main_arg5) := by
  unfold Vpre5
  rw [hops5_arg5, post4_arg5]

theorem post5_arg5 (d : Dev nD) : Vpost5 m d (Proc.devRef .tc main_arg5) = m (d, Proc.devRef .tc main_arg5) := by
  unfold Vpost5
  rw [Function.update_of_ne (devRef_ne_of_ne (by decide)), pre5_arg5]

theorem hops6_arg5 (W : Valuation τ sig (Elt F)) : after hops6 W (Proc.devRef .tc main_arg5) = W (Proc.devRef .tc main_arg5) := by
  after_results

theorem pre6_arg5 (d : Dev nD) : Vpre6 m d (Proc.devRef .tc main_arg5) = m (d, Proc.devRef .tc main_arg5) := by
  unfold Vpre6
  rw [hops6_arg5, post5_arg5]

theorem post6_arg5 (d : Dev nD) : Vpost6 m d (Proc.devRef .tc main_arg5) = m (d, Proc.devRef .tc main_arg5) := by
  unfold Vpost6
  rw [Function.update_of_ne (devRef_ne_of_ne (by decide)), pre6_arg5]

theorem hops7_arg5 (W : Valuation τ sig (Elt F)) : after hops7 W (Proc.devRef .tc main_arg5) = W (Proc.devRef .tc main_arg5) := by
  after_results

theorem pre7_arg5 (d : Dev nD) : Vpre7 m d (Proc.devRef .tc main_arg5) = m (d, Proc.devRef .tc main_arg5) := by
  unfold Vpre7
  rw [hops7_arg5, post6_arg5]

theorem post7_arg5 (d : Dev nD) : Vpost7 m d (Proc.devRef .tc main_arg5) = m (d, Proc.devRef .tc main_arg5) := by
  unfold Vpost7
  rw [Function.update_of_ne (devRef_ne_of_ne (by decide)), pre7_arg5]

/-! ## main_arg6 -/

theorem pre0_arg6 (d : Dev nD) : Vpre0 m d (Proc.devRef .tc main_arg6) = m (d, Proc.devRef .tc main_arg6) := by
  unfold Vpre0
  after_results
  rfl

theorem post0_arg6 (d : Dev nD) : Vpost0 m d (Proc.devRef .tc main_arg6) = m (d, Proc.devRef .tc main_arg6) := by
  unfold Vpost0
  rw [Function.update_of_ne (devRef_ne_of_ne (by decide)), pre0_arg6]

theorem hops1_arg6 (W : Valuation τ sig (Elt F)) : after hops1 W (Proc.devRef .tc main_arg6) = W (Proc.devRef .tc main_arg6) := by
  after_results

theorem pre1_arg6 (d : Dev nD) : Vpre1 m d (Proc.devRef .tc main_arg6) = m (d, Proc.devRef .tc main_arg6) := by
  unfold Vpre1
  rw [hops1_arg6, post0_arg6]

theorem post1_arg6 (d : Dev nD) : Vpost1 m d (Proc.devRef .tc main_arg6) = m (d, Proc.devRef .tc main_arg6) := by
  unfold Vpost1
  rw [Function.update_of_ne (devRef_ne_of_ne (by decide)), pre1_arg6]

theorem hops2_arg6 (W : Valuation τ sig (Elt F)) : after hops2 W (Proc.devRef .tc main_arg6) = W (Proc.devRef .tc main_arg6) := by
  after_results

theorem pre2_arg6 (d : Dev nD) : Vpre2 m d (Proc.devRef .tc main_arg6) = m (d, Proc.devRef .tc main_arg6) := by
  unfold Vpre2
  rw [hops2_arg6, post1_arg6]

theorem post2_arg6 (d : Dev nD) : Vpost2 m d (Proc.devRef .tc main_arg6) = m (d, Proc.devRef .tc main_arg6) := by
  unfold Vpost2
  rw [Function.update_of_ne (devRef_ne_of_ne (by decide)), pre2_arg6]

theorem hops3_arg6 (W : Valuation τ sig (Elt F)) : after hops3 W (Proc.devRef .tc main_arg6) = W (Proc.devRef .tc main_arg6) := by
  after_results

theorem pre3_arg6 (d : Dev nD) : Vpre3 m d (Proc.devRef .tc main_arg6) = m (d, Proc.devRef .tc main_arg6) := by
  unfold Vpre3
  rw [hops3_arg6, post2_arg6]

theorem post3_arg6 (d : Dev nD) : Vpost3 m d (Proc.devRef .tc main_arg6) = m (d, Proc.devRef .tc main_arg6) := by
  unfold Vpost3
  rw [Function.update_of_ne (devRef_ne_of_ne (by decide)), pre3_arg6]

theorem hops4_arg6 (W : Valuation τ sig (Elt F)) : after hops4 W (Proc.devRef .tc main_arg6) = W (Proc.devRef .tc main_arg6) := by
  after_results

theorem pre4_arg6 (d : Dev nD) : Vpre4 m d (Proc.devRef .tc main_arg6) = m (d, Proc.devRef .tc main_arg6) := by
  unfold Vpre4
  rw [hops4_arg6, post3_arg6]

theorem post4_arg6 (d : Dev nD) : Vpost4 m d (Proc.devRef .tc main_arg6) = m (d, Proc.devRef .tc main_arg6) := by
  unfold Vpost4
  rw [Function.update_of_ne (devRef_ne_of_ne (by decide)), pre4_arg6]

theorem hops5_arg6 (W : Valuation τ sig (Elt F)) : after hops5 W (Proc.devRef .tc main_arg6) = W (Proc.devRef .tc main_arg6) := by
  after_results

theorem pre5_arg6 (d : Dev nD) : Vpre5 m d (Proc.devRef .tc main_arg6) = m (d, Proc.devRef .tc main_arg6) := by
  unfold Vpre5
  rw [hops5_arg6, post4_arg6]

theorem post5_arg6 (d : Dev nD) : Vpost5 m d (Proc.devRef .tc main_arg6) = m (d, Proc.devRef .tc main_arg6) := by
  unfold Vpost5
  rw [Function.update_of_ne (devRef_ne_of_ne (by decide)), pre5_arg6]

theorem hops6_arg6 (W : Valuation τ sig (Elt F)) : after hops6 W (Proc.devRef .tc main_arg6) = W (Proc.devRef .tc main_arg6) := by
  after_results

theorem pre6_arg6 (d : Dev nD) : Vpre6 m d (Proc.devRef .tc main_arg6) = m (d, Proc.devRef .tc main_arg6) := by
  unfold Vpre6
  rw [hops6_arg6, post5_arg6]

theorem post6_arg6 (d : Dev nD) : Vpost6 m d (Proc.devRef .tc main_arg6) = m (d, Proc.devRef .tc main_arg6) := by
  unfold Vpost6
  rw [Function.update_of_ne (devRef_ne_of_ne (by decide)), pre6_arg6]

theorem hops7_arg6 (W : Valuation τ sig (Elt F)) : after hops7 W (Proc.devRef .tc main_arg6) = W (Proc.devRef .tc main_arg6) := by
  after_results

theorem pre7_arg6 (d : Dev nD) : Vpre7 m d (Proc.devRef .tc main_arg6) = m (d, Proc.devRef .tc main_arg6) := by
  unfold Vpre7
  rw [hops7_arg6, post6_arg6]

theorem post7_arg6 (d : Dev nD) : Vpost7 m d (Proc.devRef .tc main_arg6) = m (d, Proc.devRef .tc main_arg6) := by
  unfold Vpost7
  rw [Function.update_of_ne (devRef_ne_of_ne (by decide)), pre7_arg6]

/-! ## main_arg7 -/

theorem pre0_arg7 (d : Dev nD) : Vpre0 m d (Proc.devRef .tc main_arg7) = m (d, Proc.devRef .tc main_arg7) := by
  unfold Vpre0
  after_results
  rfl

theorem post0_arg7 (d : Dev nD) : Vpost0 m d (Proc.devRef .tc main_arg7) = m (d, Proc.devRef .tc main_arg7) := by
  unfold Vpost0
  rw [Function.update_of_ne (devRef_ne_of_ne (by decide)), pre0_arg7]

theorem hops1_arg7 (W : Valuation τ sig (Elt F)) : after hops1 W (Proc.devRef .tc main_arg7) = W (Proc.devRef .tc main_arg7) := by
  after_results

theorem pre1_arg7 (d : Dev nD) : Vpre1 m d (Proc.devRef .tc main_arg7) = m (d, Proc.devRef .tc main_arg7) := by
  unfold Vpre1
  rw [hops1_arg7, post0_arg7]

theorem post1_arg7 (d : Dev nD) : Vpost1 m d (Proc.devRef .tc main_arg7) = m (d, Proc.devRef .tc main_arg7) := by
  unfold Vpost1
  rw [Function.update_of_ne (devRef_ne_of_ne (by decide)), pre1_arg7]

theorem hops2_arg7 (W : Valuation τ sig (Elt F)) : after hops2 W (Proc.devRef .tc main_arg7) = W (Proc.devRef .tc main_arg7) := by
  after_results

theorem pre2_arg7 (d : Dev nD) : Vpre2 m d (Proc.devRef .tc main_arg7) = m (d, Proc.devRef .tc main_arg7) := by
  unfold Vpre2
  rw [hops2_arg7, post1_arg7]

theorem post2_arg7 (d : Dev nD) : Vpost2 m d (Proc.devRef .tc main_arg7) = m (d, Proc.devRef .tc main_arg7) := by
  unfold Vpost2
  rw [Function.update_of_ne (devRef_ne_of_ne (by decide)), pre2_arg7]

theorem hops3_arg7 (W : Valuation τ sig (Elt F)) : after hops3 W (Proc.devRef .tc main_arg7) = W (Proc.devRef .tc main_arg7) := by
  after_results

theorem pre3_arg7 (d : Dev nD) : Vpre3 m d (Proc.devRef .tc main_arg7) = m (d, Proc.devRef .tc main_arg7) := by
  unfold Vpre3
  rw [hops3_arg7, post2_arg7]

theorem post3_arg7 (d : Dev nD) : Vpost3 m d (Proc.devRef .tc main_arg7) = m (d, Proc.devRef .tc main_arg7) := by
  unfold Vpost3
  rw [Function.update_of_ne (devRef_ne_of_ne (by decide)), pre3_arg7]

theorem hops4_arg7 (W : Valuation τ sig (Elt F)) : after hops4 W (Proc.devRef .tc main_arg7) = W (Proc.devRef .tc main_arg7) := by
  after_results

theorem pre4_arg7 (d : Dev nD) : Vpre4 m d (Proc.devRef .tc main_arg7) = m (d, Proc.devRef .tc main_arg7) := by
  unfold Vpre4
  rw [hops4_arg7, post3_arg7]

theorem post4_arg7 (d : Dev nD) : Vpost4 m d (Proc.devRef .tc main_arg7) = m (d, Proc.devRef .tc main_arg7) := by
  unfold Vpost4
  rw [Function.update_of_ne (devRef_ne_of_ne (by decide)), pre4_arg7]

theorem hops5_arg7 (W : Valuation τ sig (Elt F)) : after hops5 W (Proc.devRef .tc main_arg7) = W (Proc.devRef .tc main_arg7) := by
  after_results

theorem pre5_arg7 (d : Dev nD) : Vpre5 m d (Proc.devRef .tc main_arg7) = m (d, Proc.devRef .tc main_arg7) := by
  unfold Vpre5
  rw [hops5_arg7, post4_arg7]

theorem post5_arg7 (d : Dev nD) : Vpost5 m d (Proc.devRef .tc main_arg7) = m (d, Proc.devRef .tc main_arg7) := by
  unfold Vpost5
  rw [Function.update_of_ne (devRef_ne_of_ne (by decide)), pre5_arg7]

theorem hops6_arg7 (W : Valuation τ sig (Elt F)) : after hops6 W (Proc.devRef .tc main_arg7) = W (Proc.devRef .tc main_arg7) := by
  after_results

theorem pre6_arg7 (d : Dev nD) : Vpre6 m d (Proc.devRef .tc main_arg7) = m (d, Proc.devRef .tc main_arg7) := by
  unfold Vpre6
  rw [hops6_arg7, post5_arg7]

theorem post6_arg7 (d : Dev nD) : Vpost6 m d (Proc.devRef .tc main_arg7) = m (d, Proc.devRef .tc main_arg7) := by
  unfold Vpost6
  rw [Function.update_of_ne (devRef_ne_of_ne (by decide)), pre6_arg7]

theorem hops7_arg7 (W : Valuation τ sig (Elt F)) : after hops7 W (Proc.devRef .tc main_arg7) = W (Proc.devRef .tc main_arg7) := by
  after_results

theorem pre7_arg7 (d : Dev nD) : Vpre7 m d (Proc.devRef .tc main_arg7) = m (d, Proc.devRef .tc main_arg7) := by
  unfold Vpre7
  rw [hops7_arg7, post6_arg7]

theorem post7_arg7 (d : Dev nD) : Vpost7 m d (Proc.devRef .tc main_arg7) = m (d, Proc.devRef .tc main_arg7) := by
  unfold Vpost7
  rw [Function.update_of_ne (devRef_ne_of_ne (by decide)), pre7_arg7]

/-! ## The two tables -/

theorem post7_arg2 (d : Dev nD) : Vpost7 m d (Proc.devRef .tc main_arg2) = m (d, Proc.devRef .tc main_arg2) := by
  unfold Vpost7
  rw [Function.update_of_ne (devRef_ne_of_ne (by decide))]
  exact Vpre7_T m d

theorem post7_arg3 (d : Dev nD) : Vpost7 m d (Proc.devRef .tc main_arg3) = m (d, Proc.devRef .tc main_arg3) := by
  unfold Vpost7
  rw [Function.update_of_ne (devRef_ne_of_ne (by decide))]
  exact Vpre7_K m d

/-! ## The calls' results: call p's result buffer keeps the gathered array through the later calls -/

theorem post0_O0 (d : Dev nD) : Vpost0 m d (Proc.devRef .tc main_v9) = gath (ids0 m d) (cids0 m d) (idt m d) (cat m d) := by
  unfold Vpost0
  exact Function.update_self _ _ _

theorem hops1_O0 (W : Valuation τ sig (Elt F)) : after hops1 W (Proc.devRef .tc main_v9) = W (Proc.devRef .tc main_v9) := by
  after_results

theorem pre1_O0 (d : Dev nD) : Vpre1 m d (Proc.devRef .tc main_v9) = gath (ids0 m d) (cids0 m d) (idt m d) (cat m d) := by
  unfold Vpre1
  rw [hops1_O0, post0_O0]

theorem post1_O0 (d : Dev nD) : Vpost1 m d (Proc.devRef .tc main_v9) = gath (ids0 m d) (cids0 m d) (idt m d) (cat m d) := by
  unfold Vpost1
  rw [Function.update_of_ne (devRef_ne_of_ne (by decide)), pre1_O0]

theorem hops2_O0 (W : Valuation τ sig (Elt F)) : after hops2 W (Proc.devRef .tc main_v9) = W (Proc.devRef .tc main_v9) := by
  after_results

theorem pre2_O0 (d : Dev nD) : Vpre2 m d (Proc.devRef .tc main_v9) = gath (ids0 m d) (cids0 m d) (idt m d) (cat m d) := by
  unfold Vpre2
  rw [hops2_O0, post1_O0]

theorem post2_O0 (d : Dev nD) : Vpost2 m d (Proc.devRef .tc main_v9) = gath (ids0 m d) (cids0 m d) (idt m d) (cat m d) := by
  unfold Vpost2
  rw [Function.update_of_ne (devRef_ne_of_ne (by decide)), pre2_O0]

theorem hops3_O0 (W : Valuation τ sig (Elt F)) : after hops3 W (Proc.devRef .tc main_v9) = W (Proc.devRef .tc main_v9) := by
  after_results

theorem pre3_O0 (d : Dev nD) : Vpre3 m d (Proc.devRef .tc main_v9) = gath (ids0 m d) (cids0 m d) (idt m d) (cat m d) := by
  unfold Vpre3
  rw [hops3_O0, post2_O0]

theorem post3_O0 (d : Dev nD) : Vpost3 m d (Proc.devRef .tc main_v9) = gath (ids0 m d) (cids0 m d) (idt m d) (cat m d) := by
  unfold Vpost3
  rw [Function.update_of_ne (devRef_ne_of_ne (by decide)), pre3_O0]

theorem hops4_O0 (W : Valuation τ sig (Elt F)) : after hops4 W (Proc.devRef .tc main_v9) = W (Proc.devRef .tc main_v9) := by
  after_results

theorem pre4_O0 (d : Dev nD) : Vpre4 m d (Proc.devRef .tc main_v9) = gath (ids0 m d) (cids0 m d) (idt m d) (cat m d) := by
  unfold Vpre4
  rw [hops4_O0, post3_O0]

theorem post4_O0 (d : Dev nD) : Vpost4 m d (Proc.devRef .tc main_v9) = gath (ids0 m d) (cids0 m d) (idt m d) (cat m d) := by
  unfold Vpost4
  rw [Function.update_of_ne (devRef_ne_of_ne (by decide)), pre4_O0]

theorem hops5_O0 (W : Valuation τ sig (Elt F)) : after hops5 W (Proc.devRef .tc main_v9) = W (Proc.devRef .tc main_v9) := by
  after_results

theorem pre5_O0 (d : Dev nD) : Vpre5 m d (Proc.devRef .tc main_v9) = gath (ids0 m d) (cids0 m d) (idt m d) (cat m d) := by
  unfold Vpre5
  rw [hops5_O0, post4_O0]

theorem post5_O0 (d : Dev nD) : Vpost5 m d (Proc.devRef .tc main_v9) = gath (ids0 m d) (cids0 m d) (idt m d) (cat m d) := by
  unfold Vpost5
  rw [Function.update_of_ne (devRef_ne_of_ne (by decide)), pre5_O0]

theorem hops6_O0 (W : Valuation τ sig (Elt F)) : after hops6 W (Proc.devRef .tc main_v9) = W (Proc.devRef .tc main_v9) := by
  after_results

theorem pre6_O0 (d : Dev nD) : Vpre6 m d (Proc.devRef .tc main_v9) = gath (ids0 m d) (cids0 m d) (idt m d) (cat m d) := by
  unfold Vpre6
  rw [hops6_O0, post5_O0]

theorem post6_O0 (d : Dev nD) : Vpost6 m d (Proc.devRef .tc main_v9) = gath (ids0 m d) (cids0 m d) (idt m d) (cat m d) := by
  unfold Vpost6
  rw [Function.update_of_ne (devRef_ne_of_ne (by decide)), pre6_O0]

theorem hops7_O0 (W : Valuation τ sig (Elt F)) : after hops7 W (Proc.devRef .tc main_v9) = W (Proc.devRef .tc main_v9) := by
  after_results

theorem pre7_O0 (d : Dev nD) : Vpre7 m d (Proc.devRef .tc main_v9) = gath (ids0 m d) (cids0 m d) (idt m d) (cat m d) := by
  unfold Vpre7
  rw [hops7_O0, post6_O0]

theorem post7_O0 (d : Dev nD) : Vpost7 m d (Proc.devRef .tc main_v9) = gath (ids0 m d) (cids0 m d) (idt m d) (cat m d) := by
  unfold Vpost7
  rw [Function.update_of_ne (devRef_ne_of_ne (by decide)), pre7_O0]

theorem post1_O1 (d : Dev nD) : Vpost1 m d (Proc.devRef .tc main_v14) = gath (ids1 m d) (cids1 m d) (idt m d) (cat m d) := by
  unfold Vpost1
  exact Function.update_self _ _ _

theorem hops2_O1 (W : Valuation τ sig (Elt F)) : after hops2 W (Proc.devRef .tc main_v14) = W (Proc.devRef .tc main_v14) := by
  after_results

theorem pre2_O1 (d : Dev nD) : Vpre2 m d (Proc.devRef .tc main_v14) = gath (ids1 m d) (cids1 m d) (idt m d) (cat m d) := by
  unfold Vpre2
  rw [hops2_O1, post1_O1]

theorem post2_O1 (d : Dev nD) : Vpost2 m d (Proc.devRef .tc main_v14) = gath (ids1 m d) (cids1 m d) (idt m d) (cat m d) := by
  unfold Vpost2
  rw [Function.update_of_ne (devRef_ne_of_ne (by decide)), pre2_O1]

theorem hops3_O1 (W : Valuation τ sig (Elt F)) : after hops3 W (Proc.devRef .tc main_v14) = W (Proc.devRef .tc main_v14) := by
  after_results

theorem pre3_O1 (d : Dev nD) : Vpre3 m d (Proc.devRef .tc main_v14) = gath (ids1 m d) (cids1 m d) (idt m d) (cat m d) := by
  unfold Vpre3
  rw [hops3_O1, post2_O1]

theorem post3_O1 (d : Dev nD) : Vpost3 m d (Proc.devRef .tc main_v14) = gath (ids1 m d) (cids1 m d) (idt m d) (cat m d) := by
  unfold Vpost3
  rw [Function.update_of_ne (devRef_ne_of_ne (by decide)), pre3_O1]

theorem hops4_O1 (W : Valuation τ sig (Elt F)) : after hops4 W (Proc.devRef .tc main_v14) = W (Proc.devRef .tc main_v14) := by
  after_results

theorem pre4_O1 (d : Dev nD) : Vpre4 m d (Proc.devRef .tc main_v14) = gath (ids1 m d) (cids1 m d) (idt m d) (cat m d) := by
  unfold Vpre4
  rw [hops4_O1, post3_O1]

theorem post4_O1 (d : Dev nD) : Vpost4 m d (Proc.devRef .tc main_v14) = gath (ids1 m d) (cids1 m d) (idt m d) (cat m d) := by
  unfold Vpost4
  rw [Function.update_of_ne (devRef_ne_of_ne (by decide)), pre4_O1]

theorem hops5_O1 (W : Valuation τ sig (Elt F)) : after hops5 W (Proc.devRef .tc main_v14) = W (Proc.devRef .tc main_v14) := by
  after_results

theorem pre5_O1 (d : Dev nD) : Vpre5 m d (Proc.devRef .tc main_v14) = gath (ids1 m d) (cids1 m d) (idt m d) (cat m d) := by
  unfold Vpre5
  rw [hops5_O1, post4_O1]

theorem post5_O1 (d : Dev nD) : Vpost5 m d (Proc.devRef .tc main_v14) = gath (ids1 m d) (cids1 m d) (idt m d) (cat m d) := by
  unfold Vpost5
  rw [Function.update_of_ne (devRef_ne_of_ne (by decide)), pre5_O1]

theorem hops6_O1 (W : Valuation τ sig (Elt F)) : after hops6 W (Proc.devRef .tc main_v14) = W (Proc.devRef .tc main_v14) := by
  after_results

theorem pre6_O1 (d : Dev nD) : Vpre6 m d (Proc.devRef .tc main_v14) = gath (ids1 m d) (cids1 m d) (idt m d) (cat m d) := by
  unfold Vpre6
  rw [hops6_O1, post5_O1]

theorem post6_O1 (d : Dev nD) : Vpost6 m d (Proc.devRef .tc main_v14) = gath (ids1 m d) (cids1 m d) (idt m d) (cat m d) := by
  unfold Vpost6
  rw [Function.update_of_ne (devRef_ne_of_ne (by decide)), pre6_O1]

theorem hops7_O1 (W : Valuation τ sig (Elt F)) : after hops7 W (Proc.devRef .tc main_v14) = W (Proc.devRef .tc main_v14) := by
  after_results

theorem pre7_O1 (d : Dev nD) : Vpre7 m d (Proc.devRef .tc main_v14) = gath (ids1 m d) (cids1 m d) (idt m d) (cat m d) := by
  unfold Vpre7
  rw [hops7_O1, post6_O1]

theorem post7_O1 (d : Dev nD) : Vpost7 m d (Proc.devRef .tc main_v14) = gath (ids1 m d) (cids1 m d) (idt m d) (cat m d) := by
  unfold Vpost7
  rw [Function.update_of_ne (devRef_ne_of_ne (by decide)), pre7_O1]

theorem post2_O2 (d : Dev nD) : Vpost2 m d (Proc.devRef .tc main_v19) = gath (ids2 m d) (cids2 m d) (idt m d) (cat m d) := by
  unfold Vpost2
  exact Function.update_self _ _ _

theorem hops3_O2 (W : Valuation τ sig (Elt F)) : after hops3 W (Proc.devRef .tc main_v19) = W (Proc.devRef .tc main_v19) := by
  after_results

theorem pre3_O2 (d : Dev nD) : Vpre3 m d (Proc.devRef .tc main_v19) = gath (ids2 m d) (cids2 m d) (idt m d) (cat m d) := by
  unfold Vpre3
  rw [hops3_O2, post2_O2]

theorem post3_O2 (d : Dev nD) : Vpost3 m d (Proc.devRef .tc main_v19) = gath (ids2 m d) (cids2 m d) (idt m d) (cat m d) := by
  unfold Vpost3
  rw [Function.update_of_ne (devRef_ne_of_ne (by decide)), pre3_O2]

theorem hops4_O2 (W : Valuation τ sig (Elt F)) : after hops4 W (Proc.devRef .tc main_v19) = W (Proc.devRef .tc main_v19) := by
  after_results

theorem pre4_O2 (d : Dev nD) : Vpre4 m d (Proc.devRef .tc main_v19) = gath (ids2 m d) (cids2 m d) (idt m d) (cat m d) := by
  unfold Vpre4
  rw [hops4_O2, post3_O2]

theorem post4_O2 (d : Dev nD) : Vpost4 m d (Proc.devRef .tc main_v19) = gath (ids2 m d) (cids2 m d) (idt m d) (cat m d) := by
  unfold Vpost4
  rw [Function.update_of_ne (devRef_ne_of_ne (by decide)), pre4_O2]

theorem hops5_O2 (W : Valuation τ sig (Elt F)) : after hops5 W (Proc.devRef .tc main_v19) = W (Proc.devRef .tc main_v19) := by
  after_results

theorem pre5_O2 (d : Dev nD) : Vpre5 m d (Proc.devRef .tc main_v19) = gath (ids2 m d) (cids2 m d) (idt m d) (cat m d) := by
  unfold Vpre5
  rw [hops5_O2, post4_O2]

theorem post5_O2 (d : Dev nD) : Vpost5 m d (Proc.devRef .tc main_v19) = gath (ids2 m d) (cids2 m d) (idt m d) (cat m d) := by
  unfold Vpost5
  rw [Function.update_of_ne (devRef_ne_of_ne (by decide)), pre5_O2]

theorem hops6_O2 (W : Valuation τ sig (Elt F)) : after hops6 W (Proc.devRef .tc main_v19) = W (Proc.devRef .tc main_v19) := by
  after_results

theorem pre6_O2 (d : Dev nD) : Vpre6 m d (Proc.devRef .tc main_v19) = gath (ids2 m d) (cids2 m d) (idt m d) (cat m d) := by
  unfold Vpre6
  rw [hops6_O2, post5_O2]

theorem post6_O2 (d : Dev nD) : Vpost6 m d (Proc.devRef .tc main_v19) = gath (ids2 m d) (cids2 m d) (idt m d) (cat m d) := by
  unfold Vpost6
  rw [Function.update_of_ne (devRef_ne_of_ne (by decide)), pre6_O2]

theorem hops7_O2 (W : Valuation τ sig (Elt F)) : after hops7 W (Proc.devRef .tc main_v19) = W (Proc.devRef .tc main_v19) := by
  after_results

theorem pre7_O2 (d : Dev nD) : Vpre7 m d (Proc.devRef .tc main_v19) = gath (ids2 m d) (cids2 m d) (idt m d) (cat m d) := by
  unfold Vpre7
  rw [hops7_O2, post6_O2]

theorem post7_O2 (d : Dev nD) : Vpost7 m d (Proc.devRef .tc main_v19) = gath (ids2 m d) (cids2 m d) (idt m d) (cat m d) := by
  unfold Vpost7
  rw [Function.update_of_ne (devRef_ne_of_ne (by decide)), pre7_O2]

theorem post3_O3 (d : Dev nD) : Vpost3 m d (Proc.devRef .tc main_v24) = gath (ids3 m d) (cids3 m d) (idt m d) (cat m d) := by
  unfold Vpost3
  exact Function.update_self _ _ _

theorem hops4_O3 (W : Valuation τ sig (Elt F)) : after hops4 W (Proc.devRef .tc main_v24) = W (Proc.devRef .tc main_v24) := by
  after_results

theorem pre4_O3 (d : Dev nD) : Vpre4 m d (Proc.devRef .tc main_v24) = gath (ids3 m d) (cids3 m d) (idt m d) (cat m d) := by
  unfold Vpre4
  rw [hops4_O3, post3_O3]

theorem post4_O3 (d : Dev nD) : Vpost4 m d (Proc.devRef .tc main_v24) = gath (ids3 m d) (cids3 m d) (idt m d) (cat m d) := by
  unfold Vpost4
  rw [Function.update_of_ne (devRef_ne_of_ne (by decide)), pre4_O3]

theorem hops5_O3 (W : Valuation τ sig (Elt F)) : after hops5 W (Proc.devRef .tc main_v24) = W (Proc.devRef .tc main_v24) := by
  after_results

theorem pre5_O3 (d : Dev nD) : Vpre5 m d (Proc.devRef .tc main_v24) = gath (ids3 m d) (cids3 m d) (idt m d) (cat m d) := by
  unfold Vpre5
  rw [hops5_O3, post4_O3]

theorem post5_O3 (d : Dev nD) : Vpost5 m d (Proc.devRef .tc main_v24) = gath (ids3 m d) (cids3 m d) (idt m d) (cat m d) := by
  unfold Vpost5
  rw [Function.update_of_ne (devRef_ne_of_ne (by decide)), pre5_O3]

theorem hops6_O3 (W : Valuation τ sig (Elt F)) : after hops6 W (Proc.devRef .tc main_v24) = W (Proc.devRef .tc main_v24) := by
  after_results

theorem pre6_O3 (d : Dev nD) : Vpre6 m d (Proc.devRef .tc main_v24) = gath (ids3 m d) (cids3 m d) (idt m d) (cat m d) := by
  unfold Vpre6
  rw [hops6_O3, post5_O3]

theorem post6_O3 (d : Dev nD) : Vpost6 m d (Proc.devRef .tc main_v24) = gath (ids3 m d) (cids3 m d) (idt m d) (cat m d) := by
  unfold Vpost6
  rw [Function.update_of_ne (devRef_ne_of_ne (by decide)), pre6_O3]

theorem hops7_O3 (W : Valuation τ sig (Elt F)) : after hops7 W (Proc.devRef .tc main_v24) = W (Proc.devRef .tc main_v24) := by
  after_results

theorem pre7_O3 (d : Dev nD) : Vpre7 m d (Proc.devRef .tc main_v24) = gath (ids3 m d) (cids3 m d) (idt m d) (cat m d) := by
  unfold Vpre7
  rw [hops7_O3, post6_O3]

theorem post7_O3 (d : Dev nD) : Vpost7 m d (Proc.devRef .tc main_v24) = gath (ids3 m d) (cids3 m d) (idt m d) (cat m d) := by
  unfold Vpost7
  rw [Function.update_of_ne (devRef_ne_of_ne (by decide)), pre7_O3]

theorem post4_O4 (d : Dev nD) : Vpost4 m d (Proc.devRef .tc main_v29) = gath (ids4 m d) (cids4 m d) (idt m d) (cat m d) := by
  unfold Vpost4
  exact Function.update_self _ _ _

theorem hops5_O4 (W : Valuation τ sig (Elt F)) : after hops5 W (Proc.devRef .tc main_v29) = W (Proc.devRef .tc main_v29) := by
  after_results

theorem pre5_O4 (d : Dev nD) : Vpre5 m d (Proc.devRef .tc main_v29) = gath (ids4 m d) (cids4 m d) (idt m d) (cat m d) := by
  unfold Vpre5
  rw [hops5_O4, post4_O4]

theorem post5_O4 (d : Dev nD) : Vpost5 m d (Proc.devRef .tc main_v29) = gath (ids4 m d) (cids4 m d) (idt m d) (cat m d) := by
  unfold Vpost5
  rw [Function.update_of_ne (devRef_ne_of_ne (by decide)), pre5_O4]

theorem hops6_O4 (W : Valuation τ sig (Elt F)) : after hops6 W (Proc.devRef .tc main_v29) = W (Proc.devRef .tc main_v29) := by
  after_results

theorem pre6_O4 (d : Dev nD) : Vpre6 m d (Proc.devRef .tc main_v29) = gath (ids4 m d) (cids4 m d) (idt m d) (cat m d) := by
  unfold Vpre6
  rw [hops6_O4, post5_O4]

theorem post6_O4 (d : Dev nD) : Vpost6 m d (Proc.devRef .tc main_v29) = gath (ids4 m d) (cids4 m d) (idt m d) (cat m d) := by
  unfold Vpost6
  rw [Function.update_of_ne (devRef_ne_of_ne (by decide)), pre6_O4]

theorem hops7_O4 (W : Valuation τ sig (Elt F)) : after hops7 W (Proc.devRef .tc main_v29) = W (Proc.devRef .tc main_v29) := by
  after_results

theorem pre7_O4 (d : Dev nD) : Vpre7 m d (Proc.devRef .tc main_v29) = gath (ids4 m d) (cids4 m d) (idt m d) (cat m d) := by
  unfold Vpre7
  rw [hops7_O4, post6_O4]

theorem post7_O4 (d : Dev nD) : Vpost7 m d (Proc.devRef .tc main_v29) = gath (ids4 m d) (cids4 m d) (idt m d) (cat m d) := by
  unfold Vpost7
  rw [Function.update_of_ne (devRef_ne_of_ne (by decide)), pre7_O4]

theorem post5_O5 (d : Dev nD) : Vpost5 m d (Proc.devRef .tc main_v34) = gath (ids5 m d) (cids5 m d) (idt m d) (cat m d) := by
  unfold Vpost5
  exact Function.update_self _ _ _

theorem hops6_O5 (W : Valuation τ sig (Elt F)) : after hops6 W (Proc.devRef .tc main_v34) = W (Proc.devRef .tc main_v34) := by
  after_results

theorem pre6_O5 (d : Dev nD) : Vpre6 m d (Proc.devRef .tc main_v34) = gath (ids5 m d) (cids5 m d) (idt m d) (cat m d) := by
  unfold Vpre6
  rw [hops6_O5, post5_O5]

theorem post6_O5 (d : Dev nD) : Vpost6 m d (Proc.devRef .tc main_v34) = gath (ids5 m d) (cids5 m d) (idt m d) (cat m d) := by
  unfold Vpost6
  rw [Function.update_of_ne (devRef_ne_of_ne (by decide)), pre6_O5]

theorem hops7_O5 (W : Valuation τ sig (Elt F)) : after hops7 W (Proc.devRef .tc main_v34) = W (Proc.devRef .tc main_v34) := by
  after_results

theorem pre7_O5 (d : Dev nD) : Vpre7 m d (Proc.devRef .tc main_v34) = gath (ids5 m d) (cids5 m d) (idt m d) (cat m d) := by
  unfold Vpre7
  rw [hops7_O5, post6_O5]

theorem post7_O5 (d : Dev nD) : Vpost7 m d (Proc.devRef .tc main_v34) = gath (ids5 m d) (cids5 m d) (idt m d) (cat m d) := by
  unfold Vpost7
  rw [Function.update_of_ne (devRef_ne_of_ne (by decide)), pre7_O5]

theorem post6_O6 (d : Dev nD) : Vpost6 m d (Proc.devRef .tc main_v39) = gath (ids6 m d) (cids6 m d) (idt m d) (cat m d) := by
  unfold Vpost6
  exact Function.update_self _ _ _

theorem hops7_O6 (W : Valuation τ sig (Elt F)) : after hops7 W (Proc.devRef .tc main_v39) = W (Proc.devRef .tc main_v39) := by
  after_results

theorem pre7_O6 (d : Dev nD) : Vpre7 m d (Proc.devRef .tc main_v39) = gath (ids6 m d) (cids6 m d) (idt m d) (cat m d) := by
  unfold Vpre7
  rw [hops7_O6, post6_O6]

theorem post7_O6 (d : Dev nD) : Vpost7 m d (Proc.devRef .tc main_v39) = gath (ids6 m d) (cids6 m d) (idt m d) (cat m d) := by
  unfold Vpost7
  rw [Function.update_of_ne (devRef_ne_of_ne (by decide)), pre7_O6]

theorem post7_O7 (d : Dev nD) : Vpost7 m d (Proc.devRef .tc main_v44) = gath (ids7 m d) (cids7 m d) (idt m d) (cat m d) := by
  unfold Vpost7
  exact Function.update_self _ _ _

end Cert.KernelIdeal.Sc

end
-- ==== Proof.PreFacts.lean ====
/-
  The precondition decoded. The predicate is a conjunction of eight tests, each a reduction by "and" over a whole
  array: every entry of each of the six float arrays has absolute value below +∞, every id word w satisfies
  0 ≤ w ≤ 99999 and every category word 0 ≤ w ≤ 999, the words read signed. A word in [0, n] signed is at most n
  unsigned, and an extended real whose absolute value is below +∞ is a real.
-/
import proofs.«204770_g8065948582451_cont_9to1c4b_476_56_alg».proof.Pre_input_domain
import Idealize.ShloMosaic.Lib.ReduceAll
import Idealize.ShloMosaic.Lib.ValueIdx
import Idealize.ShloMosaic.PureOps.Ideal

noncomputable section

namespace Cert.PreFacts

open Idealize.ShloMosaic Cert.Pre_input_domain

/-- The result shape has one index. -/
instance : Subsingleton S_.Idx := ⟨fun a b => funext fun d => d.elim0⟩

/-- A pointwise "and" of two bit arrays is 1 at an index exactly when both are. -/
theorem andi_apply_eq_one {s : Shape} (x y : IVec s 1) (i : s.Idx) :
    andi x y i = 1#1 ↔ x i = 1#1 ∧ y i = 1#1 := IntOp.andi_eq_one

/-- A word w with 0 ≤ w ≤ c signed, c = n, is below n + 1 unsigned. -/
theorem toNat_lt (w c : BitVec 32) (n : Nat) (hc : c.toInt = (n : Int))
    (h0 : (0#32 : BitVec 32).toInt ≤ w.toInt) (h1 : w.toInt ≤ c.toInt) : w.toNat < n + 1 := by
  have hz : (0#32 : BitVec 32).toInt = 0 := by decide
  rw [hz] at h0
  have hpos : 2 * w.toNat < 2 ^ 32 := BitVec.toInt_pos_iff.1 h0
  rw [hc, BitVec.toInt_eq_toNat_of_lt hpos] at h1
  omega

variable [Facts]

/-- The range test of one word array, read back at an index. -/
theorem range_at (a : IVec S4096x200 32) (c : BitVec 32) (n : Nat) (hc : c.toInt = (n : Int))
    (h : Host.reduce IntOp.andi
        (andi (cmpi .sge a (broadcastInDim S4096x200 ![] Facts.bcast_S_S4096x200 (constantI S_ 32 0#32)))
          (cmpi .sle a (broadcastInDim S4096x200 ![] Facts.bcast_S_S4096x200 (constantI S_ 32 c))))
        (constantI S_ 1 1#1) Facts.reducesTo_S4096x200_S_d0_1 Facts.h_S_ ValueIdx.ix0 = 1#1)
    (i : S4096x200.Idx) : (a i).toNat < n + 1 := by
  have e := Host.reduce_andi_all _ _ _ _ _ h i
  rw [andi_apply_eq_one] at e
  exact toNat_lt (a i) c n hc (IntOp.cmpi_sge.1 e.1) (IntOp.cmpi_sle.1 e.2)

/-- An extended real whose absolute value is below the value of the +∞ word is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The finiteness test of one float array, read back at an index. -/
theorem finite_at {s : Shape} {axes : List (Fin s.rank)} (a : FVec Ideal s .f32)
    (hb : S_.BroadcastsInDim s (![] : Fin 0 → Fin s.rank)) (hr : s.ReducesTo axes S_)
    (h : Host.reduce IntOp.andi
        (cmpf .olt (Host.absf a) (broadcastInDim s ![] hb (constant (F := Ideal) S_ .f32 0x7F800000#32)))
        (constantI S_ 1 1#1) hr Facts.h_S_ ValueIdx.ix0 = 1#1)
    (i : s.Idx) : ∃ r : ℝ, a i = (r : EReal) :=
  real_of_abs_lt (a i) (Host.reduce_andi_all _ _ _ _ _ h i)

/-- The eight tests, from the predicate being all ones. -/
theorem split {F : FTy → Type} [FloatOps F] (a0 a1 : IVec S4096x200 32) (a2 : FVec F S100000x128 .f32)
    (a3 : FVec F S1000x128 .f32) (a4 : FVec F S256x512 .f32) (a5 a6 a7 : FVec F S512 .f32)
    (h : fn (F := F) a0 a1 a2 a3 a4 a5 a6 a7 = fun _ => 1#1) :
    (((((((Host.reduce IntOp.andi
        (cmpf .olt (Host.absf a2) (broadcastInDim S100000x128 ![] Facts.bcast_S_S100000x128 (constant (F := F) S_ .f32 0x7F800000#32)))
        (constantI S_ 1 1#1) Facts.reducesTo_S100000x128_S_d0_1 Facts.h_S_ ValueIdx.ix0 = 1#1
      ∧ Host.reduce IntOp.andi
        (cmpf .olt (Host.absf a3) (broadcastInDim S1000x128 ![] Facts.bcast_S_S1000x128 (constant (F := F) S_ .f32 0x7F800000#32)))
        (constantI S_ 1 1#1) Facts.reducesTo_S1000x128_S_d0_1 Facts.h_S_ ValueIdx.ix0 = 1#1)
      ∧ Host.reduce IntOp.andi
        (cmpf .olt (Host.absf a4) (broadcastInDim S256x512 ![] Facts.bcast_S_S256x512 (constant (F := F) S_ .f32 0x7F800000#32)))
        (constantI S_ 1 1#1) Facts.reducesTo_S256x512_S_d0_1 Facts.h_S_ ValueIdx.ix0 = 1#1)
      ∧ Host.reduce IntOp.andi
        (cmpf .olt (Host.absf a5) (broadcastInDim S512 ![] Facts.bcast_S_S512 (constant (F := F) S_ .f32 0x7F800000#32)))
        (constantI S_ 1 1#1) Facts.reducesTo_S512_S_d0 Facts.h_S_ ValueIdx.ix0 = 1#1)
      ∧ Host.reduce IntOp.andi
        (cmpf .olt (Host.absf a6) (broadcastInDim S512 ![] Facts.bcast_S_S512 (constant (F := F) S_ .f32 0x7F800000#32)))
        (constantI S_ 1 1#1) Facts.reducesTo_S512_S_d0 Facts.h_S_ ValueIdx.ix0 = 1#1)
      ∧ Host.reduce IntOp.andi
        (cmpf .olt (Host.absf a7) (broadcastInDim S512 ![] Facts.bcast_S_S512 (constant (F := F) S_ .f32 0x7F800000#32)))
        (constantI S_ 1 1#1) Facts.reducesTo_S512_S_d0 Facts.h_S_ ValueIdx.ix0 = 1#1)
      ∧ Host.reduce IntOp.andi
        (andi (cmpi .sge a0 (broadcastInDim S4096x200 ![] Facts.bcast_S_S4096x200 (constantI S_ 32 0#32)))
          (cmpi .sle a0 (broadcastInDim S4096x200 ![] Facts.bcast_S_S4096x200 (constantI S_ 32 99999#32))))
        (constantI S_ 1 1#1) Facts.reducesTo_S4096x200_S_d0_1 Facts.h_S_ ValueIdx.ix0 = 1#1)
      ∧ Host.reduce IntOp.andi
        (andi (cmpi .sge a1 (broadcastInDim S4096x200 ![] Facts.bcast_S_S4096x200 (constantI S_ 32 0#32)))
          (cmpi .sle a1 (broadcastInDim S4096x200 ![] Facts.bcast_S_S4096x200 (constantI S_ 32 999#32))))
        (constantI S_ 1 1#1) Facts.reducesTo_S4096x200_S_d0_1 Facts.h_S_ ValueIdx.ix0 = 1#1) := by
  have e := congrFun h ValueIdx.ix0
  dsimp only [fn, fn_part1, fn_part2] at e
  simpa only [andi_apply_eq_one] using e

/-- Every id word is a row of the id table and every category word a row of the category table. -/
theorem ranges {F : FTy → Type} [FloatOps F] (a0 a1 : IVec S4096x200 32) (a2 : FVec F S100000x128 .f32)
    (a3 : FVec F S1000x128 .f32) (a4 : FVec F S256x512 .f32) (a5 a6 a7 : FVec F S512 .f32)
    (h : fn (F := F) a0 a1 a2 a3 a4 a5 a6 a7 = fun _ => 1#1) :
    (∀ i, (a0 i).toNat < 100000) ∧ (∀ i, (a1 i).toNat < 1000) := by
  obtain ⟨⟨-, h0⟩, h1⟩ := split a0 a1 a2 a3 a4 a5 a6 a7 h
  exact ⟨fun i => range_at a0 99999#32 99999 (by decide) h0 i, fun i => range_at a1 999#32 999 (by decide) h1 i⟩

/-- Every entry of every float array is a real. -/
theorem finite (a0 a1 : IVec S4096x200 32) (a2 : FVec Ideal S100000x128 .f32)
    (a3 : FVec Ideal S1000x128 .f32) (a4 : FVec Ideal S256x512 .f32) (a5 a6 a7 : FVec Ideal S512 .f32)
    (h : fn (F := Ideal) a0 a1 a2 a3 a4 a5 a6 a7 = fun _ => 1#1) :
    (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal)) := by
  obtain ⟨⟨⟨⟨⟨⟨⟨h2, h3⟩, h4⟩, h5⟩, h6⟩, h7⟩, -⟩, -⟩ := split a0 a1 a2 a3 a4 a5 a6 a7 h
  exact ⟨finite_at a2 _ _ h2, finite_at a3 _ _ h3, finite_at a4 _ _ h4, finite_at a5 _ _ h5, finite_at a6 _ _ h6,
    finite_at a7 _ _ h7⟩

end Cert.PreFacts

end
-- ==== Proof.AsmFrameI.lean ====
/-
  The kernel's frame claim from its run. The run ends with every unscoped buffer of every device at a final
  valuation; the eight argument buffers are unscoped and the final valuation has them at their launch contents; and
  the precondition bounds the two index arrays' words, which is what the run asks. So every execution terminates,
  nothing faulting, with the eight arguments unchanged.
-/
import proofs.«204770_g8065948582451_cont_9to1c4b_476_56_alg».proof.Defs
import proofs.«204770_g8065948582451_cont_9to1c4b_476_56_alg».proof.Proof.ScArgsI
import proofs.«204770_g8065948582451_cont_9to1c4b_476_56_alg».proof.Proof.PreFacts

noncomputable section

namespace Cert.KernelIdeal.Asm

open Idealize.ShloMosaic Idealize.SL.Sem
open Cert.KernelIdeal
open Idealize.ShloMosaic.SparseCore (T)
open Idealize.ShloMosaic.Pipeline (ucRefs)

variable {F : FTy → Type} [FloatOps F] [Cert.KernelIdeal.Facts]

/-- What the run gives, for a final valuation `Vf`: from any memory with zero counters whose index words are below
    their tables' lengths, every execution terminates with every unscoped buffer of every device at `Vf`. -/
abbrev RunTo (Vf : ((ℓ : Loc nD τ sig) → Buf (Elt F) ℓ) → Dev nD → Valuation τ sig (Elt F)) : Prop :=
  ∀ (m : (ℓ : Loc nD τ sig) → Buf (Elt F) ℓ) (ρ : Dev nD → PrngReg),
    (∀ (d : Dev nD) (i : S4096x200.Idx), ((m ((T d : Thread nD τ).loc main_arg0) : Vec F S4096x200 .i32) i).toNat < 100000) →
    (∀ (d : Dev nD) (i : S4096x200.Idx), ((m ((T d : Thread nD τ).loc main_arg1) : Vec F S4096x200 .i32) i).toNat < 1000) →
    θ_run (Cert.KernelIdeal.defs (F := F)) (Cert.KernelIdeal.threads (F := F)) ⟨m, fun _ => 0, ρ⟩
      (fun r => ∀ d : Dev nD, ∀ b ∈ ucRefs τ sig, r.2.mem (d, b) = Vf m d b)

/-- The final valuation has the eight argument buffers at their launch contents. -/
abbrev ArgsKept (Vf : ((ℓ : Loc nD τ sig) → Buf (Elt F) ℓ) → Dev nD → Valuation τ sig (Elt F)) : Prop :=
  ∀ (m : (ℓ : Loc nD τ sig) → Buf (Elt F) ℓ) (d : Dev nD),
    Vf m d (Proc.devRef .tc main_arg0) = m (d, Proc.devRef .tc main_arg0)
    ∧ Vf m d (Proc.devRef .tc main_arg1) = m (d, Proc.devRef .tc main_arg1)
    ∧ Vf m d (Proc.devRef .tc main_arg2) = m (d, Proc.devRef .tc main_arg2)
    ∧ Vf m d (Proc.devRef .tc main_arg3) = m (d, Proc.devRef .tc main_arg3)
    ∧ Vf m d (Proc.devRef .tc main_arg4) = m (d, Proc.devRef .tc main_arg4)
    ∧ Vf m d (Proc.devRef .tc main_arg5) = m (d, Proc.devRef .tc main_arg5)
    ∧ Vf m d (Proc.devRef .tc main_arg6) = m (d, Proc.devRef .tc main_arg6)
    ∧ Vf m d (Proc.devRef .tc main_arg7) = m (d, Proc.devRef .tc main_arg7)

/-- The precondition's bounds on the two index arrays, per device. -/
theorem bounds_of_pre [Cert.Pre_input_domain.Facts] (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    (∀ (d : Dev nD) (i : S4096x200.Idx), ((m ((T d : Thread nD τ).loc main_arg0) : Vec F S4096x200 .i32) i).toNat < 100000)
    ∧ (∀ (d : Dev nD) (i : S4096x200.Idx), ((m ((T d : Thread nD τ).loc main_arg1) : Vec F S4096x200 .i32) i).toNat < 1000) :=
  ⟨fun d => (Cert.PreFacts.ranges _ _ _ _ _ _ _ _ (hpre d)).1, fun d => (Cert.PreFacts.ranges _ _ _ _ _ _ _ _ (hpre d)).2⟩

/-- The frame: the run ends with the eight arguments unchanged. -/
theorem frame_of_run [Cert.Pre_input_domain.Facts]
    (Vf : ((ℓ : Loc nD τ sig) → Buf (Elt F) ℓ) → Dev nD → Valuation τ sig (Elt F)) (hrun : RunTo Vf) (hargs : ArgsKept Vf)
    (m : (ℓ : Loc nD τ sig) → Buf (Elt F) ℓ) (g : Dev nD → PrngReg)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    θ_run (Cert.KernelIdeal.defs (F := F)) (Cert.KernelIdeal.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c =>
    ⟨(h c _ (Cert.KernelIdeal.Sc.mem_uc main_arg0 rfl)).trans (hargs m c).1,
     (h c _ (Cert.KernelIdeal.Sc.mem_uc main_arg1 rfl)).trans (hargs m c).2.1,
     (h c _ (Cert.KernelIdeal.Sc.mem_uc main_arg2 rfl)).trans (hargs m c).2.2.1,
     (h c _ (Cert.KernelIdeal.Sc.mem_uc main_arg3 rfl)).trans (hargs m c).2.2.2.1,
     (h c _ (Cert.KernelIdeal.Sc.mem_uc main_arg4 rfl)).trans (hargs m c).2.2.2.2.1,
     (h c _ (Cert.KernelIdeal.Sc.mem_uc main_arg5 rfl)).trans (hargs m c).2.2.2.2.2.1,
     (h c _ (Cert.KernelIdeal.Sc.mem_uc main_arg6 rfl)).trans (hargs m c).2.2.2.2.2.2.1,
     (h c _ (Cert.KernelIdeal.Sc.mem_uc main_arg7 rfl)).trans (hargs m c).2.2.2.2.2.2.2⟩)
    (hrun m g (bounds_of_pre m hpre).1 (bounds_of_pre m hpre).2)

/-- The kernel's frame claim, from its run. -/
theorem frame_kernel [hPre_input_domain : Cert.Pre_input_domain.Facts]
    (Vf : ((ℓ : Loc nD τ sig) → Buf (Elt Ideal) ℓ) → Dev nD → Valuation τ sig (Elt Ideal)) (hrun : RunTo Vf) (hargs : ArgsKept Vf) :
    Cert.frame_KernelIdeal :=
  fun m g hpre => frame_of_run Vf hrun hargs m g hpre

end Cert.KernelIdeal.Asm

end
-- ==== Proof.Spec.lean ====
/-
  The function both programs compute, written once over the argument arrays.

  A token (a, l) has two index words, ids (a, l) and cids (a, l). Its 256 features are row ids (a, l) of the
  id table followed by row cids (a, l) of the category table. The linear layer sends the features e to
  x j = (∑ k, e k · W (k, j)) + b j, j < 512, and the result is the layer normalisation of x over its 512
  entries: with μ the mean of x and v the mean of (x - μ)², the entry j is
  (x j - μ) / √(v + ε) · γ j + β j  (the reference's spelling, `lnRef`), which the kernel spells
  (x j - μ) · (v + ε)^(-1/2) · γ j + β j  (`lnKer`). The two spellings agree wherever v + ε is a positive
  real, which is the case when x is finite.
-/
import Idealize.ShloMosaic.PureOps.Ideal
import Idealize.ShloMosaic.Lib.ValueIdx

noncomputable section

namespace Cert.Spec

open Idealize.ShloMosaic Idealize.ShloMosaic.ValueIdx

/-- An index word as a row of an `n`-row table: the word's unsigned value (below `n` for every word the
    precondition admits; reduced mod `n` only to be total). -/
def rowOf (n : Nat) (hn : 0 < n) (v : BitVec 32) : Fin n := ⟨v.toNat % n, Nat.mod_lt _ hn⟩

/-- One token's 256 features: its row of the id table, then its row of the category table. -/
def emb (idt : (⟨2, ![100000, 128]⟩ : Shape).Idx → EReal) (cat : (⟨2, ![1000, 128]⟩ : Shape).Idx → EReal)
    (i c : BitVec 32) (k : Fin 256) : EReal :=
  if h : k.val < 128 then idt (ix2 (rowOf 100000 (by norm_num) i) (⟨k.val, h⟩ : Fin 128))
  else cat (ix2 (rowOf 1000 (by norm_num) c) (⟨k.val - 128, by omega⟩ : Fin 128))

/-- The linear layer on one token's features. -/
def lin (e : Fin 256 → EReal) (W : (⟨2, ![256, 512]⟩ : Shape).Idx → EReal)
    (b : (⟨1, ![512]⟩ : Shape).Idx → EReal) (j : Fin 512) : EReal :=
  (∑ k : Fin 256, e k * W (ix2 k j)) + b (ix1 j)

/-- The float word both programs divide a row's sums by (512.0). -/
def c512 : EReal := Ideal.ofBits .f32 0x44000000#32

/-- The float word both programs add under the root (the f32 nearest 1e-12). -/
def eps : EReal := Ideal.ofBits .f32 0x2B8CBCCC#32

/-- The mean of a row of 512 entries. -/
def mean (x : Fin 512 → EReal) : EReal := Ideal.div (∑ j : Fin 512, x j) c512

/-- The variance of a row: the mean of the squared deviations from the mean. -/
def var (x : Fin 512 → EReal) : EReal := mean (fun j => (x j - mean x) * (x j - mean x))

/-- Layer normalisation of a row as the reference spells it: a quotient by the root. -/
def lnRef (x g bt : Fin 512 → EReal) (j : Fin 512) : EReal :=
  Ideal.div (x j - mean x) (Ideal.sqrt (var x + eps)) * g j + bt j

/-- Layer normalisation of a row as the kernel spells it: a product with the reciprocal root. -/
def lnKer (x g bt : Fin 512 → EReal) (j : Fin 512) : EReal :=
  (x j - mean x) * Ideal.rsqrt (var x + eps) * g j + bt j

/-- The whole result at token (a, l), entry j. -/
def Gat (ids cids : (⟨2, ![4096, 200]⟩ : Shape).Idx → BitVec 32)
    (idt : (⟨2, ![100000, 128]⟩ : Shape).Idx → EReal) (cat : (⟨2, ![1000, 128]⟩ : Shape).Idx → EReal)
    (W : (⟨2, ![256, 512]⟩ : Shape).Idx → EReal) (b g bt : (⟨1, ![512]⟩ : Shape).Idx → EReal)
    (a : Fin 4096) (l : Fin 200) (j : Fin 512) : EReal :=
  lnRef (lin (emb idt cat (ids (ix2 a l)) (cids (ix2 a l))) W b) (fun j => g (ix1 j)) (fun j => bt (ix1 j)) j

/-- The whole result array. -/
def G (ids cids : (⟨2, ![4096, 200]⟩ : Shape).Idx → BitVec 32)
    (idt : (⟨2, ![100000, 128]⟩ : Shape).Idx → EReal) (cat : (⟨2, ![1000, 128]⟩ : Shape).Idx → EReal)
    (W : (⟨2, ![256, 512]⟩ : Shape).Idx → EReal) (b g bt : (⟨1, ![512]⟩ : Shape).Idx → EReal) :
    (⟨3, ![4096, 200, 512]⟩ : Shape).Idx → EReal :=
  fun i => Gat ids cids idt cat W b g bt (i 0) (i 1) (i 2)

end Cert.Spec

end
-- ==== Proof.LnAlgebra.lean ====
/-
  The algebra of the specification. A row of reals has a real mean and a real, nonnegative variance; the word
  added under the root denotes a positive real, so the radicand v + ε is a positive real, and for a positive real p
  a quotient by √p is the product with the reciprocal root (√p)⁻¹: the two spellings of the layer normalisation
  agree on every real row, whatever extended reals the scale and the shift are. The linear layer of real features
  with real weights and a real bias is real, and a token's features are entries of the two tables.
-/
import proofs.«204770_g8065948582451_cont_9to1c4b_476_56_alg».proof.Proof.Spec

noncomputable section

namespace Cert.Spec

open Idealize.ShloMosaic Idealize.ShloMosaic.ValueIdx

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The divisor word denotes 512. -/
theorem c512_eq : c512 = ((512 : ℝ) : EReal) := by
  unfold c512
  simp [Ideal.ofBits, Ideal.ieee, -EReal.coe_mul]; norm_num

/-- The word added under the root denotes a positive real. -/
theorem eps_pos : ∃ e : ℝ, 0 < e ∧ eps = (e : EReal) := by
  refine ⟨9223372 * (2 : ℝ) ^ (-63 : ℤ), by positivity, ?_⟩
  unfold eps
  simp [Ideal.ofBits, Ideal.ieee, -EReal.coe_mul]

/-- The mean of a real row. -/
theorem mean_coe (x : Fin 512 → ℝ) : mean (fun j => (x j : EReal)) = (((∑ j, x j) / 512 : ℝ) : EReal) := by
  unfold mean
  rw [c512_eq, Ideal.div_coe (by norm_num), ← coe_sum, ← EReal.coe_mul]
  congr 1
  ring

/-- The variance of a real row is a nonnegative real. -/
theorem var_coe (x : Fin 512 → ℝ) : ∃ v : ℝ, 0 ≤ v ∧ var (fun j => (x j : EReal)) = (v : EReal) := by
  unfold var
  rw [mean_coe x]
  have e : (fun j => ((x j : EReal) - (((∑ j, x j) / 512 : ℝ) : EReal)) * ((x j : EReal) - (((∑ j, x j) / 512 : ℝ) : EReal)))
      = fun j => (((x j - (∑ j, x j) / 512) * (x j - (∑ j, x j) / 512) : ℝ) : EReal) := by
    funext j
    rw [← EReal.coe_sub, ← EReal.coe_mul]
  rw [e, mean_coe]
  exact ⟨_, div_nonneg (Finset.sum_nonneg fun j _ => mul_self_nonneg _) (by norm_num), rfl⟩

/-- For a positive real radicand, a quotient by the root is the product with the reciprocal root. -/
theorem div_sqrt_eq_mul_rsqrt (p : ℝ) (hp : 0 < p) (d : EReal) :
    Ideal.div d (Ideal.sqrt (p : EReal)) = d * Ideal.rsqrt (p : EReal) := by
  rw [Ideal.sqrt_coe, if_neg (not_lt.2 hp.le), Ideal.rsqrt_coe, if_neg (not_lt.2 hp.le), if_neg (ne_of_gt hp),
    Ideal.div_coe (ne_of_gt (Real.sqrt_pos.2 hp)), one_div]

/-- The linear layer of real features, with real weights and a real bias, is real. -/
theorem lin_real (e : Fin 256 → EReal) (W : (⟨2, ![256, 512]⟩ : Shape).Idx → EReal)
    (b : (⟨1, ![512]⟩ : Shape).Idx → EReal) (he : ∀ k, ∃ r : ℝ, e k = (r : EReal))
    (hW : ∀ i, ∃ r : ℝ, W i = (r : EReal)) (hb : ∀ i, ∃ r : ℝ, b i = (r : EReal)) (j : Fin 512) :
    ∃ r : ℝ, lin e W b j = (r : EReal) := by
  choose e' he' using he
  choose W' hW' using hW
  choose b' hb' using hb
  refine ⟨(∑ k : Fin 256, e' k * W' (ix2 k j)) + b' (ix1 j), ?_⟩
  unfold lin
  rw [EReal.coe_add, coe_sum, hb']
  congr 1
  refine Finset.sum_congr rfl fun k _ => ?_
  rw [he', hW', EReal.coe_mul]

/-- A token's features are entries of the tables: real when the tables are. -/
theorem emb_real (idt : (⟨2, ![100000, 128]⟩ : Shape).Idx → EReal) (cat : (⟨2, ![1000, 128]⟩ : Shape).Idx → EReal)
    (hidt : ∀ i, ∃ r : ℝ, idt i = (r : EReal)) (hcat : ∀ i, ∃ r : ℝ, cat i = (r : EReal)) (i c : BitVec 32)
    (k : Fin 256) : ∃ r : ℝ, emb idt cat i c k = (r : EReal) := by
  unfold emb
  split
  · exact hidt _
  · exact hcat _

/-- On a real row the two spellings of the layer normalisation agree. -/
theorem lnKer_eq_lnRef (x g bt : Fin 512 → EReal) (hx : ∀ j, ∃ r : ℝ, x j = (r : EReal)) (j : Fin 512) :
    lnKer x g bt j = lnRef x g bt j := by
  choose x' hx' using hx
  obtain rfl : x = fun j => (x' j : EReal) := funext hx'
  obtain ⟨v, hv, hvar⟩ := var_coe x'
  obtain ⟨e, he, heps⟩ := eps_pos
  have hp : var (fun j => (x' j : EReal)) + eps = ((v + e : ℝ) : EReal) := by rw [hvar, heps, EReal.coe_add]
  unfold lnKer lnRef
  rw [hp, div_sqrt_eq_mul_rsqrt (v + e) (by linarith)]

end Cert.Spec

end
-- ==== Proof.SpecK.lean ====
/-
  The specification with the layer normalisation in the kernel's spelling — the product with the reciprocal root
  in place of the quotient by the root — and its agreement with the specification proper wherever the tables,
  the weights and the bias are real: a token's features are then real, so is the linear layer's row, and on a
  real row the two spellings agree (the scale and the shift may be any extended reals).
-/
import proofs.«204770_g8065948582451_cont_9to1c4b_476_56_alg».proof.Proof.Spec
import proofs.«204770_g8065948582451_cont_9to1c4b_476_56_alg».proof.Proof.LnAlgebra

noncomputable section

namespace Cert.Spec

open Idealize.ShloMosaic Idealize.ShloMosaic.ValueIdx

/-- The whole result at token (a, l), entry j, in the kernel's spelling. -/
def GatK (ids cids : (⟨2, ![4096, 200]⟩ : Shape).Idx → BitVec 32)
    (idt : (⟨2, ![100000, 128]⟩ : Shape).Idx → EReal) (cat : (⟨2, ![1000, 128]⟩ : Shape).Idx → EReal)
    (W : (⟨2, ![256, 512]⟩ : Shape).Idx → EReal) (b g bt : (⟨1, ![512]⟩ : Shape).Idx → EReal)
    (a : Fin 4096) (l : Fin 200) (j : Fin 512) : EReal :=
  lnKer (lin (emb idt cat (ids (ix2 a l)) (cids (ix2 a l))) W b) (fun j => g (ix1 j)) (fun j => bt (ix1 j)) j

/-- The whole result array in the kernel's spelling. -/
def GK (ids cids : (⟨2, ![4096, 200]⟩ : Shape).Idx → BitVec 32)
    (idt : (⟨2, ![100000, 128]⟩ : Shape).Idx → EReal) (cat : (⟨2, ![1000, 128]⟩ : Shape).Idx → EReal)
    (W : (⟨2, ![256, 512]⟩ : Shape).Idx → EReal) (b g bt : (⟨1, ![512]⟩ : Shape).Idx → EReal) :
    (⟨3, ![4096, 200, 512]⟩ : Shape).Idx → EReal :=
  fun i => GatK ids cids idt cat W b g bt (i 0) (i 1) (i 2)

/-- At a token the two spellings agree when the tables, the weights and the bias are real. -/
theorem GatK_eq_Gat (ids cids : (⟨2, ![4096, 200]⟩ : Shape).Idx → BitVec 32)
    (idt : (⟨2, ![100000, 128]⟩ : Shape).Idx → EReal) (cat : (⟨2, ![1000, 128]⟩ : Shape).Idx → EReal)
    (W : (⟨2, ![256, 512]⟩ : Shape).Idx → EReal) (b g bt : (⟨1, ![512]⟩ : Shape).Idx → EReal)
    (hidt : ∀ i, ∃ r : ℝ, idt i = (r : EReal)) (hcat : ∀ i, ∃ r : ℝ, cat i = (r : EReal))
    (hW : ∀ i, ∃ r : ℝ, W i = (r : EReal)) (hb : ∀ i, ∃ r : ℝ, b i = (r : EReal))
    (a : Fin 4096) (l : Fin 200) (j : Fin 512) :
    GatK ids cids idt cat W b g bt a l j = Gat ids cids idt cat W b g bt a l j := by
  unfold GatK Gat
  exact lnKer_eq_lnRef _ _ _
    (fun k => lin_real _ W b (fun f => emb_real idt cat hidt hcat _ _ f) hW hb k) j

/-- The two arrays agree when the tables, the weights and the bias are real. -/
theorem GK_eq_G (ids cids : (⟨2, ![4096, 200]⟩ : Shape).Idx → BitVec 32)
    (idt : (⟨2, ![100000, 128]⟩ : Shape).Idx → EReal) (cat : (⟨2, ![1000, 128]⟩ : Shape).Idx → EReal)
    (W : (⟨2, ![256, 512]⟩ : Shape).Idx → EReal) (b g bt : (⟨1, ![512]⟩ : Shape).Idx → EReal)
    (hidt : ∀ i, ∃ r : ℝ, idt i = (r : EReal)) (hcat : ∀ i, ∃ r : ℝ, cat i = (r : EReal))
    (hW : ∀ i, ∃ r : ℝ, W i = (r : EReal)) (hb : ∀ i, ∃ r : ℝ, b i = (r : EReal)) :
    GK ids cids idt cat W b g bt = G ids cids idt cat W b g bt := by
  funext i
  exact GatK_eq_Gat ids cids idt cat W b g bt hidt hcat hW hb (i 0) (i 1) (i 2)

end Cert.Spec

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.LibSums.lean ====
/-
  Sums read at an index, at the extended reals, generic in the extents.

  * a vector sum over the last axis of a rank-3 block [a, b, c], read at (r, n), is the sum over d of the block at (r, n, d);
  * a vector sum over the last axis of a rank-2 block [a, b], read at r, is the sum over n of the block at (r, n);
  * the host's sum of a rank-3 array [a, b, c] over its axes 1 and 2 together, read at r, is the initial value plus the
    double sum over (n, d) of the array at (r, n, d): the indices that reduce to r are exactly those whose leading
    coordinate is r, and (n, d) ↦ (r, n, d) enumerates them once each.
-/
import Idealize.ShloMosaic.PureOps.Ideal.Laws
import Idealize.ShloMosaic.Lib.ValueIdx

noncomputable section

namespace Cert.LibSums

open Idealize.ShloMosaic Idealize.ShloMosaic.ValueIdx
open scoped BigOperators

/-- A vector sum over the last axis of a rank-3 block, read at `(r, n)`. -/
theorem sum_last3 {a b c : Nat} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (r : Fin a) (n : Fin b) :
    multiReduction .add [2] ⟨2, ![a, b]⟩ src acc h hφ hacc (ix2 r n) = ∑ d : Fin c, src (ix3 r n d) := by
  refine (Ideal.multiReduction_add_single src acc h hφ hacc (ix2 r n)).trans ?_
  refine Finset.sum_congr rfl fun d _ => congrArg src ?_
  funext x; apply Fin.ext
  match x with
  | ⟨0, _⟩ => rfl
  | ⟨1, _⟩ => rfl
  | ⟨2, _⟩ => rfl

/-- A vector sum over the last axis of a rank-2 block, read at `r`. -/
theorem sum_last2 {a b : Nat} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ n : Fin b, src (ix2 r n) := by
  refine (Ideal.multiReduction_add_single src acc h hφ hacc (ix1 r)).trans ?_
  refine Finset.sum_congr rfl fun n _ => congrArg src ?_
  funext x; apply Fin.ext
  match x with
  | ⟨0, _⟩ => rfl
  | ⟨1, _⟩ => rfl

/-- The host's sum of a rank-3 array over its axes 1 and 2 together, read at `r`. -/
theorem hostSum_axes12 {a b c : Nat} (h' : (⟨3, ![a, b, c]⟩ : Shape).ReducesTo [1, 2] ⟨1, ![a]⟩)
    (x : (⟨3, ![a, b, c]⟩ : Shape).Idx → EReal) (init : EReal) (r : Fin a) :
    Ideal.hostReduceAdd h' x init (ix1 r) = init + ∑ n : Fin b, ∑ d : Fin c, x (ix3 r n d) := by
  unfold Ideal.hostReduceAdd
  refine congrArg (init + ·) ?_
  have hd : ∀ i : (⟨3, ![a, b, c]⟩ : Shape).Idx, h'.drop i = ix1 r ↔ i 0 = r := by
    intro i
    have e : (h'.drop i 0 : Nat) = i 0 := rfl
    constructor
    · intro hh
      apply Fin.ext
      rw [← e, hh]
      rfl
    · intro hh
      funext y
      apply Fin.ext
      match y with
      | ⟨0, _⟩ => exact e.trans (congrArg Fin.val hh)
  rw [← Finset.sum_product']
  refine Finset.sum_nbij' (fun i => ((i 1 : Fin b), (i 2 : Fin c))) (fun p => ix3 r p.1 p.2) ?_ ?_ ?_ ?_ ?_
  · intro i _; exact Finset.mem_product.2 ⟨Finset.mem_univ _, Finset.mem_univ _⟩
  · intro p _
    exact Finset.mem_filter.2 ⟨Finset.mem_univ _, (hd _).2 rfl⟩
  · intro i hi
    have h0 : i 0 = r := (hd i).1 (Finset.mem_filter.1 hi).2
    funext y
    match y with
    | ⟨0, _⟩ => exact h0.symm
    | ⟨1, _⟩ => rfl
    | ⟨2, _⟩ => rfl
  · intro p _; rfl
  · intro i hi
    have h0 : i 0 = r := (hd i).1 (Finset.mem_filter.1 hi).2
    refine congrArg x ?_
    funext y
    match y with
    | ⟨0, _⟩ => exact h0
    | ⟨1, _⟩ => rfl
    | ⟨2, _⟩ => rfl

end Cert.LibSums

end
-- ==== Proof.LibMinRead.lean ====
/-
  Minimum reductions at the exact (extended-real) instance, read at an index by their lower bounds, and the index
  lemmas that go with them.  A minimum-reduction over one axis is a fold of `min` from the accumulator's value over that
  axis's coordinates; from the f32 pattern of +∞ (the top of the extended reals) the numbers below the fold are exactly
  the numbers below every folded entry, which is the form in which minima over differently cut index sets are compared.
  Also: the index a single-axis reduction of an `[m, n]` block reads (row or column put back), and a vector `[a]` cast
  to a column `[a, 1]`.  Generic in the extents.
-/
import Idealize.ShloMosaic.Lib.ValueIdx
import Idealize.ShloMosaic.Lib.Pipeline.Value
import Idealize.ShloMosaic.PureOps.Ideal.Laws

noncomputable section

namespace Idealize.ShloMosaic.MinRead

open Idealize.ShloMosaic Idealize.ShloMosaic.ValueIdx
open scoped BigOperators

/-- The f32 pattern of +∞ is the top of the extended reals. -/
theorem pinf_eq_top : Ideal.ofBits .f32 0x7F800000#32 = (⊤ : EReal) := by
  simp [Ideal.ofBits, Ideal.ieee]

/-- A minimum-reduction over ONE axis, at the exact instance: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Below a fold of `min` over every coordinate from +∞: below every entry. -/
theorem le_fold_min_top {ι : Type} [Fintype ι] (f : ι → EReal) (z : EReal) :
    z ≤ (Finset.univ : Finset ι).fold min (Ideal.ofBits .f32 0x7F800000#32) f ↔ ∀ i, z ≤ f i := by
  rw [Finset.le_fold_min, pinf_eq_top]
  exact ⟨fun h i => h.2 i (Finset.mem_univ i), fun h => ⟨le_top, fun i _ => h i⟩⟩

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A reduced index `r` of an `[m, n]` block summed along its rows, with the column `k` put back, is `(r, k)`. -/
theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A reduced index `q` of an `[m, n]` block summed down its columns, with the row `k` put back, is `(k, q)`. -/
theorem lift0_ix2 {m n : Nat} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

end Idealize.ShloMosaic.MinRead

end
-- ==== Proof.TcPayload.lean ====
/-
  The value the dense body stores, read at an index. The body multiplies a 4096×256 block of features by the
  256×512 weights into a zero accumulator, adds the bias row, and normalises each row of the 4096×512 result x:
  the row sum divided by 512 is the mean μ, kept as a column; d = x - μ; the row sum of d·d divided by 512, plus ε,
  is the radicand; its reciprocal root, a column, multiplies d; then the scale row multiplies and the shift row is
  added. At (r, j) that is (x r j - μ r) · (v r + ε)^(-1/2) · γ j + β j with x r j = (∑ k, a r k · W k j) + b j.
-/
import proofs.«204770_g8065948582451_cont_9to1c4b_476_56_alg».proof.Proof.Gen.KernelIdeal.Skeleton
import proofs.«204770_g8065948582451_cont_9to1c4b_476_56_alg».proof.Proof.Spec
import proofs.«204770_g8065948582451_cont_9to1c4b_476_56_alg».proof.Proof.LibMatmul
import proofs.«204770_g8065948582451_cont_9to1c4b_476_56_alg».proof.Proof.LibSums
import proofs.«204770_g8065948582451_cont_9to1c4b_476_56_alg».proof.Proof.LibMinRead
import Idealize.ShloMosaic.Lib.ValueLayout

noncomputable section

namespace Cert.KernelIdeal.TcPayload

open Idealize.ShloMosaic Idealize.ShloMosaic.ValueIdx
open Cert.KernelIdeal Cert.KernelIdeal.Facts₀ Cert.KernelIdeal.Facts

/-- The linear layer's block: the product into zeros plus the bias row. -/
def lin (v0 : FVec Ideal S4096x256 .f32) (v2 : FVec Ideal S256x512 .f32) (v4 : FVec Ideal S1x512 .f32) :
    FVec Ideal S4096x512 .f32 :=
  addf (matmul (φ₁ := .f32) (φ₂ := .f32) dot_S4096x256_S256x512_S4096x512_1_0_0_1_n_n none
      (shapeCast S4096x256 v0 shapeCasts_S4096x256_S4096x256) v2
      (constant (F := Ideal) S4096x512 .f32 0x00000000#32))
    (broadcastTo S4096x512 (shapeCast S1x512 v4 shapeCasts_S1x512_S1x512) broadcasts_S1x512_S4096x512)

/-- The row sums of a block divided by 512, as a column. -/
def rowMean (x : FVec Ideal S4096x512 .f32) : FVec Ideal S4096x1 .f32 :=
  divf (shapeCast S4096x1 (multiReduction (F := Ideal) .add [1] S4096 x 0x00000000#32 reduces_S4096x512_S4096 (.inl rfl) rfl)
      shapeCasts_S4096_S4096x1)
    (broadcast S4096x1 (Scalar.ofBits (F := Ideal) .f32 0x44000000#32))

/-- The deviations of a block from its row means. -/
def dev (x : FVec Ideal S4096x512 .f32) : FVec Ideal S4096x512 .f32 :=
  subf x (broadcastTo S4096x512 (rowMean x) broadcasts_S4096x1_S4096x512)

/-- The reciprocal root of the row variances plus ε, as a column. -/
def rstd (x : FVec Ideal S4096x512 .f32) : FVec Ideal S4096x1 .f32 :=
  rsqrt (addf (rowMean (mulf (dev x) (dev x))) (broadcast S4096x1 (Scalar.ofBits (F := Ideal) .f32 0x2B8CBCCC#32)))

/-- The stored block is the normalised linear layer's block, scaled and shifted. -/
theorem pay_eq (v0 : Vec Ideal S4096x256 .f32) (v2 : Vec Ideal S256x512 .f32) (v4 v24 v28 : Vec Ideal S1x512 .f32) :
    Gen.k8_pay1 (F := Ideal) v0 v2 v4 v24 v28
      = addf (mulf (mulf (dev (lin v0 v2 v4)) (broadcastTo S4096x512 (rstd (lin v0 v2 v4)) broadcasts_S4096x1_S4096x512))
            (broadcastTo S4096x512 (shapeCast S1x512 v24 shapeCasts_S1x512_S1x512) broadcasts_S1x512_S4096x512))
          (broadcastTo S4096x512 (shapeCast S1x512 v28 shapeCasts_S1x512_S1x512) broadcasts_S1x512_S4096x512) := rfl

/-- A row [1, 512] broadcast down 4096 rows reads, at (r, j), the row at j. -/
theorem row_apply (v : FVec Ideal S1x512 .f32) (r : Fin 4096) (j : Fin 512) :
    broadcastTo S4096x512 (shapeCast S1x512 v shapeCasts_S1x512_S1x512) broadcasts_S1x512_S4096x512 (ix2 r j)
      = v (ix2 0 j) :=
  (broadcastTo_1b_ab_apply _ _ r j).trans (congrFun (shapeCast_self v _) _)

/-- A column [4096, 1] broadcast across 512 lanes reads, at (r, j), the column at r. -/
theorem col_apply (c : FVec Ideal S4096x1 .f32) (r : Fin 4096) (j : Fin 512) :
    broadcastTo S4096x512 c broadcasts_S4096x1_S4096x512 (ix2 r j) = c (ix2 r 0) :=
  MatmulRead.broadcastTo_a1_ab_apply c _ r j

/-- The row mean at row r is the row's sum divided by 512. -/
theorem rowMean_apply (x : FVec Ideal S4096x512 .f32) (r : Fin 4096) (u : Fin 1) :
    rowMean x (ix2 r u) = Ideal.div (∑ n : Fin 512, x (ix2 r n)) Cert.Spec.c512 := by
  have e1 : shapeCast S4096x1 (multiReduction (F := Ideal) .add [1] S4096 x 0x00000000#32 reduces_S4096x512_S4096 (.inl rfl) rfl)
      shapeCasts_S4096_S4096x1 (ix2 r u)
      = multiReduction (F := Ideal) .add [1] S4096 x 0x00000000#32 reduces_S4096x512_S4096 (.inl rfl) rfl (ix1 r) :=
    MinRead.shapeCast_a_a1_apply _ _ r u
  have e2 : multiReduction (F := Ideal) .add [1] S4096 x 0x00000000#32 reduces_S4096x512_S4096 (.inl rfl) rfl (ix1 r)
      = ∑ n : Fin 512, x (ix2 r n) :=
    Cert.LibSums.sum_last2 x _ _ _ _ r
  exact congrArg (fun t => Ideal.div t (Ideal.ofBits .f32 0x44000000#32)) (e1.trans e2)

/-- The linear layer's block at (r, j). -/
theorem lin_apply (v0 : FVec Ideal S4096x256 .f32) (v2 : FVec Ideal S256x512 .f32) (v4 : FVec Ideal S1x512 .f32)
    (r : Fin 4096) (j : Fin 512) :
    lin v0 v2 v4 (ix2 r j) = (∑ k : Fin 256, v0 (ix2 r k) * v2 (ix2 k j)) + v4 (ix2 0 j) := by
  have hs : shapeCast S4096x256 v0 shapeCasts_S4096x256_S4096x256 = v0 := shapeCast_self v0 _
  have hm : matmul (φ₁ := .f32) (φ₂ := .f32) dot_S4096x256_S256x512_S4096x512_1_0_0_1_n_n none v0 v2
        (constant (F := Ideal) S4096x512 .f32 0x00000000#32) (ix2 r j)
      = ∑ k : Fin 256, v0 (ix2 r k) * v2 (ix2 k j) :=
    MatmulRead.matmul_zero_apply (φ₁ := .f32) (φ₂ := .f32) [1] [0] [0] [1] [] [] rfl rfl rfl rfl rfl rfl
      dot_S4096x256_S256x512_S4096x512_1_0_0_1_n_n_wf none v0 v2 (ix2 r j)
  unfold lin
  rw [hs]
  exact congrArg₂ (· + ·) hm (row_apply v4 r j)

/-- The deviations at (r, j). -/
theorem dev_apply (x : FVec Ideal S4096x512 .f32) (r : Fin 4096) (j : Fin 512) :
    dev x (ix2 r j) = x (ix2 r j) - Cert.Spec.mean (fun n => x (ix2 r n)) :=
  congrArg (x (ix2 r j) - ·) ((col_apply (rowMean x) r j).trans (rowMean_apply x r 0))

/-- The reciprocal root at row r. -/
theorem rstd_apply (x : FVec Ideal S4096x512 .f32) (r : Fin 4096) (u : Fin 1) :
    rstd x (ix2 r u) = Ideal.rsqrt (Cert.Spec.var (fun n => x (ix2 r n)) + Cert.Spec.eps) := by
  have e : rowMean (mulf (dev x) (dev x)) (ix2 r u) = Cert.Spec.var (fun n => x (ix2 r n)) := by
    rw [rowMean_apply]
    unfold Cert.Spec.var Cert.Spec.mean
    refine congrArg (fun t => Ideal.div t Cert.Spec.c512) (Finset.sum_congr rfl fun n _ => ?_)
    show dev x (ix2 r n) * dev x (ix2 r n) = _
    rw [dev_apply]
    rfl
  exact congrArg (fun t => Ideal.rsqrt (t + Ideal.ofBits .f32 0x2B8CBCCC#32)) e

/-- The stored block at (r, j): the kernel's spelling of the layer normalisation of the linear layer's row r. -/
theorem pay_apply (v0 : Vec Ideal S4096x256 .f32) (v2 : Vec Ideal S256x512 .f32) (v4 v24 v28 : Vec Ideal S1x512 .f32)
    (r : Fin 4096) (j : Fin 512) :
    Gen.k8_pay1 (F := Ideal) v0 v2 v4 v24 v28 (ix2 r j)
      = Cert.Spec.lnKer (fun j' => (∑ k : Fin 256, v0 (ix2 r k) * v2 (ix2 k j')) + v4 (ix2 0 j'))
          (fun j' => v24 (ix2 0 j')) (fun j' => v28 (ix2 0 j')) j := by
  have hx : (fun n => lin v0 v2 v4 (ix2 r n)) = fun j' => (∑ k : Fin 256, v0 (ix2 r k) * v2 (ix2 k j')) + v4 (ix2 0 j') :=
    funext fun n => lin_apply v0 v2 v4 r n
  rw [pay_eq]
  show dev (lin v0 v2 v4) (ix2 r j) * broadcastTo S4096x512 (rstd (lin v0 v2 v4)) broadcasts_S4096x1_S4096x512 (ix2 r j)
      * broadcastTo S4096x512 (shapeCast S1x512 v24 shapeCasts_S1x512_S1x512) broadcasts_S1x512_S4096x512 (ix2 r j)
      + broadcastTo S4096x512 (shapeCast S1x512 v28 shapeCasts_S1x512_S1x512) broadcasts_S1x512_S4096x512 (ix2 r j) = _
  rw [row_apply, row_apply, col_apply, dev_apply, rstd_apply, hx, lin_apply]
  rfl

theorem pay9_eq : @Gen.k9_pay1 = @Gen.k8_pay1 := rfl
theorem pay10_eq : @Gen.k10_pay1 = @Gen.k8_pay1 := rfl
theorem pay11_eq : @Gen.k11_pay1 = @Gen.k8_pay1 := rfl
theorem pay12_eq : @Gen.k12_pay1 = @Gen.k8_pay1 := rfl
theorem pay13_eq : @Gen.k13_pay1 = @Gen.k8_pay1 := rfl
theorem pay14_eq : @Gen.k14_pay1 = @Gen.k8_pay1 := rfl
theorem pay15_eq : @Gen.k15_pay1 = @Gen.k8_pay1 := rfl

end Cert.KernelIdeal.TcPayload

end
-- ==== Proof.KerValue.lean ====
/-
  The kernel's value, assembled. After the eight gather calls the q-th gathered array holds, at row r, the 256
  features of token ((q * 102400 + r) / 200, (q * 102400 + r) % 200): the call's index arrays are row q of the
  [8, 102400] reshapes of the argument arrays, and a gathered row is the id table's row then the category table's.
  The eight dense regions write the [819200, 512] array block by block — block 25 p + i, of 4096 rows, from rows
  [4096 i, 4096 i + 4096) of the p-th gathered array — with the layer normalisation (in the kernel's spelling) of
  the linear layer of each row; row 102400 p + 4096 i + rr of that array is token (a, l) with a * 200 + l that row
  number, so its reshape to [4096, 200, 512] is the specification's array in the kernel's spelling. The bias, scale
  and shift rows the regions read are the [1, 512] reshapes made before the first call, which no later operation and
  no call's result touches; likewise the weights.
-/
import proofs.«204770_g8065948582451_cont_9to1c4b_476_56_alg».proof.Proof.ScValsI
import proofs.«204770_g8065948582451_cont_9to1c4b_476_56_alg».proof.Proof.ScArgsI
import proofs.«204770_g8065948582451_cont_9to1c4b_476_56_alg».proof.Proof.SpecK
import proofs.«204770_g8065948582451_cont_9to1c4b_476_56_alg».proof.Proof.TcPayload

noncomputable section

open scoped BigOperators

namespace Cert.KernelIdeal.Sc

open Cert.KernelIdeal Cert.KernelIdeal.Gen

open Idealize.ShloMosaic Idealize.ShloMosaic.ValueIdx Idealize.ShloMosaic.StableHlo
open Idealize.ShloMosaic.SparseCore (S V T)
open Idealize.SL.Sem

/-! ## The rows the dense regions read: made before the first call, never touched again -/

section Rows

variable {F : FTy → Type} [FloatOps F]

/-- A vector of 512 entries as a [1, 512] row. -/
def to1x512 (x : Vec F S512 .f32) : Vec F S1x512 .f32 := shapeCast S1x512 x shapeCasts_S512_S1x512

/-- The row at (0, j) is the vector at j. -/
theorem to1x512_at (x : Vec F S512 .f32) (j : Fin 512) : to1x512 x (ix2 (0 : Fin 1) j) = x (ix1 j) := by
  unfold to1x512
  rw [shapeCast_apply x _ (ix2 (0 : Fin 1) j) (ix1 j) (by
    rw [Shape.rowMajor_val_two, Shape.rowMajor_val_one]
    show j.val = 0 * 512 + j.val
    omega)]

variable (m : (ℓ : Loc nD τ sig) → Buf (Elt F) ℓ)

theorem pre0_v2 (d : Dev nD) : Vpre0 m d (Proc.devRef .tc main_v2) = to1x512 (m ((T d : Thread nD τ).loc main_arg5)) := by
  unfold Vpre0
  after_results
  rfl

theorem pre0_v3 (d : Dev nD) : Vpre0 m d (Proc.devRef .tc main_v3) = to1x512 (m ((T d : Thread nD τ).loc main_arg6)) := by
  unfold Vpre0
  after_results
  rfl

theorem pre0_v4 (d : Dev nD) : Vpre0 m d (Proc.devRef .tc main_v4) = to1x512 (m ((T d : Thread nD τ).loc main_arg7)) := by
  unfold Vpre0
  after_results
  rfl

theorem post0_v2 (d : Dev nD) : Vpost0 m d (Proc.devRef .tc main_v2) = to1x512 (m ((T d : Thread nD τ).loc main_arg5)) := by
  unfold Vpost0
  rw [Function.update_of_ne (devRef_ne_of_ne (by decide)), pre0_v2]

theorem post0_v3 (d : Dev nD) : Vpost0 m d (Proc.devRef .tc main_v3) = to1x512 (m ((T d : Thread nD τ).loc main_arg6)) := by
  unfold Vpost0
  rw [Function.update_of_ne (devRef_ne_of_ne (by decide)), pre0_v3]

theorem post0_v4 (d : Dev nD) : Vpost0 m d (Proc.devRef .tc main_v4) = to1x512 (m ((T d : Thread nD τ).loc main_arg7)) := by
  unfold Vpost0
  rw [Function.update_of_ne (devRef_ne_of_ne (by decide)), pre0_v4]

theorem hops1_v2 (W : Valuation τ sig (Elt F)) : after hops1 W (Proc.devRef .tc main_v2) = W (Proc.devRef .tc main_v2) := by
  after_results

theorem pre1_v2 (d : Dev nD) : Vpre1 m d (Proc.devRef .tc main_v2) = to1x512 (m ((T d : Thread nD τ).loc main_arg5)) := by
  unfold Vpre1
  rw [hops1_v2, post0_v2]

theorem post1_v2 (d : Dev nD) : Vpost1 m d (Proc.devRef .tc main_v2) = to1x512 (m ((T d : Thread nD τ).loc main_arg5)) := by
  unfold Vpost1
  rw [Function.update_of_ne (devRef_ne_of_ne (by decide)), pre1_v2]

theorem hops1_v3 (W : Valuation τ sig (Elt F)) : after hops1 W (Proc.devRef .tc main_v3) = W (Proc.devRef .tc main_v3) := by
  after_results

theorem pre1_v3 (d : Dev nD) : Vpre1 m d (Proc.devRef .tc main_v3) = to1x512 (m ((T d : Thread nD τ).loc main_arg6)) := by
  unfold Vpre1
  rw [hops1_v3, post0_v3]

theorem post1_v3 (d : Dev nD) : Vpost1 m d (Proc.devRef .tc main_v3) = to1x512 (m ((T d : Thread nD τ).loc main_arg6)) := by
  unfold Vpost1
  rw [Function.update_of_ne (devRef_ne_of_ne (by decide)), pre1_v3]

theorem hops1_v4 (W : Valuation τ sig (Elt F)) : after hops1 W (Proc.devRef .tc main_v4) = W (Proc.devRef .tc main_v4) := by
  after_results

theorem pre1_v4 (d : Dev nD) : Vpre1 m d (Proc.devRef .tc main_v4) = to1x512 (m ((T d : Thread nD τ).loc main_arg7)) := by
  unfold Vpre1
  rw [hops1_v4, post0_v4]

theorem post1_v4 (d : Dev nD) : Vpost1 m d (Proc.devRef .tc main_v4) = to1x512 (m ((T d : Thread nD τ).loc main_arg7)) := by
  unfold Vpost1
  rw [Function.update_of_ne (devRef_ne_of_ne (by decide)), pre1_v4]

theorem hops2_v2 (W : Valuation τ sig (Elt F)) : after hops2 W (Proc.devRef .tc main_v2) = W (Proc.devRef .tc main_v2) := by
  after_results

theorem pre2_v2 (d : Dev nD) : Vpre2 m d (Proc.devRef .tc main_v2) = to1x512 (m ((T d : Thread nD τ).loc main_arg5)) := by
  unfold Vpre2
  rw [hops2_v2, post1_v2]

theorem post2_v2 (d : Dev nD) : Vpost2 m d (Proc.devRef .tc main_v2) = to1x512 (m ((T d : Thread nD τ).loc main_arg5)) := by
  unfold Vpost2
  rw [Function.update_of_ne (devRef_ne_of_ne (by decide)), pre2_v2]

theorem hops2_v3 (W : Valuation τ sig (Elt F)) : after hops2 W (Proc.devRef .tc main_v3) = W (Proc.devRef .tc main_v3) := by
  after_results

theorem pre2_v3 (d : Dev nD) : Vpre2 m d (Proc.devRef .tc main_v3) = to1x512 (m ((T d : Thread nD τ).loc main_arg6)) := by
  unfold Vpre2
  rw [hops2_v3, post1_v3]

theorem post2_v3 (d : Dev nD) : Vpost2 m d (Proc.devRef .tc main_v3) = to1x512 (m ((T d : Thread nD τ).loc main_arg6)) := by
  unfold Vpost2
  rw [Function.update_of_ne (devRef_ne_of_ne (by decide)), pre2_v3]

theorem hops2_v4 (W : Valuation τ sig (Elt F)) : after hops2 W (Proc.devRef .tc main_v4) = W (Proc.devRef .tc main_v4) := by
  after_results

theorem pre2_v4 (d : Dev nD) : Vpre2 m d (Proc.devRef .tc main_v4) = to1x512 (m ((T d : Thread nD τ).loc main_arg7)) := by
  unfold Vpre2
  rw [hops2_v4, post1_v4]

theorem post2_v4 (d : Dev nD) : Vpost2 m d (Proc.devRef .tc main_v4) = to1x512 (m ((T d : Thread nD τ).loc main_arg7)) := by
  unfold Vpost2
  rw [Function.update_of_ne (devRef_ne_of_ne (by decide)), pre2_v4]

theorem hops3_v2 (W : Valuation τ sig (Elt F)) : after hops3 W (Proc.devRef .tc main_v2) = W (Proc.devRef .tc main_v2) := by
  after_results

theorem pre3_v2 (d : Dev nD) : Vpre3 m d (Proc.devRef .tc main_v2) = to1x512 (m ((T d : Thread nD τ).loc main_arg5)) := by
  unfold Vpre3
  rw [hops3_v2, post2_v2]

theorem post3_v2 (d : Dev nD) : Vpost3 m d (Proc.devRef .tc main_v2) = to1x512 (m ((T d : Thread nD τ).loc main_arg5)) := by
  unfold Vpost3
  rw [Function.update_of_ne (devRef_ne_of_ne (by decide)), pre3_v2]

theorem hops3_v3 (W : Valuation τ sig (Elt F)) : after hops3 W (Proc.devRef .tc main_v3) = W (Proc.devRef .tc main_v3) := by
  after_results

theorem pre3_v3 (d : Dev nD) : Vpre3 m d (Proc.devRef .tc main_v3) = to1x512 (m ((T d : Thread nD τ).loc main_arg6)) := by
  unfold Vpre3
  rw [hops3_v3, post2_v3]

theorem post3_v3 (d : Dev nD) : Vpost3 m d (Proc.devRef .tc main_v3) = to1x512 (m ((T d : Thread nD τ).loc main_arg6)) := by
  unfold Vpost3
  rw [Function.update_of_ne (devRef_ne_of_ne (by decide)), pre3_v3]

theorem hops3_v4 (W : Valuation τ sig (Elt F)) : after hops3 W (Proc.devRef .tc main_v4) = W (Proc.devRef .tc main_v4) := by
  after_results

theorem pre3_v4 (d : Dev nD) : Vpre3 m d (Proc.devRef .tc main_v4) = to1x512 (m ((T d : Thread nD τ).loc main_arg7)) := by
  unfold Vpre3
  rw [hops3_v4, post2_v4]

theorem post3_v4 (d : Dev nD) : Vpost3 m d (Proc.devRef .tc main_v4) = to1x512 (m ((T d : Thread nD τ).loc main_arg7)) := by
  unfold Vpost3
  rw [Function.update_of_ne (devRef_ne_of_ne (by decide)), pre3_v4]

theorem hops4_v2 (W : Valuation τ sig (Elt F)) : after hops4 W (Proc.devRef .tc main_v2) = W (Proc.devRef .tc main_v2) := by
  after_results

theorem pre4_v2 (d : Dev nD) : Vpre4 m d (Proc.devRef .tc main_v2) = to1x512 (m ((T d : Thread nD τ).loc main_arg5)) := by
  unfold Vpre4
  rw [hops4_v2, post3_v2]

theorem post4_v2 (d : Dev nD) : Vpost4 m d (Proc.devRef .tc main_v2) = to1x512 (m ((T d : Thread nD τ).loc main_arg5)) := by
  unfold Vpost4
  rw [Function.update_of_ne (devRef_ne_of_ne (by decide)), pre4_v2]

theorem hops4_v3 (W : Valuation τ sig (Elt F)) : after hops4 W (Proc.devRef .tc main_v3) = W (Proc.devRef .tc main_v3) := by
  after_results

theorem pre4_v3 (d : Dev nD) : Vpre4 m d (Proc.devRef .tc main_v3) = to1x512 (m ((T d : Thread nD τ).loc main_arg6)) := by
  unfold Vpre4
  rw [hops4_v3, post3_v3]

theorem post4_v3 (d : Dev nD) : Vpost4 m d (Proc.devRef .tc main_v3) = to1x512 (m ((T d : Thread nD τ).loc main_arg6)) := by
  unfold Vpost4
  rw [Function.update_of_ne (devRef_ne_of_ne (by decide)), pre4_v3]

theorem hops4_v4 (W : Valuation τ sig (Elt F)) : after hops4 W (Proc.devRef .tc main_v4) = W (Proc.devRef .tc main_v4) := by
  after_results

theorem pre4_v4 (d : Dev nD) : Vpre4 m d (Proc.devRef .tc main_v4) = to1x512 (m ((T d : Thread nD τ).loc main_arg7)) := by
  unfold Vpre4
  rw [hops4_v4, post3_v4]

theorem post4_v4 (d : Dev nD) : Vpost4 m d (Proc.devRef .tc main_v4) = to1x512 (m ((T d : Thread nD τ).loc main_arg7)) := by
  unfold Vpost4
  rw [Function.update_of_ne (devRef_ne_of_ne (by decide)), pre4_v4]

theorem hops5_v2 (W : Valuation τ sig (Elt F)) : after hops5 W (Proc.devRef .tc main_v2) = W (Proc.devRef .tc main_v2) := by
  after_results

theorem pre5_v2 (d : Dev nD) : Vpre5 m d (Proc.devRef .tc main_v2) = to1x512 (m ((T d : Thread nD τ).loc main_arg5)) := by
  unfold Vpre5
  rw [hops5_v2, post4_v2]

theorem post5_v2 (d : Dev nD) : Vpost5 m d (Proc.devRef .tc main_v2) = to1x512 (m ((T d : Thread nD τ).loc main_arg5)) := by
  unfold Vpost5
  rw [Function.update_of_ne (devRef_ne_of_ne (by decide)), pre5_v2]

theorem hops5_v3 (W : Valuation τ sig (Elt F)) : after hops5 W (Proc.devRef .tc main_v3) = W (Proc.devRef .tc main_v3) := by
  after_results

theorem pre5_v3 (d : Dev nD) : Vpre5 m d (Proc.devRef .tc main_v3) = to1x512 (m ((T d : Thread nD τ).loc main_arg6)) := by
  unfold Vpre5
  rw [hops5_v3, post4_v3]

theorem post5_v3 (d : Dev nD) : Vpost5 m d (Proc.devRef .tc main_v3) = to1x512 (m ((T d : Thread nD τ).loc main_arg6)) := by
  unfold Vpost5
  rw [Function.update_of_ne (devRef_ne_of_ne (by decide)), pre5_v3]

theorem hops5_v4 (W : Valuation τ sig (Elt F)) : after hops5 W (Proc.devRef .tc main_v4) = W (Proc.devRef .tc main_v4) := by
  after_results

theorem pre5_v4 (d : Dev nD) : Vpre5 m d (Proc.devRef .tc main_v4) = to1x512 (m ((T d : Thread nD τ).loc main_arg7)) := by
  unfold Vpre5
  rw [hops5_v4, post4_v4]

theorem post5_v4 (d : Dev nD) : Vpost5 m d (Proc.devRef .tc main_v4) = to1x512 (m ((T d : Thread nD τ).loc main_arg7)) := by
  unfold Vpost5
  rw [Function.update_of_ne (devRef_ne_of_ne (by decide)), pre5_v4]

theorem hops6_v2 (W : Valuation τ sig (Elt F)) : after hops6 W (Proc.devRef .tc main_v2) = W (Proc.devRef .tc main_v2) := by
  after_results

theorem pre6_v2 (d : Dev nD) : Vpre6 m d (Proc.devRef .tc main_v2) = to1x512 (m ((T d : Thread nD τ).loc main_arg5)) := by
  unfold Vpre6
  rw [hops6_v2, post5_v2]

theorem post6_v2 (d : Dev nD) : Vpost6 m d (Proc.devRef .tc main_v2) = to1x512 (m ((T d : Thread nD τ).loc main_arg5)) := by
  unfold Vpost6
  rw [Function.update_of_ne (devRef_ne_of_ne (by decide)), pre6_v2]

theorem hops6_v3 (W : Valuation τ sig (Elt F)) : after hops6 W (Proc.devRef .tc main_v3) = W (Proc.devRef .tc main_v3) := by
  after_results

theorem pre6_v3 (d : Dev nD) : Vpre6 m d (Proc.devRef .tc main_v3) = to1x512 (m ((T d : Thread nD τ).loc main_arg6)) := by
  unfold Vpre6
  rw [hops6_v3, post5_v3]

theorem post6_v3 (d : Dev nD) : Vpost6 m d (Proc.devRef .tc main_v3) = to1x512 (m ((T d : Thread nD τ).loc main_arg6)) := by
  unfold Vpost6
  rw [Function.update_of_ne (devRef_ne_of_ne (by decide)), pre6_v3]

theorem hops6_v4 (W : Valuation τ sig (Elt F)) : after hops6 W (Proc.devRef .tc main_v4) = W (Proc.devRef .tc main_v4) := by
  after_results

theorem pre6_v4 (d : Dev nD) : Vpre6 m d (Proc.devRef .tc main_v4) = to1x512 (m ((T d : Thread nD τ).loc main_arg7)) := by
  unfold Vpre6
  rw [hops6_v4, post5_v4]

theorem post6_v4 (d : Dev nD) : Vpost6 m d (Proc.devRef .tc main_v4) = to1x512 (m ((T d : Thread nD τ).loc main_arg7)) := by
  unfold Vpost6
  rw [Function.update_of_ne (devRef_ne_of_ne (by decide)), pre6_v4]

theorem hops7_v2 (W : Valuation τ sig (Elt F)) : after hops7 W (Proc.devRef .tc main_v2) = W (Proc.devRef .tc main_v2) := by
  after_results

theorem pre7_v2 (d : Dev nD) : Vpre7 m d (Proc.devRef .tc main_v2) = to1x512 (m ((T d : Thread nD τ).loc main_arg5)) := by
  unfold Vpre7
  rw [hops7_v2, post6_v2]

theorem post7_v2 (d : Dev nD) : Vpost7 m d (Proc.devRef .tc main_v2) = to1x512 (m ((T d : Thread nD τ).loc main_arg5)) := by
  unfold Vpost7
  rw [Function.update_of_ne (devRef_ne_of_ne (by decide)), pre7_v2]

theorem hops7_v3 (W : Valuation τ sig (Elt F)) : after hops7 W (Proc.devRef .tc main_v3) = W (Proc.devRef .tc main_v3) := by
  after_results

theorem pre7_v3 (d : Dev nD) : Vpre7 m d (Proc.devRef .tc main_v3) = to1x512 (m ((T d : Thread nD τ).loc main_arg6)) := by
  unfold Vpre7
  rw [hops7_v3, post6_v3]

theorem post7_v3 (d : Dev nD) : Vpost7 m d (Proc.devRef .tc main_v3) = to1x512 (m ((T d : Thread nD τ).loc main_arg6)) := by
  unfold Vpost7
  rw [Function.update_of_ne (devRef_ne_of_ne (by decide)), pre7_v3]

theorem hops7_v4 (W : Valuation τ sig (Elt F)) : after hops7 W (Proc.devRef .tc main_v4) = W (Proc.devRef .tc main_v4) := by
  after_results

theorem pre7_v4 (d : Dev nD) : Vpre7 m d (Proc.devRef .tc main_v4) = to1x512 (m ((T d : Thread nD τ).loc main_arg7)) := by
  unfold Vpre7
  rw [hops7_v4, post6_v4]

theorem post7_v4 (d : Dev nD) : Vpost7 m d (Proc.devRef .tc main_v4) = to1x512 (m ((T d : Thread nD τ).loc main_arg7)) := by
  unfold Vpost7
  rw [Function.update_of_ne (devRef_ne_of_ne (by decide)), pre7_v4]

end Rows

/-! ## The gathered arrays at an entry -/

/-- A gathered row at feature k is the token's feature k: the id table's row below 128, the category table's from
    128 on. -/
theorem gath_apply (ids cids : Vec Ideal S102400 .i32) (idt : Vec Ideal S100000x128 .f32) (cat : Vec Ideal S1000x128 .f32)
    (r : Fin 102400) (k : Fin 256) :
    gath ids cids idt cat (ix2 r k) = Cert.Spec.emb idt cat (ids (ix1 r)) (cids (ix1 r)) k := rfl

variable (m : (ℓ : Loc nD τ sig) → Buf (Elt Ideal) ℓ)

/-- The eight gathered arrays. -/
def gathAll (d : Dev nD) : Fin 8 → Vec Ideal S102400x256 .f32
  | ⟨0, _⟩ => gath (ids0 m d) (cids0 m d) (idt m d) (cat m d)
  | ⟨1, _⟩ => gath (ids1 m d) (cids1 m d) (idt m d) (cat m d)
  | ⟨2, _⟩ => gath (ids2 m d) (cids2 m d) (idt m d) (cat m d)
  | ⟨3, _⟩ => gath (ids3 m d) (cids3 m d) (idt m d) (cat m d)
  | ⟨4, _⟩ => gath (ids4 m d) (cids4 m d) (idt m d) (cat m d)
  | ⟨5, _⟩ => gath (ids5 m d) (cids5 m d) (idt m d) (cat m d)
  | ⟨6, _⟩ => gath (ids6 m d) (cids6 m d) (idt m d) (cat m d)
  | ⟨7, _⟩ => gath (ids7 m d) (cids7 m d) (idt m d) (cat m d)

/-- The p-th gathered array at (r, k): feature k of the token at row-major position p * 102400 + r. -/
theorem gathAll_apply (d : Dev nD) (p : Fin 8) (r : Fin 102400) (k : Fin 256) :
    gathAll m d p (ix2 r k)
      = Cert.Spec.emb (idt m d) (cat m d)
          ((m ((T d : Thread nD τ).loc main_arg0) : Vec Ideal S4096x200 .i32) (ix2 (⟨(p.val * 102400 + r.val) / 200, by have := p.isLt; have := r.isLt; omega⟩ : Fin 4096)
            (⟨(p.val * 102400 + r.val) % 200, by omega⟩ : Fin 200)))
          ((m ((T d : Thread nD τ).loc main_arg1) : Vec Ideal S4096x200 .i32) (ix2 (⟨(p.val * 102400 + r.val) / 200, by have := p.isLt; have := r.isLt; omega⟩ : Fin 4096)
            (⟨(p.val * 102400 + r.val) % 200, by omega⟩ : Fin 200))) k := by
  match p with
  | ⟨0, _⟩ =>
    show gath (ids0 m d) (cids0 m d) (idt m d) (cat m d) (ix2 r k) = _
    rw [gath_apply, ids0_at, cids0_at]
  | ⟨1, _⟩ =>
    show gath (ids1 m d) (cids1 m d) (idt m d) (cat m d) (ix2 r k) = _
    rw [gath_apply, ids1_at, cids1_at]
  | ⟨2, _⟩ =>
    show gath (ids2 m d) (cids2 m d) (idt m d) (cat m d) (ix2 r k) = _
    rw [gath_apply, ids2_at, cids2_at]
  | ⟨3, _⟩ =>
    show gath (ids3 m d) (cids3 m d) (idt m d) (cat m d) (ix2 r k) = _
    rw [gath_apply, ids3_at, cids3_at]
  | ⟨4, _⟩ =>
    show gath (ids4 m d) (cids4 m d) (idt m d) (cat m d) (ix2 r k) = _
    rw [gath_apply, ids4_at, cids4_at]
  | ⟨5, _⟩ =>
    show gath (ids5 m d) (cids5 m d) (idt m d) (cat m d) (ix2 r k) = _
    rw [gath_apply, ids5_at, cids5_at]
  | ⟨6, _⟩ =>
    show gath (ids6 m d) (cids6 m d) (idt m d) (cat m d) (ix2 r k) = _
    rw [gath_apply, ids6_at, cids6_at]
  | ⟨7, _⟩ =>
    show gath (ids7 m d) (cids7 m d) (idt m d) (cat m d) (ix2 r k) = _
    rw [gath_apply, ids7_at, cids7_at]

/-! ## The result -/

/-- Row a * 200 + l of the dense regions' array is token (a, l)'s row of the specification, in the kernel's
    spelling. -/
theorem result_at (d : Dev nD) (Y : Vec Ideal S819200x512 .f32) (W : Vec Ideal S256x512 .f32)
    (b2 g2 bt2 : Vec Ideal S1x512 .f32) (b g bt : Vec Ideal S512 .f32)
    (hb : ∀ j : Fin 512, b2 (ix2 (0 : Fin 1) j) = b (ix1 j)) (hg : ∀ j : Fin 512, g2 (ix2 (0 : Fin 1) j) = g (ix1 j))
    (hbt : ∀ j : Fin 512, bt2 (ix2 (0 : Fin 1) j) = bt (ix1 j))
    (hY : ∀ (p : Fin 8) (i : Fin 25) (rr : Fin 4096) (j : Fin 512),
      Y (ix2 (⟨(25 * p.val + i.val) * 4096 + rr.val, by have := p.isLt; have := i.isLt; have := rr.isLt; omega⟩ : Fin 819200) j)
        = Cert.Spec.lnKer (fun j' => (∑ k : Fin 256,
              gathAll m d p (ix2 (⟨4096 * i.val + rr.val, by have := i.isLt; have := rr.isLt; omega⟩ : Fin 102400) k) * W (ix2 k j'))
            + b2 (ix2 (0 : Fin 1) j'))
          (fun j' => g2 (ix2 (0 : Fin 1) j')) (fun j' => bt2 (ix2 (0 : Fin 1) j')) j)
    (a : Fin 4096) (l : Fin 200) (j : Fin 512) :
    Y (ix2 (⟨a.val * 200 + l.val, by have := a.isLt; have := l.isLt; omega⟩ : Fin 819200) j)
      = Cert.Spec.GatK (m ((T d : Thread nD τ).loc main_arg0) : Vec Ideal S4096x200 .i32) (m ((T d : Thread nD τ).loc main_arg1) : Vec Ideal S4096x200 .i32) (idt m d) (cat m d) W b g bt a l j := by
  have ha := a.isLt
  have hl := l.isLt
  have hrow : (⟨a.val * 200 + l.val, by omega⟩ : Fin 819200)
      = ⟨(25 * ((a.val * 200 + l.val) / 102400) + (a.val * 200 + l.val) % 102400 / 4096) * 4096 + (a.val * 200 + l.val) % 4096,
          by omega⟩ := Fin.ext (by
    show a.val * 200 + l.val
      = (25 * ((a.val * 200 + l.val) / 102400) + (a.val * 200 + l.val) % 102400 / 4096) * 4096 + (a.val * 200 + l.val) % 4096
    omega)
  rw [hrow, hY (⟨(a.val * 200 + l.val) / 102400, by omega⟩ : Fin 8) (⟨(a.val * 200 + l.val) % 102400 / 4096, by omega⟩ : Fin 25)
    (⟨(a.val * 200 + l.val) % 4096, by omega⟩ : Fin 4096) j]
  unfold Cert.Spec.GatK
  have htok : ∀ (n : Nat) (h1 : n / 200 < 4096) (h2 : n % 200 < 200), n = a.val * 200 + l.val →
      (ix2 (⟨n / 200, h1⟩ : Fin 4096) (⟨n % 200, h2⟩ : Fin 200) : S4096x200.Idx) = ix2 a l := by
    intro n h1 h2 hn
    have e1 : (⟨n / 200, h1⟩ : Fin 4096) = a := Fin.ext (by show n / 200 = a.val; omega)
    have e2 : (⟨n % 200, h2⟩ : Fin 200) = l := Fin.ext (by show n % 200 = l.val; omega)
    rw [e1, e2]
  have hx : (fun j' => (∑ k : Fin 256,
        gathAll m d (⟨(a.val * 200 + l.val) / 102400, by omega⟩ : Fin 8)
          (ix2 (⟨4096 * ((a.val * 200 + l.val) % 102400 / 4096) + (a.val * 200 + l.val) % 4096, by omega⟩ : Fin 102400) k) * W (ix2 k j'))
        + b2 (ix2 (0 : Fin 1) j'))
      = Cert.Spec.lin (Cert.Spec.emb (idt m d) (cat m d) ((m ((T d : Thread nD τ).loc main_arg0) : Vec Ideal S4096x200 .i32) (ix2 a l)) ((m ((T d : Thread nD τ).loc main_arg1) : Vec Ideal S4096x200 .i32) (ix2 a l))) W b := by
    funext j'
    unfold Cert.Spec.lin
    rw [hb j']
    refine congrArg (· + b (ix1 j')) (Finset.sum_congr rfl fun k _ => ?_)
    rw [gathAll_apply, htok _ _ _ (by
      show (a.val * 200 + l.val) / 102400 * 102400 + (4096 * ((a.val * 200 + l.val) % 102400 / 4096) + (a.val * 200 + l.val) % 4096)
        = a.val * 200 + l.val
      omega)]
  rw [hx, funext hg, funext hbt]

/-- The reshape of the dense regions' array to [4096, 200, 512] is the specification's array in the kernel's
    spelling. -/
theorem result_eq (d : Dev nD) (Y : Vec Ideal S819200x512 .f32) (W : Vec Ideal S256x512 .f32)
    (b2 g2 bt2 : Vec Ideal S1x512 .f32) (b g bt : Vec Ideal S512 .f32)
    (hb : ∀ j : Fin 512, b2 (ix2 (0 : Fin 1) j) = b (ix1 j)) (hg : ∀ j : Fin 512, g2 (ix2 (0 : Fin 1) j) = g (ix1 j))
    (hbt : ∀ j : Fin 512, bt2 (ix2 (0 : Fin 1) j) = bt (ix1 j))
    (hY : ∀ (p : Fin 8) (i : Fin 25) (rr : Fin 4096) (j : Fin 512),
      Y (ix2 (⟨(25 * p.val + i.val) * 4096 + rr.val, by have := p.isLt; have := i.isLt; have := rr.isLt; omega⟩ : Fin 819200) j)
        = Cert.Spec.lnKer (fun j' => (∑ k : Fin 256,
              gathAll m d p (ix2 (⟨4096 * i.val + rr.val, by have := i.isLt; have := rr.isLt; omega⟩ : Fin 102400) k) * W (ix2 k j'))
            + b2 (ix2 (0 : Fin 1) j'))
          (fun j' => g2 (ix2 (0 : Fin 1) j')) (fun j' => bt2 (ix2 (0 : Fin 1) j')) j) :
    shapeCast S4096x200x512 Y shapeCasts_S819200x512_S4096x200x512
      = Cert.Spec.GK (m ((T d : Thread nD τ).loc main_arg0) : Vec Ideal S4096x200 .i32) (m ((T d : Thread nD τ).loc main_arg1) : Vec Ideal S4096x200 .i32) (idt m d) (cat m d) W b g bt := by
  funext idx
  obtain ⟨a, l, j, rfl⟩ : ∃ (a : Fin 4096) (l : Fin 200) (j : Fin 512), idx = ix3 a l j := ⟨idx 0, idx 1, idx 2, eq_ix3 idx⟩
  rw [shapeCast_apply Y _ (ix3 a l j) (ix2 (⟨a.val * 200 + l.val, by have := a.isLt; have := l.isLt; omega⟩ : Fin 819200) j) (by
    rw [Shape.rowMajor_val_two, Shape.rowMajor_val_three]
    show (a.val * 200 + l.val) * 512 + j.val = (a.val * 200 + l.val) * 512 + j.val
    rfl)]
  exact result_at m d Y W b2 g2 bt2 b g bt hb hg hbt hY a l j

end Cert.KernelIdeal.Sc

end
-- ==== Proof.RefIdx.lean ====
/-
  The two look-ups read at an index. For an index word whose unsigned value is below the table's length (and so
  below 2^31): the wrap is not taken (the word is not below zero read signed), the range test holds, the select
  keeps the gathered row, and the gather reads the table at the word's own row. So the look-up at token (a, l),
  feature k, is the table at (row of the token's word, k).
-/
import proofs.«204770_g8065948582451_cont_9to1c4b_476_56_alg».proof.Proof.RefSeg
import proofs.«204770_g8065948582451_cont_9to1c4b_476_56_alg».proof.Proof.Spec
import Idealize.ShloMosaic.Lib.ValueIdx
import Idealize.ShloMosaic.Lib.Pipeline.Value
import Idealize.ShloMosaic.PureOps.Reduce

noncomputable section

open scoped BigOperators

namespace Cert.ReferenceIdeal.RefValue

open Cert.ReferenceIdeal Cert.ReferenceIdeal.RefRun Idealize.ShloMosaic Idealize.ShloMosaic.ValueIdx
open Cert.ReferenceIdeal.Facts₀ Cert.ReferenceIdeal.Facts

variable [Cert.ReferenceIdeal.Facts]

/-! ## Words -/

/-- A word below 2^31 read signed is its unsigned value. -/
theorem toInt_of_lt (x : BitVec 32) (h : x.toNat < 2147483648) : x.toInt = (x.toNat : Int) := by
  rw [BitVec.toInt_eq_toNat_cond]
  split
  · rfl
  · omega

/-- A word below 2^31 is not below zero read signed. -/
theorem slt_zero_of_lt (x : BitVec 32) (h : x.toNat < 2147483648) : IntOp.cmpi .slt x 0#32 = 0#1 := by
  have hs : x.slt 0#32 = false := by
    rw [BitVec.slt, toInt_of_lt x h]
    simp
  show BitVec.ofBool (x.slt 0#32) = 0#1
  rw [hs]; rfl

/-- A word below 2^31 is at least zero read signed. -/
theorem sge_zero_of_lt (x : BitVec 32) (h : x.toNat < 2147483648) : IntOp.cmpi .sge x 0#32 = 1#1 := by
  have hs : (0#32 : BitVec 32).sle x = true := by
    rw [BitVec.sle, toInt_of_lt x h]
    simp
  show BitVec.ofBool ((0#32 : BitVec 32).sle x) = 1#1
  rw [hs]; rfl

/-- A word whose unsigned value is at most that of `hi`, both below 2^31, is at most `hi` read signed. -/
theorem sle_of_le (x hi : BitVec 32) (h : x.toNat ≤ hi.toNat) (hh : hi.toNat < 2147483648) : IntOp.cmpi .sle x hi = 1#1 := by
  have hs : x.sle hi = true := by
    rw [BitVec.sle, toInt_of_lt x (by omega), toInt_of_lt hi hh]
    simp; omega
  show BitVec.ofBool (x.sle hi) = 1#1
  rw [hs]; rfl

/-! ## The wrapped index, the range test, the select -/

/-- The wrapped index at token (a, l) is the token's word when that word is below 2^31. -/
theorem wrapped_apply (n : BitVec 32) (ids : IVec S4096x200 32) (a : Fin 4096) (l : Fin 200) (u : Fin 1)
    (h : (ids (ix2 a l)).toNat < 2147483648) : wrapped n ids (ix3 a l u) = ids (ix2 a l) := by
  unfold wrapped
  rw [broadcastInDim_apply _ _ _ (ix3 a l u) (ix2 a l) (fun e => by match e with | ⟨0, _⟩ => rfl | ⟨1, _⟩ => rfl)]
  rw [select_apply]
  show Scalar.select (IntOp.cmpi .slt (ids (ix2 a l)) 0#32) _ _ = _
  rw [slt_zero_of_lt _ h, select_zero]

/-- A fold over an index range of one element is the body at that element and the start. -/
theorem fold_fin_one {α : Type} (f : α → α → α) [Std.Commutative f] [Std.Associative f] (b : α) {n : Nat} (hn : n = 1)
    (g : Fin n → α) : (Finset.univ : Finset (Fin n)).fold f b g = f (g ⟨0, by omega⟩) b := by
  subst hn
  rw [Finset.univ_unique, Finset.fold_singleton]
  rfl

/-- A reduction over a last axis of extent one, for a commutative and associative body: the body at the one
    element and the initial value. -/
theorem reduce_unit_last {α : Type} {A B : Nat} (f : α → α → α) [Std.Commutative f] [Std.Associative f]
    (x : (⟨3, ![A, B, 1]⟩ : Shape).Idx → α) (init : (⟨0, ![]⟩ : Shape).Idx → α)
    (h' : (⟨3, ![A, B, 1]⟩ : Shape).ReducesTo [2] ⟨2, ![A, B]⟩) (h : (⟨3, ![A, B, 1]⟩ : Shape).Reduces [2] ⟨2, ![A, B]⟩)
    (hu : 0 < (⟨0, ![]⟩ : Shape).numel) (a : Fin A) (b : Fin B) :
    Host.reduce f x init h' hu (ix2 a b) = f (x (ix3 a b (0 : Fin 1))) (init (Shape.Idx.first hu)) := by
  rw [Host.reduce_eq_fold_single f x init h' h hu (ix2 a b)]
  have hl : ∀ k0 : Fin ((⟨3, ![A, B, 1]⟩ : Shape).size 2), h.lift (ix2 a b) k0 = ix3 a b (0 : Fin 1) := by
    intro k0
    have h1 : k0.val < 1 := k0.isLt
    funext e; refine Fin.ext ?_
    match e with
    | ⟨0, _⟩ => rfl
    | ⟨1, _⟩ => rfl
    | ⟨2, _⟩ =>
      show k0.val = 0
      omega
  rw [fold_fin_one f _ (rfl : (⟨3, ![A, B, 1]⟩ : Shape).size 2 = 1)]
  show f (x (h.lift (ix2 a b) _)) _ = _
  rw [hl]

/-- The range test at token (a, l) holds when the wrapped index there is at least zero and at most `hi`. -/
theorem inRange_apply (hi : BitVec 32) (w : IVec S4096x200x1 32) (a : Fin 4096) (l : Fin 200)
    (h0 : IntOp.cmpi .sge (w (ix3 a l (0 : Fin 1))) 0#32 = 1#1) (h1 : IntOp.cmpi .sle (w (ix3 a l (0 : Fin 1))) hi = 1#1) :
    inRange hi w (ix2 a l) = 1#1 := by
  unfold inRange
  rw [reduce_unit_last IntOp.andi _ _ reducesTo_S4096x200x1_S4096x200_d2 (by decide) h_S_ a l]
  show IntOp.andi (IntOp.andi (IntOp.cmpi .sge (w (ix3 a l (0 : Fin 1))) 0#32) (IntOp.cmpi .sle (w (ix3 a l (0 : Fin 1))) hi)) 1#1 = 1#1
  rw [h0, h1]; rfl

/-- Where the range test holds at token (a, l), the select keeps the gathered row there. -/
theorem masked_apply (ok : IVec S4096x200 1) (rows : FVec Ideal S4096x200x128 .f32) (a : Fin 4096) (l : Fin 200) (k : Fin 128)
    (h : ok (ix2 a l) = 1#1) : masked ok rows (ix3 a l k) = rows (ix3 a l k) := by
  unfold masked
  rw [select_apply, broadcastInDim_apply _ _ _ (ix3 a l k) (ix2 a l) (fun e => by match e with | ⟨0, _⟩ => rfl | ⟨1, _⟩ => rfl), h,
    select_one]

/-! ## The gather of whole rows at a [A, B, 1] array of row numbers -/

/-- The dimension numbers of a row look-up: operand [N, D], start indices [A, B, 1], result [A, B, D]; the result's
    last axis is the row's, operand axis 0 is indexed and collapsed, a slice is one row. -/
abbrev gdims3 (N A B D : Nat)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- That gather at (a, b, c): the operand at the row `idx (a, b, 0)` read signed and clamped into [0, N − 1],
    column c. -/
theorem gather_rows3_apply {α : Type} {N A B D w : Nat} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (c : Fin D) :
    Host.gather (gdims3 N A B D wf) x idx (ix3 a b c)
      = x (ix2 ⟨min (idx (ix3 a b (0 : Fin 1))).toInt.toNat (N - 1), by omega⟩ c) := by
  unfold Host.gather
  congr 1
  funext e
  refine Fin.ext ?_
  match e with
  | ⟨0, _⟩ =>
    show (gdims3 N A B D wf).start (ix3 a b c) idx 0 + (gdims3 N A B D wf).batchCoord (ix3 a b c) 0
      + (gdims3 N A B D wf).offCoord (ix3 a b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gdims3 N A B D wf).startIndexMap from List.mem_singleton.mpr rfl)]
    have hsi : (gdims3 N A B D wf).siIdx (ix3 a b c) ⟨List.idxOf (0 : Fin 2) (gdims3 N A B D wf).startIndexMap,
        List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi]
    rfl
  | ⟨1, _⟩ =>
    show (gdims3 N A B D wf).start (ix3 a b c) idx 1 + (gdims3 N A B D wf).batchCoord (ix3 a b c) 1
      + (gdims3 N A B D wf).offCoord (ix3 a b c) 1 = c.val
    rw [GatherDims.batchCoord_eq_zero _ _ _ List.not_mem_nil]
    have hs : (gdims3 N A B D wf).start (ix3 a b c) idx 1 = 0 := by
      unfold GatherDims.start
      rw [dif_neg (show (1 : Fin 2) ∉ [(0 : Fin 2)] by decide)]
    rw [hs]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-! ## The two look-ups -/

/-- The look-up in the id table at token (a, l), feature k: the table at the token's row. -/
theorem takeId_apply (idt : FVec Ideal S100000x128 .f32) (ids : IVec S4096x200 32) (a : Fin 4096) (l : Fin 200) (k : Fin 128)
    (h : (ids (ix2 a l)).toNat < 100000) :
    takeId idt ids (ix3 a l k) = idt (ix2 (Cert.Spec.rowOf 100000 (by norm_num) (ids (ix2 a l))) k) := by
  have hw : wrapped 100000#32 ids (ix3 a l (0 : Fin 1)) = ids (ix2 a l) := wrapped_apply _ ids a l 0 (by omega)
  unfold takeId
  rw [masked_apply _ _ a l k (inRange_apply _ _ a l (by rw [hw]; exact sge_zero_of_lt _ (by omega))
    (by rw [hw]; exact sle_of_le _ _ (by show _ ≤ 99999; omega) (by decide)))]
  show Host.gather (gdims3 100000 4096 200 128 gather_S100000x128_S4096x200x1_S4096x200x128_2_0_n_n_0_2_1128_wf) idt _ (ix3 a l k) = _
  rw [gather_rows3_apply (by norm_num)]
  refine congrArg idt (congrArg (fun r => ix2 r k) (Fin.ext ?_))
  show min (wrapped 100000#32 ids (ix3 a l (0 : Fin 1))).toInt.toNat (100000 - 1) = (ids (ix2 a l)).toNat % 100000
  rw [hw, toInt_of_lt _ (by omega), Int.toNat_natCast, Nat.mod_eq_of_lt h]
  omega

/-- The look-up in the category table at token (a, l), feature k: the table at the token's row. -/
theorem takeCat_apply (cat : FVec Ideal S1000x128 .f32) (cids : IVec S4096x200 32) (a : Fin 4096) (l : Fin 200) (k : Fin 128)
    (h : (cids (ix2 a l)).toNat < 1000) :
    takeCat cat cids (ix3 a l k) = cat (ix2 (Cert.Spec.rowOf 1000 (by norm_num) (cids (ix2 a l))) k) := by
  have hw : wrapped 1000#32 cids (ix3 a l (0 : Fin 1)) = cids (ix2 a l) := wrapped_apply _ cids a l 0 (by omega)
  unfold takeCat
  rw [masked_apply _ _ a l k (inRange_apply _ _ a l (by rw [hw]; exact sge_zero_of_lt _ (by omega))
    (by rw [hw]; exact sle_of_le _ _ (by show _ ≤ 999; omega) (by decide)))]
  show Host.gather (gdims3 1000 4096 200 128 gather_S1000x128_S4096x200x1_S4096x200x128_2_0_n_n_0_2_1128_wf) cat _ (ix3 a l k) = _
  rw [gather_rows3_apply (by norm_num)]
  refine congrArg cat (congrArg (fun r => ix2 r k) (Fin.ext ?_))
  show min (wrapped 1000#32 cids (ix3 a l (0 : Fin 1))).toInt.toNat (1000 - 1) = (cids (ix2 a l)).toNat % 1000
  rw [hw, toInt_of_lt _ (by omega), Int.toNat_natCast, Nat.mod_eq_of_lt h]
  omega

end Cert.ReferenceIdeal.RefValue

end
-- ==== Proof.RefLin.lean ====
/-
  The linear layer read at an index. The joined rows at feature k are the id look-up below 128 and the category
  look-up from 128 on, so with the look-ups read they are the token's 256 features; the product with the weights at
  (a, l, j) is the sum over the 256 features of feature times weight; the bias is repeated at every token. So the
  layer's result at (a, l, j) is the specification's linear layer on the token's features.
-/
import proofs.«204770_g8065948582451_cont_9to1c4b_476_56_alg».proof.Proof.RefIdx
import Idealize.ShloMosaic.PureOps.Ideal.Laws

noncomputable section

open scoped BigOperators

namespace Cert.ReferenceIdeal.RefValue

open Cert.ReferenceIdeal Cert.ReferenceIdeal.RefRun Idealize.ShloMosaic Idealize.ShloMosaic.ValueIdx
open Cert.ReferenceIdeal.Facts₀ Cert.ReferenceIdeal.Facts

variable [Cert.ReferenceIdeal.Facts]

/-! ## The joined rows -/

/-- Below 128 the joined rows read the first piece. -/
theorem feats_apply_left (x y : FVec Ideal S4096x200x128 .f32) (a : Fin 4096) (l : Fin 200) (k : Fin 256) (hk : k.val < 128) :
    feats x y (ix3 a l k) = x (ix3 a l (⟨k.val, hk⟩ : Fin 128)) := by
  unfold feats
  refine concatenate_pair_apply_left 2 x y _ (ix3 a l k) rfl (ix3 a l (⟨k.val, hk⟩ : Fin 128)) ?_
  intro e
  match e with
  | ⟨0, _⟩ => rfl
  | ⟨1, _⟩ => rfl
  | ⟨2, _⟩ => rfl

/-- From 128 on they read the second piece, 128 less. -/
theorem feats_apply_right (x y : FVec Ideal S4096x200x128 .f32) (a : Fin 4096) (l : Fin 200) (k : Fin 256) (hk : 128 ≤ k.val) :
    feats x y (ix3 a l k) = y (ix3 a l (⟨k.val - 128, by have := k.isLt; omega⟩ : Fin 128)) := by
  unfold feats
  refine concatenate_pair_apply_right 2 x y _ (ix3 a l k) rfl rfl
    (ix3 a l (⟨k.val - 128, by have := k.isLt; omega⟩ : Fin 128)) ?_ ?_
  · intro e he
    match e, he with
    | ⟨0, _⟩, _ => rfl
    | ⟨1, _⟩, _ => rfl
    | ⟨2, _⟩, he => exact absurd rfl he
  · show (k.val - 128) + 128 = k.val
    omega

/-- With both look-ups read, the joined rows at token (a, l) are the token's features. -/
theorem feats_take_apply (idt : FVec Ideal S100000x128 .f32) (cat : FVec Ideal S1000x128 .f32) (ids cids : IVec S4096x200 32)
    (a : Fin 4096) (l : Fin 200) (k : Fin 256) (hi : (ids (ix2 a l)).toNat < 100000) (hc : (cids (ix2 a l)).toNat < 1000) :
    feats (takeId idt ids) (takeCat cat cids) (ix3 a l k)
      = Cert.Spec.emb idt cat (ids (ix2 a l)) (cids (ix2 a l)) k := by
  unfold Cert.Spec.emb
  by_cases hk : k.val < 128
  · rw [dif_pos hk, feats_apply_left _ _ a l k hk, takeId_apply idt ids a l _ hi]
  · rw [dif_neg hk, feats_apply_right _ _ a l k (by omega), takeCat_apply cat cids a l _ hc]

/-! ## The product with the weights, the bias -/

/-- The product at (a, l, j): the sum over the 256 features of feature times weight. -/
theorem dot_apply (e : FVec Ideal S4096x200x256 .f32) (W : FVec Ideal S256x512 .f32) (a : Fin 4096) (l : Fin 200) (j : Fin 512) :
    Host.dotGeneral (F := Ideal) dot_S4096x200x256_S256x512_S4096x200x512_2_0_01_1_n_n none e W (ix3 a l j) = ∑ k : Fin 256, e (ix3 a l k) * W (ix2 k j) := by
  simp only [Host.dotGeneral]
  rw [Ideal.dotGeneral_apply, ← Equiv.sum_comp (contrEquiv1 dot_S4096x200x256_S256x512_S4096x200x512_2_0_01_1_n_n 256 rfl rfl).symm]
  refine Finset.sum_congr rfl fun k _ => ?_
  have hl : (dot_S4096x200x256_S256x512_S4096x200x512_2_0_01_1_n_n).lhsIdx (ix3 a l j) ((contrEquiv1 dot_S4096x200x256_S256x512_S4096x200x512_2_0_01_1_n_n 256 rfl rfl).symm k) = ix3 a l k := by
    funext q; refine Fin.ext ?_
    match q with
    | ⟨0, _⟩ => rfl
    | ⟨1, _⟩ => rfl
    | ⟨2, _⟩ =>
      exact (DotDims.lhsIdx_val_of_single dot_S4096x200x256_S256x512_S4096x200x512_2_0_01_1_n_n (cl := 2) rfl _ _).trans (contrEquiv1_symm_val dot_S4096x200x256_S256x512_S4096x200x512_2_0_01_1_n_n 256 rfl rfl k)
  have hr : (dot_S4096x200x256_S256x512_S4096x200x512_2_0_01_1_n_n).rhsIdx (ix3 a l j) ((contrEquiv1 dot_S4096x200x256_S256x512_S4096x200x512_2_0_01_1_n_n 256 rfl rfl).symm k) = ix2 k j := by
    funext q; refine Fin.ext ?_
    match q with
    | ⟨0, _⟩ =>
      exact (DotDims.rhsIdx_val_of_single dot_S4096x200x256_S256x512_S4096x200x512_2_0_01_1_n_n (cr := 0) rfl _ _).trans (contrEquiv1_symm_val dot_S4096x200x256_S256x512_S4096x200x512_2_0_01_1_n_n 256 rfl rfl k)
    | ⟨1, _⟩ => rfl
  rw [hl, hr]

/-- A vector of 512 entries repeated at every token reads its entry. -/
theorem perEntry_apply (v : FVec Ideal S512 .f32) (a : Fin 4096) (l : Fin 200) (j : Fin 512) :
    perEntry v (ix3 a l j) = v (ix1 j) := by
  unfold perEntry
  rw [broadcastInDim_apply _ _ _ (ix3 a l j) (ix3 (0 : Fin 1) (0 : Fin 1) j) (fun e => by
      match e with
      | ⟨0, _⟩ => rfl
      | ⟨1, _⟩ => rfl
      | ⟨2, _⟩ => rfl),
    broadcastInDim_apply _ _ _ (ix3 (0 : Fin 1) (0 : Fin 1) j) (ix1 j) (fun e => by
      match e with
      | ⟨0, _⟩ => rfl)]

/-- The linear layer at (a, l, j). -/
theorem linear_apply (e : FVec Ideal S4096x200x256 .f32) (W : FVec Ideal S256x512 .f32) (b : FVec Ideal S512 .f32)
    (a : Fin 4096) (l : Fin 200) (j : Fin 512) :
    linear e W b (ix3 a l j) = (∑ k : Fin 256, e (ix3 a l k) * W (ix2 k j)) + b (ix1 j) := by
  unfold linear
  rw [addf_apply, dot_apply, perEntry_apply]

/-- The linear layer on the looked-up rows at (a, l, j) is the specification's on the token's features. -/
theorem lin_apply (idt : FVec Ideal S100000x128 .f32) (cat : FVec Ideal S1000x128 .f32) (ids cids : IVec S4096x200 32)
    (W : FVec Ideal S256x512 .f32) (b : FVec Ideal S512 .f32) (a : Fin 4096) (l : Fin 200) (j : Fin 512)
    (hi : (ids (ix2 a l)).toNat < 100000) (hc : (cids (ix2 a l)).toNat < 1000) :
    linear (feats (takeId idt ids) (takeCat cat cids)) W b (ix3 a l j)
      = Cert.Spec.lin (Cert.Spec.emb idt cat (ids (ix2 a l)) (cids (ix2 a l))) W b j := by
  unfold Cert.Spec.lin
  rw [linear_apply]
  refine congrArg (· + b (ix1 j)) (Finset.sum_congr rfl fun k _ => ?_)
  rw [feats_take_apply idt cat ids cids a l k hi hc]

end Cert.ReferenceIdeal.RefValue

end
-- ==== Proof.RefConsts.lean ====
/-
  The float word 0x44000000 both programs divide a row's sums by denotes the real 512; in particular it is above
  zero and is not zero.
-/
import proofs.«204770_g8065948582451_cont_9to1c4b_476_56_alg».proof.Proof.LnAlgebra

noncomputable section

namespace Cert.ReferenceIdeal.RefValue

open Idealize.ShloMosaic

/-- The word 0x44000000 denotes 512. -/
theorem c512_eq : Cert.Spec.c512 = ((512 : ℝ) : EReal) := Cert.Spec.c512_eq

/-- It is above zero. -/
theorem c512_pos : (0 : EReal) < Cert.Spec.c512 := by
  rw [c512_eq]
  exact EReal.coe_pos.mpr (by norm_num)

/-- It is not zero. -/
theorem c512_ne_zero : Cert.Spec.c512 ≠ 0 := ne_of_gt c512_pos

end Cert.ReferenceIdeal.RefValue

end
-- ==== Proof.RefNorm.lean ====
/-
  The layer normalisation read at an index. A per-token value repeated along the 512 entries reads the token's
  value; the row sum at a token is the sum of the row's 512 entries (from the zero word, which denotes 0), so the
  row mean is the specification's mean of the row; the variance's divisor 512 - 0 is the word 512, which is above
  zero, so its select keeps the quotient, the specification's variance of the row; and the last step is the
  specification's quotient by the root, times the scale, plus the shift.
-/
import proofs.«204770_g8065948582451_cont_9to1c4b_476_56_alg».proof.Proof.RefLin
import proofs.«204770_g8065948582451_cont_9to1c4b_476_56_alg».proof.Proof.RefConsts
import Idealize.ShloMosaic.Lib.IdealHost

noncomputable section

open scoped BigOperators

namespace Cert.ReferenceIdeal.RefValue

open Cert.ReferenceIdeal Cert.ReferenceIdeal.RefRun Idealize.ShloMosaic Idealize.ShloMosaic.ValueIdx
open Cert.ReferenceIdeal.Facts₀ Cert.ReferenceIdeal.Facts

variable [Cert.ReferenceIdeal.Facts]

/-- A per-token value repeated along the 512 entries reads the token's value. -/
theorem perToken_apply (v : FVec Ideal S4096x200x1 .f32) (a : Fin 4096) (l : Fin 200) (j : Fin 512) :
    perToken v (ix3 a l j) = v (ix3 a l (0 : Fin 1)) := by
  unfold perToken
  rw [broadcastInDim_apply _ _ _ (ix3 a l j) (ix3 a l (0 : Fin 1)) (fun e => by
    match e with
    | ⟨0, _⟩ => rfl
    | ⟨1, _⟩ => rfl
    | ⟨2, _⟩ => rfl)]

/-- The row sum at token (a, l): the sum of the row's 512 entries. -/
theorem rowSum_apply (x : FVec Ideal S4096x200x512 .f32) (a : Fin 4096) (l : Fin 200) (u : Fin 1) :
    rowSum x (ix3 a l u) = ∑ k : Fin 512, x (ix3 a l k) := by
  unfold rowSum
  rw [broadcastInDim_apply _ _ _ (ix3 a l u) (ix2 a l) (fun e => by
    match e with
    | ⟨0, _⟩ => rfl
    | ⟨1, _⟩ => rfl)]
  rw [hostReduceAdd_apply, Ideal.hostReduceAdd_single _ (by decide : S4096x200x512.Reduces [2] S4096x200)]
  show Ideal.ofBits .f32 0x00000000#32 + _ = _
  rw [Ideal.ofBits_zero_f32, zero_add]
  refine Finset.sum_congr rfl fun k _ => congrArg x ?_
  funext e; refine Fin.ext ?_
  match e with
  | ⟨0, _⟩ => rfl
  | ⟨1, _⟩ => rfl
  | ⟨2, _⟩ => rfl

/-- The row mean at token (a, l) is the mean of the row. -/
theorem rowMean_apply (x : FVec Ideal S4096x200x512 .f32) (a : Fin 4096) (l : Fin 200) (u : Fin 1) :
    rowMean x (ix3 a l u) = Cert.Spec.mean (fun k => x (ix3 a l k)) := by
  unfold rowMean Cert.Spec.mean
  rw [hostDivf_apply, rowSum_apply, broadcastInDim_scalar_apply]
  rfl

/-- The squared deviation at (a, l, k). -/
theorem sqDev_apply (x : FVec Ideal S4096x200x512 .f32) (a : Fin 4096) (l : Fin 200) (k : Fin 512) :
    sqDev x (ix3 a l k)
      = (x (ix3 a l k) - Cert.Spec.mean (fun k => x (ix3 a l k))) * (x (ix3 a l k) - Cert.Spec.mean (fun k => x (ix3 a l k))) := by
  unfold sqDev
  rw [mulf_apply, subf_apply, perToken_apply, rowMean_apply]

/-- The variance's divisor at the correction 0 is the word 512. -/
theorem varDivisor_zero (i : S_.Idx) : varDivisor (F := Ideal) (constantI S_ 32 0#32) i = Cert.Spec.c512 := by
  show Cert.Spec.c512 - (((0#32 : BitVec 32).toInt : ℝ) : EReal) = Cert.Spec.c512
  have h0 : (0#32 : BitVec 32).toInt = 0 := by decide
  rw [h0, Int.cast_zero, EReal.coe_zero, sub_zero]

/-- The row variance at token (a, l) is the variance of the row: the divisor is above zero, so the select keeps the
    quotient. -/
theorem rowVar_apply (x : FVec Ideal S4096x200x512 .f32) (a : Fin 4096) (l : Fin 200) (u : Fin 1) :
    rowVar x (constantI S_ 32 0#32) (ix3 a l u) = Cert.Spec.var (fun k => x (ix3 a l k)) := by
  unfold rowVar
  rw [select_apply, broadcastInDim_scalar_apply]
  have hc : cmpf (F := Ideal) .ogt (varDivisor (F := Ideal) (constantI S_ 32 0#32)) (constant S_ .f32 0x00000000#32) ix0 = 1#1 := by
    show Ideal.cmp .ogt (varDivisor (F := Ideal) (constantI S_ 32 0#32) ix0) (Ideal.ofBits .f32 0x00000000#32) = 1#1
    rw [varDivisor_zero, Ideal.ofBits_zero_f32]
    show BitVec.ofBool (decide ((0 : EReal) < Cert.Spec.c512)) = 1#1
    rw [decide_eq_true c512_pos]; rfl
  rw [hc, select_one, hostDivf_apply, rowSum_apply, broadcastInDim_scalar_apply, varDivisor_zero]
  unfold Cert.Spec.var
  show _ = Ideal.div (∑ j : Fin 512, _) Cert.Spec.c512
  refine congrArg (fun s => Ideal.div s Cert.Spec.c512) (Finset.sum_congr rfl fun k _ => ?_)
  rw [sqDev_apply]

/-- The layer normalisation at (a, l, j) is the specification's of the row. -/
theorem normed_apply (x : FVec Ideal S4096x200x512 .f32) (g bt : FVec Ideal S512 .f32) (a : Fin 4096) (l : Fin 200) (j : Fin 512) :
    normed x g bt (ix3 a l j)
      = Cert.Spec.lnRef (fun k => x (ix3 a l k)) (fun k => g (ix1 k)) (fun k => bt (ix1 k)) j := by
  unfold normed normedOf Cert.Spec.lnRef
  rw [addf_apply, mulf_apply, hostDivf_apply, subf_apply, perToken_apply, perToken_apply, perEntry_apply, perEntry_apply,
    rowMean_apply]
  show Ideal.div _ (Ideal.sqrt (rowVar x (constantI S_ 32 0#32) (ix3 a l (0 : Fin 1)) + Cert.Spec.eps)) * _ + _ = _
  rw [rowVar_apply]

end Cert.ReferenceIdeal.RefValue

end
-- ==== Proof.RefValue.lean ====
/-
  The reference computes the specification's function: its result term, read at every index, is the
  specification's value there, for index arrays whose words are below their tables' lengths; and so the reference's
  run ends with the result buffer at the specification's array of the launch contents, the arguments unchanged.
-/
import proofs.«204770_g8065948582451_cont_9to1c4b_476_56_alg».proof.Proof.RefNorm
import proofs.«204770_g8065948582451_cont_9to1c4b_476_56_alg».proof.Proof.RefOut

noncomputable section

open scoped BigOperators

namespace Cert.ReferenceIdeal.RefValue

open Cert.ReferenceIdeal Cert.ReferenceIdeal.RefRun Idealize.ShloMosaic Idealize.ShloMosaic.ValueIdx
open Cert.ReferenceIdeal.Facts₀ Cert.ReferenceIdeal.Facts

variable [Cert.ReferenceIdeal.Facts]

open Idealize.SL.Sem

/-- The reference's result term is the specification's array, for index words below the tables' lengths. -/
theorem out_G (ids cids : IVec S4096x200 32) (idt : FVec Ideal S100000x128 .f32) (cat : FVec Ideal S1000x128 .f32)
    (W : FVec Ideal S256x512 .f32) (b g bt : FVec Ideal S512 .f32)
    (hids : ∀ i : S4096x200.Idx, (ids i).toNat < 100000) (hcids : ∀ i : S4096x200.Idx, (cids i).toNat < 1000) :
    out (F := Ideal) ids cids idt cat W b g bt = Cert.Spec.G ids cids idt cat W b g bt := by
  funext i
  obtain ⟨a, l, j, rfl⟩ : ∃ (a : Fin 4096) (l : Fin 200) (j : Fin 512), i = ix3 a l j := ⟨i 0, i 1, i 2, eq_ix3 i⟩
  show out (F := Ideal) ids cids idt cat W b g bt (ix3 a l j) = Cert.Spec.Gat ids cids idt cat W b g bt a l j
  unfold out Cert.Spec.Gat
  rw [normed_apply]
  refine congrArg (fun row => Cert.Spec.lnRef row (fun k => g (ix1 k)) (fun k => bt (ix1 k)) j) (funext fun k => ?_)
  exact lin_apply idt cat ids cids W b a l k (hids _) (hcids _)

/-- From any memory with zero counters whose index arrays hold words below their tables' lengths, every weakly fair
    execution of the reference terminates, nothing faulting, with the result buffer at the specification's array of
    the arguments' launch contents and the eight arguments unchanged. -/
theorem run_G (m : (ℓ : Loc nD τ sig) → Buf (Elt Ideal) ℓ) (g : Dev nD → PrngReg)
    (hids : ∀ (c : Dev nD) (i : S4096x200.Idx), (((m ((c.tc : Thread nD τ).loc main_arg0)) : IVec S4096x200 32) i).toNat < 100000)
    (hcids : ∀ (c : Dev nD) (i : S4096x200.Idx), (((m ((c.tc : Thread nD τ).loc main_arg1)) : IVec S4096x200 32) i).toNat < 1000) :
    θ_run (defs (F := Ideal)) (onTc (τ := τ) (main (F := Ideal))) ⟨m, fun _ => 0, g⟩ (fun r => ∀ c : Dev nD,
      r.2.mem ((c.tc : Thread nD τ).loc main_v24)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => ⟨(h c).1.trans (out_G _ _ _ _ _ _ _ _ (hids c) (hcids c)), (h c).2⟩)
    (run (F := Ideal) m g)

end Cert.ReferenceIdeal.RefValue

end
-- ==== Proof.AsmKerI.lean ====
/-
  The algebraic claim from the two runs. Both programs end with their result at the specification's array G of the
  arguments' launch contents. The kernel: its run leaves the result buffer at the reshape of the dense regions'
  array, which is the specification in the kernel's spelling (the product with the reciprocal root); under the
  precondition the tables, the weights and the bias are real, and there the two spellings agree. The reference: its
  run ends at G of its own arguments, which are the kernel's; the precondition's bounds on the index words carry
  over. The witness is G of the kernel's arguments.
-/
import proofs.«204770_g8065948582451_cont_9to1c4b_476_56_alg».proof.Proof.AsmFrameI
import proofs.«204770_g8065948582451_cont_9to1c4b_476_56_alg».proof.Proof.KerValue
import proofs.«204770_g8065948582451_cont_9to1c4b_476_56_alg».proof.Proof.RefValue

noncomputable section

open scoped BigOperators

namespace Cert.Proof.Asm

open Idealize.ShloMosaic Idealize.SL.Sem Idealize.ShloMosaic.ValueIdx
open Cert.KernelIdeal Cert.KernelIdeal.Gen Cert.KernelIdeal.Sc Cert.KernelIdeal.Asm
open Idealize.ShloMosaic.SparseCore (T)
open Idealize.ShloMosaic.Pipeline (ucRefs)

/-- The algebraic claim, from the kernel's run to a final valuation whose result buffer is the reshape of an array
    `Yf` written block by block with the dense body's value, and from the reference's run. -/
theorem algebraic_of_run [hKernelIdeal : Cert.KernelIdeal.Facts] [hReferenceIdeal : Cert.ReferenceIdeal.Facts]
    [hPre_input_domain : Cert.Pre_input_domain.Facts]
    (Vf : ((ℓ : Loc nD τ sig) → Buf (Elt Ideal) ℓ) → Dev nD → Valuation τ sig (Elt Ideal)) (hrun : RunTo Vf) (hargs : ArgsKept Vf)
    (Yf : ((ℓ : Loc nD τ sig) → Buf (Elt Ideal) ℓ) → Dev nD → Vec Ideal S819200x512 .f32)
    (hout : ∀ (m : (ℓ : Loc nD τ sig) → Buf (Elt Ideal) ℓ) (d : Dev nD),
      Vf m d (Proc.devRef .tc main_v53) = shapeCast S4096x200x512 (Yf m d) shapeCasts_S819200x512_S4096x200x512)
    (hY : ∀ (m : (ℓ : Loc nD τ sig) → Buf (Elt Ideal) ℓ) (d : Dev nD) (p : Fin 8) (i : Fin 25) (rr : Fin 4096) (j : Fin 512),
      Yf m d (ix2 (⟨(25 * p.val + i.val) * 4096 + rr.val, by have := p.isLt; have := i.isLt; have := rr.isLt; omega⟩ : Fin 819200) j)
        = Cert.Spec.lnKer (fun j' => (∑ k : Fin 256,
              gathAll m d p (ix2 (⟨4096 * i.val + rr.val, by have := i.isLt; have := rr.isLt; omega⟩ : Fin 102400) k)
                * (m (d, Proc.devRef .tc main_arg4) : Vec Ideal S256x512 .f32) (ix2 k j'))
            + to1x512 (m (d, Proc.devRef .tc main_arg5)) (ix2 (0 : Fin 1) j'))
          (fun j' => to1x512 (m (d, Proc.devRef .tc main_arg6)) (ix2 (0 : Fin 1) j'))
          (fun j' => to1x512 (m (d, Proc.devRef .tc main_arg7)) (ix2 (0 : Fin 1) j')) j) :
    Cert.algebraic_KernelIdeal_ReferenceIdeal := by
  intro m g m' g' hpre hagree
  have hb := bounds_of_pre m hpre
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · -- the kernel
    refine (θ_run _ _ _).mono (fun r h c => ⟨?_, ?_⟩) (hrun m g hb.1 hb.2)
    · obtain ⟨hidt, hcat, hW, hbias, -, -⟩ := Cert.PreFacts.finite _ _ _ _ _ _ _ _ (hpre c)
      refine (h c _ (mem_uc main_v53 rfl)).trans ?_
      rw [hout m c, result_eq m c (Yf m c) (m (c, Proc.devRef .tc main_arg4))
        (to1x512 (m (c, Proc.devRef .tc main_arg5))) (to1x512 (m (c, Proc.devRef .tc main_arg6)))
        (to1x512 (m (c, Proc.devRef .tc main_arg7)))
        (m (c, Proc.devRef .tc main_arg5)) (m (c, Proc.devRef .tc main_arg6)) (m (c, Proc.devRef .tc main_arg7))
        (fun j => to1x512_at _ j) (fun j => to1x512_at _ j) (fun j => to1x512_at _ j) (hY m c)]
      exact Cert.Spec.GK_eq_G _ _ _ _ _ _ _ _ hidt hcat hW hbias
    · exact ⟨(h c _ (mem_uc main_arg0 rfl)).trans (hargs m c).1,
        (h c _ (mem_uc main_arg1 rfl)).trans (hargs m c).2.1,
        (h c _ (mem_uc main_arg2 rfl)).trans (hargs m c).2.2.1,
        (h c _ (mem_uc main_arg3 rfl)).trans (hargs m c).2.2.2.1,
        (h c _ (mem_uc main_arg4 rfl)).trans (hargs m c).2.2.2.2.1,
        (h c _ (mem_uc main_arg5 rfl)).trans (hargs m c).2.2.2.2.2.1,
        (h c _ (mem_uc main_arg6 rfl)).trans (hargs m c).2.2.2.2.2.2.1,
        (h c _ (mem_uc main_arg7 rfl)).trans (hargs m c).2.2.2.2.2.2.2⟩
  · -- the reference
    have hids' : ∀ (c : Dev Cert.ReferenceIdeal.nD) (i : Cert.ReferenceIdeal.S4096x200.Idx),
        (((m' ((c.tc : Thread Cert.ReferenceIdeal.nD Cert.ReferenceIdeal.τ).loc Cert.ReferenceIdeal.main_arg0)) : IVec Cert.ReferenceIdeal.S4096x200 32) i).toNat < 100000 := by
      intro c i
      rw [(hagree c).1]
      exact hb.1 c i
    have hcids' : ∀ (c : Dev Cert.ReferenceIdeal.nD) (i : Cert.ReferenceIdeal.S4096x200.Idx),
        (((m' ((c.tc : Thread Cert.ReferenceIdeal.nD Cert.ReferenceIdeal.τ).loc Cert.ReferenceIdeal.main_arg1)) : IVec Cert.ReferenceIdeal.S4096x200 32) i).toNat < 1000 := by
      intro c i
      rw [(hagree c).2.1]
      exact hb.2 c i
    refine (θ_run _ _ _).mono (fun r h c => ⟨?_, (h c).2⟩) (Cert.ReferenceIdeal.RefValue.run_G m' g' hids' hcids')
    rw [(h c).1, (hagree c).1, (hagree c).2.1, (hagree c).2.2.1, (hagree c).2.2.2.1, (hagree c).2.2.2.2.1,
      (hagree c).2.2.2.2.2.1, (hagree c).2.2.2.2.2.2.1, (hagree c).2.2.2.2.2.2.2]

end Cert.Proof.Asm

end
-- ==== Proof.ScCall0I.lean ====
/-
  Gather call 0 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreI
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 0, and what the TensorCore keeps meanwhile, in the dealing lemmas' spelling. -/
abbrev TI0 (d : Dev nD) (w : Fin 32) : sProp 𝕄 :=
  LibDeal.tileIn (ℓI := (T d : Thread nD τ).loc main_v6) (ℓC := (T d : Thread nD τ).loc main_v8) (ℓt := (T d : Thread nD τ).loc main_arg2)
    (ℓk := (T d : Thread nD τ).loc main_arg3) (ℓO := (T d : Thread nD τ).loc main_v9) (ids0 m d) (cids0 m d) (idt m d) (cat m d) h800 oBlkSet w
abbrev TO0 (d : Dev nD) (w : Fin 32) : sProp 𝕄 :=
  LibDeal.tileOut (ℓI := (T d : Thread nD τ).loc main_v6) (ℓC := (T d : Thread nD τ).loc main_v8) (ℓt := (T d : Thread nD τ).loc main_arg2)
    (ℓk := (T d : Thread nD τ).loc main_arg3) (ℓO := (T d : Thread nD τ).loc main_v9) (ids0 m d) (cids0 m d) (idt m d) (cat m d) h800 oBlkSet
    (gath (ids0 m d) (cids0 m d) (idt m d) (cat m d)) w
abbrev KP0 (d : Dev nD) : sProp 𝕄 :=
  LibDeal.kept (a := 32) (ℓI := (T d : Thread nD τ).loc main_v6) (ℓC := (T d : Thread nD τ).loc main_v8) (ℓt := (T d : Thread nD τ).loc main_arg2)
    (ℓk := (T d : Thread nD τ).loc main_arg3) (ids0 m d) (cids0 m d) (idt m d) (cat m d)

theorem tileIn0_eq (d : Dev nD) (w : Fin 32) : tileIn0 m d w = TI0 m d w := by
  unfold tileIn0 TI0 LibDeal.tileIn rsh
  simp only [blk_eq]
theorem tileOut0_eq (d : Dev nD) (w : Fin 32) : tileOut0 m d w = TO0 m d w := by
  unfold tileOut0 TO0 LibDeal.tileOut rsh
  simp only [blk_eq]

theorem st0_eq (d : Dev nD) : (bigSep Finset.univ fun c : Fin ((K (F := F)).nCore 0) => (P m).st 0 d c) = bigSep Finset.univ fun w : Fin 32 => TI0 m d w := by
  show (bigSep (Finset.univ : Finset (Fin 2)) fun c => bigSep (Finset.univ : Finset (Fin 16)) fun i => tileIn0 m d (widN c.val i.val)) = _
  rw [bigSep_workers (fun w => TI0 m d w)]
  exact bigSep_congr fun c _ => bigSep_congr fun i _ => tileIn0_eq m d _
theorem dn0_eq (d : Dev nD) : (bigSep Finset.univ fun c : Fin ((K (F := F)).nCore 0) => (P m).dn 0 d c) = bigSep Finset.univ fun w : Fin 32 => TO0 m d w := by
  show (bigSep (Finset.univ : Finset (Fin 2)) fun c => bigSep (Finset.univ : Finset (Fin 16)) fun i => tileOut0 m d (widN c.val i.val)) = _
  rw [bigSep_workers (fun w => TO0 m d w)]
  exact bigSep_congr fun c _ => bigSep_congr fun i _ => tileOut0_eq m d _

set_option maxHeartbeats 4000000 in
/-- The host operations before call 0 and the call: from the unscoped buffers at what the previous call left to
    the same at this call's result. -/
theorem step0 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 0 ∗ boundary (T d : Thread nD τ) ∗ (held (T d) (ucRefs τ sig) (V0 m d) : sProp 𝕄)
        ∗ (((K (F := F)).tcSt EH d 1 ∗ boundary (T d : Thread nD τ) ∗ (held (T d) (ucRefs τ sig) (Vpost0 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops0 (F := F)) >>= fun _ => (K (F := F)).run d 0 >>= fun _ => k) Φ := by
  iintro ⟨#Hctx, Hst, Hb, Hheld, Hk⟩
  iapply (StableHlo.wp_seq 𝒱 none Set.univ d (ucRefs τ sig) _ (hops0 (F := F)) hS0 hf0 (V0 m d)) $$ [Hb Hheld]
  · isplitl [Hb] <;> iassumption
  iintro ⟨Hb, Hheld0⟩
  ihave Hheld := (Entails.of_eq (show (held (T d) (ucRefs τ sig) (StableHlo.after (hops0 (F := F)) (V0 m d)) : sProp 𝕄)
      = held (T d) (ucRefs τ sig) (Vpre0 m d) from rfl)) $$ Hheld0
  rw [wp_bind]
  ihave Hh := (Entails.of_eq (held_sub_split (T d) hT5_0 (Vpre0 m d))) $$ Hheld
  icases Hh with ⟨H5, Hrest⟩
  ihave H5' := (Entails.of_eq (held_T5_0 (F := F) d (Vpre0 m d))) $$ H5
  rw [Vpre0_T, Vpre0_K, show Vpre0 m d dI0 = ids0 m d from rfl, show Vpre0 m d dC0 = cids0 m d from rfl]
  ihave Hd := (LibDeal.deal (ℓI := (T d : Thread nD τ).loc main_v6) (ℓC := (T d : Thread nD τ).loc main_v8) (ℓt := (T d : Thread nD τ).loc main_arg2) (ℓk := (T d : Thread nD τ).loc main_arg3) (ℓO := (T d : Thread nD τ).loc main_v9) (ids0 m d) (cids0 m d) (idt m d) (cat m d) h800 oBlkSet oblk_disjoint oblk_cover (Vpre0 m d dO0)) $$ H5'
  icases Hd with ⟨Hkept, Htiles⟩
  iapply ((K (F := F)).wp_run (D (F := F)) 𝒱 (EH := EH) (P := P m) κ d 0) $$ [Hst Htiles Hb Hkept Hrest Hk]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave H5 := (LibDeal.collect (ℓI := (T d : Thread nD τ).loc main_v6) (ℓC := (T d : Thread nD τ).loc main_v8) (ℓt := (T d : Thread nD τ).loc main_arg2) (ℓk := (T d : Thread nD τ).loc main_arg3) (ℓO := (T d : Thread nD τ).loc main_v9) (ids0 m d) (cids0 m d) (idt m d) (cat m d) h800 oBlkSet oblk_disjoint oblk_cover
    (gath (ids0 m d) (cids0 m d) (idt m d) (cat m d))) $$ [Hkept Hdn']
  · isplitl [Hkept] <;> iassumption
  iapply Hk
  isplitl [Hst]; · iexact Hst
  isplitl [Hb]; · iexact Hb
  rw [held_sub_split (T d) hT5_0 (Vpost0 m d), held_T5_0]
  isplitl [H5]
  · unfold Vpost0
    rw [Function.update_self, Function.update_of_ne (by decide), Function.update_of_ne (by decide), Function.update_of_ne (by decide),
      Function.update_of_ne (by decide), Vpre0_T, Vpre0_K,
      show Vpre0 m d dI0 = ids0 m d from rfl, show Vpre0 m d dC0 = cids0 m d from rfl]
    iexact H5
  · rw [StableHlo.held_congr (T d) (V := Vpost0 m d) (V' := Vpre0 m d) (fun b hb => by
      unfold Vpost0
      exact Function.update_of_ne (fun (e : b = dO0) => (Finset.mem_sdiff.mp hb).2 (by rw [e]; simp [T5_0])) _ _)]
    iexact Hrest

end Cert.KernelIdeal.Sc

end
-- ==== Proof.ScCall1I.lean ====
/-
  Gather call 1 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreI
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 1, and what the TensorCore keeps meanwhile, in the dealing lemmas' spelling. -/
abbrev TI1 (d : Dev nD) (w : Fin 32) : sProp 𝕄 :=
  LibDeal.tileIn (ℓI := (T d : Thread nD τ).loc main_v11) (ℓC := (T d : Thread nD τ).loc main_v13) (ℓt := (T d : Thread nD τ).loc main_arg2)
    (ℓk := (T d : Thread nD τ).loc main_arg3) (ℓO := (T d : Thread nD τ).loc main_v14) (ids1 m d) (cids1 m d) (idt m d) (cat m d) h800 oBlkSet w
abbrev TO1 (d : Dev nD) (w : Fin 32) : sProp 𝕄 :=
  LibDeal.tileOut (ℓI := (T d : Thread nD τ).loc main_v11) (ℓC := (T d : Thread nD τ).loc main_v13) (ℓt := (T d : Thread nD τ).loc main_arg2)
    (ℓk := (T d : Thread nD τ).loc main_arg3) (ℓO := (T d : Thread nD τ).loc main_v14) (ids1 m d) (cids1 m d) (idt m d) (cat m d) h800 oBlkSet
    (gath (ids1 m d) (cids1 m d) (idt m d) (cat m d)) w
abbrev KP1 (d : Dev nD) : sProp 𝕄 :=
  LibDeal.kept (a := 32) (ℓI := (T d : Thread nD τ).loc main_v11) (ℓC := (T d : Thread nD τ).loc main_v13) (ℓt := (T d : Thread nD τ).loc main_arg2)
    (ℓk := (T d : Thread nD τ).loc main_arg3) (ids1 m d) (cids1 m d) (idt m d) (cat m d)

theorem tileIn1_eq (d : Dev nD) (w : Fin 32) : tileIn1 m d w = TI1 m d w := by
  unfold tileIn1 TI1 LibDeal.tileIn rsh
  simp only [blk_eq]
theorem tileOut1_eq (d : Dev nD) (w : Fin 32) : tileOut1 m d w = TO1 m d w := by
  unfold tileOut1 TO1 LibDeal.tileOut rsh
  simp only [blk_eq]

theorem st1_eq (d : Dev nD) : (bigSep Finset.univ fun c : Fin ((K (F := F)).nCore 1) => (P m).st 1 d c) = bigSep Finset.univ fun w : Fin 32 => TI1 m d w := by
  show (bigSep (Finset.univ : Finset (Fin 2)) fun c => bigSep (Finset.univ : Finset (Fin 16)) fun i => tileIn1 m d (widN c.val i.val)) = _
  rw [bigSep_workers (fun w => TI1 m d w)]
  exact bigSep_congr fun c _ => bigSep_congr fun i _ => tileIn1_eq m d _
theorem dn1_eq (d : Dev nD) : (bigSep Finset.univ fun c : Fin ((K (F := F)).nCore 1) => (P m).dn 1 d c) = bigSep Finset.univ fun w : Fin 32 => TO1 m d w := by
  show (bigSep (Finset.univ : Finset (Fin 2)) fun c => bigSep (Finset.univ : Finset (Fin 16)) fun i => tileOut1 m d (widN c.val i.val)) = _
  rw [bigSep_workers (fun w => TO1 m d w)]
  exact bigSep_congr fun c _ => bigSep_congr fun i _ => tileOut1_eq m d _

set_option maxHeartbeats 4000000 in
/-- The host operations before call 1 and the call: from the unscoped buffers at what the previous call left to
    the same at this call's result. -/
theorem step1 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 1 ∗ boundary (T d : Thread nD τ) ∗ (held (T d) (ucRefs τ sig) (Vpost0 m d) : sProp 𝕄)
        ∗ (((K (F := F)).tcSt EH d 2 ∗ boundary (T d : Thread nD τ) ∗ (held (T d) (ucRefs τ sig) (Vpost1 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops1 (F := F)) >>= fun _ => (K (F := F)).run d 1 >>= fun _ => k) Φ := by
  iintro ⟨#Hctx, Hst, Hb, Hheld, Hk⟩
  iapply (StableHlo.wp_seq 𝒱 none Set.univ d (ucRefs τ sig) _ (hops1 (F := F)) hS1 hf1 (Vpost0 m d)) $$ [Hb Hheld]
  · isplitl [Hb] <;> iassumption
  iintro ⟨Hb, Hheld0⟩
  ihave Hheld := (Entails.of_eq (show (held (T d) (ucRefs τ sig) (StableHlo.after (hops1 (F := F)) (Vpost0 m d)) : sProp 𝕄)
      = held (T d) (ucRefs τ sig) (Vpre1 m d) from rfl)) $$ Hheld0
  rw [wp_bind]
  ihave Hh := (Entails.of_eq (held_sub_split (T d) hT5_1 (Vpre1 m d))) $$ Hheld
  icases Hh with ⟨H5, Hrest⟩
  ihave H5' := (Entails.of_eq (held_T5_1 (F := F) d (Vpre1 m d))) $$ H5
  rw [Vpre1_T, Vpre1_K, show Vpre1 m d dI1 = ids1 m d from rfl, show Vpre1 m d dC1 = cids1 m d from rfl]
  ihave Hd := (LibDeal.deal (ℓI := (T d : Thread nD τ).loc main_v11) (ℓC := (T d : Thread nD τ).loc main_v13) (ℓt := (T d : Thread nD τ).loc main_arg2) (ℓk := (T d : Thread nD τ).loc main_arg3) (ℓO := (T d : Thread nD τ).loc main_v14) (ids1 m d) (cids1 m d) (idt m d) (cat m d) h800 oBlkSet oblk_disjoint oblk_cover (Vpre1 m d dO1)) $$ H5'
  icases Hd with ⟨Hkept, Htiles⟩
  iapply ((K (F := F)).wp_run (D (F := F)) 𝒱 (EH := EH) (P := P m) κ d 1) $$ [Hst Htiles Hb Hkept Hrest Hk]
  isplitr; · iexact Hctx
  isplitl [Hst]; · iexact Hst
  isplitl [Htiles]
  · rw [st1_eq]; iexact Htiles
  iintro ⟨Hst, Hdn⟩
  ihave Hdn' := (Entails.of_eq (dn1_eq m d)) $$ Hdn
  ihave H5 := (LibDeal.collect (ℓI := (T d : Thread nD τ).loc main_v11) (ℓC := (T d : Thread nD τ).loc main_v13) (ℓt := (T d : Thread nD τ).loc main_arg2) (ℓk := (T d : Thread nD τ).loc main_arg3) (ℓO := (T d : Thread nD τ).loc main_v14) (ids1 m d) (cids1 m d) (idt m d) (cat m d) h800 oBlkSet oblk_disjoint oblk_cover
    (gath (ids1 m d) (cids1 m d) (idt m d) (cat m d))) $$ [Hkept Hdn']
  · isplitl [Hkept] <;> iassumption
  iapply Hk
  isplitl [Hst]; · iexact Hst
  isplitl [Hb]; · iexact Hb
  rw [held_sub_split (T d) hT5_1 (Vpost1 m d), held_T5_1]
  isplitl [H5]
  · unfold Vpost1
    rw [Function.update_self, Function.update_of_ne (by decide), Function.update_of_ne (by decide), Function.update_of_ne (by decide),
      Function.update_of_ne (by decide), Vpre1_T, Vpre1_K,
      show Vpre1 m d dI1 = ids1 m d from rfl, show Vpre1 m d dC1 = cids1 m d from rfl]
    iexact H5
  · rw [StableHlo.held_congr (T d) (V := Vpost1 m d) (V' := Vpre1 m d) (fun b hb => by
      unfold Vpost1
      exact Function.update_of_ne (fun (e : b = dO1) => (Finset.mem_sdiff.mp hb).2 (by rw [e]; simp [T5_1])) _ _)]
    iexact Hrest

end Cert.KernelIdeal.Sc

end
-- ==== Proof.ScCall2I.lean ====
/-
  Gather call 2 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreI
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 2, and what the TensorCore keeps meanwhile, in the dealing lemmas' spelling. -/
abbrev TI2 (d : Dev nD) (w : Fin 32) : sProp 𝕄 :=
  LibDeal.tileIn (ℓI := (T d : Thread nD τ).loc main_v16) (ℓC := (T d : Thread nD τ).loc main_v18) (ℓt := (T d : Thread nD τ).loc main_arg2)
    (ℓk := (T d : Thread nD τ).loc main_arg3) (ℓO := (T d : Thread nD τ).loc main_v19) (ids2 m d) (cids2 m d) (idt m d) (cat m d) h800 oBlkSet w
abbrev TO2 (d : Dev nD) (w : Fin 32) : sProp 𝕄 :=
  LibDeal.tileOut (ℓI := (T d : Thread nD τ).loc main_v16) (ℓC := (T d : Thread nD τ).loc main_v18) (ℓt := (T d : Thread nD τ).loc main_arg2)
    (ℓk := (T d : Thread nD τ).loc main_arg3) (ℓO := (T d : Thread nD τ).loc main_v19) (ids2 m d) (cids2 m d) (idt m d) (cat m d) h800 oBlkSet
    (gath (ids2 m d) (cids2 m d) (idt m d) (cat m d)) w
abbrev KP2 (d : Dev nD) : sProp 𝕄 :=
  LibDeal.kept (a := 32) (ℓI := (T d : Thread nD τ).loc main_v16) (ℓC := (T d : Thread nD τ).loc main_v18) (ℓt := (T d : Thread nD τ).loc main_arg2)
    (ℓk := (T d : Thread nD τ).loc main_arg3) (ids2 m d) (cids2 m d) (idt m d) (cat m d)

theorem tileIn2_eq (d : Dev nD) (w : Fin 32) : tileIn2 m d w = TI2 m d w := by
  unfold tileIn2 TI2 LibDeal.tileIn rsh
  simp only [blk_eq]
theorem tileOut2_eq (d : Dev nD) (w : Fin 32) : tileOut2 m d w = TO2 m d w := by
  unfold tileOut2 TO2 LibDeal.tileOut rsh
  simp only [blk_eq]

theorem st2_eq (d : Dev nD) : (bigSep Finset.univ fun c : Fin ((K (F := F)).nCore 2) => (P m).st 2 d c) = bigSep Finset.univ fun w : Fin 32 => TI2 m d w := by
  show (bigSep (Finset.univ : Finset (Fin 2)) fun c => bigSep (Finset.univ : Finset (Fin 16)) fun i => tileIn2 m d (widN c.val i.val)) = _
  rw [bigSep_workers (fun w => TI2 m d w)]
  exact bigSep_congr fun c _ => bigSep_congr fun i _ => tileIn2_eq m d _
theorem dn2_eq (d : Dev nD) : (bigSep Finset.univ fun c : Fin ((K (F := F)).nCore 2) => (P m).dn 2 d c) = bigSep Finset.univ fun w : Fin 32 => TO2 m d w := by
  show (bigSep (Finset.univ : Finset (Fin 2)) fun c => bigSep (Finset.univ : Finset (Fin 16)) fun i => tileOut2 m d (widN c.val i.val)) = _
  rw [bigSep_workers (fun w => TO2 m d w)]
  exact bigSep_congr fun c _ => bigSep_congr fun i _ => tileOut2_eq m d _

set_option maxHeartbeats 4000000 in
/-- The host operations before call 2 and the call: from the unscoped buffers at what the previous call left to
    the same at this call's result. -/
theorem step2 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 2 ∗ boundary (T d : Thread nD τ) ∗ (held (T d) (ucRefs τ sig) (Vpost1 m d) : sProp 𝕄)
        ∗ (((K (F := F)).tcSt EH d 3 ∗ boundary (T d : Thread nD τ) ∗ (held (T d) (ucRefs τ sig) (Vpost2 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops2 (F := F)) >>= fun _ => (K (F := F)).run d 2 >>= fun _ => k) Φ := by
  iintro ⟨#Hctx, Hst, Hb, Hheld, Hk⟩
  iapply (StableHlo.wp_seq 𝒱 none Set.univ d (ucRefs τ sig) _ (hops2 (F := F)) hS2 hf2 (Vpost1 m d)) $$ [Hb Hheld]
  · isplitl [Hb] <;> iassumption
  iintro ⟨Hb, Hheld0⟩
  ihave Hheld := (Entails.of_eq (show (held (T d) (ucRefs τ sig) (StableHlo.after (hops2 (F := F)) (Vpost1 m d)) : sProp 𝕄)
      = held (T d) (ucRefs τ sig) (Vpre2 m d) from rfl)) $$ Hheld0
  rw [wp_bind]
  ihave Hh := (Entails.of_eq (held_sub_split (T d) hT5_2 (Vpre2 m d))) $$ Hheld
  icases Hh with ⟨H5, Hrest⟩
  ihave H5' := (Entails.of_eq (held_T5_2 (F := F) d (Vpre2 m d))) $$ H5
  rw [Vpre2_T, Vpre2_K, show Vpre2 m d dI2 = ids2 m d from rfl, show Vpre2 m d dC2 = cids2 m d from rfl]
  ihave Hd := (LibDeal.deal (ℓI := (T d : Thread nD τ).loc main_v16) (ℓC := (T d : Thread nD τ).loc main_v18) (ℓt := (T d : Thread nD τ).loc main_arg2) (ℓk := (T d : Thread nD τ).loc main_arg3) (ℓO := (T d : Thread nD τ).loc main_v19) (ids2 m d) (cids2 m d) (idt m d) (cat m d) h800 oBlkSet oblk_disjoint oblk_cover (Vpre2 m d dO2)) $$ H5'
  icases Hd with ⟨Hkept, Htiles⟩
  iapply ((K (F := F)).wp_run (D (F := F)) 𝒱 (EH := EH) (P := P m) κ d 2) $$ [Hst Htiles Hb Hkept Hrest Hk]
  isplitr; · iexact Hctx
  isplitl [Hst]; · iexact Hst
  isplitl [Htiles]
  · rw [st2_eq]; iexact Htiles
  iintro ⟨Hst, Hdn⟩
  ihave Hdn' := (Entails.of_eq (dn2_eq m d)) $$ Hdn
  ihave H5 := (LibDeal.collect (ℓI := (T d : Thread nD τ).loc main_v16) (ℓC := (T d : Thread nD τ).loc main_v18) (ℓt := (T d : Thread nD τ).loc main_arg2) (ℓk := (T d : Thread nD τ).loc main_arg3) (ℓO := (T d : Thread nD τ).loc main_v19) (ids2 m d) (cids2 m d) (idt m d) (cat m d) h800 oBlkSet oblk_disjoint oblk_cover
    (gath (ids2 m d) (cids2 m d) (idt m d) (cat m d))) $$ [Hkept Hdn']
  · isplitl [Hkept] <;> iassumption
  iapply Hk
  isplitl [Hst]; · iexact Hst
  isplitl [Hb]; · iexact Hb
  rw [held_sub_split (T d) hT5_2 (Vpost2 m d), held_T5_2]
  isplitl [H5]
  · unfold Vpost2
    rw [Function.update_self, Function.update_of_ne (by decide), Function.update_of_ne (by decide), Function.update_of_ne (by decide),
      Function.update_of_ne (by decide), Vpre2_T, Vpre2_K,
      show Vpre2 m d dI2 = ids2 m d from rfl, show Vpre2 m d dC2 = cids2 m d from rfl]
    iexact H5
  · rw [StableHlo.held_congr (T d) (V := Vpost2 m d) (V' := Vpre2 m d) (fun b hb => by
      unfold Vpost2
      exact Function.update_of_ne (fun (e : b = dO2) => (Finset.mem_sdiff.mp hb).2 (by rw [e]; simp [T5_2])) _ _)]
    iexact Hrest

end Cert.KernelIdeal.Sc

end
-- ==== Proof.ScCall3I.lean ====
/-
  Gather call 3 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreI
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 3, and what the TensorCore keeps meanwhile, in the dealing lemmas' spelling. -/
abbrev TI3 (d : Dev nD) (w : Fin 32) : sProp 𝕄 :=
  LibDeal.tileIn (ℓI := (T d : Thread nD τ).loc main_v21) (ℓC := (T d : Thread nD τ).loc main_v23) (ℓt := (T d : Thread nD τ).loc main_arg2)
    (ℓk := (T d : Thread nD τ).loc main_arg3) (ℓO := (T d : Thread nD τ).loc main_v24) (ids3 m d) (cids3 m d) (idt m d) (cat m d) h800 oBlkSet w
abbrev TO3 (d : Dev nD) (w : Fin 32) : sProp 𝕄 :=
  LibDeal.tileOut (ℓI := (T d : Thread nD τ).loc main_v21) (ℓC := (T d : Thread nD τ).loc main_v23) (ℓt := (T d : Thread nD τ).loc main_arg2)
    (ℓk := (T d : Thread nD τ).loc main_arg3) (ℓO := (T d : Thread nD τ).loc main_v24) (ids3 m d) (cids3 m d) (idt m d) (cat m d) h800 oBlkSet
    (gath (ids3 m d) (cids3 m d) (idt m d) (cat m d)) w
abbrev KP3 (d : Dev nD) : sProp 𝕄 :=
  LibDeal.kept (a := 32) (ℓI := (T d : Thread nD τ).loc main_v21) (ℓC := (T d : Thread nD τ).loc main_v23) (ℓt := (T d : Thread nD τ).loc main_arg2)
    (ℓk := (T d : Thread nD τ).loc main_arg3) (ids3 m d) (cids3 m d) (idt m d) (cat m d)

theorem tileIn3_eq (d : Dev nD) (w : Fin 32) : tileIn3 m d w = TI3 m d w := by
  unfold tileIn3 TI3 LibDeal.tileIn rsh
  simp only [blk_eq]
theorem tileOut3_eq (d : Dev nD) (w : Fin 32) : tileOut3 m d w = TO3 m d w := by
  unfold tileOut3 TO3 LibDeal.tileOut rsh
  simp only [blk_eq]

theorem st3_eq (d : Dev nD) : (bigSep Finset.univ fun c : Fin ((K (F := F)).nCore 3) => (P m).st 3 d c) = bigSep Finset.univ fun w : Fin 32 => TI3 m d w := by
  show (bigSep (Finset.univ : Finset (Fin 2)) fun c => bigSep (Finset.univ : Finset (Fin 16)) fun i => tileIn3 m d (widN c.val i.val)) = _
  rw [bigSep_workers (fun w => TI3 m d w)]
  exact bigSep_congr fun c _ => bigSep_congr fun i _ => tileIn3_eq m d _
theorem dn3_eq (d : Dev nD) : (bigSep Finset.univ fun c : Fin ((K (F := F)).nCore 3) => (P m).dn 3 d c) = bigSep Finset.univ fun w : Fin 32 => TO3 m d w := by
  show (bigSep (Finset.univ : Finset (Fin 2)) fun c => bigSep (Finset.univ : Finset (Fin 16)) fun i => tileOut3 m d (widN c.val i.val)) = _
  rw [bigSep_workers (fun w => TO3 m d w)]
  exact bigSep_congr fun c _ => bigSep_congr fun i _ => tileOut3_eq m d _

set_option maxHeartbeats 4000000 in
/-- The host operations before call 3 and the call: from the unscoped buffers at what the previous call left to
    the same at this call's result. -/
theorem step3 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 3 ∗ boundary (T d : Thread nD τ) ∗ (held (T d) (ucRefs τ sig) (Vpost2 m d) : sProp 𝕄)
        ∗ (((K (F := F)).tcSt EH d 4 ∗ boundary (T d : Thread nD τ) ∗ (held (T d) (ucRefs τ sig) (Vpost3 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops3 (F := F)) >>= fun _ => (K (F := F)).run d 3 >>= fun _ => k) Φ := by
  iintro ⟨#Hctx, Hst, Hb, Hheld, Hk⟩
  iapply (StableHlo.wp_seq 𝒱 none Set.univ d (ucRefs τ sig) _ (hops3 (F := F)) hS3 hf3 (Vpost2 m d)) $$ [Hb Hheld]
  · isplitl [Hb] <;> iassumption
  iintro ⟨Hb, Hheld0⟩
  ihave Hheld := (Entails.of_eq (show (held (T d) (ucRefs τ sig) (StableHlo.after (hops3 (F := F)) (Vpost2 m d)) : sProp 𝕄)
      = held (T d) (ucRefs τ sig) (Vpre3 m d) from rfl)) $$ Hheld0
  rw [wp_bind]
  ihave Hh := (Entails.of_eq (held_sub_split (T d) hT5_3 (Vpre3 m d))) $$ Hheld
  icases Hh with ⟨H5, Hrest⟩
  ihave H5' := (Entails.of_eq (held_T5_3 (F := F) d (Vpre3 m d))) $$ H5
  rw [Vpre3_T, Vpre3_K, show Vpre3 m d dI3 = ids3 m d from rfl, show Vpre3 m d dC3 = cids3 m d from rfl]
  ihave Hd := (LibDeal.deal (ℓI := (T d : Thread nD τ).loc main_v21) (ℓC := (T d : Thread nD τ).loc main_v23) (ℓt := (T d : Thread nD τ).loc main_arg2) (ℓk := (T d : Thread nD τ).loc main_arg3) (ℓO := (T d : Thread nD τ).loc main_v24) (ids3 m d) (cids3 m d) (idt m d) (cat m d) h800 oBlkSet oblk_disjoint oblk_cover (Vpre3 m d dO3)) $$ H5'
  icases Hd with ⟨Hkept, Htiles⟩
  iapply ((K (F := F)).wp_run (D (F := F)) 𝒱 (EH := EH) (P := P m) κ d 3) $$ [Hst Htiles Hb Hkept Hrest Hk]
  isplitr; · iexact Hctx
  isplitl [Hst]; · iexact Hst
  isplitl [Htiles]
  · rw [st3_eq]; iexact Htiles
  iintro ⟨Hst, Hdn⟩
  ihave Hdn' := (Entails.of_eq (dn3_eq m d)) $$ Hdn
  ihave H5 := (LibDeal.collect (ℓI := (T d : Thread nD τ).loc main_v21) (ℓC := (T d : Thread nD τ).loc main_v23) (ℓt := (T d : Thread nD τ).loc main_arg2) (ℓk := (T d : Thread nD τ).loc main_arg3) (ℓO := (T d : Thread nD τ).loc main_v24) (ids3 m d) (cids3 m d) (idt m d) (cat m d) h800 oBlkSet oblk_disjoint oblk_cover
    (gath (ids3 m d) (cids3 m d) (idt m d) (cat m d))) $$ [Hkept Hdn']
  · isplitl [Hkept] <;> iassumption
  iapply Hk
  isplitl [Hst]; · iexact Hst
  isplitl [Hb]; · iexact Hb
  rw [held_sub_split (T d) hT5_3 (Vpost3 m d), held_T5_3]
  isplitl [H5]
  · unfold Vpost3
    rw [Function.update_self, Function.update_of_ne (by decide), Function.update_of_ne (by decide), Function.update_of_ne (by decide),
      Function.update_of_ne (by decide), Vpre3_T, Vpre3_K,
      show Vpre3 m d dI3 = ids3 m d from rfl, show Vpre3 m d dC3 = cids3 m d from rfl]
    iexact H5
  · rw [StableHlo.held_congr (T d) (V := Vpost3 m d) (V' := Vpre3 m d) (fun b hb => by
      unfold Vpost3
      exact Function.update_of_ne (fun (e : b = dO3) => (Finset.mem_sdiff.mp hb).2 (by rw [e]; simp [T5_3])) _ _)]
    iexact Hrest

end Cert.KernelIdeal.Sc

end
-- ==== Proof.ScCall4I.lean ====
/-
  Gather call 4 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreI
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 4, and what the TensorCore keeps meanwhile, in the dealing lemmas' spelling. -/
abbrev TI4 (d : Dev nD) (w : Fin 32) : sProp 𝕄 :=
  LibDeal.tileIn (ℓI := (T d : Thread nD τ).loc main_v26) (ℓC := (T d : Thread nD τ).loc main_v28) (ℓt := (T d : Thread nD τ).loc main_arg2)
    (ℓk := (T d : Thread nD τ).loc main_arg3) (ℓO := (T d : Thread nD τ).loc main_v29) (ids4 m d) (cids4 m d) (idt m d) (cat m d) h800 oBlkSet w
abbrev TO4 (d : Dev nD) (w : Fin 32) : sProp 𝕄 :=
  LibDeal.tileOut (ℓI := (T d : Thread nD τ).loc main_v26) (ℓC := (T d : Thread nD τ).loc main_v28) (ℓt := (T d : Thread nD τ).loc main_arg2)
    (ℓk := (T d : Thread nD τ).loc main_arg3) (ℓO := (T d : Thread nD τ).loc main_v29) (ids4 m d) (cids4 m d) (idt m d) (cat m d) h800 oBlkSet
    (gath (ids4 m d) (cids4 m d) (idt m d) (cat m d)) w
abbrev KP4 (d : Dev nD) : sProp 𝕄 :=
  LibDeal.kept (a := 32) (ℓI := (T d : Thread nD τ).loc main_v26) (ℓC := (T d : Thread nD τ).loc main_v28) (ℓt := (T d : Thread nD τ).loc main_arg2)
    (ℓk := (T d : Thread nD τ).loc main_arg3) (ids4 m d) (cids4 m d) (idt m d) (cat m d)

theorem tileIn4_eq (d : Dev nD) (w : Fin 32) : tileIn4 m d w = TI4 m d w := by
  unfold tileIn4 TI4 LibDeal.tileIn rsh
  simp only [blk_eq]
theorem tileOut4_eq (d : Dev nD) (w : Fin 32) : tileOut4 m d w = TO4 m d w := by
  unfold tileOut4 TO4 LibDeal.tileOut rsh
  simp only [blk_eq]

theorem st4_eq (d : Dev nD) : (bigSep Finset.univ fun c : Fin ((K (F := F)).nCore 4) => (P m).st 4 d c) = bigSep Finset.univ fun w : Fin 32 => TI4 m d w := by
  show (bigSep (Finset.univ : Finset (Fin 2)) fun c => bigSep (Finset.univ : Finset (Fin 16)) fun i => tileIn4 m d (widN c.val i.val)) = _
  rw [bigSep_workers (fun w => TI4 m d w)]
  exact bigSep_congr fun c _ => bigSep_congr fun i _ => tileIn4_eq m d _
theorem dn4_eq (d : Dev nD) : (bigSep Finset.univ fun c : Fin ((K (F := F)).nCore 4) => (P m).dn 4 d c) = bigSep Finset.univ fun w : Fin 32 => TO4 m d w := by
  show (bigSep (Finset.univ : Finset (Fin 2)) fun c => bigSep (Finset.univ : Finset (Fin 16)) fun i => tileOut4 m d (widN c.val i.val)) = _
  rw [bigSep_workers (fun w => TO4 m d w)]
  exact bigSep_congr fun c _ => bigSep_congr fun i _ => tileOut4_eq m d _

set_option maxHeartbeats 4000000 in
/-- The host operations before call 4 and the call: from the unscoped buffers at what the previous call left to
    the same at this call's result. -/
theorem step4 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 4 ∗ boundary (T d : Thread nD τ) ∗ (held (T d) (ucRefs τ sig) (Vpost3 m d) : sProp 𝕄)
        ∗ (((K (F := F)).tcSt EH d 5 ∗ boundary (T d : Thread nD τ) ∗ (held (T d) (ucRefs τ sig) (Vpost4 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops4 (F := F)) >>= fun _ => (K (F := F)).run d 4 >>= fun _ => k) Φ := by
  iintro ⟨#Hctx, Hst, Hb, Hheld, Hk⟩
  iapply (StableHlo.wp_seq 𝒱 none Set.univ d (ucRefs τ sig) _ (hops4 (F := F)) hS4 hf4 (Vpost3 m d)) $$ [Hb Hheld]
  · isplitl [Hb] <;> iassumption
  iintro ⟨Hb, Hheld0⟩
  ihave Hheld := (Entails.of_eq (show (held (T d) (ucRefs τ sig) (StableHlo.after (hops4 (F := F)) (Vpost3 m d)) : sProp 𝕄)
      = held (T d) (ucRefs τ sig) (Vpre4 m d) from rfl)) $$ Hheld0
  rw [wp_bind]
  ihave Hh := (Entails.of_eq (held_sub_split (T d) hT5_4 (Vpre4 m d))) $$ Hheld
  icases Hh with ⟨H5, Hrest⟩
  ihave H5' := (Entails.of_eq (held_T5_4 (F := F) d (Vpre4 m d))) $$ H5
  rw [Vpre4_T, Vpre4_K, show Vpre4 m d dI4 = ids4 m d from rfl, show Vpre4 m d dC4 = cids4 m d from rfl]
  ihave Hd := (LibDeal.deal (ℓI := (T d : Thread nD τ).loc main_v26) (ℓC := (T d : Thread nD τ).loc main_v28) (ℓt := (T d : Thread nD τ).loc main_arg2) (ℓk := (T d : Thread nD τ).loc main_arg3) (ℓO := (T d : Thread nD τ).loc main_v29) (ids4 m d) (cids4 m d) (idt m d) (cat m d) h800 oBlkSet oblk_disjoint oblk_cover (Vpre4 m d dO4)) $$ H5'
  icases Hd with ⟨Hkept, Htiles⟩
  iapply ((K (F := F)).wp_run (D (F := F)) 𝒱 (EH := EH) (P := P m) κ d 4) $$ [Hst Htiles Hb Hkept Hrest Hk]
  isplitr; · iexact Hctx
  isplitl [Hst]; · iexact Hst
  isplitl [Htiles]
  · rw [st4_eq]; iexact Htiles
  iintro ⟨Hst, Hdn⟩
  ihave Hdn' := (Entails.of_eq (dn4_eq m d)) $$ Hdn
  ihave H5 := (LibDeal.collect (ℓI := (T d : Thread nD τ).loc main_v26) (ℓC := (T d : Thread nD τ).loc main_v28) (ℓt := (T d : Thread nD τ).loc main_arg2) (ℓk := (T d : Thread nD τ).loc main_arg3) (ℓO := (T d : Thread nD τ).loc main_v29) (ids4 m d) (cids4 m d) (idt m d) (cat m d) h800 oBlkSet oblk_disjoint oblk_cover
    (gath (ids4 m d) (cids4 m d) (idt m d) (cat m d))) $$ [Hkept Hdn']
  · isplitl [Hkept] <;> iassumption
  iapply Hk
  isplitl [Hst]; · iexact Hst
  isplitl [Hb]; · iexact Hb
  rw [held_sub_split (T d) hT5_4 (Vpost4 m d), held_T5_4]
  isplitl [H5]
  · unfold Vpost4
    rw [Function.update_self, Function.update_of_ne (by decide), Function.update_of_ne (by decide), Function.update_of_ne (by decide),
      Function.update_of_ne (by decide), Vpre4_T, Vpre4_K,
      show Vpre4 m d dI4 = ids4 m d from rfl, show Vpre4 m d dC4 = cids4 m d from rfl]
    iexact H5
  · rw [StableHlo.held_congr (T d) (V := Vpost4 m d) (V' := Vpre4 m d) (fun b hb => by
      unfold Vpost4
      exact Function.update_of_ne (fun (e : b = dO4) => (Finset.mem_sdiff.mp hb).2 (by rw [e]; simp [T5_4])) _ _)]
    iexact Hrest

end Cert.KernelIdeal.Sc

end
-- ==== Proof.ScCall5I.lean ====
/-
  Gather call 5 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreI
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 5, and what the TensorCore keeps meanwhile, in the dealing lemmas' spelling. -/
abbrev TI5 (d : Dev nD) (w : Fin 32) : sProp 𝕄 :=
  LibDeal.tileIn (ℓI := (T d : Thread nD τ).loc main_v31) (ℓC := (T d : Thread nD τ).loc main_v33) (ℓt := (T d : Thread nD τ).loc main_arg2)
    (ℓk := (T d : Thread nD τ).loc main_arg3) (ℓO := (T d : Thread nD τ).loc main_v34) (ids5 m d) (cids5 m d) (idt m d) (cat m d) h800 oBlkSet w
abbrev TO5 (d : Dev nD) (w : Fin 32) : sProp 𝕄 :=
  LibDeal.tileOut (ℓI := (T d : Thread nD τ).loc main_v31) (ℓC := (T d : Thread nD τ).loc main_v33) (ℓt := (T d : Thread nD τ).loc main_arg2)
    (ℓk := (T d : Thread nD τ).loc main_arg3) (ℓO := (T d : Thread nD τ).loc main_v34) (ids5 m d) (cids5 m d) (idt m d) (cat m d) h800 oBlkSet
    (gath (ids5 m d) (cids5 m d) (idt m d) (cat m d)) w
abbrev KP5 (d : Dev nD) : sProp 𝕄 :=
  LibDeal.kept (a := 32) (ℓI := (T d : Thread nD τ).loc main_v31) (ℓC := (T d : Thread nD τ).loc main_v33) (ℓt := (T d : Thread nD τ).loc main_arg2)
    (ℓk := (T d : Thread nD τ).loc main_arg3) (ids5 m d) (cids5 m d) (idt m d) (cat m d)

theorem tileIn5_eq (d : Dev nD) (w : Fin 32) : tileIn5 m d w = TI5 m d w := by
  unfold tileIn5 TI5 LibDeal.tileIn rsh
  simp only [blk_eq]
theorem tileOut5_eq (d : Dev nD) (w : Fin 32) : tileOut5 m d w = TO5 m d w := by
  unfold tileOut5 TO5 LibDeal.tileOut rsh
  simp only [blk_eq]

theorem st5_eq (d : Dev nD) : (bigSep Finset.univ fun c : Fin ((K (F := F)).nCore 5) => (P m).st 5 d c) = bigSep Finset.univ fun w : Fin 32 => TI5 m d w := by
  show (bigSep (Finset.univ : Finset (Fin 2)) fun c => bigSep (Finset.univ : Finset (Fin 16)) fun i => tileIn5 m d (widN c.val i.val)) = _
  rw [bigSep_workers (fun w => TI5 m d w)]
  exact bigSep_congr fun c _ => bigSep_congr fun i _ => tileIn5_eq m d _
theorem dn5_eq (d : Dev nD) : (bigSep Finset.univ fun c : Fin ((K (F := F)).nCore 5) => (P m).dn 5 d c) = bigSep Finset.univ fun w : Fin 32 => TO5 m d w := by
  show (bigSep (Finset.univ : Finset (Fin 2)) fun c => bigSep (Finset.univ : Finset (Fin 16)) fun i => tileOut5 m d (widN c.val i.val)) = _
  rw [bigSep_workers (fun w => TO5 m d w)]
  exact bigSep_congr fun c _ => bigSep_congr fun i _ => tileOut5_eq m d _

set_option maxHeartbeats 4000000 in
/-- The host operations before call 5 and the call: from the unscoped buffers at what the previous call left to
    the same at this call's result. -/
theorem step5 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 5 ∗ boundary (T d : Thread nD τ) ∗ (held (T d) (ucRefs τ sig) (Vpost4 m d) : sProp 𝕄)
        ∗ (((K (F := F)).tcSt EH d 6 ∗ boundary (T d : Thread nD τ) ∗ (held (T d) (ucRefs τ sig) (Vpost5 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops5 (F := F)) >>= fun _ => (K (F := F)).run d 5 >>= fun _ => k) Φ := by
  iintro ⟨#Hctx, Hst, Hb, Hheld, Hk⟩
  iapply (StableHlo.wp_seq 𝒱 none Set.univ d (ucRefs τ sig) _ (hops5 (F := F)) hS5 hf5 (Vpost4 m d)) $$ [Hb Hheld]
  · isplitl [Hb] <;> iassumption
  iintro ⟨Hb, Hheld0⟩
  ihave Hheld := (Entails.of_eq (show (held (T d) (ucRefs τ sig) (StableHlo.after (hops5 (F := F)) (Vpost4 m d)) : sProp 𝕄)
      = held (T d) (ucRefs τ sig) (Vpre5 m d) from rfl)) $$ Hheld0
  rw [wp_bind]
  ihave Hh := (Entails.of_eq (held_sub_split (T d) hT5_5 (Vpre5 m d))) $$ Hheld
  icases Hh with ⟨H5, Hrest⟩
  ihave H5' := (Entails.of_eq (held_T5_5 (F := F) d (Vpre5 m d))) $$ H5
  rw [Vpre5_T, Vpre5_K, show Vpre5 m d dI5 = ids5 m d from rfl, show Vpre5 m d dC5 = cids5 m d from rfl]
  ihave Hd := (LibDeal.deal (ℓI := (T d : Thread nD τ).loc main_v31) (ℓC := (T d : Thread nD τ).loc main_v33) (ℓt := (T d : Thread nD τ).loc main_arg2) (ℓk := (T d : Thread nD τ).loc main_arg3) (ℓO := (T d : Thread nD τ).loc main_v34) (ids5 m d) (cids5 m d) (idt m d) (cat m d) h800 oBlkSet oblk_disjoint oblk_cover (Vpre5 m d dO5)) $$ H5'
  icases Hd with ⟨Hkept, Htiles⟩
  iapply ((K (F := F)).wp_run (D (F := F)) 𝒱 (EH := EH) (P := P m) κ d 5) $$ [Hst Htiles Hb Hkept Hrest Hk]
  isplitr; · iexact Hctx
  isplitl [Hst]; · iexact Hst
  isplitl [Htiles]
  · rw [st5_eq]; iexact Htiles
  iintro ⟨Hst, Hdn⟩
  ihave Hdn' := (Entails.of_eq (dn5_eq m d)) $$ Hdn
  ihave H5 := (LibDeal.collect (ℓI := (T d : Thread nD τ).loc main_v31) (ℓC := (T d : Thread nD τ).loc main_v33) (ℓt := (T d : Thread nD τ).loc main_arg2) (ℓk := (T d : Thread nD τ).loc main_arg3) (ℓO := (T d : Thread nD τ).loc main_v34) (ids5 m d) (cids5 m d) (idt m d) (cat m d) h800 oBlkSet oblk_disjoint oblk_cover
    (gath (ids5 m d) (cids5 m d) (idt m d) (cat m d))) $$ [Hkept Hdn']
  · isplitl [Hkept] <;> iassumption
  iapply Hk
  isplitl [Hst]; · iexact Hst
  isplitl [Hb]; · iexact Hb
  rw [held_sub_split (T d) hT5_5 (Vpost5 m d), held_T5_5]
  isplitl [H5]
  · unfold Vpost5
    rw [Function.update_self, Function.update_of_ne (by decide), Function.update_of_ne (by decide), Function.update_of_ne (by decide),
      Function.update_of_ne (by decide), Vpre5_T, Vpre5_K,
      show Vpre5 m d dI5 = ids5 m d from rfl, show Vpre5 m d dC5 = cids5 m d from rfl]
    iexact H5
  · rw [StableHlo.held_congr (T d) (V := Vpost5 m d) (V' := Vpre5 m d) (fun b hb => by
      unfold Vpost5
      exact Function.update_of_ne (fun (e : b = dO5) => (Finset.mem_sdiff.mp hb).2 (by rw [e]; simp [T5_5])) _ _)]
    iexact Hrest

end Cert.KernelIdeal.Sc

end
-- ==== Proof.ScCall6I.lean ====
/-
  Gather call 6 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreI
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 6, and what the TensorCore keeps meanwhile, in the dealing lemmas' spelling. -/
abbrev TI6 (d : Dev nD) (w : Fin 32) : sProp 𝕄 :=
  LibDeal.tileIn (ℓI := (T d : Thread nD τ).loc main_v36) (ℓC := (T d : Thread nD τ).loc main_v38) (ℓt := (T d : Thread nD τ).loc main_arg2)
    (ℓk := (T d : Thread nD τ).loc main_arg3) (ℓO := (T d : Thread nD τ).loc main_v39) (ids6 m d) (cids6 m d) (idt m d) (cat m d) h800 oBlkSet w
abbrev TO6 (d : Dev nD) (w : Fin 32) : sProp 𝕄 :=
  LibDeal.tileOut (ℓI := (T d : Thread nD τ).loc main_v36) (ℓC := (T d : Thread nD τ).loc main_v38) (ℓt := (T d : Thread nD τ).loc main_arg2)
    (ℓk := (T d : Thread nD τ).loc main_arg3) (ℓO := (T d : Thread nD τ).loc main_v39) (ids6 m d) (cids6 m d) (idt m d) (cat m d) h800 oBlkSet
    (gath (ids6 m d) (cids6 m d) (idt m d) (cat m d)) w
abbrev KP6 (d : Dev nD) : sProp 𝕄 :=
  LibDeal.kept (a := 32) (ℓI := (T d : Thread nD τ).loc main_v36) (ℓC := (T d : Thread nD τ).loc main_v38) (ℓt := (T d : Thread nD τ).loc main_arg2)
    (ℓk := (T d : Thread nD τ).loc main_arg3) (ids6 m d) (cids6 m d) (idt m d) (cat m d)

theorem tileIn6_eq (d : Dev nD) (w : Fin 32) : tileIn6 m d w = TI6 m d w := by
  unfold tileIn6 TI6 LibDeal.tileIn rsh
  simp only [blk_eq]
theorem tileOut6_eq (d : Dev nD) (w : Fin 32) : tileOut6 m d w = TO6 m d w := by
  unfold tileOut6 TO6 LibDeal.tileOut rsh
  simp only [blk_eq]

theorem st6_eq (d : Dev nD) : (bigSep Finset.univ fun c : Fin ((K (F := F)).nCore 6) => (P m).st 6 d c) = bigSep Finset.univ fun w : Fin 32 => TI6 m d w := by
  show (bigSep (Finset.univ : Finset (Fin 2)) fun c => bigSep (Finset.univ : Finset (Fin 16)) fun i => tileIn6 m d (widN c.val i.val)) = _
  rw [bigSep_workers (fun w => TI6 m d w)]
  exact bigSep_congr fun c _ => bigSep_congr fun i _ => tileIn6_eq m d _
theorem dn6_eq (d : Dev nD) : (bigSep Finset.univ fun c : Fin ((K (F := F)).nCore 6) => (P m).dn 6 d c) = bigSep Finset.univ fun w : Fin 32 => TO6 m d w := by
  show (bigSep (Finset.univ : Finset (Fin 2)) fun c => bigSep (Finset.univ : Finset (Fin 16)) fun i => tileOut6 m d (widN c.val i.val)) = _
  rw [bigSep_workers (fun w => TO6 m d w)]
  exact bigSep_congr fun c _ => bigSep_congr fun i _ => tileOut6_eq m d _

set_option maxHeartbeats 4000000 in
/-- The host operations before call 6 and the call: from the unscoped buffers at what the previous call left to
    the same at this call's result. -/
theorem step6 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 6 ∗ boundary (T d : Thread nD τ) ∗ (held (T d) (ucRefs τ sig) (Vpost5 m d) : sProp 𝕄)
        ∗ (((K (F := F)).tcSt EH d 7 ∗ boundary (T d : Thread nD τ) ∗ (held (T d) (ucRefs τ sig) (Vpost6 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops6 (F := F)) >>= fun _ => (K (F := F)).run d 6 >>= fun _ => k) Φ := by
  iintro ⟨#Hctx, Hst, Hb, Hheld, Hk⟩
  iapply (StableHlo.wp_seq 𝒱 none Set.univ d (ucRefs τ sig) _ (hops6 (F := F)) hS6 hf6 (Vpost5 m d)) $$ [Hb Hheld]
  · isplitl [Hb] <;> iassumption
  iintro ⟨Hb, Hheld0⟩
  ihave Hheld := (Entails.of_eq (show (held (T d) (ucRefs τ sig) (StableHlo.after (hops6 (F := F)) (Vpost5 m d)) : sProp 𝕄)
      = held (T d) (ucRefs τ sig) (Vpre6 m d) from rfl)) $$ Hheld0
  rw [wp_bind]
  ihave Hh := (Entails.of_eq (held_sub_split (T d) hT5_6 (Vpre6 m d))) $$ Hheld
  icases Hh with ⟨H5, Hrest⟩
  ihave H5' := (Entails.of_eq (held_T5_6 (F := F) d (Vpre6 m d))) $$ H5
  rw [Vpre6_T, Vpre6_K, show Vpre6 m d dI6 = ids6 m d from rfl, show Vpre6 m d dC6 = cids6 m d from rfl]
  ihave Hd := (LibDeal.deal (ℓI := (T d : Thread nD τ).loc main_v36) (ℓC := (T d : Thread nD τ).loc main_v38) (ℓt := (T d : Thread nD τ).loc main_arg2) (ℓk := (T d : Thread nD τ).loc main_arg3) (ℓO := (T d : Thread nD τ).loc main_v39) (ids6 m d) (cids6 m d) (idt m d) (cat m d) h800 oBlkSet oblk_disjoint oblk_cover (Vpre6 m d dO6)) $$ H5'
  icases Hd with ⟨Hkept, Htiles⟩
  iapply ((K (F := F)).wp_run (D (F := F)) 𝒱 (EH := EH) (P := P m) κ d 6) $$ [Hst Htiles Hb Hkept Hrest Hk]
  isplitr; · iexact Hctx
  isplitl [Hst]; · iexact Hst
  isplitl [Htiles]
  · rw [st6_eq]; iexact Htiles
  iintro ⟨Hst, Hdn⟩
  ihave Hdn' := (Entails.of_eq (dn6_eq m d)) $$ Hdn
  ihave H5 := (LibDeal.collect (ℓI := (T d : Thread nD τ).loc main_v36) (ℓC := (T d : Thread nD τ).loc main_v38) (ℓt := (T d : Thread nD τ).loc main_arg2) (ℓk := (T d : Thread nD τ).loc main_arg3) (ℓO := (T d : Thread nD τ).loc main_v39) (ids6 m d) (cids6 m d) (idt m d) (cat m d) h800 oBlkSet oblk_disjoint oblk_cover
    (gath (ids6 m d) (cids6 m d) (idt m d) (cat m d))) $$ [Hkept Hdn']
  · isplitl [Hkept] <;> iassumption
  iapply Hk
  isplitl [Hst]; · iexact Hst
  isplitl [Hb]; · iexact Hb
  rw [held_sub_split (T d) hT5_6 (Vpost6 m d), held_T5_6]
  isplitl [H5]
  · unfold Vpost6
    rw [Function.update_self, Function.update_of_ne (by decide), Function.update_of_ne (by decide), Function.update_of_ne (by decide),
      Function.update_of_ne (by decide), Vpre6_T, Vpre6_K,
      show Vpre6 m d dI6 = ids6 m d from rfl, show Vpre6 m d dC6 = cids6 m d from rfl]
    iexact H5
  · rw [StableHlo.held_congr (T d) (V := Vpost6 m d) (V' := Vpre6 m d) (fun b hb => by
      unfold Vpost6
      exact Function.update_of_ne (fun (e : b = dO6) => (Finset.mem_sdiff.mp hb).2 (by rw [e]; simp [T5_6])) _ _)]
    iexact Hrest

end Cert.KernelIdeal.Sc

end
-- ==== Proof.ScCall7I.lean ====
/-
  Gather call 7 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreI
import Idealize.ShloMosaic.Lib.Pipeline.Frame

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 7, and what the TensorCore keeps meanwhile, in the dealing lemmas' spelling. -/
abbrev TI7 (d : Dev nD) (w : Fin 32) : sProp 𝕄 :=
  LibDeal.tileIn (ℓI := (T d : Thread nD τ).loc main_v41) (ℓC := (T d : Thread nD τ).loc main_v43) (ℓt := (T d : Thread nD τ).loc main_arg2)
    (ℓk := (T d : Thread nD τ).loc main_arg3) (ℓO := (T d : Thread nD τ).loc main_v44) (ids7 m d) (cids7 m d) (idt m d) (cat m d) h800 oBlkSet w
abbrev TO7 (d : Dev nD) (w : Fin 32) : sProp 𝕄 :=
  LibDeal.tileOut (ℓI := (T d : Thread nD τ).loc main_v41) (ℓC := (T d : Thread nD τ).loc main_v43) (ℓt := (T d : Thread nD τ).loc main_arg2)
    (ℓk := (T d : Thread nD τ).loc main_arg3) (ℓO := (T d : Thread nD τ).loc main_v44) (ids7 m d) (cids7 m d) (idt m d) (cat m d) h800 oBlkSet
    (gath (ids7 m d) (cids7 m d) (idt m d) (cat m d)) w
abbrev KP7 (d : Dev nD) : sProp 𝕄 :=
  LibDeal.kept (a := 32) (ℓI := (T d : Thread nD τ).loc main_v41) (ℓC := (T d : Thread nD τ).loc main_v43) (ℓt := (T d : Thread nD τ).loc main_arg2)
    (ℓk := (T d : Thread nD τ).loc main_arg3) (ids7 m d) (cids7 m d) (idt m d) (cat m d)

theorem tileIn7_eq (d : Dev nD) (w : Fin 32) : tileIn7 m d w = TI7 m d w := by
  unfold tileIn7 TI7 LibDeal.tileIn rsh
  simp only [blk_eq]
theorem tileOut7_eq (d : Dev nD) (w : Fin 32) : tileOut7 m d w = TO7 m d w := by
  unfold tileOut7 TO7 LibDeal.tileOut rsh
  simp only [blk_eq]

theorem st7_eq (d : Dev nD) : (bigSep Finset.univ fun c : Fin ((K (F := F)).nCore 7) => (P m).st 7 d c) = bigSep Finset.univ fun w : Fin 32 => TI7 m d w := by
  show (bigSep (Finset.univ : Finset (Fin 2)) fun c => bigSep (Finset.univ : Finset (Fin 16)) fun i => tileIn7 m d (widN c.val i.val)) = _
  rw [bigSep_workers (fun w => TI7 m d w)]
  exact bigSep_congr fun c _ => bigSep_congr fun i _ => tileIn7_eq m d _
theorem dn7_eq (d : Dev nD) : (bigSep Finset.univ fun c : Fin ((K (F := F)).nCore 7) => (P m).dn 7 d c) = bigSep Finset.univ fun w : Fin 32 => TO7 m d w := by
  show (bigSep (Finset.univ : Finset (Fin 2)) fun c => bigSep (Finset.univ : Finset (Fin 16)) fun i => tileOut7 m d (widN c.val i.val)) = _
  rw [bigSep_workers (fun w => TO7 m d w)]
  exact bigSep_congr fun c _ => bigSep_congr fun i _ => tileOut7_eq m d _

set_option maxHeartbeats 4000000 in
/-- The host operations before call 7 and the call: from the unscoped buffers at what the previous call left to
    the same at this call's result. -/
theorem step7 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 7 ∗ boundary (T d : Thread nD τ) ∗ (held (T d) (ucRefs τ sig) (Vpost6 m d) : sProp 𝕄)
        ∗ (((K (F := F)).tcSt EH d 8 ∗ boundary (T d : Thread nD τ) ∗ (held (T d) (ucRefs τ sig) (Vpost7 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops7 (F := F)) >>= fun _ => (K (F := F)).run d 7 >>= fun _ => k) Φ := by
  iintro ⟨#Hctx, Hst, Hb, Hheld, Hk⟩
  iapply (StableHlo.wp_seq 𝒱 none Set.univ d (ucRefs τ sig) _ (hops7 (F := F)) hS7 hf7 (Vpost6 m d)) $$ [Hb Hheld]
  · isplitl [Hb] <;> iassumption
  iintro ⟨Hb, Hheld0⟩
  ihave Hheld := (Entails.of_eq (show (held (T d) (ucRefs τ sig) (StableHlo.after (hops7 (F := F)) (Vpost6 m d)) : sProp 𝕄)
      = held (T d) (ucRefs τ sig) (Vpre7 m d) from rfl)) $$ Hheld0
  rw [wp_bind]
  ihave Hh := (Entails.of_eq (held_sub_split (T d) hT5_7 (Vpre7 m d))) $$ Hheld
  icases Hh with ⟨H5, Hrest⟩
  ihave H5' := (Entails.of_eq (held_T5_7 (F := F) d (Vpre7 m d))) $$ H5
  rw [Vpre7_T, Vpre7_K, show Vpre7 m d dI7 = ids7 m d from rfl, show Vpre7 m d dC7 = cids7 m d from rfl]
  ihave Hd := (LibDeal.deal (ℓI := (T d : Thread nD τ).loc main_v41) (ℓC := (T d : Thread nD τ).loc main_v43) (ℓt := (T d : Thread nD τ).loc main_arg2) (ℓk := (T d : Thread nD τ).loc main_arg3) (ℓO := (T d : Thread nD τ).loc main_v44) (ids7 m d) (cids7 m d) (idt m d) (cat m d) h800 oBlkSet oblk_disjoint oblk_cover (Vpre7 m d dO7)) $$ H5'
  icases Hd with ⟨Hkept, Htiles⟩
  iapply ((K (F := F)).wp_run (D (F := F)) 𝒱 (EH := EH) (P := P m) κ d 7) $$ [Hst Htiles Hb Hkept Hrest Hk]
  isplitr; · iexact Hctx
  isplitl [Hst]; · iexact Hst
  isplitl [Htiles]
  · rw [st7_eq]; iexact Htiles
  iintro ⟨Hst, Hdn⟩
  ihave Hdn' := (Entails.of_eq (dn7_eq m d)) $$ Hdn
  ihave H5 := (LibDeal.collect (ℓI := (T d : Thread nD τ).loc main_v41) (ℓC := (T d : Thread nD τ).loc main_v43) (ℓt := (T d : Thread nD τ).loc main_arg2) (ℓk := (T d : Thread nD τ).loc main_arg3) (ℓO := (T d : Thread nD τ).loc main_v44) (ids7 m d) (cids7 m d) (idt m d) (cat m d) h800 oBlkSet oblk_disjoint oblk_cover
    (gath (ids7 m d) (cids7 m d) (idt m d) (cat m d))) $$ [Hkept Hdn']
  · isplitl [Hkept] <;> iassumption
  iapply Hk
  isplitl [Hst]; · iexact Hst
  isplitl [Hb]; · iexact Hb
  rw [held_sub_split (T d) hT5_7 (Vpost7 m d), held_T5_7]
  isplitl [H5]
  · unfold Vpost7
    rw [Function.update_self, Function.update_of_ne (by decide), Function.update_of_ne (by decide), Function.update_of_ne (by decide),
      Function.update_of_ne (by decide), Vpre7_T, Vpre7_K,
      show Vpre7 m d dI7 = ids7 m d from rfl, show Vpre7 m d dC7 = cids7 m d from rfl]
    iexact H5
  · rw [StableHlo.held_congr (T d) (V := Vpost7 m d) (V' := Vpre7 m d) (fun b hb => by
      unfold Vpost7
      exact Function.update_of_ne (fun (e : b = dO7) => (Finset.mem_sdiff.mp hb).2 (by rw [e]; simp [T5_7])) _ _)]
    iexact Hrest

end Cert.KernelIdeal.Sc

end
-- ==== Proof.ScMainI.lean ====
/-
  @main on the TensorCore as the launch theorem wants it: the eight gather calls in order, each behind its host
  slices, then the TensorCore tail.
-/
import proofs.«204770_g8065948582451_cont_9to1c4b_476_56_alg».proof.Proof.ScCall0I
import proofs.«204770_g8065948582451_cont_9to1c4b_476_56_alg».proof.Proof.ScCall1I
import proofs.«204770_g8065948582451_cont_9to1c4b_476_56_alg».proof.Proof.ScCall2I
import proofs.«204770_g8065948582451_cont_9to1c4b_476_56_alg».proof.Proof.ScCall3I
import proofs.«204770_g8065948582451_cont_9to1c4b_476_56_alg».proof.Proof.ScCall4I
import proofs.«204770_g8065948582451_cont_9to1c4b_476_56_alg».proof.Proof.ScCall5I
import proofs.«204770_g8065948582451_cont_9to1c4b_476_56_alg».proof.Proof.ScCall6I
import proofs.«204770_g8065948582451_cont_9to1c4b_476_56_alg».proof.Proof.ScCall7I

noncomputable section

namespace Cert.KernelIdeal.Sc

open Cert.KernelIdeal Cert.KernelIdeal.Gen

open Idealize.ShloMosaic Idealize.ShloMosaic.ValueIdx Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)

variable {F : FTy → Type} [FloatOps F]

local notation "𝕄" => MT nD τ sig (HIx 8) (Elt F) ℕ UU ℕ

variable (m : (ℓ : Loc nD τ sig) → Buf (Elt F) ℓ)

set_option maxHeartbeats 40000000 in
/-- @main after the last gather call, in the regions' signature: the eight regions, a copy of the running result
    between consecutive ones, the closing reshape. -/
def tailP : Prog (TpuEff nD τ sig (Elt F) (ΛP (F := F)) .tc) PUnit := do
  Prog.lift (.customCall (Pipeline.entry 0) ())
  hlo rfl (StableHlo.unary main_v45 main_v46 id) (fun _ => .ret ⟨⟩)
  Prog.lift (.customCall (Pipeline.entry 1) ())
  hlo rfl (StableHlo.unary main_v46 main_v47 id) (fun _ => .ret ⟨⟩)
  Prog.lift (.customCall (Pipeline.entry 2) ())
  hlo rfl (StableHlo.unary main_v47 main_v48 id) (fun _ => .ret ⟨⟩)
  Prog.lift (.customCall (Pipeline.entry 3) ())
  hlo rfl (StableHlo.unary main_v48 main_v49 id) (fun _ => .ret ⟨⟩)
  Prog.lift (.customCall (Pipeline.entry 4) ())
  hlo rfl (StableHlo.unary main_v49 main_v50 id) (fun _ => .ret ⟨⟩)
  Prog.lift (.customCall (Pipeline.entry 5) ())
  hlo rfl (StableHlo.unary main_v50 main_v51 id) (fun _ => .ret ⟨⟩)
  Prog.lift (.customCall (Pipeline.entry 6) ())
  hlo rfl (StableHlo.unary main_v51 main_v52 id) (fun _ => .ret ⟨⟩)
  Prog.lift (.customCall (Pipeline.entry 7) ())
  hlo rfl (StableHlo.reshape main_v52 main_v53 rfl shapeCasts_S819200x512_S4096x200x512) (fun _ => .ret ⟨⟩)
  pure ⟨⟩

set_option maxHeartbeats 40000000 in
set_option maxRecDepth 65536 in
/-- @main is the eight calls, each behind its host slices, then the tail. -/
theorem main_split (d : Dev nD) : main (F := F) d =
    (StableHlo.seq (hops0 (F := F)) >>= fun _ => (K (F := F)).run d 0 >>= fun _ => StableHlo.seq (hops1 (F := F)) >>= fun _ => (K (F := F)).run d 1 >>= fun _ => StableHlo.seq (hops2 (F := F)) >>= fun _ => (K (F := F)).run d 2 >>= fun _ => StableHlo.seq (hops3 (F := F)) >>= fun _ => (K (F := F)).run d 3 >>= fun _ => StableHlo.seq (hops4 (F := F)) >>= fun _ => (K (F := F)).run d 4 >>= fun _ => StableHlo.seq (hops5 (F := F)) >>= fun _ => (K (F := F)).run d 5 >>= fun _ => StableHlo.seq (hops6 (F := F)) >>= fun _ => (K (F := F)).run d 6 >>= fun _ => StableHlo.seq (hops7 (F := F)) >>= fun _ => (K (F := F)).run d 7 >>= fun _ => SparseCore.liftProg (tailP (F := F))) := by chain_rfl

set_option maxHeartbeats 4000000 in
/-- The eight gather calls: from the unscoped buffers at the launch contents to the same with every call's result at
    its gathered rows, around whatever follows. -/
theorem hmain_calls (κ : GSem nD τ sig → ℕ) (d : Dev nD) {Φ : PUnit → sProp 𝕄} :
    iprop((K (F := F)).ctx EH (P m) κ ∗ (K (F := F)).tcSt EH d 0 ∗ boundary (T d : Thread nD τ) ∗ (held (T d) (ucRefs τ sig) (V0 m d) : sProp 𝕄)
        ∗ (((K (F := F)).tcSt EH d 8 ∗ boundary (T d : Thread nD τ) ∗ (held (T d) (ucRefs τ sig) (Vpost7 m d) : sProp 𝕄))
            -∗ wp frame (wpE ((K (F := F)).defs (D (F := F))) 𝒱 (T d) none) Set.univ (SparseCore.liftProg (tailP (F := F))) Φ))
      ⊢ wp frame (wpE ((K (F := F)).defs (D (F := F))) 𝒱 (T d) none) Set.univ (main (F := F) d) Φ := by
  rw [main_split]
  iintro ⟨#Hctx, Hst, Hb, Hheld, Hk⟩
  iapply (step0 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step1 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step2 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step3 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step4 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step5 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step6 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step7 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply Hk
  isplitl [Hst]; · iexact Hst
  isplitl [Hb]; · iexact Hb
  iexact Hheld

end Cert.KernelIdeal.Sc

end
-- ==== Proof.HeldRead.lean ====
/-
  Whole buffers held at given contents pin the physical memory: under the state interpretation, every buffer of a
  held set has, in the physical state, the contents the set is held at.
-/
import Idealize.ShloMosaic.Lib.StableHlo.Run

noncomputable section

namespace Cert.HeldRead

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- The buffers `S` of thread `c`'s device held whole at contents `V`, against the state interpretation of a
    physical state `s'`: each of them has contents `V` there. -/
theorem held_read (c : Thread nD τ) (S : Finset (DevRef τ sig)) (V : Valuation τ sig Val) (s' : Phys nD τ sig Val) :
    iprop((held c S V : sProp 𝕄) ∗ SI s') ⊢ (⌜∀ b ∈ S, s'.mem.mem (c.1, b) = V b⌝ : sProp 𝕄) := by
  unfold held
  iintro ⟨H, HSI⟩
  ihave %h := (SI_pointsTo_bufs_agree (qs := fun _ => fullShare) S) $$ [HSI H]
  · isplitl [HSI]; · iexact HSI
    iexact H
  ipureintro
  exact h

end Cert.HeldRead

end
-- ==== Proof.ScLaunchI.lean ====
/-
  The launch. Given every vector subcore's gather task (one obligation per call) and the TensorCore tail's run, the
  whole family of threads runs to the end from a memory with every semaphore at zero, and every unscoped
  TensorCore buffer ends at the tail's final valuation: @main is the eight calls then the tail; the final state is
  read off the buffers held at the end.
-/
import proofs.«204770_g8065948582451_cont_9to1c4b_476_56_alg».proof.Proof.ScMainI
import proofs.«204770_g8065948582451_cont_9to1c4b_476_56_alg».proof.Proof.HeldRead

noncomputable section

namespace Cert.KernelIdeal.Sc

open Cert.KernelIdeal Cert.KernelIdeal.Gen

open Idealize.ShloMosaic Idealize.ShloMosaic.ValueIdx Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)

variable {F : FTy → Type} [FloatOps F]

local notation "𝕄" => MT nD τ sig (HIx 8) (Elt F) ℕ UU ℕ

variable (m : (ℓ : Loc nD τ sig) → Buf (Elt F) ℓ) (ρ : Dev nD → PrngReg)
variable (Vf : Dev nD → Valuation τ sig (Elt F))

abbrev FIN (d : Dev nD) : sProp 𝕄 := held (T d) (ucRefs τ sig) (Vf d)

set_option maxHeartbeats 4000000 in
theorem hmain_of_tail
    (htail : ∀ (d : Dev nD) (W : Waits sig (HIx 8)) (Q : PUnit → sProp 𝕄),
      iprop((iprop(boundary (T d : Thread nD τ) ∗ (held (T d) (ucRefs τ sig) (Vf d) : sProp 𝕄)
              ∗ ∃ W', ⌜∀ p ∈ W', p ∈ W ∨ p.2 = (none : HIx 8)⌝ ∗ owes (T d : Thread nD τ) (0 : CellTallies nD τ sig (HIx 8)) W') -∗ Q ⟨⟩)
          ∗ boundary (T d : Thread nD τ) ∗ ((held (T d) (ucRefs τ sig) (Vpost7 m d) : sProp 𝕄) ∗ owes (T d : Thread nD τ) (0 : CellTallies nD τ sig (HIx 8)) W)
          ∗ levAts (K (F := F)).L (K (F := F)).lev ∗ G (F := F) d)
        ⊢ wp frame (wpE (D (F := F)) 𝒱 (T d) none) Set.univ (tailP (F := F)) Q)
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main (F := F) d)
          fun _ => iprop((K (F := F)).tcSt EH d 8 ∗ FIN Vf d) := by
  unfold SparseCore.Cfg.tcRes
  iintro ⟨#Hctx, Hst, ⟨Hb, Hub, -, -⟩, HG⟩
  ihave Hheld := (Entails.of_eq (show (unscopedBufs d (fun b => m ((T d : Thread nD τ).loc b)) : sProp 𝕄) = held (T d) (ucRefs τ sig) (V0 m d)
    from unscopedBufs_held (Ix := HIx 8) (Name := ℕ) (U := UU) (Lvl := ℕ) d (V0 m d))) $$ Hub
  iapply (hmain_calls m κ d) $$ [Hst Hb Hheld HG]
  isplitr; · iexact Hctx
  isplitl [Hst]; · iexact Hst
  isplitl [Hb]; · iexact Hb
  isplitl [Hheld]; · iexact Hheld
  iintro ⟨Hst, Hb, Hheld⟩
  ihave Hlv := ((K (F := F)).ctx_levAts (EH := EH) (P := P m) κ) $$ Hctx
  unfold SparseCore.Cfg.tcSt
  icases Hst with ⟨⟨%W, %hW, HO⟩, Hat, Hrd, Hrs, Htoks⟩
  rw [(K (F := F)).Otc_end d (le_refl 8)]
  iapply ((K (F := F)).wp_liftProg (D (F := F)) 𝒱 (T d) Set.univ none (tailP (F := F)) _)
  iapply (htail d W _) $$ [Hb Hheld HO Hlv HG Hat Hrd Hrs Htoks]
  isplitr [Hb Hheld HO Hlv HG]
  · iintro ⟨Hb, Hheld, %W', %hW', HO⟩
    isplitr [Hheld]
    · isplitl [HO]
      · iexists W'; isplitr
        · ipureintro
          intro p hp
          rcases hW' p hp with h | h
          · exact hW p h
          · show (K (F := F)).lev (T d, p.1) p.2 ≤ 8 * 8
            rw [h]; exact Nat.zero_le _
        · iexact HO
      isplitl [Hat]; · iexact Hat
      isplitl [Hrd]; · iexact Hrd
      isplitl [Hrs]; · iexact Hrs
      iexact Htoks
    · iexact Hheld
  · isplitl [Hb]; · iexact Hb
    isplitl [Hheld HO]; · isplitl [Hheld] <;> iassumption
    isplitl [Hlv]; · iexact Hlv
    iexact HG

/-- What the claim reads off a final state: every unscoped TensorCore buffer at the final valuation. -/
def fq (d : Dev nD) (s' : Phys nD τ sig (Elt F)) : Prop := ∀ b ∈ ucRefs τ sig, s'.mem.mem (d, b) = Vf d b

theorem hfin (d : Dev nD) (s' : Phys nD τ sig (Elt F)) : iprop(FIN Vf d ∗ SI s') ⊢ (⌜fq Vf d s'⌝ : sProp 𝕄) :=
  Cert.HeldRead.held_read (T d) (ucRefs τ sig) (Vf d) s'

/-- The program's run, from the tasks' obligations and the tail's run. -/
theorem run_of [∀ e, Nonempty (Elt F e)]
    (htile : ∀ q : Fin 8, (K (F := F)).TileObl (D (F := F)) 𝒱 (P m) v₀ q)
    (htail : ∀ (d : Dev nD) (W : Waits sig (HIx 8)) (Q : PUnit → sProp 𝕄),
      iprop((iprop(boundary (T d : Thread nD τ) ∗ (held (T d) (ucRefs τ sig) (Vf d) : sProp 𝕄)
              ∗ ∃ W', ⌜∀ p ∈ W', p ∈ W ∨ p.2 = (none : HIx 8)⌝ ∗ owes (T d : Thread nD τ) (0 : CellTallies nD τ sig (HIx 8)) W') -∗ Q ⟨⟩)
          ∗ boundary (T d : Thread nD τ) ∗ ((held (T d) (ucRefs τ sig) (Vpost7 m d) : sProp 𝕄) ∗ owes (T d : Thread nD τ) (0 : CellTallies nD τ sig (HIx 8)) W)
          ∗ levAts (K (F := F)).L (K (F := F)).lev ∗ G (F := F) d)
        ⊢ wp frame (wpE (D (F := F)) 𝒱 (T d) none) Set.univ (tailP (F := F)) Q) :
    θ_run (Cert.KernelIdeal.defs (F := F)) (Cert.KernelIdeal.threads (F := F)) ⟨m, fun _ => 0, ρ⟩
      (fun r => ∀ d : Dev nD, ∀ b ∈ ucRefs τ sig, r.2.mem (d, b) = Vf d b) :=
  SparseCore.Cfg.θ_run_sc (K := K (F := F)) (D := D (F := F)) (𝒱 := 𝒱) (EH := EH) (P := P m) facts v₀
    (fun q hq => by fin_cases q <;> cases hq)
    (fun q _ => htile q)
    (fun q _ => SparseCore.Cfg.VecSplit.of_plain (vecSplit m q))
    m ρ main (G (F := F)) (FIN Vf) (u₀ (F := F)) (sep_elim_left.trans (hu₀ m)) (hmain_of_tail m ρ Vf htail) (fq Vf) (hfin Vf)
    (fun r => ∀ d : Dev nD, ∀ b ∈ ucRefs τ sig, r.2.mem (d, b) = Vf d b) (fun _ h => h)

end Cert.KernelIdeal.Sc

end
-- ==== Proof.TcTail0.lean ====
/-
  The first dense region's body. Each dense region loads five blocks whole (a block of gathered features, the
  weights, the bias, scale and shift rows), computes one payload of them and stores it over its whole result block;
  the pipeline fetches the feature block at every grid point and the other four once, and writes the result block
  back at every point. This module has what the body leaves in the result's staging buffer, the body's triple, the
  proof data of the first region over any valuation of the arrays, and its body obligation at every point.
-/
import proofs.«204770_g8065948582451_cont_9to1c4b_476_56_alg».proof.Proof.ScPayI
import proofs.«204770_g8065948582451_cont_9to1c4b_476_56_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.TcTail

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

/-! ## The body of one dense region

Every one of the eight dense regions loads its five input blocks whole, computes one payload and stores it over its
whole result block. What the result's staging buffer holds afterwards is that payload of the five blocks. -/

abbrev rA : Rect S4096x256 := Rect.unit (s := S4096x256) ![0, 0] S4096x256.size inb_S4096x256_S4096x256_0_0
abbrev rW : Rect S256x512 := Rect.unit (s := S256x512) ![0, 0] S256x512.size inb_S256x512_S256x512_0_0
abbrev rR : Rect S1x512 := Rect.unit (s := S1x512) ![0, 0] S1x512.size inb_S1x512_S1x512_0_0
abbrev rO : Rect S4096x512 := Rect.unit (s := S4096x512) ![0, 0] S4096x512.size inb_S4096x512_S4096x512_0_0

/-- The result's staging buffer after the body, from the five input blocks: its one store. -/
def out8 (x0 : Vec F S4096x256 .f32) (x1 : Vec F S256x512 .f32) (x2 x3 x4 : Vec F S1x512 .f32) : Vec F S4096x512 .f32 :=
  View.canon [⟨rO, k8_pay1 (View.ld x0 rA) (View.ld x1 rW) (View.ld x2 rR) (View.ld x3 rR) (View.ld x4 rR)⟩]

/-- The store covers the buffer. -/
theorem cover8 (p0 : Vec F S4096x512 .f32) (y : S4096x512.Idx) :
    ∃ pc ∈ ([⟨rO, p0⟩] : List (View.Piece (Elt F) S4096x512 .f32)), y ∈ pc.1.set :=
  View.cover_of_tiled [⟨rO, p0⟩] S4096x512.size (by rfl) y

set_option maxHeartbeats 1000000 in
/-- The body of region 0 on whole staging memrefs: the inputs stay, the result's buffer ends at `out8` of them. -/
theorem sound_kernel8 (c : Dev nD) (E : Set ℕ) (i : grid8.Coords)
    (arg1 : Memref sig .tc .vmem S4096x256 .f32) (harg1 : arg1.IsWhole) (arg2 : Memref sig .tc .vmem S256x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S4096x512 .f32) (harg6 : arg6.IsWhole)
    (x0 : Vec F S4096x256 .f32) (x1 : Vec F S256x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8 x0 x1 x2 x3 x4)) -∗ K ⟨⟩))
      ⊢ wp frame (wpE (defs₀ (F := F)) Variants.none c none) E (cc8__tc_body0 i arg1 harg1 arg2 harg2 arg3 harg3 arg4 harg4 arg5 harg5 arg6 harg6) K := by
  simp only [cc8__tc_body0_eq_skeleton]; unfold cc8__tc_body0_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-- A valuation's buffer of a TensorCore reference, on core `c`. -/
abbrev vb (V : Valuation τ sig (Elt F)) (c : Dev nD) (b : Ref sig .tc) : Buf (Elt F) ((c : Thread nD τ).loc b) := V b

/-! ## The proof data of the region of pipeline cfg8 -/

/-- Window `w`'s block at point `t`, read off its array at the valuation the region is entered at. -/
def iblk8 (V : Valuation τ sig (Elt F)) (c : Dev nD) (w : Fin cfg8.W) (t : Fin cfg8.N) :
    ((cfg8.win w).xblock (cfg8.grid.coords t)).Idx → Elt F (cfg8.win w).elt :=
  ((cfg8.win w).blk t).view.read (Elt F) (vb V c (Pipeline.arrRef spec8 w))

theorem before8_0_of (V : Valuation τ sig (Elt F)) {c : Dev nD} (dat : Dat τ (Elt F) (HIx 8) ℕ Sc.UU ℕ cfg8 c)
    (hA : dat.A 0 = vb V c (Pipeline.arrRef spec8 0)) (hafter : ∀ t, dat.after 0 t = iblk8 V c 0 t) (t : Fin cfg8.N) (d) :
    dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of (V : Valuation τ sig (Elt F)) {c : Dev nD} (dat : Dat τ (Elt F) (HIx 8) ℕ Sc.UU ℕ cfg8 c)
    (hA : dat.A 1 = vb V c (Pipeline.arrRef spec8 1)) (hafter : ∀ t, dat.after 1 t = iblk8 V c 1 t) (t : Fin cfg8.N) (d) :
    dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of (V : Valuation τ sig (Elt F)) {c : Dev nD} (dat : Dat τ (Elt F) (HIx 8) ℕ Sc.UU ℕ cfg8 c)
    (hA : dat.A 2 = vb V c (Pipeline.arrRef spec8 2)) (hafter : ∀ t, dat.after 2 t = iblk8 V c 2 t) (t : Fin cfg8.N) (d) :
    dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of (V : Valuation τ sig (Elt F)) {c : Dev nD} (dat : Dat τ (Elt F) (HIx 8) ℕ Sc.UU ℕ cfg8 c)
    (hA : dat.A 3 = vb V c (Pipeline.arrRef spec8 3)) (hafter : ∀ t, dat.after 3 t = iblk8 V c 3 t) (t : Fin cfg8.N) (d) :
    dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of (V : Valuation τ sig (Elt F)) {c : Dev nD} (dat : Dat τ (Elt F) (HIx 8) ℕ Sc.UU ℕ cfg8 c)
    (hA : dat.A 4 = vb V c (Pipeline.arrRef spec8 4)) (hafter : ∀ t, dat.after 4 t = iblk8 V c 4 t) (t : Fin cfg8.N) (d) :
    dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The arrays as the valuation has them; after the body each input's buffer at its block and the result's at the
    payload of the five blocks; the invariant the scoped buffers no window stages; nothing owed, the recorded pairs within `B`; full shares. -/
def dat8 (V : Valuation τ sig (Elt F)) (B : Set (SemLoc sig × HIx 8)) (c : Dev nD) : Dat τ (Elt F) (HIx 8) ℕ Sc.UU ℕ cfg8 c where
  A w := vb V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.scopedRest (Ix := HIx 8) (Name := ℕ) (U := Sc.UU) (Lvl := ℕ) (Val := Elt F) spec8 c
  q _ := fullShare
  owed _ := 0
  recorded _ := B

theorem A8_eq (V : Valuation τ sig (Elt F)) (B : Set (SemLoc sig × HIx 8)) (c : Dev nD) (w : Fin cfg8.W) : (dat8 V B c).A w = vb V c (Pipeline.arrRef spec8 w) := by
  dsimp only [dat8]
theorem after8_0 (V : Valuation τ sig (Elt F)) (B : Set (SemLoc sig × HIx 8)) (c : Dev nD) (t : Fin cfg8.N) : (dat8 V B c).after 0 t = iblk8 V c 0 t := by dsimp only [dat8]
theorem after8_1 (V : Valuation τ sig (Elt F)) (B : Set (SemLoc sig × HIx 8)) (c : Dev nD) (t : Fin cfg8.N) : (dat8 V B c).after 1 t = iblk8 V c 1 t := by dsimp only [dat8]
theorem after8_2 (V : Valuation τ sig (Elt F)) (B : Set (SemLoc sig × HIx 8)) (c : Dev nD) (t : Fin cfg8.N) : (dat8 V B c).after 2 t = iblk8 V c 2 t := by dsimp only [dat8]
theorem after8_3 (V : Valuation τ sig (Elt F)) (B : Set (SemLoc sig × HIx 8)) (c : Dev nD) (t : Fin cfg8.N) : (dat8 V B c).after 3 t = iblk8 V c 3 t := by dsimp only [dat8]
theorem after8_4 (V : Valuation τ sig (Elt F)) (B : Set (SemLoc sig × HIx 8)) (c : Dev nD) (t : Fin cfg8.N) : (dat8 V B c).after 4 t = iblk8 V c 4 t := by dsimp only [dat8]
theorem after8_5 (V : Valuation τ sig (Elt F)) (B : Set (SemLoc sig × HIx 8)) (c : Dev nD) (t : Fin cfg8.N) :
    (dat8 V B c).after 5 t = out8 (iblk8 V c 0 t) (iblk8 V c 1 t) (iblk8 V c 2 t) (iblk8 V c 3 t) (iblk8 V c 4 t) := by dsimp only [dat8]

theorem before8_0 (V : Valuation τ sig (Elt F)) (B : Set (SemLoc sig × HIx 8)) (c : Dev nD) (t : Fin cfg8.N) (d) : (dat8 V B c).before 0 t d = iblk8 V c 0 t :=
  before8_0_of V (dat8 V B c) (A8_eq V B c 0) (after8_0 V B c) t d
theorem before8_1 (V : Valuation τ sig (Elt F)) (B : Set (SemLoc sig × HIx 8)) (c : Dev nD) (t : Fin cfg8.N) (d) : (dat8 V B c).before 1 t d = iblk8 V c 1 t :=
  before8_1_of V (dat8 V B c) (A8_eq V B c 1) (after8_1 V B c) t d
theorem before8_2 (V : Valuation τ sig (Elt F)) (B : Set (SemLoc sig × HIx 8)) (c : Dev nD) (t : Fin cfg8.N) (d) : (dat8 V B c).before 2 t d = iblk8 V c 2 t :=
  before8_2_of V (dat8 V B c) (A8_eq V B c 2) (after8_2 V B c) t d
theorem before8_3 (V : Valuation τ sig (Elt F)) (B : Set (SemLoc sig × HIx 8)) (c : Dev nD) (t : Fin cfg8.N) (d) : (dat8 V B c).before 3 t d = iblk8 V c 3 t :=
  before8_3_of V (dat8 V B c) (A8_eq V B c 3) (after8_3 V B c) t d
theorem before8_4 (V : Valuation τ sig (Elt F)) (B : Set (SemLoc sig × HIx 8)) (c : Dev nD) (t : Fin cfg8.N) (d) : (dat8 V B c).before 4 t d = iblk8 V c 4 t :=
  before8_4_of V (dat8 V B c) (A8_eq V B c 4) (after8_4 V B c) t d

/-! ## Region 0's body obligation -/

def bodyPre8 (V : Valuation τ sig (Elt F)) (B : Set (SemLoc sig × HIx 8)) (c : Dev nD) (ι : HIx 8) (t : Fin cfg8.N) : sProp 𝕄 :=
  iprop((dat8 V B c).Φ t.castSucc ∗ (dat8 V B c).owesAt ι t.castSucc
    ∗ (∃ d, owns (c : Thread nD τ) (st8_0 t) fullShare ((dat8 V B c).before 0 t d))
    ∗ (∃ d, owns (c : Thread nD τ) (st8_1 t) fullShare ((dat8 V B c).before 1 t d))
    ∗ (∃ d, owns (c : Thread nD τ) (st8_2 t) fullShare ((dat8 V B c).before 2 t d))
    ∗ (∃ d, owns (c : Thread nD τ) (st8_3 t) fullShare ((dat8 V B c).before 3 t d))
    ∗ (∃ d, owns (c : Thread nD τ) (st8_4 t) fullShare ((dat8 V B c).before 4 t d))
    ∗ (∃ d, owns (c : Thread nD τ) (st8_5 t) fullShare ((dat8 V B c).before 5 t d)))

def bodyPost8 (V : Valuation τ sig (Elt F)) (B : Set (SemLoc sig × HIx 8)) (c : Dev nD) (ι : HIx 8) (t : Fin cfg8.N) : sProp 𝕄 :=
  iprop((dat8 V B c).Φ t.succ ∗ (dat8 V B c).owesAt ι t.succ
    ∗ owns (c : Thread nD τ) (st8_0 t) fullShare ((dat8 V B c).after 0 t)
    ∗ owns (c : Thread nD τ) (st8_1 t) fullShare ((dat8 V B c).after 1 t)
    ∗ owns (c : Thread nD τ) (st8_2 t) fullShare ((dat8 V B c).after 2 t)
    ∗ owns (c : Thread nD τ) (st8_3 t) fullShare ((dat8 V B c).after 3 t)
    ∗ owns (c : Thread nD τ) (st8_4 t) fullShare ((dat8 V B c).after 4 t)
    ∗ owns (c : Thread nD τ) (st8_5 t) fullShare ((dat8 V B c).after 5 t))

theorem sound_body8 (V : Valuation τ sig (Elt F)) (B : Set (SemLoc sig × HIx 8)) (c : Dev nD) (ι : HIx 8) (t : Fin cfg8.N) :
    bodyPre8 V B c ι t ⊢ wp frame (wpE (defs₀ (F := F)) Variants.none c none) Set.univ (bodyAt8 t) (fun _ => bodyPost8 V B c ι t) := by
  unfold bodyPre8 bodyPost8 bodyAt8
  simp only [before8_0, before8_1, before8_2, before8_3, before8_4]
  rw [show (dat8 V B c).Φ t.succ = (dat8 V B c).Φ t.castSucc from rfl,
    show (dat8 V B c).owesAt ι t.succ = (dat8 V B c).owesAt ι t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 0, at every point. -/
theorem body_obligation8 (V : Valuation τ sig (Elt F)) (B : Set (SemLoc sig × HIx 8)) (c : Dev nD) (ι : HIx 8) :
    BodyObligation (dat8 (F := F) V B c) (defs₀ (F := F)) Variants.none ι Set.univ := fun t => by
  rw [bigSep_W8, bigSep_W8]
  exact sound_body8 V B c ι t

end Cert.KernelIdeal.TcTail

end
-- ==== Proof.TcTailDats.lean ====
/-
  The proof data of the other seven dense regions over any valuation of the arrays: as the first region's, each over
  its own pipeline's windows (its block of gathered features, the weights, the three rows, its result block).
-/
import proofs.«204770_g8065948582451_cont_9to1c4b_476_56_alg».proof.Proof.ScPayI
import proofs.«204770_g8065948582451_cont_9to1c4b_476_56_alg».proof.Proof.Gen.KernelIdeal.Points
import proofs.«204770_g8065948582451_cont_9to1c4b_476_56_alg».proof.Proof.TcTail0
import Idealize.ShloMosaic.Lib.Pipeline.FrameBody
import Idealize.ShloMosaic.Lib.Pipeline.RegionsLoop
import Idealize.ShloMosaic.Lib.Tactic

set_option maxRecDepth 16384

noncomputable section

namespace Cert.KernelIdeal.TcTail

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

/-! ## The proof data of the region of pipeline cfg9 -/

/-- Window `w`'s block at point `t`, read off its array at the valuation the region is entered at. -/
def iblk9 (V : Valuation τ sig (Elt F)) (c : Dev nD) (w : Fin cfg9.W) (t : Fin cfg9.N) :
    ((cfg9.win w).xblock (cfg9.grid.coords t)).Idx → Elt F (cfg9.win w).elt :=
  ((cfg9.win w).blk t).view.read (Elt F) (vb V c (Pipeline.arrRef spec9 w))

theorem before9_0_of (V : Valuation τ sig (Elt F)) {c : Dev nD} (dat : Dat τ (Elt F) (HIx 8) ℕ Sc.UU ℕ cfg9 c)
    (hA : dat.A 0 = vb V c (Pipeline.arrRef spec9 0)) (hafter : ∀ t, dat.after 0 t = iblk9 V c 0 t) (t : Fin cfg9.N) (d) :
    dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of (V : Valuation τ sig (Elt F)) {c : Dev nD} (dat : Dat τ (Elt F) (HIx 8) ℕ Sc.UU ℕ cfg9 c)
    (hA : dat.A 1 = vb V c (Pipeline.arrRef spec9 1)) (hafter : ∀ t, dat.after 1 t = iblk9 V c 1 t) (t : Fin cfg9.N) (d) :
    dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of (V : Valuation τ sig (Elt F)) {c : Dev nD} (dat : Dat τ (Elt F) (HIx 8) ℕ Sc.UU ℕ cfg9 c)
    (hA : dat.A 2 = vb V c (Pipeline.arrRef spec9 2)) (hafter : ∀ t, dat.after 2 t = iblk9 V c 2 t) (t : Fin cfg9.N) (d) :
    dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of (V : Valuation τ sig (Elt F)) {c : Dev nD} (dat : Dat τ (Elt F) (HIx 8) ℕ Sc.UU ℕ cfg9 c)
    (hA : dat.A 3 = vb V c (Pipeline.arrRef spec9 3)) (hafter : ∀ t, dat.after 3 t = iblk9 V c 3 t) (t : Fin cfg9.N) (d) :
    dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of (V : Valuation τ sig (Elt F)) {c : Dev nD} (dat : Dat τ (Elt F) (HIx 8) ℕ Sc.UU ℕ cfg9 c)
    (hA : dat.A 4 = vb V c (Pipeline.arrRef spec9 4)) (hafter : ∀ t, dat.after 4 t = iblk9 V c 4 t) (t : Fin cfg9.N) (d) :
    dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- The arrays as the valuation has them; after the body each input's buffer at its block and the result's at the
    payload of the five blocks; the invariant the scoped buffers no window stages; nothing owed, the recorded pairs within `B`; full shares. -/
def dat9 (V : Valuation τ sig (Elt F)) (B : Set (SemLoc sig × HIx 8)) (c : Dev nD) : Dat τ (Elt F) (HIx 8) ℕ Sc.UU ℕ cfg9 c where
  A w := vb V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out8 (iblk9 V c 0 t) (iblk9 V c 1 t) (iblk9 V c 2 t) (iblk9 V c 3 t) (iblk9 V c 4 t)
  Φ _ := Pipeline.scopedRest (Ix := HIx 8) (Name := ℕ) (U := Sc.UU) (Lvl := ℕ) (Val := Elt F) spec9 c
  q _ := fullShare
  owed _ := 0
  recorded _ := B

theorem A9_eq (V : Valuation τ sig (Elt F)) (B : Set (SemLoc sig × HIx 8)) (c : Dev nD) (w : Fin cfg9.W) : (dat9 V B c).A w = vb V c (Pipeline.arrRef spec9 w) := by
  dsimp only [dat9]
theorem after9_0 (V : Valuation τ sig (Elt F)) (B : Set (SemLoc sig × HIx 8)) (c : Dev nD) (t : Fin cfg9.N) : (dat9 V B c).after 0 t = iblk9 V c 0 t := by dsimp only [dat9]
theorem after9_1 (V : Valuation τ sig (Elt F)) (B : Set (SemLoc sig × HIx 8)) (c : Dev nD) (t : Fin cfg9.N) : (dat9 V B c).after 1 t = iblk9 V c 1 t := by dsimp only [dat9]
theorem after9_2 (V : Valuation τ sig (Elt F)) (B : Set (SemLoc sig × HIx 8)) (c : Dev nD) (t : Fin cfg9.N) : (dat9 V B c).after 2 t = iblk9 V c 2 t := by dsimp only [dat9]
theorem after9_3 (V : Valuation τ sig (Elt F)) (B : Set (SemLoc sig × HIx 8)) (c : Dev nD) (t : Fin cfg9.N) : (dat9 V B c).after 3 t = iblk9 V c 3 t := by dsimp only [dat9]
theorem after9_4 (V : Valuation τ sig (Elt F)) (B : Set (SemLoc sig × HIx 8)) (c : Dev nD) (t : Fin cfg9.N) : (dat9 V B c).after 4 t = iblk9 V c 4 t := by dsimp only [dat9]
theorem after9_5 (V : Valuation τ sig (Elt F)) (B : Set (SemLoc sig × HIx 8)) (c : Dev nD) (t : Fin cfg9.N) :
    (dat9 V B c).after 5 t = out8 (iblk9 V c 0 t) (iblk9 V c 1 t) (iblk9 V c 2 t) (iblk9 V c 3 t) (iblk9 V c 4 t) := by dsimp only [dat9]

theorem before9_0 (V : Valuation τ sig (Elt F)) (B : Set (SemLoc sig × HIx 8)) (c : Dev nD) (t : Fin cfg9.N) (d) : (dat9 V B c).before 0 t d = iblk9 V c 0 t :=
  before9_0_of V (dat9 V B c) (A9_eq V B c 0) (after9_0 V B c) t d
theorem before9_1 (V : Valuation τ sig (Elt F)) (B : Set (SemLoc sig × HIx 8)) (c : Dev nD) (t : Fin cfg9.N) (d) : (dat9 V B c).before 1 t d = iblk9 V c 1 t :=
  before9_1_of V (dat9 V B c) (A9_eq V B c 1) (after9_1 V B c) t d
theorem before9_2 (V : Valuation τ sig (Elt F)) (B : Set (SemLoc sig × HIx 8)) (c : Dev nD) (t : Fin cfg9.N) (d) : (dat9 V B c).before 2 t d = iblk9 V c 2 t :=
  before9_2_of V (dat9 V B c) (A9_eq V B c 2) (after9_2 V B c) t d
theorem before9_3 (V : Valuation τ sig (Elt F)) (B : Set (SemLoc sig × HIx 8)) (c : Dev nD) (t : Fin cfg9.N) (d) : (dat9 V B c).before 3 t d = iblk9 V c 3 t :=
  before9_3_of V (dat9 V B c) (A9_eq V B c 3) (after9_3 V B c) t d
theorem before9_4 (V : Valuation τ sig (Elt F)) (B : Set (SemLoc sig × HIx 8)) (c : Dev nD) (t : Fin cfg9.N) (d) : (dat9 V B c).before 4 t d = iblk9 V c 4 t :=
  before9_4_of V (dat9 V B c) (A9_eq V B c 4) (after9_4 V B c) t d

/-! ## The proof data of the region of pipeline cfg10 -/

/-- Window `w`'s block at point `t`, read off its array at the valuation the region is entered at. -/
def iblk10 (V : Valuation τ sig (Elt F)) (c : Dev nD) (w : Fin cfg10.W) (t : Fin cfg10.N) :
    ((cfg10.win w).xblock (cfg10.grid.coords t)).Idx → Elt F (cfg10.win w).elt :=
  ((cfg10.win w).blk t).view.read (Elt F) (vb V c (Pipeline.arrRef spec10 w))

theorem before10_0_of (V : Valuation τ sig (Elt F)) {c : Dev nD} (dat : Dat τ (Elt F) (HIx 8) ℕ Sc.UU ℕ cfg10 c)
    (hA : dat.A 0 = vb V c (Pipeline.arrRef spec10 0)) (hafter : ∀ t, dat.after 0 t = iblk10 V c 0 t) (t : Fin cfg10.N) (d) :
    dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of (V : Valuation τ sig (Elt F)) {c : Dev nD} (dat : Dat τ (Elt F) (HIx 8) ℕ Sc.UU ℕ cfg10 c)
    (hA : dat.A 1 = vb V c (Pipeline.arrRef spec10 1)) (hafter : ∀ t, dat.after 1 t = iblk10 V c 1 t) (t : Fin cfg10.N) (d) :
    dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of (V : Valuation τ sig (Elt F)) {c : Dev nD} (dat : Dat τ (Elt F) (HIx 8) ℕ Sc.UU ℕ cfg10 c)
    (hA : dat.A 2 = vb V c (Pipeline.arrRef spec10 2)) (hafter : ∀ t, dat.after 2 t = iblk10 V c 2 t) (t : Fin cfg10.N) (d) :
    dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of (V : Valuation τ sig (Elt F)) {c : Dev nD} (dat : Dat τ (Elt F) (HIx 8) ℕ Sc.UU ℕ cfg10 c)
    (hA : dat.A 3 = vb V c (Pipeline.arrRef spec10 3)) (hafter : ∀ t, dat.after 3 t = iblk10 V c 3 t) (t : Fin cfg10.N) (d) :
    dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

theorem before10_4_of (V : Valuation τ sig (Elt F)) {c : Dev nD} (dat : Dat τ (Elt F) (HIx 8) ℕ Sc.UU ℕ cfg10 c)
    (hA : dat.A 4 = vb V c (Pipeline.arrRef spec10 4)) (hafter : ∀ t, dat.after 4 t = iblk10 V c 4 t) (t : Fin cfg10.N) (d) :
    dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- The arrays as the valuation has them; after the body each input's buffer at its block and the result's at the
    payload of the five blocks; the invariant the scoped buffers no window stages; nothing owed, the recorded pairs within `B`; full shares. -/
def dat10 (V : Valuation τ sig (Elt F)) (B : Set (SemLoc sig × HIx 8)) (c : Dev nD) : Dat τ (Elt F) (HIx 8) ℕ Sc.UU ℕ cfg10 c where
  A w := vb V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out8 (iblk10 V c 0 t) (iblk10 V c 1 t) (iblk10 V c 2 t) (iblk10 V c 3 t) (iblk10 V c 4 t)
  Φ _ := Pipeline.scopedRest (Ix := HIx 8) (Name := ℕ) (U := Sc.UU) (Lvl := ℕ) (Val := Elt F) spec10 c
  q _ := fullShare
  owed _ := 0
  recorded _ := B

theorem A10_eq (V : Valuation τ sig (Elt F)) (B : Set (SemLoc sig × HIx 8)) (c : Dev nD) (w : Fin cfg10.W) : (dat10 V B c).A w = vb V c (Pipeline.arrRef spec10 w) := by
  dsimp only [dat10]
theorem after10_0 (V : Valuation τ sig (Elt F)) (B : Set (SemLoc sig × HIx 8)) (c : Dev nD) (t : Fin cfg10.N) : (dat10 V B c).after 0 t = iblk10 V c 0 t := by dsimp only [dat10]
theorem after10_1 (V : Valuation τ sig (Elt F)) (B : Set (SemLoc sig × HIx 8)) (c : Dev nD) (t : Fin cfg10.N) : (dat10 V B c).after 1 t = iblk10 V c 1 t := by dsimp only [dat10]
theorem after10_2 (V : Valuation τ sig (Elt F)) (B : Set (SemLoc sig × HIx 8)) (c : Dev nD) (t : Fin cfg10.N) : (dat10 V B c).after 2 t = iblk10 V c 2 t := by dsimp only [dat10]
theorem after10_3 (V : Valuation τ sig (Elt F)) (B : Set (SemLoc sig × HIx 8)) (c : Dev nD) (t : Fin cfg10.N) : (dat10 V B c).after 3 t = iblk10 V c 3 t := by dsimp only [dat10]
theorem after10_4 (V : Valuation τ sig (Elt F)) (B : Set (SemLoc sig × HIx 8)) (c : Dev nD) (t : Fin cfg10.N) : (dat10 V B c).after 4 t = iblk10 V c 4 t := by dsimp only [dat10]
theorem after10_5 (V : Valuation τ sig (Elt F)) (B : Set (SemLoc sig × HIx 8)) (c : Dev nD) (t : Fin cfg10.N) :
    (dat10 V B c).after 5 t = out8 (iblk10 V c 0 t) (iblk10 V c 1 t) (iblk10 V c 2 t) (iblk10 V c 3 t) (iblk10 V c 4 t) := by dsimp only [dat10]

theorem before10_0 (V : Valuation τ sig (Elt F)) (B : Set (SemLoc sig × HIx 8)) (c : Dev nD) (t : Fin cfg10.N) (d) : (dat10 V B c).before 0 t d = iblk10 V c 0 t :=
  before10_0_of V (dat10 V B c) (A10_eq V B c 0) (after10_0 V B c) t d
theorem before10_1 (V : Valuation τ sig (Elt F)) (B : Set (SemLoc sig × HIx 8)) (c : Dev nD) (t : Fin cfg10.N) (d) : (dat10 V B c).before 1 t d = iblk10 V c 1 t :=
  before10_1_of V (dat10 V B c) (A10_eq V B c 1) (after10_1 V B c) t d
theorem before10_2 (V : Valuation τ sig (Elt F)) (B : Set (SemLoc sig × HIx 8)) (c : Dev nD) (t : Fin cfg10.N) (d) : (dat10 V B c).before 2 t d = iblk10 V c 2 t :=
  before10_2_of V (dat10 V B c) (A10_eq V B c 2) (after10_2 V B c) t d
theorem before10_3 (V : Valuation τ sig (Elt F)) (B : Set (SemLoc sig × HIx 8)) (c : Dev nD) (t : Fin cfg10.N) (d) : (dat10 V B c).before 3 t d = iblk10 V c 3 t :=
  before10_3_of V (dat10 V B c) (A10_eq V B c 3) (after10_3 V B c) t d
theorem before10_4 (V : Valuation τ sig (Elt F)) (B : Set (SemLoc sig × HIx 8)) (c : Dev nD) (t : Fin cfg10.N) (d) : (dat10 V B c).before 4 t d = iblk10 V c 4 t :=
  before10_4_of V (dat10 V B c) (A10_eq V B c 4) (after10_4 V B c) t d

/-! ## The proof data of the region of pipeline cfg11 -/

/-- Window `w`'s block at point `t`, read off its array at the valuation the region is entered at. -/
def iblk11 (V : Valuation τ sig (Elt F)) (c : Dev nD) (w : Fin cfg11.W) (t : Fin cfg11.N) :
    ((cfg11.win w).xblock (cfg11.grid.coords t)).Idx → Elt F (cfg11.win w).elt :=
  ((cfg11.win w).blk t).view.read (Elt F) (vb V c (Pipeline.arrRef spec11 w))

theorem before11_0_of (V : Valuation τ sig (Elt F)) {c : Dev nD} (dat : Dat τ (Elt F) (HIx 8) ℕ Sc.UU ℕ cfg11 c)
    (hA : dat.A 0 = vb V c (Pipeline.arrRef spec11 0)) (hafter : ∀ t, dat.after 0 t = iblk11 V c 0 t) (t : Fin cfg11.N) (d) :
    dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of (V : Valuation τ sig (Elt F)) {c : Dev nD} (dat : Dat τ (Elt F) (HIx 8) ℕ Sc.UU ℕ cfg11 c)
    (hA : dat.A 1 = vb V c (Pipeline.arrRef spec11 1)) (hafter : ∀ t, dat.after 1 t = iblk11 V c 1 t) (t : Fin cfg11.N) (d) :
    dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of (V : Valuation τ sig (Elt F)) {c : Dev nD} (dat : Dat τ (Elt F) (HIx 8) ℕ Sc.UU ℕ cfg11 c)
    (hA : dat.A 2 = vb V c (Pipeline.arrRef spec11 2)) (hafter : ∀ t, dat.after 2 t = iblk11 V c 2 t) (t : Fin cfg11.N) (d) :
    dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of (V : Valuation τ sig (Elt F)) {c : Dev nD} (dat : Dat τ (Elt F) (HIx 8) ℕ Sc.UU ℕ cfg11 c)
    (hA : dat.A 3 = vb V c (Pipeline.arrRef spec11 3)) (hafter : ∀ t, dat.after 3 t = iblk11 V c 3 t) (t : Fin cfg11.N) (d) :
    dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of (V : Valuation τ sig (Elt F)) {c : Dev nD} (dat : Dat τ (Elt F) (HIx 8) ℕ Sc.UU ℕ cfg11 c)
    (hA : dat.A 4 = vb V c (Pipeline.arrRef spec11 4)) (hafter : ∀ t, dat.after 4 t = iblk11 V c 4 t) (t : Fin cfg11.N) (d) :
    dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The arrays as the valuation has them; after the body each input's buffer at its block and the result's at the
    payload of the five blocks; the invariant the scoped buffers no window stages; nothing owed, the recorded pairs within `B`; full shares. -/
def dat11 (V : Valuation τ sig (Elt F)) (B : Set (SemLoc sig × HIx 8)) (c : Dev nD) : Dat τ (Elt F) (HIx 8) ℕ Sc.UU ℕ cfg11 c where
  A w := vb V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out8 (iblk11 V c 0 t) (iblk11 V c 1 t) (iblk11 V c 2 t) (iblk11 V c 3 t) (iblk11 V c 4 t)
  Φ _ := Pipeline.scopedRest (Ix := HIx 8) (Name := ℕ) (U := Sc.UU) (Lvl := ℕ) (Val := Elt F) spec11 c
  q _ := fullShare
  owed _ := 0
  recorded _ := B

theorem A11_eq (V : Valuation τ sig (Elt F)) (B : Set (SemLoc sig × HIx 8)) (c : Dev nD) (w : Fin cfg11.W) : (dat11 V B c).A w = vb V c (Pipeline.arrRef spec11 w) := by
  dsimp only [dat11]
theorem after11_0 (V : Valuation τ sig (Elt F)) (B : Set (SemLoc sig × HIx 8)) (c : Dev nD) (t : Fin cfg11.N) : (dat11 V B c).after 0 t = iblk11 V c 0 t := by dsimp only [dat11]
theorem after11_1 (V : Valuation τ sig (Elt F)) (B : Set (SemLoc sig × HIx 8)) (c : Dev nD) (t : Fin cfg11.N) : (dat11 V B c).after 1 t = iblk11 V c 1 t := by dsimp only [dat11]
theorem after11_2 (V : Valuation τ sig (Elt F)) (B : Set (SemLoc sig × HIx 8)) (c : Dev nD) (t : Fin cfg11.N) : (dat11 V B c).after 2 t = iblk11 V c 2 t := by dsimp only [dat11]
theorem after11_3 (V : Valuation τ sig (Elt F)) (B : Set (SemLoc sig × HIx 8)) (c : Dev nD) (t : Fin cfg11.N) : (dat11 V B c).after 3 t = iblk11 V c 3 t := by dsimp only [dat11]
theorem after11_4 (V : Valuation τ sig (Elt F)) (B : Set (SemLoc sig × HIx 8)) (c : Dev nD) (t : Fin cfg11.N) : (dat11 V B c).after 4 t = iblk11 V c 4 t := by dsimp only [dat11]
theorem after11_5 (V : Valuation τ sig (Elt F)) (B : Set (SemLoc sig × HIx 8)) (c : Dev nD) (t : Fin cfg11.N) :
    (dat11 V B c).after 5 t = out8 (iblk11 V c 0 t) (iblk11 V c 1 t) (iblk11 V c 2 t) (iblk11 V c 3 t) (iblk11 V c 4 t) := by dsimp only [dat11]

theorem before11_0 (V : Valuation τ sig (Elt F)) (B : Set (SemLoc sig × HIx 8)) (c : Dev nD) (t : Fin cfg11.N) (d) : (dat11 V B c).before 0 t d = iblk11 V c 0 t :=
  before11_0_of V (dat11 V B c) (A11_eq V B c 0) (after11_0 V B c) t d
theorem before11_1 (V : Valuation τ sig (Elt F)) (B : Set (SemLoc sig × HIx 8)) (c : Dev nD) (t : Fin cfg11.N) (d) : (dat11 V B c).before 1 t d = iblk11 V c 1 t :=
  before11_1_of V (dat11 V B c) (A11_eq V B c 1) (after11_1 V B c) t d
theorem before11_2 (V : Valuation τ sig (Elt F)) (B : Set (SemLoc sig × HIx 8)) (c : Dev nD) (t : Fin cfg11.N) (d) : (dat11 V B c).before 2 t d = iblk11 V c 2 t :=
  before11_2_of V (dat11 V B c) (A11_eq V B c 2) (after11_2 V B c) t d
theorem before11_3 (V : Valuation τ sig (Elt F)) (B : Set (SemLoc sig × HIx 8)) (c : Dev nD) (t : Fin cfg11.N) (d) : (dat11 V B c).before 3 t d = iblk11 V c 3 t :=
  before11_3_of V (dat11 V B c) (A11_eq V B c 3) (after11_3 V B c) t d
theorem before11_4 (V : Valuation τ sig (Elt F)) (B : Set (SemLoc sig × HIx 8)) (c : Dev nD) (t : Fin cfg11.N) (d) : (dat11 V B c).before 4 t d = iblk11 V c 4 t :=
  before11_4_of V (dat11 V B c) (A11_eq V B c 4) (after11_4 V B c) t d

/-! ## The proof data of the region of pipeline cfg12 -/

/-- Window `w`'s block at point `t`, read off its array at the valuation the region is entered at. -/
def iblk12 (V : Valuation τ sig (Elt F)) (c : Dev nD) (w : Fin cfg12.W) (t : Fin cfg12.N) :
    ((cfg12.win w).xblock (cfg12.grid.coords t)).Idx → Elt F (cfg12.win w).elt :=
  ((cfg12.win w).blk t).view.read (Elt F) (vb V c (Pipeline.arrRef spec12 w))

theorem before12_0_of (V : Valuation τ sig (Elt F)) {c : Dev nD} (dat : Dat τ (Elt F) (HIx 8) ℕ Sc.UU ℕ cfg12 c)
    (hA : dat.A 0 = vb V c (Pipeline.arrRef spec12 0)) (hafter : ∀ t, dat.after 0 t = iblk12 V c 0 t) (t : Fin cfg12.N) (d) :
    dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of (V : Valuation τ sig (Elt F)) {c : Dev nD} (dat : Dat τ (Elt F) (HIx 8) ℕ Sc.UU ℕ cfg12 c)
    (hA : dat.A 1 = vb V c (Pipeline.arrRef spec12 1)) (hafter : ∀ t, dat.after 1 t = iblk12 V c 1 t) (t : Fin cfg12.N) (d) :
    dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of (V : Valuation τ sig (Elt F)) {c : Dev nD} (dat : Dat τ (Elt F) (HIx 8) ℕ Sc.UU ℕ cfg12 c)
    (hA : dat.A 2 = vb V c (Pipeline.arrRef spec12 2)) (hafter : ∀ t, dat.after 2 t = iblk12 V c 2 t) (t : Fin cfg12.N) (d) :
    dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of (V : Valuation τ sig (Elt F)) {c : Dev nD} (dat : Dat τ (Elt F) (HIx 8) ℕ Sc.UU ℕ cfg12 c)
    (hA : dat.A 3 = vb V c (Pipeline.arrRef spec12 3)) (hafter : ∀ t, dat.after 3 t = iblk12 V c 3 t) (t : Fin cfg12.N) (d) :
    dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

theorem before12_4_of (V : Valuation τ sig (Elt F)) {c : Dev nD} (dat : Dat τ (Elt F) (HIx 8) ℕ Sc.UU ℕ cfg12 c)
    (hA : dat.A 4 = vb V c (Pipeline.arrRef spec12 4)) (hafter : ∀ t, dat.after 4 t = iblk12 V c 4 t) (t : Fin cfg12.N) (d) :
    dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- The arrays as the valuation has them; after the body each input's buffer at its block and the result's at the
    payload of the five blocks; the invariant the scoped buffers no window stages; nothing owed, the recorded pairs within `B`; full shares. -/
def dat12 (V : Valuation τ sig (Elt F)) (B : Set (SemLoc sig × HIx 8)) (c : Dev nD) : Dat τ (Elt F) (HIx 8) ℕ Sc.UU ℕ cfg12 c where
  A w := vb V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out8 (iblk12 V c 0 t) (iblk12 V c 1 t) (iblk12 V c 2 t) (iblk12 V c 3 t) (iblk12 V c 4 t)
  Φ _ := Pipeline.scopedRest (Ix := HIx 8) (Name := ℕ) (U := Sc.UU) (Lvl := ℕ) (Val := Elt F) spec12 c
  q _ := fullShare
  owed _ := 0
  recorded _ := B

theorem A12_eq (V : Valuation τ sig (Elt F)) (B : Set (SemLoc sig × HIx 8)) (c : Dev nD) (w : Fin cfg12.W) : (dat12 V B c).A w = vb V c (Pipeline.arrRef spec12 w) := by
  dsimp only [dat12]
theorem after12_0 (V : Valuation τ sig (Elt F)) (B : Set (SemLoc sig × HIx 8)) (c : Dev nD) (t : Fin cfg12.N) : (dat12 V B c).after 0 t = iblk12 V c 0 t := by dsimp only [dat12]
theorem after12_1 (V : Valuation τ sig (Elt F)) (B : Set (SemLoc sig × HIx 8)) (c : Dev nD) (t : Fin cfg12.N) : (dat12 V B c).after 1 t = iblk12 V c 1 t := by dsimp only [dat12]
theorem after12_2 (V : Valuation τ sig (Elt F)) (B : Set (SemLoc sig × HIx 8)) (c : Dev nD) (t : Fin cfg12.N) : (dat12 V B c).after 2 t = iblk12 V c 2 t := by dsimp only [dat12]
theorem after12_3 (V : Valuation τ sig (Elt F)) (B : Set (SemLoc sig × HIx 8)) (c : Dev nD) (t : Fin cfg12.N) : (dat12 V B c).after 3 t = iblk12 V c 3 t := by dsimp only [dat12]
theorem after12_4 (V : Valuation τ sig (Elt F)) (B : Set (SemLoc sig × HIx 8)) (c : Dev nD) (t : Fin cfg12.N) : (dat12 V B c).after 4 t = iblk12 V c 4 t := by dsimp only [dat12]
theorem after12_5 (V : Valuation τ sig (Elt F)) (B : Set (SemLoc sig × HIx 8)) (c : Dev nD) (t : Fin cfg12.N) :
    (dat12 V B c).after 5 t = out8 (iblk12 V c 0 t) (iblk12 V c 1 t) (iblk12 V c 2 t) (iblk12 V c 3 t) (iblk12 V c 4 t) := by dsimp only [dat12]

theorem before12_0 (V : Valuation τ sig (Elt F)) (B : Set (SemLoc sig × HIx 8)) (c : Dev nD) (t : Fin cfg12.N) (d) : (dat12 V B c).before 0 t d = iblk12 V c 0 t :=
  before12_0_of V (dat12 V B c) (A12_eq V B c 0) (after12_0 V B c) t d
theorem before12_1 (V : Valuation τ sig (Elt F)) (B : Set (SemLoc sig × HIx 8)) (c : Dev nD) (t : Fin cfg12.N) (d) : (dat12 V B c).before 1 t d = iblk12 V c 1 t :=
  before12_1_of V (dat12 V B c) (A12_eq V B c 1) (after12_1 V B c) t d
theorem before12_2 (V : Valuation τ sig (Elt F)) (B : Set (SemLoc sig × HIx 8)) (c : Dev nD) (t : Fin cfg12.N) (d) : (dat12 V B c).before 2 t d = iblk12 V c 2 t :=
  before12_2_of V (dat12 V B c) (A12_eq V B c 2) (after12_2 V B c) t d
theorem before12_3 (V : Valuation τ sig (Elt F)) (B : Set (SemLoc sig × HIx 8)) (c : Dev nD) (t : Fin cfg12.N) (d) : (dat12 V B c).before 3 t d = iblk12 V c 3 t :=
  before12_3_of V (dat12 V B c) (A12_eq V B c 3) (after12_3 V B c) t d
theorem before12_4 (V : Valuation τ sig (Elt F)) (B : Set (SemLoc sig × HIx 8)) (c : Dev nD) (t : Fin cfg12.N) (d) : (dat12 V B c).before 4 t d = iblk12 V c 4 t :=
  before12_4_of V (dat12 V B c) (A12_eq V B c 4) (after12_4 V B c) t d

/-! ## The proof data of the region of pipeline cfg13 -/

/-- Window `w`'s block at point `t`, read off its array at the valuation the region is entered at. -/
def iblk13 (V : Valuation τ sig (Elt F)) (c : Dev nD) (w : Fin cfg13.W) (t : Fin cfg13.N) :
    ((cfg13.win w).xblock (cfg13.grid.coords t)).Idx → Elt F (cfg13.win w).elt :=
  ((cfg13.win w).blk t).view.read (Elt F) (vb V c (Pipeline.arrRef spec13 w))

theorem before13_0_of (V : Valuation τ sig (Elt F)) {c : Dev nD} (dat : Dat τ (Elt F) (HIx 8) ℕ Sc.UU ℕ cfg13 c)
    (hA : dat.A 0 = vb V c (Pipeline.arrRef spec13 0)) (hafter : ∀ t, dat.after 0 t = iblk13 V c 0 t) (t : Fin cfg13.N) (d) :
    dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of (V : Valuation τ sig (Elt F)) {c : Dev nD} (dat : Dat τ (Elt F) (HIx 8) ℕ Sc.UU ℕ cfg13 c)
    (hA : dat.A 1 = vb V c (Pipeline.arrRef spec13 1)) (hafter : ∀ t, dat.after 1 t = iblk13 V c 1 t) (t : Fin cfg13.N) (d) :
    dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of (V : Valuation τ sig (Elt F)) {c : Dev nD} (dat : Dat τ (Elt F) (HIx 8) ℕ Sc.UU ℕ cfg13 c)
    (hA : dat.A 2 = vb V c (Pipeline.arrRef spec13 2)) (hafter : ∀ t, dat.after 2 t = iblk13 V c 2 t) (t : Fin cfg13.N) (d) :
    dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_3_of (V : Valuation τ sig (Elt F)) {c : Dev nD} (dat : Dat τ (Elt F) (HIx 8) ℕ Sc.UU ℕ cfg13 c)
    (hA : dat.A 3 = vb V c (Pipeline.arrRef spec13 3)) (hafter : ∀ t, dat.after 3 t = iblk13 V c 3 t) (t : Fin cfg13.N) (d) :
    dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

theorem before13_4_of (V : Valuation τ sig (Elt F)) {c : Dev nD} (dat : Dat τ (Elt F) (HIx 8) ℕ Sc.UU ℕ cfg13 c)
    (hA : dat.A 4 = vb V c (Pipeline.arrRef spec13 4)) (hafter : ∀ t, dat.after 4 t = iblk13 V c 4 t) (t : Fin cfg13.N) (d) :
    dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- The arrays as the valuation has them; after the body each input's buffer at its block and the result's at the
    payload of the five blocks; the invariant the scoped buffers no window stages; nothing owed, the recorded pairs within `B`; full shares. -/
def dat13 (V : Valuation τ sig (Elt F)) (B : Set (SemLoc sig × HIx 8)) (c : Dev nD) : Dat τ (Elt F) (HIx 8) ℕ Sc.UU ℕ cfg13 c where
  A w := vb V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out8 (iblk13 V c 0 t) (iblk13 V c 1 t) (iblk13 V c 2 t) (iblk13 V c 3 t) (iblk13 V c 4 t)
  Φ _ := Pipeline.scopedRest (Ix := HIx 8) (Name := ℕ) (U := Sc.UU) (Lvl := ℕ) (Val := Elt F) spec13 c
  q _ := fullShare
  owed _ := 0
  recorded _ := B

theorem A13_eq (V : Valuation τ sig (Elt F)) (B : Set (SemLoc sig × HIx 8)) (c : Dev nD) (w : Fin cfg13.W) : (dat13 V B c).A w = vb V c (Pipeline.arrRef spec13 w) := by
  dsimp only [dat13]
theorem after13_0 (V : Valuation τ sig (Elt F)) (B : Set (SemLoc sig × HIx 8)) (c : Dev nD) (t : Fin cfg13.N) : (dat13 V B c).after 0 t = iblk13 V c 0 t := by dsimp only [dat13]
theorem after13_1 (V : Valuation τ sig (Elt F)) (B : Set (SemLoc sig × HIx 8)) (c : Dev nD) (t : Fin cfg13.N) : (dat13 V B c).after 1 t = iblk13 V c 1 t := by dsimp only [dat13]
theorem after13_2 (V : Valuation τ sig (Elt F)) (B : Set (SemLoc sig × HIx 8)) (c : Dev nD) (t : Fin cfg13.N) : (dat13 V B c).after 2 t = iblk13 V c 2 t := by dsimp only [dat13]
theorem after13_3 (V : Valuation τ sig (Elt F)) (B : Set (SemLoc sig × HIx 8)) (c : Dev nD) (t : Fin cfg13.N) : (dat13 V B c).after 3 t = iblk13 V c 3 t := by dsimp only [dat13]
theorem after13_4 (V : Valuation τ sig (Elt F)) (B : Set (SemLoc sig × HIx 8)) (c : Dev nD) (t : Fin cfg13.N) : (dat13 V B c).after 4 t = iblk13 V c 4 t := by dsimp only [dat13]
theorem after13_5 (V : Valuation τ sig (Elt F)) (B : Set (SemLoc sig × HIx 8)) (c : Dev nD) (t : Fin cfg13.N) :
    (dat13 V B c).after 5 t = out8 (iblk13 V c 0 t) (iblk13 V c 1 t) (iblk13 V c 2 t) (iblk13 V c 3 t) (iblk13 V c 4 t) := by dsimp only [dat13]

theorem before13_0 (V : Valuation τ sig (Elt F)) (B : Set (SemLoc sig × HIx 8)) (c : Dev nD) (t : Fin cfg13.N) (d) : (dat13 V B c).before 0 t d = iblk13 V c 0 t :=
  before13_0_of V (dat13 V B c) (A13_eq V B c 0) (after13_0 V B c) t d
theorem before13_1 (V : Valuation τ sig (Elt F)) (B : Set (SemLoc sig × HIx 8)) (c : Dev nD) (t : Fin cfg13.N) (d) : (dat13 V B c).before 1 t d = iblk13 V c 1 t :=
  before13_1_of V (dat13 V B c) (A13_eq V B c 1) (after13_1 V B c) t d
theorem before13_2 (V : Valuation τ sig (Elt F)) (B : Set (SemLoc sig × HIx 8)) (c : Dev nD) (t : Fin cfg13.N) (d) : (dat13 V B c).before 2 t d = iblk13 V c 2 t :=
  before13_2_of V (dat13 V B c) (A13_eq V B c 2) (after13_2 V B c) t d
theorem before13_3 (V : Valuation τ sig (Elt F)) (B : Set (SemLoc sig × HIx 8)) (c : Dev nD) (t : Fin cfg13.N) (d) : (dat13 V B c).before 3 t d = iblk13 V c 3 t :=
  before13_3_of V (dat13 V B c) (A13_eq V B c 3) (after13_3 V B c) t d
theorem before13_4 (V : Valuation τ sig (Elt F)) (B : Set (SemLoc sig × HIx 8)) (c : Dev nD) (t : Fin cfg13.N) (d) : (dat13 V B c).before 4 t d = iblk13 V c 4 t :=
  before13_4_of V (dat13 V B c) (A13_eq V B c 4) (after13_4 V B c) t d

/-! ## The proof data of the region of pipeline cfg14 -/

/-- Window `w`'s block at point `t`, read off its array at the valuation the region is entered at. -/
def iblk14 (V : Valuation τ sig (Elt F)) (c : Dev nD) (w : Fin cfg14.W) (t : Fin cfg14.N) :
    ((cfg14.win w).xblock (cfg14.grid.coords t)).Idx → Elt F (cfg14.win w).elt :=
  ((cfg14.win w).blk t).view.read (Elt F) (vb V c (Pipeline.arrRef spec14 w))

theorem before14_0_of (V : Valuation τ sig (Elt F)) {c : Dev nD} (dat : Dat τ (Elt F) (HIx 8) ℕ Sc.UU ℕ cfg14 c)
    (hA : dat.A 0 = vb V c (Pipeline.arrRef spec14 0)) (hafter : ∀ t, dat.after 0 t = iblk14 V c 0 t) (t : Fin cfg14.N) (d) :
    dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of (V : Valuation τ sig (Elt F)) {c : Dev nD} (dat : Dat τ (Elt F) (HIx 8) ℕ Sc.UU ℕ cfg14 c)
    (hA : dat.A 1 = vb V c (Pipeline.arrRef spec14 1)) (hafter : ∀ t, dat.after 1 t = iblk14 V c 1 t) (t : Fin cfg14.N) (d) :
    dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of (V : Valuation τ sig (Elt F)) {c : Dev nD} (dat : Dat τ (Elt F) (HIx 8) ℕ Sc.UU ℕ cfg14 c)
    (hA : dat.A 2 = vb V c (Pipeline.arrRef spec14 2)) (hafter : ∀ t, dat.after 2 t = iblk14 V c 2 t) (t : Fin cfg14.N) (d) :
    dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem before14_3_of (V : Valuation τ sig (Elt F)) {c : Dev nD} (dat : Dat τ (Elt F) (HIx 8) ℕ Sc.UU ℕ cfg14 c)
    (hA : dat.A 3 = vb V c (Pipeline.arrRef spec14 3)) (hafter : ∀ t, dat.after 3 t = iblk14 V c 3 t) (t : Fin cfg14.N) (d) :
    dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

theorem before14_4_of (V : Valuation τ sig (Elt F)) {c : Dev nD} (dat : Dat τ (Elt F) (HIx 8) ℕ Sc.UU ℕ cfg14 c)
    (hA : dat.A 4 = vb V c (Pipeline.arrRef spec14 4)) (hafter : ∀ t, dat.after 4 t = iblk14 V c 4 t) (t : Fin cfg14.N) (d) :
    dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- The arrays as the valuation has them; after the body each input's buffer at its block and the result's at the
    payload of the five blocks; the invariant the scoped buffers no window stages; nothing owed, the recorded pairs within `B`; full shares. -/
def dat14 (V : Valuation τ sig (Elt F)) (B : Set (SemLoc sig × HIx 8)) (c : Dev nD) : Dat τ (Elt F) (HIx 8) ℕ Sc.UU ℕ cfg14 c where
  A w := vb V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out8 (iblk14 V c 0 t) (iblk14 V c 1 t) (iblk14 V c 2 t) (iblk14 V c 3 t) (iblk14 V c 4 t)
  Φ _ := Pipeline.scopedRest (Ix := HIx 8) (Name := ℕ) (U := Sc.UU) (Lvl := ℕ) (Val := Elt F) spec14 c
  q _ := fullShare
  owed _ := 0
  recorded _ := B

theorem A14_eq (V : Valuation τ sig (Elt F)) (B : Set (SemLoc sig × HIx 8)) (c : Dev nD) (w : Fin cfg14.W) : (dat14 V B c).A w = vb V c (Pipeline.arrRef spec14 w) := by
  dsimp only [dat14]
theorem after14_0 (V : Valuation τ sig (Elt F)) (B : Set (SemLoc sig × HIx 8)) (c : Dev nD) (t : Fin cfg14.N) : (dat14 V B c).after 0 t = iblk14 V c 0 t := by dsimp only [dat14]
theorem after14_1 (V : Valuation τ sig (Elt F)) (B : Set (SemLoc sig × HIx 8)) (c : Dev nD) (t : Fin cfg14.N) : (dat14 V B c).after 1 t = iblk14 V c 1 t := by dsimp only [dat14]
theorem after14_2 (V : Valuation τ sig (Elt F)) (B : Set (SemLoc sig × HIx 8)) (c : Dev nD) (t : Fin cfg14.N) : (dat14 V B c).after 2 t = iblk14 V c 2 t := by dsimp only [dat14]
theorem after14_3 (V : Valuation τ sig (Elt F)) (B : Set (SemLoc sig × HIx 8)) (c : Dev nD) (t : Fin cfg14.N) : (dat14 V B c).after 3 t = iblk14 V c 3 t := by dsimp only [dat14]
theorem after14_4 (V : Valuation τ sig (Elt F)) (B : Set (SemLoc sig × HIx 8)) (c : Dev nD) (t : Fin cfg14.N) : (dat14 V B c).after 4 t = iblk14 V c 4 t := by dsimp only [dat14]
theorem after14_5 (V : Valuation τ sig (Elt F)) (B : Set (SemLoc sig × HIx 8)) (c : Dev nD) (t : Fin cfg14.N) :
    (dat14 V B c).after 5 t = out8 (iblk14 V c 0 t) (iblk14 V c 1 t) (iblk14 V c 2 t) (iblk14 V c 3 t) (iblk14 V c 4 t) := by dsimp only [dat14]

theorem before14_0 (V : Valuation τ sig (Elt F)) (B : Set (SemLoc sig × HIx 8)) (c : Dev nD) (t : Fin cfg14.N) (d) : (dat14 V B c).before 0 t d = iblk14 V c 0 t :=
  before14_0_of V (dat14 V B c) (A14_eq V B c 0) (after14_0 V B c) t d
theorem before14_1 (V : Valuation τ sig (Elt F)) (B : Set (SemLoc sig × HIx 8)) (c : Dev nD) (t : Fin cfg14.N) (d) : (dat14 V B c).before 1 t d = iblk14 V c 1 t :=
  before14_1_of V (dat14 V B c) (A14_eq V B c 1) (after14_1 V B c) t d
theorem before14_2 (V : Valuation τ sig (Elt F)) (B : Set (SemLoc sig × HIx 8)) (c : Dev nD) (t : Fin cfg14.N) (d) : (dat14 V B c).before 2 t d = iblk14 V c 2 t :=
  before14_2_of V (dat14 V B c) (A14_eq V B c 2) (after14_2 V B c) t d
theorem before14_3 (V : Valuation τ sig (Elt F)) (B : Set (SemLoc sig × HIx 8)) (c : Dev nD) (t : Fin cfg14.N) (d) : (dat14 V B c).before 3 t d = iblk14 V c 3 t :=
  before14_3_of V (dat14 V B c) (A14_eq V B c 3) (after14_3 V B c) t d
theorem before14_4 (V : Valuation τ sig (Elt F)) (B : Set (SemLoc sig × HIx 8)) (c : Dev nD) (t : Fin cfg14.N) (d) : (dat14 V B c).before 4 t d = iblk14 V c 4 t :=
  before14_4_of V (dat14 V B c) (A14_eq V B c 4) (after14_4 V B c) t d

/-! ## The proof data of the region of pipeline cfg15 -/

/-- Window `w`'s block at point `t`, read off its array at the valuation the region is entered at. -/
def iblk15 (V : Valuation τ sig (Elt F)) (c : Dev nD) (w : Fin cfg15.W) (t : Fin cfg15.N) :
    ((cfg15.win w).xblock (cfg15.grid.coords t)).Idx → Elt F (cfg15.win w).elt :=
  ((cfg15.win w).blk t).view.read (Elt F) (vb V c (Pipeline.arrRef spec15 w))

theorem before15_0_of (V : Valuation τ sig (Elt F)) {c : Dev nD} (dat : Dat τ (Elt F) (HIx 8) ℕ Sc.UU ℕ cfg15 c)
    (hA : dat.A 0 = vb V c (Pipeline.arrRef spec15 0)) (hafter : ∀ t, dat.after 0 t = iblk15 V c 0 t) (t : Fin cfg15.N) (d) :
    dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of (V : Valuation τ sig (Elt F)) {c : Dev nD} (dat : Dat τ (Elt F) (HIx 8) ℕ Sc.UU ℕ cfg15 c)
    (hA : dat.A 1 = vb V c (Pipeline.arrRef spec15 1)) (hafter : ∀ t, dat.after 1 t = iblk15 V c 1 t) (t : Fin cfg15.N) (d) :
    dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of (V : Valuation τ sig (Elt F)) {c : Dev nD} (dat : Dat τ (Elt F) (HIx 8) ℕ Sc.UU ℕ cfg15 c)
    (hA : dat.A 2 = vb V c (Pipeline.arrRef spec15 2)) (hafter : ∀ t, dat.after 2 t = iblk15 V c 2 t) (t : Fin cfg15.N) (d) :
    dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

theorem before15_3_of (V : Valuation τ sig (Elt F)) {c : Dev nD} (dat : Dat τ (Elt F) (HIx 8) ℕ Sc.UU ℕ cfg15 c)
    (hA : dat.A 3 = vb V c (Pipeline.arrRef spec15 3)) (hafter : ∀ t, dat.after 3 t = iblk15 V c 3 t) (t : Fin cfg15.N) (d) :
    dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

theorem before15_4_of (V : Valuation τ sig (Elt F)) {c : Dev nD} (dat : Dat τ (Elt F) (HIx 8) ℕ Sc.UU ℕ cfg15 c)
    (hA : dat.A 4 = vb V c (Pipeline.arrRef spec15 4)) (hafter : ∀ t, dat.after 4 t = iblk15 V c 4 t) (t : Fin cfg15.N) (d) :
    dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)

/-- The arrays as the valuation has them; after the body each input's buffer at its block and the result's at the
    payload of the five blocks; the invariant the scoped buffers no window stages; nothing owed, the recorded pairs within `B`; full shares. -/
def dat15 (V : Valuation τ sig (Elt F)) (B : Set (SemLoc sig × HIx 8)) (c : Dev nD) : Dat τ (Elt F) (HIx 8) ℕ Sc.UU ℕ cfg15 c where
  A w := vb V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => out8 (iblk15 V c 0 t) (iblk15 V c 1 t) (iblk15 V c 2 t) (iblk15 V c 3 t) (iblk15 V c 4 t)
  Φ _ := Pipeline.scopedRest (Ix := HIx 8) (Name := ℕ) (U := Sc.UU) (Lvl := ℕ) (Val := Elt F) spec15 c
  q _ := fullShare
  owed _ := 0
  recorded _ := B

theorem A15_eq (V : Valuation τ sig (Elt F)) (B : Set (SemLoc sig × HIx 8)) (c : Dev nD) (w : Fin cfg15.W) : (dat15 V B c).A w = vb V c (Pipeline.arrRef spec15 w) := by
  dsimp only [dat15]
theorem after15_0 (V : Valuation τ sig (Elt F)) (B : Set (SemLoc sig × HIx 8)) (c : Dev nD) (t : Fin cfg15.N) : (dat15 V B c).after 0 t = iblk15 V c 0 t := by dsimp only [dat15]
theorem after15_1 (V : Valuation τ sig (Elt F)) (B : Set (SemLoc sig × HIx 8)) (c : Dev nD) (t : Fin cfg15.N) : (dat15 V B c).after 1 t = iblk15 V c 1 t := by dsimp only [dat15]
theorem after15_2 (V : Valuation τ sig (Elt F)) (B : Set (SemLoc sig × HIx 8)) (c : Dev nD) (t : Fin cfg15.N) : (dat15 V B c).after 2 t = iblk15 V c 2 t := by dsimp only [dat15]
theorem after15_3 (V : Valuation τ sig (Elt F)) (B : Set (SemLoc sig × HIx 8)) (c : Dev nD) (t : Fin cfg15.N) : (dat15 V B c).after 3 t = iblk15 V c 3 t := by dsimp only [dat15]
theorem after15_4 (V : Valuation τ sig (Elt F)) (B : Set (SemLoc sig × HIx 8)) (c : Dev nD) (t : Fin cfg15.N) : (dat15 V B c).after 4 t = iblk15 V c 4 t := by dsimp only [dat15]
theorem after15_5 (V : Valuation τ sig (Elt F)) (B : Set (SemLoc sig × HIx 8)) (c : Dev nD) (t : Fin cfg15.N) :
    (dat15 V B c).after 5 t = out8 (iblk15 V c 0 t) (iblk15 V c 1 t) (iblk15 V c 2 t) (iblk15 V c 3 t) (iblk15 V c 4 t) := by dsimp only [dat15]

theorem before15_0 (V : Valuation τ sig (Elt F)) (B : Set (SemLoc sig × HIx 8)) (c : Dev nD) (t : Fin cfg15.N) (d) : (dat15 V B c).before 0 t d = iblk15 V c 0 t :=
  before15_0_of V (dat15 V B c) (A15_eq V B c 0) (after15_0 V B c) t d
theorem before15_1 (V : Valuation τ sig (Elt F)) (B : Set (SemLoc sig × HIx 8)) (c : Dev nD) (t : Fin cfg15.N) (d) : (dat15 V B c).before 1 t d = iblk15 V c 1 t :=
  before15_1_of V (dat15 V B c) (A15_eq V B c 1) (after15_1 V B c) t d
theorem before15_2 (V : Valuation τ sig (Elt F)) (B : Set (SemLoc sig × HIx 8)) (c : Dev nD) (t : Fin cfg15.N) (d) : (dat15 V B c).before 2 t d = iblk15 V c 2 t :=
  before15_2_of V (dat15 V B c) (A15_eq V B c 2) (after15_2 V B c) t d
theorem before15_3 (V : Valuation τ sig (Elt F)) (B : Set (SemLoc sig × HIx 8)) (c : Dev nD) (t : Fin cfg15.N) (d) : (dat15 V B c).before 3 t d = iblk15 V c 3 t :=
  before15_3_of V (dat15 V B c) (A15_eq V B c 3) (after15_3 V B c) t d
theorem before15_4 (V : Valuation τ sig (Elt F)) (B : Set (SemLoc sig × HIx 8)) (c : Dev nD) (t : Fin cfg15.N) (d) : (dat15 V B c).before 4 t d = iblk15 V c 4 t :=
  before15_4_of V (dat15 V B c) (A15_eq V B c 4) (after15_4 V B c) t d

end Cert.KernelIdeal.TcTail

end
-- ==== Proof.TcTailOb.lean ====
/-
  The bodies of the other seven dense regions and their body obligations. These bodies also load the result's
  staging buffer before they overwrite it whole, and name as their first operand an array they never touch; what
  they leave in the result's buffer is the same payload of the five input blocks.
-/
import proofs.«204770_g8065948582451_cont_9to1c4b_476_56_alg».proof.Proof.ScPayI
import proofs.«204770_g8065948582451_cont_9to1c4b_476_56_alg».proof.Proof.Gen.KernelIdeal.Points
import proofs.«204770_g8065948582451_cont_9to1c4b_476_56_alg».proof.Proof.TcTailDats
import Idealize.ShloMosaic.Lib.Pipeline.FrameBody
import Idealize.ShloMosaic.Lib.Pipeline.RegionsLoop
import Idealize.ShloMosaic.Lib.Tactic

set_option maxRecDepth 16384

noncomputable section

namespace Cert.KernelIdeal.TcTail

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

set_option maxHeartbeats 1000000 in
/-- The body of the region of pipeline cfg9 on whole staging memrefs (its first operand, an array it never touches,
    is not needed): the inputs stay, the result's buffer ends at the payload of them. -/
theorem sound_kernel9 (c : Dev nD) (E : Set ℕ) (i : grid9.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc9__tc_body i arg1 harg1 arg2 harg2 arg3 harg3 arg4 harg4 arg5 harg5 arg6 harg6 arg7 harg7) K := by
  simp only [cc9__tc_body_eq_skeleton]; unfold cc9__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg9 -/

def bodyPre9 (V : Valuation τ sig (Elt F)) (B : Set (SemLoc sig × HIx 8)) (c : Dev nD) (ι : HIx 8) (t : Fin cfg9.N) : sProp 𝕄 :=
  iprop((dat9 V B c).Φ t.castSucc ∗ (dat9 V B c).owesAt ι t.castSucc
    ∗ (∃ d, owns (c : Thread nD τ) (st9_0 t) fullShare ((dat9 V B c).before 0 t d))
    ∗ (∃ d, owns (c : Thread nD τ) (st9_1 t) fullShare ((dat9 V B c).before 1 t d))
    ∗ (∃ d, owns (c : Thread nD τ) (st9_2 t) fullShare ((dat9 V B c).before 2 t d))
    ∗ (∃ d, owns (c : Thread nD τ) (st9_3 t) fullShare ((dat9 V B c).before 3 t d))
    ∗ (∃ d, owns (c : Thread nD τ) (st9_4 t) fullShare ((dat9 V B c).before 4 t d))
    ∗ (∃ d, owns (c : Thread nD τ) (st9_5 t) fullShare ((dat9 V B c).before 5 t d)))

def bodyPost9 (V : Valuation τ sig (Elt F)) (B : Set (SemLoc sig × HIx 8)) (c : Dev nD) (ι : HIx 8) (t : Fin cfg9.N) : sProp 𝕄 :=
  iprop((dat9 V B c).Φ t.succ ∗ (dat9 V B c).owesAt ι t.succ
    ∗ owns (c : Thread nD τ) (st9_0 t) fullShare ((dat9 V B c).after 0 t)
    ∗ owns (c : Thread nD τ) (st9_1 t) fullShare ((dat9 V B c).after 1 t)
    ∗ owns (c : Thread nD τ) (st9_2 t) fullShare ((dat9 V B c).after 2 t)
    ∗ owns (c : Thread nD τ) (st9_3 t) fullShare ((dat9 V B c).after 3 t)
    ∗ owns (c : Thread nD τ) (st9_4 t) fullShare ((dat9 V B c).after 4 t)
    ∗ owns (c : Thread nD τ) (st9_5 t) fullShare ((dat9 V B c).after 5 t))

theorem sound_body9 (V : Valuation τ sig (Elt F)) (B : Set (SemLoc sig × HIx 8)) (c : Dev nD) (ι : HIx 8) (t : Fin cfg9.N) :
    bodyPre9 V B c ι t ⊢ wp frame (wpE (defs₀ (F := F)) Variants.none c none) Set.univ (bodyAt9 t) (fun _ => bodyPost9 V B c ι t) := by
  unfold bodyPre9 bodyPost9 bodyAt9
  simp only [before9_0, before9_1, before9_2, before9_3, before9_4]
  rw [show (dat9 V B c).Φ t.succ = (dat9 V B c).Φ t.castSucc from rfl,
    show (dat9 V B c).owesAt ι t.succ = (dat9 V B c).owesAt ι t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg9, at every point. -/
theorem body_obligation9 (V : Valuation τ sig (Elt F)) (B : Set (SemLoc sig × HIx 8)) (c : Dev nD) (ι : HIx 8) :
    BodyObligation (dat9 (F := F) V B c) (defs₀ (F := F)) Variants.none ι Set.univ := fun t => by
  rw [bigSep_W9, bigSep_W9]
  exact sound_body9 V B c ι t

set_option maxHeartbeats 1000000 in
/-- The body of the region of pipeline cfg10 on whole staging memrefs (its first operand, an array it never touches,
    is not needed): the inputs stay, the result's buffer ends at the payload of them. -/
theorem sound_kernel10 (c : Dev nD) (E : Set ℕ) (i : grid10.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc10__tc_body i arg1 harg1 arg2 harg2 arg3 harg3 arg4 harg4 arg5 harg5 arg6 harg6 arg7 harg7) K := by
  simp only [cc10__tc_body_eq_skeleton]; unfold cc10__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg10 -/

def bodyPre10 (V : Valuation τ sig (Elt F)) (B : Set (SemLoc sig × HIx 8)) (c : Dev nD) (ι : HIx 8) (t : Fin cfg10.N) : sProp 𝕄 :=
  iprop((dat10 V B c).Φ t.castSucc ∗ (dat10 V B c).owesAt ι t.castSucc
    ∗ (∃ d, owns (c : Thread nD τ) (st10_0 t) fullShare ((dat10 V B c).before 0 t d))
    ∗ (∃ d, owns (c : Thread nD τ) (st10_1 t) fullShare ((dat10 V B c).before 1 t d))
    ∗ (∃ d, owns (c : Thread nD τ) (st10_2 t) fullShare ((dat10 V B c).before 2 t d))
    ∗ (∃ d, owns (c : Thread nD τ) (st10_3 t) fullShare ((dat10 V B c).before 3 t d))
    ∗ (∃ d, owns (c : Thread nD τ) (st10_4 t) fullShare ((dat10 V B c).before 4 t d))
    ∗ (∃ d, owns (c : Thread nD τ) (st10_5 t) fullShare ((dat10 V B c).before 5 t d)))

def bodyPost10 (V : Valuation τ sig (Elt F)) (B : Set (SemLoc sig × HIx 8)) (c : Dev nD) (ι : HIx 8) (t : Fin cfg10.N) : sProp 𝕄 :=
  iprop((dat10 V B c).Φ t.succ ∗ (dat10 V B c).owesAt ι t.succ
    ∗ owns (c : Thread nD τ) (st10_0 t) fullShare ((dat10 V B c).after 0 t)
    ∗ owns (c : Thread nD τ) (st10_1 t) fullShare ((dat10 V B c).after 1 t)
    ∗ owns (c : Thread nD τ) (st10_2 t) fullShare ((dat10 V B c).after 2 t)
    ∗ owns (c : Thread nD τ) (st10_3 t) fullShare ((dat10 V B c).after 3 t)
    ∗ owns (c : Thread nD τ) (st10_4 t) fullShare ((dat10 V B c).after 4 t)
    ∗ owns (c : Thread nD τ) (st10_5 t) fullShare ((dat10 V B c).after 5 t))

theorem sound_body10 (V : Valuation τ sig (Elt F)) (B : Set (SemLoc sig × HIx 8)) (c : Dev nD) (ι : HIx 8) (t : Fin cfg10.N) :
    bodyPre10 V B c ι t ⊢ wp frame (wpE (defs₀ (F := F)) Variants.none c none) Set.univ (bodyAt10 t) (fun _ => bodyPost10 V B c ι t) := by
  unfold bodyPre10 bodyPost10 bodyAt10
  simp only [before10_0, before10_1, before10_2, before10_3, before10_4]
  rw [show (dat10 V B c).Φ t.succ = (dat10 V B c).Φ t.castSucc from rfl,
    show (dat10 V B c).owesAt ι t.succ = (dat10 V B c).owesAt ι t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ (grid10.coords t) _ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg10, at every point. -/
theorem body_obligation10 (V : Valuation τ sig (Elt F)) (B : Set (SemLoc sig × HIx 8)) (c : Dev nD) (ι : HIx 8) :
    BodyObligation (dat10 (F := F) V B c) (defs₀ (F := F)) Variants.none ι Set.univ := fun t => by
  rw [bigSep_W10, bigSep_W10]
  exact sound_body10 V B c ι t

set_option maxHeartbeats 1000000 in
/-- The body of the region of pipeline cfg11 on whole staging memrefs (its first operand, an array it never touches,
    is not needed): the inputs stay, the result's buffer ends at the payload of them. -/
theorem sound_kernel11 (c : Dev nD) (E : Set ℕ) (i : grid11.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc11__tc_body i arg1 harg1 arg2 harg2 arg3 harg3 arg4 harg4 arg5 harg5 arg6 harg6 arg7 harg7) K := by
  simp only [cc11__tc_body_eq_skeleton]; unfold cc11__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg11 -/

def bodyPre11 (V : Valuation τ sig (Elt F)) (B : Set (SemLoc sig × HIx 8)) (c : Dev nD) (ι : HIx 8) (t : Fin cfg11.N) : sProp 𝕄 :=
  iprop((dat11 V B c).Φ t.castSucc ∗ (dat11 V B c).owesAt ι t.castSucc
    ∗ (∃ d, owns (c : Thread nD τ) (st11_0 t) fullShare ((dat11 V B c).before 0 t d))
    ∗ (∃ d, owns (c : Thread nD τ) (st11_1 t) fullShare ((dat11 V B c).before 1 t d))
    ∗ (∃ d, owns (c : Thread nD τ) (st11_2 t) fullShare ((dat11 V B c).before 2 t d))
    ∗ (∃ d, owns (c : Thread nD τ) (st11_3 t) fullShare ((dat11 V B c).before 3 t d))
    ∗ (∃ d, owns (c : Thread nD τ) (st11_4 t) fullShare ((dat11 V B c).before 4 t d))
    ∗ (∃ d, owns (c : Thread nD τ) (st11_5 t) fullShare ((dat11 V B c).before 5 t d)))

def bodyPost11 (V : Valuation τ sig (Elt F)) (B : Set (SemLoc sig × HIx 8)) (c : Dev nD) (ι : HIx 8) (t : Fin cfg11.N) : sProp 𝕄 :=
  iprop((dat11 V B c).Φ t.succ ∗ (dat11 V B c).owesAt ι t.succ
    ∗ owns (c : Thread nD τ) (st11_0 t) fullShare ((dat11 V B c).after 0 t)
    ∗ owns (c : Thread nD τ) (st11_1 t) fullShare ((dat11 V B c).after 1 t)
    ∗ owns (c : Thread nD τ) (st11_2 t) fullShare ((dat11 V B c).after 2 t)
    ∗ owns (c : Thread nD τ) (st11_3 t) fullShare ((dat11 V B c).after 3 t)
    ∗ owns (c : Thread nD τ) (st11_4 t) fullShare ((dat11 V B c).after 4 t)
    ∗ owns (c : Thread nD τ) (st11_5 t) fullShare ((dat11 V B c).after 5 t))

theorem sound_body11 (V : Valuation τ sig (Elt F)) (B : Set (SemLoc sig × HIx 8)) (c : Dev nD) (ι : HIx 8) (t : Fin cfg11.N) :
    bodyPre11 V B c ι t ⊢ wp frame (wpE (defs₀ (F := F)) Variants.none c none) Set.univ (bodyAt11 t) (fun _ => bodyPost11 V B c ι t) := by
  unfold bodyPre11 bodyPost11 bodyAt11
  simp only [before11_0, before11_1, before11_2, before11_3, before11_4]
  rw [show (dat11 V B c).Φ t.succ = (dat11 V B c).Φ t.castSucc from rfl,
    show (dat11 V B c).owesAt ι t.succ = (dat11 V B c).owesAt ι t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg11, at every point. -/
theorem body_obligation11 (V : Valuation τ sig (Elt F)) (B : Set (SemLoc sig × HIx 8)) (c : Dev nD) (ι : HIx 8) :
    BodyObligation (dat11 (F := F) V B c) (defs₀ (F := F)) Variants.none ι Set.univ := fun t => by
  rw [bigSep_W11, bigSep_W11]
  exact sound_body11 V B c ι t

set_option maxHeartbeats 1000000 in
/-- The body of the region of pipeline cfg12 on whole staging memrefs (its first operand, an array it never touches,
    is not needed): the inputs stay, the result's buffer ends at the payload of them. -/
theorem sound_kernel12 (c : Dev nD) (E : Set ℕ) (i : grid12.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc12__tc_body i arg1 harg1 arg2 harg2 arg3 harg3 arg4 harg4 arg5 harg5 arg6 harg6 arg7 harg7) K := by
  simp only [cc12__tc_body_eq_skeleton]; unfold cc12__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg12 -/

def bodyPre12 (V : Valuation τ sig (Elt F)) (B : Set (SemLoc sig × HIx 8)) (c : Dev nD) (ι : HIx 8) (t : Fin cfg12.N) : sProp 𝕄 :=
  iprop((dat12 V B c).Φ t.castSucc ∗ (dat12 V B c).owesAt ι t.castSucc
    ∗ (∃ d, owns (c : Thread nD τ) (st12_0 t) fullShare ((dat12 V B c).before 0 t d))
    ∗ (∃ d, owns (c : Thread nD τ) (st12_1 t) fullShare ((dat12 V B c).before 1 t d))
    ∗ (∃ d, owns (c : Thread nD τ) (st12_2 t) fullShare ((dat12 V B c).before 2 t d))
    ∗ (∃ d, owns (c : Thread nD τ) (st12_3 t) fullShare ((dat12 V B c).before 3 t d))
    ∗ (∃ d, owns (c : Thread nD τ) (st12_4 t) fullShare ((dat12 V B c).before 4 t d))
    ∗ (∃ d, owns (c : Thread nD τ) (st12_5 t) fullShare ((dat12 V B c).before 5 t d)))

def bodyPost12 (V : Valuation τ sig (Elt F)) (B : Set (SemLoc sig × HIx 8)) (c : Dev nD) (ι : HIx 8) (t : Fin cfg12.N) : sProp 𝕄 :=
  iprop((dat12 V B c).Φ t.succ ∗ (dat12 V B c).owesAt ι t.succ
    ∗ owns (c : Thread nD τ) (st12_0 t) fullShare ((dat12 V B c).after 0 t)
    ∗ owns (c : Thread nD τ) (st12_1 t) fullShare ((dat12 V B c).after 1 t)
    ∗ owns (c : Thread nD τ) (st12_2 t) fullShare ((dat12 V B c).after 2 t)
    ∗ owns (c : Thread nD τ) (st12_3 t) fullShare ((dat12 V B c).after 3 t)
    ∗ owns (c : Thread nD τ) (st12_4 t) fullShare ((dat12 V B c).after 4 t)
    ∗ owns (c : Thread nD τ) (st12_5 t) fullShare ((dat12 V B c).after 5 t))

theorem sound_body12 (V : Valuation τ sig (Elt F)) (B : Set (SemLoc sig × HIx 8)) (c : Dev nD) (ι : HIx 8) (t : Fin cfg12.N) :
    bodyPre12 V B c ι t ⊢ wp frame (wpE (defs₀ (F := F)) Variants.none c none) Set.univ (bodyAt12 t) (fun _ => bodyPost12 V B c ι t) := by
  unfold bodyPre12 bodyPost12 bodyAt12
  simp only [before12_0, before12_1, before12_2, before12_3, before12_4]
  rw [show (dat12 V B c).Φ t.succ = (dat12 V B c).Φ t.castSucc from rfl,
    show (dat12 V B c).owesAt ι t.succ = (dat12 V B c).owesAt ι t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ (grid12.coords t) _ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg12, at every point. -/
theorem body_obligation12 (V : Valuation τ sig (Elt F)) (B : Set (SemLoc sig × HIx 8)) (c : Dev nD) (ι : HIx 8) :
    BodyObligation (dat12 (F := F) V B c) (defs₀ (F := F)) Variants.none ι Set.univ := fun t => by
  rw [bigSep_W12, bigSep_W12]
  exact sound_body12 V B c ι t

set_option maxHeartbeats 1000000 in
/-- The body of the region of pipeline cfg13 on whole staging memrefs (its first operand, an array it never touches,
    is not needed): the inputs stay, the result's buffer ends at the payload of them. -/
theorem sound_kernel13 (c : Dev nD) (E : Set ℕ) (i : grid13.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc13__tc_body i arg1 harg1 arg2 harg2 arg3 harg3 arg4 harg4 arg5 harg5 arg6 harg6 arg7 harg7) K := by
  simp only [cc13__tc_body_eq_skeleton]; unfold cc13__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg13 -/

def bodyPre13 (V : Valuation τ sig (Elt F)) (B : Set (SemLoc sig × HIx 8)) (c : Dev nD) (ι : HIx 8) (t : Fin cfg13.N) : sProp 𝕄 :=
  iprop((dat13 V B c).Φ t.castSucc ∗ (dat13 V B c).owesAt ι t.castSucc
    ∗ (∃ d, owns (c : Thread nD τ) (st13_0 t) fullShare ((dat13 V B c).before 0 t d))
    ∗ (∃ d, owns (c : Thread nD τ) (st13_1 t) fullShare ((dat13 V B c).before 1 t d))
    ∗ (∃ d, owns (c : Thread nD τ) (st13_2 t) fullShare ((dat13 V B c).before 2 t d))
    ∗ (∃ d, owns (c : Thread nD τ) (st13_3 t) fullShare ((dat13 V B c).before 3 t d))
    ∗ (∃ d, owns (c : Thread nD τ) (st13_4 t) fullShare ((dat13 V B c).before 4 t d))
    ∗ (∃ d, owns (c : Thread nD τ) (st13_5 t) fullShare ((dat13 V B c).before 5 t d)))

def bodyPost13 (V : Valuation τ sig (Elt F)) (B : Set (SemLoc sig × HIx 8)) (c : Dev nD) (ι : HIx 8) (t : Fin cfg13.N) : sProp 𝕄 :=
  iprop((dat13 V B c).Φ t.succ ∗ (dat13 V B c).owesAt ι t.succ
    ∗ owns (c : Thread nD τ) (st13_0 t) fullShare ((dat13 V B c).after 0 t)
    ∗ owns (c : Thread nD τ) (st13_1 t) fullShare ((dat13 V B c).after 1 t)
    ∗ owns (c : Thread nD τ) (st13_2 t) fullShare ((dat13 V B c).after 2 t)
    ∗ owns (c : Thread nD τ) (st13_3 t) fullShare ((dat13 V B c).after 3 t)
    ∗ owns (c : Thread nD τ) (st13_4 t) fullShare ((dat13 V B c).after 4 t)
    ∗ owns (c : Thread nD τ) (st13_5 t) fullShare ((dat13 V B c).after 5 t))

theorem sound_body13 (V : Valuation τ sig (Elt F)) (B : Set (SemLoc sig × HIx 8)) (c : Dev nD) (ι : HIx 8) (t : Fin cfg13.N) :
    bodyPre13 V B c ι t ⊢ wp frame (wpE (defs₀ (F := F)) Variants.none c none) Set.univ (bodyAt13 t) (fun _ => bodyPost13 V B c ι t) := by
  unfold bodyPre13 bodyPost13 bodyAt13
  simp only [before13_0, before13_1, before13_2, before13_3, before13_4]
  rw [show (dat13 V B c).Φ t.succ = (dat13 V B c).Φ t.castSucc from rfl,
    show (dat13 V B c).owesAt ι t.succ = (dat13 V B c).owesAt ι t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ (grid13.coords t) _ _ _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg13, at every point. -/
theorem body_obligation13 (V : Valuation τ sig (Elt F)) (B : Set (SemLoc sig × HIx 8)) (c : Dev nD) (ι : HIx 8) :
    BodyObligation (dat13 (F := F) V B c) (defs₀ (F := F)) Variants.none ι Set.univ := fun t => by
  rw [bigSep_W13, bigSep_W13]
  exact sound_body13 V B c ι t

set_option maxHeartbeats 1000000 in
/-- The body of the region of pipeline cfg14 on whole staging memrefs (its first operand, an array it never touches,
    is not needed): the inputs stay, the result's buffer ends at the payload of them. -/
theorem sound_kernel14 (c : Dev nD) (E : Set ℕ) (i : grid14.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc14__tc_body i arg1 harg1 arg2 harg2 arg3 harg3 arg4 harg4 arg5 harg5 arg6 harg6 arg7 harg7) K := by
  simp only [cc14__tc_body_eq_skeleton]; unfold cc14__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg14 -/

def bodyPre14 (V : Valuation τ sig (Elt F)) (B : Set (SemLoc sig × HIx 8)) (c : Dev nD) (ι : HIx 8) (t : Fin cfg14.N) : sProp 𝕄 :=
  iprop((dat14 V B c).Φ t.castSucc ∗ (dat14 V B c).owesAt ι t.castSucc
    ∗ (∃ d, owns (c : Thread nD τ) (st14_0 t) fullShare ((dat14 V B c).before 0 t d))
    ∗ (∃ d, owns (c : Thread nD τ) (st14_1 t) fullShare ((dat14 V B c).before 1 t d))
    ∗ (∃ d, owns (c : Thread nD τ) (st14_2 t) fullShare ((dat14 V B c).before 2 t d))
    ∗ (∃ d, owns (c : Thread nD τ) (st14_3 t) fullShare ((dat14 V B c).before 3 t d))
    ∗ (∃ d, owns (c : Thread nD τ) (st14_4 t) fullShare ((dat14 V B c).before 4 t d))
    ∗ (∃ d, owns (c : Thread nD τ) (st14_5 t) fullShare ((dat14 V B c).before 5 t d)))

def bodyPost14 (V : Valuation τ sig (Elt F)) (B : Set (SemLoc sig × HIx 8)) (c : Dev nD) (ι : HIx 8) (t : Fin cfg14.N) : sProp 𝕄 :=
  iprop((dat14 V B c).Φ t.succ ∗ (dat14 V B c).owesAt ι t.succ
    ∗ owns (c : Thread nD τ) (st14_0 t) fullShare ((dat14 V B c).after 0 t)
    ∗ owns (c : Thread nD τ) (st14_1 t) fullShare ((dat14 V B c).after 1 t)
    ∗ owns (c : Thread nD τ) (st14_2 t) fullShare ((dat14 V B c).after 2 t)
    ∗ owns (c : Thread nD τ) (st14_3 t) fullShare ((dat14 V B c).after 3 t)
    ∗ owns (c : Thread nD τ) (st14_4 t) fullShare ((dat14 V B c).after 4 t)
    ∗ owns (c : Thread nD τ) (st14_5 t) fullShare ((dat14 V B c).after 5 t))

theorem sound_body14 (V : Valuation τ sig (Elt F)) (B : Set (SemLoc sig × HIx 8)) (c : Dev nD) (ι : HIx 8) (t : Fin cfg14.N) :
    bodyPre14 V B c ι t ⊢ wp frame (wpE (defs₀ (F := F)) Variants.none c none) Set.univ (bodyAt14 t) (fun _ => bodyPost14 V B c ι t) := by
  unfold bodyPre14 bodyPost14 bodyAt14
  simp only [before14_0, before14_1, before14_2, before14_3, before14_4]
  rw [show (dat14 V B c).Φ t.succ = (dat14 V B c).Φ t.castSucc from rfl,
    show (dat14 V B c).owesAt ι t.succ = (dat14 V B c).owesAt ι t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ (grid14.coords t) _ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg14, at every point. -/
theorem body_obligation14 (V : Valuation τ sig (Elt F)) (B : Set (SemLoc sig × HIx 8)) (c : Dev nD) (ι : HIx 8) :
    BodyObligation (dat14 (F := F) V B c) (defs₀ (F := F)) Variants.none ι Set.univ := fun t => by
  rw [bigSep_W14, bigSep_W14]
  exact sound_body14 V B c ι t

set_option maxHeartbeats 1000000 in
/-- The body of the region of pipeline cfg15 on whole staging memrefs (its first operand, an array it never touches,
    is not needed): the inputs stay, the result's buffer ends at the payload of them. -/
theorem sound_kernel15 (c : Dev nD) (E : Set ℕ) (i : grid15.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc15__tc_body i arg1 harg1 arg2 harg2 arg3 harg3 arg4 harg4 arg5 harg5 arg6 harg6 arg7 harg7) K := by
  simp only [cc15__tc_body_eq_skeleton]; unfold cc15__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg15 -/

def bodyPre15 (V : Valuation τ sig (Elt F)) (B : Set (SemLoc sig × HIx 8)) (c : Dev nD) (ι : HIx 8) (t : Fin cfg15.N) : sProp 𝕄 :=
  iprop((dat15 V B c).Φ t.castSucc ∗ (dat15 V B c).owesAt ι t.castSucc
    ∗ (∃ d, owns (c : Thread nD τ) (st15_0 t) fullShare ((dat15 V B c).before 0 t d))
    ∗ (∃ d, owns (c : Thread nD τ) (st15_1 t) fullShare ((dat15 V B c).before 1 t d))
    ∗ (∃ d, owns (c : Thread nD τ) (st15_2 t) fullShare ((dat15 V B c).before 2 t d))
    ∗ (∃ d, owns (c : Thread nD τ) (st15_3 t) fullShare ((dat15 V B c).before 3 t d))
    ∗ (∃ d, owns (c : Thread nD τ) (st15_4 t) fullShare ((dat15 V B c).before 4 t d))
    ∗ (∃ d, owns (c : Thread nD τ) (st15_5 t) fullShare ((dat15 V B c).before 5 t d)))

def bodyPost15 (V : Valuation τ sig (Elt F)) (B : Set (SemLoc sig × HIx 8)) (c : Dev nD) (ι : HIx 8) (t : Fin cfg15.N) : sProp 𝕄 :=
  iprop((dat15 V B c).Φ t.succ ∗ (dat15 V B c).owesAt ι t.succ
    ∗ owns (c : Thread nD τ) (st15_0 t) fullShare ((dat15 V B c).after 0 t)
    ∗ owns (c : Thread nD τ) (st15_1 t) fullShare ((dat15 V B c).after 1 t)
    ∗ owns (c : Thread nD τ) (st15_2 t) fullShare ((dat15 V B c).after 2 t)
    ∗ owns (c : Thread nD τ) (st15_3 t) fullShare ((dat15 V B c).after 3 t)
    ∗ owns (c : Thread nD τ) (st15_4 t) fullShare ((dat15 V B c).after 4 t)
    ∗ owns (c : Thread nD τ) (st15_5 t) fullShare ((dat15 V B c).after 5 t))

theorem sound_body15 (V : Valuation τ sig (Elt F)) (B : Set (SemLoc sig × HIx 8)) (c : Dev nD) (ι : HIx 8) (t : Fin cfg15.N) :
    bodyPre15 V B c ι t ⊢ wp frame (wpE (defs₀ (F := F)) Variants.none c none) Set.univ (bodyAt15 t) (fun _ => bodyPost15 V B c ι t) := by
  unfold bodyPre15 bodyPost15 bodyAt15
  simp only [before15_0, before15_1, before15_2, before15_3, before15_4]
  rw [show (dat15 V B c).Φ t.succ = (dat15 V B c).Φ t.castSucc from rfl,
    show (dat15 V B c).owesAt ι t.succ = (dat15 V B c).owesAt ι t.castSucc from rfl,
    after15_0, after15_1, after15_2, after15_3, after15_4, after15_5]
  iintro ⟨HΦ, Ho, ⟨%d0, H0⟩, ⟨%d1, H1⟩, ⟨%d2, H2⟩, ⟨%d3, H3⟩, ⟨%d4, H4⟩, ⟨%d5, H5⟩⟩
  iapply (sound_kernel15 c Set.univ (grid15.coords t) _ _ _ _ _ _ _ _ _ _ _ _ _ _ (iblk15 V c 0 t) (iblk15 V c 1 t) (iblk15 V c 2 t) (iblk15 V c 3 t) (iblk15 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg15, at every point. -/
theorem body_obligation15 (V : Valuation τ sig (Elt F)) (B : Set (SemLoc sig × HIx 8)) (c : Dev nD) (ι : HIx 8) :
    BodyObligation (dat15 (F := F) V B c) (defs₀ (F := F)) Variants.none ι Set.univ := fun t => by
  rw [bigSep_W15, bigSep_W15]
  exact sound_body15 V B c ι t

end Cert.KernelIdeal.TcTail

end
-- ==== Proof.TcTailSeg.lean ====
/-
  The eight dense regions and the host operations between them as a list of segments. Between two segments a
  core holds every unscoped buffer of its TensorCore whole at a valuation and owes nothing, its recorded pairs
  within a set B that has every pair at the index the pipelines' waits are recorded at; a region takes its six arrays
  out of the buffers and puts them back with its result array at what the write-backs leave, a host operation runs
  over them.
-/
import proofs.«204770_g8065948582451_cont_9to1c4b_476_56_alg».proof.Proof.ScPayI
import proofs.«204770_g8065948582451_cont_9to1c4b_476_56_alg».proof.Proof.Gen.KernelIdeal.Points
import proofs.«204770_g8065948582451_cont_9to1c4b_476_56_alg».proof.Proof.TcTailOb
import Idealize.ShloMosaic.Lib.Pipeline.FrameBody
import Idealize.ShloMosaic.Lib.Pipeline.RegionsLoop
import Idealize.ShloMosaic.Lib.Tactic

set_option maxRecDepth 16384

noncomputable section

namespace Cert.KernelIdeal.TcTail

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

/-! ## The setting -/

/-- The pipelines have no prefetched table: the one admissible contents. -/
abbrev adm : (p : Fin 8) → (pcfgs (F := F) p).Adm := fun p => (cfgs p).toPCfg_adm

/-- The copies between the regions: the previous result into the next region's result buffer. -/
abbrev cp0 : HloOp τ sig (Elt F) := StableHlo.unary main_v45 main_v46 id
abbrev cp1 : HloOp τ sig (Elt F) := StableHlo.unary main_v46 main_v47 id
abbrev cp2 : HloOp τ sig (Elt F) := StableHlo.unary main_v47 main_v48 id
abbrev cp3 : HloOp τ sig (Elt F) := StableHlo.unary main_v48 main_v49 id
abbrev cp4 : HloOp τ sig (Elt F) := StableHlo.unary main_v49 main_v50 id
abbrev cp5 : HloOp τ sig (Elt F) := StableHlo.unary main_v50 main_v51 id
abbrev cp6 : HloOp τ sig (Elt F) := StableHlo.unary main_v51 main_v52 id
/-- The reshape of the last result. -/
abbrev rsOp : HloOp τ sig (Elt F) := StableHlo.reshape main_v52 main_v53 rfl shapeCasts_S819200x512_S4096x200x512

/-- Per pipeline: the scoped buffers none of its windows stages, and the unscoped buffers that are none of its arrays. -/
abbrev sr8 (c : Dev nD) : sProp 𝕄 := Pipeline.scopedRest (Ix := HIx 8) (Name := ℕ) (U := Sc.UU) (Lvl := ℕ) (Val := Elt F) spec8 c
abbrev ur8 (V : Valuation τ sig (Elt F)) (c : Dev nD) : sProp 𝕄 := Pipeline.unscopedRest (Ix := HIx 8) (Name := ℕ) (U := Sc.UU) (Lvl := ℕ) spec8 c (vb V c)
abbrev sr9 (c : Dev nD) : sProp 𝕄 := Pipeline.scopedRest (Ix := HIx 8) (Name := ℕ) (U := Sc.UU) (Lvl := ℕ) (Val := Elt F) spec9 c
abbrev ur9 (V : Valuation τ sig (Elt F)) (c : Dev nD) : sProp 𝕄 := Pipeline.unscopedRest (Ix := HIx 8) (Name := ℕ) (U := Sc.UU) (Lvl := ℕ) spec9 c (vb V c)
abbrev sr10 (c : Dev nD) : sProp 𝕄 := Pipeline.scopedRest (Ix := HIx 8) (Name := ℕ) (U := Sc.UU) (Lvl := ℕ) (Val := Elt F) spec10 c
abbrev ur10 (V : Valuation τ sig (Elt F)) (c : Dev nD) : sProp 𝕄 := Pipeline.unscopedRest (Ix := HIx 8) (Name := ℕ) (U := Sc.UU) (Lvl := ℕ) spec10 c (vb V c)
abbrev sr11 (c : Dev nD) : sProp 𝕄 := Pipeline.scopedRest (Ix := HIx 8) (Name := ℕ) (U := Sc.UU) (Lvl := ℕ) (Val := Elt F) spec11 c
abbrev ur11 (V : Valuation τ sig (Elt F)) (c : Dev nD) : sProp 𝕄 := Pipeline.unscopedRest (Ix := HIx 8) (Name := ℕ) (U := Sc.UU) (Lvl := ℕ) spec11 c (vb V c)
abbrev sr12 (c : Dev nD) : sProp 𝕄 := Pipeline.scopedRest (Ix := HIx 8) (Name := ℕ) (U := Sc.UU) (Lvl := ℕ) (Val := Elt F) spec12 c
abbrev ur12 (V : Valuation τ sig (Elt F)) (c : Dev nD) : sProp 𝕄 := Pipeline.unscopedRest (Ix := HIx 8) (Name := ℕ) (U := Sc.UU) (Lvl := ℕ) spec12 c (vb V c)
abbrev sr13 (c : Dev nD) : sProp 𝕄 := Pipeline.scopedRest (Ix := HIx 8) (Name := ℕ) (U := Sc.UU) (Lvl := ℕ) (Val := Elt F) spec13 c
abbrev ur13 (V : Valuation τ sig (Elt F)) (c : Dev nD) : sProp 𝕄 := Pipeline.unscopedRest (Ix := HIx 8) (Name := ℕ) (U := Sc.UU) (Lvl := ℕ) spec13 c (vb V c)
abbrev sr14 (c : Dev nD) : sProp 𝕄 := Pipeline.scopedRest (Ix := HIx 8) (Name := ℕ) (U := Sc.UU) (Lvl := ℕ) (Val := Elt F) spec14 c
abbrev ur14 (V : Valuation τ sig (Elt F)) (c : Dev nD) : sProp 𝕄 := Pipeline.unscopedRest (Ix := HIx 8) (Name := ℕ) (U := Sc.UU) (Lvl := ℕ) spec14 c (vb V c)
abbrev sr15 (c : Dev nD) : sProp 𝕄 := Pipeline.scopedRest (Ix := HIx 8) (Name := ℕ) (U := Sc.UU) (Lvl := ℕ) (Val := Elt F) spec15 c
abbrev ur15 (V : Valuation τ sig (Elt F)) (c : Dev nD) : sProp 𝕄 := Pipeline.unscopedRest (Ix := HIx 8) (Name := ℕ) (U := Sc.UU) (Lvl := ℕ) spec15 c (vb V c)

/-- What region 0 leaves: its result array at what the write-backs leave, every other buffer as it found it. -/
def Vx0 (V : Valuation τ sig (Elt F)) (B : Set (SemLoc sig × HIx 8)) (c : Dev nD) : Valuation τ sig (Elt F) :=
  Function.update V (Proc.devRef .tc main_v45) ((dat8 V B c).arrAt 5 cfg8.N)

/-- What region 1 leaves: its result array at what the write-backs leave, every other buffer as it found it. -/
def Vx1 (V : Valuation τ sig (Elt F)) (B : Set (SemLoc sig × HIx 8)) (c : Dev nD) : Valuation τ sig (Elt F) :=
  Function.update V (Proc.devRef .tc main_v46) ((dat9 V B c).arrAt 5 cfg9.N)

/-- What region 2 leaves: its result array at what the write-backs leave, every other buffer as it found it. -/
def Vx2 (V : Valuation τ sig (Elt F)) (B : Set (SemLoc sig × HIx 8)) (c : Dev nD) : Valuation τ sig (Elt F) :=
  Function.update V (Proc.devRef .tc main_v47) ((dat10 V B c).arrAt 5 cfg10.N)

/-- What region 3 leaves: its result array at what the write-backs leave, every other buffer as it found it. -/
def Vx3 (V : Valuation τ sig (Elt F)) (B : Set (SemLoc sig × HIx 8)) (c : Dev nD) : Valuation τ sig (Elt F) :=
  Function.update V (Proc.devRef .tc main_v48) ((dat11 V B c).arrAt 5 cfg11.N)

/-- What region 4 leaves: its result array at what the write-backs leave, every other buffer as it found it. -/
def Vx4 (V : Valuation τ sig (Elt F)) (B : Set (SemLoc sig × HIx 8)) (c : Dev nD) : Valuation τ sig (Elt F) :=
  Function.update V (Proc.devRef .tc main_v49) ((dat12 V B c).arrAt 5 cfg12.N)

/-- What region 5 leaves: its result array at what the write-backs leave, every other buffer as it found it. -/
def Vx5 (V : Valuation τ sig (Elt F)) (B : Set (SemLoc sig × HIx 8)) (c : Dev nD) : Valuation τ sig (Elt F) :=
  Function.update V (Proc.devRef .tc main_v50) ((dat13 V B c).arrAt 5 cfg13.N)

/-- What region 6 leaves: its result array at what the write-backs leave, every other buffer as it found it. -/
def Vx6 (V : Valuation τ sig (Elt F)) (B : Set (SemLoc sig × HIx 8)) (c : Dev nD) : Valuation τ sig (Elt F) :=
  Function.update V (Proc.devRef .tc main_v51) ((dat14 V B c).arrAt 5 cfg14.N)

/-- What region 7 leaves: its result array at what the write-backs leave, every other buffer as it found it. -/
def Vx7 (V : Valuation τ sig (Elt F)) (B : Set (SemLoc sig × HIx 8)) (c : Dev nD) : Valuation τ sig (Elt F) :=
  Function.update V (Proc.devRef .tc main_v52) ((dat15 V B c).arrAt 5 cfg15.N)

/-- What region 0 leaves, read at its arrays, is its arrays at its exit. -/
theorem arrx0 (V : Valuation τ sig (Elt F)) (B : Set (SemLoc sig × HIx 8)) (c : Dev nD) (w : Fin cfg8.W) :
    (dat8 V B c).arrAt w cfg8.N = vb (Vx0 V B c) c (Pipeline.arrRef spec8 w) := by
  match w with
  | ⟨0, _⟩ =>
    have h : (Proc.devRef .tc main_v9 : DevRef τ sig) ≠ Proc.devRef .tc main_v45 := by decide
    exact ((dat8 V B c).arrAt_in 0 rfl _).trans (Function.update_of_ne h ((dat8 V B c).arrAt 5 cfg8.N) V).symm
  | ⟨1, _⟩ =>
    have h : (Proc.devRef .tc main_arg4 : DevRef τ sig) ≠ Proc.devRef .tc main_v45 := by decide
    exact ((dat8 V B c).arrAt_in 1 rfl _).trans (Function.update_of_ne h ((dat8 V B c).arrAt 5 cfg8.N) V).symm
  | ⟨2, _⟩ =>
    have h : (Proc.devRef .tc main_v2 : DevRef τ sig) ≠ Proc.devRef .tc main_v45 := by decide
    exact ((dat8 V B c).arrAt_in 2 rfl _).trans (Function.update_of_ne h ((dat8 V B c).arrAt 5 cfg8.N) V).symm
  | ⟨3, _⟩ =>
    have h : (Proc.devRef .tc main_v3 : DevRef τ sig) ≠ Proc.devRef .tc main_v45 := by decide
    exact ((dat8 V B c).arrAt_in 3 rfl _).trans (Function.update_of_ne h ((dat8 V B c).arrAt 5 cfg8.N) V).symm
  | ⟨4, _⟩ =>
    have h : (Proc.devRef .tc main_v4 : DevRef τ sig) ≠ Proc.devRef .tc main_v45 := by decide
    exact ((dat8 V B c).arrAt_in 4 rfl _).trans (Function.update_of_ne h ((dat8 V B c).arrAt 5 cfg8.N) V).symm
  | ⟨5, _⟩ => exact (Function.update_self (Proc.devRef .tc main_v45 : DevRef τ sig) ((dat8 V B c).arrAt 5 cfg8.N) V).symm

/-- Off its arrays region 0 leaves every buffer as it found it. -/
theorem restx0 (V : Valuation τ sig (Elt F)) (B : Set (SemLoc sig × HIx 8)) (c : Dev nD) (b : Ref sig .tc)
    (hb : b ∉ Finset.univ.image (Pipeline.arrRef spec8)) : vb (Vx0 V B c) c b = vb V c b := by
  have h : (Proc.devRef .tc b : DevRef τ sig) ≠ Proc.devRef .tc main_v45 :=
    fun h => hb (Finset.mem_image.2 ⟨5, Finset.mem_univ _, (Proc.devRef_injective _ h).symm⟩)
  exact Function.update_of_ne h ((dat8 V B c).arrAt 5 cfg8.N) V

/-- What region 1 leaves, read at its arrays, is its arrays at its exit. -/
theorem arrx1 (V : Valuation τ sig (Elt F)) (B : Set (SemLoc sig × HIx 8)) (c : Dev nD) (w : Fin cfg9.W) :
    (dat9 V B c).arrAt w cfg9.N = vb (Vx1 V B c) c (Pipeline.arrRef spec9 w) := by
  match w with
  | ⟨0, _⟩ =>
    have h : (Proc.devRef .tc main_v14 : DevRef τ sig) ≠ Proc.devRef .tc main_v46 := by decide
    exact ((dat9 V B c).arrAt_in 0 rfl _).trans (Function.update_of_ne h ((dat9 V B c).arrAt 5 cfg9.N) V).symm
  | ⟨1, _⟩ =>
    have h : (Proc.devRef .tc main_arg4 : DevRef τ sig) ≠ Proc.devRef .tc main_v46 := by decide
    exact ((dat9 V B c).arrAt_in 1 rfl _).trans (Function.update_of_ne h ((dat9 V B c).arrAt 5 cfg9.N) V).symm
  | ⟨2, _⟩ =>
    have h : (Proc.devRef .tc main_v2 : DevRef τ sig) ≠ Proc.devRef .tc main_v46 := by decide
    exact ((dat9 V B c).arrAt_in 2 rfl _).trans (Function.update_of_ne h ((dat9 V B c).arrAt 5 cfg9.N) V).symm
  | ⟨3, _⟩ =>
    have h : (Proc.devRef .tc main_v3 : DevRef τ sig) ≠ Proc.devRef .tc main_v46 := by decide
    exact ((dat9 V B c).arrAt_in 3 rfl _).trans (Function.update_of_ne h ((dat9 V B c).arrAt 5 cfg9.N) V).symm
  | ⟨4, _⟩ =>
    have h : (Proc.devRef .tc main_v4 : DevRef τ sig) ≠ Proc.devRef .tc main_v46 := by decide
    exact ((dat9 V B c).arrAt_in 4 rfl _).trans (Function.update_of_ne h ((dat9 V B c).arrAt 5 cfg9.N) V).symm
  | ⟨5, _⟩ => exact (Function.update_self (Proc.devRef .tc main_v46 : DevRef τ sig) ((dat9 V B c).arrAt 5 cfg9.N) V).symm

/-- Off its arrays region 1 leaves every buffer as it found it. -/
theorem restx1 (V : Valuation τ sig (Elt F)) (B : Set (SemLoc sig × HIx 8)) (c : Dev nD) (b : Ref sig .tc)
    (hb : b ∉ Finset.univ.image (Pipeline.arrRef spec9)) : vb (Vx1 V B c) c b = vb V c b := by
  have h : (Proc.devRef .tc b : DevRef τ sig) ≠ Proc.devRef .tc main_v46 :=
    fun h => hb (Finset.mem_image.2 ⟨5, Finset.mem_univ _, (Proc.devRef_injective _ h).symm⟩)
  exact Function.update_of_ne h ((dat9 V B c).arrAt 5 cfg9.N) V

/-- What region 2 leaves, read at its arrays, is its arrays at its exit. -/
theorem arrx2 (V : Valuation τ sig (Elt F)) (B : Set (SemLoc sig × HIx 8)) (c : Dev nD) (w : Fin cfg10.W) :
    (dat10 V B c).arrAt w cfg10.N = vb (Vx2 V B c) c (Pipeline.arrRef spec10 w) := by
  match w with
  | ⟨0, _⟩ =>
    have h : (Proc.devRef .tc main_v19 : DevRef τ sig) ≠ Proc.devRef .tc main_v47 := by decide
    exact ((dat10 V B c).arrAt_in 0 rfl _).trans (Function.update_of_ne h ((dat10 V B c).arrAt 5 cfg10.N) V).symm
  | ⟨1, _⟩ =>
    have h : (Proc.devRef .tc main_arg4 : DevRef τ sig) ≠ Proc.devRef .tc main_v47 := by decide
    exact ((dat10 V B c).arrAt_in 1 rfl _).trans (Function.update_of_ne h ((dat10 V B c).arrAt 5 cfg10.N) V).symm
  | ⟨2, _⟩ =>
    have h : (Proc.devRef .tc main_v2 : DevRef τ sig) ≠ Proc.devRef .tc main_v47 := by decide
    exact ((dat10 V B c).arrAt_in 2 rfl _).trans (Function.update_of_ne h ((dat10 V B c).arrAt 5 cfg10.N) V).symm
  | ⟨3, _⟩ =>
    have h : (Proc.devRef .tc main_v3 : DevRef τ sig) ≠ Proc.devRef .tc main_v47 := by decide
    exact ((dat10 V B c).arrAt_in 3 rfl _).trans (Function.update_of_ne h ((dat10 V B c).arrAt 5 cfg10.N) V).symm
  | ⟨4, _⟩ =>
    have h : (Proc.devRef .tc main_v4 : DevRef τ sig) ≠ Proc.devRef .tc main_v47 := by decide
    exact ((dat10 V B c).arrAt_in 4 rfl _).trans (Function.update_of_ne h ((dat10 V B c).arrAt 5 cfg10.N) V).symm
  | ⟨5, _⟩ => exact (Function.update_self (Proc.devRef .tc main_v47 : DevRef τ sig) ((dat10 V B c).arrAt 5 cfg10.N) V).symm

/-- Off its arrays region 2 leaves every buffer as it found it. -/
theorem restx2 (V : Valuation τ sig (Elt F)) (B : Set (SemLoc sig × HIx 8)) (c : Dev nD) (b : Ref sig .tc)
    (hb : b ∉ Finset.univ.image (Pipeline.arrRef spec10)) : vb (Vx2 V B c) c b = vb V c b := by
  have h : (Proc.devRef .tc b : DevRef τ sig) ≠ Proc.devRef .tc main_v47 :=
    fun h => hb (Finset.mem_image.2 ⟨5, Finset.mem_univ _, (Proc.devRef_injective _ h).symm⟩)
  exact Function.update_of_ne h ((dat10 V B c).arrAt 5 cfg10.N) V

/-- What region 3 leaves, read at its arrays, is its arrays at its exit. -/
theorem arrx3 (V : Valuation τ sig (Elt F)) (B : Set (SemLoc sig × HIx 8)) (c : Dev nD) (w : Fin cfg11.W) :
    (dat11 V B c).arrAt w cfg11.N = vb (Vx3 V B c) c (Pipeline.arrRef spec11 w) := by
  match w with
  | ⟨0, _⟩ =>
    have h : (Proc.devRef .tc main_v24 : DevRef τ sig) ≠ Proc.devRef .tc main_v48 := by decide
    exact ((dat11 V B c).arrAt_in 0 rfl _).trans (Function.update_of_ne h ((dat11 V B c).arrAt 5 cfg11.N) V).symm
  | ⟨1, _⟩ =>
    have h : (Proc.devRef .tc main_arg4 : DevRef τ sig) ≠ Proc.devRef .tc main_v48 := by decide
    exact ((dat11 V B c).arrAt_in 1 rfl _).trans (Function.update_of_ne h ((dat11 V B c).arrAt 5 cfg11.N) V).symm
  | ⟨2, _⟩ =>
    have h : (Proc.devRef .tc main_v2 : DevRef τ sig) ≠ Proc.devRef .tc main_v48 := by decide
    exact ((dat11 V B c).arrAt_in 2 rfl _).trans (Function.update_of_ne h ((dat11 V B c).arrAt 5 cfg11.N) V).symm
  | ⟨3, _⟩ =>
    have h : (Proc.devRef .tc main_v3 : DevRef τ sig) ≠ Proc.devRef .tc main_v48 := by decide
    exact ((dat11 V B c).arrAt_in 3 rfl _).trans (Function.update_of_ne h ((dat11 V B c).arrAt 5 cfg11.N) V).symm
  | ⟨4, _⟩ =>
    have h : (Proc.devRef .tc main_v4 : DevRef τ sig) ≠ Proc.devRef .tc main_v48 := by decide
    exact ((dat11 V B c).arrAt_in 4 rfl _).trans (Function.update_of_ne h ((dat11 V B c).arrAt 5 cfg11.N) V).symm
  | ⟨5, _⟩ => exact (Function.update_self (Proc.devRef .tc main_v48 : DevRef τ sig) ((dat11 V B c).arrAt 5 cfg11.N) V).symm

/-- Off its arrays region 3 leaves every buffer as it found it. -/
theorem restx3 (V : Valuation τ sig (Elt F)) (B : Set (SemLoc sig × HIx 8)) (c : Dev nD) (b : Ref sig .tc)
    (hb : b ∉ Finset.univ.image (Pipeline.arrRef spec11)) : vb (Vx3 V B c) c b = vb V c b := by
  have h : (Proc.devRef .tc b : DevRef τ sig) ≠ Proc.devRef .tc main_v48 :=
    fun h => hb (Finset.mem_image.2 ⟨5, Finset.mem_univ _, (Proc.devRef_injective _ h).symm⟩)
  exact Function.update_of_ne h ((dat11 V B c).arrAt 5 cfg11.N) V

/-- What region 4 leaves, read at its arrays, is its arrays at its exit. -/
theorem arrx4 (V : Valuation τ sig (Elt F)) (B : Set (SemLoc sig × HIx 8)) (c : Dev nD) (w : Fin cfg12.W) :
    (dat12 V B c).arrAt w cfg12.N = vb (Vx4 V B c) c (Pipeline.arrRef spec12 w) := by
  match w with
  | ⟨0, _⟩ =>
    have h : (Proc.devRef .tc main_v29 : DevRef τ sig) ≠ Proc.devRef .tc main_v49 := by decide
    exact ((dat12 V B c).arrAt_in 0 rfl _).trans (Function.update_of_ne h ((dat12 V B c).arrAt 5 cfg12.N) V).symm
  | ⟨1, _⟩ =>
    have h : (Proc.devRef .tc main_arg4 : DevRef τ sig) ≠ Proc.devRef .tc main_v49 := by decide
    exact ((dat12 V B c).arrAt_in 1 rfl _).trans (Function.update_of_ne h ((dat12 V B c).arrAt 5 cfg12.N) V).symm
  | ⟨2, _⟩ =>
    have h : (Proc.devRef .tc main_v2 : DevRef τ sig) ≠ Proc.devRef .tc main_v49 := by decide
    exact ((dat12 V B c).arrAt_in 2 rfl _).trans (Function.update_of_ne h ((dat12 V B c).arrAt 5 cfg12.N) V).symm
  | ⟨3, _⟩ =>
    have h : (Proc.devRef .tc main_v3 : DevRef τ sig) ≠ Proc.devRef .tc main_v49 := by decide
    exact ((dat12 V B c).arrAt_in 3 rfl _).trans (Function.update_of_ne h ((dat12 V B c).arrAt 5 cfg12.N) V).symm
  | ⟨4, _⟩ =>
    have h : (Proc.devRef .tc main_v4 : DevRef τ sig) ≠ Proc.devRef .tc main_v49 := by decide
    exact ((dat12 V B c).arrAt_in 4 rfl _).trans (Function.update_of_ne h ((dat12 V B c).arrAt 5 cfg12.N) V).symm
  | ⟨5, _⟩ => exact (Function.update_self (Proc.devRef .tc main_v49 : DevRef τ sig) ((dat12 V B c).arrAt 5 cfg12.N) V).symm

/-- Off its arrays region 4 leaves every buffer as it found it. -/
theorem restx4 (V : Valuation τ sig (Elt F)) (B : Set (SemLoc sig × HIx 8)) (c : Dev nD) (b : Ref sig .tc)
    (hb : b ∉ Finset.univ.image (Pipeline.arrRef spec12)) : vb (Vx4 V B c) c b = vb V c b := by
  have h : (Proc.devRef .tc b : DevRef τ sig) ≠ Proc.devRef .tc main_v49 :=
    fun h => hb (Finset.mem_image.2 ⟨5, Finset.mem_univ _, (Proc.devRef_injective _ h).symm⟩)
  exact Function.update_of_ne h ((dat12 V B c).arrAt 5 cfg12.N) V

/-- What region 5 leaves, read at its arrays, is its arrays at its exit. -/
theorem arrx5 (V : Valuation τ sig (Elt F)) (B : Set (SemLoc sig × HIx 8)) (c : Dev nD) (w : Fin cfg13.W) :
    (dat13 V B c).arrAt w cfg13.N = vb (Vx5 V B c) c (Pipeline.arrRef spec13 w) := by
  match w with
  | ⟨0, _⟩ =>
    have h : (Proc.devRef .tc main_v34 : DevRef τ sig) ≠ Proc.devRef .tc main_v50 := by decide
    exact ((dat13 V B c).arrAt_in 0 rfl _).trans (Function.update_of_ne h ((dat13 V B c).arrAt 5 cfg13.N) V).symm
  | ⟨1, _⟩ =>
    have h : (Proc.devRef .tc main_arg4 : DevRef τ sig) ≠ Proc.devRef .tc main_v50 := by decide
    exact ((dat13 V B c).arrAt_in 1 rfl _).trans (Function.update_of_ne h ((dat13 V B c).arrAt 5 cfg13.N) V).symm
  | ⟨2, _⟩ =>
    have h : (Proc.devRef .tc main_v2 : DevRef τ sig) ≠ Proc.devRef .tc main_v50 := by decide
    exact ((dat13 V B c).arrAt_in 2 rfl _).trans (Function.update_of_ne h ((dat13 V B c).arrAt 5 cfg13.N) V).symm
  | ⟨3, _⟩ =>
    have h : (Proc.devRef .tc main_v3 : DevRef τ sig) ≠ Proc.devRef .tc main_v50 := by decide
    exact ((dat13 V B c).arrAt_in 3 rfl _).trans (Function.update_of_ne h ((dat13 V B c).arrAt 5 cfg13.N) V).symm
  | ⟨4, _⟩ =>
    have h : (Proc.devRef .tc main_v4 : DevRef τ sig) ≠ Proc.devRef .tc main_v50 := by decide
    exact ((dat13 V B c).arrAt_in 4 rfl _).trans (Function.update_of_ne h ((dat13 V B c).arrAt 5 cfg13.N) V).symm
  | ⟨5, _⟩ => exact (Function.update_self (Proc.devRef .tc main_v50 : DevRef τ sig) ((dat13 V B c).arrAt 5 cfg13.N) V).symm

/-- Off its arrays region 5 leaves every buffer as it found it. -/
theorem restx5 (V : Valuation τ sig (Elt F)) (B : Set (SemLoc sig × HIx 8)) (c : Dev nD) (b : Ref sig .tc)
    (hb : b ∉ Finset.univ.image (Pipeline.arrRef spec13)) : vb (Vx5 V B c) c b = vb V c b := by
  have h : (Proc.devRef .tc b : DevRef τ sig) ≠ Proc.devRef .tc main_v50 :=
    fun h => hb (Finset.mem_image.2 ⟨5, Finset.mem_univ _, (Proc.devRef_injective _ h).symm⟩)
  exact Function.update_of_ne h ((dat13 V B c).arrAt 5 cfg13.N) V

/-- What region 6 leaves, read at its arrays, is its arrays at its exit. -/
theorem arrx6 (V : Valuation τ sig (Elt F)) (B : Set (SemLoc sig × HIx 8)) (c : Dev nD) (w : Fin cfg14.W) :
    (dat14 V B c).arrAt w cfg14.N = vb (Vx6 V B c) c (Pipeline.arrRef spec14 w) := by
  match w with
  | ⟨0, _⟩ =>
    have h : (Proc.devRef .tc main_v39 : DevRef τ sig) ≠ Proc.devRef .tc main_v51 := by decide
    exact ((dat14 V B c).arrAt_in 0 rfl _).trans (Function.update_of_ne h ((dat14 V B c).arrAt 5 cfg14.N) V).symm
  | ⟨1, _⟩ =>
    have h : (Proc.devRef .tc main_arg4 : DevRef τ sig) ≠ Proc.devRef .tc main_v51 := by decide
    exact ((dat14 V B c).arrAt_in 1 rfl _).trans (Function.update_of_ne h ((dat14 V B c).arrAt 5 cfg14.N) V).symm
  | ⟨2, _⟩ =>
    have h : (Proc.devRef .tc main_v2 : DevRef τ sig) ≠ Proc.devRef .tc main_v51 := by decide
    exact ((dat14 V B c).arrAt_in 2 rfl _).trans (Function.update_of_ne h ((dat14 V B c).arrAt 5 cfg14.N) V).symm
  | ⟨3, _⟩ =>
    have h : (Proc.devRef .tc main_v3 : DevRef τ sig) ≠ Proc.devRef .tc main_v51 := by decide
    exact ((dat14 V B c).arrAt_in 3 rfl _).trans (Function.update_of_ne h ((dat14 V B c).arrAt 5 cfg14.N) V).symm
  | ⟨4, _⟩ =>
    have h : (Proc.devRef .tc main_v4 : DevRef τ sig) ≠ Proc.devRef .tc main_v51 := by decide
    exact ((dat14 V B c).arrAt_in 4 rfl _).trans (Function.update_of_ne h ((dat14 V B c).arrAt 5 cfg14.N) V).symm
  | ⟨5, _⟩ => exact (Function.update_self (Proc.devRef .tc main_v51 : DevRef τ sig) ((dat14 V B c).arrAt 5 cfg14.N) V).symm

/-- Off its arrays region 6 leaves every buffer as it found it. -/
theorem restx6 (V : Valuation τ sig (Elt F)) (B : Set (SemLoc sig × HIx 8)) (c : Dev nD) (b : Ref sig .tc)
    (hb : b ∉ Finset.univ.image (Pipeline.arrRef spec14)) : vb (Vx6 V B c) c b = vb V c b := by
  have h : (Proc.devRef .tc b : DevRef τ sig) ≠ Proc.devRef .tc main_v51 :=
    fun h => hb (Finset.mem_image.2 ⟨5, Finset.mem_univ _, (Proc.devRef_injective _ h).symm⟩)
  exact Function.update_of_ne h ((dat14 V B c).arrAt 5 cfg14.N) V

/-- What region 7 leaves, read at its arrays, is its arrays at its exit. -/
theorem arrx7 (V : Valuation τ sig (Elt F)) (B : Set (SemLoc sig × HIx 8)) (c : Dev nD) (w : Fin cfg15.W) :
    (dat15 V B c).arrAt w cfg15.N = vb (Vx7 V B c) c (Pipeline.arrRef spec15 w) := by
  match w with
  | ⟨0, _⟩ =>
    have h : (Proc.devRef .tc main_v44 : DevRef τ sig) ≠ Proc.devRef .tc main_v52 := by decide
    exact ((dat15 V B c).arrAt_in 0 rfl _).trans (Function.update_of_ne h ((dat15 V B c).arrAt 5 cfg15.N) V).symm
  | ⟨1, _⟩ =>
    have h : (Proc.devRef .tc main_arg4 : DevRef τ sig) ≠ Proc.devRef .tc main_v52 := by decide
    exact ((dat15 V B c).arrAt_in 1 rfl _).trans (Function.update_of_ne h ((dat15 V B c).arrAt 5 cfg15.N) V).symm
  | ⟨2, _⟩ =>
    have h : (Proc.devRef .tc main_v2 : DevRef τ sig) ≠ Proc.devRef .tc main_v52 := by decide
    exact ((dat15 V B c).arrAt_in 2 rfl _).trans (Function.update_of_ne h ((dat15 V B c).arrAt 5 cfg15.N) V).symm
  | ⟨3, _⟩ =>
    have h : (Proc.devRef .tc main_v3 : DevRef τ sig) ≠ Proc.devRef .tc main_v52 := by decide
    exact ((dat15 V B c).arrAt_in 3 rfl _).trans (Function.update_of_ne h ((dat15 V B c).arrAt 5 cfg15.N) V).symm
  | ⟨4, _⟩ =>
    have h : (Proc.devRef .tc main_v4 : DevRef τ sig) ≠ Proc.devRef .tc main_v52 := by decide
    exact ((dat15 V B c).arrAt_in 4 rfl _).trans (Function.update_of_ne h ((dat15 V B c).arrAt 5 cfg15.N) V).symm
  | ⟨5, _⟩ => exact (Function.update_self (Proc.devRef .tc main_v52 : DevRef τ sig) ((dat15 V B c).arrAt 5 cfg15.N) V).symm

/-- Off its arrays region 7 leaves every buffer as it found it. -/
theorem restx7 (V : Valuation τ sig (Elt F)) (B : Set (SemLoc sig × HIx 8)) (c : Dev nD) (b : Ref sig .tc)
    (hb : b ∉ Finset.univ.image (Pipeline.arrRef spec15)) : vb (Vx7 V B c) c b = vb V c b := by
  have h : (Proc.devRef .tc b : DevRef τ sig) ≠ Proc.devRef .tc main_v52 :=
    fun h => hb (Finset.mem_image.2 ⟨5, Finset.mem_univ _, (Proc.devRef_injective _ h).symm⟩)
  exact Function.update_of_ne h ((dat15 V B c).arrAt 5 cfg15.N) V

variable (Vin : Dev nD → Valuation τ sig (Elt F)) (B : Set (SemLoc sig × HIx 8))

/-- The arrays as region 0 finds them, -/
abbrev E0 (c : Dev nD) : Valuation τ sig (Elt F) := Vin c
/-- and as it leaves them. -/
def X0 (c : Dev nD) : Valuation τ sig (Elt F) := Vx0 (E0 Vin c) B c
theorem X0_eq (c : Dev nD) : X0 Vin B c = Vx0 (E0 Vin c) B c := rfl

/-- The arrays as region 1 finds them: the copy of the previous result made, -/
abbrev E1 (c : Dev nD) : Valuation τ sig (Elt F) := StableHlo.after [cp0] (X0 Vin B c)
/-- and as it leaves them. -/
def X1 (c : Dev nD) : Valuation τ sig (Elt F) := Vx1 (E1 Vin B c) B c
theorem X1_eq (c : Dev nD) : X1 Vin B c = Vx1 (E1 Vin B c) B c := rfl

/-- The arrays as region 2 finds them: the copy of the previous result made, -/
abbrev E2 (c : Dev nD) : Valuation τ sig (Elt F) := StableHlo.after [cp1] (X1 Vin B c)
/-- and as it leaves them. -/
def X2 (c : Dev nD) : Valuation τ sig (Elt F) := Vx2 (E2 Vin B c) B c
theorem X2_eq (c : Dev nD) : X2 Vin B c = Vx2 (E2 Vin B c) B c := rfl

/-- The arrays as region 3 finds them: the copy of the previous result made, -/
abbrev E3 (c : Dev nD) : Valuation τ sig (Elt F) := StableHlo.after [cp2] (X2 Vin B c)
/-- and as it leaves them. -/
def X3 (c : Dev nD) : Valuation τ sig (Elt F) := Vx3 (E3 Vin B c) B c
theorem X3_eq (c : Dev nD) : X3 Vin B c = Vx3 (E3 Vin B c) B c := rfl

/-- The arrays as region 4 finds them: the copy of the previous result made, -/
abbrev E4 (c : Dev nD) : Valuation τ sig (Elt F) := StableHlo.after [cp3] (X3 Vin B c)
/-- and as it leaves them. -/
def X4 (c : Dev nD) : Valuation τ sig (Elt F) := Vx4 (E4 Vin B c) B c
theorem X4_eq (c : Dev nD) : X4 Vin B c = Vx4 (E4 Vin B c) B c := rfl

/-- The arrays as region 5 finds them: the copy of the previous result made, -/
abbrev E5 (c : Dev nD) : Valuation τ sig (Elt F) := StableHlo.after [cp4] (X4 Vin B c)
/-- and as it leaves them. -/
def X5 (c : Dev nD) : Valuation τ sig (Elt F) := Vx5 (E5 Vin B c) B c
theorem X5_eq (c : Dev nD) : X5 Vin B c = Vx5 (E5 Vin B c) B c := rfl

/-- The arrays as region 6 finds them: the copy of the previous result made, -/
abbrev E6 (c : Dev nD) : Valuation τ sig (Elt F) := StableHlo.after [cp5] (X5 Vin B c)
/-- and as it leaves them. -/
def X6 (c : Dev nD) : Valuation τ sig (Elt F) := Vx6 (E6 Vin B c) B c
theorem X6_eq (c : Dev nD) : X6 Vin B c = Vx6 (E6 Vin B c) B c := rfl

/-- The arrays as region 7 finds them: the copy of the previous result made, -/
abbrev E7 (c : Dev nD) : Valuation τ sig (Elt F) := StableHlo.after [cp6] (X6 Vin B c)
/-- and as it leaves them. -/
def X7 (c : Dev nD) : Valuation τ sig (Elt F) := Vx7 (E7 Vin B c) B c
theorem X7_eq (c : Dev nD) : X7 Vin B c = Vx7 (E7 Vin B c) B c := rfl

/-- The arrays at the end: the last result reshaped. -/
abbrev Vend (c : Dev nD) : Valuation τ sig (Elt F) := StableHlo.after [rsOp] (X7 Vin B c)

/-- The proof data of the eight pipelines: each over the valuation its region is entered at. -/
def pdats : (p : Fin 8) → (c : Dev nD) → Dat τ (Elt F) (HIx 8) ℕ Sc.UU ℕ (Pipeline.pin (pcfgs (F := F)) adm p) c
  | 0 => fun c => dat8 (E0 Vin c) B c
  | 1 => fun c => dat9 (E1 Vin B c) B c
  | 2 => fun c => dat10 (E2 Vin B c) B c
  | 3 => fun c => dat11 (E3 Vin B c) B c
  | 4 => fun c => dat12 (E4 Vin B c) B c
  | 5 => fun c => dat13 (E5 Vin B c) B c
  | 6 => fun c => dat14 (E6 Vin B c) B c
  | 7 => fun c => dat15 (E7 Vin B c) B c

-- each region's exit valuation is opened by its equation only: the chain of valuations is never unfolded whole
attribute [irreducible] X0 X1 X2 X3 X4 X5 X6 X7

/-- The core owes nothing, its recorded pairs within `B`. -/
abbrev Rowe (B : Set (SemLoc sig × HIx 8)) (c : Dev nD) : sProp 𝕄 :=
  iprop(∃ W : Finset (SemLoc sig × HIx 8), ⌜(↑W : Set (SemLoc sig × HIx 8)) ⊆ B⌝ ∗ owes (c : Thread nD τ) (0 : CellTallies nD τ sig (HIx 8)) W)

/-- The thread state between segments: every unscoped buffer held at a valuation, nothing owed. -/
abbrev St (V : Dev nD → Valuation τ sig (Elt F)) (B : Set (SemLoc sig × HIx 8)) (c : Dev nD) : sProp 𝕄 :=
  iprop(StableHlo.held (c : Thread nD τ) (Pipeline.ucRefs τ sig) (V c) ∗ Rowe (F := F) B c)

variable (ι : HIx 8) (L : GSem nD τ sig → Finset (HIx 8)) (lv : GSem nD τ sig → HIx 8 → ℕ)
variable (hB : ∀ x : SemLoc sig × HIx 8, x.2 = ι → x ∈ B)

/-- Region 0's arrays at its exit are the valuation it leaves, read at them. -/
theorem arr0_exit (c : Dev nD) (w : Fin cfg8.W) :
    (pdats Vin B 0 c).arrAt w (Pipeline.pin (pcfgs (F := F)) adm 0).N = vb (X0 Vin B c) c (Pipeline.arrRef spec8 w) := by
  rw [X0_eq]; exact arrx0 (E0 Vin c) B c w

/-- Off its arrays region 0 leaves every buffer as it found it. -/
theorem rest0_exit (c : Dev nD) (b : Ref sig .tc) (hb : b ∉ Finset.univ.image (Pipeline.arrRef spec8)) :
    vb (X0 Vin B c) c b = vb (E0 Vin c) c b := by
  rw [X0_eq]; exact restx0 (E0 Vin c) B c b hb

include hB in
/-- REGION 0: every unscoped buffer held at the valuation it is entered at; its six arrays into the pipeline, the
    other unscoped buffers bypassing; at its exit every unscoped buffer held at the valuation it leaves. -/
def reg0 : Pipeline.RegionSeg (pcfgs (F := F)) adm (pdats Vin B) ι defs₀ Sc.𝒱₀ L lv 0 where
  win := launch8.win.to₀
  block_pos := launch8.block_pos
  stage_whole := launch8.stage_whole
  K := PEmpty
  osem k := k.elim
  ho := Pipeline.OwnSemFacts.none _
  hbody c := (body_obligation8 (E0 Vin c) B c ι).loose
  hwaits c := Pipeline.hwaits_of_owed_zero (pcfgs (F := F)) adm (pdats Vin B) ι L lv 0 (fun _ _ => rfl) c
  pre c := St (E0 Vin) B c
  post c := St (X0 Vin B) B c
  X _ := iprop(emp)
  Y _ := iprop(emp)
  Z c := ur8 (E0 Vin c) c
  hentry c := by
    rw [Pipeline.ownSems0_none]
    have hsplit := Pipeline.arrays_of_unscopedBufs (pcfgs (F := F)) adm (pdats Vin B) (p := 0) launch8.win launch8.arr_whole c
      ((pdats Vin B 0 c).share_full fun _ => rfl) (vb (E0 Vin c) c) fun _ => rfl
    show iprop((StableHlo.held (c : Thread nD τ) (Pipeline.ucRefs τ sig) (E0 Vin c) ∗ Rowe (F := F) B c) ∗ emp ∗ levAts L lv)
      ⊢ |={Set.univ}=> iprop((pdats Vin B 0 c).arrays ((pdats Vin B 0 c).arrAt · 0) ∗ Pipeline.prefHeld (pcfgs (F := F) 0).pre c (fun _ => fullShare) (adm 0).1
        ∗ (pdats Vin B 0 c).owesAt ι 0 ∗ emp ∗ ur8 (E0 Vin c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 0).pre c (fun _ => fullShare) (adm 0).1 ∗ sr8 c) ⊢ sr8 (F := F) c
    iintro ⟨-, -, H⟩; iexact H
  hout c := by
    show sr8 (F := F) c ⊢ iprop(emp ∗ Pipeline.ownSems0 (fun k : PEmpty => k.elim) c ∗ sr8 c)
    rw [Pipeline.ownSems0_none]
    iintro H; isplitr; · iempintro
    isplitr; · iempintro
    iexact H
  hexit c := by
    have hback := Pipeline.unscopedBufs_of_arrays (pcfgs (F := F)) adm (p := 0) launch8.win launch8.arr_whole c (pdats Vin B)
      ((pdats Vin B 0 c).share_full fun _ => rfl) (vb (E0 Vin c) c) (vb (X0 Vin B c) c)
      ((pdats Vin B 0 c).arrAt · (Pipeline.pin (pcfgs (F := F)) adm 0).N) (arr0_exit Vin B c) (rest0_exit Vin B c)
    show iprop((pdats Vin B 0 c).arrays ((pdats Vin B 0 c).arrAt · (Pipeline.pin (pcfgs (F := F)) adm 0).N)
        ∗ (pdats Vin B 0 c).owesAt ι (Fin.last (Pipeline.pin (pcfgs (F := F)) adm 0).N) ∗ emp ∗ ur8 (E0 Vin c) c)
      ⊢ |={Set.univ}=> iprop(StableHlo.held (c : Thread nD τ) (Pipeline.ucRefs τ sig) (X0 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 1's arrays at its exit are the valuation it leaves, read at them. -/
theorem arr1_exit (c : Dev nD) (w : Fin cfg9.W) :
    (pdats Vin B 1 c).arrAt w (Pipeline.pin (pcfgs (F := F)) adm 1).N = vb (X1 Vin B c) c (Pipeline.arrRef spec9 w) := by
  rw [X1_eq]; exact arrx1 (E1 Vin B c) B c w

/-- Off its arrays region 1 leaves every buffer as it found it. -/
theorem rest1_exit (c : Dev nD) (b : Ref sig .tc) (hb : b ∉ Finset.univ.image (Pipeline.arrRef spec9)) :
    vb (X1 Vin B c) c b = vb (E1 Vin B c) c b := by
  rw [X1_eq]; exact restx1 (E1 Vin B c) B c b hb

include hB in
/-- REGION 1: every unscoped buffer held at the valuation it is entered at; its six arrays into the pipeline, the
    other unscoped buffers bypassing; at its exit every unscoped buffer held at the valuation it leaves. -/
def reg1 : Pipeline.RegionSeg (pcfgs (F := F)) adm (pdats Vin B) ι defs₀ Sc.𝒱₀ L lv 1 where
  win := launch9.win.to₀
  block_pos := launch9.block_pos
  stage_whole := launch9.stage_whole
  K := PEmpty
  osem k := k.elim
  ho := Pipeline.OwnSemFacts.none _
  hbody c := (body_obligation9 (E1 Vin B c) B c ι).loose
  hwaits c := Pipeline.hwaits_of_owed_zero (pcfgs (F := F)) adm (pdats Vin B) ι L lv 1 (fun _ _ => rfl) c
  pre c := St (E1 Vin B) B c
  post c := St (X1 Vin B) B c
  X _ := iprop(emp)
  Y _ := iprop(emp)
  Z c := ur9 (E1 Vin B c) c
  hentry c := by
    rw [Pipeline.ownSems0_none]
    have hsplit := Pipeline.arrays_of_unscopedBufs (pcfgs (F := F)) adm (pdats Vin B) (p := 1) launch9.win launch9.arr_whole c
      ((pdats Vin B 1 c).share_full fun _ => rfl) (vb (E1 Vin B c) c) fun _ => rfl
    show iprop((StableHlo.held (c : Thread nD τ) (Pipeline.ucRefs τ sig) (E1 Vin B c) ∗ Rowe (F := F) B c) ∗ emp ∗ levAts L lv)
      ⊢ |={Set.univ}=> iprop((pdats Vin B 1 c).arrays ((pdats Vin B 1 c).arrAt · 0) ∗ Pipeline.prefHeld (pcfgs (F := F) 1).pre c (fun _ => fullShare) (adm 1).1
        ∗ (pdats Vin B 1 c).owesAt ι 0 ∗ emp ∗ ur9 (E1 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 1).pre c (fun _ => fullShare) (adm 1).1 ∗ sr9 c) ⊢ sr9 (F := F) c
    iintro ⟨-, -, H⟩; iexact H
  hout c := by
    show sr9 (F := F) c ⊢ iprop(emp ∗ Pipeline.ownSems0 (fun k : PEmpty => k.elim) c ∗ sr9 c)
    rw [Pipeline.ownSems0_none]
    iintro H; isplitr; · iempintro
    isplitr; · iempintro
    iexact H
  hexit c := by
    have hback := Pipeline.unscopedBufs_of_arrays (pcfgs (F := F)) adm (p := 1) launch9.win launch9.arr_whole c (pdats Vin B)
      ((pdats Vin B 1 c).share_full fun _ => rfl) (vb (E1 Vin B c) c) (vb (X1 Vin B c) c)
      ((pdats Vin B 1 c).arrAt · (Pipeline.pin (pcfgs (F := F)) adm 1).N) (arr1_exit Vin B c) (rest1_exit Vin B c)
    show iprop((pdats Vin B 1 c).arrays ((pdats Vin B 1 c).arrAt · (Pipeline.pin (pcfgs (F := F)) adm 1).N)
        ∗ (pdats Vin B 1 c).owesAt ι (Fin.last (Pipeline.pin (pcfgs (F := F)) adm 1).N) ∗ emp ∗ ur9 (E1 Vin B c) c)
      ⊢ |={Set.univ}=> iprop(StableHlo.held (c : Thread nD τ) (Pipeline.ucRefs τ sig) (X1 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 2's arrays at its exit are the valuation it leaves, read at them. -/
theorem arr2_exit (c : Dev nD) (w : Fin cfg10.W) :
    (pdats Vin B 2 c).arrAt w (Pipeline.pin (pcfgs (F := F)) adm 2).N = vb (X2 Vin B c) c (Pipeline.arrRef spec10 w) := by
  rw [X2_eq]; exact arrx2 (E2 Vin B c) B c w

/-- Off its arrays region 2 leaves every buffer as it found it. -/
theorem rest2_exit (c : Dev nD) (b : Ref sig .tc) (hb : b ∉ Finset.univ.image (Pipeline.arrRef spec10)) :
    vb (X2 Vin B c) c b = vb (E2 Vin B c) c b := by
  rw [X2_eq]; exact restx2 (E2 Vin B c) B c b hb

include hB in
/-- REGION 2: every unscoped buffer held at the valuation it is entered at; its six arrays into the pipeline, the
    other unscoped buffers bypassing; at its exit every unscoped buffer held at the valuation it leaves. -/
def reg2 : Pipeline.RegionSeg (pcfgs (F := F)) adm (pdats Vin B) ι defs₀ Sc.𝒱₀ L lv 2 where
  win := launch10.win.to₀
  block_pos := launch10.block_pos
  stage_whole := launch10.stage_whole
  K := PEmpty
  osem k := k.elim
  ho := Pipeline.OwnSemFacts.none _
  hbody c := (body_obligation10 (E2 Vin B c) B c ι).loose
  hwaits c := Pipeline.hwaits_of_owed_zero (pcfgs (F := F)) adm (pdats Vin B) ι L lv 2 (fun _ _ => rfl) c
  pre c := St (E2 Vin B) B c
  post c := St (X2 Vin B) B c
  X _ := iprop(emp)
  Y _ := iprop(emp)
  Z c := ur10 (E2 Vin B c) c
  hentry c := by
    rw [Pipeline.ownSems0_none]
    have hsplit := Pipeline.arrays_of_unscopedBufs (pcfgs (F := F)) adm (pdats Vin B) (p := 2) launch10.win launch10.arr_whole c
      ((pdats Vin B 2 c).share_full fun _ => rfl) (vb (E2 Vin B c) c) fun _ => rfl
    show iprop((StableHlo.held (c : Thread nD τ) (Pipeline.ucRefs τ sig) (E2 Vin B c) ∗ Rowe (F := F) B c) ∗ emp ∗ levAts L lv)
      ⊢ |={Set.univ}=> iprop((pdats Vin B 2 c).arrays ((pdats Vin B 2 c).arrAt · 0) ∗ Pipeline.prefHeld (pcfgs (F := F) 2).pre c (fun _ => fullShare) (adm 2).1
        ∗ (pdats Vin B 2 c).owesAt ι 0 ∗ emp ∗ ur10 (E2 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 2).pre c (fun _ => fullShare) (adm 2).1 ∗ sr10 c) ⊢ sr10 (F := F) c
    iintro ⟨-, -, H⟩; iexact H
  hout c := by
    show sr10 (F := F) c ⊢ iprop(emp ∗ Pipeline.ownSems0 (fun k : PEmpty => k.elim) c ∗ sr10 c)
    rw [Pipeline.ownSems0_none]
    iintro H; isplitr; · iempintro
    isplitr; · iempintro
    iexact H
  hexit c := by
    have hback := Pipeline.unscopedBufs_of_arrays (pcfgs (F := F)) adm (p := 2) launch10.win launch10.arr_whole c (pdats Vin B)
      ((pdats Vin B 2 c).share_full fun _ => rfl) (vb (E2 Vin B c) c) (vb (X2 Vin B c) c)
      ((pdats Vin B 2 c).arrAt · (Pipeline.pin (pcfgs (F := F)) adm 2).N) (arr2_exit Vin B c) (rest2_exit Vin B c)
    show iprop((pdats Vin B 2 c).arrays ((pdats Vin B 2 c).arrAt · (Pipeline.pin (pcfgs (F := F)) adm 2).N)
        ∗ (pdats Vin B 2 c).owesAt ι (Fin.last (Pipeline.pin (pcfgs (F := F)) adm 2).N) ∗ emp ∗ ur10 (E2 Vin B c) c)
      ⊢ |={Set.univ}=> iprop(StableHlo.held (c : Thread nD τ) (Pipeline.ucRefs τ sig) (X2 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 3's arrays at its exit are the valuation it leaves, read at them. -/
theorem arr3_exit (c : Dev nD) (w : Fin cfg11.W) :
    (pdats Vin B 3 c).arrAt w (Pipeline.pin (pcfgs (F := F)) adm 3).N = vb (X3 Vin B c) c (Pipeline.arrRef spec11 w) := by
  rw [X3_eq]; exact arrx3 (E3 Vin B c) B c w

/-- Off its arrays region 3 leaves every buffer as it found it. -/
theorem rest3_exit (c : Dev nD) (b : Ref sig .tc) (hb : b ∉ Finset.univ.image (Pipeline.arrRef spec11)) :
    vb (X3 Vin B c) c b = vb (E3 Vin B c) c b := by
  rw [X3_eq]; exact restx3 (E3 Vin B c) B c b hb

include hB in
/-- REGION 3: every unscoped buffer held at the valuation it is entered at; its six arrays into the pipeline, the
    other unscoped buffers bypassing; at its exit every unscoped buffer held at the valuation it leaves. -/
def reg3 : Pipeline.RegionSeg (pcfgs (F := F)) adm (pdats Vin B) ι defs₀ Sc.𝒱₀ L lv 3 where
  win := launch11.win.to₀
  block_pos := launch11.block_pos
  stage_whole := launch11.stage_whole
  K := PEmpty
  osem k := k.elim
  ho := Pipeline.OwnSemFacts.none _
  hbody c := (body_obligation11 (E3 Vin B c) B c ι).loose
  hwaits c := Pipeline.hwaits_of_owed_zero (pcfgs (F := F)) adm (pdats Vin B) ι L lv 3 (fun _ _ => rfl) c
  pre c := St (E3 Vin B) B c
  post c := St (X3 Vin B) B c
  X _ := iprop(emp)
  Y _ := iprop(emp)
  Z c := ur11 (E3 Vin B c) c
  hentry c := by
    rw [Pipeline.ownSems0_none]
    have hsplit := Pipeline.arrays_of_unscopedBufs (pcfgs (F := F)) adm (pdats Vin B) (p := 3) launch11.win launch11.arr_whole c
      ((pdats Vin B 3 c).share_full fun _ => rfl) (vb (E3 Vin B c) c) fun _ => rfl
    show iprop((StableHlo.held (c : Thread nD τ) (Pipeline.ucRefs τ sig) (E3 Vin B c) ∗ Rowe (F := F) B c) ∗ emp ∗ levAts L lv)
      ⊢ |={Set.univ}=> iprop((pdats Vin B 3 c).arrays ((pdats Vin B 3 c).arrAt · 0) ∗ Pipeline.prefHeld (pcfgs (F := F) 3).pre c (fun _ => fullShare) (adm 3).1
        ∗ (pdats Vin B 3 c).owesAt ι 0 ∗ emp ∗ ur11 (E3 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 3).pre c (fun _ => fullShare) (adm 3).1 ∗ sr11 c) ⊢ sr11 (F := F) c
    iintro ⟨-, -, H⟩; iexact H
  hout c := by
    show sr11 (F := F) c ⊢ iprop(emp ∗ Pipeline.ownSems0 (fun k : PEmpty => k.elim) c ∗ sr11 c)
    rw [Pipeline.ownSems0_none]
    iintro H; isplitr; · iempintro
    isplitr; · iempintro
    iexact H
  hexit c := by
    have hback := Pipeline.unscopedBufs_of_arrays (pcfgs (F := F)) adm (p := 3) launch11.win launch11.arr_whole c (pdats Vin B)
      ((pdats Vin B 3 c).share_full fun _ => rfl) (vb (E3 Vin B c) c) (vb (X3 Vin B c) c)
      ((pdats Vin B 3 c).arrAt · (Pipeline.pin (pcfgs (F := F)) adm 3).N) (arr3_exit Vin B c) (rest3_exit Vin B c)
    show iprop((pdats Vin B 3 c).arrays ((pdats Vin B 3 c).arrAt · (Pipeline.pin (pcfgs (F := F)) adm 3).N)
        ∗ (pdats Vin B 3 c).owesAt ι (Fin.last (Pipeline.pin (pcfgs (F := F)) adm 3).N) ∗ emp ∗ ur11 (E3 Vin B c) c)
      ⊢ |={Set.univ}=> iprop(StableHlo.held (c : Thread nD τ) (Pipeline.ucRefs τ sig) (X3 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 4's arrays at its exit are the valuation it leaves, read at them. -/
theorem arr4_exit (c : Dev nD) (w : Fin cfg12.W) :
    (pdats Vin B 4 c).arrAt w (Pipeline.pin (pcfgs (F := F)) adm 4).N = vb (X4 Vin B c) c (Pipeline.arrRef spec12 w) := by
  rw [X4_eq]; exact arrx4 (E4 Vin B c) B c w

/-- Off its arrays region 4 leaves every buffer as it found it. -/
theorem rest4_exit (c : Dev nD) (b : Ref sig .tc) (hb : b ∉ Finset.univ.image (Pipeline.arrRef spec12)) :
    vb (X4 Vin B c) c b = vb (E4 Vin B c) c b := by
  rw [X4_eq]; exact restx4 (E4 Vin B c) B c b hb

include hB in
/-- REGION 4: every unscoped buffer held at the valuation it is entered at; its six arrays into the pipeline, the
    other unscoped buffers bypassing; at its exit every unscoped buffer held at the valuation it leaves. -/
def reg4 : Pipeline.RegionSeg (pcfgs (F := F)) adm (pdats Vin B) ι defs₀ Sc.𝒱₀ L lv 4 where
  win := launch12.win.to₀
  block_pos := launch12.block_pos
  stage_whole := launch12.stage_whole
  K := PEmpty
  osem k := k.elim
  ho := Pipeline.OwnSemFacts.none _
  hbody c := (body_obligation12 (E4 Vin B c) B c ι).loose
  hwaits c := Pipeline.hwaits_of_owed_zero (pcfgs (F := F)) adm (pdats Vin B) ι L lv 4 (fun _ _ => rfl) c
  pre c := St (E4 Vin B) B c
  post c := St (X4 Vin B) B c
  X _ := iprop(emp)
  Y _ := iprop(emp)
  Z c := ur12 (E4 Vin B c) c
  hentry c := by
    rw [Pipeline.ownSems0_none]
    have hsplit := Pipeline.arrays_of_unscopedBufs (pcfgs (F := F)) adm (pdats Vin B) (p := 4) launch12.win launch12.arr_whole c
      ((pdats Vin B 4 c).share_full fun _ => rfl) (vb (E4 Vin B c) c) fun _ => rfl
    show iprop((StableHlo.held (c : Thread nD τ) (Pipeline.ucRefs τ sig) (E4 Vin B c) ∗ Rowe (F := F) B c) ∗ emp ∗ levAts L lv)
      ⊢ |={Set.univ}=> iprop((pdats Vin B 4 c).arrays ((pdats Vin B 4 c).arrAt · 0) ∗ Pipeline.prefHeld (pcfgs (F := F) 4).pre c (fun _ => fullShare) (adm 4).1
        ∗ (pdats Vin B 4 c).owesAt ι 0 ∗ emp ∗ ur12 (E4 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 4).pre c (fun _ => fullShare) (adm 4).1 ∗ sr12 c) ⊢ sr12 (F := F) c
    iintro ⟨-, -, H⟩; iexact H
  hout c := by
    show sr12 (F := F) c ⊢ iprop(emp ∗ Pipeline.ownSems0 (fun k : PEmpty => k.elim) c ∗ sr12 c)
    rw [Pipeline.ownSems0_none]
    iintro H; isplitr; · iempintro
    isplitr; · iempintro
    iexact H
  hexit c := by
    have hback := Pipeline.unscopedBufs_of_arrays (pcfgs (F := F)) adm (p := 4) launch12.win launch12.arr_whole c (pdats Vin B)
      ((pdats Vin B 4 c).share_full fun _ => rfl) (vb (E4 Vin B c) c) (vb (X4 Vin B c) c)
      ((pdats Vin B 4 c).arrAt · (Pipeline.pin (pcfgs (F := F)) adm 4).N) (arr4_exit Vin B c) (rest4_exit Vin B c)
    show iprop((pdats Vin B 4 c).arrays ((pdats Vin B 4 c).arrAt · (Pipeline.pin (pcfgs (F := F)) adm 4).N)
        ∗ (pdats Vin B 4 c).owesAt ι (Fin.last (Pipeline.pin (pcfgs (F := F)) adm 4).N) ∗ emp ∗ ur12 (E4 Vin B c) c)
      ⊢ |={Set.univ}=> iprop(StableHlo.held (c : Thread nD τ) (Pipeline.ucRefs τ sig) (X4 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 5's arrays at its exit are the valuation it leaves, read at them. -/
theorem arr5_exit (c : Dev nD) (w : Fin cfg13.W) :
    (pdats Vin B 5 c).arrAt w (Pipeline.pin (pcfgs (F := F)) adm 5).N = vb (X5 Vin B c) c (Pipeline.arrRef spec13 w) := by
  rw [X5_eq]; exact arrx5 (E5 Vin B c) B c w

/-- Off its arrays region 5 leaves every buffer as it found it. -/
theorem rest5_exit (c : Dev nD) (b : Ref sig .tc) (hb : b ∉ Finset.univ.image (Pipeline.arrRef spec13)) :
    vb (X5 Vin B c) c b = vb (E5 Vin B c) c b := by
  rw [X5_eq]; exact restx5 (E5 Vin B c) B c b hb

include hB in
/-- REGION 5: every unscoped buffer held at the valuation it is entered at; its six arrays into the pipeline, the
    other unscoped buffers bypassing; at its exit every unscoped buffer held at the valuation it leaves. -/
def reg5 : Pipeline.RegionSeg (pcfgs (F := F)) adm (pdats Vin B) ι defs₀ Sc.𝒱₀ L lv 5 where
  win := launch13.win.to₀
  block_pos := launch13.block_pos
  stage_whole := launch13.stage_whole
  K := PEmpty
  osem k := k.elim
  ho := Pipeline.OwnSemFacts.none _
  hbody c := (body_obligation13 (E5 Vin B c) B c ι).loose
  hwaits c := Pipeline.hwaits_of_owed_zero (pcfgs (F := F)) adm (pdats Vin B) ι L lv 5 (fun _ _ => rfl) c
  pre c := St (E5 Vin B) B c
  post c := St (X5 Vin B) B c
  X _ := iprop(emp)
  Y _ := iprop(emp)
  Z c := ur13 (E5 Vin B c) c
  hentry c := by
    rw [Pipeline.ownSems0_none]
    have hsplit := Pipeline.arrays_of_unscopedBufs (pcfgs (F := F)) adm (pdats Vin B) (p := 5) launch13.win launch13.arr_whole c
      ((pdats Vin B 5 c).share_full fun _ => rfl) (vb (E5 Vin B c) c) fun _ => rfl
    show iprop((StableHlo.held (c : Thread nD τ) (Pipeline.ucRefs τ sig) (E5 Vin B c) ∗ Rowe (F := F) B c) ∗ emp ∗ levAts L lv)
      ⊢ |={Set.univ}=> iprop((pdats Vin B 5 c).arrays ((pdats Vin B 5 c).arrAt · 0) ∗ Pipeline.prefHeld (pcfgs (F := F) 5).pre c (fun _ => fullShare) (adm 5).1
        ∗ (pdats Vin B 5 c).owesAt ι 0 ∗ emp ∗ ur13 (E5 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 5).pre c (fun _ => fullShare) (adm 5).1 ∗ sr13 c) ⊢ sr13 (F := F) c
    iintro ⟨-, -, H⟩; iexact H
  hout c := by
    show sr13 (F := F) c ⊢ iprop(emp ∗ Pipeline.ownSems0 (fun k : PEmpty => k.elim) c ∗ sr13 c)
    rw [Pipeline.ownSems0_none]
    iintro H; isplitr; · iempintro
    isplitr; · iempintro
    iexact H
  hexit c := by
    have hback := Pipeline.unscopedBufs_of_arrays (pcfgs (F := F)) adm (p := 5) launch13.win launch13.arr_whole c (pdats Vin B)
      ((pdats Vin B 5 c).share_full fun _ => rfl) (vb (E5 Vin B c) c) (vb (X5 Vin B c) c)
      ((pdats Vin B 5 c).arrAt · (Pipeline.pin (pcfgs (F := F)) adm 5).N) (arr5_exit Vin B c) (rest5_exit Vin B c)
    show iprop((pdats Vin B 5 c).arrays ((pdats Vin B 5 c).arrAt · (Pipeline.pin (pcfgs (F := F)) adm 5).N)
        ∗ (pdats Vin B 5 c).owesAt ι (Fin.last (Pipeline.pin (pcfgs (F := F)) adm 5).N) ∗ emp ∗ ur13 (E5 Vin B c) c)
      ⊢ |={Set.univ}=> iprop(StableHlo.held (c : Thread nD τ) (Pipeline.ucRefs τ sig) (X5 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 6's arrays at its exit are the valuation it leaves, read at them. -/
theorem arr6_exit (c : Dev nD) (w : Fin cfg14.W) :
    (pdats Vin B 6 c).arrAt w (Pipeline.pin (pcfgs (F := F)) adm 6).N = vb (X6 Vin B c) c (Pipeline.arrRef spec14 w) := by
  rw [X6_eq]; exact arrx6 (E6 Vin B c) B c w

/-- Off its arrays region 6 leaves every buffer as it found it. -/
theorem rest6_exit (c : Dev nD) (b : Ref sig .tc) (hb : b ∉ Finset.univ.image (Pipeline.arrRef spec14)) :
    vb (X6 Vin B c) c b = vb (E6 Vin B c) c b := by
  rw [X6_eq]; exact restx6 (E6 Vin B c) B c b hb

include hB in
/-- REGION 6: every unscoped buffer held at the valuation it is entered at; its six arrays into the pipeline, the
    other unscoped buffers bypassing; at its exit every unscoped buffer held at the valuation it leaves. -/
def reg6 : Pipeline.RegionSeg (pcfgs (F := F)) adm (pdats Vin B) ι defs₀ Sc.𝒱₀ L lv 6 where
  win := launch14.win.to₀
  block_pos := launch14.block_pos
  stage_whole := launch14.stage_whole
  K := PEmpty
  osem k := k.elim
  ho := Pipeline.OwnSemFacts.none _
  hbody c := (body_obligation14 (E6 Vin B c) B c ι).loose
  hwaits c := Pipeline.hwaits_of_owed_zero (pcfgs (F := F)) adm (pdats Vin B) ι L lv 6 (fun _ _ => rfl) c
  pre c := St (E6 Vin B) B c
  post c := St (X6 Vin B) B c
  X _ := iprop(emp)
  Y _ := iprop(emp)
  Z c := ur14 (E6 Vin B c) c
  hentry c := by
    rw [Pipeline.ownSems0_none]
    have hsplit := Pipeline.arrays_of_unscopedBufs (pcfgs (F := F)) adm (pdats Vin B) (p := 6) launch14.win launch14.arr_whole c
      ((pdats Vin B 6 c).share_full fun _ => rfl) (vb (E6 Vin B c) c) fun _ => rfl
    show iprop((StableHlo.held (c : Thread nD τ) (Pipeline.ucRefs τ sig) (E6 Vin B c) ∗ Rowe (F := F) B c) ∗ emp ∗ levAts L lv)
      ⊢ |={Set.univ}=> iprop((pdats Vin B 6 c).arrays ((pdats Vin B 6 c).arrAt · 0) ∗ Pipeline.prefHeld (pcfgs (F := F) 6).pre c (fun _ => fullShare) (adm 6).1
        ∗ (pdats Vin B 6 c).owesAt ι 0 ∗ emp ∗ ur14 (E6 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 6).pre c (fun _ => fullShare) (adm 6).1 ∗ sr14 c) ⊢ sr14 (F := F) c
    iintro ⟨-, -, H⟩; iexact H
  hout c := by
    show sr14 (F := F) c ⊢ iprop(emp ∗ Pipeline.ownSems0 (fun k : PEmpty => k.elim) c ∗ sr14 c)
    rw [Pipeline.ownSems0_none]
    iintro H; isplitr; · iempintro
    isplitr; · iempintro
    iexact H
  hexit c := by
    have hback := Pipeline.unscopedBufs_of_arrays (pcfgs (F := F)) adm (p := 6) launch14.win launch14.arr_whole c (pdats Vin B)
      ((pdats Vin B 6 c).share_full fun _ => rfl) (vb (E6 Vin B c) c) (vb (X6 Vin B c) c)
      ((pdats Vin B 6 c).arrAt · (Pipeline.pin (pcfgs (F := F)) adm 6).N) (arr6_exit Vin B c) (rest6_exit Vin B c)
    show iprop((pdats Vin B 6 c).arrays ((pdats Vin B 6 c).arrAt · (Pipeline.pin (pcfgs (F := F)) adm 6).N)
        ∗ (pdats Vin B 6 c).owesAt ι (Fin.last (Pipeline.pin (pcfgs (F := F)) adm 6).N) ∗ emp ∗ ur14 (E6 Vin B c) c)
      ⊢ |={Set.univ}=> iprop(StableHlo.held (c : Thread nD τ) (Pipeline.ucRefs τ sig) (X6 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 7's arrays at its exit are the valuation it leaves, read at them. -/
theorem arr7_exit (c : Dev nD) (w : Fin cfg15.W) :
    (pdats Vin B 7 c).arrAt w (Pipeline.pin (pcfgs (F := F)) adm 7).N = vb (X7 Vin B c) c (Pipeline.arrRef spec15 w) := by
  rw [X7_eq]; exact arrx7 (E7 Vin B c) B c w

/-- Off its arrays region 7 leaves every buffer as it found it. -/
theorem rest7_exit (c : Dev nD) (b : Ref sig .tc) (hb : b ∉ Finset.univ.image (Pipeline.arrRef spec15)) :
    vb (X7 Vin B c) c b = vb (E7 Vin B c) c b := by
  rw [X7_eq]; exact restx7 (E7 Vin B c) B c b hb

include hB in
/-- REGION 7: every unscoped buffer held at the valuation it is entered at; its six arrays into the pipeline, the
    other unscoped buffers bypassing; at its exit every unscoped buffer held at the valuation it leaves. -/
def reg7 : Pipeline.RegionSeg (pcfgs (F := F)) adm (pdats Vin B) ι defs₀ Sc.𝒱₀ L lv 7 where
  win := launch15.win.to₀
  block_pos := launch15.block_pos
  stage_whole := launch15.stage_whole
  K := PEmpty
  osem k := k.elim
  ho := Pipeline.OwnSemFacts.none _
  hbody c := (body_obligation15 (E7 Vin B c) B c ι).loose
  hwaits c := Pipeline.hwaits_of_owed_zero (pcfgs (F := F)) adm (pdats Vin B) ι L lv 7 (fun _ _ => rfl) c
  pre c := St (E7 Vin B) B c
  post c := St (X7 Vin B) B c
  X _ := iprop(emp)
  Y _ := iprop(emp)
  Z c := ur15 (E7 Vin B c) c
  hentry c := by
    rw [Pipeline.ownSems0_none]
    have hsplit := Pipeline.arrays_of_unscopedBufs (pcfgs (F := F)) adm (pdats Vin B) (p := 7) launch15.win launch15.arr_whole c
      ((pdats Vin B 7 c).share_full fun _ => rfl) (vb (E7 Vin B c) c) fun _ => rfl
    show iprop((StableHlo.held (c : Thread nD τ) (Pipeline.ucRefs τ sig) (E7 Vin B c) ∗ Rowe (F := F) B c) ∗ emp ∗ levAts L lv)
      ⊢ |={Set.univ}=> iprop((pdats Vin B 7 c).arrays ((pdats Vin B 7 c).arrAt · 0) ∗ Pipeline.prefHeld (pcfgs (F := F) 7).pre c (fun _ => fullShare) (adm 7).1
        ∗ (pdats Vin B 7 c).owesAt ι 0 ∗ emp ∗ ur15 (E7 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 7).pre c (fun _ => fullShare) (adm 7).1 ∗ sr15 c) ⊢ sr15 (F := F) c
    iintro ⟨-, -, H⟩; iexact H
  hout c := by
    show sr15 (F := F) c ⊢ iprop(emp ∗ Pipeline.ownSems0 (fun k : PEmpty => k.elim) c ∗ sr15 c)
    rw [Pipeline.ownSems0_none]
    iintro H; isplitr; · iempintro
    isplitr; · iempintro
    iexact H
  hexit c := by
    have hback := Pipeline.unscopedBufs_of_arrays (pcfgs (F := F)) adm (p := 7) launch15.win launch15.arr_whole c (pdats Vin B)
      ((pdats Vin B 7 c).share_full fun _ => rfl) (vb (E7 Vin B c) c) (vb (X7 Vin B c) c)
      ((pdats Vin B 7 c).arrAt · (Pipeline.pin (pcfgs (F := F)) adm 7).N) (arr7_exit Vin B c) (rest7_exit Vin B c)
    show iprop((pdats Vin B 7 c).arrays ((pdats Vin B 7 c).arrAt · (Pipeline.pin (pcfgs (F := F)) adm 7).N)
        ∗ (pdats Vin B 7 c).owesAt ι (Fin.last (Pipeline.pin (pcfgs (F := F)) adm 7).N) ∗ emp ∗ ur15 (E7 Vin B c) c)
      ⊢ |={Set.univ}=> iprop(StableHlo.held (c : Thread nD τ) (Pipeline.ucRefs τ sig) (X7 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

theorem cp0_sub : ∀ op ∈ [(cp0 : HloOp τ sig (Elt F))], op.bufs ⊆ Pipeline.ucRefs τ sig := fun op h => by
  obtain rfl := List.mem_singleton.mp h
  exact Pipeline.sub_ucRefs _ (StableHlo.unary_bufs_sub ..)
theorem cp0_fresh : ∀ op ∈ [(cp0 : HloOp τ sig (Elt F))], op.fresh = ∅ := fun op h => by
  obtain rfl := List.mem_singleton.mp h; rfl
/-- The copy after region 0: over the unscoped buffers as region 0 left them. -/
def host0 : Pipeline.HostSeg (Name := ℕ) (U := Sc.UU) (pcfgs (F := F)) defs₀ Sc.𝒱₀ L lv :=
  Pipeline.HostSeg.ofOps _ _ _ _ _ (Pipeline.ucRefs τ sig) [cp0] cp0_sub cp0_fresh (X0 Vin B) (Rowe (F := F) B)

theorem cp1_sub : ∀ op ∈ [(cp1 : HloOp τ sig (Elt F))], op.bufs ⊆ Pipeline.ucRefs τ sig := fun op h => by
  obtain rfl := List.mem_singleton.mp h
  exact Pipeline.sub_ucRefs _ (StableHlo.unary_bufs_sub ..)
theorem cp1_fresh : ∀ op ∈ [(cp1 : HloOp τ sig (Elt F))], op.fresh = ∅ := fun op h => by
  obtain rfl := List.mem_singleton.mp h; rfl
/-- The copy after region 1: over the unscoped buffers as region 1 left them. -/
def host1 : Pipeline.HostSeg (Name := ℕ) (U := Sc.UU) (pcfgs (F := F)) defs₀ Sc.𝒱₀ L lv :=
  Pipeline.HostSeg.ofOps _ _ _ _ _ (Pipeline.ucRefs τ sig) [cp1] cp1_sub cp1_fresh (X1 Vin B) (Rowe (F := F) B)

theorem cp2_sub : ∀ op ∈ [(cp2 : HloOp τ sig (Elt F))], op.bufs ⊆ Pipeline.ucRefs τ sig := fun op h => by
  obtain rfl := List.mem_singleton.mp h
  exact Pipeline.sub_ucRefs _ (StableHlo.unary_bufs_sub ..)
theorem cp2_fresh : ∀ op ∈ [(cp2 : HloOp τ sig (Elt F))], op.fresh = ∅ := fun op h => by
  obtain rfl := List.mem_singleton.mp h; rfl
/-- The copy after region 2: over the unscoped buffers as region 2 left them. -/
def host2 : Pipeline.HostSeg (Name := ℕ) (U := Sc.UU) (pcfgs (F := F)) defs₀ Sc.𝒱₀ L lv :=
  Pipeline.HostSeg.ofOps _ _ _ _ _ (Pipeline.ucRefs τ sig) [cp2] cp2_sub cp2_fresh (X2 Vin B) (Rowe (F := F) B)

theorem cp3_sub : ∀ op ∈ [(cp3 : HloOp τ sig (Elt F))], op.bufs ⊆ Pipeline.ucRefs τ sig := fun op h => by
  obtain rfl := List.mem_singleton.mp h
  exact Pipeline.sub_ucRefs _ (StableHlo.unary_bufs_sub ..)
theorem cp3_fresh : ∀ op ∈ [(cp3 : HloOp τ sig (Elt F))], op.fresh = ∅ := fun op h => by
  obtain rfl := List.mem_singleton.mp h; rfl
/-- The copy after region 3: over the unscoped buffers as region 3 left them. -/
def host3 : Pipeline.HostSeg (Name := ℕ) (U := Sc.UU) (pcfgs (F := F)) defs₀ Sc.𝒱₀ L lv :=
  Pipeline.HostSeg.ofOps _ _ _ _ _ (Pipeline.ucRefs τ sig) [cp3] cp3_sub cp3_fresh (X3 Vin B) (Rowe (F := F) B)

theorem cp4_sub : ∀ op ∈ [(cp4 : HloOp τ sig (Elt F))], op.bufs ⊆ Pipeline.ucRefs τ sig := fun op h => by
  obtain rfl := List.mem_singleton.mp h
  exact Pipeline.sub_ucRefs _ (StableHlo.unary_bufs_sub ..)
theorem cp4_fresh : ∀ op ∈ [(cp4 : HloOp τ sig (Elt F))], op.fresh = ∅ := fun op h => by
  obtain rfl := List.mem_singleton.mp h; rfl
/-- The copy after region 4: over the unscoped buffers as region 4 left them. -/
def host4 : Pipeline.HostSeg (Name := ℕ) (U := Sc.UU) (pcfgs (F := F)) defs₀ Sc.𝒱₀ L lv :=
  Pipeline.HostSeg.ofOps _ _ _ _ _ (Pipeline.ucRefs τ sig) [cp4] cp4_sub cp4_fresh (X4 Vin B) (Rowe (F := F) B)

theorem cp5_sub : ∀ op ∈ [(cp5 : HloOp τ sig (Elt F))], op.bufs ⊆ Pipeline.ucRefs τ sig := fun op h => by
  obtain rfl := List.mem_singleton.mp h
  exact Pipeline.sub_ucRefs _ (StableHlo.unary_bufs_sub ..)
theorem cp5_fresh : ∀ op ∈ [(cp5 : HloOp τ sig (Elt F))], op.fresh = ∅ := fun op h => by
  obtain rfl := List.mem_singleton.mp h; rfl
/-- The copy after region 5: over the unscoped buffers as region 5 left them. -/
def host5 : Pipeline.HostSeg (Name := ℕ) (U := Sc.UU) (pcfgs (F := F)) defs₀ Sc.𝒱₀ L lv :=
  Pipeline.HostSeg.ofOps _ _ _ _ _ (Pipeline.ucRefs τ sig) [cp5] cp5_sub cp5_fresh (X5 Vin B) (Rowe (F := F) B)

theorem cp6_sub : ∀ op ∈ [(cp6 : HloOp τ sig (Elt F))], op.bufs ⊆ Pipeline.ucRefs τ sig := fun op h => by
  obtain rfl := List.mem_singleton.mp h
  exact Pipeline.sub_ucRefs _ (StableHlo.unary_bufs_sub ..)
theorem cp6_fresh : ∀ op ∈ [(cp6 : HloOp τ sig (Elt F))], op.fresh = ∅ := fun op h => by
  obtain rfl := List.mem_singleton.mp h; rfl
/-- The copy after region 6: over the unscoped buffers as region 6 left them. -/
def host6 : Pipeline.HostSeg (Name := ℕ) (U := Sc.UU) (pcfgs (F := F)) defs₀ Sc.𝒱₀ L lv :=
  Pipeline.HostSeg.ofOps _ _ _ _ _ (Pipeline.ucRefs τ sig) [cp6] cp6_sub cp6_fresh (X6 Vin B) (Rowe (F := F) B)

theorem rs_sub : ∀ op ∈ [(rsOp : HloOp τ sig (Elt F))], op.bufs ⊆ Pipeline.ucRefs τ sig := fun op h => by
  obtain rfl := List.mem_singleton.mp h
  exact Pipeline.sub_ucRefs _ (StableHlo.reshape_bufs_sub ..)
theorem rs_fresh : ∀ op ∈ [(rsOp : HloOp τ sig (Elt F))], op.fresh = ∅ := fun op h => by
  obtain rfl := List.mem_singleton.mp h; rfl
/-- The reshape after the last region. -/
def hostR : Pipeline.HostSeg (Name := ℕ) (U := Sc.UU) (pcfgs (F := F)) defs₀ Sc.𝒱₀ L lv :=
  Pipeline.HostSeg.ofOps _ _ _ _ _ (Pipeline.ucRefs τ sig) [rsOp] rs_sub rs_fresh (X7 Vin B) (Rowe (F := F) B)

/-! ## The list, its chaining, and the run -/

include hB in
/-- The tail of @main: region, copy, region, …, region, reshape. -/
def segs : List (Pipeline.Seg (pcfgs (F := F)) adm (pdats Vin B) ι defs₀ Sc.𝒱₀ L lv) :=
  [.region (reg0 Vin B ι L lv hB), .host (host0 Vin B L lv), .region (reg1 Vin B ι L lv hB), .host (host1 Vin B L lv),
   .region (reg2 Vin B ι L lv hB), .host (host2 Vin B L lv), .region (reg3 Vin B ι L lv hB), .host (host3 Vin B L lv),
   .region (reg4 Vin B ι L lv hB), .host (host4 Vin B L lv), .region (reg5 Vin B ι L lv hB), .host (host5 Vin B L lv),
   .region (reg6 Vin B ι L lv hB), .host (host6 Vin B L lv), .region (reg7 Vin B ι L lv hB), .host (hostR Vin B L lv)]

/-- Each segment is entered from what the one before it left. -/
theorem segs_chain : Pipeline.Seg.Chains (St (E0 Vin) B) (segs Vin B ι L lv hB) (St (Vend Vin B) B) :=
  ⟨fun _ => .rfl, fun _ => .rfl, fun _ => .rfl, fun _ => .rfl, fun _ => .rfl, fun _ => .rfl, fun _ => .rfl, fun _ => .rfl,
   fun _ => .rfl, fun _ => .rfl, fun _ => .rfl, fun _ => .rfl, fun _ => .rfl, fun _ => .rfl, fun _ => .rfl, fun _ => .rfl, fun _ => .rfl⟩

theorem segs_pipes : Pipeline.Seg.pipes (segs Vin B ι L lv hB) = [0, 1, 2, 3, 4, 5, 6, 7] := rfl

end Cert.KernelIdeal.TcTail

end
-- ==== Proof.TcTailWp.lean ====
/-
  The tail of @main run from the state the last gather call leaves: every unscoped buffer held at a valuation and the
  core owing nothing with recorded pairs W; it ends with every unscoped buffer held at the valuation the eight
  regions and the host operations make of it, the core owing nothing, its recorded pairs each in W or at the index
  the pipelines' waits are recorded at.
-/
import proofs.«204770_g8065948582451_cont_9to1c4b_476_56_alg».proof.Proof.ScPayI
import proofs.«204770_g8065948582451_cont_9to1c4b_476_56_alg».proof.Proof.Gen.KernelIdeal.Points
import proofs.«204770_g8065948582451_cont_9to1c4b_476_56_alg».proof.Proof.TcTailSeg
import Idealize.ShloMosaic.Lib.Pipeline.FrameBody
import Idealize.ShloMosaic.Lib.Pipeline.RegionsLoop
import Idealize.ShloMosaic.Lib.Tactic

set_option maxRecDepth 16384

noncomputable section

namespace Cert.KernelIdeal.TcTail

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

variable (Vin : Dev nD → Valuation τ sig (Elt F))
variable (ι : HIx 8) (L : GSem nD τ sig → Finset (HIx 8)) (lv : GSem nD τ sig → HIx 8 → ℕ)

/-- The recorded pairs allowed: those of `W` and every pair at the index `ι`. -/
abbrev Bof (W : Finset (SemLoc sig × HIx 8)) (ι : HIx 8) : Set (SemLoc sig × HIx 8) := {x | x ∈ W ∨ x.2 = ι}
theorem Bof_idx (W : Finset (SemLoc sig × HIx 8)) (ι : HIx 8) : ∀ x : SemLoc sig × HIx 8, x.2 = ι → x ∈ Bof W ι := fun _ h => Or.inr h

/-- The valuation at the end. -/
abbrev Vout (W : Finset (SemLoc sig × HIx 8)) (d : Dev nD) : Valuation τ sig (Elt F) := Vend Vin (Bof W ι) d

/-- The state the tail starts from, -/
abbrev Tstart (W : Finset (SemLoc sig × HIx 8)) (d : Dev nD) : sProp 𝕄 :=
  iprop(StableHlo.held (d : Thread nD τ) (Pipeline.ucRefs τ sig) (Vin d) ∗ owes (d : Thread nD τ) (0 : CellTallies nD τ sig (HIx 8)) W)
/-- and the state it ends in. -/
abbrev Tend (W : Finset (SemLoc sig × HIx 8)) (d : Dev nD) : sProp 𝕄 :=
  iprop(StableHlo.held (d : Thread nD τ) (Pipeline.ucRefs τ sig) (Vout Vin ι W d)
    ∗ ∃ W' : Finset (SemLoc sig × HIx 8), ⌜∀ x ∈ W', x ∈ W ∨ x.2 = ι⌝ ∗ owes (d : Thread nD τ) (0 : CellTallies nD τ sig (HIx 8)) W')

/-- The segments of the tail at that bound. -/
abbrev tailSegs (W : Finset (SemLoc sig × HIx 8)) :
    List (Pipeline.Seg (pcfgs (F := F)) adm (pdats Vin (Bof W ι)) ι defs₀ Sc.𝒱₀ L lv) :=
  segs Vin (Bof W ι) ι L lv (Bof_idx W ι)

/-- THE TAIL'S RUN on device `d`. -/
theorem tail_wp (d : Dev nD) (W : Finset (SemLoc sig × HIx 8)) {Q : PUnit → sProp 𝕄} :
    iprop((iprop(boundary (d : Thread nD τ) ∗ Tend Vin ι W d) -∗ Q ⟨⟩) ∗ boundary (d : Thread nD τ) ∗ Tstart Vin W d ∗ levAts L lv
        ∗ bigSep Finset.univ (fun p : Fin 8 => iprop(Pipeline.cellsGhost (Pipeline.pin (pcfgs (F := F)) adm) Sc.EP p d
            ∗ Pipeline.toksInit (Pipeline.pin (pcfgs (F := F)) adm) Sc.EP p d)))
      ⊢ wp frame (wpE (Pipeline.defs (pcfgs (F := F)) defs₀) Sc.𝒱 (d : Thread nD τ) none) Set.univ
          (Pipeline.Seg.run (tailSegs Vin ι L lv W)) Q := by
  have h := Pipeline.wp_segs (pcfgs (F := F)) adm (pdats Vin (Bof W ι)) ι cellOf_inj Sc.EP defs₀ Sc.𝒱₀ L lv d (Q := Q)
    (tailSegs Vin ι L lv W) Finset.univ (St (E0 Vin) (Bof W ι)) (St (Vend Vin (Bof W ι)) (Bof W ι))
    (by rw [segs_pipes]; decide) (fun p _ => Finset.mem_univ p) (segs_chain Vin (Bof W ι) ι L lv (Bof_idx W ι))
  rw [show (bigSep Finset.univ (fun p : Fin 8 => iprop(Pipeline.cellsGhost (Pipeline.pin (pcfgs (F := F)) adm) Sc.EP p d
      ∗ Pipeline.toksInit (Pipeline.pin (pcfgs (F := F)) adm) Sc.EP p d)) : sProp 𝕄)
    = Pipeline.ghostOn (pcfgs (F := F)) adm Sc.EP Finset.univ d from rfl]
  iintro ⟨Hk, Hbd, ⟨Hh, HO⟩, Hla, Hg⟩
  iapply h
  isplitl [Hk]
  · iintro ⟨Hbd, Hh, ⟨%W', %hW', HO⟩⟩
    iapply Hk
    isplitl [Hbd]; · iexact Hbd
    isplitl [Hh]; · iexact Hh
    iexists W'; isplitr
    · ipureintro; exact fun x hx => hW' hx
    iexact HO
  isplitl [Hbd]; · iexact Hbd
  isplitl [Hh HO]
  · isplitl [Hh]; · iexact Hh
    iexists W; isplitr
    · ipureintro; exact fun x hx => Or.inl hx
    iexact HO
  isplitl [Hla]; · iexact Hla
  iexact Hg

end Cert.KernelIdeal.TcTail

end
-- ==== Proof.ScOblI.lean ====
/-
  The launch theorem's obligation per gather call: a vector subcore's task at call q is the gather kernel's body at
  that subcore's coordinates on the call's arrays (the eight calls' bodies are one function), run from the call's
  hand-out to its return.
-/
import proofs.«204770_g8065948582451_cont_9to1c4b_476_56_alg».proof.Proof.ScPayI

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 8) (Elt F) ℕ UU ℕ

variable (m : (ℓ : Loc nD τ sig) → Buf (Elt F) ℓ)

/-- A subcore's coordinates in the calls' common grid. -/
def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem obl_post {thr : Thread nD τ} {A B C : sProp 𝕄} {O : CellTallies nD τ sig (HIx 8)} {W : Waits sig (HIx 8)} {q : Fin 8} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
/-- Call 0's row of the body table is the common body on call 0's arrays. -/
theorem defs₀_vector0 (c : Fin τ.nSC) (s : Fin τ.nSub) :
    defs₀ (F := F) (.scVector c s) 0 ()
      = SparseCore.onTile hcore0 hsub0 (fun c s => (cc0__sc_gather_body (coordsV c s) (Memref.whole main_v6_scv) (Memref.isWhole_whole _) (Memref.whole main_v8_scv) (Memref.isWhole_whole _) (Memref.whole main_arg2_scv) (Memref.isWhole_whole _) (Memref.whole main_arg3_scv) (Memref.isWhole_whole _) (Memref.whole main_v9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8)) ⟨⟩ c s := rfl

set_option maxRecDepth 16384 in
theorem tileObl0
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn0 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v6_scv) (Memref.isWhole_whole _) (Memref.whole main_v8_scv) (Memref.isWhole_whole _) (Memref.whole main_arg2_scv) (Memref.isWhole_whole _) (Memref.whole main_arg3_scv) (Memref.isWhole_whole _) (Memref.whole main_v9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8)
            fun _ => iprop(tileOut0 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 1's row of the body table is the common body on call 1's arrays. -/
theorem defs₀_vector1 (c : Fin τ.nSC) (s : Fin τ.nSub) :
    defs₀ (F := F) (.scVector c s) 1 ()
      = SparseCore.onTile hcore0 hsub0 (fun c s => (cc0__sc_gather_body (coordsV c s) (Memref.whole main_v11_scv) (Memref.isWhole_whole _) (Memref.whole main_v13_scv) (Memref.isWhole_whole _) (Memref.whole main_arg2_scv) (Memref.isWhole_whole _) (Memref.whole main_arg3_scv) (Memref.isWhole_whole _) (Memref.whole main_v14_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8)) ⟨⟩ c s := rfl

set_option maxRecDepth 16384 in
theorem tileObl1
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn1 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v11_scv) (Memref.isWhole_whole _) (Memref.whole main_v13_scv) (Memref.isWhole_whole _) (Memref.whole main_arg2_scv) (Memref.isWhole_whole _) (Memref.whole main_arg3_scv) (Memref.isWhole_whole _) (Memref.whole main_v14_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8)
            fun _ => iprop(tileOut1 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 2's row of the body table is the common body on call 2's arrays. -/
theorem defs₀_vector2 (c : Fin τ.nSC) (s : Fin τ.nSub) :
    defs₀ (F := F) (.scVector c s) 2 ()
      = SparseCore.onTile hcore0 hsub0 (fun c s => (cc0__sc_gather_body (coordsV c s) (Memref.whole main_v16_scv) (Memref.isWhole_whole _) (Memref.whole main_v18_scv) (Memref.isWhole_whole _) (Memref.whole main_arg2_scv) (Memref.isWhole_whole _) (Memref.whole main_arg3_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 cc2_scratch7 cc2_scratch8 cc2_scratch9 cc2_scoped0 cc2_scoped1 cc2_scoped2 cc2_scoped3 cc2_scoped4 cc2_scoped5 cc2_scoped6 cc2_scoped7 cc2_scoped8)) ⟨⟩ c s := rfl

set_option maxRecDepth 16384 in
theorem tileObl2
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn2 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v16_scv) (Memref.isWhole_whole _) (Memref.whole main_v18_scv) (Memref.isWhole_whole _) (Memref.whole main_arg2_scv) (Memref.isWhole_whole _) (Memref.whole main_arg3_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 cc2_scratch7 cc2_scratch8 cc2_scratch9 cc2_scoped0 cc2_scoped1 cc2_scoped2 cc2_scoped3 cc2_scoped4 cc2_scoped5 cc2_scoped6 cc2_scoped7 cc2_scoped8)
            fun _ => iprop(tileOut2 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 2 := by
  intro d c i O W hO _ _
  simp only [show (P m).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 3's row of the body table is the common body on call 3's arrays. -/
theorem defs₀_vector3 (c : Fin τ.nSC) (s : Fin τ.nSub) :
    defs₀ (F := F) (.scVector c s) 3 ()
      = SparseCore.onTile hcore0 hsub0 (fun c s => (cc0__sc_gather_body (coordsV c s) (Memref.whole main_v21_scv) (Memref.isWhole_whole _) (Memref.whole main_v23_scv) (Memref.isWhole_whole _) (Memref.whole main_arg2_scv) (Memref.isWhole_whole _) (Memref.whole main_arg3_scv) (Memref.isWhole_whole _) (Memref.whole main_v24_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) cc3_scratch6 cc3_scratch7 cc3_scratch8 cc3_scratch9 cc3_scoped0 cc3_scoped1 cc3_scoped2 cc3_scoped3 cc3_scoped4 cc3_scoped5 cc3_scoped6 cc3_scoped7 cc3_scoped8)) ⟨⟩ c s := rfl

set_option maxRecDepth 16384 in
theorem tileObl3
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn3 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v21_scv) (Memref.isWhole_whole _) (Memref.whole main_v23_scv) (Memref.isWhole_whole _) (Memref.whole main_arg2_scv) (Memref.isWhole_whole _) (Memref.whole main_arg3_scv) (Memref.isWhole_whole _) (Memref.whole main_v24_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) cc3_scratch6 cc3_scratch7 cc3_scratch8 cc3_scratch9 cc3_scoped0 cc3_scoped1 cc3_scoped2 cc3_scoped3 cc3_scoped4 cc3_scoped5 cc3_scoped6 cc3_scoped7 cc3_scoped8)
            fun _ => iprop(tileOut3 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 3 := by
  intro d c i O W hO _ _
  simp only [show (P m).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 4's row of the body table is the common body on call 4's arrays. -/
theorem defs₀_vector4 (c : Fin τ.nSC) (s : Fin τ.nSub) :
    defs₀ (F := F) (.scVector c s) 4 ()
      = SparseCore.onTile hcore0 hsub0 (fun c s => (cc0__sc_gather_body (coordsV c s) (Memref.whole main_v26_scv) (Memref.isWhole_whole _) (Memref.whole main_v28_scv) (Memref.isWhole_whole _) (Memref.whole main_arg2_scv) (Memref.isWhole_whole _) (Memref.whole main_arg3_scv) (Memref.isWhole_whole _) (Memref.whole main_v29_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) cc4_scratch6 cc4_scratch7 cc4_scratch8 cc4_scratch9 cc4_scoped0 cc4_scoped1 cc4_scoped2 cc4_scoped3 cc4_scoped4 cc4_scoped5 cc4_scoped6 cc4_scoped7 cc4_scoped8)) ⟨⟩ c s := rfl

set_option maxRecDepth 16384 in
theorem tileObl4
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn4 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v26_scv) (Memref.isWhole_whole _) (Memref.whole main_v28_scv) (Memref.isWhole_whole _) (Memref.whole main_arg2_scv) (Memref.isWhole_whole _) (Memref.whole main_arg3_scv) (Memref.isWhole_whole _) (Memref.whole main_v29_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) cc4_scratch6 cc4_scratch7 cc4_scratch8 cc4_scratch9 cc4_scoped0 cc4_scoped1 cc4_scoped2 cc4_scoped3 cc4_scoped4 cc4_scoped5 cc4_scoped6 cc4_scoped7 cc4_scoped8)
            fun _ => iprop(tileOut4 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 4 := by
  intro d c i O W hO _ _
  simp only [show (P m).ox = fun _ _ => 0 from rfl, add_zero]
  have hci : ((K (F := F)).core 4 c).val < grid0.bound 0 ∧ ((K (F := F)).sub 4 i).val < grid0.bound 1 := ⟨c.isLt, i.isLt⟩
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  rw [defs₀_vector4]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 5's row of the body table is the common body on call 5's arrays. -/
theorem defs₀_vector5 (c : Fin τ.nSC) (s : Fin τ.nSub) :
    defs₀ (F := F) (.scVector c s) 5 ()
      = SparseCore.onTile hcore0 hsub0 (fun c s => (cc0__sc_gather_body (coordsV c s) (Memref.whole main_v31_scv) (Memref.isWhole_whole _) (Memref.whole main_v33_scv) (Memref.isWhole_whole _) (Memref.whole main_arg2_scv) (Memref.isWhole_whole _) (Memref.whole main_arg3_scv) (Memref.isWhole_whole _) (Memref.whole main_v34_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scratch8 cc5_scratch9 cc5_scoped0 cc5_scoped1 cc5_scoped2 cc5_scoped3 cc5_scoped4 cc5_scoped5 cc5_scoped6 cc5_scoped7 cc5_scoped8)) ⟨⟩ c s := rfl

set_option maxRecDepth 16384 in
theorem tileObl5
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn5 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v31_scv) (Memref.isWhole_whole _) (Memref.whole main_v33_scv) (Memref.isWhole_whole _) (Memref.whole main_arg2_scv) (Memref.isWhole_whole _) (Memref.whole main_arg3_scv) (Memref.isWhole_whole _) (Memref.whole main_v34_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scratch8 cc5_scratch9 cc5_scoped0 cc5_scoped1 cc5_scoped2 cc5_scoped3 cc5_scoped4 cc5_scoped5 cc5_scoped6 cc5_scoped7 cc5_scoped8)
            fun _ => iprop(tileOut5 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 5 := by
  intro d c i O W hO _ _
  simp only [show (P m).ox = fun _ _ => 0 from rfl, add_zero]
  have hci : ((K (F := F)).core 5 c).val < grid0.bound 0 ∧ ((K (F := F)).sub 5 i).val < grid0.bound 1 := ⟨c.isLt, i.isLt⟩
  change _ ⊢ wp _ _ _ (Pipeline.liftProg (defs₀ (F := F) (.scVector ((K (F := F)).core 5 c) ((K (F := F)).sub 5 i)) 5 ())) _
  refine BI.Entails.trans ?_ (Pipeline.wp_liftProg (D (F := F)) (Pipeline.defs_kernel pcfgs defs₀) 𝒱₀ _ Set.univ none _ _)
  rw [defs₀_vector5]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 6's row of the body table is the common body on call 6's arrays. -/
theorem defs₀_vector6 (c : Fin τ.nSC) (s : Fin τ.nSub) :
    defs₀ (F := F) (.scVector c s) 6 ()
      = SparseCore.onTile hcore0 hsub0 (fun c s => (cc0__sc_gather_body (coordsV c s) (Memref.whole main_v36_scv) (Memref.isWhole_whole _) (Memref.whole main_v38_scv) (Memref.isWhole_whole _) (Memref.whole main_arg2_scv) (Memref.isWhole_whole _) (Memref.whole main_arg3_scv) (Memref.isWhole_whole _) (Memref.whole main_v39_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) (Memref.whole cc6_scratch5) (Memref.isWhole_whole _) cc6_scratch6 cc6_scratch7 cc6_scratch8 cc6_scratch9 cc6_scoped0 cc6_scoped1 cc6_scoped2 cc6_scoped3 cc6_scoped4 cc6_scoped5 cc6_scoped6 cc6_scoped7 cc6_scoped8)) ⟨⟩ c s := rfl

set_option maxRecDepth 16384 in
theorem tileObl6
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn6 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v36_scv) (Memref.isWhole_whole _) (Memref.whole main_v38_scv) (Memref.isWhole_whole _) (Memref.whole main_arg2_scv) (Memref.isWhole_whole _) (Memref.whole main_arg3_scv) (Memref.isWhole_whole _) (Memref.whole main_v39_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) (Memref.whole cc6_scratch5) (Memref.isWhole_whole _) cc6_scratch6 cc6_scratch7 cc6_scratch8 cc6_scratch9 cc6_scoped0 cc6_scoped1 cc6_scoped2 cc6_scoped3 cc6_scoped4 cc6_scoped5 cc6_scoped6 cc6_scoped7 cc6_scoped8)
            fun _ => iprop(tileOut6 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 6 := by
  intro d c i O W hO _ _
  simp only [show (P m).ox = fun _ _ => 0 from rfl, add_zero]
  have hci : ((K (F := F)).core 6 c).val < grid0.bound 0 ∧ ((K (F := F)).sub 6 i).val < grid0.bound 1 := ⟨c.isLt, i.isLt⟩
  change _ ⊢ wp _ _ _ (Pipeline.liftProg (defs₀ (F := F) (.scVector ((K (F := F)).core 6 c) ((K (F := F)).sub 6 i)) 6 ())) _
  refine BI.Entails.trans ?_ (Pipeline.wp_liftProg (D (F := F)) (Pipeline.defs_kernel pcfgs defs₀) 𝒱₀ _ Set.univ none _ _)
  rw [defs₀_vector6]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 7's row of the body table is the common body on call 7's arrays. -/
theorem defs₀_vector7 (c : Fin τ.nSC) (s : Fin τ.nSub) :
    defs₀ (F := F) (.scVector c s) 7 ()
      = SparseCore.onTile hcore0 hsub0 (fun c s => (cc0__sc_gather_body (coordsV c s) (Memref.whole main_v41_scv) (Memref.isWhole_whole _) (Memref.whole main_v43_scv) (Memref.isWhole_whole _) (Memref.whole main_arg2_scv) (Memref.isWhole_whole _) (Memref.whole main_arg3_scv) (Memref.isWhole_whole _) (Memref.whole main_v44_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) (Memref.whole cc7_scratch5) (Memref.isWhole_whole _) cc7_scratch6 cc7_scratch7 cc7_scratch8 cc7_scratch9 cc7_scoped0 cc7_scoped1 cc7_scoped2 cc7_scoped3 cc7_scoped4 cc7_scoped5 cc7_scoped6 cc7_scoped7 cc7_scoped8)) ⟨⟩ c s := rfl

set_option maxRecDepth 16384 in
theorem tileObl7
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn7 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v41_scv) (Memref.isWhole_whole _) (Memref.whole main_v43_scv) (Memref.isWhole_whole _) (Memref.whole main_arg2_scv) (Memref.isWhole_whole _) (Memref.whole main_arg3_scv) (Memref.isWhole_whole _) (Memref.whole main_v44_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) (Memref.whole cc7_scratch5) (Memref.isWhole_whole _) cc7_scratch6 cc7_scratch7 cc7_scratch8 cc7_scratch9 cc7_scoped0 cc7_scoped1 cc7_scoped2 cc7_scoped3 cc7_scoped4 cc7_scoped5 cc7_scoped6 cc7_scoped7 cc7_scoped8)
            fun _ => iprop(tileOut7 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 7 := by
  intro d c i O W hO _ _
  simp only [show (P m).ox = fun _ _ => 0 from rfl, add_zero]
  have hci : ((K (F := F)).core 7 c).val < grid0.bound 0 ∧ ((K (F := F)).sub 7 i).val < grid0.bound 1 := ⟨c.isLt, i.isLt⟩
  change _ ⊢ wp _ _ _ (Pipeline.liftProg (defs₀ (F := F) (.scVector ((K (F := F)).core 7 c) ((K (F := F)).sub 7 i)) 7 ())) _
  refine BI.Entails.trans ?_ (Pipeline.wp_liftProg (D (F := F)) (Pipeline.defs_kernel pcfgs defs₀) 𝒱₀ _ Set.univ none _ _)
  rw [defs₀_vector7]; simp only [SparseCore.onTile, hci, and_self, ↓reduceDIte]
  exact (hbody d (coordsV ⟨_, hci.1⟩ ⟨_, hci.2⟩) O W hO).trans (wp_mono frame _ _ fun _ => obl_post)

end Cert.KernelIdeal.Sc

end
-- ==== Proof.ScFinalI.lean ====
/-
  The run of the whole program from the pieces: the final valuation is what the TensorCore tail makes of the buffers
  the last gather call leaves; the tail's run discharges the launch's tail hypothesis (its final valuation does not
  depend on the recorded pairs it is run under), the eight task bodies its task obligations.
-/
import proofs.«204770_g8065948582451_cont_9to1c4b_476_56_alg».proof.Proof.ScLaunchI
import proofs.«204770_g8065948582451_cont_9to1c4b_476_56_alg».proof.Proof.TcTailWp
import proofs.«204770_g8065948582451_cont_9to1c4b_476_56_alg».proof.Proof.ScOblI

noncomputable section

namespace Cert.KernelIdeal.Sc

open Cert.KernelIdeal Cert.KernelIdeal.Gen

open Idealize.ShloMosaic Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F]

local notation "𝕄" => MT nD τ sig (HIx 8) (Elt F) ℕ UU ℕ

variable (m : (ℓ : Loc nD τ sig) → Buf (Elt F) ℓ)

/-- The buffers as the last gather call leaves them, per device. -/
abbrev Vin7 : Dev nD → Valuation τ sig (Elt F) := fun d => Vpost7 m d
/-- The final valuation: what the tail makes of them. -/
def Vfin (d : Dev nD) : Valuation τ sig (Elt F) := TcTail.Vout (Vin7 m) none ∅ d

set_option maxHeartbeats 4000000 in
theorem htail_real
    (hindep : ∀ (W : Finset (SemLoc sig × HIx 8)) (d : Dev nD), TcTail.Vout (Vin7 m) none W d = TcTail.Vout (Vin7 m) none ∅ d)
    (hprog : ∀ W : Finset (SemLoc sig × HIx 8), tailP (F := F) = Pipeline.Seg.run (TcTail.tailSegs (Vin7 m) none (K (F := F)).L (K (F := F)).lev W))
    (d : Dev nD) (W : Waits sig (HIx 8)) (Q : PUnit → sProp 𝕄) :
      iprop((iprop(boundary (T d : Thread nD τ) ∗ (held (T d) (ucRefs τ sig) (Vfin m d) : sProp 𝕄)
              ∗ ∃ W', ⌜∀ p ∈ W', p ∈ W ∨ p.2 = (none : HIx 8)⌝ ∗ owes (T d : Thread nD τ) (0 : CellTallies nD τ sig (HIx 8)) W') -∗ Q ⟨⟩)
          ∗ boundary (T d : Thread nD τ) ∗ ((held (T d) (ucRefs τ sig) (Vpost7 m d) : sProp 𝕄) ∗ owes (T d : Thread nD τ) (0 : CellTallies nD τ sig (HIx 8)) W)
          ∗ levAts (K (F := F)).L (K (F := F)).lev ∗ G (F := F) d)
        ⊢ wp frame (wpE (D (F := F)) 𝒱 (T d) none) Set.univ (tailP (F := F)) Q := by
  rw [hprog W]
  iintro ⟨Hk, Hb, ⟨Hheld, HO⟩, Hlv, HG⟩
  iapply (TcTail.tail_wp (Vin7 m) none (K (F := F)).L (K (F := F)).lev d W)
  isplitl [Hk]
  · iintro ⟨Hb, Hheld, HW⟩
    iapply Hk
    isplitl [Hb]; · iexact Hb
    isplitl [Hheld]
    · unfold Vfin; rw [← hindep W d]; iexact Hheld
    iexact HW
  isplitl [Hb]; · iexact Hb
  isplitl [Hheld HO]; · isplitl [Hheld] <;> iassumption
  isplitl [Hlv]; · iexact Hlv
  unfold G; iexact HG

set_option maxHeartbeats 40000000 in
set_option maxRecDepth 65536 in
/-- The tail as printed is the run of the tail's segments. -/
theorem tailP_eq (Vin : Dev nD → Valuation τ sig (Elt F)) (ι : HIx 8) (L : GSem nD τ sig → Finset (HIx 8)) (lv : GSem nD τ sig → HIx 8 → ℕ)
    (W : Finset (SemLoc sig × HIx 8)) :
    tailP (F := F) = Pipeline.Seg.run (TcTail.tailSegs Vin ι L lv W) := by chain_rfl

variable (ρ : Dev nD → PrngReg)

/-- The run, from the eight task bodies and the independence of the tail's values from the recorded pairs. -/
theorem run_of_bodies [∀ e, Nonempty (Elt F e)]
    (hindep : ∀ (W : Finset (SemLoc sig × HIx 8)) (d : Dev nD), TcTail.Vout (Vin7 m) none W d = TcTail.Vout (Vin7 m) none ∅ d)
    (hb0 : ∀ (d : Dev nD) (L : grid0.Coords) (O : CellTallies nD τ sig (HIx 8)) (W : Waits sig (HIx 8)), (∀ g, O g none = 0) →
      iprop(levAts (K (F := F)).L (K (F := F)).lev ∗ emp ∗ tileIn0 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v6_scv) (Memref.isWhole_whole _) (Memref.whole main_v8_scv) (Memref.isWhole_whole _) (Memref.whole main_arg2_scv) (Memref.isWhole_whole _) (Memref.whole main_arg3_scv) (Memref.isWhole_whole _) (Memref.whole main_v9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8)
            fun _ => iprop(tileOut0 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb1 : ∀ (d : Dev nD) (L : grid0.Coords) (O : CellTallies nD τ sig (HIx 8)) (W : Waits sig (HIx 8)), (∀ g, O g none = 0) →
      iprop(levAts (K (F := F)).L (K (F := F)).lev ∗ emp ∗ tileIn1 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v11_scv) (Memref.isWhole_whole _) (Memref.whole main_v13_scv) (Memref.isWhole_whole _) (Memref.whole main_arg2_scv) (Memref.isWhole_whole _) (Memref.whole main_arg3_scv) (Memref.isWhole_whole _) (Memref.whole main_v14_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8)
            fun _ => iprop(tileOut1 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb2 : ∀ (d : Dev nD) (L : grid0.Coords) (O : CellTallies nD τ sig (HIx 8)) (W : Waits sig (HIx 8)), (∀ g, O g none = 0) →
      iprop(levAts (K (F := F)).L (K (F := F)).lev ∗ emp ∗ tileIn2 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v16_scv) (Memref.isWhole_whole _) (Memref.whole main_v18_scv) (Memref.isWhole_whole _) (Memref.whole main_arg2_scv) (Memref.isWhole_whole _) (Memref.whole main_arg3_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 cc2_scratch7 cc2_scratch8 cc2_scratch9 cc2_scoped0 cc2_scoped1 cc2_scoped2 cc2_scoped3 cc2_scoped4 cc2_scoped5 cc2_scoped6 cc2_scoped7 cc2_scoped8)
            fun _ => iprop(tileOut2 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb3 : ∀ (d : Dev nD) (L : grid0.Coords) (O : CellTallies nD τ sig (HIx 8)) (W : Waits sig (HIx 8)), (∀ g, O g none = 0) →
      iprop(levAts (K (F := F)).L (K (F := F)).lev ∗ emp ∗ tileIn3 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v21_scv) (Memref.isWhole_whole _) (Memref.whole main_v23_scv) (Memref.isWhole_whole _) (Memref.whole main_arg2_scv) (Memref.isWhole_whole _) (Memref.whole main_arg3_scv) (Memref.isWhole_whole _) (Memref.whole main_v24_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) cc3_scratch6 cc3_scratch7 cc3_scratch8 cc3_scratch9 cc3_scoped0 cc3_scoped1 cc3_scoped2 cc3_scoped3 cc3_scoped4 cc3_scoped5 cc3_scoped6 cc3_scoped7 cc3_scoped8)
            fun _ => iprop(tileOut3 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb4 : ∀ (d : Dev nD) (L : grid0.Coords) (O : CellTallies nD τ sig (HIx 8)) (W : Waits sig (HIx 8)), (∀ g, O g none = 0) →
      iprop(levAts (K (F := F)).L (K (F := F)).lev ∗ emp ∗ tileIn4 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v26_scv) (Memref.isWhole_whole _) (Memref.whole main_v28_scv) (Memref.isWhole_whole _) (Memref.whole main_arg2_scv) (Memref.isWhole_whole _) (Memref.whole main_arg3_scv) (Memref.isWhole_whole _) (Memref.whole main_v29_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) cc4_scratch6 cc4_scratch7 cc4_scratch8 cc4_scratch9 cc4_scoped0 cc4_scoped1 cc4_scoped2 cc4_scoped3 cc4_scoped4 cc4_scoped5 cc4_scoped6 cc4_scoped7 cc4_scoped8)
            fun _ => iprop(tileOut4 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb5 : ∀ (d : Dev nD) (L : grid0.Coords) (O : CellTallies nD τ sig (HIx 8)) (W : Waits sig (HIx 8)), (∀ g, O g none = 0) →
      iprop(levAts (K (F := F)).L (K (F := F)).lev ∗ emp ∗ tileIn5 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v31_scv) (Memref.isWhole_whole _) (Memref.whole main_v33_scv) (Memref.isWhole_whole _) (Memref.whole main_arg2_scv) (Memref.isWhole_whole _) (Memref.whole main_arg3_scv) (Memref.isWhole_whole _) (Memref.whole main_v34_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scratch8 cc5_scratch9 cc5_scoped0 cc5_scoped1 cc5_scoped2 cc5_scoped3 cc5_scoped4 cc5_scoped5 cc5_scoped6 cc5_scoped7 cc5_scoped8)
            fun _ => iprop(tileOut5 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb6 : ∀ (d : Dev nD) (L : grid0.Coords) (O : CellTallies nD τ sig (HIx 8)) (W : Waits sig (HIx 8)), (∀ g, O g none = 0) →
      iprop(levAts (K (F := F)).L (K (F := F)).lev ∗ emp ∗ tileIn6 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v36_scv) (Memref.isWhole_whole _) (Memref.whole main_v38_scv) (Memref.isWhole_whole _) (Memref.whole main_arg2_scv) (Memref.isWhole_whole _) (Memref.whole main_arg3_scv) (Memref.isWhole_whole _) (Memref.whole main_v39_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) (Memref.whole cc6_scratch5) (Memref.isWhole_whole _) cc6_scratch6 cc6_scratch7 cc6_scratch8 cc6_scratch9 cc6_scoped0 cc6_scoped1 cc6_scoped2 cc6_scoped3 cc6_scoped4 cc6_scoped5 cc6_scoped6 cc6_scoped7 cc6_scoped8)
            fun _ => iprop(tileOut6 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb7 : ∀ (d : Dev nD) (L : grid0.Coords) (O : CellTallies nD τ sig (HIx 8)) (W : Waits sig (HIx 8)), (∀ g, O g none = 0) →
      iprop(levAts (K (F := F)).L (K (F := F)).lev ∗ emp ∗ tileIn7 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v41_scv) (Memref.isWhole_whole _) (Memref.whole main_v43_scv) (Memref.isWhole_whole _) (Memref.whole main_arg2_scv) (Memref.isWhole_whole _) (Memref.whole main_arg3_scv) (Memref.isWhole_whole _) (Memref.whole main_v44_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) (Memref.whole cc7_scratch5) (Memref.isWhole_whole _) cc7_scratch6 cc7_scratch7 cc7_scratch8 cc7_scratch9 cc7_scoped0 cc7_scoped1 cc7_scoped2 cc7_scoped3 cc7_scoped4 cc7_scoped5 cc7_scoped6 cc7_scoped7 cc7_scoped8)
            fun _ => iprop(tileOut7 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    θ_run (Cert.KernelIdeal.defs (F := F)) (Cert.KernelIdeal.threads (F := F)) ⟨m, fun _ => 0, ρ⟩
      (fun r => ∀ d : Dev nD, ∀ b ∈ ucRefs τ sig, r.2.mem (d, b) = Vfin m d b) :=
  run_of m ρ (Vfin m)
    (fun q => match q with
      | 0 => tileObl0 m hb0 | 1 => tileObl1 m hb1 | 2 => tileObl2 m hb2 | 3 => tileObl3 m hb3
      | 4 => tileObl4 m hb4 | 5 => tileObl5 m hb5 | 6 => tileObl6 m hb6 | 7 => tileObl7 m hb7)
    (htail_real m hindep (fun W => tailP_eq (Vin7 m) none _ _ W))

end Cert.KernelIdeal.Sc

end
-- ==== Proof.TcTailVal.lean ====
/-
  What the result array holds after each dense region, in closed form. One function of a valuation of the arrays names
  every row of the [819200, 512] result: row ρ is the payload of the block of 4096 gathered feature rows that holds
  row ρ mod 102400 of the (ρ / 102400)-th gathered array, with the weights and the three rows, read at row ρ mod 4096.
  Region p's points write back exactly the blocks of rows 102400 p up to 102400 (p + 1), each as its block of that
  function; the other rows keep what the region found.
-/
import proofs.«204770_g8065948582451_cont_9to1c4b_476_56_alg».proof.Proof.ScPayI
import proofs.«204770_g8065948582451_cont_9to1c4b_476_56_alg».proof.Proof.Gen.KernelIdeal.Points
import proofs.«204770_g8065948582451_cont_9to1c4b_476_56_alg».proof.Proof.TcTailWp
import Idealize.ShloMosaic.Lib.Pipeline.Value
import Idealize.ShloMosaic.Lib.Pipeline.FrameBody
import Idealize.ShloMosaic.Lib.Pipeline.RegionsLoop
import Idealize.ShloMosaic.Lib.Tactic

set_option maxRecDepth 16384

noncomputable section

namespace Cert.KernelIdeal.TcTail

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

open Idealize.ShloMosaic.ValueIdx

/-! ## The whole result array as one function of the arrays the regions read -/

theorem hz : (![0, 0] : Fin 2 → Nat) = fun _ => 0 := funext fun a => by fin_cases a <;> rfl

/-- The q-th gathered array of a valuation. -/
def gathOf (V : Valuation τ sig (Elt F)) : Nat → Vec F S102400x256 .f32
  | 0 => V (Proc.devRef .tc main_v9)
  | 1 => V (Proc.devRef .tc main_v14)
  | 2 => V (Proc.devRef .tc main_v19)
  | 3 => V (Proc.devRef .tc main_v24)
  | 4 => V (Proc.devRef .tc main_v29)
  | 5 => V (Proc.devRef .tc main_v34)
  | 6 => V (Proc.devRef .tc main_v39)
  | _ => V (Proc.devRef .tc main_v44)

/-- Row ρ of the [819200, 512] result: the payload of the block of 4096 rows of gathered features that holds row
    ρ mod 102400 of the (ρ / 102400)-th gathered array, the weights and the three rows, read at row ρ mod 4096. -/
def GV (V : Valuation τ sig (Elt F)) : Vec F S819200x512 .f32 := fun y =>
  k8_pay1 (F := F)
    (fun x : S4096x256.Idx => gathOf V ((y 0).val / 102400)
      (ix2 (⟨(y 0).val % 102400 / 4096 * 4096 + (x 0).val, by have := idx2_lt0 x; omega⟩ : Fin 102400) (x 1)))
    (V (Proc.devRef .tc main_arg4)) (V (Proc.devRef .tc main_v2)) (V (Proc.devRef .tc main_v3)) (V (Proc.devRef .tc main_v4))
    (ix2 (⟨(y 0).val % 4096, Nat.mod_lt _ (by norm_num)⟩ : Fin 4096) (y 1))

/-! ## Region 0 -/

/-- The printed index maps of region 0, decided over its grid. -/
theorem idx_facts8 : ∀ t : Fin cfg8.N, win8_5.index t (0 : Fin 2) = 0 + t.val ∧ win8_5.index t (1 : Fin 2) = 0
    ∧ win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Equal blocks and equal indices give equal payloads. -/
theorem pay_congr8 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 0 WRITES BACK is block `t` of its window of the whole-array function of the arrays as the
    region finds them. -/
theorem flushed8_eq (V : Valuation τ sig (Elt F)) (B : Set (SemLoc sig × HIx 8)) (c : Dev nD) (t : Fin cfg8.N) :
    (dat8 V B c).flushed 5 t = ((cfg8.win 5).blk t).view.read (Elt F) (GV V) := by
  show (cfg8.win 5).cut (grid8.coords t) ((dat8 V B c).after 5 t) = _
  rw [after8_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts8 t
  have ht : t.val < 25 := lt_of_lt_of_eq t.isLt N_8
  funext j
  have hj0 : (j 0).val < 4096 := (j 0).isLt
  have hj1 : (j 1).val < 512 := (j 1).isLt
  have hrow : ((((cfg8.win 5).blk t).view.emb j) 0).val = (0 + t.val) * 4096 + (j 0).val := by
    show win8_5.index t (0 : Fin 2) * 4096 + 1 * (j 0).val = _
    rw [e50]; omega
  have hcol : ((((cfg8.win 5).blk t).view.emb j) 1).val = (j 1).val := by
    show win8_5.index t (1 : Fin 2) * 512 + 1 * (j 1).val = _
    rw [e51]; omega
  have hq : ((((cfg8.win 5).blk t).view.emb j) 0).val / 102400 = 0 := by rw [hrow]; omega
  refine pay_congr8 ?_ ?_ ?_ ?_ ?_ ?_
  · funext x
    have hx0 : (x 0).val < 4096 := (x 0).isLt
    have hx1 : (x 1).val < 256 := (x 1).isLt
    show vb V c main_v9 (((cfg8.win 0).blk t).view.emb x) = gathOf V (((((cfg8.win 5).blk t).view.emb j) 0).val / 102400) _
    rw [hq]
    show vb V c main_v9 (((cfg8.win 0).blk t).view.emb x) = vb V c main_v9 _
    refine congrArg _ (funext fun a => Fin.ext ?_)
    match a with
    | ⟨0, _⟩ =>
      show win8_0.index t (0 : Fin 2) * 4096 + 1 * (x 0).val = ((((cfg8.win 5).blk t).view.emb j) 0).val % 102400 / 4096 * 4096 + (x 0).val
      rw [e00, hrow]; omega
    | ⟨1, _⟩ =>
      show win8_0.index t (1 : Fin 2) * 256 + 1 * (x 1).val = (x 1).val
      rw [e01]; omega
  · funext x
    show vb V c main_arg4 (((cfg8.win 1).blk t).view.emb x) = vb V c main_arg4 x
    refine congrArg _ (funext fun a => Fin.ext ?_)
    match a with
    | ⟨0, _⟩ => show win8_1.index t (0 : Fin 2) * 256 + 1 * (x 0).val = (x 0).val; rw [e10]; omega
    | ⟨1, _⟩ => show win8_1.index t (1 : Fin 2) * 512 + 1 * (x 1).val = (x 1).val; rw [e11]; omega
  · funext x
    show vb V c main_v2 (((cfg8.win 2).blk t).view.emb x) = vb V c main_v2 x
    refine congrArg _ (funext fun a => Fin.ext ?_)
    match a with
    | ⟨0, _⟩ => show win8_2.index t (0 : Fin 2) * 1 + 1 * (x 0).val = (x 0).val; rw [e20]; omega
    | ⟨1, _⟩ => show win8_2.index t (1 : Fin 2) * 512 + 1 * (x 1).val = (x 1).val; rw [e21]; omega
  · funext x
    show vb V c main_v3 (((cfg8.win 3).blk t).view.emb x) = vb V c main_v3 x
    refine congrArg _ (funext fun a => Fin.ext ?_)
    match a with
    | ⟨0, _⟩ => show win8_3.index t (0 : Fin 2) * 1 + 1 * (x 0).val = (x 0).val; rw [e30]; omega
    | ⟨1, _⟩ => show win8_3.index t (1 : Fin 2) * 512 + 1 * (x 1).val = (x 1).val; rw [e31]; omega
  · funext x
    show vb V c main_v4 (((cfg8.win 4).blk t).view.emb x) = vb V c main_v4 x
    refine congrArg _ (funext fun a => Fin.ext ?_)
    match a with
    | ⟨0, _⟩ => show win8_4.index t (0 : Fin 2) * 1 + 1 * (x 0).val = (x 0).val; rw [e40]; omega
    | ⟨1, _⟩ => show win8_4.index t (1 : Fin 2) * 512 + 1 * (x 1).val = (x 1).val; rw [e41]; omega
  · funext a
    apply Fin.ext
    match a with
    | ⟨0, _⟩ => show (j 0).val = ((((cfg8.win 5).blk t).view.emb j) 0).val % 4096; rw [hrow]; omega
    | ⟨1, _⟩ => show (j 1).val = ((((cfg8.win 5).blk t).view.emb j) 1).val; rw [hcol]

/-- An index of the result array is in point `t`'s block iff each coordinate is in the block's range on its axis. -/
theorem mem_blk8 (t : Fin cfg8.N) (i : S819200x512.Idx) :
    i ∈ ((cfg8.win 5).blk t).view.set ↔ ∀ a : Fin 2, win8_5.index t a * S4096x512.size a ≤ (i a).val ∧ (i a).val < win8_5.index t a * S4096x512.size a + S4096x512.size a := by
  show i ∈ ((View.whole main_v45).slice (win8_5.rect t)).set ↔ _
  rw [View.set_slice_whole, Rect.mem_set_unit]
  exact Iff.rfl

/-- THE COVERED INDICES of region 0: rows 0 up to 102400. -/
theorem covered_iff8 (i : S819200x512.Idx) :
    (∃ t : Fin cfg8.N, (cfg8.win 5).flush t = true ∧ i ∈ ((cfg8.win 5).blk t).view.set) ↔ 0 ≤ (i 0).val ∧ (i 0).val < 102400 := by
  constructor
  · rintro ⟨t, -, hi⟩
    rw [mem_blk8] at hi
    have b0 : win8_5.index t (0 : Fin 2) * 4096 ≤ (i 0).val ∧ (i 0).val < win8_5.index t (0 : Fin 2) * 4096 + 4096 := hi 0
    obtain ⟨e50, -⟩ := idx_facts8 t
    have ht : t.val < 25 := lt_of_lt_of_eq t.isLt N_8
    rw [e50] at b0
    omega
  · intro h
    have hi1 : (i 1).val < 512 := (i 1).isLt
    have hk : ((i 0).val - 0) / 4096 < cfg8.N := by
      show _ < grid8.N
      rw [N_8]; omega
    obtain ⟨e50, e51, -⟩ := idx_facts8 ⟨((i 0).val - 0) / 4096, hk⟩
    refine ⟨⟨((i 0).val - 0) / 4096, hk⟩, flush8_5 _, ?_⟩
    rw [mem_blk8]
    intro a
    match a with
    | ⟨0, _⟩ =>
      show win8_5.index ⟨((i 0).val - 0) / 4096, hk⟩ (0 : Fin 2) * 4096 ≤ (i 0).val
        ∧ (i 0).val < win8_5.index ⟨((i 0).val - 0) / 4096, hk⟩ (0 : Fin 2) * 4096 + 4096
      rw [e50]
      show (0 + ((i 0).val - 0) / 4096) * 4096 ≤ (i 0).val ∧ (i 0).val < (0 + ((i 0).val - 0) / 4096) * 4096 + 4096
      omega
    | ⟨1, _⟩ =>
      show win8_5.index ⟨((i 0).val - 0) / 4096, hk⟩ (1 : Fin 2) * 512 ≤ (i 1).val
        ∧ (i 1).val < win8_5.index ⟨((i 0).val - 0) / 4096, hk⟩ (1 : Fin 2) * 512 + 512
      rw [e51]; omega

/-- THE RESULT ARRAY after region 0: the whole-array function on rows 0 up to 102400, its entry contents elsewhere. -/
theorem final8 (V : Valuation τ sig (Elt F)) (B : Set (SemLoc sig × HIx 8)) (c : Dev nD) :
    (dat8 V B c).arrAt 5 cfg8.N
      = fun i => if 0 ≤ (i 0).val ∧ (i 0).val < 102400 then GV V i else vb V c main_v45 i := by
  funext i
  rw [(dat8 V B c).arrAt_eq_piecewise 5 (GV V) (fun t _ => flushed8_eq V B c t) i, A8_eq]
  exact if_congr (covered_iff8 i) rfl rfl

/-! ## Region 1 -/

/-- The printed index maps of region 1, decided over its grid. -/
theorem idx_facts9 : ∀ t : Fin cfg9.N, win9_5.index t (0 : Fin 2) = 25 + t.val ∧ win9_5.index t (1 : Fin 2) = 0
    ∧ win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- Equal blocks and equal indices give equal payloads. -/
theorem pay_congr9 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 1 WRITES BACK is block `t` of its window of the whole-array function of the arrays as the
    region finds them. -/
theorem flushed9_eq (V : Valuation τ sig (Elt F)) (B : Set (SemLoc sig × HIx 8)) (c : Dev nD) (t : Fin cfg9.N) :
    (dat9 V B c).flushed 5 t = ((cfg9.win 5).blk t).view.read (Elt F) (GV V) := by
  show (cfg9.win 5).cut (grid9.coords t) ((dat9 V B c).after 5 t) = _
  rw [after9_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts9 t
  have ht : t.val < 25 := lt_of_lt_of_eq t.isLt N_9
  funext j
  have hj0 : (j 0).val < 4096 := (j 0).isLt
  have hj1 : (j 1).val < 512 := (j 1).isLt
  have hrow : ((((cfg9.win 5).blk t).view.emb j) 0).val = (25 + t.val) * 4096 + (j 0).val := by
    show win9_5.index t (0 : Fin 2) * 4096 + 1 * (j 0).val = _
    rw [e50]; omega
  have hcol : ((((cfg9.win 5).blk t).view.emb j) 1).val = (j 1).val := by
    show win9_5.index t (1 : Fin 2) * 512 + 1 * (j 1).val = _
    rw [e51]; omega
  have hq : ((((cfg9.win 5).blk t).view.emb j) 0).val / 102400 = 1 := by rw [hrow]; omega
  refine pay_congr9 ?_ ?_ ?_ ?_ ?_ ?_
  · funext x
    have hx0 : (x 0).val < 4096 := (x 0).isLt
    have hx1 : (x 1).val < 256 := (x 1).isLt
    show vb V c main_v14 (((cfg9.win 0).blk t).view.emb x) = gathOf V (((((cfg9.win 5).blk t).view.emb j) 0).val / 102400) _
    rw [hq]
    show vb V c main_v14 (((cfg9.win 0).blk t).view.emb x) = vb V c main_v14 _
    refine congrArg _ (funext fun a => Fin.ext ?_)
    match a with
    | ⟨0, _⟩ =>
      show win9_0.index t (0 : Fin 2) * 4096 + 1 * (x 0).val = ((((cfg9.win 5).blk t).view.emb j) 0).val % 102400 / 4096 * 4096 + (x 0).val
      rw [e00, hrow]; omega
    | ⟨1, _⟩ =>
      show win9_0.index t (1 : Fin 2) * 256 + 1 * (x 1).val = (x 1).val
      rw [e01]; omega
  · funext x
    show vb V c main_arg4 (((cfg9.win 1).blk t).view.emb x) = vb V c main_arg4 x
    refine congrArg _ (funext fun a => Fin.ext ?_)
    match a with
    | ⟨0, _⟩ => show win9_1.index t (0 : Fin 2) * 256 + 1 * (x 0).val = (x 0).val; rw [e10]; omega
    | ⟨1, _⟩ => show win9_1.index t (1 : Fin 2) * 512 + 1 * (x 1).val = (x 1).val; rw [e11]; omega
  · funext x
    show vb V c main_v2 (((cfg9.win 2).blk t).view.emb x) = vb V c main_v2 x
    refine congrArg _ (funext fun a => Fin.ext ?_)
    match a with
    | ⟨0, _⟩ => show win9_2.index t (0 : Fin 2) * 1 + 1 * (x 0).val = (x 0).val; rw [e20]; omega
    | ⟨1, _⟩ => show win9_2.index t (1 : Fin 2) * 512 + 1 * (x 1).val = (x 1).val; rw [e21]; omega
  · funext x
    show vb V c main_v3 (((cfg9.win 3).blk t).view.emb x) = vb V c main_v3 x
    refine congrArg _ (funext fun a => Fin.ext ?_)
    match a with
    | ⟨0, _⟩ => show win9_3.index t (0 : Fin 2) * 1 + 1 * (x 0).val = (x 0).val; rw [e30]; omega
    | ⟨1, _⟩ => show win9_3.index t (1 : Fin 2) * 512 + 1 * (x 1).val = (x 1).val; rw [e31]; omega
  · funext x
    show vb V c main_v4 (((cfg9.win 4).blk t).view.emb x) = vb V c main_v4 x
    refine congrArg _ (funext fun a => Fin.ext ?_)
    match a with
    | ⟨0, _⟩ => show win9_4.index t (0 : Fin 2) * 1 + 1 * (x 0).val = (x 0).val; rw [e40]; omega
    | ⟨1, _⟩ => show win9_4.index t (1 : Fin 2) * 512 + 1 * (x 1).val = (x 1).val; rw [e41]; omega
  · funext a
    apply Fin.ext
    match a with
    | ⟨0, _⟩ => show (j 0).val = ((((cfg9.win 5).blk t).view.emb j) 0).val % 4096; rw [hrow]; omega
    | ⟨1, _⟩ => show (j 1).val = ((((cfg9.win 5).blk t).view.emb j) 1).val; rw [hcol]

/-- An index of the result array is in point `t`'s block iff each coordinate is in the block's range on its axis. -/
theorem mem_blk9 (t : Fin cfg9.N) (i : S819200x512.Idx) :
    i ∈ ((cfg9.win 5).blk t).view.set ↔ ∀ a : Fin 2, win9_5.index t a * S4096x512.size a ≤ (i a).val ∧ (i a).val < win9_5.index t a * S4096x512.size a + S4096x512.size a := by
  show i ∈ ((View.whole main_v46).slice (win9_5.rect t)).set ↔ _
  rw [View.set_slice_whole, Rect.mem_set_unit]
  exact Iff.rfl

/-- THE COVERED INDICES of region 1: rows 102400 up to 204800. -/
theorem covered_iff9 (i : S819200x512.Idx) :
    (∃ t : Fin cfg9.N, (cfg9.win 5).flush t = true ∧ i ∈ ((cfg9.win 5).blk t).view.set) ↔ 102400 ≤ (i 0).val ∧ (i 0).val < 204800 := by
  constructor
  · rintro ⟨t, -, hi⟩
    rw [mem_blk9] at hi
    have b0 : win9_5.index t (0 : Fin 2) * 4096 ≤ (i 0).val ∧ (i 0).val < win9_5.index t (0 : Fin 2) * 4096 + 4096 := hi 0
    obtain ⟨e50, -⟩ := idx_facts9 t
    have ht : t.val < 25 := lt_of_lt_of_eq t.isLt N_9
    rw [e50] at b0
    omega
  · intro h
    have hi1 : (i 1).val < 512 := (i 1).isLt
    have hk : ((i 0).val - 102400) / 4096 < cfg9.N := by
      show _ < grid9.N
      rw [N_9]; omega
    obtain ⟨e50, e51, -⟩ := idx_facts9 ⟨((i 0).val - 102400) / 4096, hk⟩
    refine ⟨⟨((i 0).val - 102400) / 4096, hk⟩, flush9_5 _, ?_⟩
    rw [mem_blk9]
    intro a
    match a with
    | ⟨0, _⟩ =>
      show win9_5.index ⟨((i 0).val - 102400) / 4096, hk⟩ (0 : Fin 2) * 4096 ≤ (i 0).val
        ∧ (i 0).val < win9_5.index ⟨((i 0).val - 102400) / 4096, hk⟩ (0 : Fin 2) * 4096 + 4096
      rw [e50]
      show (25 + ((i 0).val - 102400) / 4096) * 4096 ≤ (i 0).val ∧ (i 0).val < (25 + ((i 0).val - 102400) / 4096) * 4096 + 4096
      omega
    | ⟨1, _⟩ =>
      show win9_5.index ⟨((i 0).val - 102400) / 4096, hk⟩ (1 : Fin 2) * 512 ≤ (i 1).val
        ∧ (i 1).val < win9_5.index ⟨((i 0).val - 102400) / 4096, hk⟩ (1 : Fin 2) * 512 + 512
      rw [e51]; omega

/-- THE RESULT ARRAY after region 1: the whole-array function on rows 102400 up to 204800, its entry contents elsewhere. -/
theorem final9 (V : Valuation τ sig (Elt F)) (B : Set (SemLoc sig × HIx 8)) (c : Dev nD) :
    (dat9 V B c).arrAt 5 cfg9.N
      = fun i => if 102400 ≤ (i 0).val ∧ (i 0).val < 204800 then GV V i else vb V c main_v46 i := by
  funext i
  rw [(dat9 V B c).arrAt_eq_piecewise 5 (GV V) (fun t _ => flushed9_eq V B c t) i, A9_eq]
  exact if_congr (covered_iff9 i) rfl rfl

/-! ## Region 2 -/

/-- The printed index maps of region 2, decided over its grid. -/
theorem idx_facts10 : ∀ t : Fin cfg10.N, win10_5.index t (0 : Fin 2) = 50 + t.val ∧ win10_5.index t (1 : Fin 2) = 0
    ∧ win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

/-- Equal blocks and equal indices give equal payloads. -/
theorem pay_congr10 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 2 WRITES BACK is block `t` of its window of the whole-array function of the arrays as the
    region finds them. -/
theorem flushed10_eq (V : Valuation τ sig (Elt F)) (B : Set (SemLoc sig × HIx 8)) (c : Dev nD) (t : Fin cfg10.N) :
    (dat10 V B c).flushed 5 t = ((cfg10.win 5).blk t).view.read (Elt F) (GV V) := by
  show (cfg10.win 5).cut (grid10.coords t) ((dat10 V B c).after 5 t) = _
  rw [after10_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts10 t
  have ht : t.val < 25 := lt_of_lt_of_eq t.isLt N_10
  funext j
  have hj0 : (j 0).val < 4096 := (j 0).isLt
  have hj1 : (j 1).val < 512 := (j 1).isLt
  have hrow : ((((cfg10.win 5).blk t).view.emb j) 0).val = (50 + t.val) * 4096 + (j 0).val := by
    show win10_5.index t (0 : Fin 2) * 4096 + 1 * (j 0).val = _
    rw [e50]; omega
  have hcol : ((((cfg10.win 5).blk t).view.emb j) 1).val = (j 1).val := by
    show win10_5.index t (1 : Fin 2) * 512 + 1 * (j 1).val = _
    rw [e51]; omega
  have hq : ((((cfg10.win 5).blk t).view.emb j) 0).val / 102400 = 2 := by rw [hrow]; omega
  refine pay_congr10 ?_ ?_ ?_ ?_ ?_ ?_
  · funext x
    have hx0 : (x 0).val < 4096 := (x 0).isLt
    have hx1 : (x 1).val < 256 := (x 1).isLt
    show vb V c main_v19 (((cfg10.win 0).blk t).view.emb x) = gathOf V (((((cfg10.win 5).blk t).view.emb j) 0).val / 102400) _
    rw [hq]
    show vb V c main_v19 (((cfg10.win 0).blk t).view.emb x) = vb V c main_v19 _
    refine congrArg _ (funext fun a => Fin.ext ?_)
    match a with
    | ⟨0, _⟩ =>
      show win10_0.index t (0 : Fin 2) * 4096 + 1 * (x 0).val = ((((cfg10.win 5).blk t).view.emb j) 0).val % 102400 / 4096 * 4096 + (x 0).val
      rw [e00, hrow]; omega
    | ⟨1, _⟩ =>
      show win10_0.index t (1 : Fin 2) * 256 + 1 * (x 1).val = (x 1).val
      rw [e01]; omega
  · funext x
    show vb V c main_arg4 (((cfg10.win 1).blk t).view.emb x) = vb V c main_arg4 x
    refine congrArg _ (funext fun a => Fin.ext ?_)
    match a with
    | ⟨0, _⟩ => show win10_1.index t (0 : Fin 2) * 256 + 1 * (x 0).val = (x 0).val; rw [e10]; omega
    | ⟨1, _⟩ => show win10_1.index t (1 : Fin 2) * 512 + 1 * (x 1).val = (x 1).val; rw [e11]; omega
  · funext x
    show vb V c main_v2 (((cfg10.win 2).blk t).view.emb x) = vb V c main_v2 x
    refine congrArg _ (funext fun a => Fin.ext ?_)
    match a with
    | ⟨0, _⟩ => show win10_2.index t (0 : Fin 2) * 1 + 1 * (x 0).val = (x 0).val; rw [e20]; omega
    | ⟨1, _⟩ => show win10_2.index t (1 : Fin 2) * 512 + 1 * (x 1).val = (x 1).val; rw [e21]; omega
  · funext x
    show vb V c main_v3 (((cfg10.win 3).blk t).view.emb x) = vb V c main_v3 x
    refine congrArg _ (funext fun a => Fin.ext ?_)
    match a with
    | ⟨0, _⟩ => show win10_3.index t (0 : Fin 2) * 1 + 1 * (x 0).val = (x 0).val; rw [e30]; omega
    | ⟨1, _⟩ => show win10_3.index t (1 : Fin 2) * 512 + 1 * (x 1).val = (x 1).val; rw [e31]; omega
  · funext x
    show vb V c main_v4 (((cfg10.win 4).blk t).view.emb x) = vb V c main_v4 x
    refine congrArg _ (funext fun a => Fin.ext ?_)
    match a with
    | ⟨0, _⟩ => show win10_4.index t (0 : Fin 2) * 1 + 1 * (x 0).val = (x 0).val; rw [e40]; omega
    | ⟨1, _⟩ => show win10_4.index t (1 : Fin 2) * 512 + 1 * (x 1).val = (x 1).val; rw [e41]; omega
  · funext a
    apply Fin.ext
    match a with
    | ⟨0, _⟩ => show (j 0).val = ((((cfg10.win 5).blk t).view.emb j) 0).val % 4096; rw [hrow]; omega
    | ⟨1, _⟩ => show (j 1).val = ((((cfg10.win 5).blk t).view.emb j) 1).val; rw [hcol]

/-- An index of the result array is in point `t`'s block iff each coordinate is in the block's range on its axis. -/
theorem mem_blk10 (t : Fin cfg10.N) (i : S819200x512.Idx) :
    i ∈ ((cfg10.win 5).blk t).view.set ↔ ∀ a : Fin 2, win10_5.index t a * S4096x512.size a ≤ (i a).val ∧ (i a).val < win10_5.index t a * S4096x512.size a + S4096x512.size a := by
  show i ∈ ((View.whole main_v47).slice (win10_5.rect t)).set ↔ _
  rw [View.set_slice_whole, Rect.mem_set_unit]
  exact Iff.rfl

/-- THE COVERED INDICES of region 2: rows 204800 up to 307200. -/
theorem covered_iff10 (i : S819200x512.Idx) :
    (∃ t : Fin cfg10.N, (cfg10.win 5).flush t = true ∧ i ∈ ((cfg10.win 5).blk t).view.set) ↔ 204800 ≤ (i 0).val ∧ (i 0).val < 307200 := by
  constructor
  · rintro ⟨t, -, hi⟩
    rw [mem_blk10] at hi
    have b0 : win10_5.index t (0 : Fin 2) * 4096 ≤ (i 0).val ∧ (i 0).val < win10_5.index t (0 : Fin 2) * 4096 + 4096 := hi 0
    obtain ⟨e50, -⟩ := idx_facts10 t
    have ht : t.val < 25 := lt_of_lt_of_eq t.isLt N_10
    rw [e50] at b0
    omega
  · intro h
    have hi1 : (i 1).val < 512 := (i 1).isLt
    have hk : ((i 0).val - 204800) / 4096 < cfg10.N := by
      show _ < grid10.N
      rw [N_10]; omega
    obtain ⟨e50, e51, -⟩ := idx_facts10 ⟨((i 0).val - 204800) / 4096, hk⟩
    refine ⟨⟨((i 0).val - 204800) / 4096, hk⟩, flush10_5 _, ?_⟩
    rw [mem_blk10]
    intro a
    match a with
    | ⟨0, _⟩ =>
      show win10_5.index ⟨((i 0).val - 204800) / 4096, hk⟩ (0 : Fin 2) * 4096 ≤ (i 0).val
        ∧ (i 0).val < win10_5.index ⟨((i 0).val - 204800) / 4096, hk⟩ (0 : Fin 2) * 4096 + 4096
      rw [e50]
      show (50 + ((i 0).val - 204800) / 4096) * 4096 ≤ (i 0).val ∧ (i 0).val < (50 + ((i 0).val - 204800) / 4096) * 4096 + 4096
      omega
    | ⟨1, _⟩ =>
      show win10_5.index ⟨((i 0).val - 204800) / 4096, hk⟩ (1 : Fin 2) * 512 ≤ (i 1).val
        ∧ (i 1).val < win10_5.index ⟨((i 0).val - 204800) / 4096, hk⟩ (1 : Fin 2) * 512 + 512
      rw [e51]; omega

/-- THE RESULT ARRAY after region 2: the whole-array function on rows 204800 up to 307200, its entry contents elsewhere. -/
theorem final10 (V : Valuation τ sig (Elt F)) (B : Set (SemLoc sig × HIx 8)) (c : Dev nD) :
    (dat10 V B c).arrAt 5 cfg10.N
      = fun i => if 204800 ≤ (i 0).val ∧ (i 0).val < 307200 then GV V i else vb V c main_v47 i := by
  funext i
  rw [(dat10 V B c).arrAt_eq_piecewise 5 (GV V) (fun t _ => flushed10_eq V B c t) i, A10_eq]
  exact if_congr (covered_iff10 i) rfl rfl

/-! ## Region 3 -/

/-- The printed index maps of region 3, decided over its grid. -/
theorem idx_facts11 : ∀ t : Fin cfg11.N, win11_5.index t (0 : Fin 2) = 75 + t.val ∧ win11_5.index t (1 : Fin 2) = 0
    ∧ win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- Equal blocks and equal indices give equal payloads. -/
theorem pay_congr11 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 3 WRITES BACK is block `t` of its window of the whole-array function of the arrays as the
    region finds them. -/
theorem flushed11_eq (V : Valuation τ sig (Elt F)) (B : Set (SemLoc sig × HIx 8)) (c : Dev nD) (t : Fin cfg11.N) :
    (dat11 V B c).flushed 5 t = ((cfg11.win 5).blk t).view.read (Elt F) (GV V) := by
  show (cfg11.win 5).cut (grid11.coords t) ((dat11 V B c).after 5 t) = _
  rw [after11_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts11 t
  have ht : t.val < 25 := lt_of_lt_of_eq t.isLt N_11
  funext j
  have hj0 : (j 0).val < 4096 := (j 0).isLt
  have hj1 : (j 1).val < 512 := (j 1).isLt
  have hrow : ((((cfg11.win 5).blk t).view.emb j) 0).val = (75 + t.val) * 4096 + (j 0).val := by
    show win11_5.index t (0 : Fin 2) * 4096 + 1 * (j 0).val = _
    rw [e50]; omega
  have hcol : ((((cfg11.win 5).blk t).view.emb j) 1).val = (j 1).val := by
    show win11_5.index t (1 : Fin 2) * 512 + 1 * (j 1).val = _
    rw [e51]; omega
  have hq : ((((cfg11.win 5).blk t).view.emb j) 0).val / 102400 = 3 := by rw [hrow]; omega
  refine pay_congr11 ?_ ?_ ?_ ?_ ?_ ?_
  · funext x
    have hx0 : (x 0).val < 4096 := (x 0).isLt
    have hx1 : (x 1).val < 256 := (x 1).isLt
    show vb V c main_v24 (((cfg11.win 0).blk t).view.emb x) = gathOf V (((((cfg11.win 5).blk t).view.emb j) 0).val / 102400) _
    rw [hq]
    show vb V c main_v24 (((cfg11.win 0).blk t).view.emb x) = vb V c main_v24 _
    refine congrArg _ (funext fun a => Fin.ext ?_)
    match a with
    | ⟨0, _⟩ =>
      show win11_0.index t (0 : Fin 2) * 4096 + 1 * (x 0).val = ((((cfg11.win 5).blk t).view.emb j) 0).val % 102400 / 4096 * 4096 + (x 0).val
      rw [e00, hrow]; omega
    | ⟨1, _⟩ =>
      show win11_0.index t (1 : Fin 2) * 256 + 1 * (x 1).val = (x 1).val
      rw [e01]; omega
  · funext x
    show vb V c main_arg4 (((cfg11.win 1).blk t).view.emb x) = vb V c main_arg4 x
    refine congrArg _ (funext fun a => Fin.ext ?_)
    match a with
    | ⟨0, _⟩ => show win11_1.index t (0 : Fin 2) * 256 + 1 * (x 0).val = (x 0).val; rw [e10]; omega
    | ⟨1, _⟩ => show win11_1.index t (1 : Fin 2) * 512 + 1 * (x 1).val = (x 1).val; rw [e11]; omega
  · funext x
    show vb V c main_v2 (((cfg11.win 2).blk t).view.emb x) = vb V c main_v2 x
    refine congrArg _ (funext fun a => Fin.ext ?_)
    match a with
    | ⟨0, _⟩ => show win11_2.index t (0 : Fin 2) * 1 + 1 * (x 0).val = (x 0).val; rw [e20]; omega
    | ⟨1, _⟩ => show win11_2.index t (1 : Fin 2) * 512 + 1 * (x 1).val = (x 1).val; rw [e21]; omega
  · funext x
    show vb V c main_v3 (((cfg11.win 3).blk t).view.emb x) = vb V c main_v3 x
    refine congrArg _ (funext fun a => Fin.ext ?_)
    match a with
    | ⟨0, _⟩ => show win11_3.index t (0 : Fin 2) * 1 + 1 * (x 0).val = (x 0).val; rw [e30]; omega
    | ⟨1, _⟩ => show win11_3.index t (1 : Fin 2) * 512 + 1 * (x 1).val = (x 1).val; rw [e31]; omega
  · funext x
    show vb V c main_v4 (((cfg11.win 4).blk t).view.emb x) = vb V c main_v4 x
    refine congrArg _ (funext fun a => Fin.ext ?_)
    match a with
    | ⟨0, _⟩ => show win11_4.index t (0 : Fin 2) * 1 + 1 * (x 0).val = (x 0).val; rw [e40]; omega
    | ⟨1, _⟩ => show win11_4.index t (1 : Fin 2) * 512 + 1 * (x 1).val = (x 1).val; rw [e41]; omega
  · funext a
    apply Fin.ext
    match a with
    | ⟨0, _⟩ => show (j 0).val = ((((cfg11.win 5).blk t).view.emb j) 0).val % 4096; rw [hrow]; omega
    | ⟨1, _⟩ => show (j 1).val = ((((cfg11.win 5).blk t).view.emb j) 1).val; rw [hcol]

/-- An index of the result array is in point `t`'s block iff each coordinate is in the block's range on its axis. -/
theorem mem_blk11 (t : Fin cfg11.N) (i : S819200x512.Idx) :
    i ∈ ((cfg11.win 5).blk t).view.set ↔ ∀ a : Fin 2, win11_5.index t a * S4096x512.size a ≤ (i a).val ∧ (i a).val < win11_5.index t a * S4096x512.size a + S4096x512.size a := by
  show i ∈ ((View.whole main_v48).slice (win11_5.rect t)).set ↔ _
  rw [View.set_slice_whole, Rect.mem_set_unit]
  exact Iff.rfl

/-- THE COVERED INDICES of region 3: rows 307200 up to 409600. -/
theorem covered_iff11 (i : S819200x512.Idx) :
    (∃ t : Fin cfg11.N, (cfg11.win 5).flush t = true ∧ i ∈ ((cfg11.win 5).blk t).view.set) ↔ 307200 ≤ (i 0).val ∧ (i 0).val < 409600 := by
  constructor
  · rintro ⟨t, -, hi⟩
    rw [mem_blk11] at hi
    have b0 : win11_5.index t (0 : Fin 2) * 4096 ≤ (i 0).val ∧ (i 0).val < win11_5.index t (0 : Fin 2) * 4096 + 4096 := hi 0
    obtain ⟨e50, -⟩ := idx_facts11 t
    have ht : t.val < 25 := lt_of_lt_of_eq t.isLt N_11
    rw [e50] at b0
    omega
  · intro h
    have hi1 : (i 1).val < 512 := (i 1).isLt
    have hk : ((i 0).val - 307200) / 4096 < cfg11.N := by
      show _ < grid11.N
      rw [N_11]; omega
    obtain ⟨e50, e51, -⟩ := idx_facts11 ⟨((i 0).val - 307200) / 4096, hk⟩
    refine ⟨⟨((i 0).val - 307200) / 4096, hk⟩, flush11_5 _, ?_⟩
    rw [mem_blk11]
    intro a
    match a with
    | ⟨0, _⟩ =>
      show win11_5.index ⟨((i 0).val - 307200) / 4096, hk⟩ (0 : Fin 2) * 4096 ≤ (i 0).val
        ∧ (i 0).val < win11_5.index ⟨((i 0).val - 307200) / 4096, hk⟩ (0 : Fin 2) * 4096 + 4096
      rw [e50]
      show (75 + ((i 0).val - 307200) / 4096) * 4096 ≤ (i 0).val ∧ (i 0).val < (75 + ((i 0).val - 307200) / 4096) * 4096 + 4096
      omega
    | ⟨1, _⟩ =>
      show win11_5.index ⟨((i 0).val - 307200) / 4096, hk⟩ (1 : Fin 2) * 512 ≤ (i 1).val
        ∧ (i 1).val < win11_5.index ⟨((i 0).val - 307200) / 4096, hk⟩ (1 : Fin 2) * 512 + 512
      rw [e51]; omega

/-- THE RESULT ARRAY after region 3: the whole-array function on rows 307200 up to 409600, its entry contents elsewhere. -/
theorem final11 (V : Valuation τ sig (Elt F)) (B : Set (SemLoc sig × HIx 8)) (c : Dev nD) :
    (dat11 V B c).arrAt 5 cfg11.N
      = fun i => if 307200 ≤ (i 0).val ∧ (i 0).val < 409600 then GV V i else vb V c main_v48 i := by
  funext i
  rw [(dat11 V B c).arrAt_eq_piecewise 5 (GV V) (fun t _ => flushed11_eq V B c t) i, A11_eq]
  exact if_congr (covered_iff11 i) rfl rfl

/-! ## Region 4 -/

/-- The printed index maps of region 4, decided over its grid. -/
theorem idx_facts12 : ∀ t : Fin cfg12.N, win12_5.index t (0 : Fin 2) = 100 + t.val ∧ win12_5.index t (1 : Fin 2) = 0
    ∧ win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0 :=
  (by decide +kernel : ∀ t : Fin grid12.N, _)

/-- Equal blocks and equal indices give equal payloads. -/
theorem pay_congr12 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 4 WRITES BACK is block `t` of its window of the whole-array function of the arrays as the
    region finds them. -/
theorem flushed12_eq (V : Valuation τ sig (Elt F)) (B : Set (SemLoc sig × HIx 8)) (c : Dev nD) (t : Fin cfg12.N) :
    (dat12 V B c).flushed 5 t = ((cfg12.win 5).blk t).view.read (Elt F) (GV V) := by
  show (cfg12.win 5).cut (grid12.coords t) ((dat12 V B c).after 5 t) = _
  rw [after12_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts12 t
  have ht : t.val < 25 := lt_of_lt_of_eq t.isLt N_12
  funext j
  have hj0 : (j 0).val < 4096 := (j 0).isLt
  have hj1 : (j 1).val < 512 := (j 1).isLt
  have hrow : ((((cfg12.win 5).blk t).view.emb j) 0).val = (100 + t.val) * 4096 + (j 0).val := by
    show win12_5.index t (0 : Fin 2) * 4096 + 1 * (j 0).val = _
    rw [e50]; omega
  have hcol : ((((cfg12.win 5).blk t).view.emb j) 1).val = (j 1).val := by
    show win12_5.index t (1 : Fin 2) * 512 + 1 * (j 1).val = _
    rw [e51]; omega
  have hq : ((((cfg12.win 5).blk t).view.emb j) 0).val / 102400 = 4 := by rw [hrow]; omega
  refine pay_congr12 ?_ ?_ ?_ ?_ ?_ ?_
  · funext x
    have hx0 : (x 0).val < 4096 := (x 0).isLt
    have hx1 : (x 1).val < 256 := (x 1).isLt
    show vb V c main_v29 (((cfg12.win 0).blk t).view.emb x) = gathOf V (((((cfg12.win 5).blk t).view.emb j) 0).val / 102400) _
    rw [hq]
    show vb V c main_v29 (((cfg12.win 0).blk t).view.emb x) = vb V c main_v29 _
    refine congrArg _ (funext fun a => Fin.ext ?_)
    match a with
    | ⟨0, _⟩ =>
      show win12_0.index t (0 : Fin 2) * 4096 + 1 * (x 0).val = ((((cfg12.win 5).blk t).view.emb j) 0).val % 102400 / 4096 * 4096 + (x 0).val
      rw [e00, hrow]; omega
    | ⟨1, _⟩ =>
      show win12_0.index t (1 : Fin 2) * 256 + 1 * (x 1).val = (x 1).val
      rw [e01]; omega
  · funext x
    show vb V c main_arg4 (((cfg12.win 1).blk t).view.emb x) = vb V c main_arg4 x
    refine congrArg _ (funext fun a => Fin.ext ?_)
    match a with
    | ⟨0, _⟩ => show win12_1.index t (0 : Fin 2) * 256 + 1 * (x 0).val = (x 0).val; rw [e10]; omega
    | ⟨1, _⟩ => show win12_1.index t (1 : Fin 2) * 512 + 1 * (x 1).val = (x 1).val; rw [e11]; omega
  · funext x
    show vb V c main_v2 (((cfg12.win 2).blk t).view.emb x) = vb V c main_v2 x
    refine congrArg _ (funext fun a => Fin.ext ?_)
    match a with
    | ⟨0, _⟩ => show win12_2.index t (0 : Fin 2) * 1 + 1 * (x 0).val = (x 0).val; rw [e20]; omega
    | ⟨1, _⟩ => show win12_2.index t (1 : Fin 2) * 512 + 1 * (x 1).val = (x 1).val; rw [e21]; omega
  · funext x
    show vb V c main_v3 (((cfg12.win 3).blk t).view.emb x) = vb V c main_v3 x
    refine congrArg _ (funext fun a => Fin.ext ?_)
    match a with
    | ⟨0, _⟩ => show win12_3.index t (0 : Fin 2) * 1 + 1 * (x 0).val = (x 0).val; rw [e30]; omega
    | ⟨1, _⟩ => show win12_3.index t (1 : Fin 2) * 512 + 1 * (x 1).val = (x 1).val; rw [e31]; omega
  · funext x
    show vb V c main_v4 (((cfg12.win 4).blk t).view.emb x) = vb V c main_v4 x
    refine congrArg _ (funext fun a => Fin.ext ?_)
    match a with
    | ⟨0, _⟩ => show win12_4.index t (0 : Fin 2) * 1 + 1 * (x 0).val = (x 0).val; rw [e40]; omega
    | ⟨1, _⟩ => show win12_4.index t (1 : Fin 2) * 512 + 1 * (x 1).val = (x 1).val; rw [e41]; omega
  · funext a
    apply Fin.ext
    match a with
    | ⟨0, _⟩ => show (j 0).val = ((((cfg12.win 5).blk t).view.emb j) 0).val % 4096; rw [hrow]; omega
    | ⟨1, _⟩ => show (j 1).val = ((((cfg12.win 5).blk t).view.emb j) 1).val; rw [hcol]

/-- An index of the result array is in point `t`'s block iff each coordinate is in the block's range on its axis. -/
theorem mem_blk12 (t : Fin cfg12.N) (i : S819200x512.Idx) :
    i ∈ ((cfg12.win 5).blk t).view.set ↔ ∀ a : Fin 2, win12_5.index t a * S4096x512.size a ≤ (i a).val ∧ (i a).val < win12_5.index t a * S4096x512.size a + S4096x512.size a := by
  show i ∈ ((View.whole main_v49).slice (win12_5.rect t)).set ↔ _
  rw [View.set_slice_whole, Rect.mem_set_unit]
  exact Iff.rfl

/-- THE COVERED INDICES of region 4: rows 409600 up to 512000. -/
theorem covered_iff12 (i : S819200x512.Idx) :
    (∃ t : Fin cfg12.N, (cfg12.win 5).flush t = true ∧ i ∈ ((cfg12.win 5).blk t).view.set) ↔ 409600 ≤ (i 0).val ∧ (i 0).val < 512000 := by
  constructor
  · rintro ⟨t, -, hi⟩
    rw [mem_blk12] at hi
    have b0 : win12_5.index t (0 : Fin 2) * 4096 ≤ (i 0).val ∧ (i 0).val < win12_5.index t (0 : Fin 2) * 4096 + 4096 := hi 0
    obtain ⟨e50, -⟩ := idx_facts12 t
    have ht : t.val < 25 := lt_of_lt_of_eq t.isLt N_12
    rw [e50] at b0
    omega
  · intro h
    have hi1 : (i 1).val < 512 := (i 1).isLt
    have hk : ((i 0).val - 409600) / 4096 < cfg12.N := by
      show _ < grid12.N
      rw [N_12]; omega
    obtain ⟨e50, e51, -⟩ := idx_facts12 ⟨((i 0).val - 409600) / 4096, hk⟩
    refine ⟨⟨((i 0).val - 409600) / 4096, hk⟩, flush12_5 _, ?_⟩
    rw [mem_blk12]
    intro a
    match a with
    | ⟨0, _⟩ =>
      show win12_5.index ⟨((i 0).val - 409600) / 4096, hk⟩ (0 : Fin 2) * 4096 ≤ (i 0).val
        ∧ (i 0).val < win12_5.index ⟨((i 0).val - 409600) / 4096, hk⟩ (0 : Fin 2) * 4096 + 4096
      rw [e50]
      show (100 + ((i 0).val - 409600) / 4096) * 4096 ≤ (i 0).val ∧ (i 0).val < (100 + ((i 0).val - 409600) / 4096) * 4096 + 4096
      omega
    | ⟨1, _⟩ =>
      show win12_5.index ⟨((i 0).val - 409600) / 4096, hk⟩ (1 : Fin 2) * 512 ≤ (i 1).val
        ∧ (i 1).val < win12_5.index ⟨((i 0).val - 409600) / 4096, hk⟩ (1 : Fin 2) * 512 + 512
      rw [e51]; omega

/-- THE RESULT ARRAY after region 4: the whole-array function on rows 409600 up to 512000, its entry contents elsewhere. -/
theorem final12 (V : Valuation τ sig (Elt F)) (B : Set (SemLoc sig × HIx 8)) (c : Dev nD) :
    (dat12 V B c).arrAt 5 cfg12.N
      = fun i => if 409600 ≤ (i 0).val ∧ (i 0).val < 512000 then GV V i else vb V c main_v49 i := by
  funext i
  rw [(dat12 V B c).arrAt_eq_piecewise 5 (GV V) (fun t _ => flushed12_eq V B c t) i, A12_eq]
  exact if_congr (covered_iff12 i) rfl rfl

/-! ## Region 5 -/

/-- The printed index maps of region 5, decided over its grid. -/
theorem idx_facts13 : ∀ t : Fin cfg13.N, win13_5.index t (0 : Fin 2) = 125 + t.val ∧ win13_5.index t (1 : Fin 2) = 0
    ∧ win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

/-- Equal blocks and equal indices give equal payloads. -/
theorem pay_congr13 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 5 WRITES BACK is block `t` of its window of the whole-array function of the arrays as the
    region finds them. -/
theorem flushed13_eq (V : Valuation τ sig (Elt F)) (B : Set (SemLoc sig × HIx 8)) (c : Dev nD) (t : Fin cfg13.N) :
    (dat13 V B c).flushed 5 t = ((cfg13.win 5).blk t).view.read (Elt F) (GV V) := by
  show (cfg13.win 5).cut (grid13.coords t) ((dat13 V B c).after 5 t) = _
  rw [after13_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts13 t
  have ht : t.val < 25 := lt_of_lt_of_eq t.isLt N_13
  funext j
  have hj0 : (j 0).val < 4096 := (j 0).isLt
  have hj1 : (j 1).val < 512 := (j 1).isLt
  have hrow : ((((cfg13.win 5).blk t).view.emb j) 0).val = (125 + t.val) * 4096 + (j 0).val := by
    show win13_5.index t (0 : Fin 2) * 4096 + 1 * (j 0).val = _
    rw [e50]; omega
  have hcol : ((((cfg13.win 5).blk t).view.emb j) 1).val = (j 1).val := by
    show win13_5.index t (1 : Fin 2) * 512 + 1 * (j 1).val = _
    rw [e51]; omega
  have hq : ((((cfg13.win 5).blk t).view.emb j) 0).val / 102400 = 5 := by rw [hrow]; omega
  refine pay_congr13 ?_ ?_ ?_ ?_ ?_ ?_
  · funext x
    have hx0 : (x 0).val < 4096 := (x 0).isLt
    have hx1 : (x 1).val < 256 := (x 1).isLt
    show vb V c main_v34 (((cfg13.win 0).blk t).view.emb x) = gathOf V (((((cfg13.win 5).blk t).view.emb j) 0).val / 102400) _
    rw [hq]
    show vb V c main_v34 (((cfg13.win 0).blk t).view.emb x) = vb V c main_v34 _
    refine congrArg _ (funext fun a => Fin.ext ?_)
    match a with
    | ⟨0, _⟩ =>
      show win13_0.index t (0 : Fin 2) * 4096 + 1 * (x 0).val = ((((cfg13.win 5).blk t).view.emb j) 0).val % 102400 / 4096 * 4096 + (x 0).val
      rw [e00, hrow]; omega
    | ⟨1, _⟩ =>
      show win13_0.index t (1 : Fin 2) * 256 + 1 * (x 1).val = (x 1).val
      rw [e01]; omega
  · funext x
    show vb V c main_arg4 (((cfg13.win 1).blk t).view.emb x) = vb V c main_arg4 x
    refine congrArg _ (funext fun a => Fin.ext ?_)
    match a with
    | ⟨0, _⟩ => show win13_1.index t (0 : Fin 2) * 256 + 1 * (x 0).val = (x 0).val; rw [e10]; omega
    | ⟨1, _⟩ => show win13_1.index t (1 : Fin 2) * 512 + 1 * (x 1).val = (x 1).val; rw [e11]; omega
  · funext x
    show vb V c main_v2 (((cfg13.win 2).blk t).view.emb x) = vb V c main_v2 x
    refine congrArg _ (funext fun a => Fin.ext ?_)
    match a with
    | ⟨0, _⟩ => show win13_2.index t (0 : Fin 2) * 1 + 1 * (x 0).val = (x 0).val; rw [e20]; omega
    | ⟨1, _⟩ => show win13_2.index t (1 : Fin 2) * 512 + 1 * (x 1).val = (x 1).val; rw [e21]; omega
  · funext x
    show vb V c main_v3 (((cfg13.win 3).blk t).view.emb x) = vb V c main_v3 x
    refine congrArg _ (funext fun a => Fin.ext ?_)
    match a with
    | ⟨0, _⟩ => show win13_3.index t (0 : Fin 2) * 1 + 1 * (x 0).val = (x 0).val; rw [e30]; omega
    | ⟨1, _⟩ => show win13_3.index t (1 : Fin 2) * 512 + 1 * (x 1).val = (x 1).val; rw [e31]; omega
  · funext x
    show vb V c main_v4 (((cfg13.win 4).blk t).view.emb x) = vb V c main_v4 x
    refine congrArg _ (funext fun a => Fin.ext ?_)
    match a with
    | ⟨0, _⟩ => show win13_4.index t (0 : Fin 2) * 1 + 1 * (x 0).val = (x 0).val; rw [e40]; omega
    | ⟨1, _⟩ => show win13_4.index t (1 : Fin 2) * 512 + 1 * (x 1).val = (x 1).val; rw [e41]; omega
  · funext a
    apply Fin.ext
    match a with
    | ⟨0, _⟩ => show (j 0).val = ((((cfg13.win 5).blk t).view.emb j) 0).val % 4096; rw [hrow]; omega
    | ⟨1, _⟩ => show (j 1).val = ((((cfg13.win 5).blk t).view.emb j) 1).val; rw [hcol]

/-- An index of the result array is in point `t`'s block iff each coordinate is in the block's range on its axis. -/
theorem mem_blk13 (t : Fin cfg13.N) (i : S819200x512.Idx) :
    i ∈ ((cfg13.win 5).blk t).view.set ↔ ∀ a : Fin 2, win13_5.index t a * S4096x512.size a ≤ (i a).val ∧ (i a).val < win13_5.index t a * S4096x512.size a + S4096x512.size a := by
  show i ∈ ((View.whole main_v50).slice (win13_5.rect t)).set ↔ _
  rw [View.set_slice_whole, Rect.mem_set_unit]
  exact Iff.rfl

/-- THE COVERED INDICES of region 5: rows 512000 up to 614400. -/
theorem covered_iff13 (i : S819200x512.Idx) :
    (∃ t : Fin cfg13.N, (cfg13.win 5).flush t = true ∧ i ∈ ((cfg13.win 5).blk t).view.set) ↔ 512000 ≤ (i 0).val ∧ (i 0).val < 614400 := by
  constructor
  · rintro ⟨t, -, hi⟩
    rw [mem_blk13] at hi
    have b0 : win13_5.index t (0 : Fin 2) * 4096 ≤ (i 0).val ∧ (i 0).val < win13_5.index t (0 : Fin 2) * 4096 + 4096 := hi 0
    obtain ⟨e50, -⟩ := idx_facts13 t
    have ht : t.val < 25 := lt_of_lt_of_eq t.isLt N_13
    rw [e50] at b0
    omega
  · intro h
    have hi1 : (i 1).val < 512 := (i 1).isLt
    have hk : ((i 0).val - 512000) / 4096 < cfg13.N := by
      show _ < grid13.N
      rw [N_13]; omega
    obtain ⟨e50, e51, -⟩ := idx_facts13 ⟨((i 0).val - 512000) / 4096, hk⟩
    refine ⟨⟨((i 0).val - 512000) / 4096, hk⟩, flush13_5 _, ?_⟩
    rw [mem_blk13]
    intro a
    match a with
    | ⟨0, _⟩ =>
      show win13_5.index ⟨((i 0).val - 512000) / 4096, hk⟩ (0 : Fin 2) * 4096 ≤ (i 0).val
        ∧ (i 0).val < win13_5.index ⟨((i 0).val - 512000) / 4096, hk⟩ (0 : Fin 2) * 4096 + 4096
      rw [e50]
      show (125 + ((i 0).val - 512000) / 4096) * 4096 ≤ (i 0).val ∧ (i 0).val < (125 + ((i 0).val - 512000) / 4096) * 4096 + 4096
      omega
    | ⟨1, _⟩ =>
      show win13_5.index ⟨((i 0).val - 512000) / 4096, hk⟩ (1 : Fin 2) * 512 ≤ (i 1).val
        ∧ (i 1).val < win13_5.index ⟨((i 0).val - 512000) / 4096, hk⟩ (1 : Fin 2) * 512 + 512
      rw [e51]; omega

/-- THE RESULT ARRAY after region 5: the whole-array function on rows 512000 up to 614400, its entry contents elsewhere. -/
theorem final13 (V : Valuation τ sig (Elt F)) (B : Set (SemLoc sig × HIx 8)) (c : Dev nD) :
    (dat13 V B c).arrAt 5 cfg13.N
      = fun i => if 512000 ≤ (i 0).val ∧ (i 0).val < 614400 then GV V i else vb V c main_v50 i := by
  funext i
  rw [(dat13 V B c).arrAt_eq_piecewise 5 (GV V) (fun t _ => flushed13_eq V B c t) i, A13_eq]
  exact if_congr (covered_iff13 i) rfl rfl

/-! ## Region 6 -/

/-- The printed index maps of region 6, decided over its grid. -/
theorem idx_facts14 : ∀ t : Fin cfg14.N, win14_5.index t (0 : Fin 2) = 150 + t.val ∧ win14_5.index t (1 : Fin 2) = 0
    ∧ win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0 :=
  (by decide +kernel : ∀ t : Fin grid14.N, _)

/-- Equal blocks and equal indices give equal payloads. -/
theorem pay_congr14 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 6 WRITES BACK is block `t` of its window of the whole-array function of the arrays as the
    region finds them. -/
theorem flushed14_eq (V : Valuation τ sig (Elt F)) (B : Set (SemLoc sig × HIx 8)) (c : Dev nD) (t : Fin cfg14.N) :
    (dat14 V B c).flushed 5 t = ((cfg14.win 5).blk t).view.read (Elt F) (GV V) := by
  show (cfg14.win 5).cut (grid14.coords t) ((dat14 V B c).after 5 t) = _
  rw [after14_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts14 t
  have ht : t.val < 25 := lt_of_lt_of_eq t.isLt N_14
  funext j
  have hj0 : (j 0).val < 4096 := (j 0).isLt
  have hj1 : (j 1).val < 512 := (j 1).isLt
  have hrow : ((((cfg14.win 5).blk t).view.emb j) 0).val = (150 + t.val) * 4096 + (j 0).val := by
    show win14_5.index t (0 : Fin 2) * 4096 + 1 * (j 0).val = _
    rw [e50]; omega
  have hcol : ((((cfg14.win 5).blk t).view.emb j) 1).val = (j 1).val := by
    show win14_5.index t (1 : Fin 2) * 512 + 1 * (j 1).val = _
    rw [e51]; omega
  have hq : ((((cfg14.win 5).blk t).view.emb j) 0).val / 102400 = 6 := by rw [hrow]; omega
  refine pay_congr14 ?_ ?_ ?_ ?_ ?_ ?_
  · funext x
    have hx0 : (x 0).val < 4096 := (x 0).isLt
    have hx1 : (x 1).val < 256 := (x 1).isLt
    show vb V c main_v39 (((cfg14.win 0).blk t).view.emb x) = gathOf V (((((cfg14.win 5).blk t).view.emb j) 0).val / 102400) _
    rw [hq]
    show vb V c main_v39 (((cfg14.win 0).blk t).view.emb x) = vb V c main_v39 _
    refine congrArg _ (funext fun a => Fin.ext ?_)
    match a with
    | ⟨0, _⟩ =>
      show win14_0.index t (0 : Fin 2) * 4096 + 1 * (x 0).val = ((((cfg14.win 5).blk t).view.emb j) 0).val % 102400 / 4096 * 4096 + (x 0).val
      rw [e00, hrow]; omega
    | ⟨1, _⟩ =>
      show win14_0.index t (1 : Fin 2) * 256 + 1 * (x 1).val = (x 1).val
      rw [e01]; omega
  · funext x
    show vb V c main_arg4 (((cfg14.win 1).blk t).view.emb x) = vb V c main_arg4 x
    refine congrArg _ (funext fun a => Fin.ext ?_)
    match a with
    | ⟨0, _⟩ => show win14_1.index t (0 : Fin 2) * 256 + 1 * (x 0).val = (x 0).val; rw [e10]; omega
    | ⟨1, _⟩ => show win14_1.index t (1 : Fin 2) * 512 + 1 * (x 1).val = (x 1).val; rw [e11]; omega
  · funext x
    show vb V c main_v2 (((cfg14.win 2).blk t).view.emb x) = vb V c main_v2 x
    refine congrArg _ (funext fun a => Fin.ext ?_)
    match a with
    | ⟨0, _⟩ => show win14_2.index t (0 : Fin 2) * 1 + 1 * (x 0).val = (x 0).val; rw [e20]; omega
    | ⟨1, _⟩ => show win14_2.index t (1 : Fin 2) * 512 + 1 * (x 1).val = (x 1).val; rw [e21]; omega
  · funext x
    show vb V c main_v3 (((cfg14.win 3).blk t).view.emb x) = vb V c main_v3 x
    refine congrArg _ (funext fun a => Fin.ext ?_)
    match a with
    | ⟨0, _⟩ => show win14_3.index t (0 : Fin 2) * 1 + 1 * (x 0).val = (x 0).val; rw [e30]; omega
    | ⟨1, _⟩ => show win14_3.index t (1 : Fin 2) * 512 + 1 * (x 1).val = (x 1).val; rw [e31]; omega
  · funext x
    show vb V c main_v4 (((cfg14.win 4).blk t).view.emb x) = vb V c main_v4 x
    refine congrArg _ (funext fun a => Fin.ext ?_)
    match a with
    | ⟨0, _⟩ => show win14_4.index t (0 : Fin 2) * 1 + 1 * (x 0).val = (x 0).val; rw [e40]; omega
    | ⟨1, _⟩ => show win14_4.index t (1 : Fin 2) * 512 + 1 * (x 1).val = (x 1).val; rw [e41]; omega
  · funext a
    apply Fin.ext
    match a with
    | ⟨0, _⟩ => show (j 0).val = ((((cfg14.win 5).blk t).view.emb j) 0).val % 4096; rw [hrow]; omega
    | ⟨1, _⟩ => show (j 1).val = ((((cfg14.win 5).blk t).view.emb j) 1).val; rw [hcol]

/-- An index of the result array is in point `t`'s block iff each coordinate is in the block's range on its axis. -/
theorem mem_blk14 (t : Fin cfg14.N) (i : S819200x512.Idx) :
    i ∈ ((cfg14.win 5).blk t).view.set ↔ ∀ a : Fin 2, win14_5.index t a * S4096x512.size a ≤ (i a).val ∧ (i a).val < win14_5.index t a * S4096x512.size a + S4096x512.size a := by
  show i ∈ ((View.whole main_v51).slice (win14_5.rect t)).set ↔ _
  rw [View.set_slice_whole, Rect.mem_set_unit]
  exact Iff.rfl

/-- THE COVERED INDICES of region 6: rows 614400 up to 716800. -/
theorem covered_iff14 (i : S819200x512.Idx) :
    (∃ t : Fin cfg14.N, (cfg14.win 5).flush t = true ∧ i ∈ ((cfg14.win 5).blk t).view.set) ↔ 614400 ≤ (i 0).val ∧ (i 0).val < 716800 := by
  constructor
  · rintro ⟨t, -, hi⟩
    rw [mem_blk14] at hi
    have b0 : win14_5.index t (0 : Fin 2) * 4096 ≤ (i 0).val ∧ (i 0).val < win14_5.index t (0 : Fin 2) * 4096 + 4096 := hi 0
    obtain ⟨e50, -⟩ := idx_facts14 t
    have ht : t.val < 25 := lt_of_lt_of_eq t.isLt N_14
    rw [e50] at b0
    omega
  · intro h
    have hi1 : (i 1).val < 512 := (i 1).isLt
    have hk : ((i 0).val - 614400) / 4096 < cfg14.N := by
      show _ < grid14.N
      rw [N_14]; omega
    obtain ⟨e50, e51, -⟩ := idx_facts14 ⟨((i 0).val - 614400) / 4096, hk⟩
    refine ⟨⟨((i 0).val - 614400) / 4096, hk⟩, flush14_5 _, ?_⟩
    rw [mem_blk14]
    intro a
    match a with
    | ⟨0, _⟩ =>
      show win14_5.index ⟨((i 0).val - 614400) / 4096, hk⟩ (0 : Fin 2) * 4096 ≤ (i 0).val
        ∧ (i 0).val < win14_5.index ⟨((i 0).val - 614400) / 4096, hk⟩ (0 : Fin 2) * 4096 + 4096
      rw [e50]
      show (150 + ((i 0).val - 614400) / 4096) * 4096 ≤ (i 0).val ∧ (i 0).val < (150 + ((i 0).val - 614400) / 4096) * 4096 + 4096
      omega
    | ⟨1, _⟩ =>
      show win14_5.index ⟨((i 0).val - 614400) / 4096, hk⟩ (1 : Fin 2) * 512 ≤ (i 1).val
        ∧ (i 1).val < win14_5.index ⟨((i 0).val - 614400) / 4096, hk⟩ (1 : Fin 2) * 512 + 512
      rw [e51]; omega

/-- THE RESULT ARRAY after region 6: the whole-array function on rows 614400 up to 716800, its entry contents elsewhere. -/
theorem final14 (V : Valuation τ sig (Elt F)) (B : Set (SemLoc sig × HIx 8)) (c : Dev nD) :
    (dat14 V B c).arrAt 5 cfg14.N
      = fun i => if 614400 ≤ (i 0).val ∧ (i 0).val < 716800 then GV V i else vb V c main_v51 i := by
  funext i
  rw [(dat14 V B c).arrAt_eq_piecewise 5 (GV V) (fun t _ => flushed14_eq V B c t) i, A14_eq]
  exact if_congr (covered_iff14 i) rfl rfl

/-! ## Region 7 -/

/-- The printed index maps of region 7, decided over its grid. -/
theorem idx_facts15 : ∀ t : Fin cfg15.N, win15_5.index t (0 : Fin 2) = 175 + t.val ∧ win15_5.index t (1 : Fin 2) = 0
    ∧ win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0 :=
  (by decide +kernel : ∀ t : Fin grid15.N, _)

/-- Equal blocks and equal indices give equal payloads. -/
theorem pay_congr15 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 7 WRITES BACK is block `t` of its window of the whole-array function of the arrays as the
    region finds them. -/
theorem flushed15_eq (V : Valuation τ sig (Elt F)) (B : Set (SemLoc sig × HIx 8)) (c : Dev nD) (t : Fin cfg15.N) :
    (dat15 V B c).flushed 5 t = ((cfg15.win 5).blk t).view.read (Elt F) (GV V) := by
  show (cfg15.win 5).cut (grid15.coords t) ((dat15 V B c).after 5 t) = _
  rw [after15_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts15 t
  have ht : t.val < 25 := lt_of_lt_of_eq t.isLt N_15
  funext j
  have hj0 : (j 0).val < 4096 := (j 0).isLt
  have hj1 : (j 1).val < 512 := (j 1).isLt
  have hrow : ((((cfg15.win 5).blk t).view.emb j) 0).val = (175 + t.val) * 4096 + (j 0).val := by
    show win15_5.index t (0 : Fin 2) * 4096 + 1 * (j 0).val = _
    rw [e50]; omega
  have hcol : ((((cfg15.win 5).blk t).view.emb j) 1).val = (j 1).val := by
    show win15_5.index t (1 : Fin 2) * 512 + 1 * (j 1).val = _
    rw [e51]; omega
  have hq : ((((cfg15.win 5).blk t).view.emb j) 0).val / 102400 = 7 := by rw [hrow]; omega
  refine pay_congr15 ?_ ?_ ?_ ?_ ?_ ?_
  · funext x
    have hx0 : (x 0).val < 4096 := (x 0).isLt
    have hx1 : (x 1).val < 256 := (x 1).isLt
    show vb V c main_v44 (((cfg15.win 0).blk t).view.emb x) = gathOf V (((((cfg15.win 5).blk t).view.emb j) 0).val / 102400) _
    rw [hq]
    show vb V c main_v44 (((cfg15.win 0).blk t).view.emb x) = vb V c main_v44 _
    refine congrArg _ (funext fun a => Fin.ext ?_)
    match a with
    | ⟨0, _⟩ =>
      show win15_0.index t (0 : Fin 2) * 4096 + 1 * (x 0).val = ((((cfg15.win 5).blk t).view.emb j) 0).val % 102400 / 4096 * 4096 + (x 0).val
      rw [e00, hrow]; omega
    | ⟨1, _⟩ =>
      show win15_0.index t (1 : Fin 2) * 256 + 1 * (x 1).val = (x 1).val
      rw [e01]; omega
  · funext x
    show vb V c main_arg4 (((cfg15.win 1).blk t).view.emb x) = vb V c main_arg4 x
    refine congrArg _ (funext fun a => Fin.ext ?_)
    match a with
    | ⟨0, _⟩ => show win15_1.index t (0 : Fin 2) * 256 + 1 * (x 0).val = (x 0).val; rw [e10]; omega
    | ⟨1, _⟩ => show win15_1.index t (1 : Fin 2) * 512 + 1 * (x 1).val = (x 1).val; rw [e11]; omega
  · funext x
    show vb V c main_v2 (((cfg15.win 2).blk t).view.emb x) = vb V c main_v2 x
    refine congrArg _ (funext fun a => Fin.ext ?_)
    match a with
    | ⟨0, _⟩ => show win15_2.index t (0 : Fin 2) * 1 + 1 * (x 0).val = (x 0).val; rw [e20]; omega
    | ⟨1, _⟩ => show win15_2.index t (1 : Fin 2) * 512 + 1 * (x 1).val = (x 1).val; rw [e21]; omega
  · funext x
    show vb V c main_v3 (((cfg15.win 3).blk t).view.emb x) = vb V c main_v3 x
    refine congrArg _ (funext fun a => Fin.ext ?_)
    match a with
    | ⟨0, _⟩ => show win15_3.index t (0 : Fin 2) * 1 + 1 * (x 0).val = (x 0).val; rw [e30]; omega
    | ⟨1, _⟩ => show win15_3.index t (1 : Fin 2) * 512 + 1 * (x 1).val = (x 1).val; rw [e31]; omega
  · funext x
    show vb V c main_v4 (((cfg15.win 4).blk t).view.emb x) = vb V c main_v4 x
    refine congrArg _ (funext fun a => Fin.ext ?_)
    match a with
    | ⟨0, _⟩ => show win15_4.index t (0 : Fin 2) * 1 + 1 * (x 0).val = (x 0).val; rw [e40]; omega
    | ⟨1, _⟩ => show win15_4.index t (1 : Fin 2) * 512 + 1 * (x 1).val = (x 1).val; rw [e41]; omega
  · funext a
    apply Fin.ext
    match a with
    | ⟨0, _⟩ => show (j 0).val = ((((cfg15.win 5).blk t).view.emb j) 0).val % 4096; rw [hrow]; omega
    | ⟨1, _⟩ => show (j 1).val = ((((cfg15.win 5).blk t).view.emb j) 1).val; rw [hcol]

/-- An index of the result array is in point `t`'s block iff each coordinate is in the block's range on its axis. -/
theorem mem_blk15 (t : Fin cfg15.N) (i : S819200x512.Idx) :
    i ∈ ((cfg15.win 5).blk t).view.set ↔ ∀ a : Fin 2, win15_5.index t a * S4096x512.size a ≤ (i a).val ∧ (i a).val < win15_5.index t a * S4096x512.size a + S4096x512.size a := by
  show i ∈ ((View.whole main_v52).slice (win15_5.rect t)).set ↔ _
  rw [View.set_slice_whole, Rect.mem_set_unit]
  exact Iff.rfl

/-- THE COVERED INDICES of region 7: rows 716800 up to 819200. -/
theorem covered_iff15 (i : S819200x512.Idx) :
    (∃ t : Fin cfg15.N, (cfg15.win 5).flush t = true ∧ i ∈ ((cfg15.win 5).blk t).view.set) ↔ 716800 ≤ (i 0).val ∧ (i 0).val < 819200 := by
  constructor
  · rintro ⟨t, -, hi⟩
    rw [mem_blk15] at hi
    have b0 : win15_5.index t (0 : Fin 2) * 4096 ≤ (i 0).val ∧ (i 0).val < win15_5.index t (0 : Fin 2) * 4096 + 4096 := hi 0
    obtain ⟨e50, -⟩ := idx_facts15 t
    have ht : t.val < 25 := lt_of_lt_of_eq t.isLt N_15
    rw [e50] at b0
    omega
  · intro h
    have hi1 : (i 1).val < 512 := (i 1).isLt
    have hk : ((i 0).val - 716800) / 4096 < cfg15.N := by
      show _ < grid15.N
      rw [N_15]; omega
    obtain ⟨e50, e51, -⟩ := idx_facts15 ⟨((i 0).val - 716800) / 4096, hk⟩
    refine ⟨⟨((i 0).val - 716800) / 4096, hk⟩, flush15_5 _, ?_⟩
    rw [mem_blk15]
    intro a
    match a with
    | ⟨0, _⟩ =>
      show win15_5.index ⟨((i 0).val - 716800) / 4096, hk⟩ (0 : Fin 2) * 4096 ≤ (i 0).val
        ∧ (i 0).val < win15_5.index ⟨((i 0).val - 716800) / 4096, hk⟩ (0 : Fin 2) * 4096 + 4096
      rw [e50]
      show (175 + ((i 0).val - 716800) / 4096) * 4096 ≤ (i 0).val ∧ (i 0).val < (175 + ((i 0).val - 716800) / 4096) * 4096 + 4096
      omega
    | ⟨1, _⟩ =>
      show win15_5.index ⟨((i 0).val - 716800) / 4096, hk⟩ (1 : Fin 2) * 512 ≤ (i 1).val
        ∧ (i 1).val < win15_5.index ⟨((i 0).val - 716800) / 4096, hk⟩ (1 : Fin 2) * 512 + 512
      rw [e51]; omega

/-- THE RESULT ARRAY after region 7: the whole-array function on rows 716800 up to 819200, its entry contents elsewhere. -/
theorem final15 (V : Valuation τ sig (Elt F)) (B : Set (SemLoc sig × HIx 8)) (c : Dev nD) :
    (dat15 V B c).arrAt 5 cfg15.N
      = fun i => if 716800 ≤ (i 0).val ∧ (i 0).val < 819200 then GV V i else vb V c main_v52 i := by
  funext i
  rw [(dat15 V B c).arrAt_eq_piecewise 5 (GV V) (fun t _ => flushed15_eq V B c t) i, A15_eq]
  exact if_congr (covered_iff15 i) rfl rfl

end Cert.KernelIdeal.TcTail

end
-- ==== Proof.TcTailVals.lean ====
/-
  The values the tail leaves. Along the chain of valuations the arrays the regions read never change, so every
  region writes blocks of one and the same whole-array function of the first valuation; region p having filled rows
  102400 p up to 102400 (p + 1) and the copy between regions carrying the rows below along, the last result array
  is that function everywhere, and the final result is its reshape; no argument array is written.
-/
import proofs.«204770_g8065948582451_cont_9to1c4b_476_56_alg».proof.Proof.ScPayI
import proofs.«204770_g8065948582451_cont_9to1c4b_476_56_alg».proof.Proof.Gen.KernelIdeal.Points
import proofs.«204770_g8065948582451_cont_9to1c4b_476_56_alg».proof.Proof.TcTailVal
import Idealize.ShloMosaic.Lib.Pipeline.FrameBody
import Idealize.ShloMosaic.Lib.Pipeline.RegionsLoop
import Idealize.ShloMosaic.Lib.Tactic

set_option maxRecDepth 16384

noncomputable section

namespace Cert.KernelIdeal.TcTail

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

open Idealize.ShloMosaic.ValueIdx

/-! ## Along the chain of valuations -/

/-- The result buffers: what the regions and the host operations of the tail write. -/
def resL : List (Ref sig .tc) := [main_v45, main_v46, main_v47, main_v48, main_v49, main_v50, main_v51, main_v52, main_v53]

/-- A reference off the result buffers is none of them. -/
theorem ne_res {r : Ref sig .tc} (hr : r ∉ resL) (y : Ref sig .tc) (hy : y ∈ resL) : r ≠ y := fun e => hr (e ▸ hy)

/-- The whole-array function reads the valuation off the result buffers only. -/
theorem GV_congr (V V' : Valuation τ sig (Elt F))
    (h : ∀ r : Ref sig .tc, r ∉ resL → V (Proc.devRef .tc r) = V' (Proc.devRef .tc r)) : GV V = GV V' := by
  have hg : gathOf V = gathOf V' := by
    funext q; unfold gathOf; split <;> exact h _ (by decide)
  unfold GV
  rw [hg, h main_arg4 (by decide), h main_v2 (by decide), h main_v3 (by decide), h main_v4 (by decide)]

variable (Vin : Dev nD → Valuation τ sig (Elt F)) (B : Set (SemLoc sig × HIx 8))

/-- Off the result buffers every valuation of the chain is the first. -/
theorem keep0 (r : Ref sig .tc) (hr : r ∉ resL) (c : Dev nD) : X0 Vin B c (Proc.devRef .tc r) = Vin c (Proc.devRef .tc r) := by
  rw [X0_eq]; unfold Vx0
  exact Function.update_of_ne (StableHlo.devRef_ne_of_ne (ne_res hr main_v45 (by decide))) _ _

theorem keepE1 (r : Ref sig .tc) (hr : r ∉ resL) (c : Dev nD) : E1 Vin B c (Proc.devRef .tc r) = Vin c (Proc.devRef .tc r) := by
  show (cp0 : HloOp τ sig (Elt F)).result (X0 Vin B c) (Proc.devRef .tc r) = _
  rw [StableHlo.unary_result_ne (h := ne_res hr main_v46 (by decide)), keep0 Vin B r hr c]
theorem keep1 (r : Ref sig .tc) (hr : r ∉ resL) (c : Dev nD) : X1 Vin B c (Proc.devRef .tc r) = Vin c (Proc.devRef .tc r) := by
  rw [X1_eq]; unfold Vx1
  rw [Function.update_of_ne (StableHlo.devRef_ne_of_ne (ne_res hr main_v46 (by decide)))]
  exact keepE1 Vin B r hr c

theorem keepE2 (r : Ref sig .tc) (hr : r ∉ resL) (c : Dev nD) : E2 Vin B c (Proc.devRef .tc r) = Vin c (Proc.devRef .tc r) := by
  show (cp1 : HloOp τ sig (Elt F)).result (X1 Vin B c) (Proc.devRef .tc r) = _
  rw [StableHlo.unary_result_ne (h := ne_res hr main_v47 (by decide)), keep1 Vin B r hr c]
theorem keep2 (r : Ref sig .tc) (hr : r ∉ resL) (c : Dev nD) : X2 Vin B c (Proc.devRef .tc r) = Vin c (Proc.devRef .tc r) := by
  rw [X2_eq]; unfold Vx2
  rw [Function.update_of_ne (StableHlo.devRef_ne_of_ne (ne_res hr main_v47 (by decide)))]
  exact keepE2 Vin B r hr c

theorem keepE3 (r : Ref sig .tc) (hr : r ∉ resL) (c : Dev nD) : E3 Vin B c (Proc.devRef .tc r) = Vin c (Proc.devRef .tc r) := by
  show (cp2 : HloOp τ sig (Elt F)).result (X2 Vin B c) (Proc.devRef .tc r) = _
  rw [StableHlo.unary_result_ne (h := ne_res hr main_v48 (by decide)), keep2 Vin B r hr c]
theorem keep3 (r : Ref sig .tc) (hr : r ∉ resL) (c : Dev nD) : X3 Vin B c (Proc.devRef .tc r) = Vin c (Proc.devRef .tc r) := by
  rw [X3_eq]; unfold Vx3
  rw [Function.update_of_ne (StableHlo.devRef_ne_of_ne (ne_res hr main_v48 (by decide)))]
  exact keepE3 Vin B r hr c

theorem keepE4 (r : Ref sig .tc) (hr : r ∉ resL) (c : Dev nD) : E4 Vin B c (Proc.devRef .tc r) = Vin c (Proc.devRef .tc r) := by
  show (cp3 : HloOp τ sig (Elt F)).result (X3 Vin B c) (Proc.devRef .tc r) = _
  rw [StableHlo.unary_result_ne (h := ne_res hr main_v49 (by decide)), keep3 Vin B r hr c]
theorem keep4 (r : Ref sig .tc) (hr : r ∉ resL) (c : Dev nD) : X4 Vin B c (Proc.devRef .tc r) = Vin c (Proc.devRef .tc r) := by
  rw [X4_eq]; unfold Vx4
  rw [Function.update_of_ne (StableHlo.devRef_ne_of_ne (ne_res hr main_v49 (by decide)))]
  exact keepE4 Vin B r hr c

theorem keepE5 (r : Ref sig .tc) (hr : r ∉ resL) (c : Dev nD) : E5 Vin B c (Proc.devRef .tc r) = Vin c (Proc.devRef .tc r) := by
  show (cp4 : HloOp τ sig (Elt F)).result (X4 Vin B c) (Proc.devRef .tc r) = _
  rw [StableHlo.unary_result_ne (h := ne_res hr main_v50 (by decide)), keep4 Vin B r hr c]
theorem keep5 (r : Ref sig .tc) (hr : r ∉ resL) (c : Dev nD) : X5 Vin B c (Proc.devRef .tc r) = Vin c (Proc.devRef .tc r) := by
  rw [X5_eq]; unfold Vx5
  rw [Function.update_of_ne (StableHlo.devRef_ne_of_ne (ne_res hr main_v50 (by decide)))]
  exact keepE5 Vin B r hr c

theorem keepE6 (r : Ref sig .tc) (hr : r ∉ resL) (c : Dev nD) : E6 Vin B c (Proc.devRef .tc r) = Vin c (Proc.devRef .tc r) := by
  show (cp5 : HloOp τ sig (Elt F)).result (X5 Vin B c) (Proc.devRef .tc r) = _
  rw [StableHlo.unary_result_ne (h := ne_res hr main_v51 (by decide)), keep5 Vin B r hr c]
theorem keep6 (r : Ref sig .tc) (hr : r ∉ resL) (c : Dev nD) : X6 Vin B c (Proc.devRef .tc r) = Vin c (Proc.devRef .tc r) := by
  rw [X6_eq]; unfold Vx6
  rw [Function.update_of_ne (StableHlo.devRef_ne_of_ne (ne_res hr main_v51 (by decide)))]
  exact keepE6 Vin B r hr c

theorem keepE7 (r : Ref sig .tc) (hr : r ∉ resL) (c : Dev nD) : E7 Vin B c (Proc.devRef .tc r) = Vin c (Proc.devRef .tc r) := by
  show (cp6 : HloOp τ sig (Elt F)).result (X6 Vin B c) (Proc.devRef .tc r) = _
  rw [StableHlo.unary_result_ne (h := ne_res hr main_v52 (by decide)), keep6 Vin B r hr c]
theorem keep7 (r : Ref sig .tc) (hr : r ∉ resL) (c : Dev nD) : X7 Vin B c (Proc.devRef .tc r) = Vin c (Proc.devRef .tc r) := by
  rw [X7_eq]; unfold Vx7
  rw [Function.update_of_ne (StableHlo.devRef_ne_of_ne (ne_res hr main_v52 (by decide)))]
  exact keepE7 Vin B r hr c

/-- After region 0 the result array holds the whole-array function of the first valuation on rows below 102400. -/
theorem val0 (c : Dev nD) (i : S819200x512.Idx) (hi : (i 0).val < 102400) :
    vb (X0 Vin B c) c main_v45 i = GV (Vin c) i := by
  show X0 Vin B c (Proc.devRef .tc main_v45) i = _
  rw [X0_eq]; unfold Vx0
  rw [Function.update_self, final8]
  exact if_pos ⟨Nat.zero_le _, hi⟩

/-- After region 1: on rows below 204800. -/
theorem val1 (c : Dev nD) (i : S819200x512.Idx) (hi : (i 0).val < 204800) :
    vb (X1 Vin B c) c main_v46 i = GV (Vin c) i := by
  show X1 Vin B c (Proc.devRef .tc main_v46) i = _
  rw [X1_eq]; unfold Vx1
  rw [Function.update_self, final9]
  show (if 102400 ≤ (i 0).val ∧ (i 0).val < 204800 then GV (E1 Vin B c) i else vb (E1 Vin B c) c main_v46 i) = _
  by_cases h : 102400 ≤ (i 0).val
  · rw [if_pos ⟨h, hi⟩, GV_congr (E1 Vin B c) (Vin c) fun r hr => keepE1 Vin B r hr c]
  · rw [if_neg fun hh => h hh.1]
    show (cp0 : HloOp τ sig (Elt F)).result (X0 Vin B c) (Proc.devRef .tc main_v46) i = _
    rw [StableHlo.unary_result]
    exact val0 Vin B c i (by omega)

/-- After region 2: on rows below 307200. -/
theorem val2 (c : Dev nD) (i : S819200x512.Idx) (hi : (i 0).val < 307200) :
    vb (X2 Vin B c) c main_v47 i = GV (Vin c) i := by
  show X2 Vin B c (Proc.devRef .tc main_v47) i = _
  rw [X2_eq]; unfold Vx2
  rw [Function.update_self, final10]
  show (if 204800 ≤ (i 0).val ∧ (i 0).val < 307200 then GV (E2 Vin B c) i else vb (E2 Vin B c) c main_v47 i) = _
  by_cases h : 204800 ≤ (i 0).val
  · rw [if_pos ⟨h, hi⟩, GV_congr (E2 Vin B c) (Vin c) fun r hr => keepE2 Vin B r hr c]
  · rw [if_neg fun hh => h hh.1]
    show (cp1 : HloOp τ sig (Elt F)).result (X1 Vin B c) (Proc.devRef .tc main_v47) i = _
    rw [StableHlo.unary_result]
    exact val1 Vin B c i (by omega)

/-- After region 3: on rows below 409600. -/
theorem val3 (c : Dev nD) (i : S819200x512.Idx) (hi : (i 0).val < 409600) :
    vb (X3 Vin B c) c main_v48 i = GV (Vin c) i := by
  show X3 Vin B c (Proc.devRef .tc main_v48) i = _
  rw [X3_eq]; unfold Vx3
  rw [Function.update_self, final11]
  show (if 307200 ≤ (i 0).val ∧ (i 0).val < 409600 then GV (E3 Vin B c) i else vb (E3 Vin B c) c main_v48 i) = _
  by_cases h : 307200 ≤ (i 0).val
  · rw [if_pos ⟨h, hi⟩, GV_congr (E3 Vin B c) (Vin c) fun r hr => keepE3 Vin B r hr c]
  · rw [if_neg fun hh => h hh.1]
    show (cp2 : HloOp τ sig (Elt F)).result (X2 Vin B c) (Proc.devRef .tc main_v48) i = _
    rw [StableHlo.unary_result]
    exact val2 Vin B c i (by omega)

/-- After region 4: on rows below 512000. -/
theorem val4 (c : Dev nD) (i : S819200x512.Idx) (hi : (i 0).val < 512000) :
    vb (X4 Vin B c) c main_v49 i = GV (Vin c) i := by
  show X4 Vin B c (Proc.devRef .tc main_v49) i = _
  rw [X4_eq]; unfold Vx4
  rw [Function.update_self, final12]
  show (if 409600 ≤ (i 0).val ∧ (i 0).val < 512000 then GV (E4 Vin B c) i else vb (E4 Vin B c) c main_v49 i) = _
  by_cases h : 409600 ≤ (i 0).val
  · rw [if_pos ⟨h, hi⟩, GV_congr (E4 Vin B c) (Vin c) fun r hr => keepE4 Vin B r hr c]
  · rw [if_neg fun hh => h hh.1]
    show (cp3 : HloOp τ sig (Elt F)).result (X3 Vin B c) (Proc.devRef .tc main_v49) i = _
    rw [StableHlo.unary_result]
    exact val3 Vin B c i (by omega)

/-- After region 5: on rows below 614400. -/
theorem val5 (c : Dev nD) (i : S819200x512.Idx) (hi : (i 0).val < 614400) :
    vb (X5 Vin B c) c main_v50 i = GV (Vin c) i := by
  show X5 Vin B c (Proc.devRef .tc main_v50) i = _
  rw [X5_eq]; unfold Vx5
  rw [Function.update_self, final13]
  show (if 512000 ≤ (i 0).val ∧ (i 0).val < 614400 then GV (E5 Vin B c) i else vb (E5 Vin B c) c main_v50 i) = _
  by_cases h : 512000 ≤ (i 0).val
  · rw [if_pos ⟨h, hi⟩, GV_congr (E5 Vin B c) (Vin c) fun r hr => keepE5 Vin B r hr c]
  · rw [if_neg fun hh => h hh.1]
    show (cp4 : HloOp τ sig (Elt F)).result (X4 Vin B c) (Proc.devRef .tc main_v50) i = _
    rw [StableHlo.unary_result]
    exact val4 Vin B c i (by omega)

/-- After region 6: on rows below 716800. -/
theorem val6 (c : Dev nD) (i : S819200x512.Idx) (hi : (i 0).val < 716800) :
    vb (X6 Vin B c) c main_v51 i = GV (Vin c) i := by
  show X6 Vin B c (Proc.devRef .tc main_v51) i = _
  rw [X6_eq]; unfold Vx6
  rw [Function.update_self, final14]
  show (if 614400 ≤ (i 0).val ∧ (i 0).val < 716800 then GV (E6 Vin B c) i else vb (E6 Vin B c) c main_v51 i) = _
  by_cases h : 614400 ≤ (i 0).val
  · rw [if_pos ⟨h, hi⟩, GV_congr (E6 Vin B c) (Vin c) fun r hr => keepE6 Vin B r hr c]
  · rw [if_neg fun hh => h hh.1]
    show (cp5 : HloOp τ sig (Elt F)).result (X5 Vin B c) (Proc.devRef .tc main_v51) i = _
    rw [StableHlo.unary_result]
    exact val5 Vin B c i (by omega)

/-- After region 7: on rows below 819200. -/
theorem val7 (c : Dev nD) (i : S819200x512.Idx) (hi : (i 0).val < 819200) :
    vb (X7 Vin B c) c main_v52 i = GV (Vin c) i := by
  show X7 Vin B c (Proc.devRef .tc main_v52) i = _
  rw [X7_eq]; unfold Vx7
  rw [Function.update_self, final15]
  show (if 716800 ≤ (i 0).val ∧ (i 0).val < 819200 then GV (E7 Vin B c) i else vb (E7 Vin B c) c main_v52 i) = _
  by_cases h : 716800 ≤ (i 0).val
  · rw [if_pos ⟨h, hi⟩, GV_congr (E7 Vin B c) (Vin c) fun r hr => keepE7 Vin B r hr c]
  · rw [if_neg fun hh => h hh.1]
    show (cp6 : HloOp τ sig (Elt F)).result (X6 Vin B c) (Proc.devRef .tc main_v52) i = _
    rw [StableHlo.unary_result]
    exact val6 Vin B c i (by omega)

/-! ## The final valuation -/

/-- The last result array, before the reshape. -/
def Yf (c : Dev nD) : Vec F S819200x512 .f32 := vb (X7 Vin B c) c main_v52

/-- It is the whole-array function of the first valuation. -/
theorem Yf_eq (c : Dev nD) : Yf Vin B c = GV (Vin c) :=
  funext fun i => val7 Vin B c i (by have := idx2_lt0 i; omega)

/-- Off the result buffers the final valuation is the first: the tail writes none of the arguments. -/
theorem Vend_keep (r : Ref sig .tc) (hr : r ∉ resL) (c : Dev nD) : Vend Vin B c (Proc.devRef .tc r) = Vin c (Proc.devRef .tc r) := by
  show (rsOp : HloOp τ sig (Elt F)).result (X7 Vin B c) (Proc.devRef .tc r) = _
  rw [StableHlo.reshape_result_ne (h := ne_res hr main_v53 (by decide)), keep7 Vin B r hr c]

/-- The final result is the last result array reshaped. -/
theorem Vend_v53 (c : Dev nD) :
    Vend Vin B c (Proc.devRef .tc main_v53) = shapeCast S4096x200x512 (Yf Vin B c) shapeCasts_S819200x512_S4096x200x512 := by
  show (rsOp : HloOp τ sig (Elt F)).result (X7 Vin B c) (Proc.devRef .tc main_v53) = _
  rw [StableHlo.reshape_result]
  rfl

/-- BLOCKWISE: row (25 p + i) · 4096 + rr of the last result array is row rr of the payload of block i of the p-th
    gathered array of the first valuation, the weights and the three rows. -/
theorem GV_block (V : Valuation τ sig (Elt F)) (p : Fin 8) (i : Fin 25) (rr : Fin 4096) (j : Fin 512)
    (h : (25 * p.val + i.val) * 4096 + rr.val < 819200) :
    GV V (ix2 (⟨(25 * p.val + i.val) * 4096 + rr.val, h⟩ : Fin 819200) j)
      = k8_pay1 (F := F)
          (fun y : S4096x256.Idx => gathOf V p.val (ix2 (⟨i.val * 4096 + (y 0).val, by have := idx2_lt0 y; omega⟩ : Fin 102400) (y 1)))
          (V (Proc.devRef .tc main_arg4)) (V (Proc.devRef .tc main_v2)) (V (Proc.devRef .tc main_v3)) (V (Proc.devRef .tc main_v4))
          (ix2 rr j) := by
  have hp := p.isLt
  have hi := i.isLt
  have hr := rr.isLt
  have hq : ((25 * p.val + i.val) * 4096 + rr.val) / 102400 = p.val := by omega
  unfold GV
  refine pay_congr8 ?_ rfl rfl rfl rfl ?_
  · funext y
    have hy := idx2_lt0 y
    show gathOf V (((25 * p.val + i.val) * 4096 + rr.val) / 102400) _ = gathOf V p.val _
    rw [hq]
    refine congrArg _ (funext fun a => Fin.ext ?_)
    match a with
    | ⟨0, _⟩ =>
      show ((25 * p.val + i.val) * 4096 + rr.val) % 102400 / 4096 * 4096 + (y 0).val = i.val * 4096 + (y 0).val
      omega
    | ⟨1, _⟩ => rfl
  · funext a
    apply Fin.ext
    match a with
    | ⟨0, _⟩ => show ((25 * p.val + i.val) * 4096 + rr.val) % 4096 = rr.val; omega
    | ⟨1, _⟩ => rfl

/-! ## The same, of the valuation the tail's run ends at -/

variable (ι : HIx 8)

/-- The tail writes none of the buffers off the result buffers: the arguments among them. -/
theorem Vout_keep (W : Finset (SemLoc sig × HIx 8)) (d : Dev nD) (r : Ref sig .tc) (hr : r ∉ resL) :
    Vout Vin ι W d (Proc.devRef .tc r) = Vin d (Proc.devRef .tc r) :=
  Vend_keep Vin (Bof W ι) r hr d

/-- The final result is the reshape of the whole-array function of the first valuation. -/
theorem Vout_v53 (W : Finset (SemLoc sig × HIx 8)) (d : Dev nD) :
    Vout Vin ι W d (Proc.devRef .tc main_v53) = shapeCast S4096x200x512 (GV (Vin d)) shapeCasts_S819200x512_S4096x200x512 := by
  rw [show Vout Vin ι W d = Vend Vin (Bof W ι) d from rfl, Vend_v53, Yf_eq]

end Cert.KernelIdeal.TcTail

end
-- ==== Proof.AsmArgsI.lean ====
/-
  The final valuation keeps the arguments. The final valuation is what the dense tail makes of the buffers the last
  gather call leaves; the tail writes its nine result buffers only, and the last gather call leaves every argument
  buffer at its launch contents.
-/
import proofs.«204770_g8065948582451_cont_9to1c4b_476_56_alg».proof.Proof.AsmFrameI
import proofs.«204770_g8065948582451_cont_9to1c4b_476_56_alg».proof.Proof.ScFinalI
import proofs.«204770_g8065948582451_cont_9to1c4b_476_56_alg».proof.Proof.TcTailVals

noncomputable section

namespace Cert.KernelIdeal.Asm

open Idealize.ShloMosaic Idealize.SL.Sem
open Cert.KernelIdeal Cert.KernelIdeal.Gen

variable {F : FTy → Type} [FloatOps F]

/-- The final valuation has the eight argument buffers at their launch contents. -/
theorem vfin_args : ArgsKept (F := F) (fun m d => Sc.Vfin m d) := fun m d =>
  ⟨(TcTail.Vout_keep (Sc.Vin7 m) none ∅ d main_arg0 (by decide)).trans (Sc.post7_arg0 m d),
   (TcTail.Vout_keep (Sc.Vin7 m) none ∅ d main_arg1 (by decide)).trans (Sc.post7_arg1 m d),
   (TcTail.Vout_keep (Sc.Vin7 m) none ∅ d main_arg2 (by decide)).trans (Sc.post7_arg2 m d),
   (TcTail.Vout_keep (Sc.Vin7 m) none ∅ d main_arg3 (by decide)).trans (Sc.post7_arg3 m d),
   (TcTail.Vout_keep (Sc.Vin7 m) none ∅ d main_arg4 (by decide)).trans (Sc.post7_arg4 m d),
   (TcTail.Vout_keep (Sc.Vin7 m) none ∅ d main_arg5 (by decide)).trans (Sc.post7_arg5 m d),
   (TcTail.Vout_keep (Sc.Vin7 m) none ∅ d main_arg6 (by decide)).trans (Sc.post7_arg6 m d),
   (TcTail.Vout_keep (Sc.Vin7 m) none ∅ d main_arg7 (by decide)).trans (Sc.post7_arg7 m d)⟩

end Cert.KernelIdeal.Asm

end
-- ==== Proof.AsmPlugI.lean ====
/-
  The two claims about the idealized kernel, from its run alone. The final valuation is the dense tail's of the
  buffers the last gather call leaves: it keeps the arguments; its result buffer is the reshape of the whole-array
  function the tail's regions write; and that function, block by block, is the dense body's value of the p-th
  gathered array's block, the weights and the three rows, which after the last call are the gathered arrays of the
  calls' index arrays, the launch's weights and the [1, 512] reshapes of the launch's bias, scale and shift.
-/
import proofs.«204770_g8065948582451_cont_9to1c4b_476_56_alg».proof.Proof.AsmKerI
import proofs.«204770_g8065948582451_cont_9to1c4b_476_56_alg».proof.Proof.AsmArgsI

noncomputable section

open scoped BigOperators

namespace Cert.Proof.Asm

open Idealize.ShloMosaic Idealize.SL.Sem Idealize.ShloMosaic.ValueIdx
open Cert.KernelIdeal Cert.KernelIdeal.Gen Cert.KernelIdeal.Sc Cert.KernelIdeal.Asm
open Idealize.ShloMosaic.SparseCore (T)

variable (m : (ℓ : Loc nD τ sig) → Buf (Elt Ideal) ℓ)

/-- The q-th gathered array of a valuation is the valuation at the q-th call's result buffer. -/
theorem gathOf_at0 (W : Valuation τ sig (Elt Ideal)) : TcTail.gathOf W 0 = W (Proc.devRef .tc main_v9) := rfl
theorem gathOf_at1 (W : Valuation τ sig (Elt Ideal)) : TcTail.gathOf W 1 = W (Proc.devRef .tc main_v14) := rfl
theorem gathOf_at2 (W : Valuation τ sig (Elt Ideal)) : TcTail.gathOf W 2 = W (Proc.devRef .tc main_v19) := rfl
theorem gathOf_at3 (W : Valuation τ sig (Elt Ideal)) : TcTail.gathOf W 3 = W (Proc.devRef .tc main_v24) := rfl
theorem gathOf_at4 (W : Valuation τ sig (Elt Ideal)) : TcTail.gathOf W 4 = W (Proc.devRef .tc main_v29) := rfl
theorem gathOf_at5 (W : Valuation τ sig (Elt Ideal)) : TcTail.gathOf W 5 = W (Proc.devRef .tc main_v34) := rfl
theorem gathOf_at6 (W : Valuation τ sig (Elt Ideal)) : TcTail.gathOf W 6 = W (Proc.devRef .tc main_v39) := rfl
theorem gathOf_at7 (W : Valuation τ sig (Elt Ideal)) : TcTail.gathOf W 7 = W (Proc.devRef .tc main_v44) := rfl

/-- After the last call the p-th gathered array of the buffers is the p-th call's. -/
theorem gathOf_post7 (d : Dev nD) (p : Fin 8) : TcTail.gathOf (Vpost7 m d) p.val = gathAll m d p := by
  match p with
  | ⟨0, _⟩ =>
    show TcTail.gathOf (Vpost7 m d) 0 = gath (ids0 m d) (cids0 m d) (idt m d) (cat m d)
    rw [gathOf_at0, post7_O0]
  | ⟨1, _⟩ =>
    show TcTail.gathOf (Vpost7 m d) 1 = gath (ids1 m d) (cids1 m d) (idt m d) (cat m d)
    rw [gathOf_at1, post7_O1]
  | ⟨2, _⟩ =>
    show TcTail.gathOf (Vpost7 m d) 2 = gath (ids2 m d) (cids2 m d) (idt m d) (cat m d)
    rw [gathOf_at2, post7_O2]
  | ⟨3, _⟩ =>
    show TcTail.gathOf (Vpost7 m d) 3 = gath (ids3 m d) (cids3 m d) (idt m d) (cat m d)
    rw [gathOf_at3, post7_O3]
  | ⟨4, _⟩ =>
    show TcTail.gathOf (Vpost7 m d) 4 = gath (ids4 m d) (cids4 m d) (idt m d) (cat m d)
    rw [gathOf_at4, post7_O4]
  | ⟨5, _⟩ =>
    show TcTail.gathOf (Vpost7 m d) 5 = gath (ids5 m d) (cids5 m d) (idt m d) (cat m d)
    rw [gathOf_at5, post7_O5]
  | ⟨6, _⟩ =>
    show TcTail.gathOf (Vpost7 m d) 6 = gath (ids6 m d) (cids6 m d) (idt m d) (cat m d)
    rw [gathOf_at6, post7_O6]
  | ⟨7, _⟩ =>
    show TcTail.gathOf (Vpost7 m d) 7 = gath (ids7 m d) (cids7 m d) (idt m d) (cat m d)
    rw [gathOf_at7, post7_O7]

/-- The whole-array function of the buffers the last call leaves, block by block: the kernel's spelling of the layer
    normalisation of the linear layer of the gathered rows. -/
theorem GV_post7_block (d : Dev nD) (p : Fin 8) (i : Fin 25) (rr : Fin 4096) (j : Fin 512) :
    TcTail.GV (Vpost7 m d)
        (ix2 (⟨(25 * p.val + i.val) * 4096 + rr.val, by have := p.isLt; have := i.isLt; have := rr.isLt; omega⟩ : Fin 819200) j)
      = Cert.Spec.lnKer (fun j' => (∑ k : Fin 256,
            gathAll m d p (ix2 (⟨4096 * i.val + rr.val, by have := i.isLt; have := rr.isLt; omega⟩ : Fin 102400) k)
              * (m (d, Proc.devRef .tc main_arg4) : Vec Ideal S256x512 .f32) (ix2 k j'))
          + to1x512 (m (d, Proc.devRef .tc main_arg5)) (ix2 (0 : Fin 1) j'))
        (fun j' => to1x512 (m (d, Proc.devRef .tc main_arg6)) (ix2 (0 : Fin 1) j'))
        (fun j' => to1x512 (m (d, Proc.devRef .tc main_arg7)) (ix2 (0 : Fin 1) j')) j := by
  rw [TcTail.GV_block]
  rw [TcPayload.pay_apply]
  rw [gathOf_post7, post7_arg4, post7_v2, post7_v3, post7_v4]
  refine congrArg (fun x => Cert.Spec.lnKer x _ _ j) (funext fun j' => ?_)
  refine congrArg (· + _) (Finset.sum_congr rfl fun k _ => ?_)
  refine congrArg (fun r => gathAll m d p (ix2 r k) * _) (Fin.ext ?_)
  show i.val * 4096 + rr.val = 4096 * i.val + rr.val
  omega

/-- The kernel's frame claim, from its run to the final valuation. -/
theorem frame_ki_of [hKernelIdeal : Cert.KernelIdeal.Facts] [hPre_input_domain : Cert.Pre_input_domain.Facts]
    (hrun : RunTo (F := Ideal) (fun m d => Vfin m d)) : Cert.frame_KernelIdeal :=
  frame_kernel (fun m d => Vfin m d) hrun vfin_args

/-- The algebraic claim, from the kernel's run to the final valuation. -/
theorem algebraic_of [hKernelIdeal : Cert.KernelIdeal.Facts] [hReferenceIdeal : Cert.ReferenceIdeal.Facts]
    [hPre_input_domain : Cert.Pre_input_domain.Facts]
    (hrun : RunTo (F := Ideal) (fun m d => Vfin m d)) : Cert.algebraic_KernelIdeal_ReferenceIdeal :=
  algebraic_of_run (fun m d => Vfin m d) hrun vfin_args (fun m d => TcTail.GV (Vpost7 m d))
    (fun m d => TcTail.Vout_v53 (Vin7 m) none ∅ d)
    (fun m d p i rr j => GV_post7_block m d p i rr j)

end Cert.Proof.Asm

end
-- ==== Proof.ScSetupB.lean ====
/-
  The program as the SparseCore launch theorem sees it: eight vector-subcore calls, each a gather of 102400 tokens'
  two table rows into a [102400, 256] array, and eight TensorCore regions; the configuration, the body table, the
  variants, the side conditions of the launch semaphores, and the ghost state: the handshakes' rounds beside the
  TensorCore regions' staging cells and the transfers' counters.
-/
import proofs.«204770_g8065948582451_cont_9to1c4b_476_56_alg».proof.Proof.Gen.Kernel
import proofs.«204770_g8065948582451_cont_9to1c4b_476_56_alg».proof.Proof.Gen.Kernel.Skeleton
import proofs.«204770_g8065948582451_cont_9to1c4b_476_56_alg».proof.Proof.Gen.Kernel.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 8) fun p => (pcfgs (F := F) p).Adm
abbrev K : SparseCore.Cfg τ sig (ΛP (F := F)) 8 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev EH : Emb UH (MT nD τ sig (HIx 8) (Elt F) ℕ UU ℕ) := embL
def EP : Emb UP (MT nD τ sig (HIx 8) (Elt F) ℕ UU ℕ) := (Emb.inl : Emb UP (UP × Counters)).trans embR

instance EP_landsIn : (EP : Emb UP (MT nD τ sig (HIx 8) (Elt F) ℕ UU ℕ)).LandsIn (upEmb : UEmb _ (MT nD τ sig (HIx 8) (Elt F) ℕ UU ℕ)) := by
  unfold EP; infer_instance

end Cert.Kernel.Sc

end
-- ==== Proof.ScResB.lean ====
/-
  What one gather call hands a vector subcore and what comes back. Call q gathers 102400 tokens; subcore s of
  SparseCore c is worker w = 2 s + c and owns token rows [3200 w, 3200 w + 3200) of the call's [102400, 256] result,
  as 25 blocks of 128 rows: block number 25 w + k of the 800 blocks of 128 rows. It reads the call's two index
  arrays and both tables through a read share of each whole array (share w of 32), and holds its 25 result blocks
  in full. The gathered array is one whole-array function of the index arrays and the tables (`gath`): row r is row
  ids r of the id table followed by row cids r of the category table.
-/
import proofs.«204770_g8065948582451_cont_9to1c4b_476_56_alg».proof.Proof.ScSetupB
import Idealize.ShloMosaic.Lib.Transfers
import Idealize.ShloMosaic.Lib.ValueIdx

noncomputable section

namespace Cert.Kernel.Sc

open Cert.Kernel Cert.Kernel.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 8) (Elt F) ℕ UU ℕ

/-- Worker number of subcore `s` of SparseCore `c`. -/
def wid (c : Fin 2) (s : Fin 16) : Fin 32 := ⟨s.val * 2 + c.val, by omega⟩
/-- The same on naturals (reduced to be total): what the body's offsets are stated with. -/
def widN (c s : ℕ) : Fin 32 := ⟨(s % 16) * 2 + c % 2, by omega⟩
/-- Block number (of the 800 blocks of 128 rows) of worker `w`'s chunk `k`. -/
def blk (w : Fin 32) (k : Fin 25) : Fin 800 := ⟨w.val * 25 + k.val, by omega⟩

theorem odiv : 800 ∣ S102400x256.size 0 := ⟨128, rfl⟩
/-- Block `b` of 128 rows of a [102400, 256] array, as a rectangle and as a set of indices. -/
abbrev oblk (b : Fin 800) : Rect S102400x256 := Rect.part (s := S102400x256) (a₀ := 0) odiv b
abbrev oBlkSet (b : Fin 800) : Finset S102400x256.Idx := (oblk b).set

/-- An index word as a row of an `n`-row table (the word's unsigned value, reduced mod `n` only to be total). -/
def rowOf (n : Nat) (hn : 0 < n) (v : BitVec 32) : Fin n := ⟨v.toNat % n, Nat.mod_lt _ hn⟩

/-- The gathered array: row `r` is row `ids r` of the id table followed by row `cids r` of the category table. -/
def gath (ids cids : Vec F S102400 .i32) (idt : Vec F S100000x128 .f32) (cat : Vec F S1000x128 .f32) : Vec F S102400x256 .f32 :=
  fun i => if h : (i 1).val < 128 then idt (ix2 (rowOf 100000 (by norm_num) (ids (ix1 (i 0)))) (⟨(i 1).val, h⟩ : Fin 128))
    else cat (ix2 (rowOf 1000 (by norm_num) (cids (ix1 (i 0)))) (⟨(i 1).val - 128, by have h2 : (i 1).val < 256 := (i 1).isLt; omega⟩ : Fin 128))

/-- The read share worker `w` is lent of an array every worker reads. -/
abbrev rsh (w : Fin 32) : PosShare TreeShare := Transfers.shareTok fullShare 32 w

end Cert.Kernel.Sc

end
-- ==== Proof.ScPayB.lean ====
/-
  What the handshakes of the eight gather calls carry. Before call q the host slices the q-th row of the two
  reshaped index arrays; the call hands worker w read shares of those two rows and of both tables and its 25 blocks
  of the call's result, and takes them back with the blocks at the gathered rows. A SparseCore's start payload is
  its sixteen workers' hand-outs, its done payload their returns, so the split among the subcores is the identity.
  The arrays' contents are followed as one valuation of the TensorCore's buffers from call to call.
-/
import proofs.«204770_g8065948582451_cont_9to1c4b_476_56_alg».proof.Proof.ScResB

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} [FloatOps F]

local notation "𝕄" => MT nD τ sig (HIx 8) (Elt F) ℕ UU ℕ

variable (m : (ℓ : Loc nD τ sig) → Buf (Elt F) ℓ)

/-- The launch contents as a valuation of device `d`'s buffers. -/
def V0 (d : Dev nD) : Valuation τ sig (Elt F) := fun b => m (d, b)

/-- The two tables. -/
def idt (d : Dev nD) : Vec F S100000x128 .f32 := m ((T d : Thread nD τ).loc main_arg2)
def cat (d : Dev nD) : Vec F S1000x128 .f32 := m ((T d : Thread nD τ).loc main_arg3)

/-- The host operations before gather call 0. -/
abbrev hops0 : List (HloOp τ sig (Elt F)) :=
  [StableHlo.reshape main_arg0 main_v0 rfl shapeCasts_S4096x200_S8x102400,
   StableHlo.reshape main_arg1 main_v1 rfl shapeCasts_S4096x200_S8x102400,
   StableHlo.reshape main_arg5 main_v2 rfl shapeCasts_S512_S1x512,
   StableHlo.reshape main_arg6 main_v3 rfl shapeCasts_S512_S1x512,
   StableHlo.reshape main_arg7 main_v4 rfl shapeCasts_S512_S1x512,
   StableHlo.unary main_v0 main_v5 ((extractStridedSlice S1x102400 ![0, 0] · slices_S8x102400_S1x102400_0_0) : (⟨S8x102400, .i32⟩ : BufTy).Contents (Elt F) → (⟨S1x102400, .i32⟩ : BufTy).Contents (Elt F)),
   StableHlo.reshape main_v5 main_v6 rfl shapeCasts_S1x102400_S102400,
   StableHlo.unary main_v1 main_v7 ((extractStridedSlice S1x102400 ![0, 0] · slices_S8x102400_S1x102400_0_0) : (⟨S8x102400, .i32⟩ : BufTy).Contents (Elt F) → (⟨S1x102400, .i32⟩ : BufTy).Contents (Elt F)),
   StableHlo.reshape main_v7 main_v8 rfl shapeCasts_S1x102400_S102400]

/-- The host operations before gather call 1. -/
abbrev hops1 : List (HloOp τ sig (Elt F)) :=
  [StableHlo.unary main_v0 main_v10 ((extractStridedSlice S1x102400 ![1, 0] · slices_S8x102400_S1x102400_1_0) : (⟨S8x102400, .i32⟩ : BufTy).Contents (Elt F) → (⟨S1x102400, .i32⟩ : BufTy).Contents (Elt F)),
   StableHlo.reshape main_v10 main_v11 rfl shapeCasts_S1x102400_S102400,
   StableHlo.unary main_v1 main_v12 ((extractStridedSlice S1x102400 ![1, 0] · slices_S8x102400_S1x102400_1_0) : (⟨S8x102400, .i32⟩ : BufTy).Contents (Elt F) → (⟨S1x102400, .i32⟩ : BufTy).Contents (Elt F)),
   StableHlo.reshape main_v12 main_v13 rfl shapeCasts_S1x102400_S102400]

/-- The host operations before gather call 2. -/
abbrev hops2 : List (HloOp τ sig (Elt F)) :=
  [StableHlo.unary main_v0 main_v15 ((extractStridedSlice S1x102400 ![2, 0] · slices_S8x102400_S1x102400_2_0) : (⟨S8x102400, .i32⟩ : BufTy).Contents (Elt F) → (⟨S1x102400, .i32⟩ : BufTy).Contents (Elt F)),
   StableHlo.reshape main_v15 main_v16 rfl shapeCasts_S1x102400_S102400,
   StableHlo.unary main_v1 main_v17 ((extractStridedSlice S1x102400 ![2, 0] · slices_S8x102400_S1x102400_2_0) : (⟨S8x102400, .i32⟩ : BufTy).Contents (Elt F) → (⟨S1x102400, .i32⟩ : BufTy).Contents (Elt F)),
   StableHlo.reshape main_v17 main_v18 rfl shapeCasts_S1x102400_S102400]

/-- The host operations before gather call 3. -/
abbrev hops3 : List (HloOp τ sig (Elt F)) :=
  [StableHlo.unary main_v0 main_v20 ((extractStridedSlice S1x102400 ![3, 0] · slices_S8x102400_S1x102400_3_0) : (⟨S8x102400, .i32⟩ : BufTy).Contents (Elt F) → (⟨S1x102400, .i32⟩ : BufTy).Contents (Elt F)),
   StableHlo.reshape main_v20 main_v21 rfl shapeCasts_S1x102400_S102400,
   StableHlo.unary main_v1 main_v22 ((extractStridedSlice S1x102400 ![3, 0] · slices_S8x102400_S1x102400_3_0) : (⟨S8x102400, .i32⟩ : BufTy).Contents (Elt F) → (⟨S1x102400, .i32⟩ : BufTy).Contents (Elt F)),
   StableHlo.reshape main_v22 main_v23 rfl shapeCasts_S1x102400_S102400]

/-- The host operations before gather call 4. -/
abbrev hops4 : List (HloOp τ sig (Elt F)) :=
  [StableHlo.unary main_v0 main_v25 ((extractStridedSlice S1x102400 ![4, 0] · slices_S8x102400_S1x102400_4_0) : (⟨S8x102400, .i32⟩ : BufTy).Contents (Elt F) → (⟨S1x102400, .i32⟩ : BufTy).Contents (Elt F)),
   StableHlo.reshape main_v25 main_v26 rfl shapeCasts_S1x102400_S102400,
   StableHlo.unary main_v1 main_v27 ((extractStridedSlice S1x102400 ![4, 0] · slices_S8x102400_S1x102400_4_0) : (⟨S8x102400, .i32⟩ : BufTy).Contents (Elt F) → (⟨S1x102400, .i32⟩ : BufTy).Contents (Elt F)),
   StableHlo.reshape main_v27 main_v28 rfl shapeCasts_S1x102400_S102400]

/-- The host operations before gather call 5. -/
abbrev hops5 : List (HloOp τ sig (Elt F)) :=
  [StableHlo.unary main_v0 main_v30 ((extractStridedSlice S1x102400 ![5, 0] · slices_S8x102400_S1x102400_5_0) : (⟨S8x102400, .i32⟩ : BufTy).Contents (Elt F) → (⟨S1x102400, .i32⟩ : BufTy).Contents (Elt F)),
   StableHlo.reshape main_v30 main_v31 rfl shapeCasts_S1x102400_S102400,
   StableHlo.unary main_v1 main_v32 ((extractStridedSlice S1x102400 ![5, 0] · slices_S8x102400_S1x102400_5_0) : (⟨S8x102400, .i32⟩ : BufTy).Contents (Elt F) → (⟨S1x102400, .i32⟩ : BufTy).Contents (Elt F)),
   StableHlo.reshape main_v32 main_v33 rfl shapeCasts_S1x102400_S102400]

/-- The host operations before gather call 6. -/
abbrev hops6 : List (HloOp τ sig (Elt F)) :=
  [StableHlo.unary main_v0 main_v35 ((extractStridedSlice S1x102400 ![6, 0] · slices_S8x102400_S1x102400_6_0) : (⟨S8x102400, .i32⟩ : BufTy).Contents (Elt F) → (⟨S1x102400, .i32⟩ : BufTy).Contents (Elt F)),
   StableHlo.reshape main_v35 main_v36 rfl shapeCasts_S1x102400_S102400,
   StableHlo.unary main_v1 main_v37 ((extractStridedSlice S1x102400 ![6, 0] · slices_S8x102400_S1x102400_6_0) : (⟨S8x102400, .i32⟩ : BufTy).Contents (Elt F) → (⟨S1x102400, .i32⟩ : BufTy).Contents (Elt F)),
   StableHlo.reshape main_v37 main_v38 rfl shapeCasts_S1x102400_S102400]

/-- The host operations before gather call 7. -/
abbrev hops7 : List (HloOp τ sig (Elt F)) :=
  [StableHlo.unary main_v0 main_v40 ((extractStridedSlice S1x102400 ![7, 0] · slices_S8x102400_S1x102400_7_0) : (⟨S8x102400, .i32⟩ : BufTy).Contents (Elt F) → (⟨S1x102400, .i32⟩ : BufTy).Contents (Elt F)),
   StableHlo.reshape main_v40 main_v41 rfl shapeCasts_S1x102400_S102400,
   StableHlo.unary main_v1 main_v42 ((extractStridedSlice S1x102400 ![7, 0] · slices_S8x102400_S1x102400_7_0) : (⟨S8x102400, .i32⟩ : BufTy).Contents (Elt F) → (⟨S1x102400, .i32⟩ : BufTy).Contents (Elt F)),
   StableHlo.reshape main_v42 main_v43 rfl shapeCasts_S1x102400_S102400]

/-- The arrays as gather call 0 finds them, and as it leaves them: its result at the gathered rows. -/
def Vpre0 (d : Dev nD) : Valuation τ sig (Elt F) := StableHlo.after hops0 (V0 m d)
def ids0 (d : Dev nD) : Vec F S102400 .i32 := Vpre0 m d (Proc.devRef .tc main_v6)
def cids0 (d : Dev nD) : Vec F S102400 .i32 := Vpre0 m d (Proc.devRef .tc main_v8)
def Vpost0 (d : Dev nD) : Valuation τ sig (Elt F) :=
  Function.update (Vpre0 m d) (Proc.devRef .tc main_v9) (gath (ids0 m d) (cids0 m d) (idt m d) (cat m d))

/-- The arrays as gather call 1 finds them, and as it leaves them: its result at the gathered rows. -/
def Vpre1 (d : Dev nD) : Valuation τ sig (Elt F) := StableHlo.after hops1 (Vpost0 m d)
def ids1 (d : Dev nD) : Vec F S102400 .i32 := Vpre1 m d (Proc.devRef .tc main_v11)
def cids1 (d : Dev nD) : Vec F S102400 .i32 := Vpre1 m d (Proc.devRef .tc main_v13)
def Vpost1 (d : Dev nD) : Valuation τ sig (Elt F) :=
  Function.update (Vpre1 m d) (Proc.devRef .tc main_v14) (gath (ids1 m d) (cids1 m d) (idt m d) (cat m d))

/-- The arrays as gather call 2 finds them, and as it leaves them: its result at the gathered rows. -/
def Vpre2 (d : Dev nD) : Valuation τ sig (Elt F) := StableHlo.after hops2 (Vpost1 m d)
def ids2 (d : Dev nD) : Vec F S102400 .i32 := Vpre2 m d (Proc.devRef .tc main_v16)
def cids2 (d : Dev nD) : Vec F S102400 .i32 := Vpre2 m d (Proc.devRef .tc main_v18)
def Vpost2 (d : Dev nD) : Valuation τ sig (Elt F) :=
  Function.update (Vpre2 m d) (Proc.devRef .tc main_v19) (gath (ids2 m d) (cids2 m d) (idt m d) (cat m d))

/-- The arrays as gather call 3 finds them, and as it leaves them: its result at the gathered rows. -/
def Vpre3 (d : Dev nD) : Valuation τ sig (Elt F) := StableHlo.after hops3 (Vpost2 m d)
def ids3 (d : Dev nD) : Vec F S102400 .i32 := Vpre3 m d (Proc.devRef .tc main_v21)
def cids3 (d : Dev nD) : Vec F S102400 .i32 := Vpre3 m d (Proc.devRef .tc main_v23)
def Vpost3 (d : Dev nD) : Valuation τ sig (Elt F) :=
  Function.update (Vpre3 m d) (Proc.devRef .tc main_v24) (gath (ids3 m d) (cids3 m d) (idt m d) (cat m d))

/-- The arrays as gather call 4 finds them, and as it leaves them: its result at the gathered rows. -/
def Vpre4 (d : Dev nD) : Valuation τ sig (Elt F) := StableHlo.after hops4 (Vpost3 m d)
def ids4 (d : Dev nD) : Vec F S102400 .i32 := Vpre4 m d (Proc.devRef .tc main_v26)
def cids4 (d : Dev nD) : Vec F S102400 .i32 := Vpre4 m d (Proc.devRef .tc main_v28)
def Vpost4 (d : Dev nD) : Valuation τ sig (Elt F) :=
  Function.update (Vpre4 m d) (Proc.devRef .tc main_v29) (gath (ids4 m d) (cids4 m d) (idt m d) (cat m d))

/-- The arrays as gather call 5 finds them, and as it leaves them: its result at the gathered rows. -/
def Vpre5 (d : Dev nD) : Valuation τ sig (Elt F) := StableHlo.after hops5 (Vpost4 m d)
def ids5 (d : Dev nD) : Vec F S102400 .i32 := Vpre5 m d (Proc.devRef .tc main_v31)
def cids5 (d : Dev nD) : Vec F S102400 .i32 := Vpre5 m d (Proc.devRef .tc main_v33)
def Vpost5 (d : Dev nD) : Valuation τ sig (Elt F) :=
  Function.update (Vpre5 m d) (Proc.devRef .tc main_v34) (gath (ids5 m d) (cids5 m d) (idt m d) (cat m d))

/-- The arrays as gather call 6 finds them, and as it leaves them: its result at the gathered rows. -/
def Vpre6 (d : Dev nD) : Valuation τ sig (Elt F) := StableHlo.after hops6 (Vpost5 m d)
def ids6 (d : Dev nD) : Vec F S102400 .i32 := Vpre6 m d (Proc.devRef .tc main_v36)
def cids6 (d : Dev nD) : Vec F S102400 .i32 := Vpre6 m d (Proc.devRef .tc main_v38)
def Vpost6 (d : Dev nD) : Valuation τ sig (Elt F) :=
  Function.update (Vpre6 m d) (Proc.devRef .tc main_v39) (gath (ids6 m d) (cids6 m d) (idt m d) (cat m d))

/-- The arrays as gather call 7 finds them, and as it leaves them: its result at the gathered rows. -/
def Vpre7 (d : Dev nD) : Valuation τ sig (Elt F) := StableHlo.after hops7 (Vpost6 m d)
def ids7 (d : Dev nD) : Vec F S102400 .i32 := Vpre7 m d (Proc.devRef .tc main_v41)
def cids7 (d : Dev nD) : Vec F S102400 .i32 := Vpre7 m d (Proc.devRef .tc main_v43)
def Vpost7 (d : Dev nD) : Valuation τ sig (Elt F) :=
  Function.update (Vpre7 m d) (Proc.devRef .tc main_v44) (gath (ids7 m d) (cids7 m d) (idt m d) (cat m d))

/-- Call 0: what worker `w` is handed, and what it hands back. -/
def tileIn0 (d : Dev nD) (w : Fin 32) : sProp 𝕄 :=
  iprop(((T d : Thread nD τ).loc main_v6 ↦{rsh w} ids0 m d) ∗ ((T d : Thread nD τ).loc main_v8 ↦{rsh w} cids0 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v9 ↦[oBlkSet (blk w k)]{fullShare} f))
def tileOut0 (d : Dev nD) (w : Fin 32) : sProp 𝕄 :=
  iprop(((T d : Thread nD τ).loc main_v6 ↦{rsh w} ids0 m d) ∗ ((T d : Thread nD τ).loc main_v8 ↦{rsh w} cids0 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v9 ↦[oBlkSet (blk w k)]{fullShare} gath (ids0 m d) (cids0 m d) (idt m d) (cat m d))

/-- Call 1: what worker `w` is handed, and what it hands back. -/
def tileIn1 (d : Dev nD) (w : Fin 32) : sProp 𝕄 :=
  iprop(((T d : Thread nD τ).loc main_v11 ↦{rsh w} ids1 m d) ∗ ((T d : Thread nD τ).loc main_v13 ↦{rsh w} cids1 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v14 ↦[oBlkSet (blk w k)]{fullShare} f))
def tileOut1 (d : Dev nD) (w : Fin 32) : sProp 𝕄 :=
  iprop(((T d : Thread nD τ).loc main_v11 ↦{rsh w} ids1 m d) ∗ ((T d : Thread nD τ).loc main_v13 ↦{rsh w} cids1 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v14 ↦[oBlkSet (blk w k)]{fullShare} gath (ids1 m d) (cids1 m d) (idt m d) (cat m d))

/-- Call 2: what worker `w` is handed, and what it hands back. -/
def tileIn2 (d : Dev nD) (w : Fin 32) : sProp 𝕄 :=
  iprop(((T d : Thread nD τ).loc main_v16 ↦{rsh w} ids2 m d) ∗ ((T d : Thread nD τ).loc main_v18 ↦{rsh w} cids2 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v19 ↦[oBlkSet (blk w k)]{fullShare} f))
def tileOut2 (d : Dev nD) (w : Fin 32) : sProp 𝕄 :=
  iprop(((T d : Thread nD τ).loc main_v16 ↦{rsh w} ids2 m d) ∗ ((T d : Thread nD τ).loc main_v18 ↦{rsh w} cids2 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v19 ↦[oBlkSet (blk w k)]{fullShare} gath (ids2 m d) (cids2 m d) (idt m d) (cat m d))

/-- Call 3: what worker `w` is handed, and what it hands back. -/
def tileIn3 (d : Dev nD) (w : Fin 32) : sProp 𝕄 :=
  iprop(((T d : Thread nD τ).loc main_v21 ↦{rsh w} ids3 m d) ∗ ((T d : Thread nD τ).loc main_v23 ↦{rsh w} cids3 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v24 ↦[oBlkSet (blk w k)]{fullShare} f))
def tileOut3 (d : Dev nD) (w : Fin 32) : sProp 𝕄 :=
  iprop(((T d : Thread nD τ).loc main_v21 ↦{rsh w} ids3 m d) ∗ ((T d : Thread nD τ).loc main_v23 ↦{rsh w} cids3 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v24 ↦[oBlkSet (blk w k)]{fullShare} gath (ids3 m d) (cids3 m d) (idt m d) (cat m d))

/-- Call 4: what worker `w` is handed, and what it hands back. -/
def tileIn4 (d : Dev nD) (w : Fin 32) : sProp 𝕄 :=
  iprop(((T d : Thread nD τ).loc main_v26 ↦{rsh w} ids4 m d) ∗ ((T d : Thread nD τ).loc main_v28 ↦{rsh w} cids4 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v29 ↦[oBlkSet (blk w k)]{fullShare} f))
def tileOut4 (d : Dev nD) (w : Fin 32) : sProp 𝕄 :=
  iprop(((T d : Thread nD τ).loc main_v26 ↦{rsh w} ids4 m d) ∗ ((T d : Thread nD τ).loc main_v28 ↦{rsh w} cids4 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v29 ↦[oBlkSet (blk w k)]{fullShare} gath (ids4 m d) (cids4 m d) (idt m d) (cat m d))

/-- Call 5: what worker `w` is handed, and what it hands back. -/
def tileIn5 (d : Dev nD) (w : Fin 32) : sProp 𝕄 :=
  iprop(((T d : Thread nD τ).loc main_v31 ↦{rsh w} ids5 m d) ∗ ((T d : Thread nD τ).loc main_v33 ↦{rsh w} cids5 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v34 ↦[oBlkSet (blk w k)]{fullShare} f))
def tileOut5 (d : Dev nD) (w : Fin 32) : sProp 𝕄 :=
  iprop(((T d : Thread nD τ).loc main_v31 ↦{rsh w} ids5 m d) ∗ ((T d : Thread nD τ).loc main_v33 ↦{rsh w} cids5 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v34 ↦[oBlkSet (blk w k)]{fullShare} gath (ids5 m d) (cids5 m d) (idt m d) (cat m d))

/-- Call 6: what worker `w` is handed, and what it hands back. -/
def tileIn6 (d : Dev nD) (w : Fin 32) : sProp 𝕄 :=
  iprop(((T d : Thread nD τ).loc main_v36 ↦{rsh w} ids6 m d) ∗ ((T d : Thread nD τ).loc main_v38 ↦{rsh w} cids6 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v39 ↦[oBlkSet (blk w k)]{fullShare} f))
def tileOut6 (d : Dev nD) (w : Fin 32) : sProp 𝕄 :=
  iprop(((T d : Thread nD τ).loc main_v36 ↦{rsh w} ids6 m d) ∗ ((T d : Thread nD τ).loc main_v38 ↦{rsh w} cids6 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v39 ↦[oBlkSet (blk w k)]{fullShare} gath (ids6 m d) (cids6 m d) (idt m d) (cat m d))

/-- Call 7: what worker `w` is handed, and what it hands back. -/
def tileIn7 (d : Dev nD) (w : Fin 32) : sProp 𝕄 :=
  iprop(((T d : Thread nD τ).loc main_v41 ↦{rsh w} ids7 m d) ∗ ((T d : Thread nD τ).loc main_v43 ↦{rsh w} cids7 m d)
    ∗ ((T d : Thread nD τ).loc main_arg2 ↦{rsh w} idt m d) ∗ ((T d : Thread nD τ).loc main_arg3 ↦{rsh w} cat m d)
    ∗ bigSep Finset.univ fun k : Fin 25 => iprop(∃ f, (T d : Thread nD τ).loc main_v44 ↦[oBlkSet (blk w k)]{fullShare} f))
def tileOut7 (d : Dev nD) (w : Fin 32) : sProp 𝕄 :=
  iprop(((T d : Thread nD τ).loc main_v41 ↦{rsh w} ids7 m d) ∗ ((T d : Thread nD τ).loc main_v43 ↦{rsh w} cids7 m d)
    ∗ ((T d : Thread nD τ).loc main_arg2 ↦{rsh w} idt m d) ∗ ((T d : Thread nD τ).loc main_arg3 ↦{rsh w} cat m d)
    ∗ bigSep Finset.univ fun k : Fin 25 => (T d : Thread nD τ).loc main_v44 ↦[oBlkSet (blk w k)]{fullShare} gath (ids7 m d) (cids7 m d) (idt m d) (cat m d))

/-- What call `q` hands subcore `i` of SparseCore `c` (numbers as naturals), and what comes back. -/
def goR (q : Fin 8) (d : Dev nD) (c i : ℕ) : sProp 𝕄 :=
  match q with
    | 0 => tileIn0 m d (widN c i)
    | 1 => tileIn1 m d (widN c i)
    | 2 => tileIn2 m d (widN c i)
    | 3 => tileIn3 m d (widN c i)
    | 4 => tileIn4 m d (widN c i)
    | 5 => tileIn5 m d (widN c i)
    | 6 => tileIn6 m d (widN c i)
    | 7 => tileIn7 m d (widN c i)
def tdR (q : Fin 8) (d : Dev nD) (c i : ℕ) : sProp 𝕄 :=
  match q with
    | 0 => tileOut0 m d (widN c i)
    | 1 => tileOut1 m d (widN c i)
    | 2 => tileOut2 m d (widN c i)
    | 3 => tileOut3 m d (widN c i)
    | 4 => tileOut4 m d (widN c i)
    | 5 => tileOut5 m d (widN c i)
    | 6 => tileOut6 m d (widN c i)
    | 7 => tileOut7 m d (widN c i)

instance goR_storable (q : Fin 8) (d : Dev nD) (c i : ℕ) : BI.Storable (upEmb : UEmb _ 𝕄) (goR m q d c i) :=
  match q with
    | 0 => by unfold goR tileIn0; infer_instance
    | 1 => by unfold goR tileIn1; infer_instance
    | 2 => by unfold goR tileIn2; infer_instance
    | 3 => by unfold goR tileIn3; infer_instance
    | 4 => by unfold goR tileIn4; infer_instance
    | 5 => by unfold goR tileIn5; infer_instance
    | 6 => by unfold goR tileIn6; infer_instance
    | 7 => by unfold goR tileIn7; infer_instance
instance tdR_storable (q : Fin 8) (d : Dev nD) (c i : ℕ) : BI.Storable (upEmb : UEmb _ 𝕄) (tdR m q d c i) :=
  match q with
    | 0 => by unfold tdR tileOut0; infer_instance
    | 1 => by unfold tdR tileOut1; infer_instance
    | 2 => by unfold tdR tileOut2; infer_instance
    | 3 => by unfold tdR tileOut3; infer_instance
    | 4 => by unfold tdR tileOut4; infer_instance
    | 5 => by unfold tdR tileOut5; infer_instance
    | 6 => by unfold tdR tileOut6; infer_instance
    | 7 => by unfold tdR tileOut7; infer_instance

/-- The payloads: a SparseCore's start carries its subcores' hand-outs, its done their returns; no kernel's proof
    consumes anything of the launch's. -/
def P : (K (F := F)).Pay (nD := nD) (Val := Elt F) (Name := ℕ) (U := UU) where
  st := fun q d c => bigSep Finset.univ fun i : Fin ((K (F := F)).nSub q) => goR m q d c.val i.val
  dn := fun q d c => bigSep Finset.univ fun i : Fin ((K (F := F)).nSub q) => tdR m q d c.val i.val
  go := fun q d c i => goR m q d c.val i.val
  td := fun q d c i => tdR m q d c.val i.val
  x := fun _ _ => iprop(emp)

instance P_storable : (P (F := F) m).IsStorable where
  st _ _ _ := by unfold P; infer_instance
  dn _ _ _ := by unfold P; infer_instance
  go _ _ _ _ := by unfold P; infer_instance
  td _ _ _ _ := by unfold P; infer_instance

/-- The split among a SparseCore's subcores is the identity. -/
theorem vecSplit (q : Fin 8) : (K (F := F)).VecSplit' (P m) q := by
  intro d c
  show (bigSep Finset.univ fun i : Fin ((K (F := F)).nSub q) => goR m q d c.val i.val)
    ⊢ |={Set.univ}=> iprop((bigSep Finset.univ fun i : Fin ((K (F := F)).nSub q) => goR m q d c.val i.val)
      ∗ ((bigSep Finset.univ fun i : Fin ((K (F := F)).nSub q) => tdR m q d c.val i.val)
          -∗ bigSep Finset.univ fun i : Fin ((K (F := F)).nSub q) => tdR m q d c.val i.val))
  iintro Hst
  imodintro
  isplitl [Hst]
  · iexact Hst
  · iintro Htd; iexact Htd

end Cert.Kernel.Sc

end
-- ==== Proof.ScValsB.lean ====
/-
  The index arrays the eight gather calls read. The host reshapes each [4096, 200] index array to [8, 102400] once,
  before the first call, and before call q slices row q of the reshape and flattens it; no later operation and no
  call's result touches the two reshapes. So call q's index array at r is the argument array at row-major position
  q * 102400 + r, that is at token ((q * 102400 + r) / 200, (q * 102400 + r) % 200); in particular every entry of a
  call's index array is an entry of the argument array, and a bound on the argument's words bounds the call's.
-/
import proofs.«204770_g8065948582451_cont_9to1c4b_476_56_alg».proof.Proof.ScPayB
import Idealize.ShloMosaic.Lib.Pipeline.Value

noncomputable section

namespace Cert.Kernel.Sc

open Cert.Kernel Cert.Kernel.Gen

open Idealize.ShloMosaic Idealize.ShloMosaic.ValueIdx Idealize.ShloMosaic.StableHlo
open Idealize.ShloMosaic.SparseCore (S V T)
open Idealize.SL.Sem

variable {F : FTy → Type} [FloatOps F]

/-! ## Row q of the [8, 102400] reshape, flattened -/

/-- Row `q` of an [8, 102400] array, as a flat array of 102400 entries. -/
def rowq (q : Nat) (hs : S8x102400.Slices ![q, 0] S1x102400) (X : Vec F S8x102400 .i32) : Vec F S102400 .i32 :=
  shapeCast S102400 (extractStridedSlice S1x102400 ![q, 0] X hs) shapeCasts_S1x102400_S102400

/-- The [8, 102400] reshape of a [4096, 200] array. -/
def to8 (x : Vec F S4096x200 .i32) : Vec F S8x102400 .i32 :=
  shapeCast S8x102400 x shapeCasts_S4096x200_S8x102400

/-- Row `q` of the reshape at `r`: the array at row-major position q * 102400 + r. -/
theorem rowq_to8_at (q : Nat) (hq : q < 8) (hs : S8x102400.Slices ![q, 0] S1x102400) (x : Vec F S4096x200 .i32) (r : Fin 102400) :
    rowq q hs (to8 x) (ix1 r)
      = x (ix2 (⟨(q * 102400 + r.val) / 200, by have := r.isLt; omega⟩ : Fin 4096) (⟨(q * 102400 + r.val) % 200, by omega⟩ : Fin 200)) := by
  unfold rowq to8
  rw [shapeCast_apply _ _ (ix1 r) (ix2 (0 : Fin 1) r) (by
    rw [Shape.rowMajor_val_two, Shape.rowMajor_val_one]
    show 0 * 102400 + r.val = r.val
    omega)]
  rw [extractStridedSlice_apply _ _ hs (ix2 (0 : Fin 1) r) (ix2 (⟨q, hq⟩ : Fin 8) r) (fun e => by
    match e with
    | ⟨0, _⟩ => rfl
    | ⟨1, _⟩ => exact (Nat.zero_add _).symm)]
  rw [shapeCast_apply x _ (ix2 (⟨q, hq⟩ : Fin 8) r)
    (ix2 (⟨(q * 102400 + r.val) / 200, by have := r.isLt; omega⟩ : Fin 4096) (⟨(q * 102400 + r.val) % 200, by omega⟩ : Fin 200)) (by
    rw [Shape.rowMajor_val_two, Shape.rowMajor_val_two]
    show (q * 102400 + r.val) / 200 * 200 + (q * 102400 + r.val) % 200 = q * 102400 + r.val
    omega)]

variable (m : (ℓ : Loc nD τ sig) → Buf (Elt F) ℓ)

/-- The two reshapes of the launch contents. -/
def R0 (d : Dev nD) : Vec F S8x102400 .i32 := to8 (m ((T d : Thread nD τ).loc main_arg0))
def R1 (d : Dev nD) : Vec F S8x102400 .i32 := to8 (m ((T d : Thread nD τ).loc main_arg1))

/-! ## Before call 0 -/

theorem pre0_v0 (d : Dev nD) : Vpre0 m d (Proc.devRef .tc main_v0) = R0 m d := by
  unfold Vpre0
  after_results
  rfl

theorem pre0_v1 (d : Dev nD) : Vpre0 m d (Proc.devRef .tc main_v1) = R1 m d := by
  unfold Vpre0
  after_results
  rfl

theorem ids0_eq (d : Dev nD) : ids0 m d = rowq 0 slices_S8x102400_S1x102400_0_0 (R0 m d) := by
  unfold ids0 Vpre0
  after_results
  rfl

theorem cids0_eq (d : Dev nD) : cids0 m d = rowq 0 slices_S8x102400_S1x102400_0_0 (R1 m d) := by
  unfold cids0 Vpre0
  after_results
  rfl

theorem post0_v0 (d : Dev nD) : Vpost0 m d (Proc.devRef .tc main_v0) = R0 m d := by
  unfold Vpost0
  rw [Function.update_of_ne (devRef_ne_of_ne (by decide)), pre0_v0]

theorem post0_v1 (d : Dev nD) : Vpost0 m d (Proc.devRef .tc main_v1) = R1 m d := by
  unfold Vpost0
  rw [Function.update_of_ne (devRef_ne_of_ne (by decide)), pre0_v1]

/-! ## Before call 1 -/

/-- The four operations before call 1 leave the two reshapes as they were, and leave at the call's index buffers
    row 1 of the reshapes, flattened. -/
theorem hops1_v0 (W : Valuation τ sig (Elt F)) : after hops1 W (Proc.devRef .tc main_v0) = W (Proc.devRef .tc main_v0) := by
  after_results

theorem hops1_v1 (W : Valuation τ sig (Elt F)) : after hops1 W (Proc.devRef .tc main_v1) = W (Proc.devRef .tc main_v1) := by
  after_results

theorem hops1_ids (W : Valuation τ sig (Elt F)) :
    after hops1 W (Proc.devRef .tc main_v11) = rowq 1 slices_S8x102400_S1x102400_1_0 (W (Proc.devRef .tc main_v0)) := by
  after_results
  rfl

theorem hops1_cids (W : Valuation τ sig (Elt F)) :
    after hops1 W (Proc.devRef .tc main_v13) = rowq 1 slices_S8x102400_S1x102400_1_0 (W (Proc.devRef .tc main_v1)) := by
  after_results
  rfl

theorem pre1_v0 (d : Dev nD) : Vpre1 m d (Proc.devRef .tc main_v0) = R0 m d := by
  unfold Vpre1
  rw [hops1_v0, post0_v0]

theorem pre1_v1 (d : Dev nD) : Vpre1 m d (Proc.devRef .tc main_v1) = R1 m d := by
  unfold Vpre1
  rw [hops1_v1, post0_v1]

theorem ids1_eq (d : Dev nD) : ids1 m d = rowq 1 slices_S8x102400_S1x102400_1_0 (R0 m d) := by
  unfold ids1 Vpre1
  rw [hops1_ids, post0_v0]

theorem cids1_eq (d : Dev nD) : cids1 m d = rowq 1 slices_S8x102400_S1x102400_1_0 (R1 m d) := by
  unfold cids1 Vpre1
  rw [hops1_cids, post0_v1]

theorem post1_v0 (d : Dev nD) : Vpost1 m d (Proc.devRef .tc main_v0) = R0 m d := by
  unfold Vpost1
  rw [Function.update_of_ne (devRef_ne_of_ne (by decide)), pre1_v0]

theorem post1_v1 (d : Dev nD) : Vpost1 m d (Proc.devRef .tc main_v1) = R1 m d := by
  unfold Vpost1
  rw [Function.update_of_ne (devRef_ne_of_ne (by decide)), pre1_v1]

/-! ## Before call 2 -/

/-- The four operations before call 2 leave the two reshapes as they were, and leave at the call's index buffers
    row 2 of the reshapes, flattened. -/
theorem hops2_v0 (W : Valuation τ sig (Elt F)) : after hops2 W (Proc.devRef .tc main_v0) = W (Proc.devRef .tc main_v0) := by
  after_results

theorem hops2_v1 (W : Valuation τ sig (Elt F)) : after hops2 W (Proc.devRef .tc main_v1) = W (Proc.devRef .tc main_v1) := by
  after_results

theorem hops2_ids (W : Valuation τ sig (Elt F)) :
    after hops2 W (Proc.devRef .tc main_v16) = rowq 2 slices_S8x102400_S1x102400_2_0 (W (Proc.devRef .tc main_v0)) := by
  after_results
  rfl

theorem hops2_cids (W : Valuation τ sig (Elt F)) :
    after hops2 W (Proc.devRef .tc main_v18) = rowq 2 slices_S8x102400_S1x102400_2_0 (W (Proc.devRef .tc main_v1)) := by
  after_results
  rfl

theorem pre2_v0 (d : Dev nD) : Vpre2 m d (Proc.devRef .tc main_v0) = R0 m d := by
  unfold Vpre2
  rw [hops2_v0, post1_v0]

theorem pre2_v1 (d : Dev nD) : Vpre2 m d (Proc.devRef .tc main_v1) = R1 m d := by
  unfold Vpre2
  rw [hops2_v1, post1_v1]

theorem ids2_eq (d : Dev nD) : ids2 m d = rowq 2 slices_S8x102400_S1x102400_2_0 (R0 m d) := by
  unfold ids2 Vpre2
  rw [hops2_ids, post1_v0]

theorem cids2_eq (d : Dev nD) : cids2 m d = rowq 2 slices_S8x102400_S1x102400_2_0 (R1 m d) := by
  unfold cids2 Vpre2
  rw [hops2_cids, post1_v1]

theorem post2_v0 (d : Dev nD) : Vpost2 m d (Proc.devRef .tc main_v0) = R0 m d := by
  unfold Vpost2
  rw [Function.update_of_ne (devRef_ne_of_ne (by decide)), pre2_v0]

theorem post2_v1 (d : Dev nD) : Vpost2 m d (Proc.devRef .tc main_v1) = R1 m d := by
  unfold Vpost2
  rw [Function.update_of_ne (devRef_ne_of_ne (by decide)), pre2_v1]

/-! ## Before call 3 -/

/-- The four operations before call 3 leave the two reshapes as they were, and leave at the call's index buffers
    row 3 of the reshapes, flattened. -/
theorem hops3_v0 (W : Valuation τ sig (Elt F)) : after hops3 W (Proc.devRef .tc main_v0) = W (Proc.devRef .tc main_v0) := by
  after_results

theorem hops3_v1 (W : Valuation τ sig (Elt F)) : after hops3 W (Proc.devRef .tc main_v1) = W (Proc.devRef .tc main_v1) := by
  after_results

theorem hops3_ids (W : Valuation τ sig (Elt F)) :
    after hops3 W (Proc.devRef .tc main_v21) = rowq 3 slices_S8x102400_S1x102400_3_0 (W (Proc.devRef .tc main_v0)) := by
  after_results
  rfl

theorem hops3_cids (W : Valuation τ sig (Elt F)) :
    after hops3 W (Proc.devRef .tc main_v23) = rowq 3 slices_S8x102400_S1x102400_3_0 (W (Proc.devRef .tc main_v1)) := by
  after_results
  rfl

theorem pre3_v0 (d : Dev nD) : Vpre3 m d (Proc.devRef .tc main_v0) = R0 m d := by
  unfold Vpre3
  rw [hops3_v0, post2_v0]

theorem pre3_v1 (d : Dev nD) : Vpre3 m d (Proc.devRef .tc main_v1) = R1 m d := by
  unfold Vpre3
  rw [hops3_v1, post2_v1]

theorem ids3_eq (d : Dev nD) : ids3 m d = rowq 3 slices_S8x102400_S1x102400_3_0 (R0 m d) := by
  unfold ids3 Vpre3
  rw [hops3_ids, post2_v0]

theorem cids3_eq (d : Dev nD) : cids3 m d = rowq 3 slices_S8x102400_S1x102400_3_0 (R1 m d) := by
  unfold cids3 Vpre3
  rw [hops3_cids, post2_v1]

theorem post3_v0 (d : Dev nD) : Vpost3 m d (Proc.devRef .tc main_v0) = R0 m d := by
  unfold Vpost3
  rw [Function.update_of_ne (devRef_ne_of_ne (by decide)), pre3_v0]

theorem post3_v1 (d : Dev nD) : Vpost3 m d (Proc.devRef .tc main_v1) = R1 m d := by
  unfold Vpost3
  rw [Function.update_of_ne (devRef_ne_of_ne (by decide)), pre3_v1]

/-! ## Before call 4 -/

/-- The four operations before call 4 leave the two reshapes as they were, and leave at the call's index buffers
    row 4 of the reshapes, flattened. -/
theorem hops4_v0 (W : Valuation τ sig (Elt F)) : after hops4 W (Proc.devRef .tc main_v0) = W (Proc.devRef .tc main_v0) := by
  after_results

theorem hops4_v1 (W : Valuation τ sig (Elt F)) : after hops4 W (Proc.devRef .tc main_v1) = W (Proc.devRef .tc main_v1) := by
  after_results

theorem hops4_ids (W : Valuation τ sig (Elt F)) :
    after hops4 W (Proc.devRef .tc main_v26) = rowq 4 slices_S8x102400_S1x102400_4_0 (W (Proc.devRef .tc main_v0)) := by
  after_results
  rfl

theorem hops4_cids (W : Valuation τ sig (Elt F)) :
    after hops4 W (Proc.devRef .tc main_v28) = rowq 4 slices_S8x102400_S1x102400_4_0 (W (Proc.devRef .tc main_v1)) := by
  after_results
  rfl

theorem pre4_v0 (d : Dev nD) : Vpre4 m d (Proc.devRef .tc main_v0) = R0 m d := by
  unfold Vpre4
  rw [hops4_v0, post3_v0]

theorem pre4_v1 (d : Dev nD) : Vpre4 m d (Proc.devRef .tc main_v1) = R1 m d := by
  unfold Vpre4
  rw [hops4_v1, post3_v1]

theorem ids4_eq (d : Dev nD) : ids4 m d = rowq 4 slices_S8x102400_S1x102400_4_0 (R0 m d) := by
  unfold ids4 Vpre4
  rw [hops4_ids, post3_v0]

theorem cids4_eq (d : Dev nD) : cids4 m d = rowq 4 slices_S8x102400_S1x102400_4_0 (R1 m d) := by
  unfold cids4 Vpre4
  rw [hops4_cids, post3_v1]

theorem post4_v0 (d : Dev nD) : Vpost4 m d (Proc.devRef .tc main_v0) = R0 m d := by
  unfold Vpost4
  rw [Function.update_of_ne (devRef_ne_of_ne (by decide)), pre4_v0]

theorem post4_v1 (d : Dev nD) : Vpost4 m d (Proc.devRef .tc main_v1) = R1 m d := by
  unfold Vpost4
  rw [Function.update_of_ne (devRef_ne_of_ne (by decide)), pre4_v1]

/-! ## Before call 5 -/

/-- The four operations before call 5 leave the two reshapes as they were, and leave at the call's index buffers
    row 5 of the reshapes, flattened. -/
theorem hops5_v0 (W : Valuation τ sig (Elt F)) : after hops5 W (Proc.devRef .tc main_v0) = W (Proc.devRef .tc main_v0) := by
  after_results

theorem hops5_v1 (W : Valuation τ sig (Elt F)) : after hops5 W (Proc.devRef .tc main_v1) = W (Proc.devRef .tc main_v1) := by
  after_results

theorem hops5_ids (W : Valuation τ sig (Elt F)) :
    after hops5 W (Proc.devRef .tc main_v31) = rowq 5 slices_S8x102400_S1x102400_5_0 (W (Proc.devRef .tc main_v0)) := by
  after_results
  rfl

theorem hops5_cids (W : Valuation τ sig (Elt F)) :
    after hops5 W (Proc.devRef .tc main_v33) = rowq 5 slices_S8x102400_S1x102400_5_0 (W (Proc.devRef .tc main_v1)) := by
  after_results
  rfl

theorem pre5_v0 (d : Dev nD) : Vpre5 m d (Proc.devRef .tc main_v0) = R0 m d := by
  unfold Vpre5
  rw [hops5_v0, post4_v0]

theorem pre5_v1 (d : Dev nD) : Vpre5 m d (Proc.devRef .tc main_v1) = R1 m d := by
  unfold Vpre5
  rw [hops5_v1, post4_v1]

theorem ids5_eq (d : Dev nD) : ids5 m d = rowq 5 slices_S8x102400_S1x102400_5_0 (R0 m d) := by
  unfold ids5 Vpre5
  rw [hops5_ids, post4_v0]

theorem cids5_eq (d : Dev nD) : cids5 m d = rowq 5 slices_S8x102400_S1x102400_5_0 (R1 m d) := by
  unfold cids5 Vpre5
  rw [hops5_cids, post4_v1]

theorem post5_v0 (d : Dev nD) : Vpost5 m d (Proc.devRef .tc main_v0) = R0 m d := by
  unfold Vpost5
  rw [Function.update_of_ne (devRef_ne_of_ne (by decide)), pre5_v0]

theorem post5_v1 (d : Dev nD) : Vpost5 m d (Proc.devRef .tc main_v1) = R1 m d := by
  unfold Vpost5
  rw [Function.update_of_ne (devRef_ne_of_ne (by decide)), pre5_v1]

/-! ## Before call 6 -/

/-- The four operations before call 6 leave the two reshapes as they were, and leave at the call's index buffers
    row 6 of the reshapes, flattened. -/
theorem hops6_v0 (W : Valuation τ sig (Elt F)) : after hops6 W (Proc.devRef .tc main_v0) = W (Proc.devRef .tc main_v0) := by
  after_results

theorem hops6_v1 (W : Valuation τ sig (Elt F)) : after hops6 W (Proc.devRef .tc main_v1) = W (Proc.devRef .tc main_v1) := by
  after_results

theorem hops6_ids (W : Valuation τ sig (Elt F)) :
    after hops6 W (Proc.devRef .tc main_v36) = rowq 6 slices_S8x102400_S1x102400_6_0 (W (Proc.devRef .tc main_v0)) := by
  after_results
  rfl

theorem hops6_cids (W : Valuation τ sig (Elt F)) :
    after hops6 W (Proc.devRef .tc main_v38) = rowq 6 slices_S8x102400_S1x102400_6_0 (W (Proc.devRef .tc main_v1)) := by
  after_results
  rfl

theorem pre6_v0 (d : Dev nD) : Vpre6 m d (Proc.devRef .tc main_v0) = R0 m d := by
  unfold Vpre6
  rw [hops6_v0, post5_v0]

theorem pre6_v1 (d : Dev nD) : Vpre6 m d (Proc.devRef .tc main_v1) = R1 m d := by
  unfold Vpre6
  rw [hops6_v1, post5_v1]

theorem ids6_eq (d : Dev nD) : ids6 m d = rowq 6 slices_S8x102400_S1x102400_6_0 (R0 m d) := by
  unfold ids6 Vpre6
  rw [hops6_ids, post5_v0]

theorem cids6_eq (d : Dev nD) : cids6 m d = rowq 6 slices_S8x102400_S1x102400_6_0 (R1 m d) := by
  unfold cids6 Vpre6
  rw [hops6_cids, post5_v1]

theorem post6_v0 (d : Dev nD) : Vpost6 m d (Proc.devRef .tc main_v0) = R0 m d := by
  unfold Vpost6
  rw [Function.update_of_ne (devRef_ne_of_ne (by decide)), pre6_v0]

theorem post6_v1 (d : Dev nD) : Vpost6 m d (Proc.devRef .tc main_v1) = R1 m d := by
  unfold Vpost6
  rw [Function.update_of_ne (devRef_ne_of_ne (by decide)), pre6_v1]

/-! ## Before call 7 -/

/-- The four operations before call 7 leave the two reshapes as they were, and leave at the call's index buffers
    row 7 of the reshapes, flattened. -/
theorem hops7_v0 (W : Valuation τ sig (Elt F)) : after hops7 W (Proc.devRef .tc main_v0) = W (Proc.devRef .tc main_v0) := by
  after_results

theorem hops7_v1 (W : Valuation τ sig (Elt F)) : after hops7 W (Proc.devRef .tc main_v1) = W (Proc.devRef .tc main_v1) := by
  after_results

theorem hops7_ids (W : Valuation τ sig (Elt F)) :
    after hops7 W (Proc.devRef .tc main_v41) = rowq 7 slices_S8x102400_S1x102400_7_0 (W (Proc.devRef .tc main_v0)) := by
  after_results
  rfl

theorem hops7_cids (W : Valuation τ sig (Elt F)) :
    after hops7 W (Proc.devRef .tc main_v43) = rowq 7 slices_S8x102400_S1x102400_7_0 (W (Proc.devRef .tc main_v1)) := by
  after_results
  rfl

theorem pre7_v0 (d : Dev nD) : Vpre7 m d (Proc.devRef .tc main_v0) = R0 m d := by
  unfold Vpre7
  rw [hops7_v0, post6_v0]

theorem pre7_v1 (d : Dev nD) : Vpre7 m d (Proc.devRef .tc main_v1) = R1 m d := by
  unfold Vpre7
  rw [hops7_v1, post6_v1]

theorem ids7_eq (d : Dev nD) : ids7 m d = rowq 7 slices_S8x102400_S1x102400_7_0 (R0 m d) := by
  unfold ids7 Vpre7
  rw [hops7_ids, post6_v0]

theorem cids7_eq (d : Dev nD) : cids7 m d = rowq 7 slices_S8x102400_S1x102400_7_0 (R1 m d) := by
  unfold cids7 Vpre7
  rw [hops7_cids, post6_v1]

theorem post7_v0 (d : Dev nD) : Vpost7 m d (Proc.devRef .tc main_v0) = R0 m d := by
  unfold Vpost7
  rw [Function.update_of_ne (devRef_ne_of_ne (by decide)), pre7_v0]

theorem post7_v1 (d : Dev nD) : Vpost7 m d (Proc.devRef .tc main_v1) = R1 m d := by
  unfold Vpost7
  rw [Function.update_of_ne (devRef_ne_of_ne (by decide)), pre7_v1]

/-! ## The calls' index arrays at an entry, and their bounds -/

/-- Call 0's id index array at `r` is the argument array at row-major position 0 * 102400 + r. -/
theorem ids0_at (d : Dev nD) (r : Fin 102400) :
    ids0 m d (ix1 r) = (m ((T d : Thread nD τ).loc main_arg0) : Vec F S4096x200 .i32) (ix2 (⟨(0 * 102400 + r.val) / 200, by have := r.isLt; omega⟩ : Fin 4096) (⟨(0 * 102400 + r.val) % 200, by omega⟩ : Fin 200)) := by
  rw [ids0_eq]
  exact rowq_to8_at 0 (by decide) _ _ r

/-- Call 0's category index array at `r` is the argument array at row-major position 0 * 102400 + r. -/
theorem cids0_at (d : Dev nD) (r : Fin 102400) :
    cids0 m d (ix1 r) = (m ((T d : Thread nD τ).loc main_arg1) : Vec F S4096x200 .i32) (ix2 (⟨(0 * 102400 + r.val) / 200, by have := r.isLt; omega⟩ : Fin 4096) (⟨(0 * 102400 + r.val) % 200, by omega⟩ : Fin 200)) := by
  rw [cids0_eq]
  exact rowq_to8_at 0 (by decide) _ _ r

/-- A bound on the id argument's words bounds call 0's. -/
theorem ids0_lt (d : Dev nD)
    (h : ∀ i : S4096x200.Idx, ((m ((T d : Thread nD τ).loc main_arg0) : Vec F S4096x200 .i32) i).toNat < 100000) :
    ∀ j : S102400.Idx, (ids0 m d j).toNat < 100000 := by
  intro j
  obtain ⟨r, rfl⟩ : ∃ r : Fin 102400, j = ix1 r := ⟨j 0, eq_ix1 j⟩
  rw [ids0_at]
  exact h _

/-- A bound on the category argument's words bounds call 0's. -/
theorem cids0_lt (d : Dev nD)
    (h : ∀ i : S4096x200.Idx, ((m ((T d : Thread nD τ).loc main_arg1) : Vec F S4096x200 .i32) i).toNat < 1000) :
    ∀ j : S102400.Idx, (cids0 m d j).toNat < 1000 := by
  intro j
  obtain ⟨r, rfl⟩ : ∃ r : Fin 102400, j = ix1 r := ⟨j 0, eq_ix1 j⟩
  rw [cids0_at]
  exact h _

/-- Call 1's id index array at `r` is the argument array at row-major position 1 * 102400 + r. -/
theorem ids1_at (d : Dev nD) (r : Fin 102400) :
    ids1 m d (ix1 r) = (m ((T d : Thread nD τ).loc main_arg0) : Vec F S4096x200 .i32) (ix2 (⟨(1 * 102400 + r.val) / 200, by have := r.isLt; omega⟩ : Fin 4096) (⟨(1 * 102400 + r.val) % 200, by omega⟩ : Fin 200)) := by
  rw [ids1_eq]
  exact rowq_to8_at 1 (by decide) _ _ r

/-- Call 1's category index array at `r` is the argument array at row-major position 1 * 102400 + r. -/
theorem cids1_at (d : Dev nD) (r : Fin 102400) :
    cids1 m d (ix1 r) = (m ((T d : Thread nD τ).loc main_arg1) : Vec F S4096x200 .i32) (ix2 (⟨(1 * 102400 + r.val) / 200, by have := r.isLt; omega⟩ : Fin 4096) (⟨(1 * 102400 + r.val) % 200, by omega⟩ : Fin 200)) := by
  rw [cids1_eq]
  exact rowq_to8_at 1 (by decide) _ _ r

/-- A bound on the id argument's words bounds call 1's. -/
theorem ids1_lt (d : Dev nD)
    (h : ∀ i : S4096x200.Idx, ((m ((T d : Thread nD τ).loc main_arg0) : Vec F S4096x200 .i32) i).toNat < 100000) :
    ∀ j : S102400.Idx, (ids1 m d j).toNat < 100000 := by
  intro j
  obtain ⟨r, rfl⟩ : ∃ r : Fin 102400, j = ix1 r := ⟨j 0, eq_ix1 j⟩
  rw [ids1_at]
  exact h _

/-- A bound on the category argument's words bounds call 1's. -/
theorem cids1_lt (d : Dev nD)
    (h : ∀ i : S4096x200.Idx, ((m ((T d : Thread nD τ).loc main_arg1) : Vec F S4096x200 .i32) i).toNat < 1000) :
    ∀ j : S102400.Idx, (cids1 m d j).toNat < 1000 := by
  intro j
  obtain ⟨r, rfl⟩ : ∃ r : Fin 102400, j = ix1 r := ⟨j 0, eq_ix1 j⟩
  rw [cids1_at]
  exact h _

/-- Call 2's id index array at `r` is the argument array at row-major position 2 * 102400 + r. -/
theorem ids2_at (d : Dev nD) (r : Fin 102400) :
    ids2 m d (ix1 r) = (m ((T d : Thread nD τ).loc main_arg0) : Vec F S4096x200 .i32) (ix2 (⟨(2 * 102400 + r.val) / 200, by have := r.isLt; omega⟩ : Fin 4096) (⟨(2 * 102400 + r.val) % 200, by omega⟩ : Fin 200)) := by
  rw [ids2_eq]
  exact rowq_to8_at 2 (by decide) _ _ r

/-- Call 2's category index array at `r` is the argument array at row-major position 2 * 102400 + r. -/
theorem cids2_at (d : Dev nD) (r : Fin 102400) :
    cids2 m d (ix1 r) = (m ((T d : Thread nD τ).loc main_arg1) : Vec F S4096x200 .i32) (ix2 (⟨(2 * 102400 + r.val) / 200, by have := r.isLt; omega⟩ : Fin 4096) (⟨(2 * 102400 + r.val) % 200, by omega⟩ : Fin 200)) := by
  rw [cids2_eq]
  exact rowq_to8_at 2 (by decide) _ _ r

/-- A bound on the id argument's words bounds call 2's. -/
theorem ids2_lt (d : Dev nD)
    (h : ∀ i : S4096x200.Idx, ((m ((T d : Thread nD τ).loc main_arg0) : Vec F S4096x200 .i32) i).toNat < 100000) :
    ∀ j : S102400.Idx, (ids2 m d j).toNat < 100000 := by
  intro j
  obtain ⟨r, rfl⟩ : ∃ r : Fin 102400, j = ix1 r := ⟨j 0, eq_ix1 j⟩
  rw [ids2_at]
  exact h _

/-- A bound on the category argument's words bounds call 2's. -/
theorem cids2_lt (d : Dev nD)
    (h : ∀ i : S4096x200.Idx, ((m ((T d : Thread nD τ).loc main_arg1) : Vec F S4096x200 .i32) i).toNat < 1000) :
    ∀ j : S102400.Idx, (cids2 m d j).toNat < 1000 := by
  intro j
  obtain ⟨r, rfl⟩ : ∃ r : Fin 102400, j = ix1 r := ⟨j 0, eq_ix1 j⟩
  rw [cids2_at]
  exact h _

/-- Call 3's id index array at `r` is the argument array at row-major position 3 * 102400 + r. -/
theorem ids3_at (d : Dev nD) (r : Fin 102400) :
    ids3 m d (ix1 r) = (m ((T d : Thread nD τ).loc main_arg0) : Vec F S4096x200 .i32) (ix2 (⟨(3 * 102400 + r.val) / 200, by have := r.isLt; omega⟩ : Fin 4096) (⟨(3 * 102400 + r.val) % 200, by omega⟩ : Fin 200)) := by
  rw [ids3_eq]
  exact rowq_to8_at 3 (by decide) _ _ r

/-- Call 3's category index array at `r` is the argument array at row-major position 3 * 102400 + r. -/
theorem cids3_at (d : Dev nD) (r : Fin 102400) :
    cids3 m d (ix1 r) = (m ((T d : Thread nD τ).loc main_arg1) : Vec F S4096x200 .i32) (ix2 (⟨(3 * 102400 + r.val) / 200, by have := r.isLt; omega⟩ : Fin 4096) (⟨(3 * 102400 + r.val) % 200, by omega⟩ : Fin 200)) := by
  rw [cids3_eq]
  exact rowq_to8_at 3 (by decide) _ _ r

/-- A bound on the id argument's words bounds call 3's. -/
theorem ids3_lt (d : Dev nD)
    (h : ∀ i : S4096x200.Idx, ((m ((T d : Thread nD τ).loc main_arg0) : Vec F S4096x200 .i32) i).toNat < 100000) :
    ∀ j : S102400.Idx, (ids3 m d j).toNat < 100000 := by
  intro j
  obtain ⟨r, rfl⟩ : ∃ r : Fin 102400, j = ix1 r := ⟨j 0, eq_ix1 j⟩
  rw [ids3_at]
  exact h _

/-- A bound on the category argument's words bounds call 3's. -/
theorem cids3_lt (d : Dev nD)
    (h : ∀ i : S4096x200.Idx, ((m ((T d : Thread nD τ).loc main_arg1) : Vec F S4096x200 .i32) i).toNat < 1000) :
    ∀ j : S102400.Idx, (cids3 m d j).toNat < 1000 := by
  intro j
  obtain ⟨r, rfl⟩ : ∃ r : Fin 102400, j = ix1 r := ⟨j 0, eq_ix1 j⟩
  rw [cids3_at]
  exact h _

/-- Call 4's id index array at `r` is the argument array at row-major position 4 * 102400 + r. -/
theorem ids4_at (d : Dev nD) (r : Fin 102400) :
    ids4 m d (ix1 r) = (m ((T d : Thread nD τ).loc main_arg0) : Vec F S4096x200 .i32) (ix2 (⟨(4 * 102400 + r.val) / 200, by have := r.isLt; omega⟩ : Fin 4096) (⟨(4 * 102400 + r.val) % 200, by omega⟩ : Fin 200)) := by
  rw [ids4_eq]
  exact rowq_to8_at 4 (by decide) _ _ r

/-- Call 4's category index array at `r` is the argument array at row-major position 4 * 102400 + r. -/
theorem cids4_at (d : Dev nD) (r : Fin 102400) :
    cids4 m d (ix1 r) = (m ((T d : Thread nD τ).loc main_arg1) : Vec F S4096x200 .i32) (ix2 (⟨(4 * 102400 + r.val) / 200, by have := r.isLt; omega⟩ : Fin 4096) (⟨(4 * 102400 + r.val) % 200, by omega⟩ : Fin 200)) := by
  rw [cids4_eq]
  exact rowq_to8_at 4 (by decide) _ _ r

/-- A bound on the id argument's words bounds call 4's. -/
theorem ids4_lt (d : Dev nD)
    (h : ∀ i : S4096x200.Idx, ((m ((T d : Thread nD τ).loc main_arg0) : Vec F S4096x200 .i32) i).toNat < 100000) :
    ∀ j : S102400.Idx, (ids4 m d j).toNat < 100000 := by
  intro j
  obtain ⟨r, rfl⟩ : ∃ r : Fin 102400, j = ix1 r := ⟨j 0, eq_ix1 j⟩
  rw [ids4_at]
  exact h _

/-- A bound on the category argument's words bounds call 4's. -/
theorem cids4_lt (d : Dev nD)
    (h : ∀ i : S4096x200.Idx, ((m ((T d : Thread nD τ).loc main_arg1) : Vec F S4096x200 .i32) i).toNat < 1000) :
    ∀ j : S102400.Idx, (cids4 m d j).toNat < 1000 := by
  intro j
  obtain ⟨r, rfl⟩ : ∃ r : Fin 102400, j = ix1 r := ⟨j 0, eq_ix1 j⟩
  rw [cids4_at]
  exact h _

/-- Call 5's id index array at `r` is the argument array at row-major position 5 * 102400 + r. -/
theorem ids5_at (d : Dev nD) (r : Fin 102400) :
    ids5 m d (ix1 r) = (m ((T d : Thread nD τ).loc main_arg0) : Vec F S4096x200 .i32) (ix2 (⟨(5 * 102400 + r.val) / 200, by have := r.isLt; omega⟩ : Fin 4096) (⟨(5 * 102400 + r.val) % 200, by omega⟩ : Fin 200)) := by
  rw [ids5_eq]
  exact rowq_to8_at 5 (by decide) _ _ r

/-- Call 5's category index array at `r` is the argument array at row-major position 5 * 102400 + r. -/
theorem cids5_at (d : Dev nD) (r : Fin 102400) :
    cids5 m d (ix1 r) = (m ((T d : Thread nD τ).loc main_arg1) : Vec F S4096x200 .i32) (ix2 (⟨(5 * 102400 + r.val) / 200, by have := r.isLt; omega⟩ : Fin 4096) (⟨(5 * 102400 + r.val) % 200, by omega⟩ : Fin 200)) := by
  rw [cids5_eq]
  exact rowq_to8_at 5 (by decide) _ _ r

/-- A bound on the id argument's words bounds call 5's. -/
theorem ids5_lt (d : Dev nD)
    (h : ∀ i : S4096x200.Idx, ((m ((T d : Thread nD τ).loc main_arg0) : Vec F S4096x200 .i32) i).toNat < 100000) :
    ∀ j : S102400.Idx, (ids5 m d j).toNat < 100000 := by
  intro j
  obtain ⟨r, rfl⟩ : ∃ r : Fin 102400, j = ix1 r := ⟨j 0, eq_ix1 j⟩
  rw [ids5_at]
  exact h _

/-- A bound on the category argument's words bounds call 5's. -/
theorem cids5_lt (d : Dev nD)
    (h : ∀ i : S4096x200.Idx, ((m ((T d : Thread nD τ).loc main_arg1) : Vec F S4096x200 .i32) i).toNat < 1000) :
    ∀ j : S102400.Idx, (cids5 m d j).toNat < 1000 := by
  intro j
  obtain ⟨r, rfl⟩ : ∃ r : Fin 102400, j = ix1 r := ⟨j 0, eq_ix1 j⟩
  rw [cids5_at]
  exact h _

/-- Call 6's id index array at `r` is the argument array at row-major position 6 * 102400 + r. -/
theorem ids6_at (d : Dev nD) (r : Fin 102400) :
    ids6 m d (ix1 r) = (m ((T d : Thread nD τ).loc main_arg0) : Vec F S4096x200 .i32) (ix2 (⟨(6 * 102400 + r.val) / 200, by have := r.isLt; omega⟩ : Fin 4096) (⟨(6 * 102400 + r.val) % 200, by omega⟩ : Fin 200)) := by
  rw [ids6_eq]
  exact rowq_to8_at 6 (by decide) _ _ r

/-- Call 6's category index array at `r` is the argument array at row-major position 6 * 102400 + r. -/
theorem cids6_at (d : Dev nD) (r : Fin 102400) :
    cids6 m d (ix1 r) = (m ((T d : Thread nD τ).loc main_arg1) : Vec F S4096x200 .i32) (ix2 (⟨(6 * 102400 + r.val) / 200, by have := r.isLt; omega⟩ : Fin 4096) (⟨(6 * 102400 + r.val) % 200, by omega⟩ : Fin 200)) := by
  rw [cids6_eq]
  exact rowq_to8_at 6 (by decide) _ _ r

/-- A bound on the id argument's words bounds call 6's. -/
theorem ids6_lt (d : Dev nD)
    (h : ∀ i : S4096x200.Idx, ((m ((T d : Thread nD τ).loc main_arg0) : Vec F S4096x200 .i32) i).toNat < 100000) :
    ∀ j : S102400.Idx, (ids6 m d j).toNat < 100000 := by
  intro j
  obtain ⟨r, rfl⟩ : ∃ r : Fin 102400, j = ix1 r := ⟨j 0, eq_ix1 j⟩
  rw [ids6_at]
  exact h _

/-- A bound on the category argument's words bounds call 6's. -/
theorem cids6_lt (d : Dev nD)
    (h : ∀ i : S4096x200.Idx, ((m ((T d : Thread nD τ).loc main_arg1) : Vec F S4096x200 .i32) i).toNat < 1000) :
    ∀ j : S102400.Idx, (cids6 m d j).toNat < 1000 := by
  intro j
  obtain ⟨r, rfl⟩ : ∃ r : Fin 102400, j = ix1 r := ⟨j 0, eq_ix1 j⟩
  rw [cids6_at]
  exact h _

/-- Call 7's id index array at `r` is the argument array at row-major position 7 * 102400 + r. -/
theorem ids7_at (d : Dev nD) (r : Fin 102400) :
    ids7 m d (ix1 r) = (m ((T d : Thread nD τ).loc main_arg0) : Vec F S4096x200 .i32) (ix2 (⟨(7 * 102400 + r.val) / 200, by have := r.isLt; omega⟩ : Fin 4096) (⟨(7 * 102400 + r.val) % 200, by omega⟩ : Fin 200)) := by
  rw [ids7_eq]
  exact rowq_to8_at 7 (by decide) _ _ r

/-- Call 7's category index array at `r` is the argument array at row-major position 7 * 102400 + r. -/
theorem cids7_at (d : Dev nD) (r : Fin 102400) :
    cids7 m d (ix1 r) = (m ((T d : Thread nD τ).loc main_arg1) : Vec F S4096x200 .i32) (ix2 (⟨(7 * 102400 + r.val) / 200, by have := r.isLt; omega⟩ : Fin 4096) (⟨(7 * 102400 + r.val) % 200, by omega⟩ : Fin 200)) := by
  rw [cids7_eq]
  exact rowq_to8_at 7 (by decide) _ _ r

/-- A bound on the id argument's words bounds call 7's. -/
theorem ids7_lt (d : Dev nD)
    (h : ∀ i : S4096x200.Idx, ((m ((T d : Thread nD τ).loc main_arg0) : Vec F S4096x200 .i32) i).toNat < 100000) :
    ∀ j : S102400.Idx, (ids7 m d j).toNat < 100000 := by
  intro j
  obtain ⟨r, rfl⟩ : ∃ r : Fin 102400, j = ix1 r := ⟨j 0, eq_ix1 j⟩
  rw [ids7_at]
  exact h _

/-- A bound on the category argument's words bounds call 7's. -/
theorem cids7_lt (d : Dev nD)
    (h : ∀ i : S4096x200.Idx, ((m ((T d : Thread nD τ).loc main_arg1) : Vec F S4096x200 .i32) i).toNat < 1000) :
    ∀ j : S102400.Idx, (cids7 m d j).toNat < 1000 := by
  intro j
  obtain ⟨r, rfl⟩ : ∃ r : Fin 102400, j = ix1 r := ⟨j 0, eq_ix1 j⟩
  rw [cids7_at]
  exact h _

end Cert.Kernel.Sc

end
-- ==== Proof.ScElemB.lean ====
/-
  The launch element of the ghost state: the handshakes' rounds, the TensorCore regions' staging cells funded at the
  launch for every device and region, the transfers' counters set aside; no kernel's proof consumes anything.
-/
import proofs.«204770_g8065948582451_cont_9to1c4b_476_56_alg».proof.Proof.ScPayB

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 8) (Elt F) ℕ UU ℕ

variable (m : (ℓ : Loc nD τ sig) → Buf (Elt F) ℓ)

/-- No region has prefetched tables: each is admissible at the empty contents. -/
abbrev adm : (p : Fin 8) → (pcfgs (F := F) p).Adm := fun p => (cfgs p).toPCfg_adm
/-- The regions' configurations as the pipeline library reads them. -/
abbrev pcs : Fin 8 → Pipeline.Cfg sig Λ₀ := Pipeline.pin (pcfgs (F := F)) adm

def u₀ : UU :=
  (initOf (K (F := F)).hsCells (K (F := F)).hsToks,
    (initOf (Pipeline.cells (pcs (F := F)) cellOf_inj) (Pipeline.launchToks (pcs (F := F)) cellOf_inj), 1))

/-- What the launch leaves device `d`'s TensorCore beside its buffers: every region's staging cells' ghost state and
    duty tokens. -/
def G (d : Dev nD) : sProp 𝕄 :=
  bigSep Finset.univ fun p : Fin 8 => iprop(Pipeline.cellsGhost (pcs (F := F)) EP p d ∗ Pipeline.toksInit (pcs (F := F)) EP p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 8 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (show (BI.own (((Emb.inl : Emb UP (UP × Counters)).trans (embR : Emb (UP × Counters) 𝕄))
      (initOf (Pipeline.cells (pcs (F := F)) cellOf_inj) (Pipeline.launchToks (pcs (F := F)) cellOf_inj))) : sProp 𝕄)
      = BI.own ((EP (F := F)) (initOf (Pipeline.cells (pcs (F := F)) cellOf_inj) (Pipeline.launchToks (pcs (F := F)) cellOf_inj))) from rfl)) $$ HP
  imod (Pipeline.fund_ghost (pcs (F := F)) (EP (F := F)) cellOf_inj) $$ HP' with ⟨Hg, Ht⟩
  imodintro
  isplitl [HH]; · iexact HH
  isplitl [Hg Ht]
  · unfold G
    simp only [bigSep_sep']
    isplitl [Hg]; · iexact Hg
    iexact Ht
  · unfold P; dsimp only
    rw [show (bigSep Finset.univ fun _ : Thread nD τ => bigSep Finset.univ fun _ : Fin 8 => (iprop(emp) : sProp 𝕄)) = iprop(emp) from by
      rw [bigSep_congr fun _ _ => bigSep_emp' _, bigSep_emp']]
    iempintro

end Cert.Kernel.Sc

end
-- ==== Proof.ScDealB.lean ====
import proofs.«204770_g8065948582451_cont_9to1c4b_476_56_alg».proof.Proof.ScElemB
import proofs.«204770_g8065948582451_cont_9to1c4b_476_56_alg».proof.Proof.LibDeal
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-! ## The blocks of 128 rows partition a [102400, 256] array -/

theorem oblk_disjoint : ∀ i ∈ (Finset.univ : Finset (Fin 800)), ∀ j ∈ (Finset.univ : Finset (Fin 800)), i ≠ j → Disjoint (oBlkSet i) (oBlkSet j) :=
  fun i _ j _ h => Rect.part_disjoint odiv h
theorem oblk_cover : (Finset.univ : Finset (Fin 800)).biUnion oBlkSet = Finset.univ := Rect.biUnion_part odiv

theorem h800 : 32 * 25 = 800 := rfl
theorem h32 : 16 * 2 = 32 := rfl

theorem blk_eq (w : Fin 32) (k : Fin 25) : blk w k = pairIx h800 w k := Fin.ext (by simp only [blk, pairIx]; omega)
theorem widN_eq (c : Fin 2) (i : Fin 16) : widN c.val i.val = pairIx h32 i c := Fin.ext (by simp only [widN, pairIx]; omega)

omit [FloatOps F] in
/-- A conjunction over the 32 workers, SparseCore by SparseCore and subcore by subcore. -/
theorem bigSep_workers (X : Fin 32 → sProp 𝕄) :
    bigSep Finset.univ X = bigSep Finset.univ fun c : Fin 2 => bigSep Finset.univ fun i : Fin 16 => X (widN c.val i.val) := by
  rw [bigSep_pairs h32 X, bigSep_univ_comm]
  exact bigSep_congr fun c _ => bigSep_congr fun i _ => by rw [widN_eq]

/-- An operation of two TensorCore references touches unscoped buffers only. -/
theorem reshape_sub (x y : Ref sig .tc) he hn hx hy : (StableHlo.reshape (τ := τ) (Val := Elt F) x y he hn hx hy).bufs ⊆ ucRefs τ sig :=
  sub_ucRefs _ fun b hb => by
    rcases Finset.mem_insert.mp hb with rfl | hb
    · exact StableHlo.devRef_mem_tcRefs _
    · cases Finset.mem_singleton.mp hb; exact StableHlo.devRef_mem_tcRefs _
theorem unary_sub (x y : Ref sig .tc) f hx hy : (StableHlo.unary (τ := τ) (Val := Elt F) x y f hx hy).bufs ⊆ ucRefs τ sig :=
  sub_ucRefs _ fun b hb => by
    rcases Finset.mem_insert.mp hb with rfl | hb
    · exact StableHlo.devRef_mem_tcRefs _
    · cases Finset.mem_singleton.mp hb; exact StableHlo.devRef_mem_tcRefs _

end Cert.Kernel.Sc

end
-- ==== Proof.ScCallPreB.lean ====
/-
  Per gather call: the five arrays it is handed as a set of the TensorCore's unscoped buffers, that the host
  operations before it touch unscoped buffers only, and that no call or host operation changes the two tables.
-/
import proofs.«204770_g8065948582451_cont_9to1c4b_476_56_alg».proof.Proof.ScDealB
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

abbrev dT : DevRef τ sig := Proc.devRef .tc main_arg2
abbrev dK : DevRef τ sig := Proc.devRef .tc main_arg3

theorem mem_uc (b : Ref sig .tc) (hb : (Proc.devRef (τ := τ) .tc b).isScoped = false) : Proc.devRef .tc b ∈ ucRefs τ sig :=
  Finset.mem_filter.mpr ⟨StableHlo.devRef_mem_tcRefs _, by simp [hb]⟩

/-! ## Gather call 0 -/

abbrev dI0 : DevRef τ sig := Proc.devRef .tc main_v6
abbrev dC0 : DevRef τ sig := Proc.devRef .tc main_v8
abbrev dO0 : DevRef τ sig := Proc.devRef .tc main_v9
/-- The five arrays call 0 is handed. -/
abbrev T5_0 : Finset (DevRef τ sig) := {dI0, dC0, dT, dK, dO0}

theorem hT5_0 : T5_0 ⊆ ucRefs τ sig := by
  intro b hb
  simp only [T5_0, Finset.mem_insert, Finset.mem_singleton] at hb
  rcases hb with rfl | rfl | rfl | rfl | rfl <;> exact mem_uc _ rfl

omit [FloatOps F] in
theorem held_T5_0 (d : Dev nD) (W : Valuation τ sig (Elt F)) :
    (held (T d) T5_0 W : sProp 𝕄)
      = iprop(((T d : Thread nD τ).loc main_v6 ↦{fullShare} W dI0) ∗ ((T d : Thread nD τ).loc main_v8 ↦{fullShare} W dC0)
          ∗ ((T d : Thread nD τ).loc main_arg2 ↦{fullShare} W dT) ∗ ((T d : Thread nD τ).loc main_arg3 ↦{fullShare} W dK)
          ∗ ((T d : Thread nD τ).loc main_v9 ↦{fullShare} W dO0)) := by
  unfold held T5_0
  rw [SparseCore.bigSep_insert' (by decide), SparseCore.bigSep_insert' (by decide), SparseCore.bigSep_insert' (by decide),
    SparseCore.bigSep_insert' (by decide), bigSep_singleton]

theorem hS0 : ∀ op ∈ (hops0 (F := F)), op.bufs ⊆ ucRefs τ sig := by
  intro op hop
  simp only [hops0, List.mem_cons, List.not_mem_nil, or_false] at hop
  rcases hop with rfl | rfl | rfl | rfl | rfl | rfl | rfl | rfl | rfl <;> first | exact reshape_sub _ _ _ _ _ _ | exact unary_sub _ _ _ _ _
theorem hf0 : ∀ op ∈ (hops0 (F := F)), op.fresh = ∅ := by
  intro op hop
  simp only [hops0, List.mem_cons, List.not_mem_nil, or_false] at hop
  rcases hop with rfl | rfl | rfl | rfl | rfl | rfl | rfl | rfl | rfl <;> rfl

theorem Vpre0_T (d : Dev nD) : Vpre0 m d dT = idt m d := by
  unfold Vpre0
  rw [StableHlo.after_of_forall_not_mem (b := dT) _ _ (by
    intro op hop
    simp only [hops0, List.mem_cons, List.not_mem_nil, or_false] at hop
    rcases hop with rfl | rfl | rfl | rfl | rfl | rfl | rfl | rfl | rfl <;> exact fun h => absurd (Finset.mem_singleton.mp h) (by decide))]
  exact (rfl)
theorem Vpre0_K (d : Dev nD) : Vpre0 m d dK = cat m d := by
  unfold Vpre0
  rw [StableHlo.after_of_forall_not_mem (b := dK) _ _ (by
    intro op hop
    simp only [hops0, List.mem_cons, List.not_mem_nil, or_false] at hop
    rcases hop with rfl | rfl | rfl | rfl | rfl | rfl | rfl | rfl | rfl <;> exact fun h => absurd (Finset.mem_singleton.mp h) (by decide))]
  exact (rfl)

/-! ## Gather call 1 -/

abbrev dI1 : DevRef τ sig := Proc.devRef .tc main_v11
abbrev dC1 : DevRef τ sig := Proc.devRef .tc main_v13
abbrev dO1 : DevRef τ sig := Proc.devRef .tc main_v14
/-- The five arrays call 1 is handed. -/
abbrev T5_1 : Finset (DevRef τ sig) := {dI1, dC1, dT, dK, dO1}

theorem hT5_1 : T5_1 ⊆ ucRefs τ sig := by
  intro b hb
  simp only [T5_1, Finset.mem_insert, Finset.mem_singleton] at hb
  rcases hb with rfl | rfl | rfl | rfl | rfl <;> exact mem_uc _ rfl

omit [FloatOps F] in
theorem held_T5_1 (d : Dev nD) (W : Valuation τ sig (Elt F)) :
    (held (T d) T5_1 W : sProp 𝕄)
      = iprop(((T d : Thread nD τ).loc main_v11 ↦{fullShare} W dI1) ∗ ((T d : Thread nD τ).loc main_v13 ↦{fullShare} W dC1)
          ∗ ((T d : Thread nD τ).loc main_arg2 ↦{fullShare} W dT) ∗ ((T d : Thread nD τ).loc main_arg3 ↦{fullShare} W dK)
          ∗ ((T d : Thread nD τ).loc main_v14 ↦{fullShare} W dO1)) := by
  unfold held T5_1
  rw [SparseCore.bigSep_insert' (by decide), SparseCore.bigSep_insert' (by decide), SparseCore.bigSep_insert' (by decide),
    SparseCore.bigSep_insert' (by decide), bigSep_singleton]

theorem hS1 : ∀ op ∈ (hops1 (F := F)), op.bufs ⊆ ucRefs τ sig := by
  intro op hop
  simp only [hops1, List.mem_cons, List.not_mem_nil, or_false] at hop
  rcases hop with rfl | rfl | rfl | rfl <;> first | exact reshape_sub _ _ _ _ _ _ | exact unary_sub _ _ _ _ _
theorem hf1 : ∀ op ∈ (hops1 (F := F)), op.fresh = ∅ := by
  intro op hop
  simp only [hops1, List.mem_cons, List.not_mem_nil, or_false] at hop
  rcases hop with rfl | rfl | rfl | rfl <;> rfl

theorem Vpre1_T (d : Dev nD) : Vpre1 m d dT = idt m d := by
  unfold Vpre1
  rw [StableHlo.after_of_forall_not_mem (b := dT) _ _ (by
    intro op hop
    simp only [hops1, List.mem_cons, List.not_mem_nil, or_false] at hop
    rcases hop with rfl | rfl | rfl | rfl <;> exact fun h => absurd (Finset.mem_singleton.mp h) (by decide))]
  exact (by unfold Vpost0; rw [Function.update_of_ne (by decide)]; exact Vpre0_T m d)
theorem Vpre1_K (d : Dev nD) : Vpre1 m d dK = cat m d := by
  unfold Vpre1
  rw [StableHlo.after_of_forall_not_mem (b := dK) _ _ (by
    intro op hop
    simp only [hops1, List.mem_cons, List.not_mem_nil, or_false] at hop
    rcases hop with rfl | rfl | rfl | rfl <;> exact fun h => absurd (Finset.mem_singleton.mp h) (by decide))]
  exact (by unfold Vpost0; rw [Function.update_of_ne (by decide)]; exact Vpre0_K m d)

/-! ## Gather call 2 -/

abbrev dI2 : DevRef τ sig := Proc.devRef .tc main_v16
abbrev dC2 : DevRef τ sig := Proc.devRef .tc main_v18
abbrev dO2 : DevRef τ sig := Proc.devRef .tc main_v19
/-- The five arrays call 2 is handed. -/
abbrev T5_2 : Finset (DevRef τ sig) := {dI2, dC2, dT, dK, dO2}

theorem hT5_2 : T5_2 ⊆ ucRefs τ sig := by
  intro b hb
  simp only [T5_2, Finset.mem_insert, Finset.mem_singleton] at hb
  rcases hb with rfl | rfl | rfl | rfl | rfl <;> exact mem_uc _ rfl

omit [FloatOps F] in
theorem held_T5_2 (d : Dev nD) (W : Valuation τ sig (Elt F)) :
    (held (T d) T5_2 W : sProp 𝕄)
      = iprop(((T d : Thread nD τ).loc main_v16 ↦{fullShare} W dI2) ∗ ((T d : Thread nD τ).loc main_v18 ↦{fullShare} W dC2)
          ∗ ((T d : Thread nD τ).loc main_arg2 ↦{fullShare} W dT) ∗ ((T d : Thread nD τ).loc main_arg3 ↦{fullShare} W dK)
          ∗ ((T d : Thread nD τ).loc main_v19 ↦{fullShare} W dO2)) := by
  unfold held T5_2
  rw [SparseCore.bigSep_insert' (by decide), SparseCore.bigSep_insert' (by decide), SparseCore.bigSep_insert' (by decide),
    SparseCore.bigSep_insert' (by decide), bigSep_singleton]

theorem hS2 : ∀ op ∈ (hops2 (F := F)), op.bufs ⊆ ucRefs τ sig := by
  intro op hop
  simp only [hops2, List.mem_cons, List.not_mem_nil, or_false] at hop
  rcases hop with rfl | rfl | rfl | rfl <;> first | exact reshape_sub _ _ _ _ _ _ | exact unary_sub _ _ _ _ _
theorem hf2 : ∀ op ∈ (hops2 (F := F)), op.fresh = ∅ := by
  intro op hop
  simp only [hops2, List.mem_cons, List.not_mem_nil, or_false] at hop
  rcases hop with rfl | rfl | rfl | rfl <;> rfl

theorem Vpre2_T (d : Dev nD) : Vpre2 m d dT = idt m d := by
  unfold Vpre2
  rw [StableHlo.after_of_forall_not_mem (b := dT) _ _ (by
    intro op hop
    simp only [hops2, List.mem_cons, List.not_mem_nil, or_false] at hop
    rcases hop with rfl | rfl | rfl | rfl <;> exact fun h => absurd (Finset.mem_singleton.mp h) (by decide))]
  exact (by unfold Vpost1; rw [Function.update_of_ne (by decide)]; exact Vpre1_T m d)
theorem Vpre2_K (d : Dev nD) : Vpre2 m d dK = cat m d := by
  unfold Vpre2
  rw [StableHlo.after_of_forall_not_mem (b := dK) _ _ (by
    intro op hop
    simp only [hops2, List.mem_cons, List.not_mem_nil, or_false] at hop
    rcases hop with rfl | rfl | rfl | rfl <;> exact fun h => absurd (Finset.mem_singleton.mp h) (by decide))]
  exact (by unfold Vpost1; rw [Function.update_of_ne (by decide)]; exact Vpre1_K m d)

/-! ## Gather call 3 -/

abbrev dI3 : DevRef τ sig := Proc.devRef .tc main_v21
abbrev dC3 : DevRef τ sig := Proc.devRef .tc main_v23
abbrev dO3 : DevRef τ sig := Proc.devRef .tc main_v24
/-- The five arrays call 3 is handed. -/
abbrev T5_3 : Finset (DevRef τ sig) := {dI3, dC3, dT, dK, dO3}

theorem hT5_3 : T5_3 ⊆ ucRefs τ sig := by
  intro b hb
  simp only [T5_3, Finset.mem_insert, Finset.mem_singleton] at hb
  rcases hb with rfl | rfl | rfl | rfl | rfl <;> exact mem_uc _ rfl

omit [FloatOps F] in
theorem held_T5_3 (d : Dev nD) (W : Valuation τ sig (Elt F)) :
    (held (T d) T5_3 W : sProp 𝕄)
      = iprop(((T d : Thread nD τ).loc main_v21 ↦{fullShare} W dI3) ∗ ((T d : Thread nD τ).loc main_v23 ↦{fullShare} W dC3)
          ∗ ((T d : Thread nD τ).loc main_arg2 ↦{fullShare} W dT) ∗ ((T d : Thread nD τ).loc main_arg3 ↦{fullShare} W dK)
          ∗ ((T d : Thread nD τ).loc main_v24 ↦{fullShare} W dO3)) := by
  unfold held T5_3
  rw [SparseCore.bigSep_insert' (by decide), SparseCore.bigSep_insert' (by decide), SparseCore.bigSep_insert' (by decide),
    SparseCore.bigSep_insert' (by decide), bigSep_singleton]

theorem hS3 : ∀ op ∈ (hops3 (F := F)), op.bufs ⊆ ucRefs τ sig := by
  intro op hop
  simp only [hops3, List.mem_cons, List.not_mem_nil, or_false] at hop
  rcases hop with rfl | rfl | rfl | rfl <;> first | exact reshape_sub _ _ _ _ _ _ | exact unary_sub _ _ _ _ _
theorem hf3 : ∀ op ∈ (hops3 (F := F)), op.fresh = ∅ := by
  intro op hop
  simp only [hops3, List.mem_cons, List.not_mem_nil, or_false] at hop
  rcases hop with rfl | rfl | rfl | rfl <;> rfl

theorem Vpre3_T (d : Dev nD) : Vpre3 m d dT = idt m d := by
  unfold Vpre3
  rw [StableHlo.after_of_forall_not_mem (b := dT) _ _ (by
    intro op hop
    simp only [hops3, List.mem_cons, List.not_mem_nil, or_false] at hop
    rcases hop with rfl | rfl | rfl | rfl <;> exact fun h => absurd (Finset.mem_singleton.mp h) (by decide))]
  exact (by unfold Vpost2; rw [Function.update_of_ne (by decide)]; exact Vpre2_T m d)
theorem Vpre3_K (d : Dev nD) : Vpre3 m d dK = cat m d := by
  unfold Vpre3
  rw [StableHlo.after_of_forall_not_mem (b := dK) _ _ (by
    intro op hop
    simp only [hops3, List.mem_cons, List.not_mem_nil, or_false] at hop
    rcases hop with rfl | rfl | rfl | rfl <;> exact fun h => absurd (Finset.mem_singleton.mp h) (by decide))]
  exact (by unfold Vpost2; rw [Function.update_of_ne (by decide)]; exact Vpre2_K m d)

/-! ## Gather call 4 -/

abbrev dI4 : DevRef τ sig := Proc.devRef .tc main_v26
abbrev dC4 : DevRef τ sig := Proc.devRef .tc main_v28
abbrev dO4 : DevRef τ sig := Proc.devRef .tc main_v29
/-- The five arrays call 4 is handed. -/
abbrev T5_4 : Finset (DevRef τ sig) := {dI4, dC4, dT, dK, dO4}

theorem hT5_4 : T5_4 ⊆ ucRefs τ sig := by
  intro b hb
  simp only [T5_4, Finset.mem_insert, Finset.mem_singleton] at hb
  rcases hb with rfl | rfl | rfl | rfl | rfl <;> exact mem_uc _ rfl

omit [FloatOps F] in
theorem held_T5_4 (d : Dev nD) (W : Valuation τ sig (Elt F)) :
    (held (T d) T5_4 W : sProp 𝕄)
      = iprop(((T d : Thread nD τ).loc main_v26 ↦{fullShare} W dI4) ∗ ((T d : Thread nD τ).loc main_v28 ↦{fullShare} W dC4)
          ∗ ((T d : Thread nD τ).loc main_arg2 ↦{fullShare} W dT) ∗ ((T d : Thread nD τ).loc main_arg3 ↦{fullShare} W dK)
          ∗ ((T d : Thread nD τ).loc main_v29 ↦{fullShare} W dO4)) := by
  unfold held T5_4
  rw [SparseCore.bigSep_insert' (by decide), SparseCore.bigSep_insert' (by decide), SparseCore.bigSep_insert' (by decide),
    SparseCore.bigSep_insert' (by decide), bigSep_singleton]

theorem hS4 : ∀ op ∈ (hops4 (F := F)), op.bufs ⊆ ucRefs τ sig := by
  intro op hop
  simp only [hops4, List.mem_cons, List.not_mem_nil, or_false] at hop
  rcases hop with rfl | rfl | rfl | rfl <;> first | exact reshape_sub _ _ _ _ _ _ | exact unary_sub _ _ _ _ _
theorem hf4 : ∀ op ∈ (hops4 (F := F)), op.fresh = ∅ := by
  intro op hop
  simp only [hops4, List.mem_cons, List.not_mem_nil, or_false] at hop
  rcases hop with rfl | rfl | rfl | rfl <;> rfl

theorem Vpre4_T (d : Dev nD) : Vpre4 m d dT = idt m d := by
  unfold Vpre4
  rw [StableHlo.after_of_forall_not_mem (b := dT) _ _ (by
    intro op hop
    simp only [hops4, List.mem_cons, List.not_mem_nil, or_false] at hop
    rcases hop with rfl | rfl | rfl | rfl <;> exact fun h => absurd (Finset.mem_singleton.mp h) (by decide))]
  exact (by unfold Vpost3; rw [Function.update_of_ne (by decide)]; exact Vpre3_T m d)
theorem Vpre4_K (d : Dev nD) : Vpre4 m d dK = cat m d := by
  unfold Vpre4
  rw [StableHlo.after_of_forall_not_mem (b := dK) _ _ (by
    intro op hop
    simp only [hops4, List.mem_cons, List.not_mem_nil, or_false] at hop
    rcases hop with rfl | rfl | rfl | rfl <;> exact fun h => absurd (Finset.mem_singleton.mp h) (by decide))]
  exact (by unfold Vpost3; rw [Function.update_of_ne (by decide)]; exact Vpre3_K m d)

/-! ## Gather call 5 -/

abbrev dI5 : DevRef τ sig := Proc.devRef .tc main_v31
abbrev dC5 : DevRef τ sig := Proc.devRef .tc main_v33
abbrev dO5 : DevRef τ sig := Proc.devRef .tc main_v34
/-- The five arrays call 5 is handed. -/
abbrev T5_5 : Finset (DevRef τ sig) := {dI5, dC5, dT, dK, dO5}

theorem hT5_5 : T5_5 ⊆ ucRefs τ sig := by
  intro b hb
  simp only [T5_5, Finset.mem_insert, Finset.mem_singleton] at hb
  rcases hb with rfl | rfl | rfl | rfl | rfl <;> exact mem_uc _ rfl

omit [FloatOps F] in
theorem held_T5_5 (d : Dev nD) (W : Valuation τ sig (Elt F)) :
    (held (T d) T5_5 W : sProp 𝕄)
      = iprop(((T d : Thread nD τ).loc main_v31 ↦{fullShare} W dI5) ∗ ((T d : Thread nD τ).loc main_v33 ↦{fullShare} W dC5)
          ∗ ((T d : Thread nD τ).loc main_arg2 ↦{fullShare} W dT) ∗ ((T d : Thread nD τ).loc main_arg3 ↦{fullShare} W dK)
          ∗ ((T d : Thread nD τ).loc main_v34 ↦{fullShare} W dO5)) := by
  unfold held T5_5
  rw [SparseCore.bigSep_insert' (by decide), SparseCore.bigSep_insert' (by decide), SparseCore.bigSep_insert' (by decide),
    SparseCore.bigSep_insert' (by decide), bigSep_singleton]

theorem hS5 : ∀ op ∈ (hops5 (F := F)), op.bufs ⊆ ucRefs τ sig := by
  intro op hop
  simp only [hops5, List.mem_cons, List.not_mem_nil, or_false] at hop
  rcases hop with rfl | rfl | rfl | rfl <;> first | exact reshape_sub _ _ _ _ _ _ | exact unary_sub _ _ _ _ _
theorem hf5 : ∀ op ∈ (hops5 (F := F)), op.fresh = ∅ := by
  intro op hop
  simp only [hops5, List.mem_cons, List.not_mem_nil, or_false] at hop
  rcases hop with rfl | rfl | rfl | rfl <;> rfl

theorem Vpre5_T (d : Dev nD) : Vpre5 m d dT = idt m d := by
  unfold Vpre5
  rw [StableHlo.after_of_forall_not_mem (b := dT) _ _ (by
    intro op hop
    simp only [hops5, List.mem_cons, List.not_mem_nil, or_false] at hop
    rcases hop with rfl | rfl | rfl | rfl <;> exact fun h => absurd (Finset.mem_singleton.mp h) (by decide))]
  exact (by unfold Vpost4; rw [Function.update_of_ne (by decide)]; exact Vpre4_T m d)
theorem Vpre5_K (d : Dev nD) : Vpre5 m d dK = cat m d := by
  unfold Vpre5
  rw [StableHlo.after_of_forall_not_mem (b := dK) _ _ (by
    intro op hop
    simp only [hops5, List.mem_cons, List.not_mem_nil, or_false] at hop
    rcases hop with rfl | rfl | rfl | rfl <;> exact fun h => absurd (Finset.mem_singleton.mp h) (by decide))]
  exact (by unfold Vpost4; rw [Function.update_of_ne (by decide)]; exact Vpre4_K m d)

/-! ## Gather call 6 -/

abbrev dI6 : DevRef τ sig := Proc.devRef .tc main_v36
abbrev dC6 : DevRef τ sig := Proc.devRef .tc main_v38
abbrev dO6 : DevRef τ sig := Proc.devRef .tc main_v39
/-- The five arrays call 6 is handed. -/
abbrev T5_6 : Finset (DevRef τ sig) := {dI6, dC6, dT, dK, dO6}

theorem hT5_6 : T5_6 ⊆ ucRefs τ sig := by
  intro b hb
  simp only [T5_6, Finset.mem_insert, Finset.mem_singleton] at hb
  rcases hb with rfl | rfl | rfl | rfl | rfl <;> exact mem_uc _ rfl

omit [FloatOps F] in
theorem held_T5_6 (d : Dev nD) (W : Valuation τ sig (Elt F)) :
    (held (T d) T5_6 W : sProp 𝕄)
      = iprop(((T d : Thread nD τ).loc main_v36 ↦{fullShare} W dI6) ∗ ((T d : Thread nD τ).loc main_v38 ↦{fullShare} W dC6)
          ∗ ((T d : Thread nD τ).loc main_arg2 ↦{fullShare} W dT) ∗ ((T d : Thread nD τ).loc main_arg3 ↦{fullShare} W dK)
          ∗ ((T d : Thread nD τ).loc main_v39 ↦{fullShare} W dO6)) := by
  unfold held T5_6
  rw [SparseCore.bigSep_insert' (by decide), SparseCore.bigSep_insert' (by decide), SparseCore.bigSep_insert' (by decide),
    SparseCore.bigSep_insert' (by decide), bigSep_singleton]

theorem hS6 : ∀ op ∈ (hops6 (F := F)), op.bufs ⊆ ucRefs τ sig := by
  intro op hop
  simp only [hops6, List.mem_cons, List.not_mem_nil, or_false] at hop
  rcases hop with rfl | rfl | rfl | rfl <;> first | exact reshape_sub _ _ _ _ _ _ | exact unary_sub _ _ _ _ _
theorem hf6 : ∀ op ∈ (hops6 (F := F)), op.fresh = ∅ := by
  intro op hop
  simp only [hops6, List.mem_cons, List.not_mem_nil, or_false] at hop
  rcases hop with rfl | rfl | rfl | rfl <;> rfl

theorem Vpre6_T (d : Dev nD) : Vpre6 m d dT = idt m d := by
  unfold Vpre6
  rw [StableHlo.after_of_forall_not_mem (b := dT) _ _ (by
    intro op hop
    simp only [hops6, List.mem_cons, List.not_mem_nil, or_false] at hop
    rcases hop with rfl | rfl | rfl | rfl <;> exact fun h => absurd (Finset.mem_singleton.mp h) (by decide))]
  exact (by unfold Vpost5; rw [Function.update_of_ne (by decide)]; exact Vpre5_T m d)
theorem Vpre6_K (d : Dev nD) : Vpre6 m d dK = cat m d := by
  unfold Vpre6
  rw [StableHlo.after_of_forall_not_mem (b := dK) _ _ (by
    intro op hop
    simp only [hops6, List.mem_cons, List.not_mem_nil, or_false] at hop
    rcases hop with rfl | rfl | rfl | rfl <;> exact fun h => absurd (Finset.mem_singleton.mp h) (by decide))]
  exact (by unfold Vpost5; rw [Function.update_of_ne (by decide)]; exact Vpre5_K m d)

/-! ## Gather call 7 -/

abbrev dI7 : DevRef τ sig := Proc.devRef .tc main_v41
abbrev dC7 : DevRef τ sig := Proc.devRef .tc main_v43
abbrev dO7 : DevRef τ sig := Proc.devRef .tc main_v44
/-- The five arrays call 7 is handed. -/
abbrev T5_7 : Finset (DevRef τ sig) := {dI7, dC7, dT, dK, dO7}

theorem hT5_7 : T5_7 ⊆ ucRefs τ sig := by
  intro b hb
  simp only [T5_7, Finset.mem_insert, Finset.mem_singleton] at hb
  rcases hb with rfl | rfl | rfl | rfl | rfl <;> exact mem_uc _ rfl

omit [FloatOps F] in
theorem held_T5_7 (d : Dev nD) (W : Valuation τ sig (Elt F)) :
    (held (T d) T5_7 W : sProp 𝕄)
      = iprop(((T d : Thread nD τ).loc main_v41 ↦{fullShare} W dI7) ∗ ((T d : Thread nD τ).loc main_v43 ↦{fullShare} W dC7)
          ∗ ((T d : Thread nD τ).loc main_arg2 ↦{fullShare} W dT) ∗ ((T d : Thread nD τ).loc main_arg3 ↦{fullShare} W dK)
          ∗ ((T d : Thread nD τ).loc main_v44 ↦{fullShare} W dO7)) := by
  unfold held T5_7
  rw [SparseCore.bigSep_insert' (by decide), SparseCore.bigSep_insert' (by decide), SparseCore.bigSep_insert' (by decide),
    SparseCore.bigSep_insert' (by decide), bigSep_singleton]

theorem hS7 : ∀ op ∈ (hops7 (F := F)), op.bufs ⊆ ucRefs τ sig := by
  intro op hop
  simp only [hops7, List.mem_cons, List.not_mem_nil, or_false] at hop
  rcases hop with rfl | rfl | rfl | rfl <;> first | exact reshape_sub _ _ _ _ _ _ | exact unary_sub _ _ _ _ _
theorem hf7 : ∀ op ∈ (hops7 (F := F)), op.fresh = ∅ := by
  intro op hop
  simp only [hops7, List.mem_cons, List.not_mem_nil, or_false] at hop
  rcases hop with rfl | rfl | rfl | rfl <;> rfl

theorem Vpre7_T (d : Dev nD) : Vpre7 m d dT = idt m d := by
  unfold Vpre7
  rw [StableHlo.after_of_forall_not_mem (b := dT) _ _ (by
    intro op hop
    simp only [hops7, List.mem_cons, List.not_mem_nil, or_false] at hop
    rcases hop with rfl | rfl | rfl | rfl <;> exact fun h => absurd (Finset.mem_singleton.mp h) (by decide))]
  exact (by unfold Vpost6; rw [Function.update_of_ne (by decide)]; exact Vpre6_T m d)
theorem Vpre7_K (d : Dev nD) : Vpre7 m d dK = cat m d := by
  unfold Vpre7
  rw [StableHlo.after_of_forall_not_mem (b := dK) _ _ (by
    intro op hop
    simp only [hops7, List.mem_cons, List.not_mem_nil, or_false] at hop
    rcases hop with rfl | rfl | rfl | rfl <;> exact fun h => absurd (Finset.mem_singleton.mp h) (by decide))]
  exact (by unfold Vpost6; rw [Function.update_of_ne (by decide)]; exact Vpre6_K m d)

end Cert.Kernel.Sc

end
-- ==== Proof.ScArgsB.lean ====
/-
  The argument arrays through the eight gather calls. No host operation before a call writes an argument array, and a
  call's result is another buffer, so after the last call each of the eight argument buffers still holds its launch
  contents (for the two tables this is what the calls are handed and hand back); and a call's result buffer, once written, is touched by no later
  host operation and no later call, so after the last call it still holds the call's gathered array.
-/
import proofs.«204770_g8065948582451_cont_9to1c4b_476_56_alg».proof.Proof.ScValsB
import proofs.«204770_g8065948582451_cont_9to1c4b_476_56_alg».proof.Proof.ScCallPreB

noncomputable section

namespace Cert.Kernel.Sc

open Cert.Kernel Cert.Kernel.Gen

open Idealize.ShloMosaic Idealize.ShloMosaic.ValueIdx Idealize.ShloMosaic.StableHlo
open Idealize.ShloMosaic.SparseCore (S V T)
open Idealize.SL.Sem

variable {F : FTy → Type} [FloatOps F]

variable (m : (ℓ : Loc nD τ sig) → Buf (Elt F) ℓ)

/-! ## main_arg0 -/

theorem pre0_arg0 (d : Dev nD) : Vpre0 m d (Proc.devRef .tc main_arg0) = m (d, Proc.devRef .tc main_arg0) := by
  unfold Vpre0
  after_results
  rfl

theorem post0_arg0 (d : Dev nD) : Vpost0 m d (Proc.devRef .tc main_arg0) = m (d, Proc.devRef .tc main_arg0) := by
  unfold Vpost0
  rw [Function.update_of_ne (devRef_ne_of_ne (by decide)), pre0_arg0]

theorem hops1_arg0 (W : Valuation τ sig (Elt F)) : after hops1 W (Proc.devRef .tc main_arg0) = W (Proc.devRef .tc main_arg0) := by
  after_results

theorem pre1_arg0 (d : Dev nD) : Vpre1 m d (Proc.devRef .tc main_arg0) = m (d, Proc.devRef .tc main_arg0) := by
  unfold Vpre1
  rw [hops1_arg0, post0_arg0]

theorem post1_arg0 (d : Dev nD) : Vpost1 m d (Proc.devRef .tc main_arg0) = m (d, Proc.devRef .tc main_arg0) := by
  unfold Vpost1
  rw [Function.update_of_ne (devRef_ne_of_ne (by decide)), pre1_arg0]

theorem hops2_arg0 (W : Valuation τ sig (Elt F)) : after hops2 W (Proc.devRef .tc main_arg0) = W (Proc.devRef .tc main_arg0) := by
  after_results

theorem pre2_arg0 (d : Dev nD) : Vpre2 m d (Proc.devRef .tc main_arg0) = m (d, Proc.devRef .tc main_arg0) := by
  unfold Vpre2
  rw [hops2_arg0, post1_arg0]

theorem post2_arg0 (d : Dev nD) : Vpost2 m d (Proc.devRef .tc main_arg0) = m (d, Proc.devRef .tc main_arg0) := by
  unfold Vpost2
  rw [Function.update_of_ne (devRef_ne_of_ne (by decide)), pre2_arg0]

theorem hops3_arg0 (W : Valuation τ sig (Elt F)) : after hops3 W (Proc.devRef .tc main_arg0) = W (Proc.devRef .tc main_arg0) := by
  after_results

theorem pre3_arg0 (d : Dev nD) : Vpre3 m d (Proc.devRef .tc main_arg0) = m (d, Proc.devRef .tc main_arg0) := by
  unfold Vpre3
  rw [hops3_arg0, post2_arg0]

theorem post3_arg0 (d : Dev nD) : Vpost3 m d (Proc.devRef .tc main_arg0) = m (d, Proc.devRef .tc main_arg0) := by
  unfold Vpost3
  rw [Function.update_of_ne (devRef_ne_of_ne (by decide)), pre3_arg0]

theorem hops4_arg0 (W : Valuation τ sig (Elt F)) : after hops4 W (Proc.devRef .tc main_arg0) = W (Proc.devRef .tc main_arg0) := by
  after_results

theorem pre4_arg0 (d : Dev nD) : Vpre4 m d (Proc.devRef .tc main_arg0) = m (d, Proc.devRef .tc main_arg0) := by
  unfold Vpre4
  rw [hops4_arg0, post3_arg0]

theorem post4_arg0 (d : Dev nD) : Vpost4 m d (Proc.devRef .tc main_arg0) = m (d, Proc.devRef .tc main_arg0) := by
  unfold Vpost4
  rw [Function.update_of_ne (devRef_ne_of_ne (by decide)), pre4_arg0]

theorem hops5_arg0 (W : Valuation τ sig (Elt F)) : after hops5 W (Proc.devRef .tc main_arg0) = W (Proc.devRef .tc main_arg0) := by
  after_results

theorem pre5_arg0 (d : Dev nD) : Vpre5 m d (Proc.devRef .tc main_arg0) = m (d, Proc.devRef .tc main_arg0) := by
  unfold Vpre5
  rw [hops5_arg0, post4_arg0]

theorem post5_arg0 (d : Dev nD) : Vpost5 m d (Proc.devRef .tc main_arg0) = m (d, Proc.devRef .tc main_arg0) := by
  unfold Vpost5
  rw [Function.update_of_ne (devRef_ne_of_ne (by decide)), pre5_arg0]

theorem hops6_arg0 (W : Valuation τ sig (Elt F)) : after hops6 W (Proc.devRef .tc main_arg0) = W (Proc.devRef .tc main_arg0) := by
  after_results

theorem pre6_arg0 (d : Dev nD) : Vpre6 m d (Proc.devRef .tc main_arg0) = m (d, Proc.devRef .tc main_arg0) := by
  unfold Vpre6
  rw [hops6_arg0, post5_arg0]

theorem post6_arg0 (d : Dev nD) : Vpost6 m d (Proc.devRef .tc main_arg0) = m (d, Proc.devRef .tc main_arg0) := by
  unfold Vpost6
  rw [Function.update_of_ne (devRef_ne_of_ne (by decide)), pre6_arg0]

theorem hops7_arg0 (W : Valuation τ sig (Elt F)) : after hops7 W (Proc.devRef .tc main_arg0) = W (Proc.devRef .tc main_arg0) := by
  after_results

theorem pre7_arg0 (d : Dev nD) : Vpre7 m d (Proc.devRef .tc main_arg0) = m (d, Proc.devRef .tc main_arg0) := by
  unfold Vpre7
  rw [hops7_arg0, post6_arg0]

theorem post7_arg0 (d : Dev nD) : Vpost7 m d (Proc.devRef .tc main_arg0) = m (d, Proc.devRef .tc main_arg0) := by
  unfold Vpost7
  rw [Function.update_of_ne (devRef_ne_of_ne (by decide)), pre7_arg0]

/-! ## main_arg1 -/

theorem pre0_arg1 (d : Dev nD) : Vpre0 m d (Proc.devRef .tc main_arg1) = m (d, Proc.devRef .tc main_arg1) := by
  unfold Vpre0
  after_results
  rfl

theorem post0_arg1 (d : Dev nD) : Vpost0 m d (Proc.devRef .tc main_arg1) = m (d, Proc.devRef .tc main_arg1) := by
  unfold Vpost0
  rw [Function.update_of_ne (devRef_ne_of_ne (by decide)), pre0_arg1]

theorem hops1_arg1 (W : Valuation τ sig (Elt F)) : after hops1 W (Proc.devRef .tc main_arg1) = W (Proc.devRef .tc main_arg1) := by
  after_results

theorem pre1_arg1 (d : Dev nD) : Vpre1 m d (Proc.devRef .tc main_arg1) = m (d, Proc.devRef .tc main_arg1) := by
  unfold Vpre1
  rw [hops1_arg1, post0_arg1]

theorem post1_arg1 (d : Dev nD) : Vpost1 m d (Proc.devRef .tc main_arg1) = m (d, Proc.devRef .tc main_arg1) := by
  unfold Vpost1
  rw [Function.update_of_ne (devRef_ne_of_ne (by decide)), pre1_arg1]

theorem hops2_arg1 (W : Valuation τ sig (Elt F)) : after hops2 W (Proc.devRef .tc main_arg1) = W (Proc.devRef .tc main_arg1) := by
  after_results

theorem pre2_arg1 (d : Dev nD) : Vpre2 m d (Proc.devRef .tc main_arg1) = m (d, Proc.devRef .tc main_arg1) := by
  unfold Vpre2
  rw [hops2_arg1, post1_arg1]

theorem post2_arg1 (d : Dev nD) : Vpost2 m d (Proc.devRef .tc main_arg1) = m (d, Proc.devRef .tc main_arg1) := by
  unfold Vpost2
  rw [Function.update_of_ne (devRef_ne_of_ne (by decide)), pre2_arg1]

theorem hops3_arg1 (W : Valuation τ sig (Elt F)) : after hops3 W (Proc.devRef .tc main_arg1) = W (Proc.devRef .tc main_arg1) := by
  after_results

theorem pre3_arg1 (d : Dev nD) : Vpre3 m d (Proc.devRef .tc main_arg1) = m (d, Proc.devRef .tc main_arg1) := by
  unfold Vpre3
  rw [hops3_arg1, post2_arg1]

theorem post3_arg1 (d : Dev nD) : Vpost3 m d (Proc.devRef .tc main_arg1) = m (d, Proc.devRef .tc main_arg1) := by
  unfold Vpost3
  rw [Function.update_of_ne (devRef_ne_of_ne (by decide)), pre3_arg1]

theorem hops4_arg1 (W : Valuation τ sig (Elt F)) : after hops4 W (Proc.devRef .tc main_arg1) = W (Proc.devRef .tc main_arg1) := by
  after_results

theorem pre4_arg1 (d : Dev nD) : Vpre4 m d (Proc.devRef .tc main_arg1) = m (d, Proc.devRef .tc main_arg1) := by
  unfold Vpre4
  rw [hops4_arg1, post3_arg1]

theorem post4_arg1 (d : Dev nD) : Vpost4 m d (Proc.devRef .tc main_arg1) = m (d, Proc.devRef .tc main_arg1) := by
  unfold Vpost4
  rw [Function.update_of_ne (devRef_ne_of_ne (by decide)), pre4_arg1]

theorem hops5_arg1 (W : Valuation τ sig (Elt F)) : after hops5 W (Proc.devRef .tc main_arg1) = W (Proc.devRef .tc main_arg1) := by
  after_results

theorem pre5_arg1 (d : Dev nD) : Vpre5 m d (Proc.devRef .tc main_arg1) = m (d, Proc.devRef .tc main_arg1) := by
  unfold Vpre5
  rw [hops5_arg1, post4_arg1]

theorem post5_arg1 (d : Dev nD) : Vpost5 m d (Proc.devRef .tc main_arg1) = m (d, Proc.devRef .tc main_arg1) := by
  unfold Vpost5
  rw [Function.update_of_ne (devRef_ne_of_ne (by decide)), pre5_arg1]

theorem hops6_arg1 (W : Valuation τ sig (Elt F)) : after hops6 W (Proc.devRef .tc main_arg1) = W (Proc.devRef .tc main_arg1) := by
  after_results

theorem pre6_arg1 (d : Dev nD) : Vpre6 m d (Proc.devRef .tc main_arg1) = m (d, Proc.devRef .tc main_arg1) := by
  unfold Vpre6
  rw [hops6_arg1, post5_arg1]

theorem post6_arg1 (d : Dev nD) : Vpost6 m d (Proc.devRef .tc main_arg1) = m (d, Proc.devRef .tc main_arg1) := by
  unfold Vpost6
  rw [Function.update_of_ne (devRef_ne_of_ne (by decide)), pre6_arg1]

theorem hops7_arg1 (W : Valuation τ sig (Elt F)) : after hops7 W (Proc.devRef .tc main_arg1) = W (Proc.devRef .tc main_arg1) := by
  after_results

theorem pre7_arg1 (d : Dev nD) : Vpre7 m d (Proc.devRef .tc main_arg1) = m (d, Proc.devRef .tc main_arg1) := by
  unfold Vpre7
  rw [hops7_arg1, post6_arg1]

theorem post7_arg1 (d : Dev nD) : Vpost7 m d (Proc.devRef .tc main_arg1) = m (d, Proc.devRef .tc main_arg1) := by
  unfold Vpost7
  rw [Function.update_of_ne (devRef_ne_of_ne (by decide)), pre7_arg1]

/-! ## main_arg4 -/

theorem pre0_arg4 (d : Dev nD) : Vpre0 m d (Proc.devRef .tc main_arg4) = m (d, Proc.devRef .tc main_arg4) := by
  unfold Vpre0
  after_results
  rfl

theorem post0_arg4 (d : Dev nD) : Vpost0 m d (Proc.devRef .tc main_arg4) = m (d, Proc.devRef .tc main_arg4) := by
  unfold Vpost0
  rw [Function.update_of_ne (devRef_ne_of_ne (by decide)), pre0_arg4]

theorem hops1_arg4 (W : Valuation τ sig (Elt F)) : after hops1 W (Proc.devRef .tc main_arg4) = W (Proc.devRef .tc main_arg4) := by
  after_results

theorem pre1_arg4 (d : Dev nD) : Vpre1 m d (Proc.devRef .tc main_arg4) = m (d, Proc.devRef .tc main_arg4) := by
  unfold Vpre1
  rw [hops1_arg4, post0_arg4]

theorem post1_arg4 (d : Dev nD) : Vpost1 m d (Proc.devRef .tc main_arg4) = m (d, Proc.devRef .tc main_arg4) := by
  unfold Vpost1
  rw [Function.update_of_ne (devRef_ne_of_ne (by decide)), pre1_arg4]

theorem hops2_arg4 (W : Valuation τ sig (Elt F)) : after hops2 W (Proc.devRef .tc main_arg4) = W (Proc.devRef .tc main_arg4) := by
  after_results

theorem pre2_arg4 (d : Dev nD) : Vpre2 m d (Proc.devRef .tc main_arg4) = m (d, Proc.devRef .tc main_arg4) := by
  unfold Vpre2
  rw [hops2_arg4, post1_arg4]

theorem post2_arg4 (d : Dev nD) : Vpost2 m d (Proc.devRef .tc main_arg4) = m (d, Proc.devRef .tc main_arg4) := by
  unfold Vpost2
  rw [Function.update_of_ne (devRef_ne_of_ne (by decide)), pre2_arg4]

theorem hops3_arg4 (W : Valuation τ sig (Elt F)) : after hops3 W (Proc.devRef .tc main_arg4) = W (Proc.devRef .tc main_arg4) := by
  after_results

theorem pre3_arg4 (d : Dev nD) : Vpre3 m d (Proc.devRef .tc main_arg4) = m (d, Proc.devRef .tc main_arg4) := by
  unfold Vpre3
  rw [hops3_arg4, post2_arg4]

theorem post3_arg4 (d : Dev nD) : Vpost3 m d (Proc.devRef .tc main_arg4) = m (d, Proc.devRef .tc main_arg4) := by
  unfold Vpost3
  rw [Function.update_of_ne (devRef_ne_of_ne (by decide)), pre3_arg4]

theorem hops4_arg4 (W : Valuation τ sig (Elt F)) : after hops4 W (Proc.devRef .tc main_arg4) = W (Proc.devRef .tc main_arg4) := by
  after_results

theorem pre4_arg4 (d : Dev nD) : Vpre4 m d (Proc.devRef .tc main_arg4) = m (d, Proc.devRef .tc main_arg4) := by
  unfold Vpre4
  rw [hops4_arg4, post3_arg4]

theorem post4_arg4 (d : Dev nD) : Vpost4 m d (Proc.devRef .tc main_arg4) = m (d, Proc.devRef .tc main_arg4) := by
  unfold Vpost4
  rw [Function.update_of_ne (devRef_ne_of_ne (by decide)), pre4_arg4]

theorem hops5_arg4 (W : Valuation τ sig (Elt F)) : after hops5 W (Proc.devRef .tc main_arg4) = W (Proc.devRef .tc main_arg4) := by
  after_results

theorem pre5_arg4 (d : Dev nD) : Vpre5 m d (Proc.devRef .tc main_arg4) = m (d, Proc.devRef .tc main_arg4) := by
  unfold Vpre5
  rw [hops5_arg4, post4_arg4]

theorem post5_arg4 (d : Dev nD) : Vpost5 m d (Proc.devRef .tc main_arg4) = m (d, Proc.devRef .tc main_arg4) := by
  unfold Vpost5
  rw [Function.update_of_ne (devRef_ne_of_ne (by decide)), pre5_arg4]

theorem hops6_arg4 (W : Valuation τ sig (Elt F)) : after hops6 W (Proc.devRef .tc main_arg4) = W (Proc.devRef .tc main_arg4) := by
  after_results

theorem pre6_arg4 (d : Dev nD) : Vpre6 m d (Proc.devRef .tc main_arg4) = m (d, Proc.devRef .tc main_arg4) := by
  unfold Vpre6
  rw [hops6_arg4, post5_arg4]

theorem post6_arg4 (d : Dev nD) : Vpost6 m d (Proc.devRef .tc main_arg4) = m (d, Proc.devRef .tc main_arg4) := by
  unfold Vpost6
  rw [Function.update_of_ne (devRef_ne_of_ne (by decide)), pre6_arg4]

theorem hops7_arg4 (W : Valuation τ sig (Elt F)) : after hops7 W (Proc.devRef .tc main_arg4) = W (Proc.devRef .tc main_arg4) := by
  after_results

theorem pre7_arg4 (d : Dev nD) : Vpre7 m d (Proc.devRef .tc main_arg4) = m (d, Proc.devRef .tc main_arg4) := by
  unfold Vpre7
  rw [hops7_arg4, post6_arg4]

theorem post7_arg4 (d : Dev nD) : Vpost7 m d (Proc.devRef .tc main_arg4) = m (d, Proc.devRef .tc main_arg4) := by
  unfold Vpost7
  rw [Function.update_of_ne (devRef_ne_of_ne (by decide)), pre7_arg4]

/-! ## main_arg5 -/

theorem pre0_arg5 (d : Dev nD) : Vpre0 m d (Proc.devRef .tc main_arg5) = m (d, Proc.devRef .tc main_arg5) := by
  unfold Vpre0
  after_results
  rfl

theorem post0_arg5 (d : Dev nD) : Vpost0 m d (Proc.devRef .tc main_arg5) = m (d, Proc.devRef .tc main_arg5) := by
  unfold Vpost0
  rw [Function.update_of_ne (devRef_ne_of_ne (by decide)), pre0_arg5]

theorem hops1_arg5 (W : Valuation τ sig (Elt F)) : after hops1 W (Proc.devRef .tc main_arg5) = W (Proc.devRef .tc main_arg5) := by
  after_results

theorem pre1_arg5 (d : Dev nD) : Vpre1 m d (Proc.devRef .tc main_arg5) = m (d, Proc.devRef .tc main_arg5) := by
  unfold Vpre1
  rw [hops1_arg5, post0_arg5]

theorem post1_arg5 (d : Dev nD) : Vpost1 m d (Proc.devRef .tc main_arg5) = m (d, Proc.devRef .tc main_arg5) := by
  unfold Vpost1
  rw [Function.update_of_ne (devRef_ne_of_ne (by decide)), pre1_arg5]

theorem hops2_arg5 (W : Valuation τ sig (Elt F)) : after hops2 W (Proc.devRef .tc main_arg5) = W (Proc.devRef .tc main_arg5) := by
  after_results

theorem pre2_arg5 (d : Dev nD) : Vpre2 m d (Proc.devRef .tc main_arg5) = m (d, Proc.devRef .tc main_arg5) := by
  unfold Vpre2
  rw [hops2_arg5, post1_arg5]

theorem post2_arg5 (d : Dev nD) : Vpost2 m d (Proc.devRef .tc main_arg5) = m (d, Proc.devRef .tc main_arg5) := by
  unfold Vpost2
  rw [Function.update_of_ne (devRef_ne_of_ne (by decide)), pre2_arg5]

theorem hops3_arg5 (W : Valuation τ sig (Elt F)) : after hops3 W (Proc.devRef .tc main_arg5) = W (Proc.devRef .tc main_arg5) := by
  after_results

theorem pre3_arg5 (d : Dev nD) : Vpre3 m d (Proc.devRef .tc main_arg5) = m (d, Proc.devRef .tc main_arg5) := by
  unfold Vpre3
  rw [hops3_arg5, post2_arg5]

theorem post3_arg5 (d : Dev nD) : Vpost3 m d (Proc.devRef .tc main_arg5) = m (d, Proc.devRef .tc main_arg5) := by
  unfold Vpost3
  rw [Function.update_of_ne (devRef_ne_of_ne (by decide)), pre3_arg5]

theorem hops4_arg5 (W : Valuation τ sig (Elt F)) : after hops4 W (Proc.devRef .tc main_arg5) = W (Proc.devRef .tc main_arg5) := by
  after_results

theorem pre4_arg5 (d : Dev nD) : Vpre4 m d (Proc.devRef .tc main_arg5) = m (d, Proc.devRef .tc main_arg5) := by
  unfold Vpre4
  rw [hops4_arg5, post3_arg5]

theorem post4_arg5 (d : Dev nD) : Vpost4 m d (Proc.devRef .tc main_arg5) = m (d, Proc.devRef .tc main_arg5) := by
  unfold Vpost4
  rw [Function.update_of_ne (devRef_ne_of_ne (by decide)), pre4_arg5]

theorem hops5_arg5 (W : Valuation τ sig (Elt F)) : after hops5 W (Proc.devRef .tc main_arg5) = W (Proc.devRef .tc main_arg5) := by
  after_results

theorem pre5_arg5 (d : Dev nD) : Vpre5 m d (Proc.devRef .tc main_arg5) = m (d, Proc.devRef .tc main_arg5) := by
  unfold Vpre5
  rw [hops5_arg5, post4_arg5]

theorem post5_arg5 (d : Dev nD) : Vpost5 m d (Proc.devRef .tc main_arg5) = m (d, Proc.devRef .tc main_arg5) := by
  unfold Vpost5
  rw [Function.update_of_ne (devRef_ne_of_ne (by decide)), pre5_arg5]

theorem hops6_arg5 (W : Valuation τ sig (Elt F)) : after hops6 W (Proc.devRef .tc main_arg5) = W (Proc.devRef .tc main_arg5) := by
  after_results

theorem pre6_arg5 (d : Dev nD) : Vpre6 m d (Proc.devRef .tc main_arg5) = m (d, Proc.devRef .tc main_arg5) := by
  unfold Vpre6
  rw [hops6_arg5, post5_arg5]

theorem post6_arg5 (d : Dev nD) : Vpost6 m d (Proc.devRef .tc main_arg5) = m (d, Proc.devRef .tc main_arg5) := by
  unfold Vpost6
  rw [Function.update_of_ne (devRef_ne_of_ne (by decide)), pre6_arg5]

theorem hops7_arg5 (W : Valuation τ sig (Elt F)) : after hops7 W (Proc.devRef .tc main_arg5) = W (Proc.devRef .tc main_arg5) := by
  after_results

theorem pre7_arg5 (d : Dev nD) : Vpre7 m d (Proc.devRef .tc main_arg5) = m (d, Proc.devRef .tc main_arg5) := by
  unfold Vpre7
  rw [hops7_arg5, post6_arg5]

theorem post7_arg5 (d : Dev nD) : Vpost7 m d (Proc.devRef .tc main_arg5) = m (d, Proc.devRef .tc main_arg5) := by
  unfold Vpost7
  rw [Function.update_of_ne (devRef_ne_of_ne (by decide)), pre7_arg5]

/-! ## main_arg6 -/

theorem pre0_arg6 (d : Dev nD) : Vpre0 m d (Proc.devRef .tc main_arg6) = m (d, Proc.devRef .tc main_arg6) := by
  unfold Vpre0
  after_results
  rfl

theorem post0_arg6 (d : Dev nD) : Vpost0 m d (Proc.devRef .tc main_arg6) = m (d, Proc.devRef .tc main_arg6) := by
  unfold Vpost0
  rw [Function.update_of_ne (devRef_ne_of_ne (by decide)), pre0_arg6]

theorem hops1_arg6 (W : Valuation τ sig (Elt F)) : after hops1 W (Proc.devRef .tc main_arg6) = W (Proc.devRef .tc main_arg6) := by
  after_results

theorem pre1_arg6 (d : Dev nD) : Vpre1 m d (Proc.devRef .tc main_arg6) = m (d, Proc.devRef .tc main_arg6) := by
  unfold Vpre1
  rw [hops1_arg6, post0_arg6]

theorem post1_arg6 (d : Dev nD) : Vpost1 m d (Proc.devRef .tc main_arg6) = m (d, Proc.devRef .tc main_arg6) := by
  unfold Vpost1
  rw [Function.update_of_ne (devRef_ne_of_ne (by decide)), pre1_arg6]

theorem hops2_arg6 (W : Valuation τ sig (Elt F)) : after hops2 W (Proc.devRef .tc main_arg6) = W (Proc.devRef .tc main_arg6) := by
  after_results

theorem pre2_arg6 (d : Dev nD) : Vpre2 m d (Proc.devRef .tc main_arg6) = m (d, Proc.devRef .tc main_arg6) := by
  unfold Vpre2
  rw [hops2_arg6, post1_arg6]

theorem post2_arg6 (d : Dev nD) : Vpost2 m d (Proc.devRef .tc main_arg6) = m (d, Proc.devRef .tc main_arg6) := by
  unfold Vpost2
  rw [Function.update_of_ne (devRef_ne_of_ne (by decide)), pre2_arg6]

theorem hops3_arg6 (W : Valuation τ sig (Elt F)) : after hops3 W (Proc.devRef .tc main_arg6) = W (Proc.devRef .tc main_arg6) := by
  after_results

theorem pre3_arg6 (d : Dev nD) : Vpre3 m d (Proc.devRef .tc main_arg6) = m (d, Proc.devRef .tc main_arg6) := by
  unfold Vpre3
  rw [hops3_arg6, post2_arg6]

theorem post3_arg6 (d : Dev nD) : Vpost3 m d (Proc.devRef .tc main_arg6) = m (d, Proc.devRef .tc main_arg6) := by
  unfold Vpost3
  rw [Function.update_of_ne (devRef_ne_of_ne (by decide)), pre3_arg6]

theorem hops4_arg6 (W : Valuation τ sig (Elt F)) : after hops4 W (Proc.devRef .tc main_arg6) = W (Proc.devRef .tc main_arg6) := by
  after_results

theorem pre4_arg6 (d : Dev nD) : Vpre4 m d (Proc.devRef .tc main_arg6) = m (d, Proc.devRef .tc main_arg6) := by
  unfold Vpre4
  rw [hops4_arg6, post3_arg6]

theorem post4_arg6 (d : Dev nD) : Vpost4 m d (Proc.devRef .tc main_arg6) = m (d, Proc.devRef .tc main_arg6) := by
  unfold Vpost4
  rw [Function.update_of_ne (devRef_ne_of_ne (by decide)), pre4_arg6]

theorem hops5_arg6 (W : Valuation τ sig (Elt F)) : after hops5 W (Proc.devRef .tc main_arg6) = W (Proc.devRef .tc main_arg6) := by
  after_results

theorem pre5_arg6 (d : Dev nD) : Vpre5 m d (Proc.devRef .tc main_arg6) = m (d, Proc.devRef .tc main_arg6) := by
  unfold Vpre5
  rw [hops5_arg6, post4_arg6]

theorem post5_arg6 (d : Dev nD) : Vpost5 m d (Proc.devRef .tc main_arg6) = m (d, Proc.devRef .tc main_arg6) := by
  unfold Vpost5
  rw [Function.update_of_ne (devRef_ne_of_ne (by decide)), pre5_arg6]

theorem hops6_arg6 (W : Valuation τ sig (Elt F)) : after hops6 W (Proc.devRef .tc main_arg6) = W (Proc.devRef .tc main_arg6) := by
  after_results

theorem pre6_arg6 (d : Dev nD) : Vpre6 m d (Proc.devRef .tc main_arg6) = m (d, Proc.devRef .tc main_arg6) := by
  unfold Vpre6
  rw [hops6_arg6, post5_arg6]

theorem post6_arg6 (d : Dev nD) : Vpost6 m d (Proc.devRef .tc main_arg6) = m (d, Proc.devRef .tc main_arg6) := by
  unfold Vpost6
  rw [Function.update_of_ne (devRef_ne_of_ne (by decide)), pre6_arg6]

theorem hops7_arg6 (W : Valuation τ sig (Elt F)) : after hops7 W (Proc.devRef .tc main_arg6) = W (Proc.devRef .tc main_arg6) := by
  after_results

theorem pre7_arg6 (d : Dev nD) : Vpre7 m d (Proc.devRef .tc main_arg6) = m (d, Proc.devRef .tc main_arg6) := by
  unfold Vpre7
  rw [hops7_arg6, post6_arg6]

theorem post7_arg6 (d : Dev nD) : Vpost7 m d (Proc.devRef .tc main_arg6) = m (d, Proc.devRef .tc main_arg6) := by
  unfold Vpost7
  rw [Function.update_of_ne (devRef_ne_of_ne (by decide)), pre7_arg6]

/-! ## main_arg7 -/

theorem pre0_arg7 (d : Dev nD) : Vpre0 m d (Proc.devRef .tc main_arg7) = m (d, Proc.devRef .tc main_arg7) := by
  unfold Vpre0
  after_results
  rfl

theorem post0_arg7 (d : Dev nD) : Vpost0 m d (Proc.devRef .tc main_arg7) = m (d, Proc.devRef .tc main_arg7) := by
  unfold Vpost0
  rw [Function.update_of_ne (devRef_ne_of_ne (by decide)), pre0_arg7]

theorem hops1_arg7 (W : Valuation τ sig (Elt F)) : after hops1 W (Proc.devRef .tc main_arg7) = W (Proc.devRef .tc main_arg7) := by
  after_results

theorem pre1_arg7 (d : Dev nD) : Vpre1 m d (Proc.devRef .tc main_arg7) = m (d, Proc.devRef .tc main_arg7) := by
  unfold Vpre1
  rw [hops1_arg7, post0_arg7]

theorem post1_arg7 (d : Dev nD) : Vpost1 m d (Proc.devRef .tc main_arg7) = m (d, Proc.devRef .tc main_arg7) := by
  unfold Vpost1
  rw [Function.update_of_ne (devRef_ne_of_ne (by decide)), pre1_arg7]

theorem hops2_arg7 (W : Valuation τ sig (Elt F)) : after hops2 W (Proc.devRef .tc main_arg7) = W (Proc.devRef .tc main_arg7) := by
  after_results

theorem pre2_arg7 (d : Dev nD) : Vpre2 m d (Proc.devRef .tc main_arg7) = m (d, Proc.devRef .tc main_arg7) := by
  unfold Vpre2
  rw [hops2_arg7, post1_arg7]

theorem post2_arg7 (d : Dev nD) : Vpost2 m d (Proc.devRef .tc main_arg7) = m (d, Proc.devRef .tc main_arg7) := by
  unfold Vpost2
  rw [Function.update_of_ne (devRef_ne_of_ne (by decide)), pre2_arg7]

theorem hops3_arg7 (W : Valuation τ sig (Elt F)) : after hops3 W (Proc.devRef .tc main_arg7) = W (Proc.devRef .tc main_arg7) := by
  after_results

theorem pre3_arg7 (d : Dev nD) : Vpre3 m d (Proc.devRef .tc main_arg7) = m (d, Proc.devRef .tc main_arg7) := by
  unfold Vpre3
  rw [hops3_arg7, post2_arg7]

theorem post3_arg7 (d : Dev nD) : Vpost3 m d (Proc.devRef .tc main_arg7) = m (d, Proc.devRef .tc main_arg7) := by
  unfold Vpost3
  rw [Function.update_of_ne (devRef_ne_of_ne (by decide)), pre3_arg7]

theorem hops4_arg7 (W : Valuation τ sig (Elt F)) : after hops4 W (Proc.devRef .tc main_arg7) = W (Proc.devRef .tc main_arg7) := by
  after_results

theorem pre4_arg7 (d : Dev nD) : Vpre4 m d (Proc.devRef .tc main_arg7) = m (d, Proc.devRef .tc main_arg7) := by
  unfold Vpre4
  rw [hops4_arg7, post3_arg7]

theorem post4_arg7 (d : Dev nD) : Vpost4 m d (Proc.devRef .tc main_arg7) = m (d, Proc.devRef .tc main_arg7) := by
  unfold Vpost4
  rw [Function.update_of_ne (devRef_ne_of_ne (by decide)), pre4_arg7]

theorem hops5_arg7 (W : Valuation τ sig (Elt F)) : after hops5 W (Proc.devRef .tc main_arg7) = W (Proc.devRef .tc main_arg7) := by
  after_results

theorem pre5_arg7 (d : Dev nD) : Vpre5 m d (Proc.devRef .tc main_arg7) = m (d, Proc.devRef .tc main_arg7) := by
  unfold Vpre5
  rw [hops5_arg7, post4_arg7]

theorem post5_arg7 (d : Dev nD) : Vpost5 m d (Proc.devRef .tc main_arg7) = m (d, Proc.devRef .tc main_arg7) := by
  unfold Vpost5
  rw [Function.update_of_ne (devRef_ne_of_ne (by decide)), pre5_arg7]

theorem hops6_arg7 (W : Valuation τ sig (Elt F)) : after hops6 W (Proc.devRef .tc main_arg7) = W (Proc.devRef .tc main_arg7) := by
  after_results

theorem pre6_arg7 (d : Dev nD) : Vpre6 m d (Proc.devRef .tc main_arg7) = m (d, Proc.devRef .tc main_arg7) := by
  unfold Vpre6
  rw [hops6_arg7, post5_arg7]

theorem post6_arg7 (d : Dev nD) : Vpost6 m d (Proc.devRef .tc main_arg7) = m (d, Proc.devRef .tc main_arg7) := by
  unfold Vpost6
  rw [Function.update_of_ne (devRef_ne_of_ne (by decide)), pre6_arg7]

theorem hops7_arg7 (W : Valuation τ sig (Elt F)) : after hops7 W (Proc.devRef .tc main_arg7) = W (Proc.devRef .tc main_arg7) := by
  after_results

theorem pre7_arg7 (d : Dev nD) : Vpre7 m d (Proc.devRef .tc main_arg7) = m (d, Proc.devRef .tc main_arg7) := by
  unfold Vpre7
  rw [hops7_arg7, post6_arg7]

theorem post7_arg7 (d : Dev nD) : Vpost7 m d (Proc.devRef .tc main_arg7) = m (d, Proc.devRef .tc main_arg7) := by
  unfold Vpost7
  rw [Function.update_of_ne (devRef_ne_of_ne (by decide)), pre7_arg7]

/-! ## The two tables -/

theorem post7_arg2 (d : Dev nD) : Vpost7 m d (Proc.devRef .tc main_arg2) = m (d, Proc.devRef .tc main_arg2) := by
  unfold Vpost7
  rw [Function.update_of_ne (devRef_ne_of_ne (by decide))]
  exact Vpre7_T m d

theorem post7_arg3 (d : Dev nD) : Vpost7 m d (Proc.devRef .tc main_arg3) = m (d, Proc.devRef .tc main_arg3) := by
  unfold Vpost7
  rw [Function.update_of_ne (devRef_ne_of_ne (by decide))]
  exact Vpre7_K m d

/-! ## The calls' results: call p's result buffer keeps the gathered array through the later calls -/

theorem post0_O0 (d : Dev nD) : Vpost0 m d (Proc.devRef .tc main_v9) = gath (ids0 m d) (cids0 m d) (idt m d) (cat m d) := by
  unfold Vpost0
  exact Function.update_self _ _ _

theorem hops1_O0 (W : Valuation τ sig (Elt F)) : after hops1 W (Proc.devRef .tc main_v9) = W (Proc.devRef .tc main_v9) := by
  after_results

theorem pre1_O0 (d : Dev nD) : Vpre1 m d (Proc.devRef .tc main_v9) = gath (ids0 m d) (cids0 m d) (idt m d) (cat m d) := by
  unfold Vpre1
  rw [hops1_O0, post0_O0]

theorem post1_O0 (d : Dev nD) : Vpost1 m d (Proc.devRef .tc main_v9) = gath (ids0 m d) (cids0 m d) (idt m d) (cat m d) := by
  unfold Vpost1
  rw [Function.update_of_ne (devRef_ne_of_ne (by decide)), pre1_O0]

theorem hops2_O0 (W : Valuation τ sig (Elt F)) : after hops2 W (Proc.devRef .tc main_v9) = W (Proc.devRef .tc main_v9) := by
  after_results

theorem pre2_O0 (d : Dev nD) : Vpre2 m d (Proc.devRef .tc main_v9) = gath (ids0 m d) (cids0 m d) (idt m d) (cat m d) := by
  unfold Vpre2
  rw [hops2_O0, post1_O0]

theorem post2_O0 (d : Dev nD) : Vpost2 m d (Proc.devRef .tc main_v9) = gath (ids0 m d) (cids0 m d) (idt m d) (cat m d) := by
  unfold Vpost2
  rw [Function.update_of_ne (devRef_ne_of_ne (by decide)), pre2_O0]

theorem hops3_O0 (W : Valuation τ sig (Elt F)) : after hops3 W (Proc.devRef .tc main_v9) = W (Proc.devRef .tc main_v9) := by
  after_results

theorem pre3_O0 (d : Dev nD) : Vpre3 m d (Proc.devRef .tc main_v9) = gath (ids0 m d) (cids0 m d) (idt m d) (cat m d) := by
  unfold Vpre3
  rw [hops3_O0, post2_O0]

theorem post3_O0 (d : Dev nD) : Vpost3 m d (Proc.devRef .tc main_v9) = gath (ids0 m d) (cids0 m d) (idt m d) (cat m d) := by
  unfold Vpost3
  rw [Function.update_of_ne (devRef_ne_of_ne (by decide)), pre3_O0]

theorem hops4_O0 (W : Valuation τ sig (Elt F)) : after hops4 W (Proc.devRef .tc main_v9) = W (Proc.devRef .tc main_v9) := by
  after_results

theorem pre4_O0 (d : Dev nD) : Vpre4 m d (Proc.devRef .tc main_v9) = gath (ids0 m d) (cids0 m d) (idt m d) (cat m d) := by
  unfold Vpre4
  rw [hops4_O0, post3_O0]

theorem post4_O0 (d : Dev nD) : Vpost4 m d (Proc.devRef .tc main_v9) = gath (ids0 m d) (cids0 m d) (idt m d) (cat m d) := by
  unfold Vpost4
  rw [Function.update_of_ne (devRef_ne_of_ne (by decide)), pre4_O0]

theorem hops5_O0 (W : Valuation τ sig (Elt F)) : after hops5 W (Proc.devRef .tc main_v9) = W (Proc.devRef .tc main_v9) := by
  after_results

theorem pre5_O0 (d : Dev nD) : Vpre5 m d (Proc.devRef .tc main_v9) = gath (ids0 m d) (cids0 m d) (idt m d) (cat m d) := by
  unfold Vpre5
  rw [hops5_O0, post4_O0]

theorem post5_O0 (d : Dev nD) : Vpost5 m d (Proc.devRef .tc main_v9) = gath (ids0 m d) (cids0 m d) (idt m d) (cat m d) := by
  unfold Vpost5
  rw [Function.update_of_ne (devRef_ne_of_ne (by decide)), pre5_O0]

theorem hops6_O0 (W : Valuation τ sig (Elt F)) : after hops6 W (Proc.devRef .tc main_v9) = W (Proc.devRef .tc main_v9) := by
  after_results

theorem pre6_O0 (d : Dev nD) : Vpre6 m d (Proc.devRef .tc main_v9) = gath (ids0 m d) (cids0 m d) (idt m d) (cat m d) := by
  unfold Vpre6
  rw [hops6_O0, post5_O0]

theorem post6_O0 (d : Dev nD) : Vpost6 m d (Proc.devRef .tc main_v9) = gath (ids0 m d) (cids0 m d) (idt m d) (cat m d) := by
  unfold Vpost6
  rw [Function.update_of_ne (devRef_ne_of_ne (by decide)), pre6_O0]

theorem hops7_O0 (W : Valuation τ sig (Elt F)) : after hops7 W (Proc.devRef .tc main_v9) = W (Proc.devRef .tc main_v9) := by
  after_results

theorem pre7_O0 (d : Dev nD) : Vpre7 m d (Proc.devRef .tc main_v9) = gath (ids0 m d) (cids0 m d) (idt m d) (cat m d) := by
  unfold Vpre7
  rw [hops7_O0, post6_O0]

theorem post7_O0 (d : Dev nD) : Vpost7 m d (Proc.devRef .tc main_v9) = gath (ids0 m d) (cids0 m d) (idt m d) (cat m d) := by
  unfold Vpost7
  rw [Function.update_of_ne (devRef_ne_of_ne (by decide)), pre7_O0]

theorem post1_O1 (d : Dev nD) : Vpost1 m d (Proc.devRef .tc main_v14) = gath (ids1 m d) (cids1 m d) (idt m d) (cat m d) := by
  unfold Vpost1
  exact Function.update_self _ _ _

theorem hops2_O1 (W : Valuation τ sig (Elt F)) : after hops2 W (Proc.devRef .tc main_v14) = W (Proc.devRef .tc main_v14) := by
  after_results

theorem pre2_O1 (d : Dev nD) : Vpre2 m d (Proc.devRef .tc main_v14) = gath (ids1 m d) (cids1 m d) (idt m d) (cat m d) := by
  unfold Vpre2
  rw [hops2_O1, post1_O1]

theorem post2_O1 (d : Dev nD) : Vpost2 m d (Proc.devRef .tc main_v14) = gath (ids1 m d) (cids1 m d) (idt m d) (cat m d) := by
  unfold Vpost2
  rw [Function.update_of_ne (devRef_ne_of_ne (by decide)), pre2_O1]

theorem hops3_O1 (W : Valuation τ sig (Elt F)) : after hops3 W (Proc.devRef .tc main_v14) = W (Proc.devRef .tc main_v14) := by
  after_results

theorem pre3_O1 (d : Dev nD) : Vpre3 m d (Proc.devRef .tc main_v14) = gath (ids1 m d) (cids1 m d) (idt m d) (cat m d) := by
  unfold Vpre3
  rw [hops3_O1, post2_O1]

theorem post3_O1 (d : Dev nD) : Vpost3 m d (Proc.devRef .tc main_v14) = gath (ids1 m d) (cids1 m d) (idt m d) (cat m d) := by
  unfold Vpost3
  rw [Function.update_of_ne (devRef_ne_of_ne (by decide)), pre3_O1]

theorem hops4_O1 (W : Valuation τ sig (Elt F)) : after hops4 W (Proc.devRef .tc main_v14) = W (Proc.devRef .tc main_v14) := by
  after_results

theorem pre4_O1 (d : Dev nD) : Vpre4 m d (Proc.devRef .tc main_v14) = gath (ids1 m d) (cids1 m d) (idt m d) (cat m d) := by
  unfold Vpre4
  rw [hops4_O1, post3_O1]

theorem post4_O1 (d : Dev nD) : Vpost4 m d (Proc.devRef .tc main_v14) = gath (ids1 m d) (cids1 m d) (idt m d) (cat m d) := by
  unfold Vpost4
  rw [Function.update_of_ne (devRef_ne_of_ne (by decide)), pre4_O1]

theorem hops5_O1 (W : Valuation τ sig (Elt F)) : after hops5 W (Proc.devRef .tc main_v14) = W (Proc.devRef .tc main_v14) := by
  after_results

theorem pre5_O1 (d : Dev nD) : Vpre5 m d (Proc.devRef .tc main_v14) = gath (ids1 m d) (cids1 m d) (idt m d) (cat m d) := by
  unfold Vpre5
  rw [hops5_O1, post4_O1]

theorem post5_O1 (d : Dev nD) : Vpost5 m d (Proc.devRef .tc main_v14) = gath (ids1 m d) (cids1 m d) (idt m d) (cat m d) := by
  unfold Vpost5
  rw [Function.update_of_ne (devRef_ne_of_ne (by decide)), pre5_O1]

theorem hops6_O1 (W : Valuation τ sig (Elt F)) : after hops6 W (Proc.devRef .tc main_v14) = W (Proc.devRef .tc main_v14) := by
  after_results

theorem pre6_O1 (d : Dev nD) : Vpre6 m d (Proc.devRef .tc main_v14) = gath (ids1 m d) (cids1 m d) (idt m d) (cat m d) := by
  unfold Vpre6
  rw [hops6_O1, post5_O1]

theorem post6_O1 (d : Dev nD) : Vpost6 m d (Proc.devRef .tc main_v14) = gath (ids1 m d) (cids1 m d) (idt m d) (cat m d) := by
  unfold Vpost6
  rw [Function.update_of_ne (devRef_ne_of_ne (by decide)), pre6_O1]

theorem hops7_O1 (W : Valuation τ sig (Elt F)) : after hops7 W (Proc.devRef .tc main_v14) = W (Proc.devRef .tc main_v14) := by
  after_results

theorem pre7_O1 (d : Dev nD) : Vpre7 m d (Proc.devRef .tc main_v14) = gath (ids1 m d) (cids1 m d) (idt m d) (cat m d) := by
  unfold Vpre7
  rw [hops7_O1, post6_O1]

theorem post7_O1 (d : Dev nD) : Vpost7 m d (Proc.devRef .tc main_v14) = gath (ids1 m d) (cids1 m d) (idt m d) (cat m d) := by
  unfold Vpost7
  rw [Function.update_of_ne (devRef_ne_of_ne (by decide)), pre7_O1]

theorem post2_O2 (d : Dev nD) : Vpost2 m d (Proc.devRef .tc main_v19) = gath (ids2 m d) (cids2 m d) (idt m d) (cat m d) := by
  unfold Vpost2
  exact Function.update_self _ _ _

theorem hops3_O2 (W : Valuation τ sig (Elt F)) : after hops3 W (Proc.devRef .tc main_v19) = W (Proc.devRef .tc main_v19) := by
  after_results

theorem pre3_O2 (d : Dev nD) : Vpre3 m d (Proc.devRef .tc main_v19) = gath (ids2 m d) (cids2 m d) (idt m d) (cat m d) := by
  unfold Vpre3
  rw [hops3_O2, post2_O2]

theorem post3_O2 (d : Dev nD) : Vpost3 m d (Proc.devRef .tc main_v19) = gath (ids2 m d) (cids2 m d) (idt m d) (cat m d) := by
  unfold Vpost3
  rw [Function.update_of_ne (devRef_ne_of_ne (by decide)), pre3_O2]

theorem hops4_O2 (W : Valuation τ sig (Elt F)) : after hops4 W (Proc.devRef .tc main_v19) = W (Proc.devRef .tc main_v19) := by
  after_results

theorem pre4_O2 (d : Dev nD) : Vpre4 m d (Proc.devRef .tc main_v19) = gath (ids2 m d) (cids2 m d) (idt m d) (cat m d) := by
  unfold Vpre4
  rw [hops4_O2, post3_O2]

theorem post4_O2 (d : Dev nD) : Vpost4 m d (Proc.devRef .tc main_v19) = gath (ids2 m d) (cids2 m d) (idt m d) (cat m d) := by
  unfold Vpost4
  rw [Function.update_of_ne (devRef_ne_of_ne (by decide)), pre4_O2]

theorem hops5_O2 (W : Valuation τ sig (Elt F)) : after hops5 W (Proc.devRef .tc main_v19) = W (Proc.devRef .tc main_v19) := by
  after_results

theorem pre5_O2 (d : Dev nD) : Vpre5 m d (Proc.devRef .tc main_v19) = gath (ids2 m d) (cids2 m d) (idt m d) (cat m d) := by
  unfold Vpre5
  rw [hops5_O2, post4_O2]

theorem post5_O2 (d : Dev nD) : Vpost5 m d (Proc.devRef .tc main_v19) = gath (ids2 m d) (cids2 m d) (idt m d) (cat m d) := by
  unfold Vpost5
  rw [Function.update_of_ne (devRef_ne_of_ne (by decide)), pre5_O2]

theorem hops6_O2 (W : Valuation τ sig (Elt F)) : after hops6 W (Proc.devRef .tc main_v19) = W (Proc.devRef .tc main_v19) := by
  after_results

theorem pre6_O2 (d : Dev nD) : Vpre6 m d (Proc.devRef .tc main_v19) = gath (ids2 m d) (cids2 m d) (idt m d) (cat m d) := by
  unfold Vpre6
  rw [hops6_O2, post5_O2]

theorem post6_O2 (d : Dev nD) : Vpost6 m d (Proc.devRef .tc main_v19) = gath (ids2 m d) (cids2 m d) (idt m d) (cat m d) := by
  unfold Vpost6
  rw [Function.update_of_ne (devRef_ne_of_ne (by decide)), pre6_O2]

theorem hops7_O2 (W : Valuation τ sig (Elt F)) : after hops7 W (Proc.devRef .tc main_v19) = W (Proc.devRef .tc main_v19) := by
  after_results

theorem pre7_O2 (d : Dev nD) : Vpre7 m d (Proc.devRef .tc main_v19) = gath (ids2 m d) (cids2 m d) (idt m d) (cat m d) := by
  unfold Vpre7
  rw [hops7_O2, post6_O2]

theorem post7_O2 (d : Dev nD) : Vpost7 m d (Proc.devRef .tc main_v19) = gath (ids2 m d) (cids2 m d) (idt m d) (cat m d) := by
  unfold Vpost7
  rw [Function.update_of_ne (devRef_ne_of_ne (by decide)), pre7_O2]

theorem post3_O3 (d : Dev nD) : Vpost3 m d (Proc.devRef .tc main_v24) = gath (ids3 m d) (cids3 m d) (idt m d) (cat m d) := by
  unfold Vpost3
  exact Function.update_self _ _ _

theorem hops4_O3 (W : Valuation τ sig (Elt F)) : after hops4 W (Proc.devRef .tc main_v24) = W (Proc.devRef .tc main_v24) := by
  after_results

theorem pre4_O3 (d : Dev nD) : Vpre4 m d (Proc.devRef .tc main_v24) = gath (ids3 m d) (cids3 m d) (idt m d) (cat m d) := by
  unfold Vpre4
  rw [hops4_O3, post3_O3]

theorem post4_O3 (d : Dev nD) : Vpost4 m d (Proc.devRef .tc main_v24) = gath (ids3 m d) (cids3 m d) (idt m d) (cat m d) := by
  unfold Vpost4
  rw [Function.update_of_ne (devRef_ne_of_ne (by decide)), pre4_O3]

theorem hops5_O3 (W : Valuation τ sig (Elt F)) : after hops5 W (Proc.devRef .tc main_v24) = W (Proc.devRef .tc main_v24) := by
  after_results

theorem pre5_O3 (d : Dev nD) : Vpre5 m d (Proc.devRef .tc main_v24) = gath (ids3 m d) (cids3 m d) (idt m d) (cat m d) := by
  unfold Vpre5
  rw [hops5_O3, post4_O3]

theorem post5_O3 (d : Dev nD) : Vpost5 m d (Proc.devRef .tc main_v24) = gath (ids3 m d) (cids3 m d) (idt m d) (cat m d) := by
  unfold Vpost5
  rw [Function.update_of_ne (devRef_ne_of_ne (by decide)), pre5_O3]

theorem hops6_O3 (W : Valuation τ sig (Elt F)) : after hops6 W (Proc.devRef .tc main_v24) = W (Proc.devRef .tc main_v24) := by
  after_results

theorem pre6_O3 (d : Dev nD) : Vpre6 m d (Proc.devRef .tc main_v24) = gath (ids3 m d) (cids3 m d) (idt m d) (cat m d) := by
  unfold Vpre6
  rw [hops6_O3, post5_O3]

theorem post6_O3 (d : Dev nD) : Vpost6 m d (Proc.devRef .tc main_v24) = gath (ids3 m d) (cids3 m d) (idt m d) (cat m d) := by
  unfold Vpost6
  rw [Function.update_of_ne (devRef_ne_of_ne (by decide)), pre6_O3]

theorem hops7_O3 (W : Valuation τ sig (Elt F)) : after hops7 W (Proc.devRef .tc main_v24) = W (Proc.devRef .tc main_v24) := by
  after_results

theorem pre7_O3 (d : Dev nD) : Vpre7 m d (Proc.devRef .tc main_v24) = gath (ids3 m d) (cids3 m d) (idt m d) (cat m d) := by
  unfold Vpre7
  rw [hops7_O3, post6_O3]

theorem post7_O3 (d : Dev nD) : Vpost7 m d (Proc.devRef .tc main_v24) = gath (ids3 m d) (cids3 m d) (idt m d) (cat m d) := by
  unfold Vpost7
  rw [Function.update_of_ne (devRef_ne_of_ne (by decide)), pre7_O3]

theorem post4_O4 (d : Dev nD) : Vpost4 m d (Proc.devRef .tc main_v29) = gath (ids4 m d) (cids4 m d) (idt m d) (cat m d) := by
  unfold Vpost4
  exact Function.update_self _ _ _

theorem hops5_O4 (W : Valuation τ sig (Elt F)) : after hops5 W (Proc.devRef .tc main_v29) = W (Proc.devRef .tc main_v29) := by
  after_results

theorem pre5_O4 (d : Dev nD) : Vpre5 m d (Proc.devRef .tc main_v29) = gath (ids4 m d) (cids4 m d) (idt m d) (cat m d) := by
  unfold Vpre5
  rw [hops5_O4, post4_O4]

theorem post5_O4 (d : Dev nD) : Vpost5 m d (Proc.devRef .tc main_v29) = gath (ids4 m d) (cids4 m d) (idt m d) (cat m d) := by
  unfold Vpost5
  rw [Function.update_of_ne (devRef_ne_of_ne (by decide)), pre5_O4]

theorem hops6_O4 (W : Valuation τ sig (Elt F)) : after hops6 W (Proc.devRef .tc main_v29) = W (Proc.devRef .tc main_v29) := by
  after_results

theorem pre6_O4 (d : Dev nD) : Vpre6 m d (Proc.devRef .tc main_v29) = gath (ids4 m d) (cids4 m d) (idt m d) (cat m d) := by
  unfold Vpre6
  rw [hops6_O4, post5_O4]

theorem post6_O4 (d : Dev nD) : Vpost6 m d (Proc.devRef .tc main_v29) = gath (ids4 m d) (cids4 m d) (idt m d) (cat m d) := by
  unfold Vpost6
  rw [Function.update_of_ne (devRef_ne_of_ne (by decide)), pre6_O4]

theorem hops7_O4 (W : Valuation τ sig (Elt F)) : after hops7 W (Proc.devRef .tc main_v29) = W (Proc.devRef .tc main_v29) := by
  after_results

theorem pre7_O4 (d : Dev nD) : Vpre7 m d (Proc.devRef .tc main_v29) = gath (ids4 m d) (cids4 m d) (idt m d) (cat m d) := by
  unfold Vpre7
  rw [hops7_O4, post6_O4]

theorem post7_O4 (d : Dev nD) : Vpost7 m d (Proc.devRef .tc main_v29) = gath (ids4 m d) (cids4 m d) (idt m d) (cat m d) := by
  unfold Vpost7
  rw [Function.update_of_ne (devRef_ne_of_ne (by decide)), pre7_O4]

theorem post5_O5 (d : Dev nD) : Vpost5 m d (Proc.devRef .tc main_v34) = gath (ids5 m d) (cids5 m d) (idt m d) (cat m d) := by
  unfold Vpost5
  exact Function.update_self _ _ _

theorem hops6_O5 (W : Valuation τ sig (Elt F)) : after hops6 W (Proc.devRef .tc main_v34) = W (Proc.devRef .tc main_v34) := by
  after_results

theorem pre6_O5 (d : Dev nD) : Vpre6 m d (Proc.devRef .tc main_v34) = gath (ids5 m d) (cids5 m d) (idt m d) (cat m d) := by
  unfold Vpre6
  rw [hops6_O5, post5_O5]

theorem post6_O5 (d : Dev nD) : Vpost6 m d (Proc.devRef .tc main_v34) = gath (ids5 m d) (cids5 m d) (idt m d) (cat m d) := by
  unfold Vpost6
  rw [Function.update_of_ne (devRef_ne_of_ne (by decide)), pre6_O5]

theorem hops7_O5 (W : Valuation τ sig (Elt F)) : after hops7 W (Proc.devRef .tc main_v34) = W (Proc.devRef .tc main_v34) := by
  after_results

theorem pre7_O5 (d : Dev nD) : Vpre7 m d (Proc.devRef .tc main_v34) = gath (ids5 m d) (cids5 m d) (idt m d) (cat m d) := by
  unfold Vpre7
  rw [hops7_O5, post6_O5]

theorem post7_O5 (d : Dev nD) : Vpost7 m d (Proc.devRef .tc main_v34) = gath (ids5 m d) (cids5 m d) (idt m d) (cat m d) := by
  unfold Vpost7
  rw [Function.update_of_ne (devRef_ne_of_ne (by decide)), pre7_O5]

theorem post6_O6 (d : Dev nD) : Vpost6 m d (Proc.devRef .tc main_v39) = gath (ids6 m d) (cids6 m d) (idt m d) (cat m d) := by
  unfold Vpost6
  exact Function.update_self _ _ _

theorem hops7_O6 (W : Valuation τ sig (Elt F)) : after hops7 W (Proc.devRef .tc main_v39) = W (Proc.devRef .tc main_v39) := by
  after_results

theorem pre7_O6 (d : Dev nD) : Vpre7 m d (Proc.devRef .tc main_v39) = gath (ids6 m d) (cids6 m d) (idt m d) (cat m d) := by
  unfold Vpre7
  rw [hops7_O6, post6_O6]

theorem post7_O6 (d : Dev nD) : Vpost7 m d (Proc.devRef .tc main_v39) = gath (ids6 m d) (cids6 m d) (idt m d) (cat m d) := by
  unfold Vpost7
  rw [Function.update_of_ne (devRef_ne_of_ne (by decide)), pre7_O6]

theorem post7_O7 (d : Dev nD) : Vpost7 m d (Proc.devRef .tc main_v44) = gath (ids7 m d) (cids7 m d) (idt m d) (cat m d) := by
  unfold Vpost7
  exact Function.update_self _ _ _

end Cert.Kernel.Sc

end
-- ==== Proof.AsmFrameB.lean ====
/-
  The kernel's frame claim from its run. The run ends with every unscoped buffer of every device at a final
  valuation; the eight argument buffers are unscoped and the final valuation has them at their launch contents; and
  the precondition bounds the two index arrays' words, which is what the run asks. So every execution terminates,
  nothing faulting, with the eight arguments unchanged.
-/
import proofs.«204770_g8065948582451_cont_9to1c4b_476_56_alg».proof.Defs
import proofs.«204770_g8065948582451_cont_9to1c4b_476_56_alg».proof.Proof.ScArgsB
import proofs.«204770_g8065948582451_cont_9to1c4b_476_56_alg».proof.Proof.PreFacts

noncomputable section

namespace Cert.Kernel.Asm

open Idealize.ShloMosaic Idealize.SL.Sem
open Cert.Kernel
open Idealize.ShloMosaic.SparseCore (T)
open Idealize.ShloMosaic.Pipeline (ucRefs)

variable {F : FTy → Type} [FloatOps F] [Cert.Kernel.Facts]

/-- What the run gives, for a final valuation `Vf`: from any memory with zero counters whose index words are below
    their tables' lengths, every execution terminates with every unscoped buffer of every device at `Vf`. -/
abbrev RunTo (Vf : ((ℓ : Loc nD τ sig) → Buf (Elt F) ℓ) → Dev nD → Valuation τ sig (Elt F)) : Prop :=
  ∀ (m : (ℓ : Loc nD τ sig) → Buf (Elt F) ℓ) (ρ : Dev nD → PrngReg),
    (∀ (d : Dev nD) (i : S4096x200.Idx), ((m ((T d : Thread nD τ).loc main_arg0) : Vec F S4096x200 .i32) i).toNat < 100000) →
    (∀ (d : Dev nD) (i : S4096x200.Idx), ((m ((T d : Thread nD τ).loc main_arg1) : Vec F S4096x200 .i32) i).toNat < 1000) →
    θ_run (Cert.Kernel.defs (F := F)) (Cert.Kernel.threads (F := F)) ⟨m, fun _ => 0, ρ⟩
      (fun r => ∀ d : Dev nD, ∀ b ∈ ucRefs τ sig, r.2.mem (d, b) = Vf m d b)

/-- The final valuation has the eight argument buffers at their launch contents. -/
abbrev ArgsKept (Vf : ((ℓ : Loc nD τ sig) → Buf (Elt F) ℓ) → Dev nD → Valuation τ sig (Elt F)) : Prop :=
  ∀ (m : (ℓ : Loc nD τ sig) → Buf (Elt F) ℓ) (d : Dev nD),
    Vf m d (Proc.devRef .tc main_arg0) = m (d, Proc.devRef .tc main_arg0)
    ∧ Vf m d (Proc.devRef .tc main_arg1) = m (d, Proc.devRef .tc main_arg1)
    ∧ Vf m d (Proc.devRef .tc main_arg2) = m (d, Proc.devRef .tc main_arg2)
    ∧ Vf m d (Proc.devRef .tc main_arg3) = m (d, Proc.devRef .tc main_arg3)
    ∧ Vf m d (Proc.devRef .tc main_arg4) = m (d, Proc.devRef .tc main_arg4)
    ∧ Vf m d (Proc.devRef .tc main_arg5) = m (d, Proc.devRef .tc main_arg5)
    ∧ Vf m d (Proc.devRef .tc main_arg6) = m (d, Proc.devRef .tc main_arg6)
    ∧ Vf m d (Proc.devRef .tc main_arg7) = m (d, Proc.devRef .tc main_arg7)

/-- The precondition's bounds on the two index arrays, per device. -/
theorem bounds_of_pre [Cert.Pre_input_domain.Facts] (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    (∀ (d : Dev nD) (i : S4096x200.Idx), ((m ((T d : Thread nD τ).loc main_arg0) : Vec F S4096x200 .i32) i).toNat < 100000)
    ∧ (∀ (d : Dev nD) (i : S4096x200.Idx), ((m ((T d : Thread nD τ).loc main_arg1) : Vec F S4096x200 .i32) i).toNat < 1000) :=
  ⟨fun d => (Cert.PreFacts.ranges _ _ _ _ _ _ _ _ (hpre d)).1, fun d => (Cert.PreFacts.ranges _ _ _ _ _ _ _ _ (hpre d)).2⟩

/-- The frame: the run ends with the eight arguments unchanged. -/
theorem frame_of_run [Cert.Pre_input_domain.Facts]
    (Vf : ((ℓ : Loc nD τ sig) → Buf (Elt F) ℓ) → Dev nD → Valuation τ sig (Elt F)) (hrun : RunTo Vf) (hargs : ArgsKept Vf)
    (m : (ℓ : Loc nD τ sig) → Buf (Elt F) ℓ) (g : Dev nD → PrngReg)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    θ_run (Cert.Kernel.defs (F := F)) (Cert.Kernel.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c =>
    ⟨(h c _ (Cert.Kernel.Sc.mem_uc main_arg0 rfl)).trans (hargs m c).1,
     (h c _ (Cert.Kernel.Sc.mem_uc main_arg1 rfl)).trans (hargs m c).2.1,
     (h c _ (Cert.Kernel.Sc.mem_uc main_arg2 rfl)).trans (hargs m c).2.2.1,
     (h c _ (Cert.Kernel.Sc.mem_uc main_arg3 rfl)).trans (hargs m c).2.2.2.1,
     (h c _ (Cert.Kernel.Sc.mem_uc main_arg4 rfl)).trans (hargs m c).2.2.2.2.1,
     (h c _ (Cert.Kernel.Sc.mem_uc main_arg5 rfl)).trans (hargs m c).2.2.2.2.2.1,
     (h c _ (Cert.Kernel.Sc.mem_uc main_arg6 rfl)).trans (hargs m c).2.2.2.2.2.2.1,
     (h c _ (Cert.Kernel.Sc.mem_uc main_arg7 rfl)).trans (hargs m c).2.2.2.2.2.2.2⟩)
    (hrun m g (bounds_of_pre m hpre).1 (bounds_of_pre m hpre).2)

/-- The kernel's frame claim, from its run. -/
theorem frame_kernel [hPre_input_domain : Cert.Pre_input_domain.Facts]
    (Vf : ((ℓ : Loc nD τ sig) → Buf (Elt Bits) ℓ) → Dev nD → Valuation τ sig (Elt Bits)) (hrun : RunTo Vf) (hargs : ArgsKept Vf) :
    Cert.frame_Kernel :=
  fun m g hpre => frame_of_run Vf hrun hargs m g hpre

end Cert.Kernel.Asm

end
-- ==== Proof.ScCall0B.lean ====
/-
  Gather call 0 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreB
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 0, and what the TensorCore keeps meanwhile, in the dealing lemmas' spelling. -/
abbrev TI0 (d : Dev nD) (w : Fin 32) : sProp 𝕄 :=
  LibDeal.tileIn (ℓI := (T d : Thread nD τ).loc main_v6) (ℓC := (T d : Thread nD τ).loc main_v8) (ℓt := (T d : Thread nD τ).loc main_arg2)
    (ℓk := (T d : Thread nD τ).loc main_arg3) (ℓO := (T d : Thread nD τ).loc main_v9) (ids0 m d) (cids0 m d) (idt m d) (cat m d) h800 oBlkSet w
abbrev TO0 (d : Dev nD) (w : Fin 32) : sProp 𝕄 :=
  LibDeal.tileOut (ℓI := (T d : Thread nD τ).loc main_v6) (ℓC := (T d : Thread nD τ).loc main_v8) (ℓt := (T d : Thread nD τ).loc main_arg2)
    (ℓk := (T d : Thread nD τ).loc main_arg3) (ℓO := (T d : Thread nD τ).loc main_v9) (ids0 m d) (cids0 m d) (idt m d) (cat m d) h800 oBlkSet
    (gath (ids0 m d) (cids0 m d) (idt m d) (cat m d)) w
abbrev KP0 (d : Dev nD) : sProp 𝕄 :=
  LibDeal.kept (a := 32) (ℓI := (T d : Thread nD τ).loc main_v6) (ℓC := (T d : Thread nD τ).loc main_v8) (ℓt := (T d : Thread nD τ).loc main_arg2)
    (ℓk := (T d : Thread nD τ).loc main_arg3) (ids0 m d) (cids0 m d) (idt m d) (cat m d)

theorem tileIn0_eq (d : Dev nD) (w : Fin 32) : tileIn0 m d w = TI0 m d w := by
  unfold tileIn0 TI0 LibDeal.tileIn rsh
  simp only [blk_eq]
theorem tileOut0_eq (d : Dev nD) (w : Fin 32) : tileOut0 m d w = TO0 m d w := by
  unfold tileOut0 TO0 LibDeal.tileOut rsh
  simp only [blk_eq]

theorem st0_eq (d : Dev nD) : (bigSep Finset.univ fun c : Fin ((K (F := F)).nCore 0) => (P m).st 0 d c) = bigSep Finset.univ fun w : Fin 32 => TI0 m d w := by
  show (bigSep (Finset.univ : Finset (Fin 2)) fun c => bigSep (Finset.univ : Finset (Fin 16)) fun i => tileIn0 m d (widN c.val i.val)) = _
  rw [bigSep_workers (fun w => TI0 m d w)]
  exact bigSep_congr fun c _ => bigSep_congr fun i _ => tileIn0_eq m d _
theorem dn0_eq (d : Dev nD) : (bigSep Finset.univ fun c : Fin ((K (F := F)).nCore 0) => (P m).dn 0 d c) = bigSep Finset.univ fun w : Fin 32 => TO0 m d w := by
  show (bigSep (Finset.univ : Finset (Fin 2)) fun c => bigSep (Finset.univ : Finset (Fin 16)) fun i => tileOut0 m d (widN c.val i.val)) = _
  rw [bigSep_workers (fun w => TO0 m d w)]
  exact bigSep_congr fun c _ => bigSep_congr fun i _ => tileOut0_eq m d _

set_option maxHeartbeats 4000000 in
/-- The host operations before call 0 and the call: from the unscoped buffers at what the previous call left to
    the same at this call's result. -/
theorem step0 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 0 ∗ boundary (T d : Thread nD τ) ∗ (held (T d) (ucRefs τ sig) (V0 m d) : sProp 𝕄)
        ∗ (((K (F := F)).tcSt EH d 1 ∗ boundary (T d : Thread nD τ) ∗ (held (T d) (ucRefs τ sig) (Vpost0 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops0 (F := F)) >>= fun _ => (K (F := F)).run d 0 >>= fun _ => k) Φ := by
  iintro ⟨#Hctx, Hst, Hb, Hheld, Hk⟩
  iapply (StableHlo.wp_seq 𝒱 none Set.univ d (ucRefs τ sig) _ (hops0 (F := F)) hS0 hf0 (V0 m d)) $$ [Hb Hheld]
  · isplitl [Hb] <;> iassumption
  iintro ⟨Hb, Hheld0⟩
  ihave Hheld := (Entails.of_eq (show (held (T d) (ucRefs τ sig) (StableHlo.after (hops0 (F := F)) (V0 m d)) : sProp 𝕄)
      = held (T d) (ucRefs τ sig) (Vpre0 m d) from rfl)) $$ Hheld0
  rw [wp_bind]
  ihave Hh := (Entails.of_eq (held_sub_split (T d) hT5_0 (Vpre0 m d))) $$ Hheld
  icases Hh with ⟨H5, Hrest⟩
  ihave H5' := (Entails.of_eq (held_T5_0 (F := F) d (Vpre0 m d))) $$ H5
  rw [Vpre0_T, Vpre0_K, show Vpre0 m d dI0 = ids0 m d from rfl, show Vpre0 m d dC0 = cids0 m d from rfl]
  ihave Hd := (LibDeal.deal (ℓI := (T d : Thread nD τ).loc main_v6) (ℓC := (T d : Thread nD τ).loc main_v8) (ℓt := (T d : Thread nD τ).loc main_arg2) (ℓk := (T d : Thread nD τ).loc main_arg3) (ℓO := (T d : Thread nD τ).loc main_v9) (ids0 m d) (cids0 m d) (idt m d) (cat m d) h800 oBlkSet oblk_disjoint oblk_cover (Vpre0 m d dO0)) $$ H5'
  icases Hd with ⟨Hkept, Htiles⟩
  iapply ((K (F := F)).wp_run (D (F := F)) 𝒱 (EH := EH) (P := P m) κ d 0) $$ [Hst Htiles Hb Hkept Hrest Hk]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave H5 := (LibDeal.collect (ℓI := (T d : Thread nD τ).loc main_v6) (ℓC := (T d : Thread nD τ).loc main_v8) (ℓt := (T d : Thread nD τ).loc main_arg2) (ℓk := (T d : Thread nD τ).loc main_arg3) (ℓO := (T d : Thread nD τ).loc main_v9) (ids0 m d) (cids0 m d) (idt m d) (cat m d) h800 oBlkSet oblk_disjoint oblk_cover
    (gath (ids0 m d) (cids0 m d) (idt m d) (cat m d))) $$ [Hkept Hdn']
  · isplitl [Hkept] <;> iassumption
  iapply Hk
  isplitl [Hst]; · iexact Hst
  isplitl [Hb]; · iexact Hb
  rw [held_sub_split (T d) hT5_0 (Vpost0 m d), held_T5_0]
  isplitl [H5]
  · unfold Vpost0
    rw [Function.update_self, Function.update_of_ne (by decide), Function.update_of_ne (by decide), Function.update_of_ne (by decide),
      Function.update_of_ne (by decide), Vpre0_T, Vpre0_K,
      show Vpre0 m d dI0 = ids0 m d from rfl, show Vpre0 m d dC0 = cids0 m d from rfl]
    iexact H5
  · rw [StableHlo.held_congr (T d) (V := Vpost0 m d) (V' := Vpre0 m d) (fun b hb => by
      unfold Vpost0
      exact Function.update_of_ne (fun (e : b = dO0) => (Finset.mem_sdiff.mp hb).2 (by rw [e]; simp [T5_0])) _ _)]
    iexact Hrest

end Cert.Kernel.Sc

end
-- ==== Proof.ScCall1B.lean ====
/-
  Gather call 1 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreB
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 1, and what the TensorCore keeps meanwhile, in the dealing lemmas' spelling. -/
abbrev TI1 (d : Dev nD) (w : Fin 32) : sProp 𝕄 :=
  LibDeal.tileIn (ℓI := (T d : Thread nD τ).loc main_v11) (ℓC := (T d : Thread nD τ).loc main_v13) (ℓt := (T d : Thread nD τ).loc main_arg2)
    (ℓk := (T d : Thread nD τ).loc main_arg3) (ℓO := (T d : Thread nD τ).loc main_v14) (ids1 m d) (cids1 m d) (idt m d) (cat m d) h800 oBlkSet w
abbrev TO1 (d : Dev nD) (w : Fin 32) : sProp 𝕄 :=
  LibDeal.tileOut (ℓI := (T d : Thread nD τ).loc main_v11) (ℓC := (T d : Thread nD τ).loc main_v13) (ℓt := (T d : Thread nD τ).loc main_arg2)
    (ℓk := (T d : Thread nD τ).loc main_arg3) (ℓO := (T d : Thread nD τ).loc main_v14) (ids1 m d) (cids1 m d) (idt m d) (cat m d) h800 oBlkSet
    (gath (ids1 m d) (cids1 m d) (idt m d) (cat m d)) w
abbrev KP1 (d : Dev nD) : sProp 𝕄 :=
  LibDeal.kept (a := 32) (ℓI := (T d : Thread nD τ).loc main_v11) (ℓC := (T d : Thread nD τ).loc main_v13) (ℓt := (T d : Thread nD τ).loc main_arg2)
    (ℓk := (T d : Thread nD τ).loc main_arg3) (ids1 m d) (cids1 m d) (idt m d) (cat m d)

theorem tileIn1_eq (d : Dev nD) (w : Fin 32) : tileIn1 m d w = TI1 m d w := by
  unfold tileIn1 TI1 LibDeal.tileIn rsh
  simp only [blk_eq]
theorem tileOut1_eq (d : Dev nD) (w : Fin 32) : tileOut1 m d w = TO1 m d w := by
  unfold tileOut1 TO1 LibDeal.tileOut rsh
  simp only [blk_eq]

theorem st1_eq (d : Dev nD) : (bigSep Finset.univ fun c : Fin ((K (F := F)).nCore 1) => (P m).st 1 d c) = bigSep Finset.univ fun w : Fin 32 => TI1 m d w := by
  show (bigSep (Finset.univ : Finset (Fin 2)) fun c => bigSep (Finset.univ : Finset (Fin 16)) fun i => tileIn1 m d (widN c.val i.val)) = _
  rw [bigSep_workers (fun w => TI1 m d w)]
  exact bigSep_congr fun c _ => bigSep_congr fun i _ => tileIn1_eq m d _
theorem dn1_eq (d : Dev nD) : (bigSep Finset.univ fun c : Fin ((K (F := F)).nCore 1) => (P m).dn 1 d c) = bigSep Finset.univ fun w : Fin 32 => TO1 m d w := by
  show (bigSep (Finset.univ : Finset (Fin 2)) fun c => bigSep (Finset.univ : Finset (Fin 16)) fun i => tileOut1 m d (widN c.val i.val)) = _
  rw [bigSep_workers (fun w => TO1 m d w)]
  exact bigSep_congr fun c _ => bigSep_congr fun i _ => tileOut1_eq m d _

set_option maxHeartbeats 4000000 in
/-- The host operations before call 1 and the call: from the unscoped buffers at what the previous call left to
    the same at this call's result. -/
theorem step1 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 1 ∗ boundary (T d : Thread nD τ) ∗ (held (T d) (ucRefs τ sig) (Vpost0 m d) : sProp 𝕄)
        ∗ (((K (F := F)).tcSt EH d 2 ∗ boundary (T d : Thread nD τ) ∗ (held (T d) (ucRefs τ sig) (Vpost1 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops1 (F := F)) >>= fun _ => (K (F := F)).run d 1 >>= fun _ => k) Φ := by
  iintro ⟨#Hctx, Hst, Hb, Hheld, Hk⟩
  iapply (StableHlo.wp_seq 𝒱 none Set.univ d (ucRefs τ sig) _ (hops1 (F := F)) hS1 hf1 (Vpost0 m d)) $$ [Hb Hheld]
  · isplitl [Hb] <;> iassumption
  iintro ⟨Hb, Hheld0⟩
  ihave Hheld := (Entails.of_eq (show (held (T d) (ucRefs τ sig) (StableHlo.after (hops1 (F := F)) (Vpost0 m d)) : sProp 𝕄)
      = held (T d) (ucRefs τ sig) (Vpre1 m d) from rfl)) $$ Hheld0
  rw [wp_bind]
  ihave Hh := (Entails.of_eq (held_sub_split (T d) hT5_1 (Vpre1 m d))) $$ Hheld
  icases Hh with ⟨H5, Hrest⟩
  ihave H5' := (Entails.of_eq (held_T5_1 (F := F) d (Vpre1 m d))) $$ H5
  rw [Vpre1_T, Vpre1_K, show Vpre1 m d dI1 = ids1 m d from rfl, show Vpre1 m d dC1 = cids1 m d from rfl]
  ihave Hd := (LibDeal.deal (ℓI := (T d : Thread nD τ).loc main_v11) (ℓC := (T d : Thread nD τ).loc main_v13) (ℓt := (T d : Thread nD τ).loc main_arg2) (ℓk := (T d : Thread nD τ).loc main_arg3) (ℓO := (T d : Thread nD τ).loc main_v14) (ids1 m d) (cids1 m d) (idt m d) (cat m d) h800 oBlkSet oblk_disjoint oblk_cover (Vpre1 m d dO1)) $$ H5'
  icases Hd with ⟨Hkept, Htiles⟩
  iapply ((K (F := F)).wp_run (D (F := F)) 𝒱 (EH := EH) (P := P m) κ d 1) $$ [Hst Htiles Hb Hkept Hrest Hk]
  isplitr; · iexact Hctx
  isplitl [Hst]; · iexact Hst
  isplitl [Htiles]
  · rw [st1_eq]; iexact Htiles
  iintro ⟨Hst, Hdn⟩
  ihave Hdn' := (Entails.of_eq (dn1_eq m d)) $$ Hdn
  ihave H5 := (LibDeal.collect (ℓI := (T d : Thread nD τ).loc main_v11) (ℓC := (T d : Thread nD τ).loc main_v13) (ℓt := (T d : Thread nD τ).loc main_arg2) (ℓk := (T d : Thread nD τ).loc main_arg3) (ℓO := (T d : Thread nD τ).loc main_v14) (ids1 m d) (cids1 m d) (idt m d) (cat m d) h800 oBlkSet oblk_disjoint oblk_cover
    (gath (ids1 m d) (cids1 m d) (idt m d) (cat m d))) $$ [Hkept Hdn']
  · isplitl [Hkept] <;> iassumption
  iapply Hk
  isplitl [Hst]; · iexact Hst
  isplitl [Hb]; · iexact Hb
  rw [held_sub_split (T d) hT5_1 (Vpost1 m d), held_T5_1]
  isplitl [H5]
  · unfold Vpost1
    rw [Function.update_self, Function.update_of_ne (by decide), Function.update_of_ne (by decide), Function.update_of_ne (by decide),
      Function.update_of_ne (by decide), Vpre1_T, Vpre1_K,
      show Vpre1 m d dI1 = ids1 m d from rfl, show Vpre1 m d dC1 = cids1 m d from rfl]
    iexact H5
  · rw [StableHlo.held_congr (T d) (V := Vpost1 m d) (V' := Vpre1 m d) (fun b hb => by
      unfold Vpost1
      exact Function.update_of_ne (fun (e : b = dO1) => (Finset.mem_sdiff.mp hb).2 (by rw [e]; simp [T5_1])) _ _)]
    iexact Hrest

end Cert.Kernel.Sc

end
-- ==== Proof.ScCall2B.lean ====
/-
  Gather call 2 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreB
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 2, and what the TensorCore keeps meanwhile, in the dealing lemmas' spelling. -/
abbrev TI2 (d : Dev nD) (w : Fin 32) : sProp 𝕄 :=
  LibDeal.tileIn (ℓI := (T d : Thread nD τ).loc main_v16) (ℓC := (T d : Thread nD τ).loc main_v18) (ℓt := (T d : Thread nD τ).loc main_arg2)
    (ℓk := (T d : Thread nD τ).loc main_arg3) (ℓO := (T d : Thread nD τ).loc main_v19) (ids2 m d) (cids2 m d) (idt m d) (cat m d) h800 oBlkSet w
abbrev TO2 (d : Dev nD) (w : Fin 32) : sProp 𝕄 :=
  LibDeal.tileOut (ℓI := (T d : Thread nD τ).loc main_v16) (ℓC := (T d : Thread nD τ).loc main_v18) (ℓt := (T d : Thread nD τ).loc main_arg2)
    (ℓk := (T d : Thread nD τ).loc main_arg3) (ℓO := (T d : Thread nD τ).loc main_v19) (ids2 m d) (cids2 m d) (idt m d) (cat m d) h800 oBlkSet
    (gath (ids2 m d) (cids2 m d) (idt m d) (cat m d)) w
abbrev KP2 (d : Dev nD) : sProp 𝕄 :=
  LibDeal.kept (a := 32) (ℓI := (T d : Thread nD τ).loc main_v16) (ℓC := (T d : Thread nD τ).loc main_v18) (ℓt := (T d : Thread nD τ).loc main_arg2)
    (ℓk := (T d : Thread nD τ).loc main_arg3) (ids2 m d) (cids2 m d) (idt m d) (cat m d)

theorem tileIn2_eq (d : Dev nD) (w : Fin 32) : tileIn2 m d w = TI2 m d w := by
  unfold tileIn2 TI2 LibDeal.tileIn rsh
  simp only [blk_eq]
theorem tileOut2_eq (d : Dev nD) (w : Fin 32) : tileOut2 m d w = TO2 m d w := by
  unfold tileOut2 TO2 LibDeal.tileOut rsh
  simp only [blk_eq]

theorem st2_eq (d : Dev nD) : (bigSep Finset.univ fun c : Fin ((K (F := F)).nCore 2) => (P m).st 2 d c) = bigSep Finset.univ fun w : Fin 32 => TI2 m d w := by
  show (bigSep (Finset.univ : Finset (Fin 2)) fun c => bigSep (Finset.univ : Finset (Fin 16)) fun i => tileIn2 m d (widN c.val i.val)) = _
  rw [bigSep_workers (fun w => TI2 m d w)]
  exact bigSep_congr fun c _ => bigSep_congr fun i _ => tileIn2_eq m d _
theorem dn2_eq (d : Dev nD) : (bigSep Finset.univ fun c : Fin ((K (F := F)).nCore 2) => (P m).dn 2 d c) = bigSep Finset.univ fun w : Fin 32 => TO2 m d w := by
  show (bigSep (Finset.univ : Finset (Fin 2)) fun c => bigSep (Finset.univ : Finset (Fin 16)) fun i => tileOut2 m d (widN c.val i.val)) = _
  rw [bigSep_workers (fun w => TO2 m d w)]
  exact bigSep_congr fun c _ => bigSep_congr fun i _ => tileOut2_eq m d _

set_option maxHeartbeats 4000000 in
/-- The host operations before call 2 and the call: from the unscoped buffers at what the previous call left to
    the same at this call's result. -/
theorem step2 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 2 ∗ boundary (T d : Thread nD τ) ∗ (held (T d) (ucRefs τ sig) (Vpost1 m d) : sProp 𝕄)
        ∗ (((K (F := F)).tcSt EH d 3 ∗ boundary (T d : Thread nD τ) ∗ (held (T d) (ucRefs τ sig) (Vpost2 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops2 (F := F)) >>= fun _ => (K (F := F)).run d 2 >>= fun _ => k) Φ := by
  iintro ⟨#Hctx, Hst, Hb, Hheld, Hk⟩
  iapply (StableHlo.wp_seq 𝒱 none Set.univ d (ucRefs τ sig) _ (hops2 (F := F)) hS2 hf2 (Vpost1 m d)) $$ [Hb Hheld]
  · isplitl [Hb] <;> iassumption
  iintro ⟨Hb, Hheld0⟩
  ihave Hheld := (Entails.of_eq (show (held (T d) (ucRefs τ sig) (StableHlo.after (hops2 (F := F)) (Vpost1 m d)) : sProp 𝕄)
      = held (T d) (ucRefs τ sig) (Vpre2 m d) from rfl)) $$ Hheld0
  rw [wp_bind]
  ihave Hh := (Entails.of_eq (held_sub_split (T d) hT5_2 (Vpre2 m d))) $$ Hheld
  icases Hh with ⟨H5, Hrest⟩
  ihave H5' := (Entails.of_eq (held_T5_2 (F := F) d (Vpre2 m d))) $$ H5
  rw [Vpre2_T, Vpre2_K, show Vpre2 m d dI2 = ids2 m d from rfl, show Vpre2 m d dC2 = cids2 m d from rfl]
  ihave Hd := (LibDeal.deal (ℓI := (T d : Thread nD τ).loc main_v16) (ℓC := (T d : Thread nD τ).loc main_v18) (ℓt := (T d : Thread nD τ).loc main_arg2) (ℓk := (T d : Thread nD τ).loc main_arg3) (ℓO := (T d : Thread nD τ).loc main_v19) (ids2 m d) (cids2 m d) (idt m d) (cat m d) h800 oBlkSet oblk_disjoint oblk_cover (Vpre2 m d dO2)) $$ H5'
  icases Hd with ⟨Hkept, Htiles⟩
  iapply ((K (F := F)).wp_run (D (F := F)) 𝒱 (EH := EH) (P := P m) κ d 2) $$ [Hst Htiles Hb Hkept Hrest Hk]
  isplitr; · iexact Hctx
  isplitl [Hst]; · iexact Hst
  isplitl [Htiles]
  · rw [st2_eq]; iexact Htiles
  iintro ⟨Hst, Hdn⟩
  ihave Hdn' := (Entails.of_eq (dn2_eq m d)) $$ Hdn
  ihave H5 := (LibDeal.collect (ℓI := (T d : Thread nD τ).loc main_v16) (ℓC := (T d : Thread nD τ).loc main_v18) (ℓt := (T d : Thread nD τ).loc main_arg2) (ℓk := (T d : Thread nD τ).loc main_arg3) (ℓO := (T d : Thread nD τ).loc main_v19) (ids2 m d) (cids2 m d) (idt m d) (cat m d) h800 oBlkSet oblk_disjoint oblk_cover
    (gath (ids2 m d) (cids2 m d) (idt m d) (cat m d))) $$ [Hkept Hdn']
  · isplitl [Hkept] <;> iassumption
  iapply Hk
  isplitl [Hst]; · iexact Hst
  isplitl [Hb]; · iexact Hb
  rw [held_sub_split (T d) hT5_2 (Vpost2 m d), held_T5_2]
  isplitl [H5]
  · unfold Vpost2
    rw [Function.update_self, Function.update_of_ne (by decide), Function.update_of_ne (by decide), Function.update_of_ne (by decide),
      Function.update_of_ne (by decide), Vpre2_T, Vpre2_K,
      show Vpre2 m d dI2 = ids2 m d from rfl, show Vpre2 m d dC2 = cids2 m d from rfl]
    iexact H5
  · rw [StableHlo.held_congr (T d) (V := Vpost2 m d) (V' := Vpre2 m d) (fun b hb => by
      unfold Vpost2
      exact Function.update_of_ne (fun (e : b = dO2) => (Finset.mem_sdiff.mp hb).2 (by rw [e]; simp [T5_2])) _ _)]
    iexact Hrest

end Cert.Kernel.Sc

end
-- ==== Proof.ScCall3B.lean ====
/-
  Gather call 3 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreB
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 3, and what the TensorCore keeps meanwhile, in the dealing lemmas' spelling. -/
abbrev TI3 (d : Dev nD) (w : Fin 32) : sProp 𝕄 :=
  LibDeal.tileIn (ℓI := (T d : Thread nD τ).loc main_v21) (ℓC := (T d : Thread nD τ).loc main_v23) (ℓt := (T d : Thread nD τ).loc main_arg2)
    (ℓk := (T d : Thread nD τ).loc main_arg3) (ℓO := (T d : Thread nD τ).loc main_v24) (ids3 m d) (cids3 m d) (idt m d) (cat m d) h800 oBlkSet w
abbrev TO3 (d : Dev nD) (w : Fin 32) : sProp 𝕄 :=
  LibDeal.tileOut (ℓI := (T d : Thread nD τ).loc main_v21) (ℓC := (T d : Thread nD τ).loc main_v23) (ℓt := (T d : Thread nD τ).loc main_arg2)
    (ℓk := (T d : Thread nD τ).loc main_arg3) (ℓO := (T d : Thread nD τ).loc main_v24) (ids3 m d) (cids3 m d) (idt m d) (cat m d) h800 oBlkSet
    (gath (ids3 m d) (cids3 m d) (idt m d) (cat m d)) w
abbrev KP3 (d : Dev nD) : sProp 𝕄 :=
  LibDeal.kept (a := 32) (ℓI := (T d : Thread nD τ).loc main_v21) (ℓC := (T d : Thread nD τ).loc main_v23) (ℓt := (T d : Thread nD τ).loc main_arg2)
    (ℓk := (T d : Thread nD τ).loc main_arg3) (ids3 m d) (cids3 m d) (idt m d) (cat m d)

theorem tileIn3_eq (d : Dev nD) (w : Fin 32) : tileIn3 m d w = TI3 m d w := by
  unfold tileIn3 TI3 LibDeal.tileIn rsh
  simp only [blk_eq]
theorem tileOut3_eq (d : Dev nD) (w : Fin 32) : tileOut3 m d w = TO3 m d w := by
  unfold tileOut3 TO3 LibDeal.tileOut rsh
  simp only [blk_eq]

theorem st3_eq (d : Dev nD) : (bigSep Finset.univ fun c : Fin ((K (F := F)).nCore 3) => (P m).st 3 d c) = bigSep Finset.univ fun w : Fin 32 => TI3 m d w := by
  show (bigSep (Finset.univ : Finset (Fin 2)) fun c => bigSep (Finset.univ : Finset (Fin 16)) fun i => tileIn3 m d (widN c.val i.val)) = _
  rw [bigSep_workers (fun w => TI3 m d w)]
  exact bigSep_congr fun c _ => bigSep_congr fun i _ => tileIn3_eq m d _
theorem dn3_eq (d : Dev nD) : (bigSep Finset.univ fun c : Fin ((K (F := F)).nCore 3) => (P m).dn 3 d c) = bigSep Finset.univ fun w : Fin 32 => TO3 m d w := by
  show (bigSep (Finset.univ : Finset (Fin 2)) fun c => bigSep (Finset.univ : Finset (Fin 16)) fun i => tileOut3 m d (widN c.val i.val)) = _
  rw [bigSep_workers (fun w => TO3 m d w)]
  exact bigSep_congr fun c _ => bigSep_congr fun i _ => tileOut3_eq m d _

set_option maxHeartbeats 4000000 in
/-- The host operations before call 3 and the call: from the unscoped buffers at what the previous call left to
    the same at this call's result. -/
theorem step3 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 3 ∗ boundary (T d : Thread nD τ) ∗ (held (T d) (ucRefs τ sig) (Vpost2 m d) : sProp 𝕄)
        ∗ (((K (F := F)).tcSt EH d 4 ∗ boundary (T d : Thread nD τ) ∗ (held (T d) (ucRefs τ sig) (Vpost3 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops3 (F := F)) >>= fun _ => (K (F := F)).run d 3 >>= fun _ => k) Φ := by
  iintro ⟨#Hctx, Hst, Hb, Hheld, Hk⟩
  iapply (StableHlo.wp_seq 𝒱 none Set.univ d (ucRefs τ sig) _ (hops3 (F := F)) hS3 hf3 (Vpost2 m d)) $$ [Hb Hheld]
  · isplitl [Hb] <;> iassumption
  iintro ⟨Hb, Hheld0⟩
  ihave Hheld := (Entails.of_eq (show (held (T d) (ucRefs τ sig) (StableHlo.after (hops3 (F := F)) (Vpost2 m d)) : sProp 𝕄)
      = held (T d) (ucRefs τ sig) (Vpre3 m d) from rfl)) $$ Hheld0
  rw [wp_bind]
  ihave Hh := (Entails.of_eq (held_sub_split (T d) hT5_3 (Vpre3 m d))) $$ Hheld
  icases Hh with ⟨H5, Hrest⟩
  ihave H5' := (Entails.of_eq (held_T5_3 (F := F) d (Vpre3 m d))) $$ H5
  rw [Vpre3_T, Vpre3_K, show Vpre3 m d dI3 = ids3 m d from rfl, show Vpre3 m d dC3 = cids3 m d from rfl]
  ihave Hd := (LibDeal.deal (ℓI := (T d : Thread nD τ).loc main_v21) (ℓC := (T d : Thread nD τ).loc main_v23) (ℓt := (T d : Thread nD τ).loc main_arg2) (ℓk := (T d : Thread nD τ).loc main_arg3) (ℓO := (T d : Thread nD τ).loc main_v24) (ids3 m d) (cids3 m d) (idt m d) (cat m d) h800 oBlkSet oblk_disjoint oblk_cover (Vpre3 m d dO3)) $$ H5'
  icases Hd with ⟨Hkept, Htiles⟩
  iapply ((K (F := F)).wp_run (D (F := F)) 𝒱 (EH := EH) (P := P m) κ d 3) $$ [Hst Htiles Hb Hkept Hrest Hk]
  isplitr; · iexact Hctx
  isplitl [Hst]; · iexact Hst
  isplitl [Htiles]
  · rw [st3_eq]; iexact Htiles
  iintro ⟨Hst, Hdn⟩
  ihave Hdn' := (Entails.of_eq (dn3_eq m d)) $$ Hdn
  ihave H5 := (LibDeal.collect (ℓI := (T d : Thread nD τ).loc main_v21) (ℓC := (T d : Thread nD τ).loc main_v23) (ℓt := (T d : Thread nD τ).loc main_arg2) (ℓk := (T d : Thread nD τ).loc main_arg3) (ℓO := (T d : Thread nD τ).loc main_v24) (ids3 m d) (cids3 m d) (idt m d) (cat m d) h800 oBlkSet oblk_disjoint oblk_cover
    (gath (ids3 m d) (cids3 m d) (idt m d) (cat m d))) $$ [Hkept Hdn']
  · isplitl [Hkept] <;> iassumption
  iapply Hk
  isplitl [Hst]; · iexact Hst
  isplitl [Hb]; · iexact Hb
  rw [held_sub_split (T d) hT5_3 (Vpost3 m d), held_T5_3]
  isplitl [H5]
  · unfold Vpost3
    rw [Function.update_self, Function.update_of_ne (by decide), Function.update_of_ne (by decide), Function.update_of_ne (by decide),
      Function.update_of_ne (by decide), Vpre3_T, Vpre3_K,
      show Vpre3 m d dI3 = ids3 m d from rfl, show Vpre3 m d dC3 = cids3 m d from rfl]
    iexact H5
  · rw [StableHlo.held_congr (T d) (V := Vpost3 m d) (V' := Vpre3 m d) (fun b hb => by
      unfold Vpost3
      exact Function.update_of_ne (fun (e : b = dO3) => (Finset.mem_sdiff.mp hb).2 (by rw [e]; simp [T5_3])) _ _)]
    iexact Hrest

end Cert.Kernel.Sc

end
-- ==== Proof.ScCall4B.lean ====
/-
  Gather call 4 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreB
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 4, and what the TensorCore keeps meanwhile, in the dealing lemmas' spelling. -/
abbrev TI4 (d : Dev nD) (w : Fin 32) : sProp 𝕄 :=
  LibDeal.tileIn (ℓI := (T d : Thread nD τ).loc main_v26) (ℓC := (T d : Thread nD τ).loc main_v28) (ℓt := (T d : Thread nD τ).loc main_arg2)
    (ℓk := (T d : Thread nD τ).loc main_arg3) (ℓO := (T d : Thread nD τ).loc main_v29) (ids4 m d) (cids4 m d) (idt m d) (cat m d) h800 oBlkSet w
abbrev TO4 (d : Dev nD) (w : Fin 32) : sProp 𝕄 :=
  LibDeal.tileOut (ℓI := (T d : Thread nD τ).loc main_v26) (ℓC := (T d : Thread nD τ).loc main_v28) (ℓt := (T d : Thread nD τ).loc main_arg2)
    (ℓk := (T d : Thread nD τ).loc main_arg3) (ℓO := (T d : Thread nD τ).loc main_v29) (ids4 m d) (cids4 m d) (idt m d) (cat m d) h800 oBlkSet
    (gath (ids4 m d) (cids4 m d) (idt m d) (cat m d)) w
abbrev KP4 (d : Dev nD) : sProp 𝕄 :=
  LibDeal.kept (a := 32) (ℓI := (T d : Thread nD τ).loc main_v26) (ℓC := (T d : Thread nD τ).loc main_v28) (ℓt := (T d : Thread nD τ).loc main_arg2)
    (ℓk := (T d : Thread nD τ).loc main_arg3) (ids4 m d) (cids4 m d) (idt m d) (cat m d)

theorem tileIn4_eq (d : Dev nD) (w : Fin 32) : tileIn4 m d w = TI4 m d w := by
  unfold tileIn4 TI4 LibDeal.tileIn rsh
  simp only [blk_eq]
theorem tileOut4_eq (d : Dev nD) (w : Fin 32) : tileOut4 m d w = TO4 m d w := by
  unfold tileOut4 TO4 LibDeal.tileOut rsh
  simp only [blk_eq]

theorem st4_eq (d : Dev nD) : (bigSep Finset.univ fun c : Fin ((K (F := F)).nCore 4) => (P m).st 4 d c) = bigSep Finset.univ fun w : Fin 32 => TI4 m d w := by
  show (bigSep (Finset.univ : Finset (Fin 2)) fun c => bigSep (Finset.univ : Finset (Fin 16)) fun i => tileIn4 m d (widN c.val i.val)) = _
  rw [bigSep_workers (fun w => TI4 m d w)]
  exact bigSep_congr fun c _ => bigSep_congr fun i _ => tileIn4_eq m d _
theorem dn4_eq (d : Dev nD) : (bigSep Finset.univ fun c : Fin ((K (F := F)).nCore 4) => (P m).dn 4 d c) = bigSep Finset.univ fun w : Fin 32 => TO4 m d w := by
  show (bigSep (Finset.univ : Finset (Fin 2)) fun c => bigSep (Finset.univ : Finset (Fin 16)) fun i => tileOut4 m d (widN c.val i.val)) = _
  rw [bigSep_workers (fun w => TO4 m d w)]
  exact bigSep_congr fun c _ => bigSep_congr fun i _ => tileOut4_eq m d _

set_option maxHeartbeats 4000000 in
/-- The host operations before call 4 and the call: from the unscoped buffers at what the previous call left to
    the same at this call's result. -/
theorem step4 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 4 ∗ boundary (T d : Thread nD τ) ∗ (held (T d) (ucRefs τ sig) (Vpost3 m d) : sProp 𝕄)
        ∗ (((K (F := F)).tcSt EH d 5 ∗ boundary (T d : Thread nD τ) ∗ (held (T d) (ucRefs τ sig) (Vpost4 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops4 (F := F)) >>= fun _ => (K (F := F)).run d 4 >>= fun _ => k) Φ := by
  iintro ⟨#Hctx, Hst, Hb, Hheld, Hk⟩
  iapply (StableHlo.wp_seq 𝒱 none Set.univ d (ucRefs τ sig) _ (hops4 (F := F)) hS4 hf4 (Vpost3 m d)) $$ [Hb Hheld]
  · isplitl [Hb] <;> iassumption
  iintro ⟨Hb, Hheld0⟩
  ihave Hheld := (Entails.of_eq (show (held (T d) (ucRefs τ sig) (StableHlo.after (hops4 (F := F)) (Vpost3 m d)) : sProp 𝕄)
      = held (T d) (ucRefs τ sig) (Vpre4 m d) from rfl)) $$ Hheld0
  rw [wp_bind]
  ihave Hh := (Entails.of_eq (held_sub_split (T d) hT5_4 (Vpre4 m d))) $$ Hheld
  icases Hh with ⟨H5, Hrest⟩
  ihave H5' := (Entails.of_eq (held_T5_4 (F := F) d (Vpre4 m d))) $$ H5
  rw [Vpre4_T, Vpre4_K, show Vpre4 m d dI4 = ids4 m d from rfl, show Vpre4 m d dC4 = cids4 m d from rfl]
  ihave Hd := (LibDeal.deal (ℓI := (T d : Thread nD τ).loc main_v26) (ℓC := (T d : Thread nD τ).loc main_v28) (ℓt := (T d : Thread nD τ).loc main_arg2) (ℓk := (T d : Thread nD τ).loc main_arg3) (ℓO := (T d : Thread nD τ).loc main_v29) (ids4 m d) (cids4 m d) (idt m d) (cat m d) h800 oBlkSet oblk_disjoint oblk_cover (Vpre4 m d dO4)) $$ H5'
  icases Hd with ⟨Hkept, Htiles⟩
  iapply ((K (F := F)).wp_run (D (F := F)) 𝒱 (EH := EH) (P := P m) κ d 4) $$ [Hst Htiles Hb Hkept Hrest Hk]
  isplitr; · iexact Hctx
  isplitl [Hst]; · iexact Hst
  isplitl [Htiles]
  · rw [st4_eq]; iexact Htiles
  iintro ⟨Hst, Hdn⟩
  ihave Hdn' := (Entails.of_eq (dn4_eq m d)) $$ Hdn
  ihave H5 := (LibDeal.collect (ℓI := (T d : Thread nD τ).loc main_v26) (ℓC := (T d : Thread nD τ).loc main_v28) (ℓt := (T d : Thread nD τ).loc main_arg2) (ℓk := (T d : Thread nD τ).loc main_arg3) (ℓO := (T d : Thread nD τ).loc main_v29) (ids4 m d) (cids4 m d) (idt m d) (cat m d) h800 oBlkSet oblk_disjoint oblk_cover
    (gath (ids4 m d) (cids4 m d) (idt m d) (cat m d))) $$ [Hkept Hdn']
  · isplitl [Hkept] <;> iassumption
  iapply Hk
  isplitl [Hst]; · iexact Hst
  isplitl [Hb]; · iexact Hb
  rw [held_sub_split (T d) hT5_4 (Vpost4 m d), held_T5_4]
  isplitl [H5]
  · unfold Vpost4
    rw [Function.update_self, Function.update_of_ne (by decide), Function.update_of_ne (by decide), Function.update_of_ne (by decide),
      Function.update_of_ne (by decide), Vpre4_T, Vpre4_K,
      show Vpre4 m d dI4 = ids4 m d from rfl, show Vpre4 m d dC4 = cids4 m d from rfl]
    iexact H5
  · rw [StableHlo.held_congr (T d) (V := Vpost4 m d) (V' := Vpre4 m d) (fun b hb => by
      unfold Vpost4
      exact Function.update_of_ne (fun (e : b = dO4) => (Finset.mem_sdiff.mp hb).2 (by rw [e]; simp [T5_4])) _ _)]
    iexact Hrest

end Cert.Kernel.Sc

end
-- ==== Proof.ScCall5B.lean ====
/-
  Gather call 5 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreB
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 5, and what the TensorCore keeps meanwhile, in the dealing lemmas' spelling. -/
abbrev TI5 (d : Dev nD) (w : Fin 32) : sProp 𝕄 :=
  LibDeal.tileIn (ℓI := (T d : Thread nD τ).loc main_v31) (ℓC := (T d : Thread nD τ).loc main_v33) (ℓt := (T d : Thread nD τ).loc main_arg2)
    (ℓk := (T d : Thread nD τ).loc main_arg3) (ℓO := (T d : Thread nD τ).loc main_v34) (ids5 m d) (cids5 m d) (idt m d) (cat m d) h800 oBlkSet w
abbrev TO5 (d : Dev nD) (w : Fin 32) : sProp 𝕄 :=
  LibDeal.tileOut (ℓI := (T d : Thread nD τ).loc main_v31) (ℓC := (T d : Thread nD τ).loc main_v33) (ℓt := (T d : Thread nD τ).loc main_arg2)
    (ℓk := (T d : Thread nD τ).loc main_arg3) (ℓO := (T d : Thread nD τ).loc main_v34) (ids5 m d) (cids5 m d) (idt m d) (cat m d) h800 oBlkSet
    (gath (ids5 m d) (cids5 m d) (idt m d) (cat m d)) w
abbrev KP5 (d : Dev nD) : sProp 𝕄 :=
  LibDeal.kept (a := 32) (ℓI := (T d : Thread nD τ).loc main_v31) (ℓC := (T d : Thread nD τ).loc main_v33) (ℓt := (T d : Thread nD τ).loc main_arg2)
    (ℓk := (T d : Thread nD τ).loc main_arg3) (ids5 m d) (cids5 m d) (idt m d) (cat m d)

theorem tileIn5_eq (d : Dev nD) (w : Fin 32) : tileIn5 m d w = TI5 m d w := by
  unfold tileIn5 TI5 LibDeal.tileIn rsh
  simp only [blk_eq]
theorem tileOut5_eq (d : Dev nD) (w : Fin 32) : tileOut5 m d w = TO5 m d w := by
  unfold tileOut5 TO5 LibDeal.tileOut rsh
  simp only [blk_eq]

theorem st5_eq (d : Dev nD) : (bigSep Finset.univ fun c : Fin ((K (F := F)).nCore 5) => (P m).st 5 d c) = bigSep Finset.univ fun w : Fin 32 => TI5 m d w := by
  show (bigSep (Finset.univ : Finset (Fin 2)) fun c => bigSep (Finset.univ : Finset (Fin 16)) fun i => tileIn5 m d (widN c.val i.val)) = _
  rw [bigSep_workers (fun w => TI5 m d w)]
  exact bigSep_congr fun c _ => bigSep_congr fun i _ => tileIn5_eq m d _
theorem dn5_eq (d : Dev nD) : (bigSep Finset.univ fun c : Fin ((K (F := F)).nCore 5) => (P m).dn 5 d c) = bigSep Finset.univ fun w : Fin 32 => TO5 m d w := by
  show (bigSep (Finset.univ : Finset (Fin 2)) fun c => bigSep (Finset.univ : Finset (Fin 16)) fun i => tileOut5 m d (widN c.val i.val)) = _
  rw [bigSep_workers (fun w => TO5 m d w)]
  exact bigSep_congr fun c _ => bigSep_congr fun i _ => tileOut5_eq m d _

set_option maxHeartbeats 4000000 in
/-- The host operations before call 5 and the call: from the unscoped buffers at what the previous call left to
    the same at this call's result. -/
theorem step5 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 5 ∗ boundary (T d : Thread nD τ) ∗ (held (T d) (ucRefs τ sig) (Vpost4 m d) : sProp 𝕄)
        ∗ (((K (F := F)).tcSt EH d 6 ∗ boundary (T d : Thread nD τ) ∗ (held (T d) (ucRefs τ sig) (Vpost5 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops5 (F := F)) >>= fun _ => (K (F := F)).run d 5 >>= fun _ => k) Φ := by
  iintro ⟨#Hctx, Hst, Hb, Hheld, Hk⟩
  iapply (StableHlo.wp_seq 𝒱 none Set.univ d (ucRefs τ sig) _ (hops5 (F := F)) hS5 hf5 (Vpost4 m d)) $$ [Hb Hheld]
  · isplitl [Hb] <;> iassumption
  iintro ⟨Hb, Hheld0⟩
  ihave Hheld := (Entails.of_eq (show (held (T d) (ucRefs τ sig) (StableHlo.after (hops5 (F := F)) (Vpost4 m d)) : sProp 𝕄)
      = held (T d) (ucRefs τ sig) (Vpre5 m d) from rfl)) $$ Hheld0
  rw [wp_bind]
  ihave Hh := (Entails.of_eq (held_sub_split (T d) hT5_5 (Vpre5 m d))) $$ Hheld
  icases Hh with ⟨H5, Hrest⟩
  ihave H5' := (Entails.of_eq (held_T5_5 (F := F) d (Vpre5 m d))) $$ H5
  rw [Vpre5_T, Vpre5_K, show Vpre5 m d dI5 = ids5 m d from rfl, show Vpre5 m d dC5 = cids5 m d from rfl]
  ihave Hd := (LibDeal.deal (ℓI := (T d : Thread nD τ).loc main_v31) (ℓC := (T d : Thread nD τ).loc main_v33) (ℓt := (T d : Thread nD τ).loc main_arg2) (ℓk := (T d : Thread nD τ).loc main_arg3) (ℓO := (T d : Thread nD τ).loc main_v34) (ids5 m d) (cids5 m d) (idt m d) (cat m d) h800 oBlkSet oblk_disjoint oblk_cover (Vpre5 m d dO5)) $$ H5'
  icases Hd with ⟨Hkept, Htiles⟩
  iapply ((K (F := F)).wp_run (D (F := F)) 𝒱 (EH := EH) (P := P m) κ d 5) $$ [Hst Htiles Hb Hkept Hrest Hk]
  isplitr; · iexact Hctx
  isplitl [Hst]; · iexact Hst
  isplitl [Htiles]
  · rw [st5_eq]; iexact Htiles
  iintro ⟨Hst, Hdn⟩
  ihave Hdn' := (Entails.of_eq (dn5_eq m d)) $$ Hdn
  ihave H5 := (LibDeal.collect (ℓI := (T d : Thread nD τ).loc main_v31) (ℓC := (T d : Thread nD τ).loc main_v33) (ℓt := (T d : Thread nD τ).loc main_arg2) (ℓk := (T d : Thread nD τ).loc main_arg3) (ℓO := (T d : Thread nD τ).loc main_v34) (ids5 m d) (cids5 m d) (idt m d) (cat m d) h800 oBlkSet oblk_disjoint oblk_cover
    (gath (ids5 m d) (cids5 m d) (idt m d) (cat m d))) $$ [Hkept Hdn']
  · isplitl [Hkept] <;> iassumption
  iapply Hk
  isplitl [Hst]; · iexact Hst
  isplitl [Hb]; · iexact Hb
  rw [held_sub_split (T d) hT5_5 (Vpost5 m d), held_T5_5]
  isplitl [H5]
  · unfold Vpost5
    rw [Function.update_self, Function.update_of_ne (by decide), Function.update_of_ne (by decide), Function.update_of_ne (by decide),
      Function.update_of_ne (by decide), Vpre5_T, Vpre5_K,
      show Vpre5 m d dI5 = ids5 m d from rfl, show Vpre5 m d dC5 = cids5 m d from rfl]
    iexact H5
  · rw [StableHlo.held_congr (T d) (V := Vpost5 m d) (V' := Vpre5 m d) (fun b hb => by
      unfold Vpost5
      exact Function.update_of_ne (fun (e : b = dO5) => (Finset.mem_sdiff.mp hb).2 (by rw [e]; simp [T5_5])) _ _)]
    iexact Hrest

end Cert.Kernel.Sc

end
-- ==== Proof.ScCall6B.lean ====
/-
  Gather call 6 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreB
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 6, and what the TensorCore keeps meanwhile, in the dealing lemmas' spelling. -/
abbrev TI6 (d : Dev nD) (w : Fin 32) : sProp 𝕄 :=
  LibDeal.tileIn (ℓI := (T d : Thread nD τ).loc main_v36) (ℓC := (T d : Thread nD τ).loc main_v38) (ℓt := (T d : Thread nD τ).loc main_arg2)
    (ℓk := (T d : Thread nD τ).loc main_arg3) (ℓO := (T d : Thread nD τ).loc main_v39) (ids6 m d) (cids6 m d) (idt m d) (cat m d) h800 oBlkSet w
abbrev TO6 (d : Dev nD) (w : Fin 32) : sProp 𝕄 :=
  LibDeal.tileOut (ℓI := (T d : Thread nD τ).loc main_v36) (ℓC := (T d : Thread nD τ).loc main_v38) (ℓt := (T d : Thread nD τ).loc main_arg2)
    (ℓk := (T d : Thread nD τ).loc main_arg3) (ℓO := (T d : Thread nD τ).loc main_v39) (ids6 m d) (cids6 m d) (idt m d) (cat m d) h800 oBlkSet
    (gath (ids6 m d) (cids6 m d) (idt m d) (cat m d)) w
abbrev KP6 (d : Dev nD) : sProp 𝕄 :=
  LibDeal.kept (a := 32) (ℓI := (T d : Thread nD τ).loc main_v36) (ℓC := (T d : Thread nD τ).loc main_v38) (ℓt := (T d : Thread nD τ).loc main_arg2)
    (ℓk := (T d : Thread nD τ).loc main_arg3) (ids6 m d) (cids6 m d) (idt m d) (cat m d)

theorem tileIn6_eq (d : Dev nD) (w : Fin 32) : tileIn6 m d w = TI6 m d w := by
  unfold tileIn6 TI6 LibDeal.tileIn rsh
  simp only [blk_eq]
theorem tileOut6_eq (d : Dev nD) (w : Fin 32) : tileOut6 m d w = TO6 m d w := by
  unfold tileOut6 TO6 LibDeal.tileOut rsh
  simp only [blk_eq]

theorem st6_eq (d : Dev nD) : (bigSep Finset.univ fun c : Fin ((K (F := F)).nCore 6) => (P m).st 6 d c) = bigSep Finset.univ fun w : Fin 32 => TI6 m d w := by
  show (bigSep (Finset.univ : Finset (Fin 2)) fun c => bigSep (Finset.univ : Finset (Fin 16)) fun i => tileIn6 m d (widN c.val i.val)) = _
  rw [bigSep_workers (fun w => TI6 m d w)]
  exact bigSep_congr fun c _ => bigSep_congr fun i _ => tileIn6_eq m d _
theorem dn6_eq (d : Dev nD) : (bigSep Finset.univ fun c : Fin ((K (F := F)).nCore 6) => (P m).dn 6 d c) = bigSep Finset.univ fun w : Fin 32 => TO6 m d w := by
  show (bigSep (Finset.univ : Finset (Fin 2)) fun c => bigSep (Finset.univ : Finset (Fin 16)) fun i => tileOut6 m d (widN c.val i.val)) = _
  rw [bigSep_workers (fun w => TO6 m d w)]
  exact bigSep_congr fun c _ => bigSep_congr fun i _ => tileOut6_eq m d _

set_option maxHeartbeats 4000000 in
/-- The host operations before call 6 and the call: from the unscoped buffers at what the previous call left to
    the same at this call's result. -/
theorem step6 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 6 ∗ boundary (T d : Thread nD τ) ∗ (held (T d) (ucRefs τ sig) (Vpost5 m d) : sProp 𝕄)
        ∗ (((K (F := F)).tcSt EH d 7 ∗ boundary (T d : Thread nD τ) ∗ (held (T d) (ucRefs τ sig) (Vpost6 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops6 (F := F)) >>= fun _ => (K (F := F)).run d 6 >>= fun _ => k) Φ := by
  iintro ⟨#Hctx, Hst, Hb, Hheld, Hk⟩
  iapply (StableHlo.wp_seq 𝒱 none Set.univ d (ucRefs τ sig) _ (hops6 (F := F)) hS6 hf6 (Vpost5 m d)) $$ [Hb Hheld]
  · isplitl [Hb] <;> iassumption
  iintro ⟨Hb, Hheld0⟩
  ihave Hheld := (Entails.of_eq (show (held (T d) (ucRefs τ sig) (StableHlo.after (hops6 (F := F)) (Vpost5 m d)) : sProp 𝕄)
      = held (T d) (ucRefs τ sig) (Vpre6 m d) from rfl)) $$ Hheld0
  rw [wp_bind]
  ihave Hh := (Entails.of_eq (held_sub_split (T d) hT5_6 (Vpre6 m d))) $$ Hheld
  icases Hh with ⟨H5, Hrest⟩
  ihave H5' := (Entails.of_eq (held_T5_6 (F := F) d (Vpre6 m d))) $$ H5
  rw [Vpre6_T, Vpre6_K, show Vpre6 m d dI6 = ids6 m d from rfl, show Vpre6 m d dC6 = cids6 m d from rfl]
  ihave Hd := (LibDeal.deal (ℓI := (T d : Thread nD τ).loc main_v36) (ℓC := (T d : Thread nD τ).loc main_v38) (ℓt := (T d : Thread nD τ).loc main_arg2) (ℓk := (T d : Thread nD τ).loc main_arg3) (ℓO := (T d : Thread nD τ).loc main_v39) (ids6 m d) (cids6 m d) (idt m d) (cat m d) h800 oBlkSet oblk_disjoint oblk_cover (Vpre6 m d dO6)) $$ H5'
  icases Hd with ⟨Hkept, Htiles⟩
  iapply ((K (F := F)).wp_run (D (F := F)) 𝒱 (EH := EH) (P := P m) κ d 6) $$ [Hst Htiles Hb Hkept Hrest Hk]
  isplitr; · iexact Hctx
  isplitl [Hst]; · iexact Hst
  isplitl [Htiles]
  · rw [st6_eq]; iexact Htiles
  iintro ⟨Hst, Hdn⟩
  ihave Hdn' := (Entails.of_eq (dn6_eq m d)) $$ Hdn
  ihave H5 := (LibDeal.collect (ℓI := (T d : Thread nD τ).loc main_v36) (ℓC := (T d : Thread nD τ).loc main_v38) (ℓt := (T d : Thread nD τ).loc main_arg2) (ℓk := (T d : Thread nD τ).loc main_arg3) (ℓO := (T d : Thread nD τ).loc main_v39) (ids6 m d) (cids6 m d) (idt m d) (cat m d) h800 oBlkSet oblk_disjoint oblk_cover
    (gath (ids6 m d) (cids6 m d) (idt m d) (cat m d))) $$ [Hkept Hdn']
  · isplitl [Hkept] <;> iassumption
  iapply Hk
  isplitl [Hst]; · iexact Hst
  isplitl [Hb]; · iexact Hb
  rw [held_sub_split (T d) hT5_6 (Vpost6 m d), held_T5_6]
  isplitl [H5]
  · unfold Vpost6
    rw [Function.update_self, Function.update_of_ne (by decide), Function.update_of_ne (by decide), Function.update_of_ne (by decide),
      Function.update_of_ne (by decide), Vpre6_T, Vpre6_K,
      show Vpre6 m d dI6 = ids6 m d from rfl, show Vpre6 m d dC6 = cids6 m d from rfl]
    iexact H5
  · rw [StableHlo.held_congr (T d) (V := Vpost6 m d) (V' := Vpre6 m d) (fun b hb => by
      unfold Vpost6
      exact Function.update_of_ne (fun (e : b = dO6) => (Finset.mem_sdiff.mp hb).2 (by rw [e]; simp [T5_6])) _ _)]
    iexact Hrest

end Cert.Kernel.Sc

end
-- ==== Proof.ScCall7B.lean ====
/-
  Gather call 7 on the TensorCore: the host slices the call's two index rows; the five arrays are dealt to the 32
  workers (read shares of the index rows and the tables, the result's 25 blocks each), the call runs, and the
  returns are collected: the result array holds the gathered rows.
-/
import proofs.«204770_g8065948582451_cont_9to1c4b_476_56_alg».proof.Proof.ScCallPreB
import Idealize.ShloMosaic.Lib.Pipeline.Frame

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)
open Cert.LibDeal

variable {F : FTy → Type} [FloatOps F]

local notation "𝕄" => MT nD τ sig (HIx 8) (Elt F) ℕ UU ℕ

variable (m : (ℓ : Loc nD τ sig) → Buf (Elt F) ℓ)

/-- Worker `w`'s hand-out and return at call 7, and what the TensorCore keeps meanwhile, in the dealing lemmas' spelling. -/
abbrev TI7 (d : Dev nD) (w : Fin 32) : sProp 𝕄 :=
  LibDeal.tileIn (ℓI := (T d : Thread nD τ).loc main_v41) (ℓC := (T d : Thread nD τ).loc main_v43) (ℓt := (T d : Thread nD τ).loc main_arg2)
    (ℓk := (T d : Thread nD τ).loc main_arg3) (ℓO := (T d : Thread nD τ).loc main_v44) (ids7 m d) (cids7 m d) (idt m d) (cat m d) h800 oBlkSet w
abbrev TO7 (d : Dev nD) (w : Fin 32) : sProp 𝕄 :=
  LibDeal.tileOut (ℓI := (T d : Thread nD τ).loc main_v41) (ℓC := (T d : Thread nD τ).loc main_v43) (ℓt := (T d : Thread nD τ).loc main_arg2)
    (ℓk := (T d : Thread nD τ).loc main_arg3) (ℓO := (T d : Thread nD τ).loc main_v44) (ids7 m d) (cids7 m d) (idt m d) (cat m d) h800 oBlkSet
    (gath (ids7 m d) (cids7 m d) (idt m d) (cat m d)) w
abbrev KP7 (d : Dev nD) : sProp 𝕄 :=
  LibDeal.kept (a := 32) (ℓI := (T d : Thread nD τ).loc main_v41) (ℓC := (T d : Thread nD τ).loc main_v43) (ℓt := (T d : Thread nD τ).loc main_arg2)
    (ℓk := (T d : Thread nD τ).loc main_arg3) (ids7 m d) (cids7 m d) (idt m d) (cat m d)

theorem tileIn7_eq (d : Dev nD) (w : Fin 32) : tileIn7 m d w = TI7 m d w := by
  unfold tileIn7 TI7 LibDeal.tileIn rsh
  simp only [blk_eq]
theorem tileOut7_eq (d : Dev nD) (w : Fin 32) : tileOut7 m d w = TO7 m d w := by
  unfold tileOut7 TO7 LibDeal.tileOut rsh
  simp only [blk_eq]

theorem st7_eq (d : Dev nD) : (bigSep Finset.univ fun c : Fin ((K (F := F)).nCore 7) => (P m).st 7 d c) = bigSep Finset.univ fun w : Fin 32 => TI7 m d w := by
  show (bigSep (Finset.univ : Finset (Fin 2)) fun c => bigSep (Finset.univ : Finset (Fin 16)) fun i => tileIn7 m d (widN c.val i.val)) = _
  rw [bigSep_workers (fun w => TI7 m d w)]
  exact bigSep_congr fun c _ => bigSep_congr fun i _ => tileIn7_eq m d _
theorem dn7_eq (d : Dev nD) : (bigSep Finset.univ fun c : Fin ((K (F := F)).nCore 7) => (P m).dn 7 d c) = bigSep Finset.univ fun w : Fin 32 => TO7 m d w := by
  show (bigSep (Finset.univ : Finset (Fin 2)) fun c => bigSep (Finset.univ : Finset (Fin 16)) fun i => tileOut7 m d (widN c.val i.val)) = _
  rw [bigSep_workers (fun w => TO7 m d w)]
  exact bigSep_congr fun c _ => bigSep_congr fun i _ => tileOut7_eq m d _

set_option maxHeartbeats 4000000 in
/-- The host operations before call 7 and the call: from the unscoped buffers at what the previous call left to
    the same at this call's result. -/
theorem step7 (κ : GSem nD τ sig → ℕ) (d : Dev nD) {Φ : PUnit → sProp 𝕄}
    (k : Prog (TpuEff nD τ sig (Elt F) (SparseCore.Sig (ΛP (F := F)) 8) .tc) PUnit) :
    iprop((K (F := F)).ctx EH (P m) κ ∗ (K (F := F)).tcSt EH d 7 ∗ boundary (T d : Thread nD τ) ∗ (held (T d) (ucRefs τ sig) (Vpost6 m d) : sProp 𝕄)
        ∗ (((K (F := F)).tcSt EH d 8 ∗ boundary (T d : Thread nD τ) ∗ (held (T d) (ucRefs τ sig) (Vpost7 m d) : sProp 𝕄))
            -∗ wp frame (wpE ((K (F := F)).defs (D (F := F))) 𝒱 (T d) none) Set.univ k Φ))
      ⊢ wp frame (wpE ((K (F := F)).defs (D (F := F))) 𝒱 (T d) none) Set.univ
          (StableHlo.seq (hops7 (F := F)) >>= fun _ => (K (F := F)).run d 7 >>= fun _ => k) Φ := by
  iintro ⟨#Hctx, Hst, Hb, Hheld, Hk⟩
  iapply (StableHlo.wp_seq 𝒱 none Set.univ d (ucRefs τ sig) _ (hops7 (F := F)) hS7 hf7 (Vpost6 m d)) $$ [Hb Hheld]
  · isplitl [Hb] <;> iassumption
  iintro ⟨Hb, Hheld0⟩
  ihave Hheld := (Entails.of_eq (show (held (T d) (ucRefs τ sig) (StableHlo.after (hops7 (F := F)) (Vpost6 m d)) : sProp 𝕄)
      = held (T d) (ucRefs τ sig) (Vpre7 m d) from rfl)) $$ Hheld0
  rw [wp_bind]
  ihave Hh := (Entails.of_eq (held_sub_split (T d) hT5_7 (Vpre7 m d))) $$ Hheld
  icases Hh with ⟨H5, Hrest⟩
  ihave H5' := (Entails.of_eq (held_T5_7 (F := F) d (Vpre7 m d))) $$ H5
  rw [Vpre7_T, Vpre7_K, show Vpre7 m d dI7 = ids7 m d from rfl, show Vpre7 m d dC7 = cids7 m d from rfl]
  ihave Hd := (LibDeal.deal (ℓI := (T d : Thread nD τ).loc main_v41) (ℓC := (T d : Thread nD τ).loc main_v43) (ℓt := (T d : Thread nD τ).loc main_arg2) (ℓk := (T d : Thread nD τ).loc main_arg3) (ℓO := (T d : Thread nD τ).loc main_v44) (ids7 m d) (cids7 m d) (idt m d) (cat m d) h800 oBlkSet oblk_disjoint oblk_cover (Vpre7 m d dO7)) $$ H5'
  icases Hd with ⟨Hkept, Htiles⟩
  iapply ((K (F := F)).wp_run (D (F := F)) 𝒱 (EH := EH) (P := P m) κ d 7) $$ [Hst Htiles Hb Hkept Hrest Hk]
  isplitr; · iexact Hctx
  isplitl [Hst]; · iexact Hst
  isplitl [Htiles]
  · rw [st7_eq]; iexact Htiles
  iintro ⟨Hst, Hdn⟩
  ihave Hdn' := (Entails.of_eq (dn7_eq m d)) $$ Hdn
  ihave H5 := (LibDeal.collect (ℓI := (T d : Thread nD τ).loc main_v41) (ℓC := (T d : Thread nD τ).loc main_v43) (ℓt := (T d : Thread nD τ).loc main_arg2) (ℓk := (T d : Thread nD τ).loc main_arg3) (ℓO := (T d : Thread nD τ).loc main_v44) (ids7 m d) (cids7 m d) (idt m d) (cat m d) h800 oBlkSet oblk_disjoint oblk_cover
    (gath (ids7 m d) (cids7 m d) (idt m d) (cat m d))) $$ [Hkept Hdn']
  · isplitl [Hkept] <;> iassumption
  iapply Hk
  isplitl [Hst]; · iexact Hst
  isplitl [Hb]; · iexact Hb
  rw [held_sub_split (T d) hT5_7 (Vpost7 m d), held_T5_7]
  isplitl [H5]
  · unfold Vpost7
    rw [Function.update_self, Function.update_of_ne (by decide), Function.update_of_ne (by decide), Function.update_of_ne (by decide),
      Function.update_of_ne (by decide), Vpre7_T, Vpre7_K,
      show Vpre7 m d dI7 = ids7 m d from rfl, show Vpre7 m d dC7 = cids7 m d from rfl]
    iexact H5
  · rw [StableHlo.held_congr (T d) (V := Vpost7 m d) (V' := Vpre7 m d) (fun b hb => by
      unfold Vpost7
      exact Function.update_of_ne (fun (e : b = dO7) => (Finset.mem_sdiff.mp hb).2 (by rw [e]; simp [T5_7])) _ _)]
    iexact Hrest

end Cert.Kernel.Sc

end
-- ==== Proof.ScMainB.lean ====
/-
  @main on the TensorCore as the launch theorem wants it: the eight gather calls in order, each behind its host
  slices, then the TensorCore tail.
-/
import proofs.«204770_g8065948582451_cont_9to1c4b_476_56_alg».proof.Proof.ScCall0B
import proofs.«204770_g8065948582451_cont_9to1c4b_476_56_alg».proof.Proof.ScCall1B
import proofs.«204770_g8065948582451_cont_9to1c4b_476_56_alg».proof.Proof.ScCall2B
import proofs.«204770_g8065948582451_cont_9to1c4b_476_56_alg».proof.Proof.ScCall3B
import proofs.«204770_g8065948582451_cont_9to1c4b_476_56_alg».proof.Proof.ScCall4B
import proofs.«204770_g8065948582451_cont_9to1c4b_476_56_alg».proof.Proof.ScCall5B
import proofs.«204770_g8065948582451_cont_9to1c4b_476_56_alg».proof.Proof.ScCall6B
import proofs.«204770_g8065948582451_cont_9to1c4b_476_56_alg».proof.Proof.ScCall7B

noncomputable section

namespace Cert.Kernel.Sc

open Cert.Kernel Cert.Kernel.Gen

open Idealize.ShloMosaic Idealize.ShloMosaic.ValueIdx Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)

variable {F : FTy → Type} [FloatOps F]

local notation "𝕄" => MT nD τ sig (HIx 8) (Elt F) ℕ UU ℕ

variable (m : (ℓ : Loc nD τ sig) → Buf (Elt F) ℓ)

set_option maxHeartbeats 40000000 in
/-- @main after the last gather call, in the regions' signature: the eight regions, a copy of the running result
    between consecutive ones, the closing reshape. -/
def tailP : Prog (TpuEff nD τ sig (Elt F) (ΛP (F := F)) .tc) PUnit := do
  Prog.lift (.customCall (Pipeline.entry 0) ())
  hlo rfl (StableHlo.unary main_v45 main_v46 id) (fun _ => .ret ⟨⟩)
  Prog.lift (.customCall (Pipeline.entry 1) ())
  hlo rfl (StableHlo.unary main_v46 main_v47 id) (fun _ => .ret ⟨⟩)
  Prog.lift (.customCall (Pipeline.entry 2) ())
  hlo rfl (StableHlo.unary main_v47 main_v48 id) (fun _ => .ret ⟨⟩)
  Prog.lift (.customCall (Pipeline.entry 3) ())
  hlo rfl (StableHlo.unary main_v48 main_v49 id) (fun _ => .ret ⟨⟩)
  Prog.lift (.customCall (Pipeline.entry 4) ())
  hlo rfl (StableHlo.unary main_v49 main_v50 id) (fun _ => .ret ⟨⟩)
  Prog.lift (.customCall (Pipeline.entry 5) ())
  hlo rfl (StableHlo.unary main_v50 main_v51 id) (fun _ => .ret ⟨⟩)
  Prog.lift (.customCall (Pipeline.entry 6) ())
  hlo rfl (StableHlo.unary main_v51 main_v52 id) (fun _ => .ret ⟨⟩)
  Prog.lift (.customCall (Pipeline.entry 7) ())
  hlo rfl (StableHlo.reshape main_v52 main_v53 rfl shapeCasts_S819200x512_S4096x200x512) (fun _ => .ret ⟨⟩)
  pure ⟨⟩

set_option maxHeartbeats 40000000 in
set_option maxRecDepth 65536 in
/-- @main is the eight calls, each behind its host slices, then the tail. -/
theorem main_split (d : Dev nD) : main (F := F) d =
    (StableHlo.seq (hops0 (F := F)) >>= fun _ => (K (F := F)).run d 0 >>= fun _ => StableHlo.seq (hops1 (F := F)) >>= fun _ => (K (F := F)).run d 1 >>= fun _ => StableHlo.seq (hops2 (F := F)) >>= fun _ => (K (F := F)).run d 2 >>= fun _ => StableHlo.seq (hops3 (F := F)) >>= fun _ => (K (F := F)).run d 3 >>= fun _ => StableHlo.seq (hops4 (F := F)) >>= fun _ => (K (F := F)).run d 4 >>= fun _ => StableHlo.seq (hops5 (F := F)) >>= fun _ => (K (F := F)).run d 5 >>= fun _ => StableHlo.seq (hops6 (F := F)) >>= fun _ => (K (F := F)).run d 6 >>= fun _ => StableHlo.seq (hops7 (F := F)) >>= fun _ => (K (F := F)).run d 7 >>= fun _ => SparseCore.liftProg (tailP (F := F))) := by chain_rfl

set_option maxHeartbeats 4000000 in
/-- The eight gather calls: from the unscoped buffers at the launch contents to the same with every call's result at
    its gathered rows, around whatever follows. -/
theorem hmain_calls (κ : GSem nD τ sig → ℕ) (d : Dev nD) {Φ : PUnit → sProp 𝕄} :
    iprop((K (F := F)).ctx EH (P m) κ ∗ (K (F := F)).tcSt EH d 0 ∗ boundary (T d : Thread nD τ) ∗ (held (T d) (ucRefs τ sig) (V0 m d) : sProp 𝕄)
        ∗ (((K (F := F)).tcSt EH d 8 ∗ boundary (T d : Thread nD τ) ∗ (held (T d) (ucRefs τ sig) (Vpost7 m d) : sProp 𝕄))
            -∗ wp frame (wpE ((K (F := F)).defs (D (F := F))) 𝒱 (T d) none) Set.univ (SparseCore.liftProg (tailP (F := F))) Φ))
      ⊢ wp frame (wpE ((K (F := F)).defs (D (F := F))) 𝒱 (T d) none) Set.univ (main (F := F) d) Φ := by
  rw [main_split]
  iintro ⟨#Hctx, Hst, Hb, Hheld, Hk⟩
  iapply (step0 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step1 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step2 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step3 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step4 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step5 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step6 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply (step7 m κ d _) $$ [Hst Hb Hheld Hk]
  isplitr; · iexact Hctx
  isplitl [Hst]; · iexact Hst
  isplitl [Hb]; · iexact Hb
  isplitl [Hheld]; · iexact Hheld
  iintro ⟨Hst, Hb, Hheld⟩
  iapply Hk
  isplitl [Hst]; · iexact Hst
  isplitl [Hb]; · iexact Hb
  iexact Hheld

end Cert.Kernel.Sc

end
-- ==== Proof.ScLaunchB.lean ====
/-
  The launch. Given every vector subcore's gather task (one obligation per call) and the TensorCore tail's run, the
  whole family of threads runs to the end from a memory with every semaphore at zero, and every unscoped
  TensorCore buffer ends at the tail's final valuation: @main is the eight calls then the tail; the final state is
  read off the buffers held at the end.
-/
import proofs.«204770_g8065948582451_cont_9to1c4b_476_56_alg».proof.Proof.ScMainB
import proofs.«204770_g8065948582451_cont_9to1c4b_476_56_alg».proof.Proof.HeldRead

noncomputable section

namespace Cert.Kernel.Sc

open Cert.Kernel Cert.Kernel.Gen

open Idealize.ShloMosaic Idealize.ShloMosaic.ValueIdx Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)
open Idealize.ShloMosaic.Pipeline (ucRefs unscopedBufs_held sub_ucRefs)

variable {F : FTy → Type} [FloatOps F]

local notation "𝕄" => MT nD τ sig (HIx 8) (Elt F) ℕ UU ℕ

variable (m : (ℓ : Loc nD τ sig) → Buf (Elt F) ℓ) (ρ : Dev nD → PrngReg)
variable (Vf : Dev nD → Valuation τ sig (Elt F))

abbrev FIN (d : Dev nD) : sProp 𝕄 := held (T d) (ucRefs τ sig) (Vf d)

set_option maxHeartbeats 4000000 in
theorem hmain_of_tail
    (htail : ∀ (d : Dev nD) (W : Waits sig (HIx 8)) (Q : PUnit → sProp 𝕄),
      iprop((iprop(boundary (T d : Thread nD τ) ∗ (held (T d) (ucRefs τ sig) (Vf d) : sProp 𝕄)
              ∗ ∃ W', ⌜∀ p ∈ W', p ∈ W ∨ p.2 = (none : HIx 8)⌝ ∗ owes (T d : Thread nD τ) (0 : CellTallies nD τ sig (HIx 8)) W') -∗ Q ⟨⟩)
          ∗ boundary (T d : Thread nD τ) ∗ ((held (T d) (ucRefs τ sig) (Vpost7 m d) : sProp 𝕄) ∗ owes (T d : Thread nD τ) (0 : CellTallies nD τ sig (HIx 8)) W)
          ∗ levAts (K (F := F)).L (K (F := F)).lev ∗ G (F := F) d)
        ⊢ wp frame (wpE (D (F := F)) 𝒱 (T d) none) Set.univ (tailP (F := F)) Q)
    (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main (F := F) d)
          fun _ => iprop((K (F := F)).tcSt EH d 8 ∗ FIN Vf d) := by
  unfold SparseCore.Cfg.tcRes
  iintro ⟨#Hctx, Hst, ⟨Hb, Hub, -, -⟩, HG⟩
  ihave Hheld := (Entails.of_eq (show (unscopedBufs d (fun b => m ((T d : Thread nD τ).loc b)) : sProp 𝕄) = held (T d) (ucRefs τ sig) (V0 m d)
    from unscopedBufs_held (Ix := HIx 8) (Name := ℕ) (U := UU) (Lvl := ℕ) d (V0 m d))) $$ Hub
  iapply (hmain_calls m κ d) $$ [Hst Hb Hheld HG]
  isplitr; · iexact Hctx
  isplitl [Hst]; · iexact Hst
  isplitl [Hb]; · iexact Hb
  isplitl [Hheld]; · iexact Hheld
  iintro ⟨Hst, Hb, Hheld⟩
  ihave Hlv := ((K (F := F)).ctx_levAts (EH := EH) (P := P m) κ) $$ Hctx
  unfold SparseCore.Cfg.tcSt
  icases Hst with ⟨⟨%W, %hW, HO⟩, Hat, Hrd, Hrs, Htoks⟩
  rw [(K (F := F)).Otc_end d (le_refl 8)]
  iapply ((K (F := F)).wp_liftProg (D (F := F)) 𝒱 (T d) Set.univ none (tailP (F := F)) _)
  iapply (htail d W _) $$ [Hb Hheld HO Hlv HG Hat Hrd Hrs Htoks]
  isplitr [Hb Hheld HO Hlv HG]
  · iintro ⟨Hb, Hheld, %W', %hW', HO⟩
    isplitr [Hheld]
    · isplitl [HO]
      · iexists W'; isplitr
        · ipureintro
          intro p hp
          rcases hW' p hp with h | h
          · exact hW p h
          · show (K (F := F)).lev (T d, p.1) p.2 ≤ 8 * 8
            rw [h]; exact Nat.zero_le _
        · iexact HO
      isplitl [Hat]; · iexact Hat
      isplitl [Hrd]; · iexact Hrd
      isplitl [Hrs]; · iexact Hrs
      iexact Htoks
    · iexact Hheld
  · isplitl [Hb]; · iexact Hb
    isplitl [Hheld HO]; · isplitl [Hheld] <;> iassumption
    isplitl [Hlv]; · iexact Hlv
    iexact HG

/-- What the claim reads off a final state: every unscoped TensorCore buffer at the final valuation. -/
def fq (d : Dev nD) (s' : Phys nD τ sig (Elt F)) : Prop := ∀ b ∈ ucRefs τ sig, s'.mem.mem (d, b) = Vf d b

theorem hfin (d : Dev nD) (s' : Phys nD τ sig (Elt F)) : iprop(FIN Vf d ∗ SI s') ⊢ (⌜fq Vf d s'⌝ : sProp 𝕄) :=
  Cert.HeldRead.held_read (T d) (ucRefs τ sig) (Vf d) s'

/-- The program's run, from the tasks' obligations and the tail's run. -/
theorem run_of [∀ e, Nonempty (Elt F e)]
    (htile : ∀ q : Fin 8, (K (F := F)).TileObl (D (F := F)) 𝒱 (P m) v₀ q)
    (htail : ∀ (d : Dev nD) (W : Waits sig (HIx 8)) (Q : PUnit → sProp 𝕄),
      iprop((iprop(boundary (T d : Thread nD τ) ∗ (held (T d) (ucRefs τ sig) (Vf d) : sProp 𝕄)
              ∗ ∃ W', ⌜∀ p ∈ W', p ∈ W ∨ p.2 = (none : HIx 8)⌝ ∗ owes (T d : Thread nD τ) (0 : CellTallies nD τ sig (HIx 8)) W') -∗ Q ⟨⟩)
          ∗ boundary (T d : Thread nD τ) ∗ ((held (T d) (ucRefs τ sig) (Vpost7 m d) : sProp 𝕄) ∗ owes (T d : Thread nD τ) (0 : CellTallies nD τ sig (HIx 8)) W)
          ∗ levAts (K (F := F)).L (K (F := F)).lev ∗ G (F := F) d)
        ⊢ wp frame (wpE (D (F := F)) 𝒱 (T d) none) Set.univ (tailP (F := F)) Q) :
    θ_run (Cert.Kernel.defs (F := F)) (Cert.Kernel.threads (F := F)) ⟨m, fun _ => 0, ρ⟩
      (fun r => ∀ d : Dev nD, ∀ b ∈ ucRefs τ sig, r.2.mem (d, b) = Vf d b) :=
  SparseCore.Cfg.θ_run_sc (K := K (F := F)) (D := D (F := F)) (𝒱 := 𝒱) (EH := EH) (P := P m) facts v₀
    (fun q hq => by fin_cases q <;> cases hq)
    (fun q _ => htile q)
    (fun q _ => SparseCore.Cfg.VecSplit.of_plain (vecSplit m q))
    m ρ main (G (F := F)) (FIN Vf) (u₀ (F := F)) (sep_elim_left.trans (hu₀ m)) (hmain_of_tail m ρ Vf htail) (fq Vf) (hfin Vf)
    (fun r => ∀ d : Dev nD, ∀ b ∈ ucRefs τ sig, r.2.mem (d, b) = Vf d b) (fun _ h => h)

end Cert.Kernel.Sc

end
-- ==== Proof.TcTail0B.lean ====
/-
  The first dense region's body. Each dense region loads five blocks whole (a block of gathered features, the
  weights, the bias, scale and shift rows), computes one payload of them and stores it over its whole result block;
  the pipeline fetches the feature block at every grid point and the other four once, and writes the result block
  back at every point. This module has what the body leaves in the result's staging buffer, the body's triple, the
  proof data of the first region over any valuation of the arrays, and its body obligation at every point.
-/
import proofs.«204770_g8065948582451_cont_9to1c4b_476_56_alg».proof.Proof.ScPayB
import proofs.«204770_g8065948582451_cont_9to1c4b_476_56_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.TcTail

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

/-! ## The body of one dense region

Every one of the eight dense regions loads its five input blocks whole, computes one payload and stores it over its
whole result block. What the result's staging buffer holds afterwards is that payload of the five blocks. -/

abbrev rA : Rect S4096x256 := Rect.unit (s := S4096x256) ![0, 0] S4096x256.size inb_S4096x256_S4096x256_0_0
abbrev rW : Rect S256x512 := Rect.unit (s := S256x512) ![0, 0] S256x512.size inb_S256x512_S256x512_0_0
abbrev rR : Rect S1x512 := Rect.unit (s := S1x512) ![0, 0] S1x512.size inb_S1x512_S1x512_0_0
abbrev rO : Rect S4096x512 := Rect.unit (s := S4096x512) ![0, 0] S4096x512.size inb_S4096x512_S4096x512_0_0

/-- The result's staging buffer after the body, from the five input blocks: its one store. -/
def out8 (x0 : Vec F S4096x256 .f32) (x1 : Vec F S256x512 .f32) (x2 x3 x4 : Vec F S1x512 .f32) : Vec F S4096x512 .f32 :=
  View.canon [⟨rO, k8_pay1 (View.ld x0 rA) (View.ld x1 rW) (View.ld x2 rR) (View.ld x3 rR) (View.ld x4 rR)⟩]

/-- The store covers the buffer. -/
theorem cover8 (p0 : Vec F S4096x512 .f32) (y : S4096x512.Idx) :
    ∃ pc ∈ ([⟨rO, p0⟩] : List (View.Piece (Elt F) S4096x512 .f32)), y ∈ pc.1.set :=
  View.cover_of_tiled [⟨rO, p0⟩] S4096x512.size (by rfl) y

set_option maxHeartbeats 1000000 in
/-- The body of region 0 on whole staging memrefs: the inputs stay, the result's buffer ends at `out8` of them. -/
theorem sound_kernel8 (c : Dev nD) (E : Set ℕ) (i : grid8.Coords)
    (arg1 : Memref sig .tc .vmem S4096x256 .f32) (harg1 : arg1.IsWhole) (arg2 : Memref sig .tc .vmem S256x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S4096x512 .f32) (harg6 : arg6.IsWhole)
    (x0 : Vec F S4096x256 .f32) (x1 : Vec F S256x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8 x0 x1 x2 x3 x4)) -∗ K ⟨⟩))
      ⊢ wp frame (wpE (defs₀ (F := F)) Variants.none c none) E (cc8__tc_body0 i arg1 harg1 arg2 harg2 arg3 harg3 arg4 harg4 arg5 harg5 arg6 harg6) K := by
  simp only [cc8__tc_body0_eq_skeleton]; unfold cc8__tc_body0_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-- A valuation's buffer of a TensorCore reference, on core `c`. -/
abbrev vb (V : Valuation τ sig (Elt F)) (c : Dev nD) (b : Ref sig .tc) : Buf (Elt F) ((c : Thread nD τ).loc b) := V b

/-! ## The proof data of the region of pipeline cfg8 -/

/-- Window `w`'s block at point `t`, read off its array at the valuation the region is entered at. -/
def iblk8 (V : Valuation τ sig (Elt F)) (c : Dev nD) (w : Fin cfg8.W) (t : Fin cfg8.N) :
    ((cfg8.win w).xblock (cfg8.grid.coords t)).Idx → Elt F (cfg8.win w).elt :=
  ((cfg8.win w).blk t).view.read (Elt F) (vb V c (Pipeline.arrRef spec8 w))

theorem before8_0_of (V : Valuation τ sig (Elt F)) {c : Dev nD} (dat : Dat τ (Elt F) (HIx 8) ℕ Sc.UU ℕ cfg8 c)
    (hA : dat.A 0 = vb V c (Pipeline.arrRef spec8 0)) (hafter : ∀ t, dat.after 0 t = iblk8 V c 0 t) (t : Fin cfg8.N) (d) :
    dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of (V : Valuation τ sig (Elt F)) {c : Dev nD} (dat : Dat τ (Elt F) (HIx 8) ℕ Sc.UU ℕ cfg8 c)
    (hA : dat.A 1 = vb V c (Pipeline.arrRef spec8 1)) (hafter : ∀ t, dat.after 1 t = iblk8 V c 1 t) (t : Fin cfg8.N) (d) :
    dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of (V : Valuation τ sig (Elt F)) {c : Dev nD} (dat : Dat τ (Elt F) (HIx 8) ℕ Sc.UU ℕ cfg8 c)
    (hA : dat.A 2 = vb V c (Pipeline.arrRef spec8 2)) (hafter : ∀ t, dat.after 2 t = iblk8 V c 2 t) (t : Fin cfg8.N) (d) :
    dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of (V : Valuation τ sig (Elt F)) {c : Dev nD} (dat : Dat τ (Elt F) (HIx 8) ℕ Sc.UU ℕ cfg8 c)
    (hA : dat.A 3 = vb V c (Pipeline.arrRef spec8 3)) (hafter : ∀ t, dat.after 3 t = iblk8 V c 3 t) (t : Fin cfg8.N) (d) :
    dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of (V : Valuation τ sig (Elt F)) {c : Dev nD} (dat : Dat τ (Elt F) (HIx 8) ℕ Sc.UU ℕ cfg8 c)
    (hA : dat.A 4 = vb V c (Pipeline.arrRef spec8 4)) (hafter : ∀ t, dat.after 4 t = iblk8 V c 4 t) (t : Fin cfg8.N) (d) :
    dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The arrays as the valuation has them; after the body each input's buffer at its block and the result's at the
    payload of the five blocks; the invariant the scoped buffers no window stages; nothing owed, the recorded pairs within `B`; full shares. -/
def dat8 (V : Valuation τ sig (Elt F)) (B : Set (SemLoc sig × HIx 8)) (c : Dev nD) : Dat τ (Elt F) (HIx 8) ℕ Sc.UU ℕ cfg8 c where
  A w := vb V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.scopedRest (Ix := HIx 8) (Name := ℕ) (U := Sc.UU) (Lvl := ℕ) (Val := Elt F) spec8 c
  q _ := fullShare
  owed _ := 0
  recorded _ := B

theorem A8_eq (V : Valuation τ sig (Elt F)) (B : Set (SemLoc sig × HIx 8)) (c : Dev nD) (w : Fin cfg8.W) : (dat8 V B c).A w = vb V c (Pipeline.arrRef spec8 w) := by
  dsimp only [dat8]
theorem after8_0 (V : Valuation τ sig (Elt F)) (B : Set (SemLoc sig × HIx 8)) (c : Dev nD) (t : Fin cfg8.N) : (dat8 V B c).after 0 t = iblk8 V c 0 t := by dsimp only [dat8]
theorem after8_1 (V : Valuation τ sig (Elt F)) (B : Set (SemLoc sig × HIx 8)) (c : Dev nD) (t : Fin cfg8.N) : (dat8 V B c).after 1 t = iblk8 V c 1 t := by dsimp only [dat8]
theorem after8_2 (V : Valuation τ sig (Elt F)) (B : Set (SemLoc sig × HIx 8)) (c : Dev nD) (t : Fin cfg8.N) : (dat8 V B c).after 2 t = iblk8 V c 2 t := by dsimp only [dat8]
theorem after8_3 (V : Valuation τ sig (Elt F)) (B : Set (SemLoc sig × HIx 8)) (c : Dev nD) (t : Fin cfg8.N) : (dat8 V B c).after 3 t = iblk8 V c 3 t := by dsimp only [dat8]
theorem after8_4 (V : Valuation τ sig (Elt F)) (B : Set (SemLoc sig × HIx 8)) (c : Dev nD) (t : Fin cfg8.N) : (dat8 V B c).after 4 t = iblk8 V c 4 t := by dsimp only [dat8]
theorem after8_5 (V : Valuation τ sig (Elt F)) (B : Set (SemLoc sig × HIx 8)) (c : Dev nD) (t : Fin cfg8.N) :
    (dat8 V B c).after 5 t = out8 (iblk8 V c 0 t) (iblk8 V c 1 t) (iblk8 V c 2 t) (iblk8 V c 3 t) (iblk8 V c 4 t) := by dsimp only [dat8]

theorem before8_0 (V : Valuation τ sig (Elt F)) (B : Set (SemLoc sig × HIx 8)) (c : Dev nD) (t : Fin cfg8.N) (d) : (dat8 V B c).before 0 t d = iblk8 V c 0 t :=
  before8_0_of V (dat8 V B c) (A8_eq V B c 0) (after8_0 V B c) t d
theorem before8_1 (V : Valuation τ sig (Elt F)) (B : Set (SemLoc sig × HIx 8)) (c : Dev nD) (t : Fin cfg8.N) (d) : (dat8 V B c).before 1 t d = iblk8 V c 1 t :=
  before8_1_of V (dat8 V B c) (A8_eq V B c 1) (after8_1 V B c) t d
theorem before8_2 (V : Valuation τ sig (Elt F)) (B : Set (SemLoc sig × HIx 8)) (c : Dev nD) (t : Fin cfg8.N) (d) : (dat8 V B c).before 2 t d = iblk8 V c 2 t :=
  before8_2_of V (dat8 V B c) (A8_eq V B c 2) (after8_2 V B c) t d
theorem before8_3 (V : Valuation τ sig (Elt F)) (B : Set (SemLoc sig × HIx 8)) (c : Dev nD) (t : Fin cfg8.N) (d) : (dat8 V B c).before 3 t d = iblk8 V c 3 t :=
  before8_3_of V (dat8 V B c) (A8_eq V B c 3) (after8_3 V B c) t d
theorem before8_4 (V : Valuation τ sig (Elt F)) (B : Set (SemLoc sig × HIx 8)) (c : Dev nD) (t : Fin cfg8.N) (d) : (dat8 V B c).before 4 t d = iblk8 V c 4 t :=
  before8_4_of V (dat8 V B c) (A8_eq V B c 4) (after8_4 V B c) t d

/-! ## Region 0's body obligation -/

def bodyPre8 (V : Valuation τ sig (Elt F)) (B : Set (SemLoc sig × HIx 8)) (c : Dev nD) (ι : HIx 8) (t : Fin cfg8.N) : sProp 𝕄 :=
  iprop((dat8 V B c).Φ t.castSucc ∗ (dat8 V B c).owesAt ι t.castSucc
    ∗ (∃ d, owns (c : Thread nD τ) (st8_0 t) fullShare ((dat8 V B c).before 0 t d))
    ∗ (∃ d, owns (c : Thread nD τ) (st8_1 t) fullShare ((dat8 V B c).before 1 t d))
    ∗ (∃ d, owns (c : Thread nD τ) (st8_2 t) fullShare ((dat8 V B c).before 2 t d))
    ∗ (∃ d, owns (c : Thread nD τ) (st8_3 t) fullShare ((dat8 V B c).before 3 t d))
    ∗ (∃ d, owns (c : Thread nD τ) (st8_4 t) fullShare ((dat8 V B c).before 4 t d))
    ∗ (∃ d, owns (c : Thread nD τ) (st8_5 t) fullShare ((dat8 V B c).before 5 t d)))

def bodyPost8 (V : Valuation τ sig (Elt F)) (B : Set (SemLoc sig × HIx 8)) (c : Dev nD) (ι : HIx 8) (t : Fin cfg8.N) : sProp 𝕄 :=
  iprop((dat8 V B c).Φ t.succ ∗ (dat8 V B c).owesAt ι t.succ
    ∗ owns (c : Thread nD τ) (st8_0 t) fullShare ((dat8 V B c).after 0 t)
    ∗ owns (c : Thread nD τ) (st8_1 t) fullShare ((dat8 V B c).after 1 t)
    ∗ owns (c : Thread nD τ) (st8_2 t) fullShare ((dat8 V B c).after 2 t)
    ∗ owns (c : Thread nD τ) (st8_3 t) fullShare ((dat8 V B c).after 3 t)
    ∗ owns (c : Thread nD τ) (st8_4 t) fullShare ((dat8 V B c).after 4 t)
    ∗ owns (c : Thread nD τ) (st8_5 t) fullShare ((dat8 V B c).after 5 t))

theorem sound_body8 (V : Valuation τ sig (Elt F)) (B : Set (SemLoc sig × HIx 8)) (c : Dev nD) (ι : HIx 8) (t : Fin cfg8.N) :
    bodyPre8 V B c ι t ⊢ wp frame (wpE (defs₀ (F := F)) Variants.none c none) Set.univ (bodyAt8 t) (fun _ => bodyPost8 V B c ι t) := by
  unfold bodyPre8 bodyPost8 bodyAt8
  simp only [before8_0, before8_1, before8_2, before8_3, before8_4]
  rw [show (dat8 V B c).Φ t.succ = (dat8 V B c).Φ t.castSucc from rfl,
    show (dat8 V B c).owesAt ι t.succ = (dat8 V B c).owesAt ι t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 0, at every point. -/
theorem body_obligation8 (V : Valuation τ sig (Elt F)) (B : Set (SemLoc sig × HIx 8)) (c : Dev nD) (ι : HIx 8) :
    BodyObligation (dat8 (F := F) V B c) (defs₀ (F := F)) Variants.none ι Set.univ := fun t => by
  rw [bigSep_W8, bigSep_W8]
  exact sound_body8 V B c ι t

end Cert.Kernel.TcTail

end
-- ==== Proof.TcTailDatsB.lean ====
/-
  The proof data of the other seven dense regions over any valuation of the arrays: as the first region's, each over
  its own pipeline's windows (its block of gathered features, the weights, the three rows, its result block).
-/
import proofs.«204770_g8065948582451_cont_9to1c4b_476_56_alg».proof.Proof.ScPayB
import proofs.«204770_g8065948582451_cont_9to1c4b_476_56_alg».proof.Proof.Gen.Kernel.Points
import proofs.«204770_g8065948582451_cont_9to1c4b_476_56_alg».proof.Proof.TcTail0B
import Idealize.ShloMosaic.Lib.Pipeline.FrameBody
import Idealize.ShloMosaic.Lib.Pipeline.RegionsLoop
import Idealize.ShloMosaic.Lib.Tactic

set_option maxRecDepth 16384

noncomputable section

namespace Cert.Kernel.TcTail

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

/-! ## The proof data of the region of pipeline cfg9 -/

/-- Window `w`'s block at point `t`, read off its array at the valuation the region is entered at. -/
def iblk9 (V : Valuation τ sig (Elt F)) (c : Dev nD) (w : Fin cfg9.W) (t : Fin cfg9.N) :
    ((cfg9.win w).xblock (cfg9.grid.coords t)).Idx → Elt F (cfg9.win w).elt :=
  ((cfg9.win w).blk t).view.read (Elt F) (vb V c (Pipeline.arrRef spec9 w))

theorem before9_0_of (V : Valuation τ sig (Elt F)) {c : Dev nD} (dat : Dat τ (Elt F) (HIx 8) ℕ Sc.UU ℕ cfg9 c)
    (hA : dat.A 0 = vb V c (Pipeline.arrRef spec9 0)) (hafter : ∀ t, dat.after 0 t = iblk9 V c 0 t) (t : Fin cfg9.N) (d) :
    dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of (V : Valuation τ sig (Elt F)) {c : Dev nD} (dat : Dat τ (Elt F) (HIx 8) ℕ Sc.UU ℕ cfg9 c)
    (hA : dat.A 1 = vb V c (Pipeline.arrRef spec9 1)) (hafter : ∀ t, dat.after 1 t = iblk9 V c 1 t) (t : Fin cfg9.N) (d) :
    dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of (V : Valuation τ sig (Elt F)) {c : Dev nD} (dat : Dat τ (Elt F) (HIx 8) ℕ Sc.UU ℕ cfg9 c)
    (hA : dat.A 2 = vb V c (Pipeline.arrRef spec9 2)) (hafter : ∀ t, dat.after 2 t = iblk9 V c 2 t) (t : Fin cfg9.N) (d) :
    dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of (V : Valuation τ sig (Elt F)) {c : Dev nD} (dat : Dat τ (Elt F) (HIx 8) ℕ Sc.UU ℕ cfg9 c)
    (hA : dat.A 3 = vb V c (Pipeline.arrRef spec9 3)) (hafter : ∀ t, dat.after 3 t = iblk9 V c 3 t) (t : Fin cfg9.N) (d) :
    dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of (V : Valuation τ sig (Elt F)) {c : Dev nD} (dat : Dat τ (Elt F) (HIx 8) ℕ Sc.UU ℕ cfg9 c)
    (hA : dat.A 4 = vb V c (Pipeline.arrRef spec9 4)) (hafter : ∀ t, dat.after 4 t = iblk9 V c 4 t) (t : Fin cfg9.N) (d) :
    dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- The arrays as the valuation has them; after the body each input's buffer at its block and the result's at the
    payload of the five blocks; the invariant the scoped buffers no window stages; nothing owed, the recorded pairs within `B`; full shares. -/
def dat9 (V : Valuation τ sig (Elt F)) (B : Set (SemLoc sig × HIx 8)) (c : Dev nD) : Dat τ (Elt F) (HIx 8) ℕ Sc.UU ℕ cfg9 c where
  A w := vb V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out8 (iblk9 V c 0 t) (iblk9 V c 1 t) (iblk9 V c 2 t) (iblk9 V c 3 t) (iblk9 V c 4 t)
  Φ _ := Pipeline.scopedRest (Ix := HIx 8) (Name := ℕ) (U := Sc.UU) (Lvl := ℕ) (Val := Elt F) spec9 c
  q _ := fullShare
  owed _ := 0
  recorded _ := B

theorem A9_eq (V : Valuation τ sig (Elt F)) (B : Set (SemLoc sig × HIx 8)) (c : Dev nD) (w : Fin cfg9.W) : (dat9 V B c).A w = vb V c (Pipeline.arrRef spec9 w) := by
  dsimp only [dat9]
theorem after9_0 (V : Valuation τ sig (Elt F)) (B : Set (SemLoc sig × HIx 8)) (c : Dev nD) (t : Fin cfg9.N) : (dat9 V B c).after 0 t = iblk9 V c 0 t := by dsimp only [dat9]
theorem after9_1 (V : Valuation τ sig (Elt F)) (B : Set (SemLoc sig × HIx 8)) (c : Dev nD) (t : Fin cfg9.N) : (dat9 V B c).after 1 t = iblk9 V c 1 t := by dsimp only [dat9]
theorem after9_2 (V : Valuation τ sig (Elt F)) (B : Set (SemLoc sig × HIx 8)) (c : Dev nD) (t : Fin cfg9.N) : (dat9 V B c).after 2 t = iblk9 V c 2 t := by dsimp only [dat9]
theorem after9_3 (V : Valuation τ sig (Elt F)) (B : Set (SemLoc sig × HIx 8)) (c : Dev nD) (t : Fin cfg9.N) : (dat9 V B c).after 3 t = iblk9 V c 3 t := by dsimp only [dat9]
theorem after9_4 (V : Valuation τ sig (Elt F)) (B : Set (SemLoc sig × HIx 8)) (c : Dev nD) (t : Fin cfg9.N) : (dat9 V B c).after 4 t = iblk9 V c 4 t := by dsimp only [dat9]
theorem after9_5 (V : Valuation τ sig (Elt F)) (B : Set (SemLoc sig × HIx 8)) (c : Dev nD) (t : Fin cfg9.N) :
    (dat9 V B c).after 5 t = out8 (iblk9 V c 0 t) (iblk9 V c 1 t) (iblk9 V c 2 t) (iblk9 V c 3 t) (iblk9 V c 4 t) := by dsimp only [dat9]

theorem before9_0 (V : Valuation τ sig (Elt F)) (B : Set (SemLoc sig × HIx 8)) (c : Dev nD) (t : Fin cfg9.N) (d) : (dat9 V B c).before 0 t d = iblk9 V c 0 t :=
  before9_0_of V (dat9 V B c) (A9_eq V B c 0) (after9_0 V B c) t d
theorem before9_1 (V : Valuation τ sig (Elt F)) (B : Set (SemLoc sig × HIx 8)) (c : Dev nD) (t : Fin cfg9.N) (d) : (dat9 V B c).before 1 t d = iblk9 V c 1 t :=
  before9_1_of V (dat9 V B c) (A9_eq V B c 1) (after9_1 V B c) t d
theorem before9_2 (V : Valuation τ sig (Elt F)) (B : Set (SemLoc sig × HIx 8)) (c : Dev nD) (t : Fin cfg9.N) (d) : (dat9 V B c).before 2 t d = iblk9 V c 2 t :=
  before9_2_of V (dat9 V B c) (A9_eq V B c 2) (after9_2 V B c) t d
theorem before9_3 (V : Valuation τ sig (Elt F)) (B : Set (SemLoc sig × HIx 8)) (c : Dev nD) (t : Fin cfg9.N) (d) : (dat9 V B c).before 3 t d = iblk9 V c 3 t :=
  before9_3_of V (dat9 V B c) (A9_eq V B c 3) (after9_3 V B c) t d
theorem before9_4 (V : Valuation τ sig (Elt F)) (B : Set (SemLoc sig × HIx 8)) (c : Dev nD) (t : Fin cfg9.N) (d) : (dat9 V B c).before 4 t d = iblk9 V c 4 t :=
  before9_4_of V (dat9 V B c) (A9_eq V B c 4) (after9_4 V B c) t d

/-! ## The proof data of the region of pipeline cfg10 -/

/-- Window `w`'s block at point `t`, read off its array at the valuation the region is entered at. -/
def iblk10 (V : Valuation τ sig (Elt F)) (c : Dev nD) (w : Fin cfg10.W) (t : Fin cfg10.N) :
    ((cfg10.win w).xblock (cfg10.grid.coords t)).Idx → Elt F (cfg10.win w).elt :=
  ((cfg10.win w).blk t).view.read (Elt F) (vb V c (Pipeline.arrRef spec10 w))

theorem before10_0_of (V : Valuation τ sig (Elt F)) {c : Dev nD} (dat : Dat τ (Elt F) (HIx 8) ℕ Sc.UU ℕ cfg10 c)
    (hA : dat.A 0 = vb V c (Pipeline.arrRef spec10 0)) (hafter : ∀ t, dat.after 0 t = iblk10 V c 0 t) (t : Fin cfg10.N) (d) :
    dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of (V : Valuation τ sig (Elt F)) {c : Dev nD} (dat : Dat τ (Elt F) (HIx 8) ℕ Sc.UU ℕ cfg10 c)
    (hA : dat.A 1 = vb V c (Pipeline.arrRef spec10 1)) (hafter : ∀ t, dat.after 1 t = iblk10 V c 1 t) (t : Fin cfg10.N) (d) :
    dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of (V : Valuation τ sig (Elt F)) {c : Dev nD} (dat : Dat τ (Elt F) (HIx 8) ℕ Sc.UU ℕ cfg10 c)
    (hA : dat.A 2 = vb V c (Pipeline.arrRef spec10 2)) (hafter : ∀ t, dat.after 2 t = iblk10 V c 2 t) (t : Fin cfg10.N) (d) :
    dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of (V : Valuation τ sig (Elt F)) {c : Dev nD} (dat : Dat τ (Elt F) (HIx 8) ℕ Sc.UU ℕ cfg10 c)
    (hA : dat.A 3 = vb V c (Pipeline.arrRef spec10 3)) (hafter : ∀ t, dat.after 3 t = iblk10 V c 3 t) (t : Fin cfg10.N) (d) :
    dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

theorem before10_4_of (V : Valuation τ sig (Elt F)) {c : Dev nD} (dat : Dat τ (Elt F) (HIx 8) ℕ Sc.UU ℕ cfg10 c)
    (hA : dat.A 4 = vb V c (Pipeline.arrRef spec10 4)) (hafter : ∀ t, dat.after 4 t = iblk10 V c 4 t) (t : Fin cfg10.N) (d) :
    dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- The arrays as the valuation has them; after the body each input's buffer at its block and the result's at the
    payload of the five blocks; the invariant the scoped buffers no window stages; nothing owed, the recorded pairs within `B`; full shares. -/
def dat10 (V : Valuation τ sig (Elt F)) (B : Set (SemLoc sig × HIx 8)) (c : Dev nD) : Dat τ (Elt F) (HIx 8) ℕ Sc.UU ℕ cfg10 c where
  A w := vb V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out8 (iblk10 V c 0 t) (iblk10 V c 1 t) (iblk10 V c 2 t) (iblk10 V c 3 t) (iblk10 V c 4 t)
  Φ _ := Pipeline.scopedRest (Ix := HIx 8) (Name := ℕ) (U := Sc.UU) (Lvl := ℕ) (Val := Elt F) spec10 c
  q _ := fullShare
  owed _ := 0
  recorded _ := B

theorem A10_eq (V : Valuation τ sig (Elt F)) (B : Set (SemLoc sig × HIx 8)) (c : Dev nD) (w : Fin cfg10.W) : (dat10 V B c).A w = vb V c (Pipeline.arrRef spec10 w) := by
  dsimp only [dat10]
theorem after10_0 (V : Valuation τ sig (Elt F)) (B : Set (SemLoc sig × HIx 8)) (c : Dev nD) (t : Fin cfg10.N) : (dat10 V B c).after 0 t = iblk10 V c 0 t := by dsimp only [dat10]
theorem after10_1 (V : Valuation τ sig (Elt F)) (B : Set (SemLoc sig × HIx 8)) (c : Dev nD) (t : Fin cfg10.N) : (dat10 V B c).after 1 t = iblk10 V c 1 t := by dsimp only [dat10]
theorem after10_2 (V : Valuation τ sig (Elt F)) (B : Set (SemLoc sig × HIx 8)) (c : Dev nD) (t : Fin cfg10.N) : (dat10 V B c).after 2 t = iblk10 V c 2 t := by dsimp only [dat10]
theorem after10_3 (V : Valuation τ sig (Elt F)) (B : Set (SemLoc sig × HIx 8)) (c : Dev nD) (t : Fin cfg10.N) : (dat10 V B c).after 3 t = iblk10 V c 3 t := by dsimp only [dat10]
theorem after10_4 (V : Valuation τ sig (Elt F)) (B : Set (SemLoc sig × HIx 8)) (c : Dev nD) (t : Fin cfg10.N) : (dat10 V B c).after 4 t = iblk10 V c 4 t := by dsimp only [dat10]
theorem after10_5 (V : Valuation τ sig (Elt F)) (B : Set (SemLoc sig × HIx 8)) (c : Dev nD) (t : Fin cfg10.N) :
    (dat10 V B c).after 5 t = out8 (iblk10 V c 0 t) (iblk10 V c 1 t) (iblk10 V c 2 t) (iblk10 V c 3 t) (iblk10 V c 4 t) := by dsimp only [dat10]

theorem before10_0 (V : Valuation τ sig (Elt F)) (B : Set (SemLoc sig × HIx 8)) (c : Dev nD) (t : Fin cfg10.N) (d) : (dat10 V B c).before 0 t d = iblk10 V c 0 t :=
  before10_0_of V (dat10 V B c) (A10_eq V B c 0) (after10_0 V B c) t d
theorem before10_1 (V : Valuation τ sig (Elt F)) (B : Set (SemLoc sig × HIx 8)) (c : Dev nD) (t : Fin cfg10.N) (d) : (dat10 V B c).before 1 t d = iblk10 V c 1 t :=
  before10_1_of V (dat10 V B c) (A10_eq V B c 1) (after10_1 V B c) t d
theorem before10_2 (V : Valuation τ sig (Elt F)) (B : Set (SemLoc sig × HIx 8)) (c : Dev nD) (t : Fin cfg10.N) (d) : (dat10 V B c).before 2 t d = iblk10 V c 2 t :=
  before10_2_of V (dat10 V B c) (A10_eq V B c 2) (after10_2 V B c) t d
theorem before10_3 (V : Valuation τ sig (Elt F)) (B : Set (SemLoc sig × HIx 8)) (c : Dev nD) (t : Fin cfg10.N) (d) : (dat10 V B c).before 3 t d = iblk10 V c 3 t :=
  before10_3_of V (dat10 V B c) (A10_eq V B c 3) (after10_3 V B c) t d
theorem before10_4 (V : Valuation τ sig (Elt F)) (B : Set (SemLoc sig × HIx 8)) (c : Dev nD) (t : Fin cfg10.N) (d) : (dat10 V B c).before 4 t d = iblk10 V c 4 t :=
  before10_4_of V (dat10 V B c) (A10_eq V B c 4) (after10_4 V B c) t d

/-! ## The proof data of the region of pipeline cfg11 -/

/-- Window `w`'s block at point `t`, read off its array at the valuation the region is entered at. -/
def iblk11 (V : Valuation τ sig (Elt F)) (c : Dev nD) (w : Fin cfg11.W) (t : Fin cfg11.N) :
    ((cfg11.win w).xblock (cfg11.grid.coords t)).Idx → Elt F (cfg11.win w).elt :=
  ((cfg11.win w).blk t).view.read (Elt F) (vb V c (Pipeline.arrRef spec11 w))

theorem before11_0_of (V : Valuation τ sig (Elt F)) {c : Dev nD} (dat : Dat τ (Elt F) (HIx 8) ℕ Sc.UU ℕ cfg11 c)
    (hA : dat.A 0 = vb V c (Pipeline.arrRef spec11 0)) (hafter : ∀ t, dat.after 0 t = iblk11 V c 0 t) (t : Fin cfg11.N) (d) :
    dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of (V : Valuation τ sig (Elt F)) {c : Dev nD} (dat : Dat τ (Elt F) (HIx 8) ℕ Sc.UU ℕ cfg11 c)
    (hA : dat.A 1 = vb V c (Pipeline.arrRef spec11 1)) (hafter : ∀ t, dat.after 1 t = iblk11 V c 1 t) (t : Fin cfg11.N) (d) :
    dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of (V : Valuation τ sig (Elt F)) {c : Dev nD} (dat : Dat τ (Elt F) (HIx 8) ℕ Sc.UU ℕ cfg11 c)
    (hA : dat.A 2 = vb V c (Pipeline.arrRef spec11 2)) (hafter : ∀ t, dat.after 2 t = iblk11 V c 2 t) (t : Fin cfg11.N) (d) :
    dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of (V : Valuation τ sig (Elt F)) {c : Dev nD} (dat : Dat τ (Elt F) (HIx 8) ℕ Sc.UU ℕ cfg11 c)
    (hA : dat.A 3 = vb V c (Pipeline.arrRef spec11 3)) (hafter : ∀ t, dat.after 3 t = iblk11 V c 3 t) (t : Fin cfg11.N) (d) :
    dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of (V : Valuation τ sig (Elt F)) {c : Dev nD} (dat : Dat τ (Elt F) (HIx 8) ℕ Sc.UU ℕ cfg11 c)
    (hA : dat.A 4 = vb V c (Pipeline.arrRef spec11 4)) (hafter : ∀ t, dat.after 4 t = iblk11 V c 4 t) (t : Fin cfg11.N) (d) :
    dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The arrays as the valuation has them; after the body each input's buffer at its block and the result's at the
    payload of the five blocks; the invariant the scoped buffers no window stages; nothing owed, the recorded pairs within `B`; full shares. -/
def dat11 (V : Valuation τ sig (Elt F)) (B : Set (SemLoc sig × HIx 8)) (c : Dev nD) : Dat τ (Elt F) (HIx 8) ℕ Sc.UU ℕ cfg11 c where
  A w := vb V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out8 (iblk11 V c 0 t) (iblk11 V c 1 t) (iblk11 V c 2 t) (iblk11 V c 3 t) (iblk11 V c 4 t)
  Φ _ := Pipeline.scopedRest (Ix := HIx 8) (Name := ℕ) (U := Sc.UU) (Lvl := ℕ) (Val := Elt F) spec11 c
  q _ := fullShare
  owed _ := 0
  recorded _ := B

theorem A11_eq (V : Valuation τ sig (Elt F)) (B : Set (SemLoc sig × HIx 8)) (c : Dev nD) (w : Fin cfg11.W) : (dat11 V B c).A w = vb V c (Pipeline.arrRef spec11 w) := by
  dsimp only [dat11]
theorem after11_0 (V : Valuation τ sig (Elt F)) (B : Set (SemLoc sig × HIx 8)) (c : Dev nD) (t : Fin cfg11.N) : (dat11 V B c).after 0 t = iblk11 V c 0 t := by dsimp only [dat11]
theorem after11_1 (V : Valuation τ sig (Elt F)) (B : Set (SemLoc sig × HIx 8)) (c : Dev nD) (t : Fin cfg11.N) : (dat11 V B c).after 1 t = iblk11 V c 1 t := by dsimp only [dat11]
theorem after11_2 (V : Valuation τ sig (Elt F)) (B : Set (SemLoc sig × HIx 8)) (c : Dev nD) (t : Fin cfg11.N) : (dat11 V B c).after 2 t = iblk11 V c 2 t := by dsimp only [dat11]
theorem after11_3 (V : Valuation τ sig (Elt F)) (B : Set (SemLoc sig × HIx 8)) (c : Dev nD) (t : Fin cfg11.N) : (dat11 V B c).after 3 t = iblk11 V c 3 t := by dsimp only [dat11]
theorem after11_4 (V : Valuation τ sig (Elt F)) (B : Set (SemLoc sig × HIx 8)) (c : Dev nD) (t : Fin cfg11.N) : (dat11 V B c).after 4 t = iblk11 V c 4 t := by dsimp only [dat11]
theorem after11_5 (V : Valuation τ sig (Elt F)) (B : Set (SemLoc sig × HIx 8)) (c : Dev nD) (t : Fin cfg11.N) :
    (dat11 V B c).after 5 t = out8 (iblk11 V c 0 t) (iblk11 V c 1 t) (iblk11 V c 2 t) (iblk11 V c 3 t) (iblk11 V c 4 t) := by dsimp only [dat11]

theorem before11_0 (V : Valuation τ sig (Elt F)) (B : Set (SemLoc sig × HIx 8)) (c : Dev nD) (t : Fin cfg11.N) (d) : (dat11 V B c).before 0 t d = iblk11 V c 0 t :=
  before11_0_of V (dat11 V B c) (A11_eq V B c 0) (after11_0 V B c) t d
theorem before11_1 (V : Valuation τ sig (Elt F)) (B : Set (SemLoc sig × HIx 8)) (c : Dev nD) (t : Fin cfg11.N) (d) : (dat11 V B c).before 1 t d = iblk11 V c 1 t :=
  before11_1_of V (dat11 V B c) (A11_eq V B c 1) (after11_1 V B c) t d
theorem before11_2 (V : Valuation τ sig (Elt F)) (B : Set (SemLoc sig × HIx 8)) (c : Dev nD) (t : Fin cfg11.N) (d) : (dat11 V B c).before 2 t d = iblk11 V c 2 t :=
  before11_2_of V (dat11 V B c) (A11_eq V B c 2) (after11_2 V B c) t d
theorem before11_3 (V : Valuation τ sig (Elt F)) (B : Set (SemLoc sig × HIx 8)) (c : Dev nD) (t : Fin cfg11.N) (d) : (dat11 V B c).before 3 t d = iblk11 V c 3 t :=
  before11_3_of V (dat11 V B c) (A11_eq V B c 3) (after11_3 V B c) t d
theorem before11_4 (V : Valuation τ sig (Elt F)) (B : Set (SemLoc sig × HIx 8)) (c : Dev nD) (t : Fin cfg11.N) (d) : (dat11 V B c).before 4 t d = iblk11 V c 4 t :=
  before11_4_of V (dat11 V B c) (A11_eq V B c 4) (after11_4 V B c) t d

/-! ## The proof data of the region of pipeline cfg12 -/

/-- Window `w`'s block at point `t`, read off its array at the valuation the region is entered at. -/
def iblk12 (V : Valuation τ sig (Elt F)) (c : Dev nD) (w : Fin cfg12.W) (t : Fin cfg12.N) :
    ((cfg12.win w).xblock (cfg12.grid.coords t)).Idx → Elt F (cfg12.win w).elt :=
  ((cfg12.win w).blk t).view.read (Elt F) (vb V c (Pipeline.arrRef spec12 w))

theorem before12_0_of (V : Valuation τ sig (Elt F)) {c : Dev nD} (dat : Dat τ (Elt F) (HIx 8) ℕ Sc.UU ℕ cfg12 c)
    (hA : dat.A 0 = vb V c (Pipeline.arrRef spec12 0)) (hafter : ∀ t, dat.after 0 t = iblk12 V c 0 t) (t : Fin cfg12.N) (d) :
    dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of (V : Valuation τ sig (Elt F)) {c : Dev nD} (dat : Dat τ (Elt F) (HIx 8) ℕ Sc.UU ℕ cfg12 c)
    (hA : dat.A 1 = vb V c (Pipeline.arrRef spec12 1)) (hafter : ∀ t, dat.after 1 t = iblk12 V c 1 t) (t : Fin cfg12.N) (d) :
    dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of (V : Valuation τ sig (Elt F)) {c : Dev nD} (dat : Dat τ (Elt F) (HIx 8) ℕ Sc.UU ℕ cfg12 c)
    (hA : dat.A 2 = vb V c (Pipeline.arrRef spec12 2)) (hafter : ∀ t, dat.after 2 t = iblk12 V c 2 t) (t : Fin cfg12.N) (d) :
    dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of (V : Valuation τ sig (Elt F)) {c : Dev nD} (dat : Dat τ (Elt F) (HIx 8) ℕ Sc.UU ℕ cfg12 c)
    (hA : dat.A 3 = vb V c (Pipeline.arrRef spec12 3)) (hafter : ∀ t, dat.after 3 t = iblk12 V c 3 t) (t : Fin cfg12.N) (d) :
    dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

theorem before12_4_of (V : Valuation τ sig (Elt F)) {c : Dev nD} (dat : Dat τ (Elt F) (HIx 8) ℕ Sc.UU ℕ cfg12 c)
    (hA : dat.A 4 = vb V c (Pipeline.arrRef spec12 4)) (hafter : ∀ t, dat.after 4 t = iblk12 V c 4 t) (t : Fin cfg12.N) (d) :
    dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- The arrays as the valuation has them; after the body each input's buffer at its block and the result's at the
    payload of the five blocks; the invariant the scoped buffers no window stages; nothing owed, the recorded pairs within `B`; full shares. -/
def dat12 (V : Valuation τ sig (Elt F)) (B : Set (SemLoc sig × HIx 8)) (c : Dev nD) : Dat τ (Elt F) (HIx 8) ℕ Sc.UU ℕ cfg12 c where
  A w := vb V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => out8 (iblk12 V c 0 t) (iblk12 V c 1 t) (iblk12 V c 2 t) (iblk12 V c 3 t) (iblk12 V c 4 t)
  Φ _ := Pipeline.scopedRest (Ix := HIx 8) (Name := ℕ) (U := Sc.UU) (Lvl := ℕ) (Val := Elt F) spec12 c
  q _ := fullShare
  owed _ := 0
  recorded _ := B

theorem A12_eq (V : Valuation τ sig (Elt F)) (B : Set (SemLoc sig × HIx 8)) (c : Dev nD) (w : Fin cfg12.W) : (dat12 V B c).A w = vb V c (Pipeline.arrRef spec12 w) := by
  dsimp only [dat12]
theorem after12_0 (V : Valuation τ sig (Elt F)) (B : Set (SemLoc sig × HIx 8)) (c : Dev nD) (t : Fin cfg12.N) : (dat12 V B c).after 0 t = iblk12 V c 0 t := by dsimp only [dat12]
theorem after12_1 (V : Valuation τ sig (Elt F)) (B : Set (SemLoc sig × HIx 8)) (c : Dev nD) (t : Fin cfg12.N) : (dat12 V B c).after 1 t = iblk12 V c 1 t := by dsimp only [dat12]
theorem after12_2 (V : Valuation τ sig (Elt F)) (B : Set (SemLoc sig × HIx 8)) (c : Dev nD) (t : Fin cfg12.N) : (dat12 V B c).after 2 t = iblk12 V c 2 t := by dsimp only [dat12]
theorem after12_3 (V : Valuation τ sig (Elt F)) (B : Set (SemLoc sig × HIx 8)) (c : Dev nD) (t : Fin cfg12.N) : (dat12 V B c).after 3 t = iblk12 V c 3 t := by dsimp only [dat12]
theorem after12_4 (V : Valuation τ sig (Elt F)) (B : Set (SemLoc sig × HIx 8)) (c : Dev nD) (t : Fin cfg12.N) : (dat12 V B c).after 4 t = iblk12 V c 4 t := by dsimp only [dat12]
theorem after12_5 (V : Valuation τ sig (Elt F)) (B : Set (SemLoc sig × HIx 8)) (c : Dev nD) (t : Fin cfg12.N) :
    (dat12 V B c).after 5 t = out8 (iblk12 V c 0 t) (iblk12 V c 1 t) (iblk12 V c 2 t) (iblk12 V c 3 t) (iblk12 V c 4 t) := by dsimp only [dat12]

theorem before12_0 (V : Valuation τ sig (Elt F)) (B : Set (SemLoc sig × HIx 8)) (c : Dev nD) (t : Fin cfg12.N) (d) : (dat12 V B c).before 0 t d = iblk12 V c 0 t :=
  before12_0_of V (dat12 V B c) (A12_eq V B c 0) (after12_0 V B c) t d
theorem before12_1 (V : Valuation τ sig (Elt F)) (B : Set (SemLoc sig × HIx 8)) (c : Dev nD) (t : Fin cfg12.N) (d) : (dat12 V B c).before 1 t d = iblk12 V c 1 t :=
  before12_1_of V (dat12 V B c) (A12_eq V B c 1) (after12_1 V B c) t d
theorem before12_2 (V : Valuation τ sig (Elt F)) (B : Set (SemLoc sig × HIx 8)) (c : Dev nD) (t : Fin cfg12.N) (d) : (dat12 V B c).before 2 t d = iblk12 V c 2 t :=
  before12_2_of V (dat12 V B c) (A12_eq V B c 2) (after12_2 V B c) t d
theorem before12_3 (V : Valuation τ sig (Elt F)) (B : Set (SemLoc sig × HIx 8)) (c : Dev nD) (t : Fin cfg12.N) (d) : (dat12 V B c).before 3 t d = iblk12 V c 3 t :=
  before12_3_of V (dat12 V B c) (A12_eq V B c 3) (after12_3 V B c) t d
theorem before12_4 (V : Valuation τ sig (Elt F)) (B : Set (SemLoc sig × HIx 8)) (c : Dev nD) (t : Fin cfg12.N) (d) : (dat12 V B c).before 4 t d = iblk12 V c 4 t :=
  before12_4_of V (dat12 V B c) (A12_eq V B c 4) (after12_4 V B c) t d

/-! ## The proof data of the region of pipeline cfg13 -/

/-- Window `w`'s block at point `t`, read off its array at the valuation the region is entered at. -/
def iblk13 (V : Valuation τ sig (Elt F)) (c : Dev nD) (w : Fin cfg13.W) (t : Fin cfg13.N) :
    ((cfg13.win w).xblock (cfg13.grid.coords t)).Idx → Elt F (cfg13.win w).elt :=
  ((cfg13.win w).blk t).view.read (Elt F) (vb V c (Pipeline.arrRef spec13 w))

theorem before13_0_of (V : Valuation τ sig (Elt F)) {c : Dev nD} (dat : Dat τ (Elt F) (HIx 8) ℕ Sc.UU ℕ cfg13 c)
    (hA : dat.A 0 = vb V c (Pipeline.arrRef spec13 0)) (hafter : ∀ t, dat.after 0 t = iblk13 V c 0 t) (t : Fin cfg13.N) (d) :
    dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of (V : Valuation τ sig (Elt F)) {c : Dev nD} (dat : Dat τ (Elt F) (HIx 8) ℕ Sc.UU ℕ cfg13 c)
    (hA : dat.A 1 = vb V c (Pipeline.arrRef spec13 1)) (hafter : ∀ t, dat.after 1 t = iblk13 V c 1 t) (t : Fin cfg13.N) (d) :
    dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem before13_2_of (V : Valuation τ sig (Elt F)) {c : Dev nD} (dat : Dat τ (Elt F) (HIx 8) ℕ Sc.UU ℕ cfg13 c)
    (hA : dat.A 2 = vb V c (Pipeline.arrRef spec13 2)) (hafter : ∀ t, dat.after 2 t = iblk13 V c 2 t) (t : Fin cfg13.N) (d) :
    dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

theorem before13_3_of (V : Valuation τ sig (Elt F)) {c : Dev nD} (dat : Dat τ (Elt F) (HIx 8) ℕ Sc.UU ℕ cfg13 c)
    (hA : dat.A 3 = vb V c (Pipeline.arrRef spec13 3)) (hafter : ∀ t, dat.after 3 t = iblk13 V c 3 t) (t : Fin cfg13.N) (d) :
    dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

theorem before13_4_of (V : Valuation τ sig (Elt F)) {c : Dev nD} (dat : Dat τ (Elt F) (HIx 8) ℕ Sc.UU ℕ cfg13 c)
    (hA : dat.A 4 = vb V c (Pipeline.arrRef spec13 4)) (hafter : ∀ t, dat.after 4 t = iblk13 V c 4 t) (t : Fin cfg13.N) (d) :
    dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- The arrays as the valuation has them; after the body each input's buffer at its block and the result's at the
    payload of the five blocks; the invariant the scoped buffers no window stages; nothing owed, the recorded pairs within `B`; full shares. -/
def dat13 (V : Valuation τ sig (Elt F)) (B : Set (SemLoc sig × HIx 8)) (c : Dev nD) : Dat τ (Elt F) (HIx 8) ℕ Sc.UU ℕ cfg13 c where
  A w := vb V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => out8 (iblk13 V c 0 t) (iblk13 V c 1 t) (iblk13 V c 2 t) (iblk13 V c 3 t) (iblk13 V c 4 t)
  Φ _ := Pipeline.scopedRest (Ix := HIx 8) (Name := ℕ) (U := Sc.UU) (Lvl := ℕ) (Val := Elt F) spec13 c
  q _ := fullShare
  owed _ := 0
  recorded _ := B

theorem A13_eq (V : Valuation τ sig (Elt F)) (B : Set (SemLoc sig × HIx 8)) (c : Dev nD) (w : Fin cfg13.W) : (dat13 V B c).A w = vb V c (Pipeline.arrRef spec13 w) := by
  dsimp only [dat13]
theorem after13_0 (V : Valuation τ sig (Elt F)) (B : Set (SemLoc sig × HIx 8)) (c : Dev nD) (t : Fin cfg13.N) : (dat13 V B c).after 0 t = iblk13 V c 0 t := by dsimp only [dat13]
theorem after13_1 (V : Valuation τ sig (Elt F)) (B : Set (SemLoc sig × HIx 8)) (c : Dev nD) (t : Fin cfg13.N) : (dat13 V B c).after 1 t = iblk13 V c 1 t := by dsimp only [dat13]
theorem after13_2 (V : Valuation τ sig (Elt F)) (B : Set (SemLoc sig × HIx 8)) (c : Dev nD) (t : Fin cfg13.N) : (dat13 V B c).after 2 t = iblk13 V c 2 t := by dsimp only [dat13]
theorem after13_3 (V : Valuation τ sig (Elt F)) (B : Set (SemLoc sig × HIx 8)) (c : Dev nD) (t : Fin cfg13.N) : (dat13 V B c).after 3 t = iblk13 V c 3 t := by dsimp only [dat13]
theorem after13_4 (V : Valuation τ sig (Elt F)) (B : Set (SemLoc sig × HIx 8)) (c : Dev nD) (t : Fin cfg13.N) : (dat13 V B c).after 4 t = iblk13 V c 4 t := by dsimp only [dat13]
theorem after13_5 (V : Valuation τ sig (Elt F)) (B : Set (SemLoc sig × HIx 8)) (c : Dev nD) (t : Fin cfg13.N) :
    (dat13 V B c).after 5 t = out8 (iblk13 V c 0 t) (iblk13 V c 1 t) (iblk13 V c 2 t) (iblk13 V c 3 t) (iblk13 V c 4 t) := by dsimp only [dat13]

theorem before13_0 (V : Valuation τ sig (Elt F)) (B : Set (SemLoc sig × HIx 8)) (c : Dev nD) (t : Fin cfg13.N) (d) : (dat13 V B c).before 0 t d = iblk13 V c 0 t :=
  before13_0_of V (dat13 V B c) (A13_eq V B c 0) (after13_0 V B c) t d
theorem before13_1 (V : Valuation τ sig (Elt F)) (B : Set (SemLoc sig × HIx 8)) (c : Dev nD) (t : Fin cfg13.N) (d) : (dat13 V B c).before 1 t d = iblk13 V c 1 t :=
  before13_1_of V (dat13 V B c) (A13_eq V B c 1) (after13_1 V B c) t d
theorem before13_2 (V : Valuation τ sig (Elt F)) (B : Set (SemLoc sig × HIx 8)) (c : Dev nD) (t : Fin cfg13.N) (d) : (dat13 V B c).before 2 t d = iblk13 V c 2 t :=
  before13_2_of V (dat13 V B c) (A13_eq V B c 2) (after13_2 V B c) t d
theorem before13_3 (V : Valuation τ sig (Elt F)) (B : Set (SemLoc sig × HIx 8)) (c : Dev nD) (t : Fin cfg13.N) (d) : (dat13 V B c).before 3 t d = iblk13 V c 3 t :=
  before13_3_of V (dat13 V B c) (A13_eq V B c 3) (after13_3 V B c) t d
theorem before13_4 (V : Valuation τ sig (Elt F)) (B : Set (SemLoc sig × HIx 8)) (c : Dev nD) (t : Fin cfg13.N) (d) : (dat13 V B c).before 4 t d = iblk13 V c 4 t :=
  before13_4_of V (dat13 V B c) (A13_eq V B c 4) (after13_4 V B c) t d

/-! ## The proof data of the region of pipeline cfg14 -/

/-- Window `w`'s block at point `t`, read off its array at the valuation the region is entered at. -/
def iblk14 (V : Valuation τ sig (Elt F)) (c : Dev nD) (w : Fin cfg14.W) (t : Fin cfg14.N) :
    ((cfg14.win w).xblock (cfg14.grid.coords t)).Idx → Elt F (cfg14.win w).elt :=
  ((cfg14.win w).blk t).view.read (Elt F) (vb V c (Pipeline.arrRef spec14 w))

theorem before14_0_of (V : Valuation τ sig (Elt F)) {c : Dev nD} (dat : Dat τ (Elt F) (HIx 8) ℕ Sc.UU ℕ cfg14 c)
    (hA : dat.A 0 = vb V c (Pipeline.arrRef spec14 0)) (hafter : ∀ t, dat.after 0 t = iblk14 V c 0 t) (t : Fin cfg14.N) (d) :
    dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of (V : Valuation τ sig (Elt F)) {c : Dev nD} (dat : Dat τ (Elt F) (HIx 8) ℕ Sc.UU ℕ cfg14 c)
    (hA : dat.A 1 = vb V c (Pipeline.arrRef spec14 1)) (hafter : ∀ t, dat.after 1 t = iblk14 V c 1 t) (t : Fin cfg14.N) (d) :
    dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

theorem before14_2_of (V : Valuation τ sig (Elt F)) {c : Dev nD} (dat : Dat τ (Elt F) (HIx 8) ℕ Sc.UU ℕ cfg14 c)
    (hA : dat.A 2 = vb V c (Pipeline.arrRef spec14 2)) (hafter : ∀ t, dat.after 2 t = iblk14 V c 2 t) (t : Fin cfg14.N) (d) :
    dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

theorem before14_3_of (V : Valuation τ sig (Elt F)) {c : Dev nD} (dat : Dat τ (Elt F) (HIx 8) ℕ Sc.UU ℕ cfg14 c)
    (hA : dat.A 3 = vb V c (Pipeline.arrRef spec14 3)) (hafter : ∀ t, dat.after 3 t = iblk14 V c 3 t) (t : Fin cfg14.N) (d) :
    dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

theorem before14_4_of (V : Valuation τ sig (Elt F)) {c : Dev nD} (dat : Dat τ (Elt F) (HIx 8) ℕ Sc.UU ℕ cfg14 c)
    (hA : dat.A 4 = vb V c (Pipeline.arrRef spec14 4)) (hafter : ∀ t, dat.after 4 t = iblk14 V c 4 t) (t : Fin cfg14.N) (d) :
    dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- The arrays as the valuation has them; after the body each input's buffer at its block and the result's at the
    payload of the five blocks; the invariant the scoped buffers no window stages; nothing owed, the recorded pairs within `B`; full shares. -/
def dat14 (V : Valuation τ sig (Elt F)) (B : Set (SemLoc sig × HIx 8)) (c : Dev nD) : Dat τ (Elt F) (HIx 8) ℕ Sc.UU ℕ cfg14 c where
  A w := vb V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out8 (iblk14 V c 0 t) (iblk14 V c 1 t) (iblk14 V c 2 t) (iblk14 V c 3 t) (iblk14 V c 4 t)
  Φ _ := Pipeline.scopedRest (Ix := HIx 8) (Name := ℕ) (U := Sc.UU) (Lvl := ℕ) (Val := Elt F) spec14 c
  q _ := fullShare
  owed _ := 0
  recorded _ := B

theorem A14_eq (V : Valuation τ sig (Elt F)) (B : Set (SemLoc sig × HIx 8)) (c : Dev nD) (w : Fin cfg14.W) : (dat14 V B c).A w = vb V c (Pipeline.arrRef spec14 w) := by
  dsimp only [dat14]
theorem after14_0 (V : Valuation τ sig (Elt F)) (B : Set (SemLoc sig × HIx 8)) (c : Dev nD) (t : Fin cfg14.N) : (dat14 V B c).after 0 t = iblk14 V c 0 t := by dsimp only [dat14]
theorem after14_1 (V : Valuation τ sig (Elt F)) (B : Set (SemLoc sig × HIx 8)) (c : Dev nD) (t : Fin cfg14.N) : (dat14 V B c).after 1 t = iblk14 V c 1 t := by dsimp only [dat14]
theorem after14_2 (V : Valuation τ sig (Elt F)) (B : Set (SemLoc sig × HIx 8)) (c : Dev nD) (t : Fin cfg14.N) : (dat14 V B c).after 2 t = iblk14 V c 2 t := by dsimp only [dat14]
theorem after14_3 (V : Valuation τ sig (Elt F)) (B : Set (SemLoc sig × HIx 8)) (c : Dev nD) (t : Fin cfg14.N) : (dat14 V B c).after 3 t = iblk14 V c 3 t := by dsimp only [dat14]
theorem after14_4 (V : Valuation τ sig (Elt F)) (B : Set (SemLoc sig × HIx 8)) (c : Dev nD) (t : Fin cfg14.N) : (dat14 V B c).after 4 t = iblk14 V c 4 t := by dsimp only [dat14]
theorem after14_5 (V : Valuation τ sig (Elt F)) (B : Set (SemLoc sig × HIx 8)) (c : Dev nD) (t : Fin cfg14.N) :
    (dat14 V B c).after 5 t = out8 (iblk14 V c 0 t) (iblk14 V c 1 t) (iblk14 V c 2 t) (iblk14 V c 3 t) (iblk14 V c 4 t) := by dsimp only [dat14]

theorem before14_0 (V : Valuation τ sig (Elt F)) (B : Set (SemLoc sig × HIx 8)) (c : Dev nD) (t : Fin cfg14.N) (d) : (dat14 V B c).before 0 t d = iblk14 V c 0 t :=
  before14_0_of V (dat14 V B c) (A14_eq V B c 0) (after14_0 V B c) t d
theorem before14_1 (V : Valuation τ sig (Elt F)) (B : Set (SemLoc sig × HIx 8)) (c : Dev nD) (t : Fin cfg14.N) (d) : (dat14 V B c).before 1 t d = iblk14 V c 1 t :=
  before14_1_of V (dat14 V B c) (A14_eq V B c 1) (after14_1 V B c) t d
theorem before14_2 (V : Valuation τ sig (Elt F)) (B : Set (SemLoc sig × HIx 8)) (c : Dev nD) (t : Fin cfg14.N) (d) : (dat14 V B c).before 2 t d = iblk14 V c 2 t :=
  before14_2_of V (dat14 V B c) (A14_eq V B c 2) (after14_2 V B c) t d
theorem before14_3 (V : Valuation τ sig (Elt F)) (B : Set (SemLoc sig × HIx 8)) (c : Dev nD) (t : Fin cfg14.N) (d) : (dat14 V B c).before 3 t d = iblk14 V c 3 t :=
  before14_3_of V (dat14 V B c) (A14_eq V B c 3) (after14_3 V B c) t d
theorem before14_4 (V : Valuation τ sig (Elt F)) (B : Set (SemLoc sig × HIx 8)) (c : Dev nD) (t : Fin cfg14.N) (d) : (dat14 V B c).before 4 t d = iblk14 V c 4 t :=
  before14_4_of V (dat14 V B c) (A14_eq V B c 4) (after14_4 V B c) t d

/-! ## The proof data of the region of pipeline cfg15 -/

/-- Window `w`'s block at point `t`, read off its array at the valuation the region is entered at. -/
def iblk15 (V : Valuation τ sig (Elt F)) (c : Dev nD) (w : Fin cfg15.W) (t : Fin cfg15.N) :
    ((cfg15.win w).xblock (cfg15.grid.coords t)).Idx → Elt F (cfg15.win w).elt :=
  ((cfg15.win w).blk t).view.read (Elt F) (vb V c (Pipeline.arrRef spec15 w))

theorem before15_0_of (V : Valuation τ sig (Elt F)) {c : Dev nD} (dat : Dat τ (Elt F) (HIx 8) ℕ Sc.UU ℕ cfg15 c)
    (hA : dat.A 0 = vb V c (Pipeline.arrRef spec15 0)) (hafter : ∀ t, dat.after 0 t = iblk15 V c 0 t) (t : Fin cfg15.N) (d) :
    dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of (V : Valuation τ sig (Elt F)) {c : Dev nD} (dat : Dat τ (Elt F) (HIx 8) ℕ Sc.UU ℕ cfg15 c)
    (hA : dat.A 1 = vb V c (Pipeline.arrRef spec15 1)) (hafter : ∀ t, dat.after 1 t = iblk15 V c 1 t) (t : Fin cfg15.N) (d) :
    dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem before15_2_of (V : Valuation τ sig (Elt F)) {c : Dev nD} (dat : Dat τ (Elt F) (HIx 8) ℕ Sc.UU ℕ cfg15 c)
    (hA : dat.A 2 = vb V c (Pipeline.arrRef spec15 2)) (hafter : ∀ t, dat.after 2 t = iblk15 V c 2 t) (t : Fin cfg15.N) (d) :
    dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

theorem before15_3_of (V : Valuation τ sig (Elt F)) {c : Dev nD} (dat : Dat τ (Elt F) (HIx 8) ℕ Sc.UU ℕ cfg15 c)
    (hA : dat.A 3 = vb V c (Pipeline.arrRef spec15 3)) (hafter : ∀ t, dat.after 3 t = iblk15 V c 3 t) (t : Fin cfg15.N) (d) :
    dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)

theorem before15_4_of (V : Valuation τ sig (Elt F)) {c : Dev nD} (dat : Dat τ (Elt F) (HIx 8) ℕ Sc.UU ℕ cfg15 c)
    (hA : dat.A 4 = vb V c (Pipeline.arrRef spec15 4)) (hafter : ∀ t, dat.after 4 t = iblk15 V c 4 t) (t : Fin cfg15.N) (d) :
    dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)

/-- The arrays as the valuation has them; after the body each input's buffer at its block and the result's at the
    payload of the five blocks; the invariant the scoped buffers no window stages; nothing owed, the recorded pairs within `B`; full shares. -/
def dat15 (V : Valuation τ sig (Elt F)) (B : Set (SemLoc sig × HIx 8)) (c : Dev nD) : Dat τ (Elt F) (HIx 8) ℕ Sc.UU ℕ cfg15 c where
  A w := vb V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => out8 (iblk15 V c 0 t) (iblk15 V c 1 t) (iblk15 V c 2 t) (iblk15 V c 3 t) (iblk15 V c 4 t)
  Φ _ := Pipeline.scopedRest (Ix := HIx 8) (Name := ℕ) (U := Sc.UU) (Lvl := ℕ) (Val := Elt F) spec15 c
  q _ := fullShare
  owed _ := 0
  recorded _ := B

theorem A15_eq (V : Valuation τ sig (Elt F)) (B : Set (SemLoc sig × HIx 8)) (c : Dev nD) (w : Fin cfg15.W) : (dat15 V B c).A w = vb V c (Pipeline.arrRef spec15 w) := by
  dsimp only [dat15]
theorem after15_0 (V : Valuation τ sig (Elt F)) (B : Set (SemLoc sig × HIx 8)) (c : Dev nD) (t : Fin cfg15.N) : (dat15 V B c).after 0 t = iblk15 V c 0 t := by dsimp only [dat15]
theorem after15_1 (V : Valuation τ sig (Elt F)) (B : Set (SemLoc sig × HIx 8)) (c : Dev nD) (t : Fin cfg15.N) : (dat15 V B c).after 1 t = iblk15 V c 1 t := by dsimp only [dat15]
theorem after15_2 (V : Valuation τ sig (Elt F)) (B : Set (SemLoc sig × HIx 8)) (c : Dev nD) (t : Fin cfg15.N) : (dat15 V B c).after 2 t = iblk15 V c 2 t := by dsimp only [dat15]
theorem after15_3 (V : Valuation τ sig (Elt F)) (B : Set (SemLoc sig × HIx 8)) (c : Dev nD) (t : Fin cfg15.N) : (dat15 V B c).after 3 t = iblk15 V c 3 t := by dsimp only [dat15]
theorem after15_4 (V : Valuation τ sig (Elt F)) (B : Set (SemLoc sig × HIx 8)) (c : Dev nD) (t : Fin cfg15.N) : (dat15 V B c).after 4 t = iblk15 V c 4 t := by dsimp only [dat15]
theorem after15_5 (V : Valuation τ sig (Elt F)) (B : Set (SemLoc sig × HIx 8)) (c : Dev nD) (t : Fin cfg15.N) :
    (dat15 V B c).after 5 t = out8 (iblk15 V c 0 t) (iblk15 V c 1 t) (iblk15 V c 2 t) (iblk15 V c 3 t) (iblk15 V c 4 t) := by dsimp only [dat15]

theorem before15_0 (V : Valuation τ sig (Elt F)) (B : Set (SemLoc sig × HIx 8)) (c : Dev nD) (t : Fin cfg15.N) (d) : (dat15 V B c).before 0 t d = iblk15 V c 0 t :=
  before15_0_of V (dat15 V B c) (A15_eq V B c 0) (after15_0 V B c) t d
theorem before15_1 (V : Valuation τ sig (Elt F)) (B : Set (SemLoc sig × HIx 8)) (c : Dev nD) (t : Fin cfg15.N) (d) : (dat15 V B c).before 1 t d = iblk15 V c 1 t :=
  before15_1_of V (dat15 V B c) (A15_eq V B c 1) (after15_1 V B c) t d
theorem before15_2 (V : Valuation τ sig (Elt F)) (B : Set (SemLoc sig × HIx 8)) (c : Dev nD) (t : Fin cfg15.N) (d) : (dat15 V B c).before 2 t d = iblk15 V c 2 t :=
  before15_2_of V (dat15 V B c) (A15_eq V B c 2) (after15_2 V B c) t d
theorem before15_3 (V : Valuation τ sig (Elt F)) (B : Set (SemLoc sig × HIx 8)) (c : Dev nD) (t : Fin cfg15.N) (d) : (dat15 V B c).before 3 t d = iblk15 V c 3 t :=
  before15_3_of V (dat15 V B c) (A15_eq V B c 3) (after15_3 V B c) t d
theorem before15_4 (V : Valuation τ sig (Elt F)) (B : Set (SemLoc sig × HIx 8)) (c : Dev nD) (t : Fin cfg15.N) (d) : (dat15 V B c).before 4 t d = iblk15 V c 4 t :=
  before15_4_of V (dat15 V B c) (A15_eq V B c 4) (after15_4 V B c) t d

end Cert.Kernel.TcTail

end
-- ==== Proof.TcTailObB.lean ====
/-
  The bodies of the other seven dense regions and their body obligations. These bodies also load the result's
  staging buffer before they overwrite it whole, and name as their first operand an array they never touch; what
  they leave in the result's buffer is the same payload of the five input blocks.
-/
import proofs.«204770_g8065948582451_cont_9to1c4b_476_56_alg».proof.Proof.ScPayB
import proofs.«204770_g8065948582451_cont_9to1c4b_476_56_alg».proof.Proof.Gen.Kernel.Points
import proofs.«204770_g8065948582451_cont_9to1c4b_476_56_alg».proof.Proof.TcTailDatsB
import Idealize.ShloMosaic.Lib.Pipeline.FrameBody
import Idealize.ShloMosaic.Lib.Pipeline.RegionsLoop
import Idealize.ShloMosaic.Lib.Tactic

set_option maxRecDepth 16384

noncomputable section

namespace Cert.Kernel.TcTail

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

set_option maxHeartbeats 1000000 in
/-- The body of the region of pipeline cfg9 on whole staging memrefs (its first operand, an array it never touches,
    is not needed): the inputs stay, the result's buffer ends at the payload of them. -/
theorem sound_kernel9 (c : Dev nD) (E : Set ℕ) (i : grid9.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc9__tc_body i arg1 harg1 arg2 harg2 arg3 harg3 arg4 harg4 arg5 harg5 arg6 harg6 arg7 harg7) K := by
  simp only [cc9__tc_body_eq_skeleton]; unfold cc9__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg9 -/

def bodyPre9 (V : Valuation τ sig (Elt F)) (B : Set (SemLoc sig × HIx 8)) (c : Dev nD) (ι : HIx 8) (t : Fin cfg9.N) : sProp 𝕄 :=
  iprop((dat9 V B c).Φ t.castSucc ∗ (dat9 V B c).owesAt ι t.castSucc
    ∗ (∃ d, owns (c : Thread nD τ) (st9_0 t) fullShare ((dat9 V B c).before 0 t d))
    ∗ (∃ d, owns (c : Thread nD τ) (st9_1 t) fullShare ((dat9 V B c).before 1 t d))
    ∗ (∃ d, owns (c : Thread nD τ) (st9_2 t) fullShare ((dat9 V B c).before 2 t d))
    ∗ (∃ d, owns (c : Thread nD τ) (st9_3 t) fullShare ((dat9 V B c).before 3 t d))
    ∗ (∃ d, owns (c : Thread nD τ) (st9_4 t) fullShare ((dat9 V B c).before 4 t d))
    ∗ (∃ d, owns (c : Thread nD τ) (st9_5 t) fullShare ((dat9 V B c).before 5 t d)))

def bodyPost9 (V : Valuation τ sig (Elt F)) (B : Set (SemLoc sig × HIx 8)) (c : Dev nD) (ι : HIx 8) (t : Fin cfg9.N) : sProp 𝕄 :=
  iprop((dat9 V B c).Φ t.succ ∗ (dat9 V B c).owesAt ι t.succ
    ∗ owns (c : Thread nD τ) (st9_0 t) fullShare ((dat9 V B c).after 0 t)
    ∗ owns (c : Thread nD τ) (st9_1 t) fullShare ((dat9 V B c).after 1 t)
    ∗ owns (c : Thread nD τ) (st9_2 t) fullShare ((dat9 V B c).after 2 t)
    ∗ owns (c : Thread nD τ) (st9_3 t) fullShare ((dat9 V B c).after 3 t)
    ∗ owns (c : Thread nD τ) (st9_4 t) fullShare ((dat9 V B c).after 4 t)
    ∗ owns (c : Thread nD τ) (st9_5 t) fullShare ((dat9 V B c).after 5 t))

theorem sound_body9 (V : Valuation τ sig (Elt F)) (B : Set (SemLoc sig × HIx 8)) (c : Dev nD) (ι : HIx 8) (t : Fin cfg9.N) :
    bodyPre9 V B c ι t ⊢ wp frame (wpE (defs₀ (F := F)) Variants.none c none) Set.univ (bodyAt9 t) (fun _ => bodyPost9 V B c ι t) := by
  unfold bodyPre9 bodyPost9 bodyAt9
  simp only [before9_0, before9_1, before9_2, before9_3, before9_4]
  rw [show (dat9 V B c).Φ t.succ = (dat9 V B c).Φ t.castSucc from rfl,
    show (dat9 V B c).owesAt ι t.succ = (dat9 V B c).owesAt ι t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg9, at every point. -/
theorem body_obligation9 (V : Valuation τ sig (Elt F)) (B : Set (SemLoc sig × HIx 8)) (c : Dev nD) (ι : HIx 8) :
    BodyObligation (dat9 (F := F) V B c) (defs₀ (F := F)) Variants.none ι Set.univ := fun t => by
  rw [bigSep_W9, bigSep_W9]
  exact sound_body9 V B c ι t

set_option maxHeartbeats 1000000 in
/-- The body of the region of pipeline cfg10 on whole staging memrefs (its first operand, an array it never touches,
    is not needed): the inputs stay, the result's buffer ends at the payload of them. -/
theorem sound_kernel10 (c : Dev nD) (E : Set ℕ) (i : grid10.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc10__tc_body i arg1 harg1 arg2 harg2 arg3 harg3 arg4 harg4 arg5 harg5 arg6 harg6 arg7 harg7) K := by
  simp only [cc10__tc_body_eq_skeleton]; unfold cc10__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg10 -/

def bodyPre10 (V : Valuation τ sig (Elt F)) (B : Set (SemLoc sig × HIx 8)) (c : Dev nD) (ι : HIx 8) (t : Fin cfg10.N) : sProp 𝕄 :=
  iprop((dat10 V B c).Φ t.castSucc ∗ (dat10 V B c).owesAt ι t.castSucc
    ∗ (∃ d, owns (c : Thread nD τ) (st10_0 t) fullShare ((dat10 V B c).before 0 t d))
    ∗ (∃ d, owns (c : Thread nD τ) (st10_1 t) fullShare ((dat10 V B c).before 1 t d))
    ∗ (∃ d, owns (c : Thread nD τ) (st10_2 t) fullShare ((dat10 V B c).before 2 t d))
    ∗ (∃ d, owns (c : Thread nD τ) (st10_3 t) fullShare ((dat10 V B c).before 3 t d))
    ∗ (∃ d, owns (c : Thread nD τ) (st10_4 t) fullShare ((dat10 V B c).before 4 t d))
    ∗ (∃ d, owns (c : Thread nD τ) (st10_5 t) fullShare ((dat10 V B c).before 5 t d)))

def bodyPost10 (V : Valuation τ sig (Elt F)) (B : Set (SemLoc sig × HIx 8)) (c : Dev nD) (ι : HIx 8) (t : Fin cfg10.N) : sProp 𝕄 :=
  iprop((dat10 V B c).Φ t.succ ∗ (dat10 V B c).owesAt ι t.succ
    ∗ owns (c : Thread nD τ) (st10_0 t) fullShare ((dat10 V B c).after 0 t)
    ∗ owns (c : Thread nD τ) (st10_1 t) fullShare ((dat10 V B c).after 1 t)
    ∗ owns (c : Thread nD τ) (st10_2 t) fullShare ((dat10 V B c).after 2 t)
    ∗ owns (c : Thread nD τ) (st10_3 t) fullShare ((dat10 V B c).after 3 t)
    ∗ owns (c : Thread nD τ) (st10_4 t) fullShare ((dat10 V B c).after 4 t)
    ∗ owns (c : Thread nD τ) (st10_5 t) fullShare ((dat10 V B c).after 5 t))

theorem sound_body10 (V : Valuation τ sig (Elt F)) (B : Set (SemLoc sig × HIx 8)) (c : Dev nD) (ι : HIx 8) (t : Fin cfg10.N) :
    bodyPre10 V B c ι t ⊢ wp frame (wpE (defs₀ (F := F)) Variants.none c none) Set.univ (bodyAt10 t) (fun _ => bodyPost10 V B c ι t) := by
  unfold bodyPre10 bodyPost10 bodyAt10
  simp only [before10_0, before10_1, before10_2, before10_3, before10_4]
  rw [show (dat10 V B c).Φ t.succ = (dat10 V B c).Φ t.castSucc from rfl,
    show (dat10 V B c).owesAt ι t.succ = (dat10 V B c).owesAt ι t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ (grid10.coords t) _ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg10, at every point. -/
theorem body_obligation10 (V : Valuation τ sig (Elt F)) (B : Set (SemLoc sig × HIx 8)) (c : Dev nD) (ι : HIx 8) :
    BodyObligation (dat10 (F := F) V B c) (defs₀ (F := F)) Variants.none ι Set.univ := fun t => by
  rw [bigSep_W10, bigSep_W10]
  exact sound_body10 V B c ι t

set_option maxHeartbeats 1000000 in
/-- The body of the region of pipeline cfg11 on whole staging memrefs (its first operand, an array it never touches,
    is not needed): the inputs stay, the result's buffer ends at the payload of them. -/
theorem sound_kernel11 (c : Dev nD) (E : Set ℕ) (i : grid11.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc11__tc_body i arg1 harg1 arg2 harg2 arg3 harg3 arg4 harg4 arg5 harg5 arg6 harg6 arg7 harg7) K := by
  simp only [cc11__tc_body_eq_skeleton]; unfold cc11__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg11 -/

def bodyPre11 (V : Valuation τ sig (Elt F)) (B : Set (SemLoc sig × HIx 8)) (c : Dev nD) (ι : HIx 8) (t : Fin cfg11.N) : sProp 𝕄 :=
  iprop((dat11 V B c).Φ t.castSucc ∗ (dat11 V B c).owesAt ι t.castSucc
    ∗ (∃ d, owns (c : Thread nD τ) (st11_0 t) fullShare ((dat11 V B c).before 0 t d))
    ∗ (∃ d, owns (c : Thread nD τ) (st11_1 t) fullShare ((dat11 V B c).before 1 t d))
    ∗ (∃ d, owns (c : Thread nD τ) (st11_2 t) fullShare ((dat11 V B c).before 2 t d))
    ∗ (∃ d, owns (c : Thread nD τ) (st11_3 t) fullShare ((dat11 V B c).before 3 t d))
    ∗ (∃ d, owns (c : Thread nD τ) (st11_4 t) fullShare ((dat11 V B c).before 4 t d))
    ∗ (∃ d, owns (c : Thread nD τ) (st11_5 t) fullShare ((dat11 V B c).before 5 t d)))

def bodyPost11 (V : Valuation τ sig (Elt F)) (B : Set (SemLoc sig × HIx 8)) (c : Dev nD) (ι : HIx 8) (t : Fin cfg11.N) : sProp 𝕄 :=
  iprop((dat11 V B c).Φ t.succ ∗ (dat11 V B c).owesAt ι t.succ
    ∗ owns (c : Thread nD τ) (st11_0 t) fullShare ((dat11 V B c).after 0 t)
    ∗ owns (c : Thread nD τ) (st11_1 t) fullShare ((dat11 V B c).after 1 t)
    ∗ owns (c : Thread nD τ) (st11_2 t) fullShare ((dat11 V B c).after 2 t)
    ∗ owns (c : Thread nD τ) (st11_3 t) fullShare ((dat11 V B c).after 3 t)
    ∗ owns (c : Thread nD τ) (st11_4 t) fullShare ((dat11 V B c).after 4 t)
    ∗ owns (c : Thread nD τ) (st11_5 t) fullShare ((dat11 V B c).after 5 t))

theorem sound_body11 (V : Valuation τ sig (Elt F)) (B : Set (SemLoc sig × HIx 8)) (c : Dev nD) (ι : HIx 8) (t : Fin cfg11.N) :
    bodyPre11 V B c ι t ⊢ wp frame (wpE (defs₀ (F := F)) Variants.none c none) Set.univ (bodyAt11 t) (fun _ => bodyPost11 V B c ι t) := by
  unfold bodyPre11 bodyPost11 bodyAt11
  simp only [before11_0, before11_1, before11_2, before11_3, before11_4]
  rw [show (dat11 V B c).Φ t.succ = (dat11 V B c).Φ t.castSucc from rfl,
    show (dat11 V B c).owesAt ι t.succ = (dat11 V B c).owesAt ι t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg11, at every point. -/
theorem body_obligation11 (V : Valuation τ sig (Elt F)) (B : Set (SemLoc sig × HIx 8)) (c : Dev nD) (ι : HIx 8) :
    BodyObligation (dat11 (F := F) V B c) (defs₀ (F := F)) Variants.none ι Set.univ := fun t => by
  rw [bigSep_W11, bigSep_W11]
  exact sound_body11 V B c ι t

set_option maxHeartbeats 1000000 in
/-- The body of the region of pipeline cfg12 on whole staging memrefs (its first operand, an array it never touches,
    is not needed): the inputs stay, the result's buffer ends at the payload of them. -/
theorem sound_kernel12 (c : Dev nD) (E : Set ℕ) (i : grid12.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc12__tc_body i arg1 harg1 arg2 harg2 arg3 harg3 arg4 harg4 arg5 harg5 arg6 harg6 arg7 harg7) K := by
  simp only [cc12__tc_body_eq_skeleton]; unfold cc12__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg12 -/

def bodyPre12 (V : Valuation τ sig (Elt F)) (B : Set (SemLoc sig × HIx 8)) (c : Dev nD) (ι : HIx 8) (t : Fin cfg12.N) : sProp 𝕄 :=
  iprop((dat12 V B c).Φ t.castSucc ∗ (dat12 V B c).owesAt ι t.castSucc
    ∗ (∃ d, owns (c : Thread nD τ) (st12_0 t) fullShare ((dat12 V B c).before 0 t d))
    ∗ (∃ d, owns (c : Thread nD τ) (st12_1 t) fullShare ((dat12 V B c).before 1 t d))
    ∗ (∃ d, owns (c : Thread nD τ) (st12_2 t) fullShare ((dat12 V B c).before 2 t d))
    ∗ (∃ d, owns (c : Thread nD τ) (st12_3 t) fullShare ((dat12 V B c).before 3 t d))
    ∗ (∃ d, owns (c : Thread nD τ) (st12_4 t) fullShare ((dat12 V B c).before 4 t d))
    ∗ (∃ d, owns (c : Thread nD τ) (st12_5 t) fullShare ((dat12 V B c).before 5 t d)))

def bodyPost12 (V : Valuation τ sig (Elt F)) (B : Set (SemLoc sig × HIx 8)) (c : Dev nD) (ι : HIx 8) (t : Fin cfg12.N) : sProp 𝕄 :=
  iprop((dat12 V B c).Φ t.succ ∗ (dat12 V B c).owesAt ι t.succ
    ∗ owns (c : Thread nD τ) (st12_0 t) fullShare ((dat12 V B c).after 0 t)
    ∗ owns (c : Thread nD τ) (st12_1 t) fullShare ((dat12 V B c).after 1 t)
    ∗ owns (c : Thread nD τ) (st12_2 t) fullShare ((dat12 V B c).after 2 t)
    ∗ owns (c : Thread nD τ) (st12_3 t) fullShare ((dat12 V B c).after 3 t)
    ∗ owns (c : Thread nD τ) (st12_4 t) fullShare ((dat12 V B c).after 4 t)
    ∗ owns (c : Thread nD τ) (st12_5 t) fullShare ((dat12 V B c).after 5 t))

theorem sound_body12 (V : Valuation τ sig (Elt F)) (B : Set (SemLoc sig × HIx 8)) (c : Dev nD) (ι : HIx 8) (t : Fin cfg12.N) :
    bodyPre12 V B c ι t ⊢ wp frame (wpE (defs₀ (F := F)) Variants.none c none) Set.univ (bodyAt12 t) (fun _ => bodyPost12 V B c ι t) := by
  unfold bodyPre12 bodyPost12 bodyAt12
  simp only [before12_0, before12_1, before12_2, before12_3, before12_4]
  rw [show (dat12 V B c).Φ t.succ = (dat12 V B c).Φ t.castSucc from rfl,
    show (dat12 V B c).owesAt ι t.succ = (dat12 V B c).owesAt ι t.castSucc from rfl,
    after12_0, after12_1, after12_2, after12_3, after12_4, after12_5]
  iintro ⟨HΦ, Ho, ⟨%d0, H0⟩, ⟨%d1, H1⟩, ⟨%d2, H2⟩, ⟨%d3, H3⟩, ⟨%d4, H4⟩, ⟨%d5, H5⟩⟩
  iapply (sound_kernel12 c Set.univ (grid12.coords t) _ _ _ _ _ _ _ _ _ _ _ _ _ _ (iblk12 V c 0 t) (iblk12 V c 1 t) (iblk12 V c 2 t) (iblk12 V c 3 t) (iblk12 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg12, at every point. -/
theorem body_obligation12 (V : Valuation τ sig (Elt F)) (B : Set (SemLoc sig × HIx 8)) (c : Dev nD) (ι : HIx 8) :
    BodyObligation (dat12 (F := F) V B c) (defs₀ (F := F)) Variants.none ι Set.univ := fun t => by
  rw [bigSep_W12, bigSep_W12]
  exact sound_body12 V B c ι t

set_option maxHeartbeats 1000000 in
/-- The body of the region of pipeline cfg13 on whole staging memrefs (its first operand, an array it never touches,
    is not needed): the inputs stay, the result's buffer ends at the payload of them. -/
theorem sound_kernel13 (c : Dev nD) (E : Set ℕ) (i : grid13.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc13__tc_body i arg1 harg1 arg2 harg2 arg3 harg3 arg4 harg4 arg5 harg5 arg6 harg6 arg7 harg7) K := by
  simp only [cc13__tc_body_eq_skeleton]; unfold cc13__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg13 -/

def bodyPre13 (V : Valuation τ sig (Elt F)) (B : Set (SemLoc sig × HIx 8)) (c : Dev nD) (ι : HIx 8) (t : Fin cfg13.N) : sProp 𝕄 :=
  iprop((dat13 V B c).Φ t.castSucc ∗ (dat13 V B c).owesAt ι t.castSucc
    ∗ (∃ d, owns (c : Thread nD τ) (st13_0 t) fullShare ((dat13 V B c).before 0 t d))
    ∗ (∃ d, owns (c : Thread nD τ) (st13_1 t) fullShare ((dat13 V B c).before 1 t d))
    ∗ (∃ d, owns (c : Thread nD τ) (st13_2 t) fullShare ((dat13 V B c).before 2 t d))
    ∗ (∃ d, owns (c : Thread nD τ) (st13_3 t) fullShare ((dat13 V B c).before 3 t d))
    ∗ (∃ d, owns (c : Thread nD τ) (st13_4 t) fullShare ((dat13 V B c).before 4 t d))
    ∗ (∃ d, owns (c : Thread nD τ) (st13_5 t) fullShare ((dat13 V B c).before 5 t d)))

def bodyPost13 (V : Valuation τ sig (Elt F)) (B : Set (SemLoc sig × HIx 8)) (c : Dev nD) (ι : HIx 8) (t : Fin cfg13.N) : sProp 𝕄 :=
  iprop((dat13 V B c).Φ t.succ ∗ (dat13 V B c).owesAt ι t.succ
    ∗ owns (c : Thread nD τ) (st13_0 t) fullShare ((dat13 V B c).after 0 t)
    ∗ owns (c : Thread nD τ) (st13_1 t) fullShare ((dat13 V B c).after 1 t)
    ∗ owns (c : Thread nD τ) (st13_2 t) fullShare ((dat13 V B c).after 2 t)
    ∗ owns (c : Thread nD τ) (st13_3 t) fullShare ((dat13 V B c).after 3 t)
    ∗ owns (c : Thread nD τ) (st13_4 t) fullShare ((dat13 V B c).after 4 t)
    ∗ owns (c : Thread nD τ) (st13_5 t) fullShare ((dat13 V B c).after 5 t))

theorem sound_body13 (V : Valuation τ sig (Elt F)) (B : Set (SemLoc sig × HIx 8)) (c : Dev nD) (ι : HIx 8) (t : Fin cfg13.N) :
    bodyPre13 V B c ι t ⊢ wp frame (wpE (defs₀ (F := F)) Variants.none c none) Set.univ (bodyAt13 t) (fun _ => bodyPost13 V B c ι t) := by
  unfold bodyPre13 bodyPost13 bodyAt13
  simp only [before13_0, before13_1, before13_2, before13_3, before13_4]
  rw [show (dat13 V B c).Φ t.succ = (dat13 V B c).Φ t.castSucc from rfl,
    show (dat13 V B c).owesAt ι t.succ = (dat13 V B c).owesAt ι t.castSucc from rfl,
    after13_0, after13_1, after13_2, after13_3, after13_4, after13_5]
  iintro ⟨HΦ, Ho, ⟨%d0, H0⟩, ⟨%d1, H1⟩, ⟨%d2, H2⟩, ⟨%d3, H3⟩, ⟨%d4, H4⟩, ⟨%d5, H5⟩⟩
  iapply (sound_kernel13 c Set.univ (grid13.coords t) _ _ _ _ _ _ _ _ _ _ _ _ _ _ (iblk13 V c 0 t) (iblk13 V c 1 t) (iblk13 V c 2 t) (iblk13 V c 3 t) (iblk13 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg13, at every point. -/
theorem body_obligation13 (V : Valuation τ sig (Elt F)) (B : Set (SemLoc sig × HIx 8)) (c : Dev nD) (ι : HIx 8) :
    BodyObligation (dat13 (F := F) V B c) (defs₀ (F := F)) Variants.none ι Set.univ := fun t => by
  rw [bigSep_W13, bigSep_W13]
  exact sound_body13 V B c ι t

set_option maxHeartbeats 1000000 in
/-- The body of the region of pipeline cfg14 on whole staging memrefs (its first operand, an array it never touches,
    is not needed): the inputs stay, the result's buffer ends at the payload of them. -/
theorem sound_kernel14 (c : Dev nD) (E : Set ℕ) (i : grid14.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc14__tc_body i arg1 harg1 arg2 harg2 arg3 harg3 arg4 harg4 arg5 harg5 arg6 harg6 arg7 harg7) K := by
  simp only [cc14__tc_body_eq_skeleton]; unfold cc14__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg14 -/

def bodyPre14 (V : Valuation τ sig (Elt F)) (B : Set (SemLoc sig × HIx 8)) (c : Dev nD) (ι : HIx 8) (t : Fin cfg14.N) : sProp 𝕄 :=
  iprop((dat14 V B c).Φ t.castSucc ∗ (dat14 V B c).owesAt ι t.castSucc
    ∗ (∃ d, owns (c : Thread nD τ) (st14_0 t) fullShare ((dat14 V B c).before 0 t d))
    ∗ (∃ d, owns (c : Thread nD τ) (st14_1 t) fullShare ((dat14 V B c).before 1 t d))
    ∗ (∃ d, owns (c : Thread nD τ) (st14_2 t) fullShare ((dat14 V B c).before 2 t d))
    ∗ (∃ d, owns (c : Thread nD τ) (st14_3 t) fullShare ((dat14 V B c).before 3 t d))
    ∗ (∃ d, owns (c : Thread nD τ) (st14_4 t) fullShare ((dat14 V B c).before 4 t d))
    ∗ (∃ d, owns (c : Thread nD τ) (st14_5 t) fullShare ((dat14 V B c).before 5 t d)))

def bodyPost14 (V : Valuation τ sig (Elt F)) (B : Set (SemLoc sig × HIx 8)) (c : Dev nD) (ι : HIx 8) (t : Fin cfg14.N) : sProp 𝕄 :=
  iprop((dat14 V B c).Φ t.succ ∗ (dat14 V B c).owesAt ι t.succ
    ∗ owns (c : Thread nD τ) (st14_0 t) fullShare ((dat14 V B c).after 0 t)
    ∗ owns (c : Thread nD τ) (st14_1 t) fullShare ((dat14 V B c).after 1 t)
    ∗ owns (c : Thread nD τ) (st14_2 t) fullShare ((dat14 V B c).after 2 t)
    ∗ owns (c : Thread nD τ) (st14_3 t) fullShare ((dat14 V B c).after 3 t)
    ∗ owns (c : Thread nD τ) (st14_4 t) fullShare ((dat14 V B c).after 4 t)
    ∗ owns (c : Thread nD τ) (st14_5 t) fullShare ((dat14 V B c).after 5 t))

theorem sound_body14 (V : Valuation τ sig (Elt F)) (B : Set (SemLoc sig × HIx 8)) (c : Dev nD) (ι : HIx 8) (t : Fin cfg14.N) :
    bodyPre14 V B c ι t ⊢ wp frame (wpE (defs₀ (F := F)) Variants.none c none) Set.univ (bodyAt14 t) (fun _ => bodyPost14 V B c ι t) := by
  unfold bodyPre14 bodyPost14 bodyAt14
  simp only [before14_0, before14_1, before14_2, before14_3, before14_4]
  rw [show (dat14 V B c).Φ t.succ = (dat14 V B c).Φ t.castSucc from rfl,
    show (dat14 V B c).owesAt ι t.succ = (dat14 V B c).owesAt ι t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ (grid14.coords t) _ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg14, at every point. -/
theorem body_obligation14 (V : Valuation τ sig (Elt F)) (B : Set (SemLoc sig × HIx 8)) (c : Dev nD) (ι : HIx 8) :
    BodyObligation (dat14 (F := F) V B c) (defs₀ (F := F)) Variants.none ι Set.univ := fun t => by
  rw [bigSep_W14, bigSep_W14]
  exact sound_body14 V B c ι t

set_option maxHeartbeats 1000000 in
/-- The body of the region of pipeline cfg15 on whole staging memrefs (its first operand, an array it never touches,
    is not needed): the inputs stay, the result's buffer ends at the payload of them. -/
theorem sound_kernel15 (c : Dev nD) (E : Set ℕ) (i : grid15.Coords)
    (arg1 : Memref sig .tc .hbm S819200x512 .f32) (harg1 : arg1.IsWhole)
    (arg2 : Memref sig .tc .vmem S4096x256 .f32) (harg2 : arg2.IsWhole) (arg3 : Memref sig .tc .vmem S256x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S4096x512 .f32) (harg7 : arg7.IsWhole)
    (x0 : Vec F S4096x256 .f32) (x1 : Vec F S256x512 .f32) (x2 x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out8 x0 x1 x2 x3 x4)) -∗ K ⟨⟩))
      ⊢ wp frame (wpE (defs₀ (F := F)) Variants.none c none) E (cc15__tc_body i arg1 harg1 arg2 harg2 arg3 harg3 arg4 harg4 arg5 harg5 arg6 harg6 arg7 harg7) K := by
  simp only [cc15__tc_body_eq_skeleton]; unfold cc15__tc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-! ## The body obligation of the region of pipeline cfg15 -/

def bodyPre15 (V : Valuation τ sig (Elt F)) (B : Set (SemLoc sig × HIx 8)) (c : Dev nD) (ι : HIx 8) (t : Fin cfg15.N) : sProp 𝕄 :=
  iprop((dat15 V B c).Φ t.castSucc ∗ (dat15 V B c).owesAt ι t.castSucc
    ∗ (∃ d, owns (c : Thread nD τ) (st15_0 t) fullShare ((dat15 V B c).before 0 t d))
    ∗ (∃ d, owns (c : Thread nD τ) (st15_1 t) fullShare ((dat15 V B c).before 1 t d))
    ∗ (∃ d, owns (c : Thread nD τ) (st15_2 t) fullShare ((dat15 V B c).before 2 t d))
    ∗ (∃ d, owns (c : Thread nD τ) (st15_3 t) fullShare ((dat15 V B c).before 3 t d))
    ∗ (∃ d, owns (c : Thread nD τ) (st15_4 t) fullShare ((dat15 V B c).before 4 t d))
    ∗ (∃ d, owns (c : Thread nD τ) (st15_5 t) fullShare ((dat15 V B c).before 5 t d)))

def bodyPost15 (V : Valuation τ sig (Elt F)) (B : Set (SemLoc sig × HIx 8)) (c : Dev nD) (ι : HIx 8) (t : Fin cfg15.N) : sProp 𝕄 :=
  iprop((dat15 V B c).Φ t.succ ∗ (dat15 V B c).owesAt ι t.succ
    ∗ owns (c : Thread nD τ) (st15_0 t) fullShare ((dat15 V B c).after 0 t)
    ∗ owns (c : Thread nD τ) (st15_1 t) fullShare ((dat15 V B c).after 1 t)
    ∗ owns (c : Thread nD τ) (st15_2 t) fullShare ((dat15 V B c).after 2 t)
    ∗ owns (c : Thread nD τ) (st15_3 t) fullShare ((dat15 V B c).after 3 t)
    ∗ owns (c : Thread nD τ) (st15_4 t) fullShare ((dat15 V B c).after 4 t)
    ∗ owns (c : Thread nD τ) (st15_5 t) fullShare ((dat15 V B c).after 5 t))

theorem sound_body15 (V : Valuation τ sig (Elt F)) (B : Set (SemLoc sig × HIx 8)) (c : Dev nD) (ι : HIx 8) (t : Fin cfg15.N) :
    bodyPre15 V B c ι t ⊢ wp frame (wpE (defs₀ (F := F)) Variants.none c none) Set.univ (bodyAt15 t) (fun _ => bodyPost15 V B c ι t) := by
  unfold bodyPre15 bodyPost15 bodyAt15
  simp only [before15_0, before15_1, before15_2, before15_3, before15_4]
  rw [show (dat15 V B c).Φ t.succ = (dat15 V B c).Φ t.castSucc from rfl,
    show (dat15 V B c).owesAt ι t.succ = (dat15 V B c).owesAt ι t.castSucc from rfl,
    after15_0, after15_1, after15_2, after15_3, after15_4, after15_5]
  iintro ⟨HΦ, Ho, ⟨%d0, H0⟩, ⟨%d1, H1⟩, ⟨%d2, H2⟩, ⟨%d3, H3⟩, ⟨%d4, H4⟩, ⟨%d5, H5⟩⟩
  iapply (sound_kernel15 c Set.univ (grid15.coords t) _ _ _ _ _ _ _ _ _ _ _ _ _ _ (iblk15 V c 0 t) (iblk15 V c 1 t) (iblk15 V c 2 t) (iblk15 V c 3 t) (iblk15 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region of pipeline cfg15, at every point. -/
theorem body_obligation15 (V : Valuation τ sig (Elt F)) (B : Set (SemLoc sig × HIx 8)) (c : Dev nD) (ι : HIx 8) :
    BodyObligation (dat15 (F := F) V B c) (defs₀ (F := F)) Variants.none ι Set.univ := fun t => by
  rw [bigSep_W15, bigSep_W15]
  exact sound_body15 V B c ι t

end Cert.Kernel.TcTail

end
-- ==== Proof.TcTailSegB.lean ====
/-
  The eight dense regions and the host operations between them as a list of segments. Between two segments a
  core holds every unscoped buffer of its TensorCore whole at a valuation and owes nothing, its recorded pairs
  within a set B that has every pair at the index the pipelines' waits are recorded at; a region takes its six arrays
  out of the buffers and puts them back with its result array at what the write-backs leave, a host operation runs
  over them.
-/
import proofs.«204770_g8065948582451_cont_9to1c4b_476_56_alg».proof.Proof.ScPayB
import proofs.«204770_g8065948582451_cont_9to1c4b_476_56_alg».proof.Proof.Gen.Kernel.Points
import proofs.«204770_g8065948582451_cont_9to1c4b_476_56_alg».proof.Proof.TcTailObB
import Idealize.ShloMosaic.Lib.Pipeline.FrameBody
import Idealize.ShloMosaic.Lib.Pipeline.RegionsLoop
import Idealize.ShloMosaic.Lib.Tactic

set_option maxRecDepth 16384

noncomputable section

namespace Cert.Kernel.TcTail

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

/-! ## The setting -/

/-- The pipelines have no prefetched table: the one admissible contents. -/
abbrev adm : (p : Fin 8) → (pcfgs (F := F) p).Adm := fun p => (cfgs p).toPCfg_adm

/-- The copies between the regions: the previous result into the next region's result buffer. -/
abbrev cp0 : HloOp τ sig (Elt F) := StableHlo.unary main_v45 main_v46 id
abbrev cp1 : HloOp τ sig (Elt F) := StableHlo.unary main_v46 main_v47 id
abbrev cp2 : HloOp τ sig (Elt F) := StableHlo.unary main_v47 main_v48 id
abbrev cp3 : HloOp τ sig (Elt F) := StableHlo.unary main_v48 main_v49 id
abbrev cp4 : HloOp τ sig (Elt F) := StableHlo.unary main_v49 main_v50 id
abbrev cp5 : HloOp τ sig (Elt F) := StableHlo.unary main_v50 main_v51 id
abbrev cp6 : HloOp τ sig (Elt F) := StableHlo.unary main_v51 main_v52 id
/-- The reshape of the last result. -/
abbrev rsOp : HloOp τ sig (Elt F) := StableHlo.reshape main_v52 main_v53 rfl shapeCasts_S819200x512_S4096x200x512

/-- Per pipeline: the scoped buffers none of its windows stages, and the unscoped buffers that are none of its arrays. -/
abbrev sr8 (c : Dev nD) : sProp 𝕄 := Pipeline.scopedRest (Ix := HIx 8) (Name := ℕ) (U := Sc.UU) (Lvl := ℕ) (Val := Elt F) spec8 c
abbrev ur8 (V : Valuation τ sig (Elt F)) (c : Dev nD) : sProp 𝕄 := Pipeline.unscopedRest (Ix := HIx 8) (Name := ℕ) (U := Sc.UU) (Lvl := ℕ) spec8 c (vb V c)
abbrev sr9 (c : Dev nD) : sProp 𝕄 := Pipeline.scopedRest (Ix := HIx 8) (Name := ℕ) (U := Sc.UU) (Lvl := ℕ) (Val := Elt F) spec9 c
abbrev ur9 (V : Valuation τ sig (Elt F)) (c : Dev nD) : sProp 𝕄 := Pipeline.unscopedRest (Ix := HIx 8) (Name := ℕ) (U := Sc.UU) (Lvl := ℕ) spec9 c (vb V c)
abbrev sr10 (c : Dev nD) : sProp 𝕄 := Pipeline.scopedRest (Ix := HIx 8) (Name := ℕ) (U := Sc.UU) (Lvl := ℕ) (Val := Elt F) spec10 c
abbrev ur10 (V : Valuation τ sig (Elt F)) (c : Dev nD) : sProp 𝕄 := Pipeline.unscopedRest (Ix := HIx 8) (Name := ℕ) (U := Sc.UU) (Lvl := ℕ) spec10 c (vb V c)
abbrev sr11 (c : Dev nD) : sProp 𝕄 := Pipeline.scopedRest (Ix := HIx 8) (Name := ℕ) (U := Sc.UU) (Lvl := ℕ) (Val := Elt F) spec11 c
abbrev ur11 (V : Valuation τ sig (Elt F)) (c : Dev nD) : sProp 𝕄 := Pipeline.unscopedRest (Ix := HIx 8) (Name := ℕ) (U := Sc.UU) (Lvl := ℕ) spec11 c (vb V c)
abbrev sr12 (c : Dev nD) : sProp 𝕄 := Pipeline.scopedRest (Ix := HIx 8) (Name := ℕ) (U := Sc.UU) (Lvl := ℕ) (Val := Elt F) spec12 c
abbrev ur12 (V : Valuation τ sig (Elt F)) (c : Dev nD) : sProp 𝕄 := Pipeline.unscopedRest (Ix := HIx 8) (Name := ℕ) (U := Sc.UU) (Lvl := ℕ) spec12 c (vb V c)
abbrev sr13 (c : Dev nD) : sProp 𝕄 := Pipeline.scopedRest (Ix := HIx 8) (Name := ℕ) (U := Sc.UU) (Lvl := ℕ) (Val := Elt F) spec13 c
abbrev ur13 (V : Valuation τ sig (Elt F)) (c : Dev nD) : sProp 𝕄 := Pipeline.unscopedRest (Ix := HIx 8) (Name := ℕ) (U := Sc.UU) (Lvl := ℕ) spec13 c (vb V c)
abbrev sr14 (c : Dev nD) : sProp 𝕄 := Pipeline.scopedRest (Ix := HIx 8) (Name := ℕ) (U := Sc.UU) (Lvl := ℕ) (Val := Elt F) spec14 c
abbrev ur14 (V : Valuation τ sig (Elt F)) (c : Dev nD) : sProp 𝕄 := Pipeline.unscopedRest (Ix := HIx 8) (Name := ℕ) (U := Sc.UU) (Lvl := ℕ) spec14 c (vb V c)
abbrev sr15 (c : Dev nD) : sProp 𝕄 := Pipeline.scopedRest (Ix := HIx 8) (Name := ℕ) (U := Sc.UU) (Lvl := ℕ) (Val := Elt F) spec15 c
abbrev ur15 (V : Valuation τ sig (Elt F)) (c : Dev nD) : sProp 𝕄 := Pipeline.unscopedRest (Ix := HIx 8) (Name := ℕ) (U := Sc.UU) (Lvl := ℕ) spec15 c (vb V c)

/-- What region 0 leaves: its result array at what the write-backs leave, every other buffer as it found it. -/
def Vx0 (V : Valuation τ sig (Elt F)) (B : Set (SemLoc sig × HIx 8)) (c : Dev nD) : Valuation τ sig (Elt F) :=
  Function.update V (Proc.devRef .tc main_v45) ((dat8 V B c).arrAt 5 cfg8.N)

/-- What region 1 leaves: its result array at what the write-backs leave, every other buffer as it found it. -/
def Vx1 (V : Valuation τ sig (Elt F)) (B : Set (SemLoc sig × HIx 8)) (c : Dev nD) : Valuation τ sig (Elt F) :=
  Function.update V (Proc.devRef .tc main_v46) ((dat9 V B c).arrAt 5 cfg9.N)

/-- What region 2 leaves: its result array at what the write-backs leave, every other buffer as it found it. -/
def Vx2 (V : Valuation τ sig (Elt F)) (B : Set (SemLoc sig × HIx 8)) (c : Dev nD) : Valuation τ sig (Elt F) :=
  Function.update V (Proc.devRef .tc main_v47) ((dat10 V B c).arrAt 5 cfg10.N)

/-- What region 3 leaves: its result array at what the write-backs leave, every other buffer as it found it. -/
def Vx3 (V : Valuation τ sig (Elt F)) (B : Set (SemLoc sig × HIx 8)) (c : Dev nD) : Valuation τ sig (Elt F) :=
  Function.update V (Proc.devRef .tc main_v48) ((dat11 V B c).arrAt 5 cfg11.N)

/-- What region 4 leaves: its result array at what the write-backs leave, every other buffer as it found it. -/
def Vx4 (V : Valuation τ sig (Elt F)) (B : Set (SemLoc sig × HIx 8)) (c : Dev nD) : Valuation τ sig (Elt F) :=
  Function.update V (Proc.devRef .tc main_v49) ((dat12 V B c).arrAt 5 cfg12.N)

/-- What region 5 leaves: its result array at what the write-backs leave, every other buffer as it found it. -/
def Vx5 (V : Valuation τ sig (Elt F)) (B : Set (SemLoc sig × HIx 8)) (c : Dev nD) : Valuation τ sig (Elt F) :=
  Function.update V (Proc.devRef .tc main_v50) ((dat13 V B c).arrAt 5 cfg13.N)

/-- What region 6 leaves: its result array at what the write-backs leave, every other buffer as it found it. -/
def Vx6 (V : Valuation τ sig (Elt F)) (B : Set (SemLoc sig × HIx 8)) (c : Dev nD) : Valuation τ sig (Elt F) :=
  Function.update V (Proc.devRef .tc main_v51) ((dat14 V B c).arrAt 5 cfg14.N)

/-- What region 7 leaves: its result array at what the write-backs leave, every other buffer as it found it. -/
def Vx7 (V : Valuation τ sig (Elt F)) (B : Set (SemLoc sig × HIx 8)) (c : Dev nD) : Valuation τ sig (Elt F) :=
  Function.update V (Proc.devRef .tc main_v52) ((dat15 V B c).arrAt 5 cfg15.N)

/-- What region 0 leaves, read at its arrays, is its arrays at its exit. -/
theorem arrx0 (V : Valuation τ sig (Elt F)) (B : Set (SemLoc sig × HIx 8)) (c : Dev nD) (w : Fin cfg8.W) :
    (dat8 V B c).arrAt w cfg8.N = vb (Vx0 V B c) c (Pipeline.arrRef spec8 w) := by
  match w with
  | ⟨0, _⟩ =>
    have h : (Proc.devRef .tc main_v9 : DevRef τ sig) ≠ Proc.devRef .tc main_v45 := by decide
    exact ((dat8 V B c).arrAt_in 0 rfl _).trans (Function.update_of_ne h ((dat8 V B c).arrAt 5 cfg8.N) V).symm
  | ⟨1, _⟩ =>
    have h : (Proc.devRef .tc main_arg4 : DevRef τ sig) ≠ Proc.devRef .tc main_v45 := by decide
    exact ((dat8 V B c).arrAt_in 1 rfl _).trans (Function.update_of_ne h ((dat8 V B c).arrAt 5 cfg8.N) V).symm
  | ⟨2, _⟩ =>
    have h : (Proc.devRef .tc main_v2 : DevRef τ sig) ≠ Proc.devRef .tc main_v45 := by decide
    exact ((dat8 V B c).arrAt_in 2 rfl _).trans (Function.update_of_ne h ((dat8 V B c).arrAt 5 cfg8.N) V).symm
  | ⟨3, _⟩ =>
    have h : (Proc.devRef .tc main_v3 : DevRef τ sig) ≠ Proc.devRef .tc main_v45 := by decide
    exact ((dat8 V B c).arrAt_in 3 rfl _).trans (Function.update_of_ne h ((dat8 V B c).arrAt 5 cfg8.N) V).symm
  | ⟨4, _⟩ =>
    have h : (Proc.devRef .tc main_v4 : DevRef τ sig) ≠ Proc.devRef .tc main_v45 := by decide
    exact ((dat8 V B c).arrAt_in 4 rfl _).trans (Function.update_of_ne h ((dat8 V B c).arrAt 5 cfg8.N) V).symm
  | ⟨5, _⟩ => exact (Function.update_self (Proc.devRef .tc main_v45 : DevRef τ sig) ((dat8 V B c).arrAt 5 cfg8.N) V).symm

/-- Off its arrays region 0 leaves every buffer as it found it. -/
theorem restx0 (V : Valuation τ sig (Elt F)) (B : Set (SemLoc sig × HIx 8)) (c : Dev nD) (b : Ref sig .tc)
    (hb : b ∉ Finset.univ.image (Pipeline.arrRef spec8)) : vb (Vx0 V B c) c b = vb V c b := by
  have h : (Proc.devRef .tc b : DevRef τ sig) ≠ Proc.devRef .tc main_v45 :=
    fun h => hb (Finset.mem_image.2 ⟨5, Finset.mem_univ _, (Proc.devRef_injective _ h).symm⟩)
  exact Function.update_of_ne h ((dat8 V B c).arrAt 5 cfg8.N) V

/-- What region 1 leaves, read at its arrays, is its arrays at its exit. -/
theorem arrx1 (V : Valuation τ sig (Elt F)) (B : Set (SemLoc sig × HIx 8)) (c : Dev nD) (w : Fin cfg9.W) :
    (dat9 V B c).arrAt w cfg9.N = vb (Vx1 V B c) c (Pipeline.arrRef spec9 w) := by
  match w with
  | ⟨0, _⟩ =>
    have h : (Proc.devRef .tc main_v14 : DevRef τ sig) ≠ Proc.devRef .tc main_v46 := by decide
    exact ((dat9 V B c).arrAt_in 0 rfl _).trans (Function.update_of_ne h ((dat9 V B c).arrAt 5 cfg9.N) V).symm
  | ⟨1, _⟩ =>
    have h : (Proc.devRef .tc main_arg4 : DevRef τ sig) ≠ Proc.devRef .tc main_v46 := by decide
    exact ((dat9 V B c).arrAt_in 1 rfl _).trans (Function.update_of_ne h ((dat9 V B c).arrAt 5 cfg9.N) V).symm
  | ⟨2, _⟩ =>
    have h : (Proc.devRef .tc main_v2 : DevRef τ sig) ≠ Proc.devRef .tc main_v46 := by decide
    exact ((dat9 V B c).arrAt_in 2 rfl _).trans (Function.update_of_ne h ((dat9 V B c).arrAt 5 cfg9.N) V).symm
  | ⟨3, _⟩ =>
    have h : (Proc.devRef .tc main_v3 : DevRef τ sig) ≠ Proc.devRef .tc main_v46 := by decide
    exact ((dat9 V B c).arrAt_in 3 rfl _).trans (Function.update_of_ne h ((dat9 V B c).arrAt 5 cfg9.N) V).symm
  | ⟨4, _⟩ =>
    have h : (Proc.devRef .tc main_v4 : DevRef τ sig) ≠ Proc.devRef .tc main_v46 := by decide
    exact ((dat9 V B c).arrAt_in 4 rfl _).trans (Function.update_of_ne h ((dat9 V B c).arrAt 5 cfg9.N) V).symm
  | ⟨5, _⟩ => exact (Function.update_self (Proc.devRef .tc main_v46 : DevRef τ sig) ((dat9 V B c).arrAt 5 cfg9.N) V).symm

/-- Off its arrays region 1 leaves every buffer as it found it. -/
theorem restx1 (V : Valuation τ sig (Elt F)) (B : Set (SemLoc sig × HIx 8)) (c : Dev nD) (b : Ref sig .tc)
    (hb : b ∉ Finset.univ.image (Pipeline.arrRef spec9)) : vb (Vx1 V B c) c b = vb V c b := by
  have h : (Proc.devRef .tc b : DevRef τ sig) ≠ Proc.devRef .tc main_v46 :=
    fun h => hb (Finset.mem_image.2 ⟨5, Finset.mem_univ _, (Proc.devRef_injective _ h).symm⟩)
  exact Function.update_of_ne h ((dat9 V B c).arrAt 5 cfg9.N) V

/-- What region 2 leaves, read at its arrays, is its arrays at its exit. -/
theorem arrx2 (V : Valuation τ sig (Elt F)) (B : Set (SemLoc sig × HIx 8)) (c : Dev nD) (w : Fin cfg10.W) :
    (dat10 V B c).arrAt w cfg10.N = vb (Vx2 V B c) c (Pipeline.arrRef spec10 w) := by
  match w with
  | ⟨0, _⟩ =>
    have h : (Proc.devRef .tc main_v19 : DevRef τ sig) ≠ Proc.devRef .tc main_v47 := by decide
    exact ((dat10 V B c).arrAt_in 0 rfl _).trans (Function.update_of_ne h ((dat10 V B c).arrAt 5 cfg10.N) V).symm
  | ⟨1, _⟩ =>
    have h : (Proc.devRef .tc main_arg4 : DevRef τ sig) ≠ Proc.devRef .tc main_v47 := by decide
    exact ((dat10 V B c).arrAt_in 1 rfl _).trans (Function.update_of_ne h ((dat10 V B c).arrAt 5 cfg10.N) V).symm
  | ⟨2, _⟩ =>
    have h : (Proc.devRef .tc main_v2 : DevRef τ sig) ≠ Proc.devRef .tc main_v47 := by decide
    exact ((dat10 V B c).arrAt_in 2 rfl _).trans (Function.update_of_ne h ((dat10 V B c).arrAt 5 cfg10.N) V).symm
  | ⟨3, _⟩ =>
    have h : (Proc.devRef .tc main_v3 : DevRef τ sig) ≠ Proc.devRef .tc main_v47 := by decide
    exact ((dat10 V B c).arrAt_in 3 rfl _).trans (Function.update_of_ne h ((dat10 V B c).arrAt 5 cfg10.N) V).symm
  | ⟨4, _⟩ =>
    have h : (Proc.devRef .tc main_v4 : DevRef τ sig) ≠ Proc.devRef .tc main_v47 := by decide
    exact ((dat10 V B c).arrAt_in 4 rfl _).trans (Function.update_of_ne h ((dat10 V B c).arrAt 5 cfg10.N) V).symm
  | ⟨5, _⟩ => exact (Function.update_self (Proc.devRef .tc main_v47 : DevRef τ sig) ((dat10 V B c).arrAt 5 cfg10.N) V).symm

/-- Off its arrays region 2 leaves every buffer as it found it. -/
theorem restx2 (V : Valuation τ sig (Elt F)) (B : Set (SemLoc sig × HIx 8)) (c : Dev nD) (b : Ref sig .tc)
    (hb : b ∉ Finset.univ.image (Pipeline.arrRef spec10)) : vb (Vx2 V B c) c b = vb V c b := by
  have h : (Proc.devRef .tc b : DevRef τ sig) ≠ Proc.devRef .tc main_v47 :=
    fun h => hb (Finset.mem_image.2 ⟨5, Finset.mem_univ _, (Proc.devRef_injective _ h).symm⟩)
  exact Function.update_of_ne h ((dat10 V B c).arrAt 5 cfg10.N) V

/-- What region 3 leaves, read at its arrays, is its arrays at its exit. -/
theorem arrx3 (V : Valuation τ sig (Elt F)) (B : Set (SemLoc sig × HIx 8)) (c : Dev nD) (w : Fin cfg11.W) :
    (dat11 V B c).arrAt w cfg11.N = vb (Vx3 V B c) c (Pipeline.arrRef spec11 w) := by
  match w with
  | ⟨0, _⟩ =>
    have h : (Proc.devRef .tc main_v24 : DevRef τ sig) ≠ Proc.devRef .tc main_v48 := by decide
    exact ((dat11 V B c).arrAt_in 0 rfl _).trans (Function.update_of_ne h ((dat11 V B c).arrAt 5 cfg11.N) V).symm
  | ⟨1, _⟩ =>
    have h : (Proc.devRef .tc main_arg4 : DevRef τ sig) ≠ Proc.devRef .tc main_v48 := by decide
    exact ((dat11 V B c).arrAt_in 1 rfl _).trans (Function.update_of_ne h ((dat11 V B c).arrAt 5 cfg11.N) V).symm
  | ⟨2, _⟩ =>
    have h : (Proc.devRef .tc main_v2 : DevRef τ sig) ≠ Proc.devRef .tc main_v48 := by decide
    exact ((dat11 V B c).arrAt_in 2 rfl _).trans (Function.update_of_ne h ((dat11 V B c).arrAt 5 cfg11.N) V).symm
  | ⟨3, _⟩ =>
    have h : (Proc.devRef .tc main_v3 : DevRef τ sig) ≠ Proc.devRef .tc main_v48 := by decide
    exact ((dat11 V B c).arrAt_in 3 rfl _).trans (Function.update_of_ne h ((dat11 V B c).arrAt 5 cfg11.N) V).symm
  | ⟨4, _⟩ =>
    have h : (Proc.devRef .tc main_v4 : DevRef τ sig) ≠ Proc.devRef .tc main_v48 := by decide
    exact ((dat11 V B c).arrAt_in 4 rfl _).trans (Function.update_of_ne h ((dat11 V B c).arrAt 5 cfg11.N) V).symm
  | ⟨5, _⟩ => exact (Function.update_self (Proc.devRef .tc main_v48 : DevRef τ sig) ((dat11 V B c).arrAt 5 cfg11.N) V).symm

/-- Off its arrays region 3 leaves every buffer as it found it. -/
theorem restx3 (V : Valuation τ sig (Elt F)) (B : Set (SemLoc sig × HIx 8)) (c : Dev nD) (b : Ref sig .tc)
    (hb : b ∉ Finset.univ.image (Pipeline.arrRef spec11)) : vb (Vx3 V B c) c b = vb V c b := by
  have h : (Proc.devRef .tc b : DevRef τ sig) ≠ Proc.devRef .tc main_v48 :=
    fun h => hb (Finset.mem_image.2 ⟨5, Finset.mem_univ _, (Proc.devRef_injective _ h).symm⟩)
  exact Function.update_of_ne h ((dat11 V B c).arrAt 5 cfg11.N) V

/-- What region 4 leaves, read at its arrays, is its arrays at its exit. -/
theorem arrx4 (V : Valuation τ sig (Elt F)) (B : Set (SemLoc sig × HIx 8)) (c : Dev nD) (w : Fin cfg12.W) :
    (dat12 V B c).arrAt w cfg12.N = vb (Vx4 V B c) c (Pipeline.arrRef spec12 w) := by
  match w with
  | ⟨0, _⟩ =>
    have h : (Proc.devRef .tc main_v29 : DevRef τ sig) ≠ Proc.devRef .tc main_v49 := by decide
    exact ((dat12 V B c).arrAt_in 0 rfl _).trans (Function.update_of_ne h ((dat12 V B c).arrAt 5 cfg12.N) V).symm
  | ⟨1, _⟩ =>
    have h : (Proc.devRef .tc main_arg4 : DevRef τ sig) ≠ Proc.devRef .tc main_v49 := by decide
    exact ((dat12 V B c).arrAt_in 1 rfl _).trans (Function.update_of_ne h ((dat12 V B c).arrAt 5 cfg12.N) V).symm
  | ⟨2, _⟩ =>
    have h : (Proc.devRef .tc main_v2 : DevRef τ sig) ≠ Proc.devRef .tc main_v49 := by decide
    exact ((dat12 V B c).arrAt_in 2 rfl _).trans (Function.update_of_ne h ((dat12 V B c).arrAt 5 cfg12.N) V).symm
  | ⟨3, _⟩ =>
    have h : (Proc.devRef .tc main_v3 : DevRef τ sig) ≠ Proc.devRef .tc main_v49 := by decide
    exact ((dat12 V B c).arrAt_in 3 rfl _).trans (Function.update_of_ne h ((dat12 V B c).arrAt 5 cfg12.N) V).symm
  | ⟨4, _⟩ =>
    have h : (Proc.devRef .tc main_v4 : DevRef τ sig) ≠ Proc.devRef .tc main_v49 := by decide
    exact ((dat12 V B c).arrAt_in 4 rfl _).trans (Function.update_of_ne h ((dat12 V B c).arrAt 5 cfg12.N) V).symm
  | ⟨5, _⟩ => exact (Function.update_self (Proc.devRef .tc main_v49 : DevRef τ sig) ((dat12 V B c).arrAt 5 cfg12.N) V).symm

/-- Off its arrays region 4 leaves every buffer as it found it. -/
theorem restx4 (V : Valuation τ sig (Elt F)) (B : Set (SemLoc sig × HIx 8)) (c : Dev nD) (b : Ref sig .tc)
    (hb : b ∉ Finset.univ.image (Pipeline.arrRef spec12)) : vb (Vx4 V B c) c b = vb V c b := by
  have h : (Proc.devRef .tc b : DevRef τ sig) ≠ Proc.devRef .tc main_v49 :=
    fun h => hb (Finset.mem_image.2 ⟨5, Finset.mem_univ _, (Proc.devRef_injective _ h).symm⟩)
  exact Function.update_of_ne h ((dat12 V B c).arrAt 5 cfg12.N) V

/-- What region 5 leaves, read at its arrays, is its arrays at its exit. -/
theorem arrx5 (V : Valuation τ sig (Elt F)) (B : Set (SemLoc sig × HIx 8)) (c : Dev nD) (w : Fin cfg13.W) :
    (dat13 V B c).arrAt w cfg13.N = vb (Vx5 V B c) c (Pipeline.arrRef spec13 w) := by
  match w with
  | ⟨0, _⟩ =>
    have h : (Proc.devRef .tc main_v34 : DevRef τ sig) ≠ Proc.devRef .tc main_v50 := by decide
    exact ((dat13 V B c).arrAt_in 0 rfl _).trans (Function.update_of_ne h ((dat13 V B c).arrAt 5 cfg13.N) V).symm
  | ⟨1, _⟩ =>
    have h : (Proc.devRef .tc main_arg4 : DevRef τ sig) ≠ Proc.devRef .tc main_v50 := by decide
    exact ((dat13 V B c).arrAt_in 1 rfl _).trans (Function.update_of_ne h ((dat13 V B c).arrAt 5 cfg13.N) V).symm
  | ⟨2, _⟩ =>
    have h : (Proc.devRef .tc main_v2 : DevRef τ sig) ≠ Proc.devRef .tc main_v50 := by decide
    exact ((dat13 V B c).arrAt_in 2 rfl _).trans (Function.update_of_ne h ((dat13 V B c).arrAt 5 cfg13.N) V).symm
  | ⟨3, _⟩ =>
    have h : (Proc.devRef .tc main_v3 : DevRef τ sig) ≠ Proc.devRef .tc main_v50 := by decide
    exact ((dat13 V B c).arrAt_in 3 rfl _).trans (Function.update_of_ne h ((dat13 V B c).arrAt 5 cfg13.N) V).symm
  | ⟨4, _⟩ =>
    have h : (Proc.devRef .tc main_v4 : DevRef τ sig) ≠ Proc.devRef .tc main_v50 := by decide
    exact ((dat13 V B c).arrAt_in 4 rfl _).trans (Function.update_of_ne h ((dat13 V B c).arrAt 5 cfg13.N) V).symm
  | ⟨5, _⟩ => exact (Function.update_self (Proc.devRef .tc main_v50 : DevRef τ sig) ((dat13 V B c).arrAt 5 cfg13.N) V).symm

/-- Off its arrays region 5 leaves every buffer as it found it. -/
theorem restx5 (V : Valuation τ sig (Elt F)) (B : Set (SemLoc sig × HIx 8)) (c : Dev nD) (b : Ref sig .tc)
    (hb : b ∉ Finset.univ.image (Pipeline.arrRef spec13)) : vb (Vx5 V B c) c b = vb V c b := by
  have h : (Proc.devRef .tc b : DevRef τ sig) ≠ Proc.devRef .tc main_v50 :=
    fun h => hb (Finset.mem_image.2 ⟨5, Finset.mem_univ _, (Proc.devRef_injective _ h).symm⟩)
  exact Function.update_of_ne h ((dat13 V B c).arrAt 5 cfg13.N) V

/-- What region 6 leaves, read at its arrays, is its arrays at its exit. -/
theorem arrx6 (V : Valuation τ sig (Elt F)) (B : Set (SemLoc sig × HIx 8)) (c : Dev nD) (w : Fin cfg14.W) :
    (dat14 V B c).arrAt w cfg14.N = vb (Vx6 V B c) c (Pipeline.arrRef spec14 w) := by
  match w with
  | ⟨0, _⟩ =>
    have h : (Proc.devRef .tc main_v39 : DevRef τ sig) ≠ Proc.devRef .tc main_v51 := by decide
    exact ((dat14 V B c).arrAt_in 0 rfl _).trans (Function.update_of_ne h ((dat14 V B c).arrAt 5 cfg14.N) V).symm
  | ⟨1, _⟩ =>
    have h : (Proc.devRef .tc main_arg4 : DevRef τ sig) ≠ Proc.devRef .tc main_v51 := by decide
    exact ((dat14 V B c).arrAt_in 1 rfl _).trans (Function.update_of_ne h ((dat14 V B c).arrAt 5 cfg14.N) V).symm
  | ⟨2, _⟩ =>
    have h : (Proc.devRef .tc main_v2 : DevRef τ sig) ≠ Proc.devRef .tc main_v51 := by decide
    exact ((dat14 V B c).arrAt_in 2 rfl _).trans (Function.update_of_ne h ((dat14 V B c).arrAt 5 cfg14.N) V).symm
  | ⟨3, _⟩ =>
    have h : (Proc.devRef .tc main_v3 : DevRef τ sig) ≠ Proc.devRef .tc main_v51 := by decide
    exact ((dat14 V B c).arrAt_in 3 rfl _).trans (Function.update_of_ne h ((dat14 V B c).arrAt 5 cfg14.N) V).symm
  | ⟨4, _⟩ =>
    have h : (Proc.devRef .tc main_v4 : DevRef τ sig) ≠ Proc.devRef .tc main_v51 := by decide
    exact ((dat14 V B c).arrAt_in 4 rfl _).trans (Function.update_of_ne h ((dat14 V B c).arrAt 5 cfg14.N) V).symm
  | ⟨5, _⟩ => exact (Function.update_self (Proc.devRef .tc main_v51 : DevRef τ sig) ((dat14 V B c).arrAt 5 cfg14.N) V).symm

/-- Off its arrays region 6 leaves every buffer as it found it. -/
theorem restx6 (V : Valuation τ sig (Elt F)) (B : Set (SemLoc sig × HIx 8)) (c : Dev nD) (b : Ref sig .tc)
    (hb : b ∉ Finset.univ.image (Pipeline.arrRef spec14)) : vb (Vx6 V B c) c b = vb V c b := by
  have h : (Proc.devRef .tc b : DevRef τ sig) ≠ Proc.devRef .tc main_v51 :=
    fun h => hb (Finset.mem_image.2 ⟨5, Finset.mem_univ _, (Proc.devRef_injective _ h).symm⟩)
  exact Function.update_of_ne h ((dat14 V B c).arrAt 5 cfg14.N) V

/-- What region 7 leaves, read at its arrays, is its arrays at its exit. -/
theorem arrx7 (V : Valuation τ sig (Elt F)) (B : Set (SemLoc sig × HIx 8)) (c : Dev nD) (w : Fin cfg15.W) :
    (dat15 V B c).arrAt w cfg15.N = vb (Vx7 V B c) c (Pipeline.arrRef spec15 w) := by
  match w with
  | ⟨0, _⟩ =>
    have h : (Proc.devRef .tc main_v44 : DevRef τ sig) ≠ Proc.devRef .tc main_v52 := by decide
    exact ((dat15 V B c).arrAt_in 0 rfl _).trans (Function.update_of_ne h ((dat15 V B c).arrAt 5 cfg15.N) V).symm
  | ⟨1, _⟩ =>
    have h : (Proc.devRef .tc main_arg4 : DevRef τ sig) ≠ Proc.devRef .tc main_v52 := by decide
    exact ((dat15 V B c).arrAt_in 1 rfl _).trans (Function.update_of_ne h ((dat15 V B c).arrAt 5 cfg15.N) V).symm
  | ⟨2, _⟩ =>
    have h : (Proc.devRef .tc main_v2 : DevRef τ sig) ≠ Proc.devRef .tc main_v52 := by decide
    exact ((dat15 V B c).arrAt_in 2 rfl _).trans (Function.update_of_ne h ((dat15 V B c).arrAt 5 cfg15.N) V).symm
  | ⟨3, _⟩ =>
    have h : (Proc.devRef .tc main_v3 : DevRef τ sig) ≠ Proc.devRef .tc main_v52 := by decide
    exact ((dat15 V B c).arrAt_in 3 rfl _).trans (Function.update_of_ne h ((dat15 V B c).arrAt 5 cfg15.N) V).symm
  | ⟨4, _⟩ =>
    have h : (Proc.devRef .tc main_v4 : DevRef τ sig) ≠ Proc.devRef .tc main_v52 := by decide
    exact ((dat15 V B c).arrAt_in 4 rfl _).trans (Function.update_of_ne h ((dat15 V B c).arrAt 5 cfg15.N) V).symm
  | ⟨5, _⟩ => exact (Function.update_self (Proc.devRef .tc main_v52 : DevRef τ sig) ((dat15 V B c).arrAt 5 cfg15.N) V).symm

/-- Off its arrays region 7 leaves every buffer as it found it. -/
theorem restx7 (V : Valuation τ sig (Elt F)) (B : Set (SemLoc sig × HIx 8)) (c : Dev nD) (b : Ref sig .tc)
    (hb : b ∉ Finset.univ.image (Pipeline.arrRef spec15)) : vb (Vx7 V B c) c b = vb V c b := by
  have h : (Proc.devRef .tc b : DevRef τ sig) ≠ Proc.devRef .tc main_v52 :=
    fun h => hb (Finset.mem_image.2 ⟨5, Finset.mem_univ _, (Proc.devRef_injective _ h).symm⟩)
  exact Function.update_of_ne h ((dat15 V B c).arrAt 5 cfg15.N) V

variable (Vin : Dev nD → Valuation τ sig (Elt F)) (B : Set (SemLoc sig × HIx 8))

/-- The arrays as region 0 finds them, -/
abbrev E0 (c : Dev nD) : Valuation τ sig (Elt F) := Vin c
/-- and as it leaves them. -/
def X0 (c : Dev nD) : Valuation τ sig (Elt F) := Vx0 (E0 Vin c) B c
theorem X0_eq (c : Dev nD) : X0 Vin B c = Vx0 (E0 Vin c) B c := rfl

/-- The arrays as region 1 finds them: the copy of the previous result made, -/
abbrev E1 (c : Dev nD) : Valuation τ sig (Elt F) := StableHlo.after [cp0] (X0 Vin B c)
/-- and as it leaves them. -/
def X1 (c : Dev nD) : Valuation τ sig (Elt F) := Vx1 (E1 Vin B c) B c
theorem X1_eq (c : Dev nD) : X1 Vin B c = Vx1 (E1 Vin B c) B c := rfl

/-- The arrays as region 2 finds them: the copy of the previous result made, -/
abbrev E2 (c : Dev nD) : Valuation τ sig (Elt F) := StableHlo.after [cp1] (X1 Vin B c)
/-- and as it leaves them. -/
def X2 (c : Dev nD) : Valuation τ sig (Elt F) := Vx2 (E2 Vin B c) B c
theorem X2_eq (c : Dev nD) : X2 Vin B c = Vx2 (E2 Vin B c) B c := rfl

/-- The arrays as region 3 finds them: the copy of the previous result made, -/
abbrev E3 (c : Dev nD) : Valuation τ sig (Elt F) := StableHlo.after [cp2] (X2 Vin B c)
/-- and as it leaves them. -/
def X3 (c : Dev nD) : Valuation τ sig (Elt F) := Vx3 (E3 Vin B c) B c
theorem X3_eq (c : Dev nD) : X3 Vin B c = Vx3 (E3 Vin B c) B c := rfl

/-- The arrays as region 4 finds them: the copy of the previous result made, -/
abbrev E4 (c : Dev nD) : Valuation τ sig (Elt F) := StableHlo.after [cp3] (X3 Vin B c)
/-- and as it leaves them. -/
def X4 (c : Dev nD) : Valuation τ sig (Elt F) := Vx4 (E4 Vin B c) B c
theorem X4_eq (c : Dev nD) : X4 Vin B c = Vx4 (E4 Vin B c) B c := rfl

/-- The arrays as region 5 finds them: the copy of the previous result made, -/
abbrev E5 (c : Dev nD) : Valuation τ sig (Elt F) := StableHlo.after [cp4] (X4 Vin B c)
/-- and as it leaves them. -/
def X5 (c : Dev nD) : Valuation τ sig (Elt F) := Vx5 (E5 Vin B c) B c
theorem X5_eq (c : Dev nD) : X5 Vin B c = Vx5 (E5 Vin B c) B c := rfl

/-- The arrays as region 6 finds them: the copy of the previous result made, -/
abbrev E6 (c : Dev nD) : Valuation τ sig (Elt F) := StableHlo.after [cp5] (X5 Vin B c)
/-- and as it leaves them. -/
def X6 (c : Dev nD) : Valuation τ sig (Elt F) := Vx6 (E6 Vin B c) B c
theorem X6_eq (c : Dev nD) : X6 Vin B c = Vx6 (E6 Vin B c) B c := rfl

/-- The arrays as region 7 finds them: the copy of the previous result made, -/
abbrev E7 (c : Dev nD) : Valuation τ sig (Elt F) := StableHlo.after [cp6] (X6 Vin B c)
/-- and as it leaves them. -/
def X7 (c : Dev nD) : Valuation τ sig (Elt F) := Vx7 (E7 Vin B c) B c
theorem X7_eq (c : Dev nD) : X7 Vin B c = Vx7 (E7 Vin B c) B c := rfl

/-- The arrays at the end: the last result reshaped. -/
abbrev Vend (c : Dev nD) : Valuation τ sig (Elt F) := StableHlo.after [rsOp] (X7 Vin B c)

/-- The proof data of the eight pipelines: each over the valuation its region is entered at. -/
def pdats : (p : Fin 8) → (c : Dev nD) → Dat τ (Elt F) (HIx 8) ℕ Sc.UU ℕ (Pipeline.pin (pcfgs (F := F)) adm p) c
  | 0 => fun c => dat8 (E0 Vin c) B c
  | 1 => fun c => dat9 (E1 Vin B c) B c
  | 2 => fun c => dat10 (E2 Vin B c) B c
  | 3 => fun c => dat11 (E3 Vin B c) B c
  | 4 => fun c => dat12 (E4 Vin B c) B c
  | 5 => fun c => dat13 (E5 Vin B c) B c
  | 6 => fun c => dat14 (E6 Vin B c) B c
  | 7 => fun c => dat15 (E7 Vin B c) B c

-- each region's exit valuation is opened by its equation only: the chain of valuations is never unfolded whole
attribute [irreducible] X0 X1 X2 X3 X4 X5 X6 X7

/-- The core owes nothing, its recorded pairs within `B`. -/
abbrev Rowe (B : Set (SemLoc sig × HIx 8)) (c : Dev nD) : sProp 𝕄 :=
  iprop(∃ W : Finset (SemLoc sig × HIx 8), ⌜(↑W : Set (SemLoc sig × HIx 8)) ⊆ B⌝ ∗ owes (c : Thread nD τ) (0 : CellTallies nD τ sig (HIx 8)) W)

/-- The thread state between segments: every unscoped buffer held at a valuation, nothing owed. -/
abbrev St (V : Dev nD → Valuation τ sig (Elt F)) (B : Set (SemLoc sig × HIx 8)) (c : Dev nD) : sProp 𝕄 :=
  iprop(StableHlo.held (c : Thread nD τ) (Pipeline.ucRefs τ sig) (V c) ∗ Rowe (F := F) B c)

variable (ι : HIx 8) (L : GSem nD τ sig → Finset (HIx 8)) (lv : GSem nD τ sig → HIx 8 → ℕ)
variable (hB : ∀ x : SemLoc sig × HIx 8, x.2 = ι → x ∈ B)

/-- Region 0's arrays at its exit are the valuation it leaves, read at them. -/
theorem arr0_exit (c : Dev nD) (w : Fin cfg8.W) :
    (pdats Vin B 0 c).arrAt w (Pipeline.pin (pcfgs (F := F)) adm 0).N = vb (X0 Vin B c) c (Pipeline.arrRef spec8 w) := by
  rw [X0_eq]; exact arrx0 (E0 Vin c) B c w

/-- Off its arrays region 0 leaves every buffer as it found it. -/
theorem rest0_exit (c : Dev nD) (b : Ref sig .tc) (hb : b ∉ Finset.univ.image (Pipeline.arrRef spec8)) :
    vb (X0 Vin B c) c b = vb (E0 Vin c) c b := by
  rw [X0_eq]; exact restx0 (E0 Vin c) B c b hb

include hB in
/-- REGION 0: every unscoped buffer held at the valuation it is entered at; its six arrays into the pipeline, the
    other unscoped buffers bypassing; at its exit every unscoped buffer held at the valuation it leaves. -/
def reg0 : Pipeline.RegionSeg (pcfgs (F := F)) adm (pdats Vin B) ι defs₀ Sc.𝒱₀ L lv 0 where
  win := launch8.win.to₀
  block_pos := launch8.block_pos
  stage_whole := launch8.stage_whole
  K := PEmpty
  osem k := k.elim
  ho := Pipeline.OwnSemFacts.none _
  hbody c := (body_obligation8 (E0 Vin c) B c ι).loose
  hwaits c := Pipeline.hwaits_of_owed_zero (pcfgs (F := F)) adm (pdats Vin B) ι L lv 0 (fun _ _ => rfl) c
  pre c := St (E0 Vin) B c
  post c := St (X0 Vin B) B c
  X _ := iprop(emp)
  Y _ := iprop(emp)
  Z c := ur8 (E0 Vin c) c
  hentry c := by
    rw [Pipeline.ownSems0_none]
    have hsplit := Pipeline.arrays_of_unscopedBufs (pcfgs (F := F)) adm (pdats Vin B) (p := 0) launch8.win launch8.arr_whole c
      ((pdats Vin B 0 c).share_full fun _ => rfl) (vb (E0 Vin c) c) fun _ => rfl
    show iprop((StableHlo.held (c : Thread nD τ) (Pipeline.ucRefs τ sig) (E0 Vin c) ∗ Rowe (F := F) B c) ∗ emp ∗ levAts L lv)
      ⊢ |={Set.univ}=> iprop((pdats Vin B 0 c).arrays ((pdats Vin B 0 c).arrAt · 0) ∗ Pipeline.prefHeld (pcfgs (F := F) 0).pre c (fun _ => fullShare) (adm 0).1
        ∗ (pdats Vin B 0 c).owesAt ι 0 ∗ emp ∗ ur8 (E0 Vin c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 0).pre c (fun _ => fullShare) (adm 0).1 ∗ sr8 c) ⊢ sr8 (F := F) c
    iintro ⟨-, -, H⟩; iexact H
  hout c := by
    show sr8 (F := F) c ⊢ iprop(emp ∗ Pipeline.ownSems0 (fun k : PEmpty => k.elim) c ∗ sr8 c)
    rw [Pipeline.ownSems0_none]
    iintro H; isplitr; · iempintro
    isplitr; · iempintro
    iexact H
  hexit c := by
    have hback := Pipeline.unscopedBufs_of_arrays (pcfgs (F := F)) adm (p := 0) launch8.win launch8.arr_whole c (pdats Vin B)
      ((pdats Vin B 0 c).share_full fun _ => rfl) (vb (E0 Vin c) c) (vb (X0 Vin B c) c)
      ((pdats Vin B 0 c).arrAt · (Pipeline.pin (pcfgs (F := F)) adm 0).N) (arr0_exit Vin B c) (rest0_exit Vin B c)
    show iprop((pdats Vin B 0 c).arrays ((pdats Vin B 0 c).arrAt · (Pipeline.pin (pcfgs (F := F)) adm 0).N)
        ∗ (pdats Vin B 0 c).owesAt ι (Fin.last (Pipeline.pin (pcfgs (F := F)) adm 0).N) ∗ emp ∗ ur8 (E0 Vin c) c)
      ⊢ |={Set.univ}=> iprop(StableHlo.held (c : Thread nD τ) (Pipeline.ucRefs τ sig) (X0 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 1's arrays at its exit are the valuation it leaves, read at them. -/
theorem arr1_exit (c : Dev nD) (w : Fin cfg9.W) :
    (pdats Vin B 1 c).arrAt w (Pipeline.pin (pcfgs (F := F)) adm 1).N = vb (X1 Vin B c) c (Pipeline.arrRef spec9 w) := by
  rw [X1_eq]; exact arrx1 (E1 Vin B c) B c w

/-- Off its arrays region 1 leaves every buffer as it found it. -/
theorem rest1_exit (c : Dev nD) (b : Ref sig .tc) (hb : b ∉ Finset.univ.image (Pipeline.arrRef spec9)) :
    vb (X1 Vin B c) c b = vb (E1 Vin B c) c b := by
  rw [X1_eq]; exact restx1 (E1 Vin B c) B c b hb

include hB in
/-- REGION 1: every unscoped buffer held at the valuation it is entered at; its six arrays into the pipeline, the
    other unscoped buffers bypassing; at its exit every unscoped buffer held at the valuation it leaves. -/
def reg1 : Pipeline.RegionSeg (pcfgs (F := F)) adm (pdats Vin B) ι defs₀ Sc.𝒱₀ L lv 1 where
  win := launch9.win.to₀
  block_pos := launch9.block_pos
  stage_whole := launch9.stage_whole
  K := PEmpty
  osem k := k.elim
  ho := Pipeline.OwnSemFacts.none _
  hbody c := (body_obligation9 (E1 Vin B c) B c ι).loose
  hwaits c := Pipeline.hwaits_of_owed_zero (pcfgs (F := F)) adm (pdats Vin B) ι L lv 1 (fun _ _ => rfl) c
  pre c := St (E1 Vin B) B c
  post c := St (X1 Vin B) B c
  X _ := iprop(emp)
  Y _ := iprop(emp)
  Z c := ur9 (E1 Vin B c) c
  hentry c := by
    rw [Pipeline.ownSems0_none]
    have hsplit := Pipeline.arrays_of_unscopedBufs (pcfgs (F := F)) adm (pdats Vin B) (p := 1) launch9.win launch9.arr_whole c
      ((pdats Vin B 1 c).share_full fun _ => rfl) (vb (E1 Vin B c) c) fun _ => rfl
    show iprop((StableHlo.held (c : Thread nD τ) (Pipeline.ucRefs τ sig) (E1 Vin B c) ∗ Rowe (F := F) B c) ∗ emp ∗ levAts L lv)
      ⊢ |={Set.univ}=> iprop((pdats Vin B 1 c).arrays ((pdats Vin B 1 c).arrAt · 0) ∗ Pipeline.prefHeld (pcfgs (F := F) 1).pre c (fun _ => fullShare) (adm 1).1
        ∗ (pdats Vin B 1 c).owesAt ι 0 ∗ emp ∗ ur9 (E1 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 1).pre c (fun _ => fullShare) (adm 1).1 ∗ sr9 c) ⊢ sr9 (F := F) c
    iintro ⟨-, -, H⟩; iexact H
  hout c := by
    show sr9 (F := F) c ⊢ iprop(emp ∗ Pipeline.ownSems0 (fun k : PEmpty => k.elim) c ∗ sr9 c)
    rw [Pipeline.ownSems0_none]
    iintro H; isplitr; · iempintro
    isplitr; · iempintro
    iexact H
  hexit c := by
    have hback := Pipeline.unscopedBufs_of_arrays (pcfgs (F := F)) adm (p := 1) launch9.win launch9.arr_whole c (pdats Vin B)
      ((pdats Vin B 1 c).share_full fun _ => rfl) (vb (E1 Vin B c) c) (vb (X1 Vin B c) c)
      ((pdats Vin B 1 c).arrAt · (Pipeline.pin (pcfgs (F := F)) adm 1).N) (arr1_exit Vin B c) (rest1_exit Vin B c)
    show iprop((pdats Vin B 1 c).arrays ((pdats Vin B 1 c).arrAt · (Pipeline.pin (pcfgs (F := F)) adm 1).N)
        ∗ (pdats Vin B 1 c).owesAt ι (Fin.last (Pipeline.pin (pcfgs (F := F)) adm 1).N) ∗ emp ∗ ur9 (E1 Vin B c) c)
      ⊢ |={Set.univ}=> iprop(StableHlo.held (c : Thread nD τ) (Pipeline.ucRefs τ sig) (X1 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 2's arrays at its exit are the valuation it leaves, read at them. -/
theorem arr2_exit (c : Dev nD) (w : Fin cfg10.W) :
    (pdats Vin B 2 c).arrAt w (Pipeline.pin (pcfgs (F := F)) adm 2).N = vb (X2 Vin B c) c (Pipeline.arrRef spec10 w) := by
  rw [X2_eq]; exact arrx2 (E2 Vin B c) B c w

/-- Off its arrays region 2 leaves every buffer as it found it. -/
theorem rest2_exit (c : Dev nD) (b : Ref sig .tc) (hb : b ∉ Finset.univ.image (Pipeline.arrRef spec10)) :
    vb (X2 Vin B c) c b = vb (E2 Vin B c) c b := by
  rw [X2_eq]; exact restx2 (E2 Vin B c) B c b hb

include hB in
/-- REGION 2: every unscoped buffer held at the valuation it is entered at; its six arrays into the pipeline, the
    other unscoped buffers bypassing; at its exit every unscoped buffer held at the valuation it leaves. -/
def reg2 : Pipeline.RegionSeg (pcfgs (F := F)) adm (pdats Vin B) ι defs₀ Sc.𝒱₀ L lv 2 where
  win := launch10.win.to₀
  block_pos := launch10.block_pos
  stage_whole := launch10.stage_whole
  K := PEmpty
  osem k := k.elim
  ho := Pipeline.OwnSemFacts.none _
  hbody c := (body_obligation10 (E2 Vin B c) B c ι).loose
  hwaits c := Pipeline.hwaits_of_owed_zero (pcfgs (F := F)) adm (pdats Vin B) ι L lv 2 (fun _ _ => rfl) c
  pre c := St (E2 Vin B) B c
  post c := St (X2 Vin B) B c
  X _ := iprop(emp)
  Y _ := iprop(emp)
  Z c := ur10 (E2 Vin B c) c
  hentry c := by
    rw [Pipeline.ownSems0_none]
    have hsplit := Pipeline.arrays_of_unscopedBufs (pcfgs (F := F)) adm (pdats Vin B) (p := 2) launch10.win launch10.arr_whole c
      ((pdats Vin B 2 c).share_full fun _ => rfl) (vb (E2 Vin B c) c) fun _ => rfl
    show iprop((StableHlo.held (c : Thread nD τ) (Pipeline.ucRefs τ sig) (E2 Vin B c) ∗ Rowe (F := F) B c) ∗ emp ∗ levAts L lv)
      ⊢ |={Set.univ}=> iprop((pdats Vin B 2 c).arrays ((pdats Vin B 2 c).arrAt · 0) ∗ Pipeline.prefHeld (pcfgs (F := F) 2).pre c (fun _ => fullShare) (adm 2).1
        ∗ (pdats Vin B 2 c).owesAt ι 0 ∗ emp ∗ ur10 (E2 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 2).pre c (fun _ => fullShare) (adm 2).1 ∗ sr10 c) ⊢ sr10 (F := F) c
    iintro ⟨-, -, H⟩; iexact H
  hout c := by
    show sr10 (F := F) c ⊢ iprop(emp ∗ Pipeline.ownSems0 (fun k : PEmpty => k.elim) c ∗ sr10 c)
    rw [Pipeline.ownSems0_none]
    iintro H; isplitr; · iempintro
    isplitr; · iempintro
    iexact H
  hexit c := by
    have hback := Pipeline.unscopedBufs_of_arrays (pcfgs (F := F)) adm (p := 2) launch10.win launch10.arr_whole c (pdats Vin B)
      ((pdats Vin B 2 c).share_full fun _ => rfl) (vb (E2 Vin B c) c) (vb (X2 Vin B c) c)
      ((pdats Vin B 2 c).arrAt · (Pipeline.pin (pcfgs (F := F)) adm 2).N) (arr2_exit Vin B c) (rest2_exit Vin B c)
    show iprop((pdats Vin B 2 c).arrays ((pdats Vin B 2 c).arrAt · (Pipeline.pin (pcfgs (F := F)) adm 2).N)
        ∗ (pdats Vin B 2 c).owesAt ι (Fin.last (Pipeline.pin (pcfgs (F := F)) adm 2).N) ∗ emp ∗ ur10 (E2 Vin B c) c)
      ⊢ |={Set.univ}=> iprop(StableHlo.held (c : Thread nD τ) (Pipeline.ucRefs τ sig) (X2 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 3's arrays at its exit are the valuation it leaves, read at them. -/
theorem arr3_exit (c : Dev nD) (w : Fin cfg11.W) :
    (pdats Vin B 3 c).arrAt w (Pipeline.pin (pcfgs (F := F)) adm 3).N = vb (X3 Vin B c) c (Pipeline.arrRef spec11 w) := by
  rw [X3_eq]; exact arrx3 (E3 Vin B c) B c w

/-- Off its arrays region 3 leaves every buffer as it found it. -/
theorem rest3_exit (c : Dev nD) (b : Ref sig .tc) (hb : b ∉ Finset.univ.image (Pipeline.arrRef spec11)) :
    vb (X3 Vin B c) c b = vb (E3 Vin B c) c b := by
  rw [X3_eq]; exact restx3 (E3 Vin B c) B c b hb

include hB in
/-- REGION 3: every unscoped buffer held at the valuation it is entered at; its six arrays into the pipeline, the
    other unscoped buffers bypassing; at its exit every unscoped buffer held at the valuation it leaves. -/
def reg3 : Pipeline.RegionSeg (pcfgs (F := F)) adm (pdats Vin B) ι defs₀ Sc.𝒱₀ L lv 3 where
  win := launch11.win.to₀
  block_pos := launch11.block_pos
  stage_whole := launch11.stage_whole
  K := PEmpty
  osem k := k.elim
  ho := Pipeline.OwnSemFacts.none _
  hbody c := (body_obligation11 (E3 Vin B c) B c ι).loose
  hwaits c := Pipeline.hwaits_of_owed_zero (pcfgs (F := F)) adm (pdats Vin B) ι L lv 3 (fun _ _ => rfl) c
  pre c := St (E3 Vin B) B c
  post c := St (X3 Vin B) B c
  X _ := iprop(emp)
  Y _ := iprop(emp)
  Z c := ur11 (E3 Vin B c) c
  hentry c := by
    rw [Pipeline.ownSems0_none]
    have hsplit := Pipeline.arrays_of_unscopedBufs (pcfgs (F := F)) adm (pdats Vin B) (p := 3) launch11.win launch11.arr_whole c
      ((pdats Vin B 3 c).share_full fun _ => rfl) (vb (E3 Vin B c) c) fun _ => rfl
    show iprop((StableHlo.held (c : Thread nD τ) (Pipeline.ucRefs τ sig) (E3 Vin B c) ∗ Rowe (F := F) B c) ∗ emp ∗ levAts L lv)
      ⊢ |={Set.univ}=> iprop((pdats Vin B 3 c).arrays ((pdats Vin B 3 c).arrAt · 0) ∗ Pipeline.prefHeld (pcfgs (F := F) 3).pre c (fun _ => fullShare) (adm 3).1
        ∗ (pdats Vin B 3 c).owesAt ι 0 ∗ emp ∗ ur11 (E3 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 3).pre c (fun _ => fullShare) (adm 3).1 ∗ sr11 c) ⊢ sr11 (F := F) c
    iintro ⟨-, -, H⟩; iexact H
  hout c := by
    show sr11 (F := F) c ⊢ iprop(emp ∗ Pipeline.ownSems0 (fun k : PEmpty => k.elim) c ∗ sr11 c)
    rw [Pipeline.ownSems0_none]
    iintro H; isplitr; · iempintro
    isplitr; · iempintro
    iexact H
  hexit c := by
    have hback := Pipeline.unscopedBufs_of_arrays (pcfgs (F := F)) adm (p := 3) launch11.win launch11.arr_whole c (pdats Vin B)
      ((pdats Vin B 3 c).share_full fun _ => rfl) (vb (E3 Vin B c) c) (vb (X3 Vin B c) c)
      ((pdats Vin B 3 c).arrAt · (Pipeline.pin (pcfgs (F := F)) adm 3).N) (arr3_exit Vin B c) (rest3_exit Vin B c)
    show iprop((pdats Vin B 3 c).arrays ((pdats Vin B 3 c).arrAt · (Pipeline.pin (pcfgs (F := F)) adm 3).N)
        ∗ (pdats Vin B 3 c).owesAt ι (Fin.last (Pipeline.pin (pcfgs (F := F)) adm 3).N) ∗ emp ∗ ur11 (E3 Vin B c) c)
      ⊢ |={Set.univ}=> iprop(StableHlo.held (c : Thread nD τ) (Pipeline.ucRefs τ sig) (X3 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 4's arrays at its exit are the valuation it leaves, read at them. -/
theorem arr4_exit (c : Dev nD) (w : Fin cfg12.W) :
    (pdats Vin B 4 c).arrAt w (Pipeline.pin (pcfgs (F := F)) adm 4).N = vb (X4 Vin B c) c (Pipeline.arrRef spec12 w) := by
  rw [X4_eq]; exact arrx4 (E4 Vin B c) B c w

/-- Off its arrays region 4 leaves every buffer as it found it. -/
theorem rest4_exit (c : Dev nD) (b : Ref sig .tc) (hb : b ∉ Finset.univ.image (Pipeline.arrRef spec12)) :
    vb (X4 Vin B c) c b = vb (E4 Vin B c) c b := by
  rw [X4_eq]; exact restx4 (E4 Vin B c) B c b hb

include hB in
/-- REGION 4: every unscoped buffer held at the valuation it is entered at; its six arrays into the pipeline, the
    other unscoped buffers bypassing; at its exit every unscoped buffer held at the valuation it leaves. -/
def reg4 : Pipeline.RegionSeg (pcfgs (F := F)) adm (pdats Vin B) ι defs₀ Sc.𝒱₀ L lv 4 where
  win := launch12.win.to₀
  block_pos := launch12.block_pos
  stage_whole := launch12.stage_whole
  K := PEmpty
  osem k := k.elim
  ho := Pipeline.OwnSemFacts.none _
  hbody c := (body_obligation12 (E4 Vin B c) B c ι).loose
  hwaits c := Pipeline.hwaits_of_owed_zero (pcfgs (F := F)) adm (pdats Vin B) ι L lv 4 (fun _ _ => rfl) c
  pre c := St (E4 Vin B) B c
  post c := St (X4 Vin B) B c
  X _ := iprop(emp)
  Y _ := iprop(emp)
  Z c := ur12 (E4 Vin B c) c
  hentry c := by
    rw [Pipeline.ownSems0_none]
    have hsplit := Pipeline.arrays_of_unscopedBufs (pcfgs (F := F)) adm (pdats Vin B) (p := 4) launch12.win launch12.arr_whole c
      ((pdats Vin B 4 c).share_full fun _ => rfl) (vb (E4 Vin B c) c) fun _ => rfl
    show iprop((StableHlo.held (c : Thread nD τ) (Pipeline.ucRefs τ sig) (E4 Vin B c) ∗ Rowe (F := F) B c) ∗ emp ∗ levAts L lv)
      ⊢ |={Set.univ}=> iprop((pdats Vin B 4 c).arrays ((pdats Vin B 4 c).arrAt · 0) ∗ Pipeline.prefHeld (pcfgs (F := F) 4).pre c (fun _ => fullShare) (adm 4).1
        ∗ (pdats Vin B 4 c).owesAt ι 0 ∗ emp ∗ ur12 (E4 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 4).pre c (fun _ => fullShare) (adm 4).1 ∗ sr12 c) ⊢ sr12 (F := F) c
    iintro ⟨-, -, H⟩; iexact H
  hout c := by
    show sr12 (F := F) c ⊢ iprop(emp ∗ Pipeline.ownSems0 (fun k : PEmpty => k.elim) c ∗ sr12 c)
    rw [Pipeline.ownSems0_none]
    iintro H; isplitr; · iempintro
    isplitr; · iempintro
    iexact H
  hexit c := by
    have hback := Pipeline.unscopedBufs_of_arrays (pcfgs (F := F)) adm (p := 4) launch12.win launch12.arr_whole c (pdats Vin B)
      ((pdats Vin B 4 c).share_full fun _ => rfl) (vb (E4 Vin B c) c) (vb (X4 Vin B c) c)
      ((pdats Vin B 4 c).arrAt · (Pipeline.pin (pcfgs (F := F)) adm 4).N) (arr4_exit Vin B c) (rest4_exit Vin B c)
    show iprop((pdats Vin B 4 c).arrays ((pdats Vin B 4 c).arrAt · (Pipeline.pin (pcfgs (F := F)) adm 4).N)
        ∗ (pdats Vin B 4 c).owesAt ι (Fin.last (Pipeline.pin (pcfgs (F := F)) adm 4).N) ∗ emp ∗ ur12 (E4 Vin B c) c)
      ⊢ |={Set.univ}=> iprop(StableHlo.held (c : Thread nD τ) (Pipeline.ucRefs τ sig) (X4 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 5's arrays at its exit are the valuation it leaves, read at them. -/
theorem arr5_exit (c : Dev nD) (w : Fin cfg13.W) :
    (pdats Vin B 5 c).arrAt w (Pipeline.pin (pcfgs (F := F)) adm 5).N = vb (X5 Vin B c) c (Pipeline.arrRef spec13 w) := by
  rw [X5_eq]; exact arrx5 (E5 Vin B c) B c w

/-- Off its arrays region 5 leaves every buffer as it found it. -/
theorem rest5_exit (c : Dev nD) (b : Ref sig .tc) (hb : b ∉ Finset.univ.image (Pipeline.arrRef spec13)) :
    vb (X5 Vin B c) c b = vb (E5 Vin B c) c b := by
  rw [X5_eq]; exact restx5 (E5 Vin B c) B c b hb

include hB in
/-- REGION 5: every unscoped buffer held at the valuation it is entered at; its six arrays into the pipeline, the
    other unscoped buffers bypassing; at its exit every unscoped buffer held at the valuation it leaves. -/
def reg5 : Pipeline.RegionSeg (pcfgs (F := F)) adm (pdats Vin B) ι defs₀ Sc.𝒱₀ L lv 5 where
  win := launch13.win.to₀
  block_pos := launch13.block_pos
  stage_whole := launch13.stage_whole
  K := PEmpty
  osem k := k.elim
  ho := Pipeline.OwnSemFacts.none _
  hbody c := (body_obligation13 (E5 Vin B c) B c ι).loose
  hwaits c := Pipeline.hwaits_of_owed_zero (pcfgs (F := F)) adm (pdats Vin B) ι L lv 5 (fun _ _ => rfl) c
  pre c := St (E5 Vin B) B c
  post c := St (X5 Vin B) B c
  X _ := iprop(emp)
  Y _ := iprop(emp)
  Z c := ur13 (E5 Vin B c) c
  hentry c := by
    rw [Pipeline.ownSems0_none]
    have hsplit := Pipeline.arrays_of_unscopedBufs (pcfgs (F := F)) adm (pdats Vin B) (p := 5) launch13.win launch13.arr_whole c
      ((pdats Vin B 5 c).share_full fun _ => rfl) (vb (E5 Vin B c) c) fun _ => rfl
    show iprop((StableHlo.held (c : Thread nD τ) (Pipeline.ucRefs τ sig) (E5 Vin B c) ∗ Rowe (F := F) B c) ∗ emp ∗ levAts L lv)
      ⊢ |={Set.univ}=> iprop((pdats Vin B 5 c).arrays ((pdats Vin B 5 c).arrAt · 0) ∗ Pipeline.prefHeld (pcfgs (F := F) 5).pre c (fun _ => fullShare) (adm 5).1
        ∗ (pdats Vin B 5 c).owesAt ι 0 ∗ emp ∗ ur13 (E5 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 5).pre c (fun _ => fullShare) (adm 5).1 ∗ sr13 c) ⊢ sr13 (F := F) c
    iintro ⟨-, -, H⟩; iexact H
  hout c := by
    show sr13 (F := F) c ⊢ iprop(emp ∗ Pipeline.ownSems0 (fun k : PEmpty => k.elim) c ∗ sr13 c)
    rw [Pipeline.ownSems0_none]
    iintro H; isplitr; · iempintro
    isplitr; · iempintro
    iexact H
  hexit c := by
    have hback := Pipeline.unscopedBufs_of_arrays (pcfgs (F := F)) adm (p := 5) launch13.win launch13.arr_whole c (pdats Vin B)
      ((pdats Vin B 5 c).share_full fun _ => rfl) (vb (E5 Vin B c) c) (vb (X5 Vin B c) c)
      ((pdats Vin B 5 c).arrAt · (Pipeline.pin (pcfgs (F := F)) adm 5).N) (arr5_exit Vin B c) (rest5_exit Vin B c)
    show iprop((pdats Vin B 5 c).arrays ((pdats Vin B 5 c).arrAt · (Pipeline.pin (pcfgs (F := F)) adm 5).N)
        ∗ (pdats Vin B 5 c).owesAt ι (Fin.last (Pipeline.pin (pcfgs (F := F)) adm 5).N) ∗ emp ∗ ur13 (E5 Vin B c) c)
      ⊢ |={Set.univ}=> iprop(StableHlo.held (c : Thread nD τ) (Pipeline.ucRefs τ sig) (X5 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 6's arrays at its exit are the valuation it leaves, read at them. -/
theorem arr6_exit (c : Dev nD) (w : Fin cfg14.W) :
    (pdats Vin B 6 c).arrAt w (Pipeline.pin (pcfgs (F := F)) adm 6).N = vb (X6 Vin B c) c (Pipeline.arrRef spec14 w) := by
  rw [X6_eq]; exact arrx6 (E6 Vin B c) B c w

/-- Off its arrays region 6 leaves every buffer as it found it. -/
theorem rest6_exit (c : Dev nD) (b : Ref sig .tc) (hb : b ∉ Finset.univ.image (Pipeline.arrRef spec14)) :
    vb (X6 Vin B c) c b = vb (E6 Vin B c) c b := by
  rw [X6_eq]; exact restx6 (E6 Vin B c) B c b hb

include hB in
/-- REGION 6: every unscoped buffer held at the valuation it is entered at; its six arrays into the pipeline, the
    other unscoped buffers bypassing; at its exit every unscoped buffer held at the valuation it leaves. -/
def reg6 : Pipeline.RegionSeg (pcfgs (F := F)) adm (pdats Vin B) ι defs₀ Sc.𝒱₀ L lv 6 where
  win := launch14.win.to₀
  block_pos := launch14.block_pos
  stage_whole := launch14.stage_whole
  K := PEmpty
  osem k := k.elim
  ho := Pipeline.OwnSemFacts.none _
  hbody c := (body_obligation14 (E6 Vin B c) B c ι).loose
  hwaits c := Pipeline.hwaits_of_owed_zero (pcfgs (F := F)) adm (pdats Vin B) ι L lv 6 (fun _ _ => rfl) c
  pre c := St (E6 Vin B) B c
  post c := St (X6 Vin B) B c
  X _ := iprop(emp)
  Y _ := iprop(emp)
  Z c := ur14 (E6 Vin B c) c
  hentry c := by
    rw [Pipeline.ownSems0_none]
    have hsplit := Pipeline.arrays_of_unscopedBufs (pcfgs (F := F)) adm (pdats Vin B) (p := 6) launch14.win launch14.arr_whole c
      ((pdats Vin B 6 c).share_full fun _ => rfl) (vb (E6 Vin B c) c) fun _ => rfl
    show iprop((StableHlo.held (c : Thread nD τ) (Pipeline.ucRefs τ sig) (E6 Vin B c) ∗ Rowe (F := F) B c) ∗ emp ∗ levAts L lv)
      ⊢ |={Set.univ}=> iprop((pdats Vin B 6 c).arrays ((pdats Vin B 6 c).arrAt · 0) ∗ Pipeline.prefHeld (pcfgs (F := F) 6).pre c (fun _ => fullShare) (adm 6).1
        ∗ (pdats Vin B 6 c).owesAt ι 0 ∗ emp ∗ ur14 (E6 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 6).pre c (fun _ => fullShare) (adm 6).1 ∗ sr14 c) ⊢ sr14 (F := F) c
    iintro ⟨-, -, H⟩; iexact H
  hout c := by
    show sr14 (F := F) c ⊢ iprop(emp ∗ Pipeline.ownSems0 (fun k : PEmpty => k.elim) c ∗ sr14 c)
    rw [Pipeline.ownSems0_none]
    iintro H; isplitr; · iempintro
    isplitr; · iempintro
    iexact H
  hexit c := by
    have hback := Pipeline.unscopedBufs_of_arrays (pcfgs (F := F)) adm (p := 6) launch14.win launch14.arr_whole c (pdats Vin B)
      ((pdats Vin B 6 c).share_full fun _ => rfl) (vb (E6 Vin B c) c) (vb (X6 Vin B c) c)
      ((pdats Vin B 6 c).arrAt · (Pipeline.pin (pcfgs (F := F)) adm 6).N) (arr6_exit Vin B c) (rest6_exit Vin B c)
    show iprop((pdats Vin B 6 c).arrays ((pdats Vin B 6 c).arrAt · (Pipeline.pin (pcfgs (F := F)) adm 6).N)
        ∗ (pdats Vin B 6 c).owesAt ι (Fin.last (Pipeline.pin (pcfgs (F := F)) adm 6).N) ∗ emp ∗ ur14 (E6 Vin B c) c)
      ⊢ |={Set.univ}=> iprop(StableHlo.held (c : Thread nD τ) (Pipeline.ucRefs τ sig) (X6 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

/-- Region 7's arrays at its exit are the valuation it leaves, read at them. -/
theorem arr7_exit (c : Dev nD) (w : Fin cfg15.W) :
    (pdats Vin B 7 c).arrAt w (Pipeline.pin (pcfgs (F := F)) adm 7).N = vb (X7 Vin B c) c (Pipeline.arrRef spec15 w) := by
  rw [X7_eq]; exact arrx7 (E7 Vin B c) B c w

/-- Off its arrays region 7 leaves every buffer as it found it. -/
theorem rest7_exit (c : Dev nD) (b : Ref sig .tc) (hb : b ∉ Finset.univ.image (Pipeline.arrRef spec15)) :
    vb (X7 Vin B c) c b = vb (E7 Vin B c) c b := by
  rw [X7_eq]; exact restx7 (E7 Vin B c) B c b hb

include hB in
/-- REGION 7: every unscoped buffer held at the valuation it is entered at; its six arrays into the pipeline, the
    other unscoped buffers bypassing; at its exit every unscoped buffer held at the valuation it leaves. -/
def reg7 : Pipeline.RegionSeg (pcfgs (F := F)) adm (pdats Vin B) ι defs₀ Sc.𝒱₀ L lv 7 where
  win := launch15.win.to₀
  block_pos := launch15.block_pos
  stage_whole := launch15.stage_whole
  K := PEmpty
  osem k := k.elim
  ho := Pipeline.OwnSemFacts.none _
  hbody c := (body_obligation15 (E7 Vin B c) B c ι).loose
  hwaits c := Pipeline.hwaits_of_owed_zero (pcfgs (F := F)) adm (pdats Vin B) ι L lv 7 (fun _ _ => rfl) c
  pre c := St (E7 Vin B) B c
  post c := St (X7 Vin B) B c
  X _ := iprop(emp)
  Y _ := iprop(emp)
  Z c := ur15 (E7 Vin B c) c
  hentry c := by
    rw [Pipeline.ownSems0_none]
    have hsplit := Pipeline.arrays_of_unscopedBufs (pcfgs (F := F)) adm (pdats Vin B) (p := 7) launch15.win launch15.arr_whole c
      ((pdats Vin B 7 c).share_full fun _ => rfl) (vb (E7 Vin B c) c) fun _ => rfl
    show iprop((StableHlo.held (c : Thread nD τ) (Pipeline.ucRefs τ sig) (E7 Vin B c) ∗ Rowe (F := F) B c) ∗ emp ∗ levAts L lv)
      ⊢ |={Set.univ}=> iprop((pdats Vin B 7 c).arrays ((pdats Vin B 7 c).arrAt · 0) ∗ Pipeline.prefHeld (pcfgs (F := F) 7).pre c (fun _ => fullShare) (adm 7).1
        ∗ (pdats Vin B 7 c).owesAt ι 0 ∗ emp ∗ ur15 (E7 Vin B c) c)
    rw [← Pipeline.unscopedBufs_held]
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun x hx => Or.inl (hW hx)
      iexact HO
    isplitr; · iempintro
    iexact Hr
  hin c := by
    show iprop(emp ∗ Pipeline.prefHeld (pcfgs (F := F) 7).pre c (fun _ => fullShare) (adm 7).1 ∗ sr15 c) ⊢ sr15 (F := F) c
    iintro ⟨-, -, H⟩; iexact H
  hout c := by
    show sr15 (F := F) c ⊢ iprop(emp ∗ Pipeline.ownSems0 (fun k : PEmpty => k.elim) c ∗ sr15 c)
    rw [Pipeline.ownSems0_none]
    iintro H; isplitr; · iempintro
    isplitr; · iempintro
    iexact H
  hexit c := by
    have hback := Pipeline.unscopedBufs_of_arrays (pcfgs (F := F)) adm (p := 7) launch15.win launch15.arr_whole c (pdats Vin B)
      ((pdats Vin B 7 c).share_full fun _ => rfl) (vb (E7 Vin B c) c) (vb (X7 Vin B c) c)
      ((pdats Vin B 7 c).arrAt · (Pipeline.pin (pcfgs (F := F)) adm 7).N) (arr7_exit Vin B c) (rest7_exit Vin B c)
    show iprop((pdats Vin B 7 c).arrays ((pdats Vin B 7 c).arrAt · (Pipeline.pin (pcfgs (F := F)) adm 7).N)
        ∗ (pdats Vin B 7 c).owesAt ι (Fin.last (Pipeline.pin (pcfgs (F := F)) adm 7).N) ∗ emp ∗ ur15 (E7 Vin B c) c)
      ⊢ |={Set.univ}=> iprop(StableHlo.held (c : Thread nD τ) (Pipeline.ucRefs τ sig) (X7 Vin B c) ∗ Rowe (F := F) B c)
    rw [← Pipeline.unscopedBufs_held]
    iintro ⟨Ha, HO, -, Hr⟩
    imodintro
    isplitl [Ha Hr]
    · iapply hback; isplitl [Ha] <;> iassumption
    unfold Pipeline.Dat.owesAt Pipeline.owesWithin
    icases HO with ⟨%W, %hW, HO⟩
    iexists W; isplitr
    · ipureintro
      exact fun x hx => (hW hx).elim id fun ⟨w, s, e⟩ => hB x (by rw [e])
    iexact HO

theorem cp0_sub : ∀ op ∈ [(cp0 : HloOp τ sig (Elt F))], op.bufs ⊆ Pipeline.ucRefs τ sig := fun op h => by
  obtain rfl := List.mem_singleton.mp h
  exact Pipeline.sub_ucRefs _ (StableHlo.unary_bufs_sub ..)
theorem cp0_fresh : ∀ op ∈ [(cp0 : HloOp τ sig (Elt F))], op.fresh = ∅ := fun op h => by
  obtain rfl := List.mem_singleton.mp h; rfl
/-- The copy after region 0: over the unscoped buffers as region 0 left them. -/
def host0 : Pipeline.HostSeg (Name := ℕ) (U := Sc.UU) (pcfgs (F := F)) defs₀ Sc.𝒱₀ L lv :=
  Pipeline.HostSeg.ofOps _ _ _ _ _ (Pipeline.ucRefs τ sig) [cp0] cp0_sub cp0_fresh (X0 Vin B) (Rowe (F := F) B)

theorem cp1_sub : ∀ op ∈ [(cp1 : HloOp τ sig (Elt F))], op.bufs ⊆ Pipeline.ucRefs τ sig := fun op h => by
  obtain rfl := List.mem_singleton.mp h
  exact Pipeline.sub_ucRefs _ (StableHlo.unary_bufs_sub ..)
theorem cp1_fresh : ∀ op ∈ [(cp1 : HloOp τ sig (Elt F))], op.fresh = ∅ := fun op h => by
  obtain rfl := List.mem_singleton.mp h; rfl
/-- The copy after region 1: over the unscoped buffers as region 1 left them. -/
def host1 : Pipeline.HostSeg (Name := ℕ) (U := Sc.UU) (pcfgs (F := F)) defs₀ Sc.𝒱₀ L lv :=
  Pipeline.HostSeg.ofOps _ _ _ _ _ (Pipeline.ucRefs τ sig) [cp1] cp1_sub cp1_fresh (X1 Vin B) (Rowe (F := F) B)

theorem cp2_sub : ∀ op ∈ [(cp2 : HloOp τ sig (Elt F))], op.bufs ⊆ Pipeline.ucRefs τ sig := fun op h => by
  obtain rfl := List.mem_singleton.mp h
  exact Pipeline.sub_ucRefs _ (StableHlo.unary_bufs_sub ..)
theorem cp2_fresh : ∀ op ∈ [(cp2 : HloOp τ sig (Elt F))], op.fresh = ∅ := fun op h => by
  obtain rfl := List.mem_singleton.mp h; rfl
/-- The copy after region 2: over the unscoped buffers as region 2 left them. -/
def host2 : Pipeline.HostSeg (Name := ℕ) (U := Sc.UU) (pcfgs (F := F)) defs₀ Sc.𝒱₀ L lv :=
  Pipeline.HostSeg.ofOps _ _ _ _ _ (Pipeline.ucRefs τ sig) [cp2] cp2_sub cp2_fresh (X2 Vin B) (Rowe (F := F) B)

theorem cp3_sub : ∀ op ∈ [(cp3 : HloOp τ sig (Elt F))], op.bufs ⊆ Pipeline.ucRefs τ sig := fun op h => by
  obtain rfl := List.mem_singleton.mp h
  exact Pipeline.sub_ucRefs _ (StableHlo.unary_bufs_sub ..)
theorem cp3_fresh : ∀ op ∈ [(cp3 : HloOp τ sig (Elt F))], op.fresh = ∅ := fun op h => by
  obtain rfl := List.mem_singleton.mp h; rfl
/-- The copy after region 3: over the unscoped buffers as region 3 left them. -/
def host3 : Pipeline.HostSeg (Name := ℕ) (U := Sc.UU) (pcfgs (F := F)) defs₀ Sc.𝒱₀ L lv :=
  Pipeline.HostSeg.ofOps _ _ _ _ _ (Pipeline.ucRefs τ sig) [cp3] cp3_sub cp3_fresh (X3 Vin B) (Rowe (F := F) B)

theorem cp4_sub : ∀ op ∈ [(cp4 : HloOp τ sig (Elt F))], op.bufs ⊆ Pipeline.ucRefs τ sig := fun op h => by
  obtain rfl := List.mem_singleton.mp h
  exact Pipeline.sub_ucRefs _ (StableHlo.unary_bufs_sub ..)
theorem cp4_fresh : ∀ op ∈ [(cp4 : HloOp τ sig (Elt F))], op.fresh = ∅ := fun op h => by
  obtain rfl := List.mem_singleton.mp h; rfl
/-- The copy after region 4: over the unscoped buffers as region 4 left them. -/
def host4 : Pipeline.HostSeg (Name := ℕ) (U := Sc.UU) (pcfgs (F := F)) defs₀ Sc.𝒱₀ L lv :=
  Pipeline.HostSeg.ofOps _ _ _ _ _ (Pipeline.ucRefs τ sig) [cp4] cp4_sub cp4_fresh (X4 Vin B) (Rowe (F := F) B)

theorem cp5_sub : ∀ op ∈ [(cp5 : HloOp τ sig (Elt F))], op.bufs ⊆ Pipeline.ucRefs τ sig := fun op h => by
  obtain rfl := List.mem_singleton.mp h
  exact Pipeline.sub_ucRefs _ (StableHlo.unary_bufs_sub ..)
theorem cp5_fresh : ∀ op ∈ [(cp5 : HloOp τ sig (Elt F))], op.fresh = ∅ := fun op h => by
  obtain rfl := List.mem_singleton.mp h; rfl
/-- The copy after region 5: over the unscoped buffers as region 5 left them. -/
def host5 : Pipeline.HostSeg (Name := ℕ) (U := Sc.UU) (pcfgs (F := F)) defs₀ Sc.𝒱₀ L lv :=
  Pipeline.HostSeg.ofOps _ _ _ _ _ (Pipeline.ucRefs τ sig) [cp5] cp5_sub cp5_fresh (X5 Vin B) (Rowe (F := F) B)

theorem cp6_sub : ∀ op ∈ [(cp6 : HloOp τ sig (Elt F))], op.bufs ⊆ Pipeline.ucRefs τ sig := fun op h => by
  obtain rfl := List.mem_singleton.mp h
  exact Pipeline.sub_ucRefs _ (StableHlo.unary_bufs_sub ..)
theorem cp6_fresh : ∀ op ∈ [(cp6 : HloOp τ sig (Elt F))], op.fresh = ∅ := fun op h => by
  obtain rfl := List.mem_singleton.mp h; rfl
/-- The copy after region 6: over the unscoped buffers as region 6 left them. -/
def host6 : Pipeline.HostSeg (Name := ℕ) (U := Sc.UU) (pcfgs (F := F)) defs₀ Sc.𝒱₀ L lv :=
  Pipeline.HostSeg.ofOps _ _ _ _ _ (Pipeline.ucRefs τ sig) [cp6] cp6_sub cp6_fresh (X6 Vin B) (Rowe (F := F) B)

theorem rs_sub : ∀ op ∈ [(rsOp : HloOp τ sig (Elt F))], op.bufs ⊆ Pipeline.ucRefs τ sig := fun op h => by
  obtain rfl := List.mem_singleton.mp h
  exact Pipeline.sub_ucRefs _ (StableHlo.reshape_bufs_sub ..)
theorem rs_fresh : ∀ op ∈ [(rsOp : HloOp τ sig (Elt F))], op.fresh = ∅ := fun op h => by
  obtain rfl := List.mem_singleton.mp h; rfl
/-- The reshape after the last region. -/
def hostR : Pipeline.HostSeg (Name := ℕ) (U := Sc.UU) (pcfgs (F := F)) defs₀ Sc.𝒱₀ L lv :=
  Pipeline.HostSeg.ofOps _ _ _ _ _ (Pipeline.ucRefs τ sig) [rsOp] rs_sub rs_fresh (X7 Vin B) (Rowe (F := F) B)

/-! ## The list, its chaining, and the run -/

include hB in
/-- The tail of @main: region, copy, region, …, region, reshape. -/
def segs : List (Pipeline.Seg (pcfgs (F := F)) adm (pdats Vin B) ι defs₀ Sc.𝒱₀ L lv) :=
  [.region (reg0 Vin B ι L lv hB), .host (host0 Vin B L lv), .region (reg1 Vin B ι L lv hB), .host (host1 Vin B L lv),
   .region (reg2 Vin B ι L lv hB), .host (host2 Vin B L lv), .region (reg3 Vin B ι L lv hB), .host (host3 Vin B L lv),
   .region (reg4 Vin B ι L lv hB), .host (host4 Vin B L lv), .region (reg5 Vin B ι L lv hB), .host (host5 Vin B L lv),
   .region (reg6 Vin B ι L lv hB), .host (host6 Vin B L lv), .region (reg7 Vin B ι L lv hB), .host (hostR Vin B L lv)]

/-- Each segment is entered from what the one before it left. -/
theorem segs_chain : Pipeline.Seg.Chains (St (E0 Vin) B) (segs Vin B ι L lv hB) (St (Vend Vin B) B) :=
  ⟨fun _ => .rfl, fun _ => .rfl, fun _ => .rfl, fun _ => .rfl, fun _ => .rfl, fun _ => .rfl, fun _ => .rfl, fun _ => .rfl,
   fun _ => .rfl, fun _ => .rfl, fun _ => .rfl, fun _ => .rfl, fun _ => .rfl, fun _ => .rfl, fun _ => .rfl, fun _ => .rfl, fun _ => .rfl⟩

theorem segs_pipes : Pipeline.Seg.pipes (segs Vin B ι L lv hB) = [0, 1, 2, 3, 4, 5, 6, 7] := rfl

end Cert.Kernel.TcTail

end
-- ==== Proof.TcTailWpB.lean ====
/-
  The tail of @main run from the state the last gather call leaves: every unscoped buffer held at a valuation and the
  core owing nothing with recorded pairs W; it ends with every unscoped buffer held at the valuation the eight
  regions and the host operations make of it, the core owing nothing, its recorded pairs each in W or at the index
  the pipelines' waits are recorded at.
-/
import proofs.«204770_g8065948582451_cont_9to1c4b_476_56_alg».proof.Proof.ScPayB
import proofs.«204770_g8065948582451_cont_9to1c4b_476_56_alg».proof.Proof.Gen.Kernel.Points
import proofs.«204770_g8065948582451_cont_9to1c4b_476_56_alg».proof.Proof.TcTailSegB
import Idealize.ShloMosaic.Lib.Pipeline.FrameBody
import Idealize.ShloMosaic.Lib.Pipeline.RegionsLoop
import Idealize.ShloMosaic.Lib.Tactic

set_option maxRecDepth 16384

noncomputable section

namespace Cert.Kernel.TcTail

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

variable (Vin : Dev nD → Valuation τ sig (Elt F))
variable (ι : HIx 8) (L : GSem nD τ sig → Finset (HIx 8)) (lv : GSem nD τ sig → HIx 8 → ℕ)

/-- The recorded pairs allowed: those of `W` and every pair at the index `ι`. -/
abbrev Bof (W : Finset (SemLoc sig × HIx 8)) (ι : HIx 8) : Set (SemLoc sig × HIx 8) := {x | x ∈ W ∨ x.2 = ι}
theorem Bof_idx (W : Finset (SemLoc sig × HIx 8)) (ι : HIx 8) : ∀ x : SemLoc sig × HIx 8, x.2 = ι → x ∈ Bof W ι := fun _ h => Or.inr h

/-- The valuation at the end. -/
abbrev Vout (W : Finset (SemLoc sig × HIx 8)) (d : Dev nD) : Valuation τ sig (Elt F) := Vend Vin (Bof W ι) d

/-- The state the tail starts from, -/
abbrev Tstart (W : Finset (SemLoc sig × HIx 8)) (d : Dev nD) : sProp 𝕄 :=
  iprop(StableHlo.held (d : Thread nD τ) (Pipeline.ucRefs τ sig) (Vin d) ∗ owes (d : Thread nD τ) (0 : CellTallies nD τ sig (HIx 8)) W)
/-- and the state it ends in. -/
abbrev Tend (W : Finset (SemLoc sig × HIx 8)) (d : Dev nD) : sProp 𝕄 :=
  iprop(StableHlo.held (d : Thread nD τ) (Pipeline.ucRefs τ sig) (Vout Vin ι W d)
    ∗ ∃ W' : Finset (SemLoc sig × HIx 8), ⌜∀ x ∈ W', x ∈ W ∨ x.2 = ι⌝ ∗ owes (d : Thread nD τ) (0 : CellTallies nD τ sig (HIx 8)) W')

/-- The segments of the tail at that bound. -/
abbrev tailSegs (W : Finset (SemLoc sig × HIx 8)) :
    List (Pipeline.Seg (pcfgs (F := F)) adm (pdats Vin (Bof W ι)) ι defs₀ Sc.𝒱₀ L lv) :=
  segs Vin (Bof W ι) ι L lv (Bof_idx W ι)

/-- THE TAIL'S RUN on device `d`. -/
theorem tail_wp (d : Dev nD) (W : Finset (SemLoc sig × HIx 8)) {Q : PUnit → sProp 𝕄} :
    iprop((iprop(boundary (d : Thread nD τ) ∗ Tend Vin ι W d) -∗ Q ⟨⟩) ∗ boundary (d : Thread nD τ) ∗ Tstart Vin W d ∗ levAts L lv
        ∗ bigSep Finset.univ (fun p : Fin 8 => iprop(Pipeline.cellsGhost (Pipeline.pin (pcfgs (F := F)) adm) Sc.EP p d
            ∗ Pipeline.toksInit (Pipeline.pin (pcfgs (F := F)) adm) Sc.EP p d)))
      ⊢ wp frame (wpE (Pipeline.defs (pcfgs (F := F)) defs₀) Sc.𝒱 (d : Thread nD τ) none) Set.univ
          (Pipeline.Seg.run (tailSegs Vin ι L lv W)) Q := by
  have h := Pipeline.wp_segs (pcfgs (F := F)) adm (pdats Vin (Bof W ι)) ι cellOf_inj Sc.EP defs₀ Sc.𝒱₀ L lv d (Q := Q)
    (tailSegs Vin ι L lv W) Finset.univ (St (E0 Vin) (Bof W ι)) (St (Vend Vin (Bof W ι)) (Bof W ι))
    (by rw [segs_pipes]; decide) (fun p _ => Finset.mem_univ p) (segs_chain Vin (Bof W ι) ι L lv (Bof_idx W ι))
  rw [show (bigSep Finset.univ (fun p : Fin 8 => iprop(Pipeline.cellsGhost (Pipeline.pin (pcfgs (F := F)) adm) Sc.EP p d
      ∗ Pipeline.toksInit (Pipeline.pin (pcfgs (F := F)) adm) Sc.EP p d)) : sProp 𝕄)
    = Pipeline.ghostOn (pcfgs (F := F)) adm Sc.EP Finset.univ d from rfl]
  iintro ⟨Hk, Hbd, ⟨Hh, HO⟩, Hla, Hg⟩
  iapply h
  isplitl [Hk]
  · iintro ⟨Hbd, Hh, ⟨%W', %hW', HO⟩⟩
    iapply Hk
    isplitl [Hbd]; · iexact Hbd
    isplitl [Hh]; · iexact Hh
    iexists W'; isplitr
    · ipureintro; exact fun x hx => hW' hx
    iexact HO
  isplitl [Hbd]; · iexact Hbd
  isplitl [Hh HO]
  · isplitl [Hh]; · iexact Hh
    iexists W; isplitr
    · ipureintro; exact fun x hx => Or.inl hx
    iexact HO
  isplitl [Hla]; · iexact Hla
  iexact Hg

end Cert.Kernel.TcTail

end
-- ==== Proof.ScOblB.lean ====
/-
  The launch theorem's obligation per gather call: a vector subcore's task at call q is the gather kernel's body at
  that subcore's coordinates on the call's arrays (the eight calls' bodies are one function), run from the call's
  hand-out to its return.
-/
import proofs.«204770_g8065948582451_cont_9to1c4b_476_56_alg».proof.Proof.ScPayB

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 8) (Elt F) ℕ UU ℕ

variable (m : (ℓ : Loc nD τ sig) → Buf (Elt F) ℓ)

/-- A subcore's coordinates in the calls' common grid. -/
def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem obl_post {thr : Thread nD τ} {A B C : sProp 𝕄} {O : CellTallies nD τ sig (HIx 8)} {W : Waits sig (HIx 8)} {q : Fin 8} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 65536 in
/-- Call 0's row of the body table is the common body on call 0's arrays. -/
theorem defs₀_vector0 (c : Fin τ.nSC) (s : Fin τ.nSub) :
    defs₀ (F := F) (.scVector c s) 0 ()
      = SparseCore.onTile hcore0 hsub0 (fun c s => (cc0__sc_gather_body (coordsV c s) (Memref.whole main_v6_scv) (Memref.isWhole_whole _) (Memref.whole main_v8_scv) (Memref.isWhole_whole _) (Memref.whole main_arg2_scv) (Memref.isWhole_whole _) (Memref.whole main_arg3_scv) (Memref.isWhole_whole _) (Memref.whole main_v9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8)) ⟨⟩ c s := rfl

set_option maxRecDepth 16384 in
theorem tileObl0
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn0 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v6_scv) (Memref.isWhole_whole _) (Memref.whole main_v8_scv) (Memref.isWhole_whole _) (Memref.whole main_arg2_scv) (Memref.isWhole_whole _) (Memref.whole main_arg3_scv) (Memref.isWhole_whole _) (Memref.whole main_v9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8)
            fun _ => iprop(tileOut0 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 1's row of the body table is the common body on call 1's arrays. -/
theorem defs₀_vector1 (c : Fin τ.nSC) (s : Fin τ.nSub) :
    defs₀ (F := F) (.scVector c s) 1 ()
      = SparseCore.onTile hcore0 hsub0 (fun c s => (cc0__sc_gather_body (coordsV c s) (Memref.whole main_v11_scv) (Memref.isWhole_whole _) (Memref.whole main_v13_scv) (Memref.isWhole_whole _) (Memref.whole main_arg2_scv) (Memref.isWhole_whole _) (Memref.whole main_arg3_scv) (Memref.isWhole_whole _) (Memref.whole main_v14_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8)) ⟨⟩ c s := rfl

set_option maxRecDepth 16384 in
theorem tileObl1
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn1 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v11_scv) (Memref.isWhole_whole _) (Memref.whole main_v13_scv) (Memref.isWhole_whole _) (Memref.whole main_arg2_scv) (Memref.isWhole_whole _) (Memref.whole main_arg3_scv) (Memref.isWhole_whole _) (Memref.whole main_v14_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8)
            fun _ => iprop(tileOut1 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 2's row of the body table is the common body on call 2's arrays. -/
theorem defs₀_vector2 (c : Fin τ.nSC) (s : Fin τ.nSub) :
    defs₀ (F := F) (.scVector c s) 2 ()
      = SparseCore.onTile hcore0 hsub0 (fun c s => (cc0__sc_gather_body (coordsV c s) (Memref.whole main_v16_scv) (Memref.isWhole_whole _) (Memref.whole main_v18_scv) (Memref.isWhole_whole _) (Memref.whole main_arg2_scv) (Memref.isWhole_whole _) (Memref.whole main_arg3_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 cc2_scratch7 cc2_scratch8 cc2_scratch9 cc2_scoped0 cc2_scoped1 cc2_scoped2 cc2_scoped3 cc2_scoped4 cc2_scoped5 cc2_scoped6 cc2_scoped7 cc2_scoped8)) ⟨⟩ c s := rfl

set_option maxRecDepth 16384 in
theorem tileObl2
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn2 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v16_scv) (Memref.isWhole_whole _) (Memref.whole main_v18_scv) (Memref.isWhole_whole _) (Memref.whole main_arg2_scv) (Memref.isWhole_whole _) (Memref.whole main_arg3_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 cc2_scratch7 cc2_scratch8 cc2_scratch9 cc2_scoped0 cc2_scoped1 cc2_scoped2 cc2_scoped3 cc2_scoped4 cc2_scoped5 cc2_scoped6 cc2_scoped7 cc2_scoped8)
            fun _ => iprop(tileOut2 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 2 := by
  intro d c i O W hO _ _
  simp only [show (P m).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 3's row of the body table is the common body on call 3's arrays. -/
theorem defs₀_vector3 (c : Fin τ.nSC) (s : Fin τ.nSub) :
    defs₀ (F := F) (.scVector c s) 3 ()
      = SparseCore.onTile hcore0 hsub0 (fun c s => (cc0__sc_gather_body (coordsV c s) (Memref.whole main_v21_scv) (Memref.isWhole_whole _) (Memref.whole main_v23_scv) (Memref.isWhole_whole _) (Memref.whole main_arg2_scv) (Memref.isWhole_whole _) (Memref.whole main_arg3_scv) (Memref.isWhole_whole _) (Memref.whole main_v24_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) cc3_scratch6 cc3_scratch7 cc3_scratch8 cc3_scratch9 cc3_scoped0 cc3_scoped1 cc3_scoped2 cc3_scoped3 cc3_scoped4 cc3_scoped5 cc3_scoped6 cc3_scoped7 cc3_scoped8)) ⟨⟩ c s := rfl

set_option maxRecDepth 16384 in
theorem tileObl3
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn3 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v21_scv) (Memref.isWhole_whole _) (Memref.whole main_v23_scv) (Memref.isWhole_whole _) (Memref.whole main_arg2_scv) (Memref.isWhole_whole _) (Memref.whole main_arg3_scv) (Memref.isWhole_whole _) (Memref.whole main_v24_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) cc3_scratch6 cc3_scratch7 cc3_scratch8 cc3_scratch9 cc3_scoped0 cc3_scoped1 cc3_scoped2 cc3_scoped3 cc3_scoped4 cc3_scoped5 cc3_scoped6 cc3_scoped7 cc3_scoped8)
            fun _ => iprop(tileOut3 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 3 := by
  intro d c i O W hO _ _
  simp only [show (P m).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 4's row of the body table is the common body on call 4's arrays. -/
theorem defs₀_vector4 (c : Fin τ.nSC) (s : Fin τ.nSub) :
    defs₀ (F := F) (.scVector c s) 4 ()
      = SparseCore.onTile hcore0 hsub0 (fun c s => (cc0__sc_gather_body (coordsV c s) (Memref.whole main_v26_scv) (Memref.isWhole_whole _) (Memref.whole main_v28_scv) (Memref.isWhole_whole _) (Memref.whole main_arg2_scv) (Memref.isWhole_whole _) (Memref.whole main_arg3_scv) (Memref.isWhole_whole _) (Memref.whole main_v29_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) cc4_scratch6 cc4_scratch7 cc4_scratch8 cc4_scratch9 cc4_scoped0 cc4_scoped1 cc4_scoped2 cc4_scoped3 cc4_scoped4 cc4_scoped5 cc4_scoped6 cc4_scoped7 cc4_scoped8)) ⟨⟩ c s := rfl

set_option maxRecDepth 16384 in
theorem tileObl4
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn4 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v26_scv) (Memref.isWhole_whole _) (Memref.whole main_v28_scv) (Memref.isWhole_whole _) (Memref.whole main_arg2_scv) (Memref.isWhole_whole _) (Memref.whole main_arg3_scv) (Memref.isWhole_whole _) (Memref.whole main_v29_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) cc4_scratch6 cc4_scratch7 cc4_scratch8 cc4_scratch9 cc4_scoped0 cc4_scoped1 cc4_scoped2 cc4_scoped3 cc4_scoped4 cc4_scoped5 cc4_scoped6 cc4_scoped7 cc4_scoped8)
            fun _ => iprop(tileOut4 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 4 := by
  intro d c i O W hO _ _
  simp only [show (P m).ox = fun _ _ => 0 from rfl, add_zero]
  have hci : ((K (F := F)).core 4 c).val < grid0.bound 0 ∧ ((K (F := F)).sub 4 i).val < grid0.bound 1 := ⟨c.isLt, i.isLt⟩
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  rw [defs₀_vector4]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 5's row of the body table is the common body on call 5's arrays. -/
theorem defs₀_vector5 (c : Fin τ.nSC) (s : Fin τ.nSub) :
    defs₀ (F := F) (.scVector c s) 5 ()
      = SparseCore.onTile hcore0 hsub0 (fun c s => (cc0__sc_gather_body (coordsV c s) (Memref.whole main_v31_scv) (Memref.isWhole_whole _) (Memref.whole main_v33_scv) (Memref.isWhole_whole _) (Memref.whole main_arg2_scv) (Memref.isWhole_whole _) (Memref.whole main_arg3_scv) (Memref.isWhole_whole _) (Memref.whole main_v34_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scratch8 cc5_scratch9 cc5_scoped0 cc5_scoped1 cc5_scoped2 cc5_scoped3 cc5_scoped4 cc5_scoped5 cc5_scoped6 cc5_scoped7 cc5_scoped8)) ⟨⟩ c s := rfl

set_option maxRecDepth 16384 in
theorem tileObl5
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn5 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v31_scv) (Memref.isWhole_whole _) (Memref.whole main_v33_scv) (Memref.isWhole_whole _) (Memref.whole main_arg2_scv) (Memref.isWhole_whole _) (Memref.whole main_arg3_scv) (Memref.isWhole_whole _) (Memref.whole main_v34_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scratch8 cc5_scratch9 cc5_scoped0 cc5_scoped1 cc5_scoped2 cc5_scoped3 cc5_scoped4 cc5_scoped5 cc5_scoped6 cc5_scoped7 cc5_scoped8)
            fun _ => iprop(tileOut5 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 5 := by
  intro d c i O W hO _ _
  simp only [show (P m).ox = fun _ _ => 0 from rfl, add_zero]
  have hci : ((K (F := F)).core 5 c).val < grid0.bound 0 ∧ ((K (F := F)).sub 5 i).val < grid0.bound 1 := ⟨c.isLt, i.isLt⟩
  change _ ⊢ wp _ _ _ (Pipeline.liftProg (defs₀ (F := F) (.scVector ((K (F := F)).core 5 c) ((K (F := F)).sub 5 i)) 5 ())) _
  refine BI.Entails.trans ?_ (Pipeline.wp_liftProg (D (F := F)) (Pipeline.defs_kernel pcfgs defs₀) 𝒱₀ _ Set.univ none _ _)
  rw [defs₀_vector5]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 6's row of the body table is the common body on call 6's arrays. -/
theorem defs₀_vector6 (c : Fin τ.nSC) (s : Fin τ.nSub) :
    defs₀ (F := F) (.scVector c s) 6 ()
      = SparseCore.onTile hcore0 hsub0 (fun c s => (cc0__sc_gather_body (coordsV c s) (Memref.whole main_v36_scv) (Memref.isWhole_whole _) (Memref.whole main_v38_scv) (Memref.isWhole_whole _) (Memref.whole main_arg2_scv) (Memref.isWhole_whole _) (Memref.whole main_arg3_scv) (Memref.isWhole_whole _) (Memref.whole main_v39_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) (Memref.whole cc6_scratch5) (Memref.isWhole_whole _) cc6_scratch6 cc6_scratch7 cc6_scratch8 cc6_scratch9 cc6_scoped0 cc6_scoped1 cc6_scoped2 cc6_scoped3 cc6_scoped4 cc6_scoped5 cc6_scoped6 cc6_scoped7 cc6_scoped8)) ⟨⟩ c s := rfl

set_option maxRecDepth 16384 in
theorem tileObl6
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn6 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v36_scv) (Memref.isWhole_whole _) (Memref.whole main_v38_scv) (Memref.isWhole_whole _) (Memref.whole main_arg2_scv) (Memref.isWhole_whole _) (Memref.whole main_arg3_scv) (Memref.isWhole_whole _) (Memref.whole main_v39_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) (Memref.whole cc6_scratch5) (Memref.isWhole_whole _) cc6_scratch6 cc6_scratch7 cc6_scratch8 cc6_scratch9 cc6_scoped0 cc6_scoped1 cc6_scoped2 cc6_scoped3 cc6_scoped4 cc6_scoped5 cc6_scoped6 cc6_scoped7 cc6_scoped8)
            fun _ => iprop(tileOut6 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 6 := by
  intro d c i O W hO _ _
  simp only [show (P m).ox = fun _ _ => 0 from rfl, add_zero]
  have hci : ((K (F := F)).core 6 c).val < grid0.bound 0 ∧ ((K (F := F)).sub 6 i).val < grid0.bound 1 := ⟨c.isLt, i.isLt⟩
  change _ ⊢ wp _ _ _ (Pipeline.liftProg (defs₀ (F := F) (.scVector ((K (F := F)).core 6 c) ((K (F := F)).sub 6 i)) 6 ())) _
  refine BI.Entails.trans ?_ (Pipeline.wp_liftProg (D (F := F)) (Pipeline.defs_kernel pcfgs defs₀) 𝒱₀ _ Set.univ none _ _)
  rw [defs₀_vector6]; simp only [SparseCore.onTile, hci, and_self, ↓reduceDIte]
  exact (hbody d (coordsV ⟨_, hci.1⟩ ⟨_, hci.2⟩) O W hO).trans (wp_mono frame _ _ fun _ => obl_post)

set_option maxRecDepth 65536 in
/-- Call 7's row of the body table is the common body on call 7's arrays. -/
theorem defs₀_vector7 (c : Fin τ.nSC) (s : Fin τ.nSub) :
    defs₀ (F := F) (.scVector c s) 7 ()
      = SparseCore.onTile hcore0 hsub0 (fun c s => (cc0__sc_gather_body (coordsV c s) (Memref.whole main_v41_scv) (Memref.isWhole_whole _) (Memref.whole main_v43_scv) (Memref.isWhole_whole _) (Memref.whole main_arg2_scv) (Memref.isWhole_whole _) (Memref.whole main_arg3_scv) (Memref.isWhole_whole _) (Memref.whole main_v44_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) (Memref.whole cc7_scratch5) (Memref.isWhole_whole _) cc7_scratch6 cc7_scratch7 cc7_scratch8 cc7_scratch9 cc7_scoped0 cc7_scoped1 cc7_scoped2 cc7_scoped3 cc7_scoped4 cc7_scoped5 cc7_scoped6 cc7_scoped7 cc7_scoped8)) ⟨⟩ c s := rfl

set_option maxRecDepth 16384 in
theorem tileObl7
    (hbody : ∀ (d : Dev nD) (L : grid0.Coords) (O : CellTallies nD τ sig (HIx 8)) (W : Waits sig (HIx 8)), (∀ g, O g none = 0) →
      iprop(levAts (K (F := F)).L (K (F := F)).lev ∗ emp ∗ tileIn7 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v41_scv) (Memref.isWhole_whole _) (Memref.whole main_v43_scv) (Memref.isWhole_whole _) (Memref.whole main_arg2_scv) (Memref.isWhole_whole _) (Memref.whole main_arg3_scv) (Memref.isWhole_whole _) (Memref.whole main_v44_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) (Memref.whole cc7_scratch5) (Memref.isWhole_whole _) cc7_scratch6 cc7_scratch7 cc7_scratch8 cc7_scratch9 cc7_scoped0 cc7_scoped1 cc7_scoped2 cc7_scoped3 cc7_scoped4 cc7_scoped5 cc7_scoped6 cc7_scoped7 cc7_scoped8)
            fun _ => iprop(tileOut7 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    (K (F := F)).TileObl (D (F := F)) 𝒱 (P m) v₀ 7 := by
  intro d c i O W hO _ _
  simp only [show (P m).ox = fun _ _ => 0 from rfl, add_zero]
  have hci : ((K (F := F)).core 7 c).val < grid0.bound 0 ∧ ((K (F := F)).sub 7 i).val < grid0.bound 1 := ⟨c.isLt, i.isLt⟩
  change _ ⊢ wp _ _ _ (Pipeline.liftProg (defs₀ (F := F) (.scVector ((K (F := F)).core 7 c) ((K (F := F)).sub 7 i)) 7 ())) _
  refine BI.Entails.trans ?_ (Pipeline.wp_liftProg (D (F := F)) (Pipeline.defs_kernel pcfgs defs₀) 𝒱₀ _ Set.univ none _ _)
  rw [defs₀_vector7]; simp only [SparseCore.onTile, hci, and_self, ↓reduceDIte]
  exact (hbody d (coordsV ⟨_, hci.1⟩ ⟨_, hci.2⟩) O W hO).trans (wp_mono frame _ _ fun _ => obl_post)

end Cert.Kernel.Sc

end
-- ==== Proof.ScFinalB.lean ====
/-
  The run of the whole program from the pieces: the final valuation is what the TensorCore tail makes of the buffers
  the last gather call leaves; the tail's run discharges the launch's tail hypothesis (its final valuation does not
  depend on the recorded pairs it is run under), the eight task bodies its task obligations.
-/
import proofs.«204770_g8065948582451_cont_9to1c4b_476_56_alg».proof.Proof.ScLaunchB
import proofs.«204770_g8065948582451_cont_9to1c4b_476_56_alg».proof.Proof.TcTailWpB
import proofs.«204770_g8065948582451_cont_9to1c4b_476_56_alg».proof.Proof.ScOblB

noncomputable section

namespace Cert.Kernel.Sc

open Cert.Kernel Cert.Kernel.Gen

open Idealize.ShloMosaic Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (ucRefs)

variable {F : FTy → Type} [FloatOps F]

local notation "𝕄" => MT nD τ sig (HIx 8) (Elt F) ℕ UU ℕ

variable (m : (ℓ : Loc nD τ sig) → Buf (Elt F) ℓ)

/-- The buffers as the last gather call leaves them, per device. -/
abbrev Vin7 : Dev nD → Valuation τ sig (Elt F) := fun d => Vpost7 m d
/-- The final valuation: what the tail makes of them. -/
def Vfin (d : Dev nD) : Valuation τ sig (Elt F) := TcTail.Vout (Vin7 m) none ∅ d

set_option maxHeartbeats 4000000 in
theorem htail_real
    (hindep : ∀ (W : Finset (SemLoc sig × HIx 8)) (d : Dev nD), TcTail.Vout (Vin7 m) none W d = TcTail.Vout (Vin7 m) none ∅ d)
    (hprog : ∀ W : Finset (SemLoc sig × HIx 8), tailP (F := F) = Pipeline.Seg.run (TcTail.tailSegs (Vin7 m) none (K (F := F)).L (K (F := F)).lev W))
    (d : Dev nD) (W : Waits sig (HIx 8)) (Q : PUnit → sProp 𝕄) :
      iprop((iprop(boundary (T d : Thread nD τ) ∗ (held (T d) (ucRefs τ sig) (Vfin m d) : sProp 𝕄)
              ∗ ∃ W', ⌜∀ p ∈ W', p ∈ W ∨ p.2 = (none : HIx 8)⌝ ∗ owes (T d : Thread nD τ) (0 : CellTallies nD τ sig (HIx 8)) W') -∗ Q ⟨⟩)
          ∗ boundary (T d : Thread nD τ) ∗ ((held (T d) (ucRefs τ sig) (Vpost7 m d) : sProp 𝕄) ∗ owes (T d : Thread nD τ) (0 : CellTallies nD τ sig (HIx 8)) W)
          ∗ levAts (K (F := F)).L (K (F := F)).lev ∗ G (F := F) d)
        ⊢ wp frame (wpE (D (F := F)) 𝒱 (T d) none) Set.univ (tailP (F := F)) Q := by
  rw [hprog W]
  iintro ⟨Hk, Hb, ⟨Hheld, HO⟩, Hlv, HG⟩
  iapply (TcTail.tail_wp (Vin7 m) none (K (F := F)).L (K (F := F)).lev d W)
  isplitl [Hk]
  · iintro ⟨Hb, Hheld, HW⟩
    iapply Hk
    isplitl [Hb]; · iexact Hb
    isplitl [Hheld]
    · unfold Vfin; rw [← hindep W d]; iexact Hheld
    iexact HW
  isplitl [Hb]; · iexact Hb
  isplitl [Hheld HO]; · isplitl [Hheld] <;> iassumption
  isplitl [Hlv]; · iexact Hlv
  unfold G; iexact HG

set_option maxHeartbeats 40000000 in
set_option maxRecDepth 65536 in
/-- The tail as printed is the run of the tail's segments. -/
theorem tailP_eq (Vin : Dev nD → Valuation τ sig (Elt F)) (ι : HIx 8) (L : GSem nD τ sig → Finset (HIx 8)) (lv : GSem nD τ sig → HIx 8 → ℕ)
    (W : Finset (SemLoc sig × HIx 8)) :
    tailP (F := F) = Pipeline.Seg.run (TcTail.tailSegs Vin ι L lv W) := by chain_rfl

variable (ρ : Dev nD → PrngReg)

/-- The run, from the eight task bodies and the independence of the tail's values from the recorded pairs. -/
theorem run_of_bodies [∀ e, Nonempty (Elt F e)]
    (hindep : ∀ (W : Finset (SemLoc sig × HIx 8)) (d : Dev nD), TcTail.Vout (Vin7 m) none W d = TcTail.Vout (Vin7 m) none ∅ d)
    (hb0 : ∀ (d : Dev nD) (L : grid0.Coords) (O : CellTallies nD τ sig (HIx 8)) (W : Waits sig (HIx 8)), (∀ g, O g none = 0) →
      iprop(levAts (K (F := F)).L (K (F := F)).lev ∗ emp ∗ tileIn0 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v6_scv) (Memref.isWhole_whole _) (Memref.whole main_v8_scv) (Memref.isWhole_whole _) (Memref.whole main_arg2_scv) (Memref.isWhole_whole _) (Memref.whole main_arg3_scv) (Memref.isWhole_whole _) (Memref.whole main_v9_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8)
            fun _ => iprop(tileOut0 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb1 : ∀ (d : Dev nD) (L : grid0.Coords) (O : CellTallies nD τ sig (HIx 8)) (W : Waits sig (HIx 8)), (∀ g, O g none = 0) →
      iprop(levAts (K (F := F)).L (K (F := F)).lev ∗ emp ∗ tileIn1 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v11_scv) (Memref.isWhole_whole _) (Memref.whole main_v13_scv) (Memref.isWhole_whole _) (Memref.whole main_arg2_scv) (Memref.isWhole_whole _) (Memref.whole main_arg3_scv) (Memref.isWhole_whole _) (Memref.whole main_v14_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8)
            fun _ => iprop(tileOut1 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb2 : ∀ (d : Dev nD) (L : grid0.Coords) (O : CellTallies nD τ sig (HIx 8)) (W : Waits sig (HIx 8)), (∀ g, O g none = 0) →
      iprop(levAts (K (F := F)).L (K (F := F)).lev ∗ emp ∗ tileIn2 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v16_scv) (Memref.isWhole_whole _) (Memref.whole main_v18_scv) (Memref.isWhole_whole _) (Memref.whole main_arg2_scv) (Memref.isWhole_whole _) (Memref.whole main_arg3_scv) (Memref.isWhole_whole _) (Memref.whole main_v19_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 cc2_scratch7 cc2_scratch8 cc2_scratch9 cc2_scoped0 cc2_scoped1 cc2_scoped2 cc2_scoped3 cc2_scoped4 cc2_scoped5 cc2_scoped6 cc2_scoped7 cc2_scoped8)
            fun _ => iprop(tileOut2 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb3 : ∀ (d : Dev nD) (L : grid0.Coords) (O : CellTallies nD τ sig (HIx 8)) (W : Waits sig (HIx 8)), (∀ g, O g none = 0) →
      iprop(levAts (K (F := F)).L (K (F := F)).lev ∗ emp ∗ tileIn3 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v21_scv) (Memref.isWhole_whole _) (Memref.whole main_v23_scv) (Memref.isWhole_whole _) (Memref.whole main_arg2_scv) (Memref.isWhole_whole _) (Memref.whole main_arg3_scv) (Memref.isWhole_whole _) (Memref.whole main_v24_scv) (Memref.isWhole_whole _) (Memref.whole cc3_scratch0) (Memref.isWhole_whole _) (Memref.whole cc3_scratch1) (Memref.isWhole_whole _) (Memref.whole cc3_scratch2) (Memref.isWhole_whole _) (Memref.whole cc3_scratch3) (Memref.isWhole_whole _) (Memref.whole cc3_scratch4) (Memref.isWhole_whole _) (Memref.whole cc3_scratch5) (Memref.isWhole_whole _) cc3_scratch6 cc3_scratch7 cc3_scratch8 cc3_scratch9 cc3_scoped0 cc3_scoped1 cc3_scoped2 cc3_scoped3 cc3_scoped4 cc3_scoped5 cc3_scoped6 cc3_scoped7 cc3_scoped8)
            fun _ => iprop(tileOut3 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb4 : ∀ (d : Dev nD) (L : grid0.Coords) (O : CellTallies nD τ sig (HIx 8)) (W : Waits sig (HIx 8)), (∀ g, O g none = 0) →
      iprop(levAts (K (F := F)).L (K (F := F)).lev ∗ emp ∗ tileIn4 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v26_scv) (Memref.isWhole_whole _) (Memref.whole main_v28_scv) (Memref.isWhole_whole _) (Memref.whole main_arg2_scv) (Memref.isWhole_whole _) (Memref.whole main_arg3_scv) (Memref.isWhole_whole _) (Memref.whole main_v29_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) cc4_scratch6 cc4_scratch7 cc4_scratch8 cc4_scratch9 cc4_scoped0 cc4_scoped1 cc4_scoped2 cc4_scoped3 cc4_scoped4 cc4_scoped5 cc4_scoped6 cc4_scoped7 cc4_scoped8)
            fun _ => iprop(tileOut4 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb5 : ∀ (d : Dev nD) (L : grid0.Coords) (O : CellTallies nD τ sig (HIx 8)) (W : Waits sig (HIx 8)), (∀ g, O g none = 0) →
      iprop(levAts (K (F := F)).L (K (F := F)).lev ∗ emp ∗ tileIn5 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v31_scv) (Memref.isWhole_whole _) (Memref.whole main_v33_scv) (Memref.isWhole_whole _) (Memref.whole main_arg2_scv) (Memref.isWhole_whole _) (Memref.whole main_arg3_scv) (Memref.isWhole_whole _) (Memref.whole main_v34_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) (Memref.whole cc5_scratch4) (Memref.isWhole_whole _) (Memref.whole cc5_scratch5) (Memref.isWhole_whole _) cc5_scratch6 cc5_scratch7 cc5_scratch8 cc5_scratch9 cc5_scoped0 cc5_scoped1 cc5_scoped2 cc5_scoped3 cc5_scoped4 cc5_scoped5 cc5_scoped6 cc5_scoped7 cc5_scoped8)
            fun _ => iprop(tileOut5 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb6 : ∀ (d : Dev nD) (L : grid0.Coords) (O : CellTallies nD τ sig (HIx 8)) (W : Waits sig (HIx 8)), (∀ g, O g none = 0) →
      iprop(levAts (K (F := F)).L (K (F := F)).lev ∗ emp ∗ tileIn6 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v36_scv) (Memref.isWhole_whole _) (Memref.whole main_v38_scv) (Memref.isWhole_whole _) (Memref.whole main_arg2_scv) (Memref.isWhole_whole _) (Memref.whole main_arg3_scv) (Memref.isWhole_whole _) (Memref.whole main_v39_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) (Memref.whole cc6_scratch4) (Memref.isWhole_whole _) (Memref.whole cc6_scratch5) (Memref.isWhole_whole _) cc6_scratch6 cc6_scratch7 cc6_scratch8 cc6_scratch9 cc6_scoped0 cc6_scoped1 cc6_scoped2 cc6_scoped3 cc6_scoped4 cc6_scoped5 cc6_scoped6 cc6_scoped7 cc6_scoped8)
            fun _ => iprop(tileOut6 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W'))
    (hb7 : ∀ (d : Dev nD) (L : grid0.Coords) (O : CellTallies nD τ sig (HIx 8)) (W : Waits sig (HIx 8)), (∀ g, O g none = 0) →
      iprop(levAts (K (F := F)).L (K (F := F)).lev ∗ emp ∗ tileIn7 m d (widN (L 0).val (L 1).val)
          ∗ scopedBufs (V d ((L 0).castLE hcore0) ((L 1).castLE hsub0)) ∗ scopedSems0 (V d ((L 0).castLE hcore0) ((L 1).castLE hsub0))
          ∗ owes (V d ((L 0).castLE hcore0) ((L 1).castLE hsub0)) O W)
        ⊢ wp frame (wpE (defs₀ (F := F)) 𝒱₀ (V d ((L 0).castLE hcore0) ((L 1).castLE hsub0)) none) Set.univ
            (cc0__sc_gather_body L (Memref.whole main_v41_scv) (Memref.isWhole_whole _) (Memref.whole main_v43_scv) (Memref.isWhole_whole _) (Memref.whole main_arg2_scv) (Memref.isWhole_whole _) (Memref.whole main_arg3_scv) (Memref.isWhole_whole _) (Memref.whole main_v44_scv) (Memref.isWhole_whole _) (Memref.whole cc7_scratch0) (Memref.isWhole_whole _) (Memref.whole cc7_scratch1) (Memref.isWhole_whole _) (Memref.whole cc7_scratch2) (Memref.isWhole_whole _) (Memref.whole cc7_scratch3) (Memref.isWhole_whole _) (Memref.whole cc7_scratch4) (Memref.isWhole_whole _) (Memref.whole cc7_scratch5) (Memref.isWhole_whole _) cc7_scratch6 cc7_scratch7 cc7_scratch8 cc7_scratch9 cc7_scoped0 cc7_scoped1 cc7_scoped2 cc7_scoped3 cc7_scoped4 cc7_scoped5 cc7_scoped6 cc7_scoped7 cc7_scoped8)
            fun _ => iprop(tileOut7 m d (widN (L 0).val (L 1).val)
              ∗ scopedBufs (V d ((L 0).castLE hcore0) ((L 1).castLE hsub0)) ∗ scopedSems0 (V d ((L 0).castLE hcore0) ((L 1).castLE hsub0))
              ∗ ∃ W', ⌜∀ p ∈ W', p ∈ W ∨ p.2 = none⌝ ∗ owes (V d ((L 0).castLE hcore0) ((L 1).castLE hsub0)) O W')) :
    θ_run (Cert.Kernel.defs (F := F)) (Cert.Kernel.threads (F := F)) ⟨m, fun _ => 0, ρ⟩
      (fun r => ∀ d : Dev nD, ∀ b ∈ ucRefs τ sig, r.2.mem (d, b) = Vfin m d b) :=
  run_of m ρ (Vfin m)
    (fun q => match q with
      | 0 => tileObl0 m hb0 | 1 => tileObl1 m hb1 | 2 => tileObl2 m hb2 | 3 => tileObl3 m hb3
      | 4 => tileObl4 m hb4 | 5 => tileObl5 m hb5 | 6 => tileObl6 m hb6 | 7 => tileObl7 m hb7)
    (htail_real m hindep (fun W => tailP_eq (Vin7 m) none _ _ W))

end Cert.Kernel.Sc

end
-- ==== Proof.TcTailValB.lean ====
/-
  What the result array holds after each dense region, in closed form. One function of a valuation of the arrays names
  every row of the [819200, 512] result: row ρ is the payload of the block of 4096 gathered feature rows that holds
  row ρ mod 102400 of the (ρ / 102400)-th gathered array, with the weights and the three rows, read at row ρ mod 4096.
  Region p's points write back exactly the blocks of rows 102400 p up to 102400 (p + 1), each as its block of that
  function; the other rows keep what the region found.
-/
import proofs.«204770_g8065948582451_cont_9to1c4b_476_56_alg».proof.Proof.ScPayB
import proofs.«204770_g8065948582451_cont_9to1c4b_476_56_alg».proof.Proof.Gen.Kernel.Points
import proofs.«204770_g8065948582451_cont_9to1c4b_476_56_alg».proof.Proof.TcTailWpB
import Idealize.ShloMosaic.Lib.Pipeline.Value
import Idealize.ShloMosaic.Lib.Pipeline.FrameBody
import Idealize.ShloMosaic.Lib.Pipeline.RegionsLoop
import Idealize.ShloMosaic.Lib.Tactic

set_option maxRecDepth 16384

noncomputable section

namespace Cert.Kernel.TcTail

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

open Idealize.ShloMosaic.ValueIdx

/-! ## The whole result array as one function of the arrays the regions read -/

theorem hz : (![0, 0] : Fin 2 → Nat) = fun _ => 0 := funext fun a => by fin_cases a <;> rfl

/-- The q-th gathered array of a valuation. -/
def gathOf (V : Valuation τ sig (Elt F)) : Nat → Vec F S102400x256 .f32
  | 0 => V (Proc.devRef .tc main_v9)
  | 1 => V (Proc.devRef .tc main_v14)
  | 2 => V (Proc.devRef .tc main_v19)
  | 3 => V (Proc.devRef .tc main_v24)
  | 4 => V (Proc.devRef .tc main_v29)
  | 5 => V (Proc.devRef .tc main_v34)
  | 6 => V (Proc.devRef .tc main_v39)
  | _ => V (Proc.devRef .tc main_v44)

/-- Row ρ of the [819200, 512] result: the payload of the block of 4096 rows of gathered features that holds row
    ρ mod 102400 of the (ρ / 102400)-th gathered array, the weights and the three rows, read at row ρ mod 4096. -/
def GV (V : Valuation τ sig (Elt F)) : Vec F S819200x512 .f32 := fun y =>
  k8_pay1 (F := F)
    (fun x : S4096x256.Idx => gathOf V ((y 0).val / 102400)
      (ix2 (⟨(y 0).val % 102400 / 4096 * 4096 + (x 0).val, by have := idx2_lt0 x; omega⟩ : Fin 102400) (x 1)))
    (V (Proc.devRef .tc main_arg4)) (V (Proc.devRef .tc main_v2)) (V (Proc.devRef .tc main_v3)) (V (Proc.devRef .tc main_v4))
    (ix2 (⟨(y 0).val % 4096, Nat.mod_lt _ (by norm_num)⟩ : Fin 4096) (y 1))

/-! ## Region 0 -/

/-- The printed index maps of region 0, decided over its grid. -/
theorem idx_facts8 : ∀ t : Fin cfg8.N, win8_5.index t (0 : Fin 2) = 0 + t.val ∧ win8_5.index t (1 : Fin 2) = 0
    ∧ win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Equal blocks and equal indices give equal payloads. -/
theorem pay_congr8 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 0 WRITES BACK is block `t` of its window of the whole-array function of the arrays as the
    region finds them. -/
theorem flushed8_eq (V : Valuation τ sig (Elt F)) (B : Set (SemLoc sig × HIx 8)) (c : Dev nD) (t : Fin cfg8.N) :
    (dat8 V B c).flushed 5 t = ((cfg8.win 5).blk t).view.read (Elt F) (GV V) := by
  show (cfg8.win 5).cut (grid8.coords t) ((dat8 V B c).after 5 t) = _
  rw [after8_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts8 t
  have ht : t.val < 25 := lt_of_lt_of_eq t.isLt N_8
  funext j
  have hj0 : (j 0).val < 4096 := (j 0).isLt
  have hj1 : (j 1).val < 512 := (j 1).isLt
  have hrow : ((((cfg8.win 5).blk t).view.emb j) 0).val = (0 + t.val) * 4096 + (j 0).val := by
    show win8_5.index t (0 : Fin 2) * 4096 + 1 * (j 0).val = _
    rw [e50]; omega
  have hcol : ((((cfg8.win 5).blk t).view.emb j) 1).val = (j 1).val := by
    show win8_5.index t (1 : Fin 2) * 512 + 1 * (j 1).val = _
    rw [e51]; omega
  have hq : ((((cfg8.win 5).blk t).view.emb j) 0).val / 102400 = 0 := by rw [hrow]; omega
  refine pay_congr8 ?_ ?_ ?_ ?_ ?_ ?_
  · funext x
    have hx0 : (x 0).val < 4096 := (x 0).isLt
    have hx1 : (x 1).val < 256 := (x 1).isLt
    show vb V c main_v9 (((cfg8.win 0).blk t).view.emb x) = gathOf V (((((cfg8.win 5).blk t).view.emb j) 0).val / 102400) _
    rw [hq]
    show vb V c main_v9 (((cfg8.win 0).blk t).view.emb x) = vb V c main_v9 _
    refine congrArg _ (funext fun a => Fin.ext ?_)
    match a with
    | ⟨0, _⟩ =>
      show win8_0.index t (0 : Fin 2) * 4096 + 1 * (x 0).val = ((((cfg8.win 5).blk t).view.emb j) 0).val % 102400 / 4096 * 4096 + (x 0).val
      rw [e00, hrow]; omega
    | ⟨1, _⟩ =>
      show win8_0.index t (1 : Fin 2) * 256 + 1 * (x 1).val = (x 1).val
      rw [e01]; omega
  · funext x
    show vb V c main_arg4 (((cfg8.win 1).blk t).view.emb x) = vb V c main_arg4 x
    refine congrArg _ (funext fun a => Fin.ext ?_)
    match a with
    | ⟨0, _⟩ => show win8_1.index t (0 : Fin 2) * 256 + 1 * (x 0).val = (x 0).val; rw [e10]; omega
    | ⟨1, _⟩ => show win8_1.index t (1 : Fin 2) * 512 + 1 * (x 1).val = (x 1).val; rw [e11]; omega
  · funext x
    show vb V c main_v2 (((cfg8.win 2).blk t).view.emb x) = vb V c main_v2 x
    refine congrArg _ (funext fun a => Fin.ext ?_)
    match a with
    | ⟨0, _⟩ => show win8_2.index t (0 : Fin 2) * 1 + 1 * (x 0).val = (x 0).val; rw [e20]; omega
    | ⟨1, _⟩ => show win8_2.index t (1 : Fin 2) * 512 + 1 * (x 1).val = (x 1).val; rw [e21]; omega
  · funext x
    show vb V c main_v3 (((cfg8.win 3).blk t).view.emb x) = vb V c main_v3 x
    refine congrArg _ (funext fun a => Fin.ext ?_)
    match a with
    | ⟨0, _⟩ => show win8_3.index t (0 : Fin 2) * 1 + 1 * (x 0).val = (x 0).val; rw [e30]; omega
    | ⟨1, _⟩ => show win8_3.index t (1 : Fin 2) * 512 + 1 * (x 1).val = (x 1).val; rw [e31]; omega
  · funext x
    show vb V c main_v4 (((cfg8.win 4).blk t).view.emb x) = vb V c main_v4 x
    refine congrArg _ (funext fun a => Fin.ext ?_)
    match a with
    | ⟨0, _⟩ => show win8_4.index t (0 : Fin 2) * 1 + 1 * (x 0).val = (x 0).val; rw [e40]; omega
    | ⟨1, _⟩ => show win8_4.index t (1 : Fin 2) * 512 + 1 * (x 1).val = (x 1).val; rw [e41]; omega
  · funext a
    apply Fin.ext
    match a with
    | ⟨0, _⟩ => show (j 0).val = ((((cfg8.win 5).blk t).view.emb j) 0).val % 4096; rw [hrow]; omega
    | ⟨1, _⟩ => show (j 1).val = ((((cfg8.win 5).blk t).view.emb j) 1).val; rw [hcol]

/-- An index of the result array is in point `t`'s block iff each coordinate is in the block's range on its axis. -/
theorem mem_blk8 (t : Fin cfg8.N) (i : S819200x512.Idx) :
    i ∈ ((cfg8.win 5).blk t).view.set ↔ ∀ a : Fin 2, win8_5.index t a * S4096x512.size a ≤ (i a).val ∧ (i a).val < win8_5.index t a * S4096x512.size a + S4096x512.size a := by
  show i ∈ ((View.whole main_v45).slice (win8_5.rect t)).set ↔ _
  rw [View.set_slice_whole, Rect.mem_set_unit]
  exact Iff.rfl

/-- THE COVERED INDICES of region 0: rows 0 up to 102400. -/
theorem covered_iff8 (i : S819200x512.Idx) :
    (∃ t : Fin cfg8.N, (cfg8.win 5).flush t = true ∧ i ∈ ((cfg8.win 5).blk t).view.set) ↔ 0 ≤ (i 0).val ∧ (i 0).val < 102400 := by
  constructor
  · rintro ⟨t, -, hi⟩
    rw [mem_blk8] at hi
    have b0 : win8_5.index t (0 : Fin 2) * 4096 ≤ (i 0).val ∧ (i 0).val < win8_5.index t (0 : Fin 2) * 4096 + 4096 := hi 0
    obtain ⟨e50, -⟩ := idx_facts8 t
    have ht : t.val < 25 := lt_of_lt_of_eq t.isLt N_8
    rw [e50] at b0
    omega
  · intro h
    have hi1 : (i 1).val < 512 := (i 1).isLt
    have hk : ((i 0).val - 0) / 4096 < cfg8.N := by
      show _ < grid8.N
      rw [N_8]; omega
    obtain ⟨e50, e51, -⟩ := idx_facts8 ⟨((i 0).val - 0) / 4096, hk⟩
    refine ⟨⟨((i 0).val - 0) / 4096, hk⟩, flush8_5 _, ?_⟩
    rw [mem_blk8]
    intro a
    match a with
    | ⟨0, _⟩ =>
      show win8_5.index ⟨((i 0).val - 0) / 4096, hk⟩ (0 : Fin 2) * 4096 ≤ (i 0).val
        ∧ (i 0).val < win8_5.index ⟨((i 0).val - 0) / 4096, hk⟩ (0 : Fin 2) * 4096 + 4096
      rw [e50]
      show (0 + ((i 0).val - 0) / 4096) * 4096 ≤ (i 0).val ∧ (i 0).val < (0 + ((i 0).val - 0) / 4096) * 4096 + 4096
      omega
    | ⟨1, _⟩ =>
      show win8_5.index ⟨((i 0).val - 0) / 4096, hk⟩ (1 : Fin 2) * 512 ≤ (i 1).val
        ∧ (i 1).val < win8_5.index ⟨((i 0).val - 0) / 4096, hk⟩ (1 : Fin 2) * 512 + 512
      rw [e51]; omega

/-- THE RESULT ARRAY after region 0: the whole-array function on rows 0 up to 102400, its entry contents elsewhere. -/
theorem final8 (V : Valuation τ sig (Elt F)) (B : Set (SemLoc sig × HIx 8)) (c : Dev nD) :
    (dat8 V B c).arrAt 5 cfg8.N
      = fun i => if 0 ≤ (i 0).val ∧ (i 0).val < 102400 then GV V i else vb V c main_v45 i := by
  funext i
  rw [(dat8 V B c).arrAt_eq_piecewise 5 (GV V) (fun t _ => flushed8_eq V B c t) i, A8_eq]
  exact if_congr (covered_iff8 i) rfl rfl

/-! ## Region 1 -/

/-- The printed index maps of region 1, decided over its grid. -/
theorem idx_facts9 : ∀ t : Fin cfg9.N, win9_5.index t (0 : Fin 2) = 25 + t.val ∧ win9_5.index t (1 : Fin 2) = 0
    ∧ win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- Equal blocks and equal indices give equal payloads. -/
theorem pay_congr9 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 1 WRITES BACK is block `t` of its window of the whole-array function of the arrays as the
    region finds them. -/
theorem flushed9_eq (V : Valuation τ sig (Elt F)) (B : Set (SemLoc sig × HIx 8)) (c : Dev nD) (t : Fin cfg9.N) :
    (dat9 V B c).flushed 5 t = ((cfg9.win 5).blk t).view.read (Elt F) (GV V) := by
  show (cfg9.win 5).cut (grid9.coords t) ((dat9 V B c).after 5 t) = _
  rw [after9_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts9 t
  have ht : t.val < 25 := lt_of_lt_of_eq t.isLt N_9
  funext j
  have hj0 : (j 0).val < 4096 := (j 0).isLt
  have hj1 : (j 1).val < 512 := (j 1).isLt
  have hrow : ((((cfg9.win 5).blk t).view.emb j) 0).val = (25 + t.val) * 4096 + (j 0).val := by
    show win9_5.index t (0 : Fin 2) * 4096 + 1 * (j 0).val = _
    rw [e50]; omega
  have hcol : ((((cfg9.win 5).blk t).view.emb j) 1).val = (j 1).val := by
    show win9_5.index t (1 : Fin 2) * 512 + 1 * (j 1).val = _
    rw [e51]; omega
  have hq : ((((cfg9.win 5).blk t).view.emb j) 0).val / 102400 = 1 := by rw [hrow]; omega
  refine pay_congr9 ?_ ?_ ?_ ?_ ?_ ?_
  · funext x
    have hx0 : (x 0).val < 4096 := (x 0).isLt
    have hx1 : (x 1).val < 256 := (x 1).isLt
    show vb V c main_v14 (((cfg9.win 0).blk t).view.emb x) = gathOf V (((((cfg9.win 5).blk t).view.emb j) 0).val / 102400) _
    rw [hq]
    show vb V c main_v14 (((cfg9.win 0).blk t).view.emb x) = vb V c main_v14 _
    refine congrArg _ (funext fun a => Fin.ext ?_)
    match a with
    | ⟨0, _⟩ =>
      show win9_0.index t (0 : Fin 2) * 4096 + 1 * (x 0).val = ((((cfg9.win 5).blk t).view.emb j) 0).val % 102400 / 4096 * 4096 + (x 0).val
      rw [e00, hrow]; omega
    | ⟨1, _⟩ =>
      show win9_0.index t (1 : Fin 2) * 256 + 1 * (x 1).val = (x 1).val
      rw [e01]; omega
  · funext x
    show vb V c main_arg4 (((cfg9.win 1).blk t).view.emb x) = vb V c main_arg4 x
    refine congrArg _ (funext fun a => Fin.ext ?_)
    match a with
    | ⟨0, _⟩ => show win9_1.index t (0 : Fin 2) * 256 + 1 * (x 0).val = (x 0).val; rw [e10]; omega
    | ⟨1, _⟩ => show win9_1.index t (1 : Fin 2) * 512 + 1 * (x 1).val = (x 1).val; rw [e11]; omega
  · funext x
    show vb V c main_v2 (((cfg9.win 2).blk t).view.emb x) = vb V c main_v2 x
    refine congrArg _ (funext fun a => Fin.ext ?_)
    match a with
    | ⟨0, _⟩ => show win9_2.index t (0 : Fin 2) * 1 + 1 * (x 0).val = (x 0).val; rw [e20]; omega
    | ⟨1, _⟩ => show win9_2.index t (1 : Fin 2) * 512 + 1 * (x 1).val = (x 1).val; rw [e21]; omega
  · funext x
    show vb V c main_v3 (((cfg9.win 3).blk t).view.emb x) = vb V c main_v3 x
    refine congrArg _ (funext fun a => Fin.ext ?_)
    match a with
    | ⟨0, _⟩ => show win9_3.index t (0 : Fin 2) * 1 + 1 * (x 0).val = (x 0).val; rw [e30]; omega
    | ⟨1, _⟩ => show win9_3.index t (1 : Fin 2) * 512 + 1 * (x 1).val = (x 1).val; rw [e31]; omega
  · funext x
    show vb V c main_v4 (((cfg9.win 4).blk t).view.emb x) = vb V c main_v4 x
    refine congrArg _ (funext fun a => Fin.ext ?_)
    match a with
    | ⟨0, _⟩ => show win9_4.index t (0 : Fin 2) * 1 + 1 * (x 0).val = (x 0).val; rw [e40]; omega
    | ⟨1, _⟩ => show win9_4.index t (1 : Fin 2) * 512 + 1 * (x 1).val = (x 1).val; rw [e41]; omega
  · funext a
    apply Fin.ext
    match a with
    | ⟨0, _⟩ => show (j 0).val = ((((cfg9.win 5).blk t).view.emb j) 0).val % 4096; rw [hrow]; omega
    | ⟨1, _⟩ => show (j 1).val = ((((cfg9.win 5).blk t).view.emb j) 1).val; rw [hcol]

/-- An index of the result array is in point `t`'s block iff each coordinate is in the block's range on its axis. -/
theorem mem_blk9 (t : Fin cfg9.N) (i : S819200x512.Idx) :
    i ∈ ((cfg9.win 5).blk t).view.set ↔ ∀ a : Fin 2, win9_5.index t a * S4096x512.size a ≤ (i a).val ∧ (i a).val < win9_5.index t a * S4096x512.size a + S4096x512.size a := by
  show i ∈ ((View.whole main_v46).slice (win9_5.rect t)).set ↔ _
  rw [View.set_slice_whole, Rect.mem_set_unit]
  exact Iff.rfl

/-- THE COVERED INDICES of region 1: rows 102400 up to 204800. -/
theorem covered_iff9 (i : S819200x512.Idx) :
    (∃ t : Fin cfg9.N, (cfg9.win 5).flush t = true ∧ i ∈ ((cfg9.win 5).blk t).view.set) ↔ 102400 ≤ (i 0).val ∧ (i 0).val < 204800 := by
  constructor
  · rintro ⟨t, -, hi⟩
    rw [mem_blk9] at hi
    have b0 : win9_5.index t (0 : Fin 2) * 4096 ≤ (i 0).val ∧ (i 0).val < win9_5.index t (0 : Fin 2) * 4096 + 4096 := hi 0
    obtain ⟨e50, -⟩ := idx_facts9 t
    have ht : t.val < 25 := lt_of_lt_of_eq t.isLt N_9
    rw [e50] at b0
    omega
  · intro h
    have hi1 : (i 1).val < 512 := (i 1).isLt
    have hk : ((i 0).val - 102400) / 4096 < cfg9.N := by
      show _ < grid9.N
      rw [N_9]; omega
    obtain ⟨e50, e51, -⟩ := idx_facts9 ⟨((i 0).val - 102400) / 4096, hk⟩
    refine ⟨⟨((i 0).val - 102400) / 4096, hk⟩, flush9_5 _, ?_⟩
    rw [mem_blk9]
    intro a
    match a with
    | ⟨0, _⟩ =>
      show win9_5.index ⟨((i 0).val - 102400) / 4096, hk⟩ (0 : Fin 2) * 4096 ≤ (i 0).val
        ∧ (i 0).val < win9_5.index ⟨((i 0).val - 102400) / 4096, hk⟩ (0 : Fin 2) * 4096 + 4096
      rw [e50]
      show (25 + ((i 0).val - 102400) / 4096) * 4096 ≤ (i 0).val ∧ (i 0).val < (25 + ((i 0).val - 102400) / 4096) * 4096 + 4096
      omega
    | ⟨1, _⟩ =>
      show win9_5.index ⟨((i 0).val - 102400) / 4096, hk⟩ (1 : Fin 2) * 512 ≤ (i 1).val
        ∧ (i 1).val < win9_5.index ⟨((i 0).val - 102400) / 4096, hk⟩ (1 : Fin 2) * 512 + 512
      rw [e51]; omega

/-- THE RESULT ARRAY after region 1: the whole-array function on rows 102400 up to 204800, its entry contents elsewhere. -/
theorem final9 (V : Valuation τ sig (Elt F)) (B : Set (SemLoc sig × HIx 8)) (c : Dev nD) :
    (dat9 V B c).arrAt 5 cfg9.N
      = fun i => if 102400 ≤ (i 0).val ∧ (i 0).val < 204800 then GV V i else vb V c main_v46 i := by
  funext i
  rw [(dat9 V B c).arrAt_eq_piecewise 5 (GV V) (fun t _ => flushed9_eq V B c t) i, A9_eq]
  exact if_congr (covered_iff9 i) rfl rfl

/-! ## Region 2 -/

/-- The printed index maps of region 2, decided over its grid. -/
theorem idx_facts10 : ∀ t : Fin cfg10.N, win10_5.index t (0 : Fin 2) = 50 + t.val ∧ win10_5.index t (1 : Fin 2) = 0
    ∧ win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

/-- Equal blocks and equal indices give equal payloads. -/
theorem pay_congr10 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 2 WRITES BACK is block `t` of its window of the whole-array function of the arrays as the
    region finds them. -/
theorem flushed10_eq (V : Valuation τ sig (Elt F)) (B : Set (SemLoc sig × HIx 8)) (c : Dev nD) (t : Fin cfg10.N) :
    (dat10 V B c).flushed 5 t = ((cfg10.win 5).blk t).view.read (Elt F) (GV V) := by
  show (cfg10.win 5).cut (grid10.coords t) ((dat10 V B c).after 5 t) = _
  rw [after10_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts10 t
  have ht : t.val < 25 := lt_of_lt_of_eq t.isLt N_10
  funext j
  have hj0 : (j 0).val < 4096 := (j 0).isLt
  have hj1 : (j 1).val < 512 := (j 1).isLt
  have hrow : ((((cfg10.win 5).blk t).view.emb j) 0).val = (50 + t.val) * 4096 + (j 0).val := by
    show win10_5.index t (0 : Fin 2) * 4096 + 1 * (j 0).val = _
    rw [e50]; omega
  have hcol : ((((cfg10.win 5).blk t).view.emb j) 1).val = (j 1).val := by
    show win10_5.index t (1 : Fin 2) * 512 + 1 * (j 1).val = _
    rw [e51]; omega
  have hq : ((((cfg10.win 5).blk t).view.emb j) 0).val / 102400 = 2 := by rw [hrow]; omega
  refine pay_congr10 ?_ ?_ ?_ ?_ ?_ ?_
  · funext x
    have hx0 : (x 0).val < 4096 := (x 0).isLt
    have hx1 : (x 1).val < 256 := (x 1).isLt
    show vb V c main_v19 (((cfg10.win 0).blk t).view.emb x) = gathOf V (((((cfg10.win 5).blk t).view.emb j) 0).val / 102400) _
    rw [hq]
    show vb V c main_v19 (((cfg10.win 0).blk t).view.emb x) = vb V c main_v19 _
    refine congrArg _ (funext fun a => Fin.ext ?_)
    match a with
    | ⟨0, _⟩ =>
      show win10_0.index t (0 : Fin 2) * 4096 + 1 * (x 0).val = ((((cfg10.win 5).blk t).view.emb j) 0).val % 102400 / 4096 * 4096 + (x 0).val
      rw [e00, hrow]; omega
    | ⟨1, _⟩ =>
      show win10_0.index t (1 : Fin 2) * 256 + 1 * (x 1).val = (x 1).val
      rw [e01]; omega
  · funext x
    show vb V c main_arg4 (((cfg10.win 1).blk t).view.emb x) = vb V c main_arg4 x
    refine congrArg _ (funext fun a => Fin.ext ?_)
    match a with
    | ⟨0, _⟩ => show win10_1.index t (0 : Fin 2) * 256 + 1 * (x 0).val = (x 0).val; rw [e10]; omega
    | ⟨1, _⟩ => show win10_1.index t (1 : Fin 2) * 512 + 1 * (x 1).val = (x 1).val; rw [e11]; omega
  · funext x
    show vb V c main_v2 (((cfg10.win 2).blk t).view.emb x) = vb V c main_v2 x
    refine congrArg _ (funext fun a => Fin.ext ?_)
    match a with
    | ⟨0, _⟩ => show win10_2.index t (0 : Fin 2) * 1 + 1 * (x 0).val = (x 0).val; rw [e20]; omega
    | ⟨1, _⟩ => show win10_2.index t (1 : Fin 2) * 512 + 1 * (x 1).val = (x 1).val; rw [e21]; omega
  · funext x
    show vb V c main_v3 (((cfg10.win 3).blk t).view.emb x) = vb V c main_v3 x
    refine congrArg _ (funext fun a => Fin.ext ?_)
    match a with
    | ⟨0, _⟩ => show win10_3.index t (0 : Fin 2) * 1 + 1 * (x 0).val = (x 0).val; rw [e30]; omega
    | ⟨1, _⟩ => show win10_3.index t (1 : Fin 2) * 512 + 1 * (x 1).val = (x 1).val; rw [e31]; omega
  · funext x
    show vb V c main_v4 (((cfg10.win 4).blk t).view.emb x) = vb V c main_v4 x
    refine congrArg _ (funext fun a => Fin.ext ?_)
    match a with
    | ⟨0, _⟩ => show win10_4.index t (0 : Fin 2) * 1 + 1 * (x 0).val = (x 0).val; rw [e40]; omega
    | ⟨1, _⟩ => show win10_4.index t (1 : Fin 2) * 512 + 1 * (x 1).val = (x 1).val; rw [e41]; omega
  · funext a
    apply Fin.ext
    match a with
    | ⟨0, _⟩ => show (j 0).val = ((((cfg10.win 5).blk t).view.emb j) 0).val % 4096; rw [hrow]; omega
    | ⟨1, _⟩ => show (j 1).val = ((((cfg10.win 5).blk t).view.emb j) 1).val; rw [hcol]

/-- An index of the result array is in point `t`'s block iff each coordinate is in the block's range on its axis. -/
theorem mem_blk10 (t : Fin cfg10.N) (i : S819200x512.Idx) :
    i ∈ ((cfg10.win 5).blk t).view.set ↔ ∀ a : Fin 2, win10_5.index t a * S4096x512.size a ≤ (i a).val ∧ (i a).val < win10_5.index t a * S4096x512.size a + S4096x512.size a := by
  show i ∈ ((View.whole main_v47).slice (win10_5.rect t)).set ↔ _
  rw [View.set_slice_whole, Rect.mem_set_unit]
  exact Iff.rfl

/-- THE COVERED INDICES of region 2: rows 204800 up to 307200. -/
theorem covered_iff10 (i : S819200x512.Idx) :
    (∃ t : Fin cfg10.N, (cfg10.win 5).flush t = true ∧ i ∈ ((cfg10.win 5).blk t).view.set) ↔ 204800 ≤ (i 0).val ∧ (i 0).val < 307200 := by
  constructor
  · rintro ⟨t, -, hi⟩
    rw [mem_blk10] at hi
    have b0 : win10_5.index t (0 : Fin 2) * 4096 ≤ (i 0).val ∧ (i 0).val < win10_5.index t (0 : Fin 2) * 4096 + 4096 := hi 0
    obtain ⟨e50, -⟩ := idx_facts10 t
    have ht : t.val < 25 := lt_of_lt_of_eq t.isLt N_10
    rw [e50] at b0
    omega
  · intro h
    have hi1 : (i 1).val < 512 := (i 1).isLt
    have hk : ((i 0).val - 204800) / 4096 < cfg10.N := by
      show _ < grid10.N
      rw [N_10]; omega
    obtain ⟨e50, e51, -⟩ := idx_facts10 ⟨((i 0).val - 204800) / 4096, hk⟩
    refine ⟨⟨((i 0).val - 204800) / 4096, hk⟩, flush10_5 _, ?_⟩
    rw [mem_blk10]
    intro a
    match a with
    | ⟨0, _⟩ =>
      show win10_5.index ⟨((i 0).val - 204800) / 4096, hk⟩ (0 : Fin 2) * 4096 ≤ (i 0).val
        ∧ (i 0).val < win10_5.index ⟨((i 0).val - 204800) / 4096, hk⟩ (0 : Fin 2) * 4096 + 4096
      rw [e50]
      show (50 + ((i 0).val - 204800) / 4096) * 4096 ≤ (i 0).val ∧ (i 0).val < (50 + ((i 0).val - 204800) / 4096) * 4096 + 4096
      omega
    | ⟨1, _⟩ =>
      show win10_5.index ⟨((i 0).val - 204800) / 4096, hk⟩ (1 : Fin 2) * 512 ≤ (i 1).val
        ∧ (i 1).val < win10_5.index ⟨((i 0).val - 204800) / 4096, hk⟩ (1 : Fin 2) * 512 + 512
      rw [e51]; omega

/-- THE RESULT ARRAY after region 2: the whole-array function on rows 204800 up to 307200, its entry contents elsewhere. -/
theorem final10 (V : Valuation τ sig (Elt F)) (B : Set (SemLoc sig × HIx 8)) (c : Dev nD) :
    (dat10 V B c).arrAt 5 cfg10.N
      = fun i => if 204800 ≤ (i 0).val ∧ (i 0).val < 307200 then GV V i else vb V c main_v47 i := by
  funext i
  rw [(dat10 V B c).arrAt_eq_piecewise 5 (GV V) (fun t _ => flushed10_eq V B c t) i, A10_eq]
  exact if_congr (covered_iff10 i) rfl rfl

/-! ## Region 3 -/

/-- The printed index maps of region 3, decided over its grid. -/
theorem idx_facts11 : ∀ t : Fin cfg11.N, win11_5.index t (0 : Fin 2) = 75 + t.val ∧ win11_5.index t (1 : Fin 2) = 0
    ∧ win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- Equal blocks and equal indices give equal payloads. -/
theorem pay_congr11 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 3 WRITES BACK is block `t` of its window of the whole-array function of the arrays as the
    region finds them. -/
theorem flushed11_eq (V : Valuation τ sig (Elt F)) (B : Set (SemLoc sig × HIx 8)) (c : Dev nD) (t : Fin cfg11.N) :
    (dat11 V B c).flushed 5 t = ((cfg11.win 5).blk t).view.read (Elt F) (GV V) := by
  show (cfg11.win 5).cut (grid11.coords t) ((dat11 V B c).after 5 t) = _
  rw [after11_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts11 t
  have ht : t.val < 25 := lt_of_lt_of_eq t.isLt N_11
  funext j
  have hj0 : (j 0).val < 4096 := (j 0).isLt
  have hj1 : (j 1).val < 512 := (j 1).isLt
  have hrow : ((((cfg11.win 5).blk t).view.emb j) 0).val = (75 + t.val) * 4096 + (j 0).val := by
    show win11_5.index t (0 : Fin 2) * 4096 + 1 * (j 0).val = _
    rw [e50]; omega
  have hcol : ((((cfg11.win 5).blk t).view.emb j) 1).val = (j 1).val := by
    show win11_5.index t (1 : Fin 2) * 512 + 1 * (j 1).val = _
    rw [e51]; omega
  have hq : ((((cfg11.win 5).blk t).view.emb j) 0).val / 102400 = 3 := by rw [hrow]; omega
  refine pay_congr11 ?_ ?_ ?_ ?_ ?_ ?_
  · funext x
    have hx0 : (x 0).val < 4096 := (x 0).isLt
    have hx1 : (x 1).val < 256 := (x 1).isLt
    show vb V c main_v24 (((cfg11.win 0).blk t).view.emb x) = gathOf V (((((cfg11.win 5).blk t).view.emb j) 0).val / 102400) _
    rw [hq]
    show vb V c main_v24 (((cfg11.win 0).blk t).view.emb x) = vb V c main_v24 _
    refine congrArg _ (funext fun a => Fin.ext ?_)
    match a with
    | ⟨0, _⟩ =>
      show win11_0.index t (0 : Fin 2) * 4096 + 1 * (x 0).val = ((((cfg11.win 5).blk t).view.emb j) 0).val % 102400 / 4096 * 4096 + (x 0).val
      rw [e00, hrow]; omega
    | ⟨1, _⟩ =>
      show win11_0.index t (1 : Fin 2) * 256 + 1 * (x 1).val = (x 1).val
      rw [e01]; omega
  · funext x
    show vb V c main_arg4 (((cfg11.win 1).blk t).view.emb x) = vb V c main_arg4 x
    refine congrArg _ (funext fun a => Fin.ext ?_)
    match a with
    | ⟨0, _⟩ => show win11_1.index t (0 : Fin 2) * 256 + 1 * (x 0).val = (x 0).val; rw [e10]; omega
    | ⟨1, _⟩ => show win11_1.index t (1 : Fin 2) * 512 + 1 * (x 1).val = (x 1).val; rw [e11]; omega
  · funext x
    show vb V c main_v2 (((cfg11.win 2).blk t).view.emb x) = vb V c main_v2 x
    refine congrArg _ (funext fun a => Fin.ext ?_)
    match a with
    | ⟨0, _⟩ => show win11_2.index t (0 : Fin 2) * 1 + 1 * (x 0).val = (x 0).val; rw [e20]; omega
    | ⟨1, _⟩ => show win11_2.index t (1 : Fin 2) * 512 + 1 * (x 1).val = (x 1).val; rw [e21]; omega
  · funext x
    show vb V c main_v3 (((cfg11.win 3).blk t).view.emb x) = vb V c main_v3 x
    refine congrArg _ (funext fun a => Fin.ext ?_)
    match a with
    | ⟨0, _⟩ => show win11_3.index t (0 : Fin 2) * 1 + 1 * (x 0).val = (x 0).val; rw [e30]; omega
    | ⟨1, _⟩ => show win11_3.index t (1 : Fin 2) * 512 + 1 * (x 1).val = (x 1).val; rw [e31]; omega
  · funext x
    show vb V c main_v4 (((cfg11.win 4).blk t).view.emb x) = vb V c main_v4 x
    refine congrArg _ (funext fun a => Fin.ext ?_)
    match a with
    | ⟨0, _⟩ => show win11_4.index t (0 : Fin 2) * 1 + 1 * (x 0).val = (x 0).val; rw [e40]; omega
    | ⟨1, _⟩ => show win11_4.index t (1 : Fin 2) * 512 + 1 * (x 1).val = (x 1).val; rw [e41]; omega
  · funext a
    apply Fin.ext
    match a with
    | ⟨0, _⟩ => show (j 0).val = ((((cfg11.win 5).blk t).view.emb j) 0).val % 4096; rw [hrow]; omega
    | ⟨1, _⟩ => show (j 1).val = ((((cfg11.win 5).blk t).view.emb j) 1).val; rw [hcol]

/-- An index of the result array is in point `t`'s block iff each coordinate is in the block's range on its axis. -/
theorem mem_blk11 (t : Fin cfg11.N) (i : S819200x512.Idx) :
    i ∈ ((cfg11.win 5).blk t).view.set ↔ ∀ a : Fin 2, win11_5.index t a * S4096x512.size a ≤ (i a).val ∧ (i a).val < win11_5.index t a * S4096x512.size a + S4096x512.size a := by
  show i ∈ ((View.whole main_v48).slice (win11_5.rect t)).set ↔ _
  rw [View.set_slice_whole, Rect.mem_set_unit]
  exact Iff.rfl

/-- THE COVERED INDICES of region 3: rows 307200 up to 409600. -/
theorem covered_iff11 (i : S819200x512.Idx) :
    (∃ t : Fin cfg11.N, (cfg11.win 5).flush t = true ∧ i ∈ ((cfg11.win 5).blk t).view.set) ↔ 307200 ≤ (i 0).val ∧ (i 0).val < 409600 := by
  constructor
  · rintro ⟨t, -, hi⟩
    rw [mem_blk11] at hi
    have b0 : win11_5.index t (0 : Fin 2) * 4096 ≤ (i 0).val ∧ (i 0).val < win11_5.index t (0 : Fin 2) * 4096 + 4096 := hi 0
    obtain ⟨e50, -⟩ := idx_facts11 t
    have ht : t.val < 25 := lt_of_lt_of_eq t.isLt N_11
    rw [e50] at b0
    omega
  · intro h
    have hi1 : (i 1).val < 512 := (i 1).isLt
    have hk : ((i 0).val - 307200) / 4096 < cfg11.N := by
      show _ < grid11.N
      rw [N_11]; omega
    obtain ⟨e50, e51, -⟩ := idx_facts11 ⟨((i 0).val - 307200) / 4096, hk⟩
    refine ⟨⟨((i 0).val - 307200) / 4096, hk⟩, flush11_5 _, ?_⟩
    rw [mem_blk11]
    intro a
    match a with
    | ⟨0, _⟩ =>
      show win11_5.index ⟨((i 0).val - 307200) / 4096, hk⟩ (0 : Fin 2) * 4096 ≤ (i 0).val
        ∧ (i 0).val < win11_5.index ⟨((i 0).val - 307200) / 4096, hk⟩ (0 : Fin 2) * 4096 + 4096
      rw [e50]
      show (75 + ((i 0).val - 307200) / 4096) * 4096 ≤ (i 0).val ∧ (i 0).val < (75 + ((i 0).val - 307200) / 4096) * 4096 + 4096
      omega
    | ⟨1, _⟩ =>
      show win11_5.index ⟨((i 0).val - 307200) / 4096, hk⟩ (1 : Fin 2) * 512 ≤ (i 1).val
        ∧ (i 1).val < win11_5.index ⟨((i 0).val - 307200) / 4096, hk⟩ (1 : Fin 2) * 512 + 512
      rw [e51]; omega

/-- THE RESULT ARRAY after region 3: the whole-array function on rows 307200 up to 409600, its entry contents elsewhere. -/
theorem final11 (V : Valuation τ sig (Elt F)) (B : Set (SemLoc sig × HIx 8)) (c : Dev nD) :
    (dat11 V B c).arrAt 5 cfg11.N
      = fun i => if 307200 ≤ (i 0).val ∧ (i 0).val < 409600 then GV V i else vb V c main_v48 i := by
  funext i
  rw [(dat11 V B c).arrAt_eq_piecewise 5 (GV V) (fun t _ => flushed11_eq V B c t) i, A11_eq]
  exact if_congr (covered_iff11 i) rfl rfl

/-! ## Region 4 -/

/-- The printed index maps of region 4, decided over its grid. -/
theorem idx_facts12 : ∀ t : Fin cfg12.N, win12_5.index t (0 : Fin 2) = 100 + t.val ∧ win12_5.index t (1 : Fin 2) = 0
    ∧ win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0 :=
  (by decide +kernel : ∀ t : Fin grid12.N, _)

/-- Equal blocks and equal indices give equal payloads. -/
theorem pay_congr12 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 4 WRITES BACK is block `t` of its window of the whole-array function of the arrays as the
    region finds them. -/
theorem flushed12_eq (V : Valuation τ sig (Elt F)) (B : Set (SemLoc sig × HIx 8)) (c : Dev nD) (t : Fin cfg12.N) :
    (dat12 V B c).flushed 5 t = ((cfg12.win 5).blk t).view.read (Elt F) (GV V) := by
  show (cfg12.win 5).cut (grid12.coords t) ((dat12 V B c).after 5 t) = _
  rw [after12_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts12 t
  have ht : t.val < 25 := lt_of_lt_of_eq t.isLt N_12
  funext j
  have hj0 : (j 0).val < 4096 := (j 0).isLt
  have hj1 : (j 1).val < 512 := (j 1).isLt
  have hrow : ((((cfg12.win 5).blk t).view.emb j) 0).val = (100 + t.val) * 4096 + (j 0).val := by
    show win12_5.index t (0 : Fin 2) * 4096 + 1 * (j 0).val = _
    rw [e50]; omega
  have hcol : ((((cfg12.win 5).blk t).view.emb j) 1).val = (j 1).val := by
    show win12_5.index t (1 : Fin 2) * 512 + 1 * (j 1).val = _
    rw [e51]; omega
  have hq : ((((cfg12.win 5).blk t).view.emb j) 0).val / 102400 = 4 := by rw [hrow]; omega
  refine pay_congr12 ?_ ?_ ?_ ?_ ?_ ?_
  · funext x
    have hx0 : (x 0).val < 4096 := (x 0).isLt
    have hx1 : (x 1).val < 256 := (x 1).isLt
    show vb V c main_v29 (((cfg12.win 0).blk t).view.emb x) = gathOf V (((((cfg12.win 5).blk t).view.emb j) 0).val / 102400) _
    rw [hq]
    show vb V c main_v29 (((cfg12.win 0).blk t).view.emb x) = vb V c main_v29 _
    refine congrArg _ (funext fun a => Fin.ext ?_)
    match a with
    | ⟨0, _⟩ =>
      show win12_0.index t (0 : Fin 2) * 4096 + 1 * (x 0).val = ((((cfg12.win 5).blk t).view.emb j) 0).val % 102400 / 4096 * 4096 + (x 0).val
      rw [e00, hrow]; omega
    | ⟨1, _⟩ =>
      show win12_0.index t (1 : Fin 2) * 256 + 1 * (x 1).val = (x 1).val
      rw [e01]; omega
  · funext x
    show vb V c main_arg4 (((cfg12.win 1).blk t).view.emb x) = vb V c main_arg4 x
    refine congrArg _ (funext fun a => Fin.ext ?_)
    match a with
    | ⟨0, _⟩ => show win12_1.index t (0 : Fin 2) * 256 + 1 * (x 0).val = (x 0).val; rw [e10]; omega
    | ⟨1, _⟩ => show win12_1.index t (1 : Fin 2) * 512 + 1 * (x 1).val = (x 1).val; rw [e11]; omega
  · funext x
    show vb V c main_v2 (((cfg12.win 2).blk t).view.emb x) = vb V c main_v2 x
    refine congrArg _ (funext fun a => Fin.ext ?_)
    match a with
    | ⟨0, _⟩ => show win12_2.index t (0 : Fin 2) * 1 + 1 * (x 0).val = (x 0).val; rw [e20]; omega
    | ⟨1, _⟩ => show win12_2.index t (1 : Fin 2) * 512 + 1 * (x 1).val = (x 1).val; rw [e21]; omega
  · funext x
    show vb V c main_v3 (((cfg12.win 3).blk t).view.emb x) = vb V c main_v3 x
    refine congrArg _ (funext fun a => Fin.ext ?_)
    match a with
    | ⟨0, _⟩ => show win12_3.index t (0 : Fin 2) * 1 + 1 * (x 0).val = (x 0).val; rw [e30]; omega
    | ⟨1, _⟩ => show win12_3.index t (1 : Fin 2) * 512 + 1 * (x 1).val = (x 1).val; rw [e31]; omega
  · funext x
    show vb V c main_v4 (((cfg12.win 4).blk t).view.emb x) = vb V c main_v4 x
    refine congrArg _ (funext fun a => Fin.ext ?_)
    match a with
    | ⟨0, _⟩ => show win12_4.index t (0 : Fin 2) * 1 + 1 * (x 0).val = (x 0).val; rw [e40]; omega
    | ⟨1, _⟩ => show win12_4.index t (1 : Fin 2) * 512 + 1 * (x 1).val = (x 1).val; rw [e41]; omega
  · funext a
    apply Fin.ext
    match a with
    | ⟨0, _⟩ => show (j 0).val = ((((cfg12.win 5).blk t).view.emb j) 0).val % 4096; rw [hrow]; omega
    | ⟨1, _⟩ => show (j 1).val = ((((cfg12.win 5).blk t).view.emb j) 1).val; rw [hcol]

/-- An index of the result array is in point `t`'s block iff each coordinate is in the block's range on its axis. -/
theorem mem_blk12 (t : Fin cfg12.N) (i : S819200x512.Idx) :
    i ∈ ((cfg12.win 5).blk t).view.set ↔ ∀ a : Fin 2, win12_5.index t a * S4096x512.size a ≤ (i a).val ∧ (i a).val < win12_5.index t a * S4096x512.size a + S4096x512.size a := by
  show i ∈ ((View.whole main_v49).slice (win12_5.rect t)).set ↔ _
  rw [View.set_slice_whole, Rect.mem_set_unit]
  exact Iff.rfl

/-- THE COVERED INDICES of region 4: rows 409600 up to 512000. -/
theorem covered_iff12 (i : S819200x512.Idx) :
    (∃ t : Fin cfg12.N, (cfg12.win 5).flush t = true ∧ i ∈ ((cfg12.win 5).blk t).view.set) ↔ 409600 ≤ (i 0).val ∧ (i 0).val < 512000 := by
  constructor
  · rintro ⟨t, -, hi⟩
    rw [mem_blk12] at hi
    have b0 : win12_5.index t (0 : Fin 2) * 4096 ≤ (i 0).val ∧ (i 0).val < win12_5.index t (0 : Fin 2) * 4096 + 4096 := hi 0
    obtain ⟨e50, -⟩ := idx_facts12 t
    have ht : t.val < 25 := lt_of_lt_of_eq t.isLt N_12
    rw [e50] at b0
    omega
  · intro h
    have hi1 : (i 1).val < 512 := (i 1).isLt
    have hk : ((i 0).val - 409600) / 4096 < cfg12.N := by
      show _ < grid12.N
      rw [N_12]; omega
    obtain ⟨e50, e51, -⟩ := idx_facts12 ⟨((i 0).val - 409600) / 4096, hk⟩
    refine ⟨⟨((i 0).val - 409600) / 4096, hk⟩, flush12_5 _, ?_⟩
    rw [mem_blk12]
    intro a
    match a with
    | ⟨0, _⟩ =>
      show win12_5.index ⟨((i 0).val - 409600) / 4096, hk⟩ (0 : Fin 2) * 4096 ≤ (i 0).val
        ∧ (i 0).val < win12_5.index ⟨((i 0).val - 409600) / 4096, hk⟩ (0 : Fin 2) * 4096 + 4096
      rw [e50]
      show (100 + ((i 0).val - 409600) / 4096) * 4096 ≤ (i 0).val ∧ (i 0).val < (100 + ((i 0).val - 409600) / 4096) * 4096 + 4096
      omega
    | ⟨1, _⟩ =>
      show win12_5.index ⟨((i 0).val - 409600) / 4096, hk⟩ (1 : Fin 2) * 512 ≤ (i 1).val
        ∧ (i 1).val < win12_5.index ⟨((i 0).val - 409600) / 4096, hk⟩ (1 : Fin 2) * 512 + 512
      rw [e51]; omega

/-- THE RESULT ARRAY after region 4: the whole-array function on rows 409600 up to 512000, its entry contents elsewhere. -/
theorem final12 (V : Valuation τ sig (Elt F)) (B : Set (SemLoc sig × HIx 8)) (c : Dev nD) :
    (dat12 V B c).arrAt 5 cfg12.N
      = fun i => if 409600 ≤ (i 0).val ∧ (i 0).val < 512000 then GV V i else vb V c main_v49 i := by
  funext i
  rw [(dat12 V B c).arrAt_eq_piecewise 5 (GV V) (fun t _ => flushed12_eq V B c t) i, A12_eq]
  exact if_congr (covered_iff12 i) rfl rfl

/-! ## Region 5 -/

/-- The printed index maps of region 5, decided over its grid. -/
theorem idx_facts13 : ∀ t : Fin cfg13.N, win13_5.index t (0 : Fin 2) = 125 + t.val ∧ win13_5.index t (1 : Fin 2) = 0
    ∧ win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

/-- Equal blocks and equal indices give equal payloads. -/
theorem pay_congr13 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 5 WRITES BACK is block `t` of its window of the whole-array function of the arrays as the
    region finds them. -/
theorem flushed13_eq (V : Valuation τ sig (Elt F)) (B : Set (SemLoc sig × HIx 8)) (c : Dev nD) (t : Fin cfg13.N) :
    (dat13 V B c).flushed 5 t = ((cfg13.win 5).blk t).view.read (Elt F) (GV V) := by
  show (cfg13.win 5).cut (grid13.coords t) ((dat13 V B c).after 5 t) = _
  rw [after13_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts13 t
  have ht : t.val < 25 := lt_of_lt_of_eq t.isLt N_13
  funext j
  have hj0 : (j 0).val < 4096 := (j 0).isLt
  have hj1 : (j 1).val < 512 := (j 1).isLt
  have hrow : ((((cfg13.win 5).blk t).view.emb j) 0).val = (125 + t.val) * 4096 + (j 0).val := by
    show win13_5.index t (0 : Fin 2) * 4096 + 1 * (j 0).val = _
    rw [e50]; omega
  have hcol : ((((cfg13.win 5).blk t).view.emb j) 1).val = (j 1).val := by
    show win13_5.index t (1 : Fin 2) * 512 + 1 * (j 1).val = _
    rw [e51]; omega
  have hq : ((((cfg13.win 5).blk t).view.emb j) 0).val / 102400 = 5 := by rw [hrow]; omega
  refine pay_congr13 ?_ ?_ ?_ ?_ ?_ ?_
  · funext x
    have hx0 : (x 0).val < 4096 := (x 0).isLt
    have hx1 : (x 1).val < 256 := (x 1).isLt
    show vb V c main_v34 (((cfg13.win 0).blk t).view.emb x) = gathOf V (((((cfg13.win 5).blk t).view.emb j) 0).val / 102400) _
    rw [hq]
    show vb V c main_v34 (((cfg13.win 0).blk t).view.emb x) = vb V c main_v34 _
    refine congrArg _ (funext fun a => Fin.ext ?_)
    match a with
    | ⟨0, _⟩ =>
      show win13_0.index t (0 : Fin 2) * 4096 + 1 * (x 0).val = ((((cfg13.win 5).blk t).view.emb j) 0).val % 102400 / 4096 * 4096 + (x 0).val
      rw [e00, hrow]; omega
    | ⟨1, _⟩ =>
      show win13_0.index t (1 : Fin 2) * 256 + 1 * (x 1).val = (x 1).val
      rw [e01]; omega
  · funext x
    show vb V c main_arg4 (((cfg13.win 1).blk t).view.emb x) = vb V c main_arg4 x
    refine congrArg _ (funext fun a => Fin.ext ?_)
    match a with
    | ⟨0, _⟩ => show win13_1.index t (0 : Fin 2) * 256 + 1 * (x 0).val = (x 0).val; rw [e10]; omega
    | ⟨1, _⟩ => show win13_1.index t (1 : Fin 2) * 512 + 1 * (x 1).val = (x 1).val; rw [e11]; omega
  · funext x
    show vb V c main_v2 (((cfg13.win 2).blk t).view.emb x) = vb V c main_v2 x
    refine congrArg _ (funext fun a => Fin.ext ?_)
    match a with
    | ⟨0, _⟩ => show win13_2.index t (0 : Fin 2) * 1 + 1 * (x 0).val = (x 0).val; rw [e20]; omega
    | ⟨1, _⟩ => show win13_2.index t (1 : Fin 2) * 512 + 1 * (x 1).val = (x 1).val; rw [e21]; omega
  · funext x
    show vb V c main_v3 (((cfg13.win 3).blk t).view.emb x) = vb V c main_v3 x
    refine congrArg _ (funext fun a => Fin.ext ?_)
    match a with
    | ⟨0, _⟩ => show win13_3.index t (0 : Fin 2) * 1 + 1 * (x 0).val = (x 0).val; rw [e30]; omega
    | ⟨1, _⟩ => show win13_3.index t (1 : Fin 2) * 512 + 1 * (x 1).val = (x 1).val; rw [e31]; omega
  · funext x
    show vb V c main_v4 (((cfg13.win 4).blk t).view.emb x) = vb V c main_v4 x
    refine congrArg _ (funext fun a => Fin.ext ?_)
    match a with
    | ⟨0, _⟩ => show win13_4.index t (0 : Fin 2) * 1 + 1 * (x 0).val = (x 0).val; rw [e40]; omega
    | ⟨1, _⟩ => show win13_4.index t (1 : Fin 2) * 512 + 1 * (x 1).val = (x 1).val; rw [e41]; omega
  · funext a
    apply Fin.ext
    match a with
    | ⟨0, _⟩ => show (j 0).val = ((((cfg13.win 5).blk t).view.emb j) 0).val % 4096; rw [hrow]; omega
    | ⟨1, _⟩ => show (j 1).val = ((((cfg13.win 5).blk t).view.emb j) 1).val; rw [hcol]

/-- An index of the result array is in point `t`'s block iff each coordinate is in the block's range on its axis. -/
theorem mem_blk13 (t : Fin cfg13.N) (i : S819200x512.Idx) :
    i ∈ ((cfg13.win 5).blk t).view.set ↔ ∀ a : Fin 2, win13_5.index t a * S4096x512.size a ≤ (i a).val ∧ (i a).val < win13_5.index t a * S4096x512.size a + S4096x512.size a := by
  show i ∈ ((View.whole main_v50).slice (win13_5.rect t)).set ↔ _
  rw [View.set_slice_whole, Rect.mem_set_unit]
  exact Iff.rfl

/-- THE COVERED INDICES of region 5: rows 512000 up to 614400. -/
theorem covered_iff13 (i : S819200x512.Idx) :
    (∃ t : Fin cfg13.N, (cfg13.win 5).flush t = true ∧ i ∈ ((cfg13.win 5).blk t).view.set) ↔ 512000 ≤ (i 0).val ∧ (i 0).val < 614400 := by
  constructor
  · rintro ⟨t, -, hi⟩
    rw [mem_blk13] at hi
    have b0 : win13_5.index t (0 : Fin 2) * 4096 ≤ (i 0).val ∧ (i 0).val < win13_5.index t (0 : Fin 2) * 4096 + 4096 := hi 0
    obtain ⟨e50, -⟩ := idx_facts13 t
    have ht : t.val < 25 := lt_of_lt_of_eq t.isLt N_13
    rw [e50] at b0
    omega
  · intro h
    have hi1 : (i 1).val < 512 := (i 1).isLt
    have hk : ((i 0).val - 512000) / 4096 < cfg13.N := by
      show _ < grid13.N
      rw [N_13]; omega
    obtain ⟨e50, e51, -⟩ := idx_facts13 ⟨((i 0).val - 512000) / 4096, hk⟩
    refine ⟨⟨((i 0).val - 512000) / 4096, hk⟩, flush13_5 _, ?_⟩
    rw [mem_blk13]
    intro a
    match a with
    | ⟨0, _⟩ =>
      show win13_5.index ⟨((i 0).val - 512000) / 4096, hk⟩ (0 : Fin 2) * 4096 ≤ (i 0).val
        ∧ (i 0).val < win13_5.index ⟨((i 0).val - 512000) / 4096, hk⟩ (0 : Fin 2) * 4096 + 4096
      rw [e50]
      show (125 + ((i 0).val - 512000) / 4096) * 4096 ≤ (i 0).val ∧ (i 0).val < (125 + ((i 0).val - 512000) / 4096) * 4096 + 4096
      omega
    | ⟨1, _⟩ =>
      show win13_5.index ⟨((i 0).val - 512000) / 4096, hk⟩ (1 : Fin 2) * 512 ≤ (i 1).val
        ∧ (i 1).val < win13_5.index ⟨((i 0).val - 512000) / 4096, hk⟩ (1 : Fin 2) * 512 + 512
      rw [e51]; omega

/-- THE RESULT ARRAY after region 5: the whole-array function on rows 512000 up to 614400, its entry contents elsewhere. -/
theorem final13 (V : Valuation τ sig (Elt F)) (B : Set (SemLoc sig × HIx 8)) (c : Dev nD) :
    (dat13 V B c).arrAt 5 cfg13.N
      = fun i => if 512000 ≤ (i 0).val ∧ (i 0).val < 614400 then GV V i else vb V c main_v50 i := by
  funext i
  rw [(dat13 V B c).arrAt_eq_piecewise 5 (GV V) (fun t _ => flushed13_eq V B c t) i, A13_eq]
  exact if_congr (covered_iff13 i) rfl rfl

/-! ## Region 6 -/

/-- The printed index maps of region 6, decided over its grid. -/
theorem idx_facts14 : ∀ t : Fin cfg14.N, win14_5.index t (0 : Fin 2) = 150 + t.val ∧ win14_5.index t (1 : Fin 2) = 0
    ∧ win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0 :=
  (by decide +kernel : ∀ t : Fin grid14.N, _)

/-- Equal blocks and equal indices give equal payloads. -/
theorem pay_congr14 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 6 WRITES BACK is block `t` of its window of the whole-array function of the arrays as the
    region finds them. -/
theorem flushed14_eq (V : Valuation τ sig (Elt F)) (B : Set (SemLoc sig × HIx 8)) (c : Dev nD) (t : Fin cfg14.N) :
    (dat14 V B c).flushed 5 t = ((cfg14.win 5).blk t).view.read (Elt F) (GV V) := by
  show (cfg14.win 5).cut (grid14.coords t) ((dat14 V B c).after 5 t) = _
  rw [after14_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts14 t
  have ht : t.val < 25 := lt_of_lt_of_eq t.isLt N_14
  funext j
  have hj0 : (j 0).val < 4096 := (j 0).isLt
  have hj1 : (j 1).val < 512 := (j 1).isLt
  have hrow : ((((cfg14.win 5).blk t).view.emb j) 0).val = (150 + t.val) * 4096 + (j 0).val := by
    show win14_5.index t (0 : Fin 2) * 4096 + 1 * (j 0).val = _
    rw [e50]; omega
  have hcol : ((((cfg14.win 5).blk t).view.emb j) 1).val = (j 1).val := by
    show win14_5.index t (1 : Fin 2) * 512 + 1 * (j 1).val = _
    rw [e51]; omega
  have hq : ((((cfg14.win 5).blk t).view.emb j) 0).val / 102400 = 6 := by rw [hrow]; omega
  refine pay_congr14 ?_ ?_ ?_ ?_ ?_ ?_
  · funext x
    have hx0 : (x 0).val < 4096 := (x 0).isLt
    have hx1 : (x 1).val < 256 := (x 1).isLt
    show vb V c main_v39 (((cfg14.win 0).blk t).view.emb x) = gathOf V (((((cfg14.win 5).blk t).view.emb j) 0).val / 102400) _
    rw [hq]
    show vb V c main_v39 (((cfg14.win 0).blk t).view.emb x) = vb V c main_v39 _
    refine congrArg _ (funext fun a => Fin.ext ?_)
    match a with
    | ⟨0, _⟩ =>
      show win14_0.index t (0 : Fin 2) * 4096 + 1 * (x 0).val = ((((cfg14.win 5).blk t).view.emb j) 0).val % 102400 / 4096 * 4096 + (x 0).val
      rw [e00, hrow]; omega
    | ⟨1, _⟩ =>
      show win14_0.index t (1 : Fin 2) * 256 + 1 * (x 1).val = (x 1).val
      rw [e01]; omega
  · funext x
    show vb V c main_arg4 (((cfg14.win 1).blk t).view.emb x) = vb V c main_arg4 x
    refine congrArg _ (funext fun a => Fin.ext ?_)
    match a with
    | ⟨0, _⟩ => show win14_1.index t (0 : Fin 2) * 256 + 1 * (x 0).val = (x 0).val; rw [e10]; omega
    | ⟨1, _⟩ => show win14_1.index t (1 : Fin 2) * 512 + 1 * (x 1).val = (x 1).val; rw [e11]; omega
  · funext x
    show vb V c main_v2 (((cfg14.win 2).blk t).view.emb x) = vb V c main_v2 x
    refine congrArg _ (funext fun a => Fin.ext ?_)
    match a with
    | ⟨0, _⟩ => show win14_2.index t (0 : Fin 2) * 1 + 1 * (x 0).val = (x 0).val; rw [e20]; omega
    | ⟨1, _⟩ => show win14_2.index t (1 : Fin 2) * 512 + 1 * (x 1).val = (x 1).val; rw [e21]; omega
  · funext x
    show vb V c main_v3 (((cfg14.win 3).blk t).view.emb x) = vb V c main_v3 x
    refine congrArg _ (funext fun a => Fin.ext ?_)
    match a with
    | ⟨0, _⟩ => show win14_3.index t (0 : Fin 2) * 1 + 1 * (x 0).val = (x 0).val; rw [e30]; omega
    | ⟨1, _⟩ => show win14_3.index t (1 : Fin 2) * 512 + 1 * (x 1).val = (x 1).val; rw [e31]; omega
  · funext x
    show vb V c main_v4 (((cfg14.win 4).blk t).view.emb x) = vb V c main_v4 x
    refine congrArg _ (funext fun a => Fin.ext ?_)
    match a with
    | ⟨0, _⟩ => show win14_4.index t (0 : Fin 2) * 1 + 1 * (x 0).val = (x 0).val; rw [e40]; omega
    | ⟨1, _⟩ => show win14_4.index t (1 : Fin 2) * 512 + 1 * (x 1).val = (x 1).val; rw [e41]; omega
  · funext a
    apply Fin.ext
    match a with
    | ⟨0, _⟩ => show (j 0).val = ((((cfg14.win 5).blk t).view.emb j) 0).val % 4096; rw [hrow]; omega
    | ⟨1, _⟩ => show (j 1).val = ((((cfg14.win 5).blk t).view.emb j) 1).val; rw [hcol]

/-- An index of the result array is in point `t`'s block iff each coordinate is in the block's range on its axis. -/
theorem mem_blk14 (t : Fin cfg14.N) (i : S819200x512.Idx) :
    i ∈ ((cfg14.win 5).blk t).view.set ↔ ∀ a : Fin 2, win14_5.index t a * S4096x512.size a ≤ (i a).val ∧ (i a).val < win14_5.index t a * S4096x512.size a + S4096x512.size a := by
  show i ∈ ((View.whole main_v51).slice (win14_5.rect t)).set ↔ _
  rw [View.set_slice_whole, Rect.mem_set_unit]
  exact Iff.rfl

/-- THE COVERED INDICES of region 6: rows 614400 up to 716800. -/
theorem covered_iff14 (i : S819200x512.Idx) :
    (∃ t : Fin cfg14.N, (cfg14.win 5).flush t = true ∧ i ∈ ((cfg14.win 5).blk t).view.set) ↔ 614400 ≤ (i 0).val ∧ (i 0).val < 716800 := by
  constructor
  · rintro ⟨t, -, hi⟩
    rw [mem_blk14] at hi
    have b0 : win14_5.index t (0 : Fin 2) * 4096 ≤ (i 0).val ∧ (i 0).val < win14_5.index t (0 : Fin 2) * 4096 + 4096 := hi 0
    obtain ⟨e50, -⟩ := idx_facts14 t
    have ht : t.val < 25 := lt_of_lt_of_eq t.isLt N_14
    rw [e50] at b0
    omega
  · intro h
    have hi1 : (i 1).val < 512 := (i 1).isLt
    have hk : ((i 0).val - 614400) / 4096 < cfg14.N := by
      show _ < grid14.N
      rw [N_14]; omega
    obtain ⟨e50, e51, -⟩ := idx_facts14 ⟨((i 0).val - 614400) / 4096, hk⟩
    refine ⟨⟨((i 0).val - 614400) / 4096, hk⟩, flush14_5 _, ?_⟩
    rw [mem_blk14]
    intro a
    match a with
    | ⟨0, _⟩ =>
      show win14_5.index ⟨((i 0).val - 614400) / 4096, hk⟩ (0 : Fin 2) * 4096 ≤ (i 0).val
        ∧ (i 0).val < win14_5.index ⟨((i 0).val - 614400) / 4096, hk⟩ (0 : Fin 2) * 4096 + 4096
      rw [e50]
      show (150 + ((i 0).val - 614400) / 4096) * 4096 ≤ (i 0).val ∧ (i 0).val < (150 + ((i 0).val - 614400) / 4096) * 4096 + 4096
      omega
    | ⟨1, _⟩ =>
      show win14_5.index ⟨((i 0).val - 614400) / 4096, hk⟩ (1 : Fin 2) * 512 ≤ (i 1).val
        ∧ (i 1).val < win14_5.index ⟨((i 0).val - 614400) / 4096, hk⟩ (1 : Fin 2) * 512 + 512
      rw [e51]; omega

/-- THE RESULT ARRAY after region 6: the whole-array function on rows 614400 up to 716800, its entry contents elsewhere. -/
theorem final14 (V : Valuation τ sig (Elt F)) (B : Set (SemLoc sig × HIx 8)) (c : Dev nD) :
    (dat14 V B c).arrAt 5 cfg14.N
      = fun i => if 614400 ≤ (i 0).val ∧ (i 0).val < 716800 then GV V i else vb V c main_v51 i := by
  funext i
  rw [(dat14 V B c).arrAt_eq_piecewise 5 (GV V) (fun t _ => flushed14_eq V B c t) i, A14_eq]
  exact if_congr (covered_iff14 i) rfl rfl

/-! ## Region 7 -/

/-- The printed index maps of region 7, decided over its grid. -/
theorem idx_facts15 : ∀ t : Fin cfg15.N, win15_5.index t (0 : Fin 2) = 175 + t.val ∧ win15_5.index t (1 : Fin 2) = 0
    ∧ win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0 :=
  (by decide +kernel : ∀ t : Fin grid15.N, _)

/-- Equal blocks and equal indices give equal payloads. -/
theorem pay_congr15 {a a' : Vec F S4096x256 .f32} {w w' : Vec F S256x512 .f32} {b b' g g' s s' : Vec F S1x512 .f32}
    {j j' : S4096x512.Idx} (ha : a = a') (hw : w = w') (hb : b = b') (hg : g = g') (hs : s = s') (hj : j = j') :
    k8_pay1 (F := F) a w b g s j = k8_pay1 (F := F) a' w' b' g' s' j' := by subst ha hw hb hg hs hj; rfl

/-- WHAT POINT `t` OF REGION 7 WRITES BACK is block `t` of its window of the whole-array function of the arrays as the
    region finds them. -/
theorem flushed15_eq (V : Valuation τ sig (Elt F)) (B : Set (SemLoc sig × HIx 8)) (c : Dev nD) (t : Fin cfg15.N) :
    (dat15 V B c).flushed 5 t = ((cfg15.win 5).blk t).view.read (Elt F) (GV V) := by
  show (cfg15.win 5).cut (grid15.coords t) ((dat15 V B c).after 5 t) = _
  rw [after15_5]
  unfold out8
  rw [View.canon_unit_zero hz]
  simp only [View.ld_unit_zero (S := S4096x256) hz, View.ld_unit_zero (S := S256x512) hz, View.ld_unit_zero (S := S1x512) hz]
  obtain ⟨e50, e51, e00, e01, e10, e11, e20, e21, e30, e31, e40, e41⟩ := idx_facts15 t
  have ht : t.val < 25 := lt_of_lt_of_eq t.isLt N_15
  funext j
  have hj0 : (j 0).val < 4096 := (j 0).isLt
  have hj1 : (j 1).val < 512 := (j 1).isLt
  have hrow : ((((cfg15.win 5).blk t).view.emb j) 0).val = (175 + t.val) * 4096 + (j 0).val := by
    show win15_5.index t (0 : Fin 2) * 4096 + 1 * (j 0).val = _
    rw [e50]; omega
  have hcol : ((((cfg15.win 5).blk t).view.emb j) 1).val = (j 1).val := by
    show win15_5.index t (1 : Fin 2) * 512 + 1 * (j 1).val = _
    rw [e51]; omega
  have hq : ((((cfg15.win 5).blk t).view.emb j) 0).val / 102400 = 7 := by rw [hrow]; omega
  refine pay_congr15 ?_ ?_ ?_ ?_ ?_ ?_
  · funext x
    have hx0 : (x 0).val < 4096 := (x 0).isLt
    have hx1 : (x 1).val < 256 := (x 1).isLt
    show vb V c main_v44 (((cfg15.win 0).blk t).view.emb x) = gathOf V (((((cfg15.win 5).blk t).view.emb j) 0).val / 102400) _
    rw [hq]
    show vb V c main_v44 (((cfg15.win 0).blk t).view.emb x) = vb V c main_v44 _
    refine congrArg _ (funext fun a => Fin.ext ?_)
    match a with
    | ⟨0, _⟩ =>
      show win15_0.index t (0 : Fin 2) * 4096 + 1 * (x 0).val = ((((cfg15.win 5).blk t).view.emb j) 0).val % 102400 / 4096 * 4096 + (x 0).val
      rw [e00, hrow]; omega
    | ⟨1, _⟩ =>
      show win15_0.index t (1 : Fin 2) * 256 + 1 * (x 1).val = (x 1).val
      rw [e01]; omega
  · funext x
    show vb V c main_arg4 (((cfg15.win 1).blk t).view.emb x) = vb V c main_arg4 x
    refine congrArg _ (funext fun a => Fin.ext ?_)
    match a with
    | ⟨0, _⟩ => show win15_1.index t (0 : Fin 2) * 256 + 1 * (x 0).val = (x 0).val; rw [e10]; omega
    | ⟨1, _⟩ => show win15_1.index t (1 : Fin 2) * 512 + 1 * (x 1).val = (x 1).val; rw [e11]; omega
  · funext x
    show vb V c main_v2 (((cfg15.win 2).blk t).view.emb x) = vb V c main_v2 x
    refine congrArg _ (funext fun a => Fin.ext ?_)
    match a with
    | ⟨0, _⟩ => show win15_2.index t (0 : Fin 2) * 1 + 1 * (x 0).val = (x 0).val; rw [e20]; omega
    | ⟨1, _⟩ => show win15_2.index t (1 : Fin 2) * 512 + 1 * (x 1).val = (x 1).val; rw [e21]; omega
  · funext x
    show vb V c main_v3 (((cfg15.win 3).blk t).view.emb x) = vb V c main_v3 x
    refine congrArg _ (funext fun a => Fin.ext ?_)
    match a with
    | ⟨0, _⟩ => show win15_3.index t (0 : Fin 2) * 1 + 1 * (x 0).val = (x 0).val; rw [e30]; omega
    | ⟨1, _⟩ => show win15_3.index t (1 : Fin 2) * 512 + 1 * (x 1).val = (x 1).val; rw [e31]; omega
  · funext x
    show vb V c main_v4 (((cfg15.win 4).blk t).view.emb x) = vb V c main_v4 x
    refine congrArg _ (funext fun a => Fin.ext ?_)
    match a with
    | ⟨0, _⟩ => show win15_4.index t (0 : Fin 2) * 1 + 1 * (x 0).val = (x 0).val; rw [e40]; omega
    | ⟨1, _⟩ => show win15_4.index t (1 : Fin 2) * 512 + 1 * (x 1).val = (x 1).val; rw [e41]; omega
  · funext a
    apply Fin.ext
    match a with
    | ⟨0, _⟩ => show (j 0).val = ((((cfg15.win 5).blk t).view.emb j) 0).val % 4096; rw [hrow]; omega
    | ⟨1, _⟩ => show (j 1).val = ((((cfg15.win 5).blk t).view.emb j) 1).val; rw [hcol]

/-- An index of the result array is in point `t`'s block iff each coordinate is in the block's range on its axis. -/
theorem mem_blk15 (t : Fin cfg15.N) (i : S819200x512.Idx) :
    i ∈ ((cfg15.win 5).blk t).view.set ↔ ∀ a : Fin 2, win15_5.index t a * S4096x512.size a ≤ (i a).val ∧ (i a).val < win15_5.index t a * S4096x512.size a + S4096x512.size a := by
  show i ∈ ((View.whole main_v52).slice (win15_5.rect t)).set ↔ _
  rw [View.set_slice_whole, Rect.mem_set_unit]
  exact Iff.rfl

/-- THE COVERED INDICES of region 7: rows 716800 up to 819200. -/
theorem covered_iff15 (i : S819200x512.Idx) :
    (∃ t : Fin cfg15.N, (cfg15.win 5).flush t = true ∧ i ∈ ((cfg15.win 5).blk t).view.set) ↔ 716800 ≤ (i 0).val ∧ (i 0).val < 819200 := by
  constructor
  · rintro ⟨t, -, hi⟩
    rw [mem_blk15] at hi
    have b0 : win15_5.index t (0 : Fin 2) * 4096 ≤ (i 0).val ∧ (i 0).val < win15_5.index t (0 : Fin 2) * 4096 + 4096 := hi 0
    obtain ⟨e50, -⟩ := idx_facts15 t
    have ht : t.val < 25 := lt_of_lt_of_eq t.isLt N_15
    rw [e50] at b0
    omega
  · intro h
    have hi1 : (i 1).val < 512 := (i 1).isLt
    have hk : ((i 0).val - 716800) / 4096 < cfg15.N := by
      show _ < grid15.N
      rw [N_15]; omega
    obtain ⟨e50, e51, -⟩ := idx_facts15 ⟨((i 0).val - 716800) / 4096, hk⟩
    refine ⟨⟨((i 0).val - 716800) / 4096, hk⟩, flush15_5 _, ?_⟩
    rw [mem_blk15]
    intro a
    match a with
    | ⟨0, _⟩ =>
      show win15_5.index ⟨((i 0).val - 716800) / 4096, hk⟩ (0 : Fin 2) * 4096 ≤ (i 0).val
        ∧ (i 0).val < win15_5.index ⟨((i 0).val - 716800) / 4096, hk⟩ (0 : Fin 2) * 4096 + 4096
      rw [e50]
      show (175 + ((i 0).val - 716800) / 4096) * 4096 ≤ (i 0).val ∧ (i 0).val < (175 + ((i 0).val - 716800) / 4096) * 4096 + 4096
      omega
    | ⟨1, _⟩ =>
      show win15_5.index ⟨((i 0).val - 716800) / 4096, hk⟩ (1 : Fin 2) * 512 ≤ (i 1).val
        ∧ (i 1).val < win15_5.index ⟨((i 0).val - 716800) / 4096, hk⟩ (1 : Fin 2) * 512 + 512
      rw [e51]; omega

/-- THE RESULT ARRAY after region 7: the whole-array function on rows 716800 up to 819200, its entry contents elsewhere. -/
theorem final15 (V : Valuation τ sig (Elt F)) (B : Set (SemLoc sig × HIx 8)) (c : Dev nD) :
    (dat15 V B c).arrAt 5 cfg15.N
      = fun i => if 716800 ≤ (i 0).val ∧ (i 0).val < 819200 then GV V i else vb V c main_v52 i := by
  funext i
  rw [(dat15 V B c).arrAt_eq_piecewise 5 (GV V) (fun t _ => flushed15_eq V B c t) i, A15_eq]
  exact if_congr (covered_iff15 i) rfl rfl

end Cert.Kernel.TcTail

end
-- ==== Proof.TcTailValsB.lean ====
/-
  The values the tail leaves. Along the chain of valuations the arrays the regions read never change, so every
  region writes blocks of one and the same whole-array function of the first valuation; region p having filled rows
  102400 p up to 102400 (p + 1) and the copy between regions carrying the rows below along, the last result array
  is that function everywhere, and the final result is its reshape; no argument array is written.
-/
import proofs.«204770_g8065948582451_cont_9to1c4b_476_56_alg».proof.Proof.ScPayB
import proofs.«204770_g8065948582451_cont_9to1c4b_476_56_alg».proof.Proof.Gen.Kernel.Points
import proofs.«204770_g8065948582451_cont_9to1c4b_476_56_alg».proof.Proof.TcTailValB
import Idealize.ShloMosaic.Lib.Pipeline.FrameBody
import Idealize.ShloMosaic.Lib.Pipeline.RegionsLoop
import Idealize.ShloMosaic.Lib.Tactic

set_option maxRecDepth 16384

noncomputable section

namespace Cert.Kernel.TcTail

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

open Idealize.ShloMosaic.ValueIdx

/-! ## Along the chain of valuations -/

/-- The result buffers: what the regions and the host operations of the tail write. -/
def resL : List (Ref sig .tc) := [main_v45, main_v46, main_v47, main_v48, main_v49, main_v50, main_v51, main_v52, main_v53]

/-- A reference off the result buffers is none of them. -/
theorem ne_res {r : Ref sig .tc} (hr : r ∉ resL) (y : Ref sig .tc) (hy : y ∈ resL) : r ≠ y := fun e => hr (e ▸ hy)

/-- The whole-array function reads the valuation off the result buffers only. -/
theorem GV_congr (V V' : Valuation τ sig (Elt F))
    (h : ∀ r : Ref sig .tc, r ∉ resL → V (Proc.devRef .tc r) = V' (Proc.devRef .tc r)) : GV V = GV V' := by
  have hg : gathOf V = gathOf V' := by
    funext q; unfold gathOf; split <;> exact h _ (by decide)
  unfold GV
  rw [hg, h main_arg4 (by decide), h main_v2 (by decide), h main_v3 (by decide), h main_v4 (by decide)]

variable (Vin : Dev nD → Valuation τ sig (Elt F)) (B : Set (SemLoc sig × HIx 8))

/-- Off the result buffers every valuation of the chain is the first. -/
theorem keep0 (r : Ref sig .tc) (hr : r ∉ resL) (c : Dev nD) : X0 Vin B c (Proc.devRef .tc r) = Vin c (Proc.devRef .tc r) := by
  rw [X0_eq]; unfold Vx0
  exact Function.update_of_ne (StableHlo.devRef_ne_of_ne (ne_res hr main_v45 (by decide))) _ _

theorem keepE1 (r : Ref sig .tc) (hr : r ∉ resL) (c : Dev nD) : E1 Vin B c (Proc.devRef .tc r) = Vin c (Proc.devRef .tc r) := by
  show (cp0 : HloOp τ sig (Elt F)).result (X0 Vin B c) (Proc.devRef .tc r) = _
  rw [StableHlo.unary_result_ne (h := ne_res hr main_v46 (by decide)), keep0 Vin B r hr c]
theorem keep1 (r : Ref sig .tc) (hr : r ∉ resL) (c : Dev nD) : X1 Vin B c (Proc.devRef .tc r) = Vin c (Proc.devRef .tc r) := by
  rw [X1_eq]; unfold Vx1
  rw [Function.update_of_ne (StableHlo.devRef_ne_of_ne (ne_res hr main_v46 (by decide)))]
  exact keepE1 Vin B r hr c

theorem keepE2 (r : Ref sig .tc) (hr : r ∉ resL) (c : Dev nD) : E2 Vin B c (Proc.devRef .tc r) = Vin c (Proc.devRef .tc r) := by
  show (cp1 : HloOp τ sig (Elt F)).result (X1 Vin B c) (Proc.devRef .tc r) = _
  rw [StableHlo.unary_result_ne (h := ne_res hr main_v47 (by decide)), keep1 Vin B r hr c]
theorem keep2 (r : Ref sig .tc) (hr : r ∉ resL) (c : Dev nD) : X2 Vin B c (Proc.devRef .tc r) = Vin c (Proc.devRef .tc r) := by
  rw [X2_eq]; unfold Vx2
  rw [Function.update_of_ne (StableHlo.devRef_ne_of_ne (ne_res hr main_v47 (by decide)))]
  exact keepE2 Vin B r hr c

theorem keepE3 (r : Ref sig .tc) (hr : r ∉ resL) (c : Dev nD) : E3 Vin B c (Proc.devRef .tc r) = Vin c (Proc.devRef .tc r) := by
  show (cp2 : HloOp τ sig (Elt F)).result (X2 Vin B c) (Proc.devRef .tc r) = _
  rw [StableHlo.unary_result_ne (h := ne_res hr main_v48 (by decide)), keep2 Vin B r hr c]
theorem keep3 (r : Ref sig .tc) (hr : r ∉ resL) (c : Dev nD) : X3 Vin B c (Proc.devRef .tc r) = Vin c (Proc.devRef .tc r) := by
  rw [X3_eq]; unfold Vx3
  rw [Function.update_of_ne (StableHlo.devRef_ne_of_ne (ne_res hr main_v48 (by decide)))]
  exact keepE3 Vin B r hr c

theorem keepE4 (r : Ref sig .tc) (hr : r ∉ resL) (c : Dev nD) : E4 Vin B c (Proc.devRef .tc r) = Vin c (Proc.devRef .tc r) := by
  show (cp3 : HloOp τ sig (Elt F)).result (X3 Vin B c) (Proc.devRef .tc r) = _
  rw [StableHlo.unary_result_ne (h := ne_res hr main_v49 (by decide)), keep3 Vin B r hr c]
theorem keep4 (r : Ref sig .tc) (hr : r ∉ resL) (c : Dev nD) : X4 Vin B c (Proc.devRef .tc r) = Vin c (Proc.devRef .tc r) := by
  rw [X4_eq]; unfold Vx4
  rw [Function.update_of_ne (StableHlo.devRef_ne_of_ne (ne_res hr main_v49 (by decide)))]
  exact keepE4 Vin B r hr c

theorem keepE5 (r : Ref sig .tc) (hr : r ∉ resL) (c : Dev nD) : E5 Vin B c (Proc.devRef .tc r) = Vin c (Proc.devRef .tc r) := by
  show (cp4 : HloOp τ sig (Elt F)).result (X4 Vin B c) (Proc.devRef .tc r) = _
  rw [StableHlo.unary_result_ne (h := ne_res hr main_v50 (by decide)), keep4 Vin B r hr c]
theorem keep5 (r : Ref sig .tc) (hr : r ∉ resL) (c : Dev nD) : X5 Vin B c (Proc.devRef .tc r) = Vin c (Proc.devRef .tc r) := by
  rw [X5_eq]; unfold Vx5
  rw [Function.update_of_ne (StableHlo.devRef_ne_of_ne (ne_res hr main_v50 (by decide)))]
  exact keepE5 Vin B r hr c

theorem keepE6 (r : Ref sig .tc) (hr : r ∉ resL) (c : Dev nD) : E6 Vin B c (Proc.devRef .tc r) = Vin c (Proc.devRef .tc r) := by
  show (cp5 : HloOp τ sig (Elt F)).result (X5 Vin B c) (Proc.devRef .tc r) = _
  rw [StableHlo.unary_result_ne (h := ne_res hr main_v51 (by decide)), keep5 Vin B r hr c]
theorem keep6 (r : Ref sig .tc) (hr : r ∉ resL) (c : Dev nD) : X6 Vin B c (Proc.devRef .tc r) = Vin c (Proc.devRef .tc r) := by
  rw [X6_eq]; unfold Vx6
  rw [Function.update_of_ne (StableHlo.devRef_ne_of_ne (ne_res hr main_v51 (by decide)))]
  exact keepE6 Vin B r hr c

theorem keepE7 (r : Ref sig .tc) (hr : r ∉ resL) (c : Dev nD) : E7 Vin B c (Proc.devRef .tc r) = Vin c (Proc.devRef .tc r) := by
  show (cp6 : HloOp τ sig (Elt F)).result (X6 Vin B c) (Proc.devRef .tc r) = _
  rw [StableHlo.unary_result_ne (h := ne_res hr main_v52 (by decide)), keep6 Vin B r hr c]
theorem keep7 (r : Ref sig .tc) (hr : r ∉ resL) (c : Dev nD) : X7 Vin B c (Proc.devRef .tc r) = Vin c (Proc.devRef .tc r) := by
  rw [X7_eq]; unfold Vx7
  rw [Function.update_of_ne (StableHlo.devRef_ne_of_ne (ne_res hr main_v52 (by decide)))]
  exact keepE7 Vin B r hr c

/-- After region 0 the result array holds the whole-array function of the first valuation on rows below 102400. -/
theorem val0 (c : Dev nD) (i : S819200x512.Idx) (hi : (i 0).val < 102400) :
    vb (X0 Vin B c) c main_v45 i = GV (Vin c) i := by
  show X0 Vin B c (Proc.devRef .tc main_v45) i = _
  rw [X0_eq]; unfold Vx0
  rw [Function.update_self, final8]
  exact if_pos ⟨Nat.zero_le _, hi⟩

/-- After region 1: on rows below 204800. -/
theorem val1 (c : Dev nD) (i : S819200x512.Idx) (hi : (i 0).val < 204800) :
    vb (X1 Vin B c) c main_v46 i = GV (Vin c) i := by
  show X1 Vin B c (Proc.devRef .tc main_v46) i = _
  rw [X1_eq]; unfold Vx1
  rw [Function.update_self, final9]
  show (if 102400 ≤ (i 0).val ∧ (i 0).val < 204800 then GV (E1 Vin B c) i else vb (E1 Vin B c) c main_v46 i) = _
  by_cases h : 102400 ≤ (i 0).val
  · rw [if_pos ⟨h, hi⟩, GV_congr (E1 Vin B c) (Vin c) fun r hr => keepE1 Vin B r hr c]
  · rw [if_neg fun hh => h hh.1]
    show (cp0 : HloOp τ sig (Elt F)).result (X0 Vin B c) (Proc.devRef .tc main_v46) i = _
    rw [StableHlo.unary_result]
    exact val0 Vin B c i (by omega)

/-- After region 2: on rows below 307200. -/
theorem val2 (c : Dev nD) (i : S819200x512.Idx) (hi : (i 0).val < 307200) :
    vb (X2 Vin B c) c main_v47 i = GV (Vin c) i := by
  show X2 Vin B c (Proc.devRef .tc main_v47) i = _
  rw [X2_eq]; unfold Vx2
  rw [Function.update_self, final10]
  show (if 204800 ≤ (i 0).val ∧ (i 0).val < 307200 then GV (E2 Vin B c) i else vb (E2 Vin B c) c main_v47 i) = _
  by_cases h : 204800 ≤ (i 0).val
  · rw [if_pos ⟨h, hi⟩, GV_congr (E2 Vin B c) (Vin c) fun r hr => keepE2 Vin B r hr c]
  · rw [if_neg fun hh => h hh.1]
    show (cp1 : HloOp τ sig (Elt F)).result (X1 Vin B c) (Proc.devRef .tc main_v47) i = _
    rw [StableHlo.unary_result]
    exact val1 Vin B c i (by omega)

/-- After region 3: on rows below 409600. -/
theorem val3 (c : Dev nD) (i : S819200x512.Idx) (hi : (i 0).val < 409600) :
    vb (X3 Vin B c) c main_v48 i = GV (Vin c) i := by
  show X3 Vin B c (Proc.devRef .tc main_v48) i = _
  rw [X3_eq]; unfold Vx3
  rw [Function.update_self, final11]
  show (if 307200 ≤ (i 0).val ∧ (i 0).val < 409600 then GV (E3 Vin B c) i else vb (E3 Vin B c) c main_v48 i) = _
  by_cases h : 307200 ≤ (i 0).val
  · rw [if_pos ⟨h, hi⟩, GV_congr (E3 Vin B c) (Vin c) fun r hr => keepE3 Vin B r hr c]
  · rw [if_neg fun hh => h hh.1]
    show (cp2 : HloOp τ sig (Elt F)).result (X2 Vin B c) (Proc.devRef .tc main_v48) i = _
    rw [StableHlo.unary_result]
    exact val2 Vin B c i (by omega)

/-- After region 4: on rows below 512000. -/
theorem val4 (c : Dev nD) (i : S819200x512.Idx) (hi : (i 0).val < 512000) :
    vb (X4 Vin B c) c main_v49 i = GV (Vin c) i := by
  show X4 Vin B c (Proc.devRef .tc main_v49) i = _
  rw [X4_eq]; unfold Vx4
  rw [Function.update_self, final12]
  show (if 409600 ≤ (i 0).val ∧ (i 0).val < 512000 then GV (E4 Vin B c) i else vb (E4 Vin B c) c main_v49 i) = _
  by_cases h : 409600 ≤ (i 0).val
  · rw [if_pos ⟨h, hi⟩, GV_congr (E4 Vin B c) (Vin c) fun r hr => keepE4 Vin B r hr c]
  · rw [if_neg fun hh => h hh.1]
    show (cp3 : HloOp τ sig (Elt F)).result (X3 Vin B c) (Proc.devRef .tc main_v49) i = _
    rw [StableHlo.unary_result]
    exact val3 Vin B c i (by omega)

/-- After region 5: on rows below 614400. -/
theorem val5 (c : Dev nD) (i : S819200x512.Idx) (hi : (i 0).val < 614400) :
    vb (X5 Vin B c) c main_v50 i = GV (Vin c) i := by
  show X5 Vin B c (Proc.devRef .tc main_v50) i = _
  rw [X5_eq]; unfold Vx5
  rw [Function.update_self, final13]
  show (if 512000 ≤ (i 0).val ∧ (i 0).val < 614400 then GV (E5 Vin B c) i else vb (E5 Vin B c) c main_v50 i) = _
  by_cases h : 512000 ≤ (i 0).val
  · rw [if_pos ⟨h, hi⟩, GV_congr (E5 Vin B c) (Vin c) fun r hr => keepE5 Vin B r hr c]
  · rw [if_neg fun hh => h hh.1]
    show (cp4 : HloOp τ sig (Elt F)).result (X4 Vin B c) (Proc.devRef .tc main_v50) i = _
    rw [StableHlo.unary_result]
    exact val4 Vin B c i (by omega)

/-- After region 6: on rows below 716800. -/
theorem val6 (c : Dev nD) (i : S819200x512.Idx) (hi : (i 0).val < 716800) :
    vb (X6 Vin B c) c main_v51 i = GV (Vin c) i := by
  show X6 Vin B c (Proc.devRef .tc main_v51) i = _
  rw [X6_eq]; unfold Vx6
  rw [Function.update_self, final14]
  show (if 614400 ≤ (i 0).val ∧ (i 0).val < 716800 then GV (E6 Vin B c) i else vb (E6 Vin B c) c main_v51 i) = _
  by_cases h : 614400 ≤ (i 0).val
  · rw [if_pos ⟨h, hi⟩, GV_congr (E6 Vin B c) (Vin c) fun r hr => keepE6 Vin B r hr c]
  · rw [if_neg fun hh => h hh.1]
    show (cp5 : HloOp τ sig (Elt F)).result (X5 Vin B c) (Proc.devRef .tc main_v51) i = _
    rw [StableHlo.unary_result]
    exact val5 Vin B c i (by omega)

/-- After region 7: on rows below 819200. -/
theorem val7 (c : Dev nD) (i : S819200x512.Idx) (hi : (i 0).val < 819200) :
    vb (X7 Vin B c) c main_v52 i = GV (Vin c) i := by
  show X7 Vin B c (Proc.devRef .tc main_v52) i = _
  rw [X7_eq]; unfold Vx7
  rw [Function.update_self, final15]
  show (if 716800 ≤ (i 0).val ∧ (i 0).val < 819200 then GV (E7 Vin B c) i else vb (E7 Vin B c) c main_v52 i) = _
  by_cases h : 716800 ≤ (i 0).val
  · rw [if_pos ⟨h, hi⟩, GV_congr (E7 Vin B c) (Vin c) fun r hr => keepE7 Vin B r hr c]
  · rw [if_neg fun hh => h hh.1]
    show (cp6 : HloOp τ sig (Elt F)).result (X6 Vin B c) (Proc.devRef .tc main_v52) i = _
    rw [StableHlo.unary_result]
    exact val6 Vin B c i (by omega)

/-! ## The final valuation -/

/-- The last result array, before the reshape. -/
def Yf (c : Dev nD) : Vec F S819200x512 .f32 := vb (X7 Vin B c) c main_v52

/-- It is the whole-array function of the first valuation. -/
theorem Yf_eq (c : Dev nD) : Yf Vin B c = GV (Vin c) :=
  funext fun i => val7 Vin B c i (by have := idx2_lt0 i; omega)

/-- Off the result buffers the final valuation is the first: the tail writes none of the arguments. -/
theorem Vend_keep (r : Ref sig .tc) (hr : r ∉ resL) (c : Dev nD) : Vend Vin B c (Proc.devRef .tc r) = Vin c (Proc.devRef .tc r) := by
  show (rsOp : HloOp τ sig (Elt F)).result (X7 Vin B c) (Proc.devRef .tc r) = _
  rw [StableHlo.reshape_result_ne (h := ne_res hr main_v53 (by decide)), keep7 Vin B r hr c]

/-- The final result is the last result array reshaped. -/
theorem Vend_v53 (c : Dev nD) :
    Vend Vin B c (Proc.devRef .tc main_v53) = shapeCast S4096x200x512 (Yf Vin B c) shapeCasts_S819200x512_S4096x200x512 := by
  show (rsOp : HloOp τ sig (Elt F)).result (X7 Vin B c) (Proc.devRef .tc main_v53) = _
  rw [StableHlo.reshape_result]
  rfl

/-- BLOCKWISE: row (25 p + i) · 4096 + rr of the last result array is row rr of the payload of block i of the p-th
    gathered array of the first valuation, the weights and the three rows. -/
theorem GV_block (V : Valuation τ sig (Elt F)) (p : Fin 8) (i : Fin 25) (rr : Fin 4096) (j : Fin 512)
    (h : (25 * p.val + i.val) * 4096 + rr.val < 819200) :
    GV V (ix2 (⟨(25 * p.val + i.val) * 4096 + rr.val, h⟩ : Fin 819200) j)
      = k8_pay1 (F := F)
          (fun y : S4096x256.Idx => gathOf V p.val (ix2 (⟨i.val * 4096 + (y 0).val, by have := idx2_lt0 y; omega⟩ : Fin 102400) (y 1)))
          (V (Proc.devRef .tc main_arg4)) (V (Proc.devRef .tc main_v2)) (V (Proc.devRef .tc main_v3)) (V (Proc.devRef .tc main_v4))
          (ix2 rr j) := by
  have hp := p.isLt
  have hi := i.isLt
  have hr := rr.isLt
  have hq : ((25 * p.val + i.val) * 4096 + rr.val) / 102400 = p.val := by omega
  unfold GV
  refine pay_congr8 ?_ rfl rfl rfl rfl ?_
  · funext y
    have hy := idx2_lt0 y
    show gathOf V (((25 * p.val + i.val) * 4096 + rr.val) / 102400) _ = gathOf V p.val _
    rw [hq]
    refine congrArg _ (funext fun a => Fin.ext ?_)
    match a with
    | ⟨0, _⟩ =>
      show ((25 * p.val + i.val) * 4096 + rr.val) % 102400 / 4096 * 4096 + (y 0).val = i.val * 4096 + (y 0).val
      omega
    | ⟨1, _⟩ => rfl
  · funext a
    apply Fin.ext
    match a with
    | ⟨0, _⟩ => show ((25 * p.val + i.val) * 4096 + rr.val) % 4096 = rr.val; omega
    | ⟨1, _⟩ => rfl

/-! ## The same, of the valuation the tail's run ends at -/

variable (ι : HIx 8)

/-- The tail writes none of the buffers off the result buffers: the arguments among them. -/
theorem Vout_keep (W : Finset (SemLoc sig × HIx 8)) (d : Dev nD) (r : Ref sig .tc) (hr : r ∉ resL) :
    Vout Vin ι W d (Proc.devRef .tc r) = Vin d (Proc.devRef .tc r) :=
  Vend_keep Vin (Bof W ι) r hr d

/-- The final result is the reshape of the whole-array function of the first valuation. -/
theorem Vout_v53 (W : Finset (SemLoc sig × HIx 8)) (d : Dev nD) :
    Vout Vin ι W d (Proc.devRef .tc main_v53) = shapeCast S4096x200x512 (GV (Vin d)) shapeCasts_S819200x512_S4096x200x512 := by
  rw [show Vout Vin ι W d = Vend Vin (Bof W ι) d from rfl, Vend_v53, Yf_eq]

end Cert.Kernel.TcTail

end
-- ==== Proof.AsmArgsB.lean ====
/-
  The final valuation keeps the arguments. The final valuation is what the dense tail makes of the buffers the last
  gather call leaves; the tail writes its nine result buffers only, and the last gather call leaves every argument
  buffer at its launch contents.
-/
import proofs.«204770_g8065948582451_cont_9to1c4b_476_56_alg».proof.Proof.AsmFrameB
import proofs.«204770_g8065948582451_cont_9to1c4b_476_56_alg».proof.Proof.ScFinalB
import proofs.«204770_g8065948582451_cont_9to1c4b_476_56_alg».proof.Proof.TcTailValsB

noncomputable section

namespace Cert.Kernel.Asm

open Idealize.ShloMosaic Idealize.SL.Sem
open Cert.Kernel Cert.Kernel.Gen

variable {F : FTy → Type} [FloatOps F]

/-- The final valuation has the eight argument buffers at their launch contents. -/
theorem vfin_args : ArgsKept (F := F) (fun m d => Sc.Vfin m d) := fun m d =>
  ⟨(TcTail.Vout_keep (Sc.Vin7 m) none ∅ d main_arg0 (by decide)).trans (Sc.post7_arg0 m d),
   (TcTail.Vout_keep (Sc.Vin7 m) none ∅ d main_arg1 (by decide)).trans (Sc.post7_arg1 m d),
   (TcTail.Vout_keep (Sc.Vin7 m) none ∅ d main_arg2 (by decide)).trans (Sc.post7_arg2 m d),
   (TcTail.Vout_keep (Sc.Vin7 m) none ∅ d main_arg3 (by decide)).trans (Sc.post7_arg3 m d),
   (TcTail.Vout_keep (Sc.Vin7 m) none ∅ d main_arg4 (by decide)).trans (Sc.post7_arg4 m d),
   (TcTail.Vout_keep (Sc.Vin7 m) none ∅ d main_arg5 (by decide)).trans (Sc.post7_arg5 m d),
   (TcTail.Vout_keep (Sc.Vin7 m) none ∅ d main_arg6 (by decide)).trans (Sc.post7_arg6 m d),
   (TcTail.Vout_keep (Sc.Vin7 m) none ∅ d main_arg7 (by decide)).trans (Sc.post7_arg7 m d)⟩

end Cert.Kernel.Asm

end
-- ==== Proof.TcTailIndep.lean ====
/-
  The valuations the tail passes through do not depend on the set bounding the recorded pairs: an array after the
  write-backs is a function of its entry contents and of what each point flushes, nothing else of the proof data.
-/
import proofs.«204770_g8065948582451_cont_9to1c4b_476_56_alg».proof.Proof.ScPayI
import proofs.«204770_g8065948582451_cont_9to1c4b_476_56_alg».proof.Proof.Gen.KernelIdeal.Points
import proofs.«204770_g8065948582451_cont_9to1c4b_476_56_alg».proof.Proof.TcTailWp
import Idealize.ShloMosaic.Lib.Pipeline.Value
import Idealize.ShloMosaic.Lib.Pipeline.FrameBody
import Idealize.ShloMosaic.Lib.Pipeline.RegionsLoop
import Idealize.ShloMosaic.Lib.Tactic

set_option maxRecDepth 16384

noncomputable section

namespace Cert.KernelIdeal.TcTail

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

/-- The arrays after the write-backs depend on the proof data's entry contents and block contents only. -/
theorem arrAt_congr_of {cfg : Pipeline.Cfg sig Λ₀} {c : Dev nD} (d d' : Dat τ (Elt F) (HIx 8) ℕ Sc.UU ℕ cfg c) (w : Fin cfg.W)
    (hA : d.A w = d'.A w) (hafter : d.after w = d'.after w) : ∀ n, d.arrAt w n = d'.arrAt w n
  | 0 => hA
  | n + 1 => by
    funext i
    have hf : ∀ t, d.flushed w t = d'.flushed w t := fun t => by unfold Dat.flushed; rw [hafter]
    rw [d.arrAt_succ_apply w n i, d'.arrAt_succ_apply w n i, arrAt_congr_of d d' w hA hafter n]
    simp only [hf]

theorem Vx0_indep (V : Valuation τ sig (Elt F)) (B B' : Set (SemLoc sig × HIx 8)) (c : Dev nD) : Vx0 V B c = Vx0 V B' c := by
  unfold Vx0
  rw [arrAt_congr_of (dat8 V B c) (dat8 V B' c) 5 rfl rfl]

theorem Vx1_indep (V : Valuation τ sig (Elt F)) (B B' : Set (SemLoc sig × HIx 8)) (c : Dev nD) : Vx1 V B c = Vx1 V B' c := by
  unfold Vx1
  rw [arrAt_congr_of (dat9 V B c) (dat9 V B' c) 5 rfl rfl]

theorem Vx2_indep (V : Valuation τ sig (Elt F)) (B B' : Set (SemLoc sig × HIx 8)) (c : Dev nD) : Vx2 V B c = Vx2 V B' c := by
  unfold Vx2
  rw [arrAt_congr_of (dat10 V B c) (dat10 V B' c) 5 rfl rfl]

theorem Vx3_indep (V : Valuation τ sig (Elt F)) (B B' : Set (SemLoc sig × HIx 8)) (c : Dev nD) : Vx3 V B c = Vx3 V B' c := by
  unfold Vx3
  rw [arrAt_congr_of (dat11 V B c) (dat11 V B' c) 5 rfl rfl]

theorem Vx4_indep (V : Valuation τ sig (Elt F)) (B B' : Set (SemLoc sig × HIx 8)) (c : Dev nD) : Vx4 V B c = Vx4 V B' c := by
  unfold Vx4
  rw [arrAt_congr_of (dat12 V B c) (dat12 V B' c) 5 rfl rfl]

theorem Vx5_indep (V : Valuation τ sig (Elt F)) (B B' : Set (SemLoc sig × HIx 8)) (c : Dev nD) : Vx5 V B c = Vx5 V B' c := by
  unfold Vx5
  rw [arrAt_congr_of (dat13 V B c) (dat13 V B' c) 5 rfl rfl]

theorem Vx6_indep (V : Valuation τ sig (Elt F)) (B B' : Set (SemLoc sig × HIx 8)) (c : Dev nD) : Vx6 V B c = Vx6 V B' c := by
  unfold Vx6
  rw [arrAt_congr_of (dat14 V B c) (dat14 V B' c) 5 rfl rfl]

theorem Vx7_indep (V : Valuation τ sig (Elt F)) (B B' : Set (SemLoc sig × HIx 8)) (c : Dev nD) : Vx7 V B c = Vx7 V B' c := by
  unfold Vx7
  rw [arrAt_congr_of (dat15 V B c) (dat15 V B' c) 5 rfl rfl]

variable (Vin : Dev nD → Valuation τ sig (Elt F))

theorem X0_indep (B B' : Set (SemLoc sig × HIx 8)) (c : Dev nD) : X0 Vin B c = X0 Vin B' c := by
  rw [X0_eq, X0_eq, Vx0_indep _ B B']

theorem X1_indep (B B' : Set (SemLoc sig × HIx 8)) (c : Dev nD) : X1 Vin B c = X1 Vin B' c := by
  rw [X1_eq, X1_eq, Vx1_indep _ B B']
  unfold E1
  rw [X0_indep Vin B B' c]

theorem X2_indep (B B' : Set (SemLoc sig × HIx 8)) (c : Dev nD) : X2 Vin B c = X2 Vin B' c := by
  rw [X2_eq, X2_eq, Vx2_indep _ B B']
  unfold E2
  rw [X1_indep Vin B B' c]

theorem X3_indep (B B' : Set (SemLoc sig × HIx 8)) (c : Dev nD) : X3 Vin B c = X3 Vin B' c := by
  rw [X3_eq, X3_eq, Vx3_indep _ B B']
  unfold E3
  rw [X2_indep Vin B B' c]

theorem X4_indep (B B' : Set (SemLoc sig × HIx 8)) (c : Dev nD) : X4 Vin B c = X4 Vin B' c := by
  rw [X4_eq, X4_eq, Vx4_indep _ B B']
  unfold E4
  rw [X3_indep Vin B B' c]

theorem X5_indep (B B' : Set (SemLoc sig × HIx 8)) (c : Dev nD) : X5 Vin B c = X5 Vin B' c := by
  rw [X5_eq, X5_eq, Vx5_indep _ B B']
  unfold E5
  rw [X4_indep Vin B B' c]

theorem X6_indep (B B' : Set (SemLoc sig × HIx 8)) (c : Dev nD) : X6 Vin B c = X6 Vin B' c := by
  rw [X6_eq, X6_eq, Vx6_indep _ B B']
  unfold E6
  rw [X5_indep Vin B B' c]

theorem X7_indep (B B' : Set (SemLoc sig × HIx 8)) (c : Dev nD) : X7 Vin B c = X7 Vin B' c := by
  rw [X7_eq, X7_eq, Vx7_indep _ B B']
  unfold E7
  rw [X6_indep Vin B B' c]

/-- The final valuation does not depend on the recorded pairs the tail starts with. -/
theorem Vout_indep (ι : HIx 8) (W W' : Finset (SemLoc sig × HIx 8)) (d : Dev nD) : Vout Vin ι W d = Vout Vin ι W' d := by
  unfold Vout Vend
  rw [X7_indep Vin (Bof W ι) (Bof W' ι) d]

end Cert.KernelIdeal.TcTail

end
-- ==== Proof.ScBody0AI.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResI

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v6
local notation "cidsR" => Cert.KernelIdeal.main_v8
local notation "idtR" => Cert.KernelIdeal.main_arg2
local notation "catR" => Cert.KernelIdeal.main_arg3
local notation "outR" => Cert.KernelIdeal.main_v9
local notation "idsM" => (Memref.whole Cert.KernelIdeal.main_v6_scv : Memref Cert.KernelIdeal.sig Kind.scVector Space.hbm Cert.KernelIdeal.S102400 EltTy.i32)
local notation "cidsM" => (Memref.whole Cert.KernelIdeal.main_v8_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v9_scv : Memref Cert.KernelIdeal.sig Kind.scVector Space.hbm Cert.KernelIdeal.S102400x256 EltTy.f32)
local notation "bA0" => Cert.KernelIdeal.cc0_scratch0
local notation "bA1" => Cert.KernelIdeal.cc0_scratch1
local notation "bB0" => Cert.KernelIdeal.cc0_scratch2
local notation "bB1" => Cert.KernelIdeal.cc0_scratch3
local notation "bRA" => Cert.KernelIdeal.cc0_scratch4
local notation "bRB" => Cert.KernelIdeal.cc0_scratch5
local notation "ixA0" => (Memref.whole Cert.KernelIdeal.cc0_scratch0 : Memref Cert.KernelIdeal.sig Kind.scVector Space.vmem Cert.KernelIdeal.S128 EltTy.i32)
local notation "ixA1" => (Memref.whole Cert.KernelIdeal.cc0_scratch1 : Memref Cert.KernelIdeal.sig Kind.scVector Space.vmem Cert.KernelIdeal.S128 EltTy.i32)
local notation "ixB0" => (Memref.whole Cert.KernelIdeal.cc0_scratch2 : Memref Cert.KernelIdeal.sig Kind.scVector Space.vmem Cert.KernelIdeal.S128 EltTy.i32)
local notation "ixB1" => (Memref.whole Cert.KernelIdeal.cc0_scratch3 : Memref Cert.KernelIdeal.sig Kind.scVector Space.vmem Cert.KernelIdeal.S128 EltTy.i32)
local notation "rowA" => (Memref.whole Cert.KernelIdeal.cc0_scratch4 : Memref Cert.KernelIdeal.sig Kind.scVector Space.vmem Cert.KernelIdeal.S128x256 EltTy.f32)
local notation "rowB" => (Memref.whole Cert.KernelIdeal.cc0_scratch5 : Memref Cert.KernelIdeal.sig Kind.scVector Space.vmem Cert.KernelIdeal.S128x256 EltTy.f32)
local notation "gA0" => Cert.KernelIdeal.cc0_scratch6
local notation "gA1" => Cert.KernelIdeal.cc0_scratch7
local notation "gB0" => Cert.KernelIdeal.cc0_scratch8
local notation "gB1" => Cert.KernelIdeal.cc0_scratch9
local notation "sc0" => Cert.KernelIdeal.cc0_scoped0
local notation "sc1" => Cert.KernelIdeal.cc0_scoped1
local notation "sc2" => Cert.KernelIdeal.cc0_scoped2
local notation "sc3" => Cert.KernelIdeal.cc0_scoped3
local notation "sc4" => Cert.KernelIdeal.cc0_scoped4
local notation "sc5" => Cert.KernelIdeal.cc0_scoped5
local notation "sc6" => Cert.KernelIdeal.cc0_scoped6
local notation "sc7" => Cert.KernelIdeal.cc0_scoped7
local notation "sc8" => Cert.KernelIdeal.cc0_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v9_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v9_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v9_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.KernelIdeal.Sc

end
-- ==== Proof.ScBody0BI.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody0AI

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v6
local notation "cidsR" => Cert.KernelIdeal.main_v8
local notation "idtR" => Cert.KernelIdeal.main_arg2
local notation "catR" => Cert.KernelIdeal.main_arg3
local notation "outR" => Cert.KernelIdeal.main_v9
local notation "idsM" => (Memref.whole Cert.KernelIdeal.main_v6_scv : Memref Cert.KernelIdeal.sig Kind.scVector Space.hbm Cert.KernelIdeal.S102400 EltTy.i32)
local notation "cidsM" => (Memref.whole Cert.KernelIdeal.main_v8_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v9_scv : Memref Cert.KernelIdeal.sig Kind.scVector Space.hbm Cert.KernelIdeal.S102400x256 EltTy.f32)
local notation "bA0" => Cert.KernelIdeal.cc0_scratch0
local notation "bA1" => Cert.KernelIdeal.cc0_scratch1
local notation "bB0" => Cert.KernelIdeal.cc0_scratch2
local notation "bB1" => Cert.KernelIdeal.cc0_scratch3
local notation "bRA" => Cert.KernelIdeal.cc0_scratch4
local notation "bRB" => Cert.KernelIdeal.cc0_scratch5
local notation "ixA0" => (Memref.whole Cert.KernelIdeal.cc0_scratch0 : Memref Cert.KernelIdeal.sig Kind.scVector Space.vmem Cert.KernelIdeal.S128 EltTy.i32)
local notation "ixA1" => (Memref.whole Cert.KernelIdeal.cc0_scratch1 : Memref Cert.KernelIdeal.sig Kind.scVector Space.vmem Cert.KernelIdeal.S128 EltTy.i32)
local notation "ixB0" => (Memref.whole Cert.KernelIdeal.cc0_scratch2 : Memref Cert.KernelIdeal.sig Kind.scVector Space.vmem Cert.KernelIdeal.S128 EltTy.i32)
local notation "ixB1" => (Memref.whole Cert.KernelIdeal.cc0_scratch3 : Memref Cert.KernelIdeal.sig Kind.scVector Space.vmem Cert.KernelIdeal.S128 EltTy.i32)
local notation "rowA" => (Memref.whole Cert.KernelIdeal.cc0_scratch4 : Memref Cert.KernelIdeal.sig Kind.scVector Space.vmem Cert.KernelIdeal.S128x256 EltTy.f32)
local notation "rowB" => (Memref.whole Cert.KernelIdeal.cc0_scratch5 : Memref Cert.KernelIdeal.sig Kind.scVector Space.vmem Cert.KernelIdeal.S128x256 EltTy.f32)
local notation "gA0" => Cert.KernelIdeal.cc0_scratch6
local notation "gA1" => Cert.KernelIdeal.cc0_scratch7
local notation "gB0" => Cert.KernelIdeal.cc0_scratch8
local notation "gB1" => Cert.KernelIdeal.cc0_scratch9
local notation "sc0" => Cert.KernelIdeal.cc0_scoped0
local notation "sc1" => Cert.KernelIdeal.cc0_scoped1
local notation "sc2" => Cert.KernelIdeal.cc0_scoped2
local notation "sc3" => Cert.KernelIdeal.cc0_scoped3
local notation "sc4" => Cert.KernelIdeal.cc0_scoped4
local notation "sc5" => Cert.KernelIdeal.cc0_scoped5
local notation "sc6" => Cert.KernelIdeal.cc0_scoped6
local notation "sc7" => Cert.KernelIdeal.cc0_scoped7
local notation "sc8" => Cert.KernelIdeal.cc0_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.KernelIdeal.Sc

end
-- ==== Proof.ScBody0CI.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody0BI

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v6
local notation "cidsR" => Cert.KernelIdeal.main_v8
local notation "idtR" => Cert.KernelIdeal.main_arg2
local notation "catR" => Cert.KernelIdeal.main_arg3
local notation "outR" => Cert.KernelIdeal.main_v9
local notation "idsM" => (Memref.whole Cert.KernelIdeal.main_v6_scv : Memref Cert.KernelIdeal.sig Kind.scVector Space.hbm Cert.KernelIdeal.S102400 EltTy.i32)
local notation "cidsM" => (Memref.whole Cert.KernelIdeal.main_v8_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v9_scv : Memref Cert.KernelIdeal.sig Kind.scVector Space.hbm Cert.KernelIdeal.S102400x256 EltTy.f32)
local notation "bA0" => Cert.KernelIdeal.cc0_scratch0
local notation "bA1" => Cert.KernelIdeal.cc0_scratch1
local notation "bB0" => Cert.KernelIdeal.cc0_scratch2
local notation "bB1" => Cert.KernelIdeal.cc0_scratch3
local notation "bRA" => Cert.KernelIdeal.cc0_scratch4
local notation "bRB" => Cert.KernelIdeal.cc0_scratch5
local notation "ixA0" => (Memref.whole Cert.KernelIdeal.cc0_scratch0 : Memref Cert.KernelIdeal.sig Kind.scVector Space.vmem Cert.KernelIdeal.S128 EltTy.i32)
local notation "ixA1" => (Memref.whole Cert.KernelIdeal.cc0_scratch1 : Memref Cert.KernelIdeal.sig Kind.scVector Space.vmem Cert.KernelIdeal.S128 EltTy.i32)
local notation "ixB0" => (Memref.whole Cert.KernelIdeal.cc0_scratch2 : Memref Cert.KernelIdeal.sig Kind.scVector Space.vmem Cert.KernelIdeal.S128 EltTy.i32)
local notation "ixB1" => (Memref.whole Cert.KernelIdeal.cc0_scratch3 : Memref Cert.KernelIdeal.sig Kind.scVector Space.vmem Cert.KernelIdeal.S128 EltTy.i32)
local notation "rowA" => (Memref.whole Cert.KernelIdeal.cc0_scratch4 : Memref Cert.KernelIdeal.sig Kind.scVector Space.vmem Cert.KernelIdeal.S128x256 EltTy.f32)
local notation "rowB" => (Memref.whole Cert.KernelIdeal.cc0_scratch5 : Memref Cert.KernelIdeal.sig Kind.scVector Space.vmem Cert.KernelIdeal.S128x256 EltTy.f32)
local notation "gA0" => Cert.KernelIdeal.cc0_scratch6
local notation "gA1" => Cert.KernelIdeal.cc0_scratch7
local notation "gB0" => Cert.KernelIdeal.cc0_scratch8
local notation "gB1" => Cert.KernelIdeal.cc0_scratch9
local notation "sc0" => Cert.KernelIdeal.cc0_scoped0
local notation "sc1" => Cert.KernelIdeal.cc0_scoped1
local notation "sc2" => Cert.KernelIdeal.cc0_scoped2
local notation "sc3" => Cert.KernelIdeal.cc0_scoped3
local notation "sc4" => Cert.KernelIdeal.cc0_scoped4
local notation "sc5" => Cert.KernelIdeal.cc0_scoped5
local notation "sc6" => Cert.KernelIdeal.cc0_scoped6
local notation "sc7" => Cert.KernelIdeal.cc0_scoped7
local notation "sc8" => Cert.KernelIdeal.cc0_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.KernelIdeal.Sc

end
-- ==== Proof.ScBody0VI.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody0CI

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v6
local notation "cidsR" => Cert.KernelIdeal.main_v8
local notation "idtR" => Cert.KernelIdeal.main_arg2
local notation "catR" => Cert.KernelIdeal.main_arg3
local notation "outR" => Cert.KernelIdeal.main_v9
local notation "idsM" => (Memref.whole Cert.KernelIdeal.main_v6_scv : Memref Cert.KernelIdeal.sig Kind.scVector Space.hbm Cert.KernelIdeal.S102400 EltTy.i32)
local notation "cidsM" => (Memref.whole Cert.KernelIdeal.main_v8_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v9_scv : Memref Cert.KernelIdeal.sig Kind.scVector Space.hbm Cert.KernelIdeal.S102400x256 EltTy.f32)
local notation "bA0" => Cert.KernelIdeal.cc0_scratch0
local notation "bA1" => Cert.KernelIdeal.cc0_scratch1
local notation "bB0" => Cert.KernelIdeal.cc0_scratch2
local notation "bB1" => Cert.KernelIdeal.cc0_scratch3
local notation "bRA" => Cert.KernelIdeal.cc0_scratch4
local notation "bRB" => Cert.KernelIdeal.cc0_scratch5
local notation "ixA0" => (Memref.whole Cert.KernelIdeal.cc0_scratch0 : Memref Cert.KernelIdeal.sig Kind.scVector Space.vmem Cert.KernelIdeal.S128 EltTy.i32)
local notation "ixA1" => (Memref.whole Cert.KernelIdeal.cc0_scratch1 : Memref Cert.KernelIdeal.sig Kind.scVector Space.vmem Cert.KernelIdeal.S128 EltTy.i32)
local notation "ixB0" => (Memref.whole Cert.KernelIdeal.cc0_scratch2 : Memref Cert.KernelIdeal.sig Kind.scVector Space.vmem Cert.KernelIdeal.S128 EltTy.i32)
local notation "ixB1" => (Memref.whole Cert.KernelIdeal.cc0_scratch3 : Memref Cert.KernelIdeal.sig Kind.scVector Space.vmem Cert.KernelIdeal.S128 EltTy.i32)
local notation "rowA" => (Memref.whole Cert.KernelIdeal.cc0_scratch4 : Memref Cert.KernelIdeal.sig Kind.scVector Space.vmem Cert.KernelIdeal.S128x256 EltTy.f32)
local notation "rowB" => (Memref.whole Cert.KernelIdeal.cc0_scratch5 : Memref Cert.KernelIdeal.sig Kind.scVector Space.vmem Cert.KernelIdeal.S128x256 EltTy.f32)
local notation "gA0" => Cert.KernelIdeal.cc0_scratch6
local notation "gA1" => Cert.KernelIdeal.cc0_scratch7
local notation "gB0" => Cert.KernelIdeal.cc0_scratch8
local notation "gB1" => Cert.KernelIdeal.cc0_scratch9
local notation "sc0" => Cert.KernelIdeal.cc0_scoped0
local notation "sc1" => Cert.KernelIdeal.cc0_scoped1
local notation "sc2" => Cert.KernelIdeal.cc0_scoped2
local notation "sc3" => Cert.KernelIdeal.cc0_scoped3
local notation "sc4" => Cert.KernelIdeal.cc0_scoped4
local notation "sc5" => Cert.KernelIdeal.cc0_scoped5
local notation "sc6" => Cert.KernelIdeal.cc0_scoped6
local notation "sc7" => Cert.KernelIdeal.cc0_scoped7
local notation "sc8" => Cert.KernelIdeal.cc0_scoped8

variable [FloatOps F]

set_option maxHeartbeats 4000000 in
set_option maxRecDepth 65536 in
theorem tile_body0v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.KernelIdeal.Sc

end
-- ==== Proof.ScBody1AI.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResI

noncomputable section

namespace Cert.KernelIdeal.Sc.B1

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v11
local notation "cidsR" => Cert.KernelIdeal.main_v13
local notation "idtR" => Cert.KernelIdeal.main_arg2
local notation "catR" => Cert.KernelIdeal.main_arg3
local notation "outR" => Cert.KernelIdeal.main_v14
local notation "idsM" => (Memref.whole Cert.KernelIdeal.main_v11_scv : Memref Cert.KernelIdeal.sig Kind.scVector Space.hbm Cert.KernelIdeal.S102400 EltTy.i32)
local notation "cidsM" => (Memref.whole Cert.KernelIdeal.main_v13_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v14_scv : Memref Cert.KernelIdeal.sig Kind.scVector Space.hbm Cert.KernelIdeal.S102400x256 EltTy.f32)
local notation "bA0" => Cert.KernelIdeal.cc1_scratch0
local notation "bA1" => Cert.KernelIdeal.cc1_scratch1
local notation "bB0" => Cert.KernelIdeal.cc1_scratch2
local notation "bB1" => Cert.KernelIdeal.cc1_scratch3
local notation "bRA" => Cert.KernelIdeal.cc1_scratch4
local notation "bRB" => Cert.KernelIdeal.cc1_scratch5
local notation "ixA0" => (Memref.whole Cert.KernelIdeal.cc1_scratch0 : Memref Cert.KernelIdeal.sig Kind.scVector Space.vmem Cert.KernelIdeal.S128 EltTy.i32)
local notation "ixA1" => (Memref.whole Cert.KernelIdeal.cc1_scratch1 : Memref Cert.KernelIdeal.sig Kind.scVector Space.vmem Cert.KernelIdeal.S128 EltTy.i32)
local notation "ixB0" => (Memref.whole Cert.KernelIdeal.cc1_scratch2 : Memref Cert.KernelIdeal.sig Kind.scVector Space.vmem Cert.KernelIdeal.S128 EltTy.i32)
local notation "ixB1" => (Memref.whole Cert.KernelIdeal.cc1_scratch3 : Memref Cert.KernelIdeal.sig Kind.scVector Space.vmem Cert.KernelIdeal.S128 EltTy.i32)
local notation "rowA" => (Memref.whole Cert.KernelIdeal.cc1_scratch4 : Memref Cert.KernelIdeal.sig Kind.scVector Space.vmem Cert.KernelIdeal.S128x256 EltTy.f32)
local notation "rowB" => (Memref.whole Cert.KernelIdeal.cc1_scratch5 : Memref Cert.KernelIdeal.sig Kind.scVector Space.vmem Cert.KernelIdeal.S128x256 EltTy.f32)
local notation "gA0" => Cert.KernelIdeal.cc1_scratch6
local notation "gA1" => Cert.KernelIdeal.cc1_scratch7
local notation "gB0" => Cert.KernelIdeal.cc1_scratch8
local notation "gB1" => Cert.KernelIdeal.cc1_scratch9
local notation "sc0" => Cert.KernelIdeal.cc1_scoped0
local notation "sc1" => Cert.KernelIdeal.cc1_scoped1
local notation "sc2" => Cert.KernelIdeal.cc1_scoped2
local notation "sc3" => Cert.KernelIdeal.cc1_scoped3
local notation "sc4" => Cert.KernelIdeal.cc1_scoped4
local notation "sc5" => Cert.KernelIdeal.cc1_scoped5
local notation "sc6" => Cert.KernelIdeal.cc1_scoped6
local notation "sc7" => Cert.KernelIdeal.cc1_scoped7
local notation "sc8" => Cert.KernelIdeal.cc1_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v14_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v14_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v14_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.KernelIdeal.Sc.B1

end
-- ==== Proof.ScBody1BI.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody1AI

noncomputable section

namespace Cert.KernelIdeal.Sc.B1

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v11
local notation "cidsR" => Cert.KernelIdeal.main_v13
local notation "idtR" => Cert.KernelIdeal.main_arg2
local notation "catR" => Cert.KernelIdeal.main_arg3
local notation "outR" => Cert.KernelIdeal.main_v14
local notation "idsM" => (Memref.whole Cert.KernelIdeal.main_v11_scv : Memref Cert.KernelIdeal.sig Kind.scVector Space.hbm Cert.KernelIdeal.S102400 EltTy.i32)
local notation "cidsM" => (Memref.whole Cert.KernelIdeal.main_v13_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v14_scv : Memref Cert.KernelIdeal.sig Kind.scVector Space.hbm Cert.KernelIdeal.S102400x256 EltTy.f32)
local notation "bA0" => Cert.KernelIdeal.cc1_scratch0
local notation "bA1" => Cert.KernelIdeal.cc1_scratch1
local notation "bB0" => Cert.KernelIdeal.cc1_scratch2
local notation "bB1" => Cert.KernelIdeal.cc1_scratch3
local notation "bRA" => Cert.KernelIdeal.cc1_scratch4
local notation "bRB" => Cert.KernelIdeal.cc1_scratch5
local notation "ixA0" => (Memref.whole Cert.KernelIdeal.cc1_scratch0 : Memref Cert.KernelIdeal.sig Kind.scVector Space.vmem Cert.KernelIdeal.S128 EltTy.i32)
local notation "ixA1" => (Memref.whole Cert.KernelIdeal.cc1_scratch1 : Memref Cert.KernelIdeal.sig Kind.scVector Space.vmem Cert.KernelIdeal.S128 EltTy.i32)
local notation "ixB0" => (Memref.whole Cert.KernelIdeal.cc1_scratch2 : Memref Cert.KernelIdeal.sig Kind.scVector Space.vmem Cert.KernelIdeal.S128 EltTy.i32)
local notation "ixB1" => (Memref.whole Cert.KernelIdeal.cc1_scratch3 : Memref Cert.KernelIdeal.sig Kind.scVector Space.vmem Cert.KernelIdeal.S128 EltTy.i32)
local notation "rowA" => (Memref.whole Cert.KernelIdeal.cc1_scratch4 : Memref Cert.KernelIdeal.sig Kind.scVector Space.vmem Cert.KernelIdeal.S128x256 EltTy.f32)
local notation "rowB" => (Memref.whole Cert.KernelIdeal.cc1_scratch5 : Memref Cert.KernelIdeal.sig Kind.scVector Space.vmem Cert.KernelIdeal.S128x256 EltTy.f32)
local notation "gA0" => Cert.KernelIdeal.cc1_scratch6
local notation "gA1" => Cert.KernelIdeal.cc1_scratch7
local notation "gB0" => Cert.KernelIdeal.cc1_scratch8
local notation "gB1" => Cert.KernelIdeal.cc1_scratch9
local notation "sc0" => Cert.KernelIdeal.cc1_scoped0
local notation "sc1" => Cert.KernelIdeal.cc1_scoped1
local notation "sc2" => Cert.KernelIdeal.cc1_scoped2
local notation "sc3" => Cert.KernelIdeal.cc1_scoped3
local notation "sc4" => Cert.KernelIdeal.cc1_scoped4
local notation "sc5" => Cert.KernelIdeal.cc1_scoped5
local notation "sc6" => Cert.KernelIdeal.cc1_scoped6
local notation "sc7" => Cert.KernelIdeal.cc1_scoped7
local notation "sc8" => Cert.KernelIdeal.cc1_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.KernelIdeal.Sc.B1

end
-- ==== Proof.ScBody1CI.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody1BI

noncomputable section

namespace Cert.KernelIdeal.Sc.B1

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v11
local notation "cidsR" => Cert.KernelIdeal.main_v13
local notation "idtR" => Cert.KernelIdeal.main_arg2
local notation "catR" => Cert.KernelIdeal.main_arg3
local notation "outR" => Cert.KernelIdeal.main_v14
local notation "idsM" => (Memref.whole Cert.KernelIdeal.main_v11_scv : Memref Cert.KernelIdeal.sig Kind.scVector Space.hbm Cert.KernelIdeal.S102400 EltTy.i32)
local notation "cidsM" => (Memref.whole Cert.KernelIdeal.main_v13_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v14_scv : Memref Cert.KernelIdeal.sig Kind.scVector Space.hbm Cert.KernelIdeal.S102400x256 EltTy.f32)
local notation "bA0" => Cert.KernelIdeal.cc1_scratch0
local notation "bA1" => Cert.KernelIdeal.cc1_scratch1
local notation "bB0" => Cert.KernelIdeal.cc1_scratch2
local notation "bB1" => Cert.KernelIdeal.cc1_scratch3
local notation "bRA" => Cert.KernelIdeal.cc1_scratch4
local notation "bRB" => Cert.KernelIdeal.cc1_scratch5
local notation "ixA0" => (Memref.whole Cert.KernelIdeal.cc1_scratch0 : Memref Cert.KernelIdeal.sig Kind.scVector Space.vmem Cert.KernelIdeal.S128 EltTy.i32)
local notation "ixA1" => (Memref.whole Cert.KernelIdeal.cc1_scratch1 : Memref Cert.KernelIdeal.sig Kind.scVector Space.vmem Cert.KernelIdeal.S128 EltTy.i32)
local notation "ixB0" => (Memref.whole Cert.KernelIdeal.cc1_scratch2 : Memref Cert.KernelIdeal.sig Kind.scVector Space.vmem Cert.KernelIdeal.S128 EltTy.i32)
local notation "ixB1" => (Memref.whole Cert.KernelIdeal.cc1_scratch3 : Memref Cert.KernelIdeal.sig Kind.scVector Space.vmem Cert.KernelIdeal.S128 EltTy.i32)
local notation "rowA" => (Memref.whole Cert.KernelIdeal.cc1_scratch4 : Memref Cert.KernelIdeal.sig Kind.scVector Space.vmem Cert.KernelIdeal.S128x256 EltTy.f32)
local notation "rowB" => (Memref.whole Cert.KernelIdeal.cc1_scratch5 : Memref Cert.KernelIdeal.sig Kind.scVector Space.vmem Cert.KernelIdeal.S128x256 EltTy.f32)
local notation "gA0" => Cert.KernelIdeal.cc1_scratch6
local notation "gA1" => Cert.KernelIdeal.cc1_scratch7
local notation "gB0" => Cert.KernelIdeal.cc1_scratch8
local notation "gB1" => Cert.KernelIdeal.cc1_scratch9
local notation "sc0" => Cert.KernelIdeal.cc1_scoped0
local notation "sc1" => Cert.KernelIdeal.cc1_scoped1
local notation "sc2" => Cert.KernelIdeal.cc1_scoped2
local notation "sc3" => Cert.KernelIdeal.cc1_scoped3
local notation "sc4" => Cert.KernelIdeal.cc1_scoped4
local notation "sc5" => Cert.KernelIdeal.cc1_scoped5
local notation "sc6" => Cert.KernelIdeal.cc1_scoped6
local notation "sc7" => Cert.KernelIdeal.cc1_scoped7
local notation "sc8" => Cert.KernelIdeal.cc1_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.KernelIdeal.Sc.B1

end
-- ==== Proof.ScBody1VI.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody1CI

noncomputable section

namespace Cert.KernelIdeal.Sc.B1

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v11
local notation "cidsR" => Cert.KernelIdeal.main_v13
local notation "idtR" => Cert.KernelIdeal.main_arg2
local notation "catR" => Cert.KernelIdeal.main_arg3
local notation "outR" => Cert.KernelIdeal.main_v14
local notation "idsM" => (Memref.whole Cert.KernelIdeal.main_v11_scv : Memref Cert.KernelIdeal.sig Kind.scVector Space.hbm Cert.KernelIdeal.S102400 EltTy.i32)
local notation "cidsM" => (Memref.whole Cert.KernelIdeal.main_v13_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v14_scv : Memref Cert.KernelIdeal.sig Kind.scVector Space.hbm Cert.KernelIdeal.S102400x256 EltTy.f32)
local notation "bA0" => Cert.KernelIdeal.cc1_scratch0
local notation "bA1" => Cert.KernelIdeal.cc1_scratch1
local notation "bB0" => Cert.KernelIdeal.cc1_scratch2
local notation "bB1" => Cert.KernelIdeal.cc1_scratch3
local notation "bRA" => Cert.KernelIdeal.cc1_scratch4
local notation "bRB" => Cert.KernelIdeal.cc1_scratch5
local notation "ixA0" => (Memref.whole Cert.KernelIdeal.cc1_scratch0 : Memref Cert.KernelIdeal.sig Kind.scVector Space.vmem Cert.KernelIdeal.S128 EltTy.i32)
local notation "ixA1" => (Memref.whole Cert.KernelIdeal.cc1_scratch1 : Memref Cert.KernelIdeal.sig Kind.scVector Space.vmem Cert.KernelIdeal.S128 EltTy.i32)
local notation "ixB0" => (Memref.whole Cert.KernelIdeal.cc1_scratch2 : Memref Cert.KernelIdeal.sig Kind.scVector Space.vmem Cert.KernelIdeal.S128 EltTy.i32)
local notation "ixB1" => (Memref.whole Cert.KernelIdeal.cc1_scratch3 : Memref Cert.KernelIdeal.sig Kind.scVector Space.vmem Cert.KernelIdeal.S128 EltTy.i32)
local notation "rowA" => (Memref.whole Cert.KernelIdeal.cc1_scratch4 : Memref Cert.KernelIdeal.sig Kind.scVector Space.vmem Cert.KernelIdeal.S128x256 EltTy.f32)
local notation "rowB" => (Memref.whole Cert.KernelIdeal.cc1_scratch5 : Memref Cert.KernelIdeal.sig Kind.scVector Space.vmem Cert.KernelIdeal.S128x256 EltTy.f32)
local notation "gA0" => Cert.KernelIdeal.cc1_scratch6
local notation "gA1" => Cert.KernelIdeal.cc1_scratch7
local notation "gB0" => Cert.KernelIdeal.cc1_scratch8
local notation "gB1" => Cert.KernelIdeal.cc1_scratch9
local notation "sc0" => Cert.KernelIdeal.cc1_scoped0
local notation "sc1" => Cert.KernelIdeal.cc1_scoped1
local notation "sc2" => Cert.KernelIdeal.cc1_scoped2
local notation "sc3" => Cert.KernelIdeal.cc1_scoped3
local notation "sc4" => Cert.KernelIdeal.cc1_scoped4
local notation "sc5" => Cert.KernelIdeal.cc1_scoped5
local notation "sc6" => Cert.KernelIdeal.cc1_scoped6
local notation "sc7" => Cert.KernelIdeal.cc1_scoped7
local notation "sc8" => Cert.KernelIdeal.cc1_scoped8

variable [FloatOps F]

set_option maxHeartbeats 4000000 in
set_option maxRecDepth 65536 in
theorem tile_body1v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.KernelIdeal.Sc.B1

end
-- ==== Proof.ScBody2AI.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResI

noncomputable section

namespace Cert.KernelIdeal.Sc.B2

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v16
local notation "cidsR" => Cert.KernelIdeal.main_v18
local notation "idtR" => Cert.KernelIdeal.main_arg2
local notation "catR" => Cert.KernelIdeal.main_arg3
local notation "outR" => Cert.KernelIdeal.main_v19
local notation "idsM" => (Memref.whole Cert.KernelIdeal.main_v16_scv : Memref Cert.KernelIdeal.sig Kind.scVector Space.hbm Cert.KernelIdeal.S102400 EltTy.i32)
local notation "cidsM" => (Memref.whole Cert.KernelIdeal.main_v18_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v19_scv : Memref Cert.KernelIdeal.sig Kind.scVector Space.hbm Cert.KernelIdeal.S102400x256 EltTy.f32)
local notation "bA0" => Cert.KernelIdeal.cc2_scratch0
local notation "bA1" => Cert.KernelIdeal.cc2_scratch1
local notation "bB0" => Cert.KernelIdeal.cc2_scratch2
local notation "bB1" => Cert.KernelIdeal.cc2_scratch3
local notation "bRA" => Cert.KernelIdeal.cc2_scratch4
local notation "bRB" => Cert.KernelIdeal.cc2_scratch5
local notation "ixA0" => (Memref.whole Cert.KernelIdeal.cc2_scratch0 : Memref Cert.KernelIdeal.sig Kind.scVector Space.vmem Cert.KernelIdeal.S128 EltTy.i32)
local notation "ixA1" => (Memref.whole Cert.KernelIdeal.cc2_scratch1 : Memref Cert.KernelIdeal.sig Kind.scVector Space.vmem Cert.KernelIdeal.S128 EltTy.i32)
local notation "ixB0" => (Memref.whole Cert.KernelIdeal.cc2_scratch2 : Memref Cert.KernelIdeal.sig Kind.scVector Space.vmem Cert.KernelIdeal.S128 EltTy.i32)
local notation "ixB1" => (Memref.whole Cert.KernelIdeal.cc2_scratch3 : Memref Cert.KernelIdeal.sig Kind.scVector Space.vmem Cert.KernelIdeal.S128 EltTy.i32)
local notation "rowA" => (Memref.whole Cert.KernelIdeal.cc2_scratch4 : Memref Cert.KernelIdeal.sig Kind.scVector Space.vmem Cert.KernelIdeal.S128x256 EltTy.f32)
local notation "rowB" => (Memref.whole Cert.KernelIdeal.cc2_scratch5 : Memref Cert.KernelIdeal.sig Kind.scVector Space.vmem Cert.KernelIdeal.S128x256 EltTy.f32)
local notation "gA0" => Cert.KernelIdeal.cc2_scratch6
local notation "gA1" => Cert.KernelIdeal.cc2_scratch7
local notation "gB0" => Cert.KernelIdeal.cc2_scratch8
local notation "gB1" => Cert.KernelIdeal.cc2_scratch9
local notation "sc0" => Cert.KernelIdeal.cc2_scoped0
local notation "sc1" => Cert.KernelIdeal.cc2_scoped1
local notation "sc2" => Cert.KernelIdeal.cc2_scoped2
local notation "sc3" => Cert.KernelIdeal.cc2_scoped3
local notation "sc4" => Cert.KernelIdeal.cc2_scoped4
local notation "sc5" => Cert.KernelIdeal.cc2_scoped5
local notation "sc6" => Cert.KernelIdeal.cc2_scoped6
local notation "sc7" => Cert.KernelIdeal.cc2_scoped7
local notation "sc8" => Cert.KernelIdeal.cc2_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v19_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v19_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v19_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.KernelIdeal.Sc.B2

end
-- ==== Proof.ScBody2BI.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody2AI

noncomputable section

namespace Cert.KernelIdeal.Sc.B2

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v16
local notation "cidsR" => Cert.KernelIdeal.main_v18
local notation "idtR" => Cert.KernelIdeal.main_arg2
local notation "catR" => Cert.KernelIdeal.main_arg3
local notation "outR" => Cert.KernelIdeal.main_v19
local notation "idsM" => (Memref.whole Cert.KernelIdeal.main_v16_scv : Memref Cert.KernelIdeal.sig Kind.scVector Space.hbm Cert.KernelIdeal.S102400 EltTy.i32)
local notation "cidsM" => (Memref.whole Cert.KernelIdeal.main_v18_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v19_scv : Memref Cert.KernelIdeal.sig Kind.scVector Space.hbm Cert.KernelIdeal.S102400x256 EltTy.f32)
local notation "bA0" => Cert.KernelIdeal.cc2_scratch0
local notation "bA1" => Cert.KernelIdeal.cc2_scratch1
local notation "bB0" => Cert.KernelIdeal.cc2_scratch2
local notation "bB1" => Cert.KernelIdeal.cc2_scratch3
local notation "bRA" => Cert.KernelIdeal.cc2_scratch4
local notation "bRB" => Cert.KernelIdeal.cc2_scratch5
local notation "ixA0" => (Memref.whole Cert.KernelIdeal.cc2_scratch0 : Memref Cert.KernelIdeal.sig Kind.scVector Space.vmem Cert.KernelIdeal.S128 EltTy.i32)
local notation "ixA1" => (Memref.whole Cert.KernelIdeal.cc2_scratch1 : Memref Cert.KernelIdeal.sig Kind.scVector Space.vmem Cert.KernelIdeal.S128 EltTy.i32)
local notation "ixB0" => (Memref.whole Cert.KernelIdeal.cc2_scratch2 : Memref Cert.KernelIdeal.sig Kind.scVector Space.vmem Cert.KernelIdeal.S128 EltTy.i32)
local notation "ixB1" => (Memref.whole Cert.KernelIdeal.cc2_scratch3 : Memref Cert.KernelIdeal.sig Kind.scVector Space.vmem Cert.KernelIdeal.S128 EltTy.i32)
local notation "rowA" => (Memref.whole Cert.KernelIdeal.cc2_scratch4 : Memref Cert.KernelIdeal.sig Kind.scVector Space.vmem Cert.KernelIdeal.S128x256 EltTy.f32)
local notation "rowB" => (Memref.whole Cert.KernelIdeal.cc2_scratch5 : Memref Cert.KernelIdeal.sig Kind.scVector Space.vmem Cert.KernelIdeal.S128x256 EltTy.f32)
local notation "gA0" => Cert.KernelIdeal.cc2_scratch6
local notation "gA1" => Cert.KernelIdeal.cc2_scratch7
local notation "gB0" => Cert.KernelIdeal.cc2_scratch8
local notation "gB1" => Cert.KernelIdeal.cc2_scratch9
local notation "sc0" => Cert.KernelIdeal.cc2_scoped0
local notation "sc1" => Cert.KernelIdeal.cc2_scoped1
local notation "sc2" => Cert.KernelIdeal.cc2_scoped2
local notation "sc3" => Cert.KernelIdeal.cc2_scoped3
local notation "sc4" => Cert.KernelIdeal.cc2_scoped4
local notation "sc5" => Cert.KernelIdeal.cc2_scoped5
local notation "sc6" => Cert.KernelIdeal.cc2_scoped6
local notation "sc7" => Cert.KernelIdeal.cc2_scoped7
local notation "sc8" => Cert.KernelIdeal.cc2_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.KernelIdeal.Sc.B2

end
-- ==== Proof.ScBody2CI.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody2BI

noncomputable section

namespace Cert.KernelIdeal.Sc.B2

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v16
local notation "cidsR" => Cert.KernelIdeal.main_v18
local notation "idtR" => Cert.KernelIdeal.main_arg2
local notation "catR" => Cert.KernelIdeal.main_arg3
local notation "outR" => Cert.KernelIdeal.main_v19
local notation "idsM" => (Memref.whole Cert.KernelIdeal.main_v16_scv : Memref Cert.KernelIdeal.sig Kind.scVector Space.hbm Cert.KernelIdeal.S102400 EltTy.i32)
local notation "cidsM" => (Memref.whole Cert.KernelIdeal.main_v18_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v19_scv : Memref Cert.KernelIdeal.sig Kind.scVector Space.hbm Cert.KernelIdeal.S102400x256 EltTy.f32)
local notation "bA0" => Cert.KernelIdeal.cc2_scratch0
local notation "bA1" => Cert.KernelIdeal.cc2_scratch1
local notation "bB0" => Cert.KernelIdeal.cc2_scratch2
local notation "bB1" => Cert.KernelIdeal.cc2_scratch3
local notation "bRA" => Cert.KernelIdeal.cc2_scratch4
local notation "bRB" => Cert.KernelIdeal.cc2_scratch5
local notation "ixA0" => (Memref.whole Cert.KernelIdeal.cc2_scratch0 : Memref Cert.KernelIdeal.sig Kind.scVector Space.vmem Cert.KernelIdeal.S128 EltTy.i32)
local notation "ixA1" => (Memref.whole Cert.KernelIdeal.cc2_scratch1 : Memref Cert.KernelIdeal.sig Kind.scVector Space.vmem Cert.KernelIdeal.S128 EltTy.i32)
local notation "ixB0" => (Memref.whole Cert.KernelIdeal.cc2_scratch2 : Memref Cert.KernelIdeal.sig Kind.scVector Space.vmem Cert.KernelIdeal.S128 EltTy.i32)
local notation "ixB1" => (Memref.whole Cert.KernelIdeal.cc2_scratch3 : Memref Cert.KernelIdeal.sig Kind.scVector Space.vmem Cert.KernelIdeal.S128 EltTy.i32)
local notation "rowA" => (Memref.whole Cert.KernelIdeal.cc2_scratch4 : Memref Cert.KernelIdeal.sig Kind.scVector Space.vmem Cert.KernelIdeal.S128x256 EltTy.f32)
local notation "rowB" => (Memref.whole Cert.KernelIdeal.cc2_scratch5 : Memref Cert.KernelIdeal.sig Kind.scVector Space.vmem Cert.KernelIdeal.S128x256 EltTy.f32)
local notation "gA0" => Cert.KernelIdeal.cc2_scratch6
local notation "gA1" => Cert.KernelIdeal.cc2_scratch7
local notation "gB0" => Cert.KernelIdeal.cc2_scratch8
local notation "gB1" => Cert.KernelIdeal.cc2_scratch9
local notation "sc0" => Cert.KernelIdeal.cc2_scoped0
local notation "sc1" => Cert.KernelIdeal.cc2_scoped1
local notation "sc2" => Cert.KernelIdeal.cc2_scoped2
local notation "sc3" => Cert.KernelIdeal.cc2_scoped3
local notation "sc4" => Cert.KernelIdeal.cc2_scoped4
local notation "sc5" => Cert.KernelIdeal.cc2_scoped5
local notation "sc6" => Cert.KernelIdeal.cc2_scoped6
local notation "sc7" => Cert.KernelIdeal.cc2_scoped7
local notation "sc8" => Cert.KernelIdeal.cc2_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.KernelIdeal.Sc.B2

end
-- ==== Proof.ScBody2VI.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody2CI

noncomputable section

namespace Cert.KernelIdeal.Sc.B2

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v16
local notation "cidsR" => Cert.KernelIdeal.main_v18
local notation "idtR" => Cert.KernelIdeal.main_arg2
local notation "catR" => Cert.KernelIdeal.main_arg3
local notation "outR" => Cert.KernelIdeal.main_v19
local notation "idsM" => (Memref.whole Cert.KernelIdeal.main_v16_scv : Memref Cert.KernelIdeal.sig Kind.scVector Space.hbm Cert.KernelIdeal.S102400 EltTy.i32)
local notation "cidsM" => (Memref.whole Cert.KernelIdeal.main_v18_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v19_scv : Memref Cert.KernelIdeal.sig Kind.scVector Space.hbm Cert.KernelIdeal.S102400x256 EltTy.f32)
local notation "bA0" => Cert.KernelIdeal.cc2_scratch0
local notation "bA1" => Cert.KernelIdeal.cc2_scratch1
local notation "bB0" => Cert.KernelIdeal.cc2_scratch2
local notation "bB1" => Cert.KernelIdeal.cc2_scratch3
local notation "bRA" => Cert.KernelIdeal.cc2_scratch4
local notation "bRB" => Cert.KernelIdeal.cc2_scratch5
local notation "ixA0" => (Memref.whole Cert.KernelIdeal.cc2_scratch0 : Memref Cert.KernelIdeal.sig Kind.scVector Space.vmem Cert.KernelIdeal.S128 EltTy.i32)
local notation "ixA1" => (Memref.whole Cert.KernelIdeal.cc2_scratch1 : Memref Cert.KernelIdeal.sig Kind.scVector Space.vmem Cert.KernelIdeal.S128 EltTy.i32)
local notation "ixB0" => (Memref.whole Cert.KernelIdeal.cc2_scratch2 : Memref Cert.KernelIdeal.sig Kind.scVector Space.vmem Cert.KernelIdeal.S128 EltTy.i32)
local notation "ixB1" => (Memref.whole Cert.KernelIdeal.cc2_scratch3 : Memref Cert.KernelIdeal.sig Kind.scVector Space.vmem Cert.KernelIdeal.S128 EltTy.i32)
local notation "rowA" => (Memref.whole Cert.KernelIdeal.cc2_scratch4 : Memref Cert.KernelIdeal.sig Kind.scVector Space.vmem Cert.KernelIdeal.S128x256 EltTy.f32)
local notation "rowB" => (Memref.whole Cert.KernelIdeal.cc2_scratch5 : Memref Cert.KernelIdeal.sig Kind.scVector Space.vmem Cert.KernelIdeal.S128x256 EltTy.f32)
local notation "gA0" => Cert.KernelIdeal.cc2_scratch6
local notation "gA1" => Cert.KernelIdeal.cc2_scratch7
local notation "gB0" => Cert.KernelIdeal.cc2_scratch8
local notation "gB1" => Cert.KernelIdeal.cc2_scratch9
local notation "sc0" => Cert.KernelIdeal.cc2_scoped0
local notation "sc1" => Cert.KernelIdeal.cc2_scoped1
local notation "sc2" => Cert.KernelIdeal.cc2_scoped2
local notation "sc3" => Cert.KernelIdeal.cc2_scoped3
local notation "sc4" => Cert.KernelIdeal.cc2_scoped4
local notation "sc5" => Cert.KernelIdeal.cc2_scoped5
local notation "sc6" => Cert.KernelIdeal.cc2_scoped6
local notation "sc7" => Cert.KernelIdeal.cc2_scoped7
local notation "sc8" => Cert.KernelIdeal.cc2_scoped8

variable [FloatOps F]

set_option maxHeartbeats 4000000 in
set_option maxRecDepth 65536 in
theorem tile_body2v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.KernelIdeal.Sc.B2

end
-- ==== Proof.ScBody3AI.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResI

noncomputable section

namespace Cert.KernelIdeal.Sc.B3

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v21
local notation "cidsR" => Cert.KernelIdeal.main_v23
local notation "idtR" => Cert.KernelIdeal.main_arg2
local notation "catR" => Cert.KernelIdeal.main_arg3
local notation "outR" => Cert.KernelIdeal.main_v24
local notation "idsM" => (Memref.whole Cert.KernelIdeal.main_v21_scv : Memref Cert.KernelIdeal.sig Kind.scVector Space.hbm Cert.KernelIdeal.S102400 EltTy.i32)
local notation "cidsM" => (Memref.whole Cert.KernelIdeal.main_v23_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v24_scv : Memref Cert.KernelIdeal.sig Kind.scVector Space.hbm Cert.KernelIdeal.S102400x256 EltTy.f32)
local notation "bA0" => Cert.KernelIdeal.cc3_scratch0
local notation "bA1" => Cert.KernelIdeal.cc3_scratch1
local notation "bB0" => Cert.KernelIdeal.cc3_scratch2
local notation "bB1" => Cert.KernelIdeal.cc3_scratch3
local notation "bRA" => Cert.KernelIdeal.cc3_scratch4
local notation "bRB" => Cert.KernelIdeal.cc3_scratch5
local notation "ixA0" => (Memref.whole Cert.KernelIdeal.cc3_scratch0 : Memref Cert.KernelIdeal.sig Kind.scVector Space.vmem Cert.KernelIdeal.S128 EltTy.i32)
local notation "ixA1" => (Memref.whole Cert.KernelIdeal.cc3_scratch1 : Memref Cert.KernelIdeal.sig Kind.scVector Space.vmem Cert.KernelIdeal.S128 EltTy.i32)
local notation "ixB0" => (Memref.whole Cert.KernelIdeal.cc3_scratch2 : Memref Cert.KernelIdeal.sig Kind.scVector Space.vmem Cert.KernelIdeal.S128 EltTy.i32)
local notation "ixB1" => (Memref.whole Cert.KernelIdeal.cc3_scratch3 : Memref Cert.KernelIdeal.sig Kind.scVector Space.vmem Cert.KernelIdeal.S128 EltTy.i32)
local notation "rowA" => (Memref.whole Cert.KernelIdeal.cc3_scratch4 : Memref Cert.KernelIdeal.sig Kind.scVector Space.vmem Cert.KernelIdeal.S128x256 EltTy.f32)
local notation "rowB" => (Memref.whole Cert.KernelIdeal.cc3_scratch5 : Memref Cert.KernelIdeal.sig Kind.scVector Space.vmem Cert.KernelIdeal.S128x256 EltTy.f32)
local notation "gA0" => Cert.KernelIdeal.cc3_scratch6
local notation "gA1" => Cert.KernelIdeal.cc3_scratch7
local notation "gB0" => Cert.KernelIdeal.cc3_scratch8
local notation "gB1" => Cert.KernelIdeal.cc3_scratch9
local notation "sc0" => Cert.KernelIdeal.cc3_scoped0
local notation "sc1" => Cert.KernelIdeal.cc3_scoped1
local notation "sc2" => Cert.KernelIdeal.cc3_scoped2
local notation "sc3" => Cert.KernelIdeal.cc3_scoped3
local notation "sc4" => Cert.KernelIdeal.cc3_scoped4
local notation "sc5" => Cert.KernelIdeal.cc3_scoped5
local notation "sc6" => Cert.KernelIdeal.cc3_scoped6
local notation "sc7" => Cert.KernelIdeal.cc3_scoped7
local notation "sc8" => Cert.KernelIdeal.cc3_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v24_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v24_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v24_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.KernelIdeal.Sc.B3

end
-- ==== Proof.ScBody3BI.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody3AI

noncomputable section

namespace Cert.KernelIdeal.Sc.B3

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v21
local notation "cidsR" => Cert.KernelIdeal.main_v23
local notation "idtR" => Cert.KernelIdeal.main_arg2
local notation "catR" => Cert.KernelIdeal.main_arg3
local notation "outR" => Cert.KernelIdeal.main_v24
local notation "idsM" => (Memref.whole Cert.KernelIdeal.main_v21_scv : Memref Cert.KernelIdeal.sig Kind.scVector Space.hbm Cert.KernelIdeal.S102400 EltTy.i32)
local notation "cidsM" => (Memref.whole Cert.KernelIdeal.main_v23_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v24_scv : Memref Cert.KernelIdeal.sig Kind.scVector Space.hbm Cert.KernelIdeal.S102400x256 EltTy.f32)
local notation "bA0" => Cert.KernelIdeal.cc3_scratch0
local notation "bA1" => Cert.KernelIdeal.cc3_scratch1
local notation "bB0" => Cert.KernelIdeal.cc3_scratch2
local notation "bB1" => Cert.KernelIdeal.cc3_scratch3
local notation "bRA" => Cert.KernelIdeal.cc3_scratch4
local notation "bRB" => Cert.KernelIdeal.cc3_scratch5
local notation "ixA0" => (Memref.whole Cert.KernelIdeal.cc3_scratch0 : Memref Cert.KernelIdeal.sig Kind.scVector Space.vmem Cert.KernelIdeal.S128 EltTy.i32)
local notation "ixA1" => (Memref.whole Cert.KernelIdeal.cc3_scratch1 : Memref Cert.KernelIdeal.sig Kind.scVector Space.vmem Cert.KernelIdeal.S128 EltTy.i32)
local notation "ixB0" => (Memref.whole Cert.KernelIdeal.cc3_scratch2 : Memref Cert.KernelIdeal.sig Kind.scVector Space.vmem Cert.KernelIdeal.S128 EltTy.i32)
local notation "ixB1" => (Memref.whole Cert.KernelIdeal.cc3_scratch3 : Memref Cert.KernelIdeal.sig Kind.scVector Space.vmem Cert.KernelIdeal.S128 EltTy.i32)
local notation "rowA" => (Memref.whole Cert.KernelIdeal.cc3_scratch4 : Memref Cert.KernelIdeal.sig Kind.scVector Space.vmem Cert.KernelIdeal.S128x256 EltTy.f32)
local notation "rowB" => (Memref.whole Cert.KernelIdeal.cc3_scratch5 : Memref Cert.KernelIdeal.sig Kind.scVector Space.vmem Cert.KernelIdeal.S128x256 EltTy.f32)
local notation "gA0" => Cert.KernelIdeal.cc3_scratch6
local notation "gA1" => Cert.KernelIdeal.cc3_scratch7
local notation "gB0" => Cert.KernelIdeal.cc3_scratch8
local notation "gB1" => Cert.KernelIdeal.cc3_scratch9
local notation "sc0" => Cert.KernelIdeal.cc3_scoped0
local notation "sc1" => Cert.KernelIdeal.cc3_scoped1
local notation "sc2" => Cert.KernelIdeal.cc3_scoped2
local notation "sc3" => Cert.KernelIdeal.cc3_scoped3
local notation "sc4" => Cert.KernelIdeal.cc3_scoped4
local notation "sc5" => Cert.KernelIdeal.cc3_scoped5
local notation "sc6" => Cert.KernelIdeal.cc3_scoped6
local notation "sc7" => Cert.KernelIdeal.cc3_scoped7
local notation "sc8" => Cert.KernelIdeal.cc3_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.KernelIdeal.Sc.B3

end
-- ==== Proof.ScBody3CI.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody3BI

noncomputable section

namespace Cert.KernelIdeal.Sc.B3

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v21
local notation "cidsR" => Cert.KernelIdeal.main_v23
local notation "idtR" => Cert.KernelIdeal.main_arg2
local notation "catR" => Cert.KernelIdeal.main_arg3
local notation "outR" => Cert.KernelIdeal.main_v24
local notation "idsM" => (Memref.whole Cert.KernelIdeal.main_v21_scv : Memref Cert.KernelIdeal.sig Kind.scVector Space.hbm Cert.KernelIdeal.S102400 EltTy.i32)
local notation "cidsM" => (Memref.whole Cert.KernelIdeal.main_v23_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v24_scv : Memref Cert.KernelIdeal.sig Kind.scVector Space.hbm Cert.KernelIdeal.S102400x256 EltTy.f32)
local notation "bA0" => Cert.KernelIdeal.cc3_scratch0
local notation "bA1" => Cert.KernelIdeal.cc3_scratch1
local notation "bB0" => Cert.KernelIdeal.cc3_scratch2
local notation "bB1" => Cert.KernelIdeal.cc3_scratch3
local notation "bRA" => Cert.KernelIdeal.cc3_scratch4
local notation "bRB" => Cert.KernelIdeal.cc3_scratch5
local notation "ixA0" => (Memref.whole Cert.KernelIdeal.cc3_scratch0 : Memref Cert.KernelIdeal.sig Kind.scVector Space.vmem Cert.KernelIdeal.S128 EltTy.i32)
local notation "ixA1" => (Memref.whole Cert.KernelIdeal.cc3_scratch1 : Memref Cert.KernelIdeal.sig Kind.scVector Space.vmem Cert.KernelIdeal.S128 EltTy.i32)
local notation "ixB0" => (Memref.whole Cert.KernelIdeal.cc3_scratch2 : Memref Cert.KernelIdeal.sig Kind.scVector Space.vmem Cert.KernelIdeal.S128 EltTy.i32)
local notation "ixB1" => (Memref.whole Cert.KernelIdeal.cc3_scratch3 : Memref Cert.KernelIdeal.sig Kind.scVector Space.vmem Cert.KernelIdeal.S128 EltTy.i32)
local notation "rowA" => (Memref.whole Cert.KernelIdeal.cc3_scratch4 : Memref Cert.KernelIdeal.sig Kind.scVector Space.vmem Cert.KernelIdeal.S128x256 EltTy.f32)
local notation "rowB" => (Memref.whole Cert.KernelIdeal.cc3_scratch5 : Memref Cert.KernelIdeal.sig Kind.scVector Space.vmem Cert.KernelIdeal.S128x256 EltTy.f32)
local notation "gA0" => Cert.KernelIdeal.cc3_scratch6
local notation "gA1" => Cert.KernelIdeal.cc3_scratch7
local notation "gB0" => Cert.KernelIdeal.cc3_scratch8
local notation "gB1" => Cert.KernelIdeal.cc3_scratch9
local notation "sc0" => Cert.KernelIdeal.cc3_scoped0
local notation "sc1" => Cert.KernelIdeal.cc3_scoped1
local notation "sc2" => Cert.KernelIdeal.cc3_scoped2
local notation "sc3" => Cert.KernelIdeal.cc3_scoped3
local notation "sc4" => Cert.KernelIdeal.cc3_scoped4
local notation "sc5" => Cert.KernelIdeal.cc3_scoped5
local notation "sc6" => Cert.KernelIdeal.cc3_scoped6
local notation "sc7" => Cert.KernelIdeal.cc3_scoped7
local notation "sc8" => Cert.KernelIdeal.cc3_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.KernelIdeal.Sc.B3

end
-- ==== Proof.ScBody3VI.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody3CI

noncomputable section

namespace Cert.KernelIdeal.Sc.B3

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v21
local notation "cidsR" => Cert.KernelIdeal.main_v23
local notation "idtR" => Cert.KernelIdeal.main_arg2
local notation "catR" => Cert.KernelIdeal.main_arg3
local notation "outR" => Cert.KernelIdeal.main_v24
local notation "idsM" => (Memref.whole Cert.KernelIdeal.main_v21_scv : Memref Cert.KernelIdeal.sig Kind.scVector Space.hbm Cert.KernelIdeal.S102400 EltTy.i32)
local notation "cidsM" => (Memref.whole Cert.KernelIdeal.main_v23_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v24_scv : Memref Cert.KernelIdeal.sig Kind.scVector Space.hbm Cert.KernelIdeal.S102400x256 EltTy.f32)
local notation "bA0" => Cert.KernelIdeal.cc3_scratch0
local notation "bA1" => Cert.KernelIdeal.cc3_scratch1
local notation "bB0" => Cert.KernelIdeal.cc3_scratch2
local notation "bB1" => Cert.KernelIdeal.cc3_scratch3
local notation "bRA" => Cert.KernelIdeal.cc3_scratch4
local notation "bRB" => Cert.KernelIdeal.cc3_scratch5
local notation "ixA0" => (Memref.whole Cert.KernelIdeal.cc3_scratch0 : Memref Cert.KernelIdeal.sig Kind.scVector Space.vmem Cert.KernelIdeal.S128 EltTy.i32)
local notation "ixA1" => (Memref.whole Cert.KernelIdeal.cc3_scratch1 : Memref Cert.KernelIdeal.sig Kind.scVector Space.vmem Cert.KernelIdeal.S128 EltTy.i32)
local notation "ixB0" => (Memref.whole Cert.KernelIdeal.cc3_scratch2 : Memref Cert.KernelIdeal.sig Kind.scVector Space.vmem Cert.KernelIdeal.S128 EltTy.i32)
local notation "ixB1" => (Memref.whole Cert.KernelIdeal.cc3_scratch3 : Memref Cert.KernelIdeal.sig Kind.scVector Space.vmem Cert.KernelIdeal.S128 EltTy.i32)
local notation "rowA" => (Memref.whole Cert.KernelIdeal.cc3_scratch4 : Memref Cert.KernelIdeal.sig Kind.scVector Space.vmem Cert.KernelIdeal.S128x256 EltTy.f32)
local notation "rowB" => (Memref.whole Cert.KernelIdeal.cc3_scratch5 : Memref Cert.KernelIdeal.sig Kind.scVector Space.vmem Cert.KernelIdeal.S128x256 EltTy.f32)
local notation "gA0" => Cert.KernelIdeal.cc3_scratch6
local notation "gA1" => Cert.KernelIdeal.cc3_scratch7
local notation "gB0" => Cert.KernelIdeal.cc3_scratch8
local notation "gB1" => Cert.KernelIdeal.cc3_scratch9
local notation "sc0" => Cert.KernelIdeal.cc3_scoped0
local notation "sc1" => Cert.KernelIdeal.cc3_scoped1
local notation "sc2" => Cert.KernelIdeal.cc3_scoped2
local notation "sc3" => Cert.KernelIdeal.cc3_scoped3
local notation "sc4" => Cert.KernelIdeal.cc3_scoped4
local notation "sc5" => Cert.KernelIdeal.cc3_scoped5
local notation "sc6" => Cert.KernelIdeal.cc3_scoped6
local notation "sc7" => Cert.KernelIdeal.cc3_scoped7
local notation "sc8" => Cert.KernelIdeal.cc3_scoped8

variable [FloatOps F]

set_option maxHeartbeats 4000000 in
set_option maxRecDepth 65536 in
theorem tile_body3v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.KernelIdeal.Sc.B3

end
-- ==== Proof.ScBody4AI.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResI

noncomputable section

namespace Cert.KernelIdeal.Sc.B4

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v26
local notation "cidsR" => Cert.KernelIdeal.main_v28
local notation "idtR" => Cert.KernelIdeal.main_arg2
local notation "catR" => Cert.KernelIdeal.main_arg3
local notation "outR" => Cert.KernelIdeal.main_v29
local notation "idsM" => (Memref.whole Cert.KernelIdeal.main_v26_scv : Memref Cert.KernelIdeal.sig Kind.scVector Space.hbm Cert.KernelIdeal.S102400 EltTy.i32)
local notation "cidsM" => (Memref.whole Cert.KernelIdeal.main_v28_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v29_scv : Memref Cert.KernelIdeal.sig Kind.scVector Space.hbm Cert.KernelIdeal.S102400x256 EltTy.f32)
local notation "bA0" => Cert.KernelIdeal.cc4_scratch0
local notation "bA1" => Cert.KernelIdeal.cc4_scratch1
local notation "bB0" => Cert.KernelIdeal.cc4_scratch2
local notation "bB1" => Cert.KernelIdeal.cc4_scratch3
local notation "bRA" => Cert.KernelIdeal.cc4_scratch4
local notation "bRB" => Cert.KernelIdeal.cc4_scratch5
local notation "ixA0" => (Memref.whole Cert.KernelIdeal.cc4_scratch0 : Memref Cert.KernelIdeal.sig Kind.scVector Space.vmem Cert.KernelIdeal.S128 EltTy.i32)
local notation "ixA1" => (Memref.whole Cert.KernelIdeal.cc4_scratch1 : Memref Cert.KernelIdeal.sig Kind.scVector Space.vmem Cert.KernelIdeal.S128 EltTy.i32)
local notation "ixB0" => (Memref.whole Cert.KernelIdeal.cc4_scratch2 : Memref Cert.KernelIdeal.sig Kind.scVector Space.vmem Cert.KernelIdeal.S128 EltTy.i32)
local notation "ixB1" => (Memref.whole Cert.KernelIdeal.cc4_scratch3 : Memref Cert.KernelIdeal.sig Kind.scVector Space.vmem Cert.KernelIdeal.S128 EltTy.i32)
local notation "rowA" => (Memref.whole Cert.KernelIdeal.cc4_scratch4 : Memref Cert.KernelIdeal.sig Kind.scVector Space.vmem Cert.KernelIdeal.S128x256 EltTy.f32)
local notation "rowB" => (Memref.whole Cert.KernelIdeal.cc4_scratch5 : Memref Cert.KernelIdeal.sig Kind.scVector Space.vmem Cert.KernelIdeal.S128x256 EltTy.f32)
local notation "gA0" => Cert.KernelIdeal.cc4_scratch6
local notation "gA1" => Cert.KernelIdeal.cc4_scratch7
local notation "gB0" => Cert.KernelIdeal.cc4_scratch8
local notation "gB1" => Cert.KernelIdeal.cc4_scratch9
local notation "sc0" => Cert.KernelIdeal.cc4_scoped0
local notation "sc1" => Cert.KernelIdeal.cc4_scoped1
local notation "sc2" => Cert.KernelIdeal.cc4_scoped2
local notation "sc3" => Cert.KernelIdeal.cc4_scoped3
local notation "sc4" => Cert.KernelIdeal.cc4_scoped4
local notation "sc5" => Cert.KernelIdeal.cc4_scoped5
local notation "sc6" => Cert.KernelIdeal.cc4_scoped6
local notation "sc7" => Cert.KernelIdeal.cc4_scoped7
local notation "sc8" => Cert.KernelIdeal.cc4_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v29_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v29_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v29_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.KernelIdeal.Sc.B4

end
-- ==== Proof.ScBody4BI.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody4AI

noncomputable section

namespace Cert.KernelIdeal.Sc.B4

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v26
local notation "cidsR" => Cert.KernelIdeal.main_v28
local notation "idtR" => Cert.KernelIdeal.main_arg2
local notation "catR" => Cert.KernelIdeal.main_arg3
local notation "outR" => Cert.KernelIdeal.main_v29
local notation "idsM" => (Memref.whole Cert.KernelIdeal.main_v26_scv : Memref Cert.KernelIdeal.sig Kind.scVector Space.hbm Cert.KernelIdeal.S102400 EltTy.i32)
local notation "cidsM" => (Memref.whole Cert.KernelIdeal.main_v28_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v29_scv : Memref Cert.KernelIdeal.sig Kind.scVector Space.hbm Cert.KernelIdeal.S102400x256 EltTy.f32)
local notation "bA0" => Cert.KernelIdeal.cc4_scratch0
local notation "bA1" => Cert.KernelIdeal.cc4_scratch1
local notation "bB0" => Cert.KernelIdeal.cc4_scratch2
local notation "bB1" => Cert.KernelIdeal.cc4_scratch3
local notation "bRA" => Cert.KernelIdeal.cc4_scratch4
local notation "bRB" => Cert.KernelIdeal.cc4_scratch5
local notation "ixA0" => (Memref.whole Cert.KernelIdeal.cc4_scratch0 : Memref Cert.KernelIdeal.sig Kind.scVector Space.vmem Cert.KernelIdeal.S128 EltTy.i32)
local notation "ixA1" => (Memref.whole Cert.KernelIdeal.cc4_scratch1 : Memref Cert.KernelIdeal.sig Kind.scVector Space.vmem Cert.KernelIdeal.S128 EltTy.i32)
local notation "ixB0" => (Memref.whole Cert.KernelIdeal.cc4_scratch2 : Memref Cert.KernelIdeal.sig Kind.scVector Space.vmem Cert.KernelIdeal.S128 EltTy.i32)
local notation "ixB1" => (Memref.whole Cert.KernelIdeal.cc4_scratch3 : Memref Cert.KernelIdeal.sig Kind.scVector Space.vmem Cert.KernelIdeal.S128 EltTy.i32)
local notation "rowA" => (Memref.whole Cert.KernelIdeal.cc4_scratch4 : Memref Cert.KernelIdeal.sig Kind.scVector Space.vmem Cert.KernelIdeal.S128x256 EltTy.f32)
local notation "rowB" => (Memref.whole Cert.KernelIdeal.cc4_scratch5 : Memref Cert.KernelIdeal.sig Kind.scVector Space.vmem Cert.KernelIdeal.S128x256 EltTy.f32)
local notation "gA0" => Cert.KernelIdeal.cc4_scratch6
local notation "gA1" => Cert.KernelIdeal.cc4_scratch7
local notation "gB0" => Cert.KernelIdeal.cc4_scratch8
local notation "gB1" => Cert.KernelIdeal.cc4_scratch9
local notation "sc0" => Cert.KernelIdeal.cc4_scoped0
local notation "sc1" => Cert.KernelIdeal.cc4_scoped1
local notation "sc2" => Cert.KernelIdeal.cc4_scoped2
local notation "sc3" => Cert.KernelIdeal.cc4_scoped3
local notation "sc4" => Cert.KernelIdeal.cc4_scoped4
local notation "sc5" => Cert.KernelIdeal.cc4_scoped5
local notation "sc6" => Cert.KernelIdeal.cc4_scoped6
local notation "sc7" => Cert.KernelIdeal.cc4_scoped7
local notation "sc8" => Cert.KernelIdeal.cc4_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.KernelIdeal.Sc.B4

end
-- ==== Proof.ScBody4CI.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody4BI

noncomputable section

namespace Cert.KernelIdeal.Sc.B4

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v26
local notation "cidsR" => Cert.KernelIdeal.main_v28
local notation "idtR" => Cert.KernelIdeal.main_arg2
local notation "catR" => Cert.KernelIdeal.main_arg3
local notation "outR" => Cert.KernelIdeal.main_v29
local notation "idsM" => (Memref.whole Cert.KernelIdeal.main_v26_scv : Memref Cert.KernelIdeal.sig Kind.scVector Space.hbm Cert.KernelIdeal.S102400 EltTy.i32)
local notation "cidsM" => (Memref.whole Cert.KernelIdeal.main_v28_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v29_scv : Memref Cert.KernelIdeal.sig Kind.scVector Space.hbm Cert.KernelIdeal.S102400x256 EltTy.f32)
local notation "bA0" => Cert.KernelIdeal.cc4_scratch0
local notation "bA1" => Cert.KernelIdeal.cc4_scratch1
local notation "bB0" => Cert.KernelIdeal.cc4_scratch2
local notation "bB1" => Cert.KernelIdeal.cc4_scratch3
local notation "bRA" => Cert.KernelIdeal.cc4_scratch4
local notation "bRB" => Cert.KernelIdeal.cc4_scratch5
local notation "ixA0" => (Memref.whole Cert.KernelIdeal.cc4_scratch0 : Memref Cert.KernelIdeal.sig Kind.scVector Space.vmem Cert.KernelIdeal.S128 EltTy.i32)
local notation "ixA1" => (Memref.whole Cert.KernelIdeal.cc4_scratch1 : Memref Cert.KernelIdeal.sig Kind.scVector Space.vmem Cert.KernelIdeal.S128 EltTy.i32)
local notation "ixB0" => (Memref.whole Cert.KernelIdeal.cc4_scratch2 : Memref Cert.KernelIdeal.sig Kind.scVector Space.vmem Cert.KernelIdeal.S128 EltTy.i32)
local notation "ixB1" => (Memref.whole Cert.KernelIdeal.cc4_scratch3 : Memref Cert.KernelIdeal.sig Kind.scVector Space.vmem Cert.KernelIdeal.S128 EltTy.i32)
local notation "rowA" => (Memref.whole Cert.KernelIdeal.cc4_scratch4 : Memref Cert.KernelIdeal.sig Kind.scVector Space.vmem Cert.KernelIdeal.S128x256 EltTy.f32)
local notation "rowB" => (Memref.whole Cert.KernelIdeal.cc4_scratch5 : Memref Cert.KernelIdeal.sig Kind.scVector Space.vmem Cert.KernelIdeal.S128x256 EltTy.f32)
local notation "gA0" => Cert.KernelIdeal.cc4_scratch6
local notation "gA1" => Cert.KernelIdeal.cc4_scratch7
local notation "gB0" => Cert.KernelIdeal.cc4_scratch8
local notation "gB1" => Cert.KernelIdeal.cc4_scratch9
local notation "sc0" => Cert.KernelIdeal.cc4_scoped0
local notation "sc1" => Cert.KernelIdeal.cc4_scoped1
local notation "sc2" => Cert.KernelIdeal.cc4_scoped2
local notation "sc3" => Cert.KernelIdeal.cc4_scoped3
local notation "sc4" => Cert.KernelIdeal.cc4_scoped4
local notation "sc5" => Cert.KernelIdeal.cc4_scoped5
local notation "sc6" => Cert.KernelIdeal.cc4_scoped6
local notation "sc7" => Cert.KernelIdeal.cc4_scoped7
local notation "sc8" => Cert.KernelIdeal.cc4_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.KernelIdeal.Sc.B4

end
-- ==== Proof.ScBody4VI.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody4CI

noncomputable section

namespace Cert.KernelIdeal.Sc.B4

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v26
local notation "cidsR" => Cert.KernelIdeal.main_v28
local notation "idtR" => Cert.KernelIdeal.main_arg2
local notation "catR" => Cert.KernelIdeal.main_arg3
local notation "outR" => Cert.KernelIdeal.main_v29
local notation "idsM" => (Memref.whole Cert.KernelIdeal.main_v26_scv : Memref Cert.KernelIdeal.sig Kind.scVector Space.hbm Cert.KernelIdeal.S102400 EltTy.i32)
local notation "cidsM" => (Memref.whole Cert.KernelIdeal.main_v28_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v29_scv : Memref Cert.KernelIdeal.sig Kind.scVector Space.hbm Cert.KernelIdeal.S102400x256 EltTy.f32)
local notation "bA0" => Cert.KernelIdeal.cc4_scratch0
local notation "bA1" => Cert.KernelIdeal.cc4_scratch1
local notation "bB0" => Cert.KernelIdeal.cc4_scratch2
local notation "bB1" => Cert.KernelIdeal.cc4_scratch3
local notation "bRA" => Cert.KernelIdeal.cc4_scratch4
local notation "bRB" => Cert.KernelIdeal.cc4_scratch5
local notation "ixA0" => (Memref.whole Cert.KernelIdeal.cc4_scratch0 : Memref Cert.KernelIdeal.sig Kind.scVector Space.vmem Cert.KernelIdeal.S128 EltTy.i32)
local notation "ixA1" => (Memref.whole Cert.KernelIdeal.cc4_scratch1 : Memref Cert.KernelIdeal.sig Kind.scVector Space.vmem Cert.KernelIdeal.S128 EltTy.i32)
local notation "ixB0" => (Memref.whole Cert.KernelIdeal.cc4_scratch2 : Memref Cert.KernelIdeal.sig Kind.scVector Space.vmem Cert.KernelIdeal.S128 EltTy.i32)
local notation "ixB1" => (Memref.whole Cert.KernelIdeal.cc4_scratch3 : Memref Cert.KernelIdeal.sig Kind.scVector Space.vmem Cert.KernelIdeal.S128 EltTy.i32)
local notation "rowA" => (Memref.whole Cert.KernelIdeal.cc4_scratch4 : Memref Cert.KernelIdeal.sig Kind.scVector Space.vmem Cert.KernelIdeal.S128x256 EltTy.f32)
local notation "rowB" => (Memref.whole Cert.KernelIdeal.cc4_scratch5 : Memref Cert.KernelIdeal.sig Kind.scVector Space.vmem Cert.KernelIdeal.S128x256 EltTy.f32)
local notation "gA0" => Cert.KernelIdeal.cc4_scratch6
local notation "gA1" => Cert.KernelIdeal.cc4_scratch7
local notation "gB0" => Cert.KernelIdeal.cc4_scratch8
local notation "gB1" => Cert.KernelIdeal.cc4_scratch9
local notation "sc0" => Cert.KernelIdeal.cc4_scoped0
local notation "sc1" => Cert.KernelIdeal.cc4_scoped1
local notation "sc2" => Cert.KernelIdeal.cc4_scoped2
local notation "sc3" => Cert.KernelIdeal.cc4_scoped3
local notation "sc4" => Cert.KernelIdeal.cc4_scoped4
local notation "sc5" => Cert.KernelIdeal.cc4_scoped5
local notation "sc6" => Cert.KernelIdeal.cc4_scoped6
local notation "sc7" => Cert.KernelIdeal.cc4_scoped7
local notation "sc8" => Cert.KernelIdeal.cc4_scoped8

variable [FloatOps F]

set_option maxHeartbeats 4000000 in
set_option maxRecDepth 65536 in
theorem tile_body4v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.KernelIdeal.Sc.B4

end
-- ==== Proof.ScBody5AI.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResI

noncomputable section

namespace Cert.KernelIdeal.Sc.B5

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v31
local notation "cidsR" => Cert.KernelIdeal.main_v33
local notation "idtR" => Cert.KernelIdeal.main_arg2
local notation "catR" => Cert.KernelIdeal.main_arg3
local notation "outR" => Cert.KernelIdeal.main_v34
local notation "idsM" => (Memref.whole Cert.KernelIdeal.main_v31_scv : Memref Cert.KernelIdeal.sig Kind.scVector Space.hbm Cert.KernelIdeal.S102400 EltTy.i32)
local notation "cidsM" => (Memref.whole Cert.KernelIdeal.main_v33_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v34_scv : Memref Cert.KernelIdeal.sig Kind.scVector Space.hbm Cert.KernelIdeal.S102400x256 EltTy.f32)
local notation "bA0" => Cert.KernelIdeal.cc5_scratch0
local notation "bA1" => Cert.KernelIdeal.cc5_scratch1
local notation "bB0" => Cert.KernelIdeal.cc5_scratch2
local notation "bB1" => Cert.KernelIdeal.cc5_scratch3
local notation "bRA" => Cert.KernelIdeal.cc5_scratch4
local notation "bRB" => Cert.KernelIdeal.cc5_scratch5
local notation "ixA0" => (Memref.whole Cert.KernelIdeal.cc5_scratch0 : Memref Cert.KernelIdeal.sig Kind.scVector Space.vmem Cert.KernelIdeal.S128 EltTy.i32)
local notation "ixA1" => (Memref.whole Cert.KernelIdeal.cc5_scratch1 : Memref Cert.KernelIdeal.sig Kind.scVector Space.vmem Cert.KernelIdeal.S128 EltTy.i32)
local notation "ixB0" => (Memref.whole Cert.KernelIdeal.cc5_scratch2 : Memref Cert.KernelIdeal.sig Kind.scVector Space.vmem Cert.KernelIdeal.S128 EltTy.i32)
local notation "ixB1" => (Memref.whole Cert.KernelIdeal.cc5_scratch3 : Memref Cert.KernelIdeal.sig Kind.scVector Space.vmem Cert.KernelIdeal.S128 EltTy.i32)
local notation "rowA" => (Memref.whole Cert.KernelIdeal.cc5_scratch4 : Memref Cert.KernelIdeal.sig Kind.scVector Space.vmem Cert.KernelIdeal.S128x256 EltTy.f32)
local notation "rowB" => (Memref.whole Cert.KernelIdeal.cc5_scratch5 : Memref Cert.KernelIdeal.sig Kind.scVector Space.vmem Cert.KernelIdeal.S128x256 EltTy.f32)
local notation "gA0" => Cert.KernelIdeal.cc5_scratch6
local notation "gA1" => Cert.KernelIdeal.cc5_scratch7
local notation "gB0" => Cert.KernelIdeal.cc5_scratch8
local notation "gB1" => Cert.KernelIdeal.cc5_scratch9
local notation "sc0" => Cert.KernelIdeal.cc5_scoped0
local notation "sc1" => Cert.KernelIdeal.cc5_scoped1
local notation "sc2" => Cert.KernelIdeal.cc5_scoped2
local notation "sc3" => Cert.KernelIdeal.cc5_scoped3
local notation "sc4" => Cert.KernelIdeal.cc5_scoped4
local notation "sc5" => Cert.KernelIdeal.cc5_scoped5
local notation "sc6" => Cert.KernelIdeal.cc5_scoped6
local notation "sc7" => Cert.KernelIdeal.cc5_scoped7
local notation "sc8" => Cert.KernelIdeal.cc5_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v34_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v34_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v34_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.KernelIdeal.Sc.B5

end
-- ==== Proof.ScBody5BI.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody5AI

noncomputable section

namespace Cert.KernelIdeal.Sc.B5

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v31
local notation "cidsR" => Cert.KernelIdeal.main_v33
local notation "idtR" => Cert.KernelIdeal.main_arg2
local notation "catR" => Cert.KernelIdeal.main_arg3
local notation "outR" => Cert.KernelIdeal.main_v34
local notation "idsM" => (Memref.whole Cert.KernelIdeal.main_v31_scv : Memref Cert.KernelIdeal.sig Kind.scVector Space.hbm Cert.KernelIdeal.S102400 EltTy.i32)
local notation "cidsM" => (Memref.whole Cert.KernelIdeal.main_v33_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v34_scv : Memref Cert.KernelIdeal.sig Kind.scVector Space.hbm Cert.KernelIdeal.S102400x256 EltTy.f32)
local notation "bA0" => Cert.KernelIdeal.cc5_scratch0
local notation "bA1" => Cert.KernelIdeal.cc5_scratch1
local notation "bB0" => Cert.KernelIdeal.cc5_scratch2
local notation "bB1" => Cert.KernelIdeal.cc5_scratch3
local notation "bRA" => Cert.KernelIdeal.cc5_scratch4
local notation "bRB" => Cert.KernelIdeal.cc5_scratch5
local notation "ixA0" => (Memref.whole Cert.KernelIdeal.cc5_scratch0 : Memref Cert.KernelIdeal.sig Kind.scVector Space.vmem Cert.KernelIdeal.S128 EltTy.i32)
local notation "ixA1" => (Memref.whole Cert.KernelIdeal.cc5_scratch1 : Memref Cert.KernelIdeal.sig Kind.scVector Space.vmem Cert.KernelIdeal.S128 EltTy.i32)
local notation "ixB0" => (Memref.whole Cert.KernelIdeal.cc5_scratch2 : Memref Cert.KernelIdeal.sig Kind.scVector Space.vmem Cert.KernelIdeal.S128 EltTy.i32)
local notation "ixB1" => (Memref.whole Cert.KernelIdeal.cc5_scratch3 : Memref Cert.KernelIdeal.sig Kind.scVector Space.vmem Cert.KernelIdeal.S128 EltTy.i32)
local notation "rowA" => (Memref.whole Cert.KernelIdeal.cc5_scratch4 : Memref Cert.KernelIdeal.sig Kind.scVector Space.vmem Cert.KernelIdeal.S128x256 EltTy.f32)
local notation "rowB" => (Memref.whole Cert.KernelIdeal.cc5_scratch5 : Memref Cert.KernelIdeal.sig Kind.scVector Space.vmem Cert.KernelIdeal.S128x256 EltTy.f32)
local notation "gA0" => Cert.KernelIdeal.cc5_scratch6
local notation "gA1" => Cert.KernelIdeal.cc5_scratch7
local notation "gB0" => Cert.KernelIdeal.cc5_scratch8
local notation "gB1" => Cert.KernelIdeal.cc5_scratch9
local notation "sc0" => Cert.KernelIdeal.cc5_scoped0
local notation "sc1" => Cert.KernelIdeal.cc5_scoped1
local notation "sc2" => Cert.KernelIdeal.cc5_scoped2
local notation "sc3" => Cert.KernelIdeal.cc5_scoped3
local notation "sc4" => Cert.KernelIdeal.cc5_scoped4
local notation "sc5" => Cert.KernelIdeal.cc5_scoped5
local notation "sc6" => Cert.KernelIdeal.cc5_scoped6
local notation "sc7" => Cert.KernelIdeal.cc5_scoped7
local notation "sc8" => Cert.KernelIdeal.cc5_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.KernelIdeal.Sc.B5

end
-- ==== Proof.ScBody5CI.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody5BI

noncomputable section

namespace Cert.KernelIdeal.Sc.B5

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v31
local notation "cidsR" => Cert.KernelIdeal.main_v33
local notation "idtR" => Cert.KernelIdeal.main_arg2
local notation "catR" => Cert.KernelIdeal.main_arg3
local notation "outR" => Cert.KernelIdeal.main_v34
local notation "idsM" => (Memref.whole Cert.KernelIdeal.main_v31_scv : Memref Cert.KernelIdeal.sig Kind.scVector Space.hbm Cert.KernelIdeal.S102400 EltTy.i32)
local notation "cidsM" => (Memref.whole Cert.KernelIdeal.main_v33_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v34_scv : Memref Cert.KernelIdeal.sig Kind.scVector Space.hbm Cert.KernelIdeal.S102400x256 EltTy.f32)
local notation "bA0" => Cert.KernelIdeal.cc5_scratch0
local notation "bA1" => Cert.KernelIdeal.cc5_scratch1
local notation "bB0" => Cert.KernelIdeal.cc5_scratch2
local notation "bB1" => Cert.KernelIdeal.cc5_scratch3
local notation "bRA" => Cert.KernelIdeal.cc5_scratch4
local notation "bRB" => Cert.KernelIdeal.cc5_scratch5
local notation "ixA0" => (Memref.whole Cert.KernelIdeal.cc5_scratch0 : Memref Cert.KernelIdeal.sig Kind.scVector Space.vmem Cert.KernelIdeal.S128 EltTy.i32)
local notation "ixA1" => (Memref.whole Cert.KernelIdeal.cc5_scratch1 : Memref Cert.KernelIdeal.sig Kind.scVector Space.vmem Cert.KernelIdeal.S128 EltTy.i32)
local notation "ixB0" => (Memref.whole Cert.KernelIdeal.cc5_scratch2 : Memref Cert.KernelIdeal.sig Kind.scVector Space.vmem Cert.KernelIdeal.S128 EltTy.i32)
local notation "ixB1" => (Memref.whole Cert.KernelIdeal.cc5_scratch3 : Memref Cert.KernelIdeal.sig Kind.scVector Space.vmem Cert.KernelIdeal.S128 EltTy.i32)
local notation "rowA" => (Memref.whole Cert.KernelIdeal.cc5_scratch4 : Memref Cert.KernelIdeal.sig Kind.scVector Space.vmem Cert.KernelIdeal.S128x256 EltTy.f32)
local notation "rowB" => (Memref.whole Cert.KernelIdeal.cc5_scratch5 : Memref Cert.KernelIdeal.sig Kind.scVector Space.vmem Cert.KernelIdeal.S128x256 EltTy.f32)
local notation "gA0" => Cert.KernelIdeal.cc5_scratch6
local notation "gA1" => Cert.KernelIdeal.cc5_scratch7
local notation "gB0" => Cert.KernelIdeal.cc5_scratch8
local notation "gB1" => Cert.KernelIdeal.cc5_scratch9
local notation "sc0" => Cert.KernelIdeal.cc5_scoped0
local notation "sc1" => Cert.KernelIdeal.cc5_scoped1
local notation "sc2" => Cert.KernelIdeal.cc5_scoped2
local notation "sc3" => Cert.KernelIdeal.cc5_scoped3
local notation "sc4" => Cert.KernelIdeal.cc5_scoped4
local notation "sc5" => Cert.KernelIdeal.cc5_scoped5
local notation "sc6" => Cert.KernelIdeal.cc5_scoped6
local notation "sc7" => Cert.KernelIdeal.cc5_scoped7
local notation "sc8" => Cert.KernelIdeal.cc5_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.KernelIdeal.Sc.B5

end
-- ==== Proof.ScBody5VI.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody5CI

noncomputable section

namespace Cert.KernelIdeal.Sc.B5

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v31
local notation "cidsR" => Cert.KernelIdeal.main_v33
local notation "idtR" => Cert.KernelIdeal.main_arg2
local notation "catR" => Cert.KernelIdeal.main_arg3
local notation "outR" => Cert.KernelIdeal.main_v34
local notation "idsM" => (Memref.whole Cert.KernelIdeal.main_v31_scv : Memref Cert.KernelIdeal.sig Kind.scVector Space.hbm Cert.KernelIdeal.S102400 EltTy.i32)
local notation "cidsM" => (Memref.whole Cert.KernelIdeal.main_v33_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v34_scv : Memref Cert.KernelIdeal.sig Kind.scVector Space.hbm Cert.KernelIdeal.S102400x256 EltTy.f32)
local notation "bA0" => Cert.KernelIdeal.cc5_scratch0
local notation "bA1" => Cert.KernelIdeal.cc5_scratch1
local notation "bB0" => Cert.KernelIdeal.cc5_scratch2
local notation "bB1" => Cert.KernelIdeal.cc5_scratch3
local notation "bRA" => Cert.KernelIdeal.cc5_scratch4
local notation "bRB" => Cert.KernelIdeal.cc5_scratch5
local notation "ixA0" => (Memref.whole Cert.KernelIdeal.cc5_scratch0 : Memref Cert.KernelIdeal.sig Kind.scVector Space.vmem Cert.KernelIdeal.S128 EltTy.i32)
local notation "ixA1" => (Memref.whole Cert.KernelIdeal.cc5_scratch1 : Memref Cert.KernelIdeal.sig Kind.scVector Space.vmem Cert.KernelIdeal.S128 EltTy.i32)
local notation "ixB0" => (Memref.whole Cert.KernelIdeal.cc5_scratch2 : Memref Cert.KernelIdeal.sig Kind.scVector Space.vmem Cert.KernelIdeal.S128 EltTy.i32)
local notation "ixB1" => (Memref.whole Cert.KernelIdeal.cc5_scratch3 : Memref Cert.KernelIdeal.sig Kind.scVector Space.vmem Cert.KernelIdeal.S128 EltTy.i32)
local notation "rowA" => (Memref.whole Cert.KernelIdeal.cc5_scratch4 : Memref Cert.KernelIdeal.sig Kind.scVector Space.vmem Cert.KernelIdeal.S128x256 EltTy.f32)
local notation "rowB" => (Memref.whole Cert.KernelIdeal.cc5_scratch5 : Memref Cert.KernelIdeal.sig Kind.scVector Space.vmem Cert.KernelIdeal.S128x256 EltTy.f32)
local notation "gA0" => Cert.KernelIdeal.cc5_scratch6
local notation "gA1" => Cert.KernelIdeal.cc5_scratch7
local notation "gB0" => Cert.KernelIdeal.cc5_scratch8
local notation "gB1" => Cert.KernelIdeal.cc5_scratch9
local notation "sc0" => Cert.KernelIdeal.cc5_scoped0
local notation "sc1" => Cert.KernelIdeal.cc5_scoped1
local notation "sc2" => Cert.KernelIdeal.cc5_scoped2
local notation "sc3" => Cert.KernelIdeal.cc5_scoped3
local notation "sc4" => Cert.KernelIdeal.cc5_scoped4
local notation "sc5" => Cert.KernelIdeal.cc5_scoped5
local notation "sc6" => Cert.KernelIdeal.cc5_scoped6
local notation "sc7" => Cert.KernelIdeal.cc5_scoped7
local notation "sc8" => Cert.KernelIdeal.cc5_scoped8

variable [FloatOps F]

set_option maxHeartbeats 4000000 in
set_option maxRecDepth 65536 in
theorem tile_body5v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.KernelIdeal.Sc.B5

end
-- ==== Proof.ScBody6AI.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResI

noncomputable section

namespace Cert.KernelIdeal.Sc.B6

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v36
local notation "cidsR" => Cert.KernelIdeal.main_v38
local notation "idtR" => Cert.KernelIdeal.main_arg2
local notation "catR" => Cert.KernelIdeal.main_arg3
local notation "outR" => Cert.KernelIdeal.main_v39
local notation "idsM" => (Memref.whole Cert.KernelIdeal.main_v36_scv : Memref Cert.KernelIdeal.sig Kind.scVector Space.hbm Cert.KernelIdeal.S102400 EltTy.i32)
local notation "cidsM" => (Memref.whole Cert.KernelIdeal.main_v38_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v39_scv : Memref Cert.KernelIdeal.sig Kind.scVector Space.hbm Cert.KernelIdeal.S102400x256 EltTy.f32)
local notation "bA0" => Cert.KernelIdeal.cc6_scratch0
local notation "bA1" => Cert.KernelIdeal.cc6_scratch1
local notation "bB0" => Cert.KernelIdeal.cc6_scratch2
local notation "bB1" => Cert.KernelIdeal.cc6_scratch3
local notation "bRA" => Cert.KernelIdeal.cc6_scratch4
local notation "bRB" => Cert.KernelIdeal.cc6_scratch5
local notation "ixA0" => (Memref.whole Cert.KernelIdeal.cc6_scratch0 : Memref Cert.KernelIdeal.sig Kind.scVector Space.vmem Cert.KernelIdeal.S128 EltTy.i32)
local notation "ixA1" => (Memref.whole Cert.KernelIdeal.cc6_scratch1 : Memref Cert.KernelIdeal.sig Kind.scVector Space.vmem Cert.KernelIdeal.S128 EltTy.i32)
local notation "ixB0" => (Memref.whole Cert.KernelIdeal.cc6_scratch2 : Memref Cert.KernelIdeal.sig Kind.scVector Space.vmem Cert.KernelIdeal.S128 EltTy.i32)
local notation "ixB1" => (Memref.whole Cert.KernelIdeal.cc6_scratch3 : Memref Cert.KernelIdeal.sig Kind.scVector Space.vmem Cert.KernelIdeal.S128 EltTy.i32)
local notation "rowA" => (Memref.whole Cert.KernelIdeal.cc6_scratch4 : Memref Cert.KernelIdeal.sig Kind.scVector Space.vmem Cert.KernelIdeal.S128x256 EltTy.f32)
local notation "rowB" => (Memref.whole Cert.KernelIdeal.cc6_scratch5 : Memref Cert.KernelIdeal.sig Kind.scVector Space.vmem Cert.KernelIdeal.S128x256 EltTy.f32)
local notation "gA0" => Cert.KernelIdeal.cc6_scratch6
local notation "gA1" => Cert.KernelIdeal.cc6_scratch7
local notation "gB0" => Cert.KernelIdeal.cc6_scratch8
local notation "gB1" => Cert.KernelIdeal.cc6_scratch9
local notation "sc0" => Cert.KernelIdeal.cc6_scoped0
local notation "sc1" => Cert.KernelIdeal.cc6_scoped1
local notation "sc2" => Cert.KernelIdeal.cc6_scoped2
local notation "sc3" => Cert.KernelIdeal.cc6_scoped3
local notation "sc4" => Cert.KernelIdeal.cc6_scoped4
local notation "sc5" => Cert.KernelIdeal.cc6_scoped5
local notation "sc6" => Cert.KernelIdeal.cc6_scoped6
local notation "sc7" => Cert.KernelIdeal.cc6_scoped7
local notation "sc8" => Cert.KernelIdeal.cc6_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

set_option maxHeartbeats 2000000 in
/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v39_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v39_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v39_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.KernelIdeal.Sc.B6

end
-- ==== Proof.ScBody6BI.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody6AI

noncomputable section

namespace Cert.KernelIdeal.Sc.B6

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v36
local notation "cidsR" => Cert.KernelIdeal.main_v38
local notation "idtR" => Cert.KernelIdeal.main_arg2
local notation "catR" => Cert.KernelIdeal.main_arg3
local notation "outR" => Cert.KernelIdeal.main_v39
local notation "idsM" => (Memref.whole Cert.KernelIdeal.main_v36_scv : Memref Cert.KernelIdeal.sig Kind.scVector Space.hbm Cert.KernelIdeal.S102400 EltTy.i32)
local notation "cidsM" => (Memref.whole Cert.KernelIdeal.main_v38_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v39_scv : Memref Cert.KernelIdeal.sig Kind.scVector Space.hbm Cert.KernelIdeal.S102400x256 EltTy.f32)
local notation "bA0" => Cert.KernelIdeal.cc6_scratch0
local notation "bA1" => Cert.KernelIdeal.cc6_scratch1
local notation "bB0" => Cert.KernelIdeal.cc6_scratch2
local notation "bB1" => Cert.KernelIdeal.cc6_scratch3
local notation "bRA" => Cert.KernelIdeal.cc6_scratch4
local notation "bRB" => Cert.KernelIdeal.cc6_scratch5
local notation "ixA0" => (Memref.whole Cert.KernelIdeal.cc6_scratch0 : Memref Cert.KernelIdeal.sig Kind.scVector Space.vmem Cert.KernelIdeal.S128 EltTy.i32)
local notation "ixA1" => (Memref.whole Cert.KernelIdeal.cc6_scratch1 : Memref Cert.KernelIdeal.sig Kind.scVector Space.vmem Cert.KernelIdeal.S128 EltTy.i32)
local notation "ixB0" => (Memref.whole Cert.KernelIdeal.cc6_scratch2 : Memref Cert.KernelIdeal.sig Kind.scVector Space.vmem Cert.KernelIdeal.S128 EltTy.i32)
local notation "ixB1" => (Memref.whole Cert.KernelIdeal.cc6_scratch3 : Memref Cert.KernelIdeal.sig Kind.scVector Space.vmem Cert.KernelIdeal.S128 EltTy.i32)
local notation "rowA" => (Memref.whole Cert.KernelIdeal.cc6_scratch4 : Memref Cert.KernelIdeal.sig Kind.scVector Space.vmem Cert.KernelIdeal.S128x256 EltTy.f32)
local notation "rowB" => (Memref.whole Cert.KernelIdeal.cc6_scratch5 : Memref Cert.KernelIdeal.sig Kind.scVector Space.vmem Cert.KernelIdeal.S128x256 EltTy.f32)
local notation "gA0" => Cert.KernelIdeal.cc6_scratch6
local notation "gA1" => Cert.KernelIdeal.cc6_scratch7
local notation "gB0" => Cert.KernelIdeal.cc6_scratch8
local notation "gB1" => Cert.KernelIdeal.cc6_scratch9
local notation "sc0" => Cert.KernelIdeal.cc6_scoped0
local notation "sc1" => Cert.KernelIdeal.cc6_scoped1
local notation "sc2" => Cert.KernelIdeal.cc6_scoped2
local notation "sc3" => Cert.KernelIdeal.cc6_scoped3
local notation "sc4" => Cert.KernelIdeal.cc6_scoped4
local notation "sc5" => Cert.KernelIdeal.cc6_scoped5
local notation "sc6" => Cert.KernelIdeal.cc6_scoped6
local notation "sc7" => Cert.KernelIdeal.cc6_scoped7
local notation "sc8" => Cert.KernelIdeal.cc6_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.KernelIdeal.Sc.B6

end
-- ==== Proof.ScBody6CI.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody6BI

noncomputable section

namespace Cert.KernelIdeal.Sc.B6

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v36
local notation "cidsR" => Cert.KernelIdeal.main_v38
local notation "idtR" => Cert.KernelIdeal.main_arg2
local notation "catR" => Cert.KernelIdeal.main_arg3
local notation "outR" => Cert.KernelIdeal.main_v39
local notation "idsM" => (Memref.whole Cert.KernelIdeal.main_v36_scv : Memref Cert.KernelIdeal.sig Kind.scVector Space.hbm Cert.KernelIdeal.S102400 EltTy.i32)
local notation "cidsM" => (Memref.whole Cert.KernelIdeal.main_v38_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v39_scv : Memref Cert.KernelIdeal.sig Kind.scVector Space.hbm Cert.KernelIdeal.S102400x256 EltTy.f32)
local notation "bA0" => Cert.KernelIdeal.cc6_scratch0
local notation "bA1" => Cert.KernelIdeal.cc6_scratch1
local notation "bB0" => Cert.KernelIdeal.cc6_scratch2
local notation "bB1" => Cert.KernelIdeal.cc6_scratch3
local notation "bRA" => Cert.KernelIdeal.cc6_scratch4
local notation "bRB" => Cert.KernelIdeal.cc6_scratch5
local notation "ixA0" => (Memref.whole Cert.KernelIdeal.cc6_scratch0 : Memref Cert.KernelIdeal.sig Kind.scVector Space.vmem Cert.KernelIdeal.S128 EltTy.i32)
local notation "ixA1" => (Memref.whole Cert.KernelIdeal.cc6_scratch1 : Memref Cert.KernelIdeal.sig Kind.scVector Space.vmem Cert.KernelIdeal.S128 EltTy.i32)
local notation "ixB0" => (Memref.whole Cert.KernelIdeal.cc6_scratch2 : Memref Cert.KernelIdeal.sig Kind.scVector Space.vmem Cert.KernelIdeal.S128 EltTy.i32)
local notation "ixB1" => (Memref.whole Cert.KernelIdeal.cc6_scratch3 : Memref Cert.KernelIdeal.sig Kind.scVector Space.vmem Cert.KernelIdeal.S128 EltTy.i32)
local notation "rowA" => (Memref.whole Cert.KernelIdeal.cc6_scratch4 : Memref Cert.KernelIdeal.sig Kind.scVector Space.vmem Cert.KernelIdeal.S128x256 EltTy.f32)
local notation "rowB" => (Memref.whole Cert.KernelIdeal.cc6_scratch5 : Memref Cert.KernelIdeal.sig Kind.scVector Space.vmem Cert.KernelIdeal.S128x256 EltTy.f32)
local notation "gA0" => Cert.KernelIdeal.cc6_scratch6
local notation "gA1" => Cert.KernelIdeal.cc6_scratch7
local notation "gB0" => Cert.KernelIdeal.cc6_scratch8
local notation "gB1" => Cert.KernelIdeal.cc6_scratch9
local notation "sc0" => Cert.KernelIdeal.cc6_scoped0
local notation "sc1" => Cert.KernelIdeal.cc6_scoped1
local notation "sc2" => Cert.KernelIdeal.cc6_scoped2
local notation "sc3" => Cert.KernelIdeal.cc6_scoped3
local notation "sc4" => Cert.KernelIdeal.cc6_scoped4
local notation "sc5" => Cert.KernelIdeal.cc6_scoped5
local notation "sc6" => Cert.KernelIdeal.cc6_scoped6
local notation "sc7" => Cert.KernelIdeal.cc6_scoped7
local notation "sc8" => Cert.KernelIdeal.cc6_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.KernelIdeal.Sc.B6

end
-- ==== Proof.ScBody6VI.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody6CI

noncomputable section

namespace Cert.KernelIdeal.Sc.B6

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v36
local notation "cidsR" => Cert.KernelIdeal.main_v38
local notation "idtR" => Cert.KernelIdeal.main_arg2
local notation "catR" => Cert.KernelIdeal.main_arg3
local notation "outR" => Cert.KernelIdeal.main_v39
local notation "idsM" => (Memref.whole Cert.KernelIdeal.main_v36_scv : Memref Cert.KernelIdeal.sig Kind.scVector Space.hbm Cert.KernelIdeal.S102400 EltTy.i32)
local notation "cidsM" => (Memref.whole Cert.KernelIdeal.main_v38_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v39_scv : Memref Cert.KernelIdeal.sig Kind.scVector Space.hbm Cert.KernelIdeal.S102400x256 EltTy.f32)
local notation "bA0" => Cert.KernelIdeal.cc6_scratch0
local notation "bA1" => Cert.KernelIdeal.cc6_scratch1
local notation "bB0" => Cert.KernelIdeal.cc6_scratch2
local notation "bB1" => Cert.KernelIdeal.cc6_scratch3
local notation "bRA" => Cert.KernelIdeal.cc6_scratch4
local notation "bRB" => Cert.KernelIdeal.cc6_scratch5
local notation "ixA0" => (Memref.whole Cert.KernelIdeal.cc6_scratch0 : Memref Cert.KernelIdeal.sig Kind.scVector Space.vmem Cert.KernelIdeal.S128 EltTy.i32)
local notation "ixA1" => (Memref.whole Cert.KernelIdeal.cc6_scratch1 : Memref Cert.KernelIdeal.sig Kind.scVector Space.vmem Cert.KernelIdeal.S128 EltTy.i32)
local notation "ixB0" => (Memref.whole Cert.KernelIdeal.cc6_scratch2 : Memref Cert.KernelIdeal.sig Kind.scVector Space.vmem Cert.KernelIdeal.S128 EltTy.i32)
local notation "ixB1" => (Memref.whole Cert.KernelIdeal.cc6_scratch3 : Memref Cert.KernelIdeal.sig Kind.scVector Space.vmem Cert.KernelIdeal.S128 EltTy.i32)
local notation "rowA" => (Memref.whole Cert.KernelIdeal.cc6_scratch4 : Memref Cert.KernelIdeal.sig Kind.scVector Space.vmem Cert.KernelIdeal.S128x256 EltTy.f32)
local notation "rowB" => (Memref.whole Cert.KernelIdeal.cc6_scratch5 : Memref Cert.KernelIdeal.sig Kind.scVector Space.vmem Cert.KernelIdeal.S128x256 EltTy.f32)
local notation "gA0" => Cert.KernelIdeal.cc6_scratch6
local notation "gA1" => Cert.KernelIdeal.cc6_scratch7
local notation "gB0" => Cert.KernelIdeal.cc6_scratch8
local notation "gB1" => Cert.KernelIdeal.cc6_scratch9
local notation "sc0" => Cert.KernelIdeal.cc6_scoped0
local notation "sc1" => Cert.KernelIdeal.cc6_scoped1
local notation "sc2" => Cert.KernelIdeal.cc6_scoped2
local notation "sc3" => Cert.KernelIdeal.cc6_scoped3
local notation "sc4" => Cert.KernelIdeal.cc6_scoped4
local notation "sc5" => Cert.KernelIdeal.cc6_scoped5
local notation "sc6" => Cert.KernelIdeal.cc6_scoped6
local notation "sc7" => Cert.KernelIdeal.cc6_scoped7
local notation "sc8" => Cert.KernelIdeal.cc6_scoped8

variable [FloatOps F]

set_option maxHeartbeats 4000000 in
set_option maxRecDepth 65536 in
theorem tile_body6v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.KernelIdeal.Sc.B6

end
-- ==== Proof.ScBody7AI.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResI

noncomputable section

namespace Cert.KernelIdeal.Sc.B7

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v41
local notation "cidsR" => Cert.KernelIdeal.main_v43
local notation "idtR" => Cert.KernelIdeal.main_arg2
local notation "catR" => Cert.KernelIdeal.main_arg3
local notation "outR" => Cert.KernelIdeal.main_v44
local notation "idsM" => (Memref.whole Cert.KernelIdeal.main_v41_scv : Memref Cert.KernelIdeal.sig Kind.scVector Space.hbm Cert.KernelIdeal.S102400 EltTy.i32)
local notation "cidsM" => (Memref.whole Cert.KernelIdeal.main_v43_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v44_scv : Memref Cert.KernelIdeal.sig Kind.scVector Space.hbm Cert.KernelIdeal.S102400x256 EltTy.f32)
local notation "bA0" => Cert.KernelIdeal.cc7_scratch0
local notation "bA1" => Cert.KernelIdeal.cc7_scratch1
local notation "bB0" => Cert.KernelIdeal.cc7_scratch2
local notation "bB1" => Cert.KernelIdeal.cc7_scratch3
local notation "bRA" => Cert.KernelIdeal.cc7_scratch4
local notation "bRB" => Cert.KernelIdeal.cc7_scratch5
local notation "ixA0" => (Memref.whole Cert.KernelIdeal.cc7_scratch0 : Memref Cert.KernelIdeal.sig Kind.scVector Space.vmem Cert.KernelIdeal.S128 EltTy.i32)
local notation "ixA1" => (Memref.whole Cert.KernelIdeal.cc7_scratch1 : Memref Cert.KernelIdeal.sig Kind.scVector Space.vmem Cert.KernelIdeal.S128 EltTy.i32)
local notation "ixB0" => (Memref.whole Cert.KernelIdeal.cc7_scratch2 : Memref Cert.KernelIdeal.sig Kind.scVector Space.vmem Cert.KernelIdeal.S128 EltTy.i32)
local notation "ixB1" => (Memref.whole Cert.KernelIdeal.cc7_scratch3 : Memref Cert.KernelIdeal.sig Kind.scVector Space.vmem Cert.KernelIdeal.S128 EltTy.i32)
local notation "rowA" => (Memref.whole Cert.KernelIdeal.cc7_scratch4 : Memref Cert.KernelIdeal.sig Kind.scVector Space.vmem Cert.KernelIdeal.S128x256 EltTy.f32)
local notation "rowB" => (Memref.whole Cert.KernelIdeal.cc7_scratch5 : Memref Cert.KernelIdeal.sig Kind.scVector Space.vmem Cert.KernelIdeal.S128x256 EltTy.f32)
local notation "gA0" => Cert.KernelIdeal.cc7_scratch6
local notation "gA1" => Cert.KernelIdeal.cc7_scratch7
local notation "gB0" => Cert.KernelIdeal.cc7_scratch8
local notation "gB1" => Cert.KernelIdeal.cc7_scratch9
local notation "sc0" => Cert.KernelIdeal.cc7_scoped0
local notation "sc1" => Cert.KernelIdeal.cc7_scoped1
local notation "sc2" => Cert.KernelIdeal.cc7_scoped2
local notation "sc3" => Cert.KernelIdeal.cc7_scoped3
local notation "sc4" => Cert.KernelIdeal.cc7_scoped4
local notation "sc5" => Cert.KernelIdeal.cc7_scoped5
local notation "sc6" => Cert.KernelIdeal.cc7_scoped6
local notation "sc7" => Cert.KernelIdeal.cc7_scoped7
local notation "sc8" => Cert.KernelIdeal.cc7_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

set_option maxHeartbeats 2000000 in
/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v44_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v44_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v44_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.KernelIdeal.Sc.B7

end
-- ==== Proof.ScBody7BI.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody7AI

noncomputable section

namespace Cert.KernelIdeal.Sc.B7

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v41
local notation "cidsR" => Cert.KernelIdeal.main_v43
local notation "idtR" => Cert.KernelIdeal.main_arg2
local notation "catR" => Cert.KernelIdeal.main_arg3
local notation "outR" => Cert.KernelIdeal.main_v44
local notation "idsM" => (Memref.whole Cert.KernelIdeal.main_v41_scv : Memref Cert.KernelIdeal.sig Kind.scVector Space.hbm Cert.KernelIdeal.S102400 EltTy.i32)
local notation "cidsM" => (Memref.whole Cert.KernelIdeal.main_v43_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v44_scv : Memref Cert.KernelIdeal.sig Kind.scVector Space.hbm Cert.KernelIdeal.S102400x256 EltTy.f32)
local notation "bA0" => Cert.KernelIdeal.cc7_scratch0
local notation "bA1" => Cert.KernelIdeal.cc7_scratch1
local notation "bB0" => Cert.KernelIdeal.cc7_scratch2
local notation "bB1" => Cert.KernelIdeal.cc7_scratch3
local notation "bRA" => Cert.KernelIdeal.cc7_scratch4
local notation "bRB" => Cert.KernelIdeal.cc7_scratch5
local notation "ixA0" => (Memref.whole Cert.KernelIdeal.cc7_scratch0 : Memref Cert.KernelIdeal.sig Kind.scVector Space.vmem Cert.KernelIdeal.S128 EltTy.i32)
local notation "ixA1" => (Memref.whole Cert.KernelIdeal.cc7_scratch1 : Memref Cert.KernelIdeal.sig Kind.scVector Space.vmem Cert.KernelIdeal.S128 EltTy.i32)
local notation "ixB0" => (Memref.whole Cert.KernelIdeal.cc7_scratch2 : Memref Cert.KernelIdeal.sig Kind.scVector Space.vmem Cert.KernelIdeal.S128 EltTy.i32)
local notation "ixB1" => (Memref.whole Cert.KernelIdeal.cc7_scratch3 : Memref Cert.KernelIdeal.sig Kind.scVector Space.vmem Cert.KernelIdeal.S128 EltTy.i32)
local notation "rowA" => (Memref.whole Cert.KernelIdeal.cc7_scratch4 : Memref Cert.KernelIdeal.sig Kind.scVector Space.vmem Cert.KernelIdeal.S128x256 EltTy.f32)
local notation "rowB" => (Memref.whole Cert.KernelIdeal.cc7_scratch5 : Memref Cert.KernelIdeal.sig Kind.scVector Space.vmem Cert.KernelIdeal.S128x256 EltTy.f32)
local notation "gA0" => Cert.KernelIdeal.cc7_scratch6
local notation "gA1" => Cert.KernelIdeal.cc7_scratch7
local notation "gB0" => Cert.KernelIdeal.cc7_scratch8
local notation "gB1" => Cert.KernelIdeal.cc7_scratch9
local notation "sc0" => Cert.KernelIdeal.cc7_scoped0
local notation "sc1" => Cert.KernelIdeal.cc7_scoped1
local notation "sc2" => Cert.KernelIdeal.cc7_scoped2
local notation "sc3" => Cert.KernelIdeal.cc7_scoped3
local notation "sc4" => Cert.KernelIdeal.cc7_scoped4
local notation "sc5" => Cert.KernelIdeal.cc7_scoped5
local notation "sc6" => Cert.KernelIdeal.cc7_scoped6
local notation "sc7" => Cert.KernelIdeal.cc7_scoped7
local notation "sc8" => Cert.KernelIdeal.cc7_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.KernelIdeal.Sc.B7

end
-- ==== Proof.ScBody7CI.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody7BI

noncomputable section

namespace Cert.KernelIdeal.Sc.B7

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v41
local notation "cidsR" => Cert.KernelIdeal.main_v43
local notation "idtR" => Cert.KernelIdeal.main_arg2
local notation "catR" => Cert.KernelIdeal.main_arg3
local notation "outR" => Cert.KernelIdeal.main_v44
local notation "idsM" => (Memref.whole Cert.KernelIdeal.main_v41_scv : Memref Cert.KernelIdeal.sig Kind.scVector Space.hbm Cert.KernelIdeal.S102400 EltTy.i32)
local notation "cidsM" => (Memref.whole Cert.KernelIdeal.main_v43_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v44_scv : Memref Cert.KernelIdeal.sig Kind.scVector Space.hbm Cert.KernelIdeal.S102400x256 EltTy.f32)
local notation "bA0" => Cert.KernelIdeal.cc7_scratch0
local notation "bA1" => Cert.KernelIdeal.cc7_scratch1
local notation "bB0" => Cert.KernelIdeal.cc7_scratch2
local notation "bB1" => Cert.KernelIdeal.cc7_scratch3
local notation "bRA" => Cert.KernelIdeal.cc7_scratch4
local notation "bRB" => Cert.KernelIdeal.cc7_scratch5
local notation "ixA0" => (Memref.whole Cert.KernelIdeal.cc7_scratch0 : Memref Cert.KernelIdeal.sig Kind.scVector Space.vmem Cert.KernelIdeal.S128 EltTy.i32)
local notation "ixA1" => (Memref.whole Cert.KernelIdeal.cc7_scratch1 : Memref Cert.KernelIdeal.sig Kind.scVector Space.vmem Cert.KernelIdeal.S128 EltTy.i32)
local notation "ixB0" => (Memref.whole Cert.KernelIdeal.cc7_scratch2 : Memref Cert.KernelIdeal.sig Kind.scVector Space.vmem Cert.KernelIdeal.S128 EltTy.i32)
local notation "ixB1" => (Memref.whole Cert.KernelIdeal.cc7_scratch3 : Memref Cert.KernelIdeal.sig Kind.scVector Space.vmem Cert.KernelIdeal.S128 EltTy.i32)
local notation "rowA" => (Memref.whole Cert.KernelIdeal.cc7_scratch4 : Memref Cert.KernelIdeal.sig Kind.scVector Space.vmem Cert.KernelIdeal.S128x256 EltTy.f32)
local notation "rowB" => (Memref.whole Cert.KernelIdeal.cc7_scratch5 : Memref Cert.KernelIdeal.sig Kind.scVector Space.vmem Cert.KernelIdeal.S128x256 EltTy.f32)
local notation "gA0" => Cert.KernelIdeal.cc7_scratch6
local notation "gA1" => Cert.KernelIdeal.cc7_scratch7
local notation "gB0" => Cert.KernelIdeal.cc7_scratch8
local notation "gB1" => Cert.KernelIdeal.cc7_scratch9
local notation "sc0" => Cert.KernelIdeal.cc7_scoped0
local notation "sc1" => Cert.KernelIdeal.cc7_scoped1
local notation "sc2" => Cert.KernelIdeal.cc7_scoped2
local notation "sc3" => Cert.KernelIdeal.cc7_scoped3
local notation "sc4" => Cert.KernelIdeal.cc7_scoped4
local notation "sc5" => Cert.KernelIdeal.cc7_scoped5
local notation "sc6" => Cert.KernelIdeal.cc7_scoped6
local notation "sc7" => Cert.KernelIdeal.cc7_scoped7
local notation "sc8" => Cert.KernelIdeal.cc7_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.KernelIdeal.Sc.B7

end
-- ==== Proof.ScBody7VI.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody7CI

noncomputable section

namespace Cert.KernelIdeal.Sc.B7

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.KernelIdeal.main_v41
local notation "cidsR" => Cert.KernelIdeal.main_v43
local notation "idtR" => Cert.KernelIdeal.main_arg2
local notation "catR" => Cert.KernelIdeal.main_arg3
local notation "outR" => Cert.KernelIdeal.main_v44
local notation "idsM" => (Memref.whole Cert.KernelIdeal.main_v41_scv : Memref Cert.KernelIdeal.sig Kind.scVector Space.hbm Cert.KernelIdeal.S102400 EltTy.i32)
local notation "cidsM" => (Memref.whole Cert.KernelIdeal.main_v43_scv : Memref Cert.KernelIdeal.sig Kind.scVector Space.hbm Cert.KernelIdeal.S102400 EltTy.i32)
local notation "idtM" => (Memref.whole Cert.KernelIdeal.main_arg2_scv : Memref Cert.KernelIdeal.sig Kind.scVector Space.hbm Cert.KernelIdeal.S100000x128 EltTy.f32)
local notation "catM" => (Memref.whole Cert.KernelIdeal.main_arg3_scv : Memref Cert.KernelIdeal.sig Kind.scVector Space.hbm Cert.KernelIdeal.S1000x128 EltTy.f32)
local notation "outM" => (Memref.whole Cert.KernelIdeal.main_v44_scv : Memref Cert.KernelIdeal.sig Kind.scVector Space.hbm Cert.KernelIdeal.S102400x256 EltTy.f32)
local notation "bA0" => Cert.KernelIdeal.cc7_scratch0
local notation "bA1" => Cert.KernelIdeal.cc7_scratch1
local notation "bB0" => Cert.KernelIdeal.cc7_scratch2
local notation "bB1" => Cert.KernelIdeal.cc7_scratch3
local notation "bRA" => Cert.KernelIdeal.cc7_scratch4
local notation "bRB" => Cert.KernelIdeal.cc7_scratch5
local notation "ixA0" => (Memref.whole Cert.KernelIdeal.cc7_scratch0 : Memref Cert.KernelIdeal.sig Kind.scVector Space.vmem Cert.KernelIdeal.S128 EltTy.i32)
local notation "ixA1" => (Memref.whole Cert.KernelIdeal.cc7_scratch1 : Memref Cert.KernelIdeal.sig Kind.scVector Space.vmem Cert.KernelIdeal.S128 EltTy.i32)
local notation "ixB0" => (Memref.whole Cert.KernelIdeal.cc7_scratch2 : Memref Cert.KernelIdeal.sig Kind.scVector Space.vmem Cert.KernelIdeal.S128 EltTy.i32)
local notation "ixB1" => (Memref.whole Cert.KernelIdeal.cc7_scratch3 : Memref Cert.KernelIdeal.sig Kind.scVector Space.vmem Cert.KernelIdeal.S128 EltTy.i32)
local notation "rowA" => (Memref.whole Cert.KernelIdeal.cc7_scratch4 : Memref Cert.KernelIdeal.sig Kind.scVector Space.vmem Cert.KernelIdeal.S128x256 EltTy.f32)
local notation "rowB" => (Memref.whole Cert.KernelIdeal.cc7_scratch5 : Memref Cert.KernelIdeal.sig Kind.scVector Space.vmem Cert.KernelIdeal.S128x256 EltTy.f32)
local notation "gA0" => Cert.KernelIdeal.cc7_scratch6
local notation "gA1" => Cert.KernelIdeal.cc7_scratch7
local notation "gB0" => Cert.KernelIdeal.cc7_scratch8
local notation "gB1" => Cert.KernelIdeal.cc7_scratch9
local notation "sc0" => Cert.KernelIdeal.cc7_scoped0
local notation "sc1" => Cert.KernelIdeal.cc7_scoped1
local notation "sc2" => Cert.KernelIdeal.cc7_scoped2
local notation "sc3" => Cert.KernelIdeal.cc7_scoped3
local notation "sc4" => Cert.KernelIdeal.cc7_scoped4
local notation "sc5" => Cert.KernelIdeal.cc7_scoped5
local notation "sc6" => Cert.KernelIdeal.cc7_scoped6
local notation "sc7" => Cert.KernelIdeal.cc7_scoped7
local notation "sc8" => Cert.KernelIdeal.cc7_scoped8

variable [FloatOps F]

set_option maxHeartbeats 4000000 in
set_option maxRecDepth 65536 in
theorem tile_body7v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.KernelIdeal.Sc.B7

end
-- ==== Proof.ScRunI.lean ====
/-
  The run of the whole program: the eight gather tasks' bodies, each on its call's arrays with its index rows in
  range (every entry of a call's index row is an entry of the index argument), discharge the task obligations; the
  TensorCore tail's final values do not depend on the recorded pairs it is run under.
-/
import proofs.«204770_g8065948582451_cont_9to1c4b_476_56_alg».proof.Proof.ScFinalI
import proofs.«204770_g8065948582451_cont_9to1c4b_476_56_alg».proof.Proof.TcTailIndep
import proofs.«204770_g8065948582451_cont_9to1c4b_476_56_alg».proof.Proof.ScValsI
import proofs.«204770_g8065948582451_cont_9to1c4b_476_56_alg».proof.Proof.AsmFrameI
import proofs.«204770_g8065948582451_cont_9to1c4b_476_56_alg».proof.Proof.ScBody0VI
import proofs.«204770_g8065948582451_cont_9to1c4b_476_56_alg».proof.Proof.ScBody1VI
import proofs.«204770_g8065948582451_cont_9to1c4b_476_56_alg».proof.Proof.ScBody2VI
import proofs.«204770_g8065948582451_cont_9to1c4b_476_56_alg».proof.Proof.ScBody3VI
import proofs.«204770_g8065948582451_cont_9to1c4b_476_56_alg».proof.Proof.ScBody4VI
import proofs.«204770_g8065948582451_cont_9to1c4b_476_56_alg».proof.Proof.ScBody5VI
import proofs.«204770_g8065948582451_cont_9to1c4b_476_56_alg».proof.Proof.ScBody6VI
import proofs.«204770_g8065948582451_cont_9to1c4b_476_56_alg».proof.Proof.ScBody7VI

noncomputable section

namespace Cert.KernelIdeal.Sc

open Cert.KernelIdeal Cert.KernelIdeal.Gen

open Idealize.ShloMosaic Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F]

local notation "𝕄" => MT nD τ sig (HIx 8) (Elt F) ℕ UU ℕ

variable (m : (ℓ : Loc nD τ sig) → Buf (Elt F) ℓ) (ρ : Dev nD → PrngReg)

set_option maxHeartbeats 4000000 in
/-- Every weakly fair execution of the program's threads ends, and every unscoped TensorCore buffer then holds the
    final valuation: the index arguments in range. -/
theorem run_main [∀ e, Nonempty (Elt F e)]
    (hids : ∀ (d : Dev nD) (i : S4096x200.Idx), ((m ((T d : Thread nD τ).loc main_arg0) : Vec F S4096x200 .i32) i).toNat < 100000)
    (hcids : ∀ (d : Dev nD) (i : S4096x200.Idx), ((m ((T d : Thread nD τ).loc main_arg1) : Vec F S4096x200 .i32) i).toNat < 1000) :
    θ_run (Cert.KernelIdeal.defs (F := F)) (Cert.KernelIdeal.threads (F := F)) ⟨m, fun _ => 0, ρ⟩
      (fun r => ∀ d : Dev nD, ∀ b ∈ ucRefs τ sig, r.2.mem (d, b) = Vfin m d b) :=
  run_of_bodies m ρ (fun W d => TcTail.Vout_indep (Vin7 m) none W ∅ d)
    (fun d L O W hO => by
      unfold tileIn0 tileOut0
      exact tile_body0v facts d L (ids0 m d) (cids0 m d) (idt m d) (cat m d) (ids0_lt m d (hids d)) (cids0_lt m d (hcids d)) O W hO)
    (fun d L O W hO => by
      unfold tileIn1 tileOut1
      exact B1.tile_body1v facts d L (ids1 m d) (cids1 m d) (idt m d) (cat m d) (ids1_lt m d (hids d)) (cids1_lt m d (hcids d)) O W hO)
    (fun d L O W hO => by
      unfold tileIn2 tileOut2
      exact B2.tile_body2v facts d L (ids2 m d) (cids2 m d) (idt m d) (cat m d) (ids2_lt m d (hids d)) (cids2_lt m d (hcids d)) O W hO)
    (fun d L O W hO => by
      unfold tileIn3 tileOut3
      exact B3.tile_body3v facts d L (ids3 m d) (cids3 m d) (idt m d) (cat m d) (ids3_lt m d (hids d)) (cids3_lt m d (hcids d)) O W hO)
    (fun d L O W hO => by
      unfold tileIn4 tileOut4
      exact B4.tile_body4v facts d L (ids4 m d) (cids4 m d) (idt m d) (cat m d) (ids4_lt m d (hids d)) (cids4_lt m d (hcids d)) O W hO)
    (fun d L O W hO => by
      unfold tileIn5 tileOut5
      exact B5.tile_body5v facts d L (ids5 m d) (cids5 m d) (idt m d) (cat m d) (ids5_lt m d (hids d)) (cids5_lt m d (hcids d)) O W hO)
    (fun d L O W hO => by
      unfold tileIn6 tileOut6
      exact B6.tile_body6v facts d L (ids6 m d) (cids6 m d) (idt m d) (cat m d) (ids6_lt m d (hids d)) (cids6_lt m d (hcids d)) O W hO)
    (fun d L O W hO => by
      unfold tileIn7 tileOut7
      exact B7.tile_body7v facts d L (ids7 m d) (cids7 m d) (idt m d) (cat m d) (ids7_lt m d (hids d)) (cids7_lt m d (hcids d)) O W hO)

/-- The run in the form the claims' assembly takes. -/
theorem runTo [∀ e, Nonempty (Elt F e)] : Cert.KernelIdeal.Asm.RunTo (F := F) (fun m d => Vfin m d) :=
  fun m ρ hids hcids => run_main m ρ hids hcids

end Cert.KernelIdeal.Sc

end
-- ==== Proof.TcTailIndepB.lean ====
/-
  The valuations the tail passes through do not depend on the set bounding the recorded pairs: an array after the
  write-backs is a function of its entry contents and of what each point flushes, nothing else of the proof data.
-/
import proofs.«204770_g8065948582451_cont_9to1c4b_476_56_alg».proof.Proof.ScPayB
import proofs.«204770_g8065948582451_cont_9to1c4b_476_56_alg».proof.Proof.Gen.Kernel.Points
import proofs.«204770_g8065948582451_cont_9to1c4b_476_56_alg».proof.Proof.TcTailWpB
import Idealize.ShloMosaic.Lib.Pipeline.Value
import Idealize.ShloMosaic.Lib.Pipeline.FrameBody
import Idealize.ShloMosaic.Lib.Pipeline.RegionsLoop
import Idealize.ShloMosaic.Lib.Tactic

set_option maxRecDepth 16384

noncomputable section

namespace Cert.Kernel.TcTail

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 8) (Elt F) ℕ Sc.UU ℕ

/-- The arrays after the write-backs depend on the proof data's entry contents and block contents only. -/
theorem arrAt_congr_of {cfg : Pipeline.Cfg sig Λ₀} {c : Dev nD} (d d' : Dat τ (Elt F) (HIx 8) ℕ Sc.UU ℕ cfg c) (w : Fin cfg.W)
    (hA : d.A w = d'.A w) (hafter : d.after w = d'.after w) : ∀ n, d.arrAt w n = d'.arrAt w n
  | 0 => hA
  | n + 1 => by
    funext i
    have hf : ∀ t, d.flushed w t = d'.flushed w t := fun t => by unfold Dat.flushed; rw [hafter]
    rw [d.arrAt_succ_apply w n i, d'.arrAt_succ_apply w n i, arrAt_congr_of d d' w hA hafter n]
    simp only [hf]

theorem Vx0_indep (V : Valuation τ sig (Elt F)) (B B' : Set (SemLoc sig × HIx 8)) (c : Dev nD) : Vx0 V B c = Vx0 V B' c := by
  unfold Vx0
  rw [arrAt_congr_of (dat8 V B c) (dat8 V B' c) 5 rfl rfl]

theorem Vx1_indep (V : Valuation τ sig (Elt F)) (B B' : Set (SemLoc sig × HIx 8)) (c : Dev nD) : Vx1 V B c = Vx1 V B' c := by
  unfold Vx1
  rw [arrAt_congr_of (dat9 V B c) (dat9 V B' c) 5 rfl rfl]

theorem Vx2_indep (V : Valuation τ sig (Elt F)) (B B' : Set (SemLoc sig × HIx 8)) (c : Dev nD) : Vx2 V B c = Vx2 V B' c := by
  unfold Vx2
  rw [arrAt_congr_of (dat10 V B c) (dat10 V B' c) 5 rfl rfl]

theorem Vx3_indep (V : Valuation τ sig (Elt F)) (B B' : Set (SemLoc sig × HIx 8)) (c : Dev nD) : Vx3 V B c = Vx3 V B' c := by
  unfold Vx3
  rw [arrAt_congr_of (dat11 V B c) (dat11 V B' c) 5 rfl rfl]

theorem Vx4_indep (V : Valuation τ sig (Elt F)) (B B' : Set (SemLoc sig × HIx 8)) (c : Dev nD) : Vx4 V B c = Vx4 V B' c := by
  unfold Vx4
  rw [arrAt_congr_of (dat12 V B c) (dat12 V B' c) 5 rfl rfl]

theorem Vx5_indep (V : Valuation τ sig (Elt F)) (B B' : Set (SemLoc sig × HIx 8)) (c : Dev nD) : Vx5 V B c = Vx5 V B' c := by
  unfold Vx5
  rw [arrAt_congr_of (dat13 V B c) (dat13 V B' c) 5 rfl rfl]

theorem Vx6_indep (V : Valuation τ sig (Elt F)) (B B' : Set (SemLoc sig × HIx 8)) (c : Dev nD) : Vx6 V B c = Vx6 V B' c := by
  unfold Vx6
  rw [arrAt_congr_of (dat14 V B c) (dat14 V B' c) 5 rfl rfl]

theorem Vx7_indep (V : Valuation τ sig (Elt F)) (B B' : Set (SemLoc sig × HIx 8)) (c : Dev nD) : Vx7 V B c = Vx7 V B' c := by
  unfold Vx7
  rw [arrAt_congr_of (dat15 V B c) (dat15 V B' c) 5 rfl rfl]

variable (Vin : Dev nD → Valuation τ sig (Elt F))

theorem X0_indep (B B' : Set (SemLoc sig × HIx 8)) (c : Dev nD) : X0 Vin B c = X0 Vin B' c := by
  rw [X0_eq, X0_eq, Vx0_indep _ B B']

theorem X1_indep (B B' : Set (SemLoc sig × HIx 8)) (c : Dev nD) : X1 Vin B c = X1 Vin B' c := by
  rw [X1_eq, X1_eq, Vx1_indep _ B B']
  unfold E1
  rw [X0_indep Vin B B' c]

theorem X2_indep (B B' : Set (SemLoc sig × HIx 8)) (c : Dev nD) : X2 Vin B c = X2 Vin B' c := by
  rw [X2_eq, X2_eq, Vx2_indep _ B B']
  unfold E2
  rw [X1_indep Vin B B' c]

theorem X3_indep (B B' : Set (SemLoc sig × HIx 8)) (c : Dev nD) : X3 Vin B c = X3 Vin B' c := by
  rw [X3_eq, X3_eq, Vx3_indep _ B B']
  unfold E3
  rw [X2_indep Vin B B' c]

theorem X4_indep (B B' : Set (SemLoc sig × HIx 8)) (c : Dev nD) : X4 Vin B c = X4 Vin B' c := by
  rw [X4_eq, X4_eq, Vx4_indep _ B B']
  unfold E4
  rw [X3_indep Vin B B' c]

theorem X5_indep (B B' : Set (SemLoc sig × HIx 8)) (c : Dev nD) : X5 Vin B c = X5 Vin B' c := by
  rw [X5_eq, X5_eq, Vx5_indep _ B B']
  unfold E5
  rw [X4_indep Vin B B' c]

theorem X6_indep (B B' : Set (SemLoc sig × HIx 8)) (c : Dev nD) : X6 Vin B c = X6 Vin B' c := by
  rw [X6_eq, X6_eq, Vx6_indep _ B B']
  unfold E6
  rw [X5_indep Vin B B' c]

theorem X7_indep (B B' : Set (SemLoc sig × HIx 8)) (c : Dev nD) : X7 Vin B c = X7 Vin B' c := by
  rw [X7_eq, X7_eq, Vx7_indep _ B B']
  unfold E7
  rw [X6_indep Vin B B' c]

/-- The final valuation does not depend on the recorded pairs the tail starts with. -/
theorem Vout_indep (ι : HIx 8) (W W' : Finset (SemLoc sig × HIx 8)) (d : Dev nD) : Vout Vin ι W d = Vout Vin ι W' d := by
  unfold Vout Vend
  rw [X7_indep Vin (Bof W ι) (Bof W' ι) d]

end Cert.Kernel.TcTail

end
-- ==== Proof.ScBody0AB.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResB

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v6
local notation "cidsR" => Cert.Kernel.main_v8
local notation "idtR" => Cert.Kernel.main_arg2
local notation "catR" => Cert.Kernel.main_arg3
local notation "outR" => Cert.Kernel.main_v9
local notation "idsM" => (Memref.whole Cert.Kernel.main_v6_scv : Memref Cert.Kernel.sig Kind.scVector Space.hbm Cert.Kernel.S102400 EltTy.i32)
local notation "cidsM" => (Memref.whole Cert.Kernel.main_v8_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v9_scv : Memref Cert.Kernel.sig Kind.scVector Space.hbm Cert.Kernel.S102400x256 EltTy.f32)
local notation "bA0" => Cert.Kernel.cc0_scratch0
local notation "bA1" => Cert.Kernel.cc0_scratch1
local notation "bB0" => Cert.Kernel.cc0_scratch2
local notation "bB1" => Cert.Kernel.cc0_scratch3
local notation "bRA" => Cert.Kernel.cc0_scratch4
local notation "bRB" => Cert.Kernel.cc0_scratch5
local notation "ixA0" => (Memref.whole Cert.Kernel.cc0_scratch0 : Memref Cert.Kernel.sig Kind.scVector Space.vmem Cert.Kernel.S128 EltTy.i32)
local notation "ixA1" => (Memref.whole Cert.Kernel.cc0_scratch1 : Memref Cert.Kernel.sig Kind.scVector Space.vmem Cert.Kernel.S128 EltTy.i32)
local notation "ixB0" => (Memref.whole Cert.Kernel.cc0_scratch2 : Memref Cert.Kernel.sig Kind.scVector Space.vmem Cert.Kernel.S128 EltTy.i32)
local notation "ixB1" => (Memref.whole Cert.Kernel.cc0_scratch3 : Memref Cert.Kernel.sig Kind.scVector Space.vmem Cert.Kernel.S128 EltTy.i32)
local notation "rowA" => (Memref.whole Cert.Kernel.cc0_scratch4 : Memref Cert.Kernel.sig Kind.scVector Space.vmem Cert.Kernel.S128x256 EltTy.f32)
local notation "rowB" => (Memref.whole Cert.Kernel.cc0_scratch5 : Memref Cert.Kernel.sig Kind.scVector Space.vmem Cert.Kernel.S128x256 EltTy.f32)
local notation "gA0" => Cert.Kernel.cc0_scratch6
local notation "gA1" => Cert.Kernel.cc0_scratch7
local notation "gB0" => Cert.Kernel.cc0_scratch8
local notation "gB1" => Cert.Kernel.cc0_scratch9
local notation "sc0" => Cert.Kernel.cc0_scoped0
local notation "sc1" => Cert.Kernel.cc0_scoped1
local notation "sc2" => Cert.Kernel.cc0_scoped2
local notation "sc3" => Cert.Kernel.cc0_scoped3
local notation "sc4" => Cert.Kernel.cc0_scoped4
local notation "sc5" => Cert.Kernel.cc0_scoped5
local notation "sc6" => Cert.Kernel.cc0_scoped6
local notation "sc7" => Cert.Kernel.cc0_scoped7
local notation "sc8" => Cert.Kernel.cc0_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v9_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v9_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v9_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.Kernel.Sc

end
-- ==== Proof.ScBody0BB.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody0AB

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v6
local notation "cidsR" => Cert.Kernel.main_v8
local notation "idtR" => Cert.Kernel.main_arg2
local notation "catR" => Cert.Kernel.main_arg3
local notation "outR" => Cert.Kernel.main_v9
local notation "idsM" => (Memref.whole Cert.Kernel.main_v6_scv : Memref Cert.Kernel.sig Kind.scVector Space.hbm Cert.Kernel.S102400 EltTy.i32)
local notation "cidsM" => (Memref.whole Cert.Kernel.main_v8_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v9_scv : Memref Cert.Kernel.sig Kind.scVector Space.hbm Cert.Kernel.S102400x256 EltTy.f32)
local notation "bA0" => Cert.Kernel.cc0_scratch0
local notation "bA1" => Cert.Kernel.cc0_scratch1
local notation "bB0" => Cert.Kernel.cc0_scratch2
local notation "bB1" => Cert.Kernel.cc0_scratch3
local notation "bRA" => Cert.Kernel.cc0_scratch4
local notation "bRB" => Cert.Kernel.cc0_scratch5
local notation "ixA0" => (Memref.whole Cert.Kernel.cc0_scratch0 : Memref Cert.Kernel.sig Kind.scVector Space.vmem Cert.Kernel.S128 EltTy.i32)
local notation "ixA1" => (Memref.whole Cert.Kernel.cc0_scratch1 : Memref Cert.Kernel.sig Kind.scVector Space.vmem Cert.Kernel.S128 EltTy.i32)
local notation "ixB0" => (Memref.whole Cert.Kernel.cc0_scratch2 : Memref Cert.Kernel.sig Kind.scVector Space.vmem Cert.Kernel.S128 EltTy.i32)
local notation "ixB1" => (Memref.whole Cert.Kernel.cc0_scratch3 : Memref Cert.Kernel.sig Kind.scVector Space.vmem Cert.Kernel.S128 EltTy.i32)
local notation "rowA" => (Memref.whole Cert.Kernel.cc0_scratch4 : Memref Cert.Kernel.sig Kind.scVector Space.vmem Cert.Kernel.S128x256 EltTy.f32)
local notation "rowB" => (Memref.whole Cert.Kernel.cc0_scratch5 : Memref Cert.Kernel.sig Kind.scVector Space.vmem Cert.Kernel.S128x256 EltTy.f32)
local notation "gA0" => Cert.Kernel.cc0_scratch6
local notation "gA1" => Cert.Kernel.cc0_scratch7
local notation "gB0" => Cert.Kernel.cc0_scratch8
local notation "gB1" => Cert.Kernel.cc0_scratch9
local notation "sc0" => Cert.Kernel.cc0_scoped0
local notation "sc1" => Cert.Kernel.cc0_scoped1
local notation "sc2" => Cert.Kernel.cc0_scoped2
local notation "sc3" => Cert.Kernel.cc0_scoped3
local notation "sc4" => Cert.Kernel.cc0_scoped4
local notation "sc5" => Cert.Kernel.cc0_scoped5
local notation "sc6" => Cert.Kernel.cc0_scoped6
local notation "sc7" => Cert.Kernel.cc0_scoped7
local notation "sc8" => Cert.Kernel.cc0_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.Kernel.Sc

end
-- ==== Proof.ScBody0CB.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody0BB

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v6
local notation "cidsR" => Cert.Kernel.main_v8
local notation "idtR" => Cert.Kernel.main_arg2
local notation "catR" => Cert.Kernel.main_arg3
local notation "outR" => Cert.Kernel.main_v9
local notation "idsM" => (Memref.whole Cert.Kernel.main_v6_scv : Memref Cert.Kernel.sig Kind.scVector Space.hbm Cert.Kernel.S102400 EltTy.i32)
local notation "cidsM" => (Memref.whole Cert.Kernel.main_v8_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v9_scv : Memref Cert.Kernel.sig Kind.scVector Space.hbm Cert.Kernel.S102400x256 EltTy.f32)
local notation "bA0" => Cert.Kernel.cc0_scratch0
local notation "bA1" => Cert.Kernel.cc0_scratch1
local notation "bB0" => Cert.Kernel.cc0_scratch2
local notation "bB1" => Cert.Kernel.cc0_scratch3
local notation "bRA" => Cert.Kernel.cc0_scratch4
local notation "bRB" => Cert.Kernel.cc0_scratch5
local notation "ixA0" => (Memref.whole Cert.Kernel.cc0_scratch0 : Memref Cert.Kernel.sig Kind.scVector Space.vmem Cert.Kernel.S128 EltTy.i32)
local notation "ixA1" => (Memref.whole Cert.Kernel.cc0_scratch1 : Memref Cert.Kernel.sig Kind.scVector Space.vmem Cert.Kernel.S128 EltTy.i32)
local notation "ixB0" => (Memref.whole Cert.Kernel.cc0_scratch2 : Memref Cert.Kernel.sig Kind.scVector Space.vmem Cert.Kernel.S128 EltTy.i32)
local notation "ixB1" => (Memref.whole Cert.Kernel.cc0_scratch3 : Memref Cert.Kernel.sig Kind.scVector Space.vmem Cert.Kernel.S128 EltTy.i32)
local notation "rowA" => (Memref.whole Cert.Kernel.cc0_scratch4 : Memref Cert.Kernel.sig Kind.scVector Space.vmem Cert.Kernel.S128x256 EltTy.f32)
local notation "rowB" => (Memref.whole Cert.Kernel.cc0_scratch5 : Memref Cert.Kernel.sig Kind.scVector Space.vmem Cert.Kernel.S128x256 EltTy.f32)
local notation "gA0" => Cert.Kernel.cc0_scratch6
local notation "gA1" => Cert.Kernel.cc0_scratch7
local notation "gB0" => Cert.Kernel.cc0_scratch8
local notation "gB1" => Cert.Kernel.cc0_scratch9
local notation "sc0" => Cert.Kernel.cc0_scoped0
local notation "sc1" => Cert.Kernel.cc0_scoped1
local notation "sc2" => Cert.Kernel.cc0_scoped2
local notation "sc3" => Cert.Kernel.cc0_scoped3
local notation "sc4" => Cert.Kernel.cc0_scoped4
local notation "sc5" => Cert.Kernel.cc0_scoped5
local notation "sc6" => Cert.Kernel.cc0_scoped6
local notation "sc7" => Cert.Kernel.cc0_scoped7
local notation "sc8" => Cert.Kernel.cc0_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.Kernel.Sc

end
-- ==== Proof.ScBody0VB.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody0CB

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v6
local notation "cidsR" => Cert.Kernel.main_v8
local notation "idtR" => Cert.Kernel.main_arg2
local notation "catR" => Cert.Kernel.main_arg3
local notation "outR" => Cert.Kernel.main_v9
local notation "idsM" => (Memref.whole Cert.Kernel.main_v6_scv : Memref Cert.Kernel.sig Kind.scVector Space.hbm Cert.Kernel.S102400 EltTy.i32)
local notation "cidsM" => (Memref.whole Cert.Kernel.main_v8_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v9_scv : Memref Cert.Kernel.sig Kind.scVector Space.hbm Cert.Kernel.S102400x256 EltTy.f32)
local notation "bA0" => Cert.Kernel.cc0_scratch0
local notation "bA1" => Cert.Kernel.cc0_scratch1
local notation "bB0" => Cert.Kernel.cc0_scratch2
local notation "bB1" => Cert.Kernel.cc0_scratch3
local notation "bRA" => Cert.Kernel.cc0_scratch4
local notation "bRB" => Cert.Kernel.cc0_scratch5
local notation "ixA0" => (Memref.whole Cert.Kernel.cc0_scratch0 : Memref Cert.Kernel.sig Kind.scVector Space.vmem Cert.Kernel.S128 EltTy.i32)
local notation "ixA1" => (Memref.whole Cert.Kernel.cc0_scratch1 : Memref Cert.Kernel.sig Kind.scVector Space.vmem Cert.Kernel.S128 EltTy.i32)
local notation "ixB0" => (Memref.whole Cert.Kernel.cc0_scratch2 : Memref Cert.Kernel.sig Kind.scVector Space.vmem Cert.Kernel.S128 EltTy.i32)
local notation "ixB1" => (Memref.whole Cert.Kernel.cc0_scratch3 : Memref Cert.Kernel.sig Kind.scVector Space.vmem Cert.Kernel.S128 EltTy.i32)
local notation "rowA" => (Memref.whole Cert.Kernel.cc0_scratch4 : Memref Cert.Kernel.sig Kind.scVector Space.vmem Cert.Kernel.S128x256 EltTy.f32)
local notation "rowB" => (Memref.whole Cert.Kernel.cc0_scratch5 : Memref Cert.Kernel.sig Kind.scVector Space.vmem Cert.Kernel.S128x256 EltTy.f32)
local notation "gA0" => Cert.Kernel.cc0_scratch6
local notation "gA1" => Cert.Kernel.cc0_scratch7
local notation "gB0" => Cert.Kernel.cc0_scratch8
local notation "gB1" => Cert.Kernel.cc0_scratch9
local notation "sc0" => Cert.Kernel.cc0_scoped0
local notation "sc1" => Cert.Kernel.cc0_scoped1
local notation "sc2" => Cert.Kernel.cc0_scoped2
local notation "sc3" => Cert.Kernel.cc0_scoped3
local notation "sc4" => Cert.Kernel.cc0_scoped4
local notation "sc5" => Cert.Kernel.cc0_scoped5
local notation "sc6" => Cert.Kernel.cc0_scoped6
local notation "sc7" => Cert.Kernel.cc0_scoped7
local notation "sc8" => Cert.Kernel.cc0_scoped8

variable [FloatOps F]

set_option maxHeartbeats 4000000 in
set_option maxRecDepth 65536 in
theorem tile_body0v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.Kernel.Sc

end
-- ==== Proof.ScBody1AB.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResB

noncomputable section

namespace Cert.Kernel.Sc.B1

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v11
local notation "cidsR" => Cert.Kernel.main_v13
local notation "idtR" => Cert.Kernel.main_arg2
local notation "catR" => Cert.Kernel.main_arg3
local notation "outR" => Cert.Kernel.main_v14
local notation "idsM" => (Memref.whole Cert.Kernel.main_v11_scv : Memref Cert.Kernel.sig Kind.scVector Space.hbm Cert.Kernel.S102400 EltTy.i32)
local notation "cidsM" => (Memref.whole Cert.Kernel.main_v13_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v14_scv : Memref Cert.Kernel.sig Kind.scVector Space.hbm Cert.Kernel.S102400x256 EltTy.f32)
local notation "bA0" => Cert.Kernel.cc1_scratch0
local notation "bA1" => Cert.Kernel.cc1_scratch1
local notation "bB0" => Cert.Kernel.cc1_scratch2
local notation "bB1" => Cert.Kernel.cc1_scratch3
local notation "bRA" => Cert.Kernel.cc1_scratch4
local notation "bRB" => Cert.Kernel.cc1_scratch5
local notation "ixA0" => (Memref.whole Cert.Kernel.cc1_scratch0 : Memref Cert.Kernel.sig Kind.scVector Space.vmem Cert.Kernel.S128 EltTy.i32)
local notation "ixA1" => (Memref.whole Cert.Kernel.cc1_scratch1 : Memref Cert.Kernel.sig Kind.scVector Space.vmem Cert.Kernel.S128 EltTy.i32)
local notation "ixB0" => (Memref.whole Cert.Kernel.cc1_scratch2 : Memref Cert.Kernel.sig Kind.scVector Space.vmem Cert.Kernel.S128 EltTy.i32)
local notation "ixB1" => (Memref.whole Cert.Kernel.cc1_scratch3 : Memref Cert.Kernel.sig Kind.scVector Space.vmem Cert.Kernel.S128 EltTy.i32)
local notation "rowA" => (Memref.whole Cert.Kernel.cc1_scratch4 : Memref Cert.Kernel.sig Kind.scVector Space.vmem Cert.Kernel.S128x256 EltTy.f32)
local notation "rowB" => (Memref.whole Cert.Kernel.cc1_scratch5 : Memref Cert.Kernel.sig Kind.scVector Space.vmem Cert.Kernel.S128x256 EltTy.f32)
local notation "gA0" => Cert.Kernel.cc1_scratch6
local notation "gA1" => Cert.Kernel.cc1_scratch7
local notation "gB0" => Cert.Kernel.cc1_scratch8
local notation "gB1" => Cert.Kernel.cc1_scratch9
local notation "sc0" => Cert.Kernel.cc1_scoped0
local notation "sc1" => Cert.Kernel.cc1_scoped1
local notation "sc2" => Cert.Kernel.cc1_scoped2
local notation "sc3" => Cert.Kernel.cc1_scoped3
local notation "sc4" => Cert.Kernel.cc1_scoped4
local notation "sc5" => Cert.Kernel.cc1_scoped5
local notation "sc6" => Cert.Kernel.cc1_scoped6
local notation "sc7" => Cert.Kernel.cc1_scoped7
local notation "sc8" => Cert.Kernel.cc1_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v14_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v14_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v14_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.Kernel.Sc.B1

end
-- ==== Proof.ScBody1BB.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody1AB

noncomputable section

namespace Cert.Kernel.Sc.B1

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v11
local notation "cidsR" => Cert.Kernel.main_v13
local notation "idtR" => Cert.Kernel.main_arg2
local notation "catR" => Cert.Kernel.main_arg3
local notation "outR" => Cert.Kernel.main_v14
local notation "idsM" => (Memref.whole Cert.Kernel.main_v11_scv : Memref Cert.Kernel.sig Kind.scVector Space.hbm Cert.Kernel.S102400 EltTy.i32)
local notation "cidsM" => (Memref.whole Cert.Kernel.main_v13_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v14_scv : Memref Cert.Kernel.sig Kind.scVector Space.hbm Cert.Kernel.S102400x256 EltTy.f32)
local notation "bA0" => Cert.Kernel.cc1_scratch0
local notation "bA1" => Cert.Kernel.cc1_scratch1
local notation "bB0" => Cert.Kernel.cc1_scratch2
local notation "bB1" => Cert.Kernel.cc1_scratch3
local notation "bRA" => Cert.Kernel.cc1_scratch4
local notation "bRB" => Cert.Kernel.cc1_scratch5
local notation "ixA0" => (Memref.whole Cert.Kernel.cc1_scratch0 : Memref Cert.Kernel.sig Kind.scVector Space.vmem Cert.Kernel.S128 EltTy.i32)
local notation "ixA1" => (Memref.whole Cert.Kernel.cc1_scratch1 : Memref Cert.Kernel.sig Kind.scVector Space.vmem Cert.Kernel.S128 EltTy.i32)
local notation "ixB0" => (Memref.whole Cert.Kernel.cc1_scratch2 : Memref Cert.Kernel.sig Kind.scVector Space.vmem Cert.Kernel.S128 EltTy.i32)
local notation "ixB1" => (Memref.whole Cert.Kernel.cc1_scratch3 : Memref Cert.Kernel.sig Kind.scVector Space.vmem Cert.Kernel.S128 EltTy.i32)
local notation "rowA" => (Memref.whole Cert.Kernel.cc1_scratch4 : Memref Cert.Kernel.sig Kind.scVector Space.vmem Cert.Kernel.S128x256 EltTy.f32)
local notation "rowB" => (Memref.whole Cert.Kernel.cc1_scratch5 : Memref Cert.Kernel.sig Kind.scVector Space.vmem Cert.Kernel.S128x256 EltTy.f32)
local notation "gA0" => Cert.Kernel.cc1_scratch6
local notation "gA1" => Cert.Kernel.cc1_scratch7
local notation "gB0" => Cert.Kernel.cc1_scratch8
local notation "gB1" => Cert.Kernel.cc1_scratch9
local notation "sc0" => Cert.Kernel.cc1_scoped0
local notation "sc1" => Cert.Kernel.cc1_scoped1
local notation "sc2" => Cert.Kernel.cc1_scoped2
local notation "sc3" => Cert.Kernel.cc1_scoped3
local notation "sc4" => Cert.Kernel.cc1_scoped4
local notation "sc5" => Cert.Kernel.cc1_scoped5
local notation "sc6" => Cert.Kernel.cc1_scoped6
local notation "sc7" => Cert.Kernel.cc1_scoped7
local notation "sc8" => Cert.Kernel.cc1_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.Kernel.Sc.B1

end
-- ==== Proof.ScBody1CB.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody1BB

noncomputable section

namespace Cert.Kernel.Sc.B1

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v11
local notation "cidsR" => Cert.Kernel.main_v13
local notation "idtR" => Cert.Kernel.main_arg2
local notation "catR" => Cert.Kernel.main_arg3
local notation "outR" => Cert.Kernel.main_v14
local notation "idsM" => (Memref.whole Cert.Kernel.main_v11_scv : Memref Cert.Kernel.sig Kind.scVector Space.hbm Cert.Kernel.S102400 EltTy.i32)
local notation "cidsM" => (Memref.whole Cert.Kernel.main_v13_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v14_scv : Memref Cert.Kernel.sig Kind.scVector Space.hbm Cert.Kernel.S102400x256 EltTy.f32)
local notation "bA0" => Cert.Kernel.cc1_scratch0
local notation "bA1" => Cert.Kernel.cc1_scratch1
local notation "bB0" => Cert.Kernel.cc1_scratch2
local notation "bB1" => Cert.Kernel.cc1_scratch3
local notation "bRA" => Cert.Kernel.cc1_scratch4
local notation "bRB" => Cert.Kernel.cc1_scratch5
local notation "ixA0" => (Memref.whole Cert.Kernel.cc1_scratch0 : Memref Cert.Kernel.sig Kind.scVector Space.vmem Cert.Kernel.S128 EltTy.i32)
local notation "ixA1" => (Memref.whole Cert.Kernel.cc1_scratch1 : Memref Cert.Kernel.sig Kind.scVector Space.vmem Cert.Kernel.S128 EltTy.i32)
local notation "ixB0" => (Memref.whole Cert.Kernel.cc1_scratch2 : Memref Cert.Kernel.sig Kind.scVector Space.vmem Cert.Kernel.S128 EltTy.i32)
local notation "ixB1" => (Memref.whole Cert.Kernel.cc1_scratch3 : Memref Cert.Kernel.sig Kind.scVector Space.vmem Cert.Kernel.S128 EltTy.i32)
local notation "rowA" => (Memref.whole Cert.Kernel.cc1_scratch4 : Memref Cert.Kernel.sig Kind.scVector Space.vmem Cert.Kernel.S128x256 EltTy.f32)
local notation "rowB" => (Memref.whole Cert.Kernel.cc1_scratch5 : Memref Cert.Kernel.sig Kind.scVector Space.vmem Cert.Kernel.S128x256 EltTy.f32)
local notation "gA0" => Cert.Kernel.cc1_scratch6
local notation "gA1" => Cert.Kernel.cc1_scratch7
local notation "gB0" => Cert.Kernel.cc1_scratch8
local notation "gB1" => Cert.Kernel.cc1_scratch9
local notation "sc0" => Cert.Kernel.cc1_scoped0
local notation "sc1" => Cert.Kernel.cc1_scoped1
local notation "sc2" => Cert.Kernel.cc1_scoped2
local notation "sc3" => Cert.Kernel.cc1_scoped3
local notation "sc4" => Cert.Kernel.cc1_scoped4
local notation "sc5" => Cert.Kernel.cc1_scoped5
local notation "sc6" => Cert.Kernel.cc1_scoped6
local notation "sc7" => Cert.Kernel.cc1_scoped7
local notation "sc8" => Cert.Kernel.cc1_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.Kernel.Sc.B1

end
-- ==== Proof.ScBody1VB.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody1CB

noncomputable section

namespace Cert.Kernel.Sc.B1

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v11
local notation "cidsR" => Cert.Kernel.main_v13
local notation "idtR" => Cert.Kernel.main_arg2
local notation "catR" => Cert.Kernel.main_arg3
local notation "outR" => Cert.Kernel.main_v14
local notation "idsM" => (Memref.whole Cert.Kernel.main_v11_scv : Memref Cert.Kernel.sig Kind.scVector Space.hbm Cert.Kernel.S102400 EltTy.i32)
local notation "cidsM" => (Memref.whole Cert.Kernel.main_v13_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v14_scv : Memref Cert.Kernel.sig Kind.scVector Space.hbm Cert.Kernel.S102400x256 EltTy.f32)
local notation "bA0" => Cert.Kernel.cc1_scratch0
local notation "bA1" => Cert.Kernel.cc1_scratch1
local notation "bB0" => Cert.Kernel.cc1_scratch2
local notation "bB1" => Cert.Kernel.cc1_scratch3
local notation "bRA" => Cert.Kernel.cc1_scratch4
local notation "bRB" => Cert.Kernel.cc1_scratch5
local notation "ixA0" => (Memref.whole Cert.Kernel.cc1_scratch0 : Memref Cert.Kernel.sig Kind.scVector Space.vmem Cert.Kernel.S128 EltTy.i32)
local notation "ixA1" => (Memref.whole Cert.Kernel.cc1_scratch1 : Memref Cert.Kernel.sig Kind.scVector Space.vmem Cert.Kernel.S128 EltTy.i32)
local notation "ixB0" => (Memref.whole Cert.Kernel.cc1_scratch2 : Memref Cert.Kernel.sig Kind.scVector Space.vmem Cert.Kernel.S128 EltTy.i32)
local notation "ixB1" => (Memref.whole Cert.Kernel.cc1_scratch3 : Memref Cert.Kernel.sig Kind.scVector Space.vmem Cert.Kernel.S128 EltTy.i32)
local notation "rowA" => (Memref.whole Cert.Kernel.cc1_scratch4 : Memref Cert.Kernel.sig Kind.scVector Space.vmem Cert.Kernel.S128x256 EltTy.f32)
local notation "rowB" => (Memref.whole Cert.Kernel.cc1_scratch5 : Memref Cert.Kernel.sig Kind.scVector Space.vmem Cert.Kernel.S128x256 EltTy.f32)
local notation "gA0" => Cert.Kernel.cc1_scratch6
local notation "gA1" => Cert.Kernel.cc1_scratch7
local notation "gB0" => Cert.Kernel.cc1_scratch8
local notation "gB1" => Cert.Kernel.cc1_scratch9
local notation "sc0" => Cert.Kernel.cc1_scoped0
local notation "sc1" => Cert.Kernel.cc1_scoped1
local notation "sc2" => Cert.Kernel.cc1_scoped2
local notation "sc3" => Cert.Kernel.cc1_scoped3
local notation "sc4" => Cert.Kernel.cc1_scoped4
local notation "sc5" => Cert.Kernel.cc1_scoped5
local notation "sc6" => Cert.Kernel.cc1_scoped6
local notation "sc7" => Cert.Kernel.cc1_scoped7
local notation "sc8" => Cert.Kernel.cc1_scoped8

variable [FloatOps F]

set_option maxHeartbeats 4000000 in
set_option maxRecDepth 65536 in
theorem tile_body1v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.Kernel.Sc.B1

end
-- ==== Proof.ScBody2AB.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResB

noncomputable section

namespace Cert.Kernel.Sc.B2

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v16
local notation "cidsR" => Cert.Kernel.main_v18
local notation "idtR" => Cert.Kernel.main_arg2
local notation "catR" => Cert.Kernel.main_arg3
local notation "outR" => Cert.Kernel.main_v19
local notation "idsM" => (Memref.whole Cert.Kernel.main_v16_scv : Memref Cert.Kernel.sig Kind.scVector Space.hbm Cert.Kernel.S102400 EltTy.i32)
local notation "cidsM" => (Memref.whole Cert.Kernel.main_v18_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v19_scv : Memref Cert.Kernel.sig Kind.scVector Space.hbm Cert.Kernel.S102400x256 EltTy.f32)
local notation "bA0" => Cert.Kernel.cc2_scratch0
local notation "bA1" => Cert.Kernel.cc2_scratch1
local notation "bB0" => Cert.Kernel.cc2_scratch2
local notation "bB1" => Cert.Kernel.cc2_scratch3
local notation "bRA" => Cert.Kernel.cc2_scratch4
local notation "bRB" => Cert.Kernel.cc2_scratch5
local notation "ixA0" => (Memref.whole Cert.Kernel.cc2_scratch0 : Memref Cert.Kernel.sig Kind.scVector Space.vmem Cert.Kernel.S128 EltTy.i32)
local notation "ixA1" => (Memref.whole Cert.Kernel.cc2_scratch1 : Memref Cert.Kernel.sig Kind.scVector Space.vmem Cert.Kernel.S128 EltTy.i32)
local notation "ixB0" => (Memref.whole Cert.Kernel.cc2_scratch2 : Memref Cert.Kernel.sig Kind.scVector Space.vmem Cert.Kernel.S128 EltTy.i32)
local notation "ixB1" => (Memref.whole Cert.Kernel.cc2_scratch3 : Memref Cert.Kernel.sig Kind.scVector Space.vmem Cert.Kernel.S128 EltTy.i32)
local notation "rowA" => (Memref.whole Cert.Kernel.cc2_scratch4 : Memref Cert.Kernel.sig Kind.scVector Space.vmem Cert.Kernel.S128x256 EltTy.f32)
local notation "rowB" => (Memref.whole Cert.Kernel.cc2_scratch5 : Memref Cert.Kernel.sig Kind.scVector Space.vmem Cert.Kernel.S128x256 EltTy.f32)
local notation "gA0" => Cert.Kernel.cc2_scratch6
local notation "gA1" => Cert.Kernel.cc2_scratch7
local notation "gB0" => Cert.Kernel.cc2_scratch8
local notation "gB1" => Cert.Kernel.cc2_scratch9
local notation "sc0" => Cert.Kernel.cc2_scoped0
local notation "sc1" => Cert.Kernel.cc2_scoped1
local notation "sc2" => Cert.Kernel.cc2_scoped2
local notation "sc3" => Cert.Kernel.cc2_scoped3
local notation "sc4" => Cert.Kernel.cc2_scoped4
local notation "sc5" => Cert.Kernel.cc2_scoped5
local notation "sc6" => Cert.Kernel.cc2_scoped6
local notation "sc7" => Cert.Kernel.cc2_scoped7
local notation "sc8" => Cert.Kernel.cc2_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v19_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v19_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v19_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.Kernel.Sc.B2

end
-- ==== Proof.ScBody2BB.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody2AB

noncomputable section

namespace Cert.Kernel.Sc.B2

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v16
local notation "cidsR" => Cert.Kernel.main_v18
local notation "idtR" => Cert.Kernel.main_arg2
local notation "catR" => Cert.Kernel.main_arg3
local notation "outR" => Cert.Kernel.main_v19
local notation "idsM" => (Memref.whole Cert.Kernel.main_v16_scv : Memref Cert.Kernel.sig Kind.scVector Space.hbm Cert.Kernel.S102400 EltTy.i32)
local notation "cidsM" => (Memref.whole Cert.Kernel.main_v18_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v19_scv : Memref Cert.Kernel.sig Kind.scVector Space.hbm Cert.Kernel.S102400x256 EltTy.f32)
local notation "bA0" => Cert.Kernel.cc2_scratch0
local notation "bA1" => Cert.Kernel.cc2_scratch1
local notation "bB0" => Cert.Kernel.cc2_scratch2
local notation "bB1" => Cert.Kernel.cc2_scratch3
local notation "bRA" => Cert.Kernel.cc2_scratch4
local notation "bRB" => Cert.Kernel.cc2_scratch5
local notation "ixA0" => (Memref.whole Cert.Kernel.cc2_scratch0 : Memref Cert.Kernel.sig Kind.scVector Space.vmem Cert.Kernel.S128 EltTy.i32)
local notation "ixA1" => (Memref.whole Cert.Kernel.cc2_scratch1 : Memref Cert.Kernel.sig Kind.scVector Space.vmem Cert.Kernel.S128 EltTy.i32)
local notation "ixB0" => (Memref.whole Cert.Kernel.cc2_scratch2 : Memref Cert.Kernel.sig Kind.scVector Space.vmem Cert.Kernel.S128 EltTy.i32)
local notation "ixB1" => (Memref.whole Cert.Kernel.cc2_scratch3 : Memref Cert.Kernel.sig Kind.scVector Space.vmem Cert.Kernel.S128 EltTy.i32)
local notation "rowA" => (Memref.whole Cert.Kernel.cc2_scratch4 : Memref Cert.Kernel.sig Kind.scVector Space.vmem Cert.Kernel.S128x256 EltTy.f32)
local notation "rowB" => (Memref.whole Cert.Kernel.cc2_scratch5 : Memref Cert.Kernel.sig Kind.scVector Space.vmem Cert.Kernel.S128x256 EltTy.f32)
local notation "gA0" => Cert.Kernel.cc2_scratch6
local notation "gA1" => Cert.Kernel.cc2_scratch7
local notation "gB0" => Cert.Kernel.cc2_scratch8
local notation "gB1" => Cert.Kernel.cc2_scratch9
local notation "sc0" => Cert.Kernel.cc2_scoped0
local notation "sc1" => Cert.Kernel.cc2_scoped1
local notation "sc2" => Cert.Kernel.cc2_scoped2
local notation "sc3" => Cert.Kernel.cc2_scoped3
local notation "sc4" => Cert.Kernel.cc2_scoped4
local notation "sc5" => Cert.Kernel.cc2_scoped5
local notation "sc6" => Cert.Kernel.cc2_scoped6
local notation "sc7" => Cert.Kernel.cc2_scoped7
local notation "sc8" => Cert.Kernel.cc2_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.Kernel.Sc.B2

end
-- ==== Proof.ScBody2CB.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody2BB

noncomputable section

namespace Cert.Kernel.Sc.B2

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v16
local notation "cidsR" => Cert.Kernel.main_v18
local notation "idtR" => Cert.Kernel.main_arg2
local notation "catR" => Cert.Kernel.main_arg3
local notation "outR" => Cert.Kernel.main_v19
local notation "idsM" => (Memref.whole Cert.Kernel.main_v16_scv : Memref Cert.Kernel.sig Kind.scVector Space.hbm Cert.Kernel.S102400 EltTy.i32)
local notation "cidsM" => (Memref.whole Cert.Kernel.main_v18_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v19_scv : Memref Cert.Kernel.sig Kind.scVector Space.hbm Cert.Kernel.S102400x256 EltTy.f32)
local notation "bA0" => Cert.Kernel.cc2_scratch0
local notation "bA1" => Cert.Kernel.cc2_scratch1
local notation "bB0" => Cert.Kernel.cc2_scratch2
local notation "bB1" => Cert.Kernel.cc2_scratch3
local notation "bRA" => Cert.Kernel.cc2_scratch4
local notation "bRB" => Cert.Kernel.cc2_scratch5
local notation "ixA0" => (Memref.whole Cert.Kernel.cc2_scratch0 : Memref Cert.Kernel.sig Kind.scVector Space.vmem Cert.Kernel.S128 EltTy.i32)
local notation "ixA1" => (Memref.whole Cert.Kernel.cc2_scratch1 : Memref Cert.Kernel.sig Kind.scVector Space.vmem Cert.Kernel.S128 EltTy.i32)
local notation "ixB0" => (Memref.whole Cert.Kernel.cc2_scratch2 : Memref Cert.Kernel.sig Kind.scVector Space.vmem Cert.Kernel.S128 EltTy.i32)
local notation "ixB1" => (Memref.whole Cert.Kernel.cc2_scratch3 : Memref Cert.Kernel.sig Kind.scVector Space.vmem Cert.Kernel.S128 EltTy.i32)
local notation "rowA" => (Memref.whole Cert.Kernel.cc2_scratch4 : Memref Cert.Kernel.sig Kind.scVector Space.vmem Cert.Kernel.S128x256 EltTy.f32)
local notation "rowB" => (Memref.whole Cert.Kernel.cc2_scratch5 : Memref Cert.Kernel.sig Kind.scVector Space.vmem Cert.Kernel.S128x256 EltTy.f32)
local notation "gA0" => Cert.Kernel.cc2_scratch6
local notation "gA1" => Cert.Kernel.cc2_scratch7
local notation "gB0" => Cert.Kernel.cc2_scratch8
local notation "gB1" => Cert.Kernel.cc2_scratch9
local notation "sc0" => Cert.Kernel.cc2_scoped0
local notation "sc1" => Cert.Kernel.cc2_scoped1
local notation "sc2" => Cert.Kernel.cc2_scoped2
local notation "sc3" => Cert.Kernel.cc2_scoped3
local notation "sc4" => Cert.Kernel.cc2_scoped4
local notation "sc5" => Cert.Kernel.cc2_scoped5
local notation "sc6" => Cert.Kernel.cc2_scoped6
local notation "sc7" => Cert.Kernel.cc2_scoped7
local notation "sc8" => Cert.Kernel.cc2_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.Kernel.Sc.B2

end
-- ==== Proof.ScBody2VB.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody2CB

noncomputable section

namespace Cert.Kernel.Sc.B2

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v16
local notation "cidsR" => Cert.Kernel.main_v18
local notation "idtR" => Cert.Kernel.main_arg2
local notation "catR" => Cert.Kernel.main_arg3
local notation "outR" => Cert.Kernel.main_v19
local notation "idsM" => (Memref.whole Cert.Kernel.main_v16_scv : Memref Cert.Kernel.sig Kind.scVector Space.hbm Cert.Kernel.S102400 EltTy.i32)
local notation "cidsM" => (Memref.whole Cert.Kernel.main_v18_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v19_scv : Memref Cert.Kernel.sig Kind.scVector Space.hbm Cert.Kernel.S102400x256 EltTy.f32)
local notation "bA0" => Cert.Kernel.cc2_scratch0
local notation "bA1" => Cert.Kernel.cc2_scratch1
local notation "bB0" => Cert.Kernel.cc2_scratch2
local notation "bB1" => Cert.Kernel.cc2_scratch3
local notation "bRA" => Cert.Kernel.cc2_scratch4
local notation "bRB" => Cert.Kernel.cc2_scratch5
local notation "ixA0" => (Memref.whole Cert.Kernel.cc2_scratch0 : Memref Cert.Kernel.sig Kind.scVector Space.vmem Cert.Kernel.S128 EltTy.i32)
local notation "ixA1" => (Memref.whole Cert.Kernel.cc2_scratch1 : Memref Cert.Kernel.sig Kind.scVector Space.vmem Cert.Kernel.S128 EltTy.i32)
local notation "ixB0" => (Memref.whole Cert.Kernel.cc2_scratch2 : Memref Cert.Kernel.sig Kind.scVector Space.vmem Cert.Kernel.S128 EltTy.i32)
local notation "ixB1" => (Memref.whole Cert.Kernel.cc2_scratch3 : Memref Cert.Kernel.sig Kind.scVector Space.vmem Cert.Kernel.S128 EltTy.i32)
local notation "rowA" => (Memref.whole Cert.Kernel.cc2_scratch4 : Memref Cert.Kernel.sig Kind.scVector Space.vmem Cert.Kernel.S128x256 EltTy.f32)
local notation "rowB" => (Memref.whole Cert.Kernel.cc2_scratch5 : Memref Cert.Kernel.sig Kind.scVector Space.vmem Cert.Kernel.S128x256 EltTy.f32)
local notation "gA0" => Cert.Kernel.cc2_scratch6
local notation "gA1" => Cert.Kernel.cc2_scratch7
local notation "gB0" => Cert.Kernel.cc2_scratch8
local notation "gB1" => Cert.Kernel.cc2_scratch9
local notation "sc0" => Cert.Kernel.cc2_scoped0
local notation "sc1" => Cert.Kernel.cc2_scoped1
local notation "sc2" => Cert.Kernel.cc2_scoped2
local notation "sc3" => Cert.Kernel.cc2_scoped3
local notation "sc4" => Cert.Kernel.cc2_scoped4
local notation "sc5" => Cert.Kernel.cc2_scoped5
local notation "sc6" => Cert.Kernel.cc2_scoped6
local notation "sc7" => Cert.Kernel.cc2_scoped7
local notation "sc8" => Cert.Kernel.cc2_scoped8

variable [FloatOps F]

set_option maxHeartbeats 4000000 in
set_option maxRecDepth 65536 in
theorem tile_body2v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.Kernel.Sc.B2

end
-- ==== Proof.ScBody3AB.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResB

noncomputable section

namespace Cert.Kernel.Sc.B3

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v21
local notation "cidsR" => Cert.Kernel.main_v23
local notation "idtR" => Cert.Kernel.main_arg2
local notation "catR" => Cert.Kernel.main_arg3
local notation "outR" => Cert.Kernel.main_v24
local notation "idsM" => (Memref.whole Cert.Kernel.main_v21_scv : Memref Cert.Kernel.sig Kind.scVector Space.hbm Cert.Kernel.S102400 EltTy.i32)
local notation "cidsM" => (Memref.whole Cert.Kernel.main_v23_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v24_scv : Memref Cert.Kernel.sig Kind.scVector Space.hbm Cert.Kernel.S102400x256 EltTy.f32)
local notation "bA0" => Cert.Kernel.cc3_scratch0
local notation "bA1" => Cert.Kernel.cc3_scratch1
local notation "bB0" => Cert.Kernel.cc3_scratch2
local notation "bB1" => Cert.Kernel.cc3_scratch3
local notation "bRA" => Cert.Kernel.cc3_scratch4
local notation "bRB" => Cert.Kernel.cc3_scratch5
local notation "ixA0" => (Memref.whole Cert.Kernel.cc3_scratch0 : Memref Cert.Kernel.sig Kind.scVector Space.vmem Cert.Kernel.S128 EltTy.i32)
local notation "ixA1" => (Memref.whole Cert.Kernel.cc3_scratch1 : Memref Cert.Kernel.sig Kind.scVector Space.vmem Cert.Kernel.S128 EltTy.i32)
local notation "ixB0" => (Memref.whole Cert.Kernel.cc3_scratch2 : Memref Cert.Kernel.sig Kind.scVector Space.vmem Cert.Kernel.S128 EltTy.i32)
local notation "ixB1" => (Memref.whole Cert.Kernel.cc3_scratch3 : Memref Cert.Kernel.sig Kind.scVector Space.vmem Cert.Kernel.S128 EltTy.i32)
local notation "rowA" => (Memref.whole Cert.Kernel.cc3_scratch4 : Memref Cert.Kernel.sig Kind.scVector Space.vmem Cert.Kernel.S128x256 EltTy.f32)
local notation "rowB" => (Memref.whole Cert.Kernel.cc3_scratch5 : Memref Cert.Kernel.sig Kind.scVector Space.vmem Cert.Kernel.S128x256 EltTy.f32)
local notation "gA0" => Cert.Kernel.cc3_scratch6
local notation "gA1" => Cert.Kernel.cc3_scratch7
local notation "gB0" => Cert.Kernel.cc3_scratch8
local notation "gB1" => Cert.Kernel.cc3_scratch9
local notation "sc0" => Cert.Kernel.cc3_scoped0
local notation "sc1" => Cert.Kernel.cc3_scoped1
local notation "sc2" => Cert.Kernel.cc3_scoped2
local notation "sc3" => Cert.Kernel.cc3_scoped3
local notation "sc4" => Cert.Kernel.cc3_scoped4
local notation "sc5" => Cert.Kernel.cc3_scoped5
local notation "sc6" => Cert.Kernel.cc3_scoped6
local notation "sc7" => Cert.Kernel.cc3_scoped7
local notation "sc8" => Cert.Kernel.cc3_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v24_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v24_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v24_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.Kernel.Sc.B3

end
-- ==== Proof.ScBody3BB.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody3AB

noncomputable section

namespace Cert.Kernel.Sc.B3

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v21
local notation "cidsR" => Cert.Kernel.main_v23
local notation "idtR" => Cert.Kernel.main_arg2
local notation "catR" => Cert.Kernel.main_arg3
local notation "outR" => Cert.Kernel.main_v24
local notation "idsM" => (Memref.whole Cert.Kernel.main_v21_scv : Memref Cert.Kernel.sig Kind.scVector Space.hbm Cert.Kernel.S102400 EltTy.i32)
local notation "cidsM" => (Memref.whole Cert.Kernel.main_v23_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v24_scv : Memref Cert.Kernel.sig Kind.scVector Space.hbm Cert.Kernel.S102400x256 EltTy.f32)
local notation "bA0" => Cert.Kernel.cc3_scratch0
local notation "bA1" => Cert.Kernel.cc3_scratch1
local notation "bB0" => Cert.Kernel.cc3_scratch2
local notation "bB1" => Cert.Kernel.cc3_scratch3
local notation "bRA" => Cert.Kernel.cc3_scratch4
local notation "bRB" => Cert.Kernel.cc3_scratch5
local notation "ixA0" => (Memref.whole Cert.Kernel.cc3_scratch0 : Memref Cert.Kernel.sig Kind.scVector Space.vmem Cert.Kernel.S128 EltTy.i32)
local notation "ixA1" => (Memref.whole Cert.Kernel.cc3_scratch1 : Memref Cert.Kernel.sig Kind.scVector Space.vmem Cert.Kernel.S128 EltTy.i32)
local notation "ixB0" => (Memref.whole Cert.Kernel.cc3_scratch2 : Memref Cert.Kernel.sig Kind.scVector Space.vmem Cert.Kernel.S128 EltTy.i32)
local notation "ixB1" => (Memref.whole Cert.Kernel.cc3_scratch3 : Memref Cert.Kernel.sig Kind.scVector Space.vmem Cert.Kernel.S128 EltTy.i32)
local notation "rowA" => (Memref.whole Cert.Kernel.cc3_scratch4 : Memref Cert.Kernel.sig Kind.scVector Space.vmem Cert.Kernel.S128x256 EltTy.f32)
local notation "rowB" => (Memref.whole Cert.Kernel.cc3_scratch5 : Memref Cert.Kernel.sig Kind.scVector Space.vmem Cert.Kernel.S128x256 EltTy.f32)
local notation "gA0" => Cert.Kernel.cc3_scratch6
local notation "gA1" => Cert.Kernel.cc3_scratch7
local notation "gB0" => Cert.Kernel.cc3_scratch8
local notation "gB1" => Cert.Kernel.cc3_scratch9
local notation "sc0" => Cert.Kernel.cc3_scoped0
local notation "sc1" => Cert.Kernel.cc3_scoped1
local notation "sc2" => Cert.Kernel.cc3_scoped2
local notation "sc3" => Cert.Kernel.cc3_scoped3
local notation "sc4" => Cert.Kernel.cc3_scoped4
local notation "sc5" => Cert.Kernel.cc3_scoped5
local notation "sc6" => Cert.Kernel.cc3_scoped6
local notation "sc7" => Cert.Kernel.cc3_scoped7
local notation "sc8" => Cert.Kernel.cc3_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.Kernel.Sc.B3

end
-- ==== Proof.ScBody3CB.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody3BB

noncomputable section

namespace Cert.Kernel.Sc.B3

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v21
local notation "cidsR" => Cert.Kernel.main_v23
local notation "idtR" => Cert.Kernel.main_arg2
local notation "catR" => Cert.Kernel.main_arg3
local notation "outR" => Cert.Kernel.main_v24
local notation "idsM" => (Memref.whole Cert.Kernel.main_v21_scv : Memref Cert.Kernel.sig Kind.scVector Space.hbm Cert.Kernel.S102400 EltTy.i32)
local notation "cidsM" => (Memref.whole Cert.Kernel.main_v23_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v24_scv : Memref Cert.Kernel.sig Kind.scVector Space.hbm Cert.Kernel.S102400x256 EltTy.f32)
local notation "bA0" => Cert.Kernel.cc3_scratch0
local notation "bA1" => Cert.Kernel.cc3_scratch1
local notation "bB0" => Cert.Kernel.cc3_scratch2
local notation "bB1" => Cert.Kernel.cc3_scratch3
local notation "bRA" => Cert.Kernel.cc3_scratch4
local notation "bRB" => Cert.Kernel.cc3_scratch5
local notation "ixA0" => (Memref.whole Cert.Kernel.cc3_scratch0 : Memref Cert.Kernel.sig Kind.scVector Space.vmem Cert.Kernel.S128 EltTy.i32)
local notation "ixA1" => (Memref.whole Cert.Kernel.cc3_scratch1 : Memref Cert.Kernel.sig Kind.scVector Space.vmem Cert.Kernel.S128 EltTy.i32)
local notation "ixB0" => (Memref.whole Cert.Kernel.cc3_scratch2 : Memref Cert.Kernel.sig Kind.scVector Space.vmem Cert.Kernel.S128 EltTy.i32)
local notation "ixB1" => (Memref.whole Cert.Kernel.cc3_scratch3 : Memref Cert.Kernel.sig Kind.scVector Space.vmem Cert.Kernel.S128 EltTy.i32)
local notation "rowA" => (Memref.whole Cert.Kernel.cc3_scratch4 : Memref Cert.Kernel.sig Kind.scVector Space.vmem Cert.Kernel.S128x256 EltTy.f32)
local notation "rowB" => (Memref.whole Cert.Kernel.cc3_scratch5 : Memref Cert.Kernel.sig Kind.scVector Space.vmem Cert.Kernel.S128x256 EltTy.f32)
local notation "gA0" => Cert.Kernel.cc3_scratch6
local notation "gA1" => Cert.Kernel.cc3_scratch7
local notation "gB0" => Cert.Kernel.cc3_scratch8
local notation "gB1" => Cert.Kernel.cc3_scratch9
local notation "sc0" => Cert.Kernel.cc3_scoped0
local notation "sc1" => Cert.Kernel.cc3_scoped1
local notation "sc2" => Cert.Kernel.cc3_scoped2
local notation "sc3" => Cert.Kernel.cc3_scoped3
local notation "sc4" => Cert.Kernel.cc3_scoped4
local notation "sc5" => Cert.Kernel.cc3_scoped5
local notation "sc6" => Cert.Kernel.cc3_scoped6
local notation "sc7" => Cert.Kernel.cc3_scoped7
local notation "sc8" => Cert.Kernel.cc3_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.Kernel.Sc.B3

end
-- ==== Proof.ScBody3VB.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody3CB

noncomputable section

namespace Cert.Kernel.Sc.B3

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v21
local notation "cidsR" => Cert.Kernel.main_v23
local notation "idtR" => Cert.Kernel.main_arg2
local notation "catR" => Cert.Kernel.main_arg3
local notation "outR" => Cert.Kernel.main_v24
local notation "idsM" => (Memref.whole Cert.Kernel.main_v21_scv : Memref Cert.Kernel.sig Kind.scVector Space.hbm Cert.Kernel.S102400 EltTy.i32)
local notation "cidsM" => (Memref.whole Cert.Kernel.main_v23_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v24_scv : Memref Cert.Kernel.sig Kind.scVector Space.hbm Cert.Kernel.S102400x256 EltTy.f32)
local notation "bA0" => Cert.Kernel.cc3_scratch0
local notation "bA1" => Cert.Kernel.cc3_scratch1
local notation "bB0" => Cert.Kernel.cc3_scratch2
local notation "bB1" => Cert.Kernel.cc3_scratch3
local notation "bRA" => Cert.Kernel.cc3_scratch4
local notation "bRB" => Cert.Kernel.cc3_scratch5
local notation "ixA0" => (Memref.whole Cert.Kernel.cc3_scratch0 : Memref Cert.Kernel.sig Kind.scVector Space.vmem Cert.Kernel.S128 EltTy.i32)
local notation "ixA1" => (Memref.whole Cert.Kernel.cc3_scratch1 : Memref Cert.Kernel.sig Kind.scVector Space.vmem Cert.Kernel.S128 EltTy.i32)
local notation "ixB0" => (Memref.whole Cert.Kernel.cc3_scratch2 : Memref Cert.Kernel.sig Kind.scVector Space.vmem Cert.Kernel.S128 EltTy.i32)
local notation "ixB1" => (Memref.whole Cert.Kernel.cc3_scratch3 : Memref Cert.Kernel.sig Kind.scVector Space.vmem Cert.Kernel.S128 EltTy.i32)
local notation "rowA" => (Memref.whole Cert.Kernel.cc3_scratch4 : Memref Cert.Kernel.sig Kind.scVector Space.vmem Cert.Kernel.S128x256 EltTy.f32)
local notation "rowB" => (Memref.whole Cert.Kernel.cc3_scratch5 : Memref Cert.Kernel.sig Kind.scVector Space.vmem Cert.Kernel.S128x256 EltTy.f32)
local notation "gA0" => Cert.Kernel.cc3_scratch6
local notation "gA1" => Cert.Kernel.cc3_scratch7
local notation "gB0" => Cert.Kernel.cc3_scratch8
local notation "gB1" => Cert.Kernel.cc3_scratch9
local notation "sc0" => Cert.Kernel.cc3_scoped0
local notation "sc1" => Cert.Kernel.cc3_scoped1
local notation "sc2" => Cert.Kernel.cc3_scoped2
local notation "sc3" => Cert.Kernel.cc3_scoped3
local notation "sc4" => Cert.Kernel.cc3_scoped4
local notation "sc5" => Cert.Kernel.cc3_scoped5
local notation "sc6" => Cert.Kernel.cc3_scoped6
local notation "sc7" => Cert.Kernel.cc3_scoped7
local notation "sc8" => Cert.Kernel.cc3_scoped8

variable [FloatOps F]

set_option maxHeartbeats 4000000 in
set_option maxRecDepth 65536 in
theorem tile_body3v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.Kernel.Sc.B3

end
-- ==== Proof.ScBody4AB.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResB

noncomputable section

namespace Cert.Kernel.Sc.B4

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v26
local notation "cidsR" => Cert.Kernel.main_v28
local notation "idtR" => Cert.Kernel.main_arg2
local notation "catR" => Cert.Kernel.main_arg3
local notation "outR" => Cert.Kernel.main_v29
local notation "idsM" => (Memref.whole Cert.Kernel.main_v26_scv : Memref Cert.Kernel.sig Kind.scVector Space.hbm Cert.Kernel.S102400 EltTy.i32)
local notation "cidsM" => (Memref.whole Cert.Kernel.main_v28_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v29_scv : Memref Cert.Kernel.sig Kind.scVector Space.hbm Cert.Kernel.S102400x256 EltTy.f32)
local notation "bA0" => Cert.Kernel.cc4_scratch0
local notation "bA1" => Cert.Kernel.cc4_scratch1
local notation "bB0" => Cert.Kernel.cc4_scratch2
local notation "bB1" => Cert.Kernel.cc4_scratch3
local notation "bRA" => Cert.Kernel.cc4_scratch4
local notation "bRB" => Cert.Kernel.cc4_scratch5
local notation "ixA0" => (Memref.whole Cert.Kernel.cc4_scratch0 : Memref Cert.Kernel.sig Kind.scVector Space.vmem Cert.Kernel.S128 EltTy.i32)
local notation "ixA1" => (Memref.whole Cert.Kernel.cc4_scratch1 : Memref Cert.Kernel.sig Kind.scVector Space.vmem Cert.Kernel.S128 EltTy.i32)
local notation "ixB0" => (Memref.whole Cert.Kernel.cc4_scratch2 : Memref Cert.Kernel.sig Kind.scVector Space.vmem Cert.Kernel.S128 EltTy.i32)
local notation "ixB1" => (Memref.whole Cert.Kernel.cc4_scratch3 : Memref Cert.Kernel.sig Kind.scVector Space.vmem Cert.Kernel.S128 EltTy.i32)
local notation "rowA" => (Memref.whole Cert.Kernel.cc4_scratch4 : Memref Cert.Kernel.sig Kind.scVector Space.vmem Cert.Kernel.S128x256 EltTy.f32)
local notation "rowB" => (Memref.whole Cert.Kernel.cc4_scratch5 : Memref Cert.Kernel.sig Kind.scVector Space.vmem Cert.Kernel.S128x256 EltTy.f32)
local notation "gA0" => Cert.Kernel.cc4_scratch6
local notation "gA1" => Cert.Kernel.cc4_scratch7
local notation "gB0" => Cert.Kernel.cc4_scratch8
local notation "gB1" => Cert.Kernel.cc4_scratch9
local notation "sc0" => Cert.Kernel.cc4_scoped0
local notation "sc1" => Cert.Kernel.cc4_scoped1
local notation "sc2" => Cert.Kernel.cc4_scoped2
local notation "sc3" => Cert.Kernel.cc4_scoped3
local notation "sc4" => Cert.Kernel.cc4_scoped4
local notation "sc5" => Cert.Kernel.cc4_scoped5
local notation "sc6" => Cert.Kernel.cc4_scoped6
local notation "sc7" => Cert.Kernel.cc4_scoped7
local notation "sc8" => Cert.Kernel.cc4_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v29_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v29_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v29_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.Kernel.Sc.B4

end
-- ==== Proof.ScBody4BB.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody4AB

noncomputable section

namespace Cert.Kernel.Sc.B4

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v26
local notation "cidsR" => Cert.Kernel.main_v28
local notation "idtR" => Cert.Kernel.main_arg2
local notation "catR" => Cert.Kernel.main_arg3
local notation "outR" => Cert.Kernel.main_v29
local notation "idsM" => (Memref.whole Cert.Kernel.main_v26_scv : Memref Cert.Kernel.sig Kind.scVector Space.hbm Cert.Kernel.S102400 EltTy.i32)
local notation "cidsM" => (Memref.whole Cert.Kernel.main_v28_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v29_scv : Memref Cert.Kernel.sig Kind.scVector Space.hbm Cert.Kernel.S102400x256 EltTy.f32)
local notation "bA0" => Cert.Kernel.cc4_scratch0
local notation "bA1" => Cert.Kernel.cc4_scratch1
local notation "bB0" => Cert.Kernel.cc4_scratch2
local notation "bB1" => Cert.Kernel.cc4_scratch3
local notation "bRA" => Cert.Kernel.cc4_scratch4
local notation "bRB" => Cert.Kernel.cc4_scratch5
local notation "ixA0" => (Memref.whole Cert.Kernel.cc4_scratch0 : Memref Cert.Kernel.sig Kind.scVector Space.vmem Cert.Kernel.S128 EltTy.i32)
local notation "ixA1" => (Memref.whole Cert.Kernel.cc4_scratch1 : Memref Cert.Kernel.sig Kind.scVector Space.vmem Cert.Kernel.S128 EltTy.i32)
local notation "ixB0" => (Memref.whole Cert.Kernel.cc4_scratch2 : Memref Cert.Kernel.sig Kind.scVector Space.vmem Cert.Kernel.S128 EltTy.i32)
local notation "ixB1" => (Memref.whole Cert.Kernel.cc4_scratch3 : Memref Cert.Kernel.sig Kind.scVector Space.vmem Cert.Kernel.S128 EltTy.i32)
local notation "rowA" => (Memref.whole Cert.Kernel.cc4_scratch4 : Memref Cert.Kernel.sig Kind.scVector Space.vmem Cert.Kernel.S128x256 EltTy.f32)
local notation "rowB" => (Memref.whole Cert.Kernel.cc4_scratch5 : Memref Cert.Kernel.sig Kind.scVector Space.vmem Cert.Kernel.S128x256 EltTy.f32)
local notation "gA0" => Cert.Kernel.cc4_scratch6
local notation "gA1" => Cert.Kernel.cc4_scratch7
local notation "gB0" => Cert.Kernel.cc4_scratch8
local notation "gB1" => Cert.Kernel.cc4_scratch9
local notation "sc0" => Cert.Kernel.cc4_scoped0
local notation "sc1" => Cert.Kernel.cc4_scoped1
local notation "sc2" => Cert.Kernel.cc4_scoped2
local notation "sc3" => Cert.Kernel.cc4_scoped3
local notation "sc4" => Cert.Kernel.cc4_scoped4
local notation "sc5" => Cert.Kernel.cc4_scoped5
local notation "sc6" => Cert.Kernel.cc4_scoped6
local notation "sc7" => Cert.Kernel.cc4_scoped7
local notation "sc8" => Cert.Kernel.cc4_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.Kernel.Sc.B4

end
-- ==== Proof.ScBody4CB.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody4BB

noncomputable section

namespace Cert.Kernel.Sc.B4

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v26
local notation "cidsR" => Cert.Kernel.main_v28
local notation "idtR" => Cert.Kernel.main_arg2
local notation "catR" => Cert.Kernel.main_arg3
local notation "outR" => Cert.Kernel.main_v29
local notation "idsM" => (Memref.whole Cert.Kernel.main_v26_scv : Memref Cert.Kernel.sig Kind.scVector Space.hbm Cert.Kernel.S102400 EltTy.i32)
local notation "cidsM" => (Memref.whole Cert.Kernel.main_v28_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v29_scv : Memref Cert.Kernel.sig Kind.scVector Space.hbm Cert.Kernel.S102400x256 EltTy.f32)
local notation "bA0" => Cert.Kernel.cc4_scratch0
local notation "bA1" => Cert.Kernel.cc4_scratch1
local notation "bB0" => Cert.Kernel.cc4_scratch2
local notation "bB1" => Cert.Kernel.cc4_scratch3
local notation "bRA" => Cert.Kernel.cc4_scratch4
local notation "bRB" => Cert.Kernel.cc4_scratch5
local notation "ixA0" => (Memref.whole Cert.Kernel.cc4_scratch0 : Memref Cert.Kernel.sig Kind.scVector Space.vmem Cert.Kernel.S128 EltTy.i32)
local notation "ixA1" => (Memref.whole Cert.Kernel.cc4_scratch1 : Memref Cert.Kernel.sig Kind.scVector Space.vmem Cert.Kernel.S128 EltTy.i32)
local notation "ixB0" => (Memref.whole Cert.Kernel.cc4_scratch2 : Memref Cert.Kernel.sig Kind.scVector Space.vmem Cert.Kernel.S128 EltTy.i32)
local notation "ixB1" => (Memref.whole Cert.Kernel.cc4_scratch3 : Memref Cert.Kernel.sig Kind.scVector Space.vmem Cert.Kernel.S128 EltTy.i32)
local notation "rowA" => (Memref.whole Cert.Kernel.cc4_scratch4 : Memref Cert.Kernel.sig Kind.scVector Space.vmem Cert.Kernel.S128x256 EltTy.f32)
local notation "rowB" => (Memref.whole Cert.Kernel.cc4_scratch5 : Memref Cert.Kernel.sig Kind.scVector Space.vmem Cert.Kernel.S128x256 EltTy.f32)
local notation "gA0" => Cert.Kernel.cc4_scratch6
local notation "gA1" => Cert.Kernel.cc4_scratch7
local notation "gB0" => Cert.Kernel.cc4_scratch8
local notation "gB1" => Cert.Kernel.cc4_scratch9
local notation "sc0" => Cert.Kernel.cc4_scoped0
local notation "sc1" => Cert.Kernel.cc4_scoped1
local notation "sc2" => Cert.Kernel.cc4_scoped2
local notation "sc3" => Cert.Kernel.cc4_scoped3
local notation "sc4" => Cert.Kernel.cc4_scoped4
local notation "sc5" => Cert.Kernel.cc4_scoped5
local notation "sc6" => Cert.Kernel.cc4_scoped6
local notation "sc7" => Cert.Kernel.cc4_scoped7
local notation "sc8" => Cert.Kernel.cc4_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.Kernel.Sc.B4

end
-- ==== Proof.ScBody4VB.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody4CB

noncomputable section

namespace Cert.Kernel.Sc.B4

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v26
local notation "cidsR" => Cert.Kernel.main_v28
local notation "idtR" => Cert.Kernel.main_arg2
local notation "catR" => Cert.Kernel.main_arg3
local notation "outR" => Cert.Kernel.main_v29
local notation "idsM" => (Memref.whole Cert.Kernel.main_v26_scv : Memref Cert.Kernel.sig Kind.scVector Space.hbm Cert.Kernel.S102400 EltTy.i32)
local notation "cidsM" => (Memref.whole Cert.Kernel.main_v28_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v29_scv : Memref Cert.Kernel.sig Kind.scVector Space.hbm Cert.Kernel.S102400x256 EltTy.f32)
local notation "bA0" => Cert.Kernel.cc4_scratch0
local notation "bA1" => Cert.Kernel.cc4_scratch1
local notation "bB0" => Cert.Kernel.cc4_scratch2
local notation "bB1" => Cert.Kernel.cc4_scratch3
local notation "bRA" => Cert.Kernel.cc4_scratch4
local notation "bRB" => Cert.Kernel.cc4_scratch5
local notation "ixA0" => (Memref.whole Cert.Kernel.cc4_scratch0 : Memref Cert.Kernel.sig Kind.scVector Space.vmem Cert.Kernel.S128 EltTy.i32)
local notation "ixA1" => (Memref.whole Cert.Kernel.cc4_scratch1 : Memref Cert.Kernel.sig Kind.scVector Space.vmem Cert.Kernel.S128 EltTy.i32)
local notation "ixB0" => (Memref.whole Cert.Kernel.cc4_scratch2 : Memref Cert.Kernel.sig Kind.scVector Space.vmem Cert.Kernel.S128 EltTy.i32)
local notation "ixB1" => (Memref.whole Cert.Kernel.cc4_scratch3 : Memref Cert.Kernel.sig Kind.scVector Space.vmem Cert.Kernel.S128 EltTy.i32)
local notation "rowA" => (Memref.whole Cert.Kernel.cc4_scratch4 : Memref Cert.Kernel.sig Kind.scVector Space.vmem Cert.Kernel.S128x256 EltTy.f32)
local notation "rowB" => (Memref.whole Cert.Kernel.cc4_scratch5 : Memref Cert.Kernel.sig Kind.scVector Space.vmem Cert.Kernel.S128x256 EltTy.f32)
local notation "gA0" => Cert.Kernel.cc4_scratch6
local notation "gA1" => Cert.Kernel.cc4_scratch7
local notation "gB0" => Cert.Kernel.cc4_scratch8
local notation "gB1" => Cert.Kernel.cc4_scratch9
local notation "sc0" => Cert.Kernel.cc4_scoped0
local notation "sc1" => Cert.Kernel.cc4_scoped1
local notation "sc2" => Cert.Kernel.cc4_scoped2
local notation "sc3" => Cert.Kernel.cc4_scoped3
local notation "sc4" => Cert.Kernel.cc4_scoped4
local notation "sc5" => Cert.Kernel.cc4_scoped5
local notation "sc6" => Cert.Kernel.cc4_scoped6
local notation "sc7" => Cert.Kernel.cc4_scoped7
local notation "sc8" => Cert.Kernel.cc4_scoped8

variable [FloatOps F]

set_option maxHeartbeats 4000000 in
set_option maxRecDepth 65536 in
theorem tile_body4v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.Kernel.Sc.B4

end
-- ==== Proof.ScBody5AB.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResB

noncomputable section

namespace Cert.Kernel.Sc.B5

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v31
local notation "cidsR" => Cert.Kernel.main_v33
local notation "idtR" => Cert.Kernel.main_arg2
local notation "catR" => Cert.Kernel.main_arg3
local notation "outR" => Cert.Kernel.main_v34
local notation "idsM" => (Memref.whole Cert.Kernel.main_v31_scv : Memref Cert.Kernel.sig Kind.scVector Space.hbm Cert.Kernel.S102400 EltTy.i32)
local notation "cidsM" => (Memref.whole Cert.Kernel.main_v33_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v34_scv : Memref Cert.Kernel.sig Kind.scVector Space.hbm Cert.Kernel.S102400x256 EltTy.f32)
local notation "bA0" => Cert.Kernel.cc5_scratch0
local notation "bA1" => Cert.Kernel.cc5_scratch1
local notation "bB0" => Cert.Kernel.cc5_scratch2
local notation "bB1" => Cert.Kernel.cc5_scratch3
local notation "bRA" => Cert.Kernel.cc5_scratch4
local notation "bRB" => Cert.Kernel.cc5_scratch5
local notation "ixA0" => (Memref.whole Cert.Kernel.cc5_scratch0 : Memref Cert.Kernel.sig Kind.scVector Space.vmem Cert.Kernel.S128 EltTy.i32)
local notation "ixA1" => (Memref.whole Cert.Kernel.cc5_scratch1 : Memref Cert.Kernel.sig Kind.scVector Space.vmem Cert.Kernel.S128 EltTy.i32)
local notation "ixB0" => (Memref.whole Cert.Kernel.cc5_scratch2 : Memref Cert.Kernel.sig Kind.scVector Space.vmem Cert.Kernel.S128 EltTy.i32)
local notation "ixB1" => (Memref.whole Cert.Kernel.cc5_scratch3 : Memref Cert.Kernel.sig Kind.scVector Space.vmem Cert.Kernel.S128 EltTy.i32)
local notation "rowA" => (Memref.whole Cert.Kernel.cc5_scratch4 : Memref Cert.Kernel.sig Kind.scVector Space.vmem Cert.Kernel.S128x256 EltTy.f32)
local notation "rowB" => (Memref.whole Cert.Kernel.cc5_scratch5 : Memref Cert.Kernel.sig Kind.scVector Space.vmem Cert.Kernel.S128x256 EltTy.f32)
local notation "gA0" => Cert.Kernel.cc5_scratch6
local notation "gA1" => Cert.Kernel.cc5_scratch7
local notation "gB0" => Cert.Kernel.cc5_scratch8
local notation "gB1" => Cert.Kernel.cc5_scratch9
local notation "sc0" => Cert.Kernel.cc5_scoped0
local notation "sc1" => Cert.Kernel.cc5_scoped1
local notation "sc2" => Cert.Kernel.cc5_scoped2
local notation "sc3" => Cert.Kernel.cc5_scoped3
local notation "sc4" => Cert.Kernel.cc5_scoped4
local notation "sc5" => Cert.Kernel.cc5_scoped5
local notation "sc6" => Cert.Kernel.cc5_scoped6
local notation "sc7" => Cert.Kernel.cc5_scoped7
local notation "sc8" => Cert.Kernel.cc5_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v34_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v34_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v34_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.Kernel.Sc.B5

end
-- ==== Proof.ScBody5BB.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody5AB

noncomputable section

namespace Cert.Kernel.Sc.B5

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v31
local notation "cidsR" => Cert.Kernel.main_v33
local notation "idtR" => Cert.Kernel.main_arg2
local notation "catR" => Cert.Kernel.main_arg3
local notation "outR" => Cert.Kernel.main_v34
local notation "idsM" => (Memref.whole Cert.Kernel.main_v31_scv : Memref Cert.Kernel.sig Kind.scVector Space.hbm Cert.Kernel.S102400 EltTy.i32)
local notation "cidsM" => (Memref.whole Cert.Kernel.main_v33_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v34_scv : Memref Cert.Kernel.sig Kind.scVector Space.hbm Cert.Kernel.S102400x256 EltTy.f32)
local notation "bA0" => Cert.Kernel.cc5_scratch0
local notation "bA1" => Cert.Kernel.cc5_scratch1
local notation "bB0" => Cert.Kernel.cc5_scratch2
local notation "bB1" => Cert.Kernel.cc5_scratch3
local notation "bRA" => Cert.Kernel.cc5_scratch4
local notation "bRB" => Cert.Kernel.cc5_scratch5
local notation "ixA0" => (Memref.whole Cert.Kernel.cc5_scratch0 : Memref Cert.Kernel.sig Kind.scVector Space.vmem Cert.Kernel.S128 EltTy.i32)
local notation "ixA1" => (Memref.whole Cert.Kernel.cc5_scratch1 : Memref Cert.Kernel.sig Kind.scVector Space.vmem Cert.Kernel.S128 EltTy.i32)
local notation "ixB0" => (Memref.whole Cert.Kernel.cc5_scratch2 : Memref Cert.Kernel.sig Kind.scVector Space.vmem Cert.Kernel.S128 EltTy.i32)
local notation "ixB1" => (Memref.whole Cert.Kernel.cc5_scratch3 : Memref Cert.Kernel.sig Kind.scVector Space.vmem Cert.Kernel.S128 EltTy.i32)
local notation "rowA" => (Memref.whole Cert.Kernel.cc5_scratch4 : Memref Cert.Kernel.sig Kind.scVector Space.vmem Cert.Kernel.S128x256 EltTy.f32)
local notation "rowB" => (Memref.whole Cert.Kernel.cc5_scratch5 : Memref Cert.Kernel.sig Kind.scVector Space.vmem Cert.Kernel.S128x256 EltTy.f32)
local notation "gA0" => Cert.Kernel.cc5_scratch6
local notation "gA1" => Cert.Kernel.cc5_scratch7
local notation "gB0" => Cert.Kernel.cc5_scratch8
local notation "gB1" => Cert.Kernel.cc5_scratch9
local notation "sc0" => Cert.Kernel.cc5_scoped0
local notation "sc1" => Cert.Kernel.cc5_scoped1
local notation "sc2" => Cert.Kernel.cc5_scoped2
local notation "sc3" => Cert.Kernel.cc5_scoped3
local notation "sc4" => Cert.Kernel.cc5_scoped4
local notation "sc5" => Cert.Kernel.cc5_scoped5
local notation "sc6" => Cert.Kernel.cc5_scoped6
local notation "sc7" => Cert.Kernel.cc5_scoped7
local notation "sc8" => Cert.Kernel.cc5_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.Kernel.Sc.B5

end
-- ==== Proof.ScBody5CB.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody5BB

noncomputable section

namespace Cert.Kernel.Sc.B5

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v31
local notation "cidsR" => Cert.Kernel.main_v33
local notation "idtR" => Cert.Kernel.main_arg2
local notation "catR" => Cert.Kernel.main_arg3
local notation "outR" => Cert.Kernel.main_v34
local notation "idsM" => (Memref.whole Cert.Kernel.main_v31_scv : Memref Cert.Kernel.sig Kind.scVector Space.hbm Cert.Kernel.S102400 EltTy.i32)
local notation "cidsM" => (Memref.whole Cert.Kernel.main_v33_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v34_scv : Memref Cert.Kernel.sig Kind.scVector Space.hbm Cert.Kernel.S102400x256 EltTy.f32)
local notation "bA0" => Cert.Kernel.cc5_scratch0
local notation "bA1" => Cert.Kernel.cc5_scratch1
local notation "bB0" => Cert.Kernel.cc5_scratch2
local notation "bB1" => Cert.Kernel.cc5_scratch3
local notation "bRA" => Cert.Kernel.cc5_scratch4
local notation "bRB" => Cert.Kernel.cc5_scratch5
local notation "ixA0" => (Memref.whole Cert.Kernel.cc5_scratch0 : Memref Cert.Kernel.sig Kind.scVector Space.vmem Cert.Kernel.S128 EltTy.i32)
local notation "ixA1" => (Memref.whole Cert.Kernel.cc5_scratch1 : Memref Cert.Kernel.sig Kind.scVector Space.vmem Cert.Kernel.S128 EltTy.i32)
local notation "ixB0" => (Memref.whole Cert.Kernel.cc5_scratch2 : Memref Cert.Kernel.sig Kind.scVector Space.vmem Cert.Kernel.S128 EltTy.i32)
local notation "ixB1" => (Memref.whole Cert.Kernel.cc5_scratch3 : Memref Cert.Kernel.sig Kind.scVector Space.vmem Cert.Kernel.S128 EltTy.i32)
local notation "rowA" => (Memref.whole Cert.Kernel.cc5_scratch4 : Memref Cert.Kernel.sig Kind.scVector Space.vmem Cert.Kernel.S128x256 EltTy.f32)
local notation "rowB" => (Memref.whole Cert.Kernel.cc5_scratch5 : Memref Cert.Kernel.sig Kind.scVector Space.vmem Cert.Kernel.S128x256 EltTy.f32)
local notation "gA0" => Cert.Kernel.cc5_scratch6
local notation "gA1" => Cert.Kernel.cc5_scratch7
local notation "gB0" => Cert.Kernel.cc5_scratch8
local notation "gB1" => Cert.Kernel.cc5_scratch9
local notation "sc0" => Cert.Kernel.cc5_scoped0
local notation "sc1" => Cert.Kernel.cc5_scoped1
local notation "sc2" => Cert.Kernel.cc5_scoped2
local notation "sc3" => Cert.Kernel.cc5_scoped3
local notation "sc4" => Cert.Kernel.cc5_scoped4
local notation "sc5" => Cert.Kernel.cc5_scoped5
local notation "sc6" => Cert.Kernel.cc5_scoped6
local notation "sc7" => Cert.Kernel.cc5_scoped7
local notation "sc8" => Cert.Kernel.cc5_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.Kernel.Sc.B5

end
-- ==== Proof.ScBody5VB.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody5CB

noncomputable section

namespace Cert.Kernel.Sc.B5

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v31
local notation "cidsR" => Cert.Kernel.main_v33
local notation "idtR" => Cert.Kernel.main_arg2
local notation "catR" => Cert.Kernel.main_arg3
local notation "outR" => Cert.Kernel.main_v34
local notation "idsM" => (Memref.whole Cert.Kernel.main_v31_scv : Memref Cert.Kernel.sig Kind.scVector Space.hbm Cert.Kernel.S102400 EltTy.i32)
local notation "cidsM" => (Memref.whole Cert.Kernel.main_v33_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v34_scv : Memref Cert.Kernel.sig Kind.scVector Space.hbm Cert.Kernel.S102400x256 EltTy.f32)
local notation "bA0" => Cert.Kernel.cc5_scratch0
local notation "bA1" => Cert.Kernel.cc5_scratch1
local notation "bB0" => Cert.Kernel.cc5_scratch2
local notation "bB1" => Cert.Kernel.cc5_scratch3
local notation "bRA" => Cert.Kernel.cc5_scratch4
local notation "bRB" => Cert.Kernel.cc5_scratch5
local notation "ixA0" => (Memref.whole Cert.Kernel.cc5_scratch0 : Memref Cert.Kernel.sig Kind.scVector Space.vmem Cert.Kernel.S128 EltTy.i32)
local notation "ixA1" => (Memref.whole Cert.Kernel.cc5_scratch1 : Memref Cert.Kernel.sig Kind.scVector Space.vmem Cert.Kernel.S128 EltTy.i32)
local notation "ixB0" => (Memref.whole Cert.Kernel.cc5_scratch2 : Memref Cert.Kernel.sig Kind.scVector Space.vmem Cert.Kernel.S128 EltTy.i32)
local notation "ixB1" => (Memref.whole Cert.Kernel.cc5_scratch3 : Memref Cert.Kernel.sig Kind.scVector Space.vmem Cert.Kernel.S128 EltTy.i32)
local notation "rowA" => (Memref.whole Cert.Kernel.cc5_scratch4 : Memref Cert.Kernel.sig Kind.scVector Space.vmem Cert.Kernel.S128x256 EltTy.f32)
local notation "rowB" => (Memref.whole Cert.Kernel.cc5_scratch5 : Memref Cert.Kernel.sig Kind.scVector Space.vmem Cert.Kernel.S128x256 EltTy.f32)
local notation "gA0" => Cert.Kernel.cc5_scratch6
local notation "gA1" => Cert.Kernel.cc5_scratch7
local notation "gB0" => Cert.Kernel.cc5_scratch8
local notation "gB1" => Cert.Kernel.cc5_scratch9
local notation "sc0" => Cert.Kernel.cc5_scoped0
local notation "sc1" => Cert.Kernel.cc5_scoped1
local notation "sc2" => Cert.Kernel.cc5_scoped2
local notation "sc3" => Cert.Kernel.cc5_scoped3
local notation "sc4" => Cert.Kernel.cc5_scoped4
local notation "sc5" => Cert.Kernel.cc5_scoped5
local notation "sc6" => Cert.Kernel.cc5_scoped6
local notation "sc7" => Cert.Kernel.cc5_scoped7
local notation "sc8" => Cert.Kernel.cc5_scoped8

variable [FloatOps F]

set_option maxHeartbeats 4000000 in
set_option maxRecDepth 65536 in
theorem tile_body5v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.Kernel.Sc.B5

end
-- ==== Proof.ScBody6AB.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResB

noncomputable section

namespace Cert.Kernel.Sc.B6

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v36
local notation "cidsR" => Cert.Kernel.main_v38
local notation "idtR" => Cert.Kernel.main_arg2
local notation "catR" => Cert.Kernel.main_arg3
local notation "outR" => Cert.Kernel.main_v39
local notation "idsM" => (Memref.whole Cert.Kernel.main_v36_scv : Memref Cert.Kernel.sig Kind.scVector Space.hbm Cert.Kernel.S102400 EltTy.i32)
local notation "cidsM" => (Memref.whole Cert.Kernel.main_v38_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v39_scv : Memref Cert.Kernel.sig Kind.scVector Space.hbm Cert.Kernel.S102400x256 EltTy.f32)
local notation "bA0" => Cert.Kernel.cc6_scratch0
local notation "bA1" => Cert.Kernel.cc6_scratch1
local notation "bB0" => Cert.Kernel.cc6_scratch2
local notation "bB1" => Cert.Kernel.cc6_scratch3
local notation "bRA" => Cert.Kernel.cc6_scratch4
local notation "bRB" => Cert.Kernel.cc6_scratch5
local notation "ixA0" => (Memref.whole Cert.Kernel.cc6_scratch0 : Memref Cert.Kernel.sig Kind.scVector Space.vmem Cert.Kernel.S128 EltTy.i32)
local notation "ixA1" => (Memref.whole Cert.Kernel.cc6_scratch1 : Memref Cert.Kernel.sig Kind.scVector Space.vmem Cert.Kernel.S128 EltTy.i32)
local notation "ixB0" => (Memref.whole Cert.Kernel.cc6_scratch2 : Memref Cert.Kernel.sig Kind.scVector Space.vmem Cert.Kernel.S128 EltTy.i32)
local notation "ixB1" => (Memref.whole Cert.Kernel.cc6_scratch3 : Memref Cert.Kernel.sig Kind.scVector Space.vmem Cert.Kernel.S128 EltTy.i32)
local notation "rowA" => (Memref.whole Cert.Kernel.cc6_scratch4 : Memref Cert.Kernel.sig Kind.scVector Space.vmem Cert.Kernel.S128x256 EltTy.f32)
local notation "rowB" => (Memref.whole Cert.Kernel.cc6_scratch5 : Memref Cert.Kernel.sig Kind.scVector Space.vmem Cert.Kernel.S128x256 EltTy.f32)
local notation "gA0" => Cert.Kernel.cc6_scratch6
local notation "gA1" => Cert.Kernel.cc6_scratch7
local notation "gB0" => Cert.Kernel.cc6_scratch8
local notation "gB1" => Cert.Kernel.cc6_scratch9
local notation "sc0" => Cert.Kernel.cc6_scoped0
local notation "sc1" => Cert.Kernel.cc6_scoped1
local notation "sc2" => Cert.Kernel.cc6_scoped2
local notation "sc3" => Cert.Kernel.cc6_scoped3
local notation "sc4" => Cert.Kernel.cc6_scoped4
local notation "sc5" => Cert.Kernel.cc6_scoped5
local notation "sc6" => Cert.Kernel.cc6_scoped6
local notation "sc7" => Cert.Kernel.cc6_scoped7
local notation "sc8" => Cert.Kernel.cc6_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

set_option maxHeartbeats 2000000 in
/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v39_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v39_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v39_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.Kernel.Sc.B6

end
-- ==== Proof.ScBody6BB.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody6AB

noncomputable section

namespace Cert.Kernel.Sc.B6

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v36
local notation "cidsR" => Cert.Kernel.main_v38
local notation "idtR" => Cert.Kernel.main_arg2
local notation "catR" => Cert.Kernel.main_arg3
local notation "outR" => Cert.Kernel.main_v39
local notation "idsM" => (Memref.whole Cert.Kernel.main_v36_scv : Memref Cert.Kernel.sig Kind.scVector Space.hbm Cert.Kernel.S102400 EltTy.i32)
local notation "cidsM" => (Memref.whole Cert.Kernel.main_v38_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v39_scv : Memref Cert.Kernel.sig Kind.scVector Space.hbm Cert.Kernel.S102400x256 EltTy.f32)
local notation "bA0" => Cert.Kernel.cc6_scratch0
local notation "bA1" => Cert.Kernel.cc6_scratch1
local notation "bB0" => Cert.Kernel.cc6_scratch2
local notation "bB1" => Cert.Kernel.cc6_scratch3
local notation "bRA" => Cert.Kernel.cc6_scratch4
local notation "bRB" => Cert.Kernel.cc6_scratch5
local notation "ixA0" => (Memref.whole Cert.Kernel.cc6_scratch0 : Memref Cert.Kernel.sig Kind.scVector Space.vmem Cert.Kernel.S128 EltTy.i32)
local notation "ixA1" => (Memref.whole Cert.Kernel.cc6_scratch1 : Memref Cert.Kernel.sig Kind.scVector Space.vmem Cert.Kernel.S128 EltTy.i32)
local notation "ixB0" => (Memref.whole Cert.Kernel.cc6_scratch2 : Memref Cert.Kernel.sig Kind.scVector Space.vmem Cert.Kernel.S128 EltTy.i32)
local notation "ixB1" => (Memref.whole Cert.Kernel.cc6_scratch3 : Memref Cert.Kernel.sig Kind.scVector Space.vmem Cert.Kernel.S128 EltTy.i32)
local notation "rowA" => (Memref.whole Cert.Kernel.cc6_scratch4 : Memref Cert.Kernel.sig Kind.scVector Space.vmem Cert.Kernel.S128x256 EltTy.f32)
local notation "rowB" => (Memref.whole Cert.Kernel.cc6_scratch5 : Memref Cert.Kernel.sig Kind.scVector Space.vmem Cert.Kernel.S128x256 EltTy.f32)
local notation "gA0" => Cert.Kernel.cc6_scratch6
local notation "gA1" => Cert.Kernel.cc6_scratch7
local notation "gB0" => Cert.Kernel.cc6_scratch8
local notation "gB1" => Cert.Kernel.cc6_scratch9
local notation "sc0" => Cert.Kernel.cc6_scoped0
local notation "sc1" => Cert.Kernel.cc6_scoped1
local notation "sc2" => Cert.Kernel.cc6_scoped2
local notation "sc3" => Cert.Kernel.cc6_scoped3
local notation "sc4" => Cert.Kernel.cc6_scoped4
local notation "sc5" => Cert.Kernel.cc6_scoped5
local notation "sc6" => Cert.Kernel.cc6_scoped6
local notation "sc7" => Cert.Kernel.cc6_scoped7
local notation "sc8" => Cert.Kernel.cc6_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.Kernel.Sc.B6

end
-- ==== Proof.ScBody6CB.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody6BB

noncomputable section

namespace Cert.Kernel.Sc.B6

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v36
local notation "cidsR" => Cert.Kernel.main_v38
local notation "idtR" => Cert.Kernel.main_arg2
local notation "catR" => Cert.Kernel.main_arg3
local notation "outR" => Cert.Kernel.main_v39
local notation "idsM" => (Memref.whole Cert.Kernel.main_v36_scv : Memref Cert.Kernel.sig Kind.scVector Space.hbm Cert.Kernel.S102400 EltTy.i32)
local notation "cidsM" => (Memref.whole Cert.Kernel.main_v38_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v39_scv : Memref Cert.Kernel.sig Kind.scVector Space.hbm Cert.Kernel.S102400x256 EltTy.f32)
local notation "bA0" => Cert.Kernel.cc6_scratch0
local notation "bA1" => Cert.Kernel.cc6_scratch1
local notation "bB0" => Cert.Kernel.cc6_scratch2
local notation "bB1" => Cert.Kernel.cc6_scratch3
local notation "bRA" => Cert.Kernel.cc6_scratch4
local notation "bRB" => Cert.Kernel.cc6_scratch5
local notation "ixA0" => (Memref.whole Cert.Kernel.cc6_scratch0 : Memref Cert.Kernel.sig Kind.scVector Space.vmem Cert.Kernel.S128 EltTy.i32)
local notation "ixA1" => (Memref.whole Cert.Kernel.cc6_scratch1 : Memref Cert.Kernel.sig Kind.scVector Space.vmem Cert.Kernel.S128 EltTy.i32)
local notation "ixB0" => (Memref.whole Cert.Kernel.cc6_scratch2 : Memref Cert.Kernel.sig Kind.scVector Space.vmem Cert.Kernel.S128 EltTy.i32)
local notation "ixB1" => (Memref.whole Cert.Kernel.cc6_scratch3 : Memref Cert.Kernel.sig Kind.scVector Space.vmem Cert.Kernel.S128 EltTy.i32)
local notation "rowA" => (Memref.whole Cert.Kernel.cc6_scratch4 : Memref Cert.Kernel.sig Kind.scVector Space.vmem Cert.Kernel.S128x256 EltTy.f32)
local notation "rowB" => (Memref.whole Cert.Kernel.cc6_scratch5 : Memref Cert.Kernel.sig Kind.scVector Space.vmem Cert.Kernel.S128x256 EltTy.f32)
local notation "gA0" => Cert.Kernel.cc6_scratch6
local notation "gA1" => Cert.Kernel.cc6_scratch7
local notation "gB0" => Cert.Kernel.cc6_scratch8
local notation "gB1" => Cert.Kernel.cc6_scratch9
local notation "sc0" => Cert.Kernel.cc6_scoped0
local notation "sc1" => Cert.Kernel.cc6_scoped1
local notation "sc2" => Cert.Kernel.cc6_scoped2
local notation "sc3" => Cert.Kernel.cc6_scoped3
local notation "sc4" => Cert.Kernel.cc6_scoped4
local notation "sc5" => Cert.Kernel.cc6_scoped5
local notation "sc6" => Cert.Kernel.cc6_scoped6
local notation "sc7" => Cert.Kernel.cc6_scoped7
local notation "sc8" => Cert.Kernel.cc6_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.Kernel.Sc.B6

end
-- ==== Proof.ScBody6VB.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody6CB

noncomputable section

namespace Cert.Kernel.Sc.B6

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v36
local notation "cidsR" => Cert.Kernel.main_v38
local notation "idtR" => Cert.Kernel.main_arg2
local notation "catR" => Cert.Kernel.main_arg3
local notation "outR" => Cert.Kernel.main_v39
local notation "idsM" => (Memref.whole Cert.Kernel.main_v36_scv : Memref Cert.Kernel.sig Kind.scVector Space.hbm Cert.Kernel.S102400 EltTy.i32)
local notation "cidsM" => (Memref.whole Cert.Kernel.main_v38_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v39_scv : Memref Cert.Kernel.sig Kind.scVector Space.hbm Cert.Kernel.S102400x256 EltTy.f32)
local notation "bA0" => Cert.Kernel.cc6_scratch0
local notation "bA1" => Cert.Kernel.cc6_scratch1
local notation "bB0" => Cert.Kernel.cc6_scratch2
local notation "bB1" => Cert.Kernel.cc6_scratch3
local notation "bRA" => Cert.Kernel.cc6_scratch4
local notation "bRB" => Cert.Kernel.cc6_scratch5
local notation "ixA0" => (Memref.whole Cert.Kernel.cc6_scratch0 : Memref Cert.Kernel.sig Kind.scVector Space.vmem Cert.Kernel.S128 EltTy.i32)
local notation "ixA1" => (Memref.whole Cert.Kernel.cc6_scratch1 : Memref Cert.Kernel.sig Kind.scVector Space.vmem Cert.Kernel.S128 EltTy.i32)
local notation "ixB0" => (Memref.whole Cert.Kernel.cc6_scratch2 : Memref Cert.Kernel.sig Kind.scVector Space.vmem Cert.Kernel.S128 EltTy.i32)
local notation "ixB1" => (Memref.whole Cert.Kernel.cc6_scratch3 : Memref Cert.Kernel.sig Kind.scVector Space.vmem Cert.Kernel.S128 EltTy.i32)
local notation "rowA" => (Memref.whole Cert.Kernel.cc6_scratch4 : Memref Cert.Kernel.sig Kind.scVector Space.vmem Cert.Kernel.S128x256 EltTy.f32)
local notation "rowB" => (Memref.whole Cert.Kernel.cc6_scratch5 : Memref Cert.Kernel.sig Kind.scVector Space.vmem Cert.Kernel.S128x256 EltTy.f32)
local notation "gA0" => Cert.Kernel.cc6_scratch6
local notation "gA1" => Cert.Kernel.cc6_scratch7
local notation "gB0" => Cert.Kernel.cc6_scratch8
local notation "gB1" => Cert.Kernel.cc6_scratch9
local notation "sc0" => Cert.Kernel.cc6_scoped0
local notation "sc1" => Cert.Kernel.cc6_scoped1
local notation "sc2" => Cert.Kernel.cc6_scoped2
local notation "sc3" => Cert.Kernel.cc6_scoped3
local notation "sc4" => Cert.Kernel.cc6_scoped4
local notation "sc5" => Cert.Kernel.cc6_scoped5
local notation "sc6" => Cert.Kernel.cc6_scoped6
local notation "sc7" => Cert.Kernel.cc6_scoped7
local notation "sc8" => Cert.Kernel.cc6_scoped8

variable [FloatOps F]

set_option maxHeartbeats 4000000 in
set_option maxRecDepth 65536 in
theorem tile_body6v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.Kernel.Sc.B6

end
-- ==== Proof.ScBody7AB.lean ====
/-
  One gather call on one vector subcore: the names of the call's arrays, of the subcore's scratch buffers and of its
  DMA semaphores; the subcore's own semaphores and buffers opened into the ones the body uses; the three result
  blocks a trip and the tail copy out, as the blocks of the result they are; the arrays as the subcore addresses them.
-/
import proofs.«204770_g8065948582451_cont_9to1c4b_476_56_alg».proof.Proof.ScResB

noncomputable section

namespace Cert.Kernel.Sc.B7

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v41
local notation "cidsR" => Cert.Kernel.main_v43
local notation "idtR" => Cert.Kernel.main_arg2
local notation "catR" => Cert.Kernel.main_arg3
local notation "outR" => Cert.Kernel.main_v44
local notation "idsM" => (Memref.whole Cert.Kernel.main_v41_scv : Memref Cert.Kernel.sig Kind.scVector Space.hbm Cert.Kernel.S102400 EltTy.i32)
local notation "cidsM" => (Memref.whole Cert.Kernel.main_v43_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v44_scv : Memref Cert.Kernel.sig Kind.scVector Space.hbm Cert.Kernel.S102400x256 EltTy.f32)
local notation "bA0" => Cert.Kernel.cc7_scratch0
local notation "bA1" => Cert.Kernel.cc7_scratch1
local notation "bB0" => Cert.Kernel.cc7_scratch2
local notation "bB1" => Cert.Kernel.cc7_scratch3
local notation "bRA" => Cert.Kernel.cc7_scratch4
local notation "bRB" => Cert.Kernel.cc7_scratch5
local notation "ixA0" => (Memref.whole Cert.Kernel.cc7_scratch0 : Memref Cert.Kernel.sig Kind.scVector Space.vmem Cert.Kernel.S128 EltTy.i32)
local notation "ixA1" => (Memref.whole Cert.Kernel.cc7_scratch1 : Memref Cert.Kernel.sig Kind.scVector Space.vmem Cert.Kernel.S128 EltTy.i32)
local notation "ixB0" => (Memref.whole Cert.Kernel.cc7_scratch2 : Memref Cert.Kernel.sig Kind.scVector Space.vmem Cert.Kernel.S128 EltTy.i32)
local notation "ixB1" => (Memref.whole Cert.Kernel.cc7_scratch3 : Memref Cert.Kernel.sig Kind.scVector Space.vmem Cert.Kernel.S128 EltTy.i32)
local notation "rowA" => (Memref.whole Cert.Kernel.cc7_scratch4 : Memref Cert.Kernel.sig Kind.scVector Space.vmem Cert.Kernel.S128x256 EltTy.f32)
local notation "rowB" => (Memref.whole Cert.Kernel.cc7_scratch5 : Memref Cert.Kernel.sig Kind.scVector Space.vmem Cert.Kernel.S128x256 EltTy.f32)
local notation "gA0" => Cert.Kernel.cc7_scratch6
local notation "gA1" => Cert.Kernel.cc7_scratch7
local notation "gB0" => Cert.Kernel.cc7_scratch8
local notation "gB1" => Cert.Kernel.cc7_scratch9
local notation "sc0" => Cert.Kernel.cc7_scoped0
local notation "sc1" => Cert.Kernel.cc7_scoped1
local notation "sc2" => Cert.Kernel.cc7_scoped2
local notation "sc3" => Cert.Kernel.cc7_scoped3
local notation "sc4" => Cert.Kernel.cc7_scoped4
local notation "sc5" => Cert.Kernel.cc7_scoped5
local notation "sc6" => Cert.Kernel.cc7_scoped6
local notation "sc7" => Cert.Kernel.cc7_scoped7
local notation "sc8" => Cert.Kernel.cc7_scoped8

/-! ## The subcore's own semaphores and buffers, opened -/

/-- The thirteen DMA semaphores the body uses. -/
abbrev semSet : Finset (SemLoc sig) :=
  {SemLoc.dma (gA0).sem, SemLoc.dma (gA1).sem, SemLoc.dma (gB0).sem, SemLoc.dma (gB1).sem, SemLoc.dma (sc0).sem, SemLoc.dma (sc1).sem, SemLoc.dma (sc2).sem,
    SemLoc.dma (sc3).sem, SemLoc.dma (sc4).sem, SemLoc.dma (sc5).sem, SemLoc.dma (sc6).sem, SemLoc.dma (sc7).sem, SemLoc.dma (sc8).sem}

theorem semSet_scoped : ∀ sm ∈ semSet, (sm : SemLoc sig).isScoped .scVector = true := by decide

/-- A subcore's own semaphores at zero are the thirteen the body uses, each at zero, and the rest. -/
theorem ownSems0_V (d : Dev nD) (c : Fin τ.nSC) (s : Fin τ.nSub) :
    (ownSems0 (V d c s) : sProp 𝕄)
      = iprop((semVal (V d c s, SemLoc.dma (gA0).sem) 0 ∗ semVal (V d c s, SemLoc.dma (gA1).sem) 0 ∗ semVal (V d c s, SemLoc.dma (gB0).sem) 0
            ∗ semVal (V d c s, SemLoc.dma (gB1).sem) 0 ∗ semVal (V d c s, SemLoc.dma (sc0).sem) 0 ∗ semVal (V d c s, SemLoc.dma (sc1).sem) 0
            ∗ semVal (V d c s, SemLoc.dma (sc2).sem) 0 ∗ semVal (V d c s, SemLoc.dma (sc3).sem) 0 ∗ semVal (V d c s, SemLoc.dma (sc4).sem) 0
            ∗ semVal (V d c s, SemLoc.dma (sc5).sem) 0 ∗ semVal (V d c s, SemLoc.dma (sc6).sem) 0 ∗ semVal (V d c s, SemLoc.dma (sc7).sem) 0
            ∗ semVal (V d c s, SemLoc.dma (sc8).sem) 0)
          ∗ bigSep (ownCells (V d c s) \ semSet.image (Prod.mk (V d c s))) fun g => semVal g 0) := by
  have hsub : semSet.image (Prod.mk (V d c s)) ⊆ ownCells (V d c s) := by
    intro g hg
    obtain ⟨sm, hsm, rfl⟩ := Finset.mem_image.mp hg
    exact mem_ownCells.mpr ⟨rfl, semSet_scoped sm hsm⟩
  unfold SparseCore.Cfg.ownSems0
  rw [SparseCore.bigSep_sdiff_split' hsub, Idealize.SL.BI.bigSep_image_of_injOn (fun a _ b _ h => (Prod.mk.inj h).2)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The six scratch buffers the body uses. -/
abbrev bufSet : Finset (Ref sig .scVector) := {bA0, bA1, bB0, bB1, bRA, bRB}

set_option maxHeartbeats 2000000 in
/-- A subcore's own buffers are the six the body uses, each whole at some contents, and the rest. -/
theorem ownBufs_V (d : Dev nD) (c : Fin τ.nSC) (s : Fin τ.nSub) :
    (ownBufs (V d c s) : sProp 𝕄)
      = iprop(((∃ f, (V d c s).loc bA0 ↦{fullShare} f) ∗ (∃ f, (V d c s).loc bA1 ↦{fullShare} f) ∗ (∃ f, (V d c s).loc bB0 ↦{fullShare} f)
            ∗ (∃ f, (V d c s).loc bB1 ↦{fullShare} f) ∗ (∃ f, (V d c s).loc bRA ↦{fullShare} f) ∗ (∃ f, (V d c s).loc bRB ↦{fullShare} f))
          ∗ bigSep (ownRefs (τ := τ) (.scVector c s) \ bufSet.image (Proc.scVector c s).devRef)
              fun b => iprop(∃ f, ((d, b) : Loc nD τ sig) ↦{fullShare} f)) := by
  have hsub : bufSet.image (Proc.scVector c s).devRef ⊆ ownRefs (τ := τ) (.scVector c s) := by
    intro b hb
    obtain ⟨r, hr, rfl⟩ := Finset.mem_image.mp hb
    simp only [Finset.mem_insert, Finset.mem_singleton] at hr
    rcases hr with rfl | rfl | rfl | rfl | rfl | rfl <;> exact SparseCore.Cfg.mem_ownRefs_of_owner rfl
  unfold SparseCore.Cfg.ownBufs
  show bigSep (ownRefs (τ := τ) (.scVector c s)) _ = _
  rw [SparseCore.bigSep_sdiff_split' hsub, Idealize.SL.BI.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]

/-! ## The thread, the worker, the slices the body addresses -/

abbrev cV (L : grid0.Coords) : Fin τ.nSC := (L 0).castLE hcore0
abbrev jV (L : grid0.Coords) : Fin τ.nSub := (L 1).castLE hsub0
/-- The worker number of the subcore at grid point `L`. -/
abbrev wL (L : grid0.Coords) : Fin 32 := widN (L 0).val (L 1).val

theorem L0_lt (L : grid0.Coords) : (L 0).val < 2 := (L 0).isLt
theorem L1_lt (L : grid0.Coords) : (L 1).val < 16 := (L 1).isLt
theorem trips_eq : k0_t1_loop.trips = 12 := by decide

/-- The result block of chunk `2 t` (copied out of row buffer A in trip `t`), of chunk `2 t + 1` (out of row buffer B),
    and of chunk 24 (after the loop), as the body slices them. -/
abbrev oRectA (L : grid0.Coords) (t : Fin k0_t1_loop.trips) : Rect S102400x256 := Rect.unit (s := S102400x256) (k0_off3 L t) S128x256.size (k0_off3_inb L t)
abbrev oRectB (L : grid0.Coords) (t : Fin k0_t1_loop.trips) : Rect S102400x256 := Rect.unit (s := S102400x256) (k0_off5 L t) S128x256.size (k0_off5_inb L t)
abbrev oRectZ (L : grid0.Coords) : Rect S102400x256 := Rect.unit (s := S102400x256) (k0_off6 L) S128x256.size (k0_off6_inb L)
abbrev oSlA (L : grid0.Coords) (t : Fin k0_t1_loop.trips) : Memref sig .scVector .hbm S128x256 .f32 := (outM).slice (oRectA L t) (fun _ => rfl)
abbrev oSlB (L : grid0.Coords) (t : Fin k0_t1_loop.trips) : Memref sig .scVector .hbm S128x256 .f32 := (outM).slice (oRectB L t) (fun _ => rfl)
abbrev oSlZ (L : grid0.Coords) : Memref sig .scVector .hbm S128x256 .f32 := (outM).slice (oRectZ L) (fun _ => rfl)

/-- Chunk numbers of a trip. -/
theorem t_lt (t : Fin k0_t1_loop.trips) : t.val < 12 := lt_of_lt_of_eq t.isLt trips_eq
def kA (t : Fin k0_t1_loop.trips) : Fin 25 := ⟨2 * t.val, by have := t_lt t; omega⟩
def kB (t : Fin k0_t1_loop.trips) : Fin 25 := ⟨2 * t.val + 1, by have := t_lt t; omega⟩
def kZ : Fin 25 := ⟨24, by omega⟩

theorem oRectA_eq (L : grid0.Coords) (t : Fin k0_t1_loop.trips) : oRectA L t = oblk (blk (wL L) (kA t)) := by
  have h0 := L0_lt L; have h1 := L1_lt L
  unfold oRectA oblk Rect.part Rect.block
  congr 1 <;> funext a
  · rw [k0_off3_eq]
    match a with
    | 0 => simp [Shape.partIx, Shape.partSize, blk, widN, kA]; omega
    | 1 => simp [Shape.partIx, Shape.partSize]
  · match a with
    | 0 => simp [Shape.partSize]
    | 1 => simp [Shape.partSize]
theorem oRectB_eq (L : grid0.Coords) (t : Fin k0_t1_loop.trips) : oRectB L t = oblk (blk (wL L) (kB t)) := by
  have h0 := L0_lt L; have h1 := L1_lt L
  unfold oRectB oblk Rect.part Rect.block
  congr 1 <;> funext a
  · rw [k0_off5_eq]
    match a with
    | 0 => simp [Shape.partIx, Shape.partSize, blk, widN, kB]; omega
    | 1 => simp [Shape.partIx, Shape.partSize]
  · match a with
    | 0 => simp [Shape.partSize]
    | 1 => simp [Shape.partSize]
theorem oRectZ_eq (L : grid0.Coords) : oRectZ L = oblk (blk (wL L) kZ) := by
  have h0 := L0_lt L; have h1 := L1_lt L
  unfold oRectZ oblk Rect.part Rect.block
  congr 1 <;> funext a
  · rw [k0_off6_eq]
    match a with
    | 0 => simp [Shape.partIx, Shape.partSize, blk, widN, kZ]; omega
    | 1 => simp [Shape.partIx, Shape.partSize]
  · match a with
    | 0 => simp [Shape.partSize]
    | 1 => simp [Shape.partSize]

theorem set_oSlA (L : grid0.Coords) (t : Fin k0_t1_loop.trips) : (oSlA L t).view.set = oBlkSet (blk (wL L) (kA t)) := by
  show ((View.whole (main_v44_scv : Ref sig .scVector)).slice (oRectA L t)).set = _
  rw [View.set_slice, oRectA_eq]; exact Finset.map_refl
theorem set_oSlB (L : grid0.Coords) (t : Fin k0_t1_loop.trips) : (oSlB L t).view.set = oBlkSet (blk (wL L) (kB t)) := by
  show ((View.whole (main_v44_scv : Ref sig .scVector)).slice (oRectB L t)).set = _
  rw [View.set_slice, oRectB_eq]; exact Finset.map_refl
theorem set_oSlZ (L : grid0.Coords) : (oSlZ L).view.set = oBlkSet (blk (wL L) kZ) := by
  show ((View.whole (main_v44_scv : Ref sig .scVector)).slice (oRectZ L)).set = _
  rw [View.set_slice, oRectZ_eq]; exact Finset.map_refl

/-! ## The arrays and buffers as the subcore addresses them -/

abbrev idsLoc (d : Dev nD) : Loc nD τ sig := (SparseCore.T d).loc idsR
abbrev cidsLoc (d : Dev nD) : Loc nD τ sig := (SparseCore.T d).loc cidsR
abbrev idtLoc (d : Dev nD) : Loc nD τ sig := (SparseCore.T d).loc idtR
abbrev catLoc (d : Dev nD) : Loc nD τ sig := (SparseCore.T d).loc catR
abbrev outLoc (d : Dev nD) : Loc nD τ sig := (SparseCore.T d).loc outR

theorem pts_ids (d : Dev nD) (c : Fin τ.nSC) (s : Fin τ.nSub) (q : PosShare TreeShare) (f : Buf (Elt F) (idsLoc d)) :
    ((idsM).view.loc (V d c s) ↦{q} f : sProp 𝕄) = idsLoc d ↦{q} f := rfl
theorem pts_cids (d : Dev nD) (c : Fin τ.nSC) (s : Fin τ.nSub) (q : PosShare TreeShare) (f : Buf (Elt F) (cidsLoc d)) :
    ((cidsM).view.loc (V d c s) ↦{q} f : sProp 𝕄) = cidsLoc d ↦{q} f := rfl
theorem pts_idt (d : Dev nD) (c : Fin τ.nSC) (s : Fin τ.nSub) (q : PosShare TreeShare) (f : Buf (Elt F) (idtLoc d)) :
    ((idtM).view.loc (V d c s) ↦{q} f : sProp 𝕄) = idtLoc d ↦{q} f := rfl
theorem pts_cat (d : Dev nD) (c : Fin τ.nSC) (s : Fin τ.nSub) (q : PosShare TreeShare) (f : Buf (Elt F) (catLoc d)) :
    ((catM).view.loc (V d c s) ↦{q} f : sProp 𝕄) = catLoc d ↦{q} f := rfl
theorem pts_out (d : Dev nD) (c : Fin τ.nSC) (s : Fin τ.nSub) (I : Finset S102400x256.Idx) (f : Buf (Elt F) (outLoc d)) :
    ((outM).view.loc (V d c s) ↦[I]{fullShare} f : sProp 𝕄) = outLoc d ↦[I]{fullShare} f := rfl
theorem pts_ixA0 (d : Dev nD) (c : Fin τ.nSC) (s : Fin τ.nSub) (f : Buf (Elt F) ((V d c s).loc bA0)) :
    ((ixA0).view.loc (V d c s) ↦{fullShare} f : sProp 𝕄) = (V d c s).loc bA0 ↦{fullShare} f := rfl
theorem pts_ixA1 (d : Dev nD) (c : Fin τ.nSC) (s : Fin τ.nSub) (f : Buf (Elt F) ((V d c s).loc bA1)) :
    ((ixA1).view.loc (V d c s) ↦{fullShare} f : sProp 𝕄) = (V d c s).loc bA1 ↦{fullShare} f := rfl
theorem pts_ixB0 (d : Dev nD) (c : Fin τ.nSC) (s : Fin τ.nSub) (f : Buf (Elt F) ((V d c s).loc bB0)) :
    ((ixB0).view.loc (V d c s) ↦{fullShare} f : sProp 𝕄) = (V d c s).loc bB0 ↦{fullShare} f := rfl
theorem pts_ixB1 (d : Dev nD) (c : Fin τ.nSC) (s : Fin τ.nSub) (f : Buf (Elt F) ((V d c s).loc bB1)) :
    ((ixB1).view.loc (V d c s) ↦{fullShare} f : sProp 𝕄) = (V d c s).loc bB1 ↦{fullShare} f := rfl
theorem pts_rowA (d : Dev nD) (c : Fin τ.nSC) (s : Fin τ.nSub) (f : Buf (Elt F) ((V d c s).loc bRA)) :
    ((rowA).view.loc (V d c s) ↦{fullShare} f : sProp 𝕄) = (V d c s).loc bRA ↦{fullShare} f := rfl
theorem pts_rowB (d : Dev nD) (c : Fin τ.nSC) (s : Fin τ.nSub) (f : Buf (Elt F) ((V d c s).loc bRB)) :
    ((rowB).view.loc (V d c s) ↦{fullShare} f : sProp 𝕄) = (V d c s).loc bRB ↦{fullShare} f := rfl

end Cert.Kernel.Sc.B7

end
-- ==== Proof.ScBody7BB.lean ====
/-
  One gather call on one vector subcore, continued: the two halves of a row buffer (columns 0..127 take the id
  table's rows, columns 128..255 the category table's) and that they make up the buffer; the words staged into an
  index buffer name rows of their table; what a gather in flight hands back at its wait; the loop's invariant.
-/
import proofs.«204770_g8065948582451_cont_9to1c4b_476_56_alg».proof.Proof.ScBody7AB

noncomputable section

namespace Cert.Kernel.Sc.B7

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v41
local notation "cidsR" => Cert.Kernel.main_v43
local notation "idtR" => Cert.Kernel.main_arg2
local notation "catR" => Cert.Kernel.main_arg3
local notation "outR" => Cert.Kernel.main_v44
local notation "idsM" => (Memref.whole Cert.Kernel.main_v41_scv : Memref Cert.Kernel.sig Kind.scVector Space.hbm Cert.Kernel.S102400 EltTy.i32)
local notation "cidsM" => (Memref.whole Cert.Kernel.main_v43_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v44_scv : Memref Cert.Kernel.sig Kind.scVector Space.hbm Cert.Kernel.S102400x256 EltTy.f32)
local notation "bA0" => Cert.Kernel.cc7_scratch0
local notation "bA1" => Cert.Kernel.cc7_scratch1
local notation "bB0" => Cert.Kernel.cc7_scratch2
local notation "bB1" => Cert.Kernel.cc7_scratch3
local notation "bRA" => Cert.Kernel.cc7_scratch4
local notation "bRB" => Cert.Kernel.cc7_scratch5
local notation "ixA0" => (Memref.whole Cert.Kernel.cc7_scratch0 : Memref Cert.Kernel.sig Kind.scVector Space.vmem Cert.Kernel.S128 EltTy.i32)
local notation "ixA1" => (Memref.whole Cert.Kernel.cc7_scratch1 : Memref Cert.Kernel.sig Kind.scVector Space.vmem Cert.Kernel.S128 EltTy.i32)
local notation "ixB0" => (Memref.whole Cert.Kernel.cc7_scratch2 : Memref Cert.Kernel.sig Kind.scVector Space.vmem Cert.Kernel.S128 EltTy.i32)
local notation "ixB1" => (Memref.whole Cert.Kernel.cc7_scratch3 : Memref Cert.Kernel.sig Kind.scVector Space.vmem Cert.Kernel.S128 EltTy.i32)
local notation "rowA" => (Memref.whole Cert.Kernel.cc7_scratch4 : Memref Cert.Kernel.sig Kind.scVector Space.vmem Cert.Kernel.S128x256 EltTy.f32)
local notation "rowB" => (Memref.whole Cert.Kernel.cc7_scratch5 : Memref Cert.Kernel.sig Kind.scVector Space.vmem Cert.Kernel.S128x256 EltTy.f32)
local notation "gA0" => Cert.Kernel.cc7_scratch6
local notation "gA1" => Cert.Kernel.cc7_scratch7
local notation "gB0" => Cert.Kernel.cc7_scratch8
local notation "gB1" => Cert.Kernel.cc7_scratch9
local notation "sc0" => Cert.Kernel.cc7_scoped0
local notation "sc1" => Cert.Kernel.cc7_scoped1
local notation "sc2" => Cert.Kernel.cc7_scoped2
local notation "sc3" => Cert.Kernel.cc7_scoped3
local notation "sc4" => Cert.Kernel.cc7_scoped4
local notation "sc5" => Cert.Kernel.cc7_scoped5
local notation "sc6" => Cert.Kernel.cc7_scoped6
local notation "sc7" => Cert.Kernel.cc7_scoped7
local notation "sc8" => Cert.Kernel.cc7_scoped8

/-! ## The two halves of a row buffer, the tables as the gathers name them, the offsets in range -/

abbrev rectL : Rect S128x256 := Rect.unit (s := S128x256) ![0, 0] S128x128.size inb_S128x256_S128x128_0_0
abbrev rectR : Rect S128x256 := Rect.unit (s := S128x256) ![0, 128] S128x128.size inb_S128x256_S128x128_0_128
abbrev aL : Memref sig .scVector .vmem S128x128 .f32 := (rowA).slice rectL (fun _ => rfl)
abbrev aR : Memref sig .scVector .vmem S128x128 .f32 := (rowA).slice rectR (fun _ => rfl)
abbrev bL : Memref sig .scVector .vmem S128x128 .f32 := (rowB).slice rectL (fun _ => rfl)
abbrev bR : Memref sig .scVector .vmem S128x128 .f32 := (rowB).slice rectR (fun _ => rfl)
abbrev idtAll : Memref sig .scVector .hbm S100000x128 .f32 :=
  (idtM).slice (Rect.unit (s := S100000x128) ![0, 0] S100000x128.size inb_S100000x128_S100000x128_0_0) (fun _ => rfl)
abbrev catAll : Memref sig .scVector .hbm S1000x128 .f32 :=
  (catM).slice (Rect.unit (s := S1000x128) ![0, 0] S1000x128.size inb_S1000x128_S1000x128_0_0) (fun _ => rfl)

theorem mem_rectL (i : S128x256.Idx) : i ∈ rectL.set ↔ (i 1).val < 128 := by
  rw [Rect.mem_set_unit, Fin.forall_fin_two]
  have h0 : (i 0).val < 128 := (i 0).isLt
  have h1 : (i 1).val < 256 := (i 1).isLt
  show (0 ≤ (i 0).val ∧ (i 0).val < 0 + 128) ∧ (0 ≤ (i 1).val ∧ (i 1).val < 0 + 128) ↔ _
  omega
theorem mem_rectR (i : S128x256.Idx) : i ∈ rectR.set ↔ 128 ≤ (i 1).val := by
  rw [Rect.mem_set_unit, Fin.forall_fin_two]
  have h0 : (i 0).val < 128 := (i 0).isLt
  have h1 : (i 1).val < 256 := (i 1).isLt
  show (0 ≤ (i 0).val ∧ (i 0).val < 0 + 128) ∧ (128 ≤ (i 1).val ∧ (i 1).val < 128 + 128) ↔ _
  omega
theorem rectR_compl : rectR.set = Finset.univ \ rectL.set := by
  ext i; simp only [Finset.mem_sdiff, Finset.mem_univ, true_and, mem_rectL, mem_rectR]; omega

theorem set_aL : (aL).view.set = rectL.set := by
  show ((View.whole (bRA : Ref sig .scVector)).slice rectL).set = _
  rw [View.set_slice]; exact Finset.map_refl
theorem set_aR : (aR).view.set = rectR.set := by
  show ((View.whole (bRA : Ref sig .scVector)).slice rectR).set = _
  rw [View.set_slice]; exact Finset.map_refl
theorem set_bL : (bL).view.set = rectL.set := by
  show ((View.whole (bRB : Ref sig .scVector)).slice rectL).set = _
  rw [View.set_slice]; exact Finset.map_refl
theorem set_bR : (bR).view.set = rectR.set := by
  show ((View.whole (bRB : Ref sig .scVector)).slice rectR).set = _
  rw [View.set_slice]; exact Finset.map_refl

/-- What is left of row buffer A beside its left half is its right half. -/
theorem pts_aR (d : Dev nD) (c : Fin τ.nSC) (s : Fin τ.nSub) (f : Buf (Elt F) ((rowA).view.loc (V d c s))) :
    ((rowA).view.loc (V d c s) ↦[Finset.univ \ (aL).view.set]{fullShare} f : sProp 𝕄) = (aR).view.loc (V d c s) ↦[(aR).view.set]{fullShare} f := by
  rw [set_aR, set_aL, rectR_compl]
theorem pts_bR (d : Dev nD) (c : Fin τ.nSC) (s : Fin τ.nSub) (f : Buf (Elt F) ((rowB).view.loc (V d c s))) :
    ((rowB).view.loc (V d c s) ↦[Finset.univ \ (bL).view.set]{fullShare} f : sProp 𝕄) = (bR).view.loc (V d c s) ↦[(bR).view.set]{fullShare} f := by
  rw [set_bR, set_bL, rectR_compl]

/-- An index buffer just filled with 128 words of an index array names rows of its table. -/
theorem inb_A0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixA0).view.loc (V d c s))) (pay : S128.Idx → Elt F .i32)
    (hpay : pay = ((idsM).slice (Rect.unit (s := S102400) off S128.size inb) (fun _ => rfl)).view.read (Elt F) ids) :
    ∀ x, ((ixA0).view.read (Elt F) (View.write (Elt F) (ixA0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_A1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixA1).view.loc (V d c s))) (pay : S128.Idx → Elt F .i32)
    (hpay : pay = ((cidsM).slice (Rect.unit (s := S102400) off S128.size inb) (fun _ => rfl)).view.read (Elt F) cids) :
    ∀ x, ((ixA1).view.read (Elt F) (View.write (Elt F) (ixA1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

theorem inb_B0 (d : Dev nD) (c : Fin τ.nSC) (s : Fin τ.nSub) (ids : Vec F S102400 .i32) (hids : ∀ j, (ids j).toNat < 100000) (off : Fin S102400.rank → ℕ)
    (inb : ∀ a, off a + S128.size a ≤ S102400.size a) (fs : Buf (Elt F) ((ixB0).view.loc (V d c s))) (pay : S128.Idx → Elt F .i32)
    (hpay : pay = ((idsM).slice (Rect.unit (s := S102400) off S128.size inb) (fun _ => rfl)).view.read (Elt F) ids) :
    ∀ x, ((ixB0).view.read (Elt F) (View.write (Elt F) (ixB0).view fs pay Finset.univ) x).toNat < S100000x128.size gathers_S100000x128_S128x128.axis := by
  subst hpay; intro x
  rw [View.write_whole_univ]
  simp only [Memref.view_whole, View.read_whole]
  rw [show ∀ j, ((idsM).slice (Rect.unit (s := S102400) off S128.size inb) (fun _ => rfl)).view.read (Elt F) ids j
      = ids (((idsM).slice (Rect.unit (s := S102400) off S128.size inb) (fun _ => rfl)).view.emb j) from fun j => (View.read_apply _ _).trans (cast_eq _ _)]
  exact hids _

theorem inb_B1 (d : Dev nD) (c : Fin τ.nSC) (s : Fin τ.nSub) (cids : Vec F S102400 .i32) (hcids : ∀ j, (cids j).toNat < 1000) (off : Fin S102400.rank → ℕ)
    (inb : ∀ a, off a + S128.size a ≤ S102400.size a) (fs : Buf (Elt F) ((ixB1).view.loc (V d c s))) (pay : S128.Idx → Elt F .i32)
    (hpay : pay = ((cidsM).slice (Rect.unit (s := S102400) off S128.size inb) (fun _ => rfl)).view.read (Elt F) cids) :
    ∀ x, ((ixB1).view.read (Elt F) (View.write (Elt F) (ixB1).view fs pay Finset.univ) x).toNat < S1000x128.size gathers_S1000x128_S128x128.axis := by
  subst hpay; intro x
  rw [View.write_whole_univ]
  simp only [Memref.view_whole, View.read_whole]
  rw [show ∀ j, ((cidsM).slice (Rect.unit (s := S102400) off S128.size inb) (fun _ => rfl)).view.read (Elt F) cids j
      = cids (((cidsM).slice (Rect.unit (s := S102400) off S128.size inb) (fun _ => rfl)).view.emb j) from fun j => (View.read_apply _ _).trans (cast_eq _ _)]
  exact hcids _

/-- A buffer held whole is held by its whole view's elements. -/
theorem ptsS_ixA0 (d : Dev nD) (c : Fin τ.nSC) (s : Fin τ.nSub) (f : Buf (Elt F) ((ixA0).view.loc (V d c s))) :
    ((ixA0).view.loc (V d c s) ↦{fullShare} f : sProp 𝕄) = (ixA0).view.loc (V d c s) ↦[(ixA0).view.set]{fullShare} f := by
  rw [show (ixA0).view.set = Finset.univ from View.set_whole _]

theorem ptsS_ixA1 (d : Dev nD) (c : Fin τ.nSC) (s : Fin τ.nSub) (f : Buf (Elt F) ((ixA1).view.loc (V d c s))) :
    ((ixA1).view.loc (V d c s) ↦{fullShare} f : sProp 𝕄) = (ixA1).view.loc (V d c s) ↦[(ixA1).view.set]{fullShare} f := by
  rw [show (ixA1).view.set = Finset.univ from View.set_whole _]

theorem ptsS_ixB0 (d : Dev nD) (c : Fin τ.nSC) (s : Fin τ.nSub) (f : Buf (Elt F) ((ixB0).view.loc (V d c s))) :
    ((ixB0).view.loc (V d c s) ↦{fullShare} f : sProp 𝕄) = (ixB0).view.loc (V d c s) ↦[(ixB0).view.set]{fullShare} f := by
  rw [show (ixB0).view.set = Finset.univ from View.set_whole _]

theorem ptsS_ixB1 (d : Dev nD) (c : Fin τ.nSC) (s : Fin τ.nSub) (f : Buf (Elt F) ((ixB1).view.loc (V d c s))) :
    ((ixB1).view.loc (V d c s) ↦{fullShare} f : sProp 𝕄) = (ixB1).view.loc (V d c s) ↦[(ixB1).view.set]{fullShare} f := by
  rw [show (ixB1).view.set = Finset.univ from View.set_whole _]

/-- A result block as the body slices it is the block of the result it is. -/
theorem pts_oSlA (d : Dev nD) (c : Fin τ.nSC) (s : Fin τ.nSub) (L : grid0.Coords) (t : Fin k0_t1_loop.trips) (f : Buf (Elt F) (outLoc d)) :
    ((oSlA L t).view.loc (V d c s) ↦[(oSlA L t).view.set]{fullShare} f : sProp 𝕄) = outLoc d ↦[oBlkSet (blk (wL L) (kA t))]{fullShare} f := by
  rw [set_oSlA]

theorem pts_oSlB (d : Dev nD) (c : Fin τ.nSC) (s : Fin τ.nSub) (L : grid0.Coords) (t : Fin k0_t1_loop.trips) (f : Buf (Elt F) (outLoc d)) :
    ((oSlB L t).view.loc (V d c s) ↦[(oSlB L t).view.set]{fullShare} f : sProp 𝕄) = outLoc d ↦[oBlkSet (blk (wL L) (kB t))]{fullShare} f := by
  rw [set_oSlB]

theorem pts_oSlZ (d : Dev nD) (c : Fin τ.nSC) (s : Fin τ.nSub) (L : grid0.Coords)  (f : Buf (Elt F) (outLoc d)) :
    ((oSlZ L).view.loc (V d c s) ↦[(oSlZ L).view.set]{fullShare} f : sProp 𝕄) = outLoc d ↦[oBlkSet (blk (wL L) kZ)]{fullShare} f := by
  rw [set_oSlZ]

/-! ## What a gather in flight hands back at its wait, and the loop's invariant -/

def DA0 (d : Dev nD) (L : grid0.Coords) (idt : Vec F S100000x128 .f32) : sProp 𝕄 :=
  iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem toDA0 (d : Dev nD) (L : grid0.Coords) (idt : Vec F S100000x128 .f32) (f : Buf (Elt F) ((aL).view.loc (V d (cV L) (jV L))))
    (fo : Buf (Elt F) ((ixA0).view.loc (V d (cV L) (jV L)))) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0 d L idt : sProp 𝕄) := by
  unfold DA0
  iintro ⟨H1, H2, H3⟩
  isplitl [H1]; · iexists _; iexact H1
  isplitl [H2]; · iexact H2
  iexists _; iexact H3

def DA1 (d : Dev nD) (L : grid0.Coords) (cat : Vec F S1000x128 .f32) : sProp 𝕄 :=
  iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem toDA1 (d : Dev nD) (L : grid0.Coords) (cat : Vec F S1000x128 .f32) (f : Buf (Elt F) ((aR).view.loc (V d (cV L) (jV L))))
    (fo : Buf (Elt F) ((ixA1).view.loc (V d (cV L) (jV L)))) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1 d L cat : sProp 𝕄) := by
  unfold DA1
  iintro ⟨H1, H2, H3⟩
  isplitl [H1]; · iexists _; iexact H1
  isplitl [H2]; · iexact H2
  iexists _; iexact H3

def DB0 (d : Dev nD) (L : grid0.Coords) (idt : Vec F S100000x128 .f32) : sProp 𝕄 :=
  iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo))
theorem toDB0 (d : Dev nD) (L : grid0.Coords) (idt : Vec F S100000x128 .f32) (f : Buf (Elt F) ((bL).view.loc (V d (cV L) (jV L))))
    (fo : Buf (Elt F) ((ixB0).view.loc (V d (cV L) (jV L)))) :
    iprop(((bL).view.loc (V d (cV L) (jV L)) ↦[(bL).view.set]{fullShare} f)
        ∗ ((idtAll).view.loc (V d (cV L) (jV L)) ↦[(idtAll).view.set]{(rsh (wL L)).right} idt)
        ∗ ((ixB0).view.loc (V d (cV L) (jV L)) ↦[(ixB0).view.set]{fullShare} fo))
      ⊢ (DB0 d L idt : sProp 𝕄) := by
  unfold DB0
  iintro ⟨H1, H2, H3⟩
  isplitl [H1]; · iexists _; iexact H1
  isplitl [H2]; · iexact H2
  iexists _; iexact H3

def DB1 (d : Dev nD) (L : grid0.Coords) (cat : Vec F S1000x128 .f32) : sProp 𝕄 :=
  iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo))
theorem toDB1 (d : Dev nD) (L : grid0.Coords) (cat : Vec F S1000x128 .f32) (f : Buf (Elt F) ((bR).view.loc (V d (cV L) (jV L))))
    (fo : Buf (Elt F) ((ixB1).view.loc (V d (cV L) (jV L)))) :
    iprop(((bR).view.loc (V d (cV L) (jV L)) ↦[(bR).view.set]{fullShare} f)
        ∗ ((catAll).view.loc (V d (cV L) (jV L)) ↦[(catAll).view.set]{(rsh (wL L)).right} cat)
        ∗ ((ixB1).view.loc (V d (cV L) (jV L)) ↦[(ixB1).view.set]{fullShare} fo))
      ⊢ (DB1 d L cat : sProp 𝕄) := by
  unfold DB1
  iintro ⟨H1, H2, H3⟩
  isplitl [H1]; · iexists _; iexact H1
  isplitl [H2]; · iexact H2
  iexists _; iexact H3

theorem DA0_def (d : Dev nD) (L : grid0.Coords) (idt : Vec F S100000x128 .f32) :
    (DA0 d L idt : sProp 𝕄) = iprop((∃ f, (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl

theorem DA1_def (d : Dev nD) (L : grid0.Coords) (cat : Vec F S1000x128 .f32) :
    (DA1 d L cat : sProp 𝕄) = iprop((∃ f, (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl

theorem DB0_def (d : Dev nD) (L : grid0.Coords) (idt : Vec F S100000x128 .f32) :
    (DB0 d L idt : sProp 𝕄) = iprop((∃ f, (bL).view.loc (V d (cV L) (jV L)) ↦[(bL).view.set]{fullShare} f)
    ∗ ((idtAll).view.loc (V d (cV L) (jV L)) ↦[(idtAll).view.set]{(rsh (wL L)).right} idt)
    ∗ (∃ fo, (ixB0).view.loc (V d (cV L) (jV L)) ↦[(ixB0).view.set]{fullShare} fo)) := rfl

theorem DB1_def (d : Dev nD) (L : grid0.Coords) (cat : Vec F S1000x128 .f32) :
    (DB1 d L cat : sProp 𝕄) = iprop((∃ f, (bR).view.loc (V d (cV L) (jV L)) ↦[(bR).view.set]{fullShare} f)
    ∗ ((catAll).view.loc (V d (cV L) (jV L)) ↦[(catAll).view.set]{(rsh (wL L)).right} cat)
    ∗ (∃ fo, (ixB1).view.loc (V d (cV L) (jV L)) ↦[(ixB1).view.set]{fullShare} fo)) := rfl

/-- A row buffer held by all its elements through a half's view is the buffer held whole. -/
theorem pts_rowA_univ (d : Dev nD) (c : Fin τ.nSC) (s : Fin τ.nSub) (f : Buf (Elt F) ((rowA).view.loc (V d c s))) :
    ((aL).view.loc (V d c s) ↦[Finset.univ]{fullShare} f : sProp 𝕄) = ((rowA).view.loc (V d c s) ↦{fullShare} f) := rfl
theorem pts_rowB_univ (d : Dev nD) (c : Fin τ.nSC) (s : Fin τ.nSub) (f : Buf (Elt F) ((rowB).view.loc (V d c s))) :
    ((bL).view.loc (V d c s) ↦[Finset.univ]{fullShare} f : sProp 𝕄) = ((rowB).view.loc (V d c s) ↦{fullShare} f) := rfl

/-- At the head of a trip: the two gathers of the trip's first chunk into row buffer A in flight (their tables' left
    half shares and index buffers A inside); row buffer B, index buffers B and the tables' right half shares idle; the
    semaphores the trip uses at zero; every result block held; what the subcore owes. -/
def inv (d : Dev nD) (L : grid0.Coords) (ids cids : Vec F S102400 .i32) (idt : Vec F S100000x128 .f32) (cat : Vec F S1000x128 .f32)
    (O : CellTallies nD τ sig (HIx 8)) (W : Waits sig (HIx 8)) (_ : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit (DA0 d L idt)
    ∗ Transfers.Flight (countersEmb : UEmb Counters 𝕄) (V d (cV L) (jV L)) (SemLoc.dma (gA1).sem) (default : HIx 8) (aR).view.dmaCredit (DA1 d L cat)
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ fun k : Fin 25 => iprop(∃ f, outLoc d ↦[oBlkSet (blk (wL L) k)]{fullShare} f))
    ∗ ∃ W', ⌜∀ p ∈ W', p ∈ W ∨ p.2 = none⌝ ∗ owes (V d (cV L) (jV L)) O W')

end Cert.Kernel.Sc.B7

end
-- ==== Proof.ScBody7CB.lean ====
/-
  One gather call on one vector subcore: the value. What a gather leaves in its half of a row buffer is, element by
  element, the gathered array's rows of the chunk whose index words were staged (row `offs[r]` of the table at buffer
  row `r`); a row buffer whose halves hold a chunk's rows is the chunk's result block read through the block's view,
  so copying it out whole writes the block with the gathered array; the rows the body's offset functions name; the
  result blocks through the trips; the loop's invariant carrying the value.
-/
import proofs.«204770_g8065948582451_cont_9to1c4b_476_56_alg».proof.Proof.ScBody7BB

noncomputable section

namespace Cert.Kernel.Sc.B7

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v41
local notation "cidsR" => Cert.Kernel.main_v43
local notation "idtR" => Cert.Kernel.main_arg2
local notation "catR" => Cert.Kernel.main_arg3
local notation "outR" => Cert.Kernel.main_v44
local notation "idsM" => (Memref.whole Cert.Kernel.main_v41_scv : Memref Cert.Kernel.sig Kind.scVector Space.hbm Cert.Kernel.S102400 EltTy.i32)
local notation "cidsM" => (Memref.whole Cert.Kernel.main_v43_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v44_scv : Memref Cert.Kernel.sig Kind.scVector Space.hbm Cert.Kernel.S102400x256 EltTy.f32)
local notation "bA0" => Cert.Kernel.cc7_scratch0
local notation "bA1" => Cert.Kernel.cc7_scratch1
local notation "bB0" => Cert.Kernel.cc7_scratch2
local notation "bB1" => Cert.Kernel.cc7_scratch3
local notation "bRA" => Cert.Kernel.cc7_scratch4
local notation "bRB" => Cert.Kernel.cc7_scratch5
local notation "ixA0" => (Memref.whole Cert.Kernel.cc7_scratch0 : Memref Cert.Kernel.sig Kind.scVector Space.vmem Cert.Kernel.S128 EltTy.i32)
local notation "ixA1" => (Memref.whole Cert.Kernel.cc7_scratch1 : Memref Cert.Kernel.sig Kind.scVector Space.vmem Cert.Kernel.S128 EltTy.i32)
local notation "ixB0" => (Memref.whole Cert.Kernel.cc7_scratch2 : Memref Cert.Kernel.sig Kind.scVector Space.vmem Cert.Kernel.S128 EltTy.i32)
local notation "ixB1" => (Memref.whole Cert.Kernel.cc7_scratch3 : Memref Cert.Kernel.sig Kind.scVector Space.vmem Cert.Kernel.S128 EltTy.i32)
local notation "rowA" => (Memref.whole Cert.Kernel.cc7_scratch4 : Memref Cert.Kernel.sig Kind.scVector Space.vmem Cert.Kernel.S128x256 EltTy.f32)
local notation "rowB" => (Memref.whole Cert.Kernel.cc7_scratch5 : Memref Cert.Kernel.sig Kind.scVector Space.vmem Cert.Kernel.S128x256 EltTy.f32)
local notation "gA0" => Cert.Kernel.cc7_scratch6
local notation "gA1" => Cert.Kernel.cc7_scratch7
local notation "gB0" => Cert.Kernel.cc7_scratch8
local notation "gB1" => Cert.Kernel.cc7_scratch9
local notation "sc0" => Cert.Kernel.cc7_scoped0
local notation "sc1" => Cert.Kernel.cc7_scoped1
local notation "sc2" => Cert.Kernel.cc7_scoped2
local notation "sc3" => Cert.Kernel.cc7_scoped3
local notation "sc4" => Cert.Kernel.cc7_scoped4
local notation "sc5" => Cert.Kernel.cc7_scoped5
local notation "sc6" => Cert.Kernel.cc7_scoped6
local notation "sc7" => Cert.Kernel.cc7_scoped7
local notation "sc8" => Cert.Kernel.cc7_scoped8

/-! ## The value: what a gather leaves in its half of a row buffer -/

/-- The first token row of the chunk `c` of the worker at grid point `L`. -/
def rowN (L : grid0.Coords) (c : ℕ) : ℕ := 6400 * (L 1).val + 3200 * (L 0).val + 128 * c

/-- Row buffer contents `f` hold, in columns 0..127 (128..255), chunk `c`'s rows of the gathered array. -/
def HoldsL (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = (x 1).val → f (rectL.emb x) = gath ids cids idt cat y
def HoldsR (ids cids : Vec F S102400 .i32) (idt : Vec F S100000x128 .f32) (cat : Vec F S1000x128 .f32) (L : grid0.Coords) (c : ℕ)
    (f : S128x256.Idx → Elt F .f32) : Prop :=
  ∀ (x : S128x128.Idx) (y : S102400x256.Idx), (y 0).val = rowN L c + (x 0).val → (y 1).val = 128 + (x 1).val → f (rectR.emb x) = gath ids cids idt cat y

theorem val_aL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (aL).view fd (SparseCore.gatherPayload gathers_S100000x128_S128x128 ((idtAll).view.read (Elt F) idt)
      (SparseCore.rows ((ixA0).view.read (Elt F) (View.write (Elt F) (ixA0).view fs
        (((idsM).slice (Rect.unit (s := S102400) off S128.size inb) (fun _ => rfl)).view.read (Elt F) ids) Finset.univ)) hn hin)) Finset.univ
      ((aL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_aR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (aR).view fd (SparseCore.gatherPayload gathers_S1000x128_S128x128 ((catAll).view.read (Elt F) cat)
      (SparseCore.rows ((ixA1).view.read (Elt F) (View.write (Elt F) (ixA1).view fs
        (((cidsM).slice (Rect.unit (s := S102400) off S128.size inb) (fun _ => rfl)).view.read (Elt F) cids) Finset.univ)) hn hin)) Finset.univ
      ((aR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

theorem val_bL (d : Dev nD) (c : Fin τ.nSC) (s : Fin τ.nSub) (ids cids : Vec F S102400 .i32) (idt : Vec F S100000x128 .f32) (cat : Vec F S1000x128 .f32)
    (hids : ∀ j, (ids j).toNat < 100000) (off : Fin S102400.rank → ℕ) (inb : ∀ a, off a + S128.size a ≤ S102400.size a)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis)
    (R : ℕ) (hR : off 0 = R) (x : S128x128.Idx) (y : S102400x256.Idx) (h0 : (y 0).val = R + (x 0).val) (h1 : (y 1).val = (x 1).val) :
    View.write (Elt F) (bL).view fd (SparseCore.gatherPayload gathers_S100000x128_S128x128 ((idtAll).view.read (Elt F) idt)
      (SparseCore.rows ((ixB0).view.read (Elt F) (View.write (Elt F) (ixB0).view fs
        (((idsM).slice (Rect.unit (s := S102400) off S128.size inb) (fun _ => rfl)).view.read (Elt F) ids) Finset.univ)) hn hin)) Finset.univ
      ((bL).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : (y 1).val < 128 := by rw [h1]; exact (x 1).isLt
  unfold gath
  rw [dif_pos hy1]
  refine congrArg idt ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hids _)]
    show 0 + 1 * (ids _).toNat = (ids _).toNat
    rw [Nat.zero_add, Nat.one_mul]
    refine congrArg (fun z => BitVec.toNat (ids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero, h1]
    show 0 + 1 * (x 1).val = (x 1).val
    omega

theorem val_bR (d : Dev nD) (c : Fin τ.nSC) (s : Fin τ.nSub) (ids cids : Vec F S102400 .i32) (idt : Vec F S100000x128 .f32) (cat : Vec F S1000x128 .f32)
    (hcids : ∀ j, (cids j).toNat < 1000) (off : Fin S102400.rank → ℕ) (inb : ∀ a, off a + S128.size a ≤ S102400.size a)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis)
    (R : ℕ) (hR : off 0 = R) (x : S128x128.Idx) (y : S102400x256.Idx) (h0 : (y 0).val = R + (x 0).val) (h1 : (y 1).val = 128 + (x 1).val) :
    View.write (Elt F) (bR).view fd (SparseCore.gatherPayload gathers_S1000x128_S128x128 ((catAll).view.read (Elt F) cat)
      (SparseCore.rows ((ixB1).view.read (Elt F) (View.write (Elt F) (ixB1).view fs
        (((cidsM).slice (Rect.unit (s := S102400) off S128.size inb) (fun _ => rfl)).view.read (Elt F) cids) Finset.univ)) hn hin)) Finset.univ
      ((bR).view.emb x) = gath ids cids idt cat y := by
  have hj : ∀ k : Fin S128.numel, ((S128.rowMajor.symm k) 0).val = k.val := fun k => by
    rw [← Shape.rowMajor_val_one, Equiv.apply_symm_apply]
  rw [View.write_emb_of_mem _ _ (Finset.mem_univ x), cast_eq]
  unfold SparseCore.gatherPayload
  rw [View.read_apply, cast_eq]
  have hy1 : ¬ (y 1).val < 128 := by rw [h1]; omega
  unfold gath
  rw [dif_neg hy1]
  refine congrArg cat ?_
  funext b
  apply Fin.ext
  match b with
  | ⟨0, _⟩ =>
    simp only [View.emb_slice, Function.Embedding.trans_apply, View.emb_whole, Function.Embedding.refl_apply]
    rw [Rect.emb_apply]
    unfold Shape.Gathers.idx
    rw [dif_pos rfl]
    unfold SparseCore.rows
    simp only [Fin.coe_cast, View.read_whole, View.write_whole_univ, rowOf]
    rw [View.read_apply, cast_eq, Nat.mod_eq_of_lt (hcids _)]
    show 0 + 1 * (cids _).toNat = (cids _).toNat
    rw [Nat.zero_add, Nat.one_mul]
    refine congrArg (fun z => BitVec.toNat (cids z)) ?_
    funext a
    apply Fin.ext
    match a with
    | ⟨0, _⟩ =>
      simp only [View.emb_slice, Function.Embedding.trans_apply, View.emb_whole, Function.Embedding.refl_apply]
      rw [Rect.emb_apply]
      show off 0 + 1 * ((S128.rowMajor.symm _) 0).val = (y 0).val
      rw [hj, hR, h0]
      show R + 1 * (x 0).val = R + (x 0).val
      omega
  | ⟨1, _⟩ =>
    simp only [View.emb_slice, Function.Embedding.trans_apply, View.emb_whole, Function.Embedding.refl_apply]
    rw [Rect.emb_apply, Shape.Gathers.idx_of_ne _ _ _ _ Nat.one_ne_zero]
    show 0 + 1 * (x 1).val = (y 1).val - 128
    omega

/-! ## A half holding a chunk's rows is the chunk's result block, read through the block's view -/

theorem congr_aL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (aL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_aR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (aR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

theorem congr_bL (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsL ids cids idt cat L c f) :
    ∀ i ∈ (bL).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (0 + 1 * (x 1).val) = (x 1).val
    rw [hoff1]; omega

theorem congr_bR (ids cids : Vec F S102400 .i32) (idt : Vec F S100000x128 .f32) (cat : Vec F S1000x128 .f32) (L : grid0.Coords) (c : ℕ)
    (off : Fin S102400x256.rank → ℕ) (inb : ∀ a, off a + S128x256.size a ≤ S102400x256.size a) (hoff0 : off 0 = rowN L c) (hoff1 : off 1 = 0)
    (f : S128x256.Idx → Elt F .f32) (h : HoldsR ids cids idt cat L c f) :
    ∀ i ∈ (bR).view.set, f i = ((outM).slice (Rect.unit (s := S102400x256) off S128x256.size inb) (fun _ => rfl)).view.read (Elt F) (gath ids cids idt cat) i := by
  intro i hi
  obtain ⟨x, -, rfl⟩ := Finset.mem_map.mp hi
  rw [View.read_apply, cast_eq]
  refine h x _ ?_ ?_
  · simp only [View.emb_slice, Function.Embedding.trans_apply, View.emb_whole, Function.Embedding.refl_apply]
    rw [Rect.emb_apply, Rect.emb_apply]
    show off 0 + 1 * (0 + 1 * (x 0).val) = rowN L c + (x 0).val
    rw [hoff0]; omega
  · simp only [View.emb_slice, Function.Embedding.trans_apply, View.emb_whole, Function.Embedding.refl_apply]
    rw [Rect.emb_apply, Rect.emb_apply]
    show off 1 + 1 * (128 + 1 * (x 1).val) = 128 + (x 1).val
    rw [hoff1]; omega

/-- A row buffer holding a block's restriction of the gathered array, copied out whole, writes the block with the
    gathered array. -/
theorem val_outA (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowA).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

theorem val_outB (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : S128x256.Idx → Elt F .f32)
    (hpay : pay = (rowB).view.read (Elt F)
      (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set,
      View.write (Elt F) ((outM).slice (Rect.unit (s := S102400x256) off S128x256.size inb) (fun _ => rfl)).view fo pay Finset.univ i
        = gath ids cids idt cat i := by
  subst hpay
  intro i hi
  obtain ⟨x, -, rfl⟩ := Finset.mem_map.mp hi
  rw [View.write_emb_of_mem _ _ (Finset.mem_univ x), cast_eq, View.read_apply, cast_eq, View.read_apply, cast_eq]
  rfl

/-! ## The rows the body's offset functions name -/

theorem off1_row (L : grid0.Coords) : k0_off1 L 0 = rowN L 0 := by
  rw [k0_off1_eq]; show 6400 * (L 1).val + 3200 * (L 0).val = rowN L 0; unfold rowN; omega
theorem off2_row (L : grid0.Coords) (t : Fin k0_t1_loop.trips) : k0_off2 L t 0 = rowN L (2 * t.val + 1) := by
  rw [k0_off2_eq]; show 6400 * (L 1).val + 3200 * (L 0).val + 256 * t.val + 128 = rowN L (2 * t.val + 1); unfold rowN; omega
theorem off4_row (L : grid0.Coords) (t : Fin k0_t1_loop.trips) : k0_off4 L t 0 = rowN L (2 * (t.val + 1)) := by
  rw [k0_off4_eq]; show 6400 * (L 1).val + 3200 * (L 0).val + 256 * t.val + 256 = rowN L (2 * (t.val + 1)); unfold rowN; omega
theorem off3_row (L : grid0.Coords) (t : Fin k0_t1_loop.trips) : k0_off3 L t 0 = rowN L (2 * t.val) ∧ k0_off3 L t 1 = 0 := by
  rw [k0_off3_eq]; refine ⟨?_, rfl⟩; show 6400 * (L 1).val + 3200 * (L 0).val + 256 * t.val = rowN L (2 * t.val); unfold rowN; omega
theorem off5_row (L : grid0.Coords) (t : Fin k0_t1_loop.trips) : k0_off5 L t 0 = rowN L (2 * t.val + 1) ∧ k0_off5 L t 1 = 0 := by
  rw [k0_off5_eq]; refine ⟨?_, rfl⟩; show 6400 * (L 1).val + 3200 * (L 0).val + 256 * t.val + 128 = rowN L (2 * t.val + 1); unfold rowN; omega
theorem off6_row (L : grid0.Coords) : k0_off6 L 0 = rowN L (2 * 12) ∧ k0_off6 L 1 = 0 := by
  rw [k0_off6_eq]; refine ⟨?_, rfl⟩; show 6400 * (L 1).val + 3200 * (L 0).val + 3072 = rowN L (2 * 12); unfold rowN; omega

/-- What a gather wrote into its half holds the chunk's rows, when the index words were staged from the chunk's rows. -/
theorem holdsL_A (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s)))
    (hn : S128.numel = S128x128.size gathers_S100000x128_S128x128.axis')
    (hin : ∀ x, ((ixA0).view.read (Elt F) (View.write (Elt F) (ixA0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) hn hin)) Finset.univ) :=
  fun x y h0 h1 => val_aL d c s ids cids idt cat hids off inb fs fd hn hin (rowN L ch) hoff x y h0 h1

theorem holdsR_A (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s)))
    (hn : S128.numel = S128x128.size gathers_S1000x128_S128x128.axis')
    (hin : ∀ x, ((ixA1).view.read (Elt F) (View.write (Elt F) (ixA1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) hn hin)) Finset.univ) :=
  fun x y h0 h1 => val_aR d c s ids cids idt cat hcids off inb fs fd hn hin (rowN L ch) hoff x y h0 h1

theorem holdsL_B (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s)))
    (hn : S128.numel = S128x128.size gathers_S100000x128_S128x128.axis')
    (hin : ∀ x, ((ixB0).view.read (Elt F) (View.write (Elt F) (ixB0).view fs
        (((idsM).slice (Rect.unit (s := S102400) off S128.size inb) (fun _ => rfl)).view.read (Elt F) ids) Finset.univ) x).toNat
        < S100000x128.size gathers_S100000x128_S128x128.axis) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) hn hin)) Finset.univ) :=
  fun x y h0 h1 => val_bL d c s ids cids idt cat hids off inb fs fd hn hin (rowN L ch) hoff x y h0 h1

theorem holdsR_B (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s)))
    (hn : S128.numel = S128x128.size gathers_S1000x128_S128x128.axis')
    (hin : ∀ x, ((ixB1).view.read (Elt F) (View.write (Elt F) (ixB1).view fs
        (((cidsM).slice (Rect.unit (s := S102400) off S128.size inb) (fun _ => rfl)).view.read (Elt F) cids) Finset.univ) x).toNat
        < S1000x128.size gathers_S1000x128_S128x128.axis) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) hn hin)) Finset.univ) :=
  fun x y h0 h1 => val_bR d c s ids cids idt cat hcids off inb fs fd hn hin (rowN L ch) hoff x y h0 h1

/-- The same, with the gather's own side proofs. -/
theorem holdsL_A' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixA0).view.loc (V d c s))) (fd : Buf (Elt F) ((aL).view.loc (V d c s))) :
    HoldsL ids cids idt cat L ch
      (View.write (Elt F) (aL).view fd (SparseCore.gatherPayload gathers_S100000x128_S128x128 ((idtAll).view.read (Elt F) idt)
        (SparseCore.rows ((ixA0).view.read (Elt F) (View.write (Elt F) (ixA0).view fs
          (((idsM).slice (Rect.unit (s := S102400) off S128.size inb) (fun _ => rfl)).view.read (Elt F) ids) Finset.univ)) rfl
          (inb_A0 d c s ids hids off inb fs _ rfl))) Finset.univ) :=
  holdsL_A d c s ids cids idt cat hids L ch off inb hoff fs fd rfl (inb_A0 d c s ids hids off inb fs _ rfl)

theorem holdsR_A' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixA1).view.loc (V d c s))) (fd : Buf (Elt F) ((aR).view.loc (V d c s))) :
    HoldsR ids cids idt cat L ch
      (View.write (Elt F) (aR).view fd (SparseCore.gatherPayload gathers_S1000x128_S128x128 ((catAll).view.read (Elt F) cat)
        (SparseCore.rows ((ixA1).view.read (Elt F) (View.write (Elt F) (ixA1).view fs
          (((cidsM).slice (Rect.unit (s := S102400) off S128.size inb) (fun _ => rfl)).view.read (Elt F) cids) Finset.univ)) rfl
          (inb_A1 d c s cids hcids off inb fs _ rfl))) Finset.univ) :=
  holdsR_A d c s ids cids idt cat hcids L ch off inb hoff fs fd rfl (inb_A1 d c s cids hcids off inb fs _ rfl)

theorem holdsL_B' (d : Dev nD) (c : Fin τ.nSC) (s : Fin τ.nSub) (ids cids : Vec F S102400 .i32) (idt : Vec F S100000x128 .f32) (cat : Vec F S1000x128 .f32)
    (hids : ∀ j, (ids j).toNat < 100000) (L : grid0.Coords) (ch : ℕ) (off : Fin S102400.rank → ℕ) (inb : ∀ a, off a + S128.size a ≤ S102400.size a)
    (hoff : off 0 = rowN L ch)
    (fs : Buf (Elt F) ((ixB0).view.loc (V d c s))) (fd : Buf (Elt F) ((bL).view.loc (V d c s))) :
    HoldsL ids cids idt cat L ch
      (View.write (Elt F) (bL).view fd (SparseCore.gatherPayload gathers_S100000x128_S128x128 ((idtAll).view.read (Elt F) idt)
        (SparseCore.rows ((ixB0).view.read (Elt F) (View.write (Elt F) (ixB0).view fs
          (((idsM).slice (Rect.unit (s := S102400) off S128.size inb) (fun _ => rfl)).view.read (Elt F) ids) Finset.univ)) rfl
          (inb_B0 d c s ids hids off inb fs _ rfl))) Finset.univ) :=
  holdsL_B d c s ids cids idt cat hids L ch off inb hoff fs fd rfl (inb_B0 d c s ids hids off inb fs _ rfl)

theorem holdsR_B' (d : Dev nD) (c : Fin τ.nSC) (s : Fin τ.nSub) (ids cids : Vec F S102400 .i32) (idt : Vec F S100000x128 .f32) (cat : Vec F S1000x128 .f32)
    (hcids : ∀ j, (cids j).toNat < 1000) (L : grid0.Coords) (ch : ℕ) (off : Fin S102400.rank → ℕ) (inb : ∀ a, off a + S128.size a ≤ S102400.size a)
    (hoff : off 0 = rowN L ch)
    (fs : Buf (Elt F) ((ixB1).view.loc (V d c s))) (fd : Buf (Elt F) ((bR).view.loc (V d c s))) :
    HoldsR ids cids idt cat L ch
      (View.write (Elt F) (bR).view fd (SparseCore.gatherPayload gathers_S1000x128_S128x128 ((catAll).view.read (Elt F) cat)
        (SparseCore.rows ((ixB1).view.read (Elt F) (View.write (Elt F) (ixB1).view fs
          (((cidsM).slice (Rect.unit (s := S102400) off S128.size inb) (fun _ => rfl)).view.read (Elt F) cids) Finset.univ)) rfl
          (inb_B1 d c s cids hcids off inb fs _ rfl))) Finset.univ) :=
  holdsR_B d c s ids cids idt cat hcids L ch off inb hoff fs fd rfl (inb_B1 d c s cids hcids off inb fs _ rfl)

/-- The same for the copy-out recorded as one listed write of the whole block. -/
theorem val_outA' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowA).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

theorem val_outB' (d : Dev nD) (c : Fin τ.nSC) (s : Fin τ.nSub) (ids cids : Vec F S102400 .i32) (idt : Vec F S100000x128 .f32) (cat : Vec F S1000x128 .f32)
    (off : Fin S102400x256.rank → ℕ) (inb : ∀ a, off a + S128x256.size a ≤ S102400x256.size a)
    (fo : Buf (Elt F) ((outM).view.loc (V d c s))) (pay : (Rect.whole S128x256).shape.Idx → Elt F .f32)
    (hpay : pay = (rowB).view.read (Elt F) (((outM).slice (Rect.unit (s := S102400x256) off S128x256.size inb) (fun _ => rfl)).view.read (Elt F) (gath ids cids idt cat))) :
    ∀ i ∈ ((outM).slice (Rect.unit (s := S102400x256) off S128x256.size inb) (fun _ => rfl)).view.set, ((outM).slice (Rect.unit (s := S102400x256) off S128x256.size inb) (fun _ => rfl)).view.writes (Elt F) fo [⟨Rect.whole S128x256, pay⟩] i = gath ids cids idt cat i := by
  subst hpay
  intro i hi
  have hs : (((outM).slice (Rect.unit (s := S102400x256) off S128x256.size inb) (fun _ => rfl)).view.slice (Rect.whole S128x256)).set = ((outM).slice (Rect.unit (s := S102400x256) off S128x256.size inb) (fun _ => rfl)).view.set := by
    rw [View.set_slice]; exact congrArg (Finset.map _) (Rect.set_whole _)
  rw [← hs] at hi
  obtain ⟨x, -, rfl⟩ := Finset.mem_map.mp hi
  rw [View.writes_singleton, View.write_emb_of_mem _ _ (Finset.mem_univ x), cast_eq, View.read_apply, cast_eq, View.read_apply, cast_eq]
  refine congrArg (gath ids cids idt cat) ?_
  simp only [View.emb_slice, Function.Embedding.trans_apply, View.emb_whole, Function.Embedding.refl_apply]
  apply congrArg
  funext a
  apply Fin.ext
  show (x a).val = 0 + 1 * (x a).val
  omega

/-! ## The result blocks through the trips, the gathers in flight with what they deliver, the invariant -/

/-- Result block `k` before trip `t`: written with the gathered array if its chunk is below the trip's, else at
    some contents. -/
def Φ (d : Dev nD) (L : grid0.Coords) (ids cids : Vec F S102400 .i32) (idt : Vec F S100000x128 .f32) (cat : Vec F S1000x128 .f32) (t : ℕ) (k : Fin 25) :
    sProp 𝕄 :=
  if k.val < 2 * t then iprop(outLoc d ↦[oBlkSet (blk (wL L) k)]{fullShare} gath ids cids idt cat)
  else iprop(∃ f, outLoc d ↦[oBlkSet (blk (wL L) k)]{fullShare} f)

theorem Φ_zero (d : Dev nD) (L : grid0.Coords) (ids cids : Vec F S102400 .i32) (idt : Vec F S100000x128 .f32) (cat : Vec F S1000x128 .f32) :
    (fun k : Fin 25 => (iprop(∃ f, outLoc d ↦[oBlkSet (blk (wL L) k)]{fullShare} f) : sProp 𝕄)) = Φ d L ids cids idt cat 0 :=
  funext fun k => (if_neg (by omega)).symm
theorem Φ_ahead (d : Dev nD) (L : grid0.Coords) (ids cids : Vec F S102400 .i32) (idt : Vec F S100000x128 .f32) (cat : Vec F S1000x128 .f32) (t : ℕ) (k : Fin 25)
    (h : ¬ k.val < 2 * t) : (Φ d L ids cids idt cat t k : sProp 𝕄) = iprop(∃ f, outLoc d ↦[oBlkSet (blk (wL L) k)]{fullShare} f) := if_neg h
theorem Φ_done (d : Dev nD) (L : grid0.Coords) (ids cids : Vec F S102400 .i32) (idt : Vec F S100000x128 .f32) (cat : Vec F S1000x128 .f32) (t : ℕ) (k : Fin 25)
    (h : k.val < 2 * t) : (Φ d L ids cids idt cat t k : sProp 𝕄) = iprop(outLoc d ↦[oBlkSet (blk (wL L) k)]{fullShare} gath ids cids idt cat) := if_pos h
/-- The blocks a trip does not write are before the next trip what they were before it. -/
theorem Φ_step (d : Dev nD) (L : grid0.Coords) (ids cids : Vec F S102400 .i32) (idt : Vec F S100000x128 .f32) (cat : Vec F S1000x128 .f32)
    (t : Fin k0_t1_loop.trips) :
    (bigSep ((Finset.univ.erase (kA t)).erase (kB t)) (Φ d L ids cids idt cat t.val) : sProp 𝕄)
      = bigSep ((Finset.univ.erase (kA t)).erase (kB t)) (Φ d L ids cids idt cat (t.val + 1)) :=
  bigSep_congr fun k hk => by
    have h1 : k ≠ kB t := (Finset.mem_erase.mp hk).1
    have h2 : k ≠ kA t := (Finset.mem_erase.mp (Finset.mem_erase.mp hk).2).1
    have e1 : ¬ k.val = 2 * t.val + 1 := fun e => h1 (Fin.ext e)
    have e2 : ¬ k.val = 2 * t.val := fun e => h2 (Fin.ext e)
    unfold Φ
    by_cases hk' : k.val < 2 * t.val
    · rw [if_pos hk', if_pos (by omega)]
    · rw [if_neg hk', if_neg (by omega)]
/-- After the last trip every block but the last chunk's is written with the gathered array. -/
theorem Φ_final (d : Dev nD) (L : grid0.Coords) (ids cids : Vec F S102400 .i32) (idt : Vec F S100000x128 .f32) (cat : Vec F S1000x128 .f32) :
    (bigSep (Finset.univ.erase kZ) (Φ d L ids cids idt cat 12) : sProp 𝕄)
      = bigSep (Finset.univ.erase kZ) fun k : Fin 25 => iprop(outLoc d ↦[oBlkSet (blk (wL L) k)]{fullShare} gath ids cids idt cat) :=
  bigSep_congr fun k hk => by
    have h1 : k ≠ kZ := (Finset.mem_erase.mp hk).1
    have e1 : ¬ k.val = 24 := fun e => h1 (Fin.ext e)
    have := k.isLt
    exact if_pos (by omega)

def DA0v (d : Dev nD) (L : grid0.Coords) (ids cids : Vec F S102400 .i32) (idt : Vec F S100000x128 .f32) (cat : Vec F S1000x128 .f32) (c : ℕ) : sProp 𝕄 :=
  iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo))
theorem DA0v_def (d : Dev nD) (L : grid0.Coords) (ids cids : Vec F S102400 .i32) (idt : Vec F S100000x128 .f32) (cat : Vec F S1000x128 .f32) (c : ℕ) :
    (DA0v d L ids cids idt cat c : sProp 𝕄)
      = iprop((∃ f, ⌜HoldsL ids cids idt cat L c f⌝ ∗ (aL).view.loc (V d (cV L) (jV L)) ↦[(aL).view.set]{fullShare} f)
    ∗ ((idtAll).view.loc (V d (cV L) (jV L)) ↦[(idtAll).view.set]{(rsh (wL L)).left} idt)
    ∗ (∃ fo, (ixA0).view.loc (V d (cV L) (jV L)) ↦[(ixA0).view.set]{fullShare} fo)) := rfl
theorem toDA0v (d : Dev nD) (L : grid0.Coords) (ids cids : Vec F S102400 .i32) (idt : Vec F S100000x128 .f32) (cat : Vec F S1000x128 .f32) (c : ℕ)
    (f : Buf (Elt F) ((aL).view.loc (V d (cV L) (jV L)))) (fo : Buf (Elt F) ((ixA0).view.loc (V d (cV L) (jV L))))
    (h : HoldsL ids cids idt cat L c f) :
    iprop(((aL).view.loc (V d (cV L) (jV L)) ↦[(aL).view.set]{fullShare} f)
        ∗ ((idtAll).view.loc (V d (cV L) (jV L)) ↦[(idtAll).view.set]{(rsh (wL L)).left} idt)
        ∗ ((ixA0).view.loc (V d (cV L) (jV L)) ↦[(ixA0).view.set]{fullShare} fo))
      ⊢ (DA0v d L ids cids idt cat c : sProp 𝕄) := by
  unfold DA0v
  iintro ⟨H1, H2, H3⟩
  isplitl [H1]
  · iexists _; isplitr
    · ipureintro; exact h
    · iexact H1
  isplitl [H2]; · iexact H2
  iexists _; iexact H3

def DA1v (d : Dev nD) (L : grid0.Coords) (ids cids : Vec F S102400 .i32) (idt : Vec F S100000x128 .f32) (cat : Vec F S1000x128 .f32) (c : ℕ) : sProp 𝕄 :=
  iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo))
theorem DA1v_def (d : Dev nD) (L : grid0.Coords) (ids cids : Vec F S102400 .i32) (idt : Vec F S100000x128 .f32) (cat : Vec F S1000x128 .f32) (c : ℕ) :
    (DA1v d L ids cids idt cat c : sProp 𝕄)
      = iprop((∃ f, ⌜HoldsR ids cids idt cat L c f⌝ ∗ (aR).view.loc (V d (cV L) (jV L)) ↦[(aR).view.set]{fullShare} f)
    ∗ ((catAll).view.loc (V d (cV L) (jV L)) ↦[(catAll).view.set]{(rsh (wL L)).left} cat)
    ∗ (∃ fo, (ixA1).view.loc (V d (cV L) (jV L)) ↦[(ixA1).view.set]{fullShare} fo)) := rfl
theorem toDA1v (d : Dev nD) (L : grid0.Coords) (ids cids : Vec F S102400 .i32) (idt : Vec F S100000x128 .f32) (cat : Vec F S1000x128 .f32) (c : ℕ)
    (f : Buf (Elt F) ((aR).view.loc (V d (cV L) (jV L)))) (fo : Buf (Elt F) ((ixA1).view.loc (V d (cV L) (jV L))))
    (h : HoldsR ids cids idt cat L c f) :
    iprop(((aR).view.loc (V d (cV L) (jV L)) ↦[(aR).view.set]{fullShare} f)
        ∗ ((catAll).view.loc (V d (cV L) (jV L)) ↦[(catAll).view.set]{(rsh (wL L)).left} cat)
        ∗ ((ixA1).view.loc (V d (cV L) (jV L)) ↦[(ixA1).view.set]{fullShare} fo))
      ⊢ (DA1v d L ids cids idt cat c : sProp 𝕄) := by
  unfold DA1v
  iintro ⟨H1, H2, H3⟩
  isplitl [H1]
  · iexists _; isplitr
    · ipureintro; exact h
    · iexact H1
  isplitl [H2]; · iexact H2
  iexists _; iexact H3

/-- At the head of trip `t`: the two gathers of chunk `2 t` into row buffer A in flight, each delivering its half
    holding the chunk's rows of the gathered array; row buffer B, index buffers B and the tables' right half shares
    idle; the semaphores the trip uses at zero; result blocks below chunk `2 t` written with the gathered array, the
    others held; what the subcore owes. -/
def invV (d : Dev nD) (L : grid0.Coords) (ids cids : Vec F S102400 .i32) (idt : Vec F S100000x128 .f32) (cat : Vec F S1000x128 .f32)
    (O : CellTallies nD τ sig (HIx 8)) (W : Waits sig (HIx 8)) (t : Nat) (_ : PUnit) : sProp 𝕄 :=
  iprop(Transfers.MayWaits (V d (cV L) (jV L)) (default : HIx 8) O
    ∗ ((idsM).view.loc (V d (cV L) (jV L)) ↦{rsh (wL L)} ids)
    ∗ ((cidsM).view.loc (V d (cV L) (jV L)) ↦{rsh (wL L)} cids)
    ∗ Transfers.Flight (countersEmb : UEmb Counters 𝕄) (V d (cV L) (jV L)) (SemLoc.dma (gA0).sem) (default : HIx 8) (aL).view.dmaCredit
        (DA0v d L ids cids idt cat (2 * t))
    ∗ Transfers.Flight (countersEmb : UEmb Counters 𝕄) (V d (cV L) (jV L)) (SemLoc.dma (gA1).sem) (default : HIx 8) (aR).view.dmaCredit
        (DA1v d L ids cids idt cat (2 * t))
    ∗ ((idtM).view.loc (V d (cV L) (jV L)) ↦[Finset.univ \ (idtAll).view.set]{(rsh (wL L)).left} idt)
    ∗ ((catM).view.loc (V d (cV L) (jV L)) ↦[Finset.univ \ (catAll).view.set]{(rsh (wL L)).left} cat)
    ∗ ((idtM).view.loc (V d (cV L) (jV L)) ↦{(rsh (wL L)).right} idt)
    ∗ ((catM).view.loc (V d (cV L) (jV L)) ↦{(rsh (wL L)).right} cat)
    ∗ (∃ f, (ixB0).view.loc (V d (cV L) (jV L)) ↦{fullShare} f)
    ∗ (∃ f, (ixB1).view.loc (V d (cV L) (jV L)) ↦{fullShare} f)
    ∗ (∃ f, (rowB).view.loc (V d (cV L) (jV L)) ↦{fullShare} f)
    ∗ semVal (V d (cV L) (jV L), SemLoc.dma (gB0).sem) 0 ∗ semVal (V d (cV L) (jV L), SemLoc.dma (gB1).sem) 0
    ∗ semVal (V d (cV L) (jV L), SemLoc.dma (sc2).sem) 0 ∗ semVal (V d (cV L) (jV L), SemLoc.dma (sc3).sem) 0
    ∗ semVal (V d (cV L) (jV L), SemLoc.dma (sc4).sem) 0 ∗ semVal (V d (cV L) (jV L), SemLoc.dma (sc5).sem) 0
    ∗ semVal (V d (cV L) (jV L), SemLoc.dma (sc6).sem) 0 ∗ semVal (V d (cV L) (jV L), SemLoc.dma (sc7).sem) 0
    ∗ (bigSep Finset.univ (Φ d L ids cids idt cat t))
    ∗ ∃ W', ⌜∀ p ∈ W', p ∈ W ∨ p.2 = none⌝ ∗ owes (V d (cV L) (jV L)) O W')

end Cert.Kernel.Sc.B7

end
-- ==== Proof.ScBody7VB.lean ====
/-
  One gather call's body on one vector subcore, with its value. Worker w handles token rows [3200 w, 3200 w + 3200) in
  25 chunks of 128 rows, double-buffered: chunk 0's index words are staged into index buffers A and its two gathers (id
  table rows into columns 0..127, category table rows into columns 128..255 of row buffer A) issued; each of the 12
  trips stages and issues the odd chunk into the B buffers, waits for A's gathers, copies row buffer A out to its
  result block, stages and issues the next even chunk into the A buffers, waits for B's gathers and copies row buffer B
  out; after the loop the last chunk's gathers are waited for and copied out. Every semaphore has at most one copy
  outstanding, and no buffer of a pending copy is touched between its issue and its wait. The invariant at the head of
  trip t: the two gathers of chunk 2 t in flight, each delivering its half of row buffer A holding the chunk's rows of
  the gathered array; result blocks of chunks below 2 t written with the gathered array. The statement: from read shares
  of the two index arrays (every word a row of its table) and of the two tables and its 25 result blocks, the body
  terminates with the shares back and every result block written with the gathered array `gath ids cids idt cat`, its
  scratch buffers and semaphores as it found them.
-/
import proofs.«204770_g8065948582451_cont_9to1c4b_476_56_alg».proof.Proof.ScBody7CB

noncomputable section

namespace Cert.Kernel.Sc.B7

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (SparseCore.Cfg.HIx 8) (Elt F) ℕ UU ℕ

/-! The call's names, declared once: the two index arrays, the two tables, the result; the subcore's four index
    buffers and two row buffers; the four gather semaphores and the nine scoped copy semaphores. -/
local notation "idsR" => Cert.Kernel.main_v41
local notation "cidsR" => Cert.Kernel.main_v43
local notation "idtR" => Cert.Kernel.main_arg2
local notation "catR" => Cert.Kernel.main_arg3
local notation "outR" => Cert.Kernel.main_v44
local notation "idsM" => (Memref.whole Cert.Kernel.main_v41_scv : Memref Cert.Kernel.sig Kind.scVector Space.hbm Cert.Kernel.S102400 EltTy.i32)
local notation "cidsM" => (Memref.whole Cert.Kernel.main_v43_scv : Memref Cert.Kernel.sig Kind.scVector Space.hbm Cert.Kernel.S102400 EltTy.i32)
local notation "idtM" => (Memref.whole Cert.Kernel.main_arg2_scv : Memref Cert.Kernel.sig Kind.scVector Space.hbm Cert.Kernel.S100000x128 EltTy.f32)
local notation "catM" => (Memref.whole Cert.Kernel.main_arg3_scv : Memref Cert.Kernel.sig Kind.scVector Space.hbm Cert.Kernel.S1000x128 EltTy.f32)
local notation "outM" => (Memref.whole Cert.Kernel.main_v44_scv : Memref Cert.Kernel.sig Kind.scVector Space.hbm Cert.Kernel.S102400x256 EltTy.f32)
local notation "bA0" => Cert.Kernel.cc7_scratch0
local notation "bA1" => Cert.Kernel.cc7_scratch1
local notation "bB0" => Cert.Kernel.cc7_scratch2
local notation "bB1" => Cert.Kernel.cc7_scratch3
local notation "bRA" => Cert.Kernel.cc7_scratch4
local notation "bRB" => Cert.Kernel.cc7_scratch5
local notation "ixA0" => (Memref.whole Cert.Kernel.cc7_scratch0 : Memref Cert.Kernel.sig Kind.scVector Space.vmem Cert.Kernel.S128 EltTy.i32)
local notation "ixA1" => (Memref.whole Cert.Kernel.cc7_scratch1 : Memref Cert.Kernel.sig Kind.scVector Space.vmem Cert.Kernel.S128 EltTy.i32)
local notation "ixB0" => (Memref.whole Cert.Kernel.cc7_scratch2 : Memref Cert.Kernel.sig Kind.scVector Space.vmem Cert.Kernel.S128 EltTy.i32)
local notation "ixB1" => (Memref.whole Cert.Kernel.cc7_scratch3 : Memref Cert.Kernel.sig Kind.scVector Space.vmem Cert.Kernel.S128 EltTy.i32)
local notation "rowA" => (Memref.whole Cert.Kernel.cc7_scratch4 : Memref Cert.Kernel.sig Kind.scVector Space.vmem Cert.Kernel.S128x256 EltTy.f32)
local notation "rowB" => (Memref.whole Cert.Kernel.cc7_scratch5 : Memref Cert.Kernel.sig Kind.scVector Space.vmem Cert.Kernel.S128x256 EltTy.f32)
local notation "gA0" => Cert.Kernel.cc7_scratch6
local notation "gA1" => Cert.Kernel.cc7_scratch7
local notation "gB0" => Cert.Kernel.cc7_scratch8
local notation "gB1" => Cert.Kernel.cc7_scratch9
local notation "sc0" => Cert.Kernel.cc7_scoped0
local notation "sc1" => Cert.Kernel.cc7_scoped1
local notation "sc2" => Cert.Kernel.cc7_scoped2
local notation "sc3" => Cert.Kernel.cc7_scoped3
local notation "sc4" => Cert.Kernel.cc7_scoped4
local notation "sc5" => Cert.Kernel.cc7_scoped5
local notation "sc6" => Cert.Kernel.cc7_scoped6
local notation "sc7" => Cert.Kernel.cc7_scoped7
local notation "sc8" => Cert.Kernel.cc7_scoped8

variable [FloatOps F]

set_option maxHeartbeats 4000000 in
set_option maxRecDepth 65536 in
theorem tile_body7v (hF : (K (F := F)).Facts) (d : Dev nD) (L : grid0.Coords)
    (ids cids : Vec F S102400 .i32) (idt : Vec F S100000x128 .f32) (cat : Vec F S1000x128 .f32)
    (hids : ∀ j, (ids j).toNat < 100000) (hcids : ∀ j, (cids j).toNat < 1000)
    (O : CellTallies nD τ sig (HIx 8)) (W : Waits sig (HIx 8)) (hO : ∀ g, O g none = 0) :
    (iprop(levAts (K (F := F)).L (K (F := F)).lev ∗ emp
        ∗ ((idsLoc d ↦{rsh (wL L)} ids) ∗ (cidsLoc d ↦{rsh (wL L)} cids) ∗ (idtLoc d ↦{rsh (wL L)} idt) ∗ (catLoc d ↦{rsh (wL L)} cat)
            ∗ bigSep Finset.univ fun k : Fin 25 => iprop(∃ f, outLoc d ↦[oBlkSet (blk (wL L) k)]{fullShare} f))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_gather_body L idsM (Memref.isWhole_whole _) cidsM (Memref.isWhole_whole _) idtM (Memref.isWhole_whole _) catM (Memref.isWhole_whole _)
            outM (Memref.isWhole_whole _) ixA0 (Memref.isWhole_whole _) ixA1 (Memref.isWhole_whole _) ixB0 (Memref.isWhole_whole _) ixB1 (Memref.isWhole_whole _)
            rowA (Memref.isWhole_whole _) rowB (Memref.isWhole_whole _) gA0 gA1 gB0 gB1 sc0 sc1 sc2 sc3 sc4 sc5 sc6 sc7 sc8)
          fun _ => iprop(((idsLoc d ↦{rsh (wL L)} ids) ∗ (cidsLoc d ↦{rsh (wL L)} cids) ∗ (idtLoc d ↦{rsh (wL L)} idt) ∗ (catLoc d ↦{rsh (wL L)} cat)
              ∗ bigSep Finset.univ fun k : Fin 25 => iprop(outLoc d ↦[oBlkSet (blk (wL L) k)]{fullShare} gath ids cids idt cat))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hc, Ht, Hk, Hout⟩, ⟨⟨⟨%fA0, HA0⟩, ⟨%fA1, HA1⟩, ⟨%fB0, HB0⟩, ⟨%fB1, HB1⟩, ⟨%fRA, HRA⟩, ⟨%fRB, HRB⟩⟩, Hbufs⟩,
    ⟨⟨SgA0, SgA1, SgB0, SgB1, S0, S1, S2, S3, S4, S5, S6, S7, S8⟩, Hsems⟩, HO⟩
  ihave Hmw := (show levAts (K (F := F)).L (K (F := F)).lev ⊢ Transfers.MayWaits (V d (cV L) (jV L)) (default : HIx 8) O from
    (K (F := F)).mayWaits_none (thr := V d (cV L) (jV L)) hO) $$ Hlv
  ihave Hi' := (Entails.of_eq (pts_ids (F := F) d (cV L) (jV L) _ _).symm) $$ Hi
  ihave Hc' := (Entails.of_eq (pts_cids (F := F) d (cV L) (jV L) _ _).symm) $$ Hc
  ihave Ht' := (Entails.of_eq (pts_idt (F := F) d (cV L) (jV L) _ _).symm) $$ Ht
  ihave Hk' := (Entails.of_eq (pts_cat (F := F) d (cV L) (jV L) _ _).symm) $$ Hk
  ihave HA0' := (Entails.of_eq (pts_ixA0 (F := F) d (cV L) (jV L) _).symm) $$ HA0
  ihave HA1' := (Entails.of_eq (pts_ixA1 (F := F) d (cV L) (jV L) _).symm) $$ HA1
  ihave HB0' := (Entails.of_eq (pts_ixB0 (F := F) d (cV L) (jV L) _).symm) $$ HB0
  ihave HB1' := (Entails.of_eq (pts_ixB1 (F := F) d (cV L) (jV L) _).symm) $$ HB1
  ihave HRA' := (Entails.of_eq (pts_rowA (F := F) d (cV L) (jV L) _).symm) $$ HRA
  ihave HRB' := (Entails.of_eq (pts_rowB (F := F) d (cV L) (jV L) _).symm) $$ HRB
  sl_exec
  -- each table's read share in two: one half for each row buffer's gathers
  ihave Ht2 := (pointsTo_share (PosShare.mem_left_op_right (rsh (wL L)))).1 $$ Ht'
  icases Ht2 with ⟨HtA, HtB⟩
  ihave Hk2 := (pointsTo_share (PosShare.mem_left_op_right (rsh (wL L)))).1 $$ Hk'
  icases Hk2 with ⟨HkA, HkB⟩
  ihave HtA2 := (pointsTo_split_subset (q := (rsh (wL L)).left) (f := idt) (S := Finset.univ) (Finset.subset_univ (idtAll).view.set)).1 $$ HtA
  icases HtA2 with ⟨HtAs, HtAr⟩
  ihave HRA2 := (pointsTo_split_subset (q := fullShare) (f := fRA) (S := Finset.univ) (Finset.subset_univ (aL).view.set)).1 $$ HRA'
  icases HRA2 with ⟨HaL, HaR⟩
  ihave HA0'' := (Entails.of_eq (ptsS_ixA0 (F := F) d (cV L) (jV L) _)) $$ HA0'
  iapply (SparseCore.wp_indirectGatherLocal countersEmb 𝒱₀ (V d (cV L) (jV L)) none (hg := gathers_S100000x128_S128x128) (default : HIx 8)
      (aL).view.dmaCredit (SparseCore.sum_rowCredit_eq_dmaCredit (aL) _ (fun _ => rfl)) (by decide)
      (inb_A0 d (cV L) (jV L) ids hids (k0_off1 L) (k0_off1_inb L) fA0 _ rfl)) $$ [HtAs HaL HA0'' SgA0]
  · isplitl [HtAs]; · iexact HtAs
    isplitl [HaL]; · iexact HaL
    isplitl [HA0'']; · iexact HA0''
    iexact SgA0
  iintro HflA0
  sl_exec
  ihave HkA2 := (pointsTo_split_subset (q := (rsh (wL L)).left) (f := cat) (S := Finset.univ) (Finset.subset_univ (catAll).view.set)).1 $$ HkA
  icases HkA2 with ⟨HkAs, HkAr⟩
  ihave HaR' := (Entails.of_eq (pts_aR (F := F) d (cV L) (jV L) _)) $$ HaR
  ihave HA1'' := (Entails.of_eq (ptsS_ixA1 (F := F) d (cV L) (jV L) _)) $$ HA1'
  iapply (SparseCore.wp_indirectGatherLocal countersEmb 𝒱₀ (V d (cV L) (jV L)) none (hg := gathers_S1000x128_S128x128) (default : HIx 8)
      (aR).view.dmaCredit (SparseCore.sum_rowCredit_eq_dmaCredit (aR) _ (fun _ => rfl)) (by decide)
      (inb_A1 d (cV L) (jV L) cids hcids (k0_off1 L) (k0_off1_inb L) fA1 _ rfl)) $$ [HkAs HaR' HA1'' SgA1]
  · isplitl [HkAs]; · iexact HkAs
    isplitl [HaR']; · iexact HaR'
    isplitl [HA1'']; · iexact HA1''
    iexact SgA1
  iintro HflA1
  ihave HflA0' := (Transfers.Flight_mono countersEmb (V d (cV L) (jV L)) (toDA0v d L ids cids idt cat (2 * 0) _ _
    (holdsL_A' d (cV L) (jV L) ids cids idt cat hids L (2 * 0) (k0_off1 L) (k0_off1_inb L) (off1_row L) _ _))) $$ HflA0
  ihave HflA1' := (Transfers.Flight_mono countersEmb (V d (cV L) (jV L)) (toDA1v d L ids cids idt cat (2 * 0) _ _
    (holdsR_A' d (cV L) (jV L) ids cids idt cat hcids L (2 * 0) (k0_off1 L) (k0_off1_inb L) (off1_row L) _ _))) $$ HflA1
  ihave Hout0 := (Entails.of_eq (congrArg (bigSep Finset.univ) (Φ_zero d L ids cids idt cat))) $$ Hout
  have hcond : ∀ t : Fin k0_t1_loop.trips, k0_cond1 t = 1#1 := by decide
  rw [Prog.bind_assoc]
  sl_for (invV d L ids cids idt cat O W) $$ [Hmw Hi' Hc' HflA0' HflA1' HtAr HkAr HtB HkB HB0' HB1' HRB' SgB0 SgB1 S2 S3 S4 S5 S6 S7 Hout0 HO]
  case region =>
    intro k acc
    have k0_h1 : k0_cond1 k = 1#1 := hcond k
    unfold invV
    iintro ⟨#Hmw, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
    -- index buffers B staged with the trip's second chunk
    sl_exec
    -- row buffer B's two gathers issued
    ihave HtB2 := (pointsTo_split_subset (q := (rsh (wL L)).right) (f := idt) (S := Finset.univ) (Finset.subset_univ (idtAll).view.set)).1 $$ HtB
    icases HtB2 with ⟨HtBs, HtBr⟩
    ihave HkB2 := (pointsTo_split_subset (q := (rsh (wL L)).right) (f := cat) (S := Finset.univ) (Finset.subset_univ (catAll).view.set)).1 $$ HkB
    icases HkB2 with ⟨HkBs, HkBr⟩
    ihave HRB2 := (pointsTo_split_subset (q := fullShare) (S := Finset.univ) (Finset.subset_univ (bL).view.set)).1 $$ HRB
    icases HRB2 with ⟨HbL, HbR⟩
    ihave HbR' := (Entails.of_eq (pts_bR (F := F) d (cV L) (jV L) _)) $$ HbR
    ihave HB0s := (Entails.of_eq (ptsS_ixB0 (F := F) d (cV L) (jV L) _)) $$ HB0
    ihave HB1s := (Entails.of_eq (ptsS_ixB1 (F := F) d (cV L) (jV L) _)) $$ HB1
    iapply (SparseCore.wp_indirectGatherLocal countersEmb 𝒱₀ (V d (cV L) (jV L)) none (hg := gathers_S100000x128_S128x128) (default : HIx 8)
        (bL).view.dmaCredit (SparseCore.sum_rowCredit_eq_dmaCredit (bL) _ (fun _ => rfl)) (by decide)
        (inb_B0 d (cV L) (jV L) ids hids (k0_off2 L k) (k0_off2_inb L k) _ _ rfl)) $$ [HtBs HbL HB0s SgB0]
    · isplitl [HtBs]; · iexact HtBs
      isplitl [HbL]; · iexact HbL
      isplitl [HB0s]; · iexact HB0s
      iexact SgB0
    iintro HflB0
    sl_exec
    iapply (SparseCore.wp_indirectGatherLocal countersEmb 𝒱₀ (V d (cV L) (jV L)) none (hg := gathers_S1000x128_S128x128) (default : HIx 8)
        (bR).view.dmaCredit (SparseCore.sum_rowCredit_eq_dmaCredit (bR) _ (fun _ => rfl)) (by decide)
        (inb_B1 d (cV L) (jV L) cids hcids (k0_off2 L k) (k0_off2_inb L k) _ _ rfl)) $$ [HkBs HbR' HB1s SgB1]
    · isplitl [HkBs]; · iexact HkBs
      isplitl [HbR']; · iexact HbR'
      isplitl [HB1s]; · iexact HB1s
      iexact SgB1
    iintro HflB1
    sl_exec
    -- row buffer A's two gathers waited for
    iapply (Transfers.wp_waitLocalO countersEmb 𝒱₀ (V d (cV L) (jV L)) none (default : HIx 8) (rfl : (aL).view.dmaCredit = _)) $$ [HflA0 HO]
    · isplitl [HflA0]; · iexact HflA0
      isplitl [HO]; · iexact HO
      iapply (Transfers.MayWaits.elim (SemLoc.dma (gA0).sem)) $$ Hmw
    iintro ⟨HDA0, SgA0, HO⟩
    ihave HDA0' := (Entails.of_eq (DA0v_def (F := F) d L ids cids idt cat _)) $$ HDA0
    icases HDA0' with ⟨⟨%fL, %hfL, HaL⟩, HtAs, ⟨%foA0, HA0s⟩⟩
    sl_exec
    iapply (Transfers.wp_waitLocalO countersEmb 𝒱₀ (V d (cV L) (jV L)) none (default : HIx 8) (rfl : (aR).view.dmaCredit = _)) $$ [HflA1 HO]
    · isplitl [HflA1]; · iexact HflA1
      isplitl [HO]; · iexact HO
      iapply (Transfers.MayWaits.elim (SemLoc.dma (gA1).sem)) $$ Hmw
    iintro ⟨HDA1, SgA1, HO⟩
    ihave HDA1' := (Entails.of_eq (DA1v_def (F := F) d L ids cids idt cat _)) $$ HDA1
    icases HDA1' with ⟨⟨%fR, %hfR, HaR⟩, HkAs, ⟨%foA1, HA1s⟩⟩
    -- both halves are the result block read through its view: row buffer A whole again at that one function
    ihave HaLg := (Entails.of_eq (pointsTo_congr (congr_aL ids cids idt cat L (2 * k.val) (k0_off3 L k) (k0_off3_inb L k) (off3_row L k).1 (off3_row L k).2 fL hfL))) $$ HaL
    ihave HaRg := (Entails.of_eq (pointsTo_congr (congr_aR ids cids idt cat L (2 * k.val) (k0_off3 L k) (k0_off3_inb L k) (off3_row L k).1 (off3_row L k).2 fR hfR))) $$ HaR
    ihave HaR2 := (Entails.of_eq (pts_aR (F := F) d (cV L) (jV L) _).symm) $$ HaRg
    ihave HRA := (pointsTo_split_subset (ℓ := (rowA).view.loc (V d (cV L) (jV L))) (q := fullShare) (S := Finset.univ) (Finset.subset_univ (aL).view.set)).2 $$ [HaLg HaR2]
    · isplitl [HaLg] <;> iassumption
    ihave HA0 := (Entails.of_eq (ptsS_ixA0 (F := F) d (cV L) (jV L) _).symm) $$ HA0s
    ihave HA1 := (Entails.of_eq (ptsS_ixA1 (F := F) d (cV L) (jV L) _).symm) $$ HA1s
    ihave Hout2 := (Transfers.bigSep_univ_out (kA k) _) $$ Hout
    icases Hout2 with ⟨HΦA, Hrest⟩
    ihave HΦA' := (Entails.of_eq (Φ_ahead d L ids cids idt cat k.val (kA k) (Nat.lt_irrefl (2 * k.val)))) $$ HΦA
    icases HΦA' with ⟨%fo1, Hblk⟩
    ihave Hblk' := (Entails.of_eq (pts_oSlA (F := F) d (cV L) (jV L) L k _).symm) $$ Hblk
    -- copied out: the block is written with the gathered array; index buffers A staged with the next trip's first chunk
    sl_exec
    ihave Hblk2 := (Entails.of_eq (pointsTo_congr (val_outA' d (cV L) (jV L) ids cids idt cat (k0_off3 L k) (k0_off3_inb L k) fo1 _ rfl))) $$ Hblk'
    ihave HblkA := (Entails.of_eq (pts_oSlA (F := F) d (cV L) (jV L) L k _)) $$ Hblk2
    -- row buffer A's two gathers issued again
    ihave HRA2 := (pointsTo_split_subset (q := fullShare) (S := Finset.univ) (Finset.subset_univ (aL).view.set)).1 $$ HRA
    icases HRA2 with ⟨HaL, HaR⟩
    ihave HaR' := (Entails.of_eq (pts_aR (F := F) d (cV L) (jV L) _)) $$ HaR
    ihave HA0s := (Entails.of_eq (ptsS_ixA0 (F := F) d (cV L) (jV L) _)) $$ HA0
    ihave HA1s := (Entails.of_eq (ptsS_ixA1 (F := F) d (cV L) (jV L) _)) $$ HA1
    iapply (SparseCore.wp_indirectGatherLocal countersEmb 𝒱₀ (V d (cV L) (jV L)) none (hg := gathers_S100000x128_S128x128) (default : HIx 8)
        (aL).view.dmaCredit (SparseCore.sum_rowCredit_eq_dmaCredit (aL) _ (fun _ => rfl)) (by decide)
        (inb_A0 d (cV L) (jV L) ids hids (k0_off4 L k) (k0_off4_inb L k k0_h1) _ _ rfl)) $$ [HtAs HaL HA0s SgA0]
    · isplitl [HtAs]; · iexact HtAs
      isplitl [HaL]; · iexact HaL
      isplitl [HA0s]; · iexact HA0s
      iexact SgA0
    iintro HflA0
    sl_exec
    iapply (SparseCore.wp_indirectGatherLocal countersEmb 𝒱₀ (V d (cV L) (jV L)) none (hg := gathers_S1000x128_S128x128) (default : HIx 8)
        (aR).view.dmaCredit (SparseCore.sum_rowCredit_eq_dmaCredit (aR) _ (fun _ => rfl)) (by decide)
        (inb_A1 d (cV L) (jV L) cids hcids (k0_off4 L k) (k0_off4_inb L k k0_h1) _ _ rfl)) $$ [HkAs HaR' HA1s SgA1]
    · isplitl [HkAs]; · iexact HkAs
      isplitl [HaR']; · iexact HaR'
      isplitl [HA1s]; · iexact HA1s
      iexact SgA1
    iintro HflA1
    sl_exec
    -- row buffer B's two gathers waited for
    iapply (Transfers.wp_waitLocalO countersEmb 𝒱₀ (V d (cV L) (jV L)) none (default : HIx 8) (rfl : (bL).view.dmaCredit = _)) $$ [HflB0 HO]
    · isplitl [HflB0]; · iexact HflB0
      isplitl [HO]; · iexact HO
      iapply (Transfers.MayWaits.elim (SemLoc.dma (gB0).sem)) $$ Hmw
    iintro ⟨HDB0, SgB0, HO⟩
    icases HDB0 with ⟨HbL, HtBs, HB0s⟩
    sl_exec
    iapply (Transfers.wp_waitLocalO countersEmb 𝒱₀ (V d (cV L) (jV L)) none (default : HIx 8) (rfl : (bR).view.dmaCredit = _)) $$ [HflB1 HO]
    · isplitl [HflB1]; · iexact HflB1
      isplitl [HO]; · iexact HO
      iapply (Transfers.MayWaits.elim (SemLoc.dma (gB1).sem)) $$ Hmw
    iintro ⟨HDB1, SgB1, HO⟩
    icases HDB1 with ⟨HbR, HkBs, HB1s⟩
    ihave HbLg := (Entails.of_eq (pointsTo_congr (congr_bL ids cids idt cat L (2 * k.val + 1) (k0_off5 L k) (k0_off5_inb L k) (off5_row L k).1 (off5_row L k).2 _
      (holdsL_B' d (cV L) (jV L) ids cids idt cat hids L (2 * k.val + 1) (k0_off2 L k) (k0_off2_inb L k) (off2_row L k) _ _)))) $$ HbL
    ihave HbRg := (Entails.of_eq (pointsTo_congr (congr_bR ids cids idt cat L (2 * k.val + 1) (k0_off5 L k) (k0_off5_inb L k) (off5_row L k).1 (off5_row L k).2 _
      (holdsR_B' d (cV L) (jV L) ids cids idt cat hcids L (2 * k.val + 1) (k0_off2 L k) (k0_off2_inb L k) (off2_row L k) _ _)))) $$ HbR
    ihave HbR2 := (Entails.of_eq (pts_bR (F := F) d (cV L) (jV L) _).symm) $$ HbRg
    ihave HRB := (pointsTo_split_subset (ℓ := (rowB).view.loc (V d (cV L) (jV L))) (q := fullShare) (S := Finset.univ) (Finset.subset_univ (bL).view.set)).2 $$ [HbLg HbR2]
    · isplitl [HbLg] <;> iassumption
    ihave HB0 := (Entails.of_eq (ptsS_ixB0 (F := F) d (cV L) (jV L) _).symm) $$ HB0s
    ihave HB1 := (Entails.of_eq (ptsS_ixB1 (F := F) d (cV L) (jV L) _).symm) $$ HB1s
    have hkB : kB k ∈ Finset.univ.erase (kA k) :=
      Finset.mem_erase.mpr ⟨fun e => by have := congrArg Fin.val e; simp only [kA, kB] at this; omega, Finset.mem_univ _⟩
    ihave Hrest1 := (Entails.of_eq (SparseCore.bigSep_erase' hkB)) $$ Hrest
    icases Hrest1 with ⟨HΦB, Hrest2⟩
    ihave HΦB' := (Entails.of_eq (Φ_ahead d L ids cids idt cat k.val (kB k) (show ¬ 2 * k.val + 1 < 2 * k.val by omega))) $$ HΦB
    icases HΦB' with ⟨%fo2, Hblk⟩
    ihave Hblk' := (Entails.of_eq (pts_oSlB (F := F) d (cV L) (jV L) L k _).symm) $$ Hblk
    -- copied out: the block is written with the gathered array
    sl_exec
    sl_step
    ihave Hblk2 := (Entails.of_eq (pointsTo_congr (val_outB' d (cV L) (jV L) ids cids idt cat (k0_off5 L k) (k0_off5_inb L k) fo2 _ rfl))) $$ Hblk'
    ihave HblkB := (Entails.of_eq (pts_oSlB (F := F) d (cV L) (jV L) L k _)) $$ Hblk2
    -- the blocks before the next trip
    ihave Hrest3 := (Entails.of_eq (Φ_step d L ids cids idt cat k)) $$ Hrest2
    ihave HΦB1 := (Entails.of_eq (Φ_done d L ids cids idt cat (k.val + 1) (kB k) (show 2 * k.val + 1 < 2 * (k.val + 1) by omega)).symm) $$ HblkB
    ihave Hrest4 := (Entails.of_eq (SparseCore.bigSep_erase' (Φ := Φ d L ids cids idt cat (k.val + 1)) hkB).symm) $$ [HΦB1 Hrest3]
    · isplitl [HΦB1] <;> iassumption
    ihave HΦA1 := (Entails.of_eq (Φ_done d L ids cids idt cat (k.val + 1) (kA k) (show 2 * k.val < 2 * (k.val + 1) by omega)).symm) $$ HblkA
    ihave Hout := (Transfers.bigSep_univ_in (kA k) (Φ d L ids cids idt cat (k.val + 1))) $$ [HΦA1 Hrest4]
    · isplitl [HΦA1] <;> iassumption
    ihave HtB := (pointsTo_split_subset (ℓ := (idtM).view.loc (V d (cV L) (jV L))) (q := (rsh (wL L)).right) (f := idt) (S := Finset.univ) (Finset.subset_univ (idtAll).view.set)).2 $$ [HtBs HtBr]
    · isplitl [HtBs] <;> iassumption
    ihave HkB := (pointsTo_split_subset (ℓ := (catM).view.loc (V d (cV L) (jV L))) (q := (rsh (wL L)).right) (f := cat) (S := Finset.univ) (Finset.subset_univ (catAll).view.set)).2 $$ [HkBs HkBr]
    · isplitl [HkBs] <;> iassumption
    ihave HflA0' := (Transfers.Flight_mono countersEmb (V d (cV L) (jV L)) (toDA0v d L ids cids idt cat (2 * (k.val + 1)) _ _
      (holdsL_A' d (cV L) (jV L) ids cids idt cat hids L (2 * (k.val + 1)) (k0_off4 L k) (k0_off4_inb L k k0_h1) (off4_row L k) _ _))) $$ HflA0
    ihave HflA1' := (Transfers.Flight_mono countersEmb (V d (cV L) (jV L)) (toDA1v d L ids cids idt cat (2 * (k.val + 1)) _ _
      (holdsR_A' d (cV L) (jV L) ids cids idt cat hcids L (2 * (k.val + 1)) (k0_off4 L k) (k0_off4_inb L k k0_h1) (off4_row L k) _ _))) $$ HflA1
    isplitl []; · iexact Hmw
    isplitl [Hi]; · iexact Hi
    isplitl [Hc]; · iexact Hc
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0]; · iexists _; iexact HB0
    isplitl [HB1]; · iexists _; iexact HB1
    isplitl [HRB]; · iexists _; iexact HRB
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout]; · iexact Hout
    iexists _; isplitr
    swap; · iexact HO
    ipureintro; intro p hp
    simp only [Finset.mem_insert] at hp
    repeat (rcases hp with hp | hp; · exact .inr (hp ▸ rfl))
    exact hW' p hp
  · unfold invV
    isplitl []; · iexact Hmw
    isplitl [Hi']; · iexact Hi'
    isplitl [Hc']; · iexact Hc'
    isplitl [HflA0']; · iexact HflA0'
    isplitl [HflA1']; · iexact HflA1'
    isplitl [HtAr]; · iexact HtAr
    isplitl [HkAr]; · iexact HkAr
    isplitl [HtB]; · iexact HtB
    isplitl [HkB]; · iexact HkB
    isplitl [HB0']; · iexists _; iexact HB0'
    isplitl [HB1']; · iexists _; iexact HB1'
    isplitl [HRB']; · iexists _; iexact HRB'
    isplitl [SgB0]; · iexact SgB0
    isplitl [SgB1]; · iexact SgB1
    isplitl [S2]; · iexact S2
    isplitl [S3]; · iexact S3
    isplitl [S4]; · iexact S4
    isplitl [S5]; · iexact S5
    isplitl [S6]; · iexact S6
    isplitl [S7]; · iexact S7
    isplitl [Hout0]; · iexact Hout0
    iexists _; isplitr
    swap; · iexact HO
    ipureintro; intro p hp
    simp only [Finset.mem_insert] at hp
    repeat (rcases hp with hp | hp; · exact .inr (hp ▸ rfl))
    exact .inl hp
  iintro %_ HI
  have htr : Scf.trips k0_t1_loop.lb k0_t1_loop.ub k0_t1_loop.st = 12 := by decide
  rw [htr]
  unfold invV
  icases HI with ⟨-, Hi, Hc, HflA0, HflA1, HtAr, HkAr, HtB, HkB, ⟨%fB0', HB0⟩, ⟨%fB1', HB1⟩, ⟨%fRB', HRB⟩, SgB0, SgB1, S2, S3, S4, S5, S6, S7, Hout, %W', %hW', HO⟩
  sl_exec
  -- the last chunk's two gathers waited for
  iapply (Transfers.wp_waitLocalO countersEmb 𝒱₀ (V d (cV L) (jV L)) none (default : HIx 8) (rfl : (aL).view.dmaCredit = _)) $$ [HflA0 HO]
  · isplitl [HflA0]; · iexact HflA0
    isplitl [HO]; · iexact HO
    iapply (Transfers.MayWaits.elim (SemLoc.dma (gA0).sem)) $$ Hmw
  iintro ⟨HDA0, SgA0, HO⟩
  ihave HDA0' := (Entails.of_eq (DA0v_def (F := F) d L ids cids idt cat _)) $$ HDA0
  icases HDA0' with ⟨⟨%fL, %hfL, HaL⟩, HtAs, ⟨%foA0, HA0s⟩⟩
  sl_exec
  iapply (Transfers.wp_waitLocalO countersEmb 𝒱₀ (V d (cV L) (jV L)) none (default : HIx 8) (rfl : (aR).view.dmaCredit = _)) $$ [HflA1 HO]
  · isplitl [HflA1]; · iexact HflA1
    isplitl [HO]; · iexact HO
    iapply (Transfers.MayWaits.elim (SemLoc.dma (gA1).sem)) $$ Hmw
  iintro ⟨HDA1, SgA1, HO⟩
  ihave HDA1' := (Entails.of_eq (DA1v_def (F := F) d L ids cids idt cat _)) $$ HDA1
  icases HDA1' with ⟨⟨%fR, %hfR, HaR⟩, HkAs, ⟨%foA1, HA1s⟩⟩
  ihave HaLg := (Entails.of_eq (pointsTo_congr (congr_aL ids cids idt cat L (2 * 12) (k0_off6 L) (k0_off6_inb L) (off6_row L).1 (off6_row L).2 fL hfL))) $$ HaL
  ihave HaRg := (Entails.of_eq (pointsTo_congr (congr_aR ids cids idt cat L (2 * 12) (k0_off6 L) (k0_off6_inb L) (off6_row L).1 (off6_row L).2 fR hfR))) $$ HaR
  ihave HaR2 := (Entails.of_eq (pts_aR (F := F) d (cV L) (jV L) _).symm) $$ HaRg
  ihave HRA := (pointsTo_split_subset (ℓ := (rowA).view.loc (V d (cV L) (jV L))) (q := fullShare) (S := Finset.univ) (Finset.subset_univ (aL).view.set)).2 $$ [HaLg HaR2]
  · isplitl [HaLg] <;> iassumption
  ihave HA0 := (Entails.of_eq (ptsS_ixA0 (F := F) d (cV L) (jV L) _).symm) $$ HA0s
  ihave HA1 := (Entails.of_eq (ptsS_ixA1 (F := F) d (cV L) (jV L) _).symm) $$ HA1s
  ihave Hout2 := (Transfers.bigSep_univ_out kZ _) $$ Hout
  icases Hout2 with ⟨HΦZ, Hrest⟩
  ihave HΦZ' := (Entails.of_eq (Φ_ahead d L ids cids idt cat 12 kZ (show ¬ 24 < 2 * 12 by omega))) $$ HΦZ
  icases HΦZ' with ⟨%fo1, Hblk⟩
  ihave Hblk' := (Entails.of_eq (pts_oSlZ (F := F) d (cV L) (jV L) L _).symm) $$ Hblk
  -- copied out: the last block is written with the gathered array
  sl_exec
  sl_step
  ihave Hblk2 := (Entails.of_eq (pointsTo_congr (val_outA' d (cV L) (jV L) ids cids idt cat (k0_off6 L) (k0_off6_inb L) fo1 _ rfl))) $$ Hblk'
  ihave HblkZ := (Entails.of_eq (pts_oSlZ (F := F) d (cV L) (jV L) L _)) $$ Hblk2
  ihave Hrest' := (Entails.of_eq (Φ_final d L ids cids idt cat)) $$ Hrest
  ihave Hout := (Transfers.bigSep_univ_in kZ (fun k : Fin 25 => iprop(outLoc d ↦[oBlkSet (blk (wL L) k)]{fullShare} gath ids cids idt cat))) $$ [HblkZ Hrest']
  · isplitl [HblkZ] <;> iassumption
  -- the tables' shares whole again
  ihave HtA := (pointsTo_split_subset (ℓ := (idtM).view.loc (V d (cV L) (jV L))) (q := (rsh (wL L)).left) (f := idt) (S := Finset.univ) (Finset.subset_univ (idtAll).view.set)).2 $$ [HtAs HtAr]
  · isplitl [HtAs] <;> iassumption
  ihave HkA := (pointsTo_split_subset (ℓ := (catM).view.loc (V d (cV L) (jV L))) (q := (rsh (wL L)).left) (f := cat) (S := Finset.univ) (Finset.subset_univ (catAll).view.set)).2 $$ [HkAs HkAr]
  · isplitl [HkAs] <;> iassumption
  ihave Ht := (pointsTo_share (PosShare.mem_left_op_right (rsh (wL L)))).2 $$ [HtA HtB]
  · isplitl [HtA] <;> iassumption
  ihave Hk := (pointsTo_share (PosShare.mem_left_op_right (rsh (wL L)))).2 $$ [HkA HkB]
  · isplitl [HkA] <;> iassumption
  isplitl [Hi Hc Ht Hk Hout]
  · isplitl [Hi]; · iapply (Entails.of_eq (pts_ids (F := F) d (cV L) (jV L) _ _)); iexact Hi
    isplitl [Hc]; · iapply (Entails.of_eq (pts_cids (F := F) d (cV L) (jV L) _ _)); iexact Hc
    isplitl [Ht]; · iapply (Entails.of_eq (pts_idt (F := F) d (cV L) (jV L) _ _)); iexact Ht
    isplitl [Hk]; · iapply (Entails.of_eq (pts_cat (F := F) d (cV L) (jV L) _ _)); iexact Hk
    iexact Hout
  isplitl [HA0 HA1 HB0 HB1 HRA HRB Hbufs]
  · isplitl [HA0 HA1 HB0 HB1 HRA HRB]
    · isplitl [HA0]; · iexists _; iexact HA0
      isplitl [HA1]; · iexists _; iexact HA1
      isplitl [HB0]; · iexists _; iexact HB0
      isplitl [HB1]; · iexists _; iexact HB1
      isplitl [HRA]; · iexists _; iexact HRA
      iexists _; iexact HRB
    · iexact Hbufs
  isplitl [SgA0 SgA1 SgB0 SgB1 S0 S1 S2 S3 S4 S5 S6 S7 S8 Hsems]
  · isplitl [SgA0 SgA1 SgB0 SgB1 S0 S1 S2 S3 S4 S5 S6 S7 S8]
    · isplitl [SgA0]; · iexact SgA0
      isplitl [SgA1]; · iexact SgA1
      isplitl [SgB0]; · iexact SgB0
      isplitl [SgB1]; · iexact SgB1
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact Hsems
  iexists _; isplitr
  swap; · iexact HO
  ipureintro; intro p hp
  simp only [Finset.mem_insert] at hp
  repeat (rcases hp with hp | hp; · exact .inr (hp ▸ rfl))
  exact hW' p hp

end Cert.Kernel.Sc.B7

end
-- ==== Proof.ScRunB.lean ====
/-
  The run of the whole program: the eight gather tasks' bodies, each on its call's arrays with its index rows in
  range (every entry of a call's index row is an entry of the index argument), discharge the task obligations; the
  TensorCore tail's final values do not depend on the recorded pairs it is run under.
-/
import proofs.«204770_g8065948582451_cont_9to1c4b_476_56_alg».proof.Proof.ScFinalB
import proofs.«204770_g8065948582451_cont_9to1c4b_476_56_alg».proof.Proof.TcTailIndepB
import proofs.«204770_g8065948582451_cont_9to1c4b_476_56_alg».proof.Proof.ScValsB
import proofs.«204770_g8065948582451_cont_9to1c4b_476_56_alg».proof.Proof.AsmFrameB
import proofs.«204770_g8065948582451_cont_9to1c4b_476_56_alg».proof.Proof.ScBody0VB
import proofs.«204770_g8065948582451_cont_9to1c4b_476_56_alg».proof.Proof.ScBody1VB
import proofs.«204770_g8065948582451_cont_9to1c4b_476_56_alg».proof.Proof.ScBody2VB
import proofs.«204770_g8065948582451_cont_9to1c4b_476_56_alg».proof.Proof.ScBody3VB
import proofs.«204770_g8065948582451_cont_9to1c4b_476_56_alg».proof.Proof.ScBody4VB
import proofs.«204770_g8065948582451_cont_9to1c4b_476_56_alg».proof.Proof.ScBody5VB
import proofs.«204770_g8065948582451_cont_9to1c4b_476_56_alg».proof.Proof.ScBody6VB
import proofs.«204770_g8065948582451_cont_9to1c4b_476_56_alg».proof.Proof.ScBody7VB

noncomputable section

namespace Cert.Kernel.Sc

open Cert.Kernel Cert.Kernel.Gen

open Idealize.ShloMosaic Idealize.ShloMosaic.Pipeline
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs)

variable {F : FTy → Type} [FloatOps F]

local notation "𝕄" => MT nD τ sig (HIx 8) (Elt F) ℕ UU ℕ

variable (m : (ℓ : Loc nD τ sig) → Buf (Elt F) ℓ) (ρ : Dev nD → PrngReg)

set_option maxHeartbeats 4000000 in
/-- Every weakly fair execution of the program's threads ends, and every unscoped TensorCore buffer then holds the
    final valuation: the index arguments in range. -/
theorem run_main [∀ e, Nonempty (Elt F e)]
    (hids : ∀ (d : Dev nD) (i : S4096x200.Idx), ((m ((T d : Thread nD τ).loc main_arg0) : Vec F S4096x200 .i32) i).toNat < 100000)
    (hcids : ∀ (d : Dev nD) (i : S4096x200.Idx), ((m ((T d : Thread nD τ).loc main_arg1) : Vec F S4096x200 .i32) i).toNat < 1000) :
    θ_run (Cert.Kernel.defs (F := F)) (Cert.Kernel.threads (F := F)) ⟨m, fun _ => 0, ρ⟩
      (fun r => ∀ d : Dev nD, ∀ b ∈ ucRefs τ sig, r.2.mem (d, b) = Vfin m d b) :=
  run_of_bodies m ρ (fun W d => TcTail.Vout_indep (Vin7 m) none W ∅ d)
    (fun d L O W hO => by
      unfold tileIn0 tileOut0
      exact tile_body0v facts d L (ids0 m d) (cids0 m d) (idt m d) (cat m d) (ids0_lt m d (hids d)) (cids0_lt m d (hcids d)) O W hO)
    (fun d L O W hO => by
      unfold tileIn1 tileOut1
      exact B1.tile_body1v facts d L (ids1 m d) (cids1 m d) (idt m d) (cat m d) (ids1_lt m d (hids d)) (cids1_lt m d (hcids d)) O W hO)
    (fun d L O W hO => by
      unfold tileIn2 tileOut2
      exact B2.tile_body2v facts d L (ids2 m d) (cids2 m d) (idt m d) (cat m d) (ids2_lt m d (hids d)) (cids2_lt m d (hcids d)) O W hO)
    (fun d L O W hO => by
      unfold tileIn3 tileOut3
      exact B3.tile_body3v facts d L (ids3 m d) (cids3 m d) (idt m d) (cat m d) (ids3_lt m d (hids d)) (cids3_lt m d (hcids d)) O W hO)
    (fun d L O W hO => by
      unfold tileIn4 tileOut4
      exact B4.tile_body4v facts d L (ids4 m d) (cids4 m d) (idt m d) (cat m d) (ids4_lt m d (hids d)) (cids4_lt m d (hcids d)) O W hO)
    (fun d L O W hO => by
      unfold tileIn5 tileOut5
      exact B5.tile_body5v facts d L (ids5 m d) (cids5 m d) (idt m d) (cat m d) (ids5_lt m d (hids d)) (cids5_lt m d (hcids d)) O W hO)
    (fun d L O W hO => by
      unfold tileIn6 tileOut6
      exact B6.tile_body6v facts d L (ids6 m d) (cids6 m d) (idt m d) (cat m d) (ids6_lt m d (hids d)) (cids6_lt m d (hcids d)) O W hO)
    (fun d L O W hO => by
      unfold tileIn7 tileOut7
      exact B7.tile_body7v facts d L (ids7 m d) (cids7 m d) (idt m d) (cat m d) (ids7_lt m d (hids d)) (cids7_lt m d (hcids d)) O W hO)

/-- The run in the form the claims' assembly takes. -/
theorem runTo [∀ e, Nonempty (Elt F e)] : Cert.Kernel.Asm.RunTo (F := F) (fun m d => Vfin m d) :=
  fun m ρ hids hcids => run_main m ρ hids hcids

end Cert.Kernel.Sc

end
-- ==== Proof.lean ====
/-
  The proof of `Cert.Claim`. The kernel looks up, for each of the 4096 x 200 tokens, a row of the id table and a row
  of the category table (eight gather calls on the vector subcores, 102400 tokens each, every subcore gathering 25
  blocks of 128 tokens through two row buffers), concatenates them to 256 features, and on the TensorCore (eight
  regions of 25 blocks of 4096 tokens) applies the 256 x 512 linear layer with its bias and normalises each token's
  512 outputs: (x - mean) · (variance + ε)^(-1/2) · γ + β. The reference is the same function spelt with a quotient
  by the root. The two frames of the kernel are the run of the whole family of threads (the launch of the gather
  calls, @main as the calls then the tail of regions) with the final buffers named; the reference's frame is its run;
  the idealization rewrote nothing; and the two results agree entry by entry because the gathered arrays are the
  tokens' features, each region's block is the layer normalisation of its rows, and for finite inputs the variance
  plus ε is a positive real, where the two spellings of the normalisation are one function.
-/
import proofs.«204770_g8065948582451_cont_9to1c4b_476_56_alg».proof.Defs
import proofs.«204770_g8065948582451_cont_9to1c4b_476_56_alg».proof.Proof.Gen.Kernel
import proofs.«204770_g8065948582451_cont_9to1c4b_476_56_alg».proof.Proof.Gen.KernelIdeal
import proofs.«204770_g8065948582451_cont_9to1c4b_476_56_alg».proof.Proof.Gen.ReferenceIdeal
import proofs.«204770_g8065948582451_cont_9to1c4b_476_56_alg».proof.Proof.Gen.Pre_input_domain
import proofs.«204770_g8065948582451_cont_9to1c4b_476_56_alg».proof.Proof.AsmRef
import proofs.«204770_g8065948582451_cont_9to1c4b_476_56_alg».proof.Proof.AsmPlugI
import proofs.«204770_g8065948582451_cont_9to1c4b_476_56_alg».proof.Proof.AsmArgsB
import proofs.«204770_g8065948582451_cont_9to1c4b_476_56_alg».proof.Proof.ScRunI
import proofs.«204770_g8065948582451_cont_9to1c4b_476_56_alg».proof.Proof.ScRunB
import Idealize.ShloMosaic.Adequacy
import Idealize.ShloMosaic.Init

noncomputable section

namespace Cert.Proof

open Idealize.ShloMosaic Idealize.SL.Sem

theorem claim : Cert.Claim := by
  refine ⟨Cert.Kernel.Gen.facts, Cert.KernelIdeal.Gen.facts, Cert.ReferenceIdeal.Gen.facts, Cert.Pre_input_domain.Gen.facts, ?_, ?_, ?_, ?_, ?_⟩
  · exact Cert.Kernel.Asm.frame_kernel (fun m d => Cert.Kernel.Sc.Vfin m d) Cert.Kernel.Sc.runTo Cert.Kernel.Asm.vfin_args
  · exact Cert.Proof.Asm.frame_ki_of Cert.KernelIdeal.Sc.runTo
  · exact Cert.Proof.Asm.frame_ri
  · exact Cert.Proof.Asm.preserves
  · exact Cert.Proof.Asm.algebraic_of Cert.KernelIdeal.Sc.runTo

end Cert.Proof

end
